-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2467)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2467) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2470) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16x2048 : Shape := ⟨3, ![1024, 16, 2048]⟩
abbrev S1024x120 : Shape := ⟨2, ![1024, 120]⟩
abbrev S1024x16 : Shape := ⟨2, ![1024, 16]⟩
abbrev S_ : Shape := ⟨0, ![]⟩

class Facts : Prop where
  bcast_S_S1024x16x2048 : S_.BroadcastsInDim S1024x16x2048 (![] : Fin 0 → Fin S1024x16x2048.rank)
  reducesTo_S1024x16x2048_S_d0_1_2 : S1024x16x2048.ReducesTo [0, 1, 2] S_
  h_S_ : 0 < S_.numel
  bcast_S_S1024x120 : S_.BroadcastsInDim S1024x120 (![] : Fin 0 → Fin S1024x120.rank)
  reducesTo_S1024x120_S_d0_1 : S1024x120.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S1024x16x2048 .f32) (main_arg1 : FVec F S1024x120 .f32) (main_arg2 : FVec F S1024x16 .f32) : IVec S_ 1 :=
  let main_v0 : FVec F S1024x16x2048 .f32 := Host.absf main_arg0
  let main_cst : FVec F S_ .f32 := constant S_ .f32 0x7F800000#32
  let main_v1 : FVec F S1024x16x2048 .f32 := broadcastInDim S1024x16x2048 ![] bcast_S_S1024x16x2048 main_cst
  let main_v2 : IVec S1024x16x2048 1 := cmpf .olt main_v0 main_v1
  let main_c : IVec S_ 1 := constantI S_ 1 1#1
  let main_v3 : IVec S_ 1 := (fun x v => Host.reduce IntOp.andi x v reducesTo_S1024x16x2048_S_d0_1_2 h_S_) main_v2 main_c
  let main_v4 : FVec F S1024x120 .f32 := Host.absf main_arg1
  let main_cst_0 : FVec F S_ .f32 := constant S_ .f32 0x7F800000#32
  let main_v5 : FVec F S1024x120 .f32 := broadcastInDim S1024x120 ![] bcast_S_S1024x120 main_cst_0
  let main_v6 : IVec S1024x120 1 := cmpf .olt main_v4 main_v5
  let main_c_1 : IVec S_ 1 := constantI S_ 1 1#1
  let main_v7 : IVec S_ 1 := (fun x v => Host.reduce IntOp.andi x v reducesTo_S1024x120_S_d0_1 h_S_) main_v6 main_c_1
  let main_v8 : IVec S_ 1 := andi main_v3 main_v7
  let main_v9 : FVec F S1024x16 .f32 := Host.absf main_arg2
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  main_v13
-- ==== Kernel.lean ====
abbrev S1024x16x2048 : Shape := ⟨3, ![1024, 16, 2048]⟩
abbrev S1024x120 : Shape := ⟨2, ![1024, 120]⟩
abbrev S1024x16 : Shape := ⟨2, ![1024, 16]⟩
abbrev S16x16 : Shape := ⟨2, ![16, 16]⟩
abbrev S_ : Shape := ⟨0, ![]⟩
abbrev S1024x16x16 : Shape := ⟨3, ![1024, 16, 16]⟩
abbrev S1024x1x16 : Shape := ⟨3, ![1024, 1, 16]⟩
abbrev S1024x1 : Shape := ⟨2, ![1024, 1]⟩
abbrev S1024 : Shape := ⟨1, ![1024]⟩
abbrev S1 : Shape := ⟨1, ![1]⟩
abbrev S64x16x16 : Shape := ⟨3, ![64, 16, 16]⟩
abbrev S64x16 : Shape := ⟨2, ![64, 16]⟩
abbrev S64x16x2048 : Shape := ⟨3, ![64, 16, 2048]⟩
abbrev S64x16x1 : Shape := ⟨3, ![64, 16, 1]⟩

abbrev nBuf : Space → Nat
  | .hbm => 2607
  | .vmem => 8
  | .smem => 0
  | _ => 0

abbrev hbmTy0_0 (i : Nat) : BufTy := match i % 128 with
  | 0 => ⟨S1024x16x2048, .f32⟩
  | 1 => ⟨S1024x120, .f32⟩
  | 2 => ⟨S1024x16, .f32⟩
  | 3 => ⟨S16x16, .i32⟩
  | 4 => ⟨S16x16, .i32⟩
  | 5 => ⟨S_, .i32⟩
  | 6 => ⟨S16x16, .i32⟩
  | 7 => ⟨S16x16, .i32⟩
  | 8 => ⟨S16x16, .i1⟩
  | 9 => ⟨S16x16, .f32⟩
  | 10 => ⟨S1024x16x16, .f32⟩
  | 11 => ⟨S1024x1x16, .f32⟩
  | 12 => ⟨S1024x16, .f32⟩
  | 13 => ⟨S1024x1, .f32⟩
  | 14 => ⟨S1024, .f32⟩
  | 15 => ⟨S1024, .f32⟩
  | 16 => ⟨S1024x1, .f32⟩
  | 17 => ⟨S1024, .f32⟩
  | 18 => ⟨S1024x1, .f32⟩
  | 19 => ⟨S1024x1x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S_, .i32⟩
  | 32 => ⟨S1, .i32⟩
  | 33 => ⟨S1024x16x16, .f32⟩
  | 34 => ⟨S1024x1, .f32⟩
  | 35 => ⟨S1024, .f32⟩
  | 36 => ⟨S1024, .f32⟩
  | 37 => ⟨S1024x1, .f32⟩
  | 38 => ⟨S1024, .f32⟩
  | 39 => ⟨S1024x1, .f32⟩
  | 40 => ⟨S1024x1x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S_, .i32⟩
  | 53 => ⟨S1, .i32⟩
  | 54 => ⟨S1024x16x16, .f32⟩
  | 55 => ⟨S1024x1, .f32⟩
  | 56 => ⟨S1024, .f32⟩
  | 57 => ⟨S1024, .f32⟩
  | 58 => ⟨S1024x1, .f32⟩
  | 59 => ⟨S1024, .f32⟩
  | 60 => ⟨S1024x1, .f32⟩
  | 61 => ⟨S1024x1x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S_, .i32⟩
  | 74 => ⟨S1, .i32⟩
  | 75 => ⟨S1024x16x16, .f32⟩
  | 76 => ⟨S1024x1, .f32⟩
  | 77 => ⟨S1024, .f32⟩
  | 78 => ⟨S1024, .f32⟩
  | 79 => ⟨S1024x1, .f32⟩
  | 80 => ⟨S1024, .f32⟩
  | 81 => ⟨S1024x1, .f32⟩
  | 82 => ⟨S1024x1x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S_, .i32⟩
  | 95 => ⟨S1, .i32⟩
  | 96 => ⟨S1024x16x16, .f32⟩
  | 97 => ⟨S1024x1, .f32⟩
  | 98 => ⟨S1024, .f32⟩
  | 99 => ⟨S1024, .f32⟩
  | 100 => ⟨S1024x1, .f32⟩
  | 101 => ⟨S1024, .f32⟩
  | 102 => ⟨S1024x1, .f32⟩
  | 103 => ⟨S1024x1x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S_, .i32⟩
  | 116 => ⟨S1, .i32⟩
  | 117 => ⟨S1024x16x16, .f32⟩
  | 118 => ⟨S1024x1, .f32⟩
  | 119 => ⟨S1024, .f32⟩
  | 120 => ⟨S1024, .f32⟩
  | 121 => ⟨S1024x1, .f32⟩
  | 122 => ⟨S1024, .f32⟩
  | 123 => ⟨S1024x1, .f32⟩
  | 124 => ⟨S1024x1x16, .f32⟩
  | 125 => ⟨S1024x16, .f32⟩
  | 126 => ⟨S1024x16, .f32⟩
  | 127 => ⟨S1024x16, .f32⟩
  | _ => ⟨S1024x16x2048, .f32⟩

abbrev hbmTy0_1 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S_, .i32⟩
  | 9 => ⟨S1, .i32⟩
  | 10 => ⟨S1024x16x16, .f32⟩
  | 11 => ⟨S1024x1, .f32⟩
  | 12 => ⟨S1024, .f32⟩
  | 13 => ⟨S1024, .f32⟩
  | 14 => ⟨S1024x1, .f32⟩
  | 15 => ⟨S1024, .f32⟩
  | 16 => ⟨S1024x1, .f32⟩
  | 17 => ⟨S1024x1x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S_, .i32⟩
  | 30 => ⟨S1, .i32⟩
  | 31 => ⟨S1024x16x16, .f32⟩
  | 32 => ⟨S1024x1, .f32⟩
  | 33 => ⟨S1024, .f32⟩
  | 34 => ⟨S1024, .f32⟩
  | 35 => ⟨S1024x1, .f32⟩
  | 36 => ⟨S1024, .f32⟩
  | 37 => ⟨S1024x1, .f32⟩
  | 38 => ⟨S1024x1x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S_, .i32⟩
  | 51 => ⟨S1, .i32⟩
  | 52 => ⟨S1024x16x16, .f32⟩
  | 53 => ⟨S1024x1, .f32⟩
  | 54 => ⟨S1024, .f32⟩
  | 55 => ⟨S1024, .f32⟩
  | 56 => ⟨S1024x1, .f32⟩
  | 57 => ⟨S1024, .f32⟩
  | 58 => ⟨S1024x1, .f32⟩
  | 59 => ⟨S1024x1x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S_, .i32⟩
  | 72 => ⟨S1, .i32⟩
  | 73 => ⟨S1024x16x16, .f32⟩
  | 74 => ⟨S1024x1, .f32⟩
  | 75 => ⟨S1024, .f32⟩
  | 76 => ⟨S1024, .f32⟩
  | 77 => ⟨S1024x1, .f32⟩
  | 78 => ⟨S1024, .f32⟩
  | 79 => ⟨S1024x1, .f32⟩
  | 80 => ⟨S1024x1x16, .f32⟩
  | 81 => ⟨S1024x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S_, .i32⟩
  | 93 => ⟨S1, .i32⟩
  | 94 => ⟨S1024x16x16, .f32⟩
  | 95 => ⟨S1024x1, .f32⟩
  | 96 => ⟨S1024, .f32⟩
  | 97 => ⟨S1024, .f32⟩
  | 98 => ⟨S1024x1, .f32⟩
  | 99 => ⟨S1024, .f32⟩
  | 100 => ⟨S1024x1, .f32⟩
  | 101 => ⟨S1024x1x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S_, .i32⟩
  | 114 => ⟨S1, .i32⟩
  | 115 => ⟨S1024x16x16, .f32⟩
  | 116 => ⟨S1024x1, .f32⟩
  | 117 => ⟨S1024, .f32⟩
  | 118 => ⟨S1024, .f32⟩
  | 119 => ⟨S1024x1, .f32⟩
  | 120 => ⟨S1024, .f32⟩
  | 121 => ⟨S1024x1, .f32⟩
  | 122 => ⟨S1024x1x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_2 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S_, .i32⟩
  | 7 => ⟨S1, .i32⟩
  | 8 => ⟨S1024x16x16, .f32⟩
  | 9 => ⟨S1024x1, .f32⟩
  | 10 => ⟨S1024, .f32⟩
  | 11 => ⟨S1024, .f32⟩
  | 12 => ⟨S1024x1, .f32⟩
  | 13 => ⟨S1024, .f32⟩
  | 14 => ⟨S1024x1, .f32⟩
  | 15 => ⟨S1024x1x16, .f32⟩
  | 16 => ⟨S1024x16, .f32⟩
  | 17 => ⟨S1024x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S_, .i32⟩
  | 28 => ⟨S1, .i32⟩
  | 29 => ⟨S1024x16x16, .f32⟩
  | 30 => ⟨S1024x1, .f32⟩
  | 31 => ⟨S1024, .f32⟩
  | 32 => ⟨S1024, .f32⟩
  | 33 => ⟨S1024x1, .f32⟩
  | 34 => ⟨S1024, .f32⟩
  | 35 => ⟨S1024x1, .f32⟩
  | 36 => ⟨S1024x1x16, .f32⟩
  | 37 => ⟨S1024x16, .f32⟩
  | 38 => ⟨S1024x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S_, .i32⟩
  | 49 => ⟨S1, .i32⟩
  | 50 => ⟨S1024x16x16, .f32⟩
  | 51 => ⟨S1024x1, .f32⟩
  | 52 => ⟨S1024, .f32⟩
  | 53 => ⟨S1024, .f32⟩
  | 54 => ⟨S1024x1, .f32⟩
  | 55 => ⟨S1024, .f32⟩
  | 56 => ⟨S1024x1, .f32⟩
  | 57 => ⟨S1024x1x16, .f32⟩
  | 58 => ⟨S1024x16, .f32⟩
  | 59 => ⟨S1024x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S_, .i32⟩
  | 70 => ⟨S1, .i32⟩
  | 71 => ⟨S1024x16x16, .f32⟩
  | 72 => ⟨S_, .i32⟩
  | 73 => ⟨S1, .i32⟩
  | 74 => ⟨S1024x16x16, .f32⟩
  | 75 => ⟨S1024x1x16, .f32⟩
  | 76 => ⟨S1024x16, .f32⟩
  | 77 => ⟨S1024x1, .f32⟩
  | 78 => ⟨S1024, .f32⟩
  | 79 => ⟨S1024, .f32⟩
  | 80 => ⟨S1024x1, .f32⟩
  | 81 => ⟨S1024, .f32⟩
  | 82 => ⟨S1024x1, .f32⟩
  | 83 => ⟨S1024x1x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S_, .i32⟩
  | 96 => ⟨S1, .i32⟩
  | 97 => ⟨S1024x16x16, .f32⟩
  | 98 => ⟨S1024x1, .f32⟩
  | 99 => ⟨S1024, .f32⟩
  | 100 => ⟨S1024, .f32⟩
  | 101 => ⟨S1024x1, .f32⟩
  | 102 => ⟨S1024, .f32⟩
  | 103 => ⟨S1024x1, .f32⟩
  | 104 => ⟨S1024x1x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S_, .i32⟩
  | 117 => ⟨S1, .i32⟩
  | 118 => ⟨S1024x16x16, .f32⟩
  | 119 => ⟨S1024x1, .f32⟩
  | 120 => ⟨S1024, .f32⟩
  | 121 => ⟨S1024, .f32⟩
  | 122 => ⟨S1024x1, .f32⟩
  | 123 => ⟨S1024, .f32⟩
  | 124 => ⟨S1024x1, .f32⟩
  | 125 => ⟨S1024x1x16, .f32⟩
  | 126 => ⟨S1024x16, .f32⟩
  | 127 => ⟨S1024x16, .f32⟩
  | _ => ⟨S1024x16x2048, .f32⟩

abbrev hbmTy0_3 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S_, .i32⟩
  | 10 => ⟨S1, .i32⟩
  | 11 => ⟨S1024x16x16, .f32⟩
  | 12 => ⟨S1024x1, .f32⟩
  | 13 => ⟨S1024, .f32⟩
  | 14 => ⟨S1024, .f32⟩
  | 15 => ⟨S1024x1, .f32⟩
  | 16 => ⟨S1024, .f32⟩
  | 17 => ⟨S1024x1, .f32⟩
  | 18 => ⟨S1024x1x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S_, .i32⟩
  | 31 => ⟨S1, .i32⟩
  | 32 => ⟨S1024x16x16, .f32⟩
  | 33 => ⟨S1024x1, .f32⟩
  | 34 => ⟨S1024, .f32⟩
  | 35 => ⟨S1024, .f32⟩
  | 36 => ⟨S1024x1, .f32⟩
  | 37 => ⟨S1024, .f32⟩
  | 38 => ⟨S1024x1, .f32⟩
  | 39 => ⟨S1024x1x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S_, .i32⟩
  | 52 => ⟨S1, .i32⟩
  | 53 => ⟨S1024x16x16, .f32⟩
  | 54 => ⟨S1024x1, .f32⟩
  | 55 => ⟨S1024, .f32⟩
  | 56 => ⟨S1024, .f32⟩
  | 57 => ⟨S1024x1, .f32⟩
  | 58 => ⟨S1024, .f32⟩
  | 59 => ⟨S1024x1, .f32⟩
  | 60 => ⟨S1024x1x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S_, .i32⟩
  | 73 => ⟨S1, .i32⟩
  | 74 => ⟨S1024x16x16, .f32⟩
  | 75 => ⟨S1024x1, .f32⟩
  | 76 => ⟨S1024, .f32⟩
  | 77 => ⟨S1024, .f32⟩
  | 78 => ⟨S1024x1, .f32⟩
  | 79 => ⟨S1024, .f32⟩
  | 80 => ⟨S1024x1, .f32⟩
  | 81 => ⟨S1024x1x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S_, .i32⟩
  | 94 => ⟨S1, .i32⟩
  | 95 => ⟨S1024x16x16, .f32⟩
  | 96 => ⟨S1024x1, .f32⟩
  | 97 => ⟨S1024, .f32⟩
  | 98 => ⟨S1024, .f32⟩
  | 99 => ⟨S1024x1, .f32⟩
  | 100 => ⟨S1024, .f32⟩
  | 101 => ⟨S1024x1, .f32⟩
  | 102 => ⟨S1024x1x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S_, .i32⟩
  | 115 => ⟨S1, .i32⟩
  | 116 => ⟨S1024x16x16, .f32⟩
  | 117 => ⟨S1024x1, .f32⟩
  | 118 => ⟨S1024, .f32⟩
  | 119 => ⟨S1024, .f32⟩
  | 120 => ⟨S1024x1, .f32⟩
  | 121 => ⟨S1024, .f32⟩
  | 122 => ⟨S1024x1, .f32⟩
  | 123 => ⟨S1024x1x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_4 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S_, .i32⟩
  | 8 => ⟨S1, .i32⟩
  | 9 => ⟨S1024x16x16, .f32⟩
  | 10 => ⟨S1024x1, .f32⟩
  | 11 => ⟨S1024, .f32⟩
  | 12 => ⟨S1024, .f32⟩
  | 13 => ⟨S1024x1, .f32⟩
  | 14 => ⟨S1024, .f32⟩
  | 15 => ⟨S1024x1, .f32⟩
  | 16 => ⟨S1024x1x16, .f32⟩
  | 17 => ⟨S1024x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S_, .i32⟩
  | 29 => ⟨S1, .i32⟩
  | 30 => ⟨S1024x16x16, .f32⟩
  | 31 => ⟨S1024x1, .f32⟩
  | 32 => ⟨S1024, .f32⟩
  | 33 => ⟨S1024, .f32⟩
  | 34 => ⟨S1024x1, .f32⟩
  | 35 => ⟨S1024, .f32⟩
  | 36 => ⟨S1024x1, .f32⟩
  | 37 => ⟨S1024x1x16, .f32⟩
  | 38 => ⟨S1024x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S_, .i32⟩
  | 50 => ⟨S1, .i32⟩
  | 51 => ⟨S1024x16x16, .f32⟩
  | 52 => ⟨S1024x1, .f32⟩
  | 53 => ⟨S1024, .f32⟩
  | 54 => ⟨S1024, .f32⟩
  | 55 => ⟨S1024x1, .f32⟩
  | 56 => ⟨S1024, .f32⟩
  | 57 => ⟨S1024x1, .f32⟩
  | 58 => ⟨S1024x1x16, .f32⟩
  | 59 => ⟨S1024x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S_, .i32⟩
  | 71 => ⟨S1, .i32⟩
  | 72 => ⟨S1024x16x16, .f32⟩
  | 73 => ⟨S1024x1, .f32⟩
  | 74 => ⟨S1024, .f32⟩
  | 75 => ⟨S1024, .f32⟩
  | 76 => ⟨S1024x1, .f32⟩
  | 77 => ⟨S1024, .f32⟩
  | 78 => ⟨S1024x1, .f32⟩
  | 79 => ⟨S1024x1x16, .f32⟩
  | 80 => ⟨S1024x16, .f32⟩
  | 81 => ⟨S1024x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S_, .i32⟩
  | 92 => ⟨S1, .i32⟩
  | 93 => ⟨S1024x16x16, .f32⟩
  | 94 => ⟨S1024x1, .f32⟩
  | 95 => ⟨S1024, .f32⟩
  | 96 => ⟨S1024, .f32⟩
  | 97 => ⟨S1024x1, .f32⟩
  | 98 => ⟨S1024, .f32⟩
  | 99 => ⟨S1024x1, .f32⟩
  | 100 => ⟨S1024x1x16, .f32⟩
  | 101 => ⟨S1024x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S_, .i32⟩
  | 113 => ⟨S1, .i32⟩
  | 114 => ⟨S1024x16x16, .f32⟩
  | 115 => ⟨S_, .i32⟩
  | 116 => ⟨S1, .i32⟩
  | 117 => ⟨S1024x16x16, .f32⟩
  | 118 => ⟨S1024x1x16, .f32⟩
  | 119 => ⟨S1024x16, .f32⟩
  | 120 => ⟨S1024x1, .f32⟩
  | 121 => ⟨S1024, .f32⟩
  | 122 => ⟨S1024, .f32⟩
  | 123 => ⟨S1024x1, .f32⟩
  | 124 => ⟨S1024, .f32⟩
  | 125 => ⟨S1024x1, .f32⟩
  | 126 => ⟨S1024x1x16, .f32⟩
  | 127 => ⟨S1024x16, .f32⟩
  | _ => ⟨S1024x16x2048, .f32⟩

abbrev hbmTy0_5 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S_, .i32⟩
  | 11 => ⟨S1, .i32⟩
  | 12 => ⟨S1024x16x16, .f32⟩
  | 13 => ⟨S1024x1, .f32⟩
  | 14 => ⟨S1024, .f32⟩
  | 15 => ⟨S1024, .f32⟩
  | 16 => ⟨S1024x1, .f32⟩
  | 17 => ⟨S1024, .f32⟩
  | 18 => ⟨S1024x1, .f32⟩
  | 19 => ⟨S1024x1x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S_, .i32⟩
  | 32 => ⟨S1, .i32⟩
  | 33 => ⟨S1024x16x16, .f32⟩
  | 34 => ⟨S1024x1, .f32⟩
  | 35 => ⟨S1024, .f32⟩
  | 36 => ⟨S1024, .f32⟩
  | 37 => ⟨S1024x1, .f32⟩
  | 38 => ⟨S1024, .f32⟩
  | 39 => ⟨S1024x1, .f32⟩
  | 40 => ⟨S1024x1x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S_, .i32⟩
  | 53 => ⟨S1, .i32⟩
  | 54 => ⟨S1024x16x16, .f32⟩
  | 55 => ⟨S1024x1, .f32⟩
  | 56 => ⟨S1024, .f32⟩
  | 57 => ⟨S1024, .f32⟩
  | 58 => ⟨S1024x1, .f32⟩
  | 59 => ⟨S1024, .f32⟩
  | 60 => ⟨S1024x1, .f32⟩
  | 61 => ⟨S1024x1x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S_, .i32⟩
  | 74 => ⟨S1, .i32⟩
  | 75 => ⟨S1024x16x16, .f32⟩
  | 76 => ⟨S1024x1, .f32⟩
  | 77 => ⟨S1024, .f32⟩
  | 78 => ⟨S1024, .f32⟩
  | 79 => ⟨S1024x1, .f32⟩
  | 80 => ⟨S1024, .f32⟩
  | 81 => ⟨S1024x1, .f32⟩
  | 82 => ⟨S1024x1x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S_, .i32⟩
  | 95 => ⟨S1, .i32⟩
  | 96 => ⟨S1024x16x16, .f32⟩
  | 97 => ⟨S1024x1, .f32⟩
  | 98 => ⟨S1024, .f32⟩
  | 99 => ⟨S1024, .f32⟩
  | 100 => ⟨S1024x1, .f32⟩
  | 101 => ⟨S1024, .f32⟩
  | 102 => ⟨S1024x1, .f32⟩
  | 103 => ⟨S1024x1x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S_, .i32⟩
  | 116 => ⟨S1, .i32⟩
  | 117 => ⟨S1024x16x16, .f32⟩
  | 118 => ⟨S1024x1, .f32⟩
  | 119 => ⟨S1024, .f32⟩
  | 120 => ⟨S1024, .f32⟩
  | 121 => ⟨S1024x1, .f32⟩
  | 122 => ⟨S1024, .f32⟩
  | 123 => ⟨S1024x1, .f32⟩
  | 124 => ⟨S1024x1x16, .f32⟩
  | 125 => ⟨S1024x16, .f32⟩
  | 126 => ⟨S1024x16, .f32⟩
  | 127 => ⟨S1024x16, .f32⟩
  | _ => ⟨S1024x16x2048, .f32⟩

abbrev hbmTy0_6 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S_, .i32⟩
  | 9 => ⟨S1, .i32⟩
  | 10 => ⟨S1024x16x16, .f32⟩
  | 11 => ⟨S1024x1, .f32⟩
  | 12 => ⟨S1024, .f32⟩
  | 13 => ⟨S1024, .f32⟩
  | 14 => ⟨S1024x1, .f32⟩
  | 15 => ⟨S1024, .f32⟩
  | 16 => ⟨S1024x1, .f32⟩
  | 17 => ⟨S1024x1x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S_, .i32⟩
  | 30 => ⟨S1, .i32⟩
  | 31 => ⟨S1024x16x16, .f32⟩
  | 32 => ⟨S1024x1, .f32⟩
  | 33 => ⟨S1024, .f32⟩
  | 34 => ⟨S1024, .f32⟩
  | 35 => ⟨S1024x1, .f32⟩
  | 36 => ⟨S1024, .f32⟩
  | 37 => ⟨S1024x1, .f32⟩
  | 38 => ⟨S1024x1x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S_, .i32⟩
  | 51 => ⟨S1, .i32⟩
  | 52 => ⟨S1024x16x16, .f32⟩
  | 53 => ⟨S1024x1, .f32⟩
  | 54 => ⟨S1024, .f32⟩
  | 55 => ⟨S1024, .f32⟩
  | 56 => ⟨S1024x1, .f32⟩
  | 57 => ⟨S1024, .f32⟩
  | 58 => ⟨S1024x1, .f32⟩
  | 59 => ⟨S1024x1x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S_, .i32⟩
  | 72 => ⟨S1, .i32⟩
  | 73 => ⟨S1024x16x16, .f32⟩
  | 74 => ⟨S1024x1, .f32⟩
  | 75 => ⟨S1024, .f32⟩
  | 76 => ⟨S1024, .f32⟩
  | 77 => ⟨S1024x1, .f32⟩
  | 78 => ⟨S1024, .f32⟩
  | 79 => ⟨S1024x1, .f32⟩
  | 80 => ⟨S1024x1x16, .f32⟩
  | 81 => ⟨S1024x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S_, .i32⟩
  | 93 => ⟨S1, .i32⟩
  | 94 => ⟨S1024x16x16, .f32⟩
  | 95 => ⟨S1024x1, .f32⟩
  | 96 => ⟨S1024, .f32⟩
  | 97 => ⟨S1024, .f32⟩
  | 98 => ⟨S1024x1, .f32⟩
  | 99 => ⟨S1024, .f32⟩
  | 100 => ⟨S1024x1, .f32⟩
  | 101 => ⟨S1024x1x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S_, .i32⟩
  | 114 => ⟨S1, .i32⟩
  | 115 => ⟨S1024x16x16, .f32⟩
  | 116 => ⟨S1024x1, .f32⟩
  | 117 => ⟨S1024, .f32⟩
  | 118 => ⟨S1024, .f32⟩
  | 119 => ⟨S1024x1, .f32⟩
  | 120 => ⟨S1024, .f32⟩
  | 121 => ⟨S1024x1, .f32⟩
  | 122 => ⟨S1024x1x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_7 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S_, .i32⟩
  | 7 => ⟨S1, .i32⟩
  | 8 => ⟨S1024x16x16, .f32⟩
  | 9 => ⟨S_, .i32⟩
  | 10 => ⟨S1, .i32⟩
  | 11 => ⟨S1024x16x16, .f32⟩
  | 12 => ⟨S1024x1x16, .f32⟩
  | 13 => ⟨S1024x16, .f32⟩
  | 14 => ⟨S1024x1, .f32⟩
  | 15 => ⟨S1024, .f32⟩
  | 16 => ⟨S1024, .f32⟩
  | 17 => ⟨S1024x1, .f32⟩
  | 18 => ⟨S1024, .f32⟩
  | 19 => ⟨S1024x1, .f32⟩
  | 20 => ⟨S1024x1x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S_, .i32⟩
  | 33 => ⟨S1, .i32⟩
  | 34 => ⟨S1024x16x16, .f32⟩
  | 35 => ⟨S1024x1, .f32⟩
  | 36 => ⟨S1024, .f32⟩
  | 37 => ⟨S1024, .f32⟩
  | 38 => ⟨S1024x1, .f32⟩
  | 39 => ⟨S1024, .f32⟩
  | 40 => ⟨S1024x1, .f32⟩
  | 41 => ⟨S1024x1x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S_, .i32⟩
  | 54 => ⟨S1, .i32⟩
  | 55 => ⟨S1024x16x16, .f32⟩
  | 56 => ⟨S1024x1, .f32⟩
  | 57 => ⟨S1024, .f32⟩
  | 58 => ⟨S1024, .f32⟩
  | 59 => ⟨S1024x1, .f32⟩
  | 60 => ⟨S1024, .f32⟩
  | 61 => ⟨S1024x1, .f32⟩
  | 62 => ⟨S1024x1x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S_, .i32⟩
  | 75 => ⟨S1, .i32⟩
  | 76 => ⟨S1024x16x16, .f32⟩
  | 77 => ⟨S1024x1, .f32⟩
  | 78 => ⟨S1024, .f32⟩
  | 79 => ⟨S1024, .f32⟩
  | 80 => ⟨S1024x1, .f32⟩
  | 81 => ⟨S1024, .f32⟩
  | 82 => ⟨S1024x1, .f32⟩
  | 83 => ⟨S1024x1x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S_, .i32⟩
  | 96 => ⟨S1, .i32⟩
  | 97 => ⟨S1024x16x16, .f32⟩
  | 98 => ⟨S1024x1, .f32⟩
  | 99 => ⟨S1024, .f32⟩
  | 100 => ⟨S1024, .f32⟩
  | 101 => ⟨S1024x1, .f32⟩
  | 102 => ⟨S1024, .f32⟩
  | 103 => ⟨S1024x1, .f32⟩
  | 104 => ⟨S1024x1x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S_, .i32⟩
  | 117 => ⟨S1, .i32⟩
  | 118 => ⟨S1024x16x16, .f32⟩
  | 119 => ⟨S1024x1, .f32⟩
  | 120 => ⟨S1024, .f32⟩
  | 121 => ⟨S1024, .f32⟩
  | 122 => ⟨S1024x1, .f32⟩
  | 123 => ⟨S1024, .f32⟩
  | 124 => ⟨S1024x1, .f32⟩
  | 125 => ⟨S1024x1x16, .f32⟩
  | 126 => ⟨S1024x16, .f32⟩
  | 127 => ⟨S1024x16, .f32⟩
  | _ => ⟨S1024x16x2048, .f32⟩

abbrev hbmTy0_8 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S_, .i32⟩
  | 10 => ⟨S1, .i32⟩
  | 11 => ⟨S1024x16x16, .f32⟩
  | 12 => ⟨S1024x1, .f32⟩
  | 13 => ⟨S1024, .f32⟩
  | 14 => ⟨S1024, .f32⟩
  | 15 => ⟨S1024x1, .f32⟩
  | 16 => ⟨S1024, .f32⟩
  | 17 => ⟨S1024x1, .f32⟩
  | 18 => ⟨S1024x1x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S_, .i32⟩
  | 31 => ⟨S1, .i32⟩
  | 32 => ⟨S1024x16x16, .f32⟩
  | 33 => ⟨S1024x1, .f32⟩
  | 34 => ⟨S1024, .f32⟩
  | 35 => ⟨S1024, .f32⟩
  | 36 => ⟨S1024x1, .f32⟩
  | 37 => ⟨S1024, .f32⟩
  | 38 => ⟨S1024x1, .f32⟩
  | 39 => ⟨S1024x1x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S_, .i32⟩
  | 52 => ⟨S1, .i32⟩
  | 53 => ⟨S1024x16x16, .f32⟩
  | 54 => ⟨S1024x1, .f32⟩
  | 55 => ⟨S1024, .f32⟩
  | 56 => ⟨S1024, .f32⟩
  | 57 => ⟨S1024x1, .f32⟩
  | 58 => ⟨S1024, .f32⟩
  | 59 => ⟨S1024x1, .f32⟩
  | 60 => ⟨S1024x1x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S_, .i32⟩
  | 73 => ⟨S1, .i32⟩
  | 74 => ⟨S1024x16x16, .f32⟩
  | 75 => ⟨S1024x1, .f32⟩
  | 76 => ⟨S1024, .f32⟩
  | 77 => ⟨S1024, .f32⟩
  | 78 => ⟨S1024x1, .f32⟩
  | 79 => ⟨S1024, .f32⟩
  | 80 => ⟨S1024x1, .f32⟩
  | 81 => ⟨S1024x1x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S_, .i32⟩
  | 94 => ⟨S1, .i32⟩
  | 95 => ⟨S1024x16x16, .f32⟩
  | 96 => ⟨S1024x1, .f32⟩
  | 97 => ⟨S1024, .f32⟩
  | 98 => ⟨S1024, .f32⟩
  | 99 => ⟨S1024x1, .f32⟩
  | 100 => ⟨S1024, .f32⟩
  | 101 => ⟨S1024x1, .f32⟩
  | 102 => ⟨S1024x1x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S_, .i32⟩
  | 115 => ⟨S1, .i32⟩
  | 116 => ⟨S1024x16x16, .f32⟩
  | 117 => ⟨S1024x1, .f32⟩
  | 118 => ⟨S1024, .f32⟩
  | 119 => ⟨S1024, .f32⟩
  | 120 => ⟨S1024x1, .f32⟩
  | 121 => ⟨S1024, .f32⟩
  | 122 => ⟨S1024x1, .f32⟩
  | 123 => ⟨S1024x1x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_9 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S_, .i32⟩
  | 8 => ⟨S1, .i32⟩
  | 9 => ⟨S1024x16x16, .f32⟩
  | 10 => ⟨S_, .i32⟩
  | 11 => ⟨S1, .i32⟩
  | 12 => ⟨S1024x16x16, .f32⟩
  | 13 => ⟨S1024x1x16, .f32⟩
  | 14 => ⟨S1024x16, .f32⟩
  | 15 => ⟨S1024x1, .f32⟩
  | 16 => ⟨S1024, .f32⟩
  | 17 => ⟨S1024, .f32⟩
  | 18 => ⟨S1024x1, .f32⟩
  | 19 => ⟨S1024, .f32⟩
  | 20 => ⟨S1024x1, .f32⟩
  | 21 => ⟨S1024x1x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S_, .i32⟩
  | 34 => ⟨S1, .i32⟩
  | 35 => ⟨S1024x16x16, .f32⟩
  | 36 => ⟨S1024x1, .f32⟩
  | 37 => ⟨S1024, .f32⟩
  | 38 => ⟨S1024, .f32⟩
  | 39 => ⟨S1024x1, .f32⟩
  | 40 => ⟨S1024, .f32⟩
  | 41 => ⟨S1024x1, .f32⟩
  | 42 => ⟨S1024x1x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S_, .i32⟩
  | 55 => ⟨S1, .i32⟩
  | 56 => ⟨S1024x16x16, .f32⟩
  | 57 => ⟨S1024x1, .f32⟩
  | 58 => ⟨S1024, .f32⟩
  | 59 => ⟨S1024, .f32⟩
  | 60 => ⟨S1024x1, .f32⟩
  | 61 => ⟨S1024, .f32⟩
  | 62 => ⟨S1024x1, .f32⟩
  | 63 => ⟨S1024x1x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S_, .i32⟩
  | 76 => ⟨S1, .i32⟩
  | 77 => ⟨S1024x16x16, .f32⟩
  | 78 => ⟨S1024x1, .f32⟩
  | 79 => ⟨S1024, .f32⟩
  | 80 => ⟨S1024, .f32⟩
  | 81 => ⟨S1024x1, .f32⟩
  | 82 => ⟨S1024, .f32⟩
  | 83 => ⟨S1024x1, .f32⟩
  | 84 => ⟨S1024x1x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S_, .i32⟩
  | 97 => ⟨S1, .i32⟩
  | 98 => ⟨S1024x16x16, .f32⟩
  | 99 => ⟨S1024x1, .f32⟩
  | 100 => ⟨S1024, .f32⟩
  | 101 => ⟨S1024, .f32⟩
  | 102 => ⟨S1024x1, .f32⟩
  | 103 => ⟨S1024, .f32⟩
  | 104 => ⟨S1024x1, .f32⟩
  | 105 => ⟨S1024x1x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S_, .i32⟩
  | 118 => ⟨S1, .i32⟩
  | 119 => ⟨S1024x16x16, .f32⟩
  | 120 => ⟨S1024x1, .f32⟩
  | 121 => ⟨S1024, .f32⟩
  | 122 => ⟨S1024, .f32⟩
  | 123 => ⟨S1024x1, .f32⟩
  | 124 => ⟨S1024, .f32⟩
  | 125 => ⟨S1024x1, .f32⟩
  | 126 => ⟨S1024x1x16, .f32⟩
  | 127 => ⟨S1024x16, .f32⟩
  | _ => ⟨S1024x16x2048, .f32⟩

abbrev hbmTy0_10 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S_, .i32⟩
  | 11 => ⟨S1, .i32⟩
  | 12 => ⟨S1024x16x16, .f32⟩
  | 13 => ⟨S1024x1, .f32⟩
  | 14 => ⟨S1024, .f32⟩
  | 15 => ⟨S1024, .f32⟩
  | 16 => ⟨S1024x1, .f32⟩
  | 17 => ⟨S1024, .f32⟩
  | 18 => ⟨S1024x1, .f32⟩
  | 19 => ⟨S1024x1x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S_, .i32⟩
  | 32 => ⟨S1, .i32⟩
  | 33 => ⟨S1024x16x16, .f32⟩
  | 34 => ⟨S1024x1, .f32⟩
  | 35 => ⟨S1024, .f32⟩
  | 36 => ⟨S1024, .f32⟩
  | 37 => ⟨S1024x1, .f32⟩
  | 38 => ⟨S1024, .f32⟩
  | 39 => ⟨S1024x1, .f32⟩
  | 40 => ⟨S1024x1x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S_, .i32⟩
  | 53 => ⟨S1, .i32⟩
  | 54 => ⟨S1024x16x16, .f32⟩
  | 55 => ⟨S1024x1, .f32⟩
  | 56 => ⟨S1024, .f32⟩
  | 57 => ⟨S1024, .f32⟩
  | 58 => ⟨S1024x1, .f32⟩
  | 59 => ⟨S1024, .f32⟩
  | 60 => ⟨S1024x1, .f32⟩
  | 61 => ⟨S1024x1x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S_, .i32⟩
  | 74 => ⟨S1, .i32⟩
  | 75 => ⟨S1024x16x16, .f32⟩
  | 76 => ⟨S1024x1, .f32⟩
  | 77 => ⟨S1024, .f32⟩
  | 78 => ⟨S1024, .f32⟩
  | 79 => ⟨S1024x1, .f32⟩
  | 80 => ⟨S1024, .f32⟩
  | 81 => ⟨S1024x1, .f32⟩
  | 82 => ⟨S1024x1x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S_, .i32⟩
  | 95 => ⟨S1, .i32⟩
  | 96 => ⟨S1024x16x16, .f32⟩
  | 97 => ⟨S1024x1, .f32⟩
  | 98 => ⟨S1024, .f32⟩
  | 99 => ⟨S1024, .f32⟩
  | 100 => ⟨S1024x1, .f32⟩
  | 101 => ⟨S1024, .f32⟩
  | 102 => ⟨S1024x1, .f32⟩
  | 103 => ⟨S1024x1x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S_, .i32⟩
  | 116 => ⟨S1, .i32⟩
  | 117 => ⟨S1024x16x16, .f32⟩
  | 118 => ⟨S_, .i32⟩
  | 119 => ⟨S1, .i32⟩
  | 120 => ⟨S1024x16x16, .f32⟩
  | 121 => ⟨S1024x1x16, .f32⟩
  | 122 => ⟨S1024x16, .f32⟩
  | 123 => ⟨S1024x1, .f32⟩
  | 124 => ⟨S1024, .f32⟩
  | 125 => ⟨S1024, .f32⟩
  | 126 => ⟨S1024x1, .f32⟩
  | 127 => ⟨S1024, .f32⟩
  | _ => ⟨S1024x16x2048, .f32⟩

abbrev hbmTy0_11 (i : Nat) : BufTy := match i % 128 with
  | 0 => ⟨S1024x1, .f32⟩
  | 1 => ⟨S1024x1x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S_, .i32⟩
  | 14 => ⟨S1, .i32⟩
  | 15 => ⟨S1024x16x16, .f32⟩
  | 16 => ⟨S1024x1, .f32⟩
  | 17 => ⟨S1024, .f32⟩
  | 18 => ⟨S1024, .f32⟩
  | 19 => ⟨S1024x1, .f32⟩
  | 20 => ⟨S1024, .f32⟩
  | 21 => ⟨S1024x1, .f32⟩
  | 22 => ⟨S1024x1x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S_, .i32⟩
  | 35 => ⟨S1, .i32⟩
  | 36 => ⟨S1024x16x16, .f32⟩
  | 37 => ⟨S1024x1, .f32⟩
  | 38 => ⟨S1024, .f32⟩
  | 39 => ⟨S1024, .f32⟩
  | 40 => ⟨S1024x1, .f32⟩
  | 41 => ⟨S1024, .f32⟩
  | 42 => ⟨S1024x1, .f32⟩
  | 43 => ⟨S1024x1x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S_, .i32⟩
  | 56 => ⟨S1, .i32⟩
  | 57 => ⟨S1024x16x16, .f32⟩
  | 58 => ⟨S1024x1, .f32⟩
  | 59 => ⟨S1024, .f32⟩
  | 60 => ⟨S1024, .f32⟩
  | 61 => ⟨S1024x1, .f32⟩
  | 62 => ⟨S1024, .f32⟩
  | 63 => ⟨S1024x1, .f32⟩
  | 64 => ⟨S1024x1x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S1024x16, .f32⟩
  | 76 => ⟨S_, .i32⟩
  | 77 => ⟨S1, .i32⟩
  | 78 => ⟨S1024x16x16, .f32⟩
  | 79 => ⟨S1024x1, .f32⟩
  | 80 => ⟨S1024, .f32⟩
  | 81 => ⟨S1024, .f32⟩
  | 82 => ⟨S1024x1, .f32⟩
  | 83 => ⟨S1024, .f32⟩
  | 84 => ⟨S1024x1, .f32⟩
  | 85 => ⟨S1024x1x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S1024x16, .f32⟩
  | 97 => ⟨S_, .i32⟩
  | 98 => ⟨S1, .i32⟩
  | 99 => ⟨S1024x16x16, .f32⟩
  | 100 => ⟨S1024x1, .f32⟩
  | 101 => ⟨S1024, .f32⟩
  | 102 => ⟨S1024, .f32⟩
  | 103 => ⟨S1024x1, .f32⟩
  | 104 => ⟨S1024, .f32⟩
  | 105 => ⟨S1024x1, .f32⟩
  | 106 => ⟨S1024x1x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S_, .i32⟩
  | 119 => ⟨S1, .i32⟩
  | 120 => ⟨S1024x16x16, .f32⟩
  | 121 => ⟨S1024x1, .f32⟩
  | 122 => ⟨S1024, .f32⟩
  | 123 => ⟨S1024, .f32⟩
  | 124 => ⟨S1024x1, .f32⟩
  | 125 => ⟨S1024, .f32⟩
  | 126 => ⟨S1024x1, .f32⟩
  | 127 => ⟨S1024x1x16, .f32⟩
  | _ => ⟨S1024x16x2048, .f32⟩

abbrev hbmTy0_12 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S_, .i32⟩
  | 12 => ⟨S1, .i32⟩
  | 13 => ⟨S1024x16x16, .f32⟩
  | 14 => ⟨S1024x1, .f32⟩
  | 15 => ⟨S1024, .f32⟩
  | 16 => ⟨S1024, .f32⟩
  | 17 => ⟨S1024x1, .f32⟩
  | 18 => ⟨S1024, .f32⟩
  | 19 => ⟨S1024x1, .f32⟩
  | 20 => ⟨S1024x1x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S_, .i32⟩
  | 33 => ⟨S1, .i32⟩
  | 34 => ⟨S1024x16x16, .f32⟩
  | 35 => ⟨S1024x1, .f32⟩
  | 36 => ⟨S1024, .f32⟩
  | 37 => ⟨S1024, .f32⟩
  | 38 => ⟨S1024x1, .f32⟩
  | 39 => ⟨S1024, .f32⟩
  | 40 => ⟨S1024x1, .f32⟩
  | 41 => ⟨S1024x1x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S_, .i32⟩
  | 54 => ⟨S1, .i32⟩
  | 55 => ⟨S1024x16x16, .f32⟩
  | 56 => ⟨S1024x1, .f32⟩
  | 57 => ⟨S1024, .f32⟩
  | 58 => ⟨S1024, .f32⟩
  | 59 => ⟨S1024x1, .f32⟩
  | 60 => ⟨S1024, .f32⟩
  | 61 => ⟨S1024x1, .f32⟩
  | 62 => ⟨S1024x1x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S_, .i32⟩
  | 75 => ⟨S1, .i32⟩
  | 76 => ⟨S1024x16x16, .f32⟩
  | 77 => ⟨S_, .i32⟩
  | 78 => ⟨S1, .i32⟩
  | 79 => ⟨S1024x16x16, .f32⟩
  | 80 => ⟨S1024x1x16, .f32⟩
  | 81 => ⟨S1024x16, .f32⟩
  | 82 => ⟨S1024x1, .f32⟩
  | 83 => ⟨S1024, .f32⟩
  | 84 => ⟨S1024, .f32⟩
  | 85 => ⟨S1024x1, .f32⟩
  | 86 => ⟨S1024, .f32⟩
  | 87 => ⟨S1024x1, .f32⟩
  | 88 => ⟨S1024x1x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S1024x16, .f32⟩
  | 97 => ⟨S1024x16, .f32⟩
  | 98 => ⟨S1024x16, .f32⟩
  | 99 => ⟨S1024x16, .f32⟩
  | 100 => ⟨S_, .i32⟩
  | 101 => ⟨S1, .i32⟩
  | 102 => ⟨S1024x16x16, .f32⟩
  | 103 => ⟨S1024x1, .f32⟩
  | 104 => ⟨S1024, .f32⟩
  | 105 => ⟨S1024, .f32⟩
  | 106 => ⟨S1024x1, .f32⟩
  | 107 => ⟨S1024, .f32⟩
  | 108 => ⟨S1024x1, .f32⟩
  | 109 => ⟨S1024x1x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S1024x16, .f32⟩
  | 120 => ⟨S1024x16, .f32⟩
  | 121 => ⟨S_, .i32⟩
  | 122 => ⟨S1, .i32⟩
  | 123 => ⟨S1024x16x16, .f32⟩
  | 124 => ⟨S1024x1, .f32⟩
  | 125 => ⟨S1024, .f32⟩
  | 126 => ⟨S1024, .f32⟩
  | 127 => ⟨S1024x1, .f32⟩
  | _ => ⟨S1024x16x2048, .f32⟩

abbrev hbmTy0_13 (i : Nat) : BufTy := match i % 128 with
  | 0 => ⟨S1024, .f32⟩
  | 1 => ⟨S1024x1, .f32⟩
  | 2 => ⟨S1024x1x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S1024x16, .f32⟩
  | 14 => ⟨S_, .i32⟩
  | 15 => ⟨S1, .i32⟩
  | 16 => ⟨S1024x16x16, .f32⟩
  | 17 => ⟨S1024x1, .f32⟩
  | 18 => ⟨S1024, .f32⟩
  | 19 => ⟨S1024, .f32⟩
  | 20 => ⟨S1024x1, .f32⟩
  | 21 => ⟨S1024, .f32⟩
  | 22 => ⟨S1024x1, .f32⟩
  | 23 => ⟨S1024x1x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S_, .i32⟩
  | 36 => ⟨S1, .i32⟩
  | 37 => ⟨S1024x16x16, .f32⟩
  | 38 => ⟨S1024x1, .f32⟩
  | 39 => ⟨S1024, .f32⟩
  | 40 => ⟨S1024, .f32⟩
  | 41 => ⟨S1024x1, .f32⟩
  | 42 => ⟨S1024, .f32⟩
  | 43 => ⟨S1024x1, .f32⟩
  | 44 => ⟨S1024x1x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S1024x16, .f32⟩
  | 56 => ⟨S_, .i32⟩
  | 57 => ⟨S1, .i32⟩
  | 58 => ⟨S1024x16x16, .f32⟩
  | 59 => ⟨S1024x1, .f32⟩
  | 60 => ⟨S1024, .f32⟩
  | 61 => ⟨S1024, .f32⟩
  | 62 => ⟨S1024x1, .f32⟩
  | 63 => ⟨S1024, .f32⟩
  | 64 => ⟨S1024x1, .f32⟩
  | 65 => ⟨S1024x1x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S1024x16, .f32⟩
  | 76 => ⟨S1024x16, .f32⟩
  | 77 => ⟨S_, .i32⟩
  | 78 => ⟨S1, .i32⟩
  | 79 => ⟨S1024x16x16, .f32⟩
  | 80 => ⟨S1024x1, .f32⟩
  | 81 => ⟨S1024, .f32⟩
  | 82 => ⟨S1024, .f32⟩
  | 83 => ⟨S1024x1, .f32⟩
  | 84 => ⟨S1024, .f32⟩
  | 85 => ⟨S1024x1, .f32⟩
  | 86 => ⟨S1024x1x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S1024x16, .f32⟩
  | 97 => ⟨S1024x16, .f32⟩
  | 98 => ⟨S_, .i32⟩
  | 99 => ⟨S1, .i32⟩
  | 100 => ⟨S1024x16x16, .f32⟩
  | 101 => ⟨S1024x1, .f32⟩
  | 102 => ⟨S1024, .f32⟩
  | 103 => ⟨S1024, .f32⟩
  | 104 => ⟨S1024x1, .f32⟩
  | 105 => ⟨S1024, .f32⟩
  | 106 => ⟨S1024x1, .f32⟩
  | 107 => ⟨S1024x1x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S_, .i32⟩
  | 120 => ⟨S1, .i32⟩
  | 121 => ⟨S1024x16x16, .f32⟩
  | 122 => ⟨S1024x1, .f32⟩
  | 123 => ⟨S1024, .f32⟩
  | 124 => ⟨S1024, .f32⟩
  | 125 => ⟨S1024x1, .f32⟩
  | 126 => ⟨S1024, .f32⟩
  | 127 => ⟨S1024x1, .f32⟩
  | _ => ⟨S1024x16x2048, .f32⟩

abbrev hbmTy0_14 (i : Nat) : BufTy := match i % 128 with
  | 0 => ⟨S1024x1x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S_, .i32⟩
  | 13 => ⟨S1, .i32⟩
  | 14 => ⟨S1024x16x16, .f32⟩
  | 15 => ⟨S_, .i32⟩
  | 16 => ⟨S1, .i32⟩
  | 17 => ⟨S1024x16x16, .f32⟩
  | 18 => ⟨S1024x1x16, .f32⟩
  | 19 => ⟨S1024x16, .f32⟩
  | 20 => ⟨S1024x1, .f32⟩
  | 21 => ⟨S1024, .f32⟩
  | 22 => ⟨S1024, .f32⟩
  | 23 => ⟨S1024x1, .f32⟩
  | 24 => ⟨S1024, .f32⟩
  | 25 => ⟨S1024x1, .f32⟩
  | 26 => ⟨S1024x1x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S1024x16, .f32⟩
  | 37 => ⟨S1024x16, .f32⟩
  | 38 => ⟨S_, .i32⟩
  | 39 => ⟨S1, .i32⟩
  | 40 => ⟨S1024x16x16, .f32⟩
  | 41 => ⟨S1024x1, .f32⟩
  | 42 => ⟨S1024, .f32⟩
  | 43 => ⟨S1024, .f32⟩
  | 44 => ⟨S1024x1, .f32⟩
  | 45 => ⟨S1024, .f32⟩
  | 46 => ⟨S1024x1, .f32⟩
  | 47 => ⟨S1024x1x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S1024x16, .f32⟩
  | 56 => ⟨S1024x16, .f32⟩
  | 57 => ⟨S1024x16, .f32⟩
  | 58 => ⟨S1024x16, .f32⟩
  | 59 => ⟨S_, .i32⟩
  | 60 => ⟨S1, .i32⟩
  | 61 => ⟨S1024x16x16, .f32⟩
  | 62 => ⟨S1024x1, .f32⟩
  | 63 => ⟨S1024, .f32⟩
  | 64 => ⟨S1024, .f32⟩
  | 65 => ⟨S1024x1, .f32⟩
  | 66 => ⟨S1024, .f32⟩
  | 67 => ⟨S1024x1, .f32⟩
  | 68 => ⟨S1024x1x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S1024x16, .f32⟩
  | 76 => ⟨S1024x16, .f32⟩
  | 77 => ⟨S1024x16, .f32⟩
  | 78 => ⟨S1024x16, .f32⟩
  | 79 => ⟨S1024x16, .f32⟩
  | 80 => ⟨S_, .i32⟩
  | 81 => ⟨S1, .i32⟩
  | 82 => ⟨S1024x16x16, .f32⟩
  | 83 => ⟨S1024x1, .f32⟩
  | 84 => ⟨S1024, .f32⟩
  | 85 => ⟨S1024, .f32⟩
  | 86 => ⟨S1024x1, .f32⟩
  | 87 => ⟨S1024, .f32⟩
  | 88 => ⟨S1024x1, .f32⟩
  | 89 => ⟨S1024x1x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S1024x16, .f32⟩
  | 97 => ⟨S1024x16, .f32⟩
  | 98 => ⟨S1024x16, .f32⟩
  | 99 => ⟨S1024x16, .f32⟩
  | 100 => ⟨S1024x16, .f32⟩
  | 101 => ⟨S_, .i32⟩
  | 102 => ⟨S1, .i32⟩
  | 103 => ⟨S1024x16x16, .f32⟩
  | 104 => ⟨S1024x1, .f32⟩
  | 105 => ⟨S1024, .f32⟩
  | 106 => ⟨S1024, .f32⟩
  | 107 => ⟨S1024x1, .f32⟩
  | 108 => ⟨S1024, .f32⟩
  | 109 => ⟨S1024x1, .f32⟩
  | 110 => ⟨S1024x1x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S1024x16, .f32⟩
  | 120 => ⟨S1024x16, .f32⟩
  | 121 => ⟨S1024x16, .f32⟩
  | 122 => ⟨S_, .i32⟩
  | 123 => ⟨S1, .i32⟩
  | 124 => ⟨S1024x16x16, .f32⟩
  | 125 => ⟨S1024x1, .f32⟩
  | 126 => ⟨S1024, .f32⟩
  | 127 => ⟨S1024, .f32⟩
  | _ => ⟨S1024x16x2048, .f32⟩

abbrev hbmTy0_15 (i : Nat) : BufTy := match i % 128 with
  | 0 => ⟨S1024x1, .f32⟩
  | 1 => ⟨S1024, .f32⟩
  | 2 => ⟨S1024x1, .f32⟩
  | 3 => ⟨S1024x1x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S1024x16, .f32⟩
  | 14 => ⟨S1024x16, .f32⟩
  | 15 => ⟨S_, .i32⟩
  | 16 => ⟨S1, .i32⟩
  | 17 => ⟨S1024x16x16, .f32⟩
  | 18 => ⟨S1024x1, .f32⟩
  | 19 => ⟨S1024, .f32⟩
  | 20 => ⟨S1024, .f32⟩
  | 21 => ⟨S1024x1, .f32⟩
  | 22 => ⟨S1024, .f32⟩
  | 23 => ⟨S1024x1, .f32⟩
  | 24 => ⟨S1024x1x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S_, .i32⟩
  | 37 => ⟨S1, .i32⟩
  | 38 => ⟨S1024x16x16, .f32⟩
  | 39 => ⟨S1024x1, .f32⟩
  | 40 => ⟨S1024, .f32⟩
  | 41 => ⟨S1024, .f32⟩
  | 42 => ⟨S1024x1, .f32⟩
  | 43 => ⟨S1024, .f32⟩
  | 44 => ⟨S1024x1, .f32⟩
  | 45 => ⟨S1024x1x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S1024x16, .f32⟩
  | 56 => ⟨S1024x16, .f32⟩
  | 57 => ⟨S_, .i32⟩
  | 58 => ⟨S1, .i32⟩
  | 59 => ⟨S1024x16x16, .f32⟩
  | 60 => ⟨S_, .i32⟩
  | 61 => ⟨S1, .i32⟩
  | 62 => ⟨S1024x16x16, .f32⟩
  | 63 => ⟨S1024x1x16, .f32⟩
  | 64 => ⟨S1024x16, .f32⟩
  | 65 => ⟨S1024x1, .f32⟩
  | 66 => ⟨S1024, .f32⟩
  | 67 => ⟨S1024, .f32⟩
  | 68 => ⟨S1024x1, .f32⟩
  | 69 => ⟨S1024, .f32⟩
  | 70 => ⟨S1024x1, .f32⟩
  | 71 => ⟨S1024x1x16, .f32⟩
  | 72 => ⟨S1024x16, .f32⟩
  | 73 => ⟨S1024x16, .f32⟩
  | 74 => ⟨S1024x16, .f32⟩
  | 75 => ⟨S1024x16, .f32⟩
  | 76 => ⟨S1024x16, .f32⟩
  | 77 => ⟨S1024x16, .f32⟩
  | 78 => ⟨S1024x16, .f32⟩
  | 79 => ⟨S1024x16, .f32⟩
  | 80 => ⟨S1024x16, .f32⟩
  | 81 => ⟨S1024x16, .f32⟩
  | 82 => ⟨S1024x16, .f32⟩
  | 83 => ⟨S_, .i32⟩
  | 84 => ⟨S1, .i32⟩
  | 85 => ⟨S1024x16x16, .f32⟩
  | 86 => ⟨S1024x1, .f32⟩
  | 87 => ⟨S1024, .f32⟩
  | 88 => ⟨S1024, .f32⟩
  | 89 => ⟨S1024x1, .f32⟩
  | 90 => ⟨S1024, .f32⟩
  | 91 => ⟨S1024x1, .f32⟩
  | 92 => ⟨S1024x1x16, .f32⟩
  | 93 => ⟨S1024x16, .f32⟩
  | 94 => ⟨S1024x16, .f32⟩
  | 95 => ⟨S1024x16, .f32⟩
  | 96 => ⟨S1024x16, .f32⟩
  | 97 => ⟨S1024x16, .f32⟩
  | 98 => ⟨S1024x16, .f32⟩
  | 99 => ⟨S1024x16, .f32⟩
  | 100 => ⟨S1024x16, .f32⟩
  | 101 => ⟨S1024x16, .f32⟩
  | 102 => ⟨S1024x16, .f32⟩
  | 103 => ⟨S1024x16, .f32⟩
  | 104 => ⟨S_, .i32⟩
  | 105 => ⟨S1, .i32⟩
  | 106 => ⟨S1024x16x16, .f32⟩
  | 107 => ⟨S1024x1, .f32⟩
  | 108 => ⟨S1024, .f32⟩
  | 109 => ⟨S1024, .f32⟩
  | 110 => ⟨S1024x1, .f32⟩
  | 111 => ⟨S1024, .f32⟩
  | 112 => ⟨S1024x1, .f32⟩
  | 113 => ⟨S1024x1x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S1024x16, .f32⟩
  | 120 => ⟨S1024x16, .f32⟩
  | 121 => ⟨S1024x16, .f32⟩
  | 122 => ⟨S1024x16, .f32⟩
  | 123 => ⟨S1024x16, .f32⟩
  | 124 => ⟨S1024x16, .f32⟩
  | 125 => ⟨S_, .i32⟩
  | 126 => ⟨S1, .i32⟩
  | 127 => ⟨S1024x16x16, .f32⟩
  | _ => ⟨S1024x16x2048, .f32⟩

abbrev hbmTy0_16 (i : Nat) : BufTy := match i % 128 with
  | 0 => ⟨S1024x1, .f32⟩
  | 1 => ⟨S1024, .f32⟩
  | 2 => ⟨S1024, .f32⟩
  | 3 => ⟨S1024x1, .f32⟩
  | 4 => ⟨S1024, .f32⟩
  | 5 => ⟨S1024x1, .f32⟩
  | 6 => ⟨S1024x1x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S1024x16, .f32⟩
  | 14 => ⟨S1024x16, .f32⟩
  | 15 => ⟨S1024x16, .f32⟩
  | 16 => ⟨S1024x16, .f32⟩
  | 17 => ⟨S1024x16, .f32⟩
  | 18 => ⟨S_, .i32⟩
  | 19 => ⟨S1, .i32⟩
  | 20 => ⟨S1024x16x16, .f32⟩
  | 21 => ⟨S1024x1, .f32⟩
  | 22 => ⟨S1024, .f32⟩
  | 23 => ⟨S1024, .f32⟩
  | 24 => ⟨S1024x1, .f32⟩
  | 25 => ⟨S1024, .f32⟩
  | 26 => ⟨S1024x1, .f32⟩
  | 27 => ⟨S1024x1x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S1024x16, .f32⟩
  | 37 => ⟨S1024x16, .f32⟩
  | 38 => ⟨S1024x16, .f32⟩
  | 39 => ⟨S_, .i32⟩
  | 40 => ⟨S1, .i32⟩
  | 41 => ⟨S1024x16x16, .f32⟩
  | 42 => ⟨S1024x1, .f32⟩
  | 43 => ⟨S1024, .f32⟩
  | 44 => ⟨S1024, .f32⟩
  | 45 => ⟨S1024x1, .f32⟩
  | 46 => ⟨S1024, .f32⟩
  | 47 => ⟨S1024x1, .f32⟩
  | 48 => ⟨S1024x1x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S1024x16, .f32⟩
  | 56 => ⟨S1024x16, .f32⟩
  | 57 => ⟨S1024x16, .f32⟩
  | 58 => ⟨S1024x16, .f32⟩
  | 59 => ⟨S1024x16, .f32⟩
  | 60 => ⟨S_, .i32⟩
  | 61 => ⟨S1, .i32⟩
  | 62 => ⟨S1024x16x16, .f32⟩
  | 63 => ⟨S1024x1, .f32⟩
  | 64 => ⟨S1024, .f32⟩
  | 65 => ⟨S1024, .f32⟩
  | 66 => ⟨S1024x1, .f32⟩
  | 67 => ⟨S1024, .f32⟩
  | 68 => ⟨S1024x1, .f32⟩
  | 69 => ⟨S1024x1x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S1024x16, .f32⟩
  | 76 => ⟨S1024x16, .f32⟩
  | 77 => ⟨S1024x16, .f32⟩
  | 78 => ⟨S1024x16, .f32⟩
  | 79 => ⟨S1024x16, .f32⟩
  | 80 => ⟨S1024x16, .f32⟩
  | 81 => ⟨S_, .i32⟩
  | 82 => ⟨S1, .i32⟩
  | 83 => ⟨S1024x16x16, .f32⟩
  | 84 => ⟨S_, .i32⟩
  | 85 => ⟨S1, .i32⟩
  | 86 => ⟨S1024x16x16, .f32⟩
  | 87 => ⟨S1024x1x16, .f32⟩
  | 88 => ⟨S1024x16, .f32⟩
  | 89 => ⟨S1024x1, .f32⟩
  | 90 => ⟨S1024, .f32⟩
  | 91 => ⟨S1024, .f32⟩
  | 92 => ⟨S1024x1, .f32⟩
  | 93 => ⟨S1024, .f32⟩
  | 94 => ⟨S1024x1, .f32⟩
  | 95 => ⟨S1024x1x16, .f32⟩
  | 96 => ⟨S1024x16, .f32⟩
  | 97 => ⟨S1024x16, .f32⟩
  | 98 => ⟨S1024x16, .f32⟩
  | 99 => ⟨S1024x16, .f32⟩
  | 100 => ⟨S1024x16, .f32⟩
  | 101 => ⟨S1024x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S_, .i32⟩
  | 108 => ⟨S1, .i32⟩
  | 109 => ⟨S1024x16x16, .f32⟩
  | 110 => ⟨S1024x1, .f32⟩
  | 111 => ⟨S1024, .f32⟩
  | 112 => ⟨S1024, .f32⟩
  | 113 => ⟨S1024x1, .f32⟩
  | 114 => ⟨S1024, .f32⟩
  | 115 => ⟨S1024x1, .f32⟩
  | 116 => ⟨S1024x1x16, .f32⟩
  | 117 => ⟨S1024x16, .f32⟩
  | 118 => ⟨S1024x16, .f32⟩
  | 119 => ⟨S1024x16, .f32⟩
  | 120 => ⟨S1024x16, .f32⟩
  | 121 => ⟨S1024x16, .f32⟩
  | 122 => ⟨S1024x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_17 (i : Nat) : BufTy := match i % 128 with
  | 0 => ⟨S_, .i32⟩
  | 1 => ⟨S1, .i32⟩
  | 2 => ⟨S1024x16x16, .f32⟩
  | 3 => ⟨S1024x1, .f32⟩
  | 4 => ⟨S1024, .f32⟩
  | 5 => ⟨S1024, .f32⟩
  | 6 => ⟨S1024x1, .f32⟩
  | 7 => ⟨S1024, .f32⟩
  | 8 => ⟨S1024x1, .f32⟩
  | 9 => ⟨S1024x1x16, .f32⟩
  | 10 => ⟨S1024x16, .f32⟩
  | 11 => ⟨S1024x16, .f32⟩
  | 12 => ⟨S1024x16, .f32⟩
  | 13 => ⟨S1024x16, .f32⟩
  | 14 => ⟨S1024x16, .f32⟩
  | 15 => ⟨S1024x16, .f32⟩
  | 16 => ⟨S1024x16, .f32⟩
  | 17 => ⟨S1024x16, .f32⟩
  | 18 => ⟨S1024x16, .f32⟩
  | 19 => ⟨S1024x16, .f32⟩
  | 20 => ⟨S1024x16, .f32⟩
  | 21 => ⟨S_, .i32⟩
  | 22 => ⟨S1, .i32⟩
  | 23 => ⟨S1024x16x16, .f32⟩
  | 24 => ⟨S1024x1, .f32⟩
  | 25 => ⟨S1024, .f32⟩
  | 26 => ⟨S1024, .f32⟩
  | 27 => ⟨S1024x1, .f32⟩
  | 28 => ⟨S1024, .f32⟩
  | 29 => ⟨S1024x1, .f32⟩
  | 30 => ⟨S1024x1x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S1024x16, .f32⟩
  | 37 => ⟨S1024x16, .f32⟩
  | 38 => ⟨S1024x16, .f32⟩
  | 39 => ⟨S1024x16, .f32⟩
  | 40 => ⟨S1024x16, .f32⟩
  | 41 => ⟨S1024x16, .f32⟩
  | 42 => ⟨S_, .i32⟩
  | 43 => ⟨S1, .i32⟩
  | 44 => ⟨S1024x16x16, .f32⟩
  | 45 => ⟨S1024x1, .f32⟩
  | 46 => ⟨S1024, .f32⟩
  | 47 => ⟨S1024, .f32⟩
  | 48 => ⟨S1024x1, .f32⟩
  | 49 => ⟨S1024, .f32⟩
  | 50 => ⟨S1024x1, .f32⟩
  | 51 => ⟨S1024x1x16, .f32⟩
  | 52 => ⟨S1024x16, .f32⟩
  | 53 => ⟨S1024x16, .f32⟩
  | 54 => ⟨S1024x16, .f32⟩
  | 55 => ⟨S1024x16, .f32⟩
  | 56 => ⟨S1024x16, .f32⟩
  | 57 => ⟨S1024x16, .f32⟩
  | 58 => ⟨S1024x16, .f32⟩
  | 59 => ⟨S1024x16, .f32⟩
  | 60 => ⟨S1024x16, .f32⟩
  | 61 => ⟨S1024x16, .f32⟩
  | 62 => ⟨S1024x16, .f32⟩
  | 63 => ⟨S_, .i32⟩
  | 64 => ⟨S1, .i32⟩
  | 65 => ⟨S1024x16x16, .f32⟩
  | 66 => ⟨S1024x1, .f32⟩
  | 67 => ⟨S1024, .f32⟩
  | 68 => ⟨S1024, .f32⟩
  | 69 => ⟨S1024x1, .f32⟩
  | 70 => ⟨S1024, .f32⟩
  | 71 => ⟨S1024x1, .f32⟩
  | 72 => ⟨S1024x1x16, .f32⟩
  | 73 => ⟨S1024x16, .f32⟩
  | 74 => ⟨S1024x16, .f32⟩
  | 75 => ⟨S1024x16, .f32⟩
  | 76 => ⟨S1024x16, .f32⟩
  | 77 => ⟨S1024x16, .f32⟩
  | 78 => ⟨S1024x16, .f32⟩
  | 79 => ⟨S1024x16, .f32⟩
  | 80 => ⟨S1024x16, .f32⟩
  | 81 => ⟨S1024x16, .f32⟩
  | 82 => ⟨S1024x16, .f32⟩
  | 83 => ⟨S1024x16, .f32⟩
  | 84 => ⟨S_, .i32⟩
  | 85 => ⟨S1, .i32⟩
  | 86 => ⟨S1024x16x16, .f32⟩
  | 87 => ⟨S_, .i32⟩
  | 88 => ⟨S1, .i32⟩
  | 89 => ⟨S1024x16x16, .f32⟩
  | 90 => ⟨S1024x1x16, .f32⟩
  | 91 => ⟨S1024x16, .f32⟩
  | 92 => ⟨S1024x1, .f32⟩
  | 93 => ⟨S1024, .f32⟩
  | 94 => ⟨S1024, .f32⟩
  | 95 => ⟨S1024x1, .f32⟩
  | 96 => ⟨S1024, .f32⟩
  | 97 => ⟨S1024x1, .f32⟩
  | 98 => ⟨S1024x1x16, .f32⟩
  | 99 => ⟨S1024x16, .f32⟩
  | 100 => ⟨S1024x16, .f32⟩
  | 101 => ⟨S1024x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S_, .i32⟩
  | 111 => ⟨S1, .i32⟩
  | 112 => ⟨S1024x16x16, .f32⟩
  | 113 => ⟨S1024x1, .f32⟩
  | 114 => ⟨S1024, .f32⟩
  | 115 => ⟨S1024, .f32⟩
  | 116 => ⟨S1024x1, .f32⟩
  | 117 => ⟨S1024, .f32⟩
  | 118 => ⟨S1024x1, .f32⟩
  | 119 => ⟨S1024x1x16, .f32⟩
  | 120 => ⟨S1024x16, .f32⟩
  | 121 => ⟨S1024x16, .f32⟩
  | 122 => ⟨S1024x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_18 (i : Nat) : BufTy := match i % 128 with
  | 0 => ⟨S1024x16, .f32⟩
  | 1 => ⟨S1024x16, .f32⟩
  | 2 => ⟨S1024x16, .f32⟩
  | 3 => ⟨S_, .i32⟩
  | 4 => ⟨S1, .i32⟩
  | 5 => ⟨S1024x16x16, .f32⟩
  | 6 => ⟨S1024x1, .f32⟩
  | 7 => ⟨S1024, .f32⟩
  | 8 => ⟨S1024, .f32⟩
  | 9 => ⟨S1024x1, .f32⟩
  | 10 => ⟨S1024, .f32⟩
  | 11 => ⟨S1024x1, .f32⟩
  | 12 => ⟨S1024x1x16, .f32⟩
  | 13 => ⟨S1024x16, .f32⟩
  | 14 => ⟨S1024x16, .f32⟩
  | 15 => ⟨S1024x16, .f32⟩
  | 16 => ⟨S1024x16, .f32⟩
  | 17 => ⟨S1024x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S_, .i32⟩
  | 25 => ⟨S1, .i32⟩
  | 26 => ⟨S1024x16x16, .f32⟩
  | 27 => ⟨S1024x1, .f32⟩
  | 28 => ⟨S1024, .f32⟩
  | 29 => ⟨S1024, .f32⟩
  | 30 => ⟨S1024x1, .f32⟩
  | 31 => ⟨S1024, .f32⟩
  | 32 => ⟨S1024x1, .f32⟩
  | 33 => ⟨S1024x1x16, .f32⟩
  | 34 => ⟨S1024x16, .f32⟩
  | 35 => ⟨S1024x16, .f32⟩
  | 36 => ⟨S1024x16, .f32⟩
  | 37 => ⟨S1024x16, .f32⟩
  | 38 => ⟨S1024x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S_, .i32⟩
  | 46 => ⟨S1, .i32⟩
  | 47 => ⟨S1024x16x16, .f32⟩
  | 48 => ⟨S1024x1, .f32⟩
  | 49 => ⟨S1024, .f32⟩
  | 50 => ⟨S1024, .f32⟩
  | 51 => ⟨S1024x1, .f32⟩
  | 52 => ⟨S1024, .f32⟩
  | 53 => ⟨S1024x1, .f32⟩
  | 54 => ⟨S1024x1x16, .f32⟩
  | 55 => ⟨S1024x16, .f32⟩
  | 56 => ⟨S1024x16, .f32⟩
  | 57 => ⟨S1024x16, .f32⟩
  | 58 => ⟨S1024x16, .f32⟩
  | 59 => ⟨S1024x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S_, .i32⟩
  | 67 => ⟨S1, .i32⟩
  | 68 => ⟨S1024x16x16, .f32⟩
  | 69 => ⟨S_, .i32⟩
  | 70 => ⟨S1, .i32⟩
  | 71 => ⟨S1024x16x16, .f32⟩
  | 72 => ⟨S1024x1x16, .f32⟩
  | 73 => ⟨S1024x16, .f32⟩
  | 74 => ⟨S1024x1, .f32⟩
  | 75 => ⟨S1024, .f32⟩
  | 76 => ⟨S1024, .f32⟩
  | 77 => ⟨S1024x1, .f32⟩
  | 78 => ⟨S1024, .f32⟩
  | 79 => ⟨S1024x1, .f32⟩
  | 80 => ⟨S1024x1x16, .f32⟩
  | 81 => ⟨S1024x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S_, .i32⟩
  | 93 => ⟨S1, .i32⟩
  | 94 => ⟨S1024x16x16, .f32⟩
  | 95 => ⟨S1024x1, .f32⟩
  | 96 => ⟨S1024, .f32⟩
  | 97 => ⟨S1024, .f32⟩
  | 98 => ⟨S1024x1, .f32⟩
  | 99 => ⟨S1024, .f32⟩
  | 100 => ⟨S1024x1, .f32⟩
  | 101 => ⟨S1024x1x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S_, .i32⟩
  | 114 => ⟨S1, .i32⟩
  | 115 => ⟨S1024x16x16, .f32⟩
  | 116 => ⟨S1024x1, .f32⟩
  | 117 => ⟨S1024, .f32⟩
  | 118 => ⟨S1024, .f32⟩
  | 119 => ⟨S1024x1, .f32⟩
  | 120 => ⟨S1024, .f32⟩
  | 121 => ⟨S1024x1, .f32⟩
  | 122 => ⟨S1024x1x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_19 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S_, .i32⟩
  | 7 => ⟨S1, .i32⟩
  | 8 => ⟨S1024x16x16, .f32⟩
  | 9 => ⟨S1024x1, .f32⟩
  | 10 => ⟨S1024, .f32⟩
  | 11 => ⟨S1024, .f32⟩
  | 12 => ⟨S1024x1, .f32⟩
  | 13 => ⟨S1024, .f32⟩
  | 14 => ⟨S1024x1, .f32⟩
  | 15 => ⟨S1024x1x16, .f32⟩
  | 16 => ⟨S1024x16, .f32⟩
  | 17 => ⟨S1024x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S_, .i32⟩
  | 28 => ⟨S1, .i32⟩
  | 29 => ⟨S1024x16x16, .f32⟩
  | 30 => ⟨S_, .i32⟩
  | 31 => ⟨S1, .i32⟩
  | 32 => ⟨S1024x16x16, .f32⟩
  | 33 => ⟨S1024x1x16, .f32⟩
  | 34 => ⟨S1024x16, .f32⟩
  | 35 => ⟨S1024x1, .f32⟩
  | 36 => ⟨S1024, .f32⟩
  | 37 => ⟨S1024, .f32⟩
  | 38 => ⟨S1024x1, .f32⟩
  | 39 => ⟨S1024, .f32⟩
  | 40 => ⟨S1024x1, .f32⟩
  | 41 => ⟨S1024x1x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S_, .i32⟩
  | 54 => ⟨S1, .i32⟩
  | 55 => ⟨S1024x16x16, .f32⟩
  | 56 => ⟨S1024x1, .f32⟩
  | 57 => ⟨S1024, .f32⟩
  | 58 => ⟨S1024, .f32⟩
  | 59 => ⟨S1024x1, .f32⟩
  | 60 => ⟨S1024, .f32⟩
  | 61 => ⟨S1024x1, .f32⟩
  | 62 => ⟨S1024x1x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S_, .i32⟩
  | 75 => ⟨S1, .i32⟩
  | 76 => ⟨S1024x16x16, .f32⟩
  | 77 => ⟨S1024x1, .f32⟩
  | 78 => ⟨S1024, .f32⟩
  | 79 => ⟨S1024, .f32⟩
  | 80 => ⟨S1024x1, .f32⟩
  | 81 => ⟨S1024, .f32⟩
  | 82 => ⟨S1024x1, .f32⟩
  | 83 => ⟨S1024x1x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S_, .i32⟩
  | 96 => ⟨S1, .i32⟩
  | 97 => ⟨S1024x16x16, .f32⟩
  | 98 => ⟨S_, .i32⟩
  | 99 => ⟨S1, .i32⟩
  | 100 => ⟨S1024x16x16, .f32⟩
  | 101 => ⟨S1024x1x16, .f32⟩
  | 102 => ⟨S1024x16, .f32⟩
  | 103 => ⟨S1024x1, .f32⟩
  | 104 => ⟨S1024, .f32⟩
  | 105 => ⟨S1024, .f32⟩
  | 106 => ⟨S1024x1, .f32⟩
  | 107 => ⟨S1024, .f32⟩
  | 108 => ⟨S1024x1, .f32⟩
  | 109 => ⟨S1024x1x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S1024x16, .f32⟩
  | 120 => ⟨S1024x16, .f32⟩
  | 121 => ⟨S_, .i32⟩
  | 122 => ⟨S1, .i32⟩
  | 123 => ⟨S1024x16x16, .f32⟩
  | 124 => ⟨S1024x1, .f32⟩
  | 125 => ⟨S1024, .f32⟩
  | 126 => ⟨S1024, .f32⟩
  | 127 => ⟨S1024x1, .f32⟩
  | _ => ⟨S1024x16x2048, .f32⟩

abbrev hbmTy0_20 (i : Nat) : BufTy := match i % 128 with
  | 0 => ⟨S1024, .f32⟩
  | 1 => ⟨S1024x1, .f32⟩
  | 2 => ⟨S1024x1x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S1024x16, .f32⟩
  | 14 => ⟨S_, .i32⟩
  | 15 => ⟨S1, .i32⟩
  | 16 => ⟨S1024x16x16, .f32⟩
  | 17 => ⟨S_, .i32⟩
  | 18 => ⟨S1, .i32⟩
  | 19 => ⟨S1024x16x16, .f32⟩
  | 20 => ⟨S1024x1x16, .f32⟩
  | 21 => ⟨S1024x16, .f32⟩
  | 22 => ⟨S1024x1, .f32⟩
  | 23 => ⟨S1024, .f32⟩
  | 24 => ⟨S1024, .f32⟩
  | 25 => ⟨S1024x1, .f32⟩
  | 26 => ⟨S1024, .f32⟩
  | 27 => ⟨S1024x1, .f32⟩
  | 28 => ⟨S1024x1x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S1024x16, .f32⟩
  | 37 => ⟨S1024x16, .f32⟩
  | 38 => ⟨S1024x16, .f32⟩
  | 39 => ⟨S1024x16, .f32⟩
  | 40 => ⟨S_, .i32⟩
  | 41 => ⟨S1, .i32⟩
  | 42 => ⟨S1024x16x16, .f32⟩
  | 43 => ⟨S_, .i32⟩
  | 44 => ⟨S1, .i32⟩
  | 45 => ⟨S1024x16x16, .f32⟩
  | 46 => ⟨S1024x16x2048, .f32⟩
  | _ => ⟨S1024x16x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | _ => ⟨S1024x16x2048, .f32⟩

abbrev bufTy : (tb : Table) → Fin (tcTables nBuf tb) → BufTy
  | .hbm, ⟨i, _⟩ => hbmTy i
  | .local _ .vmem, ⟨0, _⟩ => ⟨S64x16x16, .f32⟩
  | .local _ .vmem, ⟨1, _⟩ => ⟨S64x16x16, .f32⟩
  | .local _ .vmem, ⟨2, _⟩ => ⟨S64x16, .f32⟩
  | .local _ .vmem, ⟨3, _⟩ => ⟨S64x16, .f32⟩
  | .local _ .vmem, ⟨4, _⟩ => ⟨S64x16x2048, .f32⟩
  | .local _ .vmem, ⟨5, _⟩ => ⟨S64x16x2048, .f32⟩
  | .local _ .vmem, ⟨6, _⟩ => ⟨S64x16x2048, .f32⟩
  | .local _ .vmem, ⟨7, _⟩ => ⟨S64x16x2048, .f32⟩
  | _, _ => ⟨S1024x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c_0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_c_1 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_c_2 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_c_3 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_c_4 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_c_5 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_c_6 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_c_7 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_c_8 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_c_9 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_c_10 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_c_11 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_c_12 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_c_13 : Ref sig .tc := ⟨.hbm, 304, rfl⟩
abbrev main_v287 : Ref sig .tc := ⟨.hbm, 305, rfl⟩
abbrev main_v288 : Ref sig .tc := ⟨.hbm, 306, rfl⟩
abbrev main_v289 : Ref sig .tc := ⟨.hbm, 307, rfl⟩
abbrev main_v290 : Ref sig .tc := ⟨.hbm, 308, rfl⟩
abbrev main_v291 : Ref sig .tc := ⟨.hbm, 309, rfl⟩
abbrev main_v292 : Ref sig .tc := ⟨.hbm, 310, rfl⟩
abbrev main_v293 : Ref sig .tc := ⟨.hbm, 311, rfl⟩
abbrev main_v294 : Ref sig .tc := ⟨.hbm, 312, rfl⟩
abbrev main_v295 : Ref sig .tc := ⟨.hbm, 313, rfl⟩
abbrev main_v296 : Ref sig .tc := ⟨.hbm, 314, rfl⟩
abbrev main_v297 : Ref sig .tc := ⟨.hbm, 315, rfl⟩
abbrev main_v298 : Ref sig .tc := ⟨.hbm, 316, rfl⟩
abbrev main_v299 : Ref sig .tc := ⟨.hbm, 317, rfl⟩
abbrev main_v300 : Ref sig .tc := ⟨.hbm, 318, rfl⟩
abbrev main_v301 : Ref sig .tc := ⟨.hbm, 319, rfl⟩
abbrev main_v302 : Ref sig .tc := ⟨.hbm, 320, rfl⟩
abbrev main_v303 : Ref sig .tc := ⟨.hbm, 321, rfl⟩
abbrev main_v304 : Ref sig .tc := ⟨.hbm, 322, rfl⟩
abbrev main_v305 : Ref sig .tc := ⟨.hbm, 323, rfl⟩
abbrev main_v306 : Ref sig .tc := ⟨.hbm, 324, rfl⟩
abbrev main_c_14 : Ref sig .tc := ⟨.hbm, 325, rfl⟩
abbrev main_v307 : Ref sig .tc := ⟨.hbm, 326, rfl⟩
abbrev main_v308 : Ref sig .tc := ⟨.hbm, 327, rfl⟩
abbrev main_c_15 : Ref sig .tc := ⟨.hbm, 328, rfl⟩
abbrev main_v309 : Ref sig .tc := ⟨.hbm, 329, rfl⟩
abbrev main_v310 : Ref sig .tc := ⟨.hbm, 330, rfl⟩
abbrev main_v311 : Ref sig .tc := ⟨.hbm, 331, rfl⟩
abbrev main_v312 : Ref sig .tc := ⟨.hbm, 332, rfl⟩
abbrev main_v313 : Ref sig .tc := ⟨.hbm, 333, rfl⟩
abbrev main_v314 : Ref sig .tc := ⟨.hbm, 334, rfl⟩
abbrev main_v315 : Ref sig .tc := ⟨.hbm, 335, rfl⟩
abbrev main_v316 : Ref sig .tc := ⟨.hbm, 336, rfl⟩
abbrev main_v317 : Ref sig .tc := ⟨.hbm, 337, rfl⟩
abbrev main_v318 : Ref sig .tc := ⟨.hbm, 338, rfl⟩
abbrev main_v319 : Ref sig .tc := ⟨.hbm, 339, rfl⟩
abbrev main_v320 : Ref sig .tc := ⟨.hbm, 340, rfl⟩
abbrev main_v321 : Ref sig .tc := ⟨.hbm, 341, rfl⟩
abbrev main_v322 : Ref sig .tc := ⟨.hbm, 342, rfl⟩
abbrev main_v323 : Ref sig .tc := ⟨.hbm, 343, rfl⟩
abbrev main_v324 : Ref sig .tc := ⟨.hbm, 344, rfl⟩
abbrev main_v325 : Ref sig .tc := ⟨.hbm, 345, rfl⟩
abbrev main_v326 : Ref sig .tc := ⟨.hbm, 346, rfl⟩
abbrev main_v327 : Ref sig .tc := ⟨.hbm, 347, rfl⟩
abbrev main_v328 : Ref sig .tc := ⟨.hbm, 348, rfl⟩
abbrev main_v329 : Ref sig .tc := ⟨.hbm, 349, rfl⟩
abbrev main_v330 : Ref sig .tc := ⟨.hbm, 350, rfl⟩
abbrev main_c_16 : Ref sig .tc := ⟨.hbm, 351, rfl⟩
abbrev main_v331 : Ref sig .tc := ⟨.hbm, 352, rfl⟩
abbrev main_v332 : Ref sig .tc := ⟨.hbm, 353, rfl⟩
abbrev main_v333 : Ref sig .tc := ⟨.hbm, 354, rfl⟩
abbrev main_v334 : Ref sig .tc := ⟨.hbm, 355, rfl⟩
abbrev main_v335 : Ref sig .tc := ⟨.hbm, 356, rfl⟩
abbrev main_v336 : Ref sig .tc := ⟨.hbm, 357, rfl⟩
abbrev main_v337 : Ref sig .tc := ⟨.hbm, 358, rfl⟩
abbrev main_v338 : Ref sig .tc := ⟨.hbm, 359, rfl⟩
abbrev main_v339 : Ref sig .tc := ⟨.hbm, 360, rfl⟩
abbrev main_v340 : Ref sig .tc := ⟨.hbm, 361, rfl⟩
abbrev main_v341 : Ref sig .tc := ⟨.hbm, 362, rfl⟩
abbrev main_v342 : Ref sig .tc := ⟨.hbm, 363, rfl⟩
abbrev main_v343 : Ref sig .tc := ⟨.hbm, 364, rfl⟩
abbrev main_v344 : Ref sig .tc := ⟨.hbm, 365, rfl⟩
abbrev main_v345 : Ref sig .tc := ⟨.hbm, 366, rfl⟩
abbrev main_v346 : Ref sig .tc := ⟨.hbm, 367, rfl⟩
abbrev main_v347 : Ref sig .tc := ⟨.hbm, 368, rfl⟩
abbrev main_v348 : Ref sig .tc := ⟨.hbm, 369, rfl⟩
abbrev main_v349 : Ref sig .tc := ⟨.hbm, 370, rfl⟩
abbrev main_v350 : Ref sig .tc := ⟨.hbm, 371, rfl⟩
abbrev main_c_17 : Ref sig .tc := ⟨.hbm, 372, rfl⟩
abbrev main_v351 : Ref sig .tc := ⟨.hbm, 373, rfl⟩
abbrev main_v352 : Ref sig .tc := ⟨.hbm, 374, rfl⟩
abbrev main_v353 : Ref sig .tc := ⟨.hbm, 375, rfl⟩
abbrev main_v354 : Ref sig .tc := ⟨.hbm, 376, rfl⟩
abbrev main_v355 : Ref sig .tc := ⟨.hbm, 377, rfl⟩
abbrev main_v356 : Ref sig .tc := ⟨.hbm, 378, rfl⟩
abbrev main_v357 : Ref sig .tc := ⟨.hbm, 379, rfl⟩
abbrev main_v358 : Ref sig .tc := ⟨.hbm, 380, rfl⟩
abbrev main_v359 : Ref sig .tc := ⟨.hbm, 381, rfl⟩
abbrev main_v360 : Ref sig .tc := ⟨.hbm, 382, rfl⟩
abbrev main_v361 : Ref sig .tc := ⟨.hbm, 383, rfl⟩
abbrev main_v362 : Ref sig .tc := ⟨.hbm, 384, rfl⟩
abbrev main_v363 : Ref sig .tc := ⟨.hbm, 385, rfl⟩
abbrev main_v364 : Ref sig .tc := ⟨.hbm, 386, rfl⟩
abbrev main_v365 : Ref sig .tc := ⟨.hbm, 387, rfl⟩
abbrev main_v366 : Ref sig .tc := ⟨.hbm, 388, rfl⟩
abbrev main_v367 : Ref sig .tc := ⟨.hbm, 389, rfl⟩
abbrev main_v368 : Ref sig .tc := ⟨.hbm, 390, rfl⟩
abbrev main_v369 : Ref sig .tc := ⟨.hbm, 391, rfl⟩
abbrev main_v370 : Ref sig .tc := ⟨.hbm, 392, rfl⟩
abbrev main_c_18 : Ref sig .tc := ⟨.hbm, 393, rfl⟩
abbrev main_v371 : Ref sig .tc := ⟨.hbm, 394, rfl⟩
abbrev main_v372 : Ref sig .tc := ⟨.hbm, 395, rfl⟩
abbrev main_v373 : Ref sig .tc := ⟨.hbm, 396, rfl⟩
abbrev main_v374 : Ref sig .tc := ⟨.hbm, 397, rfl⟩
abbrev main_v375 : Ref sig .tc := ⟨.hbm, 398, rfl⟩
abbrev main_v376 : Ref sig .tc := ⟨.hbm, 399, rfl⟩
abbrev main_v377 : Ref sig .tc := ⟨.hbm, 400, rfl⟩
abbrev main_v378 : Ref sig .tc := ⟨.hbm, 401, rfl⟩
abbrev main_v379 : Ref sig .tc := ⟨.hbm, 402, rfl⟩
abbrev main_v380 : Ref sig .tc := ⟨.hbm, 403, rfl⟩
abbrev main_v381 : Ref sig .tc := ⟨.hbm, 404, rfl⟩
abbrev main_v382 : Ref sig .tc := ⟨.hbm, 405, rfl⟩
abbrev main_v383 : Ref sig .tc := ⟨.hbm, 406, rfl⟩
abbrev main_v384 : Ref sig .tc := ⟨.hbm, 407, rfl⟩
abbrev main_v385 : Ref sig .tc := ⟨.hbm, 408, rfl⟩
abbrev main_v386 : Ref sig .tc := ⟨.hbm, 409, rfl⟩
abbrev main_v387 : Ref sig .tc := ⟨.hbm, 410, rfl⟩
abbrev main_v388 : Ref sig .tc := ⟨.hbm, 411, rfl⟩
abbrev main_v389 : Ref sig .tc := ⟨.hbm, 412, rfl⟩
abbrev main_v390 : Ref sig .tc := ⟨.hbm, 413, rfl⟩
abbrev main_c_19 : Ref sig .tc := ⟨.hbm, 414, rfl⟩
abbrev main_v391 : Ref sig .tc := ⟨.hbm, 415, rfl⟩
abbrev main_v392 : Ref sig .tc := ⟨.hbm, 416, rfl⟩
abbrev main_v393 : Ref sig .tc := ⟨.hbm, 417, rfl⟩
abbrev main_v394 : Ref sig .tc := ⟨.hbm, 418, rfl⟩
abbrev main_v395 : Ref sig .tc := ⟨.hbm, 419, rfl⟩
abbrev main_v396 : Ref sig .tc := ⟨.hbm, 420, rfl⟩
abbrev main_v397 : Ref sig .tc := ⟨.hbm, 421, rfl⟩
abbrev main_v398 : Ref sig .tc := ⟨.hbm, 422, rfl⟩
abbrev main_v399 : Ref sig .tc := ⟨.hbm, 423, rfl⟩
abbrev main_v400 : Ref sig .tc := ⟨.hbm, 424, rfl⟩
abbrev main_v401 : Ref sig .tc := ⟨.hbm, 425, rfl⟩
abbrev main_v402 : Ref sig .tc := ⟨.hbm, 426, rfl⟩
abbrev main_v403 : Ref sig .tc := ⟨.hbm, 427, rfl⟩
abbrev main_v404 : Ref sig .tc := ⟨.hbm, 428, rfl⟩
abbrev main_v405 : Ref sig .tc := ⟨.hbm, 429, rfl⟩
abbrev main_v406 : Ref sig .tc := ⟨.hbm, 430, rfl⟩
abbrev main_v407 : Ref sig .tc := ⟨.hbm, 431, rfl⟩
abbrev main_v408 : Ref sig .tc := ⟨.hbm, 432, rfl⟩
abbrev main_v409 : Ref sig .tc := ⟨.hbm, 433, rfl⟩
abbrev main_v410 : Ref sig .tc := ⟨.hbm, 434, rfl⟩
abbrev main_c_20 : Ref sig .tc := ⟨.hbm, 435, rfl⟩
abbrev main_v411 : Ref sig .tc := ⟨.hbm, 436, rfl⟩
abbrev main_v412 : Ref sig .tc := ⟨.hbm, 437, rfl⟩
abbrev main_v413 : Ref sig .tc := ⟨.hbm, 438, rfl⟩
abbrev main_v414 : Ref sig .tc := ⟨.hbm, 439, rfl⟩
abbrev main_v415 : Ref sig .tc := ⟨.hbm, 440, rfl⟩
abbrev main_v416 : Ref sig .tc := ⟨.hbm, 441, rfl⟩
abbrev main_v417 : Ref sig .tc := ⟨.hbm, 442, rfl⟩
abbrev main_v418 : Ref sig .tc := ⟨.hbm, 443, rfl⟩
abbrev main_v419 : Ref sig .tc := ⟨.hbm, 444, rfl⟩
abbrev main_v420 : Ref sig .tc := ⟨.hbm, 445, rfl⟩
abbrev main_v421 : Ref sig .tc := ⟨.hbm, 446, rfl⟩
abbrev main_v422 : Ref sig .tc := ⟨.hbm, 447, rfl⟩
abbrev main_v423 : Ref sig .tc := ⟨.hbm, 448, rfl⟩
abbrev main_v424 : Ref sig .tc := ⟨.hbm, 449, rfl⟩
abbrev main_v425 : Ref sig .tc := ⟨.hbm, 450, rfl⟩
abbrev main_v426 : Ref sig .tc := ⟨.hbm, 451, rfl⟩
abbrev main_v427 : Ref sig .tc := ⟨.hbm, 452, rfl⟩
abbrev main_v428 : Ref sig .tc := ⟨.hbm, 453, rfl⟩
abbrev main_v429 : Ref sig .tc := ⟨.hbm, 454, rfl⟩
abbrev main_v430 : Ref sig .tc := ⟨.hbm, 455, rfl⟩
abbrev main_c_21 : Ref sig .tc := ⟨.hbm, 456, rfl⟩
abbrev main_v431 : Ref sig .tc := ⟨.hbm, 457, rfl⟩
abbrev main_v432 : Ref sig .tc := ⟨.hbm, 458, rfl⟩
abbrev main_v433 : Ref sig .tc := ⟨.hbm, 459, rfl⟩
abbrev main_v434 : Ref sig .tc := ⟨.hbm, 460, rfl⟩
abbrev main_v435 : Ref sig .tc := ⟨.hbm, 461, rfl⟩
abbrev main_v436 : Ref sig .tc := ⟨.hbm, 462, rfl⟩
abbrev main_v437 : Ref sig .tc := ⟨.hbm, 463, rfl⟩
abbrev main_v438 : Ref sig .tc := ⟨.hbm, 464, rfl⟩
abbrev main_v439 : Ref sig .tc := ⟨.hbm, 465, rfl⟩
abbrev main_v440 : Ref sig .tc := ⟨.hbm, 466, rfl⟩
abbrev main_v441 : Ref sig .tc := ⟨.hbm, 467, rfl⟩
abbrev main_v442 : Ref sig .tc := ⟨.hbm, 468, rfl⟩
abbrev main_v443 : Ref sig .tc := ⟨.hbm, 469, rfl⟩
abbrev main_v444 : Ref sig .tc := ⟨.hbm, 470, rfl⟩
abbrev main_v445 : Ref sig .tc := ⟨.hbm, 471, rfl⟩
abbrev main_v446 : Ref sig .tc := ⟨.hbm, 472, rfl⟩
abbrev main_v447 : Ref sig .tc := ⟨.hbm, 473, rfl⟩
abbrev main_v448 : Ref sig .tc := ⟨.hbm, 474, rfl⟩
abbrev main_v449 : Ref sig .tc := ⟨.hbm, 475, rfl⟩
abbrev main_v450 : Ref sig .tc := ⟨.hbm, 476, rfl⟩
abbrev main_c_22 : Ref sig .tc := ⟨.hbm, 477, rfl⟩
abbrev main_v451 : Ref sig .tc := ⟨.hbm, 478, rfl⟩
abbrev main_v452 : Ref sig .tc := ⟨.hbm, 479, rfl⟩
abbrev main_v453 : Ref sig .tc := ⟨.hbm, 480, rfl⟩
abbrev main_v454 : Ref sig .tc := ⟨.hbm, 481, rfl⟩
abbrev main_v455 : Ref sig .tc := ⟨.hbm, 482, rfl⟩
abbrev main_v456 : Ref sig .tc := ⟨.hbm, 483, rfl⟩
abbrev main_v457 : Ref sig .tc := ⟨.hbm, 484, rfl⟩
abbrev main_v458 : Ref sig .tc := ⟨.hbm, 485, rfl⟩
abbrev main_v459 : Ref sig .tc := ⟨.hbm, 486, rfl⟩
abbrev main_v460 : Ref sig .tc := ⟨.hbm, 487, rfl⟩
abbrev main_v461 : Ref sig .tc := ⟨.hbm, 488, rfl⟩
abbrev main_v462 : Ref sig .tc := ⟨.hbm, 489, rfl⟩
abbrev main_v463 : Ref sig .tc := ⟨.hbm, 490, rfl⟩
abbrev main_v464 : Ref sig .tc := ⟨.hbm, 491, rfl⟩
abbrev main_v465 : Ref sig .tc := ⟨.hbm, 492, rfl⟩
abbrev main_v466 : Ref sig .tc := ⟨.hbm, 493, rfl⟩
abbrev main_v467 : Ref sig .tc := ⟨.hbm, 494, rfl⟩
abbrev main_v468 : Ref sig .tc := ⟨.hbm, 495, rfl⟩
abbrev main_v469 : Ref sig .tc := ⟨.hbm, 496, rfl⟩
abbrev main_v470 : Ref sig .tc := ⟨.hbm, 497, rfl⟩
abbrev main_c_23 : Ref sig .tc := ⟨.hbm, 498, rfl⟩
abbrev main_v471 : Ref sig .tc := ⟨.hbm, 499, rfl⟩
abbrev main_v472 : Ref sig .tc := ⟨.hbm, 500, rfl⟩
abbrev main_v473 : Ref sig .tc := ⟨.hbm, 501, rfl⟩
abbrev main_v474 : Ref sig .tc := ⟨.hbm, 502, rfl⟩
abbrev main_v475 : Ref sig .tc := ⟨.hbm, 503, rfl⟩
abbrev main_v476 : Ref sig .tc := ⟨.hbm, 504, rfl⟩
abbrev main_v477 : Ref sig .tc := ⟨.hbm, 505, rfl⟩
abbrev main_v478 : Ref sig .tc := ⟨.hbm, 506, rfl⟩
abbrev main_v479 : Ref sig .tc := ⟨.hbm, 507, rfl⟩
abbrev main_v480 : Ref sig .tc := ⟨.hbm, 508, rfl⟩
abbrev main_v481 : Ref sig .tc := ⟨.hbm, 509, rfl⟩
abbrev main_v482 : Ref sig .tc := ⟨.hbm, 510, rfl⟩
abbrev main_v483 : Ref sig .tc := ⟨.hbm, 511, rfl⟩
abbrev main_v484 : Ref sig .tc := ⟨.hbm, 512, rfl⟩
abbrev main_v485 : Ref sig .tc := ⟨.hbm, 513, rfl⟩
abbrev main_v486 : Ref sig .tc := ⟨.hbm, 514, rfl⟩
abbrev main_v487 : Ref sig .tc := ⟨.hbm, 515, rfl⟩
abbrev main_v488 : Ref sig .tc := ⟨.hbm, 516, rfl⟩
abbrev main_v489 : Ref sig .tc := ⟨.hbm, 517, rfl⟩
abbrev main_v490 : Ref sig .tc := ⟨.hbm, 518, rfl⟩
abbrev main_c_24 : Ref sig .tc := ⟨.hbm, 519, rfl⟩
abbrev main_v491 : Ref sig .tc := ⟨.hbm, 520, rfl⟩
abbrev main_v492 : Ref sig .tc := ⟨.hbm, 521, rfl⟩
abbrev main_v493 : Ref sig .tc := ⟨.hbm, 522, rfl⟩
abbrev main_v494 : Ref sig .tc := ⟨.hbm, 523, rfl⟩
abbrev main_v495 : Ref sig .tc := ⟨.hbm, 524, rfl⟩
abbrev main_v496 : Ref sig .tc := ⟨.hbm, 525, rfl⟩
abbrev main_v497 : Ref sig .tc := ⟨.hbm, 526, rfl⟩
abbrev main_v498 : Ref sig .tc := ⟨.hbm, 527, rfl⟩
abbrev main_v499 : Ref sig .tc := ⟨.hbm, 528, rfl⟩
abbrev main_v500 : Ref sig .tc := ⟨.hbm, 529, rfl⟩
abbrev main_v501 : Ref sig .tc := ⟨.hbm, 530, rfl⟩
abbrev main_v502 : Ref sig .tc := ⟨.hbm, 531, rfl⟩
abbrev main_v503 : Ref sig .tc := ⟨.hbm, 532, rfl⟩
abbrev main_v504 : Ref sig .tc := ⟨.hbm, 533, rfl⟩
abbrev main_v505 : Ref sig .tc := ⟨.hbm, 534, rfl⟩
abbrev main_v506 : Ref sig .tc := ⟨.hbm, 535, rfl⟩
abbrev main_v507 : Ref sig .tc := ⟨.hbm, 536, rfl⟩
abbrev main_v508 : Ref sig .tc := ⟨.hbm, 537, rfl⟩
abbrev main_v509 : Ref sig .tc := ⟨.hbm, 538, rfl⟩
abbrev main_v510 : Ref sig .tc := ⟨.hbm, 539, rfl⟩
abbrev main_c_25 : Ref sig .tc := ⟨.hbm, 540, rfl⟩
abbrev main_v511 : Ref sig .tc := ⟨.hbm, 541, rfl⟩
abbrev main_v512 : Ref sig .tc := ⟨.hbm, 542, rfl⟩
abbrev main_v513 : Ref sig .tc := ⟨.hbm, 543, rfl⟩
abbrev main_v514 : Ref sig .tc := ⟨.hbm, 544, rfl⟩
abbrev main_v515 : Ref sig .tc := ⟨.hbm, 545, rfl⟩
abbrev main_v516 : Ref sig .tc := ⟨.hbm, 546, rfl⟩
abbrev main_v517 : Ref sig .tc := ⟨.hbm, 547, rfl⟩
abbrev main_v518 : Ref sig .tc := ⟨.hbm, 548, rfl⟩
abbrev main_v519 : Ref sig .tc := ⟨.hbm, 549, rfl⟩
abbrev main_v520 : Ref sig .tc := ⟨.hbm, 550, rfl⟩
abbrev main_v521 : Ref sig .tc := ⟨.hbm, 551, rfl⟩
abbrev main_v522 : Ref sig .tc := ⟨.hbm, 552, rfl⟩
abbrev main_v523 : Ref sig .tc := ⟨.hbm, 553, rfl⟩
abbrev main_v524 : Ref sig .tc := ⟨.hbm, 554, rfl⟩
abbrev main_v525 : Ref sig .tc := ⟨.hbm, 555, rfl⟩
abbrev main_v526 : Ref sig .tc := ⟨.hbm, 556, rfl⟩
abbrev main_v527 : Ref sig .tc := ⟨.hbm, 557, rfl⟩
abbrev main_v528 : Ref sig .tc := ⟨.hbm, 558, rfl⟩
abbrev main_v529 : Ref sig .tc := ⟨.hbm, 559, rfl⟩
abbrev main_v530 : Ref sig .tc := ⟨.hbm, 560, rfl⟩
abbrev main_c_26 : Ref sig .tc := ⟨.hbm, 561, rfl⟩
abbrev main_v531 : Ref sig .tc := ⟨.hbm, 562, rfl⟩
abbrev main_v532 : Ref sig .tc := ⟨.hbm, 563, rfl⟩
abbrev main_v533 : Ref sig .tc := ⟨.hbm, 564, rfl⟩
abbrev main_v534 : Ref sig .tc := ⟨.hbm, 565, rfl⟩
abbrev main_v535 : Ref sig .tc := ⟨.hbm, 566, rfl⟩
abbrev main_v536 : Ref sig .tc := ⟨.hbm, 567, rfl⟩
abbrev main_v537 : Ref sig .tc := ⟨.hbm, 568, rfl⟩
abbrev main_v538 : Ref sig .tc := ⟨.hbm, 569, rfl⟩
abbrev main_v539 : Ref sig .tc := ⟨.hbm, 570, rfl⟩
abbrev main_v540 : Ref sig .tc := ⟨.hbm, 571, rfl⟩
abbrev main_v541 : Ref sig .tc := ⟨.hbm, 572, rfl⟩
abbrev main_v542 : Ref sig .tc := ⟨.hbm, 573, rfl⟩
abbrev main_v543 : Ref sig .tc := ⟨.hbm, 574, rfl⟩
abbrev main_v544 : Ref sig .tc := ⟨.hbm, 575, rfl⟩
abbrev main_v545 : Ref sig .tc := ⟨.hbm, 576, rfl⟩
abbrev main_v546 : Ref sig .tc := ⟨.hbm, 577, rfl⟩
abbrev main_v547 : Ref sig .tc := ⟨.hbm, 578, rfl⟩
abbrev main_v548 : Ref sig .tc := ⟨.hbm, 579, rfl⟩
abbrev main_v549 : Ref sig .tc := ⟨.hbm, 580, rfl⟩
abbrev main_v550 : Ref sig .tc := ⟨.hbm, 581, rfl⟩
abbrev main_c_27 : Ref sig .tc := ⟨.hbm, 582, rfl⟩
abbrev main_v551 : Ref sig .tc := ⟨.hbm, 583, rfl⟩
abbrev main_v552 : Ref sig .tc := ⟨.hbm, 584, rfl⟩
abbrev main_v553 : Ref sig .tc := ⟨.hbm, 585, rfl⟩
abbrev main_v554 : Ref sig .tc := ⟨.hbm, 586, rfl⟩
abbrev main_v555 : Ref sig .tc := ⟨.hbm, 587, rfl⟩
abbrev main_v556 : Ref sig .tc := ⟨.hbm, 588, rfl⟩
abbrev main_v557 : Ref sig .tc := ⟨.hbm, 589, rfl⟩
abbrev main_v558 : Ref sig .tc := ⟨.hbm, 590, rfl⟩
abbrev main_v559 : Ref sig .tc := ⟨.hbm, 591, rfl⟩
abbrev main_v560 : Ref sig .tc := ⟨.hbm, 592, rfl⟩
abbrev main_v561 : Ref sig .tc := ⟨.hbm, 593, rfl⟩
abbrev main_v562 : Ref sig .tc := ⟨.hbm, 594, rfl⟩
abbrev main_v563 : Ref sig .tc := ⟨.hbm, 595, rfl⟩
abbrev main_v564 : Ref sig .tc := ⟨.hbm, 596, rfl⟩
abbrev main_v565 : Ref sig .tc := ⟨.hbm, 597, rfl⟩
abbrev main_v566 : Ref sig .tc := ⟨.hbm, 598, rfl⟩
abbrev main_v567 : Ref sig .tc := ⟨.hbm, 599, rfl⟩
abbrev main_v568 : Ref sig .tc := ⟨.hbm, 600, rfl⟩
abbrev main_v569 : Ref sig .tc := ⟨.hbm, 601, rfl⟩
abbrev main_v570 : Ref sig .tc := ⟨.hbm, 602, rfl⟩
abbrev main_c_28 : Ref sig .tc := ⟨.hbm, 603, rfl⟩
abbrev main_v571 : Ref sig .tc := ⟨.hbm, 604, rfl⟩
abbrev main_v572 : Ref sig .tc := ⟨.hbm, 605, rfl⟩
abbrev main_v573 : Ref sig .tc := ⟨.hbm, 606, rfl⟩
abbrev main_v574 : Ref sig .tc := ⟨.hbm, 607, rfl⟩
abbrev main_v575 : Ref sig .tc := ⟨.hbm, 608, rfl⟩
abbrev main_v576 : Ref sig .tc := ⟨.hbm, 609, rfl⟩
abbrev main_v577 : Ref sig .tc := ⟨.hbm, 610, rfl⟩
abbrev main_v578 : Ref sig .tc := ⟨.hbm, 611, rfl⟩
abbrev main_v579 : Ref sig .tc := ⟨.hbm, 612, rfl⟩
abbrev main_v580 : Ref sig .tc := ⟨.hbm, 613, rfl⟩
abbrev main_v581 : Ref sig .tc := ⟨.hbm, 614, rfl⟩
abbrev main_v582 : Ref sig .tc := ⟨.hbm, 615, rfl⟩
abbrev main_v583 : Ref sig .tc := ⟨.hbm, 616, rfl⟩
abbrev main_v584 : Ref sig .tc := ⟨.hbm, 617, rfl⟩
abbrev main_v585 : Ref sig .tc := ⟨.hbm, 618, rfl⟩
abbrev main_v586 : Ref sig .tc := ⟨.hbm, 619, rfl⟩
abbrev main_v587 : Ref sig .tc := ⟨.hbm, 620, rfl⟩
abbrev main_v588 : Ref sig .tc := ⟨.hbm, 621, rfl⟩
abbrev main_v589 : Ref sig .tc := ⟨.hbm, 622, rfl⟩
abbrev main_v590 : Ref sig .tc := ⟨.hbm, 623, rfl⟩
abbrev main_c_29 : Ref sig .tc := ⟨.hbm, 624, rfl⟩
abbrev main_v591 : Ref sig .tc := ⟨.hbm, 625, rfl⟩
abbrev main_v592 : Ref sig .tc := ⟨.hbm, 626, rfl⟩
abbrev main_c_30 : Ref sig .tc := ⟨.hbm, 627, rfl⟩
abbrev main_v593 : Ref sig .tc := ⟨.hbm, 628, rfl⟩
abbrev main_v594 : Ref sig .tc := ⟨.hbm, 629, rfl⟩
abbrev main_v595 : Ref sig .tc := ⟨.hbm, 630, rfl⟩
abbrev main_v596 : Ref sig .tc := ⟨.hbm, 631, rfl⟩
abbrev main_v597 : Ref sig .tc := ⟨.hbm, 632, rfl⟩
abbrev main_v598 : Ref sig .tc := ⟨.hbm, 633, rfl⟩
abbrev main_v599 : Ref sig .tc := ⟨.hbm, 634, rfl⟩
abbrev main_v600 : Ref sig .tc := ⟨.hbm, 635, rfl⟩
abbrev main_v601 : Ref sig .tc := ⟨.hbm, 636, rfl⟩
abbrev main_v602 : Ref sig .tc := ⟨.hbm, 637, rfl⟩
abbrev main_v603 : Ref sig .tc := ⟨.hbm, 638, rfl⟩
abbrev main_v604 : Ref sig .tc := ⟨.hbm, 639, rfl⟩
abbrev main_v605 : Ref sig .tc := ⟨.hbm, 640, rfl⟩
abbrev main_v606 : Ref sig .tc := ⟨.hbm, 641, rfl⟩
abbrev main_v607 : Ref sig .tc := ⟨.hbm, 642, rfl⟩
abbrev main_v608 : Ref sig .tc := ⟨.hbm, 643, rfl⟩
abbrev main_v609 : Ref sig .tc := ⟨.hbm, 644, rfl⟩
abbrev main_v610 : Ref sig .tc := ⟨.hbm, 645, rfl⟩
abbrev main_v611 : Ref sig .tc := ⟨.hbm, 646, rfl⟩
abbrev main_v612 : Ref sig .tc := ⟨.hbm, 647, rfl⟩
abbrev main_v613 : Ref sig .tc := ⟨.hbm, 648, rfl⟩
abbrev main_v614 : Ref sig .tc := ⟨.hbm, 649, rfl⟩
abbrev main_c_31 : Ref sig .tc := ⟨.hbm, 650, rfl⟩
abbrev main_v615 : Ref sig .tc := ⟨.hbm, 651, rfl⟩
abbrev main_v616 : Ref sig .tc := ⟨.hbm, 652, rfl⟩
abbrev main_v617 : Ref sig .tc := ⟨.hbm, 653, rfl⟩
abbrev main_v618 : Ref sig .tc := ⟨.hbm, 654, rfl⟩
abbrev main_v619 : Ref sig .tc := ⟨.hbm, 655, rfl⟩
abbrev main_v620 : Ref sig .tc := ⟨.hbm, 656, rfl⟩
abbrev main_v621 : Ref sig .tc := ⟨.hbm, 657, rfl⟩
abbrev main_v622 : Ref sig .tc := ⟨.hbm, 658, rfl⟩
abbrev main_v623 : Ref sig .tc := ⟨.hbm, 659, rfl⟩
abbrev main_v624 : Ref sig .tc := ⟨.hbm, 660, rfl⟩
abbrev main_v625 : Ref sig .tc := ⟨.hbm, 661, rfl⟩
abbrev main_v626 : Ref sig .tc := ⟨.hbm, 662, rfl⟩
abbrev main_v627 : Ref sig .tc := ⟨.hbm, 663, rfl⟩
abbrev main_v628 : Ref sig .tc := ⟨.hbm, 664, rfl⟩
abbrev main_v629 : Ref sig .tc := ⟨.hbm, 665, rfl⟩
abbrev main_v630 : Ref sig .tc := ⟨.hbm, 666, rfl⟩
abbrev main_v631 : Ref sig .tc := ⟨.hbm, 667, rfl⟩
abbrev main_v632 : Ref sig .tc := ⟨.hbm, 668, rfl⟩
abbrev main_v633 : Ref sig .tc := ⟨.hbm, 669, rfl⟩
abbrev main_v634 : Ref sig .tc := ⟨.hbm, 670, rfl⟩
abbrev main_c_32 : Ref sig .tc := ⟨.hbm, 671, rfl⟩
abbrev main_v635 : Ref sig .tc := ⟨.hbm, 672, rfl⟩
abbrev main_v636 : Ref sig .tc := ⟨.hbm, 673, rfl⟩
abbrev main_v637 : Ref sig .tc := ⟨.hbm, 674, rfl⟩
abbrev main_v638 : Ref sig .tc := ⟨.hbm, 675, rfl⟩
abbrev main_v639 : Ref sig .tc := ⟨.hbm, 676, rfl⟩
abbrev main_v640 : Ref sig .tc := ⟨.hbm, 677, rfl⟩
abbrev main_v641 : Ref sig .tc := ⟨.hbm, 678, rfl⟩
abbrev main_v642 : Ref sig .tc := ⟨.hbm, 679, rfl⟩
abbrev main_v643 : Ref sig .tc := ⟨.hbm, 680, rfl⟩
abbrev main_v644 : Ref sig .tc := ⟨.hbm, 681, rfl⟩
abbrev main_v645 : Ref sig .tc := ⟨.hbm, 682, rfl⟩
abbrev main_v646 : Ref sig .tc := ⟨.hbm, 683, rfl⟩
abbrev main_v647 : Ref sig .tc := ⟨.hbm, 684, rfl⟩
abbrev main_v648 : Ref sig .tc := ⟨.hbm, 685, rfl⟩
abbrev main_v649 : Ref sig .tc := ⟨.hbm, 686, rfl⟩
abbrev main_v650 : Ref sig .tc := ⟨.hbm, 687, rfl⟩
abbrev main_v651 : Ref sig .tc := ⟨.hbm, 688, rfl⟩
abbrev main_v652 : Ref sig .tc := ⟨.hbm, 689, rfl⟩
abbrev main_v653 : Ref sig .tc := ⟨.hbm, 690, rfl⟩
abbrev main_v654 : Ref sig .tc := ⟨.hbm, 691, rfl⟩
abbrev main_c_33 : Ref sig .tc := ⟨.hbm, 692, rfl⟩
abbrev main_v655 : Ref sig .tc := ⟨.hbm, 693, rfl⟩
abbrev main_v656 : Ref sig .tc := ⟨.hbm, 694, rfl⟩
abbrev main_v657 : Ref sig .tc := ⟨.hbm, 695, rfl⟩
abbrev main_v658 : Ref sig .tc := ⟨.hbm, 696, rfl⟩
abbrev main_v659 : Ref sig .tc := ⟨.hbm, 697, rfl⟩
abbrev main_v660 : Ref sig .tc := ⟨.hbm, 698, rfl⟩
abbrev main_v661 : Ref sig .tc := ⟨.hbm, 699, rfl⟩
abbrev main_v662 : Ref sig .tc := ⟨.hbm, 700, rfl⟩
abbrev main_v663 : Ref sig .tc := ⟨.hbm, 701, rfl⟩
abbrev main_v664 : Ref sig .tc := ⟨.hbm, 702, rfl⟩
abbrev main_v665 : Ref sig .tc := ⟨.hbm, 703, rfl⟩
abbrev main_v666 : Ref sig .tc := ⟨.hbm, 704, rfl⟩
abbrev main_v667 : Ref sig .tc := ⟨.hbm, 705, rfl⟩
abbrev main_v668 : Ref sig .tc := ⟨.hbm, 706, rfl⟩
abbrev main_v669 : Ref sig .tc := ⟨.hbm, 707, rfl⟩
abbrev main_v670 : Ref sig .tc := ⟨.hbm, 708, rfl⟩
abbrev main_v671 : Ref sig .tc := ⟨.hbm, 709, rfl⟩
abbrev main_v672 : Ref sig .tc := ⟨.hbm, 710, rfl⟩
abbrev main_v673 : Ref sig .tc := ⟨.hbm, 711, rfl⟩
abbrev main_v674 : Ref sig .tc := ⟨.hbm, 712, rfl⟩
abbrev main_c_34 : Ref sig .tc := ⟨.hbm, 713, rfl⟩
abbrev main_v675 : Ref sig .tc := ⟨.hbm, 714, rfl⟩
abbrev main_v676 : Ref sig .tc := ⟨.hbm, 715, rfl⟩
abbrev main_v677 : Ref sig .tc := ⟨.hbm, 716, rfl⟩
abbrev main_v678 : Ref sig .tc := ⟨.hbm, 717, rfl⟩
abbrev main_v679 : Ref sig .tc := ⟨.hbm, 718, rfl⟩
abbrev main_v680 : Ref sig .tc := ⟨.hbm, 719, rfl⟩
abbrev main_v681 : Ref sig .tc := ⟨.hbm, 720, rfl⟩
abbrev main_v682 : Ref sig .tc := ⟨.hbm, 721, rfl⟩
abbrev main_v683 : Ref sig .tc := ⟨.hbm, 722, rfl⟩
abbrev main_v684 : Ref sig .tc := ⟨.hbm, 723, rfl⟩
abbrev main_v685 : Ref sig .tc := ⟨.hbm, 724, rfl⟩
abbrev main_v686 : Ref sig .tc := ⟨.hbm, 725, rfl⟩
abbrev main_v687 : Ref sig .tc := ⟨.hbm, 726, rfl⟩
abbrev main_v688 : Ref sig .tc := ⟨.hbm, 727, rfl⟩
abbrev main_v689 : Ref sig .tc := ⟨.hbm, 728, rfl⟩
abbrev main_v690 : Ref sig .tc := ⟨.hbm, 729, rfl⟩
abbrev main_v691 : Ref sig .tc := ⟨.hbm, 730, rfl⟩
abbrev main_v692 : Ref sig .tc := ⟨.hbm, 731, rfl⟩
abbrev main_v693 : Ref sig .tc := ⟨.hbm, 732, rfl⟩
abbrev main_v694 : Ref sig .tc := ⟨.hbm, 733, rfl⟩
abbrev main_c_35 : Ref sig .tc := ⟨.hbm, 734, rfl⟩
abbrev main_v695 : Ref sig .tc := ⟨.hbm, 735, rfl⟩
abbrev main_v696 : Ref sig .tc := ⟨.hbm, 736, rfl⟩
abbrev main_v697 : Ref sig .tc := ⟨.hbm, 737, rfl⟩
abbrev main_v698 : Ref sig .tc := ⟨.hbm, 738, rfl⟩
abbrev main_v699 : Ref sig .tc := ⟨.hbm, 739, rfl⟩
abbrev main_v700 : Ref sig .tc := ⟨.hbm, 740, rfl⟩
abbrev main_v701 : Ref sig .tc := ⟨.hbm, 741, rfl⟩
abbrev main_v702 : Ref sig .tc := ⟨.hbm, 742, rfl⟩
abbrev main_v703 : Ref sig .tc := ⟨.hbm, 743, rfl⟩
abbrev main_v704 : Ref sig .tc := ⟨.hbm, 744, rfl⟩
abbrev main_v705 : Ref sig .tc := ⟨.hbm, 745, rfl⟩
abbrev main_v706 : Ref sig .tc := ⟨.hbm, 746, rfl⟩
abbrev main_v707 : Ref sig .tc := ⟨.hbm, 747, rfl⟩
abbrev main_v708 : Ref sig .tc := ⟨.hbm, 748, rfl⟩
abbrev main_v709 : Ref sig .tc := ⟨.hbm, 749, rfl⟩
abbrev main_v710 : Ref sig .tc := ⟨.hbm, 750, rfl⟩
abbrev main_v711 : Ref sig .tc := ⟨.hbm, 751, rfl⟩
abbrev main_v712 : Ref sig .tc := ⟨.hbm, 752, rfl⟩
abbrev main_v713 : Ref sig .tc := ⟨.hbm, 753, rfl⟩
abbrev main_v714 : Ref sig .tc := ⟨.hbm, 754, rfl⟩
abbrev main_c_36 : Ref sig .tc := ⟨.hbm, 755, rfl⟩
abbrev main_v715 : Ref sig .tc := ⟨.hbm, 756, rfl⟩
abbrev main_v716 : Ref sig .tc := ⟨.hbm, 757, rfl⟩
abbrev main_v717 : Ref sig .tc := ⟨.hbm, 758, rfl⟩
abbrev main_v718 : Ref sig .tc := ⟨.hbm, 759, rfl⟩
abbrev main_v719 : Ref sig .tc := ⟨.hbm, 760, rfl⟩
abbrev main_v720 : Ref sig .tc := ⟨.hbm, 761, rfl⟩
abbrev main_v721 : Ref sig .tc := ⟨.hbm, 762, rfl⟩
abbrev main_v722 : Ref sig .tc := ⟨.hbm, 763, rfl⟩
abbrev main_v723 : Ref sig .tc := ⟨.hbm, 764, rfl⟩
abbrev main_v724 : Ref sig .tc := ⟨.hbm, 765, rfl⟩
abbrev main_v725 : Ref sig .tc := ⟨.hbm, 766, rfl⟩
abbrev main_v726 : Ref sig .tc := ⟨.hbm, 767, rfl⟩
abbrev main_v727 : Ref sig .tc := ⟨.hbm, 768, rfl⟩
abbrev main_v728 : Ref sig .tc := ⟨.hbm, 769, rfl⟩
abbrev main_v729 : Ref sig .tc := ⟨.hbm, 770, rfl⟩
abbrev main_v730 : Ref sig .tc := ⟨.hbm, 771, rfl⟩
abbrev main_v731 : Ref sig .tc := ⟨.hbm, 772, rfl⟩
abbrev main_v732 : Ref sig .tc := ⟨.hbm, 773, rfl⟩
abbrev main_v733 : Ref sig .tc := ⟨.hbm, 774, rfl⟩
abbrev main_v734 : Ref sig .tc := ⟨.hbm, 775, rfl⟩
abbrev main_c_37 : Ref sig .tc := ⟨.hbm, 776, rfl⟩
abbrev main_v735 : Ref sig .tc := ⟨.hbm, 777, rfl⟩
abbrev main_v736 : Ref sig .tc := ⟨.hbm, 778, rfl⟩
abbrev main_v737 : Ref sig .tc := ⟨.hbm, 779, rfl⟩
abbrev main_v738 : Ref sig .tc := ⟨.hbm, 780, rfl⟩
abbrev main_v739 : Ref sig .tc := ⟨.hbm, 781, rfl⟩
abbrev main_v740 : Ref sig .tc := ⟨.hbm, 782, rfl⟩
abbrev main_v741 : Ref sig .tc := ⟨.hbm, 783, rfl⟩
abbrev main_v742 : Ref sig .tc := ⟨.hbm, 784, rfl⟩
abbrev main_v743 : Ref sig .tc := ⟨.hbm, 785, rfl⟩
abbrev main_v744 : Ref sig .tc := ⟨.hbm, 786, rfl⟩
abbrev main_v745 : Ref sig .tc := ⟨.hbm, 787, rfl⟩
abbrev main_v746 : Ref sig .tc := ⟨.hbm, 788, rfl⟩
abbrev main_v747 : Ref sig .tc := ⟨.hbm, 789, rfl⟩
abbrev main_v748 : Ref sig .tc := ⟨.hbm, 790, rfl⟩
abbrev main_v749 : Ref sig .tc := ⟨.hbm, 791, rfl⟩
abbrev main_v750 : Ref sig .tc := ⟨.hbm, 792, rfl⟩
abbrev main_v751 : Ref sig .tc := ⟨.hbm, 793, rfl⟩
abbrev main_v752 : Ref sig .tc := ⟨.hbm, 794, rfl⟩
abbrev main_v753 : Ref sig .tc := ⟨.hbm, 795, rfl⟩
abbrev main_v754 : Ref sig .tc := ⟨.hbm, 796, rfl⟩
abbrev main_c_38 : Ref sig .tc := ⟨.hbm, 797, rfl⟩
abbrev main_v755 : Ref sig .tc := ⟨.hbm, 798, rfl⟩
abbrev main_v756 : Ref sig .tc := ⟨.hbm, 799, rfl⟩
abbrev main_v757 : Ref sig .tc := ⟨.hbm, 800, rfl⟩
abbrev main_v758 : Ref sig .tc := ⟨.hbm, 801, rfl⟩
abbrev main_v759 : Ref sig .tc := ⟨.hbm, 802, rfl⟩
abbrev main_v760 : Ref sig .tc := ⟨.hbm, 803, rfl⟩
abbrev main_v761 : Ref sig .tc := ⟨.hbm, 804, rfl⟩
abbrev main_v762 : Ref sig .tc := ⟨.hbm, 805, rfl⟩
abbrev main_v763 : Ref sig .tc := ⟨.hbm, 806, rfl⟩
abbrev main_v764 : Ref sig .tc := ⟨.hbm, 807, rfl⟩
abbrev main_v765 : Ref sig .tc := ⟨.hbm, 808, rfl⟩
abbrev main_v766 : Ref sig .tc := ⟨.hbm, 809, rfl⟩
abbrev main_v767 : Ref sig .tc := ⟨.hbm, 810, rfl⟩
abbrev main_v768 : Ref sig .tc := ⟨.hbm, 811, rfl⟩
abbrev main_v769 : Ref sig .tc := ⟨.hbm, 812, rfl⟩
abbrev main_v770 : Ref sig .tc := ⟨.hbm, 813, rfl⟩
abbrev main_v771 : Ref sig .tc := ⟨.hbm, 814, rfl⟩
abbrev main_v772 : Ref sig .tc := ⟨.hbm, 815, rfl⟩
abbrev main_v773 : Ref sig .tc := ⟨.hbm, 816, rfl⟩
abbrev main_v774 : Ref sig .tc := ⟨.hbm, 817, rfl⟩
abbrev main_c_39 : Ref sig .tc := ⟨.hbm, 818, rfl⟩
abbrev main_v775 : Ref sig .tc := ⟨.hbm, 819, rfl⟩
abbrev main_v776 : Ref sig .tc := ⟨.hbm, 820, rfl⟩
abbrev main_v777 : Ref sig .tc := ⟨.hbm, 821, rfl⟩
abbrev main_v778 : Ref sig .tc := ⟨.hbm, 822, rfl⟩
abbrev main_v779 : Ref sig .tc := ⟨.hbm, 823, rfl⟩
abbrev main_v780 : Ref sig .tc := ⟨.hbm, 824, rfl⟩
abbrev main_v781 : Ref sig .tc := ⟨.hbm, 825, rfl⟩
abbrev main_v782 : Ref sig .tc := ⟨.hbm, 826, rfl⟩
abbrev main_v783 : Ref sig .tc := ⟨.hbm, 827, rfl⟩
abbrev main_v784 : Ref sig .tc := ⟨.hbm, 828, rfl⟩
abbrev main_v785 : Ref sig .tc := ⟨.hbm, 829, rfl⟩
abbrev main_v786 : Ref sig .tc := ⟨.hbm, 830, rfl⟩
abbrev main_v787 : Ref sig .tc := ⟨.hbm, 831, rfl⟩
abbrev main_v788 : Ref sig .tc := ⟨.hbm, 832, rfl⟩
abbrev main_v789 : Ref sig .tc := ⟨.hbm, 833, rfl⟩
abbrev main_v790 : Ref sig .tc := ⟨.hbm, 834, rfl⟩
abbrev main_v791 : Ref sig .tc := ⟨.hbm, 835, rfl⟩
abbrev main_v792 : Ref sig .tc := ⟨.hbm, 836, rfl⟩
abbrev main_v793 : Ref sig .tc := ⟨.hbm, 837, rfl⟩
abbrev main_v794 : Ref sig .tc := ⟨.hbm, 838, rfl⟩
abbrev main_c_40 : Ref sig .tc := ⟨.hbm, 839, rfl⟩
abbrev main_v795 : Ref sig .tc := ⟨.hbm, 840, rfl⟩
abbrev main_v796 : Ref sig .tc := ⟨.hbm, 841, rfl⟩
abbrev main_v797 : Ref sig .tc := ⟨.hbm, 842, rfl⟩
abbrev main_v798 : Ref sig .tc := ⟨.hbm, 843, rfl⟩
abbrev main_v799 : Ref sig .tc := ⟨.hbm, 844, rfl⟩
abbrev main_v800 : Ref sig .tc := ⟨.hbm, 845, rfl⟩
abbrev main_v801 : Ref sig .tc := ⟨.hbm, 846, rfl⟩
abbrev main_v802 : Ref sig .tc := ⟨.hbm, 847, rfl⟩
abbrev main_v803 : Ref sig .tc := ⟨.hbm, 848, rfl⟩
abbrev main_v804 : Ref sig .tc := ⟨.hbm, 849, rfl⟩
abbrev main_v805 : Ref sig .tc := ⟨.hbm, 850, rfl⟩
abbrev main_v806 : Ref sig .tc := ⟨.hbm, 851, rfl⟩
abbrev main_v807 : Ref sig .tc := ⟨.hbm, 852, rfl⟩
abbrev main_v808 : Ref sig .tc := ⟨.hbm, 853, rfl⟩
abbrev main_v809 : Ref sig .tc := ⟨.hbm, 854, rfl⟩
abbrev main_v810 : Ref sig .tc := ⟨.hbm, 855, rfl⟩
abbrev main_v811 : Ref sig .tc := ⟨.hbm, 856, rfl⟩
abbrev main_v812 : Ref sig .tc := ⟨.hbm, 857, rfl⟩
abbrev main_v813 : Ref sig .tc := ⟨.hbm, 858, rfl⟩
abbrev main_v814 : Ref sig .tc := ⟨.hbm, 859, rfl⟩
abbrev main_c_41 : Ref sig .tc := ⟨.hbm, 860, rfl⟩
abbrev main_v815 : Ref sig .tc := ⟨.hbm, 861, rfl⟩
abbrev main_v816 : Ref sig .tc := ⟨.hbm, 862, rfl⟩
abbrev main_v817 : Ref sig .tc := ⟨.hbm, 863, rfl⟩
abbrev main_v818 : Ref sig .tc := ⟨.hbm, 864, rfl⟩
abbrev main_v819 : Ref sig .tc := ⟨.hbm, 865, rfl⟩
abbrev main_v820 : Ref sig .tc := ⟨.hbm, 866, rfl⟩
abbrev main_v821 : Ref sig .tc := ⟨.hbm, 867, rfl⟩
abbrev main_v822 : Ref sig .tc := ⟨.hbm, 868, rfl⟩
abbrev main_v823 : Ref sig .tc := ⟨.hbm, 869, rfl⟩
abbrev main_v824 : Ref sig .tc := ⟨.hbm, 870, rfl⟩
abbrev main_v825 : Ref sig .tc := ⟨.hbm, 871, rfl⟩
abbrev main_v826 : Ref sig .tc := ⟨.hbm, 872, rfl⟩
abbrev main_v827 : Ref sig .tc := ⟨.hbm, 873, rfl⟩
abbrev main_v828 : Ref sig .tc := ⟨.hbm, 874, rfl⟩
abbrev main_v829 : Ref sig .tc := ⟨.hbm, 875, rfl⟩
abbrev main_v830 : Ref sig .tc := ⟨.hbm, 876, rfl⟩
abbrev main_v831 : Ref sig .tc := ⟨.hbm, 877, rfl⟩
abbrev main_v832 : Ref sig .tc := ⟨.hbm, 878, rfl⟩
abbrev main_v833 : Ref sig .tc := ⟨.hbm, 879, rfl⟩
abbrev main_v834 : Ref sig .tc := ⟨.hbm, 880, rfl⟩
abbrev main_c_42 : Ref sig .tc := ⟨.hbm, 881, rfl⟩
abbrev main_v835 : Ref sig .tc := ⟨.hbm, 882, rfl⟩
abbrev main_v836 : Ref sig .tc := ⟨.hbm, 883, rfl⟩
abbrev main_v837 : Ref sig .tc := ⟨.hbm, 884, rfl⟩
abbrev main_v838 : Ref sig .tc := ⟨.hbm, 885, rfl⟩
abbrev main_v839 : Ref sig .tc := ⟨.hbm, 886, rfl⟩
abbrev main_v840 : Ref sig .tc := ⟨.hbm, 887, rfl⟩
abbrev main_v841 : Ref sig .tc := ⟨.hbm, 888, rfl⟩
abbrev main_v842 : Ref sig .tc := ⟨.hbm, 889, rfl⟩
abbrev main_v843 : Ref sig .tc := ⟨.hbm, 890, rfl⟩
abbrev main_v844 : Ref sig .tc := ⟨.hbm, 891, rfl⟩
abbrev main_v845 : Ref sig .tc := ⟨.hbm, 892, rfl⟩
abbrev main_v846 : Ref sig .tc := ⟨.hbm, 893, rfl⟩
abbrev main_v847 : Ref sig .tc := ⟨.hbm, 894, rfl⟩
abbrev main_v848 : Ref sig .tc := ⟨.hbm, 895, rfl⟩
abbrev main_v849 : Ref sig .tc := ⟨.hbm, 896, rfl⟩
abbrev main_v850 : Ref sig .tc := ⟨.hbm, 897, rfl⟩
abbrev main_v851 : Ref sig .tc := ⟨.hbm, 898, rfl⟩
abbrev main_v852 : Ref sig .tc := ⟨.hbm, 899, rfl⟩
abbrev main_v853 : Ref sig .tc := ⟨.hbm, 900, rfl⟩
abbrev main_v854 : Ref sig .tc := ⟨.hbm, 901, rfl⟩
abbrev main_c_43 : Ref sig .tc := ⟨.hbm, 902, rfl⟩
abbrev main_v855 : Ref sig .tc := ⟨.hbm, 903, rfl⟩
abbrev main_v856 : Ref sig .tc := ⟨.hbm, 904, rfl⟩
abbrev main_c_44 : Ref sig .tc := ⟨.hbm, 905, rfl⟩
abbrev main_v857 : Ref sig .tc := ⟨.hbm, 906, rfl⟩
abbrev main_v858 : Ref sig .tc := ⟨.hbm, 907, rfl⟩
abbrev main_v859 : Ref sig .tc := ⟨.hbm, 908, rfl⟩
abbrev main_v860 : Ref sig .tc := ⟨.hbm, 909, rfl⟩
abbrev main_v861 : Ref sig .tc := ⟨.hbm, 910, rfl⟩
abbrev main_v862 : Ref sig .tc := ⟨.hbm, 911, rfl⟩
abbrev main_v863 : Ref sig .tc := ⟨.hbm, 912, rfl⟩
abbrev main_v864 : Ref sig .tc := ⟨.hbm, 913, rfl⟩
abbrev main_v865 : Ref sig .tc := ⟨.hbm, 914, rfl⟩
abbrev main_v866 : Ref sig .tc := ⟨.hbm, 915, rfl⟩
abbrev main_v867 : Ref sig .tc := ⟨.hbm, 916, rfl⟩
abbrev main_v868 : Ref sig .tc := ⟨.hbm, 917, rfl⟩
abbrev main_v869 : Ref sig .tc := ⟨.hbm, 918, rfl⟩
abbrev main_v870 : Ref sig .tc := ⟨.hbm, 919, rfl⟩
abbrev main_v871 : Ref sig .tc := ⟨.hbm, 920, rfl⟩
abbrev main_v872 : Ref sig .tc := ⟨.hbm, 921, rfl⟩
abbrev main_v873 : Ref sig .tc := ⟨.hbm, 922, rfl⟩
abbrev main_v874 : Ref sig .tc := ⟨.hbm, 923, rfl⟩
abbrev main_v875 : Ref sig .tc := ⟨.hbm, 924, rfl⟩
abbrev main_v876 : Ref sig .tc := ⟨.hbm, 925, rfl⟩
abbrev main_v877 : Ref sig .tc := ⟨.hbm, 926, rfl⟩
abbrev main_v878 : Ref sig .tc := ⟨.hbm, 927, rfl⟩
abbrev main_c_45 : Ref sig .tc := ⟨.hbm, 928, rfl⟩
abbrev main_v879 : Ref sig .tc := ⟨.hbm, 929, rfl⟩
abbrev main_v880 : Ref sig .tc := ⟨.hbm, 930, rfl⟩
abbrev main_v881 : Ref sig .tc := ⟨.hbm, 931, rfl⟩
abbrev main_v882 : Ref sig .tc := ⟨.hbm, 932, rfl⟩
abbrev main_v883 : Ref sig .tc := ⟨.hbm, 933, rfl⟩
abbrev main_v884 : Ref sig .tc := ⟨.hbm, 934, rfl⟩
abbrev main_v885 : Ref sig .tc := ⟨.hbm, 935, rfl⟩
abbrev main_v886 : Ref sig .tc := ⟨.hbm, 936, rfl⟩
abbrev main_v887 : Ref sig .tc := ⟨.hbm, 937, rfl⟩
abbrev main_v888 : Ref sig .tc := ⟨.hbm, 938, rfl⟩
abbrev main_v889 : Ref sig .tc := ⟨.hbm, 939, rfl⟩
abbrev main_v890 : Ref sig .tc := ⟨.hbm, 940, rfl⟩
abbrev main_v891 : Ref sig .tc := ⟨.hbm, 941, rfl⟩
abbrev main_v892 : Ref sig .tc := ⟨.hbm, 942, rfl⟩
abbrev main_v893 : Ref sig .tc := ⟨.hbm, 943, rfl⟩
abbrev main_v894 : Ref sig .tc := ⟨.hbm, 944, rfl⟩
abbrev main_v895 : Ref sig .tc := ⟨.hbm, 945, rfl⟩
abbrev main_v896 : Ref sig .tc := ⟨.hbm, 946, rfl⟩
abbrev main_v897 : Ref sig .tc := ⟨.hbm, 947, rfl⟩
abbrev main_v898 : Ref sig .tc := ⟨.hbm, 948, rfl⟩
abbrev main_c_46 : Ref sig .tc := ⟨.hbm, 949, rfl⟩
abbrev main_v899 : Ref sig .tc := ⟨.hbm, 950, rfl⟩
abbrev main_v900 : Ref sig .tc := ⟨.hbm, 951, rfl⟩
abbrev main_v901 : Ref sig .tc := ⟨.hbm, 952, rfl⟩
abbrev main_v902 : Ref sig .tc := ⟨.hbm, 953, rfl⟩
abbrev main_v903 : Ref sig .tc := ⟨.hbm, 954, rfl⟩
abbrev main_v904 : Ref sig .tc := ⟨.hbm, 955, rfl⟩
abbrev main_v905 : Ref sig .tc := ⟨.hbm, 956, rfl⟩
abbrev main_v906 : Ref sig .tc := ⟨.hbm, 957, rfl⟩
abbrev main_v907 : Ref sig .tc := ⟨.hbm, 958, rfl⟩
abbrev main_v908 : Ref sig .tc := ⟨.hbm, 959, rfl⟩
abbrev main_v909 : Ref sig .tc := ⟨.hbm, 960, rfl⟩
abbrev main_v910 : Ref sig .tc := ⟨.hbm, 961, rfl⟩
abbrev main_v911 : Ref sig .tc := ⟨.hbm, 962, rfl⟩
abbrev main_v912 : Ref sig .tc := ⟨.hbm, 963, rfl⟩
abbrev main_v913 : Ref sig .tc := ⟨.hbm, 964, rfl⟩
abbrev main_v914 : Ref sig .tc := ⟨.hbm, 965, rfl⟩
abbrev main_v915 : Ref sig .tc := ⟨.hbm, 966, rfl⟩
abbrev main_v916 : Ref sig .tc := ⟨.hbm, 967, rfl⟩
abbrev main_v917 : Ref sig .tc := ⟨.hbm, 968, rfl⟩
abbrev main_v918 : Ref sig .tc := ⟨.hbm, 969, rfl⟩
abbrev main_c_47 : Ref sig .tc := ⟨.hbm, 970, rfl⟩
abbrev main_v919 : Ref sig .tc := ⟨.hbm, 971, rfl⟩
abbrev main_v920 : Ref sig .tc := ⟨.hbm, 972, rfl⟩
abbrev main_v921 : Ref sig .tc := ⟨.hbm, 973, rfl⟩
abbrev main_v922 : Ref sig .tc := ⟨.hbm, 974, rfl⟩
abbrev main_v923 : Ref sig .tc := ⟨.hbm, 975, rfl⟩
abbrev main_v924 : Ref sig .tc := ⟨.hbm, 976, rfl⟩
abbrev main_v925 : Ref sig .tc := ⟨.hbm, 977, rfl⟩
abbrev main_v926 : Ref sig .tc := ⟨.hbm, 978, rfl⟩
abbrev main_v927 : Ref sig .tc := ⟨.hbm, 979, rfl⟩
abbrev main_v928 : Ref sig .tc := ⟨.hbm, 980, rfl⟩
abbrev main_v929 : Ref sig .tc := ⟨.hbm, 981, rfl⟩
abbrev main_v930 : Ref sig .tc := ⟨.hbm, 982, rfl⟩
abbrev main_v931 : Ref sig .tc := ⟨.hbm, 983, rfl⟩
abbrev main_v932 : Ref sig .tc := ⟨.hbm, 984, rfl⟩
abbrev main_v933 : Ref sig .tc := ⟨.hbm, 985, rfl⟩
abbrev main_v934 : Ref sig .tc := ⟨.hbm, 986, rfl⟩
abbrev main_v935 : Ref sig .tc := ⟨.hbm, 987, rfl⟩
abbrev main_v936 : Ref sig .tc := ⟨.hbm, 988, rfl⟩
abbrev main_v937 : Ref sig .tc := ⟨.hbm, 989, rfl⟩
abbrev main_v938 : Ref sig .tc := ⟨.hbm, 990, rfl⟩
abbrev main_c_48 : Ref sig .tc := ⟨.hbm, 991, rfl⟩
abbrev main_v939 : Ref sig .tc := ⟨.hbm, 992, rfl⟩
abbrev main_v940 : Ref sig .tc := ⟨.hbm, 993, rfl⟩
abbrev main_v941 : Ref sig .tc := ⟨.hbm, 994, rfl⟩
abbrev main_v942 : Ref sig .tc := ⟨.hbm, 995, rfl⟩
abbrev main_v943 : Ref sig .tc := ⟨.hbm, 996, rfl⟩
abbrev main_v944 : Ref sig .tc := ⟨.hbm, 997, rfl⟩
abbrev main_v945 : Ref sig .tc := ⟨.hbm, 998, rfl⟩
abbrev main_v946 : Ref sig .tc := ⟨.hbm, 999, rfl⟩
abbrev main_v947 : Ref sig .tc := ⟨.hbm, 1000, rfl⟩
abbrev main_v948 : Ref sig .tc := ⟨.hbm, 1001, rfl⟩
abbrev main_v949 : Ref sig .tc := ⟨.hbm, 1002, rfl⟩
abbrev main_v950 : Ref sig .tc := ⟨.hbm, 1003, rfl⟩
abbrev main_v951 : Ref sig .tc := ⟨.hbm, 1004, rfl⟩
abbrev main_v952 : Ref sig .tc := ⟨.hbm, 1005, rfl⟩
abbrev main_v953 : Ref sig .tc := ⟨.hbm, 1006, rfl⟩
abbrev main_v954 : Ref sig .tc := ⟨.hbm, 1007, rfl⟩
abbrev main_v955 : Ref sig .tc := ⟨.hbm, 1008, rfl⟩
abbrev main_v956 : Ref sig .tc := ⟨.hbm, 1009, rfl⟩
abbrev main_v957 : Ref sig .tc := ⟨.hbm, 1010, rfl⟩
abbrev main_v958 : Ref sig .tc := ⟨.hbm, 1011, rfl⟩
abbrev main_c_49 : Ref sig .tc := ⟨.hbm, 1012, rfl⟩
abbrev main_v959 : Ref sig .tc := ⟨.hbm, 1013, rfl⟩
abbrev main_v960 : Ref sig .tc := ⟨.hbm, 1014, rfl⟩
abbrev main_v961 : Ref sig .tc := ⟨.hbm, 1015, rfl⟩
abbrev main_v962 : Ref sig .tc := ⟨.hbm, 1016, rfl⟩
abbrev main_v963 : Ref sig .tc := ⟨.hbm, 1017, rfl⟩
abbrev main_v964 : Ref sig .tc := ⟨.hbm, 1018, rfl⟩
abbrev main_v965 : Ref sig .tc := ⟨.hbm, 1019, rfl⟩
abbrev main_v966 : Ref sig .tc := ⟨.hbm, 1020, rfl⟩
abbrev main_v967 : Ref sig .tc := ⟨.hbm, 1021, rfl⟩
abbrev main_v968 : Ref sig .tc := ⟨.hbm, 1022, rfl⟩
abbrev main_v969 : Ref sig .tc := ⟨.hbm, 1023, rfl⟩
abbrev main_v970 : Ref sig .tc := ⟨.hbm, 1024, rfl⟩
abbrev main_v971 : Ref sig .tc := ⟨.hbm, 1025, rfl⟩
abbrev main_v972 : Ref sig .tc := ⟨.hbm, 1026, rfl⟩
abbrev main_v973 : Ref sig .tc := ⟨.hbm, 1027, rfl⟩
abbrev main_v974 : Ref sig .tc := ⟨.hbm, 1028, rfl⟩
abbrev main_v975 : Ref sig .tc := ⟨.hbm, 1029, rfl⟩
abbrev main_v976 : Ref sig .tc := ⟨.hbm, 1030, rfl⟩
abbrev main_v977 : Ref sig .tc := ⟨.hbm, 1031, rfl⟩
abbrev main_v978 : Ref sig .tc := ⟨.hbm, 1032, rfl⟩
abbrev main_c_50 : Ref sig .tc := ⟨.hbm, 1033, rfl⟩
abbrev main_v979 : Ref sig .tc := ⟨.hbm, 1034, rfl⟩
abbrev main_v980 : Ref sig .tc := ⟨.hbm, 1035, rfl⟩
abbrev main_v981 : Ref sig .tc := ⟨.hbm, 1036, rfl⟩
abbrev main_v982 : Ref sig .tc := ⟨.hbm, 1037, rfl⟩
abbrev main_v983 : Ref sig .tc := ⟨.hbm, 1038, rfl⟩
abbrev main_v984 : Ref sig .tc := ⟨.hbm, 1039, rfl⟩
abbrev main_v985 : Ref sig .tc := ⟨.hbm, 1040, rfl⟩
abbrev main_v986 : Ref sig .tc := ⟨.hbm, 1041, rfl⟩
abbrev main_v987 : Ref sig .tc := ⟨.hbm, 1042, rfl⟩
abbrev main_v988 : Ref sig .tc := ⟨.hbm, 1043, rfl⟩
abbrev main_v989 : Ref sig .tc := ⟨.hbm, 1044, rfl⟩
abbrev main_v990 : Ref sig .tc := ⟨.hbm, 1045, rfl⟩
abbrev main_v991 : Ref sig .tc := ⟨.hbm, 1046, rfl⟩
abbrev main_v992 : Ref sig .tc := ⟨.hbm, 1047, rfl⟩
abbrev main_v993 : Ref sig .tc := ⟨.hbm, 1048, rfl⟩
abbrev main_v994 : Ref sig .tc := ⟨.hbm, 1049, rfl⟩
abbrev main_v995 : Ref sig .tc := ⟨.hbm, 1050, rfl⟩
abbrev main_v996 : Ref sig .tc := ⟨.hbm, 1051, rfl⟩
abbrev main_v997 : Ref sig .tc := ⟨.hbm, 1052, rfl⟩
abbrev main_v998 : Ref sig .tc := ⟨.hbm, 1053, rfl⟩
abbrev main_c_51 : Ref sig .tc := ⟨.hbm, 1054, rfl⟩
abbrev main_v999 : Ref sig .tc := ⟨.hbm, 1055, rfl⟩
abbrev main_v1000 : Ref sig .tc := ⟨.hbm, 1056, rfl⟩
abbrev main_v1001 : Ref sig .tc := ⟨.hbm, 1057, rfl⟩
abbrev main_v1002 : Ref sig .tc := ⟨.hbm, 1058, rfl⟩
abbrev main_v1003 : Ref sig .tc := ⟨.hbm, 1059, rfl⟩
abbrev main_v1004 : Ref sig .tc := ⟨.hbm, 1060, rfl⟩
abbrev main_v1005 : Ref sig .tc := ⟨.hbm, 1061, rfl⟩
abbrev main_v1006 : Ref sig .tc := ⟨.hbm, 1062, rfl⟩
abbrev main_v1007 : Ref sig .tc := ⟨.hbm, 1063, rfl⟩
abbrev main_v1008 : Ref sig .tc := ⟨.hbm, 1064, rfl⟩
abbrev main_v1009 : Ref sig .tc := ⟨.hbm, 1065, rfl⟩
abbrev main_v1010 : Ref sig .tc := ⟨.hbm, 1066, rfl⟩
abbrev main_v1011 : Ref sig .tc := ⟨.hbm, 1067, rfl⟩
abbrev main_v1012 : Ref sig .tc := ⟨.hbm, 1068, rfl⟩
abbrev main_v1013 : Ref sig .tc := ⟨.hbm, 1069, rfl⟩
abbrev main_v1014 : Ref sig .tc := ⟨.hbm, 1070, rfl⟩
abbrev main_v1015 : Ref sig .tc := ⟨.hbm, 1071, rfl⟩
abbrev main_v1016 : Ref sig .tc := ⟨.hbm, 1072, rfl⟩
abbrev main_v1017 : Ref sig .tc := ⟨.hbm, 1073, rfl⟩
abbrev main_v1018 : Ref sig .tc := ⟨.hbm, 1074, rfl⟩
abbrev main_c_52 : Ref sig .tc := ⟨.hbm, 1075, rfl⟩
abbrev main_v1019 : Ref sig .tc := ⟨.hbm, 1076, rfl⟩
abbrev main_v1020 : Ref sig .tc := ⟨.hbm, 1077, rfl⟩
abbrev main_v1021 : Ref sig .tc := ⟨.hbm, 1078, rfl⟩
abbrev main_v1022 : Ref sig .tc := ⟨.hbm, 1079, rfl⟩
abbrev main_v1023 : Ref sig .tc := ⟨.hbm, 1080, rfl⟩
abbrev main_v1024 : Ref sig .tc := ⟨.hbm, 1081, rfl⟩
abbrev main_v1025 : Ref sig .tc := ⟨.hbm, 1082, rfl⟩
abbrev main_v1026 : Ref sig .tc := ⟨.hbm, 1083, rfl⟩
abbrev main_v1027 : Ref sig .tc := ⟨.hbm, 1084, rfl⟩
abbrev main_v1028 : Ref sig .tc := ⟨.hbm, 1085, rfl⟩
abbrev main_v1029 : Ref sig .tc := ⟨.hbm, 1086, rfl⟩
abbrev main_v1030 : Ref sig .tc := ⟨.hbm, 1087, rfl⟩
abbrev main_v1031 : Ref sig .tc := ⟨.hbm, 1088, rfl⟩
abbrev main_v1032 : Ref sig .tc := ⟨.hbm, 1089, rfl⟩
abbrev main_v1033 : Ref sig .tc := ⟨.hbm, 1090, rfl⟩
abbrev main_v1034 : Ref sig .tc := ⟨.hbm, 1091, rfl⟩
abbrev main_v1035 : Ref sig .tc := ⟨.hbm, 1092, rfl⟩
abbrev main_v1036 : Ref sig .tc := ⟨.hbm, 1093, rfl⟩
abbrev main_v1037 : Ref sig .tc := ⟨.hbm, 1094, rfl⟩
abbrev main_v1038 : Ref sig .tc := ⟨.hbm, 1095, rfl⟩
abbrev main_c_53 : Ref sig .tc := ⟨.hbm, 1096, rfl⟩
abbrev main_v1039 : Ref sig .tc := ⟨.hbm, 1097, rfl⟩
abbrev main_v1040 : Ref sig .tc := ⟨.hbm, 1098, rfl⟩
abbrev main_v1041 : Ref sig .tc := ⟨.hbm, 1099, rfl⟩
abbrev main_v1042 : Ref sig .tc := ⟨.hbm, 1100, rfl⟩
abbrev main_v1043 : Ref sig .tc := ⟨.hbm, 1101, rfl⟩
abbrev main_v1044 : Ref sig .tc := ⟨.hbm, 1102, rfl⟩
abbrev main_v1045 : Ref sig .tc := ⟨.hbm, 1103, rfl⟩
abbrev main_v1046 : Ref sig .tc := ⟨.hbm, 1104, rfl⟩
abbrev main_v1047 : Ref sig .tc := ⟨.hbm, 1105, rfl⟩
abbrev main_v1048 : Ref sig .tc := ⟨.hbm, 1106, rfl⟩
abbrev main_v1049 : Ref sig .tc := ⟨.hbm, 1107, rfl⟩
abbrev main_v1050 : Ref sig .tc := ⟨.hbm, 1108, rfl⟩
abbrev main_v1051 : Ref sig .tc := ⟨.hbm, 1109, rfl⟩
abbrev main_v1052 : Ref sig .tc := ⟨.hbm, 1110, rfl⟩
abbrev main_v1053 : Ref sig .tc := ⟨.hbm, 1111, rfl⟩
abbrev main_v1054 : Ref sig .tc := ⟨.hbm, 1112, rfl⟩
abbrev main_v1055 : Ref sig .tc := ⟨.hbm, 1113, rfl⟩
abbrev main_v1056 : Ref sig .tc := ⟨.hbm, 1114, rfl⟩
abbrev main_v1057 : Ref sig .tc := ⟨.hbm, 1115, rfl⟩
abbrev main_v1058 : Ref sig .tc := ⟨.hbm, 1116, rfl⟩
abbrev main_c_54 : Ref sig .tc := ⟨.hbm, 1117, rfl⟩
abbrev main_v1059 : Ref sig .tc := ⟨.hbm, 1118, rfl⟩
abbrev main_v1060 : Ref sig .tc := ⟨.hbm, 1119, rfl⟩
abbrev main_v1061 : Ref sig .tc := ⟨.hbm, 1120, rfl⟩
abbrev main_v1062 : Ref sig .tc := ⟨.hbm, 1121, rfl⟩
abbrev main_v1063 : Ref sig .tc := ⟨.hbm, 1122, rfl⟩
abbrev main_v1064 : Ref sig .tc := ⟨.hbm, 1123, rfl⟩
abbrev main_v1065 : Ref sig .tc := ⟨.hbm, 1124, rfl⟩
abbrev main_v1066 : Ref sig .tc := ⟨.hbm, 1125, rfl⟩
abbrev main_v1067 : Ref sig .tc := ⟨.hbm, 1126, rfl⟩
abbrev main_v1068 : Ref sig .tc := ⟨.hbm, 1127, rfl⟩
abbrev main_v1069 : Ref sig .tc := ⟨.hbm, 1128, rfl⟩
abbrev main_v1070 : Ref sig .tc := ⟨.hbm, 1129, rfl⟩
abbrev main_v1071 : Ref sig .tc := ⟨.hbm, 1130, rfl⟩
abbrev main_v1072 : Ref sig .tc := ⟨.hbm, 1131, rfl⟩
abbrev main_v1073 : Ref sig .tc := ⟨.hbm, 1132, rfl⟩
abbrev main_v1074 : Ref sig .tc := ⟨.hbm, 1133, rfl⟩
abbrev main_v1075 : Ref sig .tc := ⟨.hbm, 1134, rfl⟩
abbrev main_v1076 : Ref sig .tc := ⟨.hbm, 1135, rfl⟩
abbrev main_v1077 : Ref sig .tc := ⟨.hbm, 1136, rfl⟩
abbrev main_v1078 : Ref sig .tc := ⟨.hbm, 1137, rfl⟩
abbrev main_c_55 : Ref sig .tc := ⟨.hbm, 1138, rfl⟩
abbrev main_v1079 : Ref sig .tc := ⟨.hbm, 1139, rfl⟩
abbrev main_v1080 : Ref sig .tc := ⟨.hbm, 1140, rfl⟩
abbrev main_v1081 : Ref sig .tc := ⟨.hbm, 1141, rfl⟩
abbrev main_v1082 : Ref sig .tc := ⟨.hbm, 1142, rfl⟩
abbrev main_v1083 : Ref sig .tc := ⟨.hbm, 1143, rfl⟩
abbrev main_v1084 : Ref sig .tc := ⟨.hbm, 1144, rfl⟩
abbrev main_v1085 : Ref sig .tc := ⟨.hbm, 1145, rfl⟩
abbrev main_v1086 : Ref sig .tc := ⟨.hbm, 1146, rfl⟩
abbrev main_v1087 : Ref sig .tc := ⟨.hbm, 1147, rfl⟩
abbrev main_v1088 : Ref sig .tc := ⟨.hbm, 1148, rfl⟩
abbrev main_v1089 : Ref sig .tc := ⟨.hbm, 1149, rfl⟩
abbrev main_v1090 : Ref sig .tc := ⟨.hbm, 1150, rfl⟩
abbrev main_v1091 : Ref sig .tc := ⟨.hbm, 1151, rfl⟩
abbrev main_v1092 : Ref sig .tc := ⟨.hbm, 1152, rfl⟩
abbrev main_v1093 : Ref sig .tc := ⟨.hbm, 1153, rfl⟩
abbrev main_v1094 : Ref sig .tc := ⟨.hbm, 1154, rfl⟩
abbrev main_v1095 : Ref sig .tc := ⟨.hbm, 1155, rfl⟩
abbrev main_v1096 : Ref sig .tc := ⟨.hbm, 1156, rfl⟩
abbrev main_v1097 : Ref sig .tc := ⟨.hbm, 1157, rfl⟩
abbrev main_v1098 : Ref sig .tc := ⟨.hbm, 1158, rfl⟩
abbrev main_c_56 : Ref sig .tc := ⟨.hbm, 1159, rfl⟩
abbrev main_v1099 : Ref sig .tc := ⟨.hbm, 1160, rfl⟩
abbrev main_v1100 : Ref sig .tc := ⟨.hbm, 1161, rfl⟩
abbrev main_c_57 : Ref sig .tc := ⟨.hbm, 1162, rfl⟩
abbrev main_v1101 : Ref sig .tc := ⟨.hbm, 1163, rfl⟩
abbrev main_v1102 : Ref sig .tc := ⟨.hbm, 1164, rfl⟩
abbrev main_v1103 : Ref sig .tc := ⟨.hbm, 1165, rfl⟩
abbrev main_v1104 : Ref sig .tc := ⟨.hbm, 1166, rfl⟩
abbrev main_v1105 : Ref sig .tc := ⟨.hbm, 1167, rfl⟩
abbrev main_v1106 : Ref sig .tc := ⟨.hbm, 1168, rfl⟩
abbrev main_v1107 : Ref sig .tc := ⟨.hbm, 1169, rfl⟩
abbrev main_v1108 : Ref sig .tc := ⟨.hbm, 1170, rfl⟩
abbrev main_v1109 : Ref sig .tc := ⟨.hbm, 1171, rfl⟩
abbrev main_v1110 : Ref sig .tc := ⟨.hbm, 1172, rfl⟩
abbrev main_v1111 : Ref sig .tc := ⟨.hbm, 1173, rfl⟩
abbrev main_v1112 : Ref sig .tc := ⟨.hbm, 1174, rfl⟩
abbrev main_v1113 : Ref sig .tc := ⟨.hbm, 1175, rfl⟩
abbrev main_v1114 : Ref sig .tc := ⟨.hbm, 1176, rfl⟩
abbrev main_v1115 : Ref sig .tc := ⟨.hbm, 1177, rfl⟩
abbrev main_v1116 : Ref sig .tc := ⟨.hbm, 1178, rfl⟩
abbrev main_v1117 : Ref sig .tc := ⟨.hbm, 1179, rfl⟩
abbrev main_v1118 : Ref sig .tc := ⟨.hbm, 1180, rfl⟩
abbrev main_v1119 : Ref sig .tc := ⟨.hbm, 1181, rfl⟩
abbrev main_v1120 : Ref sig .tc := ⟨.hbm, 1182, rfl⟩
abbrev main_v1121 : Ref sig .tc := ⟨.hbm, 1183, rfl⟩
abbrev main_v1122 : Ref sig .tc := ⟨.hbm, 1184, rfl⟩
abbrev main_c_58 : Ref sig .tc := ⟨.hbm, 1185, rfl⟩
abbrev main_v1123 : Ref sig .tc := ⟨.hbm, 1186, rfl⟩
abbrev main_v1124 : Ref sig .tc := ⟨.hbm, 1187, rfl⟩
abbrev main_v1125 : Ref sig .tc := ⟨.hbm, 1188, rfl⟩
abbrev main_v1126 : Ref sig .tc := ⟨.hbm, 1189, rfl⟩
abbrev main_v1127 : Ref sig .tc := ⟨.hbm, 1190, rfl⟩
abbrev main_v1128 : Ref sig .tc := ⟨.hbm, 1191, rfl⟩
abbrev main_v1129 : Ref sig .tc := ⟨.hbm, 1192, rfl⟩
abbrev main_v1130 : Ref sig .tc := ⟨.hbm, 1193, rfl⟩
abbrev main_v1131 : Ref sig .tc := ⟨.hbm, 1194, rfl⟩
abbrev main_v1132 : Ref sig .tc := ⟨.hbm, 1195, rfl⟩
abbrev main_v1133 : Ref sig .tc := ⟨.hbm, 1196, rfl⟩
abbrev main_v1134 : Ref sig .tc := ⟨.hbm, 1197, rfl⟩
abbrev main_v1135 : Ref sig .tc := ⟨.hbm, 1198, rfl⟩
abbrev main_v1136 : Ref sig .tc := ⟨.hbm, 1199, rfl⟩
abbrev main_v1137 : Ref sig .tc := ⟨.hbm, 1200, rfl⟩
abbrev main_v1138 : Ref sig .tc := ⟨.hbm, 1201, rfl⟩
abbrev main_v1139 : Ref sig .tc := ⟨.hbm, 1202, rfl⟩
abbrev main_v1140 : Ref sig .tc := ⟨.hbm, 1203, rfl⟩
abbrev main_v1141 : Ref sig .tc := ⟨.hbm, 1204, rfl⟩
abbrev main_v1142 : Ref sig .tc := ⟨.hbm, 1205, rfl⟩
abbrev main_c_59 : Ref sig .tc := ⟨.hbm, 1206, rfl⟩
abbrev main_v1143 : Ref sig .tc := ⟨.hbm, 1207, rfl⟩
abbrev main_v1144 : Ref sig .tc := ⟨.hbm, 1208, rfl⟩
abbrev main_v1145 : Ref sig .tc := ⟨.hbm, 1209, rfl⟩
abbrev main_v1146 : Ref sig .tc := ⟨.hbm, 1210, rfl⟩
abbrev main_v1147 : Ref sig .tc := ⟨.hbm, 1211, rfl⟩
abbrev main_v1148 : Ref sig .tc := ⟨.hbm, 1212, rfl⟩
abbrev main_v1149 : Ref sig .tc := ⟨.hbm, 1213, rfl⟩
abbrev main_v1150 : Ref sig .tc := ⟨.hbm, 1214, rfl⟩
abbrev main_v1151 : Ref sig .tc := ⟨.hbm, 1215, rfl⟩
abbrev main_v1152 : Ref sig .tc := ⟨.hbm, 1216, rfl⟩
abbrev main_v1153 : Ref sig .tc := ⟨.hbm, 1217, rfl⟩
abbrev main_v1154 : Ref sig .tc := ⟨.hbm, 1218, rfl⟩
abbrev main_v1155 : Ref sig .tc := ⟨.hbm, 1219, rfl⟩
abbrev main_v1156 : Ref sig .tc := ⟨.hbm, 1220, rfl⟩
abbrev main_v1157 : Ref sig .tc := ⟨.hbm, 1221, rfl⟩
abbrev main_v1158 : Ref sig .tc := ⟨.hbm, 1222, rfl⟩
abbrev main_v1159 : Ref sig .tc := ⟨.hbm, 1223, rfl⟩
abbrev main_v1160 : Ref sig .tc := ⟨.hbm, 1224, rfl⟩
abbrev main_v1161 : Ref sig .tc := ⟨.hbm, 1225, rfl⟩
abbrev main_v1162 : Ref sig .tc := ⟨.hbm, 1226, rfl⟩
abbrev main_c_60 : Ref sig .tc := ⟨.hbm, 1227, rfl⟩
abbrev main_v1163 : Ref sig .tc := ⟨.hbm, 1228, rfl⟩
abbrev main_v1164 : Ref sig .tc := ⟨.hbm, 1229, rfl⟩
abbrev main_v1165 : Ref sig .tc := ⟨.hbm, 1230, rfl⟩
abbrev main_v1166 : Ref sig .tc := ⟨.hbm, 1231, rfl⟩
abbrev main_v1167 : Ref sig .tc := ⟨.hbm, 1232, rfl⟩
abbrev main_v1168 : Ref sig .tc := ⟨.hbm, 1233, rfl⟩
abbrev main_v1169 : Ref sig .tc := ⟨.hbm, 1234, rfl⟩
abbrev main_v1170 : Ref sig .tc := ⟨.hbm, 1235, rfl⟩
abbrev main_v1171 : Ref sig .tc := ⟨.hbm, 1236, rfl⟩
abbrev main_v1172 : Ref sig .tc := ⟨.hbm, 1237, rfl⟩
abbrev main_v1173 : Ref sig .tc := ⟨.hbm, 1238, rfl⟩
abbrev main_v1174 : Ref sig .tc := ⟨.hbm, 1239, rfl⟩
abbrev main_v1175 : Ref sig .tc := ⟨.hbm, 1240, rfl⟩
abbrev main_v1176 : Ref sig .tc := ⟨.hbm, 1241, rfl⟩
abbrev main_v1177 : Ref sig .tc := ⟨.hbm, 1242, rfl⟩
abbrev main_v1178 : Ref sig .tc := ⟨.hbm, 1243, rfl⟩
abbrev main_v1179 : Ref sig .tc := ⟨.hbm, 1244, rfl⟩
abbrev main_v1180 : Ref sig .tc := ⟨.hbm, 1245, rfl⟩
abbrev main_v1181 : Ref sig .tc := ⟨.hbm, 1246, rfl⟩
abbrev main_v1182 : Ref sig .tc := ⟨.hbm, 1247, rfl⟩
abbrev main_c_61 : Ref sig .tc := ⟨.hbm, 1248, rfl⟩
abbrev main_v1183 : Ref sig .tc := ⟨.hbm, 1249, rfl⟩
abbrev main_v1184 : Ref sig .tc := ⟨.hbm, 1250, rfl⟩
abbrev main_v1185 : Ref sig .tc := ⟨.hbm, 1251, rfl⟩
abbrev main_v1186 : Ref sig .tc := ⟨.hbm, 1252, rfl⟩
abbrev main_v1187 : Ref sig .tc := ⟨.hbm, 1253, rfl⟩
abbrev main_v1188 : Ref sig .tc := ⟨.hbm, 1254, rfl⟩
abbrev main_v1189 : Ref sig .tc := ⟨.hbm, 1255, rfl⟩
abbrev main_v1190 : Ref sig .tc := ⟨.hbm, 1256, rfl⟩
abbrev main_v1191 : Ref sig .tc := ⟨.hbm, 1257, rfl⟩
abbrev main_v1192 : Ref sig .tc := ⟨.hbm, 1258, rfl⟩
abbrev main_v1193 : Ref sig .tc := ⟨.hbm, 1259, rfl⟩
abbrev main_v1194 : Ref sig .tc := ⟨.hbm, 1260, rfl⟩
abbrev main_v1195 : Ref sig .tc := ⟨.hbm, 1261, rfl⟩
abbrev main_v1196 : Ref sig .tc := ⟨.hbm, 1262, rfl⟩
abbrev main_v1197 : Ref sig .tc := ⟨.hbm, 1263, rfl⟩
abbrev main_v1198 : Ref sig .tc := ⟨.hbm, 1264, rfl⟩
abbrev main_v1199 : Ref sig .tc := ⟨.hbm, 1265, rfl⟩
abbrev main_v1200 : Ref sig .tc := ⟨.hbm, 1266, rfl⟩
abbrev main_v1201 : Ref sig .tc := ⟨.hbm, 1267, rfl⟩
abbrev main_v1202 : Ref sig .tc := ⟨.hbm, 1268, rfl⟩
abbrev main_c_62 : Ref sig .tc := ⟨.hbm, 1269, rfl⟩
abbrev main_v1203 : Ref sig .tc := ⟨.hbm, 1270, rfl⟩
abbrev main_v1204 : Ref sig .tc := ⟨.hbm, 1271, rfl⟩
abbrev main_v1205 : Ref sig .tc := ⟨.hbm, 1272, rfl⟩
abbrev main_v1206 : Ref sig .tc := ⟨.hbm, 1273, rfl⟩
abbrev main_v1207 : Ref sig .tc := ⟨.hbm, 1274, rfl⟩
abbrev main_v1208 : Ref sig .tc := ⟨.hbm, 1275, rfl⟩
abbrev main_v1209 : Ref sig .tc := ⟨.hbm, 1276, rfl⟩
abbrev main_v1210 : Ref sig .tc := ⟨.hbm, 1277, rfl⟩
abbrev main_v1211 : Ref sig .tc := ⟨.hbm, 1278, rfl⟩
abbrev main_v1212 : Ref sig .tc := ⟨.hbm, 1279, rfl⟩
abbrev main_v1213 : Ref sig .tc := ⟨.hbm, 1280, rfl⟩
abbrev main_v1214 : Ref sig .tc := ⟨.hbm, 1281, rfl⟩
abbrev main_v1215 : Ref sig .tc := ⟨.hbm, 1282, rfl⟩
abbrev main_v1216 : Ref sig .tc := ⟨.hbm, 1283, rfl⟩
abbrev main_v1217 : Ref sig .tc := ⟨.hbm, 1284, rfl⟩
abbrev main_v1218 : Ref sig .tc := ⟨.hbm, 1285, rfl⟩
abbrev main_v1219 : Ref sig .tc := ⟨.hbm, 1286, rfl⟩
abbrev main_v1220 : Ref sig .tc := ⟨.hbm, 1287, rfl⟩
abbrev main_v1221 : Ref sig .tc := ⟨.hbm, 1288, rfl⟩
abbrev main_v1222 : Ref sig .tc := ⟨.hbm, 1289, rfl⟩
abbrev main_c_63 : Ref sig .tc := ⟨.hbm, 1290, rfl⟩
abbrev main_v1223 : Ref sig .tc := ⟨.hbm, 1291, rfl⟩
abbrev main_v1224 : Ref sig .tc := ⟨.hbm, 1292, rfl⟩
abbrev main_v1225 : Ref sig .tc := ⟨.hbm, 1293, rfl⟩
abbrev main_v1226 : Ref sig .tc := ⟨.hbm, 1294, rfl⟩
abbrev main_v1227 : Ref sig .tc := ⟨.hbm, 1295, rfl⟩
abbrev main_v1228 : Ref sig .tc := ⟨.hbm, 1296, rfl⟩
abbrev main_v1229 : Ref sig .tc := ⟨.hbm, 1297, rfl⟩
abbrev main_v1230 : Ref sig .tc := ⟨.hbm, 1298, rfl⟩
abbrev main_v1231 : Ref sig .tc := ⟨.hbm, 1299, rfl⟩
abbrev main_v1232 : Ref sig .tc := ⟨.hbm, 1300, rfl⟩
abbrev main_v1233 : Ref sig .tc := ⟨.hbm, 1301, rfl⟩
abbrev main_v1234 : Ref sig .tc := ⟨.hbm, 1302, rfl⟩
abbrev main_v1235 : Ref sig .tc := ⟨.hbm, 1303, rfl⟩
abbrev main_v1236 : Ref sig .tc := ⟨.hbm, 1304, rfl⟩
abbrev main_v1237 : Ref sig .tc := ⟨.hbm, 1305, rfl⟩
abbrev main_v1238 : Ref sig .tc := ⟨.hbm, 1306, rfl⟩
abbrev main_v1239 : Ref sig .tc := ⟨.hbm, 1307, rfl⟩
abbrev main_v1240 : Ref sig .tc := ⟨.hbm, 1308, rfl⟩
abbrev main_v1241 : Ref sig .tc := ⟨.hbm, 1309, rfl⟩
abbrev main_v1242 : Ref sig .tc := ⟨.hbm, 1310, rfl⟩
abbrev main_c_64 : Ref sig .tc := ⟨.hbm, 1311, rfl⟩
abbrev main_v1243 : Ref sig .tc := ⟨.hbm, 1312, rfl⟩
abbrev main_v1244 : Ref sig .tc := ⟨.hbm, 1313, rfl⟩
abbrev main_v1245 : Ref sig .tc := ⟨.hbm, 1314, rfl⟩
abbrev main_v1246 : Ref sig .tc := ⟨.hbm, 1315, rfl⟩
abbrev main_v1247 : Ref sig .tc := ⟨.hbm, 1316, rfl⟩
abbrev main_v1248 : Ref sig .tc := ⟨.hbm, 1317, rfl⟩
abbrev main_v1249 : Ref sig .tc := ⟨.hbm, 1318, rfl⟩
abbrev main_v1250 : Ref sig .tc := ⟨.hbm, 1319, rfl⟩
abbrev main_v1251 : Ref sig .tc := ⟨.hbm, 1320, rfl⟩
abbrev main_v1252 : Ref sig .tc := ⟨.hbm, 1321, rfl⟩
abbrev main_v1253 : Ref sig .tc := ⟨.hbm, 1322, rfl⟩
abbrev main_v1254 : Ref sig .tc := ⟨.hbm, 1323, rfl⟩
abbrev main_v1255 : Ref sig .tc := ⟨.hbm, 1324, rfl⟩
abbrev main_v1256 : Ref sig .tc := ⟨.hbm, 1325, rfl⟩
abbrev main_v1257 : Ref sig .tc := ⟨.hbm, 1326, rfl⟩
abbrev main_v1258 : Ref sig .tc := ⟨.hbm, 1327, rfl⟩
abbrev main_v1259 : Ref sig .tc := ⟨.hbm, 1328, rfl⟩
abbrev main_v1260 : Ref sig .tc := ⟨.hbm, 1329, rfl⟩
abbrev main_v1261 : Ref sig .tc := ⟨.hbm, 1330, rfl⟩
abbrev main_v1262 : Ref sig .tc := ⟨.hbm, 1331, rfl⟩
abbrev main_c_65 : Ref sig .tc := ⟨.hbm, 1332, rfl⟩
abbrev main_v1263 : Ref sig .tc := ⟨.hbm, 1333, rfl⟩
abbrev main_v1264 : Ref sig .tc := ⟨.hbm, 1334, rfl⟩
abbrev main_v1265 : Ref sig .tc := ⟨.hbm, 1335, rfl⟩
abbrev main_v1266 : Ref sig .tc := ⟨.hbm, 1336, rfl⟩
abbrev main_v1267 : Ref sig .tc := ⟨.hbm, 1337, rfl⟩
abbrev main_v1268 : Ref sig .tc := ⟨.hbm, 1338, rfl⟩
abbrev main_v1269 : Ref sig .tc := ⟨.hbm, 1339, rfl⟩
abbrev main_v1270 : Ref sig .tc := ⟨.hbm, 1340, rfl⟩
abbrev main_v1271 : Ref sig .tc := ⟨.hbm, 1341, rfl⟩
abbrev main_v1272 : Ref sig .tc := ⟨.hbm, 1342, rfl⟩
abbrev main_v1273 : Ref sig .tc := ⟨.hbm, 1343, rfl⟩
abbrev main_v1274 : Ref sig .tc := ⟨.hbm, 1344, rfl⟩
abbrev main_v1275 : Ref sig .tc := ⟨.hbm, 1345, rfl⟩
abbrev main_v1276 : Ref sig .tc := ⟨.hbm, 1346, rfl⟩
abbrev main_v1277 : Ref sig .tc := ⟨.hbm, 1347, rfl⟩
abbrev main_v1278 : Ref sig .tc := ⟨.hbm, 1348, rfl⟩
abbrev main_v1279 : Ref sig .tc := ⟨.hbm, 1349, rfl⟩
abbrev main_v1280 : Ref sig .tc := ⟨.hbm, 1350, rfl⟩
abbrev main_v1281 : Ref sig .tc := ⟨.hbm, 1351, rfl⟩
abbrev main_v1282 : Ref sig .tc := ⟨.hbm, 1352, rfl⟩
abbrev main_c_66 : Ref sig .tc := ⟨.hbm, 1353, rfl⟩
abbrev main_v1283 : Ref sig .tc := ⟨.hbm, 1354, rfl⟩
abbrev main_v1284 : Ref sig .tc := ⟨.hbm, 1355, rfl⟩
abbrev main_v1285 : Ref sig .tc := ⟨.hbm, 1356, rfl⟩
abbrev main_v1286 : Ref sig .tc := ⟨.hbm, 1357, rfl⟩
abbrev main_v1287 : Ref sig .tc := ⟨.hbm, 1358, rfl⟩
abbrev main_v1288 : Ref sig .tc := ⟨.hbm, 1359, rfl⟩
abbrev main_v1289 : Ref sig .tc := ⟨.hbm, 1360, rfl⟩
abbrev main_v1290 : Ref sig .tc := ⟨.hbm, 1361, rfl⟩
abbrev main_v1291 : Ref sig .tc := ⟨.hbm, 1362, rfl⟩
abbrev main_v1292 : Ref sig .tc := ⟨.hbm, 1363, rfl⟩
abbrev main_v1293 : Ref sig .tc := ⟨.hbm, 1364, rfl⟩
abbrev main_v1294 : Ref sig .tc := ⟨.hbm, 1365, rfl⟩
abbrev main_v1295 : Ref sig .tc := ⟨.hbm, 1366, rfl⟩
abbrev main_v1296 : Ref sig .tc := ⟨.hbm, 1367, rfl⟩
abbrev main_v1297 : Ref sig .tc := ⟨.hbm, 1368, rfl⟩
abbrev main_v1298 : Ref sig .tc := ⟨.hbm, 1369, rfl⟩
abbrev main_v1299 : Ref sig .tc := ⟨.hbm, 1370, rfl⟩
abbrev main_v1300 : Ref sig .tc := ⟨.hbm, 1371, rfl⟩
abbrev main_v1301 : Ref sig .tc := ⟨.hbm, 1372, rfl⟩
abbrev main_v1302 : Ref sig .tc := ⟨.hbm, 1373, rfl⟩
abbrev main_c_67 : Ref sig .tc := ⟨.hbm, 1374, rfl⟩
abbrev main_v1303 : Ref sig .tc := ⟨.hbm, 1375, rfl⟩
abbrev main_v1304 : Ref sig .tc := ⟨.hbm, 1376, rfl⟩
abbrev main_v1305 : Ref sig .tc := ⟨.hbm, 1377, rfl⟩
abbrev main_v1306 : Ref sig .tc := ⟨.hbm, 1378, rfl⟩
abbrev main_v1307 : Ref sig .tc := ⟨.hbm, 1379, rfl⟩
abbrev main_v1308 : Ref sig .tc := ⟨.hbm, 1380, rfl⟩
abbrev main_v1309 : Ref sig .tc := ⟨.hbm, 1381, rfl⟩
abbrev main_v1310 : Ref sig .tc := ⟨.hbm, 1382, rfl⟩
abbrev main_v1311 : Ref sig .tc := ⟨.hbm, 1383, rfl⟩
abbrev main_v1312 : Ref sig .tc := ⟨.hbm, 1384, rfl⟩
abbrev main_v1313 : Ref sig .tc := ⟨.hbm, 1385, rfl⟩
abbrev main_v1314 : Ref sig .tc := ⟨.hbm, 1386, rfl⟩
abbrev main_v1315 : Ref sig .tc := ⟨.hbm, 1387, rfl⟩
abbrev main_v1316 : Ref sig .tc := ⟨.hbm, 1388, rfl⟩
abbrev main_v1317 : Ref sig .tc := ⟨.hbm, 1389, rfl⟩
abbrev main_v1318 : Ref sig .tc := ⟨.hbm, 1390, rfl⟩
abbrev main_v1319 : Ref sig .tc := ⟨.hbm, 1391, rfl⟩
abbrev main_v1320 : Ref sig .tc := ⟨.hbm, 1392, rfl⟩
abbrev main_v1321 : Ref sig .tc := ⟨.hbm, 1393, rfl⟩
abbrev main_v1322 : Ref sig .tc := ⟨.hbm, 1394, rfl⟩
abbrev main_c_68 : Ref sig .tc := ⟨.hbm, 1395, rfl⟩
abbrev main_v1323 : Ref sig .tc := ⟨.hbm, 1396, rfl⟩
abbrev main_v1324 : Ref sig .tc := ⟨.hbm, 1397, rfl⟩
abbrev main_c_69 : Ref sig .tc := ⟨.hbm, 1398, rfl⟩
abbrev main_v1325 : Ref sig .tc := ⟨.hbm, 1399, rfl⟩
abbrev main_v1326 : Ref sig .tc := ⟨.hbm, 1400, rfl⟩
abbrev main_v1327 : Ref sig .tc := ⟨.hbm, 1401, rfl⟩
abbrev main_v1328 : Ref sig .tc := ⟨.hbm, 1402, rfl⟩
abbrev main_v1329 : Ref sig .tc := ⟨.hbm, 1403, rfl⟩
abbrev main_v1330 : Ref sig .tc := ⟨.hbm, 1404, rfl⟩
abbrev main_v1331 : Ref sig .tc := ⟨.hbm, 1405, rfl⟩
abbrev main_v1332 : Ref sig .tc := ⟨.hbm, 1406, rfl⟩
abbrev main_v1333 : Ref sig .tc := ⟨.hbm, 1407, rfl⟩
abbrev main_v1334 : Ref sig .tc := ⟨.hbm, 1408, rfl⟩
abbrev main_v1335 : Ref sig .tc := ⟨.hbm, 1409, rfl⟩
abbrev main_v1336 : Ref sig .tc := ⟨.hbm, 1410, rfl⟩
abbrev main_v1337 : Ref sig .tc := ⟨.hbm, 1411, rfl⟩
abbrev main_v1338 : Ref sig .tc := ⟨.hbm, 1412, rfl⟩
abbrev main_v1339 : Ref sig .tc := ⟨.hbm, 1413, rfl⟩
abbrev main_v1340 : Ref sig .tc := ⟨.hbm, 1414, rfl⟩
abbrev main_v1341 : Ref sig .tc := ⟨.hbm, 1415, rfl⟩
abbrev main_v1342 : Ref sig .tc := ⟨.hbm, 1416, rfl⟩
abbrev main_v1343 : Ref sig .tc := ⟨.hbm, 1417, rfl⟩
abbrev main_v1344 : Ref sig .tc := ⟨.hbm, 1418, rfl⟩
abbrev main_v1345 : Ref sig .tc := ⟨.hbm, 1419, rfl⟩
abbrev main_v1346 : Ref sig .tc := ⟨.hbm, 1420, rfl⟩
abbrev main_c_70 : Ref sig .tc := ⟨.hbm, 1421, rfl⟩
abbrev main_v1347 : Ref sig .tc := ⟨.hbm, 1422, rfl⟩
abbrev main_v1348 : Ref sig .tc := ⟨.hbm, 1423, rfl⟩
abbrev main_v1349 : Ref sig .tc := ⟨.hbm, 1424, rfl⟩
abbrev main_v1350 : Ref sig .tc := ⟨.hbm, 1425, rfl⟩
abbrev main_v1351 : Ref sig .tc := ⟨.hbm, 1426, rfl⟩
abbrev main_v1352 : Ref sig .tc := ⟨.hbm, 1427, rfl⟩
abbrev main_v1353 : Ref sig .tc := ⟨.hbm, 1428, rfl⟩
abbrev main_v1354 : Ref sig .tc := ⟨.hbm, 1429, rfl⟩
abbrev main_v1355 : Ref sig .tc := ⟨.hbm, 1430, rfl⟩
abbrev main_v1356 : Ref sig .tc := ⟨.hbm, 1431, rfl⟩
abbrev main_v1357 : Ref sig .tc := ⟨.hbm, 1432, rfl⟩
abbrev main_v1358 : Ref sig .tc := ⟨.hbm, 1433, rfl⟩
abbrev main_v1359 : Ref sig .tc := ⟨.hbm, 1434, rfl⟩
abbrev main_v1360 : Ref sig .tc := ⟨.hbm, 1435, rfl⟩
abbrev main_v1361 : Ref sig .tc := ⟨.hbm, 1436, rfl⟩
abbrev main_v1362 : Ref sig .tc := ⟨.hbm, 1437, rfl⟩
abbrev main_v1363 : Ref sig .tc := ⟨.hbm, 1438, rfl⟩
abbrev main_v1364 : Ref sig .tc := ⟨.hbm, 1439, rfl⟩
abbrev main_v1365 : Ref sig .tc := ⟨.hbm, 1440, rfl⟩
abbrev main_v1366 : Ref sig .tc := ⟨.hbm, 1441, rfl⟩
abbrev main_c_71 : Ref sig .tc := ⟨.hbm, 1442, rfl⟩
abbrev main_v1367 : Ref sig .tc := ⟨.hbm, 1443, rfl⟩
abbrev main_v1368 : Ref sig .tc := ⟨.hbm, 1444, rfl⟩
abbrev main_v1369 : Ref sig .tc := ⟨.hbm, 1445, rfl⟩
abbrev main_v1370 : Ref sig .tc := ⟨.hbm, 1446, rfl⟩
abbrev main_v1371 : Ref sig .tc := ⟨.hbm, 1447, rfl⟩
abbrev main_v1372 : Ref sig .tc := ⟨.hbm, 1448, rfl⟩
abbrev main_v1373 : Ref sig .tc := ⟨.hbm, 1449, rfl⟩
abbrev main_v1374 : Ref sig .tc := ⟨.hbm, 1450, rfl⟩
abbrev main_v1375 : Ref sig .tc := ⟨.hbm, 1451, rfl⟩
abbrev main_v1376 : Ref sig .tc := ⟨.hbm, 1452, rfl⟩
abbrev main_v1377 : Ref sig .tc := ⟨.hbm, 1453, rfl⟩
abbrev main_v1378 : Ref sig .tc := ⟨.hbm, 1454, rfl⟩
abbrev main_v1379 : Ref sig .tc := ⟨.hbm, 1455, rfl⟩
abbrev main_v1380 : Ref sig .tc := ⟨.hbm, 1456, rfl⟩
abbrev main_v1381 : Ref sig .tc := ⟨.hbm, 1457, rfl⟩
abbrev main_v1382 : Ref sig .tc := ⟨.hbm, 1458, rfl⟩
abbrev main_v1383 : Ref sig .tc := ⟨.hbm, 1459, rfl⟩
abbrev main_v1384 : Ref sig .tc := ⟨.hbm, 1460, rfl⟩
abbrev main_v1385 : Ref sig .tc := ⟨.hbm, 1461, rfl⟩
abbrev main_v1386 : Ref sig .tc := ⟨.hbm, 1462, rfl⟩
abbrev main_c_72 : Ref sig .tc := ⟨.hbm, 1463, rfl⟩
abbrev main_v1387 : Ref sig .tc := ⟨.hbm, 1464, rfl⟩
abbrev main_v1388 : Ref sig .tc := ⟨.hbm, 1465, rfl⟩
abbrev main_v1389 : Ref sig .tc := ⟨.hbm, 1466, rfl⟩
abbrev main_v1390 : Ref sig .tc := ⟨.hbm, 1467, rfl⟩
abbrev main_v1391 : Ref sig .tc := ⟨.hbm, 1468, rfl⟩
abbrev main_v1392 : Ref sig .tc := ⟨.hbm, 1469, rfl⟩
abbrev main_v1393 : Ref sig .tc := ⟨.hbm, 1470, rfl⟩
abbrev main_v1394 : Ref sig .tc := ⟨.hbm, 1471, rfl⟩
abbrev main_v1395 : Ref sig .tc := ⟨.hbm, 1472, rfl⟩
abbrev main_v1396 : Ref sig .tc := ⟨.hbm, 1473, rfl⟩
abbrev main_v1397 : Ref sig .tc := ⟨.hbm, 1474, rfl⟩
abbrev main_v1398 : Ref sig .tc := ⟨.hbm, 1475, rfl⟩
abbrev main_v1399 : Ref sig .tc := ⟨.hbm, 1476, rfl⟩
abbrev main_v1400 : Ref sig .tc := ⟨.hbm, 1477, rfl⟩
abbrev main_v1401 : Ref sig .tc := ⟨.hbm, 1478, rfl⟩
abbrev main_v1402 : Ref sig .tc := ⟨.hbm, 1479, rfl⟩
abbrev main_v1403 : Ref sig .tc := ⟨.hbm, 1480, rfl⟩
abbrev main_v1404 : Ref sig .tc := ⟨.hbm, 1481, rfl⟩
abbrev main_v1405 : Ref sig .tc := ⟨.hbm, 1482, rfl⟩
abbrev main_v1406 : Ref sig .tc := ⟨.hbm, 1483, rfl⟩
abbrev main_c_73 : Ref sig .tc := ⟨.hbm, 1484, rfl⟩
abbrev main_v1407 : Ref sig .tc := ⟨.hbm, 1485, rfl⟩
abbrev main_v1408 : Ref sig .tc := ⟨.hbm, 1486, rfl⟩
abbrev main_v1409 : Ref sig .tc := ⟨.hbm, 1487, rfl⟩
abbrev main_v1410 : Ref sig .tc := ⟨.hbm, 1488, rfl⟩
abbrev main_v1411 : Ref sig .tc := ⟨.hbm, 1489, rfl⟩
abbrev main_v1412 : Ref sig .tc := ⟨.hbm, 1490, rfl⟩
abbrev main_v1413 : Ref sig .tc := ⟨.hbm, 1491, rfl⟩
abbrev main_v1414 : Ref sig .tc := ⟨.hbm, 1492, rfl⟩
abbrev main_v1415 : Ref sig .tc := ⟨.hbm, 1493, rfl⟩
abbrev main_v1416 : Ref sig .tc := ⟨.hbm, 1494, rfl⟩
abbrev main_v1417 : Ref sig .tc := ⟨.hbm, 1495, rfl⟩
abbrev main_v1418 : Ref sig .tc := ⟨.hbm, 1496, rfl⟩
abbrev main_v1419 : Ref sig .tc := ⟨.hbm, 1497, rfl⟩
abbrev main_v1420 : Ref sig .tc := ⟨.hbm, 1498, rfl⟩
abbrev main_v1421 : Ref sig .tc := ⟨.hbm, 1499, rfl⟩
abbrev main_v1422 : Ref sig .tc := ⟨.hbm, 1500, rfl⟩
abbrev main_v1423 : Ref sig .tc := ⟨.hbm, 1501, rfl⟩
abbrev main_v1424 : Ref sig .tc := ⟨.hbm, 1502, rfl⟩
abbrev main_v1425 : Ref sig .tc := ⟨.hbm, 1503, rfl⟩
abbrev main_v1426 : Ref sig .tc := ⟨.hbm, 1504, rfl⟩
abbrev main_c_74 : Ref sig .tc := ⟨.hbm, 1505, rfl⟩
abbrev main_v1427 : Ref sig .tc := ⟨.hbm, 1506, rfl⟩
abbrev main_v1428 : Ref sig .tc := ⟨.hbm, 1507, rfl⟩
abbrev main_v1429 : Ref sig .tc := ⟨.hbm, 1508, rfl⟩
abbrev main_v1430 : Ref sig .tc := ⟨.hbm, 1509, rfl⟩
abbrev main_v1431 : Ref sig .tc := ⟨.hbm, 1510, rfl⟩
abbrev main_v1432 : Ref sig .tc := ⟨.hbm, 1511, rfl⟩
abbrev main_v1433 : Ref sig .tc := ⟨.hbm, 1512, rfl⟩
abbrev main_v1434 : Ref sig .tc := ⟨.hbm, 1513, rfl⟩
abbrev main_v1435 : Ref sig .tc := ⟨.hbm, 1514, rfl⟩
abbrev main_v1436 : Ref sig .tc := ⟨.hbm, 1515, rfl⟩
abbrev main_v1437 : Ref sig .tc := ⟨.hbm, 1516, rfl⟩
abbrev main_v1438 : Ref sig .tc := ⟨.hbm, 1517, rfl⟩
abbrev main_v1439 : Ref sig .tc := ⟨.hbm, 1518, rfl⟩
abbrev main_v1440 : Ref sig .tc := ⟨.hbm, 1519, rfl⟩
abbrev main_v1441 : Ref sig .tc := ⟨.hbm, 1520, rfl⟩
abbrev main_v1442 : Ref sig .tc := ⟨.hbm, 1521, rfl⟩
abbrev main_v1443 : Ref sig .tc := ⟨.hbm, 1522, rfl⟩
abbrev main_v1444 : Ref sig .tc := ⟨.hbm, 1523, rfl⟩
abbrev main_v1445 : Ref sig .tc := ⟨.hbm, 1524, rfl⟩
abbrev main_v1446 : Ref sig .tc := ⟨.hbm, 1525, rfl⟩
abbrev main_c_75 : Ref sig .tc := ⟨.hbm, 1526, rfl⟩
abbrev main_v1447 : Ref sig .tc := ⟨.hbm, 1527, rfl⟩
abbrev main_v1448 : Ref sig .tc := ⟨.hbm, 1528, rfl⟩
abbrev main_v1449 : Ref sig .tc := ⟨.hbm, 1529, rfl⟩
abbrev main_v1450 : Ref sig .tc := ⟨.hbm, 1530, rfl⟩
abbrev main_v1451 : Ref sig .tc := ⟨.hbm, 1531, rfl⟩
abbrev main_v1452 : Ref sig .tc := ⟨.hbm, 1532, rfl⟩
abbrev main_v1453 : Ref sig .tc := ⟨.hbm, 1533, rfl⟩
abbrev main_v1454 : Ref sig .tc := ⟨.hbm, 1534, rfl⟩
abbrev main_v1455 : Ref sig .tc := ⟨.hbm, 1535, rfl⟩
abbrev main_v1456 : Ref sig .tc := ⟨.hbm, 1536, rfl⟩
abbrev main_v1457 : Ref sig .tc := ⟨.hbm, 1537, rfl⟩
abbrev main_v1458 : Ref sig .tc := ⟨.hbm, 1538, rfl⟩
abbrev main_v1459 : Ref sig .tc := ⟨.hbm, 1539, rfl⟩
abbrev main_v1460 : Ref sig .tc := ⟨.hbm, 1540, rfl⟩
abbrev main_v1461 : Ref sig .tc := ⟨.hbm, 1541, rfl⟩
abbrev main_v1462 : Ref sig .tc := ⟨.hbm, 1542, rfl⟩
abbrev main_v1463 : Ref sig .tc := ⟨.hbm, 1543, rfl⟩
abbrev main_v1464 : Ref sig .tc := ⟨.hbm, 1544, rfl⟩
abbrev main_v1465 : Ref sig .tc := ⟨.hbm, 1545, rfl⟩
abbrev main_v1466 : Ref sig .tc := ⟨.hbm, 1546, rfl⟩
abbrev main_c_76 : Ref sig .tc := ⟨.hbm, 1547, rfl⟩
abbrev main_v1467 : Ref sig .tc := ⟨.hbm, 1548, rfl⟩
abbrev main_v1468 : Ref sig .tc := ⟨.hbm, 1549, rfl⟩
abbrev main_v1469 : Ref sig .tc := ⟨.hbm, 1550, rfl⟩
abbrev main_v1470 : Ref sig .tc := ⟨.hbm, 1551, rfl⟩
abbrev main_v1471 : Ref sig .tc := ⟨.hbm, 1552, rfl⟩
abbrev main_v1472 : Ref sig .tc := ⟨.hbm, 1553, rfl⟩
abbrev main_v1473 : Ref sig .tc := ⟨.hbm, 1554, rfl⟩
abbrev main_v1474 : Ref sig .tc := ⟨.hbm, 1555, rfl⟩
abbrev main_v1475 : Ref sig .tc := ⟨.hbm, 1556, rfl⟩
abbrev main_v1476 : Ref sig .tc := ⟨.hbm, 1557, rfl⟩
abbrev main_v1477 : Ref sig .tc := ⟨.hbm, 1558, rfl⟩
abbrev main_v1478 : Ref sig .tc := ⟨.hbm, 1559, rfl⟩
abbrev main_v1479 : Ref sig .tc := ⟨.hbm, 1560, rfl⟩
abbrev main_v1480 : Ref sig .tc := ⟨.hbm, 1561, rfl⟩
abbrev main_v1481 : Ref sig .tc := ⟨.hbm, 1562, rfl⟩
abbrev main_v1482 : Ref sig .tc := ⟨.hbm, 1563, rfl⟩
abbrev main_v1483 : Ref sig .tc := ⟨.hbm, 1564, rfl⟩
abbrev main_v1484 : Ref sig .tc := ⟨.hbm, 1565, rfl⟩
abbrev main_v1485 : Ref sig .tc := ⟨.hbm, 1566, rfl⟩
abbrev main_v1486 : Ref sig .tc := ⟨.hbm, 1567, rfl⟩
abbrev main_c_77 : Ref sig .tc := ⟨.hbm, 1568, rfl⟩
abbrev main_v1487 : Ref sig .tc := ⟨.hbm, 1569, rfl⟩
abbrev main_v1488 : Ref sig .tc := ⟨.hbm, 1570, rfl⟩
abbrev main_v1489 : Ref sig .tc := ⟨.hbm, 1571, rfl⟩
abbrev main_v1490 : Ref sig .tc := ⟨.hbm, 1572, rfl⟩
abbrev main_v1491 : Ref sig .tc := ⟨.hbm, 1573, rfl⟩
abbrev main_v1492 : Ref sig .tc := ⟨.hbm, 1574, rfl⟩
abbrev main_v1493 : Ref sig .tc := ⟨.hbm, 1575, rfl⟩
abbrev main_v1494 : Ref sig .tc := ⟨.hbm, 1576, rfl⟩
abbrev main_v1495 : Ref sig .tc := ⟨.hbm, 1577, rfl⟩
abbrev main_v1496 : Ref sig .tc := ⟨.hbm, 1578, rfl⟩
abbrev main_v1497 : Ref sig .tc := ⟨.hbm, 1579, rfl⟩
abbrev main_v1498 : Ref sig .tc := ⟨.hbm, 1580, rfl⟩
abbrev main_v1499 : Ref sig .tc := ⟨.hbm, 1581, rfl⟩
abbrev main_v1500 : Ref sig .tc := ⟨.hbm, 1582, rfl⟩
abbrev main_v1501 : Ref sig .tc := ⟨.hbm, 1583, rfl⟩
abbrev main_v1502 : Ref sig .tc := ⟨.hbm, 1584, rfl⟩
abbrev main_v1503 : Ref sig .tc := ⟨.hbm, 1585, rfl⟩
abbrev main_v1504 : Ref sig .tc := ⟨.hbm, 1586, rfl⟩
abbrev main_v1505 : Ref sig .tc := ⟨.hbm, 1587, rfl⟩
abbrev main_v1506 : Ref sig .tc := ⟨.hbm, 1588, rfl⟩
abbrev main_c_78 : Ref sig .tc := ⟨.hbm, 1589, rfl⟩
abbrev main_v1507 : Ref sig .tc := ⟨.hbm, 1590, rfl⟩
abbrev main_v1508 : Ref sig .tc := ⟨.hbm, 1591, rfl⟩
abbrev main_v1509 : Ref sig .tc := ⟨.hbm, 1592, rfl⟩
abbrev main_v1510 : Ref sig .tc := ⟨.hbm, 1593, rfl⟩
abbrev main_v1511 : Ref sig .tc := ⟨.hbm, 1594, rfl⟩
abbrev main_v1512 : Ref sig .tc := ⟨.hbm, 1595, rfl⟩
abbrev main_v1513 : Ref sig .tc := ⟨.hbm, 1596, rfl⟩
abbrev main_v1514 : Ref sig .tc := ⟨.hbm, 1597, rfl⟩
abbrev main_v1515 : Ref sig .tc := ⟨.hbm, 1598, rfl⟩
abbrev main_v1516 : Ref sig .tc := ⟨.hbm, 1599, rfl⟩
abbrev main_v1517 : Ref sig .tc := ⟨.hbm, 1600, rfl⟩
abbrev main_v1518 : Ref sig .tc := ⟨.hbm, 1601, rfl⟩
abbrev main_v1519 : Ref sig .tc := ⟨.hbm, 1602, rfl⟩
abbrev main_v1520 : Ref sig .tc := ⟨.hbm, 1603, rfl⟩
abbrev main_v1521 : Ref sig .tc := ⟨.hbm, 1604, rfl⟩
abbrev main_v1522 : Ref sig .tc := ⟨.hbm, 1605, rfl⟩
abbrev main_v1523 : Ref sig .tc := ⟨.hbm, 1606, rfl⟩
abbrev main_v1524 : Ref sig .tc := ⟨.hbm, 1607, rfl⟩
abbrev main_v1525 : Ref sig .tc := ⟨.hbm, 1608, rfl⟩
abbrev main_v1526 : Ref sig .tc := ⟨.hbm, 1609, rfl⟩
abbrev main_c_79 : Ref sig .tc := ⟨.hbm, 1610, rfl⟩
abbrev main_v1527 : Ref sig .tc := ⟨.hbm, 1611, rfl⟩
abbrev main_v1528 : Ref sig .tc := ⟨.hbm, 1612, rfl⟩
abbrev main_c_80 : Ref sig .tc := ⟨.hbm, 1613, rfl⟩
abbrev main_v1529 : Ref sig .tc := ⟨.hbm, 1614, rfl⟩
abbrev main_v1530 : Ref sig .tc := ⟨.hbm, 1615, rfl⟩
abbrev main_v1531 : Ref sig .tc := ⟨.hbm, 1616, rfl⟩
abbrev main_v1532 : Ref sig .tc := ⟨.hbm, 1617, rfl⟩
abbrev main_v1533 : Ref sig .tc := ⟨.hbm, 1618, rfl⟩
abbrev main_v1534 : Ref sig .tc := ⟨.hbm, 1619, rfl⟩
abbrev main_v1535 : Ref sig .tc := ⟨.hbm, 1620, rfl⟩
abbrev main_v1536 : Ref sig .tc := ⟨.hbm, 1621, rfl⟩
abbrev main_v1537 : Ref sig .tc := ⟨.hbm, 1622, rfl⟩
abbrev main_v1538 : Ref sig .tc := ⟨.hbm, 1623, rfl⟩
abbrev main_v1539 : Ref sig .tc := ⟨.hbm, 1624, rfl⟩
abbrev main_v1540 : Ref sig .tc := ⟨.hbm, 1625, rfl⟩
abbrev main_v1541 : Ref sig .tc := ⟨.hbm, 1626, rfl⟩
abbrev main_v1542 : Ref sig .tc := ⟨.hbm, 1627, rfl⟩
abbrev main_v1543 : Ref sig .tc := ⟨.hbm, 1628, rfl⟩
abbrev main_v1544 : Ref sig .tc := ⟨.hbm, 1629, rfl⟩
abbrev main_v1545 : Ref sig .tc := ⟨.hbm, 1630, rfl⟩
abbrev main_v1546 : Ref sig .tc := ⟨.hbm, 1631, rfl⟩
abbrev main_v1547 : Ref sig .tc := ⟨.hbm, 1632, rfl⟩
abbrev main_v1548 : Ref sig .tc := ⟨.hbm, 1633, rfl⟩
abbrev main_v1549 : Ref sig .tc := ⟨.hbm, 1634, rfl⟩
abbrev main_v1550 : Ref sig .tc := ⟨.hbm, 1635, rfl⟩
abbrev main_c_81 : Ref sig .tc := ⟨.hbm, 1636, rfl⟩
abbrev main_v1551 : Ref sig .tc := ⟨.hbm, 1637, rfl⟩
abbrev main_v1552 : Ref sig .tc := ⟨.hbm, 1638, rfl⟩
abbrev main_v1553 : Ref sig .tc := ⟨.hbm, 1639, rfl⟩
abbrev main_v1554 : Ref sig .tc := ⟨.hbm, 1640, rfl⟩
abbrev main_v1555 : Ref sig .tc := ⟨.hbm, 1641, rfl⟩
abbrev main_v1556 : Ref sig .tc := ⟨.hbm, 1642, rfl⟩
abbrev main_v1557 : Ref sig .tc := ⟨.hbm, 1643, rfl⟩
abbrev main_v1558 : Ref sig .tc := ⟨.hbm, 1644, rfl⟩
abbrev main_v1559 : Ref sig .tc := ⟨.hbm, 1645, rfl⟩
abbrev main_v1560 : Ref sig .tc := ⟨.hbm, 1646, rfl⟩
abbrev main_v1561 : Ref sig .tc := ⟨.hbm, 1647, rfl⟩
abbrev main_v1562 : Ref sig .tc := ⟨.hbm, 1648, rfl⟩
abbrev main_v1563 : Ref sig .tc := ⟨.hbm, 1649, rfl⟩
abbrev main_v1564 : Ref sig .tc := ⟨.hbm, 1650, rfl⟩
abbrev main_v1565 : Ref sig .tc := ⟨.hbm, 1651, rfl⟩
abbrev main_v1566 : Ref sig .tc := ⟨.hbm, 1652, rfl⟩
abbrev main_v1567 : Ref sig .tc := ⟨.hbm, 1653, rfl⟩
abbrev main_v1568 : Ref sig .tc := ⟨.hbm, 1654, rfl⟩
abbrev main_v1569 : Ref sig .tc := ⟨.hbm, 1655, rfl⟩
abbrev main_v1570 : Ref sig .tc := ⟨.hbm, 1656, rfl⟩
abbrev main_c_82 : Ref sig .tc := ⟨.hbm, 1657, rfl⟩
abbrev main_v1571 : Ref sig .tc := ⟨.hbm, 1658, rfl⟩
abbrev main_v1572 : Ref sig .tc := ⟨.hbm, 1659, rfl⟩
abbrev main_v1573 : Ref sig .tc := ⟨.hbm, 1660, rfl⟩
abbrev main_v1574 : Ref sig .tc := ⟨.hbm, 1661, rfl⟩
abbrev main_v1575 : Ref sig .tc := ⟨.hbm, 1662, rfl⟩
abbrev main_v1576 : Ref sig .tc := ⟨.hbm, 1663, rfl⟩
abbrev main_v1577 : Ref sig .tc := ⟨.hbm, 1664, rfl⟩
abbrev main_v1578 : Ref sig .tc := ⟨.hbm, 1665, rfl⟩
abbrev main_v1579 : Ref sig .tc := ⟨.hbm, 1666, rfl⟩
abbrev main_v1580 : Ref sig .tc := ⟨.hbm, 1667, rfl⟩
abbrev main_v1581 : Ref sig .tc := ⟨.hbm, 1668, rfl⟩
abbrev main_v1582 : Ref sig .tc := ⟨.hbm, 1669, rfl⟩
abbrev main_v1583 : Ref sig .tc := ⟨.hbm, 1670, rfl⟩
abbrev main_v1584 : Ref sig .tc := ⟨.hbm, 1671, rfl⟩
abbrev main_v1585 : Ref sig .tc := ⟨.hbm, 1672, rfl⟩
abbrev main_v1586 : Ref sig .tc := ⟨.hbm, 1673, rfl⟩
abbrev main_v1587 : Ref sig .tc := ⟨.hbm, 1674, rfl⟩
abbrev main_v1588 : Ref sig .tc := ⟨.hbm, 1675, rfl⟩
abbrev main_v1589 : Ref sig .tc := ⟨.hbm, 1676, rfl⟩
abbrev main_v1590 : Ref sig .tc := ⟨.hbm, 1677, rfl⟩
abbrev main_c_83 : Ref sig .tc := ⟨.hbm, 1678, rfl⟩
abbrev main_v1591 : Ref sig .tc := ⟨.hbm, 1679, rfl⟩
abbrev main_v1592 : Ref sig .tc := ⟨.hbm, 1680, rfl⟩
abbrev main_v1593 : Ref sig .tc := ⟨.hbm, 1681, rfl⟩
abbrev main_v1594 : Ref sig .tc := ⟨.hbm, 1682, rfl⟩
abbrev main_v1595 : Ref sig .tc := ⟨.hbm, 1683, rfl⟩
abbrev main_v1596 : Ref sig .tc := ⟨.hbm, 1684, rfl⟩
abbrev main_v1597 : Ref sig .tc := ⟨.hbm, 1685, rfl⟩
abbrev main_v1598 : Ref sig .tc := ⟨.hbm, 1686, rfl⟩
abbrev main_v1599 : Ref sig .tc := ⟨.hbm, 1687, rfl⟩
abbrev main_v1600 : Ref sig .tc := ⟨.hbm, 1688, rfl⟩
abbrev main_v1601 : Ref sig .tc := ⟨.hbm, 1689, rfl⟩
abbrev main_v1602 : Ref sig .tc := ⟨.hbm, 1690, rfl⟩
abbrev main_v1603 : Ref sig .tc := ⟨.hbm, 1691, rfl⟩
abbrev main_v1604 : Ref sig .tc := ⟨.hbm, 1692, rfl⟩
abbrev main_v1605 : Ref sig .tc := ⟨.hbm, 1693, rfl⟩
abbrev main_v1606 : Ref sig .tc := ⟨.hbm, 1694, rfl⟩
abbrev main_v1607 : Ref sig .tc := ⟨.hbm, 1695, rfl⟩
abbrev main_v1608 : Ref sig .tc := ⟨.hbm, 1696, rfl⟩
abbrev main_v1609 : Ref sig .tc := ⟨.hbm, 1697, rfl⟩
abbrev main_v1610 : Ref sig .tc := ⟨.hbm, 1698, rfl⟩
abbrev main_c_84 : Ref sig .tc := ⟨.hbm, 1699, rfl⟩
abbrev main_v1611 : Ref sig .tc := ⟨.hbm, 1700, rfl⟩
abbrev main_v1612 : Ref sig .tc := ⟨.hbm, 1701, rfl⟩
abbrev main_v1613 : Ref sig .tc := ⟨.hbm, 1702, rfl⟩
abbrev main_v1614 : Ref sig .tc := ⟨.hbm, 1703, rfl⟩
abbrev main_v1615 : Ref sig .tc := ⟨.hbm, 1704, rfl⟩
abbrev main_v1616 : Ref sig .tc := ⟨.hbm, 1705, rfl⟩
abbrev main_v1617 : Ref sig .tc := ⟨.hbm, 1706, rfl⟩
abbrev main_v1618 : Ref sig .tc := ⟨.hbm, 1707, rfl⟩
abbrev main_v1619 : Ref sig .tc := ⟨.hbm, 1708, rfl⟩
abbrev main_v1620 : Ref sig .tc := ⟨.hbm, 1709, rfl⟩
abbrev main_v1621 : Ref sig .tc := ⟨.hbm, 1710, rfl⟩
abbrev main_v1622 : Ref sig .tc := ⟨.hbm, 1711, rfl⟩
abbrev main_v1623 : Ref sig .tc := ⟨.hbm, 1712, rfl⟩
abbrev main_v1624 : Ref sig .tc := ⟨.hbm, 1713, rfl⟩
abbrev main_v1625 : Ref sig .tc := ⟨.hbm, 1714, rfl⟩
abbrev main_v1626 : Ref sig .tc := ⟨.hbm, 1715, rfl⟩
abbrev main_v1627 : Ref sig .tc := ⟨.hbm, 1716, rfl⟩
abbrev main_v1628 : Ref sig .tc := ⟨.hbm, 1717, rfl⟩
abbrev main_v1629 : Ref sig .tc := ⟨.hbm, 1718, rfl⟩
abbrev main_v1630 : Ref sig .tc := ⟨.hbm, 1719, rfl⟩
abbrev main_c_85 : Ref sig .tc := ⟨.hbm, 1720, rfl⟩
abbrev main_v1631 : Ref sig .tc := ⟨.hbm, 1721, rfl⟩
abbrev main_v1632 : Ref sig .tc := ⟨.hbm, 1722, rfl⟩
abbrev main_v1633 : Ref sig .tc := ⟨.hbm, 1723, rfl⟩
abbrev main_v1634 : Ref sig .tc := ⟨.hbm, 1724, rfl⟩
abbrev main_v1635 : Ref sig .tc := ⟨.hbm, 1725, rfl⟩
abbrev main_v1636 : Ref sig .tc := ⟨.hbm, 1726, rfl⟩
abbrev main_v1637 : Ref sig .tc := ⟨.hbm, 1727, rfl⟩
abbrev main_v1638 : Ref sig .tc := ⟨.hbm, 1728, rfl⟩
abbrev main_v1639 : Ref sig .tc := ⟨.hbm, 1729, rfl⟩
abbrev main_v1640 : Ref sig .tc := ⟨.hbm, 1730, rfl⟩
abbrev main_v1641 : Ref sig .tc := ⟨.hbm, 1731, rfl⟩
abbrev main_v1642 : Ref sig .tc := ⟨.hbm, 1732, rfl⟩
abbrev main_v1643 : Ref sig .tc := ⟨.hbm, 1733, rfl⟩
abbrev main_v1644 : Ref sig .tc := ⟨.hbm, 1734, rfl⟩
abbrev main_v1645 : Ref sig .tc := ⟨.hbm, 1735, rfl⟩
abbrev main_v1646 : Ref sig .tc := ⟨.hbm, 1736, rfl⟩
abbrev main_v1647 : Ref sig .tc := ⟨.hbm, 1737, rfl⟩
abbrev main_v1648 : Ref sig .tc := ⟨.hbm, 1738, rfl⟩
abbrev main_v1649 : Ref sig .tc := ⟨.hbm, 1739, rfl⟩
abbrev main_v1650 : Ref sig .tc := ⟨.hbm, 1740, rfl⟩
abbrev main_c_86 : Ref sig .tc := ⟨.hbm, 1741, rfl⟩
abbrev main_v1651 : Ref sig .tc := ⟨.hbm, 1742, rfl⟩
abbrev main_v1652 : Ref sig .tc := ⟨.hbm, 1743, rfl⟩
abbrev main_v1653 : Ref sig .tc := ⟨.hbm, 1744, rfl⟩
abbrev main_v1654 : Ref sig .tc := ⟨.hbm, 1745, rfl⟩
abbrev main_v1655 : Ref sig .tc := ⟨.hbm, 1746, rfl⟩
abbrev main_v1656 : Ref sig .tc := ⟨.hbm, 1747, rfl⟩
abbrev main_v1657 : Ref sig .tc := ⟨.hbm, 1748, rfl⟩
abbrev main_v1658 : Ref sig .tc := ⟨.hbm, 1749, rfl⟩
abbrev main_v1659 : Ref sig .tc := ⟨.hbm, 1750, rfl⟩
abbrev main_v1660 : Ref sig .tc := ⟨.hbm, 1751, rfl⟩
abbrev main_v1661 : Ref sig .tc := ⟨.hbm, 1752, rfl⟩
abbrev main_v1662 : Ref sig .tc := ⟨.hbm, 1753, rfl⟩
abbrev main_v1663 : Ref sig .tc := ⟨.hbm, 1754, rfl⟩
abbrev main_v1664 : Ref sig .tc := ⟨.hbm, 1755, rfl⟩
abbrev main_v1665 : Ref sig .tc := ⟨.hbm, 1756, rfl⟩
abbrev main_v1666 : Ref sig .tc := ⟨.hbm, 1757, rfl⟩
abbrev main_v1667 : Ref sig .tc := ⟨.hbm, 1758, rfl⟩
abbrev main_v1668 : Ref sig .tc := ⟨.hbm, 1759, rfl⟩
abbrev main_v1669 : Ref sig .tc := ⟨.hbm, 1760, rfl⟩
abbrev main_v1670 : Ref sig .tc := ⟨.hbm, 1761, rfl⟩
abbrev main_c_87 : Ref sig .tc := ⟨.hbm, 1762, rfl⟩
abbrev main_v1671 : Ref sig .tc := ⟨.hbm, 1763, rfl⟩
abbrev main_v1672 : Ref sig .tc := ⟨.hbm, 1764, rfl⟩
abbrev main_v1673 : Ref sig .tc := ⟨.hbm, 1765, rfl⟩
abbrev main_v1674 : Ref sig .tc := ⟨.hbm, 1766, rfl⟩
abbrev main_v1675 : Ref sig .tc := ⟨.hbm, 1767, rfl⟩
abbrev main_v1676 : Ref sig .tc := ⟨.hbm, 1768, rfl⟩
abbrev main_v1677 : Ref sig .tc := ⟨.hbm, 1769, rfl⟩
abbrev main_v1678 : Ref sig .tc := ⟨.hbm, 1770, rfl⟩
abbrev main_v1679 : Ref sig .tc := ⟨.hbm, 1771, rfl⟩
abbrev main_v1680 : Ref sig .tc := ⟨.hbm, 1772, rfl⟩
abbrev main_v1681 : Ref sig .tc := ⟨.hbm, 1773, rfl⟩
abbrev main_v1682 : Ref sig .tc := ⟨.hbm, 1774, rfl⟩
abbrev main_v1683 : Ref sig .tc := ⟨.hbm, 1775, rfl⟩
abbrev main_v1684 : Ref sig .tc := ⟨.hbm, 1776, rfl⟩
abbrev main_v1685 : Ref sig .tc := ⟨.hbm, 1777, rfl⟩
abbrev main_v1686 : Ref sig .tc := ⟨.hbm, 1778, rfl⟩
abbrev main_v1687 : Ref sig .tc := ⟨.hbm, 1779, rfl⟩
abbrev main_v1688 : Ref sig .tc := ⟨.hbm, 1780, rfl⟩
abbrev main_v1689 : Ref sig .tc := ⟨.hbm, 1781, rfl⟩
abbrev main_v1690 : Ref sig .tc := ⟨.hbm, 1782, rfl⟩
abbrev main_c_88 : Ref sig .tc := ⟨.hbm, 1783, rfl⟩
abbrev main_v1691 : Ref sig .tc := ⟨.hbm, 1784, rfl⟩
abbrev main_v1692 : Ref sig .tc := ⟨.hbm, 1785, rfl⟩
abbrev main_v1693 : Ref sig .tc := ⟨.hbm, 1786, rfl⟩
abbrev main_v1694 : Ref sig .tc := ⟨.hbm, 1787, rfl⟩
abbrev main_v1695 : Ref sig .tc := ⟨.hbm, 1788, rfl⟩
abbrev main_v1696 : Ref sig .tc := ⟨.hbm, 1789, rfl⟩
abbrev main_v1697 : Ref sig .tc := ⟨.hbm, 1790, rfl⟩
abbrev main_v1698 : Ref sig .tc := ⟨.hbm, 1791, rfl⟩
abbrev main_v1699 : Ref sig .tc := ⟨.hbm, 1792, rfl⟩
abbrev main_v1700 : Ref sig .tc := ⟨.hbm, 1793, rfl⟩
abbrev main_v1701 : Ref sig .tc := ⟨.hbm, 1794, rfl⟩
abbrev main_v1702 : Ref sig .tc := ⟨.hbm, 1795, rfl⟩
abbrev main_v1703 : Ref sig .tc := ⟨.hbm, 1796, rfl⟩
abbrev main_v1704 : Ref sig .tc := ⟨.hbm, 1797, rfl⟩
abbrev main_v1705 : Ref sig .tc := ⟨.hbm, 1798, rfl⟩
abbrev main_v1706 : Ref sig .tc := ⟨.hbm, 1799, rfl⟩
abbrev main_v1707 : Ref sig .tc := ⟨.hbm, 1800, rfl⟩
abbrev main_v1708 : Ref sig .tc := ⟨.hbm, 1801, rfl⟩
abbrev main_v1709 : Ref sig .tc := ⟨.hbm, 1802, rfl⟩
abbrev main_v1710 : Ref sig .tc := ⟨.hbm, 1803, rfl⟩
abbrev main_c_89 : Ref sig .tc := ⟨.hbm, 1804, rfl⟩
abbrev main_v1711 : Ref sig .tc := ⟨.hbm, 1805, rfl⟩
abbrev main_v1712 : Ref sig .tc := ⟨.hbm, 1806, rfl⟩
abbrev main_c_90 : Ref sig .tc := ⟨.hbm, 1807, rfl⟩
abbrev main_v1713 : Ref sig .tc := ⟨.hbm, 1808, rfl⟩
abbrev main_v1714 : Ref sig .tc := ⟨.hbm, 1809, rfl⟩
abbrev main_v1715 : Ref sig .tc := ⟨.hbm, 1810, rfl⟩
abbrev main_v1716 : Ref sig .tc := ⟨.hbm, 1811, rfl⟩
abbrev main_v1717 : Ref sig .tc := ⟨.hbm, 1812, rfl⟩
abbrev main_v1718 : Ref sig .tc := ⟨.hbm, 1813, rfl⟩
abbrev main_v1719 : Ref sig .tc := ⟨.hbm, 1814, rfl⟩
abbrev main_v1720 : Ref sig .tc := ⟨.hbm, 1815, rfl⟩
abbrev main_v1721 : Ref sig .tc := ⟨.hbm, 1816, rfl⟩
abbrev main_v1722 : Ref sig .tc := ⟨.hbm, 1817, rfl⟩
abbrev main_v1723 : Ref sig .tc := ⟨.hbm, 1818, rfl⟩
abbrev main_v1724 : Ref sig .tc := ⟨.hbm, 1819, rfl⟩
abbrev main_v1725 : Ref sig .tc := ⟨.hbm, 1820, rfl⟩
abbrev main_v1726 : Ref sig .tc := ⟨.hbm, 1821, rfl⟩
abbrev main_v1727 : Ref sig .tc := ⟨.hbm, 1822, rfl⟩
abbrev main_v1728 : Ref sig .tc := ⟨.hbm, 1823, rfl⟩
abbrev main_v1729 : Ref sig .tc := ⟨.hbm, 1824, rfl⟩
abbrev main_v1730 : Ref sig .tc := ⟨.hbm, 1825, rfl⟩
abbrev main_v1731 : Ref sig .tc := ⟨.hbm, 1826, rfl⟩
abbrev main_v1732 : Ref sig .tc := ⟨.hbm, 1827, rfl⟩
abbrev main_v1733 : Ref sig .tc := ⟨.hbm, 1828, rfl⟩
abbrev main_v1734 : Ref sig .tc := ⟨.hbm, 1829, rfl⟩
abbrev main_c_91 : Ref sig .tc := ⟨.hbm, 1830, rfl⟩
abbrev main_v1735 : Ref sig .tc := ⟨.hbm, 1831, rfl⟩
abbrev main_v1736 : Ref sig .tc := ⟨.hbm, 1832, rfl⟩
abbrev main_v1737 : Ref sig .tc := ⟨.hbm, 1833, rfl⟩
abbrev main_v1738 : Ref sig .tc := ⟨.hbm, 1834, rfl⟩
abbrev main_v1739 : Ref sig .tc := ⟨.hbm, 1835, rfl⟩
abbrev main_v1740 : Ref sig .tc := ⟨.hbm, 1836, rfl⟩
abbrev main_v1741 : Ref sig .tc := ⟨.hbm, 1837, rfl⟩
abbrev main_v1742 : Ref sig .tc := ⟨.hbm, 1838, rfl⟩
abbrev main_v1743 : Ref sig .tc := ⟨.hbm, 1839, rfl⟩
abbrev main_v1744 : Ref sig .tc := ⟨.hbm, 1840, rfl⟩
abbrev main_v1745 : Ref sig .tc := ⟨.hbm, 1841, rfl⟩
abbrev main_v1746 : Ref sig .tc := ⟨.hbm, 1842, rfl⟩
abbrev main_v1747 : Ref sig .tc := ⟨.hbm, 1843, rfl⟩
abbrev main_v1748 : Ref sig .tc := ⟨.hbm, 1844, rfl⟩
abbrev main_v1749 : Ref sig .tc := ⟨.hbm, 1845, rfl⟩
abbrev main_v1750 : Ref sig .tc := ⟨.hbm, 1846, rfl⟩
abbrev main_v1751 : Ref sig .tc := ⟨.hbm, 1847, rfl⟩
abbrev main_v1752 : Ref sig .tc := ⟨.hbm, 1848, rfl⟩
abbrev main_v1753 : Ref sig .tc := ⟨.hbm, 1849, rfl⟩
abbrev main_v1754 : Ref sig .tc := ⟨.hbm, 1850, rfl⟩
abbrev main_c_92 : Ref sig .tc := ⟨.hbm, 1851, rfl⟩
abbrev main_v1755 : Ref sig .tc := ⟨.hbm, 1852, rfl⟩
abbrev main_v1756 : Ref sig .tc := ⟨.hbm, 1853, rfl⟩
abbrev main_v1757 : Ref sig .tc := ⟨.hbm, 1854, rfl⟩
abbrev main_v1758 : Ref sig .tc := ⟨.hbm, 1855, rfl⟩
abbrev main_v1759 : Ref sig .tc := ⟨.hbm, 1856, rfl⟩
abbrev main_v1760 : Ref sig .tc := ⟨.hbm, 1857, rfl⟩
abbrev main_v1761 : Ref sig .tc := ⟨.hbm, 1858, rfl⟩
abbrev main_v1762 : Ref sig .tc := ⟨.hbm, 1859, rfl⟩
abbrev main_v1763 : Ref sig .tc := ⟨.hbm, 1860, rfl⟩
abbrev main_v1764 : Ref sig .tc := ⟨.hbm, 1861, rfl⟩
abbrev main_v1765 : Ref sig .tc := ⟨.hbm, 1862, rfl⟩
abbrev main_v1766 : Ref sig .tc := ⟨.hbm, 1863, rfl⟩
abbrev main_v1767 : Ref sig .tc := ⟨.hbm, 1864, rfl⟩
abbrev main_v1768 : Ref sig .tc := ⟨.hbm, 1865, rfl⟩
abbrev main_v1769 : Ref sig .tc := ⟨.hbm, 1866, rfl⟩
abbrev main_v1770 : Ref sig .tc := ⟨.hbm, 1867, rfl⟩
abbrev main_v1771 : Ref sig .tc := ⟨.hbm, 1868, rfl⟩
abbrev main_v1772 : Ref sig .tc := ⟨.hbm, 1869, rfl⟩
abbrev main_v1773 : Ref sig .tc := ⟨.hbm, 1870, rfl⟩
abbrev main_v1774 : Ref sig .tc := ⟨.hbm, 1871, rfl⟩
abbrev main_c_93 : Ref sig .tc := ⟨.hbm, 1872, rfl⟩
abbrev main_v1775 : Ref sig .tc := ⟨.hbm, 1873, rfl⟩
abbrev main_v1776 : Ref sig .tc := ⟨.hbm, 1874, rfl⟩
abbrev main_v1777 : Ref sig .tc := ⟨.hbm, 1875, rfl⟩
abbrev main_v1778 : Ref sig .tc := ⟨.hbm, 1876, rfl⟩
abbrev main_v1779 : Ref sig .tc := ⟨.hbm, 1877, rfl⟩
abbrev main_v1780 : Ref sig .tc := ⟨.hbm, 1878, rfl⟩
abbrev main_v1781 : Ref sig .tc := ⟨.hbm, 1879, rfl⟩
abbrev main_v1782 : Ref sig .tc := ⟨.hbm, 1880, rfl⟩
abbrev main_v1783 : Ref sig .tc := ⟨.hbm, 1881, rfl⟩
abbrev main_v1784 : Ref sig .tc := ⟨.hbm, 1882, rfl⟩
abbrev main_v1785 : Ref sig .tc := ⟨.hbm, 1883, rfl⟩
abbrev main_v1786 : Ref sig .tc := ⟨.hbm, 1884, rfl⟩
abbrev main_v1787 : Ref sig .tc := ⟨.hbm, 1885, rfl⟩
abbrev main_v1788 : Ref sig .tc := ⟨.hbm, 1886, rfl⟩
abbrev main_v1789 : Ref sig .tc := ⟨.hbm, 1887, rfl⟩
abbrev main_v1790 : Ref sig .tc := ⟨.hbm, 1888, rfl⟩
abbrev main_v1791 : Ref sig .tc := ⟨.hbm, 1889, rfl⟩
abbrev main_v1792 : Ref sig .tc := ⟨.hbm, 1890, rfl⟩
abbrev main_v1793 : Ref sig .tc := ⟨.hbm, 1891, rfl⟩
abbrev main_v1794 : Ref sig .tc := ⟨.hbm, 1892, rfl⟩
abbrev main_c_94 : Ref sig .tc := ⟨.hbm, 1893, rfl⟩
abbrev main_v1795 : Ref sig .tc := ⟨.hbm, 1894, rfl⟩
abbrev main_v1796 : Ref sig .tc := ⟨.hbm, 1895, rfl⟩
abbrev main_v1797 : Ref sig .tc := ⟨.hbm, 1896, rfl⟩
abbrev main_v1798 : Ref sig .tc := ⟨.hbm, 1897, rfl⟩
abbrev main_v1799 : Ref sig .tc := ⟨.hbm, 1898, rfl⟩
abbrev main_v1800 : Ref sig .tc := ⟨.hbm, 1899, rfl⟩
abbrev main_v1801 : Ref sig .tc := ⟨.hbm, 1900, rfl⟩
abbrev main_v1802 : Ref sig .tc := ⟨.hbm, 1901, rfl⟩
abbrev main_v1803 : Ref sig .tc := ⟨.hbm, 1902, rfl⟩
abbrev main_v1804 : Ref sig .tc := ⟨.hbm, 1903, rfl⟩
abbrev main_v1805 : Ref sig .tc := ⟨.hbm, 1904, rfl⟩
abbrev main_v1806 : Ref sig .tc := ⟨.hbm, 1905, rfl⟩
abbrev main_v1807 : Ref sig .tc := ⟨.hbm, 1906, rfl⟩
abbrev main_v1808 : Ref sig .tc := ⟨.hbm, 1907, rfl⟩
abbrev main_v1809 : Ref sig .tc := ⟨.hbm, 1908, rfl⟩
abbrev main_v1810 : Ref sig .tc := ⟨.hbm, 1909, rfl⟩
abbrev main_v1811 : Ref sig .tc := ⟨.hbm, 1910, rfl⟩
abbrev main_v1812 : Ref sig .tc := ⟨.hbm, 1911, rfl⟩
abbrev main_v1813 : Ref sig .tc := ⟨.hbm, 1912, rfl⟩
abbrev main_v1814 : Ref sig .tc := ⟨.hbm, 1913, rfl⟩
abbrev main_c_95 : Ref sig .tc := ⟨.hbm, 1914, rfl⟩
abbrev main_v1815 : Ref sig .tc := ⟨.hbm, 1915, rfl⟩
abbrev main_v1816 : Ref sig .tc := ⟨.hbm, 1916, rfl⟩
abbrev main_v1817 : Ref sig .tc := ⟨.hbm, 1917, rfl⟩
abbrev main_v1818 : Ref sig .tc := ⟨.hbm, 1918, rfl⟩
abbrev main_v1819 : Ref sig .tc := ⟨.hbm, 1919, rfl⟩
abbrev main_v1820 : Ref sig .tc := ⟨.hbm, 1920, rfl⟩
abbrev main_v1821 : Ref sig .tc := ⟨.hbm, 1921, rfl⟩
abbrev main_v1822 : Ref sig .tc := ⟨.hbm, 1922, rfl⟩
abbrev main_v1823 : Ref sig .tc := ⟨.hbm, 1923, rfl⟩
abbrev main_v1824 : Ref sig .tc := ⟨.hbm, 1924, rfl⟩
abbrev main_v1825 : Ref sig .tc := ⟨.hbm, 1925, rfl⟩
abbrev main_v1826 : Ref sig .tc := ⟨.hbm, 1926, rfl⟩
abbrev main_v1827 : Ref sig .tc := ⟨.hbm, 1927, rfl⟩
abbrev main_v1828 : Ref sig .tc := ⟨.hbm, 1928, rfl⟩
abbrev main_v1829 : Ref sig .tc := ⟨.hbm, 1929, rfl⟩
abbrev main_v1830 : Ref sig .tc := ⟨.hbm, 1930, rfl⟩
abbrev main_v1831 : Ref sig .tc := ⟨.hbm, 1931, rfl⟩
abbrev main_v1832 : Ref sig .tc := ⟨.hbm, 1932, rfl⟩
abbrev main_v1833 : Ref sig .tc := ⟨.hbm, 1933, rfl⟩
abbrev main_v1834 : Ref sig .tc := ⟨.hbm, 1934, rfl⟩
abbrev main_c_96 : Ref sig .tc := ⟨.hbm, 1935, rfl⟩
abbrev main_v1835 : Ref sig .tc := ⟨.hbm, 1936, rfl⟩
abbrev main_v1836 : Ref sig .tc := ⟨.hbm, 1937, rfl⟩
abbrev main_v1837 : Ref sig .tc := ⟨.hbm, 1938, rfl⟩
abbrev main_v1838 : Ref sig .tc := ⟨.hbm, 1939, rfl⟩
abbrev main_v1839 : Ref sig .tc := ⟨.hbm, 1940, rfl⟩
abbrev main_v1840 : Ref sig .tc := ⟨.hbm, 1941, rfl⟩
abbrev main_v1841 : Ref sig .tc := ⟨.hbm, 1942, rfl⟩
abbrev main_v1842 : Ref sig .tc := ⟨.hbm, 1943, rfl⟩
abbrev main_v1843 : Ref sig .tc := ⟨.hbm, 1944, rfl⟩
abbrev main_v1844 : Ref sig .tc := ⟨.hbm, 1945, rfl⟩
abbrev main_v1845 : Ref sig .tc := ⟨.hbm, 1946, rfl⟩
abbrev main_v1846 : Ref sig .tc := ⟨.hbm, 1947, rfl⟩
abbrev main_v1847 : Ref sig .tc := ⟨.hbm, 1948, rfl⟩
abbrev main_v1848 : Ref sig .tc := ⟨.hbm, 1949, rfl⟩
abbrev main_v1849 : Ref sig .tc := ⟨.hbm, 1950, rfl⟩
abbrev main_v1850 : Ref sig .tc := ⟨.hbm, 1951, rfl⟩
abbrev main_v1851 : Ref sig .tc := ⟨.hbm, 1952, rfl⟩
abbrev main_v1852 : Ref sig .tc := ⟨.hbm, 1953, rfl⟩
abbrev main_v1853 : Ref sig .tc := ⟨.hbm, 1954, rfl⟩
abbrev main_v1854 : Ref sig .tc := ⟨.hbm, 1955, rfl⟩
abbrev main_c_97 : Ref sig .tc := ⟨.hbm, 1956, rfl⟩
abbrev main_v1855 : Ref sig .tc := ⟨.hbm, 1957, rfl⟩
abbrev main_v1856 : Ref sig .tc := ⟨.hbm, 1958, rfl⟩
abbrev main_v1857 : Ref sig .tc := ⟨.hbm, 1959, rfl⟩
abbrev main_v1858 : Ref sig .tc := ⟨.hbm, 1960, rfl⟩
abbrev main_v1859 : Ref sig .tc := ⟨.hbm, 1961, rfl⟩
abbrev main_v1860 : Ref sig .tc := ⟨.hbm, 1962, rfl⟩
abbrev main_v1861 : Ref sig .tc := ⟨.hbm, 1963, rfl⟩
abbrev main_v1862 : Ref sig .tc := ⟨.hbm, 1964, rfl⟩
abbrev main_v1863 : Ref sig .tc := ⟨.hbm, 1965, rfl⟩
abbrev main_v1864 : Ref sig .tc := ⟨.hbm, 1966, rfl⟩
abbrev main_v1865 : Ref sig .tc := ⟨.hbm, 1967, rfl⟩
abbrev main_v1866 : Ref sig .tc := ⟨.hbm, 1968, rfl⟩
abbrev main_v1867 : Ref sig .tc := ⟨.hbm, 1969, rfl⟩
abbrev main_v1868 : Ref sig .tc := ⟨.hbm, 1970, rfl⟩
abbrev main_v1869 : Ref sig .tc := ⟨.hbm, 1971, rfl⟩
abbrev main_v1870 : Ref sig .tc := ⟨.hbm, 1972, rfl⟩
abbrev main_v1871 : Ref sig .tc := ⟨.hbm, 1973, rfl⟩
abbrev main_v1872 : Ref sig .tc := ⟨.hbm, 1974, rfl⟩
abbrev main_v1873 : Ref sig .tc := ⟨.hbm, 1975, rfl⟩
abbrev main_v1874 : Ref sig .tc := ⟨.hbm, 1976, rfl⟩
abbrev main_c_98 : Ref sig .tc := ⟨.hbm, 1977, rfl⟩
abbrev main_v1875 : Ref sig .tc := ⟨.hbm, 1978, rfl⟩
abbrev main_v1876 : Ref sig .tc := ⟨.hbm, 1979, rfl⟩
abbrev main_c_99 : Ref sig .tc := ⟨.hbm, 1980, rfl⟩
abbrev main_v1877 : Ref sig .tc := ⟨.hbm, 1981, rfl⟩
abbrev main_v1878 : Ref sig .tc := ⟨.hbm, 1982, rfl⟩
abbrev main_v1879 : Ref sig .tc := ⟨.hbm, 1983, rfl⟩
abbrev main_v1880 : Ref sig .tc := ⟨.hbm, 1984, rfl⟩
abbrev main_v1881 : Ref sig .tc := ⟨.hbm, 1985, rfl⟩
abbrev main_v1882 : Ref sig .tc := ⟨.hbm, 1986, rfl⟩
abbrev main_v1883 : Ref sig .tc := ⟨.hbm, 1987, rfl⟩
abbrev main_v1884 : Ref sig .tc := ⟨.hbm, 1988, rfl⟩
abbrev main_v1885 : Ref sig .tc := ⟨.hbm, 1989, rfl⟩
abbrev main_v1886 : Ref sig .tc := ⟨.hbm, 1990, rfl⟩
abbrev main_v1887 : Ref sig .tc := ⟨.hbm, 1991, rfl⟩
abbrev main_v1888 : Ref sig .tc := ⟨.hbm, 1992, rfl⟩
abbrev main_v1889 : Ref sig .tc := ⟨.hbm, 1993, rfl⟩
abbrev main_v1890 : Ref sig .tc := ⟨.hbm, 1994, rfl⟩
abbrev main_v1891 : Ref sig .tc := ⟨.hbm, 1995, rfl⟩
abbrev main_v1892 : Ref sig .tc := ⟨.hbm, 1996, rfl⟩
abbrev main_v1893 : Ref sig .tc := ⟨.hbm, 1997, rfl⟩
abbrev main_v1894 : Ref sig .tc := ⟨.hbm, 1998, rfl⟩
abbrev main_v1895 : Ref sig .tc := ⟨.hbm, 1999, rfl⟩
abbrev main_v1896 : Ref sig .tc := ⟨.hbm, 2000, rfl⟩
abbrev main_v1897 : Ref sig .tc := ⟨.hbm, 2001, rfl⟩
abbrev main_v1898 : Ref sig .tc := ⟨.hbm, 2002, rfl⟩
abbrev main_c_100 : Ref sig .tc := ⟨.hbm, 2003, rfl⟩
abbrev main_v1899 : Ref sig .tc := ⟨.hbm, 2004, rfl⟩
abbrev main_v1900 : Ref sig .tc := ⟨.hbm, 2005, rfl⟩
abbrev main_v1901 : Ref sig .tc := ⟨.hbm, 2006, rfl⟩
abbrev main_v1902 : Ref sig .tc := ⟨.hbm, 2007, rfl⟩
abbrev main_v1903 : Ref sig .tc := ⟨.hbm, 2008, rfl⟩
abbrev main_v1904 : Ref sig .tc := ⟨.hbm, 2009, rfl⟩
abbrev main_v1905 : Ref sig .tc := ⟨.hbm, 2010, rfl⟩
abbrev main_v1906 : Ref sig .tc := ⟨.hbm, 2011, rfl⟩
abbrev main_v1907 : Ref sig .tc := ⟨.hbm, 2012, rfl⟩
abbrev main_v1908 : Ref sig .tc := ⟨.hbm, 2013, rfl⟩
abbrev main_v1909 : Ref sig .tc := ⟨.hbm, 2014, rfl⟩
abbrev main_v1910 : Ref sig .tc := ⟨.hbm, 2015, rfl⟩
abbrev main_v1911 : Ref sig .tc := ⟨.hbm, 2016, rfl⟩
abbrev main_v1912 : Ref sig .tc := ⟨.hbm, 2017, rfl⟩
abbrev main_v1913 : Ref sig .tc := ⟨.hbm, 2018, rfl⟩
abbrev main_v1914 : Ref sig .tc := ⟨.hbm, 2019, rfl⟩
abbrev main_v1915 : Ref sig .tc := ⟨.hbm, 2020, rfl⟩
abbrev main_v1916 : Ref sig .tc := ⟨.hbm, 2021, rfl⟩
abbrev main_v1917 : Ref sig .tc := ⟨.hbm, 2022, rfl⟩
abbrev main_v1918 : Ref sig .tc := ⟨.hbm, 2023, rfl⟩
abbrev main_c_101 : Ref sig .tc := ⟨.hbm, 2024, rfl⟩
abbrev main_v1919 : Ref sig .tc := ⟨.hbm, 2025, rfl⟩
abbrev main_v1920 : Ref sig .tc := ⟨.hbm, 2026, rfl⟩
abbrev main_v1921 : Ref sig .tc := ⟨.hbm, 2027, rfl⟩
abbrev main_v1922 : Ref sig .tc := ⟨.hbm, 2028, rfl⟩
abbrev main_v1923 : Ref sig .tc := ⟨.hbm, 2029, rfl⟩
abbrev main_v1924 : Ref sig .tc := ⟨.hbm, 2030, rfl⟩
abbrev main_v1925 : Ref sig .tc := ⟨.hbm, 2031, rfl⟩
abbrev main_v1926 : Ref sig .tc := ⟨.hbm, 2032, rfl⟩
abbrev main_v1927 : Ref sig .tc := ⟨.hbm, 2033, rfl⟩
abbrev main_v1928 : Ref sig .tc := ⟨.hbm, 2034, rfl⟩
abbrev main_v1929 : Ref sig .tc := ⟨.hbm, 2035, rfl⟩
abbrev main_v1930 : Ref sig .tc := ⟨.hbm, 2036, rfl⟩
abbrev main_v1931 : Ref sig .tc := ⟨.hbm, 2037, rfl⟩
abbrev main_v1932 : Ref sig .tc := ⟨.hbm, 2038, rfl⟩
abbrev main_v1933 : Ref sig .tc := ⟨.hbm, 2039, rfl⟩
abbrev main_v1934 : Ref sig .tc := ⟨.hbm, 2040, rfl⟩
abbrev main_v1935 : Ref sig .tc := ⟨.hbm, 2041, rfl⟩
abbrev main_v1936 : Ref sig .tc := ⟨.hbm, 2042, rfl⟩
abbrev main_v1937 : Ref sig .tc := ⟨.hbm, 2043, rfl⟩
abbrev main_v1938 : Ref sig .tc := ⟨.hbm, 2044, rfl⟩
abbrev main_c_102 : Ref sig .tc := ⟨.hbm, 2045, rfl⟩
abbrev main_v1939 : Ref sig .tc := ⟨.hbm, 2046, rfl⟩
abbrev main_v1940 : Ref sig .tc := ⟨.hbm, 2047, rfl⟩
abbrev main_v1941 : Ref sig .tc := ⟨.hbm, 2048, rfl⟩
abbrev main_v1942 : Ref sig .tc := ⟨.hbm, 2049, rfl⟩
abbrev main_v1943 : Ref sig .tc := ⟨.hbm, 2050, rfl⟩
abbrev main_v1944 : Ref sig .tc := ⟨.hbm, 2051, rfl⟩
abbrev main_v1945 : Ref sig .tc := ⟨.hbm, 2052, rfl⟩
abbrev main_v1946 : Ref sig .tc := ⟨.hbm, 2053, rfl⟩
abbrev main_v1947 : Ref sig .tc := ⟨.hbm, 2054, rfl⟩
abbrev main_v1948 : Ref sig .tc := ⟨.hbm, 2055, rfl⟩
abbrev main_v1949 : Ref sig .tc := ⟨.hbm, 2056, rfl⟩
abbrev main_v1950 : Ref sig .tc := ⟨.hbm, 2057, rfl⟩
abbrev main_v1951 : Ref sig .tc := ⟨.hbm, 2058, rfl⟩
abbrev main_v1952 : Ref sig .tc := ⟨.hbm, 2059, rfl⟩
abbrev main_v1953 : Ref sig .tc := ⟨.hbm, 2060, rfl⟩
abbrev main_v1954 : Ref sig .tc := ⟨.hbm, 2061, rfl⟩
abbrev main_v1955 : Ref sig .tc := ⟨.hbm, 2062, rfl⟩
abbrev main_v1956 : Ref sig .tc := ⟨.hbm, 2063, rfl⟩
abbrev main_v1957 : Ref sig .tc := ⟨.hbm, 2064, rfl⟩
abbrev main_v1958 : Ref sig .tc := ⟨.hbm, 2065, rfl⟩
abbrev main_c_103 : Ref sig .tc := ⟨.hbm, 2066, rfl⟩
abbrev main_v1959 : Ref sig .tc := ⟨.hbm, 2067, rfl⟩
abbrev main_v1960 : Ref sig .tc := ⟨.hbm, 2068, rfl⟩
abbrev main_v1961 : Ref sig .tc := ⟨.hbm, 2069, rfl⟩
abbrev main_v1962 : Ref sig .tc := ⟨.hbm, 2070, rfl⟩
abbrev main_v1963 : Ref sig .tc := ⟨.hbm, 2071, rfl⟩
abbrev main_v1964 : Ref sig .tc := ⟨.hbm, 2072, rfl⟩
abbrev main_v1965 : Ref sig .tc := ⟨.hbm, 2073, rfl⟩
abbrev main_v1966 : Ref sig .tc := ⟨.hbm, 2074, rfl⟩
abbrev main_v1967 : Ref sig .tc := ⟨.hbm, 2075, rfl⟩
abbrev main_v1968 : Ref sig .tc := ⟨.hbm, 2076, rfl⟩
abbrev main_v1969 : Ref sig .tc := ⟨.hbm, 2077, rfl⟩
abbrev main_v1970 : Ref sig .tc := ⟨.hbm, 2078, rfl⟩
abbrev main_v1971 : Ref sig .tc := ⟨.hbm, 2079, rfl⟩
abbrev main_v1972 : Ref sig .tc := ⟨.hbm, 2080, rfl⟩
abbrev main_v1973 : Ref sig .tc := ⟨.hbm, 2081, rfl⟩
abbrev main_v1974 : Ref sig .tc := ⟨.hbm, 2082, rfl⟩
abbrev main_v1975 : Ref sig .tc := ⟨.hbm, 2083, rfl⟩
abbrev main_v1976 : Ref sig .tc := ⟨.hbm, 2084, rfl⟩
abbrev main_v1977 : Ref sig .tc := ⟨.hbm, 2085, rfl⟩
abbrev main_v1978 : Ref sig .tc := ⟨.hbm, 2086, rfl⟩
abbrev main_c_104 : Ref sig .tc := ⟨.hbm, 2087, rfl⟩
abbrev main_v1979 : Ref sig .tc := ⟨.hbm, 2088, rfl⟩
abbrev main_v1980 : Ref sig .tc := ⟨.hbm, 2089, rfl⟩
abbrev main_v1981 : Ref sig .tc := ⟨.hbm, 2090, rfl⟩
abbrev main_v1982 : Ref sig .tc := ⟨.hbm, 2091, rfl⟩
abbrev main_v1983 : Ref sig .tc := ⟨.hbm, 2092, rfl⟩
abbrev main_v1984 : Ref sig .tc := ⟨.hbm, 2093, rfl⟩
abbrev main_v1985 : Ref sig .tc := ⟨.hbm, 2094, rfl⟩
abbrev main_v1986 : Ref sig .tc := ⟨.hbm, 2095, rfl⟩
abbrev main_v1987 : Ref sig .tc := ⟨.hbm, 2096, rfl⟩
abbrev main_v1988 : Ref sig .tc := ⟨.hbm, 2097, rfl⟩
abbrev main_v1989 : Ref sig .tc := ⟨.hbm, 2098, rfl⟩
abbrev main_v1990 : Ref sig .tc := ⟨.hbm, 2099, rfl⟩
abbrev main_v1991 : Ref sig .tc := ⟨.hbm, 2100, rfl⟩
abbrev main_v1992 : Ref sig .tc := ⟨.hbm, 2101, rfl⟩
abbrev main_v1993 : Ref sig .tc := ⟨.hbm, 2102, rfl⟩
abbrev main_v1994 : Ref sig .tc := ⟨.hbm, 2103, rfl⟩
abbrev main_v1995 : Ref sig .tc := ⟨.hbm, 2104, rfl⟩
abbrev main_v1996 : Ref sig .tc := ⟨.hbm, 2105, rfl⟩
abbrev main_v1997 : Ref sig .tc := ⟨.hbm, 2106, rfl⟩
abbrev main_v1998 : Ref sig .tc := ⟨.hbm, 2107, rfl⟩
abbrev main_c_105 : Ref sig .tc := ⟨.hbm, 2108, rfl⟩
abbrev main_v1999 : Ref sig .tc := ⟨.hbm, 2109, rfl⟩
abbrev main_v2000 : Ref sig .tc := ⟨.hbm, 2110, rfl⟩
abbrev main_v2001 : Ref sig .tc := ⟨.hbm, 2111, rfl⟩
abbrev main_v2002 : Ref sig .tc := ⟨.hbm, 2112, rfl⟩
abbrev main_v2003 : Ref sig .tc := ⟨.hbm, 2113, rfl⟩
abbrev main_v2004 : Ref sig .tc := ⟨.hbm, 2114, rfl⟩
abbrev main_v2005 : Ref sig .tc := ⟨.hbm, 2115, rfl⟩
abbrev main_v2006 : Ref sig .tc := ⟨.hbm, 2116, rfl⟩
abbrev main_v2007 : Ref sig .tc := ⟨.hbm, 2117, rfl⟩
abbrev main_v2008 : Ref sig .tc := ⟨.hbm, 2118, rfl⟩
abbrev main_v2009 : Ref sig .tc := ⟨.hbm, 2119, rfl⟩
abbrev main_v2010 : Ref sig .tc := ⟨.hbm, 2120, rfl⟩
abbrev main_v2011 : Ref sig .tc := ⟨.hbm, 2121, rfl⟩
abbrev main_v2012 : Ref sig .tc := ⟨.hbm, 2122, rfl⟩
abbrev main_v2013 : Ref sig .tc := ⟨.hbm, 2123, rfl⟩
abbrev main_v2014 : Ref sig .tc := ⟨.hbm, 2124, rfl⟩
abbrev main_v2015 : Ref sig .tc := ⟨.hbm, 2125, rfl⟩
abbrev main_v2016 : Ref sig .tc := ⟨.hbm, 2126, rfl⟩
abbrev main_v2017 : Ref sig .tc := ⟨.hbm, 2127, rfl⟩
abbrev main_v2018 : Ref sig .tc := ⟨.hbm, 2128, rfl⟩
abbrev main_c_106 : Ref sig .tc := ⟨.hbm, 2129, rfl⟩
abbrev main_v2019 : Ref sig .tc := ⟨.hbm, 2130, rfl⟩
abbrev main_v2020 : Ref sig .tc := ⟨.hbm, 2131, rfl⟩
abbrev main_c_107 : Ref sig .tc := ⟨.hbm, 2132, rfl⟩
abbrev main_v2021 : Ref sig .tc := ⟨.hbm, 2133, rfl⟩
abbrev main_v2022 : Ref sig .tc := ⟨.hbm, 2134, rfl⟩
abbrev main_v2023 : Ref sig .tc := ⟨.hbm, 2135, rfl⟩
abbrev main_v2024 : Ref sig .tc := ⟨.hbm, 2136, rfl⟩
abbrev main_v2025 : Ref sig .tc := ⟨.hbm, 2137, rfl⟩
abbrev main_v2026 : Ref sig .tc := ⟨.hbm, 2138, rfl⟩
abbrev main_v2027 : Ref sig .tc := ⟨.hbm, 2139, rfl⟩
abbrev main_v2028 : Ref sig .tc := ⟨.hbm, 2140, rfl⟩
abbrev main_v2029 : Ref sig .tc := ⟨.hbm, 2141, rfl⟩
abbrev main_v2030 : Ref sig .tc := ⟨.hbm, 2142, rfl⟩
abbrev main_v2031 : Ref sig .tc := ⟨.hbm, 2143, rfl⟩
abbrev main_v2032 : Ref sig .tc := ⟨.hbm, 2144, rfl⟩
abbrev main_v2033 : Ref sig .tc := ⟨.hbm, 2145, rfl⟩
abbrev main_v2034 : Ref sig .tc := ⟨.hbm, 2146, rfl⟩
abbrev main_v2035 : Ref sig .tc := ⟨.hbm, 2147, rfl⟩
abbrev main_v2036 : Ref sig .tc := ⟨.hbm, 2148, rfl⟩
abbrev main_v2037 : Ref sig .tc := ⟨.hbm, 2149, rfl⟩
abbrev main_v2038 : Ref sig .tc := ⟨.hbm, 2150, rfl⟩
abbrev main_v2039 : Ref sig .tc := ⟨.hbm, 2151, rfl⟩
abbrev main_v2040 : Ref sig .tc := ⟨.hbm, 2152, rfl⟩
abbrev main_v2041 : Ref sig .tc := ⟨.hbm, 2153, rfl⟩
abbrev main_v2042 : Ref sig .tc := ⟨.hbm, 2154, rfl⟩
abbrev main_c_108 : Ref sig .tc := ⟨.hbm, 2155, rfl⟩
abbrev main_v2043 : Ref sig .tc := ⟨.hbm, 2156, rfl⟩
abbrev main_v2044 : Ref sig .tc := ⟨.hbm, 2157, rfl⟩
abbrev main_v2045 : Ref sig .tc := ⟨.hbm, 2158, rfl⟩
abbrev main_v2046 : Ref sig .tc := ⟨.hbm, 2159, rfl⟩
abbrev main_v2047 : Ref sig .tc := ⟨.hbm, 2160, rfl⟩
abbrev main_v2048 : Ref sig .tc := ⟨.hbm, 2161, rfl⟩
abbrev main_v2049 : Ref sig .tc := ⟨.hbm, 2162, rfl⟩
abbrev main_v2050 : Ref sig .tc := ⟨.hbm, 2163, rfl⟩
abbrev main_v2051 : Ref sig .tc := ⟨.hbm, 2164, rfl⟩
abbrev main_v2052 : Ref sig .tc := ⟨.hbm, 2165, rfl⟩
abbrev main_v2053 : Ref sig .tc := ⟨.hbm, 2166, rfl⟩
abbrev main_v2054 : Ref sig .tc := ⟨.hbm, 2167, rfl⟩
abbrev main_v2055 : Ref sig .tc := ⟨.hbm, 2168, rfl⟩
abbrev main_v2056 : Ref sig .tc := ⟨.hbm, 2169, rfl⟩
abbrev main_v2057 : Ref sig .tc := ⟨.hbm, 2170, rfl⟩
abbrev main_v2058 : Ref sig .tc := ⟨.hbm, 2171, rfl⟩
abbrev main_v2059 : Ref sig .tc := ⟨.hbm, 2172, rfl⟩
abbrev main_v2060 : Ref sig .tc := ⟨.hbm, 2173, rfl⟩
abbrev main_v2061 : Ref sig .tc := ⟨.hbm, 2174, rfl⟩
abbrev main_v2062 : Ref sig .tc := ⟨.hbm, 2175, rfl⟩
abbrev main_c_109 : Ref sig .tc := ⟨.hbm, 2176, rfl⟩
abbrev main_v2063 : Ref sig .tc := ⟨.hbm, 2177, rfl⟩
abbrev main_v2064 : Ref sig .tc := ⟨.hbm, 2178, rfl⟩
abbrev main_v2065 : Ref sig .tc := ⟨.hbm, 2179, rfl⟩
abbrev main_v2066 : Ref sig .tc := ⟨.hbm, 2180, rfl⟩
abbrev main_v2067 : Ref sig .tc := ⟨.hbm, 2181, rfl⟩
abbrev main_v2068 : Ref sig .tc := ⟨.hbm, 2182, rfl⟩
abbrev main_v2069 : Ref sig .tc := ⟨.hbm, 2183, rfl⟩
abbrev main_v2070 : Ref sig .tc := ⟨.hbm, 2184, rfl⟩
abbrev main_v2071 : Ref sig .tc := ⟨.hbm, 2185, rfl⟩
abbrev main_v2072 : Ref sig .tc := ⟨.hbm, 2186, rfl⟩
abbrev main_v2073 : Ref sig .tc := ⟨.hbm, 2187, rfl⟩
abbrev main_v2074 : Ref sig .tc := ⟨.hbm, 2188, rfl⟩
abbrev main_v2075 : Ref sig .tc := ⟨.hbm, 2189, rfl⟩
abbrev main_v2076 : Ref sig .tc := ⟨.hbm, 2190, rfl⟩
abbrev main_v2077 : Ref sig .tc := ⟨.hbm, 2191, rfl⟩
abbrev main_v2078 : Ref sig .tc := ⟨.hbm, 2192, rfl⟩
abbrev main_v2079 : Ref sig .tc := ⟨.hbm, 2193, rfl⟩
abbrev main_v2080 : Ref sig .tc := ⟨.hbm, 2194, rfl⟩
abbrev main_v2081 : Ref sig .tc := ⟨.hbm, 2195, rfl⟩
abbrev main_v2082 : Ref sig .tc := ⟨.hbm, 2196, rfl⟩
abbrev main_c_110 : Ref sig .tc := ⟨.hbm, 2197, rfl⟩
abbrev main_v2083 : Ref sig .tc := ⟨.hbm, 2198, rfl⟩
abbrev main_v2084 : Ref sig .tc := ⟨.hbm, 2199, rfl⟩
abbrev main_v2085 : Ref sig .tc := ⟨.hbm, 2200, rfl⟩
abbrev main_v2086 : Ref sig .tc := ⟨.hbm, 2201, rfl⟩
abbrev main_v2087 : Ref sig .tc := ⟨.hbm, 2202, rfl⟩
abbrev main_v2088 : Ref sig .tc := ⟨.hbm, 2203, rfl⟩
abbrev main_v2089 : Ref sig .tc := ⟨.hbm, 2204, rfl⟩
abbrev main_v2090 : Ref sig .tc := ⟨.hbm, 2205, rfl⟩
abbrev main_v2091 : Ref sig .tc := ⟨.hbm, 2206, rfl⟩
abbrev main_v2092 : Ref sig .tc := ⟨.hbm, 2207, rfl⟩
abbrev main_v2093 : Ref sig .tc := ⟨.hbm, 2208, rfl⟩
abbrev main_v2094 : Ref sig .tc := ⟨.hbm, 2209, rfl⟩
abbrev main_v2095 : Ref sig .tc := ⟨.hbm, 2210, rfl⟩
abbrev main_v2096 : Ref sig .tc := ⟨.hbm, 2211, rfl⟩
abbrev main_v2097 : Ref sig .tc := ⟨.hbm, 2212, rfl⟩
abbrev main_v2098 : Ref sig .tc := ⟨.hbm, 2213, rfl⟩
abbrev main_v2099 : Ref sig .tc := ⟨.hbm, 2214, rfl⟩
abbrev main_v2100 : Ref sig .tc := ⟨.hbm, 2215, rfl⟩
abbrev main_v2101 : Ref sig .tc := ⟨.hbm, 2216, rfl⟩
abbrev main_v2102 : Ref sig .tc := ⟨.hbm, 2217, rfl⟩
abbrev main_c_111 : Ref sig .tc := ⟨.hbm, 2218, rfl⟩
abbrev main_v2103 : Ref sig .tc := ⟨.hbm, 2219, rfl⟩
abbrev main_v2104 : Ref sig .tc := ⟨.hbm, 2220, rfl⟩
abbrev main_v2105 : Ref sig .tc := ⟨.hbm, 2221, rfl⟩
abbrev main_v2106 : Ref sig .tc := ⟨.hbm, 2222, rfl⟩
abbrev main_v2107 : Ref sig .tc := ⟨.hbm, 2223, rfl⟩
abbrev main_v2108 : Ref sig .tc := ⟨.hbm, 2224, rfl⟩
abbrev main_v2109 : Ref sig .tc := ⟨.hbm, 2225, rfl⟩
abbrev main_v2110 : Ref sig .tc := ⟨.hbm, 2226, rfl⟩
abbrev main_v2111 : Ref sig .tc := ⟨.hbm, 2227, rfl⟩
abbrev main_v2112 : Ref sig .tc := ⟨.hbm, 2228, rfl⟩
abbrev main_v2113 : Ref sig .tc := ⟨.hbm, 2229, rfl⟩
abbrev main_v2114 : Ref sig .tc := ⟨.hbm, 2230, rfl⟩
abbrev main_v2115 : Ref sig .tc := ⟨.hbm, 2231, rfl⟩
abbrev main_v2116 : Ref sig .tc := ⟨.hbm, 2232, rfl⟩
abbrev main_v2117 : Ref sig .tc := ⟨.hbm, 2233, rfl⟩
abbrev main_v2118 : Ref sig .tc := ⟨.hbm, 2234, rfl⟩
abbrev main_v2119 : Ref sig .tc := ⟨.hbm, 2235, rfl⟩
abbrev main_v2120 : Ref sig .tc := ⟨.hbm, 2236, rfl⟩
abbrev main_v2121 : Ref sig .tc := ⟨.hbm, 2237, rfl⟩
abbrev main_v2122 : Ref sig .tc := ⟨.hbm, 2238, rfl⟩
abbrev main_c_112 : Ref sig .tc := ⟨.hbm, 2239, rfl⟩
abbrev main_v2123 : Ref sig .tc := ⟨.hbm, 2240, rfl⟩
abbrev main_v2124 : Ref sig .tc := ⟨.hbm, 2241, rfl⟩
abbrev main_v2125 : Ref sig .tc := ⟨.hbm, 2242, rfl⟩
abbrev main_v2126 : Ref sig .tc := ⟨.hbm, 2243, rfl⟩
abbrev main_v2127 : Ref sig .tc := ⟨.hbm, 2244, rfl⟩
abbrev main_v2128 : Ref sig .tc := ⟨.hbm, 2245, rfl⟩
abbrev main_v2129 : Ref sig .tc := ⟨.hbm, 2246, rfl⟩
abbrev main_v2130 : Ref sig .tc := ⟨.hbm, 2247, rfl⟩
abbrev main_v2131 : Ref sig .tc := ⟨.hbm, 2248, rfl⟩
abbrev main_v2132 : Ref sig .tc := ⟨.hbm, 2249, rfl⟩
abbrev main_v2133 : Ref sig .tc := ⟨.hbm, 2250, rfl⟩
abbrev main_v2134 : Ref sig .tc := ⟨.hbm, 2251, rfl⟩
abbrev main_v2135 : Ref sig .tc := ⟨.hbm, 2252, rfl⟩
abbrev main_v2136 : Ref sig .tc := ⟨.hbm, 2253, rfl⟩
abbrev main_v2137 : Ref sig .tc := ⟨.hbm, 2254, rfl⟩
abbrev main_v2138 : Ref sig .tc := ⟨.hbm, 2255, rfl⟩
abbrev main_v2139 : Ref sig .tc := ⟨.hbm, 2256, rfl⟩
abbrev main_v2140 : Ref sig .tc := ⟨.hbm, 2257, rfl⟩
abbrev main_v2141 : Ref sig .tc := ⟨.hbm, 2258, rfl⟩
abbrev main_v2142 : Ref sig .tc := ⟨.hbm, 2259, rfl⟩
abbrev main_c_113 : Ref sig .tc := ⟨.hbm, 2260, rfl⟩
abbrev main_v2143 : Ref sig .tc := ⟨.hbm, 2261, rfl⟩
abbrev main_v2144 : Ref sig .tc := ⟨.hbm, 2262, rfl⟩
abbrev main_c_114 : Ref sig .tc := ⟨.hbm, 2263, rfl⟩
abbrev main_v2145 : Ref sig .tc := ⟨.hbm, 2264, rfl⟩
abbrev main_v2146 : Ref sig .tc := ⟨.hbm, 2265, rfl⟩
abbrev main_v2147 : Ref sig .tc := ⟨.hbm, 2266, rfl⟩
abbrev main_v2148 : Ref sig .tc := ⟨.hbm, 2267, rfl⟩
abbrev main_v2149 : Ref sig .tc := ⟨.hbm, 2268, rfl⟩
abbrev main_v2150 : Ref sig .tc := ⟨.hbm, 2269, rfl⟩
abbrev main_v2151 : Ref sig .tc := ⟨.hbm, 2270, rfl⟩
abbrev main_v2152 : Ref sig .tc := ⟨.hbm, 2271, rfl⟩
abbrev main_v2153 : Ref sig .tc := ⟨.hbm, 2272, rfl⟩
abbrev main_v2154 : Ref sig .tc := ⟨.hbm, 2273, rfl⟩
abbrev main_v2155 : Ref sig .tc := ⟨.hbm, 2274, rfl⟩
abbrev main_v2156 : Ref sig .tc := ⟨.hbm, 2275, rfl⟩
abbrev main_v2157 : Ref sig .tc := ⟨.hbm, 2276, rfl⟩
abbrev main_v2158 : Ref sig .tc := ⟨.hbm, 2277, rfl⟩
abbrev main_v2159 : Ref sig .tc := ⟨.hbm, 2278, rfl⟩
abbrev main_v2160 : Ref sig .tc := ⟨.hbm, 2279, rfl⟩
abbrev main_v2161 : Ref sig .tc := ⟨.hbm, 2280, rfl⟩
abbrev main_v2162 : Ref sig .tc := ⟨.hbm, 2281, rfl⟩
abbrev main_v2163 : Ref sig .tc := ⟨.hbm, 2282, rfl⟩
abbrev main_v2164 : Ref sig .tc := ⟨.hbm, 2283, rfl⟩
abbrev main_v2165 : Ref sig .tc := ⟨.hbm, 2284, rfl⟩
abbrev main_v2166 : Ref sig .tc := ⟨.hbm, 2285, rfl⟩
abbrev main_c_115 : Ref sig .tc := ⟨.hbm, 2286, rfl⟩
abbrev main_v2167 : Ref sig .tc := ⟨.hbm, 2287, rfl⟩
abbrev main_v2168 : Ref sig .tc := ⟨.hbm, 2288, rfl⟩
abbrev main_v2169 : Ref sig .tc := ⟨.hbm, 2289, rfl⟩
abbrev main_v2170 : Ref sig .tc := ⟨.hbm, 2290, rfl⟩
abbrev main_v2171 : Ref sig .tc := ⟨.hbm, 2291, rfl⟩
abbrev main_v2172 : Ref sig .tc := ⟨.hbm, 2292, rfl⟩
abbrev main_v2173 : Ref sig .tc := ⟨.hbm, 2293, rfl⟩
abbrev main_v2174 : Ref sig .tc := ⟨.hbm, 2294, rfl⟩
abbrev main_v2175 : Ref sig .tc := ⟨.hbm, 2295, rfl⟩
abbrev main_v2176 : Ref sig .tc := ⟨.hbm, 2296, rfl⟩
abbrev main_v2177 : Ref sig .tc := ⟨.hbm, 2297, rfl⟩
abbrev main_v2178 : Ref sig .tc := ⟨.hbm, 2298, rfl⟩
abbrev main_v2179 : Ref sig .tc := ⟨.hbm, 2299, rfl⟩
abbrev main_v2180 : Ref sig .tc := ⟨.hbm, 2300, rfl⟩
abbrev main_v2181 : Ref sig .tc := ⟨.hbm, 2301, rfl⟩
abbrev main_v2182 : Ref sig .tc := ⟨.hbm, 2302, rfl⟩
abbrev main_v2183 : Ref sig .tc := ⟨.hbm, 2303, rfl⟩
abbrev main_v2184 : Ref sig .tc := ⟨.hbm, 2304, rfl⟩
abbrev main_v2185 : Ref sig .tc := ⟨.hbm, 2305, rfl⟩
abbrev main_v2186 : Ref sig .tc := ⟨.hbm, 2306, rfl⟩
abbrev main_c_116 : Ref sig .tc := ⟨.hbm, 2307, rfl⟩
abbrev main_v2187 : Ref sig .tc := ⟨.hbm, 2308, rfl⟩
abbrev main_v2188 : Ref sig .tc := ⟨.hbm, 2309, rfl⟩
abbrev main_v2189 : Ref sig .tc := ⟨.hbm, 2310, rfl⟩
abbrev main_v2190 : Ref sig .tc := ⟨.hbm, 2311, rfl⟩
abbrev main_v2191 : Ref sig .tc := ⟨.hbm, 2312, rfl⟩
abbrev main_v2192 : Ref sig .tc := ⟨.hbm, 2313, rfl⟩
abbrev main_v2193 : Ref sig .tc := ⟨.hbm, 2314, rfl⟩
abbrev main_v2194 : Ref sig .tc := ⟨.hbm, 2315, rfl⟩
abbrev main_v2195 : Ref sig .tc := ⟨.hbm, 2316, rfl⟩
abbrev main_v2196 : Ref sig .tc := ⟨.hbm, 2317, rfl⟩
abbrev main_v2197 : Ref sig .tc := ⟨.hbm, 2318, rfl⟩
abbrev main_v2198 : Ref sig .tc := ⟨.hbm, 2319, rfl⟩
abbrev main_v2199 : Ref sig .tc := ⟨.hbm, 2320, rfl⟩
abbrev main_v2200 : Ref sig .tc := ⟨.hbm, 2321, rfl⟩
abbrev main_v2201 : Ref sig .tc := ⟨.hbm, 2322, rfl⟩
abbrev main_v2202 : Ref sig .tc := ⟨.hbm, 2323, rfl⟩
abbrev main_v2203 : Ref sig .tc := ⟨.hbm, 2324, rfl⟩
abbrev main_v2204 : Ref sig .tc := ⟨.hbm, 2325, rfl⟩
abbrev main_v2205 : Ref sig .tc := ⟨.hbm, 2326, rfl⟩
abbrev main_v2206 : Ref sig .tc := ⟨.hbm, 2327, rfl⟩
abbrev main_c_117 : Ref sig .tc := ⟨.hbm, 2328, rfl⟩
abbrev main_v2207 : Ref sig .tc := ⟨.hbm, 2329, rfl⟩
abbrev main_v2208 : Ref sig .tc := ⟨.hbm, 2330, rfl⟩
abbrev main_v2209 : Ref sig .tc := ⟨.hbm, 2331, rfl⟩
abbrev main_v2210 : Ref sig .tc := ⟨.hbm, 2332, rfl⟩
abbrev main_v2211 : Ref sig .tc := ⟨.hbm, 2333, rfl⟩
abbrev main_v2212 : Ref sig .tc := ⟨.hbm, 2334, rfl⟩
abbrev main_v2213 : Ref sig .tc := ⟨.hbm, 2335, rfl⟩
abbrev main_v2214 : Ref sig .tc := ⟨.hbm, 2336, rfl⟩
abbrev main_v2215 : Ref sig .tc := ⟨.hbm, 2337, rfl⟩
abbrev main_v2216 : Ref sig .tc := ⟨.hbm, 2338, rfl⟩
abbrev main_v2217 : Ref sig .tc := ⟨.hbm, 2339, rfl⟩
abbrev main_v2218 : Ref sig .tc := ⟨.hbm, 2340, rfl⟩
abbrev main_v2219 : Ref sig .tc := ⟨.hbm, 2341, rfl⟩
abbrev main_v2220 : Ref sig .tc := ⟨.hbm, 2342, rfl⟩
abbrev main_v2221 : Ref sig .tc := ⟨.hbm, 2343, rfl⟩
abbrev main_v2222 : Ref sig .tc := ⟨.hbm, 2344, rfl⟩
abbrev main_v2223 : Ref sig .tc := ⟨.hbm, 2345, rfl⟩
abbrev main_v2224 : Ref sig .tc := ⟨.hbm, 2346, rfl⟩
abbrev main_v2225 : Ref sig .tc := ⟨.hbm, 2347, rfl⟩
abbrev main_v2226 : Ref sig .tc := ⟨.hbm, 2348, rfl⟩
abbrev main_c_118 : Ref sig .tc := ⟨.hbm, 2349, rfl⟩
abbrev main_v2227 : Ref sig .tc := ⟨.hbm, 2350, rfl⟩
abbrev main_v2228 : Ref sig .tc := ⟨.hbm, 2351, rfl⟩
abbrev main_v2229 : Ref sig .tc := ⟨.hbm, 2352, rfl⟩
abbrev main_v2230 : Ref sig .tc := ⟨.hbm, 2353, rfl⟩
abbrev main_v2231 : Ref sig .tc := ⟨.hbm, 2354, rfl⟩
abbrev main_v2232 : Ref sig .tc := ⟨.hbm, 2355, rfl⟩
abbrev main_v2233 : Ref sig .tc := ⟨.hbm, 2356, rfl⟩
abbrev main_v2234 : Ref sig .tc := ⟨.hbm, 2357, rfl⟩
abbrev main_v2235 : Ref sig .tc := ⟨.hbm, 2358, rfl⟩
abbrev main_v2236 : Ref sig .tc := ⟨.hbm, 2359, rfl⟩
abbrev main_v2237 : Ref sig .tc := ⟨.hbm, 2360, rfl⟩
abbrev main_v2238 : Ref sig .tc := ⟨.hbm, 2361, rfl⟩
abbrev main_v2239 : Ref sig .tc := ⟨.hbm, 2362, rfl⟩
abbrev main_v2240 : Ref sig .tc := ⟨.hbm, 2363, rfl⟩
abbrev main_v2241 : Ref sig .tc := ⟨.hbm, 2364, rfl⟩
abbrev main_v2242 : Ref sig .tc := ⟨.hbm, 2365, rfl⟩
abbrev main_v2243 : Ref sig .tc := ⟨.hbm, 2366, rfl⟩
abbrev main_v2244 : Ref sig .tc := ⟨.hbm, 2367, rfl⟩
abbrev main_v2245 : Ref sig .tc := ⟨.hbm, 2368, rfl⟩
abbrev main_v2246 : Ref sig .tc := ⟨.hbm, 2369, rfl⟩
abbrev main_c_119 : Ref sig .tc := ⟨.hbm, 2370, rfl⟩
abbrev main_v2247 : Ref sig .tc := ⟨.hbm, 2371, rfl⟩
abbrev main_v2248 : Ref sig .tc := ⟨.hbm, 2372, rfl⟩
abbrev main_c_120 : Ref sig .tc := ⟨.hbm, 2373, rfl⟩
abbrev main_v2249 : Ref sig .tc := ⟨.hbm, 2374, rfl⟩
abbrev main_v2250 : Ref sig .tc := ⟨.hbm, 2375, rfl⟩
abbrev main_v2251 : Ref sig .tc := ⟨.hbm, 2376, rfl⟩
abbrev main_v2252 : Ref sig .tc := ⟨.hbm, 2377, rfl⟩
abbrev main_v2253 : Ref sig .tc := ⟨.hbm, 2378, rfl⟩
abbrev main_v2254 : Ref sig .tc := ⟨.hbm, 2379, rfl⟩
abbrev main_v2255 : Ref sig .tc := ⟨.hbm, 2380, rfl⟩
abbrev main_v2256 : Ref sig .tc := ⟨.hbm, 2381, rfl⟩
abbrev main_v2257 : Ref sig .tc := ⟨.hbm, 2382, rfl⟩
abbrev main_v2258 : Ref sig .tc := ⟨.hbm, 2383, rfl⟩
abbrev main_v2259 : Ref sig .tc := ⟨.hbm, 2384, rfl⟩
abbrev main_v2260 : Ref sig .tc := ⟨.hbm, 2385, rfl⟩
abbrev main_v2261 : Ref sig .tc := ⟨.hbm, 2386, rfl⟩
abbrev main_v2262 : Ref sig .tc := ⟨.hbm, 2387, rfl⟩
abbrev main_v2263 : Ref sig .tc := ⟨.hbm, 2388, rfl⟩
abbrev main_v2264 : Ref sig .tc := ⟨.hbm, 2389, rfl⟩
abbrev main_v2265 : Ref sig .tc := ⟨.hbm, 2390, rfl⟩
abbrev main_v2266 : Ref sig .tc := ⟨.hbm, 2391, rfl⟩
abbrev main_v2267 : Ref sig .tc := ⟨.hbm, 2392, rfl⟩
abbrev main_v2268 : Ref sig .tc := ⟨.hbm, 2393, rfl⟩
abbrev main_v2269 : Ref sig .tc := ⟨.hbm, 2394, rfl⟩
abbrev main_v2270 : Ref sig .tc := ⟨.hbm, 2395, rfl⟩
abbrev main_c_121 : Ref sig .tc := ⟨.hbm, 2396, rfl⟩
abbrev main_v2271 : Ref sig .tc := ⟨.hbm, 2397, rfl⟩
abbrev main_v2272 : Ref sig .tc := ⟨.hbm, 2398, rfl⟩
abbrev main_v2273 : Ref sig .tc := ⟨.hbm, 2399, rfl⟩
abbrev main_v2274 : Ref sig .tc := ⟨.hbm, 2400, rfl⟩
abbrev main_v2275 : Ref sig .tc := ⟨.hbm, 2401, rfl⟩
abbrev main_v2276 : Ref sig .tc := ⟨.hbm, 2402, rfl⟩
abbrev main_v2277 : Ref sig .tc := ⟨.hbm, 2403, rfl⟩
abbrev main_v2278 : Ref sig .tc := ⟨.hbm, 2404, rfl⟩
abbrev main_v2279 : Ref sig .tc := ⟨.hbm, 2405, rfl⟩
abbrev main_v2280 : Ref sig .tc := ⟨.hbm, 2406, rfl⟩
abbrev main_v2281 : Ref sig .tc := ⟨.hbm, 2407, rfl⟩
abbrev main_v2282 : Ref sig .tc := ⟨.hbm, 2408, rfl⟩
abbrev main_v2283 : Ref sig .tc := ⟨.hbm, 2409, rfl⟩
abbrev main_v2284 : Ref sig .tc := ⟨.hbm, 2410, rfl⟩
abbrev main_v2285 : Ref sig .tc := ⟨.hbm, 2411, rfl⟩
abbrev main_v2286 : Ref sig .tc := ⟨.hbm, 2412, rfl⟩
abbrev main_v2287 : Ref sig .tc := ⟨.hbm, 2413, rfl⟩
abbrev main_v2288 : Ref sig .tc := ⟨.hbm, 2414, rfl⟩
abbrev main_v2289 : Ref sig .tc := ⟨.hbm, 2415, rfl⟩
abbrev main_v2290 : Ref sig .tc := ⟨.hbm, 2416, rfl⟩
abbrev main_c_122 : Ref sig .tc := ⟨.hbm, 2417, rfl⟩
abbrev main_v2291 : Ref sig .tc := ⟨.hbm, 2418, rfl⟩
abbrev main_v2292 : Ref sig .tc := ⟨.hbm, 2419, rfl⟩
abbrev main_v2293 : Ref sig .tc := ⟨.hbm, 2420, rfl⟩
abbrev main_v2294 : Ref sig .tc := ⟨.hbm, 2421, rfl⟩
abbrev main_v2295 : Ref sig .tc := ⟨.hbm, 2422, rfl⟩
abbrev main_v2296 : Ref sig .tc := ⟨.hbm, 2423, rfl⟩
abbrev main_v2297 : Ref sig .tc := ⟨.hbm, 2424, rfl⟩
abbrev main_v2298 : Ref sig .tc := ⟨.hbm, 2425, rfl⟩
abbrev main_v2299 : Ref sig .tc := ⟨.hbm, 2426, rfl⟩
abbrev main_v2300 : Ref sig .tc := ⟨.hbm, 2427, rfl⟩
abbrev main_v2301 : Ref sig .tc := ⟨.hbm, 2428, rfl⟩
abbrev main_v2302 : Ref sig .tc := ⟨.hbm, 2429, rfl⟩
abbrev main_v2303 : Ref sig .tc := ⟨.hbm, 2430, rfl⟩
abbrev main_v2304 : Ref sig .tc := ⟨.hbm, 2431, rfl⟩
abbrev main_v2305 : Ref sig .tc := ⟨.hbm, 2432, rfl⟩
abbrev main_v2306 : Ref sig .tc := ⟨.hbm, 2433, rfl⟩
abbrev main_v2307 : Ref sig .tc := ⟨.hbm, 2434, rfl⟩
abbrev main_v2308 : Ref sig .tc := ⟨.hbm, 2435, rfl⟩
abbrev main_v2309 : Ref sig .tc := ⟨.hbm, 2436, rfl⟩
abbrev main_v2310 : Ref sig .tc := ⟨.hbm, 2437, rfl⟩
abbrev main_c_123 : Ref sig .tc := ⟨.hbm, 2438, rfl⟩
abbrev main_v2311 : Ref sig .tc := ⟨.hbm, 2439, rfl⟩
abbrev main_v2312 : Ref sig .tc := ⟨.hbm, 2440, rfl⟩
abbrev main_v2313 : Ref sig .tc := ⟨.hbm, 2441, rfl⟩
abbrev main_v2314 : Ref sig .tc := ⟨.hbm, 2442, rfl⟩
abbrev main_v2315 : Ref sig .tc := ⟨.hbm, 2443, rfl⟩
abbrev main_v2316 : Ref sig .tc := ⟨.hbm, 2444, rfl⟩
abbrev main_v2317 : Ref sig .tc := ⟨.hbm, 2445, rfl⟩
abbrev main_v2318 : Ref sig .tc := ⟨.hbm, 2446, rfl⟩
abbrev main_v2319 : Ref sig .tc := ⟨.hbm, 2447, rfl⟩
abbrev main_v2320 : Ref sig .tc := ⟨.hbm, 2448, rfl⟩
abbrev main_v2321 : Ref sig .tc := ⟨.hbm, 2449, rfl⟩
abbrev main_v2322 : Ref sig .tc := ⟨.hbm, 2450, rfl⟩
abbrev main_v2323 : Ref sig .tc := ⟨.hbm, 2451, rfl⟩
abbrev main_v2324 : Ref sig .tc := ⟨.hbm, 2452, rfl⟩
abbrev main_v2325 : Ref sig .tc := ⟨.hbm, 2453, rfl⟩
abbrev main_v2326 : Ref sig .tc := ⟨.hbm, 2454, rfl⟩
abbrev main_v2327 : Ref sig .tc := ⟨.hbm, 2455, rfl⟩
abbrev main_v2328 : Ref sig .tc := ⟨.hbm, 2456, rfl⟩
abbrev main_v2329 : Ref sig .tc := ⟨.hbm, 2457, rfl⟩
abbrev main_v2330 : Ref sig .tc := ⟨.hbm, 2458, rfl⟩
abbrev main_c_124 : Ref sig .tc := ⟨.hbm, 2459, rfl⟩
abbrev main_v2331 : Ref sig .tc := ⟨.hbm, 2460, rfl⟩
abbrev main_v2332 : Ref sig .tc := ⟨.hbm, 2461, rfl⟩
abbrev main_c_125 : Ref sig .tc := ⟨.hbm, 2462, rfl⟩
abbrev main_v2333 : Ref sig .tc := ⟨.hbm, 2463, rfl⟩
abbrev main_v2334 : Ref sig .tc := ⟨.hbm, 2464, rfl⟩
abbrev main_v2335 : Ref sig .tc := ⟨.hbm, 2465, rfl⟩
abbrev main_v2336 : Ref sig .tc := ⟨.hbm, 2466, rfl⟩
abbrev main_v2337 : Ref sig .tc := ⟨.hbm, 2467, rfl⟩
abbrev main_v2338 : Ref sig .tc := ⟨.hbm, 2468, rfl⟩
abbrev main_v2339 : Ref sig .tc := ⟨.hbm, 2469, rfl⟩
abbrev main_v2340 : Ref sig .tc := ⟨.hbm, 2470, rfl⟩
abbrev main_v2341 : Ref sig .tc := ⟨.hbm, 2471, rfl⟩
abbrev main_v2342 : Ref sig .tc := ⟨.hbm, 2472, rfl⟩
abbrev main_v2343 : Ref sig .tc := ⟨.hbm, 2473, rfl⟩
abbrev main_v2344 : Ref sig .tc := ⟨.hbm, 2474, rfl⟩
abbrev main_v2345 : Ref sig .tc := ⟨.hbm, 2475, rfl⟩
abbrev main_v2346 : Ref sig .tc := ⟨.hbm, 2476, rfl⟩
abbrev main_v2347 : Ref sig .tc := ⟨.hbm, 2477, rfl⟩
abbrev main_v2348 : Ref sig .tc := ⟨.hbm, 2478, rfl⟩
abbrev main_v2349 : Ref sig .tc := ⟨.hbm, 2479, rfl⟩
abbrev main_v2350 : Ref sig .tc := ⟨.hbm, 2480, rfl⟩
abbrev main_v2351 : Ref sig .tc := ⟨.hbm, 2481, rfl⟩
abbrev main_v2352 : Ref sig .tc := ⟨.hbm, 2482, rfl⟩
abbrev main_v2353 : Ref sig .tc := ⟨.hbm, 2483, rfl⟩
abbrev main_v2354 : Ref sig .tc := ⟨.hbm, 2484, rfl⟩
abbrev main_c_126 : Ref sig .tc := ⟨.hbm, 2485, rfl⟩
abbrev main_v2355 : Ref sig .tc := ⟨.hbm, 2486, rfl⟩
abbrev main_v2356 : Ref sig .tc := ⟨.hbm, 2487, rfl⟩
abbrev main_v2357 : Ref sig .tc := ⟨.hbm, 2488, rfl⟩
abbrev main_v2358 : Ref sig .tc := ⟨.hbm, 2489, rfl⟩
abbrev main_v2359 : Ref sig .tc := ⟨.hbm, 2490, rfl⟩
abbrev main_v2360 : Ref sig .tc := ⟨.hbm, 2491, rfl⟩
abbrev main_v2361 : Ref sig .tc := ⟨.hbm, 2492, rfl⟩
abbrev main_v2362 : Ref sig .tc := ⟨.hbm, 2493, rfl⟩
abbrev main_v2363 : Ref sig .tc := ⟨.hbm, 2494, rfl⟩
abbrev main_v2364 : Ref sig .tc := ⟨.hbm, 2495, rfl⟩
abbrev main_v2365 : Ref sig .tc := ⟨.hbm, 2496, rfl⟩
abbrev main_v2366 : Ref sig .tc := ⟨.hbm, 2497, rfl⟩
abbrev main_v2367 : Ref sig .tc := ⟨.hbm, 2498, rfl⟩
abbrev main_v2368 : Ref sig .tc := ⟨.hbm, 2499, rfl⟩
abbrev main_v2369 : Ref sig .tc := ⟨.hbm, 2500, rfl⟩
abbrev main_v2370 : Ref sig .tc := ⟨.hbm, 2501, rfl⟩
abbrev main_v2371 : Ref sig .tc := ⟨.hbm, 2502, rfl⟩
abbrev main_v2372 : Ref sig .tc := ⟨.hbm, 2503, rfl⟩
abbrev main_v2373 : Ref sig .tc := ⟨.hbm, 2504, rfl⟩
abbrev main_v2374 : Ref sig .tc := ⟨.hbm, 2505, rfl⟩
abbrev main_c_127 : Ref sig .tc := ⟨.hbm, 2506, rfl⟩
abbrev main_v2375 : Ref sig .tc := ⟨.hbm, 2507, rfl⟩
abbrev main_v2376 : Ref sig .tc := ⟨.hbm, 2508, rfl⟩
abbrev main_v2377 : Ref sig .tc := ⟨.hbm, 2509, rfl⟩
abbrev main_v2378 : Ref sig .tc := ⟨.hbm, 2510, rfl⟩
abbrev main_v2379 : Ref sig .tc := ⟨.hbm, 2511, rfl⟩
abbrev main_v2380 : Ref sig .tc := ⟨.hbm, 2512, rfl⟩
abbrev main_v2381 : Ref sig .tc := ⟨.hbm, 2513, rfl⟩
abbrev main_v2382 : Ref sig .tc := ⟨.hbm, 2514, rfl⟩
abbrev main_v2383 : Ref sig .tc := ⟨.hbm, 2515, rfl⟩
abbrev main_v2384 : Ref sig .tc := ⟨.hbm, 2516, rfl⟩
abbrev main_v2385 : Ref sig .tc := ⟨.hbm, 2517, rfl⟩
abbrev main_v2386 : Ref sig .tc := ⟨.hbm, 2518, rfl⟩
abbrev main_v2387 : Ref sig .tc := ⟨.hbm, 2519, rfl⟩
abbrev main_v2388 : Ref sig .tc := ⟨.hbm, 2520, rfl⟩
abbrev main_v2389 : Ref sig .tc := ⟨.hbm, 2521, rfl⟩
abbrev main_v2390 : Ref sig .tc := ⟨.hbm, 2522, rfl⟩
abbrev main_v2391 : Ref sig .tc := ⟨.hbm, 2523, rfl⟩
abbrev main_v2392 : Ref sig .tc := ⟨.hbm, 2524, rfl⟩
abbrev main_v2393 : Ref sig .tc := ⟨.hbm, 2525, rfl⟩
abbrev main_v2394 : Ref sig .tc := ⟨.hbm, 2526, rfl⟩
abbrev main_c_128 : Ref sig .tc := ⟨.hbm, 2527, rfl⟩
abbrev main_v2395 : Ref sig .tc := ⟨.hbm, 2528, rfl⟩
abbrev main_v2396 : Ref sig .tc := ⟨.hbm, 2529, rfl⟩
abbrev main_c_129 : Ref sig .tc := ⟨.hbm, 2530, rfl⟩
abbrev main_v2397 : Ref sig .tc := ⟨.hbm, 2531, rfl⟩
abbrev main_v2398 : Ref sig .tc := ⟨.hbm, 2532, rfl⟩
abbrev main_v2399 : Ref sig .tc := ⟨.hbm, 2533, rfl⟩
abbrev main_v2400 : Ref sig .tc := ⟨.hbm, 2534, rfl⟩
abbrev main_v2401 : Ref sig .tc := ⟨.hbm, 2535, rfl⟩
abbrev main_v2402 : Ref sig .tc := ⟨.hbm, 2536, rfl⟩
abbrev main_v2403 : Ref sig .tc := ⟨.hbm, 2537, rfl⟩
abbrev main_v2404 : Ref sig .tc := ⟨.hbm, 2538, rfl⟩
abbrev main_v2405 : Ref sig .tc := ⟨.hbm, 2539, rfl⟩
abbrev main_v2406 : Ref sig .tc := ⟨.hbm, 2540, rfl⟩
abbrev main_v2407 : Ref sig .tc := ⟨.hbm, 2541, rfl⟩
abbrev main_v2408 : Ref sig .tc := ⟨.hbm, 2542, rfl⟩
abbrev main_v2409 : Ref sig .tc := ⟨.hbm, 2543, rfl⟩
abbrev main_v2410 : Ref sig .tc := ⟨.hbm, 2544, rfl⟩
abbrev main_v2411 : Ref sig .tc := ⟨.hbm, 2545, rfl⟩
abbrev main_v2412 : Ref sig .tc := ⟨.hbm, 2546, rfl⟩
abbrev main_v2413 : Ref sig .tc := ⟨.hbm, 2547, rfl⟩
abbrev main_v2414 : Ref sig .tc := ⟨.hbm, 2548, rfl⟩
abbrev main_v2415 : Ref sig .tc := ⟨.hbm, 2549, rfl⟩
abbrev main_v2416 : Ref sig .tc := ⟨.hbm, 2550, rfl⟩
abbrev main_v2417 : Ref sig .tc := ⟨.hbm, 2551, rfl⟩
abbrev main_v2418 : Ref sig .tc := ⟨.hbm, 2552, rfl⟩
abbrev main_c_130 : Ref sig .tc := ⟨.hbm, 2553, rfl⟩
abbrev main_v2419 : Ref sig .tc := ⟨.hbm, 2554, rfl⟩
abbrev main_v2420 : Ref sig .tc := ⟨.hbm, 2555, rfl⟩
abbrev main_v2421 : Ref sig .tc := ⟨.hbm, 2556, rfl⟩
abbrev main_v2422 : Ref sig .tc := ⟨.hbm, 2557, rfl⟩
abbrev main_v2423 : Ref sig .tc := ⟨.hbm, 2558, rfl⟩
abbrev main_v2424 : Ref sig .tc := ⟨.hbm, 2559, rfl⟩
abbrev main_v2425 : Ref sig .tc := ⟨.hbm, 2560, rfl⟩
abbrev main_v2426 : Ref sig .tc := ⟨.hbm, 2561, rfl⟩
abbrev main_v2427 : Ref sig .tc := ⟨.hbm, 2562, rfl⟩
abbrev main_v2428 : Ref sig .tc := ⟨.hbm, 2563, rfl⟩
abbrev main_v2429 : Ref sig .tc := ⟨.hbm, 2564, rfl⟩
abbrev main_v2430 : Ref sig .tc := ⟨.hbm, 2565, rfl⟩
abbrev main_v2431 : Ref sig .tc := ⟨.hbm, 2566, rfl⟩
abbrev main_v2432 : Ref sig .tc := ⟨.hbm, 2567, rfl⟩
abbrev main_v2433 : Ref sig .tc := ⟨.hbm, 2568, rfl⟩
abbrev main_v2434 : Ref sig .tc := ⟨.hbm, 2569, rfl⟩
abbrev main_v2435 : Ref sig .tc := ⟨.hbm, 2570, rfl⟩
abbrev main_v2436 : Ref sig .tc := ⟨.hbm, 2571, rfl⟩
abbrev main_v2437 : Ref sig .tc := ⟨.hbm, 2572, rfl⟩
abbrev main_v2438 : Ref sig .tc := ⟨.hbm, 2573, rfl⟩
abbrev main_c_131 : Ref sig .tc := ⟨.hbm, 2574, rfl⟩
abbrev main_v2439 : Ref sig .tc := ⟨.hbm, 2575, rfl⟩
abbrev main_v2440 : Ref sig .tc := ⟨.hbm, 2576, rfl⟩
abbrev main_c_132 : Ref sig .tc := ⟨.hbm, 2577, rfl⟩
abbrev main_v2441 : Ref sig .tc := ⟨.hbm, 2578, rfl⟩
abbrev main_v2442 : Ref sig .tc := ⟨.hbm, 2579, rfl⟩
abbrev main_v2443 : Ref sig .tc := ⟨.hbm, 2580, rfl⟩
abbrev main_v2444 : Ref sig .tc := ⟨.hbm, 2581, rfl⟩
abbrev main_v2445 : Ref sig .tc := ⟨.hbm, 2582, rfl⟩
abbrev main_v2446 : Ref sig .tc := ⟨.hbm, 2583, rfl⟩
abbrev main_v2447 : Ref sig .tc := ⟨.hbm, 2584, rfl⟩
abbrev main_v2448 : Ref sig .tc := ⟨.hbm, 2585, rfl⟩
abbrev main_v2449 : Ref sig .tc := ⟨.hbm, 2586, rfl⟩
abbrev main_v2450 : Ref sig .tc := ⟨.hbm, 2587, rfl⟩
abbrev main_v2451 : Ref sig .tc := ⟨.hbm, 2588, rfl⟩
abbrev main_v2452 : Ref sig .tc := ⟨.hbm, 2589, rfl⟩
abbrev main_v2453 : Ref sig .tc := ⟨.hbm, 2590, rfl⟩
abbrev main_v2454 : Ref sig .tc := ⟨.hbm, 2591, rfl⟩
abbrev main_v2455 : Ref sig .tc := ⟨.hbm, 2592, rfl⟩
abbrev main_v2456 : Ref sig .tc := ⟨.hbm, 2593, rfl⟩
abbrev main_v2457 : Ref sig .tc := ⟨.hbm, 2594, rfl⟩
abbrev main_v2458 : Ref sig .tc := ⟨.hbm, 2595, rfl⟩
abbrev main_v2459 : Ref sig .tc := ⟨.hbm, 2596, rfl⟩
abbrev main_v2460 : Ref sig .tc := ⟨.hbm, 2597, rfl⟩
abbrev main_v2461 : Ref sig .tc := ⟨.hbm, 2598, rfl⟩
abbrev main_v2462 : Ref sig .tc := ⟨.hbm, 2599, rfl⟩
abbrev main_c_133 : Ref sig .tc := ⟨.hbm, 2600, rfl⟩
abbrev main_v2463 : Ref sig .tc := ⟨.hbm, 2601, rfl⟩
abbrev main_v2464 : Ref sig .tc := ⟨.hbm, 2602, rfl⟩
abbrev main_c_134 : Ref sig .tc := ⟨.hbm, 2603, rfl⟩
abbrev main_v2465 : Ref sig .tc := ⟨.hbm, 2604, rfl⟩
abbrev main_v2466 : Ref sig .tc := ⟨.hbm, 2605, rfl⟩
abbrev main_v2467 : Ref sig .tc := ⟨.hbm, 2606, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16x16 : S_.BroadcastsInDim S16x16 (![] : Fin 0 → Fin S16x16.rank)
  bcast_S16x16_S1024x16x16_1_2 : S16x16.BroadcastsInDim S1024x16x16 (![1, 2] : Fin 2 → Fin S1024x16x16.rank)
  slices_S1024x16x16_S1024x1x16_0_0_0 : S1024x16x16.Slices ![0, 0, 0] S1024x1x16
  shapeCasts_S1024x1x16_S1024x16 : S1024x1x16.ShapeCasts S1024x16
  slices_S1024x120_S1024x1_0_0 : S1024x120.Slices ![0, 0] S1024x1
  shapeCasts_S1024x1_S1024 : S1024x1.ShapeCasts S1024
  bcast_S1024_S1024x1_0 : S1024.BroadcastsInDim S1024x1 (![0] : Fin 1 → Fin S1024x1.rank)
  slices_S1024x16x16_S1024x1x16_0_1_0 : S1024x16x16.Slices ![0, 1, 0] S1024x1x16
  bcast_S1024x1_S1024x16_0_1 : S1024x1.BroadcastsInDim S1024x16 (![0, 1] : Fin 2 → Fin S1024x16.rank)
  bcast_S_S1 : S_.BroadcastsInDim S1 (![] : Fin 0 → Fin S1.rank)
  slices_S1024x120_S1024x1_0_1 : S1024x120.Slices ![0, 1] S1024x1
  slices_S1024x16x16_S1024x1x16_0_2_0 : S1024x16x16.Slices ![0, 2, 0] S1024x1x16
  slices_S1024x120_S1024x1_0_2 : S1024x120.Slices ![0, 2] S1024x1
  slices_S1024x16x16_S1024x1x16_0_3_0 : S1024x16x16.Slices ![0, 3, 0] S1024x1x16
  slices_S1024x120_S1024x1_0_3 : S1024x120.Slices ![0, 3] S1024x1
  slices_S1024x16x16_S1024x1x16_0_4_0 : S1024x16x16.Slices ![0, 4, 0] S1024x1x16
  slices_S1024x120_S1024x1_0_4 : S1024x120.Slices ![0, 4] S1024x1
  slices_S1024x16x16_S1024x1x16_0_5_0 : S1024x16x16.Slices ![0, 5, 0] S1024x1x16
  slices_S1024x120_S1024x1_0_5 : S1024x120.Slices ![0, 5] S1024x1
  slices_S1024x16x16_S1024x1x16_0_6_0 : S1024x16x16.Slices ![0, 6, 0] S1024x1x16
  slices_S1024x120_S1024x1_0_6 : S1024x120.Slices ![0, 6] S1024x1
  slices_S1024x16x16_S1024x1x16_0_7_0 : S1024x16x16.Slices ![0, 7, 0] S1024x1x16
  slices_S1024x120_S1024x1_0_7 : S1024x120.Slices ![0, 7] S1024x1
  slices_S1024x16x16_S1024x1x16_0_8_0 : S1024x16x16.Slices ![0, 8, 0] S1024x1x16
  slices_S1024x120_S1024x1_0_8 : S1024x120.Slices ![0, 8] S1024x1
  slices_S1024x16x16_S1024x1x16_0_9_0 : S1024x16x16.Slices ![0, 9, 0] S1024x1x16
  slices_S1024x120_S1024x1_0_9 : S1024x120.Slices ![0, 9] S1024x1
  slices_S1024x16x16_S1024x1x16_0_10_0 : S1024x16x16.Slices ![0, 10, 0] S1024x1x16
  slices_S1024x120_S1024x1_0_10 : S1024x120.Slices ![0, 10] S1024x1
  slices_S1024x16x16_S1024x1x16_0_11_0 : S1024x16x16.Slices ![0, 11, 0] S1024x1x16
  slices_S1024x120_S1024x1_0_11 : S1024x120.Slices ![0, 11] S1024x1
  slices_S1024x16x16_S1024x1x16_0_12_0 : S1024x16x16.Slices ![0, 12, 0] S1024x1x16
  slices_S1024x120_S1024x1_0_12 : S1024x120.Slices ![0, 12] S1024x1
  slices_S1024x16x16_S1024x1x16_0_13_0 : S1024x16x16.Slices ![0, 13, 0] S1024x1x16
  slices_S1024x120_S1024x1_0_13 : S1024x120.Slices ![0, 13] S1024x1
  slices_S1024x16x16_S1024x1x16_0_14_0 : S1024x16x16.Slices ![0, 14, 0] S1024x1x16
  slices_S1024x120_S1024x1_0_14 : S1024x120.Slices ![0, 14] S1024x1
  slices_S1024x16x16_S1024x1x16_0_15_0 : S1024x16x16.Slices ![0, 15, 0] S1024x1x16
  slices_S1024x120_S1024x1_0_15 : S1024x120.Slices ![0, 15] S1024x1
  slices_S1024x120_S1024x1_0_16 : S1024x120.Slices ![0, 16] S1024x1
  slices_S1024x120_S1024x1_0_17 : S1024x120.Slices ![0, 17] S1024x1
  slices_S1024x120_S1024x1_0_18 : S1024x120.Slices ![0, 18] S1024x1
  slices_S1024x120_S1024x1_0_19 : S1024x120.Slices ![0, 19] S1024x1
  slices_S1024x120_S1024x1_0_20 : S1024x120.Slices ![0, 20] S1024x1
  slices_S1024x120_S1024x1_0_21 : S1024x120.Slices ![0, 21] S1024x1
  slices_S1024x120_S1024x1_0_22 : S1024x120.Slices ![0, 22] S1024x1
  slices_S1024x120_S1024x1_0_23 : S1024x120.Slices ![0, 23] S1024x1
  slices_S1024x120_S1024x1_0_24 : S1024x120.Slices ![0, 24] S1024x1
  slices_S1024x120_S1024x1_0_25 : S1024x120.Slices ![0, 25] S1024x1
  slices_S1024x120_S1024x1_0_26 : S1024x120.Slices ![0, 26] S1024x1
  slices_S1024x120_S1024x1_0_27 : S1024x120.Slices ![0, 27] S1024x1
  slices_S1024x120_S1024x1_0_28 : S1024x120.Slices ![0, 28] S1024x1
  slices_S1024x120_S1024x1_0_29 : S1024x120.Slices ![0, 29] S1024x1
  slices_S1024x120_S1024x1_0_30 : S1024x120.Slices ![0, 30] S1024x1
  slices_S1024x120_S1024x1_0_31 : S1024x120.Slices ![0, 31] S1024x1
  slices_S1024x120_S1024x1_0_32 : S1024x120.Slices ![0, 32] S1024x1
  slices_S1024x120_S1024x1_0_33 : S1024x120.Slices ![0, 33] S1024x1
  slices_S1024x120_S1024x1_0_34 : S1024x120.Slices ![0, 34] S1024x1
  slices_S1024x120_S1024x1_0_35 : S1024x120.Slices ![0, 35] S1024x1
  slices_S1024x120_S1024x1_0_36 : S1024x120.Slices ![0, 36] S1024x1
  slices_S1024x120_S1024x1_0_37 : S1024x120.Slices ![0, 37] S1024x1
  slices_S1024x120_S1024x1_0_38 : S1024x120.Slices ![0, 38] S1024x1
  slices_S1024x120_S1024x1_0_39 : S1024x120.Slices ![0, 39] S1024x1
  slices_S1024x120_S1024x1_0_40 : S1024x120.Slices ![0, 40] S1024x1
  slices_S1024x120_S1024x1_0_41 : S1024x120.Slices ![0, 41] S1024x1
  slices_S1024x120_S1024x1_0_42 : S1024x120.Slices ![0, 42] S1024x1
  slices_S1024x120_S1024x1_0_43 : S1024x120.Slices ![0, 43] S1024x1
  slices_S1024x120_S1024x1_0_44 : S1024x120.Slices ![0, 44] S1024x1
  slices_S1024x120_S1024x1_0_45 : S1024x120.Slices ![0, 45] S1024x1
  slices_S1024x120_S1024x1_0_46 : S1024x120.Slices ![0, 46] S1024x1
  slices_S1024x120_S1024x1_0_47 : S1024x120.Slices ![0, 47] S1024x1
  slices_S1024x120_S1024x1_0_48 : S1024x120.Slices ![0, 48] S1024x1
  slices_S1024x120_S1024x1_0_49 : S1024x120.Slices ![0, 49] S1024x1
  slices_S1024x120_S1024x1_0_50 : S1024x120.Slices ![0, 50] S1024x1
  slices_S1024x120_S1024x1_0_51 : S1024x120.Slices ![0, 51] S1024x1
  slices_S1024x120_S1024x1_0_52 : S1024x120.Slices ![0, 52] S1024x1
  slices_S1024x120_S1024x1_0_53 : S1024x120.Slices ![0, 53] S1024x1
  slices_S1024x120_S1024x1_0_54 : S1024x120.Slices ![0, 54] S1024x1
  slices_S1024x120_S1024x1_0_55 : S1024x120.Slices ![0, 55] S1024x1
  slices_S1024x120_S1024x1_0_56 : S1024x120.Slices ![0, 56] S1024x1
  slices_S1024x120_S1024x1_0_57 : S1024x120.Slices ![0, 57] S1024x1
  slices_S1024x120_S1024x1_0_58 : S1024x120.Slices ![0, 58] S1024x1
  slices_S1024x120_S1024x1_0_59 : S1024x120.Slices ![0, 59] S1024x1
  slices_S1024x120_S1024x1_0_60 : S1024x120.Slices ![0, 60] S1024x1
  slices_S1024x120_S1024x1_0_61 : S1024x120.Slices ![0, 61] S1024x1
  slices_S1024x120_S1024x1_0_62 : S1024x120.Slices ![0, 62] S1024x1
  slices_S1024x120_S1024x1_0_63 : S1024x120.Slices ![0, 63] S1024x1
  slices_S1024x120_S1024x1_0_64 : S1024x120.Slices ![0, 64] S1024x1
  slices_S1024x120_S1024x1_0_65 : S1024x120.Slices ![0, 65] S1024x1
  slices_S1024x120_S1024x1_0_66 : S1024x120.Slices ![0, 66] S1024x1
  slices_S1024x120_S1024x1_0_67 : S1024x120.Slices ![0, 67] S1024x1
  slices_S1024x120_S1024x1_0_68 : S1024x120.Slices ![0, 68] S1024x1
  slices_S1024x120_S1024x1_0_69 : S1024x120.Slices ![0, 69] S1024x1
  slices_S1024x120_S1024x1_0_70 : S1024x120.Slices ![0, 70] S1024x1
  slices_S1024x120_S1024x1_0_71 : S1024x120.Slices ![0, 71] S1024x1
  slices_S1024x120_S1024x1_0_72 : S1024x120.Slices ![0, 72] S1024x1
  slices_S1024x120_S1024x1_0_73 : S1024x120.Slices ![0, 73] S1024x1
  slices_S1024x120_S1024x1_0_74 : S1024x120.Slices ![0, 74] S1024x1
  slices_S1024x120_S1024x1_0_75 : S1024x120.Slices ![0, 75] S1024x1
  slices_S1024x120_S1024x1_0_76 : S1024x120.Slices ![0, 76] S1024x1
  slices_S1024x120_S1024x1_0_77 : S1024x120.Slices ![0, 77] S1024x1
  slices_S1024x120_S1024x1_0_78 : S1024x120.Slices ![0, 78] S1024x1
  slices_S1024x120_S1024x1_0_79 : S1024x120.Slices ![0, 79] S1024x1
  slices_S1024x120_S1024x1_0_80 : S1024x120.Slices ![0, 80] S1024x1
  slices_S1024x120_S1024x1_0_81 : S1024x120.Slices ![0, 81] S1024x1
  slices_S1024x120_S1024x1_0_82 : S1024x120.Slices ![0, 82] S1024x1
  slices_S1024x120_S1024x1_0_83 : S1024x120.Slices ![0, 83] S1024x1
  slices_S1024x120_S1024x1_0_84 : S1024x120.Slices ![0, 84] S1024x1
  slices_S1024x120_S1024x1_0_85 : S1024x120.Slices ![0, 85] S1024x1
  slices_S1024x120_S1024x1_0_86 : S1024x120.Slices ![0, 86] S1024x1
  slices_S1024x120_S1024x1_0_87 : S1024x120.Slices ![0, 87] S1024x1
  slices_S1024x120_S1024x1_0_88 : S1024x120.Slices ![0, 88] S1024x1
  slices_S1024x120_S1024x1_0_89 : S1024x120.Slices ![0, 89] S1024x1
  slices_S1024x120_S1024x1_0_90 : S1024x120.Slices ![0, 90] S1024x1
  slices_S1024x120_S1024x1_0_91 : S1024x120.Slices ![0, 91] S1024x1
  slices_S1024x120_S1024x1_0_92 : S1024x120.Slices ![0, 92] S1024x1
  slices_S1024x120_S1024x1_0_93 : S1024x120.Slices ![0, 93] S1024x1
  slices_S1024x120_S1024x1_0_94 : S1024x120.Slices ![0, 94] S1024x1
  slices_S1024x120_S1024x1_0_95 : S1024x120.Slices ![0, 95] S1024x1
  slices_S1024x120_S1024x1_0_96 : S1024x120.Slices ![0, 96] S1024x1
  slices_S1024x120_S1024x1_0_97 : S1024x120.Slices ![0, 97] S1024x1
  slices_S1024x120_S1024x1_0_98 : S1024x120.Slices ![0, 98] S1024x1
  slices_S1024x120_S1024x1_0_99 : S1024x120.Slices ![0, 99] S1024x1
  slices_S1024x120_S1024x1_0_100 : S1024x120.Slices ![0, 100] S1024x1
  slices_S1024x120_S1024x1_0_101 : S1024x120.Slices ![0, 101] S1024x1
  slices_S1024x120_S1024x1_0_102 : S1024x120.Slices ![0, 102] S1024x1
  slices_S1024x120_S1024x1_0_103 : S1024x120.Slices ![0, 103] S1024x1
  slices_S1024x120_S1024x1_0_104 : S1024x120.Slices ![0, 104] S1024x1
  slices_S1024x120_S1024x1_0_105 : S1024x120.Slices ![0, 105] S1024x1
  slices_S1024x120_S1024x1_0_106 : S1024x120.Slices ![0, 106] S1024x1
  slices_S1024x120_S1024x1_0_107 : S1024x120.Slices ![0, 107] S1024x1
  slices_S1024x120_S1024x1_0_108 : S1024x120.Slices ![0, 108] S1024x1
  slices_S1024x120_S1024x1_0_109 : S1024x120.Slices ![0, 109] S1024x1
  slices_S1024x120_S1024x1_0_110 : S1024x120.Slices ![0, 110] S1024x1
  slices_S1024x120_S1024x1_0_111 : S1024x120.Slices ![0, 111] S1024x1
  slices_S1024x120_S1024x1_0_112 : S1024x120.Slices ![0, 112] S1024x1
  slices_S1024x120_S1024x1_0_113 : S1024x120.Slices ![0, 113] S1024x1
  slices_S1024x120_S1024x1_0_114 : S1024x120.Slices ![0, 114] S1024x1
  slices_S1024x120_S1024x1_0_115 : S1024x120.Slices ![0, 115] S1024x1
  slices_S1024x120_S1024x1_0_116 : S1024x120.Slices ![0, 116] S1024x1
  slices_S1024x120_S1024x1_0_117 : S1024x120.Slices ![0, 117] S1024x1
  slices_S1024x120_S1024x1_0_118 : S1024x120.Slices ![0, 118] S1024x1
  slices_S1024x120_S1024x1_0_119 : S1024x120.Slices ![0, 119] S1024x1
  inb_S64x16x16_S64x16x16_0_0_0 : ∀ a, (![0, 0, 0] : Fin 3 → Nat) a + S64x16x16.size a ≤ S64x16x16.size a
  h_S64x16x16 : 0 < S64x16x16.numel
  shapeCasts_S64x16x16_S64x16x16 : S64x16x16.ShapeCasts S64x16x16
  inb_S64x16_S64x16_0_0 : ∀ a, (![0, 0] : Fin 2 → Nat) a + S64x16.size a ≤ S64x16.size a
  h_S64x16 : 0 < S64x16.numel
  shapeCasts_S64x16_S64x16x1 : S64x16.ShapeCasts S64x16x1
  broadcasts_S64x16x1_S64x16x16 : S64x16x1.Broadcasts S64x16x16
  bitsLt_bf16_f32 : FTy.bits .bf16 < FTy.bits .f32
  inb_S64x16x2048_S64x16x2048_0_0_0 : ∀ a, (![0, 0, 0] : Fin 3 → Nat) a + S64x16x2048.size a ≤ S64x16x2048.size a
  h_S64x16x2048 : 0 < S64x16x2048.numel
  scatter_S1024x16x16_S1_S1024x16_01_1_1_0_wf : ScatterDims.WF S1024x16x16 S1 S1024x16 [0, 1] [1] [1] 0
  dot_S64x16x16_S64x16x2048_S64x16x2048_2_1_1_2_0_0_wf : DotDims.WF S64x16x16 S64x16x2048 S64x16x2048 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x16.size a ≤ S1024x16x16.size a
  hwx0_0 : ∀ i : grid0.Coords, EltTy.bits .f32 = 32 ∨ (Rect.block (s := S1024x16x16) S64x16x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S1024x16.size a
  hwx0_1 : ∀ i : grid0.Coords, EltTy.bits .f32 = 32 ∨ (Rect.block (s := S1024x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16x2048.size a ≤ S1024x16x2048.size a
  hwx0_2 : ∀ i : grid0.Coords, EltTy.bits .f32 = 32 ∨ (Rect.block (s := S1024x16x2048) S64x16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16x2048.size a ≤ S1024x16x2048.size a
  hwx0_3 : ∀ i : grid0.Coords, EltTy.bits .f32 = 32 ∨ (Rect.block (s := S1024x16x2048) S64x16x2048.size (cc0_transform_3 i) (hinb0_3 i)).WholeWords (EltTy.packing .f32)

variable [Facts₀]

def scatter_S1024x16x16_S1_S1024x16_01_1_1_0 : ScatterDims S1024x16x16 S1 S1024x16 where
  updateWindowDims := [0, 1]
  insertedWindowDims := [1]
  scatterDimsToOperandDims := [1]
  indexVectorDim := 0
  wf := scatter_S1024x16x16_S1_S1024x16_01_1_1_0_wf
def dot_S64x16x16_S64x16x2048_S64x16x2048_2_1_1_2_0_0 : DotDims S64x16x16 S64x16x2048 S64x16x2048 where
  lhsContracting := [2]
  rhsContracting := [1]
  lhsNonContracting := [1]
  rhsNonContracting := [2]
  lhsBatch := [0]
  rhsBatch := [0]
  wf := dot_S64x16x16_S64x16x2048_S64x16x2048_2_1_1_2_0_0_wf

abbrev win0_0 : Pipeline.Window sig grid0 :=
  Pipeline.Window.ofSpec (Memref.whole main_v2466) S64x16x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2467) S64x16x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x16x2048 : Shape := ⟨3, ![1024, 16, 2048]⟩
abbrev S1024x120 : Shape := ⟨2, ![1024, 120]⟩
abbrev S1024x16 : Shape := ⟨2, ![1024, 16]⟩
abbrev S16x16 : Shape := ⟨2, ![16, 16]⟩
abbrev S_ : Shape := ⟨0, ![]⟩
abbrev S1024x16x16 : Shape := ⟨3, ![1024, 16, 16]⟩
abbrev S1024x1x16 : Shape := ⟨3, ![1024, 1, 16]⟩
abbrev S1024x1 : Shape := ⟨2, ![1024, 1]⟩
abbrev S1024 : Shape := ⟨1, ![1024]⟩
abbrev S1 : Shape := ⟨1, ![1]⟩
abbrev S1024x16x1 : Shape := ⟨3, ![1024, 16, 1]⟩

abbrev nBuf : Space → Nat
  | .hbm => 2610
  | .vmem => 0
  | .smem => 0
  | _ => 0

abbrev hbmTy0_0 (i : Nat) : BufTy := match i % 128 with
  | 0 => ⟨S1024x16x2048, .f32⟩
  | 1 => ⟨S1024x120, .f32⟩
  | 2 => ⟨S1024x16, .f32⟩
  | 3 => ⟨S16x16, .i32⟩
  | 4 => ⟨S16x16, .i32⟩
  | 5 => ⟨S_, .i32⟩
  | 6 => ⟨S16x16, .i32⟩
  | 7 => ⟨S16x16, .i32⟩
  | 8 => ⟨S16x16, .i1⟩
  | 9 => ⟨S16x16, .f32⟩
  | 10 => ⟨S1024x16x16, .f32⟩
  | 11 => ⟨S1024x1x16, .f32⟩
  | 12 => ⟨S1024x16, .f32⟩
  | 13 => ⟨S1024x1, .f32⟩
  | 14 => ⟨S1024, .f32⟩
  | 15 => ⟨S1024, .f32⟩
  | 16 => ⟨S1024x1, .f32⟩
  | 17 => ⟨S1024, .f32⟩
  | 18 => ⟨S1024x1, .f32⟩
  | 19 => ⟨S1024x1x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S_, .i32⟩
  | 32 => ⟨S1, .i32⟩
  | 33 => ⟨S1024x16x16, .f32⟩
  | 34 => ⟨S1024x1, .f32⟩
  | 35 => ⟨S1024, .f32⟩
  | 36 => ⟨S1024, .f32⟩
  | 37 => ⟨S1024x1, .f32⟩
  | 38 => ⟨S1024, .f32⟩
  | 39 => ⟨S1024x1, .f32⟩
  | 40 => ⟨S1024x1x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S_, .i32⟩
  | 53 => ⟨S1, .i32⟩
  | 54 => ⟨S1024x16x16, .f32⟩
  | 55 => ⟨S1024x1, .f32⟩
  | 56 => ⟨S1024, .f32⟩
  | 57 => ⟨S1024, .f32⟩
  | 58 => ⟨S1024x1, .f32⟩
  | 59 => ⟨S1024, .f32⟩
  | 60 => ⟨S1024x1, .f32⟩
  | 61 => ⟨S1024x1x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S_, .i32⟩
  | 74 => ⟨S1, .i32⟩
  | 75 => ⟨S1024x16x16, .f32⟩
  | 76 => ⟨S1024x1, .f32⟩
  | 77 => ⟨S1024, .f32⟩
  | 78 => ⟨S1024, .f32⟩
  | 79 => ⟨S1024x1, .f32⟩
  | 80 => ⟨S1024, .f32⟩
  | 81 => ⟨S1024x1, .f32⟩
  | 82 => ⟨S1024x1x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S_, .i32⟩
  | 95 => ⟨S1, .i32⟩
  | 96 => ⟨S1024x16x16, .f32⟩
  | 97 => ⟨S1024x1, .f32⟩
  | 98 => ⟨S1024, .f32⟩
  | 99 => ⟨S1024, .f32⟩
  | 100 => ⟨S1024x1, .f32⟩
  | 101 => ⟨S1024, .f32⟩
  | 102 => ⟨S1024x1, .f32⟩
  | 103 => ⟨S1024x1x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S_, .i32⟩
  | 116 => ⟨S1, .i32⟩
  | 117 => ⟨S1024x16x16, .f32⟩
  | 118 => ⟨S1024x1, .f32⟩
  | 119 => ⟨S1024, .f32⟩
  | 120 => ⟨S1024, .f32⟩
  | 121 => ⟨S1024x1, .f32⟩
  | 122 => ⟨S1024, .f32⟩
  | 123 => ⟨S1024x1, .f32⟩
  | 124 => ⟨S1024x1x16, .f32⟩
  | 125 => ⟨S1024x16, .f32⟩
  | 126 => ⟨S1024x16, .f32⟩
  | 127 => ⟨S1024x16, .f32⟩
  | _ => ⟨S1024x16x2048, .f32⟩

abbrev hbmTy0_1 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S_, .i32⟩
  | 9 => ⟨S1, .i32⟩
  | 10 => ⟨S1024x16x16, .f32⟩
  | 11 => ⟨S1024x1, .f32⟩
  | 12 => ⟨S1024, .f32⟩
  | 13 => ⟨S1024, .f32⟩
  | 14 => ⟨S1024x1, .f32⟩
  | 15 => ⟨S1024, .f32⟩
  | 16 => ⟨S1024x1, .f32⟩
  | 17 => ⟨S1024x1x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S_, .i32⟩
  | 30 => ⟨S1, .i32⟩
  | 31 => ⟨S1024x16x16, .f32⟩
  | 32 => ⟨S1024x1, .f32⟩
  | 33 => ⟨S1024, .f32⟩
  | 34 => ⟨S1024, .f32⟩
  | 35 => ⟨S1024x1, .f32⟩
  | 36 => ⟨S1024, .f32⟩
  | 37 => ⟨S1024x1, .f32⟩
  | 38 => ⟨S1024x1x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S_, .i32⟩
  | 51 => ⟨S1, .i32⟩
  | 52 => ⟨S1024x16x16, .f32⟩
  | 53 => ⟨S1024x1, .f32⟩
  | 54 => ⟨S1024, .f32⟩
  | 55 => ⟨S1024, .f32⟩
  | 56 => ⟨S1024x1, .f32⟩
  | 57 => ⟨S1024, .f32⟩
  | 58 => ⟨S1024x1, .f32⟩
  | 59 => ⟨S1024x1x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S_, .i32⟩
  | 72 => ⟨S1, .i32⟩
  | 73 => ⟨S1024x16x16, .f32⟩
  | 74 => ⟨S1024x1, .f32⟩
  | 75 => ⟨S1024, .f32⟩
  | 76 => ⟨S1024, .f32⟩
  | 77 => ⟨S1024x1, .f32⟩
  | 78 => ⟨S1024, .f32⟩
  | 79 => ⟨S1024x1, .f32⟩
  | 80 => ⟨S1024x1x16, .f32⟩
  | 81 => ⟨S1024x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S_, .i32⟩
  | 93 => ⟨S1, .i32⟩
  | 94 => ⟨S1024x16x16, .f32⟩
  | 95 => ⟨S1024x1, .f32⟩
  | 96 => ⟨S1024, .f32⟩
  | 97 => ⟨S1024, .f32⟩
  | 98 => ⟨S1024x1, .f32⟩
  | 99 => ⟨S1024, .f32⟩
  | 100 => ⟨S1024x1, .f32⟩
  | 101 => ⟨S1024x1x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S_, .i32⟩
  | 114 => ⟨S1, .i32⟩
  | 115 => ⟨S1024x16x16, .f32⟩
  | 116 => ⟨S1024x1, .f32⟩
  | 117 => ⟨S1024, .f32⟩
  | 118 => ⟨S1024, .f32⟩
  | 119 => ⟨S1024x1, .f32⟩
  | 120 => ⟨S1024, .f32⟩
  | 121 => ⟨S1024x1, .f32⟩
  | 122 => ⟨S1024x1x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_2 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S_, .i32⟩
  | 7 => ⟨S1, .i32⟩
  | 8 => ⟨S1024x16x16, .f32⟩
  | 9 => ⟨S1024x1, .f32⟩
  | 10 => ⟨S1024, .f32⟩
  | 11 => ⟨S1024, .f32⟩
  | 12 => ⟨S1024x1, .f32⟩
  | 13 => ⟨S1024, .f32⟩
  | 14 => ⟨S1024x1, .f32⟩
  | 15 => ⟨S1024x1x16, .f32⟩
  | 16 => ⟨S1024x16, .f32⟩
  | 17 => ⟨S1024x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S_, .i32⟩
  | 28 => ⟨S1, .i32⟩
  | 29 => ⟨S1024x16x16, .f32⟩
  | 30 => ⟨S1024x1, .f32⟩
  | 31 => ⟨S1024, .f32⟩
  | 32 => ⟨S1024, .f32⟩
  | 33 => ⟨S1024x1, .f32⟩
  | 34 => ⟨S1024, .f32⟩
  | 35 => ⟨S1024x1, .f32⟩
  | 36 => ⟨S1024x1x16, .f32⟩
  | 37 => ⟨S1024x16, .f32⟩
  | 38 => ⟨S1024x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S_, .i32⟩
  | 49 => ⟨S1, .i32⟩
  | 50 => ⟨S1024x16x16, .f32⟩
  | 51 => ⟨S1024x1, .f32⟩
  | 52 => ⟨S1024, .f32⟩
  | 53 => ⟨S1024, .f32⟩
  | 54 => ⟨S1024x1, .f32⟩
  | 55 => ⟨S1024, .f32⟩
  | 56 => ⟨S1024x1, .f32⟩
  | 57 => ⟨S1024x1x16, .f32⟩
  | 58 => ⟨S1024x16, .f32⟩
  | 59 => ⟨S1024x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S_, .i32⟩
  | 70 => ⟨S1, .i32⟩
  | 71 => ⟨S1024x16x16, .f32⟩
  | 72 => ⟨S_, .i32⟩
  | 73 => ⟨S1, .i32⟩
  | 74 => ⟨S1024x16x16, .f32⟩
  | 75 => ⟨S1024x1x16, .f32⟩
  | 76 => ⟨S1024x16, .f32⟩
  | 77 => ⟨S1024x1, .f32⟩
  | 78 => ⟨S1024, .f32⟩
  | 79 => ⟨S1024, .f32⟩
  | 80 => ⟨S1024x1, .f32⟩
  | 81 => ⟨S1024, .f32⟩
  | 82 => ⟨S1024x1, .f32⟩
  | 83 => ⟨S1024x1x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S_, .i32⟩
  | 96 => ⟨S1, .i32⟩
  | 97 => ⟨S1024x16x16, .f32⟩
  | 98 => ⟨S1024x1, .f32⟩
  | 99 => ⟨S1024, .f32⟩
  | 100 => ⟨S1024, .f32⟩
  | 101 => ⟨S1024x1, .f32⟩
  | 102 => ⟨S1024, .f32⟩
  | 103 => ⟨S1024x1, .f32⟩
  | 104 => ⟨S1024x1x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S_, .i32⟩
  | 117 => ⟨S1, .i32⟩
  | 118 => ⟨S1024x16x16, .f32⟩
  | 119 => ⟨S1024x1, .f32⟩
  | 120 => ⟨S1024, .f32⟩
  | 121 => ⟨S1024, .f32⟩
  | 122 => ⟨S1024x1, .f32⟩
  | 123 => ⟨S1024, .f32⟩
  | 124 => ⟨S1024x1, .f32⟩
  | 125 => ⟨S1024x1x16, .f32⟩
  | 126 => ⟨S1024x16, .f32⟩
  | 127 => ⟨S1024x16, .f32⟩
  | _ => ⟨S1024x16x2048, .f32⟩

abbrev hbmTy0_3 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S_, .i32⟩
  | 10 => ⟨S1, .i32⟩
  | 11 => ⟨S1024x16x16, .f32⟩
  | 12 => ⟨S1024x1, .f32⟩
  | 13 => ⟨S1024, .f32⟩
  | 14 => ⟨S1024, .f32⟩
  | 15 => ⟨S1024x1, .f32⟩
  | 16 => ⟨S1024, .f32⟩
  | 17 => ⟨S1024x1, .f32⟩
  | 18 => ⟨S1024x1x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S_, .i32⟩
  | 31 => ⟨S1, .i32⟩
  | 32 => ⟨S1024x16x16, .f32⟩
  | 33 => ⟨S1024x1, .f32⟩
  | 34 => ⟨S1024, .f32⟩
  | 35 => ⟨S1024, .f32⟩
  | 36 => ⟨S1024x1, .f32⟩
  | 37 => ⟨S1024, .f32⟩
  | 38 => ⟨S1024x1, .f32⟩
  | 39 => ⟨S1024x1x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S_, .i32⟩
  | 52 => ⟨S1, .i32⟩
  | 53 => ⟨S1024x16x16, .f32⟩
  | 54 => ⟨S1024x1, .f32⟩
  | 55 => ⟨S1024, .f32⟩
  | 56 => ⟨S1024, .f32⟩
  | 57 => ⟨S1024x1, .f32⟩
  | 58 => ⟨S1024, .f32⟩
  | 59 => ⟨S1024x1, .f32⟩
  | 60 => ⟨S1024x1x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S_, .i32⟩
  | 73 => ⟨S1, .i32⟩
  | 74 => ⟨S1024x16x16, .f32⟩
  | 75 => ⟨S1024x1, .f32⟩
  | 76 => ⟨S1024, .f32⟩
  | 77 => ⟨S1024, .f32⟩
  | 78 => ⟨S1024x1, .f32⟩
  | 79 => ⟨S1024, .f32⟩
  | 80 => ⟨S1024x1, .f32⟩
  | 81 => ⟨S1024x1x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S_, .i32⟩
  | 94 => ⟨S1, .i32⟩
  | 95 => ⟨S1024x16x16, .f32⟩
  | 96 => ⟨S1024x1, .f32⟩
  | 97 => ⟨S1024, .f32⟩
  | 98 => ⟨S1024, .f32⟩
  | 99 => ⟨S1024x1, .f32⟩
  | 100 => ⟨S1024, .f32⟩
  | 101 => ⟨S1024x1, .f32⟩
  | 102 => ⟨S1024x1x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S_, .i32⟩
  | 115 => ⟨S1, .i32⟩
  | 116 => ⟨S1024x16x16, .f32⟩
  | 117 => ⟨S1024x1, .f32⟩
  | 118 => ⟨S1024, .f32⟩
  | 119 => ⟨S1024, .f32⟩
  | 120 => ⟨S1024x1, .f32⟩
  | 121 => ⟨S1024, .f32⟩
  | 122 => ⟨S1024x1, .f32⟩
  | 123 => ⟨S1024x1x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_4 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S_, .i32⟩
  | 8 => ⟨S1, .i32⟩
  | 9 => ⟨S1024x16x16, .f32⟩
  | 10 => ⟨S1024x1, .f32⟩
  | 11 => ⟨S1024, .f32⟩
  | 12 => ⟨S1024, .f32⟩
  | 13 => ⟨S1024x1, .f32⟩
  | 14 => ⟨S1024, .f32⟩
  | 15 => ⟨S1024x1, .f32⟩
  | 16 => ⟨S1024x1x16, .f32⟩
  | 17 => ⟨S1024x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S_, .i32⟩
  | 29 => ⟨S1, .i32⟩
  | 30 => ⟨S1024x16x16, .f32⟩
  | 31 => ⟨S1024x1, .f32⟩
  | 32 => ⟨S1024, .f32⟩
  | 33 => ⟨S1024, .f32⟩
  | 34 => ⟨S1024x1, .f32⟩
  | 35 => ⟨S1024, .f32⟩
  | 36 => ⟨S1024x1, .f32⟩
  | 37 => ⟨S1024x1x16, .f32⟩
  | 38 => ⟨S1024x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S_, .i32⟩
  | 50 => ⟨S1, .i32⟩
  | 51 => ⟨S1024x16x16, .f32⟩
  | 52 => ⟨S1024x1, .f32⟩
  | 53 => ⟨S1024, .f32⟩
  | 54 => ⟨S1024, .f32⟩
  | 55 => ⟨S1024x1, .f32⟩
  | 56 => ⟨S1024, .f32⟩
  | 57 => ⟨S1024x1, .f32⟩
  | 58 => ⟨S1024x1x16, .f32⟩
  | 59 => ⟨S1024x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S_, .i32⟩
  | 71 => ⟨S1, .i32⟩
  | 72 => ⟨S1024x16x16, .f32⟩
  | 73 => ⟨S1024x1, .f32⟩
  | 74 => ⟨S1024, .f32⟩
  | 75 => ⟨S1024, .f32⟩
  | 76 => ⟨S1024x1, .f32⟩
  | 77 => ⟨S1024, .f32⟩
  | 78 => ⟨S1024x1, .f32⟩
  | 79 => ⟨S1024x1x16, .f32⟩
  | 80 => ⟨S1024x16, .f32⟩
  | 81 => ⟨S1024x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S_, .i32⟩
  | 92 => ⟨S1, .i32⟩
  | 93 => ⟨S1024x16x16, .f32⟩
  | 94 => ⟨S1024x1, .f32⟩
  | 95 => ⟨S1024, .f32⟩
  | 96 => ⟨S1024, .f32⟩
  | 97 => ⟨S1024x1, .f32⟩
  | 98 => ⟨S1024, .f32⟩
  | 99 => ⟨S1024x1, .f32⟩
  | 100 => ⟨S1024x1x16, .f32⟩
  | 101 => ⟨S1024x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S_, .i32⟩
  | 113 => ⟨S1, .i32⟩
  | 114 => ⟨S1024x16x16, .f32⟩
  | 115 => ⟨S_, .i32⟩
  | 116 => ⟨S1, .i32⟩
  | 117 => ⟨S1024x16x16, .f32⟩
  | 118 => ⟨S1024x1x16, .f32⟩
  | 119 => ⟨S1024x16, .f32⟩
  | 120 => ⟨S1024x1, .f32⟩
  | 121 => ⟨S1024, .f32⟩
  | 122 => ⟨S1024, .f32⟩
  | 123 => ⟨S1024x1, .f32⟩
  | 124 => ⟨S1024, .f32⟩
  | 125 => ⟨S1024x1, .f32⟩
  | 126 => ⟨S1024x1x16, .f32⟩
  | 127 => ⟨S1024x16, .f32⟩
  | _ => ⟨S1024x16x2048, .f32⟩

abbrev hbmTy0_5 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S_, .i32⟩
  | 11 => ⟨S1, .i32⟩
  | 12 => ⟨S1024x16x16, .f32⟩
  | 13 => ⟨S1024x1, .f32⟩
  | 14 => ⟨S1024, .f32⟩
  | 15 => ⟨S1024, .f32⟩
  | 16 => ⟨S1024x1, .f32⟩
  | 17 => ⟨S1024, .f32⟩
  | 18 => ⟨S1024x1, .f32⟩
  | 19 => ⟨S1024x1x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S_, .i32⟩
  | 32 => ⟨S1, .i32⟩
  | 33 => ⟨S1024x16x16, .f32⟩
  | 34 => ⟨S1024x1, .f32⟩
  | 35 => ⟨S1024, .f32⟩
  | 36 => ⟨S1024, .f32⟩
  | 37 => ⟨S1024x1, .f32⟩
  | 38 => ⟨S1024, .f32⟩
  | 39 => ⟨S1024x1, .f32⟩
  | 40 => ⟨S1024x1x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S_, .i32⟩
  | 53 => ⟨S1, .i32⟩
  | 54 => ⟨S1024x16x16, .f32⟩
  | 55 => ⟨S1024x1, .f32⟩
  | 56 => ⟨S1024, .f32⟩
  | 57 => ⟨S1024, .f32⟩
  | 58 => ⟨S1024x1, .f32⟩
  | 59 => ⟨S1024, .f32⟩
  | 60 => ⟨S1024x1, .f32⟩
  | 61 => ⟨S1024x1x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S_, .i32⟩
  | 74 => ⟨S1, .i32⟩
  | 75 => ⟨S1024x16x16, .f32⟩
  | 76 => ⟨S1024x1, .f32⟩
  | 77 => ⟨S1024, .f32⟩
  | 78 => ⟨S1024, .f32⟩
  | 79 => ⟨S1024x1, .f32⟩
  | 80 => ⟨S1024, .f32⟩
  | 81 => ⟨S1024x1, .f32⟩
  | 82 => ⟨S1024x1x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S_, .i32⟩
  | 95 => ⟨S1, .i32⟩
  | 96 => ⟨S1024x16x16, .f32⟩
  | 97 => ⟨S1024x1, .f32⟩
  | 98 => ⟨S1024, .f32⟩
  | 99 => ⟨S1024, .f32⟩
  | 100 => ⟨S1024x1, .f32⟩
  | 101 => ⟨S1024, .f32⟩
  | 102 => ⟨S1024x1, .f32⟩
  | 103 => ⟨S1024x1x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S_, .i32⟩
  | 116 => ⟨S1, .i32⟩
  | 117 => ⟨S1024x16x16, .f32⟩
  | 118 => ⟨S1024x1, .f32⟩
  | 119 => ⟨S1024, .f32⟩
  | 120 => ⟨S1024, .f32⟩
  | 121 => ⟨S1024x1, .f32⟩
  | 122 => ⟨S1024, .f32⟩
  | 123 => ⟨S1024x1, .f32⟩
  | 124 => ⟨S1024x1x16, .f32⟩
  | 125 => ⟨S1024x16, .f32⟩
  | 126 => ⟨S1024x16, .f32⟩
  | 127 => ⟨S1024x16, .f32⟩
  | _ => ⟨S1024x16x2048, .f32⟩

abbrev hbmTy0_6 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S_, .i32⟩
  | 9 => ⟨S1, .i32⟩
  | 10 => ⟨S1024x16x16, .f32⟩
  | 11 => ⟨S1024x1, .f32⟩
  | 12 => ⟨S1024, .f32⟩
  | 13 => ⟨S1024, .f32⟩
  | 14 => ⟨S1024x1, .f32⟩
  | 15 => ⟨S1024, .f32⟩
  | 16 => ⟨S1024x1, .f32⟩
  | 17 => ⟨S1024x1x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S_, .i32⟩
  | 30 => ⟨S1, .i32⟩
  | 31 => ⟨S1024x16x16, .f32⟩
  | 32 => ⟨S1024x1, .f32⟩
  | 33 => ⟨S1024, .f32⟩
  | 34 => ⟨S1024, .f32⟩
  | 35 => ⟨S1024x1, .f32⟩
  | 36 => ⟨S1024, .f32⟩
  | 37 => ⟨S1024x1, .f32⟩
  | 38 => ⟨S1024x1x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S_, .i32⟩
  | 51 => ⟨S1, .i32⟩
  | 52 => ⟨S1024x16x16, .f32⟩
  | 53 => ⟨S1024x1, .f32⟩
  | 54 => ⟨S1024, .f32⟩
  | 55 => ⟨S1024, .f32⟩
  | 56 => ⟨S1024x1, .f32⟩
  | 57 => ⟨S1024, .f32⟩
  | 58 => ⟨S1024x1, .f32⟩
  | 59 => ⟨S1024x1x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S_, .i32⟩
  | 72 => ⟨S1, .i32⟩
  | 73 => ⟨S1024x16x16, .f32⟩
  | 74 => ⟨S1024x1, .f32⟩
  | 75 => ⟨S1024, .f32⟩
  | 76 => ⟨S1024, .f32⟩
  | 77 => ⟨S1024x1, .f32⟩
  | 78 => ⟨S1024, .f32⟩
  | 79 => ⟨S1024x1, .f32⟩
  | 80 => ⟨S1024x1x16, .f32⟩
  | 81 => ⟨S1024x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S_, .i32⟩
  | 93 => ⟨S1, .i32⟩
  | 94 => ⟨S1024x16x16, .f32⟩
  | 95 => ⟨S1024x1, .f32⟩
  | 96 => ⟨S1024, .f32⟩
  | 97 => ⟨S1024, .f32⟩
  | 98 => ⟨S1024x1, .f32⟩
  | 99 => ⟨S1024, .f32⟩
  | 100 => ⟨S1024x1, .f32⟩
  | 101 => ⟨S1024x1x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S_, .i32⟩
  | 114 => ⟨S1, .i32⟩
  | 115 => ⟨S1024x16x16, .f32⟩
  | 116 => ⟨S1024x1, .f32⟩
  | 117 => ⟨S1024, .f32⟩
  | 118 => ⟨S1024, .f32⟩
  | 119 => ⟨S1024x1, .f32⟩
  | 120 => ⟨S1024, .f32⟩
  | 121 => ⟨S1024x1, .f32⟩
  | 122 => ⟨S1024x1x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_7 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S_, .i32⟩
  | 7 => ⟨S1, .i32⟩
  | 8 => ⟨S1024x16x16, .f32⟩
  | 9 => ⟨S_, .i32⟩
  | 10 => ⟨S1, .i32⟩
  | 11 => ⟨S1024x16x16, .f32⟩
  | 12 => ⟨S1024x1x16, .f32⟩
  | 13 => ⟨S1024x16, .f32⟩
  | 14 => ⟨S1024x1, .f32⟩
  | 15 => ⟨S1024, .f32⟩
  | 16 => ⟨S1024, .f32⟩
  | 17 => ⟨S1024x1, .f32⟩
  | 18 => ⟨S1024, .f32⟩
  | 19 => ⟨S1024x1, .f32⟩
  | 20 => ⟨S1024x1x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S_, .i32⟩
  | 33 => ⟨S1, .i32⟩
  | 34 => ⟨S1024x16x16, .f32⟩
  | 35 => ⟨S1024x1, .f32⟩
  | 36 => ⟨S1024, .f32⟩
  | 37 => ⟨S1024, .f32⟩
  | 38 => ⟨S1024x1, .f32⟩
  | 39 => ⟨S1024, .f32⟩
  | 40 => ⟨S1024x1, .f32⟩
  | 41 => ⟨S1024x1x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S_, .i32⟩
  | 54 => ⟨S1, .i32⟩
  | 55 => ⟨S1024x16x16, .f32⟩
  | 56 => ⟨S1024x1, .f32⟩
  | 57 => ⟨S1024, .f32⟩
  | 58 => ⟨S1024, .f32⟩
  | 59 => ⟨S1024x1, .f32⟩
  | 60 => ⟨S1024, .f32⟩
  | 61 => ⟨S1024x1, .f32⟩
  | 62 => ⟨S1024x1x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S_, .i32⟩
  | 75 => ⟨S1, .i32⟩
  | 76 => ⟨S1024x16x16, .f32⟩
  | 77 => ⟨S1024x1, .f32⟩
  | 78 => ⟨S1024, .f32⟩
  | 79 => ⟨S1024, .f32⟩
  | 80 => ⟨S1024x1, .f32⟩
  | 81 => ⟨S1024, .f32⟩
  | 82 => ⟨S1024x1, .f32⟩
  | 83 => ⟨S1024x1x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S_, .i32⟩
  | 96 => ⟨S1, .i32⟩
  | 97 => ⟨S1024x16x16, .f32⟩
  | 98 => ⟨S1024x1, .f32⟩
  | 99 => ⟨S1024, .f32⟩
  | 100 => ⟨S1024, .f32⟩
  | 101 => ⟨S1024x1, .f32⟩
  | 102 => ⟨S1024, .f32⟩
  | 103 => ⟨S1024x1, .f32⟩
  | 104 => ⟨S1024x1x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S_, .i32⟩
  | 117 => ⟨S1, .i32⟩
  | 118 => ⟨S1024x16x16, .f32⟩
  | 119 => ⟨S1024x1, .f32⟩
  | 120 => ⟨S1024, .f32⟩
  | 121 => ⟨S1024, .f32⟩
  | 122 => ⟨S1024x1, .f32⟩
  | 123 => ⟨S1024, .f32⟩
  | 124 => ⟨S1024x1, .f32⟩
  | 125 => ⟨S1024x1x16, .f32⟩
  | 126 => ⟨S1024x16, .f32⟩
  | 127 => ⟨S1024x16, .f32⟩
  | _ => ⟨S1024x16x2048, .f32⟩

abbrev hbmTy0_8 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S_, .i32⟩
  | 10 => ⟨S1, .i32⟩
  | 11 => ⟨S1024x16x16, .f32⟩
  | 12 => ⟨S1024x1, .f32⟩
  | 13 => ⟨S1024, .f32⟩
  | 14 => ⟨S1024, .f32⟩
  | 15 => ⟨S1024x1, .f32⟩
  | 16 => ⟨S1024, .f32⟩
  | 17 => ⟨S1024x1, .f32⟩
  | 18 => ⟨S1024x1x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S_, .i32⟩
  | 31 => ⟨S1, .i32⟩
  | 32 => ⟨S1024x16x16, .f32⟩
  | 33 => ⟨S1024x1, .f32⟩
  | 34 => ⟨S1024, .f32⟩
  | 35 => ⟨S1024, .f32⟩
  | 36 => ⟨S1024x1, .f32⟩
  | 37 => ⟨S1024, .f32⟩
  | 38 => ⟨S1024x1, .f32⟩
  | 39 => ⟨S1024x1x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S_, .i32⟩
  | 52 => ⟨S1, .i32⟩
  | 53 => ⟨S1024x16x16, .f32⟩
  | 54 => ⟨S1024x1, .f32⟩
  | 55 => ⟨S1024, .f32⟩
  | 56 => ⟨S1024, .f32⟩
  | 57 => ⟨S1024x1, .f32⟩
  | 58 => ⟨S1024, .f32⟩
  | 59 => ⟨S1024x1, .f32⟩
  | 60 => ⟨S1024x1x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S_, .i32⟩
  | 73 => ⟨S1, .i32⟩
  | 74 => ⟨S1024x16x16, .f32⟩
  | 75 => ⟨S1024x1, .f32⟩
  | 76 => ⟨S1024, .f32⟩
  | 77 => ⟨S1024, .f32⟩
  | 78 => ⟨S1024x1, .f32⟩
  | 79 => ⟨S1024, .f32⟩
  | 80 => ⟨S1024x1, .f32⟩
  | 81 => ⟨S1024x1x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S_, .i32⟩
  | 94 => ⟨S1, .i32⟩
  | 95 => ⟨S1024x16x16, .f32⟩
  | 96 => ⟨S1024x1, .f32⟩
  | 97 => ⟨S1024, .f32⟩
  | 98 => ⟨S1024, .f32⟩
  | 99 => ⟨S1024x1, .f32⟩
  | 100 => ⟨S1024, .f32⟩
  | 101 => ⟨S1024x1, .f32⟩
  | 102 => ⟨S1024x1x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S_, .i32⟩
  | 115 => ⟨S1, .i32⟩
  | 116 => ⟨S1024x16x16, .f32⟩
  | 117 => ⟨S1024x1, .f32⟩
  | 118 => ⟨S1024, .f32⟩
  | 119 => ⟨S1024, .f32⟩
  | 120 => ⟨S1024x1, .f32⟩
  | 121 => ⟨S1024, .f32⟩
  | 122 => ⟨S1024x1, .f32⟩
  | 123 => ⟨S1024x1x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_9 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S_, .i32⟩
  | 8 => ⟨S1, .i32⟩
  | 9 => ⟨S1024x16x16, .f32⟩
  | 10 => ⟨S_, .i32⟩
  | 11 => ⟨S1, .i32⟩
  | 12 => ⟨S1024x16x16, .f32⟩
  | 13 => ⟨S1024x1x16, .f32⟩
  | 14 => ⟨S1024x16, .f32⟩
  | 15 => ⟨S1024x1, .f32⟩
  | 16 => ⟨S1024, .f32⟩
  | 17 => ⟨S1024, .f32⟩
  | 18 => ⟨S1024x1, .f32⟩
  | 19 => ⟨S1024, .f32⟩
  | 20 => ⟨S1024x1, .f32⟩
  | 21 => ⟨S1024x1x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S_, .i32⟩
  | 34 => ⟨S1, .i32⟩
  | 35 => ⟨S1024x16x16, .f32⟩
  | 36 => ⟨S1024x1, .f32⟩
  | 37 => ⟨S1024, .f32⟩
  | 38 => ⟨S1024, .f32⟩
  | 39 => ⟨S1024x1, .f32⟩
  | 40 => ⟨S1024, .f32⟩
  | 41 => ⟨S1024x1, .f32⟩
  | 42 => ⟨S1024x1x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S_, .i32⟩
  | 55 => ⟨S1, .i32⟩
  | 56 => ⟨S1024x16x16, .f32⟩
  | 57 => ⟨S1024x1, .f32⟩
  | 58 => ⟨S1024, .f32⟩
  | 59 => ⟨S1024, .f32⟩
  | 60 => ⟨S1024x1, .f32⟩
  | 61 => ⟨S1024, .f32⟩
  | 62 => ⟨S1024x1, .f32⟩
  | 63 => ⟨S1024x1x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S_, .i32⟩
  | 76 => ⟨S1, .i32⟩
  | 77 => ⟨S1024x16x16, .f32⟩
  | 78 => ⟨S1024x1, .f32⟩
  | 79 => ⟨S1024, .f32⟩
  | 80 => ⟨S1024, .f32⟩
  | 81 => ⟨S1024x1, .f32⟩
  | 82 => ⟨S1024, .f32⟩
  | 83 => ⟨S1024x1, .f32⟩
  | 84 => ⟨S1024x1x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S_, .i32⟩
  | 97 => ⟨S1, .i32⟩
  | 98 => ⟨S1024x16x16, .f32⟩
  | 99 => ⟨S1024x1, .f32⟩
  | 100 => ⟨S1024, .f32⟩
  | 101 => ⟨S1024, .f32⟩
  | 102 => ⟨S1024x1, .f32⟩
  | 103 => ⟨S1024, .f32⟩
  | 104 => ⟨S1024x1, .f32⟩
  | 105 => ⟨S1024x1x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S_, .i32⟩
  | 118 => ⟨S1, .i32⟩
  | 119 => ⟨S1024x16x16, .f32⟩
  | 120 => ⟨S1024x1, .f32⟩
  | 121 => ⟨S1024, .f32⟩
  | 122 => ⟨S1024, .f32⟩
  | 123 => ⟨S1024x1, .f32⟩
  | 124 => ⟨S1024, .f32⟩
  | 125 => ⟨S1024x1, .f32⟩
  | 126 => ⟨S1024x1x16, .f32⟩
  | 127 => ⟨S1024x16, .f32⟩
  | _ => ⟨S1024x16x2048, .f32⟩

abbrev hbmTy0_10 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S_, .i32⟩
  | 11 => ⟨S1, .i32⟩
  | 12 => ⟨S1024x16x16, .f32⟩
  | 13 => ⟨S1024x1, .f32⟩
  | 14 => ⟨S1024, .f32⟩
  | 15 => ⟨S1024, .f32⟩
  | 16 => ⟨S1024x1, .f32⟩
  | 17 => ⟨S1024, .f32⟩
  | 18 => ⟨S1024x1, .f32⟩
  | 19 => ⟨S1024x1x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S_, .i32⟩
  | 32 => ⟨S1, .i32⟩
  | 33 => ⟨S1024x16x16, .f32⟩
  | 34 => ⟨S1024x1, .f32⟩
  | 35 => ⟨S1024, .f32⟩
  | 36 => ⟨S1024, .f32⟩
  | 37 => ⟨S1024x1, .f32⟩
  | 38 => ⟨S1024, .f32⟩
  | 39 => ⟨S1024x1, .f32⟩
  | 40 => ⟨S1024x1x16, .f32⟩
  | 41 => ⟨S1024x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S_, .i32⟩
  | 53 => ⟨S1, .i32⟩
  | 54 => ⟨S1024x16x16, .f32⟩
  | 55 => ⟨S1024x1, .f32⟩
  | 56 => ⟨S1024, .f32⟩
  | 57 => ⟨S1024, .f32⟩
  | 58 => ⟨S1024x1, .f32⟩
  | 59 => ⟨S1024, .f32⟩
  | 60 => ⟨S1024x1, .f32⟩
  | 61 => ⟨S1024x1x16, .f32⟩
  | 62 => ⟨S1024x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S_, .i32⟩
  | 74 => ⟨S1, .i32⟩
  | 75 => ⟨S1024x16x16, .f32⟩
  | 76 => ⟨S1024x1, .f32⟩
  | 77 => ⟨S1024, .f32⟩
  | 78 => ⟨S1024, .f32⟩
  | 79 => ⟨S1024x1, .f32⟩
  | 80 => ⟨S1024, .f32⟩
  | 81 => ⟨S1024x1, .f32⟩
  | 82 => ⟨S1024x1x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S_, .i32⟩
  | 95 => ⟨S1, .i32⟩
  | 96 => ⟨S1024x16x16, .f32⟩
  | 97 => ⟨S1024x1, .f32⟩
  | 98 => ⟨S1024, .f32⟩
  | 99 => ⟨S1024, .f32⟩
  | 100 => ⟨S1024x1, .f32⟩
  | 101 => ⟨S1024, .f32⟩
  | 102 => ⟨S1024x1, .f32⟩
  | 103 => ⟨S1024x1x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S_, .i32⟩
  | 116 => ⟨S1, .i32⟩
  | 117 => ⟨S1024x16x16, .f32⟩
  | 118 => ⟨S_, .i32⟩
  | 119 => ⟨S1, .i32⟩
  | 120 => ⟨S1024x16x16, .f32⟩
  | 121 => ⟨S1024x1x16, .f32⟩
  | 122 => ⟨S1024x16, .f32⟩
  | 123 => ⟨S1024x1, .f32⟩
  | 124 => ⟨S1024, .f32⟩
  | 125 => ⟨S1024, .f32⟩
  | 126 => ⟨S1024x1, .f32⟩
  | 127 => ⟨S1024, .f32⟩
  | _ => ⟨S1024x16x2048, .f32⟩

abbrev hbmTy0_11 (i : Nat) : BufTy := match i % 128 with
  | 0 => ⟨S1024x1, .f32⟩
  | 1 => ⟨S1024x1x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S_, .i32⟩
  | 14 => ⟨S1, .i32⟩
  | 15 => ⟨S1024x16x16, .f32⟩
  | 16 => ⟨S1024x1, .f32⟩
  | 17 => ⟨S1024, .f32⟩
  | 18 => ⟨S1024, .f32⟩
  | 19 => ⟨S1024x1, .f32⟩
  | 20 => ⟨S1024, .f32⟩
  | 21 => ⟨S1024x1, .f32⟩
  | 22 => ⟨S1024x1x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S_, .i32⟩
  | 35 => ⟨S1, .i32⟩
  | 36 => ⟨S1024x16x16, .f32⟩
  | 37 => ⟨S1024x1, .f32⟩
  | 38 => ⟨S1024, .f32⟩
  | 39 => ⟨S1024, .f32⟩
  | 40 => ⟨S1024x1, .f32⟩
  | 41 => ⟨S1024, .f32⟩
  | 42 => ⟨S1024x1, .f32⟩
  | 43 => ⟨S1024x1x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S_, .i32⟩
  | 56 => ⟨S1, .i32⟩
  | 57 => ⟨S1024x16x16, .f32⟩
  | 58 => ⟨S1024x1, .f32⟩
  | 59 => ⟨S1024, .f32⟩
  | 60 => ⟨S1024, .f32⟩
  | 61 => ⟨S1024x1, .f32⟩
  | 62 => ⟨S1024, .f32⟩
  | 63 => ⟨S1024x1, .f32⟩
  | 64 => ⟨S1024x1x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S1024x16, .f32⟩
  | 76 => ⟨S_, .i32⟩
  | 77 => ⟨S1, .i32⟩
  | 78 => ⟨S1024x16x16, .f32⟩
  | 79 => ⟨S1024x1, .f32⟩
  | 80 => ⟨S1024, .f32⟩
  | 81 => ⟨S1024, .f32⟩
  | 82 => ⟨S1024x1, .f32⟩
  | 83 => ⟨S1024, .f32⟩
  | 84 => ⟨S1024x1, .f32⟩
  | 85 => ⟨S1024x1x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S1024x16, .f32⟩
  | 97 => ⟨S_, .i32⟩
  | 98 => ⟨S1, .i32⟩
  | 99 => ⟨S1024x16x16, .f32⟩
  | 100 => ⟨S1024x1, .f32⟩
  | 101 => ⟨S1024, .f32⟩
  | 102 => ⟨S1024, .f32⟩
  | 103 => ⟨S1024x1, .f32⟩
  | 104 => ⟨S1024, .f32⟩
  | 105 => ⟨S1024x1, .f32⟩
  | 106 => ⟨S1024x1x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S_, .i32⟩
  | 119 => ⟨S1, .i32⟩
  | 120 => ⟨S1024x16x16, .f32⟩
  | 121 => ⟨S1024x1, .f32⟩
  | 122 => ⟨S1024, .f32⟩
  | 123 => ⟨S1024, .f32⟩
  | 124 => ⟨S1024x1, .f32⟩
  | 125 => ⟨S1024, .f32⟩
  | 126 => ⟨S1024x1, .f32⟩
  | 127 => ⟨S1024x1x16, .f32⟩
  | _ => ⟨S1024x16x2048, .f32⟩

abbrev hbmTy0_12 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S_, .i32⟩
  | 12 => ⟨S1, .i32⟩
  | 13 => ⟨S1024x16x16, .f32⟩
  | 14 => ⟨S1024x1, .f32⟩
  | 15 => ⟨S1024, .f32⟩
  | 16 => ⟨S1024, .f32⟩
  | 17 => ⟨S1024x1, .f32⟩
  | 18 => ⟨S1024, .f32⟩
  | 19 => ⟨S1024x1, .f32⟩
  | 20 => ⟨S1024x1x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S_, .i32⟩
  | 33 => ⟨S1, .i32⟩
  | 34 => ⟨S1024x16x16, .f32⟩
  | 35 => ⟨S1024x1, .f32⟩
  | 36 => ⟨S1024, .f32⟩
  | 37 => ⟨S1024, .f32⟩
  | 38 => ⟨S1024x1, .f32⟩
  | 39 => ⟨S1024, .f32⟩
  | 40 => ⟨S1024x1, .f32⟩
  | 41 => ⟨S1024x1x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S_, .i32⟩
  | 54 => ⟨S1, .i32⟩
  | 55 => ⟨S1024x16x16, .f32⟩
  | 56 => ⟨S1024x1, .f32⟩
  | 57 => ⟨S1024, .f32⟩
  | 58 => ⟨S1024, .f32⟩
  | 59 => ⟨S1024x1, .f32⟩
  | 60 => ⟨S1024, .f32⟩
  | 61 => ⟨S1024x1, .f32⟩
  | 62 => ⟨S1024x1x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S_, .i32⟩
  | 75 => ⟨S1, .i32⟩
  | 76 => ⟨S1024x16x16, .f32⟩
  | 77 => ⟨S_, .i32⟩
  | 78 => ⟨S1, .i32⟩
  | 79 => ⟨S1024x16x16, .f32⟩
  | 80 => ⟨S1024x1x16, .f32⟩
  | 81 => ⟨S1024x16, .f32⟩
  | 82 => ⟨S1024x1, .f32⟩
  | 83 => ⟨S1024, .f32⟩
  | 84 => ⟨S1024, .f32⟩
  | 85 => ⟨S1024x1, .f32⟩
  | 86 => ⟨S1024, .f32⟩
  | 87 => ⟨S1024x1, .f32⟩
  | 88 => ⟨S1024x1x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S1024x16, .f32⟩
  | 97 => ⟨S1024x16, .f32⟩
  | 98 => ⟨S1024x16, .f32⟩
  | 99 => ⟨S1024x16, .f32⟩
  | 100 => ⟨S_, .i32⟩
  | 101 => ⟨S1, .i32⟩
  | 102 => ⟨S1024x16x16, .f32⟩
  | 103 => ⟨S1024x1, .f32⟩
  | 104 => ⟨S1024, .f32⟩
  | 105 => ⟨S1024, .f32⟩
  | 106 => ⟨S1024x1, .f32⟩
  | 107 => ⟨S1024, .f32⟩
  | 108 => ⟨S1024x1, .f32⟩
  | 109 => ⟨S1024x1x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S1024x16, .f32⟩
  | 120 => ⟨S1024x16, .f32⟩
  | 121 => ⟨S_, .i32⟩
  | 122 => ⟨S1, .i32⟩
  | 123 => ⟨S1024x16x16, .f32⟩
  | 124 => ⟨S1024x1, .f32⟩
  | 125 => ⟨S1024, .f32⟩
  | 126 => ⟨S1024, .f32⟩
  | 127 => ⟨S1024x1, .f32⟩
  | _ => ⟨S1024x16x2048, .f32⟩

abbrev hbmTy0_13 (i : Nat) : BufTy := match i % 128 with
  | 0 => ⟨S1024, .f32⟩
  | 1 => ⟨S1024x1, .f32⟩
  | 2 => ⟨S1024x1x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S1024x16, .f32⟩
  | 14 => ⟨S_, .i32⟩
  | 15 => ⟨S1, .i32⟩
  | 16 => ⟨S1024x16x16, .f32⟩
  | 17 => ⟨S1024x1, .f32⟩
  | 18 => ⟨S1024, .f32⟩
  | 19 => ⟨S1024, .f32⟩
  | 20 => ⟨S1024x1, .f32⟩
  | 21 => ⟨S1024, .f32⟩
  | 22 => ⟨S1024x1, .f32⟩
  | 23 => ⟨S1024x1x16, .f32⟩
  | 24 => ⟨S1024x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S_, .i32⟩
  | 36 => ⟨S1, .i32⟩
  | 37 => ⟨S1024x16x16, .f32⟩
  | 38 => ⟨S1024x1, .f32⟩
  | 39 => ⟨S1024, .f32⟩
  | 40 => ⟨S1024, .f32⟩
  | 41 => ⟨S1024x1, .f32⟩
  | 42 => ⟨S1024, .f32⟩
  | 43 => ⟨S1024x1, .f32⟩
  | 44 => ⟨S1024x1x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S1024x16, .f32⟩
  | 56 => ⟨S_, .i32⟩
  | 57 => ⟨S1, .i32⟩
  | 58 => ⟨S1024x16x16, .f32⟩
  | 59 => ⟨S1024x1, .f32⟩
  | 60 => ⟨S1024, .f32⟩
  | 61 => ⟨S1024, .f32⟩
  | 62 => ⟨S1024x1, .f32⟩
  | 63 => ⟨S1024, .f32⟩
  | 64 => ⟨S1024x1, .f32⟩
  | 65 => ⟨S1024x1x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S1024x16, .f32⟩
  | 76 => ⟨S1024x16, .f32⟩
  | 77 => ⟨S_, .i32⟩
  | 78 => ⟨S1, .i32⟩
  | 79 => ⟨S1024x16x16, .f32⟩
  | 80 => ⟨S1024x1, .f32⟩
  | 81 => ⟨S1024, .f32⟩
  | 82 => ⟨S1024, .f32⟩
  | 83 => ⟨S1024x1, .f32⟩
  | 84 => ⟨S1024, .f32⟩
  | 85 => ⟨S1024x1, .f32⟩
  | 86 => ⟨S1024x1x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S1024x16, .f32⟩
  | 97 => ⟨S1024x16, .f32⟩
  | 98 => ⟨S_, .i32⟩
  | 99 => ⟨S1, .i32⟩
  | 100 => ⟨S1024x16x16, .f32⟩
  | 101 => ⟨S1024x1, .f32⟩
  | 102 => ⟨S1024, .f32⟩
  | 103 => ⟨S1024, .f32⟩
  | 104 => ⟨S1024x1, .f32⟩
  | 105 => ⟨S1024, .f32⟩
  | 106 => ⟨S1024x1, .f32⟩
  | 107 => ⟨S1024x1x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S_, .i32⟩
  | 120 => ⟨S1, .i32⟩
  | 121 => ⟨S1024x16x16, .f32⟩
  | 122 => ⟨S1024x1, .f32⟩
  | 123 => ⟨S1024, .f32⟩
  | 124 => ⟨S1024, .f32⟩
  | 125 => ⟨S1024x1, .f32⟩
  | 126 => ⟨S1024, .f32⟩
  | 127 => ⟨S1024x1, .f32⟩
  | _ => ⟨S1024x16x2048, .f32⟩

abbrev hbmTy0_14 (i : Nat) : BufTy := match i % 128 with
  | 0 => ⟨S1024x1x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S_, .i32⟩
  | 13 => ⟨S1, .i32⟩
  | 14 => ⟨S1024x16x16, .f32⟩
  | 15 => ⟨S_, .i32⟩
  | 16 => ⟨S1, .i32⟩
  | 17 => ⟨S1024x16x16, .f32⟩
  | 18 => ⟨S1024x1x16, .f32⟩
  | 19 => ⟨S1024x16, .f32⟩
  | 20 => ⟨S1024x1, .f32⟩
  | 21 => ⟨S1024, .f32⟩
  | 22 => ⟨S1024, .f32⟩
  | 23 => ⟨S1024x1, .f32⟩
  | 24 => ⟨S1024, .f32⟩
  | 25 => ⟨S1024x1, .f32⟩
  | 26 => ⟨S1024x1x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S1024x16, .f32⟩
  | 37 => ⟨S1024x16, .f32⟩
  | 38 => ⟨S_, .i32⟩
  | 39 => ⟨S1, .i32⟩
  | 40 => ⟨S1024x16x16, .f32⟩
  | 41 => ⟨S1024x1, .f32⟩
  | 42 => ⟨S1024, .f32⟩
  | 43 => ⟨S1024, .f32⟩
  | 44 => ⟨S1024x1, .f32⟩
  | 45 => ⟨S1024, .f32⟩
  | 46 => ⟨S1024x1, .f32⟩
  | 47 => ⟨S1024x1x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S1024x16, .f32⟩
  | 56 => ⟨S1024x16, .f32⟩
  | 57 => ⟨S1024x16, .f32⟩
  | 58 => ⟨S1024x16, .f32⟩
  | 59 => ⟨S_, .i32⟩
  | 60 => ⟨S1, .i32⟩
  | 61 => ⟨S1024x16x16, .f32⟩
  | 62 => ⟨S1024x1, .f32⟩
  | 63 => ⟨S1024, .f32⟩
  | 64 => ⟨S1024, .f32⟩
  | 65 => ⟨S1024x1, .f32⟩
  | 66 => ⟨S1024, .f32⟩
  | 67 => ⟨S1024x1, .f32⟩
  | 68 => ⟨S1024x1x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S1024x16, .f32⟩
  | 76 => ⟨S1024x16, .f32⟩
  | 77 => ⟨S1024x16, .f32⟩
  | 78 => ⟨S1024x16, .f32⟩
  | 79 => ⟨S1024x16, .f32⟩
  | 80 => ⟨S_, .i32⟩
  | 81 => ⟨S1, .i32⟩
  | 82 => ⟨S1024x16x16, .f32⟩
  | 83 => ⟨S1024x1, .f32⟩
  | 84 => ⟨S1024, .f32⟩
  | 85 => ⟨S1024, .f32⟩
  | 86 => ⟨S1024x1, .f32⟩
  | 87 => ⟨S1024, .f32⟩
  | 88 => ⟨S1024x1, .f32⟩
  | 89 => ⟨S1024x1x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S1024x16, .f32⟩
  | 96 => ⟨S1024x16, .f32⟩
  | 97 => ⟨S1024x16, .f32⟩
  | 98 => ⟨S1024x16, .f32⟩
  | 99 => ⟨S1024x16, .f32⟩
  | 100 => ⟨S1024x16, .f32⟩
  | 101 => ⟨S_, .i32⟩
  | 102 => ⟨S1, .i32⟩
  | 103 => ⟨S1024x16x16, .f32⟩
  | 104 => ⟨S1024x1, .f32⟩
  | 105 => ⟨S1024, .f32⟩
  | 106 => ⟨S1024, .f32⟩
  | 107 => ⟨S1024x1, .f32⟩
  | 108 => ⟨S1024, .f32⟩
  | 109 => ⟨S1024x1, .f32⟩
  | 110 => ⟨S1024x1x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S1024x16, .f32⟩
  | 120 => ⟨S1024x16, .f32⟩
  | 121 => ⟨S1024x16, .f32⟩
  | 122 => ⟨S_, .i32⟩
  | 123 => ⟨S1, .i32⟩
  | 124 => ⟨S1024x16x16, .f32⟩
  | 125 => ⟨S1024x1, .f32⟩
  | 126 => ⟨S1024, .f32⟩
  | 127 => ⟨S1024, .f32⟩
  | _ => ⟨S1024x16x2048, .f32⟩

abbrev hbmTy0_15 (i : Nat) : BufTy := match i % 128 with
  | 0 => ⟨S1024x1, .f32⟩
  | 1 => ⟨S1024, .f32⟩
  | 2 => ⟨S1024x1, .f32⟩
  | 3 => ⟨S1024x1x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S1024x16, .f32⟩
  | 14 => ⟨S1024x16, .f32⟩
  | 15 => ⟨S_, .i32⟩
  | 16 => ⟨S1, .i32⟩
  | 17 => ⟨S1024x16x16, .f32⟩
  | 18 => ⟨S1024x1, .f32⟩
  | 19 => ⟨S1024, .f32⟩
  | 20 => ⟨S1024, .f32⟩
  | 21 => ⟨S1024x1, .f32⟩
  | 22 => ⟨S1024, .f32⟩
  | 23 => ⟨S1024x1, .f32⟩
  | 24 => ⟨S1024x1x16, .f32⟩
  | 25 => ⟨S1024x16, .f32⟩
  | 26 => ⟨S1024x16, .f32⟩
  | 27 => ⟨S1024x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S_, .i32⟩
  | 37 => ⟨S1, .i32⟩
  | 38 => ⟨S1024x16x16, .f32⟩
  | 39 => ⟨S1024x1, .f32⟩
  | 40 => ⟨S1024, .f32⟩
  | 41 => ⟨S1024, .f32⟩
  | 42 => ⟨S1024x1, .f32⟩
  | 43 => ⟨S1024, .f32⟩
  | 44 => ⟨S1024x1, .f32⟩
  | 45 => ⟨S1024x1x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S1024x16, .f32⟩
  | 56 => ⟨S1024x16, .f32⟩
  | 57 => ⟨S_, .i32⟩
  | 58 => ⟨S1, .i32⟩
  | 59 => ⟨S1024x16x16, .f32⟩
  | 60 => ⟨S_, .i32⟩
  | 61 => ⟨S1, .i32⟩
  | 62 => ⟨S1024x16x16, .f32⟩
  | 63 => ⟨S1024x1x16, .f32⟩
  | 64 => ⟨S1024x16, .f32⟩
  | 65 => ⟨S1024x1, .f32⟩
  | 66 => ⟨S1024, .f32⟩
  | 67 => ⟨S1024, .f32⟩
  | 68 => ⟨S1024x1, .f32⟩
  | 69 => ⟨S1024, .f32⟩
  | 70 => ⟨S1024x1, .f32⟩
  | 71 => ⟨S1024x1x16, .f32⟩
  | 72 => ⟨S1024x16, .f32⟩
  | 73 => ⟨S1024x16, .f32⟩
  | 74 => ⟨S1024x16, .f32⟩
  | 75 => ⟨S1024x16, .f32⟩
  | 76 => ⟨S1024x16, .f32⟩
  | 77 => ⟨S1024x16, .f32⟩
  | 78 => ⟨S1024x16, .f32⟩
  | 79 => ⟨S1024x16, .f32⟩
  | 80 => ⟨S1024x16, .f32⟩
  | 81 => ⟨S1024x16, .f32⟩
  | 82 => ⟨S1024x16, .f32⟩
  | 83 => ⟨S_, .i32⟩
  | 84 => ⟨S1, .i32⟩
  | 85 => ⟨S1024x16x16, .f32⟩
  | 86 => ⟨S1024x1, .f32⟩
  | 87 => ⟨S1024, .f32⟩
  | 88 => ⟨S1024, .f32⟩
  | 89 => ⟨S1024x1, .f32⟩
  | 90 => ⟨S1024, .f32⟩
  | 91 => ⟨S1024x1, .f32⟩
  | 92 => ⟨S1024x1x16, .f32⟩
  | 93 => ⟨S1024x16, .f32⟩
  | 94 => ⟨S1024x16, .f32⟩
  | 95 => ⟨S1024x16, .f32⟩
  | 96 => ⟨S1024x16, .f32⟩
  | 97 => ⟨S1024x16, .f32⟩
  | 98 => ⟨S1024x16, .f32⟩
  | 99 => ⟨S1024x16, .f32⟩
  | 100 => ⟨S1024x16, .f32⟩
  | 101 => ⟨S1024x16, .f32⟩
  | 102 => ⟨S1024x16, .f32⟩
  | 103 => ⟨S1024x16, .f32⟩
  | 104 => ⟨S_, .i32⟩
  | 105 => ⟨S1, .i32⟩
  | 106 => ⟨S1024x16x16, .f32⟩
  | 107 => ⟨S1024x1, .f32⟩
  | 108 => ⟨S1024, .f32⟩
  | 109 => ⟨S1024, .f32⟩
  | 110 => ⟨S1024x1, .f32⟩
  | 111 => ⟨S1024, .f32⟩
  | 112 => ⟨S1024x1, .f32⟩
  | 113 => ⟨S1024x1x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S1024x16, .f32⟩
  | 120 => ⟨S1024x16, .f32⟩
  | 121 => ⟨S1024x16, .f32⟩
  | 122 => ⟨S1024x16, .f32⟩
  | 123 => ⟨S1024x16, .f32⟩
  | 124 => ⟨S1024x16, .f32⟩
  | 125 => ⟨S_, .i32⟩
  | 126 => ⟨S1, .i32⟩
  | 127 => ⟨S1024x16x16, .f32⟩
  | _ => ⟨S1024x16x2048, .f32⟩

abbrev hbmTy0_16 (i : Nat) : BufTy := match i % 128 with
  | 0 => ⟨S1024x1, .f32⟩
  | 1 => ⟨S1024, .f32⟩
  | 2 => ⟨S1024, .f32⟩
  | 3 => ⟨S1024x1, .f32⟩
  | 4 => ⟨S1024, .f32⟩
  | 5 => ⟨S1024x1, .f32⟩
  | 6 => ⟨S1024x1x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S1024x16, .f32⟩
  | 14 => ⟨S1024x16, .f32⟩
  | 15 => ⟨S1024x16, .f32⟩
  | 16 => ⟨S1024x16, .f32⟩
  | 17 => ⟨S1024x16, .f32⟩
  | 18 => ⟨S_, .i32⟩
  | 19 => ⟨S1, .i32⟩
  | 20 => ⟨S1024x16x16, .f32⟩
  | 21 => ⟨S1024x1, .f32⟩
  | 22 => ⟨S1024, .f32⟩
  | 23 => ⟨S1024, .f32⟩
  | 24 => ⟨S1024x1, .f32⟩
  | 25 => ⟨S1024, .f32⟩
  | 26 => ⟨S1024x1, .f32⟩
  | 27 => ⟨S1024x1x16, .f32⟩
  | 28 => ⟨S1024x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S1024x16, .f32⟩
  | 37 => ⟨S1024x16, .f32⟩
  | 38 => ⟨S1024x16, .f32⟩
  | 39 => ⟨S_, .i32⟩
  | 40 => ⟨S1, .i32⟩
  | 41 => ⟨S1024x16x16, .f32⟩
  | 42 => ⟨S1024x1, .f32⟩
  | 43 => ⟨S1024, .f32⟩
  | 44 => ⟨S1024, .f32⟩
  | 45 => ⟨S1024x1, .f32⟩
  | 46 => ⟨S1024, .f32⟩
  | 47 => ⟨S1024x1, .f32⟩
  | 48 => ⟨S1024x1x16, .f32⟩
  | 49 => ⟨S1024x16, .f32⟩
  | 50 => ⟨S1024x16, .f32⟩
  | 51 => ⟨S1024x16, .f32⟩
  | 52 => ⟨S1024x16, .f32⟩
  | 53 => ⟨S1024x16, .f32⟩
  | 54 => ⟨S1024x16, .f32⟩
  | 55 => ⟨S1024x16, .f32⟩
  | 56 => ⟨S1024x16, .f32⟩
  | 57 => ⟨S1024x16, .f32⟩
  | 58 => ⟨S1024x16, .f32⟩
  | 59 => ⟨S1024x16, .f32⟩
  | 60 => ⟨S_, .i32⟩
  | 61 => ⟨S1, .i32⟩
  | 62 => ⟨S1024x16x16, .f32⟩
  | 63 => ⟨S1024x1, .f32⟩
  | 64 => ⟨S1024, .f32⟩
  | 65 => ⟨S1024, .f32⟩
  | 66 => ⟨S1024x1, .f32⟩
  | 67 => ⟨S1024, .f32⟩
  | 68 => ⟨S1024x1, .f32⟩
  | 69 => ⟨S1024x1x16, .f32⟩
  | 70 => ⟨S1024x16, .f32⟩
  | 71 => ⟨S1024x16, .f32⟩
  | 72 => ⟨S1024x16, .f32⟩
  | 73 => ⟨S1024x16, .f32⟩
  | 74 => ⟨S1024x16, .f32⟩
  | 75 => ⟨S1024x16, .f32⟩
  | 76 => ⟨S1024x16, .f32⟩
  | 77 => ⟨S1024x16, .f32⟩
  | 78 => ⟨S1024x16, .f32⟩
  | 79 => ⟨S1024x16, .f32⟩
  | 80 => ⟨S1024x16, .f32⟩
  | 81 => ⟨S_, .i32⟩
  | 82 => ⟨S1, .i32⟩
  | 83 => ⟨S1024x16x16, .f32⟩
  | 84 => ⟨S_, .i32⟩
  | 85 => ⟨S1, .i32⟩
  | 86 => ⟨S1024x16x16, .f32⟩
  | 87 => ⟨S1024x1x16, .f32⟩
  | 88 => ⟨S1024x16, .f32⟩
  | 89 => ⟨S1024x1, .f32⟩
  | 90 => ⟨S1024, .f32⟩
  | 91 => ⟨S1024, .f32⟩
  | 92 => ⟨S1024x1, .f32⟩
  | 93 => ⟨S1024, .f32⟩
  | 94 => ⟨S1024x1, .f32⟩
  | 95 => ⟨S1024x1x16, .f32⟩
  | 96 => ⟨S1024x16, .f32⟩
  | 97 => ⟨S1024x16, .f32⟩
  | 98 => ⟨S1024x16, .f32⟩
  | 99 => ⟨S1024x16, .f32⟩
  | 100 => ⟨S1024x16, .f32⟩
  | 101 => ⟨S1024x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S_, .i32⟩
  | 108 => ⟨S1, .i32⟩
  | 109 => ⟨S1024x16x16, .f32⟩
  | 110 => ⟨S1024x1, .f32⟩
  | 111 => ⟨S1024, .f32⟩
  | 112 => ⟨S1024, .f32⟩
  | 113 => ⟨S1024x1, .f32⟩
  | 114 => ⟨S1024, .f32⟩
  | 115 => ⟨S1024x1, .f32⟩
  | 116 => ⟨S1024x1x16, .f32⟩
  | 117 => ⟨S1024x16, .f32⟩
  | 118 => ⟨S1024x16, .f32⟩
  | 119 => ⟨S1024x16, .f32⟩
  | 120 => ⟨S1024x16, .f32⟩
  | 121 => ⟨S1024x16, .f32⟩
  | 122 => ⟨S1024x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_17 (i : Nat) : BufTy := match i % 128 with
  | 0 => ⟨S_, .i32⟩
  | 1 => ⟨S1, .i32⟩
  | 2 => ⟨S1024x16x16, .f32⟩
  | 3 => ⟨S1024x1, .f32⟩
  | 4 => ⟨S1024, .f32⟩
  | 5 => ⟨S1024, .f32⟩
  | 6 => ⟨S1024x1, .f32⟩
  | 7 => ⟨S1024, .f32⟩
  | 8 => ⟨S1024x1, .f32⟩
  | 9 => ⟨S1024x1x16, .f32⟩
  | 10 => ⟨S1024x16, .f32⟩
  | 11 => ⟨S1024x16, .f32⟩
  | 12 => ⟨S1024x16, .f32⟩
  | 13 => ⟨S1024x16, .f32⟩
  | 14 => ⟨S1024x16, .f32⟩
  | 15 => ⟨S1024x16, .f32⟩
  | 16 => ⟨S1024x16, .f32⟩
  | 17 => ⟨S1024x16, .f32⟩
  | 18 => ⟨S1024x16, .f32⟩
  | 19 => ⟨S1024x16, .f32⟩
  | 20 => ⟨S1024x16, .f32⟩
  | 21 => ⟨S_, .i32⟩
  | 22 => ⟨S1, .i32⟩
  | 23 => ⟨S1024x16x16, .f32⟩
  | 24 => ⟨S1024x1, .f32⟩
  | 25 => ⟨S1024, .f32⟩
  | 26 => ⟨S1024, .f32⟩
  | 27 => ⟨S1024x1, .f32⟩
  | 28 => ⟨S1024, .f32⟩
  | 29 => ⟨S1024x1, .f32⟩
  | 30 => ⟨S1024x1x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S1024x16, .f32⟩
  | 37 => ⟨S1024x16, .f32⟩
  | 38 => ⟨S1024x16, .f32⟩
  | 39 => ⟨S1024x16, .f32⟩
  | 40 => ⟨S1024x16, .f32⟩
  | 41 => ⟨S1024x16, .f32⟩
  | 42 => ⟨S_, .i32⟩
  | 43 => ⟨S1, .i32⟩
  | 44 => ⟨S1024x16x16, .f32⟩
  | 45 => ⟨S1024x1, .f32⟩
  | 46 => ⟨S1024, .f32⟩
  | 47 => ⟨S1024, .f32⟩
  | 48 => ⟨S1024x1, .f32⟩
  | 49 => ⟨S1024, .f32⟩
  | 50 => ⟨S1024x1, .f32⟩
  | 51 => ⟨S1024x1x16, .f32⟩
  | 52 => ⟨S1024x16, .f32⟩
  | 53 => ⟨S1024x16, .f32⟩
  | 54 => ⟨S1024x16, .f32⟩
  | 55 => ⟨S1024x16, .f32⟩
  | 56 => ⟨S1024x16, .f32⟩
  | 57 => ⟨S1024x16, .f32⟩
  | 58 => ⟨S1024x16, .f32⟩
  | 59 => ⟨S1024x16, .f32⟩
  | 60 => ⟨S1024x16, .f32⟩
  | 61 => ⟨S1024x16, .f32⟩
  | 62 => ⟨S1024x16, .f32⟩
  | 63 => ⟨S_, .i32⟩
  | 64 => ⟨S1, .i32⟩
  | 65 => ⟨S1024x16x16, .f32⟩
  | 66 => ⟨S1024x1, .f32⟩
  | 67 => ⟨S1024, .f32⟩
  | 68 => ⟨S1024, .f32⟩
  | 69 => ⟨S1024x1, .f32⟩
  | 70 => ⟨S1024, .f32⟩
  | 71 => ⟨S1024x1, .f32⟩
  | 72 => ⟨S1024x1x16, .f32⟩
  | 73 => ⟨S1024x16, .f32⟩
  | 74 => ⟨S1024x16, .f32⟩
  | 75 => ⟨S1024x16, .f32⟩
  | 76 => ⟨S1024x16, .f32⟩
  | 77 => ⟨S1024x16, .f32⟩
  | 78 => ⟨S1024x16, .f32⟩
  | 79 => ⟨S1024x16, .f32⟩
  | 80 => ⟨S1024x16, .f32⟩
  | 81 => ⟨S1024x16, .f32⟩
  | 82 => ⟨S1024x16, .f32⟩
  | 83 => ⟨S1024x16, .f32⟩
  | 84 => ⟨S_, .i32⟩
  | 85 => ⟨S1, .i32⟩
  | 86 => ⟨S1024x16x16, .f32⟩
  | 87 => ⟨S_, .i32⟩
  | 88 => ⟨S1, .i32⟩
  | 89 => ⟨S1024x16x16, .f32⟩
  | 90 => ⟨S1024x1x16, .f32⟩
  | 91 => ⟨S1024x16, .f32⟩
  | 92 => ⟨S1024x1, .f32⟩
  | 93 => ⟨S1024, .f32⟩
  | 94 => ⟨S1024, .f32⟩
  | 95 => ⟨S1024x1, .f32⟩
  | 96 => ⟨S1024, .f32⟩
  | 97 => ⟨S1024x1, .f32⟩
  | 98 => ⟨S1024x1x16, .f32⟩
  | 99 => ⟨S1024x16, .f32⟩
  | 100 => ⟨S1024x16, .f32⟩
  | 101 => ⟨S1024x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S_, .i32⟩
  | 111 => ⟨S1, .i32⟩
  | 112 => ⟨S1024x16x16, .f32⟩
  | 113 => ⟨S1024x1, .f32⟩
  | 114 => ⟨S1024, .f32⟩
  | 115 => ⟨S1024, .f32⟩
  | 116 => ⟨S1024x1, .f32⟩
  | 117 => ⟨S1024, .f32⟩
  | 118 => ⟨S1024x1, .f32⟩
  | 119 => ⟨S1024x1x16, .f32⟩
  | 120 => ⟨S1024x16, .f32⟩
  | 121 => ⟨S1024x16, .f32⟩
  | 122 => ⟨S1024x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_18 (i : Nat) : BufTy := match i % 128 with
  | 0 => ⟨S1024x16, .f32⟩
  | 1 => ⟨S1024x16, .f32⟩
  | 2 => ⟨S1024x16, .f32⟩
  | 3 => ⟨S_, .i32⟩
  | 4 => ⟨S1, .i32⟩
  | 5 => ⟨S1024x16x16, .f32⟩
  | 6 => ⟨S1024x1, .f32⟩
  | 7 => ⟨S1024, .f32⟩
  | 8 => ⟨S1024, .f32⟩
  | 9 => ⟨S1024x1, .f32⟩
  | 10 => ⟨S1024, .f32⟩
  | 11 => ⟨S1024x1, .f32⟩
  | 12 => ⟨S1024x1x16, .f32⟩
  | 13 => ⟨S1024x16, .f32⟩
  | 14 => ⟨S1024x16, .f32⟩
  | 15 => ⟨S1024x16, .f32⟩
  | 16 => ⟨S1024x16, .f32⟩
  | 17 => ⟨S1024x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S_, .i32⟩
  | 25 => ⟨S1, .i32⟩
  | 26 => ⟨S1024x16x16, .f32⟩
  | 27 => ⟨S1024x1, .f32⟩
  | 28 => ⟨S1024, .f32⟩
  | 29 => ⟨S1024, .f32⟩
  | 30 => ⟨S1024x1, .f32⟩
  | 31 => ⟨S1024, .f32⟩
  | 32 => ⟨S1024x1, .f32⟩
  | 33 => ⟨S1024x1x16, .f32⟩
  | 34 => ⟨S1024x16, .f32⟩
  | 35 => ⟨S1024x16, .f32⟩
  | 36 => ⟨S1024x16, .f32⟩
  | 37 => ⟨S1024x16, .f32⟩
  | 38 => ⟨S1024x16, .f32⟩
  | 39 => ⟨S1024x16, .f32⟩
  | 40 => ⟨S1024x16, .f32⟩
  | 41 => ⟨S1024x16, .f32⟩
  | 42 => ⟨S1024x16, .f32⟩
  | 43 => ⟨S1024x16, .f32⟩
  | 44 => ⟨S1024x16, .f32⟩
  | 45 => ⟨S_, .i32⟩
  | 46 => ⟨S1, .i32⟩
  | 47 => ⟨S1024x16x16, .f32⟩
  | 48 => ⟨S1024x1, .f32⟩
  | 49 => ⟨S1024, .f32⟩
  | 50 => ⟨S1024, .f32⟩
  | 51 => ⟨S1024x1, .f32⟩
  | 52 => ⟨S1024, .f32⟩
  | 53 => ⟨S1024x1, .f32⟩
  | 54 => ⟨S1024x1x16, .f32⟩
  | 55 => ⟨S1024x16, .f32⟩
  | 56 => ⟨S1024x16, .f32⟩
  | 57 => ⟨S1024x16, .f32⟩
  | 58 => ⟨S1024x16, .f32⟩
  | 59 => ⟨S1024x16, .f32⟩
  | 60 => ⟨S1024x16, .f32⟩
  | 61 => ⟨S1024x16, .f32⟩
  | 62 => ⟨S1024x16, .f32⟩
  | 63 => ⟨S1024x16, .f32⟩
  | 64 => ⟨S1024x16, .f32⟩
  | 65 => ⟨S1024x16, .f32⟩
  | 66 => ⟨S_, .i32⟩
  | 67 => ⟨S1, .i32⟩
  | 68 => ⟨S1024x16x16, .f32⟩
  | 69 => ⟨S_, .i32⟩
  | 70 => ⟨S1, .i32⟩
  | 71 => ⟨S1024x16x16, .f32⟩
  | 72 => ⟨S1024x1x16, .f32⟩
  | 73 => ⟨S1024x16, .f32⟩
  | 74 => ⟨S1024x1, .f32⟩
  | 75 => ⟨S1024, .f32⟩
  | 76 => ⟨S1024, .f32⟩
  | 77 => ⟨S1024x1, .f32⟩
  | 78 => ⟨S1024, .f32⟩
  | 79 => ⟨S1024x1, .f32⟩
  | 80 => ⟨S1024x1x16, .f32⟩
  | 81 => ⟨S1024x16, .f32⟩
  | 82 => ⟨S1024x16, .f32⟩
  | 83 => ⟨S1024x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S_, .i32⟩
  | 93 => ⟨S1, .i32⟩
  | 94 => ⟨S1024x16x16, .f32⟩
  | 95 => ⟨S1024x1, .f32⟩
  | 96 => ⟨S1024, .f32⟩
  | 97 => ⟨S1024, .f32⟩
  | 98 => ⟨S1024x1, .f32⟩
  | 99 => ⟨S1024, .f32⟩
  | 100 => ⟨S1024x1, .f32⟩
  | 101 => ⟨S1024x1x16, .f32⟩
  | 102 => ⟨S1024x16, .f32⟩
  | 103 => ⟨S1024x16, .f32⟩
  | 104 => ⟨S1024x16, .f32⟩
  | 105 => ⟨S1024x16, .f32⟩
  | 106 => ⟨S1024x16, .f32⟩
  | 107 => ⟨S1024x16, .f32⟩
  | 108 => ⟨S1024x16, .f32⟩
  | 109 => ⟨S1024x16, .f32⟩
  | 110 => ⟨S1024x16, .f32⟩
  | 111 => ⟨S1024x16, .f32⟩
  | 112 => ⟨S1024x16, .f32⟩
  | 113 => ⟨S_, .i32⟩
  | 114 => ⟨S1, .i32⟩
  | 115 => ⟨S1024x16x16, .f32⟩
  | 116 => ⟨S1024x1, .f32⟩
  | 117 => ⟨S1024, .f32⟩
  | 118 => ⟨S1024, .f32⟩
  | 119 => ⟨S1024x1, .f32⟩
  | 120 => ⟨S1024, .f32⟩
  | 121 => ⟨S1024x1, .f32⟩
  | 122 => ⟨S1024x1x16, .f32⟩
  | 123 => ⟨S1024x16, .f32⟩
  | 124 => ⟨S1024x16, .f32⟩
  | 125 => ⟨S1024x16, .f32⟩
  | 126 => ⟨S1024x16, .f32⟩
  | 127 => ⟨S1024x16, .f32⟩
  | _ => ⟨S1024x16x2048, .f32⟩

abbrev hbmTy0_19 (i : Nat) : BufTy := match i % 128 with
  | 0 => ⟨S1024x16, .f32⟩
  | 1 => ⟨S1024x16, .f32⟩
  | 2 => ⟨S1024x16, .f32⟩
  | 3 => ⟨S1024x16, .f32⟩
  | 4 => ⟨S1024x16, .f32⟩
  | 5 => ⟨S1024x16, .f32⟩
  | 6 => ⟨S_, .i32⟩
  | 7 => ⟨S1, .i32⟩
  | 8 => ⟨S1024x16x16, .f32⟩
  | 9 => ⟨S1024x1, .f32⟩
  | 10 => ⟨S1024, .f32⟩
  | 11 => ⟨S1024, .f32⟩
  | 12 => ⟨S1024x1, .f32⟩
  | 13 => ⟨S1024, .f32⟩
  | 14 => ⟨S1024x1, .f32⟩
  | 15 => ⟨S1024x1x16, .f32⟩
  | 16 => ⟨S1024x16, .f32⟩
  | 17 => ⟨S1024x16, .f32⟩
  | 18 => ⟨S1024x16, .f32⟩
  | 19 => ⟨S1024x16, .f32⟩
  | 20 => ⟨S1024x16, .f32⟩
  | 21 => ⟨S1024x16, .f32⟩
  | 22 => ⟨S1024x16, .f32⟩
  | 23 => ⟨S1024x16, .f32⟩
  | 24 => ⟨S1024x16, .f32⟩
  | 25 => ⟨S1024x16, .f32⟩
  | 26 => ⟨S1024x16, .f32⟩
  | 27 => ⟨S_, .i32⟩
  | 28 => ⟨S1, .i32⟩
  | 29 => ⟨S1024x16x16, .f32⟩
  | 30 => ⟨S_, .i32⟩
  | 31 => ⟨S1, .i32⟩
  | 32 => ⟨S1024x16x16, .f32⟩
  | 33 => ⟨S1024x1x16, .f32⟩
  | 34 => ⟨S1024x16, .f32⟩
  | 35 => ⟨S1024x1, .f32⟩
  | 36 => ⟨S1024, .f32⟩
  | 37 => ⟨S1024, .f32⟩
  | 38 => ⟨S1024x1, .f32⟩
  | 39 => ⟨S1024, .f32⟩
  | 40 => ⟨S1024x1, .f32⟩
  | 41 => ⟨S1024x1x16, .f32⟩
  | 42 => ⟨S1024x16, .f32⟩
  | 43 => ⟨S1024x16, .f32⟩
  | 44 => ⟨S1024x16, .f32⟩
  | 45 => ⟨S1024x16, .f32⟩
  | 46 => ⟨S1024x16, .f32⟩
  | 47 => ⟨S1024x16, .f32⟩
  | 48 => ⟨S1024x16, .f32⟩
  | 49 => ⟨S1024x16, .f32⟩
  | 50 => ⟨S1024x16, .f32⟩
  | 51 => ⟨S1024x16, .f32⟩
  | 52 => ⟨S1024x16, .f32⟩
  | 53 => ⟨S_, .i32⟩
  | 54 => ⟨S1, .i32⟩
  | 55 => ⟨S1024x16x16, .f32⟩
  | 56 => ⟨S1024x1, .f32⟩
  | 57 => ⟨S1024, .f32⟩
  | 58 => ⟨S1024, .f32⟩
  | 59 => ⟨S1024x1, .f32⟩
  | 60 => ⟨S1024, .f32⟩
  | 61 => ⟨S1024x1, .f32⟩
  | 62 => ⟨S1024x1x16, .f32⟩
  | 63 => ⟨S1024x16, .f32⟩
  | 64 => ⟨S1024x16, .f32⟩
  | 65 => ⟨S1024x16, .f32⟩
  | 66 => ⟨S1024x16, .f32⟩
  | 67 => ⟨S1024x16, .f32⟩
  | 68 => ⟨S1024x16, .f32⟩
  | 69 => ⟨S1024x16, .f32⟩
  | 70 => ⟨S1024x16, .f32⟩
  | 71 => ⟨S1024x16, .f32⟩
  | 72 => ⟨S1024x16, .f32⟩
  | 73 => ⟨S1024x16, .f32⟩
  | 74 => ⟨S_, .i32⟩
  | 75 => ⟨S1, .i32⟩
  | 76 => ⟨S1024x16x16, .f32⟩
  | 77 => ⟨S1024x1, .f32⟩
  | 78 => ⟨S1024, .f32⟩
  | 79 => ⟨S1024, .f32⟩
  | 80 => ⟨S1024x1, .f32⟩
  | 81 => ⟨S1024, .f32⟩
  | 82 => ⟨S1024x1, .f32⟩
  | 83 => ⟨S1024x1x16, .f32⟩
  | 84 => ⟨S1024x16, .f32⟩
  | 85 => ⟨S1024x16, .f32⟩
  | 86 => ⟨S1024x16, .f32⟩
  | 87 => ⟨S1024x16, .f32⟩
  | 88 => ⟨S1024x16, .f32⟩
  | 89 => ⟨S1024x16, .f32⟩
  | 90 => ⟨S1024x16, .f32⟩
  | 91 => ⟨S1024x16, .f32⟩
  | 92 => ⟨S1024x16, .f32⟩
  | 93 => ⟨S1024x16, .f32⟩
  | 94 => ⟨S1024x16, .f32⟩
  | 95 => ⟨S_, .i32⟩
  | 96 => ⟨S1, .i32⟩
  | 97 => ⟨S1024x16x16, .f32⟩
  | 98 => ⟨S_, .i32⟩
  | 99 => ⟨S1, .i32⟩
  | 100 => ⟨S1024x16x16, .f32⟩
  | 101 => ⟨S1024x1x16, .f32⟩
  | 102 => ⟨S1024x16, .f32⟩
  | 103 => ⟨S1024x1, .f32⟩
  | 104 => ⟨S1024, .f32⟩
  | 105 => ⟨S1024, .f32⟩
  | 106 => ⟨S1024x1, .f32⟩
  | 107 => ⟨S1024, .f32⟩
  | 108 => ⟨S1024x1, .f32⟩
  | 109 => ⟨S1024x1x16, .f32⟩
  | 110 => ⟨S1024x16, .f32⟩
  | 111 => ⟨S1024x16, .f32⟩
  | 112 => ⟨S1024x16, .f32⟩
  | 113 => ⟨S1024x16, .f32⟩
  | 114 => ⟨S1024x16, .f32⟩
  | 115 => ⟨S1024x16, .f32⟩
  | 116 => ⟨S1024x16, .f32⟩
  | 117 => ⟨S1024x16, .f32⟩
  | 118 => ⟨S1024x16, .f32⟩
  | 119 => ⟨S1024x16, .f32⟩
  | 120 => ⟨S1024x16, .f32⟩
  | 121 => ⟨S_, .i32⟩
  | 122 => ⟨S1, .i32⟩
  | 123 => ⟨S1024x16x16, .f32⟩
  | 124 => ⟨S1024x1, .f32⟩
  | 125 => ⟨S1024, .f32⟩
  | 126 => ⟨S1024, .f32⟩
  | 127 => ⟨S1024x1, .f32⟩
  | _ => ⟨S1024x16x2048, .f32⟩

abbrev hbmTy0_20 (i : Nat) : BufTy := match i % 128 with
  | 0 => ⟨S1024, .f32⟩
  | 1 => ⟨S1024x1, .f32⟩
  | 2 => ⟨S1024x1x16, .f32⟩
  | 3 => ⟨S1024x16, .f32⟩
  | 4 => ⟨S1024x16, .f32⟩
  | 5 => ⟨S1024x16, .f32⟩
  | 6 => ⟨S1024x16, .f32⟩
  | 7 => ⟨S1024x16, .f32⟩
  | 8 => ⟨S1024x16, .f32⟩
  | 9 => ⟨S1024x16, .f32⟩
  | 10 => ⟨S1024x16, .f32⟩
  | 11 => ⟨S1024x16, .f32⟩
  | 12 => ⟨S1024x16, .f32⟩
  | 13 => ⟨S1024x16, .f32⟩
  | 14 => ⟨S_, .i32⟩
  | 15 => ⟨S1, .i32⟩
  | 16 => ⟨S1024x16x16, .f32⟩
  | 17 => ⟨S_, .i32⟩
  | 18 => ⟨S1, .i32⟩
  | 19 => ⟨S1024x16x16, .f32⟩
  | 20 => ⟨S1024x1x16, .f32⟩
  | 21 => ⟨S1024x16, .f32⟩
  | 22 => ⟨S1024x1, .f32⟩
  | 23 => ⟨S1024, .f32⟩
  | 24 => ⟨S1024, .f32⟩
  | 25 => ⟨S1024x1, .f32⟩
  | 26 => ⟨S1024, .f32⟩
  | 27 => ⟨S1024x1, .f32⟩
  | 28 => ⟨S1024x1x16, .f32⟩
  | 29 => ⟨S1024x16, .f32⟩
  | 30 => ⟨S1024x16, .f32⟩
  | 31 => ⟨S1024x16, .f32⟩
  | 32 => ⟨S1024x16, .f32⟩
  | 33 => ⟨S1024x16, .f32⟩
  | 34 => ⟨S1024x16, .f32⟩
  | 35 => ⟨S1024x16, .f32⟩
  | 36 => ⟨S1024x16, .f32⟩
  | 37 => ⟨S1024x16, .f32⟩
  | 38 => ⟨S1024x16, .f32⟩
  | 39 => ⟨S1024x16, .f32⟩
  | 40 => ⟨S_, .i32⟩
  | 41 => ⟨S1, .i32⟩
  | 42 => ⟨S1024x16x16, .f32⟩
  | 43 => ⟨S_, .i32⟩
  | 44 => ⟨S1, .i32⟩
  | 45 => ⟨S1024x16x16, .f32⟩
  | 46 => ⟨S1024x16x1, .f32⟩
  | 47 => ⟨S1024x16x16, .f32⟩
  | 48 => ⟨S1024x16x16, .f32⟩
  | 49 => ⟨S1024x16x2048, .f32⟩
  | _ => ⟨S1024x16x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | _ => ⟨S1024x16x2048, .f32⟩

abbrev bufTy : (tb : Table) → Fin (tcTables nBuf tb) → BufTy
  | .hbm, ⟨i, _⟩ => hbmTy i
  | _, _ => ⟨S1024x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c_0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_c_1 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_c_2 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_c_3 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_c_4 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_c_5 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_c_6 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_c_7 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_c_8 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_c_9 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_c_10 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_c_11 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_c_12 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_c_13 : Ref sig .tc := ⟨.hbm, 304, rfl⟩
abbrev main_v287 : Ref sig .tc := ⟨.hbm, 305, rfl⟩
abbrev main_v288 : Ref sig .tc := ⟨.hbm, 306, rfl⟩
abbrev main_v289 : Ref sig .tc := ⟨.hbm, 307, rfl⟩
abbrev main_v290 : Ref sig .tc := ⟨.hbm, 308, rfl⟩
abbrev main_v291 : Ref sig .tc := ⟨.hbm, 309, rfl⟩
abbrev main_v292 : Ref sig .tc := ⟨.hbm, 310, rfl⟩
abbrev main_v293 : Ref sig .tc := ⟨.hbm, 311, rfl⟩
abbrev main_v294 : Ref sig .tc := ⟨.hbm, 312, rfl⟩
abbrev main_v295 : Ref sig .tc := ⟨.hbm, 313, rfl⟩
abbrev main_v296 : Ref sig .tc := ⟨.hbm, 314, rfl⟩
abbrev main_v297 : Ref sig .tc := ⟨.hbm, 315, rfl⟩
abbrev main_v298 : Ref sig .tc := ⟨.hbm, 316, rfl⟩
abbrev main_v299 : Ref sig .tc := ⟨.hbm, 317, rfl⟩
abbrev main_v300 : Ref sig .tc := ⟨.hbm, 318, rfl⟩
abbrev main_v301 : Ref sig .tc := ⟨.hbm, 319, rfl⟩
abbrev main_v302 : Ref sig .tc := ⟨.hbm, 320, rfl⟩
abbrev main_v303 : Ref sig .tc := ⟨.hbm, 321, rfl⟩
abbrev main_v304 : Ref sig .tc := ⟨.hbm, 322, rfl⟩
abbrev main_v305 : Ref sig .tc := ⟨.hbm, 323, rfl⟩
abbrev main_v306 : Ref sig .tc := ⟨.hbm, 324, rfl⟩
abbrev main_c_14 : Ref sig .tc := ⟨.hbm, 325, rfl⟩
abbrev main_v307 : Ref sig .tc := ⟨.hbm, 326, rfl⟩
abbrev main_v308 : Ref sig .tc := ⟨.hbm, 327, rfl⟩
abbrev main_c_15 : Ref sig .tc := ⟨.hbm, 328, rfl⟩
abbrev main_v309 : Ref sig .tc := ⟨.hbm, 329, rfl⟩
abbrev main_v310 : Ref sig .tc := ⟨.hbm, 330, rfl⟩
abbrev main_v311 : Ref sig .tc := ⟨.hbm, 331, rfl⟩
abbrev main_v312 : Ref sig .tc := ⟨.hbm, 332, rfl⟩
abbrev main_v313 : Ref sig .tc := ⟨.hbm, 333, rfl⟩
abbrev main_v314 : Ref sig .tc := ⟨.hbm, 334, rfl⟩
abbrev main_v315 : Ref sig .tc := ⟨.hbm, 335, rfl⟩
abbrev main_v316 : Ref sig .tc := ⟨.hbm, 336, rfl⟩
abbrev main_v317 : Ref sig .tc := ⟨.hbm, 337, rfl⟩
abbrev main_v318 : Ref sig .tc := ⟨.hbm, 338, rfl⟩
abbrev main_v319 : Ref sig .tc := ⟨.hbm, 339, rfl⟩
abbrev main_v320 : Ref sig .tc := ⟨.hbm, 340, rfl⟩
abbrev main_v321 : Ref sig .tc := ⟨.hbm, 341, rfl⟩
abbrev main_v322 : Ref sig .tc := ⟨.hbm, 342, rfl⟩
abbrev main_v323 : Ref sig .tc := ⟨.hbm, 343, rfl⟩
abbrev main_v324 : Ref sig .tc := ⟨.hbm, 344, rfl⟩
abbrev main_v325 : Ref sig .tc := ⟨.hbm, 345, rfl⟩
abbrev main_v326 : Ref sig .tc := ⟨.hbm, 346, rfl⟩
abbrev main_v327 : Ref sig .tc := ⟨.hbm, 347, rfl⟩
abbrev main_v328 : Ref sig .tc := ⟨.hbm, 348, rfl⟩
abbrev main_v329 : Ref sig .tc := ⟨.hbm, 349, rfl⟩
abbrev main_v330 : Ref sig .tc := ⟨.hbm, 350, rfl⟩
abbrev main_c_16 : Ref sig .tc := ⟨.hbm, 351, rfl⟩
abbrev main_v331 : Ref sig .tc := ⟨.hbm, 352, rfl⟩
abbrev main_v332 : Ref sig .tc := ⟨.hbm, 353, rfl⟩
abbrev main_v333 : Ref sig .tc := ⟨.hbm, 354, rfl⟩
abbrev main_v334 : Ref sig .tc := ⟨.hbm, 355, rfl⟩
abbrev main_v335 : Ref sig .tc := ⟨.hbm, 356, rfl⟩
abbrev main_v336 : Ref sig .tc := ⟨.hbm, 357, rfl⟩
abbrev main_v337 : Ref sig .tc := ⟨.hbm, 358, rfl⟩
abbrev main_v338 : Ref sig .tc := ⟨.hbm, 359, rfl⟩
abbrev main_v339 : Ref sig .tc := ⟨.hbm, 360, rfl⟩
abbrev main_v340 : Ref sig .tc := ⟨.hbm, 361, rfl⟩
abbrev main_v341 : Ref sig .tc := ⟨.hbm, 362, rfl⟩
abbrev main_v342 : Ref sig .tc := ⟨.hbm, 363, rfl⟩
abbrev main_v343 : Ref sig .tc := ⟨.hbm, 364, rfl⟩
abbrev main_v344 : Ref sig .tc := ⟨.hbm, 365, rfl⟩
abbrev main_v345 : Ref sig .tc := ⟨.hbm, 366, rfl⟩
abbrev main_v346 : Ref sig .tc := ⟨.hbm, 367, rfl⟩
abbrev main_v347 : Ref sig .tc := ⟨.hbm, 368, rfl⟩
abbrev main_v348 : Ref sig .tc := ⟨.hbm, 369, rfl⟩
abbrev main_v349 : Ref sig .tc := ⟨.hbm, 370, rfl⟩
abbrev main_v350 : Ref sig .tc := ⟨.hbm, 371, rfl⟩
abbrev main_c_17 : Ref sig .tc := ⟨.hbm, 372, rfl⟩
abbrev main_v351 : Ref sig .tc := ⟨.hbm, 373, rfl⟩
abbrev main_v352 : Ref sig .tc := ⟨.hbm, 374, rfl⟩
abbrev main_v353 : Ref sig .tc := ⟨.hbm, 375, rfl⟩
abbrev main_v354 : Ref sig .tc := ⟨.hbm, 376, rfl⟩
abbrev main_v355 : Ref sig .tc := ⟨.hbm, 377, rfl⟩
abbrev main_v356 : Ref sig .tc := ⟨.hbm, 378, rfl⟩
abbrev main_v357 : Ref sig .tc := ⟨.hbm, 379, rfl⟩
abbrev main_v358 : Ref sig .tc := ⟨.hbm, 380, rfl⟩
abbrev main_v359 : Ref sig .tc := ⟨.hbm, 381, rfl⟩
abbrev main_v360 : Ref sig .tc := ⟨.hbm, 382, rfl⟩
abbrev main_v361 : Ref sig .tc := ⟨.hbm, 383, rfl⟩
abbrev main_v362 : Ref sig .tc := ⟨.hbm, 384, rfl⟩
abbrev main_v363 : Ref sig .tc := ⟨.hbm, 385, rfl⟩
abbrev main_v364 : Ref sig .tc := ⟨.hbm, 386, rfl⟩
abbrev main_v365 : Ref sig .tc := ⟨.hbm, 387, rfl⟩
abbrev main_v366 : Ref sig .tc := ⟨.hbm, 388, rfl⟩
abbrev main_v367 : Ref sig .tc := ⟨.hbm, 389, rfl⟩
abbrev main_v368 : Ref sig .tc := ⟨.hbm, 390, rfl⟩
abbrev main_v369 : Ref sig .tc := ⟨.hbm, 391, rfl⟩
abbrev main_v370 : Ref sig .tc := ⟨.hbm, 392, rfl⟩
abbrev main_c_18 : Ref sig .tc := ⟨.hbm, 393, rfl⟩
abbrev main_v371 : Ref sig .tc := ⟨.hbm, 394, rfl⟩
abbrev main_v372 : Ref sig .tc := ⟨.hbm, 395, rfl⟩
abbrev main_v373 : Ref sig .tc := ⟨.hbm, 396, rfl⟩
abbrev main_v374 : Ref sig .tc := ⟨.hbm, 397, rfl⟩
abbrev main_v375 : Ref sig .tc := ⟨.hbm, 398, rfl⟩
abbrev main_v376 : Ref sig .tc := ⟨.hbm, 399, rfl⟩
abbrev main_v377 : Ref sig .tc := ⟨.hbm, 400, rfl⟩
abbrev main_v378 : Ref sig .tc := ⟨.hbm, 401, rfl⟩
abbrev main_v379 : Ref sig .tc := ⟨.hbm, 402, rfl⟩
abbrev main_v380 : Ref sig .tc := ⟨.hbm, 403, rfl⟩
abbrev main_v381 : Ref sig .tc := ⟨.hbm, 404, rfl⟩
abbrev main_v382 : Ref sig .tc := ⟨.hbm, 405, rfl⟩
abbrev main_v383 : Ref sig .tc := ⟨.hbm, 406, rfl⟩
abbrev main_v384 : Ref sig .tc := ⟨.hbm, 407, rfl⟩
abbrev main_v385 : Ref sig .tc := ⟨.hbm, 408, rfl⟩
abbrev main_v386 : Ref sig .tc := ⟨.hbm, 409, rfl⟩
abbrev main_v387 : Ref sig .tc := ⟨.hbm, 410, rfl⟩
abbrev main_v388 : Ref sig .tc := ⟨.hbm, 411, rfl⟩
abbrev main_v389 : Ref sig .tc := ⟨.hbm, 412, rfl⟩
abbrev main_v390 : Ref sig .tc := ⟨.hbm, 413, rfl⟩
abbrev main_c_19 : Ref sig .tc := ⟨.hbm, 414, rfl⟩
abbrev main_v391 : Ref sig .tc := ⟨.hbm, 415, rfl⟩
abbrev main_v392 : Ref sig .tc := ⟨.hbm, 416, rfl⟩
abbrev main_v393 : Ref sig .tc := ⟨.hbm, 417, rfl⟩
abbrev main_v394 : Ref sig .tc := ⟨.hbm, 418, rfl⟩
abbrev main_v395 : Ref sig .tc := ⟨.hbm, 419, rfl⟩
abbrev main_v396 : Ref sig .tc := ⟨.hbm, 420, rfl⟩
abbrev main_v397 : Ref sig .tc := ⟨.hbm, 421, rfl⟩
abbrev main_v398 : Ref sig .tc := ⟨.hbm, 422, rfl⟩
abbrev main_v399 : Ref sig .tc := ⟨.hbm, 423, rfl⟩
abbrev main_v400 : Ref sig .tc := ⟨.hbm, 424, rfl⟩
abbrev main_v401 : Ref sig .tc := ⟨.hbm, 425, rfl⟩
abbrev main_v402 : Ref sig .tc := ⟨.hbm, 426, rfl⟩
abbrev main_v403 : Ref sig .tc := ⟨.hbm, 427, rfl⟩
abbrev main_v404 : Ref sig .tc := ⟨.hbm, 428, rfl⟩
abbrev main_v405 : Ref sig .tc := ⟨.hbm, 429, rfl⟩
abbrev main_v406 : Ref sig .tc := ⟨.hbm, 430, rfl⟩
abbrev main_v407 : Ref sig .tc := ⟨.hbm, 431, rfl⟩
abbrev main_v408 : Ref sig .tc := ⟨.hbm, 432, rfl⟩
abbrev main_v409 : Ref sig .tc := ⟨.hbm, 433, rfl⟩
abbrev main_v410 : Ref sig .tc := ⟨.hbm, 434, rfl⟩
abbrev main_c_20 : Ref sig .tc := ⟨.hbm, 435, rfl⟩
abbrev main_v411 : Ref sig .tc := ⟨.hbm, 436, rfl⟩
abbrev main_v412 : Ref sig .tc := ⟨.hbm, 437, rfl⟩
abbrev main_v413 : Ref sig .tc := ⟨.hbm, 438, rfl⟩
abbrev main_v414 : Ref sig .tc := ⟨.hbm, 439, rfl⟩
abbrev main_v415 : Ref sig .tc := ⟨.hbm, 440, rfl⟩
abbrev main_v416 : Ref sig .tc := ⟨.hbm, 441, rfl⟩
abbrev main_v417 : Ref sig .tc := ⟨.hbm, 442, rfl⟩
abbrev main_v418 : Ref sig .tc := ⟨.hbm, 443, rfl⟩
abbrev main_v419 : Ref sig .tc := ⟨.hbm, 444, rfl⟩
abbrev main_v420 : Ref sig .tc := ⟨.hbm, 445, rfl⟩
abbrev main_v421 : Ref sig .tc := ⟨.hbm, 446, rfl⟩
abbrev main_v422 : Ref sig .tc := ⟨.hbm, 447, rfl⟩
abbrev main_v423 : Ref sig .tc := ⟨.hbm, 448, rfl⟩
abbrev main_v424 : Ref sig .tc := ⟨.hbm, 449, rfl⟩
abbrev main_v425 : Ref sig .tc := ⟨.hbm, 450, rfl⟩
abbrev main_v426 : Ref sig .tc := ⟨.hbm, 451, rfl⟩
abbrev main_v427 : Ref sig .tc := ⟨.hbm, 452, rfl⟩
abbrev main_v428 : Ref sig .tc := ⟨.hbm, 453, rfl⟩
abbrev main_v429 : Ref sig .tc := ⟨.hbm, 454, rfl⟩
abbrev main_v430 : Ref sig .tc := ⟨.hbm, 455, rfl⟩
abbrev main_c_21 : Ref sig .tc := ⟨.hbm, 456, rfl⟩
abbrev main_v431 : Ref sig .tc := ⟨.hbm, 457, rfl⟩
abbrev main_v432 : Ref sig .tc := ⟨.hbm, 458, rfl⟩
abbrev main_v433 : Ref sig .tc := ⟨.hbm, 459, rfl⟩
abbrev main_v434 : Ref sig .tc := ⟨.hbm, 460, rfl⟩
abbrev main_v435 : Ref sig .tc := ⟨.hbm, 461, rfl⟩
abbrev main_v436 : Ref sig .tc := ⟨.hbm, 462, rfl⟩
abbrev main_v437 : Ref sig .tc := ⟨.hbm, 463, rfl⟩
abbrev main_v438 : Ref sig .tc := ⟨.hbm, 464, rfl⟩
abbrev main_v439 : Ref sig .tc := ⟨.hbm, 465, rfl⟩
abbrev main_v440 : Ref sig .tc := ⟨.hbm, 466, rfl⟩
abbrev main_v441 : Ref sig .tc := ⟨.hbm, 467, rfl⟩
abbrev main_v442 : Ref sig .tc := ⟨.hbm, 468, rfl⟩
abbrev main_v443 : Ref sig .tc := ⟨.hbm, 469, rfl⟩
abbrev main_v444 : Ref sig .tc := ⟨.hbm, 470, rfl⟩
abbrev main_v445 : Ref sig .tc := ⟨.hbm, 471, rfl⟩
abbrev main_v446 : Ref sig .tc := ⟨.hbm, 472, rfl⟩
abbrev main_v447 : Ref sig .tc := ⟨.hbm, 473, rfl⟩
abbrev main_v448 : Ref sig .tc := ⟨.hbm, 474, rfl⟩
abbrev main_v449 : Ref sig .tc := ⟨.hbm, 475, rfl⟩
abbrev main_v450 : Ref sig .tc := ⟨.hbm, 476, rfl⟩
abbrev main_c_22 : Ref sig .tc := ⟨.hbm, 477, rfl⟩
abbrev main_v451 : Ref sig .tc := ⟨.hbm, 478, rfl⟩
abbrev main_v452 : Ref sig .tc := ⟨.hbm, 479, rfl⟩
abbrev main_v453 : Ref sig .tc := ⟨.hbm, 480, rfl⟩
abbrev main_v454 : Ref sig .tc := ⟨.hbm, 481, rfl⟩
abbrev main_v455 : Ref sig .tc := ⟨.hbm, 482, rfl⟩
abbrev main_v456 : Ref sig .tc := ⟨.hbm, 483, rfl⟩
abbrev main_v457 : Ref sig .tc := ⟨.hbm, 484, rfl⟩
abbrev main_v458 : Ref sig .tc := ⟨.hbm, 485, rfl⟩
abbrev main_v459 : Ref sig .tc := ⟨.hbm, 486, rfl⟩
abbrev main_v460 : Ref sig .tc := ⟨.hbm, 487, rfl⟩
abbrev main_v461 : Ref sig .tc := ⟨.hbm, 488, rfl⟩
abbrev main_v462 : Ref sig .tc := ⟨.hbm, 489, rfl⟩
abbrev main_v463 : Ref sig .tc := ⟨.hbm, 490, rfl⟩
abbrev main_v464 : Ref sig .tc := ⟨.hbm, 491, rfl⟩
abbrev main_v465 : Ref sig .tc := ⟨.hbm, 492, rfl⟩
abbrev main_v466 : Ref sig .tc := ⟨.hbm, 493, rfl⟩
abbrev main_v467 : Ref sig .tc := ⟨.hbm, 494, rfl⟩
abbrev main_v468 : Ref sig .tc := ⟨.hbm, 495, rfl⟩
abbrev main_v469 : Ref sig .tc := ⟨.hbm, 496, rfl⟩
abbrev main_v470 : Ref sig .tc := ⟨.hbm, 497, rfl⟩
abbrev main_c_23 : Ref sig .tc := ⟨.hbm, 498, rfl⟩
abbrev main_v471 : Ref sig .tc := ⟨.hbm, 499, rfl⟩
abbrev main_v472 : Ref sig .tc := ⟨.hbm, 500, rfl⟩
abbrev main_v473 : Ref sig .tc := ⟨.hbm, 501, rfl⟩
abbrev main_v474 : Ref sig .tc := ⟨.hbm, 502, rfl⟩
abbrev main_v475 : Ref sig .tc := ⟨.hbm, 503, rfl⟩
abbrev main_v476 : Ref sig .tc := ⟨.hbm, 504, rfl⟩
abbrev main_v477 : Ref sig .tc := ⟨.hbm, 505, rfl⟩
abbrev main_v478 : Ref sig .tc := ⟨.hbm, 506, rfl⟩
abbrev main_v479 : Ref sig .tc := ⟨.hbm, 507, rfl⟩
abbrev main_v480 : Ref sig .tc := ⟨.hbm, 508, rfl⟩
abbrev main_v481 : Ref sig .tc := ⟨.hbm, 509, rfl⟩
abbrev main_v482 : Ref sig .tc := ⟨.hbm, 510, rfl⟩
abbrev main_v483 : Ref sig .tc := ⟨.hbm, 511, rfl⟩
abbrev main_v484 : Ref sig .tc := ⟨.hbm, 512, rfl⟩
abbrev main_v485 : Ref sig .tc := ⟨.hbm, 513, rfl⟩
abbrev main_v486 : Ref sig .tc := ⟨.hbm, 514, rfl⟩
abbrev main_v487 : Ref sig .tc := ⟨.hbm, 515, rfl⟩
abbrev main_v488 : Ref sig .tc := ⟨.hbm, 516, rfl⟩
abbrev main_v489 : Ref sig .tc := ⟨.hbm, 517, rfl⟩
abbrev main_v490 : Ref sig .tc := ⟨.hbm, 518, rfl⟩
abbrev main_c_24 : Ref sig .tc := ⟨.hbm, 519, rfl⟩
abbrev main_v491 : Ref sig .tc := ⟨.hbm, 520, rfl⟩
abbrev main_v492 : Ref sig .tc := ⟨.hbm, 521, rfl⟩
abbrev main_v493 : Ref sig .tc := ⟨.hbm, 522, rfl⟩
abbrev main_v494 : Ref sig .tc := ⟨.hbm, 523, rfl⟩
abbrev main_v495 : Ref sig .tc := ⟨.hbm, 524, rfl⟩
abbrev main_v496 : Ref sig .tc := ⟨.hbm, 525, rfl⟩
abbrev main_v497 : Ref sig .tc := ⟨.hbm, 526, rfl⟩
abbrev main_v498 : Ref sig .tc := ⟨.hbm, 527, rfl⟩
abbrev main_v499 : Ref sig .tc := ⟨.hbm, 528, rfl⟩
abbrev main_v500 : Ref sig .tc := ⟨.hbm, 529, rfl⟩
abbrev main_v501 : Ref sig .tc := ⟨.hbm, 530, rfl⟩
abbrev main_v502 : Ref sig .tc := ⟨.hbm, 531, rfl⟩
abbrev main_v503 : Ref sig .tc := ⟨.hbm, 532, rfl⟩
abbrev main_v504 : Ref sig .tc := ⟨.hbm, 533, rfl⟩
abbrev main_v505 : Ref sig .tc := ⟨.hbm, 534, rfl⟩
abbrev main_v506 : Ref sig .tc := ⟨.hbm, 535, rfl⟩
abbrev main_v507 : Ref sig .tc := ⟨.hbm, 536, rfl⟩
abbrev main_v508 : Ref sig .tc := ⟨.hbm, 537, rfl⟩
abbrev main_v509 : Ref sig .tc := ⟨.hbm, 538, rfl⟩
abbrev main_v510 : Ref sig .tc := ⟨.hbm, 539, rfl⟩
abbrev main_c_25 : Ref sig .tc := ⟨.hbm, 540, rfl⟩
abbrev main_v511 : Ref sig .tc := ⟨.hbm, 541, rfl⟩
abbrev main_v512 : Ref sig .tc := ⟨.hbm, 542, rfl⟩
abbrev main_v513 : Ref sig .tc := ⟨.hbm, 543, rfl⟩
abbrev main_v514 : Ref sig .tc := ⟨.hbm, 544, rfl⟩
abbrev main_v515 : Ref sig .tc := ⟨.hbm, 545, rfl⟩
abbrev main_v516 : Ref sig .tc := ⟨.hbm, 546, rfl⟩
abbrev main_v517 : Ref sig .tc := ⟨.hbm, 547, rfl⟩
abbrev main_v518 : Ref sig .tc := ⟨.hbm, 548, rfl⟩
abbrev main_v519 : Ref sig .tc := ⟨.hbm, 549, rfl⟩
abbrev main_v520 : Ref sig .tc := ⟨.hbm, 550, rfl⟩
abbrev main_v521 : Ref sig .tc := ⟨.hbm, 551, rfl⟩
abbrev main_v522 : Ref sig .tc := ⟨.hbm, 552, rfl⟩
abbrev main_v523 : Ref sig .tc := ⟨.hbm, 553, rfl⟩
abbrev main_v524 : Ref sig .tc := ⟨.hbm, 554, rfl⟩
abbrev main_v525 : Ref sig .tc := ⟨.hbm, 555, rfl⟩
abbrev main_v526 : Ref sig .tc := ⟨.hbm, 556, rfl⟩
abbrev main_v527 : Ref sig .tc := ⟨.hbm, 557, rfl⟩
abbrev main_v528 : Ref sig .tc := ⟨.hbm, 558, rfl⟩
abbrev main_v529 : Ref sig .tc := ⟨.hbm, 559, rfl⟩
abbrev main_v530 : Ref sig .tc := ⟨.hbm, 560, rfl⟩
abbrev main_c_26 : Ref sig .tc := ⟨.hbm, 561, rfl⟩
abbrev main_v531 : Ref sig .tc := ⟨.hbm, 562, rfl⟩
abbrev main_v532 : Ref sig .tc := ⟨.hbm, 563, rfl⟩
abbrev main_v533 : Ref sig .tc := ⟨.hbm, 564, rfl⟩
abbrev main_v534 : Ref sig .tc := ⟨.hbm, 565, rfl⟩
abbrev main_v535 : Ref sig .tc := ⟨.hbm, 566, rfl⟩
abbrev main_v536 : Ref sig .tc := ⟨.hbm, 567, rfl⟩
abbrev main_v537 : Ref sig .tc := ⟨.hbm, 568, rfl⟩
abbrev main_v538 : Ref sig .tc := ⟨.hbm, 569, rfl⟩
abbrev main_v539 : Ref sig .tc := ⟨.hbm, 570, rfl⟩
abbrev main_v540 : Ref sig .tc := ⟨.hbm, 571, rfl⟩
abbrev main_v541 : Ref sig .tc := ⟨.hbm, 572, rfl⟩
abbrev main_v542 : Ref sig .tc := ⟨.hbm, 573, rfl⟩
abbrev main_v543 : Ref sig .tc := ⟨.hbm, 574, rfl⟩
abbrev main_v544 : Ref sig .tc := ⟨.hbm, 575, rfl⟩
abbrev main_v545 : Ref sig .tc := ⟨.hbm, 576, rfl⟩
abbrev main_v546 : Ref sig .tc := ⟨.hbm, 577, rfl⟩
abbrev main_v547 : Ref sig .tc := ⟨.hbm, 578, rfl⟩
abbrev main_v548 : Ref sig .tc := ⟨.hbm, 579, rfl⟩
abbrev main_v549 : Ref sig .tc := ⟨.hbm, 580, rfl⟩
abbrev main_v550 : Ref sig .tc := ⟨.hbm, 581, rfl⟩
abbrev main_c_27 : Ref sig .tc := ⟨.hbm, 582, rfl⟩
abbrev main_v551 : Ref sig .tc := ⟨.hbm, 583, rfl⟩
abbrev main_v552 : Ref sig .tc := ⟨.hbm, 584, rfl⟩
abbrev main_v553 : Ref sig .tc := ⟨.hbm, 585, rfl⟩
abbrev main_v554 : Ref sig .tc := ⟨.hbm, 586, rfl⟩
abbrev main_v555 : Ref sig .tc := ⟨.hbm, 587, rfl⟩
abbrev main_v556 : Ref sig .tc := ⟨.hbm, 588, rfl⟩
abbrev main_v557 : Ref sig .tc := ⟨.hbm, 589, rfl⟩
abbrev main_v558 : Ref sig .tc := ⟨.hbm, 590, rfl⟩
abbrev main_v559 : Ref sig .tc := ⟨.hbm, 591, rfl⟩
abbrev main_v560 : Ref sig .tc := ⟨.hbm, 592, rfl⟩
abbrev main_v561 : Ref sig .tc := ⟨.hbm, 593, rfl⟩
abbrev main_v562 : Ref sig .tc := ⟨.hbm, 594, rfl⟩
abbrev main_v563 : Ref sig .tc := ⟨.hbm, 595, rfl⟩
abbrev main_v564 : Ref sig .tc := ⟨.hbm, 596, rfl⟩
abbrev main_v565 : Ref sig .tc := ⟨.hbm, 597, rfl⟩
abbrev main_v566 : Ref sig .tc := ⟨.hbm, 598, rfl⟩
abbrev main_v567 : Ref sig .tc := ⟨.hbm, 599, rfl⟩
abbrev main_v568 : Ref sig .tc := ⟨.hbm, 600, rfl⟩
abbrev main_v569 : Ref sig .tc := ⟨.hbm, 601, rfl⟩
abbrev main_v570 : Ref sig .tc := ⟨.hbm, 602, rfl⟩
abbrev main_c_28 : Ref sig .tc := ⟨.hbm, 603, rfl⟩
abbrev main_v571 : Ref sig .tc := ⟨.hbm, 604, rfl⟩
abbrev main_v572 : Ref sig .tc := ⟨.hbm, 605, rfl⟩
abbrev main_v573 : Ref sig .tc := ⟨.hbm, 606, rfl⟩
abbrev main_v574 : Ref sig .tc := ⟨.hbm, 607, rfl⟩
abbrev main_v575 : Ref sig .tc := ⟨.hbm, 608, rfl⟩
abbrev main_v576 : Ref sig .tc := ⟨.hbm, 609, rfl⟩
abbrev main_v577 : Ref sig .tc := ⟨.hbm, 610, rfl⟩
abbrev main_v578 : Ref sig .tc := ⟨.hbm, 611, rfl⟩
abbrev main_v579 : Ref sig .tc := ⟨.hbm, 612, rfl⟩
abbrev main_v580 : Ref sig .tc := ⟨.hbm, 613, rfl⟩
abbrev main_v581 : Ref sig .tc := ⟨.hbm, 614, rfl⟩
abbrev main_v582 : Ref sig .tc := ⟨.hbm, 615, rfl⟩
abbrev main_v583 : Ref sig .tc := ⟨.hbm, 616, rfl⟩
abbrev main_v584 : Ref sig .tc := ⟨.hbm, 617, rfl⟩
abbrev main_v585 : Ref sig .tc := ⟨.hbm, 618, rfl⟩
abbrev main_v586 : Ref sig .tc := ⟨.hbm, 619, rfl⟩
abbrev main_v587 : Ref sig .tc := ⟨.hbm, 620, rfl⟩
abbrev main_v588 : Ref sig .tc := ⟨.hbm, 621, rfl⟩
abbrev main_v589 : Ref sig .tc := ⟨.hbm, 622, rfl⟩
abbrev main_v590 : Ref sig .tc := ⟨.hbm, 623, rfl⟩
abbrev main_c_29 : Ref sig .tc := ⟨.hbm, 624, rfl⟩
abbrev main_v591 : Ref sig .tc := ⟨.hbm, 625, rfl⟩
abbrev main_v592 : Ref sig .tc := ⟨.hbm, 626, rfl⟩
abbrev main_c_30 : Ref sig .tc := ⟨.hbm, 627, rfl⟩
abbrev main_v593 : Ref sig .tc := ⟨.hbm, 628, rfl⟩
abbrev main_v594 : Ref sig .tc := ⟨.hbm, 629, rfl⟩
abbrev main_v595 : Ref sig .tc := ⟨.hbm, 630, rfl⟩
abbrev main_v596 : Ref sig .tc := ⟨.hbm, 631, rfl⟩
abbrev main_v597 : Ref sig .tc := ⟨.hbm, 632, rfl⟩
abbrev main_v598 : Ref sig .tc := ⟨.hbm, 633, rfl⟩
abbrev main_v599 : Ref sig .tc := ⟨.hbm, 634, rfl⟩
abbrev main_v600 : Ref sig .tc := ⟨.hbm, 635, rfl⟩
abbrev main_v601 : Ref sig .tc := ⟨.hbm, 636, rfl⟩
abbrev main_v602 : Ref sig .tc := ⟨.hbm, 637, rfl⟩
abbrev main_v603 : Ref sig .tc := ⟨.hbm, 638, rfl⟩
abbrev main_v604 : Ref sig .tc := ⟨.hbm, 639, rfl⟩
abbrev main_v605 : Ref sig .tc := ⟨.hbm, 640, rfl⟩
abbrev main_v606 : Ref sig .tc := ⟨.hbm, 641, rfl⟩
abbrev main_v607 : Ref sig .tc := ⟨.hbm, 642, rfl⟩
abbrev main_v608 : Ref sig .tc := ⟨.hbm, 643, rfl⟩
abbrev main_v609 : Ref sig .tc := ⟨.hbm, 644, rfl⟩
abbrev main_v610 : Ref sig .tc := ⟨.hbm, 645, rfl⟩
abbrev main_v611 : Ref sig .tc := ⟨.hbm, 646, rfl⟩
abbrev main_v612 : Ref sig .tc := ⟨.hbm, 647, rfl⟩
abbrev main_v613 : Ref sig .tc := ⟨.hbm, 648, rfl⟩
abbrev main_v614 : Ref sig .tc := ⟨.hbm, 649, rfl⟩
abbrev main_c_31 : Ref sig .tc := ⟨.hbm, 650, rfl⟩
abbrev main_v615 : Ref sig .tc := ⟨.hbm, 651, rfl⟩
abbrev main_v616 : Ref sig .tc := ⟨.hbm, 652, rfl⟩
abbrev main_v617 : Ref sig .tc := ⟨.hbm, 653, rfl⟩
abbrev main_v618 : Ref sig .tc := ⟨.hbm, 654, rfl⟩
abbrev main_v619 : Ref sig .tc := ⟨.hbm, 655, rfl⟩
abbrev main_v620 : Ref sig .tc := ⟨.hbm, 656, rfl⟩
abbrev main_v621 : Ref sig .tc := ⟨.hbm, 657, rfl⟩
abbrev main_v622 : Ref sig .tc := ⟨.hbm, 658, rfl⟩
abbrev main_v623 : Ref sig .tc := ⟨.hbm, 659, rfl⟩
abbrev main_v624 : Ref sig .tc := ⟨.hbm, 660, rfl⟩
abbrev main_v625 : Ref sig .tc := ⟨.hbm, 661, rfl⟩
abbrev main_v626 : Ref sig .tc := ⟨.hbm, 662, rfl⟩
abbrev main_v627 : Ref sig .tc := ⟨.hbm, 663, rfl⟩
abbrev main_v628 : Ref sig .tc := ⟨.hbm, 664, rfl⟩
abbrev main_v629 : Ref sig .tc := ⟨.hbm, 665, rfl⟩
abbrev main_v630 : Ref sig .tc := ⟨.hbm, 666, rfl⟩
abbrev main_v631 : Ref sig .tc := ⟨.hbm, 667, rfl⟩
abbrev main_v632 : Ref sig .tc := ⟨.hbm, 668, rfl⟩
abbrev main_v633 : Ref sig .tc := ⟨.hbm, 669, rfl⟩
abbrev main_v634 : Ref sig .tc := ⟨.hbm, 670, rfl⟩
abbrev main_c_32 : Ref sig .tc := ⟨.hbm, 671, rfl⟩
abbrev main_v635 : Ref sig .tc := ⟨.hbm, 672, rfl⟩
abbrev main_v636 : Ref sig .tc := ⟨.hbm, 673, rfl⟩
abbrev main_v637 : Ref sig .tc := ⟨.hbm, 674, rfl⟩
abbrev main_v638 : Ref sig .tc := ⟨.hbm, 675, rfl⟩
abbrev main_v639 : Ref sig .tc := ⟨.hbm, 676, rfl⟩
abbrev main_v640 : Ref sig .tc := ⟨.hbm, 677, rfl⟩
abbrev main_v641 : Ref sig .tc := ⟨.hbm, 678, rfl⟩
abbrev main_v642 : Ref sig .tc := ⟨.hbm, 679, rfl⟩
abbrev main_v643 : Ref sig .tc := ⟨.hbm, 680, rfl⟩
abbrev main_v644 : Ref sig .tc := ⟨.hbm, 681, rfl⟩
abbrev main_v645 : Ref sig .tc := ⟨.hbm, 682, rfl⟩
abbrev main_v646 : Ref sig .tc := ⟨.hbm, 683, rfl⟩
abbrev main_v647 : Ref sig .tc := ⟨.hbm, 684, rfl⟩
abbrev main_v648 : Ref sig .tc := ⟨.hbm, 685, rfl⟩
abbrev main_v649 : Ref sig .tc := ⟨.hbm, 686, rfl⟩
abbrev main_v650 : Ref sig .tc := ⟨.hbm, 687, rfl⟩
abbrev main_v651 : Ref sig .tc := ⟨.hbm, 688, rfl⟩
abbrev main_v652 : Ref sig .tc := ⟨.hbm, 689, rfl⟩
abbrev main_v653 : Ref sig .tc := ⟨.hbm, 690, rfl⟩
abbrev main_v654 : Ref sig .tc := ⟨.hbm, 691, rfl⟩
abbrev main_c_33 : Ref sig .tc := ⟨.hbm, 692, rfl⟩
abbrev main_v655 : Ref sig .tc := ⟨.hbm, 693, rfl⟩
abbrev main_v656 : Ref sig .tc := ⟨.hbm, 694, rfl⟩
abbrev main_v657 : Ref sig .tc := ⟨.hbm, 695, rfl⟩
abbrev main_v658 : Ref sig .tc := ⟨.hbm, 696, rfl⟩
abbrev main_v659 : Ref sig .tc := ⟨.hbm, 697, rfl⟩
abbrev main_v660 : Ref sig .tc := ⟨.hbm, 698, rfl⟩
abbrev main_v661 : Ref sig .tc := ⟨.hbm, 699, rfl⟩
abbrev main_v662 : Ref sig .tc := ⟨.hbm, 700, rfl⟩
abbrev main_v663 : Ref sig .tc := ⟨.hbm, 701, rfl⟩
abbrev main_v664 : Ref sig .tc := ⟨.hbm, 702, rfl⟩
abbrev main_v665 : Ref sig .tc := ⟨.hbm, 703, rfl⟩
abbrev main_v666 : Ref sig .tc := ⟨.hbm, 704, rfl⟩
abbrev main_v667 : Ref sig .tc := ⟨.hbm, 705, rfl⟩
abbrev main_v668 : Ref sig .tc := ⟨.hbm, 706, rfl⟩
abbrev main_v669 : Ref sig .tc := ⟨.hbm, 707, rfl⟩
abbrev main_v670 : Ref sig .tc := ⟨.hbm, 708, rfl⟩
abbrev main_v671 : Ref sig .tc := ⟨.hbm, 709, rfl⟩
abbrev main_v672 : Ref sig .tc := ⟨.hbm, 710, rfl⟩
abbrev main_v673 : Ref sig .tc := ⟨.hbm, 711, rfl⟩
abbrev main_v674 : Ref sig .tc := ⟨.hbm, 712, rfl⟩
abbrev main_c_34 : Ref sig .tc := ⟨.hbm, 713, rfl⟩
abbrev main_v675 : Ref sig .tc := ⟨.hbm, 714, rfl⟩
abbrev main_v676 : Ref sig .tc := ⟨.hbm, 715, rfl⟩
abbrev main_v677 : Ref sig .tc := ⟨.hbm, 716, rfl⟩
abbrev main_v678 : Ref sig .tc := ⟨.hbm, 717, rfl⟩
abbrev main_v679 : Ref sig .tc := ⟨.hbm, 718, rfl⟩
abbrev main_v680 : Ref sig .tc := ⟨.hbm, 719, rfl⟩
abbrev main_v681 : Ref sig .tc := ⟨.hbm, 720, rfl⟩
abbrev main_v682 : Ref sig .tc := ⟨.hbm, 721, rfl⟩
abbrev main_v683 : Ref sig .tc := ⟨.hbm, 722, rfl⟩
abbrev main_v684 : Ref sig .tc := ⟨.hbm, 723, rfl⟩
abbrev main_v685 : Ref sig .tc := ⟨.hbm, 724, rfl⟩
abbrev main_v686 : Ref sig .tc := ⟨.hbm, 725, rfl⟩
abbrev main_v687 : Ref sig .tc := ⟨.hbm, 726, rfl⟩
abbrev main_v688 : Ref sig .tc := ⟨.hbm, 727, rfl⟩
abbrev main_v689 : Ref sig .tc := ⟨.hbm, 728, rfl⟩
abbrev main_v690 : Ref sig .tc := ⟨.hbm, 729, rfl⟩
abbrev main_v691 : Ref sig .tc := ⟨.hbm, 730, rfl⟩
abbrev main_v692 : Ref sig .tc := ⟨.hbm, 731, rfl⟩
abbrev main_v693 : Ref sig .tc := ⟨.hbm, 732, rfl⟩
abbrev main_v694 : Ref sig .tc := ⟨.hbm, 733, rfl⟩
abbrev main_c_35 : Ref sig .tc := ⟨.hbm, 734, rfl⟩
abbrev main_v695 : Ref sig .tc := ⟨.hbm, 735, rfl⟩
abbrev main_v696 : Ref sig .tc := ⟨.hbm, 736, rfl⟩
abbrev main_v697 : Ref sig .tc := ⟨.hbm, 737, rfl⟩
abbrev main_v698 : Ref sig .tc := ⟨.hbm, 738, rfl⟩
abbrev main_v699 : Ref sig .tc := ⟨.hbm, 739, rfl⟩
abbrev main_v700 : Ref sig .tc := ⟨.hbm, 740, rfl⟩
abbrev main_v701 : Ref sig .tc := ⟨.hbm, 741, rfl⟩
abbrev main_v702 : Ref sig .tc := ⟨.hbm, 742, rfl⟩
abbrev main_v703 : Ref sig .tc := ⟨.hbm, 743, rfl⟩
abbrev main_v704 : Ref sig .tc := ⟨.hbm, 744, rfl⟩
abbrev main_v705 : Ref sig .tc := ⟨.hbm, 745, rfl⟩
abbrev main_v706 : Ref sig .tc := ⟨.hbm, 746, rfl⟩
abbrev main_v707 : Ref sig .tc := ⟨.hbm, 747, rfl⟩
abbrev main_v708 : Ref sig .tc := ⟨.hbm, 748, rfl⟩
abbrev main_v709 : Ref sig .tc := ⟨.hbm, 749, rfl⟩
abbrev main_v710 : Ref sig .tc := ⟨.hbm, 750, rfl⟩
abbrev main_v711 : Ref sig .tc := ⟨.hbm, 751, rfl⟩
abbrev main_v712 : Ref sig .tc := ⟨.hbm, 752, rfl⟩
abbrev main_v713 : Ref sig .tc := ⟨.hbm, 753, rfl⟩
abbrev main_v714 : Ref sig .tc := ⟨.hbm, 754, rfl⟩
abbrev main_c_36 : Ref sig .tc := ⟨.hbm, 755, rfl⟩
abbrev main_v715 : Ref sig .tc := ⟨.hbm, 756, rfl⟩
abbrev main_v716 : Ref sig .tc := ⟨.hbm, 757, rfl⟩
abbrev main_v717 : Ref sig .tc := ⟨.hbm, 758, rfl⟩
abbrev main_v718 : Ref sig .tc := ⟨.hbm, 759, rfl⟩
abbrev main_v719 : Ref sig .tc := ⟨.hbm, 760, rfl⟩
abbrev main_v720 : Ref sig .tc := ⟨.hbm, 761, rfl⟩
abbrev main_v721 : Ref sig .tc := ⟨.hbm, 762, rfl⟩
abbrev main_v722 : Ref sig .tc := ⟨.hbm, 763, rfl⟩
abbrev main_v723 : Ref sig .tc := ⟨.hbm, 764, rfl⟩
abbrev main_v724 : Ref sig .tc := ⟨.hbm, 765, rfl⟩
abbrev main_v725 : Ref sig .tc := ⟨.hbm, 766, rfl⟩
abbrev main_v726 : Ref sig .tc := ⟨.hbm, 767, rfl⟩
abbrev main_v727 : Ref sig .tc := ⟨.hbm, 768, rfl⟩
abbrev main_v728 : Ref sig .tc := ⟨.hbm, 769, rfl⟩
abbrev main_v729 : Ref sig .tc := ⟨.hbm, 770, rfl⟩
abbrev main_v730 : Ref sig .tc := ⟨.hbm, 771, rfl⟩
abbrev main_v731 : Ref sig .tc := ⟨.hbm, 772, rfl⟩
abbrev main_v732 : Ref sig .tc := ⟨.hbm, 773, rfl⟩
abbrev main_v733 : Ref sig .tc := ⟨.hbm, 774, rfl⟩
abbrev main_v734 : Ref sig .tc := ⟨.hbm, 775, rfl⟩
abbrev main_c_37 : Ref sig .tc := ⟨.hbm, 776, rfl⟩
abbrev main_v735 : Ref sig .tc := ⟨.hbm, 777, rfl⟩
abbrev main_v736 : Ref sig .tc := ⟨.hbm, 778, rfl⟩
abbrev main_v737 : Ref sig .tc := ⟨.hbm, 779, rfl⟩
abbrev main_v738 : Ref sig .tc := ⟨.hbm, 780, rfl⟩
abbrev main_v739 : Ref sig .tc := ⟨.hbm, 781, rfl⟩
abbrev main_v740 : Ref sig .tc := ⟨.hbm, 782, rfl⟩
abbrev main_v741 : Ref sig .tc := ⟨.hbm, 783, rfl⟩
abbrev main_v742 : Ref sig .tc := ⟨.hbm, 784, rfl⟩
abbrev main_v743 : Ref sig .tc := ⟨.hbm, 785, rfl⟩
abbrev main_v744 : Ref sig .tc := ⟨.hbm, 786, rfl⟩
abbrev main_v745 : Ref sig .tc := ⟨.hbm, 787, rfl⟩
abbrev main_v746 : Ref sig .tc := ⟨.hbm, 788, rfl⟩
abbrev main_v747 : Ref sig .tc := ⟨.hbm, 789, rfl⟩
abbrev main_v748 : Ref sig .tc := ⟨.hbm, 790, rfl⟩
abbrev main_v749 : Ref sig .tc := ⟨.hbm, 791, rfl⟩
abbrev main_v750 : Ref sig .tc := ⟨.hbm, 792, rfl⟩
abbrev main_v751 : Ref sig .tc := ⟨.hbm, 793, rfl⟩
abbrev main_v752 : Ref sig .tc := ⟨.hbm, 794, rfl⟩
abbrev main_v753 : Ref sig .tc := ⟨.hbm, 795, rfl⟩
abbrev main_v754 : Ref sig .tc := ⟨.hbm, 796, rfl⟩
abbrev main_c_38 : Ref sig .tc := ⟨.hbm, 797, rfl⟩
abbrev main_v755 : Ref sig .tc := ⟨.hbm, 798, rfl⟩
abbrev main_v756 : Ref sig .tc := ⟨.hbm, 799, rfl⟩
abbrev main_v757 : Ref sig .tc := ⟨.hbm, 800, rfl⟩
abbrev main_v758 : Ref sig .tc := ⟨.hbm, 801, rfl⟩
abbrev main_v759 : Ref sig .tc := ⟨.hbm, 802, rfl⟩
abbrev main_v760 : Ref sig .tc := ⟨.hbm, 803, rfl⟩
abbrev main_v761 : Ref sig .tc := ⟨.hbm, 804, rfl⟩
abbrev main_v762 : Ref sig .tc := ⟨.hbm, 805, rfl⟩
abbrev main_v763 : Ref sig .tc := ⟨.hbm, 806, rfl⟩
abbrev main_v764 : Ref sig .tc := ⟨.hbm, 807, rfl⟩
abbrev main_v765 : Ref sig .tc := ⟨.hbm, 808, rfl⟩
abbrev main_v766 : Ref sig .tc := ⟨.hbm, 809, rfl⟩
abbrev main_v767 : Ref sig .tc := ⟨.hbm, 810, rfl⟩
abbrev main_v768 : Ref sig .tc := ⟨.hbm, 811, rfl⟩
abbrev main_v769 : Ref sig .tc := ⟨.hbm, 812, rfl⟩
abbrev main_v770 : Ref sig .tc := ⟨.hbm, 813, rfl⟩
abbrev main_v771 : Ref sig .tc := ⟨.hbm, 814, rfl⟩
abbrev main_v772 : Ref sig .tc := ⟨.hbm, 815, rfl⟩
abbrev main_v773 : Ref sig .tc := ⟨.hbm, 816, rfl⟩
abbrev main_v774 : Ref sig .tc := ⟨.hbm, 817, rfl⟩
abbrev main_c_39 : Ref sig .tc := ⟨.hbm, 818, rfl⟩
abbrev main_v775 : Ref sig .tc := ⟨.hbm, 819, rfl⟩
abbrev main_v776 : Ref sig .tc := ⟨.hbm, 820, rfl⟩
abbrev main_v777 : Ref sig .tc := ⟨.hbm, 821, rfl⟩
abbrev main_v778 : Ref sig .tc := ⟨.hbm, 822, rfl⟩
abbrev main_v779 : Ref sig .tc := ⟨.hbm, 823, rfl⟩
abbrev main_v780 : Ref sig .tc := ⟨.hbm, 824, rfl⟩
abbrev main_v781 : Ref sig .tc := ⟨.hbm, 825, rfl⟩
abbrev main_v782 : Ref sig .tc := ⟨.hbm, 826, rfl⟩
abbrev main_v783 : Ref sig .tc := ⟨.hbm, 827, rfl⟩
abbrev main_v784 : Ref sig .tc := ⟨.hbm, 828, rfl⟩
abbrev main_v785 : Ref sig .tc := ⟨.hbm, 829, rfl⟩
abbrev main_v786 : Ref sig .tc := ⟨.hbm, 830, rfl⟩
abbrev main_v787 : Ref sig .tc := ⟨.hbm, 831, rfl⟩
abbrev main_v788 : Ref sig .tc := ⟨.hbm, 832, rfl⟩
abbrev main_v789 : Ref sig .tc := ⟨.hbm, 833, rfl⟩
abbrev main_v790 : Ref sig .tc := ⟨.hbm, 834, rfl⟩
abbrev main_v791 : Ref sig .tc := ⟨.hbm, 835, rfl⟩
abbrev main_v792 : Ref sig .tc := ⟨.hbm, 836, rfl⟩
abbrev main_v793 : Ref sig .tc := ⟨.hbm, 837, rfl⟩
abbrev main_v794 : Ref sig .tc := ⟨.hbm, 838, rfl⟩
abbrev main_c_40 : Ref sig .tc := ⟨.hbm, 839, rfl⟩
abbrev main_v795 : Ref sig .tc := ⟨.hbm, 840, rfl⟩
abbrev main_v796 : Ref sig .tc := ⟨.hbm, 841, rfl⟩
abbrev main_v797 : Ref sig .tc := ⟨.hbm, 842, rfl⟩
abbrev main_v798 : Ref sig .tc := ⟨.hbm, 843, rfl⟩
abbrev main_v799 : Ref sig .tc := ⟨.hbm, 844, rfl⟩
abbrev main_v800 : Ref sig .tc := ⟨.hbm, 845, rfl⟩
abbrev main_v801 : Ref sig .tc := ⟨.hbm, 846, rfl⟩
abbrev main_v802 : Ref sig .tc := ⟨.hbm, 847, rfl⟩
abbrev main_v803 : Ref sig .tc := ⟨.hbm, 848, rfl⟩
abbrev main_v804 : Ref sig .tc := ⟨.hbm, 849, rfl⟩
abbrev main_v805 : Ref sig .tc := ⟨.hbm, 850, rfl⟩
abbrev main_v806 : Ref sig .tc := ⟨.hbm, 851, rfl⟩
abbrev main_v807 : Ref sig .tc := ⟨.hbm, 852, rfl⟩
abbrev main_v808 : Ref sig .tc := ⟨.hbm, 853, rfl⟩
abbrev main_v809 : Ref sig .tc := ⟨.hbm, 854, rfl⟩
abbrev main_v810 : Ref sig .tc := ⟨.hbm, 855, rfl⟩
abbrev main_v811 : Ref sig .tc := ⟨.hbm, 856, rfl⟩
abbrev main_v812 : Ref sig .tc := ⟨.hbm, 857, rfl⟩
abbrev main_v813 : Ref sig .tc := ⟨.hbm, 858, rfl⟩
abbrev main_v814 : Ref sig .tc := ⟨.hbm, 859, rfl⟩
abbrev main_c_41 : Ref sig .tc := ⟨.hbm, 860, rfl⟩
abbrev main_v815 : Ref sig .tc := ⟨.hbm, 861, rfl⟩
abbrev main_v816 : Ref sig .tc := ⟨.hbm, 862, rfl⟩
abbrev main_v817 : Ref sig .tc := ⟨.hbm, 863, rfl⟩
abbrev main_v818 : Ref sig .tc := ⟨.hbm, 864, rfl⟩
abbrev main_v819 : Ref sig .tc := ⟨.hbm, 865, rfl⟩
abbrev main_v820 : Ref sig .tc := ⟨.hbm, 866, rfl⟩
abbrev main_v821 : Ref sig .tc := ⟨.hbm, 867, rfl⟩
abbrev main_v822 : Ref sig .tc := ⟨.hbm, 868, rfl⟩
abbrev main_v823 : Ref sig .tc := ⟨.hbm, 869, rfl⟩
abbrev main_v824 : Ref sig .tc := ⟨.hbm, 870, rfl⟩
abbrev main_v825 : Ref sig .tc := ⟨.hbm, 871, rfl⟩
abbrev main_v826 : Ref sig .tc := ⟨.hbm, 872, rfl⟩
abbrev main_v827 : Ref sig .tc := ⟨.hbm, 873, rfl⟩
abbrev main_v828 : Ref sig .tc := ⟨.hbm, 874, rfl⟩
abbrev main_v829 : Ref sig .tc := ⟨.hbm, 875, rfl⟩
abbrev main_v830 : Ref sig .tc := ⟨.hbm, 876, rfl⟩
abbrev main_v831 : Ref sig .tc := ⟨.hbm, 877, rfl⟩
abbrev main_v832 : Ref sig .tc := ⟨.hbm, 878, rfl⟩
abbrev main_v833 : Ref sig .tc := ⟨.hbm, 879, rfl⟩
abbrev main_v834 : Ref sig .tc := ⟨.hbm, 880, rfl⟩
abbrev main_c_42 : Ref sig .tc := ⟨.hbm, 881, rfl⟩
abbrev main_v835 : Ref sig .tc := ⟨.hbm, 882, rfl⟩
abbrev main_v836 : Ref sig .tc := ⟨.hbm, 883, rfl⟩
abbrev main_v837 : Ref sig .tc := ⟨.hbm, 884, rfl⟩
abbrev main_v838 : Ref sig .tc := ⟨.hbm, 885, rfl⟩
abbrev main_v839 : Ref sig .tc := ⟨.hbm, 886, rfl⟩
abbrev main_v840 : Ref sig .tc := ⟨.hbm, 887, rfl⟩
abbrev main_v841 : Ref sig .tc := ⟨.hbm, 888, rfl⟩
abbrev main_v842 : Ref sig .tc := ⟨.hbm, 889, rfl⟩
abbrev main_v843 : Ref sig .tc := ⟨.hbm, 890, rfl⟩
abbrev main_v844 : Ref sig .tc := ⟨.hbm, 891, rfl⟩
abbrev main_v845 : Ref sig .tc := ⟨.hbm, 892, rfl⟩
abbrev main_v846 : Ref sig .tc := ⟨.hbm, 893, rfl⟩
abbrev main_v847 : Ref sig .tc := ⟨.hbm, 894, rfl⟩
abbrev main_v848 : Ref sig .tc := ⟨.hbm, 895, rfl⟩
abbrev main_v849 : Ref sig .tc := ⟨.hbm, 896, rfl⟩
abbrev main_v850 : Ref sig .tc := ⟨.hbm, 897, rfl⟩
abbrev main_v851 : Ref sig .tc := ⟨.hbm, 898, rfl⟩
abbrev main_v852 : Ref sig .tc := ⟨.hbm, 899, rfl⟩
abbrev main_v853 : Ref sig .tc := ⟨.hbm, 900, rfl⟩
abbrev main_v854 : Ref sig .tc := ⟨.hbm, 901, rfl⟩
abbrev main_c_43 : Ref sig .tc := ⟨.hbm, 902, rfl⟩
abbrev main_v855 : Ref sig .tc := ⟨.hbm, 903, rfl⟩
abbrev main_v856 : Ref sig .tc := ⟨.hbm, 904, rfl⟩
abbrev main_c_44 : Ref sig .tc := ⟨.hbm, 905, rfl⟩
abbrev main_v857 : Ref sig .tc := ⟨.hbm, 906, rfl⟩
abbrev main_v858 : Ref sig .tc := ⟨.hbm, 907, rfl⟩
abbrev main_v859 : Ref sig .tc := ⟨.hbm, 908, rfl⟩
abbrev main_v860 : Ref sig .tc := ⟨.hbm, 909, rfl⟩
abbrev main_v861 : Ref sig .tc := ⟨.hbm, 910, rfl⟩
abbrev main_v862 : Ref sig .tc := ⟨.hbm, 911, rfl⟩
abbrev main_v863 : Ref sig .tc := ⟨.hbm, 912, rfl⟩
abbrev main_v864 : Ref sig .tc := ⟨.hbm, 913, rfl⟩
abbrev main_v865 : Ref sig .tc := ⟨.hbm, 914, rfl⟩
abbrev main_v866 : Ref sig .tc := ⟨.hbm, 915, rfl⟩
abbrev main_v867 : Ref sig .tc := ⟨.hbm, 916, rfl⟩
abbrev main_v868 : Ref sig .tc := ⟨.hbm, 917, rfl⟩
abbrev main_v869 : Ref sig .tc := ⟨.hbm, 918, rfl⟩
abbrev main_v870 : Ref sig .tc := ⟨.hbm, 919, rfl⟩
abbrev main_v871 : Ref sig .tc := ⟨.hbm, 920, rfl⟩
abbrev main_v872 : Ref sig .tc := ⟨.hbm, 921, rfl⟩
abbrev main_v873 : Ref sig .tc := ⟨.hbm, 922, rfl⟩
abbrev main_v874 : Ref sig .tc := ⟨.hbm, 923, rfl⟩
abbrev main_v875 : Ref sig .tc := ⟨.hbm, 924, rfl⟩
abbrev main_v876 : Ref sig .tc := ⟨.hbm, 925, rfl⟩
abbrev main_v877 : Ref sig .tc := ⟨.hbm, 926, rfl⟩
abbrev main_v878 : Ref sig .tc := ⟨.hbm, 927, rfl⟩
abbrev main_c_45 : Ref sig .tc := ⟨.hbm, 928, rfl⟩
abbrev main_v879 : Ref sig .tc := ⟨.hbm, 929, rfl⟩
abbrev main_v880 : Ref sig .tc := ⟨.hbm, 930, rfl⟩
abbrev main_v881 : Ref sig .tc := ⟨.hbm, 931, rfl⟩
abbrev main_v882 : Ref sig .tc := ⟨.hbm, 932, rfl⟩
abbrev main_v883 : Ref sig .tc := ⟨.hbm, 933, rfl⟩
abbrev main_v884 : Ref sig .tc := ⟨.hbm, 934, rfl⟩
abbrev main_v885 : Ref sig .tc := ⟨.hbm, 935, rfl⟩
abbrev main_v886 : Ref sig .tc := ⟨.hbm, 936, rfl⟩
abbrev main_v887 : Ref sig .tc := ⟨.hbm, 937, rfl⟩
abbrev main_v888 : Ref sig .tc := ⟨.hbm, 938, rfl⟩
abbrev main_v889 : Ref sig .tc := ⟨.hbm, 939, rfl⟩
abbrev main_v890 : Ref sig .tc := ⟨.hbm, 940, rfl⟩
abbrev main_v891 : Ref sig .tc := ⟨.hbm, 941, rfl⟩
abbrev main_v892 : Ref sig .tc := ⟨.hbm, 942, rfl⟩
abbrev main_v893 : Ref sig .tc := ⟨.hbm, 943, rfl⟩
abbrev main_v894 : Ref sig .tc := ⟨.hbm, 944, rfl⟩
abbrev main_v895 : Ref sig .tc := ⟨.hbm, 945, rfl⟩
abbrev main_v896 : Ref sig .tc := ⟨.hbm, 946, rfl⟩
abbrev main_v897 : Ref sig .tc := ⟨.hbm, 947, rfl⟩
abbrev main_v898 : Ref sig .tc := ⟨.hbm, 948, rfl⟩
abbrev main_c_46 : Ref sig .tc := ⟨.hbm, 949, rfl⟩
abbrev main_v899 : Ref sig .tc := ⟨.hbm, 950, rfl⟩
abbrev main_v900 : Ref sig .tc := ⟨.hbm, 951, rfl⟩
abbrev main_v901 : Ref sig .tc := ⟨.hbm, 952, rfl⟩
abbrev main_v902 : Ref sig .tc := ⟨.hbm, 953, rfl⟩
abbrev main_v903 : Ref sig .tc := ⟨.hbm, 954, rfl⟩
abbrev main_v904 : Ref sig .tc := ⟨.hbm, 955, rfl⟩
abbrev main_v905 : Ref sig .tc := ⟨.hbm, 956, rfl⟩
abbrev main_v906 : Ref sig .tc := ⟨.hbm, 957, rfl⟩
abbrev main_v907 : Ref sig .tc := ⟨.hbm, 958, rfl⟩
abbrev main_v908 : Ref sig .tc := ⟨.hbm, 959, rfl⟩
abbrev main_v909 : Ref sig .tc := ⟨.hbm, 960, rfl⟩
abbrev main_v910 : Ref sig .tc := ⟨.hbm, 961, rfl⟩
abbrev main_v911 : Ref sig .tc := ⟨.hbm, 962, rfl⟩
abbrev main_v912 : Ref sig .tc := ⟨.hbm, 963, rfl⟩
abbrev main_v913 : Ref sig .tc := ⟨.hbm, 964, rfl⟩
abbrev main_v914 : Ref sig .tc := ⟨.hbm, 965, rfl⟩
abbrev main_v915 : Ref sig .tc := ⟨.hbm, 966, rfl⟩
abbrev main_v916 : Ref sig .tc := ⟨.hbm, 967, rfl⟩
abbrev main_v917 : Ref sig .tc := ⟨.hbm, 968, rfl⟩
abbrev main_v918 : Ref sig .tc := ⟨.hbm, 969, rfl⟩
abbrev main_c_47 : Ref sig .tc := ⟨.hbm, 970, rfl⟩
abbrev main_v919 : Ref sig .tc := ⟨.hbm, 971, rfl⟩
abbrev main_v920 : Ref sig .tc := ⟨.hbm, 972, rfl⟩
abbrev main_v921 : Ref sig .tc := ⟨.hbm, 973, rfl⟩
abbrev main_v922 : Ref sig .tc := ⟨.hbm, 974, rfl⟩
abbrev main_v923 : Ref sig .tc := ⟨.hbm, 975, rfl⟩
abbrev main_v924 : Ref sig .tc := ⟨.hbm, 976, rfl⟩
abbrev main_v925 : Ref sig .tc := ⟨.hbm, 977, rfl⟩
abbrev main_v926 : Ref sig .tc := ⟨.hbm, 978, rfl⟩
abbrev main_v927 : Ref sig .tc := ⟨.hbm, 979, rfl⟩
abbrev main_v928 : Ref sig .tc := ⟨.hbm, 980, rfl⟩
abbrev main_v929 : Ref sig .tc := ⟨.hbm, 981, rfl⟩
abbrev main_v930 : Ref sig .tc := ⟨.hbm, 982, rfl⟩
abbrev main_v931 : Ref sig .tc := ⟨.hbm, 983, rfl⟩
abbrev main_v932 : Ref sig .tc := ⟨.hbm, 984, rfl⟩
abbrev main_v933 : Ref sig .tc := ⟨.hbm, 985, rfl⟩
abbrev main_v934 : Ref sig .tc := ⟨.hbm, 986, rfl⟩
abbrev main_v935 : Ref sig .tc := ⟨.hbm, 987, rfl⟩
abbrev main_v936 : Ref sig .tc := ⟨.hbm, 988, rfl⟩
abbrev main_v937 : Ref sig .tc := ⟨.hbm, 989, rfl⟩
abbrev main_v938 : Ref sig .tc := ⟨.hbm, 990, rfl⟩
abbrev main_c_48 : Ref sig .tc := ⟨.hbm, 991, rfl⟩
abbrev main_v939 : Ref sig .tc := ⟨.hbm, 992, rfl⟩
abbrev main_v940 : Ref sig .tc := ⟨.hbm, 993, rfl⟩
abbrev main_v941 : Ref sig .tc := ⟨.hbm, 994, rfl⟩
abbrev main_v942 : Ref sig .tc := ⟨.hbm, 995, rfl⟩
abbrev main_v943 : Ref sig .tc := ⟨.hbm, 996, rfl⟩
abbrev main_v944 : Ref sig .tc := ⟨.hbm, 997, rfl⟩
abbrev main_v945 : Ref sig .tc := ⟨.hbm, 998, rfl⟩
abbrev main_v946 : Ref sig .tc := ⟨.hbm, 999, rfl⟩
abbrev main_v947 : Ref sig .tc := ⟨.hbm, 1000, rfl⟩
abbrev main_v948 : Ref sig .tc := ⟨.hbm, 1001, rfl⟩
abbrev main_v949 : Ref sig .tc := ⟨.hbm, 1002, rfl⟩
abbrev main_v950 : Ref sig .tc := ⟨.hbm, 1003, rfl⟩
abbrev main_v951 : Ref sig .tc := ⟨.hbm, 1004, rfl⟩
abbrev main_v952 : Ref sig .tc := ⟨.hbm, 1005, rfl⟩
abbrev main_v953 : Ref sig .tc := ⟨.hbm, 1006, rfl⟩
abbrev main_v954 : Ref sig .tc := ⟨.hbm, 1007, rfl⟩
abbrev main_v955 : Ref sig .tc := ⟨.hbm, 1008, rfl⟩
abbrev main_v956 : Ref sig .tc := ⟨.hbm, 1009, rfl⟩
abbrev main_v957 : Ref sig .tc := ⟨.hbm, 1010, rfl⟩
abbrev main_v958 : Ref sig .tc := ⟨.hbm, 1011, rfl⟩
abbrev main_c_49 : Ref sig .tc := ⟨.hbm, 1012, rfl⟩
abbrev main_v959 : Ref sig .tc := ⟨.hbm, 1013, rfl⟩
abbrev main_v960 : Ref sig .tc := ⟨.hbm, 1014, rfl⟩
abbrev main_v961 : Ref sig .tc := ⟨.hbm, 1015, rfl⟩
abbrev main_v962 : Ref sig .tc := ⟨.hbm, 1016, rfl⟩
abbrev main_v963 : Ref sig .tc := ⟨.hbm, 1017, rfl⟩
abbrev main_v964 : Ref sig .tc := ⟨.hbm, 1018, rfl⟩
abbrev main_v965 : Ref sig .tc := ⟨.hbm, 1019, rfl⟩
abbrev main_v966 : Ref sig .tc := ⟨.hbm, 1020, rfl⟩
abbrev main_v967 : Ref sig .tc := ⟨.hbm, 1021, rfl⟩
abbrev main_v968 : Ref sig .tc := ⟨.hbm, 1022, rfl⟩
abbrev main_v969 : Ref sig .tc := ⟨.hbm, 1023, rfl⟩
abbrev main_v970 : Ref sig .tc := ⟨.hbm, 1024, rfl⟩
abbrev main_v971 : Ref sig .tc := ⟨.hbm, 1025, rfl⟩
abbrev main_v972 : Ref sig .tc := ⟨.hbm, 1026, rfl⟩
abbrev main_v973 : Ref sig .tc := ⟨.hbm, 1027, rfl⟩
abbrev main_v974 : Ref sig .tc := ⟨.hbm, 1028, rfl⟩
abbrev main_v975 : Ref sig .tc := ⟨.hbm, 1029, rfl⟩
abbrev main_v976 : Ref sig .tc := ⟨.hbm, 1030, rfl⟩
abbrev main_v977 : Ref sig .tc := ⟨.hbm, 1031, rfl⟩
abbrev main_v978 : Ref sig .tc := ⟨.hbm, 1032, rfl⟩
abbrev main_c_50 : Ref sig .tc := ⟨.hbm, 1033, rfl⟩
abbrev main_v979 : Ref sig .tc := ⟨.hbm, 1034, rfl⟩
abbrev main_v980 : Ref sig .tc := ⟨.hbm, 1035, rfl⟩
abbrev main_v981 : Ref sig .tc := ⟨.hbm, 1036, rfl⟩
abbrev main_v982 : Ref sig .tc := ⟨.hbm, 1037, rfl⟩
abbrev main_v983 : Ref sig .tc := ⟨.hbm, 1038, rfl⟩
abbrev main_v984 : Ref sig .tc := ⟨.hbm, 1039, rfl⟩
abbrev main_v985 : Ref sig .tc := ⟨.hbm, 1040, rfl⟩
abbrev main_v986 : Ref sig .tc := ⟨.hbm, 1041, rfl⟩
abbrev main_v987 : Ref sig .tc := ⟨.hbm, 1042, rfl⟩
abbrev main_v988 : Ref sig .tc := ⟨.hbm, 1043, rfl⟩
abbrev main_v989 : Ref sig .tc := ⟨.hbm, 1044, rfl⟩
abbrev main_v990 : Ref sig .tc := ⟨.hbm, 1045, rfl⟩
abbrev main_v991 : Ref sig .tc := ⟨.hbm, 1046, rfl⟩
abbrev main_v992 : Ref sig .tc := ⟨.hbm, 1047, rfl⟩
abbrev main_v993 : Ref sig .tc := ⟨.hbm, 1048, rfl⟩
abbrev main_v994 : Ref sig .tc := ⟨.hbm, 1049, rfl⟩
abbrev main_v995 : Ref sig .tc := ⟨.hbm, 1050, rfl⟩
abbrev main_v996 : Ref sig .tc := ⟨.hbm, 1051, rfl⟩
abbrev main_v997 : Ref sig .tc := ⟨.hbm, 1052, rfl⟩
abbrev main_v998 : Ref sig .tc := ⟨.hbm, 1053, rfl⟩
abbrev main_c_51 : Ref sig .tc := ⟨.hbm, 1054, rfl⟩
abbrev main_v999 : Ref sig .tc := ⟨.hbm, 1055, rfl⟩
abbrev main_v1000 : Ref sig .tc := ⟨.hbm, 1056, rfl⟩
abbrev main_v1001 : Ref sig .tc := ⟨.hbm, 1057, rfl⟩
abbrev main_v1002 : Ref sig .tc := ⟨.hbm, 1058, rfl⟩
abbrev main_v1003 : Ref sig .tc := ⟨.hbm, 1059, rfl⟩
abbrev main_v1004 : Ref sig .tc := ⟨.hbm, 1060, rfl⟩
abbrev main_v1005 : Ref sig .tc := ⟨.hbm, 1061, rfl⟩
abbrev main_v1006 : Ref sig .tc := ⟨.hbm, 1062, rfl⟩
abbrev main_v1007 : Ref sig .tc := ⟨.hbm, 1063, rfl⟩
abbrev main_v1008 : Ref sig .tc := ⟨.hbm, 1064, rfl⟩
abbrev main_v1009 : Ref sig .tc := ⟨.hbm, 1065, rfl⟩
abbrev main_v1010 : Ref sig .tc := ⟨.hbm, 1066, rfl⟩
abbrev main_v1011 : Ref sig .tc := ⟨.hbm, 1067, rfl⟩
abbrev main_v1012 : Ref sig .tc := ⟨.hbm, 1068, rfl⟩
abbrev main_v1013 : Ref sig .tc := ⟨.hbm, 1069, rfl⟩
abbrev main_v1014 : Ref sig .tc := ⟨.hbm, 1070, rfl⟩
abbrev main_v1015 : Ref sig .tc := ⟨.hbm, 1071, rfl⟩
abbrev main_v1016 : Ref sig .tc := ⟨.hbm, 1072, rfl⟩
abbrev main_v1017 : Ref sig .tc := ⟨.hbm, 1073, rfl⟩
abbrev main_v1018 : Ref sig .tc := ⟨.hbm, 1074, rfl⟩
abbrev main_c_52 : Ref sig .tc := ⟨.hbm, 1075, rfl⟩
abbrev main_v1019 : Ref sig .tc := ⟨.hbm, 1076, rfl⟩
abbrev main_v1020 : Ref sig .tc := ⟨.hbm, 1077, rfl⟩
abbrev main_v1021 : Ref sig .tc := ⟨.hbm, 1078, rfl⟩
abbrev main_v1022 : Ref sig .tc := ⟨.hbm, 1079, rfl⟩
abbrev main_v1023 : Ref sig .tc := ⟨.hbm, 1080, rfl⟩
abbrev main_v1024 : Ref sig .tc := ⟨.hbm, 1081, rfl⟩
abbrev main_v1025 : Ref sig .tc := ⟨.hbm, 1082, rfl⟩
abbrev main_v1026 : Ref sig .tc := ⟨.hbm, 1083, rfl⟩
abbrev main_v1027 : Ref sig .tc := ⟨.hbm, 1084, rfl⟩
abbrev main_v1028 : Ref sig .tc := ⟨.hbm, 1085, rfl⟩
abbrev main_v1029 : Ref sig .tc := ⟨.hbm, 1086, rfl⟩
abbrev main_v1030 : Ref sig .tc := ⟨.hbm, 1087, rfl⟩
abbrev main_v1031 : Ref sig .tc := ⟨.hbm, 1088, rfl⟩
abbrev main_v1032 : Ref sig .tc := ⟨.hbm, 1089, rfl⟩
abbrev main_v1033 : Ref sig .tc := ⟨.hbm, 1090, rfl⟩
abbrev main_v1034 : Ref sig .tc := ⟨.hbm, 1091, rfl⟩
abbrev main_v1035 : Ref sig .tc := ⟨.hbm, 1092, rfl⟩
abbrev main_v1036 : Ref sig .tc := ⟨.hbm, 1093, rfl⟩
abbrev main_v1037 : Ref sig .tc := ⟨.hbm, 1094, rfl⟩
abbrev main_v1038 : Ref sig .tc := ⟨.hbm, 1095, rfl⟩
abbrev main_c_53 : Ref sig .tc := ⟨.hbm, 1096, rfl⟩
abbrev main_v1039 : Ref sig .tc := ⟨.hbm, 1097, rfl⟩
abbrev main_v1040 : Ref sig .tc := ⟨.hbm, 1098, rfl⟩
abbrev main_v1041 : Ref sig .tc := ⟨.hbm, 1099, rfl⟩
abbrev main_v1042 : Ref sig .tc := ⟨.hbm, 1100, rfl⟩
abbrev main_v1043 : Ref sig .tc := ⟨.hbm, 1101, rfl⟩
abbrev main_v1044 : Ref sig .tc := ⟨.hbm, 1102, rfl⟩
abbrev main_v1045 : Ref sig .tc := ⟨.hbm, 1103, rfl⟩
abbrev main_v1046 : Ref sig .tc := ⟨.hbm, 1104, rfl⟩
abbrev main_v1047 : Ref sig .tc := ⟨.hbm, 1105, rfl⟩
abbrev main_v1048 : Ref sig .tc := ⟨.hbm, 1106, rfl⟩
abbrev main_v1049 : Ref sig .tc := ⟨.hbm, 1107, rfl⟩
abbrev main_v1050 : Ref sig .tc := ⟨.hbm, 1108, rfl⟩
abbrev main_v1051 : Ref sig .tc := ⟨.hbm, 1109, rfl⟩
abbrev main_v1052 : Ref sig .tc := ⟨.hbm, 1110, rfl⟩
abbrev main_v1053 : Ref sig .tc := ⟨.hbm, 1111, rfl⟩
abbrev main_v1054 : Ref sig .tc := ⟨.hbm, 1112, rfl⟩
abbrev main_v1055 : Ref sig .tc := ⟨.hbm, 1113, rfl⟩
abbrev main_v1056 : Ref sig .tc := ⟨.hbm, 1114, rfl⟩
abbrev main_v1057 : Ref sig .tc := ⟨.hbm, 1115, rfl⟩
abbrev main_v1058 : Ref sig .tc := ⟨.hbm, 1116, rfl⟩
abbrev main_c_54 : Ref sig .tc := ⟨.hbm, 1117, rfl⟩
abbrev main_v1059 : Ref sig .tc := ⟨.hbm, 1118, rfl⟩
abbrev main_v1060 : Ref sig .tc := ⟨.hbm, 1119, rfl⟩
abbrev main_v1061 : Ref sig .tc := ⟨.hbm, 1120, rfl⟩
abbrev main_v1062 : Ref sig .tc := ⟨.hbm, 1121, rfl⟩
abbrev main_v1063 : Ref sig .tc := ⟨.hbm, 1122, rfl⟩
abbrev main_v1064 : Ref sig .tc := ⟨.hbm, 1123, rfl⟩
abbrev main_v1065 : Ref sig .tc := ⟨.hbm, 1124, rfl⟩
abbrev main_v1066 : Ref sig .tc := ⟨.hbm, 1125, rfl⟩
abbrev main_v1067 : Ref sig .tc := ⟨.hbm, 1126, rfl⟩
abbrev main_v1068 : Ref sig .tc := ⟨.hbm, 1127, rfl⟩
abbrev main_v1069 : Ref sig .tc := ⟨.hbm, 1128, rfl⟩
abbrev main_v1070 : Ref sig .tc := ⟨.hbm, 1129, rfl⟩
abbrev main_v1071 : Ref sig .tc := ⟨.hbm, 1130, rfl⟩
abbrev main_v1072 : Ref sig .tc := ⟨.hbm, 1131, rfl⟩
abbrev main_v1073 : Ref sig .tc := ⟨.hbm, 1132, rfl⟩
abbrev main_v1074 : Ref sig .tc := ⟨.hbm, 1133, rfl⟩
abbrev main_v1075 : Ref sig .tc := ⟨.hbm, 1134, rfl⟩
abbrev main_v1076 : Ref sig .tc := ⟨.hbm, 1135, rfl⟩
abbrev main_v1077 : Ref sig .tc := ⟨.hbm, 1136, rfl⟩
abbrev main_v1078 : Ref sig .tc := ⟨.hbm, 1137, rfl⟩
abbrev main_c_55 : Ref sig .tc := ⟨.hbm, 1138, rfl⟩
abbrev main_v1079 : Ref sig .tc := ⟨.hbm, 1139, rfl⟩
abbrev main_v1080 : Ref sig .tc := ⟨.hbm, 1140, rfl⟩
abbrev main_v1081 : Ref sig .tc := ⟨.hbm, 1141, rfl⟩
abbrev main_v1082 : Ref sig .tc := ⟨.hbm, 1142, rfl⟩
abbrev main_v1083 : Ref sig .tc := ⟨.hbm, 1143, rfl⟩
abbrev main_v1084 : Ref sig .tc := ⟨.hbm, 1144, rfl⟩
abbrev main_v1085 : Ref sig .tc := ⟨.hbm, 1145, rfl⟩
abbrev main_v1086 : Ref sig .tc := ⟨.hbm, 1146, rfl⟩
abbrev main_v1087 : Ref sig .tc := ⟨.hbm, 1147, rfl⟩
abbrev main_v1088 : Ref sig .tc := ⟨.hbm, 1148, rfl⟩
abbrev main_v1089 : Ref sig .tc := ⟨.hbm, 1149, rfl⟩
abbrev main_v1090 : Ref sig .tc := ⟨.hbm, 1150, rfl⟩
abbrev main_v1091 : Ref sig .tc := ⟨.hbm, 1151, rfl⟩
abbrev main_v1092 : Ref sig .tc := ⟨.hbm, 1152, rfl⟩
abbrev main_v1093 : Ref sig .tc := ⟨.hbm, 1153, rfl⟩
abbrev main_v1094 : Ref sig .tc := ⟨.hbm, 1154, rfl⟩
abbrev main_v1095 : Ref sig .tc := ⟨.hbm, 1155, rfl⟩
abbrev main_v1096 : Ref sig .tc := ⟨.hbm, 1156, rfl⟩
abbrev main_v1097 : Ref sig .tc := ⟨.hbm, 1157, rfl⟩
abbrev main_v1098 : Ref sig .tc := ⟨.hbm, 1158, rfl⟩
abbrev main_c_56 : Ref sig .tc := ⟨.hbm, 1159, rfl⟩
abbrev main_v1099 : Ref sig .tc := ⟨.hbm, 1160, rfl⟩
abbrev main_v1100 : Ref sig .tc := ⟨.hbm, 1161, rfl⟩
abbrev main_c_57 : Ref sig .tc := ⟨.hbm, 1162, rfl⟩
abbrev main_v1101 : Ref sig .tc := ⟨.hbm, 1163, rfl⟩
abbrev main_v1102 : Ref sig .tc := ⟨.hbm, 1164, rfl⟩
abbrev main_v1103 : Ref sig .tc := ⟨.hbm, 1165, rfl⟩
abbrev main_v1104 : Ref sig .tc := ⟨.hbm, 1166, rfl⟩
abbrev main_v1105 : Ref sig .tc := ⟨.hbm, 1167, rfl⟩
abbrev main_v1106 : Ref sig .tc := ⟨.hbm, 1168, rfl⟩
abbrev main_v1107 : Ref sig .tc := ⟨.hbm, 1169, rfl⟩
abbrev main_v1108 : Ref sig .tc := ⟨.hbm, 1170, rfl⟩
abbrev main_v1109 : Ref sig .tc := ⟨.hbm, 1171, rfl⟩
abbrev main_v1110 : Ref sig .tc := ⟨.hbm, 1172, rfl⟩
abbrev main_v1111 : Ref sig .tc := ⟨.hbm, 1173, rfl⟩
abbrev main_v1112 : Ref sig .tc := ⟨.hbm, 1174, rfl⟩
abbrev main_v1113 : Ref sig .tc := ⟨.hbm, 1175, rfl⟩
abbrev main_v1114 : Ref sig .tc := ⟨.hbm, 1176, rfl⟩
abbrev main_v1115 : Ref sig .tc := ⟨.hbm, 1177, rfl⟩
abbrev main_v1116 : Ref sig .tc := ⟨.hbm, 1178, rfl⟩
abbrev main_v1117 : Ref sig .tc := ⟨.hbm, 1179, rfl⟩
abbrev main_v1118 : Ref sig .tc := ⟨.hbm, 1180, rfl⟩
abbrev main_v1119 : Ref sig .tc := ⟨.hbm, 1181, rfl⟩
abbrev main_v1120 : Ref sig .tc := ⟨.hbm, 1182, rfl⟩
abbrev main_v1121 : Ref sig .tc := ⟨.hbm, 1183, rfl⟩
abbrev main_v1122 : Ref sig .tc := ⟨.hbm, 1184, rfl⟩
abbrev main_c_58 : Ref sig .tc := ⟨.hbm, 1185, rfl⟩
abbrev main_v1123 : Ref sig .tc := ⟨.hbm, 1186, rfl⟩
abbrev main_v1124 : Ref sig .tc := ⟨.hbm, 1187, rfl⟩
abbrev main_v1125 : Ref sig .tc := ⟨.hbm, 1188, rfl⟩
abbrev main_v1126 : Ref sig .tc := ⟨.hbm, 1189, rfl⟩
abbrev main_v1127 : Ref sig .tc := ⟨.hbm, 1190, rfl⟩
abbrev main_v1128 : Ref sig .tc := ⟨.hbm, 1191, rfl⟩
abbrev main_v1129 : Ref sig .tc := ⟨.hbm, 1192, rfl⟩
abbrev main_v1130 : Ref sig .tc := ⟨.hbm, 1193, rfl⟩
abbrev main_v1131 : Ref sig .tc := ⟨.hbm, 1194, rfl⟩
abbrev main_v1132 : Ref sig .tc := ⟨.hbm, 1195, rfl⟩
abbrev main_v1133 : Ref sig .tc := ⟨.hbm, 1196, rfl⟩
abbrev main_v1134 : Ref sig .tc := ⟨.hbm, 1197, rfl⟩
abbrev main_v1135 : Ref sig .tc := ⟨.hbm, 1198, rfl⟩
abbrev main_v1136 : Ref sig .tc := ⟨.hbm, 1199, rfl⟩
abbrev main_v1137 : Ref sig .tc := ⟨.hbm, 1200, rfl⟩
abbrev main_v1138 : Ref sig .tc := ⟨.hbm, 1201, rfl⟩
abbrev main_v1139 : Ref sig .tc := ⟨.hbm, 1202, rfl⟩
abbrev main_v1140 : Ref sig .tc := ⟨.hbm, 1203, rfl⟩
abbrev main_v1141 : Ref sig .tc := ⟨.hbm, 1204, rfl⟩
abbrev main_v1142 : Ref sig .tc := ⟨.hbm, 1205, rfl⟩
abbrev main_c_59 : Ref sig .tc := ⟨.hbm, 1206, rfl⟩
abbrev main_v1143 : Ref sig .tc := ⟨.hbm, 1207, rfl⟩
abbrev main_v1144 : Ref sig .tc := ⟨.hbm, 1208, rfl⟩
abbrev main_v1145 : Ref sig .tc := ⟨.hbm, 1209, rfl⟩
abbrev main_v1146 : Ref sig .tc := ⟨.hbm, 1210, rfl⟩
abbrev main_v1147 : Ref sig .tc := ⟨.hbm, 1211, rfl⟩
abbrev main_v1148 : Ref sig .tc := ⟨.hbm, 1212, rfl⟩
abbrev main_v1149 : Ref sig .tc := ⟨.hbm, 1213, rfl⟩
abbrev main_v1150 : Ref sig .tc := ⟨.hbm, 1214, rfl⟩
abbrev main_v1151 : Ref sig .tc := ⟨.hbm, 1215, rfl⟩
abbrev main_v1152 : Ref sig .tc := ⟨.hbm, 1216, rfl⟩
abbrev main_v1153 : Ref sig .tc := ⟨.hbm, 1217, rfl⟩
abbrev main_v1154 : Ref sig .tc := ⟨.hbm, 1218, rfl⟩
abbrev main_v1155 : Ref sig .tc := ⟨.hbm, 1219, rfl⟩
abbrev main_v1156 : Ref sig .tc := ⟨.hbm, 1220, rfl⟩
abbrev main_v1157 : Ref sig .tc := ⟨.hbm, 1221, rfl⟩
abbrev main_v1158 : Ref sig .tc := ⟨.hbm, 1222, rfl⟩
abbrev main_v1159 : Ref sig .tc := ⟨.hbm, 1223, rfl⟩
abbrev main_v1160 : Ref sig .tc := ⟨.hbm, 1224, rfl⟩
abbrev main_v1161 : Ref sig .tc := ⟨.hbm, 1225, rfl⟩
abbrev main_v1162 : Ref sig .tc := ⟨.hbm, 1226, rfl⟩
abbrev main_c_60 : Ref sig .tc := ⟨.hbm, 1227, rfl⟩
abbrev main_v1163 : Ref sig .tc := ⟨.hbm, 1228, rfl⟩
abbrev main_v1164 : Ref sig .tc := ⟨.hbm, 1229, rfl⟩
abbrev main_v1165 : Ref sig .tc := ⟨.hbm, 1230, rfl⟩
abbrev main_v1166 : Ref sig .tc := ⟨.hbm, 1231, rfl⟩
abbrev main_v1167 : Ref sig .tc := ⟨.hbm, 1232, rfl⟩
abbrev main_v1168 : Ref sig .tc := ⟨.hbm, 1233, rfl⟩
abbrev main_v1169 : Ref sig .tc := ⟨.hbm, 1234, rfl⟩
abbrev main_v1170 : Ref sig .tc := ⟨.hbm, 1235, rfl⟩
abbrev main_v1171 : Ref sig .tc := ⟨.hbm, 1236, rfl⟩
abbrev main_v1172 : Ref sig .tc := ⟨.hbm, 1237, rfl⟩
abbrev main_v1173 : Ref sig .tc := ⟨.hbm, 1238, rfl⟩
abbrev main_v1174 : Ref sig .tc := ⟨.hbm, 1239, rfl⟩
abbrev main_v1175 : Ref sig .tc := ⟨.hbm, 1240, rfl⟩
abbrev main_v1176 : Ref sig .tc := ⟨.hbm, 1241, rfl⟩
abbrev main_v1177 : Ref sig .tc := ⟨.hbm, 1242, rfl⟩
abbrev main_v1178 : Ref sig .tc := ⟨.hbm, 1243, rfl⟩
abbrev main_v1179 : Ref sig .tc := ⟨.hbm, 1244, rfl⟩
abbrev main_v1180 : Ref sig .tc := ⟨.hbm, 1245, rfl⟩
abbrev main_v1181 : Ref sig .tc := ⟨.hbm, 1246, rfl⟩
abbrev main_v1182 : Ref sig .tc := ⟨.hbm, 1247, rfl⟩
abbrev main_c_61 : Ref sig .tc := ⟨.hbm, 1248, rfl⟩
abbrev main_v1183 : Ref sig .tc := ⟨.hbm, 1249, rfl⟩
abbrev main_v1184 : Ref sig .tc := ⟨.hbm, 1250, rfl⟩
abbrev main_v1185 : Ref sig .tc := ⟨.hbm, 1251, rfl⟩
abbrev main_v1186 : Ref sig .tc := ⟨.hbm, 1252, rfl⟩
abbrev main_v1187 : Ref sig .tc := ⟨.hbm, 1253, rfl⟩
abbrev main_v1188 : Ref sig .tc := ⟨.hbm, 1254, rfl⟩
abbrev main_v1189 : Ref sig .tc := ⟨.hbm, 1255, rfl⟩
abbrev main_v1190 : Ref sig .tc := ⟨.hbm, 1256, rfl⟩
abbrev main_v1191 : Ref sig .tc := ⟨.hbm, 1257, rfl⟩
abbrev main_v1192 : Ref sig .tc := ⟨.hbm, 1258, rfl⟩
abbrev main_v1193 : Ref sig .tc := ⟨.hbm, 1259, rfl⟩
abbrev main_v1194 : Ref sig .tc := ⟨.hbm, 1260, rfl⟩
abbrev main_v1195 : Ref sig .tc := ⟨.hbm, 1261, rfl⟩
abbrev main_v1196 : Ref sig .tc := ⟨.hbm, 1262, rfl⟩
abbrev main_v1197 : Ref sig .tc := ⟨.hbm, 1263, rfl⟩
abbrev main_v1198 : Ref sig .tc := ⟨.hbm, 1264, rfl⟩
abbrev main_v1199 : Ref sig .tc := ⟨.hbm, 1265, rfl⟩
abbrev main_v1200 : Ref sig .tc := ⟨.hbm, 1266, rfl⟩
abbrev main_v1201 : Ref sig .tc := ⟨.hbm, 1267, rfl⟩
abbrev main_v1202 : Ref sig .tc := ⟨.hbm, 1268, rfl⟩
abbrev main_c_62 : Ref sig .tc := ⟨.hbm, 1269, rfl⟩
abbrev main_v1203 : Ref sig .tc := ⟨.hbm, 1270, rfl⟩
abbrev main_v1204 : Ref sig .tc := ⟨.hbm, 1271, rfl⟩
abbrev main_v1205 : Ref sig .tc := ⟨.hbm, 1272, rfl⟩
abbrev main_v1206 : Ref sig .tc := ⟨.hbm, 1273, rfl⟩
abbrev main_v1207 : Ref sig .tc := ⟨.hbm, 1274, rfl⟩
abbrev main_v1208 : Ref sig .tc := ⟨.hbm, 1275, rfl⟩
abbrev main_v1209 : Ref sig .tc := ⟨.hbm, 1276, rfl⟩
abbrev main_v1210 : Ref sig .tc := ⟨.hbm, 1277, rfl⟩
abbrev main_v1211 : Ref sig .tc := ⟨.hbm, 1278, rfl⟩
abbrev main_v1212 : Ref sig .tc := ⟨.hbm, 1279, rfl⟩
abbrev main_v1213 : Ref sig .tc := ⟨.hbm, 1280, rfl⟩
abbrev main_v1214 : Ref sig .tc := ⟨.hbm, 1281, rfl⟩
abbrev main_v1215 : Ref sig .tc := ⟨.hbm, 1282, rfl⟩
abbrev main_v1216 : Ref sig .tc := ⟨.hbm, 1283, rfl⟩
abbrev main_v1217 : Ref sig .tc := ⟨.hbm, 1284, rfl⟩
abbrev main_v1218 : Ref sig .tc := ⟨.hbm, 1285, rfl⟩
abbrev main_v1219 : Ref sig .tc := ⟨.hbm, 1286, rfl⟩
abbrev main_v1220 : Ref sig .tc := ⟨.hbm, 1287, rfl⟩
abbrev main_v1221 : Ref sig .tc := ⟨.hbm, 1288, rfl⟩
abbrev main_v1222 : Ref sig .tc := ⟨.hbm, 1289, rfl⟩
abbrev main_c_63 : Ref sig .tc := ⟨.hbm, 1290, rfl⟩
abbrev main_v1223 : Ref sig .tc := ⟨.hbm, 1291, rfl⟩
abbrev main_v1224 : Ref sig .tc := ⟨.hbm, 1292, rfl⟩
abbrev main_v1225 : Ref sig .tc := ⟨.hbm, 1293, rfl⟩
abbrev main_v1226 : Ref sig .tc := ⟨.hbm, 1294, rfl⟩
abbrev main_v1227 : Ref sig .tc := ⟨.hbm, 1295, rfl⟩
abbrev main_v1228 : Ref sig .tc := ⟨.hbm, 1296, rfl⟩
abbrev main_v1229 : Ref sig .tc := ⟨.hbm, 1297, rfl⟩
abbrev main_v1230 : Ref sig .tc := ⟨.hbm, 1298, rfl⟩
abbrev main_v1231 : Ref sig .tc := ⟨.hbm, 1299, rfl⟩
abbrev main_v1232 : Ref sig .tc := ⟨.hbm, 1300, rfl⟩
abbrev main_v1233 : Ref sig .tc := ⟨.hbm, 1301, rfl⟩
abbrev main_v1234 : Ref sig .tc := ⟨.hbm, 1302, rfl⟩
abbrev main_v1235 : Ref sig .tc := ⟨.hbm, 1303, rfl⟩
abbrev main_v1236 : Ref sig .tc := ⟨.hbm, 1304, rfl⟩
abbrev main_v1237 : Ref sig .tc := ⟨.hbm, 1305, rfl⟩
abbrev main_v1238 : Ref sig .tc := ⟨.hbm, 1306, rfl⟩
abbrev main_v1239 : Ref sig .tc := ⟨.hbm, 1307, rfl⟩
abbrev main_v1240 : Ref sig .tc := ⟨.hbm, 1308, rfl⟩
abbrev main_v1241 : Ref sig .tc := ⟨.hbm, 1309, rfl⟩
abbrev main_v1242 : Ref sig .tc := ⟨.hbm, 1310, rfl⟩
abbrev main_c_64 : Ref sig .tc := ⟨.hbm, 1311, rfl⟩
abbrev main_v1243 : Ref sig .tc := ⟨.hbm, 1312, rfl⟩
abbrev main_v1244 : Ref sig .tc := ⟨.hbm, 1313, rfl⟩
abbrev main_v1245 : Ref sig .tc := ⟨.hbm, 1314, rfl⟩
abbrev main_v1246 : Ref sig .tc := ⟨.hbm, 1315, rfl⟩
abbrev main_v1247 : Ref sig .tc := ⟨.hbm, 1316, rfl⟩
abbrev main_v1248 : Ref sig .tc := ⟨.hbm, 1317, rfl⟩
abbrev main_v1249 : Ref sig .tc := ⟨.hbm, 1318, rfl⟩
abbrev main_v1250 : Ref sig .tc := ⟨.hbm, 1319, rfl⟩
abbrev main_v1251 : Ref sig .tc := ⟨.hbm, 1320, rfl⟩
abbrev main_v1252 : Ref sig .tc := ⟨.hbm, 1321, rfl⟩
abbrev main_v1253 : Ref sig .tc := ⟨.hbm, 1322, rfl⟩
abbrev main_v1254 : Ref sig .tc := ⟨.hbm, 1323, rfl⟩
abbrev main_v1255 : Ref sig .tc := ⟨.hbm, 1324, rfl⟩
abbrev main_v1256 : Ref sig .tc := ⟨.hbm, 1325, rfl⟩
abbrev main_v1257 : Ref sig .tc := ⟨.hbm, 1326, rfl⟩
abbrev main_v1258 : Ref sig .tc := ⟨.hbm, 1327, rfl⟩
abbrev main_v1259 : Ref sig .tc := ⟨.hbm, 1328, rfl⟩
abbrev main_v1260 : Ref sig .tc := ⟨.hbm, 1329, rfl⟩
abbrev main_v1261 : Ref sig .tc := ⟨.hbm, 1330, rfl⟩
abbrev main_v1262 : Ref sig .tc := ⟨.hbm, 1331, rfl⟩
abbrev main_c_65 : Ref sig .tc := ⟨.hbm, 1332, rfl⟩
abbrev main_v1263 : Ref sig .tc := ⟨.hbm, 1333, rfl⟩
abbrev main_v1264 : Ref sig .tc := ⟨.hbm, 1334, rfl⟩
abbrev main_v1265 : Ref sig .tc := ⟨.hbm, 1335, rfl⟩
abbrev main_v1266 : Ref sig .tc := ⟨.hbm, 1336, rfl⟩
abbrev main_v1267 : Ref sig .tc := ⟨.hbm, 1337, rfl⟩
abbrev main_v1268 : Ref sig .tc := ⟨.hbm, 1338, rfl⟩
abbrev main_v1269 : Ref sig .tc := ⟨.hbm, 1339, rfl⟩
abbrev main_v1270 : Ref sig .tc := ⟨.hbm, 1340, rfl⟩
abbrev main_v1271 : Ref sig .tc := ⟨.hbm, 1341, rfl⟩
abbrev main_v1272 : Ref sig .tc := ⟨.hbm, 1342, rfl⟩
abbrev main_v1273 : Ref sig .tc := ⟨.hbm, 1343, rfl⟩
abbrev main_v1274 : Ref sig .tc := ⟨.hbm, 1344, rfl⟩
abbrev main_v1275 : Ref sig .tc := ⟨.hbm, 1345, rfl⟩
abbrev main_v1276 : Ref sig .tc := ⟨.hbm, 1346, rfl⟩
abbrev main_v1277 : Ref sig .tc := ⟨.hbm, 1347, rfl⟩
abbrev main_v1278 : Ref sig .tc := ⟨.hbm, 1348, rfl⟩
abbrev main_v1279 : Ref sig .tc := ⟨.hbm, 1349, rfl⟩
abbrev main_v1280 : Ref sig .tc := ⟨.hbm, 1350, rfl⟩
abbrev main_v1281 : Ref sig .tc := ⟨.hbm, 1351, rfl⟩
abbrev main_v1282 : Ref sig .tc := ⟨.hbm, 1352, rfl⟩
abbrev main_c_66 : Ref sig .tc := ⟨.hbm, 1353, rfl⟩
abbrev main_v1283 : Ref sig .tc := ⟨.hbm, 1354, rfl⟩
abbrev main_v1284 : Ref sig .tc := ⟨.hbm, 1355, rfl⟩
abbrev main_v1285 : Ref sig .tc := ⟨.hbm, 1356, rfl⟩
abbrev main_v1286 : Ref sig .tc := ⟨.hbm, 1357, rfl⟩
abbrev main_v1287 : Ref sig .tc := ⟨.hbm, 1358, rfl⟩
abbrev main_v1288 : Ref sig .tc := ⟨.hbm, 1359, rfl⟩
abbrev main_v1289 : Ref sig .tc := ⟨.hbm, 1360, rfl⟩
abbrev main_v1290 : Ref sig .tc := ⟨.hbm, 1361, rfl⟩
abbrev main_v1291 : Ref sig .tc := ⟨.hbm, 1362, rfl⟩
abbrev main_v1292 : Ref sig .tc := ⟨.hbm, 1363, rfl⟩
abbrev main_v1293 : Ref sig .tc := ⟨.hbm, 1364, rfl⟩
abbrev main_v1294 : Ref sig .tc := ⟨.hbm, 1365, rfl⟩
abbrev main_v1295 : Ref sig .tc := ⟨.hbm, 1366, rfl⟩
abbrev main_v1296 : Ref sig .tc := ⟨.hbm, 1367, rfl⟩
abbrev main_v1297 : Ref sig .tc := ⟨.hbm, 1368, rfl⟩
abbrev main_v1298 : Ref sig .tc := ⟨.hbm, 1369, rfl⟩
abbrev main_v1299 : Ref sig .tc := ⟨.hbm, 1370, rfl⟩
abbrev main_v1300 : Ref sig .tc := ⟨.hbm, 1371, rfl⟩
abbrev main_v1301 : Ref sig .tc := ⟨.hbm, 1372, rfl⟩
abbrev main_v1302 : Ref sig .tc := ⟨.hbm, 1373, rfl⟩
abbrev main_c_67 : Ref sig .tc := ⟨.hbm, 1374, rfl⟩
abbrev main_v1303 : Ref sig .tc := ⟨.hbm, 1375, rfl⟩
abbrev main_v1304 : Ref sig .tc := ⟨.hbm, 1376, rfl⟩
abbrev main_v1305 : Ref sig .tc := ⟨.hbm, 1377, rfl⟩
abbrev main_v1306 : Ref sig .tc := ⟨.hbm, 1378, rfl⟩
abbrev main_v1307 : Ref sig .tc := ⟨.hbm, 1379, rfl⟩
abbrev main_v1308 : Ref sig .tc := ⟨.hbm, 1380, rfl⟩
abbrev main_v1309 : Ref sig .tc := ⟨.hbm, 1381, rfl⟩
abbrev main_v1310 : Ref sig .tc := ⟨.hbm, 1382, rfl⟩
abbrev main_v1311 : Ref sig .tc := ⟨.hbm, 1383, rfl⟩
abbrev main_v1312 : Ref sig .tc := ⟨.hbm, 1384, rfl⟩
abbrev main_v1313 : Ref sig .tc := ⟨.hbm, 1385, rfl⟩
abbrev main_v1314 : Ref sig .tc := ⟨.hbm, 1386, rfl⟩
abbrev main_v1315 : Ref sig .tc := ⟨.hbm, 1387, rfl⟩
abbrev main_v1316 : Ref sig .tc := ⟨.hbm, 1388, rfl⟩
abbrev main_v1317 : Ref sig .tc := ⟨.hbm, 1389, rfl⟩
abbrev main_v1318 : Ref sig .tc := ⟨.hbm, 1390, rfl⟩
abbrev main_v1319 : Ref sig .tc := ⟨.hbm, 1391, rfl⟩
abbrev main_v1320 : Ref sig .tc := ⟨.hbm, 1392, rfl⟩
abbrev main_v1321 : Ref sig .tc := ⟨.hbm, 1393, rfl⟩
abbrev main_v1322 : Ref sig .tc := ⟨.hbm, 1394, rfl⟩
abbrev main_c_68 : Ref sig .tc := ⟨.hbm, 1395, rfl⟩
abbrev main_v1323 : Ref sig .tc := ⟨.hbm, 1396, rfl⟩
abbrev main_v1324 : Ref sig .tc := ⟨.hbm, 1397, rfl⟩
abbrev main_c_69 : Ref sig .tc := ⟨.hbm, 1398, rfl⟩
abbrev main_v1325 : Ref sig .tc := ⟨.hbm, 1399, rfl⟩
abbrev main_v1326 : Ref sig .tc := ⟨.hbm, 1400, rfl⟩
abbrev main_v1327 : Ref sig .tc := ⟨.hbm, 1401, rfl⟩
abbrev main_v1328 : Ref sig .tc := ⟨.hbm, 1402, rfl⟩
abbrev main_v1329 : Ref sig .tc := ⟨.hbm, 1403, rfl⟩
abbrev main_v1330 : Ref sig .tc := ⟨.hbm, 1404, rfl⟩
abbrev main_v1331 : Ref sig .tc := ⟨.hbm, 1405, rfl⟩
abbrev main_v1332 : Ref sig .tc := ⟨.hbm, 1406, rfl⟩
abbrev main_v1333 : Ref sig .tc := ⟨.hbm, 1407, rfl⟩
abbrev main_v1334 : Ref sig .tc := ⟨.hbm, 1408, rfl⟩
abbrev main_v1335 : Ref sig .tc := ⟨.hbm, 1409, rfl⟩
abbrev main_v1336 : Ref sig .tc := ⟨.hbm, 1410, rfl⟩
abbrev main_v1337 : Ref sig .tc := ⟨.hbm, 1411, rfl⟩
abbrev main_v1338 : Ref sig .tc := ⟨.hbm, 1412, rfl⟩
abbrev main_v1339 : Ref sig .tc := ⟨.hbm, 1413, rfl⟩
abbrev main_v1340 : Ref sig .tc := ⟨.hbm, 1414, rfl⟩
abbrev main_v1341 : Ref sig .tc := ⟨.hbm, 1415, rfl⟩
abbrev main_v1342 : Ref sig .tc := ⟨.hbm, 1416, rfl⟩
abbrev main_v1343 : Ref sig .tc := ⟨.hbm, 1417, rfl⟩
abbrev main_v1344 : Ref sig .tc := ⟨.hbm, 1418, rfl⟩
abbrev main_v1345 : Ref sig .tc := ⟨.hbm, 1419, rfl⟩
abbrev main_v1346 : Ref sig .tc := ⟨.hbm, 1420, rfl⟩
abbrev main_c_70 : Ref sig .tc := ⟨.hbm, 1421, rfl⟩
abbrev main_v1347 : Ref sig .tc := ⟨.hbm, 1422, rfl⟩
abbrev main_v1348 : Ref sig .tc := ⟨.hbm, 1423, rfl⟩
abbrev main_v1349 : Ref sig .tc := ⟨.hbm, 1424, rfl⟩
abbrev main_v1350 : Ref sig .tc := ⟨.hbm, 1425, rfl⟩
abbrev main_v1351 : Ref sig .tc := ⟨.hbm, 1426, rfl⟩
abbrev main_v1352 : Ref sig .tc := ⟨.hbm, 1427, rfl⟩
abbrev main_v1353 : Ref sig .tc := ⟨.hbm, 1428, rfl⟩
abbrev main_v1354 : Ref sig .tc := ⟨.hbm, 1429, rfl⟩
abbrev main_v1355 : Ref sig .tc := ⟨.hbm, 1430, rfl⟩
abbrev main_v1356 : Ref sig .tc := ⟨.hbm, 1431, rfl⟩
abbrev main_v1357 : Ref sig .tc := ⟨.hbm, 1432, rfl⟩
abbrev main_v1358 : Ref sig .tc := ⟨.hbm, 1433, rfl⟩
abbrev main_v1359 : Ref sig .tc := ⟨.hbm, 1434, rfl⟩
abbrev main_v1360 : Ref sig .tc := ⟨.hbm, 1435, rfl⟩
abbrev main_v1361 : Ref sig .tc := ⟨.hbm, 1436, rfl⟩
abbrev main_v1362 : Ref sig .tc := ⟨.hbm, 1437, rfl⟩
abbrev main_v1363 : Ref sig .tc := ⟨.hbm, 1438, rfl⟩
abbrev main_v1364 : Ref sig .tc := ⟨.hbm, 1439, rfl⟩
abbrev main_v1365 : Ref sig .tc := ⟨.hbm, 1440, rfl⟩
abbrev main_v1366 : Ref sig .tc := ⟨.hbm, 1441, rfl⟩
abbrev main_c_71 : Ref sig .tc := ⟨.hbm, 1442, rfl⟩
abbrev main_v1367 : Ref sig .tc := ⟨.hbm, 1443, rfl⟩
abbrev main_v1368 : Ref sig .tc := ⟨.hbm, 1444, rfl⟩
abbrev main_v1369 : Ref sig .tc := ⟨.hbm, 1445, rfl⟩
abbrev main_v1370 : Ref sig .tc := ⟨.hbm, 1446, rfl⟩
abbrev main_v1371 : Ref sig .tc := ⟨.hbm, 1447, rfl⟩
abbrev main_v1372 : Ref sig .tc := ⟨.hbm, 1448, rfl⟩
abbrev main_v1373 : Ref sig .tc := ⟨.hbm, 1449, rfl⟩
abbrev main_v1374 : Ref sig .tc := ⟨.hbm, 1450, rfl⟩
abbrev main_v1375 : Ref sig .tc := ⟨.hbm, 1451, rfl⟩
abbrev main_v1376 : Ref sig .tc := ⟨.hbm, 1452, rfl⟩
abbrev main_v1377 : Ref sig .tc := ⟨.hbm, 1453, rfl⟩
abbrev main_v1378 : Ref sig .tc := ⟨.hbm, 1454, rfl⟩
abbrev main_v1379 : Ref sig .tc := ⟨.hbm, 1455, rfl⟩
abbrev main_v1380 : Ref sig .tc := ⟨.hbm, 1456, rfl⟩
abbrev main_v1381 : Ref sig .tc := ⟨.hbm, 1457, rfl⟩
abbrev main_v1382 : Ref sig .tc := ⟨.hbm, 1458, rfl⟩
abbrev main_v1383 : Ref sig .tc := ⟨.hbm, 1459, rfl⟩
abbrev main_v1384 : Ref sig .tc := ⟨.hbm, 1460, rfl⟩
abbrev main_v1385 : Ref sig .tc := ⟨.hbm, 1461, rfl⟩
abbrev main_v1386 : Ref sig .tc := ⟨.hbm, 1462, rfl⟩
abbrev main_c_72 : Ref sig .tc := ⟨.hbm, 1463, rfl⟩
abbrev main_v1387 : Ref sig .tc := ⟨.hbm, 1464, rfl⟩
abbrev main_v1388 : Ref sig .tc := ⟨.hbm, 1465, rfl⟩
abbrev main_v1389 : Ref sig .tc := ⟨.hbm, 1466, rfl⟩
abbrev main_v1390 : Ref sig .tc := ⟨.hbm, 1467, rfl⟩
abbrev main_v1391 : Ref sig .tc := ⟨.hbm, 1468, rfl⟩
abbrev main_v1392 : Ref sig .tc := ⟨.hbm, 1469, rfl⟩
abbrev main_v1393 : Ref sig .tc := ⟨.hbm, 1470, rfl⟩
abbrev main_v1394 : Ref sig .tc := ⟨.hbm, 1471, rfl⟩
abbrev main_v1395 : Ref sig .tc := ⟨.hbm, 1472, rfl⟩
abbrev main_v1396 : Ref sig .tc := ⟨.hbm, 1473, rfl⟩
abbrev main_v1397 : Ref sig .tc := ⟨.hbm, 1474, rfl⟩
abbrev main_v1398 : Ref sig .tc := ⟨.hbm, 1475, rfl⟩
abbrev main_v1399 : Ref sig .tc := ⟨.hbm, 1476, rfl⟩
abbrev main_v1400 : Ref sig .tc := ⟨.hbm, 1477, rfl⟩
abbrev main_v1401 : Ref sig .tc := ⟨.hbm, 1478, rfl⟩
abbrev main_v1402 : Ref sig .tc := ⟨.hbm, 1479, rfl⟩
abbrev main_v1403 : Ref sig .tc := ⟨.hbm, 1480, rfl⟩
abbrev main_v1404 : Ref sig .tc := ⟨.hbm, 1481, rfl⟩
abbrev main_v1405 : Ref sig .tc := ⟨.hbm, 1482, rfl⟩
abbrev main_v1406 : Ref sig .tc := ⟨.hbm, 1483, rfl⟩
abbrev main_c_73 : Ref sig .tc := ⟨.hbm, 1484, rfl⟩
abbrev main_v1407 : Ref sig .tc := ⟨.hbm, 1485, rfl⟩
abbrev main_v1408 : Ref sig .tc := ⟨.hbm, 1486, rfl⟩
abbrev main_v1409 : Ref sig .tc := ⟨.hbm, 1487, rfl⟩
abbrev main_v1410 : Ref sig .tc := ⟨.hbm, 1488, rfl⟩
abbrev main_v1411 : Ref sig .tc := ⟨.hbm, 1489, rfl⟩
abbrev main_v1412 : Ref sig .tc := ⟨.hbm, 1490, rfl⟩
abbrev main_v1413 : Ref sig .tc := ⟨.hbm, 1491, rfl⟩
abbrev main_v1414 : Ref sig .tc := ⟨.hbm, 1492, rfl⟩
abbrev main_v1415 : Ref sig .tc := ⟨.hbm, 1493, rfl⟩
abbrev main_v1416 : Ref sig .tc := ⟨.hbm, 1494, rfl⟩
abbrev main_v1417 : Ref sig .tc := ⟨.hbm, 1495, rfl⟩
abbrev main_v1418 : Ref sig .tc := ⟨.hbm, 1496, rfl⟩
abbrev main_v1419 : Ref sig .tc := ⟨.hbm, 1497, rfl⟩
abbrev main_v1420 : Ref sig .tc := ⟨.hbm, 1498, rfl⟩
abbrev main_v1421 : Ref sig .tc := ⟨.hbm, 1499, rfl⟩
abbrev main_v1422 : Ref sig .tc := ⟨.hbm, 1500, rfl⟩
abbrev main_v1423 : Ref sig .tc := ⟨.hbm, 1501, rfl⟩
abbrev main_v1424 : Ref sig .tc := ⟨.hbm, 1502, rfl⟩
abbrev main_v1425 : Ref sig .tc := ⟨.hbm, 1503, rfl⟩
abbrev main_v1426 : Ref sig .tc := ⟨.hbm, 1504, rfl⟩
abbrev main_c_74 : Ref sig .tc := ⟨.hbm, 1505, rfl⟩
abbrev main_v1427 : Ref sig .tc := ⟨.hbm, 1506, rfl⟩
abbrev main_v1428 : Ref sig .tc := ⟨.hbm, 1507, rfl⟩
abbrev main_v1429 : Ref sig .tc := ⟨.hbm, 1508, rfl⟩
abbrev main_v1430 : Ref sig .tc := ⟨.hbm, 1509, rfl⟩
abbrev main_v1431 : Ref sig .tc := ⟨.hbm, 1510, rfl⟩
abbrev main_v1432 : Ref sig .tc := ⟨.hbm, 1511, rfl⟩
abbrev main_v1433 : Ref sig .tc := ⟨.hbm, 1512, rfl⟩
abbrev main_v1434 : Ref sig .tc := ⟨.hbm, 1513, rfl⟩
abbrev main_v1435 : Ref sig .tc := ⟨.hbm, 1514, rfl⟩
abbrev main_v1436 : Ref sig .tc := ⟨.hbm, 1515, rfl⟩
abbrev main_v1437 : Ref sig .tc := ⟨.hbm, 1516, rfl⟩
abbrev main_v1438 : Ref sig .tc := ⟨.hbm, 1517, rfl⟩
abbrev main_v1439 : Ref sig .tc := ⟨.hbm, 1518, rfl⟩
abbrev main_v1440 : Ref sig .tc := ⟨.hbm, 1519, rfl⟩
abbrev main_v1441 : Ref sig .tc := ⟨.hbm, 1520, rfl⟩
abbrev main_v1442 : Ref sig .tc := ⟨.hbm, 1521, rfl⟩
abbrev main_v1443 : Ref sig .tc := ⟨.hbm, 1522, rfl⟩
abbrev main_v1444 : Ref sig .tc := ⟨.hbm, 1523, rfl⟩
abbrev main_v1445 : Ref sig .tc := ⟨.hbm, 1524, rfl⟩
abbrev main_v1446 : Ref sig .tc := ⟨.hbm, 1525, rfl⟩
abbrev main_c_75 : Ref sig .tc := ⟨.hbm, 1526, rfl⟩
abbrev main_v1447 : Ref sig .tc := ⟨.hbm, 1527, rfl⟩
abbrev main_v1448 : Ref sig .tc := ⟨.hbm, 1528, rfl⟩
abbrev main_v1449 : Ref sig .tc := ⟨.hbm, 1529, rfl⟩
abbrev main_v1450 : Ref sig .tc := ⟨.hbm, 1530, rfl⟩
abbrev main_v1451 : Ref sig .tc := ⟨.hbm, 1531, rfl⟩
abbrev main_v1452 : Ref sig .tc := ⟨.hbm, 1532, rfl⟩
abbrev main_v1453 : Ref sig .tc := ⟨.hbm, 1533, rfl⟩
abbrev main_v1454 : Ref sig .tc := ⟨.hbm, 1534, rfl⟩
abbrev main_v1455 : Ref sig .tc := ⟨.hbm, 1535, rfl⟩
abbrev main_v1456 : Ref sig .tc := ⟨.hbm, 1536, rfl⟩
abbrev main_v1457 : Ref sig .tc := ⟨.hbm, 1537, rfl⟩
abbrev main_v1458 : Ref sig .tc := ⟨.hbm, 1538, rfl⟩
abbrev main_v1459 : Ref sig .tc := ⟨.hbm, 1539, rfl⟩
abbrev main_v1460 : Ref sig .tc := ⟨.hbm, 1540, rfl⟩
abbrev main_v1461 : Ref sig .tc := ⟨.hbm, 1541, rfl⟩
abbrev main_v1462 : Ref sig .tc := ⟨.hbm, 1542, rfl⟩
abbrev main_v1463 : Ref sig .tc := ⟨.hbm, 1543, rfl⟩
abbrev main_v1464 : Ref sig .tc := ⟨.hbm, 1544, rfl⟩
abbrev main_v1465 : Ref sig .tc := ⟨.hbm, 1545, rfl⟩
abbrev main_v1466 : Ref sig .tc := ⟨.hbm, 1546, rfl⟩
abbrev main_c_76 : Ref sig .tc := ⟨.hbm, 1547, rfl⟩
abbrev main_v1467 : Ref sig .tc := ⟨.hbm, 1548, rfl⟩
abbrev main_v1468 : Ref sig .tc := ⟨.hbm, 1549, rfl⟩
abbrev main_v1469 : Ref sig .tc := ⟨.hbm, 1550, rfl⟩
abbrev main_v1470 : Ref sig .tc := ⟨.hbm, 1551, rfl⟩
abbrev main_v1471 : Ref sig .tc := ⟨.hbm, 1552, rfl⟩
abbrev main_v1472 : Ref sig .tc := ⟨.hbm, 1553, rfl⟩
abbrev main_v1473 : Ref sig .tc := ⟨.hbm, 1554, rfl⟩
abbrev main_v1474 : Ref sig .tc := ⟨.hbm, 1555, rfl⟩
abbrev main_v1475 : Ref sig .tc := ⟨.hbm, 1556, rfl⟩
abbrev main_v1476 : Ref sig .tc := ⟨.hbm, 1557, rfl⟩
abbrev main_v1477 : Ref sig .tc := ⟨.hbm, 1558, rfl⟩
abbrev main_v1478 : Ref sig .tc := ⟨.hbm, 1559, rfl⟩
abbrev main_v1479 : Ref sig .tc := ⟨.hbm, 1560, rfl⟩
abbrev main_v1480 : Ref sig .tc := ⟨.hbm, 1561, rfl⟩
abbrev main_v1481 : Ref sig .tc := ⟨.hbm, 1562, rfl⟩
abbrev main_v1482 : Ref sig .tc := ⟨.hbm, 1563, rfl⟩
abbrev main_v1483 : Ref sig .tc := ⟨.hbm, 1564, rfl⟩
abbrev main_v1484 : Ref sig .tc := ⟨.hbm, 1565, rfl⟩
abbrev main_v1485 : Ref sig .tc := ⟨.hbm, 1566, rfl⟩
abbrev main_v1486 : Ref sig .tc := ⟨.hbm, 1567, rfl⟩
abbrev main_c_77 : Ref sig .tc := ⟨.hbm, 1568, rfl⟩
abbrev main_v1487 : Ref sig .tc := ⟨.hbm, 1569, rfl⟩
abbrev main_v1488 : Ref sig .tc := ⟨.hbm, 1570, rfl⟩
abbrev main_v1489 : Ref sig .tc := ⟨.hbm, 1571, rfl⟩
abbrev main_v1490 : Ref sig .tc := ⟨.hbm, 1572, rfl⟩
abbrev main_v1491 : Ref sig .tc := ⟨.hbm, 1573, rfl⟩
abbrev main_v1492 : Ref sig .tc := ⟨.hbm, 1574, rfl⟩
abbrev main_v1493 : Ref sig .tc := ⟨.hbm, 1575, rfl⟩
abbrev main_v1494 : Ref sig .tc := ⟨.hbm, 1576, rfl⟩
abbrev main_v1495 : Ref sig .tc := ⟨.hbm, 1577, rfl⟩
abbrev main_v1496 : Ref sig .tc := ⟨.hbm, 1578, rfl⟩
abbrev main_v1497 : Ref sig .tc := ⟨.hbm, 1579, rfl⟩
abbrev main_v1498 : Ref sig .tc := ⟨.hbm, 1580, rfl⟩
abbrev main_v1499 : Ref sig .tc := ⟨.hbm, 1581, rfl⟩
abbrev main_v1500 : Ref sig .tc := ⟨.hbm, 1582, rfl⟩
abbrev main_v1501 : Ref sig .tc := ⟨.hbm, 1583, rfl⟩
abbrev main_v1502 : Ref sig .tc := ⟨.hbm, 1584, rfl⟩
abbrev main_v1503 : Ref sig .tc := ⟨.hbm, 1585, rfl⟩
abbrev main_v1504 : Ref sig .tc := ⟨.hbm, 1586, rfl⟩
abbrev main_v1505 : Ref sig .tc := ⟨.hbm, 1587, rfl⟩
abbrev main_v1506 : Ref sig .tc := ⟨.hbm, 1588, rfl⟩
abbrev main_c_78 : Ref sig .tc := ⟨.hbm, 1589, rfl⟩
abbrev main_v1507 : Ref sig .tc := ⟨.hbm, 1590, rfl⟩
abbrev main_v1508 : Ref sig .tc := ⟨.hbm, 1591, rfl⟩
abbrev main_v1509 : Ref sig .tc := ⟨.hbm, 1592, rfl⟩
abbrev main_v1510 : Ref sig .tc := ⟨.hbm, 1593, rfl⟩
abbrev main_v1511 : Ref sig .tc := ⟨.hbm, 1594, rfl⟩
abbrev main_v1512 : Ref sig .tc := ⟨.hbm, 1595, rfl⟩
abbrev main_v1513 : Ref sig .tc := ⟨.hbm, 1596, rfl⟩
abbrev main_v1514 : Ref sig .tc := ⟨.hbm, 1597, rfl⟩
abbrev main_v1515 : Ref sig .tc := ⟨.hbm, 1598, rfl⟩
abbrev main_v1516 : Ref sig .tc := ⟨.hbm, 1599, rfl⟩
abbrev main_v1517 : Ref sig .tc := ⟨.hbm, 1600, rfl⟩
abbrev main_v1518 : Ref sig .tc := ⟨.hbm, 1601, rfl⟩
abbrev main_v1519 : Ref sig .tc := ⟨.hbm, 1602, rfl⟩
abbrev main_v1520 : Ref sig .tc := ⟨.hbm, 1603, rfl⟩
abbrev main_v1521 : Ref sig .tc := ⟨.hbm, 1604, rfl⟩
abbrev main_v1522 : Ref sig .tc := ⟨.hbm, 1605, rfl⟩
abbrev main_v1523 : Ref sig .tc := ⟨.hbm, 1606, rfl⟩
abbrev main_v1524 : Ref sig .tc := ⟨.hbm, 1607, rfl⟩
abbrev main_v1525 : Ref sig .tc := ⟨.hbm, 1608, rfl⟩
abbrev main_v1526 : Ref sig .tc := ⟨.hbm, 1609, rfl⟩
abbrev main_c_79 : Ref sig .tc := ⟨.hbm, 1610, rfl⟩
abbrev main_v1527 : Ref sig .tc := ⟨.hbm, 1611, rfl⟩
abbrev main_v1528 : Ref sig .tc := ⟨.hbm, 1612, rfl⟩
abbrev main_c_80 : Ref sig .tc := ⟨.hbm, 1613, rfl⟩
abbrev main_v1529 : Ref sig .tc := ⟨.hbm, 1614, rfl⟩
abbrev main_v1530 : Ref sig .tc := ⟨.hbm, 1615, rfl⟩
abbrev main_v1531 : Ref sig .tc := ⟨.hbm, 1616, rfl⟩
abbrev main_v1532 : Ref sig .tc := ⟨.hbm, 1617, rfl⟩
abbrev main_v1533 : Ref sig .tc := ⟨.hbm, 1618, rfl⟩
abbrev main_v1534 : Ref sig .tc := ⟨.hbm, 1619, rfl⟩
abbrev main_v1535 : Ref sig .tc := ⟨.hbm, 1620, rfl⟩
abbrev main_v1536 : Ref sig .tc := ⟨.hbm, 1621, rfl⟩
abbrev main_v1537 : Ref sig .tc := ⟨.hbm, 1622, rfl⟩
abbrev main_v1538 : Ref sig .tc := ⟨.hbm, 1623, rfl⟩
abbrev main_v1539 : Ref sig .tc := ⟨.hbm, 1624, rfl⟩
abbrev main_v1540 : Ref sig .tc := ⟨.hbm, 1625, rfl⟩
abbrev main_v1541 : Ref sig .tc := ⟨.hbm, 1626, rfl⟩
abbrev main_v1542 : Ref sig .tc := ⟨.hbm, 1627, rfl⟩
abbrev main_v1543 : Ref sig .tc := ⟨.hbm, 1628, rfl⟩
abbrev main_v1544 : Ref sig .tc := ⟨.hbm, 1629, rfl⟩
abbrev main_v1545 : Ref sig .tc := ⟨.hbm, 1630, rfl⟩
abbrev main_v1546 : Ref sig .tc := ⟨.hbm, 1631, rfl⟩
abbrev main_v1547 : Ref sig .tc := ⟨.hbm, 1632, rfl⟩
abbrev main_v1548 : Ref sig .tc := ⟨.hbm, 1633, rfl⟩
abbrev main_v1549 : Ref sig .tc := ⟨.hbm, 1634, rfl⟩
abbrev main_v1550 : Ref sig .tc := ⟨.hbm, 1635, rfl⟩
abbrev main_c_81 : Ref sig .tc := ⟨.hbm, 1636, rfl⟩
abbrev main_v1551 : Ref sig .tc := ⟨.hbm, 1637, rfl⟩
abbrev main_v1552 : Ref sig .tc := ⟨.hbm, 1638, rfl⟩
abbrev main_v1553 : Ref sig .tc := ⟨.hbm, 1639, rfl⟩
abbrev main_v1554 : Ref sig .tc := ⟨.hbm, 1640, rfl⟩
abbrev main_v1555 : Ref sig .tc := ⟨.hbm, 1641, rfl⟩
abbrev main_v1556 : Ref sig .tc := ⟨.hbm, 1642, rfl⟩
abbrev main_v1557 : Ref sig .tc := ⟨.hbm, 1643, rfl⟩
abbrev main_v1558 : Ref sig .tc := ⟨.hbm, 1644, rfl⟩
abbrev main_v1559 : Ref sig .tc := ⟨.hbm, 1645, rfl⟩
abbrev main_v1560 : Ref sig .tc := ⟨.hbm, 1646, rfl⟩
abbrev main_v1561 : Ref sig .tc := ⟨.hbm, 1647, rfl⟩
abbrev main_v1562 : Ref sig .tc := ⟨.hbm, 1648, rfl⟩
abbrev main_v1563 : Ref sig .tc := ⟨.hbm, 1649, rfl⟩
abbrev main_v1564 : Ref sig .tc := ⟨.hbm, 1650, rfl⟩
abbrev main_v1565 : Ref sig .tc := ⟨.hbm, 1651, rfl⟩
abbrev main_v1566 : Ref sig .tc := ⟨.hbm, 1652, rfl⟩
abbrev main_v1567 : Ref sig .tc := ⟨.hbm, 1653, rfl⟩
abbrev main_v1568 : Ref sig .tc := ⟨.hbm, 1654, rfl⟩
abbrev main_v1569 : Ref sig .tc := ⟨.hbm, 1655, rfl⟩
abbrev main_v1570 : Ref sig .tc := ⟨.hbm, 1656, rfl⟩
abbrev main_c_82 : Ref sig .tc := ⟨.hbm, 1657, rfl⟩
abbrev main_v1571 : Ref sig .tc := ⟨.hbm, 1658, rfl⟩
abbrev main_v1572 : Ref sig .tc := ⟨.hbm, 1659, rfl⟩
abbrev main_v1573 : Ref sig .tc := ⟨.hbm, 1660, rfl⟩
abbrev main_v1574 : Ref sig .tc := ⟨.hbm, 1661, rfl⟩
abbrev main_v1575 : Ref sig .tc := ⟨.hbm, 1662, rfl⟩
abbrev main_v1576 : Ref sig .tc := ⟨.hbm, 1663, rfl⟩
abbrev main_v1577 : Ref sig .tc := ⟨.hbm, 1664, rfl⟩
abbrev main_v1578 : Ref sig .tc := ⟨.hbm, 1665, rfl⟩
abbrev main_v1579 : Ref sig .tc := ⟨.hbm, 1666, rfl⟩
abbrev main_v1580 : Ref sig .tc := ⟨.hbm, 1667, rfl⟩
abbrev main_v1581 : Ref sig .tc := ⟨.hbm, 1668, rfl⟩
abbrev main_v1582 : Ref sig .tc := ⟨.hbm, 1669, rfl⟩
abbrev main_v1583 : Ref sig .tc := ⟨.hbm, 1670, rfl⟩
abbrev main_v1584 : Ref sig .tc := ⟨.hbm, 1671, rfl⟩
abbrev main_v1585 : Ref sig .tc := ⟨.hbm, 1672, rfl⟩
abbrev main_v1586 : Ref sig .tc := ⟨.hbm, 1673, rfl⟩
abbrev main_v1587 : Ref sig .tc := ⟨.hbm, 1674, rfl⟩
abbrev main_v1588 : Ref sig .tc := ⟨.hbm, 1675, rfl⟩
abbrev main_v1589 : Ref sig .tc := ⟨.hbm, 1676, rfl⟩
abbrev main_v1590 : Ref sig .tc := ⟨.hbm, 1677, rfl⟩
abbrev main_c_83 : Ref sig .tc := ⟨.hbm, 1678, rfl⟩
abbrev main_v1591 : Ref sig .tc := ⟨.hbm, 1679, rfl⟩
abbrev main_v1592 : Ref sig .tc := ⟨.hbm, 1680, rfl⟩
abbrev main_v1593 : Ref sig .tc := ⟨.hbm, 1681, rfl⟩
abbrev main_v1594 : Ref sig .tc := ⟨.hbm, 1682, rfl⟩
abbrev main_v1595 : Ref sig .tc := ⟨.hbm, 1683, rfl⟩
abbrev main_v1596 : Ref sig .tc := ⟨.hbm, 1684, rfl⟩
abbrev main_v1597 : Ref sig .tc := ⟨.hbm, 1685, rfl⟩
abbrev main_v1598 : Ref sig .tc := ⟨.hbm, 1686, rfl⟩
abbrev main_v1599 : Ref sig .tc := ⟨.hbm, 1687, rfl⟩
abbrev main_v1600 : Ref sig .tc := ⟨.hbm, 1688, rfl⟩
abbrev main_v1601 : Ref sig .tc := ⟨.hbm, 1689, rfl⟩
abbrev main_v1602 : Ref sig .tc := ⟨.hbm, 1690, rfl⟩
abbrev main_v1603 : Ref sig .tc := ⟨.hbm, 1691, rfl⟩
abbrev main_v1604 : Ref sig .tc := ⟨.hbm, 1692, rfl⟩
abbrev main_v1605 : Ref sig .tc := ⟨.hbm, 1693, rfl⟩
abbrev main_v1606 : Ref sig .tc := ⟨.hbm, 1694, rfl⟩
abbrev main_v1607 : Ref sig .tc := ⟨.hbm, 1695, rfl⟩
abbrev main_v1608 : Ref sig .tc := ⟨.hbm, 1696, rfl⟩
abbrev main_v1609 : Ref sig .tc := ⟨.hbm, 1697, rfl⟩
abbrev main_v1610 : Ref sig .tc := ⟨.hbm, 1698, rfl⟩
abbrev main_c_84 : Ref sig .tc := ⟨.hbm, 1699, rfl⟩
abbrev main_v1611 : Ref sig .tc := ⟨.hbm, 1700, rfl⟩
abbrev main_v1612 : Ref sig .tc := ⟨.hbm, 1701, rfl⟩
abbrev main_v1613 : Ref sig .tc := ⟨.hbm, 1702, rfl⟩
abbrev main_v1614 : Ref sig .tc := ⟨.hbm, 1703, rfl⟩
abbrev main_v1615 : Ref sig .tc := ⟨.hbm, 1704, rfl⟩
abbrev main_v1616 : Ref sig .tc := ⟨.hbm, 1705, rfl⟩
abbrev main_v1617 : Ref sig .tc := ⟨.hbm, 1706, rfl⟩
abbrev main_v1618 : Ref sig .tc := ⟨.hbm, 1707, rfl⟩
abbrev main_v1619 : Ref sig .tc := ⟨.hbm, 1708, rfl⟩
abbrev main_v1620 : Ref sig .tc := ⟨.hbm, 1709, rfl⟩
abbrev main_v1621 : Ref sig .tc := ⟨.hbm, 1710, rfl⟩
abbrev main_v1622 : Ref sig .tc := ⟨.hbm, 1711, rfl⟩
abbrev main_v1623 : Ref sig .tc := ⟨.hbm, 1712, rfl⟩
abbrev main_v1624 : Ref sig .tc := ⟨.hbm, 1713, rfl⟩
abbrev main_v1625 : Ref sig .tc := ⟨.hbm, 1714, rfl⟩
abbrev main_v1626 : Ref sig .tc := ⟨.hbm, 1715, rfl⟩
abbrev main_v1627 : Ref sig .tc := ⟨.hbm, 1716, rfl⟩
abbrev main_v1628 : Ref sig .tc := ⟨.hbm, 1717, rfl⟩
abbrev main_v1629 : Ref sig .tc := ⟨.hbm, 1718, rfl⟩
abbrev main_v1630 : Ref sig .tc := ⟨.hbm, 1719, rfl⟩
abbrev main_c_85 : Ref sig .tc := ⟨.hbm, 1720, rfl⟩
abbrev main_v1631 : Ref sig .tc := ⟨.hbm, 1721, rfl⟩
abbrev main_v1632 : Ref sig .tc := ⟨.hbm, 1722, rfl⟩
abbrev main_v1633 : Ref sig .tc := ⟨.hbm, 1723, rfl⟩
abbrev main_v1634 : Ref sig .tc := ⟨.hbm, 1724, rfl⟩
abbrev main_v1635 : Ref sig .tc := ⟨.hbm, 1725, rfl⟩
abbrev main_v1636 : Ref sig .tc := ⟨.hbm, 1726, rfl⟩
abbrev main_v1637 : Ref sig .tc := ⟨.hbm, 1727, rfl⟩
abbrev main_v1638 : Ref sig .tc := ⟨.hbm, 1728, rfl⟩
abbrev main_v1639 : Ref sig .tc := ⟨.hbm, 1729, rfl⟩
abbrev main_v1640 : Ref sig .tc := ⟨.hbm, 1730, rfl⟩
abbrev main_v1641 : Ref sig .tc := ⟨.hbm, 1731, rfl⟩
abbrev main_v1642 : Ref sig .tc := ⟨.hbm, 1732, rfl⟩
abbrev main_v1643 : Ref sig .tc := ⟨.hbm, 1733, rfl⟩
abbrev main_v1644 : Ref sig .tc := ⟨.hbm, 1734, rfl⟩
abbrev main_v1645 : Ref sig .tc := ⟨.hbm, 1735, rfl⟩
abbrev main_v1646 : Ref sig .tc := ⟨.hbm, 1736, rfl⟩
abbrev main_v1647 : Ref sig .tc := ⟨.hbm, 1737, rfl⟩
abbrev main_v1648 : Ref sig .tc := ⟨.hbm, 1738, rfl⟩
abbrev main_v1649 : Ref sig .tc := ⟨.hbm, 1739, rfl⟩
abbrev main_v1650 : Ref sig .tc := ⟨.hbm, 1740, rfl⟩
abbrev main_c_86 : Ref sig .tc := ⟨.hbm, 1741, rfl⟩
abbrev main_v1651 : Ref sig .tc := ⟨.hbm, 1742, rfl⟩
abbrev main_v1652 : Ref sig .tc := ⟨.hbm, 1743, rfl⟩
abbrev main_v1653 : Ref sig .tc := ⟨.hbm, 1744, rfl⟩
abbrev main_v1654 : Ref sig .tc := ⟨.hbm, 1745, rfl⟩
abbrev main_v1655 : Ref sig .tc := ⟨.hbm, 1746, rfl⟩
abbrev main_v1656 : Ref sig .tc := ⟨.hbm, 1747, rfl⟩
abbrev main_v1657 : Ref sig .tc := ⟨.hbm, 1748, rfl⟩
abbrev main_v1658 : Ref sig .tc := ⟨.hbm, 1749, rfl⟩
abbrev main_v1659 : Ref sig .tc := ⟨.hbm, 1750, rfl⟩
abbrev main_v1660 : Ref sig .tc := ⟨.hbm, 1751, rfl⟩
abbrev main_v1661 : Ref sig .tc := ⟨.hbm, 1752, rfl⟩
abbrev main_v1662 : Ref sig .tc := ⟨.hbm, 1753, rfl⟩
abbrev main_v1663 : Ref sig .tc := ⟨.hbm, 1754, rfl⟩
abbrev main_v1664 : Ref sig .tc := ⟨.hbm, 1755, rfl⟩
abbrev main_v1665 : Ref sig .tc := ⟨.hbm, 1756, rfl⟩
abbrev main_v1666 : Ref sig .tc := ⟨.hbm, 1757, rfl⟩
abbrev main_v1667 : Ref sig .tc := ⟨.hbm, 1758, rfl⟩
abbrev main_v1668 : Ref sig .tc := ⟨.hbm, 1759, rfl⟩
abbrev main_v1669 : Ref sig .tc := ⟨.hbm, 1760, rfl⟩
abbrev main_v1670 : Ref sig .tc := ⟨.hbm, 1761, rfl⟩
abbrev main_c_87 : Ref sig .tc := ⟨.hbm, 1762, rfl⟩
abbrev main_v1671 : Ref sig .tc := ⟨.hbm, 1763, rfl⟩
abbrev main_v1672 : Ref sig .tc := ⟨.hbm, 1764, rfl⟩
abbrev main_v1673 : Ref sig .tc := ⟨.hbm, 1765, rfl⟩
abbrev main_v1674 : Ref sig .tc := ⟨.hbm, 1766, rfl⟩
abbrev main_v1675 : Ref sig .tc := ⟨.hbm, 1767, rfl⟩
abbrev main_v1676 : Ref sig .tc := ⟨.hbm, 1768, rfl⟩
abbrev main_v1677 : Ref sig .tc := ⟨.hbm, 1769, rfl⟩
abbrev main_v1678 : Ref sig .tc := ⟨.hbm, 1770, rfl⟩
abbrev main_v1679 : Ref sig .tc := ⟨.hbm, 1771, rfl⟩
abbrev main_v1680 : Ref sig .tc := ⟨.hbm, 1772, rfl⟩
abbrev main_v1681 : Ref sig .tc := ⟨.hbm, 1773, rfl⟩
abbrev main_v1682 : Ref sig .tc := ⟨.hbm, 1774, rfl⟩
abbrev main_v1683 : Ref sig .tc := ⟨.hbm, 1775, rfl⟩
abbrev main_v1684 : Ref sig .tc := ⟨.hbm, 1776, rfl⟩
abbrev main_v1685 : Ref sig .tc := ⟨.hbm, 1777, rfl⟩
abbrev main_v1686 : Ref sig .tc := ⟨.hbm, 1778, rfl⟩
abbrev main_v1687 : Ref sig .tc := ⟨.hbm, 1779, rfl⟩
abbrev main_v1688 : Ref sig .tc := ⟨.hbm, 1780, rfl⟩
abbrev main_v1689 : Ref sig .tc := ⟨.hbm, 1781, rfl⟩
abbrev main_v1690 : Ref sig .tc := ⟨.hbm, 1782, rfl⟩
abbrev main_c_88 : Ref sig .tc := ⟨.hbm, 1783, rfl⟩
abbrev main_v1691 : Ref sig .tc := ⟨.hbm, 1784, rfl⟩
abbrev main_v1692 : Ref sig .tc := ⟨.hbm, 1785, rfl⟩
abbrev main_v1693 : Ref sig .tc := ⟨.hbm, 1786, rfl⟩
abbrev main_v1694 : Ref sig .tc := ⟨.hbm, 1787, rfl⟩
abbrev main_v1695 : Ref sig .tc := ⟨.hbm, 1788, rfl⟩
abbrev main_v1696 : Ref sig .tc := ⟨.hbm, 1789, rfl⟩
abbrev main_v1697 : Ref sig .tc := ⟨.hbm, 1790, rfl⟩
abbrev main_v1698 : Ref sig .tc := ⟨.hbm, 1791, rfl⟩
abbrev main_v1699 : Ref sig .tc := ⟨.hbm, 1792, rfl⟩
abbrev main_v1700 : Ref sig .tc := ⟨.hbm, 1793, rfl⟩
abbrev main_v1701 : Ref sig .tc := ⟨.hbm, 1794, rfl⟩
abbrev main_v1702 : Ref sig .tc := ⟨.hbm, 1795, rfl⟩
abbrev main_v1703 : Ref sig .tc := ⟨.hbm, 1796, rfl⟩
abbrev main_v1704 : Ref sig .tc := ⟨.hbm, 1797, rfl⟩
abbrev main_v1705 : Ref sig .tc := ⟨.hbm, 1798, rfl⟩
abbrev main_v1706 : Ref sig .tc := ⟨.hbm, 1799, rfl⟩
abbrev main_v1707 : Ref sig .tc := ⟨.hbm, 1800, rfl⟩
abbrev main_v1708 : Ref sig .tc := ⟨.hbm, 1801, rfl⟩
abbrev main_v1709 : Ref sig .tc := ⟨.hbm, 1802, rfl⟩
abbrev main_v1710 : Ref sig .tc := ⟨.hbm, 1803, rfl⟩
abbrev main_c_89 : Ref sig .tc := ⟨.hbm, 1804, rfl⟩
abbrev main_v1711 : Ref sig .tc := ⟨.hbm, 1805, rfl⟩
abbrev main_v1712 : Ref sig .tc := ⟨.hbm, 1806, rfl⟩
abbrev main_c_90 : Ref sig .tc := ⟨.hbm, 1807, rfl⟩
abbrev main_v1713 : Ref sig .tc := ⟨.hbm, 1808, rfl⟩
abbrev main_v1714 : Ref sig .tc := ⟨.hbm, 1809, rfl⟩
abbrev main_v1715 : Ref sig .tc := ⟨.hbm, 1810, rfl⟩
abbrev main_v1716 : Ref sig .tc := ⟨.hbm, 1811, rfl⟩
abbrev main_v1717 : Ref sig .tc := ⟨.hbm, 1812, rfl⟩
abbrev main_v1718 : Ref sig .tc := ⟨.hbm, 1813, rfl⟩
abbrev main_v1719 : Ref sig .tc := ⟨.hbm, 1814, rfl⟩
abbrev main_v1720 : Ref sig .tc := ⟨.hbm, 1815, rfl⟩
abbrev main_v1721 : Ref sig .tc := ⟨.hbm, 1816, rfl⟩
abbrev main_v1722 : Ref sig .tc := ⟨.hbm, 1817, rfl⟩
abbrev main_v1723 : Ref sig .tc := ⟨.hbm, 1818, rfl⟩
abbrev main_v1724 : Ref sig .tc := ⟨.hbm, 1819, rfl⟩
abbrev main_v1725 : Ref sig .tc := ⟨.hbm, 1820, rfl⟩
abbrev main_v1726 : Ref sig .tc := ⟨.hbm, 1821, rfl⟩
abbrev main_v1727 : Ref sig .tc := ⟨.hbm, 1822, rfl⟩
abbrev main_v1728 : Ref sig .tc := ⟨.hbm, 1823, rfl⟩
abbrev main_v1729 : Ref sig .tc := ⟨.hbm, 1824, rfl⟩
abbrev main_v1730 : Ref sig .tc := ⟨.hbm, 1825, rfl⟩
abbrev main_v1731 : Ref sig .tc := ⟨.hbm, 1826, rfl⟩
abbrev main_v1732 : Ref sig .tc := ⟨.hbm, 1827, rfl⟩
abbrev main_v1733 : Ref sig .tc := ⟨.hbm, 1828, rfl⟩
abbrev main_v1734 : Ref sig .tc := ⟨.hbm, 1829, rfl⟩
abbrev main_c_91 : Ref sig .tc := ⟨.hbm, 1830, rfl⟩
abbrev main_v1735 : Ref sig .tc := ⟨.hbm, 1831, rfl⟩
abbrev main_v1736 : Ref sig .tc := ⟨.hbm, 1832, rfl⟩
abbrev main_v1737 : Ref sig .tc := ⟨.hbm, 1833, rfl⟩
abbrev main_v1738 : Ref sig .tc := ⟨.hbm, 1834, rfl⟩
abbrev main_v1739 : Ref sig .tc := ⟨.hbm, 1835, rfl⟩
abbrev main_v1740 : Ref sig .tc := ⟨.hbm, 1836, rfl⟩
abbrev main_v1741 : Ref sig .tc := ⟨.hbm, 1837, rfl⟩
abbrev main_v1742 : Ref sig .tc := ⟨.hbm, 1838, rfl⟩
abbrev main_v1743 : Ref sig .tc := ⟨.hbm, 1839, rfl⟩
abbrev main_v1744 : Ref sig .tc := ⟨.hbm, 1840, rfl⟩
abbrev main_v1745 : Ref sig .tc := ⟨.hbm, 1841, rfl⟩
abbrev main_v1746 : Ref sig .tc := ⟨.hbm, 1842, rfl⟩
abbrev main_v1747 : Ref sig .tc := ⟨.hbm, 1843, rfl⟩
abbrev main_v1748 : Ref sig .tc := ⟨.hbm, 1844, rfl⟩
abbrev main_v1749 : Ref sig .tc := ⟨.hbm, 1845, rfl⟩
abbrev main_v1750 : Ref sig .tc := ⟨.hbm, 1846, rfl⟩
abbrev main_v1751 : Ref sig .tc := ⟨.hbm, 1847, rfl⟩
abbrev main_v1752 : Ref sig .tc := ⟨.hbm, 1848, rfl⟩
abbrev main_v1753 : Ref sig .tc := ⟨.hbm, 1849, rfl⟩
abbrev main_v1754 : Ref sig .tc := ⟨.hbm, 1850, rfl⟩
abbrev main_c_92 : Ref sig .tc := ⟨.hbm, 1851, rfl⟩
abbrev main_v1755 : Ref sig .tc := ⟨.hbm, 1852, rfl⟩
abbrev main_v1756 : Ref sig .tc := ⟨.hbm, 1853, rfl⟩
abbrev main_v1757 : Ref sig .tc := ⟨.hbm, 1854, rfl⟩
abbrev main_v1758 : Ref sig .tc := ⟨.hbm, 1855, rfl⟩
abbrev main_v1759 : Ref sig .tc := ⟨.hbm, 1856, rfl⟩
abbrev main_v1760 : Ref sig .tc := ⟨.hbm, 1857, rfl⟩
abbrev main_v1761 : Ref sig .tc := ⟨.hbm, 1858, rfl⟩
abbrev main_v1762 : Ref sig .tc := ⟨.hbm, 1859, rfl⟩
abbrev main_v1763 : Ref sig .tc := ⟨.hbm, 1860, rfl⟩
abbrev main_v1764 : Ref sig .tc := ⟨.hbm, 1861, rfl⟩
abbrev main_v1765 : Ref sig .tc := ⟨.hbm, 1862, rfl⟩
abbrev main_v1766 : Ref sig .tc := ⟨.hbm, 1863, rfl⟩
abbrev main_v1767 : Ref sig .tc := ⟨.hbm, 1864, rfl⟩
abbrev main_v1768 : Ref sig .tc := ⟨.hbm, 1865, rfl⟩
abbrev main_v1769 : Ref sig .tc := ⟨.hbm, 1866, rfl⟩
abbrev main_v1770 : Ref sig .tc := ⟨.hbm, 1867, rfl⟩
abbrev main_v1771 : Ref sig .tc := ⟨.hbm, 1868, rfl⟩
abbrev main_v1772 : Ref sig .tc := ⟨.hbm, 1869, rfl⟩
abbrev main_v1773 : Ref sig .tc := ⟨.hbm, 1870, rfl⟩
abbrev main_v1774 : Ref sig .tc := ⟨.hbm, 1871, rfl⟩
abbrev main_c_93 : Ref sig .tc := ⟨.hbm, 1872, rfl⟩
abbrev main_v1775 : Ref sig .tc := ⟨.hbm, 1873, rfl⟩
abbrev main_v1776 : Ref sig .tc := ⟨.hbm, 1874, rfl⟩
abbrev main_v1777 : Ref sig .tc := ⟨.hbm, 1875, rfl⟩
abbrev main_v1778 : Ref sig .tc := ⟨.hbm, 1876, rfl⟩
abbrev main_v1779 : Ref sig .tc := ⟨.hbm, 1877, rfl⟩
abbrev main_v1780 : Ref sig .tc := ⟨.hbm, 1878, rfl⟩
abbrev main_v1781 : Ref sig .tc := ⟨.hbm, 1879, rfl⟩
abbrev main_v1782 : Ref sig .tc := ⟨.hbm, 1880, rfl⟩
abbrev main_v1783 : Ref sig .tc := ⟨.hbm, 1881, rfl⟩
abbrev main_v1784 : Ref sig .tc := ⟨.hbm, 1882, rfl⟩
abbrev main_v1785 : Ref sig .tc := ⟨.hbm, 1883, rfl⟩
abbrev main_v1786 : Ref sig .tc := ⟨.hbm, 1884, rfl⟩
abbrev main_v1787 : Ref sig .tc := ⟨.hbm, 1885, rfl⟩
abbrev main_v1788 : Ref sig .tc := ⟨.hbm, 1886, rfl⟩
abbrev main_v1789 : Ref sig .tc := ⟨.hbm, 1887, rfl⟩
abbrev main_v1790 : Ref sig .tc := ⟨.hbm, 1888, rfl⟩
abbrev main_v1791 : Ref sig .tc := ⟨.hbm, 1889, rfl⟩
abbrev main_v1792 : Ref sig .tc := ⟨.hbm, 1890, rfl⟩
abbrev main_v1793 : Ref sig .tc := ⟨.hbm, 1891, rfl⟩
abbrev main_v1794 : Ref sig .tc := ⟨.hbm, 1892, rfl⟩
abbrev main_c_94 : Ref sig .tc := ⟨.hbm, 1893, rfl⟩
abbrev main_v1795 : Ref sig .tc := ⟨.hbm, 1894, rfl⟩
abbrev main_v1796 : Ref sig .tc := ⟨.hbm, 1895, rfl⟩
abbrev main_v1797 : Ref sig .tc := ⟨.hbm, 1896, rfl⟩
abbrev main_v1798 : Ref sig .tc := ⟨.hbm, 1897, rfl⟩
abbrev main_v1799 : Ref sig .tc := ⟨.hbm, 1898, rfl⟩
abbrev main_v1800 : Ref sig .tc := ⟨.hbm, 1899, rfl⟩
abbrev main_v1801 : Ref sig .tc := ⟨.hbm, 1900, rfl⟩
abbrev main_v1802 : Ref sig .tc := ⟨.hbm, 1901, rfl⟩
abbrev main_v1803 : Ref sig .tc := ⟨.hbm, 1902, rfl⟩
abbrev main_v1804 : Ref sig .tc := ⟨.hbm, 1903, rfl⟩
abbrev main_v1805 : Ref sig .tc := ⟨.hbm, 1904, rfl⟩
abbrev main_v1806 : Ref sig .tc := ⟨.hbm, 1905, rfl⟩
abbrev main_v1807 : Ref sig .tc := ⟨.hbm, 1906, rfl⟩
abbrev main_v1808 : Ref sig .tc := ⟨.hbm, 1907, rfl⟩
abbrev main_v1809 : Ref sig .tc := ⟨.hbm, 1908, rfl⟩
abbrev main_v1810 : Ref sig .tc := ⟨.hbm, 1909, rfl⟩
abbrev main_v1811 : Ref sig .tc := ⟨.hbm, 1910, rfl⟩
abbrev main_v1812 : Ref sig .tc := ⟨.hbm, 1911, rfl⟩
abbrev main_v1813 : Ref sig .tc := ⟨.hbm, 1912, rfl⟩
abbrev main_v1814 : Ref sig .tc := ⟨.hbm, 1913, rfl⟩
abbrev main_c_95 : Ref sig .tc := ⟨.hbm, 1914, rfl⟩
abbrev main_v1815 : Ref sig .tc := ⟨.hbm, 1915, rfl⟩
abbrev main_v1816 : Ref sig .tc := ⟨.hbm, 1916, rfl⟩
abbrev main_v1817 : Ref sig .tc := ⟨.hbm, 1917, rfl⟩
abbrev main_v1818 : Ref sig .tc := ⟨.hbm, 1918, rfl⟩
abbrev main_v1819 : Ref sig .tc := ⟨.hbm, 1919, rfl⟩
abbrev main_v1820 : Ref sig .tc := ⟨.hbm, 1920, rfl⟩
abbrev main_v1821 : Ref sig .tc := ⟨.hbm, 1921, rfl⟩
abbrev main_v1822 : Ref sig .tc := ⟨.hbm, 1922, rfl⟩
abbrev main_v1823 : Ref sig .tc := ⟨.hbm, 1923, rfl⟩
abbrev main_v1824 : Ref sig .tc := ⟨.hbm, 1924, rfl⟩
abbrev main_v1825 : Ref sig .tc := ⟨.hbm, 1925, rfl⟩
abbrev main_v1826 : Ref sig .tc := ⟨.hbm, 1926, rfl⟩
abbrev main_v1827 : Ref sig .tc := ⟨.hbm, 1927, rfl⟩
abbrev main_v1828 : Ref sig .tc := ⟨.hbm, 1928, rfl⟩
abbrev main_v1829 : Ref sig .tc := ⟨.hbm, 1929, rfl⟩
abbrev main_v1830 : Ref sig .tc := ⟨.hbm, 1930, rfl⟩
abbrev main_v1831 : Ref sig .tc := ⟨.hbm, 1931, rfl⟩
abbrev main_v1832 : Ref sig .tc := ⟨.hbm, 1932, rfl⟩
abbrev main_v1833 : Ref sig .tc := ⟨.hbm, 1933, rfl⟩
abbrev main_v1834 : Ref sig .tc := ⟨.hbm, 1934, rfl⟩
abbrev main_c_96 : Ref sig .tc := ⟨.hbm, 1935, rfl⟩
abbrev main_v1835 : Ref sig .tc := ⟨.hbm, 1936, rfl⟩
abbrev main_v1836 : Ref sig .tc := ⟨.hbm, 1937, rfl⟩
abbrev main_v1837 : Ref sig .tc := ⟨.hbm, 1938, rfl⟩
abbrev main_v1838 : Ref sig .tc := ⟨.hbm, 1939, rfl⟩
abbrev main_v1839 : Ref sig .tc := ⟨.hbm, 1940, rfl⟩
abbrev main_v1840 : Ref sig .tc := ⟨.hbm, 1941, rfl⟩
abbrev main_v1841 : Ref sig .tc := ⟨.hbm, 1942, rfl⟩
abbrev main_v1842 : Ref sig .tc := ⟨.hbm, 1943, rfl⟩
abbrev main_v1843 : Ref sig .tc := ⟨.hbm, 1944, rfl⟩
abbrev main_v1844 : Ref sig .tc := ⟨.hbm, 1945, rfl⟩
abbrev main_v1845 : Ref sig .tc := ⟨.hbm, 1946, rfl⟩
abbrev main_v1846 : Ref sig .tc := ⟨.hbm, 1947, rfl⟩
abbrev main_v1847 : Ref sig .tc := ⟨.hbm, 1948, rfl⟩
abbrev main_v1848 : Ref sig .tc := ⟨.hbm, 1949, rfl⟩
abbrev main_v1849 : Ref sig .tc := ⟨.hbm, 1950, rfl⟩
abbrev main_v1850 : Ref sig .tc := ⟨.hbm, 1951, rfl⟩
abbrev main_v1851 : Ref sig .tc := ⟨.hbm, 1952, rfl⟩
abbrev main_v1852 : Ref sig .tc := ⟨.hbm, 1953, rfl⟩
abbrev main_v1853 : Ref sig .tc := ⟨.hbm, 1954, rfl⟩
abbrev main_v1854 : Ref sig .tc := ⟨.hbm, 1955, rfl⟩
abbrev main_c_97 : Ref sig .tc := ⟨.hbm, 1956, rfl⟩
abbrev main_v1855 : Ref sig .tc := ⟨.hbm, 1957, rfl⟩
abbrev main_v1856 : Ref sig .tc := ⟨.hbm, 1958, rfl⟩
abbrev main_v1857 : Ref sig .tc := ⟨.hbm, 1959, rfl⟩
abbrev main_v1858 : Ref sig .tc := ⟨.hbm, 1960, rfl⟩
abbrev main_v1859 : Ref sig .tc := ⟨.hbm, 1961, rfl⟩
abbrev main_v1860 : Ref sig .tc := ⟨.hbm, 1962, rfl⟩
abbrev main_v1861 : Ref sig .tc := ⟨.hbm, 1963, rfl⟩
abbrev main_v1862 : Ref sig .tc := ⟨.hbm, 1964, rfl⟩
abbrev main_v1863 : Ref sig .tc := ⟨.hbm, 1965, rfl⟩
abbrev main_v1864 : Ref sig .tc := ⟨.hbm, 1966, rfl⟩
abbrev main_v1865 : Ref sig .tc := ⟨.hbm, 1967, rfl⟩
abbrev main_v1866 : Ref sig .tc := ⟨.hbm, 1968, rfl⟩
abbrev main_v1867 : Ref sig .tc := ⟨.hbm, 1969, rfl⟩
abbrev main_v1868 : Ref sig .tc := ⟨.hbm, 1970, rfl⟩
abbrev main_v1869 : Ref sig .tc := ⟨.hbm, 1971, rfl⟩
abbrev main_v1870 : Ref sig .tc := ⟨.hbm, 1972, rfl⟩
abbrev main_v1871 : Ref sig .tc := ⟨.hbm, 1973, rfl⟩
abbrev main_v1872 : Ref sig .tc := ⟨.hbm, 1974, rfl⟩
abbrev main_v1873 : Ref sig .tc := ⟨.hbm, 1975, rfl⟩
abbrev main_v1874 : Ref sig .tc := ⟨.hbm, 1976, rfl⟩
abbrev main_c_98 : Ref sig .tc := ⟨.hbm, 1977, rfl⟩
abbrev main_v1875 : Ref sig .tc := ⟨.hbm, 1978, rfl⟩
abbrev main_v1876 : Ref sig .tc := ⟨.hbm, 1979, rfl⟩
abbrev main_c_99 : Ref sig .tc := ⟨.hbm, 1980, rfl⟩
abbrev main_v1877 : Ref sig .tc := ⟨.hbm, 1981, rfl⟩
abbrev main_v1878 : Ref sig .tc := ⟨.hbm, 1982, rfl⟩
abbrev main_v1879 : Ref sig .tc := ⟨.hbm, 1983, rfl⟩
abbrev main_v1880 : Ref sig .tc := ⟨.hbm, 1984, rfl⟩
abbrev main_v1881 : Ref sig .tc := ⟨.hbm, 1985, rfl⟩
abbrev main_v1882 : Ref sig .tc := ⟨.hbm, 1986, rfl⟩
abbrev main_v1883 : Ref sig .tc := ⟨.hbm, 1987, rfl⟩
abbrev main_v1884 : Ref sig .tc := ⟨.hbm, 1988, rfl⟩
abbrev main_v1885 : Ref sig .tc := ⟨.hbm, 1989, rfl⟩
abbrev main_v1886 : Ref sig .tc := ⟨.hbm, 1990, rfl⟩
abbrev main_v1887 : Ref sig .tc := ⟨.hbm, 1991, rfl⟩
abbrev main_v1888 : Ref sig .tc := ⟨.hbm, 1992, rfl⟩
abbrev main_v1889 : Ref sig .tc := ⟨.hbm, 1993, rfl⟩
abbrev main_v1890 : Ref sig .tc := ⟨.hbm, 1994, rfl⟩
abbrev main_v1891 : Ref sig .tc := ⟨.hbm, 1995, rfl⟩
abbrev main_v1892 : Ref sig .tc := ⟨.hbm, 1996, rfl⟩
abbrev main_v1893 : Ref sig .tc := ⟨.hbm, 1997, rfl⟩
abbrev main_v1894 : Ref sig .tc := ⟨.hbm, 1998, rfl⟩
abbrev main_v1895 : Ref sig .tc := ⟨.hbm, 1999, rfl⟩
abbrev main_v1896 : Ref sig .tc := ⟨.hbm, 2000, rfl⟩
abbrev main_v1897 : Ref sig .tc := ⟨.hbm, 2001, rfl⟩
abbrev main_v1898 : Ref sig .tc := ⟨.hbm, 2002, rfl⟩
abbrev main_c_100 : Ref sig .tc := ⟨.hbm, 2003, rfl⟩
abbrev main_v1899 : Ref sig .tc := ⟨.hbm, 2004, rfl⟩
abbrev main_v1900 : Ref sig .tc := ⟨.hbm, 2005, rfl⟩
abbrev main_v1901 : Ref sig .tc := ⟨.hbm, 2006, rfl⟩
abbrev main_v1902 : Ref sig .tc := ⟨.hbm, 2007, rfl⟩
abbrev main_v1903 : Ref sig .tc := ⟨.hbm, 2008, rfl⟩
abbrev main_v1904 : Ref sig .tc := ⟨.hbm, 2009, rfl⟩
abbrev main_v1905 : Ref sig .tc := ⟨.hbm, 2010, rfl⟩
abbrev main_v1906 : Ref sig .tc := ⟨.hbm, 2011, rfl⟩
abbrev main_v1907 : Ref sig .tc := ⟨.hbm, 2012, rfl⟩
abbrev main_v1908 : Ref sig .tc := ⟨.hbm, 2013, rfl⟩
abbrev main_v1909 : Ref sig .tc := ⟨.hbm, 2014, rfl⟩
abbrev main_v1910 : Ref sig .tc := ⟨.hbm, 2015, rfl⟩
abbrev main_v1911 : Ref sig .tc := ⟨.hbm, 2016, rfl⟩
abbrev main_v1912 : Ref sig .tc := ⟨.hbm, 2017, rfl⟩
abbrev main_v1913 : Ref sig .tc := ⟨.hbm, 2018, rfl⟩
abbrev main_v1914 : Ref sig .tc := ⟨.hbm, 2019, rfl⟩
abbrev main_v1915 : Ref sig .tc := ⟨.hbm, 2020, rfl⟩
abbrev main_v1916 : Ref sig .tc := ⟨.hbm, 2021, rfl⟩
abbrev main_v1917 : Ref sig .tc := ⟨.hbm, 2022, rfl⟩
abbrev main_v1918 : Ref sig .tc := ⟨.hbm, 2023, rfl⟩
abbrev main_c_101 : Ref sig .tc := ⟨.hbm, 2024, rfl⟩
abbrev main_v1919 : Ref sig .tc := ⟨.hbm, 2025, rfl⟩
abbrev main_v1920 : Ref sig .tc := ⟨.hbm, 2026, rfl⟩
abbrev main_v1921 : Ref sig .tc := ⟨.hbm, 2027, rfl⟩
abbrev main_v1922 : Ref sig .tc := ⟨.hbm, 2028, rfl⟩
abbrev main_v1923 : Ref sig .tc := ⟨.hbm, 2029, rfl⟩
abbrev main_v1924 : Ref sig .tc := ⟨.hbm, 2030, rfl⟩
abbrev main_v1925 : Ref sig .tc := ⟨.hbm, 2031, rfl⟩
abbrev main_v1926 : Ref sig .tc := ⟨.hbm, 2032, rfl⟩
abbrev main_v1927 : Ref sig .tc := ⟨.hbm, 2033, rfl⟩
abbrev main_v1928 : Ref sig .tc := ⟨.hbm, 2034, rfl⟩
abbrev main_v1929 : Ref sig .tc := ⟨.hbm, 2035, rfl⟩
abbrev main_v1930 : Ref sig .tc := ⟨.hbm, 2036, rfl⟩
abbrev main_v1931 : Ref sig .tc := ⟨.hbm, 2037, rfl⟩
abbrev main_v1932 : Ref sig .tc := ⟨.hbm, 2038, rfl⟩
abbrev main_v1933 : Ref sig .tc := ⟨.hbm, 2039, rfl⟩
abbrev main_v1934 : Ref sig .tc := ⟨.hbm, 2040, rfl⟩
abbrev main_v1935 : Ref sig .tc := ⟨.hbm, 2041, rfl⟩
abbrev main_v1936 : Ref sig .tc := ⟨.hbm, 2042, rfl⟩
abbrev main_v1937 : Ref sig .tc := ⟨.hbm, 2043, rfl⟩
abbrev main_v1938 : Ref sig .tc := ⟨.hbm, 2044, rfl⟩
abbrev main_c_102 : Ref sig .tc := ⟨.hbm, 2045, rfl⟩
abbrev main_v1939 : Ref sig .tc := ⟨.hbm, 2046, rfl⟩
abbrev main_v1940 : Ref sig .tc := ⟨.hbm, 2047, rfl⟩
abbrev main_v1941 : Ref sig .tc := ⟨.hbm, 2048, rfl⟩
abbrev main_v1942 : Ref sig .tc := ⟨.hbm, 2049, rfl⟩
abbrev main_v1943 : Ref sig .tc := ⟨.hbm, 2050, rfl⟩
abbrev main_v1944 : Ref sig .tc := ⟨.hbm, 2051, rfl⟩
abbrev main_v1945 : Ref sig .tc := ⟨.hbm, 2052, rfl⟩
abbrev main_v1946 : Ref sig .tc := ⟨.hbm, 2053, rfl⟩
abbrev main_v1947 : Ref sig .tc := ⟨.hbm, 2054, rfl⟩
abbrev main_v1948 : Ref sig .tc := ⟨.hbm, 2055, rfl⟩
abbrev main_v1949 : Ref sig .tc := ⟨.hbm, 2056, rfl⟩
abbrev main_v1950 : Ref sig .tc := ⟨.hbm, 2057, rfl⟩
abbrev main_v1951 : Ref sig .tc := ⟨.hbm, 2058, rfl⟩
abbrev main_v1952 : Ref sig .tc := ⟨.hbm, 2059, rfl⟩
abbrev main_v1953 : Ref sig .tc := ⟨.hbm, 2060, rfl⟩
abbrev main_v1954 : Ref sig .tc := ⟨.hbm, 2061, rfl⟩
abbrev main_v1955 : Ref sig .tc := ⟨.hbm, 2062, rfl⟩
abbrev main_v1956 : Ref sig .tc := ⟨.hbm, 2063, rfl⟩
abbrev main_v1957 : Ref sig .tc := ⟨.hbm, 2064, rfl⟩
abbrev main_v1958 : Ref sig .tc := ⟨.hbm, 2065, rfl⟩
abbrev main_c_103 : Ref sig .tc := ⟨.hbm, 2066, rfl⟩
abbrev main_v1959 : Ref sig .tc := ⟨.hbm, 2067, rfl⟩
abbrev main_v1960 : Ref sig .tc := ⟨.hbm, 2068, rfl⟩
abbrev main_v1961 : Ref sig .tc := ⟨.hbm, 2069, rfl⟩
abbrev main_v1962 : Ref sig .tc := ⟨.hbm, 2070, rfl⟩
abbrev main_v1963 : Ref sig .tc := ⟨.hbm, 2071, rfl⟩
abbrev main_v1964 : Ref sig .tc := ⟨.hbm, 2072, rfl⟩
abbrev main_v1965 : Ref sig .tc := ⟨.hbm, 2073, rfl⟩
abbrev main_v1966 : Ref sig .tc := ⟨.hbm, 2074, rfl⟩
abbrev main_v1967 : Ref sig .tc := ⟨.hbm, 2075, rfl⟩
abbrev main_v1968 : Ref sig .tc := ⟨.hbm, 2076, rfl⟩
abbrev main_v1969 : Ref sig .tc := ⟨.hbm, 2077, rfl⟩
abbrev main_v1970 : Ref sig .tc := ⟨.hbm, 2078, rfl⟩
abbrev main_v1971 : Ref sig .tc := ⟨.hbm, 2079, rfl⟩
abbrev main_v1972 : Ref sig .tc := ⟨.hbm, 2080, rfl⟩
abbrev main_v1973 : Ref sig .tc := ⟨.hbm, 2081, rfl⟩
abbrev main_v1974 : Ref sig .tc := ⟨.hbm, 2082, rfl⟩
abbrev main_v1975 : Ref sig .tc := ⟨.hbm, 2083, rfl⟩
abbrev main_v1976 : Ref sig .tc := ⟨.hbm, 2084, rfl⟩
abbrev main_v1977 : Ref sig .tc := ⟨.hbm, 2085, rfl⟩
abbrev main_v1978 : Ref sig .tc := ⟨.hbm, 2086, rfl⟩
abbrev main_c_104 : Ref sig .tc := ⟨.hbm, 2087, rfl⟩
abbrev main_v1979 : Ref sig .tc := ⟨.hbm, 2088, rfl⟩
abbrev main_v1980 : Ref sig .tc := ⟨.hbm, 2089, rfl⟩
abbrev main_v1981 : Ref sig .tc := ⟨.hbm, 2090, rfl⟩
abbrev main_v1982 : Ref sig .tc := ⟨.hbm, 2091, rfl⟩
abbrev main_v1983 : Ref sig .tc := ⟨.hbm, 2092, rfl⟩
abbrev main_v1984 : Ref sig .tc := ⟨.hbm, 2093, rfl⟩
abbrev main_v1985 : Ref sig .tc := ⟨.hbm, 2094, rfl⟩
abbrev main_v1986 : Ref sig .tc := ⟨.hbm, 2095, rfl⟩
abbrev main_v1987 : Ref sig .tc := ⟨.hbm, 2096, rfl⟩
abbrev main_v1988 : Ref sig .tc := ⟨.hbm, 2097, rfl⟩
abbrev main_v1989 : Ref sig .tc := ⟨.hbm, 2098, rfl⟩
abbrev main_v1990 : Ref sig .tc := ⟨.hbm, 2099, rfl⟩
abbrev main_v1991 : Ref sig .tc := ⟨.hbm, 2100, rfl⟩
abbrev main_v1992 : Ref sig .tc := ⟨.hbm, 2101, rfl⟩
abbrev main_v1993 : Ref sig .tc := ⟨.hbm, 2102, rfl⟩
abbrev main_v1994 : Ref sig .tc := ⟨.hbm, 2103, rfl⟩
abbrev main_v1995 : Ref sig .tc := ⟨.hbm, 2104, rfl⟩
abbrev main_v1996 : Ref sig .tc := ⟨.hbm, 2105, rfl⟩
abbrev main_v1997 : Ref sig .tc := ⟨.hbm, 2106, rfl⟩
abbrev main_v1998 : Ref sig .tc := ⟨.hbm, 2107, rfl⟩
abbrev main_c_105 : Ref sig .tc := ⟨.hbm, 2108, rfl⟩
abbrev main_v1999 : Ref sig .tc := ⟨.hbm, 2109, rfl⟩
abbrev main_v2000 : Ref sig .tc := ⟨.hbm, 2110, rfl⟩
abbrev main_v2001 : Ref sig .tc := ⟨.hbm, 2111, rfl⟩
abbrev main_v2002 : Ref sig .tc := ⟨.hbm, 2112, rfl⟩
abbrev main_v2003 : Ref sig .tc := ⟨.hbm, 2113, rfl⟩
abbrev main_v2004 : Ref sig .tc := ⟨.hbm, 2114, rfl⟩
abbrev main_v2005 : Ref sig .tc := ⟨.hbm, 2115, rfl⟩
abbrev main_v2006 : Ref sig .tc := ⟨.hbm, 2116, rfl⟩
abbrev main_v2007 : Ref sig .tc := ⟨.hbm, 2117, rfl⟩
abbrev main_v2008 : Ref sig .tc := ⟨.hbm, 2118, rfl⟩
abbrev main_v2009 : Ref sig .tc := ⟨.hbm, 2119, rfl⟩
abbrev main_v2010 : Ref sig .tc := ⟨.hbm, 2120, rfl⟩
abbrev main_v2011 : Ref sig .tc := ⟨.hbm, 2121, rfl⟩
abbrev main_v2012 : Ref sig .tc := ⟨.hbm, 2122, rfl⟩
abbrev main_v2013 : Ref sig .tc := ⟨.hbm, 2123, rfl⟩
abbrev main_v2014 : Ref sig .tc := ⟨.hbm, 2124, rfl⟩
abbrev main_v2015 : Ref sig .tc := ⟨.hbm, 2125, rfl⟩
abbrev main_v2016 : Ref sig .tc := ⟨.hbm, 2126, rfl⟩
abbrev main_v2017 : Ref sig .tc := ⟨.hbm, 2127, rfl⟩
abbrev main_v2018 : Ref sig .tc := ⟨.hbm, 2128, rfl⟩
abbrev main_c_106 : Ref sig .tc := ⟨.hbm, 2129, rfl⟩
abbrev main_v2019 : Ref sig .tc := ⟨.hbm, 2130, rfl⟩
abbrev main_v2020 : Ref sig .tc := ⟨.hbm, 2131, rfl⟩
abbrev main_c_107 : Ref sig .tc := ⟨.hbm, 2132, rfl⟩
abbrev main_v2021 : Ref sig .tc := ⟨.hbm, 2133, rfl⟩
abbrev main_v2022 : Ref sig .tc := ⟨.hbm, 2134, rfl⟩
abbrev main_v2023 : Ref sig .tc := ⟨.hbm, 2135, rfl⟩
abbrev main_v2024 : Ref sig .tc := ⟨.hbm, 2136, rfl⟩
abbrev main_v2025 : Ref sig .tc := ⟨.hbm, 2137, rfl⟩
abbrev main_v2026 : Ref sig .tc := ⟨.hbm, 2138, rfl⟩
abbrev main_v2027 : Ref sig .tc := ⟨.hbm, 2139, rfl⟩
abbrev main_v2028 : Ref sig .tc := ⟨.hbm, 2140, rfl⟩
abbrev main_v2029 : Ref sig .tc := ⟨.hbm, 2141, rfl⟩
abbrev main_v2030 : Ref sig .tc := ⟨.hbm, 2142, rfl⟩
abbrev main_v2031 : Ref sig .tc := ⟨.hbm, 2143, rfl⟩
abbrev main_v2032 : Ref sig .tc := ⟨.hbm, 2144, rfl⟩
abbrev main_v2033 : Ref sig .tc := ⟨.hbm, 2145, rfl⟩
abbrev main_v2034 : Ref sig .tc := ⟨.hbm, 2146, rfl⟩
abbrev main_v2035 : Ref sig .tc := ⟨.hbm, 2147, rfl⟩
abbrev main_v2036 : Ref sig .tc := ⟨.hbm, 2148, rfl⟩
abbrev main_v2037 : Ref sig .tc := ⟨.hbm, 2149, rfl⟩
abbrev main_v2038 : Ref sig .tc := ⟨.hbm, 2150, rfl⟩
abbrev main_v2039 : Ref sig .tc := ⟨.hbm, 2151, rfl⟩
abbrev main_v2040 : Ref sig .tc := ⟨.hbm, 2152, rfl⟩
abbrev main_v2041 : Ref sig .tc := ⟨.hbm, 2153, rfl⟩
abbrev main_v2042 : Ref sig .tc := ⟨.hbm, 2154, rfl⟩
abbrev main_c_108 : Ref sig .tc := ⟨.hbm, 2155, rfl⟩
abbrev main_v2043 : Ref sig .tc := ⟨.hbm, 2156, rfl⟩
abbrev main_v2044 : Ref sig .tc := ⟨.hbm, 2157, rfl⟩
abbrev main_v2045 : Ref sig .tc := ⟨.hbm, 2158, rfl⟩
abbrev main_v2046 : Ref sig .tc := ⟨.hbm, 2159, rfl⟩
abbrev main_v2047 : Ref sig .tc := ⟨.hbm, 2160, rfl⟩
abbrev main_v2048 : Ref sig .tc := ⟨.hbm, 2161, rfl⟩
abbrev main_v2049 : Ref sig .tc := ⟨.hbm, 2162, rfl⟩
abbrev main_v2050 : Ref sig .tc := ⟨.hbm, 2163, rfl⟩
abbrev main_v2051 : Ref sig .tc := ⟨.hbm, 2164, rfl⟩
abbrev main_v2052 : Ref sig .tc := ⟨.hbm, 2165, rfl⟩
abbrev main_v2053 : Ref sig .tc := ⟨.hbm, 2166, rfl⟩
abbrev main_v2054 : Ref sig .tc := ⟨.hbm, 2167, rfl⟩
abbrev main_v2055 : Ref sig .tc := ⟨.hbm, 2168, rfl⟩
abbrev main_v2056 : Ref sig .tc := ⟨.hbm, 2169, rfl⟩
abbrev main_v2057 : Ref sig .tc := ⟨.hbm, 2170, rfl⟩
abbrev main_v2058 : Ref sig .tc := ⟨.hbm, 2171, rfl⟩
abbrev main_v2059 : Ref sig .tc := ⟨.hbm, 2172, rfl⟩
abbrev main_v2060 : Ref sig .tc := ⟨.hbm, 2173, rfl⟩
abbrev main_v2061 : Ref sig .tc := ⟨.hbm, 2174, rfl⟩
abbrev main_v2062 : Ref sig .tc := ⟨.hbm, 2175, rfl⟩
abbrev main_c_109 : Ref sig .tc := ⟨.hbm, 2176, rfl⟩
abbrev main_v2063 : Ref sig .tc := ⟨.hbm, 2177, rfl⟩
abbrev main_v2064 : Ref sig .tc := ⟨.hbm, 2178, rfl⟩
abbrev main_v2065 : Ref sig .tc := ⟨.hbm, 2179, rfl⟩
abbrev main_v2066 : Ref sig .tc := ⟨.hbm, 2180, rfl⟩
abbrev main_v2067 : Ref sig .tc := ⟨.hbm, 2181, rfl⟩
abbrev main_v2068 : Ref sig .tc := ⟨.hbm, 2182, rfl⟩
abbrev main_v2069 : Ref sig .tc := ⟨.hbm, 2183, rfl⟩
abbrev main_v2070 : Ref sig .tc := ⟨.hbm, 2184, rfl⟩
abbrev main_v2071 : Ref sig .tc := ⟨.hbm, 2185, rfl⟩
abbrev main_v2072 : Ref sig .tc := ⟨.hbm, 2186, rfl⟩
abbrev main_v2073 : Ref sig .tc := ⟨.hbm, 2187, rfl⟩
abbrev main_v2074 : Ref sig .tc := ⟨.hbm, 2188, rfl⟩
abbrev main_v2075 : Ref sig .tc := ⟨.hbm, 2189, rfl⟩
abbrev main_v2076 : Ref sig .tc := ⟨.hbm, 2190, rfl⟩
abbrev main_v2077 : Ref sig .tc := ⟨.hbm, 2191, rfl⟩
abbrev main_v2078 : Ref sig .tc := ⟨.hbm, 2192, rfl⟩
abbrev main_v2079 : Ref sig .tc := ⟨.hbm, 2193, rfl⟩
abbrev main_v2080 : Ref sig .tc := ⟨.hbm, 2194, rfl⟩
abbrev main_v2081 : Ref sig .tc := ⟨.hbm, 2195, rfl⟩
abbrev main_v2082 : Ref sig .tc := ⟨.hbm, 2196, rfl⟩
abbrev main_c_110 : Ref sig .tc := ⟨.hbm, 2197, rfl⟩
abbrev main_v2083 : Ref sig .tc := ⟨.hbm, 2198, rfl⟩
abbrev main_v2084 : Ref sig .tc := ⟨.hbm, 2199, rfl⟩
abbrev main_v2085 : Ref sig .tc := ⟨.hbm, 2200, rfl⟩
abbrev main_v2086 : Ref sig .tc := ⟨.hbm, 2201, rfl⟩
abbrev main_v2087 : Ref sig .tc := ⟨.hbm, 2202, rfl⟩
abbrev main_v2088 : Ref sig .tc := ⟨.hbm, 2203, rfl⟩
abbrev main_v2089 : Ref sig .tc := ⟨.hbm, 2204, rfl⟩
abbrev main_v2090 : Ref sig .tc := ⟨.hbm, 2205, rfl⟩
abbrev main_v2091 : Ref sig .tc := ⟨.hbm, 2206, rfl⟩
abbrev main_v2092 : Ref sig .tc := ⟨.hbm, 2207, rfl⟩
abbrev main_v2093 : Ref sig .tc := ⟨.hbm, 2208, rfl⟩
abbrev main_v2094 : Ref sig .tc := ⟨.hbm, 2209, rfl⟩
abbrev main_v2095 : Ref sig .tc := ⟨.hbm, 2210, rfl⟩
abbrev main_v2096 : Ref sig .tc := ⟨.hbm, 2211, rfl⟩
abbrev main_v2097 : Ref sig .tc := ⟨.hbm, 2212, rfl⟩
abbrev main_v2098 : Ref sig .tc := ⟨.hbm, 2213, rfl⟩
abbrev main_v2099 : Ref sig .tc := ⟨.hbm, 2214, rfl⟩
abbrev main_v2100 : Ref sig .tc := ⟨.hbm, 2215, rfl⟩
abbrev main_v2101 : Ref sig .tc := ⟨.hbm, 2216, rfl⟩
abbrev main_v2102 : Ref sig .tc := ⟨.hbm, 2217, rfl⟩
abbrev main_c_111 : Ref sig .tc := ⟨.hbm, 2218, rfl⟩
abbrev main_v2103 : Ref sig .tc := ⟨.hbm, 2219, rfl⟩
abbrev main_v2104 : Ref sig .tc := ⟨.hbm, 2220, rfl⟩
abbrev main_v2105 : Ref sig .tc := ⟨.hbm, 2221, rfl⟩
abbrev main_v2106 : Ref sig .tc := ⟨.hbm, 2222, rfl⟩
abbrev main_v2107 : Ref sig .tc := ⟨.hbm, 2223, rfl⟩
abbrev main_v2108 : Ref sig .tc := ⟨.hbm, 2224, rfl⟩
abbrev main_v2109 : Ref sig .tc := ⟨.hbm, 2225, rfl⟩
abbrev main_v2110 : Ref sig .tc := ⟨.hbm, 2226, rfl⟩
abbrev main_v2111 : Ref sig .tc := ⟨.hbm, 2227, rfl⟩
abbrev main_v2112 : Ref sig .tc := ⟨.hbm, 2228, rfl⟩
abbrev main_v2113 : Ref sig .tc := ⟨.hbm, 2229, rfl⟩
abbrev main_v2114 : Ref sig .tc := ⟨.hbm, 2230, rfl⟩
abbrev main_v2115 : Ref sig .tc := ⟨.hbm, 2231, rfl⟩
abbrev main_v2116 : Ref sig .tc := ⟨.hbm, 2232, rfl⟩
abbrev main_v2117 : Ref sig .tc := ⟨.hbm, 2233, rfl⟩
abbrev main_v2118 : Ref sig .tc := ⟨.hbm, 2234, rfl⟩
abbrev main_v2119 : Ref sig .tc := ⟨.hbm, 2235, rfl⟩
abbrev main_v2120 : Ref sig .tc := ⟨.hbm, 2236, rfl⟩
abbrev main_v2121 : Ref sig .tc := ⟨.hbm, 2237, rfl⟩
abbrev main_v2122 : Ref sig .tc := ⟨.hbm, 2238, rfl⟩
abbrev main_c_112 : Ref sig .tc := ⟨.hbm, 2239, rfl⟩
abbrev main_v2123 : Ref sig .tc := ⟨.hbm, 2240, rfl⟩
abbrev main_v2124 : Ref sig .tc := ⟨.hbm, 2241, rfl⟩
abbrev main_v2125 : Ref sig .tc := ⟨.hbm, 2242, rfl⟩
abbrev main_v2126 : Ref sig .tc := ⟨.hbm, 2243, rfl⟩
abbrev main_v2127 : Ref sig .tc := ⟨.hbm, 2244, rfl⟩
abbrev main_v2128 : Ref sig .tc := ⟨.hbm, 2245, rfl⟩
abbrev main_v2129 : Ref sig .tc := ⟨.hbm, 2246, rfl⟩
abbrev main_v2130 : Ref sig .tc := ⟨.hbm, 2247, rfl⟩
abbrev main_v2131 : Ref sig .tc := ⟨.hbm, 2248, rfl⟩
abbrev main_v2132 : Ref sig .tc := ⟨.hbm, 2249, rfl⟩
abbrev main_v2133 : Ref sig .tc := ⟨.hbm, 2250, rfl⟩
abbrev main_v2134 : Ref sig .tc := ⟨.hbm, 2251, rfl⟩
abbrev main_v2135 : Ref sig .tc := ⟨.hbm, 2252, rfl⟩
abbrev main_v2136 : Ref sig .tc := ⟨.hbm, 2253, rfl⟩
abbrev main_v2137 : Ref sig .tc := ⟨.hbm, 2254, rfl⟩
abbrev main_v2138 : Ref sig .tc := ⟨.hbm, 2255, rfl⟩
abbrev main_v2139 : Ref sig .tc := ⟨.hbm, 2256, rfl⟩
abbrev main_v2140 : Ref sig .tc := ⟨.hbm, 2257, rfl⟩
abbrev main_v2141 : Ref sig .tc := ⟨.hbm, 2258, rfl⟩
abbrev main_v2142 : Ref sig .tc := ⟨.hbm, 2259, rfl⟩
abbrev main_c_113 : Ref sig .tc := ⟨.hbm, 2260, rfl⟩
abbrev main_v2143 : Ref sig .tc := ⟨.hbm, 2261, rfl⟩
abbrev main_v2144 : Ref sig .tc := ⟨.hbm, 2262, rfl⟩
abbrev main_c_114 : Ref sig .tc := ⟨.hbm, 2263, rfl⟩
abbrev main_v2145 : Ref sig .tc := ⟨.hbm, 2264, rfl⟩
abbrev main_v2146 : Ref sig .tc := ⟨.hbm, 2265, rfl⟩
abbrev main_v2147 : Ref sig .tc := ⟨.hbm, 2266, rfl⟩
abbrev main_v2148 : Ref sig .tc := ⟨.hbm, 2267, rfl⟩
abbrev main_v2149 : Ref sig .tc := ⟨.hbm, 2268, rfl⟩
abbrev main_v2150 : Ref sig .tc := ⟨.hbm, 2269, rfl⟩
abbrev main_v2151 : Ref sig .tc := ⟨.hbm, 2270, rfl⟩
abbrev main_v2152 : Ref sig .tc := ⟨.hbm, 2271, rfl⟩
abbrev main_v2153 : Ref sig .tc := ⟨.hbm, 2272, rfl⟩
abbrev main_v2154 : Ref sig .tc := ⟨.hbm, 2273, rfl⟩
abbrev main_v2155 : Ref sig .tc := ⟨.hbm, 2274, rfl⟩
abbrev main_v2156 : Ref sig .tc := ⟨.hbm, 2275, rfl⟩
abbrev main_v2157 : Ref sig .tc := ⟨.hbm, 2276, rfl⟩
abbrev main_v2158 : Ref sig .tc := ⟨.hbm, 2277, rfl⟩
abbrev main_v2159 : Ref sig .tc := ⟨.hbm, 2278, rfl⟩
abbrev main_v2160 : Ref sig .tc := ⟨.hbm, 2279, rfl⟩
abbrev main_v2161 : Ref sig .tc := ⟨.hbm, 2280, rfl⟩
abbrev main_v2162 : Ref sig .tc := ⟨.hbm, 2281, rfl⟩
abbrev main_v2163 : Ref sig .tc := ⟨.hbm, 2282, rfl⟩
abbrev main_v2164 : Ref sig .tc := ⟨.hbm, 2283, rfl⟩
abbrev main_v2165 : Ref sig .tc := ⟨.hbm, 2284, rfl⟩
abbrev main_v2166 : Ref sig .tc := ⟨.hbm, 2285, rfl⟩
abbrev main_c_115 : Ref sig .tc := ⟨.hbm, 2286, rfl⟩
abbrev main_v2167 : Ref sig .tc := ⟨.hbm, 2287, rfl⟩
abbrev main_v2168 : Ref sig .tc := ⟨.hbm, 2288, rfl⟩
abbrev main_v2169 : Ref sig .tc := ⟨.hbm, 2289, rfl⟩
abbrev main_v2170 : Ref sig .tc := ⟨.hbm, 2290, rfl⟩
abbrev main_v2171 : Ref sig .tc := ⟨.hbm, 2291, rfl⟩
abbrev main_v2172 : Ref sig .tc := ⟨.hbm, 2292, rfl⟩
abbrev main_v2173 : Ref sig .tc := ⟨.hbm, 2293, rfl⟩
abbrev main_v2174 : Ref sig .tc := ⟨.hbm, 2294, rfl⟩
abbrev main_v2175 : Ref sig .tc := ⟨.hbm, 2295, rfl⟩
abbrev main_v2176 : Ref sig .tc := ⟨.hbm, 2296, rfl⟩
abbrev main_v2177 : Ref sig .tc := ⟨.hbm, 2297, rfl⟩
abbrev main_v2178 : Ref sig .tc := ⟨.hbm, 2298, rfl⟩
abbrev main_v2179 : Ref sig .tc := ⟨.hbm, 2299, rfl⟩
abbrev main_v2180 : Ref sig .tc := ⟨.hbm, 2300, rfl⟩
abbrev main_v2181 : Ref sig .tc := ⟨.hbm, 2301, rfl⟩
abbrev main_v2182 : Ref sig .tc := ⟨.hbm, 2302, rfl⟩
abbrev main_v2183 : Ref sig .tc := ⟨.hbm, 2303, rfl⟩
abbrev main_v2184 : Ref sig .tc := ⟨.hbm, 2304, rfl⟩
abbrev main_v2185 : Ref sig .tc := ⟨.hbm, 2305, rfl⟩
abbrev main_v2186 : Ref sig .tc := ⟨.hbm, 2306, rfl⟩
abbrev main_c_116 : Ref sig .tc := ⟨.hbm, 2307, rfl⟩
abbrev main_v2187 : Ref sig .tc := ⟨.hbm, 2308, rfl⟩
abbrev main_v2188 : Ref sig .tc := ⟨.hbm, 2309, rfl⟩
abbrev main_v2189 : Ref sig .tc := ⟨.hbm, 2310, rfl⟩
abbrev main_v2190 : Ref sig .tc := ⟨.hbm, 2311, rfl⟩
abbrev main_v2191 : Ref sig .tc := ⟨.hbm, 2312, rfl⟩
abbrev main_v2192 : Ref sig .tc := ⟨.hbm, 2313, rfl⟩
abbrev main_v2193 : Ref sig .tc := ⟨.hbm, 2314, rfl⟩
abbrev main_v2194 : Ref sig .tc := ⟨.hbm, 2315, rfl⟩
abbrev main_v2195 : Ref sig .tc := ⟨.hbm, 2316, rfl⟩
abbrev main_v2196 : Ref sig .tc := ⟨.hbm, 2317, rfl⟩
abbrev main_v2197 : Ref sig .tc := ⟨.hbm, 2318, rfl⟩
abbrev main_v2198 : Ref sig .tc := ⟨.hbm, 2319, rfl⟩
abbrev main_v2199 : Ref sig .tc := ⟨.hbm, 2320, rfl⟩
abbrev main_v2200 : Ref sig .tc := ⟨.hbm, 2321, rfl⟩
abbrev main_v2201 : Ref sig .tc := ⟨.hbm, 2322, rfl⟩
abbrev main_v2202 : Ref sig .tc := ⟨.hbm, 2323, rfl⟩
abbrev main_v2203 : Ref sig .tc := ⟨.hbm, 2324, rfl⟩
abbrev main_v2204 : Ref sig .tc := ⟨.hbm, 2325, rfl⟩
abbrev main_v2205 : Ref sig .tc := ⟨.hbm, 2326, rfl⟩
abbrev main_v2206 : Ref sig .tc := ⟨.hbm, 2327, rfl⟩
abbrev main_c_117 : Ref sig .tc := ⟨.hbm, 2328, rfl⟩
abbrev main_v2207 : Ref sig .tc := ⟨.hbm, 2329, rfl⟩
abbrev main_v2208 : Ref sig .tc := ⟨.hbm, 2330, rfl⟩
abbrev main_v2209 : Ref sig .tc := ⟨.hbm, 2331, rfl⟩
abbrev main_v2210 : Ref sig .tc := ⟨.hbm, 2332, rfl⟩
abbrev main_v2211 : Ref sig .tc := ⟨.hbm, 2333, rfl⟩
abbrev main_v2212 : Ref sig .tc := ⟨.hbm, 2334, rfl⟩
abbrev main_v2213 : Ref sig .tc := ⟨.hbm, 2335, rfl⟩
abbrev main_v2214 : Ref sig .tc := ⟨.hbm, 2336, rfl⟩
abbrev main_v2215 : Ref sig .tc := ⟨.hbm, 2337, rfl⟩
abbrev main_v2216 : Ref sig .tc := ⟨.hbm, 2338, rfl⟩
abbrev main_v2217 : Ref sig .tc := ⟨.hbm, 2339, rfl⟩
abbrev main_v2218 : Ref sig .tc := ⟨.hbm, 2340, rfl⟩
abbrev main_v2219 : Ref sig .tc := ⟨.hbm, 2341, rfl⟩
abbrev main_v2220 : Ref sig .tc := ⟨.hbm, 2342, rfl⟩
abbrev main_v2221 : Ref sig .tc := ⟨.hbm, 2343, rfl⟩
abbrev main_v2222 : Ref sig .tc := ⟨.hbm, 2344, rfl⟩
abbrev main_v2223 : Ref sig .tc := ⟨.hbm, 2345, rfl⟩
abbrev main_v2224 : Ref sig .tc := ⟨.hbm, 2346, rfl⟩
abbrev main_v2225 : Ref sig .tc := ⟨.hbm, 2347, rfl⟩
abbrev main_v2226 : Ref sig .tc := ⟨.hbm, 2348, rfl⟩
abbrev main_c_118 : Ref sig .tc := ⟨.hbm, 2349, rfl⟩
abbrev main_v2227 : Ref sig .tc := ⟨.hbm, 2350, rfl⟩
abbrev main_v2228 : Ref sig .tc := ⟨.hbm, 2351, rfl⟩
abbrev main_v2229 : Ref sig .tc := ⟨.hbm, 2352, rfl⟩
abbrev main_v2230 : Ref sig .tc := ⟨.hbm, 2353, rfl⟩
abbrev main_v2231 : Ref sig .tc := ⟨.hbm, 2354, rfl⟩
abbrev main_v2232 : Ref sig .tc := ⟨.hbm, 2355, rfl⟩
abbrev main_v2233 : Ref sig .tc := ⟨.hbm, 2356, rfl⟩
abbrev main_v2234 : Ref sig .tc := ⟨.hbm, 2357, rfl⟩
abbrev main_v2235 : Ref sig .tc := ⟨.hbm, 2358, rfl⟩
abbrev main_v2236 : Ref sig .tc := ⟨.hbm, 2359, rfl⟩
abbrev main_v2237 : Ref sig .tc := ⟨.hbm, 2360, rfl⟩
abbrev main_v2238 : Ref sig .tc := ⟨.hbm, 2361, rfl⟩
abbrev main_v2239 : Ref sig .tc := ⟨.hbm, 2362, rfl⟩
abbrev main_v2240 : Ref sig .tc := ⟨.hbm, 2363, rfl⟩
abbrev main_v2241 : Ref sig .tc := ⟨.hbm, 2364, rfl⟩
abbrev main_v2242 : Ref sig .tc := ⟨.hbm, 2365, rfl⟩
abbrev main_v2243 : Ref sig .tc := ⟨.hbm, 2366, rfl⟩
abbrev main_v2244 : Ref sig .tc := ⟨.hbm, 2367, rfl⟩
abbrev main_v2245 : Ref sig .tc := ⟨.hbm, 2368, rfl⟩
abbrev main_v2246 : Ref sig .tc := ⟨.hbm, 2369, rfl⟩
abbrev main_c_119 : Ref sig .tc := ⟨.hbm, 2370, rfl⟩
abbrev main_v2247 : Ref sig .tc := ⟨.hbm, 2371, rfl⟩
abbrev main_v2248 : Ref sig .tc := ⟨.hbm, 2372, rfl⟩
abbrev main_c_120 : Ref sig .tc := ⟨.hbm, 2373, rfl⟩
abbrev main_v2249 : Ref sig .tc := ⟨.hbm, 2374, rfl⟩
abbrev main_v2250 : Ref sig .tc := ⟨.hbm, 2375, rfl⟩
abbrev main_v2251 : Ref sig .tc := ⟨.hbm, 2376, rfl⟩
abbrev main_v2252 : Ref sig .tc := ⟨.hbm, 2377, rfl⟩
abbrev main_v2253 : Ref sig .tc := ⟨.hbm, 2378, rfl⟩
abbrev main_v2254 : Ref sig .tc := ⟨.hbm, 2379, rfl⟩
abbrev main_v2255 : Ref sig .tc := ⟨.hbm, 2380, rfl⟩
abbrev main_v2256 : Ref sig .tc := ⟨.hbm, 2381, rfl⟩
abbrev main_v2257 : Ref sig .tc := ⟨.hbm, 2382, rfl⟩
abbrev main_v2258 : Ref sig .tc := ⟨.hbm, 2383, rfl⟩
abbrev main_v2259 : Ref sig .tc := ⟨.hbm, 2384, rfl⟩
abbrev main_v2260 : Ref sig .tc := ⟨.hbm, 2385, rfl⟩
abbrev main_v2261 : Ref sig .tc := ⟨.hbm, 2386, rfl⟩
abbrev main_v2262 : Ref sig .tc := ⟨.hbm, 2387, rfl⟩
abbrev main_v2263 : Ref sig .tc := ⟨.hbm, 2388, rfl⟩
abbrev main_v2264 : Ref sig .tc := ⟨.hbm, 2389, rfl⟩
abbrev main_v2265 : Ref sig .tc := ⟨.hbm, 2390, rfl⟩
abbrev main_v2266 : Ref sig .tc := ⟨.hbm, 2391, rfl⟩
abbrev main_v2267 : Ref sig .tc := ⟨.hbm, 2392, rfl⟩
abbrev main_v2268 : Ref sig .tc := ⟨.hbm, 2393, rfl⟩
abbrev main_v2269 : Ref sig .tc := ⟨.hbm, 2394, rfl⟩
abbrev main_v2270 : Ref sig .tc := ⟨.hbm, 2395, rfl⟩
abbrev main_c_121 : Ref sig .tc := ⟨.hbm, 2396, rfl⟩
abbrev main_v2271 : Ref sig .tc := ⟨.hbm, 2397, rfl⟩
abbrev main_v2272 : Ref sig .tc := ⟨.hbm, 2398, rfl⟩
abbrev main_v2273 : Ref sig .tc := ⟨.hbm, 2399, rfl⟩
abbrev main_v2274 : Ref sig .tc := ⟨.hbm, 2400, rfl⟩
abbrev main_v2275 : Ref sig .tc := ⟨.hbm, 2401, rfl⟩
abbrev main_v2276 : Ref sig .tc := ⟨.hbm, 2402, rfl⟩
abbrev main_v2277 : Ref sig .tc := ⟨.hbm, 2403, rfl⟩
abbrev main_v2278 : Ref sig .tc := ⟨.hbm, 2404, rfl⟩
abbrev main_v2279 : Ref sig .tc := ⟨.hbm, 2405, rfl⟩
abbrev main_v2280 : Ref sig .tc := ⟨.hbm, 2406, rfl⟩
abbrev main_v2281 : Ref sig .tc := ⟨.hbm, 2407, rfl⟩
abbrev main_v2282 : Ref sig .tc := ⟨.hbm, 2408, rfl⟩
abbrev main_v2283 : Ref sig .tc := ⟨.hbm, 2409, rfl⟩
abbrev main_v2284 : Ref sig .tc := ⟨.hbm, 2410, rfl⟩
abbrev main_v2285 : Ref sig .tc := ⟨.hbm, 2411, rfl⟩
abbrev main_v2286 : Ref sig .tc := ⟨.hbm, 2412, rfl⟩
abbrev main_v2287 : Ref sig .tc := ⟨.hbm, 2413, rfl⟩
abbrev main_v2288 : Ref sig .tc := ⟨.hbm, 2414, rfl⟩
abbrev main_v2289 : Ref sig .tc := ⟨.hbm, 2415, rfl⟩
abbrev main_v2290 : Ref sig .tc := ⟨.hbm, 2416, rfl⟩
abbrev main_c_122 : Ref sig .tc := ⟨.hbm, 2417, rfl⟩
abbrev main_v2291 : Ref sig .tc := ⟨.hbm, 2418, rfl⟩
abbrev main_v2292 : Ref sig .tc := ⟨.hbm, 2419, rfl⟩
abbrev main_v2293 : Ref sig .tc := ⟨.hbm, 2420, rfl⟩
abbrev main_v2294 : Ref sig .tc := ⟨.hbm, 2421, rfl⟩
abbrev main_v2295 : Ref sig .tc := ⟨.hbm, 2422, rfl⟩
abbrev main_v2296 : Ref sig .tc := ⟨.hbm, 2423, rfl⟩
abbrev main_v2297 : Ref sig .tc := ⟨.hbm, 2424, rfl⟩
abbrev main_v2298 : Ref sig .tc := ⟨.hbm, 2425, rfl⟩
abbrev main_v2299 : Ref sig .tc := ⟨.hbm, 2426, rfl⟩
abbrev main_v2300 : Ref sig .tc := ⟨.hbm, 2427, rfl⟩
abbrev main_v2301 : Ref sig .tc := ⟨.hbm, 2428, rfl⟩
abbrev main_v2302 : Ref sig .tc := ⟨.hbm, 2429, rfl⟩
abbrev main_v2303 : Ref sig .tc := ⟨.hbm, 2430, rfl⟩
abbrev main_v2304 : Ref sig .tc := ⟨.hbm, 2431, rfl⟩
abbrev main_v2305 : Ref sig .tc := ⟨.hbm, 2432, rfl⟩
abbrev main_v2306 : Ref sig .tc := ⟨.hbm, 2433, rfl⟩
abbrev main_v2307 : Ref sig .tc := ⟨.hbm, 2434, rfl⟩
abbrev main_v2308 : Ref sig .tc := ⟨.hbm, 2435, rfl⟩
abbrev main_v2309 : Ref sig .tc := ⟨.hbm, 2436, rfl⟩
abbrev main_v2310 : Ref sig .tc := ⟨.hbm, 2437, rfl⟩
abbrev main_c_123 : Ref sig .tc := ⟨.hbm, 2438, rfl⟩
abbrev main_v2311 : Ref sig .tc := ⟨.hbm, 2439, rfl⟩
abbrev main_v2312 : Ref sig .tc := ⟨.hbm, 2440, rfl⟩
abbrev main_v2313 : Ref sig .tc := ⟨.hbm, 2441, rfl⟩
abbrev main_v2314 : Ref sig .tc := ⟨.hbm, 2442, rfl⟩
abbrev main_v2315 : Ref sig .tc := ⟨.hbm, 2443, rfl⟩
abbrev main_v2316 : Ref sig .tc := ⟨.hbm, 2444, rfl⟩
abbrev main_v2317 : Ref sig .tc := ⟨.hbm, 2445, rfl⟩
abbrev main_v2318 : Ref sig .tc := ⟨.hbm, 2446, rfl⟩
abbrev main_v2319 : Ref sig .tc := ⟨.hbm, 2447, rfl⟩
abbrev main_v2320 : Ref sig .tc := ⟨.hbm, 2448, rfl⟩
abbrev main_v2321 : Ref sig .tc := ⟨.hbm, 2449, rfl⟩
abbrev main_v2322 : Ref sig .tc := ⟨.hbm, 2450, rfl⟩
abbrev main_v2323 : Ref sig .tc := ⟨.hbm, 2451, rfl⟩
abbrev main_v2324 : Ref sig .tc := ⟨.hbm, 2452, rfl⟩
abbrev main_v2325 : Ref sig .tc := ⟨.hbm, 2453, rfl⟩
abbrev main_v2326 : Ref sig .tc := ⟨.hbm, 2454, rfl⟩
abbrev main_v2327 : Ref sig .tc := ⟨.hbm, 2455, rfl⟩
abbrev main_v2328 : Ref sig .tc := ⟨.hbm, 2456, rfl⟩
abbrev main_v2329 : Ref sig .tc := ⟨.hbm, 2457, rfl⟩
abbrev main_v2330 : Ref sig .tc := ⟨.hbm, 2458, rfl⟩
abbrev main_c_124 : Ref sig .tc := ⟨.hbm, 2459, rfl⟩
abbrev main_v2331 : Ref sig .tc := ⟨.hbm, 2460, rfl⟩
abbrev main_v2332 : Ref sig .tc := ⟨.hbm, 2461, rfl⟩
abbrev main_c_125 : Ref sig .tc := ⟨.hbm, 2462, rfl⟩
abbrev main_v2333 : Ref sig .tc := ⟨.hbm, 2463, rfl⟩
abbrev main_v2334 : Ref sig .tc := ⟨.hbm, 2464, rfl⟩
abbrev main_v2335 : Ref sig .tc := ⟨.hbm, 2465, rfl⟩
abbrev main_v2336 : Ref sig .tc := ⟨.hbm, 2466, rfl⟩
abbrev main_v2337 : Ref sig .tc := ⟨.hbm, 2467, rfl⟩
abbrev main_v2338 : Ref sig .tc := ⟨.hbm, 2468, rfl⟩
abbrev main_v2339 : Ref sig .tc := ⟨.hbm, 2469, rfl⟩
abbrev main_v2340 : Ref sig .tc := ⟨.hbm, 2470, rfl⟩
abbrev main_v2341 : Ref sig .tc := ⟨.hbm, 2471, rfl⟩
abbrev main_v2342 : Ref sig .tc := ⟨.hbm, 2472, rfl⟩
abbrev main_v2343 : Ref sig .tc := ⟨.hbm, 2473, rfl⟩
abbrev main_v2344 : Ref sig .tc := ⟨.hbm, 2474, rfl⟩
abbrev main_v2345 : Ref sig .tc := ⟨.hbm, 2475, rfl⟩
abbrev main_v2346 : Ref sig .tc := ⟨.hbm, 2476, rfl⟩
abbrev main_v2347 : Ref sig .tc := ⟨.hbm, 2477, rfl⟩
abbrev main_v2348 : Ref sig .tc := ⟨.hbm, 2478, rfl⟩
abbrev main_v2349 : Ref sig .tc := ⟨.hbm, 2479, rfl⟩
abbrev main_v2350 : Ref sig .tc := ⟨.hbm, 2480, rfl⟩
abbrev main_v2351 : Ref sig .tc := ⟨.hbm, 2481, rfl⟩
abbrev main_v2352 : Ref sig .tc := ⟨.hbm, 2482, rfl⟩
abbrev main_v2353 : Ref sig .tc := ⟨.hbm, 2483, rfl⟩
abbrev main_v2354 : Ref sig .tc := ⟨.hbm, 2484, rfl⟩
abbrev main_c_126 : Ref sig .tc := ⟨.hbm, 2485, rfl⟩
abbrev main_v2355 : Ref sig .tc := ⟨.hbm, 2486, rfl⟩
abbrev main_v2356 : Ref sig .tc := ⟨.hbm, 2487, rfl⟩
abbrev main_v2357 : Ref sig .tc := ⟨.hbm, 2488, rfl⟩
abbrev main_v2358 : Ref sig .tc := ⟨.hbm, 2489, rfl⟩
abbrev main_v2359 : Ref sig .tc := ⟨.hbm, 2490, rfl⟩
abbrev main_v2360 : Ref sig .tc := ⟨.hbm, 2491, rfl⟩
abbrev main_v2361 : Ref sig .tc := ⟨.hbm, 2492, rfl⟩
abbrev main_v2362 : Ref sig .tc := ⟨.hbm, 2493, rfl⟩
abbrev main_v2363 : Ref sig .tc := ⟨.hbm, 2494, rfl⟩
abbrev main_v2364 : Ref sig .tc := ⟨.hbm, 2495, rfl⟩
abbrev main_v2365 : Ref sig .tc := ⟨.hbm, 2496, rfl⟩
abbrev main_v2366 : Ref sig .tc := ⟨.hbm, 2497, rfl⟩
abbrev main_v2367 : Ref sig .tc := ⟨.hbm, 2498, rfl⟩
abbrev main_v2368 : Ref sig .tc := ⟨.hbm, 2499, rfl⟩
abbrev main_v2369 : Ref sig .tc := ⟨.hbm, 2500, rfl⟩
abbrev main_v2370 : Ref sig .tc := ⟨.hbm, 2501, rfl⟩
abbrev main_v2371 : Ref sig .tc := ⟨.hbm, 2502, rfl⟩
abbrev main_v2372 : Ref sig .tc := ⟨.hbm, 2503, rfl⟩
abbrev main_v2373 : Ref sig .tc := ⟨.hbm, 2504, rfl⟩
abbrev main_v2374 : Ref sig .tc := ⟨.hbm, 2505, rfl⟩
abbrev main_c_127 : Ref sig .tc := ⟨.hbm, 2506, rfl⟩
abbrev main_v2375 : Ref sig .tc := ⟨.hbm, 2507, rfl⟩
abbrev main_v2376 : Ref sig .tc := ⟨.hbm, 2508, rfl⟩
abbrev main_v2377 : Ref sig .tc := ⟨.hbm, 2509, rfl⟩
abbrev main_v2378 : Ref sig .tc := ⟨.hbm, 2510, rfl⟩
abbrev main_v2379 : Ref sig .tc := ⟨.hbm, 2511, rfl⟩
abbrev main_v2380 : Ref sig .tc := ⟨.hbm, 2512, rfl⟩
abbrev main_v2381 : Ref sig .tc := ⟨.hbm, 2513, rfl⟩
abbrev main_v2382 : Ref sig .tc := ⟨.hbm, 2514, rfl⟩
abbrev main_v2383 : Ref sig .tc := ⟨.hbm, 2515, rfl⟩
abbrev main_v2384 : Ref sig .tc := ⟨.hbm, 2516, rfl⟩
abbrev main_v2385 : Ref sig .tc := ⟨.hbm, 2517, rfl⟩
abbrev main_v2386 : Ref sig .tc := ⟨.hbm, 2518, rfl⟩
abbrev main_v2387 : Ref sig .tc := ⟨.hbm, 2519, rfl⟩
abbrev main_v2388 : Ref sig .tc := ⟨.hbm, 2520, rfl⟩
abbrev main_v2389 : Ref sig .tc := ⟨.hbm, 2521, rfl⟩
abbrev main_v2390 : Ref sig .tc := ⟨.hbm, 2522, rfl⟩
abbrev main_v2391 : Ref sig .tc := ⟨.hbm, 2523, rfl⟩
abbrev main_v2392 : Ref sig .tc := ⟨.hbm, 2524, rfl⟩
abbrev main_v2393 : Ref sig .tc := ⟨.hbm, 2525, rfl⟩
abbrev main_v2394 : Ref sig .tc := ⟨.hbm, 2526, rfl⟩
abbrev main_c_128 : Ref sig .tc := ⟨.hbm, 2527, rfl⟩
abbrev main_v2395 : Ref sig .tc := ⟨.hbm, 2528, rfl⟩
abbrev main_v2396 : Ref sig .tc := ⟨.hbm, 2529, rfl⟩
abbrev main_c_129 : Ref sig .tc := ⟨.hbm, 2530, rfl⟩
abbrev main_v2397 : Ref sig .tc := ⟨.hbm, 2531, rfl⟩
abbrev main_v2398 : Ref sig .tc := ⟨.hbm, 2532, rfl⟩
abbrev main_v2399 : Ref sig .tc := ⟨.hbm, 2533, rfl⟩
abbrev main_v2400 : Ref sig .tc := ⟨.hbm, 2534, rfl⟩
abbrev main_v2401 : Ref sig .tc := ⟨.hbm, 2535, rfl⟩
abbrev main_v2402 : Ref sig .tc := ⟨.hbm, 2536, rfl⟩
abbrev main_v2403 : Ref sig .tc := ⟨.hbm, 2537, rfl⟩
abbrev main_v2404 : Ref sig .tc := ⟨.hbm, 2538, rfl⟩
abbrev main_v2405 : Ref sig .tc := ⟨.hbm, 2539, rfl⟩
abbrev main_v2406 : Ref sig .tc := ⟨.hbm, 2540, rfl⟩
abbrev main_v2407 : Ref sig .tc := ⟨.hbm, 2541, rfl⟩
abbrev main_v2408 : Ref sig .tc := ⟨.hbm, 2542, rfl⟩
abbrev main_v2409 : Ref sig .tc := ⟨.hbm, 2543, rfl⟩
abbrev main_v2410 : Ref sig .tc := ⟨.hbm, 2544, rfl⟩
abbrev main_v2411 : Ref sig .tc := ⟨.hbm, 2545, rfl⟩
abbrev main_v2412 : Ref sig .tc := ⟨.hbm, 2546, rfl⟩
abbrev main_v2413 : Ref sig .tc := ⟨.hbm, 2547, rfl⟩
abbrev main_v2414 : Ref sig .tc := ⟨.hbm, 2548, rfl⟩
abbrev main_v2415 : Ref sig .tc := ⟨.hbm, 2549, rfl⟩
abbrev main_v2416 : Ref sig .tc := ⟨.hbm, 2550, rfl⟩
abbrev main_v2417 : Ref sig .tc := ⟨.hbm, 2551, rfl⟩
abbrev main_v2418 : Ref sig .tc := ⟨.hbm, 2552, rfl⟩
abbrev main_c_130 : Ref sig .tc := ⟨.hbm, 2553, rfl⟩
abbrev main_v2419 : Ref sig .tc := ⟨.hbm, 2554, rfl⟩
abbrev main_v2420 : Ref sig .tc := ⟨.hbm, 2555, rfl⟩
abbrev main_v2421 : Ref sig .tc := ⟨.hbm, 2556, rfl⟩
abbrev main_v2422 : Ref sig .tc := ⟨.hbm, 2557, rfl⟩
abbrev main_v2423 : Ref sig .tc := ⟨.hbm, 2558, rfl⟩
abbrev main_v2424 : Ref sig .tc := ⟨.hbm, 2559, rfl⟩
abbrev main_v2425 : Ref sig .tc := ⟨.hbm, 2560, rfl⟩
abbrev main_v2426 : Ref sig .tc := ⟨.hbm, 2561, rfl⟩
abbrev main_v2427 : Ref sig .tc := ⟨.hbm, 2562, rfl⟩
abbrev main_v2428 : Ref sig .tc := ⟨.hbm, 2563, rfl⟩
abbrev main_v2429 : Ref sig .tc := ⟨.hbm, 2564, rfl⟩
abbrev main_v2430 : Ref sig .tc := ⟨.hbm, 2565, rfl⟩
abbrev main_v2431 : Ref sig .tc := ⟨.hbm, 2566, rfl⟩
abbrev main_v2432 : Ref sig .tc := ⟨.hbm, 2567, rfl⟩
abbrev main_v2433 : Ref sig .tc := ⟨.hbm, 2568, rfl⟩
abbrev main_v2434 : Ref sig .tc := ⟨.hbm, 2569, rfl⟩
abbrev main_v2435 : Ref sig .tc := ⟨.hbm, 2570, rfl⟩
abbrev main_v2436 : Ref sig .tc := ⟨.hbm, 2571, rfl⟩
abbrev main_v2437 : Ref sig .tc := ⟨.hbm, 2572, rfl⟩
abbrev main_v2438 : Ref sig .tc := ⟨.hbm, 2573, rfl⟩
abbrev main_c_131 : Ref sig .tc := ⟨.hbm, 2574, rfl⟩
abbrev main_v2439 : Ref sig .tc := ⟨.hbm, 2575, rfl⟩
abbrev main_v2440 : Ref sig .tc := ⟨.hbm, 2576, rfl⟩
abbrev main_c_132 : Ref sig .tc := ⟨.hbm, 2577, rfl⟩
abbrev main_v2441 : Ref sig .tc := ⟨.hbm, 2578, rfl⟩
abbrev main_v2442 : Ref sig .tc := ⟨.hbm, 2579, rfl⟩
abbrev main_v2443 : Ref sig .tc := ⟨.hbm, 2580, rfl⟩
abbrev main_v2444 : Ref sig .tc := ⟨.hbm, 2581, rfl⟩
abbrev main_v2445 : Ref sig .tc := ⟨.hbm, 2582, rfl⟩
abbrev main_v2446 : Ref sig .tc := ⟨.hbm, 2583, rfl⟩
abbrev main_v2447 : Ref sig .tc := ⟨.hbm, 2584, rfl⟩
abbrev main_v2448 : Ref sig .tc := ⟨.hbm, 2585, rfl⟩
abbrev main_v2449 : Ref sig .tc := ⟨.hbm, 2586, rfl⟩
abbrev main_v2450 : Ref sig .tc := ⟨.hbm, 2587, rfl⟩
abbrev main_v2451 : Ref sig .tc := ⟨.hbm, 2588, rfl⟩
abbrev main_v2452 : Ref sig .tc := ⟨.hbm, 2589, rfl⟩
abbrev main_v2453 : Ref sig .tc := ⟨.hbm, 2590, rfl⟩
abbrev main_v2454 : Ref sig .tc := ⟨.hbm, 2591, rfl⟩
abbrev main_v2455 : Ref sig .tc := ⟨.hbm, 2592, rfl⟩
abbrev main_v2456 : Ref sig .tc := ⟨.hbm, 2593, rfl⟩
abbrev main_v2457 : Ref sig .tc := ⟨.hbm, 2594, rfl⟩
abbrev main_v2458 : Ref sig .tc := ⟨.hbm, 2595, rfl⟩
abbrev main_v2459 : Ref sig .tc := ⟨.hbm, 2596, rfl⟩
abbrev main_v2460 : Ref sig .tc := ⟨.hbm, 2597, rfl⟩
abbrev main_v2461 : Ref sig .tc := ⟨.hbm, 2598, rfl⟩
abbrev main_v2462 : Ref sig .tc := ⟨.hbm, 2599, rfl⟩
abbrev main_c_133 : Ref sig .tc := ⟨.hbm, 2600, rfl⟩
abbrev main_v2463 : Ref sig .tc := ⟨.hbm, 2601, rfl⟩
abbrev main_v2464 : Ref sig .tc := ⟨.hbm, 2602, rfl⟩
abbrev main_c_134 : Ref sig .tc := ⟨.hbm, 2603, rfl⟩
abbrev main_v2465 : Ref sig .tc := ⟨.hbm, 2604, rfl⟩
abbrev main_v2466 : Ref sig .tc := ⟨.hbm, 2605, rfl⟩
abbrev main_v2467 : Ref sig .tc := ⟨.hbm, 2606, rfl⟩
abbrev main_v2468 : Ref sig .tc := ⟨.hbm, 2607, rfl⟩
abbrev main_v2469 : Ref sig .tc := ⟨.hbm, 2608, rfl⟩
abbrev main_v2470 : Ref sig .tc := ⟨.hbm, 2609, rfl⟩

abbrev nD : Nat := 1
abbrev τ : Topo := Topo.v7x

variable {F : FTy → Type} [FloatOps F]

class Facts₀ : Prop where
  bcast_S_S16x16 : S_.BroadcastsInDim S16x16 (![] : Fin 0 → Fin S16x16.rank)
  bcast_S16x16_S1024x16x16_1_2 : S16x16.BroadcastsInDim S1024x16x16 (![1, 2] : Fin 2 → Fin S1024x16x16.rank)
  slices_S1024x16x16_S1024x1x16_0_0_0 : S1024x16x16.Slices ![0, 0, 0] S1024x1x16
  shapeCasts_S1024x1x16_S1024x16 : S1024x1x16.ShapeCasts S1024x16
  slices_S1024x120_S1024x1_0_0 : S1024x120.Slices ![0, 0] S1024x1
  shapeCasts_S1024x1_S1024 : S1024x1.ShapeCasts S1024
  bcast_S1024_S1024x1_0 : S1024.BroadcastsInDim S1024x1 (![0] : Fin 1 → Fin S1024x1.rank)
  slices_S1024x16x16_S1024x1x16_0_1_0 : S1024x16x16.Slices ![0, 1, 0] S1024x1x16
  bcast_S1024x1_S1024x16_0_1 : S1024x1.BroadcastsInDim S1024x16 (![0, 1] : Fin 2 → Fin S1024x16.rank)
  bcast_S_S1 : S_.BroadcastsInDim S1 (![] : Fin 0 → Fin S1.rank)
  slices_S1024x120_S1024x1_0_1 : S1024x120.Slices ![0, 1] S1024x1
  slices_S1024x16x16_S1024x1x16_0_2_0 : S1024x16x16.Slices ![0, 2, 0] S1024x1x16
  slices_S1024x120_S1024x1_0_2 : S1024x120.Slices ![0, 2] S1024x1
  slices_S1024x16x16_S1024x1x16_0_3_0 : S1024x16x16.Slices ![0, 3, 0] S1024x1x16
  slices_S1024x120_S1024x1_0_3 : S1024x120.Slices ![0, 3] S1024x1
  slices_S1024x16x16_S1024x1x16_0_4_0 : S1024x16x16.Slices ![0, 4, 0] S1024x1x16
  slices_S1024x120_S1024x1_0_4 : S1024x120.Slices ![0, 4] S1024x1
  slices_S1024x16x16_S1024x1x16_0_5_0 : S1024x16x16.Slices ![0, 5, 0] S1024x1x16
  slices_S1024x120_S1024x1_0_5 : S1024x120.Slices ![0, 5] S1024x1
  slices_S1024x16x16_S1024x1x16_0_6_0 : S1024x16x16.Slices ![0, 6, 0] S1024x1x16
  slices_S1024x120_S1024x1_0_6 : S1024x120.Slices ![0, 6] S1024x1
  slices_S1024x16x16_S1024x1x16_0_7_0 : S1024x16x16.Slices ![0, 7, 0] S1024x1x16
  slices_S1024x120_S1024x1_0_7 : S1024x120.Slices ![0, 7] S1024x1
  slices_S1024x16x16_S1024x1x16_0_8_0 : S1024x16x16.Slices ![0, 8, 0] S1024x1x16
  slices_S1024x120_S1024x1_0_8 : S1024x120.Slices ![0, 8] S1024x1
  slices_S1024x16x16_S1024x1x16_0_9_0 : S1024x16x16.Slices ![0, 9, 0] S1024x1x16
  slices_S1024x120_S1024x1_0_9 : S1024x120.Slices ![0, 9] S1024x1
  slices_S1024x16x16_S1024x1x16_0_10_0 : S1024x16x16.Slices ![0, 10, 0] S1024x1x16
  slices_S1024x120_S1024x1_0_10 : S1024x120.Slices ![0, 10] S1024x1
  slices_S1024x16x16_S1024x1x16_0_11_0 : S1024x16x16.Slices ![0, 11, 0] S1024x1x16
  slices_S1024x120_S1024x1_0_11 : S1024x120.Slices ![0, 11] S1024x1
  slices_S1024x16x16_S1024x1x16_0_12_0 : S1024x16x16.Slices ![0, 12, 0] S1024x1x16
  slices_S1024x120_S1024x1_0_12 : S1024x120.Slices ![0, 12] S1024x1
  slices_S1024x16x16_S1024x1x16_0_13_0 : S1024x16x16.Slices ![0, 13, 0] S1024x1x16
  slices_S1024x120_S1024x1_0_13 : S1024x120.Slices ![0, 13] S1024x1
  slices_S1024x16x16_S1024x1x16_0_14_0 : S1024x16x16.Slices ![0, 14, 0] S1024x1x16
  slices_S1024x120_S1024x1_0_14 : S1024x120.Slices ![0, 14] S1024x1
  slices_S1024x16x16_S1024x1x16_0_15_0 : S1024x16x16.Slices ![0, 15, 0] S1024x1x16
  slices_S1024x120_S1024x1_0_15 : S1024x120.Slices ![0, 15] S1024x1
  slices_S1024x120_S1024x1_0_16 : S1024x120.Slices ![0, 16] S1024x1
  slices_S1024x120_S1024x1_0_17 : S1024x120.Slices ![0, 17] S1024x1
  slices_S1024x120_S1024x1_0_18 : S1024x120.Slices ![0, 18] S1024x1
  slices_S1024x120_S1024x1_0_19 : S1024x120.Slices ![0, 19] S1024x1
  slices_S1024x120_S1024x1_0_20 : S1024x120.Slices ![0, 20] S1024x1
  slices_S1024x120_S1024x1_0_21 : S1024x120.Slices ![0, 21] S1024x1
  slices_S1024x120_S1024x1_0_22 : S1024x120.Slices ![0, 22] S1024x1
  slices_S1024x120_S1024x1_0_23 : S1024x120.Slices ![0, 23] S1024x1
  slices_S1024x120_S1024x1_0_24 : S1024x120.Slices ![0, 24] S1024x1
  slices_S1024x120_S1024x1_0_25 : S1024x120.Slices ![0, 25] S1024x1
  slices_S1024x120_S1024x1_0_26 : S1024x120.Slices ![0, 26] S1024x1
  slices_S1024x120_S1024x1_0_27 : S1024x120.Slices ![0, 27] S1024x1
  slices_S1024x120_S1024x1_0_28 : S1024x120.Slices ![0, 28] S1024x1
  slices_S1024x120_S1024x1_0_29 : S1024x120.Slices ![0, 29] S1024x1
  slices_S1024x120_S1024x1_0_30 : S1024x120.Slices ![0, 30] S1024x1
  slices_S1024x120_S1024x1_0_31 : S1024x120.Slices ![0, 31] S1024x1
  slices_S1024x120_S1024x1_0_32 : S1024x120.Slices ![0, 32] S1024x1
  slices_S1024x120_S1024x1_0_33 : S1024x120.Slices ![0, 33] S1024x1
  slices_S1024x120_S1024x1_0_34 : S1024x120.Slices ![0, 34] S1024x1
  slices_S1024x120_S1024x1_0_35 : S1024x120.Slices ![0, 35] S1024x1
  slices_S1024x120_S1024x1_0_36 : S1024x120.Slices ![0, 36] S1024x1
  slices_S1024x120_S1024x1_0_37 : S1024x120.Slices ![0, 37] S1024x1
  slices_S1024x120_S1024x1_0_38 : S1024x120.Slices ![0, 38] S1024x1
  slices_S1024x120_S1024x1_0_39 : S1024x120.Slices ![0, 39] S1024x1
  slices_S1024x120_S1024x1_0_40 : S1024x120.Slices ![0, 40] S1024x1
  slices_S1024x120_S1024x1_0_41 : S1024x120.Slices ![0, 41] S1024x1
  slices_S1024x120_S1024x1_0_42 : S1024x120.Slices ![0, 42] S1024x1
  slices_S1024x120_S1024x1_0_43 : S1024x120.Slices ![0, 43] S1024x1
  slices_S1024x120_S1024x1_0_44 : S1024x120.Slices ![0, 44] S1024x1
  slices_S1024x120_S1024x1_0_45 : S1024x120.Slices ![0, 45] S1024x1
  slices_S1024x120_S1024x1_0_46 : S1024x120.Slices ![0, 46] S1024x1
  slices_S1024x120_S1024x1_0_47 : S1024x120.Slices ![0, 47] S1024x1
  slices_S1024x120_S1024x1_0_48 : S1024x120.Slices ![0, 48] S1024x1
  slices_S1024x120_S1024x1_0_49 : S1024x120.Slices ![0, 49] S1024x1
  slices_S1024x120_S1024x1_0_50 : S1024x120.Slices ![0, 50] S1024x1
  slices_S1024x120_S1024x1_0_51 : S1024x120.Slices ![0, 51] S1024x1
  slices_S1024x120_S1024x1_0_52 : S1024x120.Slices ![0, 52] S1024x1
  slices_S1024x120_S1024x1_0_53 : S1024x120.Slices ![0, 53] S1024x1
  slices_S1024x120_S1024x1_0_54 : S1024x120.Slices ![0, 54] S1024x1
  slices_S1024x120_S1024x1_0_55 : S1024x120.Slices ![0, 55] S1024x1
  slices_S1024x120_S1024x1_0_56 : S1024x120.Slices ![0, 56] S1024x1
  slices_S1024x120_S1024x1_0_57 : S1024x120.Slices ![0, 57] S1024x1
  slices_S1024x120_S1024x1_0_58 : S1024x120.Slices ![0, 58] S1024x1
  slices_S1024x120_S1024x1_0_59 : S1024x120.Slices ![0, 59] S1024x1
  slices_S1024x120_S1024x1_0_60 : S1024x120.Slices ![0, 60] S1024x1
  slices_S1024x120_S1024x1_0_61 : S1024x120.Slices ![0, 61] S1024x1
  slices_S1024x120_S1024x1_0_62 : S1024x120.Slices ![0, 62] S1024x1
  slices_S1024x120_S1024x1_0_63 : S1024x120.Slices ![0, 63] S1024x1
  slices_S1024x120_S1024x1_0_64 : S1024x120.Slices ![0, 64] S1024x1
  slices_S1024x120_S1024x1_0_65 : S1024x120.Slices ![0, 65] S1024x1
  slices_S1024x120_S1024x1_0_66 : S1024x120.Slices ![0, 66] S1024x1
  slices_S1024x120_S1024x1_0_67 : S1024x120.Slices ![0, 67] S1024x1
  slices_S1024x120_S1024x1_0_68 : S1024x120.Slices ![0, 68] S1024x1
  slices_S1024x120_S1024x1_0_69 : S1024x120.Slices ![0, 69] S1024x1
  slices_S1024x120_S1024x1_0_70 : S1024x120.Slices ![0, 70] S1024x1
  slices_S1024x120_S1024x1_0_71 : S1024x120.Slices ![0, 71] S1024x1
  slices_S1024x120_S1024x1_0_72 : S1024x120.Slices ![0, 72] S1024x1
  slices_S1024x120_S1024x1_0_73 : S1024x120.Slices ![0, 73] S1024x1
  slices_S1024x120_S1024x1_0_74 : S1024x120.Slices ![0, 74] S1024x1
  slices_S1024x120_S1024x1_0_75 : S1024x120.Slices ![0, 75] S1024x1
  slices_S1024x120_S1024x1_0_76 : S1024x120.Slices ![0, 76] S1024x1
  slices_S1024x120_S1024x1_0_77 : S1024x120.Slices ![0, 77] S1024x1
  slices_S1024x120_S1024x1_0_78 : S1024x120.Slices ![0, 78] S1024x1
  slices_S1024x120_S1024x1_0_79 : S1024x120.Slices ![0, 79] S1024x1
  slices_S1024x120_S1024x1_0_80 : S1024x120.Slices ![0, 80] S1024x1
  slices_S1024x120_S1024x1_0_81 : S1024x120.Slices ![0, 81] S1024x1
  slices_S1024x120_S1024x1_0_82 : S1024x120.Slices ![0, 82] S1024x1
  slices_S1024x120_S1024x1_0_83 : S1024x120.Slices ![0, 83] S1024x1
  slices_S1024x120_S1024x1_0_84 : S1024x120.Slices ![0, 84] S1024x1
  slices_S1024x120_S1024x1_0_85 : S1024x120.Slices ![0, 85] S1024x1
  slices_S1024x120_S1024x1_0_86 : S1024x120.Slices ![0, 86] S1024x1
  slices_S1024x120_S1024x1_0_87 : S1024x120.Slices ![0, 87] S1024x1
  slices_S1024x120_S1024x1_0_88 : S1024x120.Slices ![0, 88] S1024x1
  slices_S1024x120_S1024x1_0_89 : S1024x120.Slices ![0, 89] S1024x1
  slices_S1024x120_S1024x1_0_90 : S1024x120.Slices ![0, 90] S1024x1
  slices_S1024x120_S1024x1_0_91 : S1024x120.Slices ![0, 91] S1024x1
  slices_S1024x120_S1024x1_0_92 : S1024x120.Slices ![0, 92] S1024x1
  slices_S1024x120_S1024x1_0_93 : S1024x120.Slices ![0, 93] S1024x1
  slices_S1024x120_S1024x1_0_94 : S1024x120.Slices ![0, 94] S1024x1
  slices_S1024x120_S1024x1_0_95 : S1024x120.Slices ![0, 95] S1024x1
  slices_S1024x120_S1024x1_0_96 : S1024x120.Slices ![0, 96] S1024x1
  slices_S1024x120_S1024x1_0_97 : S1024x120.Slices ![0, 97] S1024x1
  slices_S1024x120_S1024x1_0_98 : S1024x120.Slices ![0, 98] S1024x1
  slices_S1024x120_S1024x1_0_99 : S1024x120.Slices ![0, 99] S1024x1
  slices_S1024x120_S1024x1_0_100 : S1024x120.Slices ![0, 100] S1024x1
  slices_S1024x120_S1024x1_0_101 : S1024x120.Slices ![0, 101] S1024x1
  slices_S1024x120_S1024x1_0_102 : S1024x120.Slices ![0, 102] S1024x1
  slices_S1024x120_S1024x1_0_103 : S1024x120.Slices ![0, 103] S1024x1
  slices_S1024x120_S1024x1_0_104 : S1024x120.Slices ![0, 104] S1024x1
  slices_S1024x120_S1024x1_0_105 : S1024x120.Slices ![0, 105] S1024x1
  slices_S1024x120_S1024x1_0_106 : S1024x120.Slices ![0, 106] S1024x1
  slices_S1024x120_S1024x1_0_107 : S1024x120.Slices ![0, 107] S1024x1
  slices_S1024x120_S1024x1_0_108 : S1024x120.Slices ![0, 108] S1024x1
  slices_S1024x120_S1024x1_0_109 : S1024x120.Slices ![0, 109] S1024x1
  slices_S1024x120_S1024x1_0_110 : S1024x120.Slices ![0, 110] S1024x1
  slices_S1024x120_S1024x1_0_111 : S1024x120.Slices ![0, 111] S1024x1
  slices_S1024x120_S1024x1_0_112 : S1024x120.Slices ![0, 112] S1024x1
  slices_S1024x120_S1024x1_0_113 : S1024x120.Slices ![0, 113] S1024x1
  slices_S1024x120_S1024x1_0_114 : S1024x120.Slices ![0, 114] S1024x1
  slices_S1024x120_S1024x1_0_115 : S1024x120.Slices ![0, 115] S1024x1
  slices_S1024x120_S1024x1_0_116 : S1024x120.Slices ![0, 116] S1024x1
  slices_S1024x120_S1024x1_0_117 : S1024x120.Slices ![0, 117] S1024x1
  slices_S1024x120_S1024x1_0_118 : S1024x120.Slices ![0, 118] S1024x1
  slices_S1024x120_S1024x1_0_119 : S1024x120.Slices ![0, 119] S1024x1
  bcast_S1024x16_S1024x16x1_0_1 : S1024x16.BroadcastsInDim S1024x16x1 (![0, 1] : Fin 2 → Fin S1024x16x1.rank)
  bcast_S1024x16x1_S1024x16x16_0_1_2 : S1024x16x1.BroadcastsInDim S1024x16x16 (![0, 1, 2] : Fin 3 → Fin S1024x16x16.rank)
  scatter_S1024x16x16_S1_S1024x16_01_1_1_0_wf : ScatterDims.WF S1024x16x16 S1 S1024x16 [0, 1] [1] [1] 0
  dot_S1024x16x16_S1024x16x2048_S1024x16x2048_2_1_1_2_0_0_wf : DotDims.WF S1024x16x16 S1024x16x2048 S1024x16x2048 [2] [1] [1] [2] [0] [0]

variable [Facts₀]

def scatter_S1024x16x16_S1_S1024x16_01_1_1_0 : ScatterDims S1024x16x16 S1 S1024x16 where
  updateWindowDims := [0, 1]
  insertedWindowDims := [1]
  scatterDimsToOperandDims := [1]
  indexVectorDim := 0
  wf := scatter_S1024x16x16_S1_S1024x16_01_1_1_0_wf
def dot_S1024x16x16_S1024x16x2048_S1024x16x2048_2_1_1_2_0_0 : DotDims S1024x16x16 S1024x16x2048 S1024x16x2048 where
  lhsContracting := [2]
  rhsContracting := [1]
  lhsNonContracting := [1]
  rhsNonContracting := [2]
  lhsBatch := [0]
  rhsBatch := [0]
  wf := dot_S1024x16x16_S1024x16x2048_S1024x16x2048_2_1_1_2_0_0_wf

class Facts : Prop extends Facts₀ where

variable [Facts]
-- ==== Proof.Spec.lean ====
/-
  The value both programs compute, as one function of three arrays.

  For each of 1024 blocks `b` there is a 16 × 16 matrix `R b` (the cascade of plane rotations built from the block's 120
  angles), 16 row factors `μ b`, and a 16 × 2048 panel `X b`.  The result is the panel rotated by the row-scaled matrix:

      out (b, i, q) = ∑ k, (μ (b, i) · R (b, i, k)) · X (b, k, q),

  a sum of 16 products on the extended reals.  Each factor `μ (b, i) · R (b, i, k)` is formed first and then multiplied
  by the panel's entry, so no law of the extended reals beyond reading the operations at an index is needed to compare
  two programs that compute it this way: neither distributes, cancels or re-associates anything.
-/
import Idealize.ShloMosaic.PureOps.Ideal
import Idealize.ShloMosaic.Lib.ValueIdx

noncomputable section

open scoped BigOperators

namespace Cert.Spec

open Idealize.ShloMosaic Idealize.ShloMosaic.ValueIdx

/-- The panel of every block rotated by that block's row-scaled matrix: entry `(b, i, q)` is the sum over `k` of
    `(μ (b, i) · R (b, i, k)) · X (b, k, q)`. -/
def scaledRotate (R : FVec Ideal ⟨3, ![1024, 16, 16]⟩ .f32) (mu : FVec Ideal ⟨2, ![1024, 16]⟩ .f32)
    (X : FVec Ideal ⟨3, ![1024, 16, 2048]⟩ .f32) : FVec Ideal ⟨3, ![1024, 16, 2048]⟩ .f32 :=
  fun j => ∑ k : Fin 16, (mu (ix2 (j 0) (j 1)) * R (ix3 (j 0) (j 1) k)) * X (ix3 (j 0) k (j 2))

/-- Read at an index given by its coordinates. -/
theorem scaledRotate_apply (R : FVec Ideal ⟨3, ![1024, 16, 16]⟩ .f32) (mu : FVec Ideal ⟨2, ![1024, 16]⟩ .f32)
    (X : FVec Ideal ⟨3, ![1024, 16, 2048]⟩ .f32) (b : Fin 1024) (i : Fin 16) (q : Fin 2048) :
    scaledRotate R mu X (ix3 b i q) = ∑ k : Fin 16, (mu (ix2 b i) * R (ix3 b i k)) * X (ix3 b k q) := rfl

end Cert.Spec

end
-- ==== Proof.BKeepW0.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 0 writes no argument array: main_arg0 is as before. -/
theorem keep0_main_arg0 (W : Valuation τ sig (Elt F)) : after main_part0_ops0 W (no_index (Proc.devRef .tc main_arg0)) = W (Proc.devRef .tc main_arg0) := by
  simp only [main_part0_ops0]
  after_results_simp
  all_goals rfl
set_option maxRecDepth 8192 in
set_option maxHeartbeats 2000000 in
/-- Window 0 writes no argument array: main_arg1 is as before. -/
theorem keep0_main_arg1 (W : Valuation τ sig (Elt F)) : after main_part0_ops0 W (no_index (Proc.devRef .tc main_arg1)) = W (Proc.devRef .tc main_arg1) := by
  simp only [main_part0_ops0]
  after_results_simp
  all_goals rfl
set_option maxRecDepth 8192 in
set_option maxHeartbeats 2000000 in
/-- Window 0 writes no argument array: main_arg2 is as before. -/
theorem keep0_main_arg2 (W : Valuation τ sig (Elt F)) : after main_part0_ops0 W (no_index (Proc.devRef .tc main_arg2)) = W (Proc.devRef .tc main_arg2) := by
  simp only [main_part0_ops0]
  after_results_simp
  all_goals rfl
set_option maxRecDepth 8192 in
set_option maxHeartbeats 2000000 in
/-- Window 1 writes no argument array: main_arg0 is as before. -/
theorem keep1_main_arg0 (W : Valuation τ sig (Elt F)) : after main_part1_ops0 W (no_index (Proc.devRef .tc main_arg0)) = W (Proc.devRef .tc main_arg0) := by
  simp only [main_part1_ops0]
  after_results_simp
  all_goals rfl
set_option maxRecDepth 8192 in
set_option maxHeartbeats 2000000 in
/-- Window 1 writes no argument array: main_arg1 is as before. -/
theorem keep1_main_arg1 (W : Valuation τ sig (Elt F)) : after main_part1_ops0 W (no_index (Proc.devRef .tc main_arg1)) = W (Proc.devRef .tc main_arg1) := by
  simp only [main_part1_ops0]
  after_results_simp
  all_goals rfl
set_option maxRecDepth 8192 in
set_option maxHeartbeats 2000000 in
/-- Window 1 writes no argument array: main_arg2 is as before. -/
theorem keep1_main_arg2 (W : Valuation τ sig (Elt F)) : after main_part1_ops0 W (no_index (Proc.devRef .tc main_arg2)) = W (Proc.devRef .tc main_arg2) := by
  simp only [main_part1_ops0]
  after_results_simp
  all_goals rfl
set_option maxRecDepth 8192 in
set_option maxHeartbeats 2000000 in
/-- Window 2 writes no argument array: main_arg0 is as before. -/
theorem keep2_main_arg0 (W : Valuation τ sig (Elt F)) : after main_part2_ops0 W (no_index (Proc.devRef .tc main_arg0)) = W (Proc.devRef .tc main_arg0) := by
  simp only [main_part2_ops0]
  after_results_simp
  all_goals rfl
set_option maxRecDepth 8192 in
set_option maxHeartbeats 2000000 in
/-- Window 2 writes no argument array: main_arg1 is as before. -/
theorem keep2_main_arg1 (W : Valuation τ sig (Elt F)) : after main_part2_ops0 W (no_index (Proc.devRef .tc main_arg1)) = W (Proc.devRef .tc main_arg1) := by
  simp only [main_part2_ops0]
  after_results_simp
  all_goals rfl
set_option maxRecDepth 8192 in
set_option maxHeartbeats 2000000 in
/-- Window 2 writes no argument array: main_arg2 is as before. -/
theorem keep2_main_arg2 (W : Valuation τ sig (Elt F)) : after main_part2_ops0 W (no_index (Proc.devRef .tc main_arg2)) = W (Proc.devRef .tc main_arg2) := by
  simp only [main_part2_ops0]
  after_results_simp
  all_goals rfl
set_option maxRecDepth 8192 in
set_option maxHeartbeats 2000000 in
/-- Window 3 writes no argument array: main_arg0 is as before. -/
theorem keep3_main_arg0 (W : Valuation τ sig (Elt F)) : after main_part3_ops0 W (no_index (Proc.devRef .tc main_arg0)) = W (Proc.devRef .tc main_arg0) := by
  simp only [main_part3_ops0]
  after_results_simp
  all_goals rfl
set_option maxRecDepth 8192 in
set_option maxHeartbeats 2000000 in
/-- Window 3 writes no argument array: main_arg1 is as before. -/
theorem keep3_main_arg1 (W : Valuation τ sig (Elt F)) : after main_part3_ops0 W (no_index (Proc.devRef .tc main_arg1)) = W (Proc.devRef .tc main_arg1) := by
  simp only [main_part3_ops0]
  after_results_simp
  all_goals rfl
set_option maxRecDepth 8192 in
set_option maxHeartbeats 2000000 in
/-- Window 3 writes no argument array: main_arg2 is as before. -/
theorem keep3_main_arg2 (W : Valuation τ sig (Elt F)) : after main_part3_ops0 W (no_index (Proc.devRef .tc main_arg2)) = W (Proc.devRef .tc main_arg2) := by
  simp only [main_part3_ops0]
  after_results_simp
  all_goals rfl

end Cert.Kernel.KHost

end
-- ==== Proof.BKeepW1.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 4 writes no argument array: main_arg0 is as before. -/
theorem keep4_main_arg0 (W : Valuation τ sig (Elt F)) : after main_part4_ops0 W (no_index (Proc.devRef .tc main_arg0)) = W (Proc.devRef .tc main_arg0) := by
  simp only [main_part4_ops0]
  after_results_simp
  all_goals rfl
set_option maxRecDepth 8192 in
set_option maxHeartbeats 2000000 in
/-- Window 4 writes no argument array: main_arg1 is as before. -/
theorem keep4_main_arg1 (W : Valuation τ sig (Elt F)) : after main_part4_ops0 W (no_index (Proc.devRef .tc main_arg1)) = W (Proc.devRef .tc main_arg1) := by
  simp only [main_part4_ops0]
  after_results_simp
  all_goals rfl
set_option maxRecDepth 8192 in
set_option maxHeartbeats 2000000 in
/-- Window 4 writes no argument array: main_arg2 is as before. -/
theorem keep4_main_arg2 (W : Valuation τ sig (Elt F)) : after main_part4_ops0 W (no_index (Proc.devRef .tc main_arg2)) = W (Proc.devRef .tc main_arg2) := by
  simp only [main_part4_ops0]
  after_results_simp
  all_goals rfl
set_option maxRecDepth 8192 in
set_option maxHeartbeats 2000000 in
/-- Window 5 writes no argument array: main_arg0 is as before. -/
theorem keep5_main_arg0 (W : Valuation τ sig (Elt F)) : after main_part5_ops0 W (no_index (Proc.devRef .tc main_arg0)) = W (Proc.devRef .tc main_arg0) := by
  simp only [main_part5_ops0]
  after_results_simp
  all_goals rfl
set_option maxRecDepth 8192 in
set_option maxHeartbeats 2000000 in
/-- Window 5 writes no argument array: main_arg1 is as before. -/
theorem keep5_main_arg1 (W : Valuation τ sig (Elt F)) : after main_part5_ops0 W (no_index (Proc.devRef .tc main_arg1)) = W (Proc.devRef .tc main_arg1) := by
  simp only [main_part5_ops0]
  after_results_simp
  all_goals rfl
set_option maxRecDepth 8192 in
set_option maxHeartbeats 2000000 in
/-- Window 5 writes no argument array: main_arg2 is as before. -/
theorem keep5_main_arg2 (W : Valuation τ sig (Elt F)) : after main_part5_ops0 W (no_index (Proc.devRef .tc main_arg2)) = W (Proc.devRef .tc main_arg2) := by
  simp only [main_part5_ops0]
  after_results_simp
  all_goals rfl
set_option maxRecDepth 8192 in
set_option maxHeartbeats 2000000 in
/-- Window 6 writes no argument array: main_arg0 is as before. -/
theorem keep6_main_arg0 (W : Valuation τ sig (Elt F)) : after main_part6_ops0 W (no_index (Proc.devRef .tc main_arg0)) = W (Proc.devRef .tc main_arg0) := by
  simp only [main_part6_ops0]
  after_results_simp
  all_goals rfl
set_option maxRecDepth 8192 in
set_option maxHeartbeats 2000000 in
/-- Window 6 writes no argument array: main_arg1 is as before. -/
theorem keep6_main_arg1 (W : Valuation τ sig (Elt F)) : after main_part6_ops0 W (no_index (Proc.devRef .tc main_arg1)) = W (Proc.devRef .tc main_arg1) := by
  simp only [main_part6_ops0]
  after_results_simp
  all_goals rfl
set_option maxRecDepth 8192 in
set_option maxHeartbeats 2000000 in
/-- Window 6 writes no argument array: main_arg2 is as before. -/
theorem keep6_main_arg2 (W : Valuation τ sig (Elt F)) : after main_part6_ops0 W (no_index (Proc.devRef .tc main_arg2)) = W (Proc.devRef .tc main_arg2) := by
  simp only [main_part6_ops0]
  after_results_simp
  all_goals rfl
set_option maxRecDepth 8192 in
set_option maxHeartbeats 2000000 in
/-- Window 7 writes no argument array: main_arg0 is as before. -/
theorem keep7_main_arg0 (W : Valuation τ sig (Elt F)) : after main_part7_ops0 W (no_index (Proc.devRef .tc main_arg0)) = W (Proc.devRef .tc main_arg0) := by
  simp only [main_part7_ops0]
  after_results_simp
  all_goals rfl
set_option maxRecDepth 8192 in
set_option maxHeartbeats 2000000 in
/-- Window 7 writes no argument array: main_arg1 is as before. -/
theorem keep7_main_arg1 (W : Valuation τ sig (Elt F)) : after main_part7_ops0 W (no_index (Proc.devRef .tc main_arg1)) = W (Proc.devRef .tc main_arg1) := by
  simp only [main_part7_ops0]
  after_results_simp
  all_goals rfl
set_option maxRecDepth 8192 in
set_option maxHeartbeats 2000000 in
/-- Window 7 writes no argument array: main_arg2 is as before. -/
theorem keep7_main_arg2 (W : Valuation τ sig (Elt F)) : after main_part7_ops0 W (no_index (Proc.devRef .tc main_arg2)) = W (Proc.devRef .tc main_arg2) := by
  simp only [main_part7_ops0]
  after_results_simp
  all_goals rfl

end Cert.Kernel.KHost

end
-- ==== Proof.BKeepW2.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 8 writes no argument array: main_arg0 is as before. -/
theorem keep8_main_arg0 (W : Valuation τ sig (Elt F)) : after main_part8_ops0 W (no_index (Proc.devRef .tc main_arg0)) = W (Proc.devRef .tc main_arg0) := by
  simp only [main_part8_ops0]
  after_results_simp
  all_goals rfl
set_option maxRecDepth 8192 in
set_option maxHeartbeats 2000000 in
/-- Window 8 writes no argument array: main_arg1 is as before. -/
theorem keep8_main_arg1 (W : Valuation τ sig (Elt F)) : after main_part8_ops0 W (no_index (Proc.devRef .tc main_arg1)) = W (Proc.devRef .tc main_arg1) := by
  simp only [main_part8_ops0]
  after_results_simp
  all_goals rfl
set_option maxRecDepth 8192 in
set_option maxHeartbeats 2000000 in
/-- Window 8 writes no argument array: main_arg2 is as before. -/
theorem keep8_main_arg2 (W : Valuation τ sig (Elt F)) : after main_part8_ops0 W (no_index (Proc.devRef .tc main_arg2)) = W (Proc.devRef .tc main_arg2) := by
  simp only [main_part8_ops0]
  after_results_simp
  all_goals rfl
set_option maxRecDepth 8192 in
set_option maxHeartbeats 2000000 in
/-- Window 9 writes no argument array: main_arg0 is as before. -/
theorem keep9_main_arg0 (W : Valuation τ sig (Elt F)) : after main_part9_ops0 W (no_index (Proc.devRef .tc main_arg0)) = W (Proc.devRef .tc main_arg0) := by
  simp only [main_part9_ops0]
  after_results_simp
  all_goals rfl
set_option maxRecDepth 8192 in
set_option maxHeartbeats 2000000 in
/-- Window 9 writes no argument array: main_arg1 is as before. -/
theorem keep9_main_arg1 (W : Valuation τ sig (Elt F)) : after main_part9_ops0 W (no_index (Proc.devRef .tc main_arg1)) = W (Proc.devRef .tc main_arg1) := by
  simp only [main_part9_ops0]
  after_results_simp
  all_goals rfl
set_option maxRecDepth 8192 in
set_option maxHeartbeats 2000000 in
/-- Window 9 writes no argument array: main_arg2 is as before. -/
theorem keep9_main_arg2 (W : Valuation τ sig (Elt F)) : after main_part9_ops0 W (no_index (Proc.devRef .tc main_arg2)) = W (Proc.devRef .tc main_arg2) := by
  simp only [main_part9_ops0]
  after_results_simp
  all_goals rfl
set_option maxRecDepth 8192 in
set_option maxHeartbeats 2000000 in
/-- Window 10 writes no argument array: main_arg0 is as before. -/
theorem keep10_main_arg0 (W : Valuation τ sig (Elt F)) : after main_part10_ops0 W (no_index (Proc.devRef .tc main_arg0)) = W (Proc.devRef .tc main_arg0) := by
  simp only [main_part10_ops0]
  after_results_simp
  all_goals rfl
set_option maxRecDepth 8192 in
set_option maxHeartbeats 2000000 in
/-- Window 10 writes no argument array: main_arg1 is as before. -/
theorem keep10_main_arg1 (W : Valuation τ sig (Elt F)) : after main_part10_ops0 W (no_index (Proc.devRef .tc main_arg1)) = W (Proc.devRef .tc main_arg1) := by
  simp only [main_part10_ops0]
  after_results_simp
  all_goals rfl
set_option maxRecDepth 8192 in
set_option maxHeartbeats 2000000 in
/-- Window 10 writes no argument array: main_arg2 is as before. -/
theorem keep10_main_arg2 (W : Valuation τ sig (Elt F)) : after main_part10_ops0 W (no_index (Proc.devRef .tc main_arg2)) = W (Proc.devRef .tc main_arg2) := by
  simp only [main_part10_ops0]
  after_results_simp
  all_goals rfl
set_option maxRecDepth 8192 in
set_option maxHeartbeats 2000000 in
/-- Window 11 writes no argument array: main_arg0 is as before. -/
theorem keep11_main_arg0 (W : Valuation τ sig (Elt F)) : after main_part11_ops0 W (no_index (Proc.devRef .tc main_arg0)) = W (Proc.devRef .tc main_arg0) := by
  simp only [main_part11_ops0]
  after_results_simp
  all_goals rfl
set_option maxRecDepth 8192 in
set_option maxHeartbeats 2000000 in
/-- Window 11 writes no argument array: main_arg1 is as before. -/
theorem keep11_main_arg1 (W : Valuation τ sig (Elt F)) : after main_part11_ops0 W (no_index (Proc.devRef .tc main_arg1)) = W (Proc.devRef .tc main_arg1) := by
  simp only [main_part11_ops0]
  after_results_simp
  all_goals rfl
set_option maxRecDepth 8192 in
set_option maxHeartbeats 2000000 in
/-- Window 11 writes no argument array: main_arg2 is as before. -/
theorem keep11_main_arg2 (W : Valuation τ sig (Elt F)) : after main_part11_ops0 W (no_index (Proc.devRef .tc main_arg2)) = W (Proc.devRef .tc main_arg2) := by
  simp only [main_part11_ops0]
  after_results_simp
  all_goals rfl

end Cert.Kernel.KHost

end
-- ==== Proof.BKeepW3.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 12 writes no argument array: main_arg0 is as before. -/
theorem keep12_main_arg0 (W : Valuation τ sig (Elt F)) : after main_part12_ops0 W (no_index (Proc.devRef .tc main_arg0)) = W (Proc.devRef .tc main_arg0) := by
  simp only [main_part12_ops0]
  after_results_simp
  all_goals rfl
set_option maxRecDepth 8192 in
set_option maxHeartbeats 2000000 in
/-- Window 12 writes no argument array: main_arg1 is as before. -/
theorem keep12_main_arg1 (W : Valuation τ sig (Elt F)) : after main_part12_ops0 W (no_index (Proc.devRef .tc main_arg1)) = W (Proc.devRef .tc main_arg1) := by
  simp only [main_part12_ops0]
  after_results_simp
  all_goals rfl
set_option maxRecDepth 8192 in
set_option maxHeartbeats 2000000 in
/-- Window 12 writes no argument array: main_arg2 is as before. -/
theorem keep12_main_arg2 (W : Valuation τ sig (Elt F)) : after main_part12_ops0 W (no_index (Proc.devRef .tc main_arg2)) = W (Proc.devRef .tc main_arg2) := by
  simp only [main_part12_ops0]
  after_results_simp
  all_goals rfl
set_option maxRecDepth 8192 in
set_option maxHeartbeats 2000000 in
/-- Window 13 writes no argument array: main_arg0 is as before. -/
theorem keep13_main_arg0 (W : Valuation τ sig (Elt F)) : after main_part13_ops0 W (no_index (Proc.devRef .tc main_arg0)) = W (Proc.devRef .tc main_arg0) := by
  simp only [main_part13_ops0]
  after_results_simp
  all_goals rfl
set_option maxRecDepth 8192 in
set_option maxHeartbeats 2000000 in
/-- Window 13 writes no argument array: main_arg1 is as before. -/
theorem keep13_main_arg1 (W : Valuation τ sig (Elt F)) : after main_part13_ops0 W (no_index (Proc.devRef .tc main_arg1)) = W (Proc.devRef .tc main_arg1) := by
  simp only [main_part13_ops0]
  after_results_simp
  all_goals rfl
set_option maxRecDepth 8192 in
set_option maxHeartbeats 2000000 in
/-- Window 13 writes no argument array: main_arg2 is as before. -/
theorem keep13_main_arg2 (W : Valuation τ sig (Elt F)) : after main_part13_ops0 W (no_index (Proc.devRef .tc main_arg2)) = W (Proc.devRef .tc main_arg2) := by
  simp only [main_part13_ops0]
  after_results_simp
  all_goals rfl
set_option maxRecDepth 8192 in
set_option maxHeartbeats 2000000 in
/-- Window 14 writes no argument array: main_arg0 is as before. -/
theorem keep14_main_arg0 (W : Valuation τ sig (Elt F)) : after main_part14_ops0 W (no_index (Proc.devRef .tc main_arg0)) = W (Proc.devRef .tc main_arg0) := by
  simp only [main_part14_ops0]
  after_results_simp
  all_goals rfl
set_option maxRecDepth 8192 in
set_option maxHeartbeats 2000000 in
/-- Window 14 writes no argument array: main_arg1 is as before. -/
theorem keep14_main_arg1 (W : Valuation τ sig (Elt F)) : after main_part14_ops0 W (no_index (Proc.devRef .tc main_arg1)) = W (Proc.devRef .tc main_arg1) := by
  simp only [main_part14_ops0]
  after_results_simp
  all_goals rfl
set_option maxRecDepth 8192 in
set_option maxHeartbeats 2000000 in
/-- Window 14 writes no argument array: main_arg2 is as before. -/
theorem keep14_main_arg2 (W : Valuation τ sig (Elt F)) : after main_part14_ops0 W (no_index (Proc.devRef .tc main_arg2)) = W (Proc.devRef .tc main_arg2) := by
  simp only [main_part14_ops0]
  after_results_simp
  all_goals rfl
set_option maxRecDepth 8192 in
set_option maxHeartbeats 2000000 in
/-- Window 15 writes no argument array: main_arg0 is as before. -/
theorem keep15_main_arg0 (W : Valuation τ sig (Elt F)) : after main_part15_ops0 W (no_index (Proc.devRef .tc main_arg0)) = W (Proc.devRef .tc main_arg0) := by
  simp only [main_part15_ops0]
  after_results_simp
  all_goals rfl
set_option maxRecDepth 8192 in
set_option maxHeartbeats 2000000 in
/-- Window 15 writes no argument array: main_arg1 is as before. -/
theorem keep15_main_arg1 (W : Valuation τ sig (Elt F)) : after main_part15_ops0 W (no_index (Proc.devRef .tc main_arg1)) = W (Proc.devRef .tc main_arg1) := by
  simp only [main_part15_ops0]
  after_results_simp
  all_goals rfl
set_option maxRecDepth 8192 in
set_option maxHeartbeats 2000000 in
/-- Window 15 writes no argument array: main_arg2 is as before. -/
theorem keep15_main_arg2 (W : Valuation τ sig (Elt F)) : after main_part15_ops0 W (no_index (Proc.devRef .tc main_arg2)) = W (Proc.devRef .tc main_arg2) := by
  simp only [main_part15_ops0]
  after_results_simp
  all_goals rfl

end Cert.Kernel.KHost

end
-- ==== Proof.BKeepW4.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 16 writes no argument array: main_arg0 is as before. -/
theorem keep16_main_arg0 (W : Valuation τ sig (Elt F)) : after main_part16_ops0 W (no_index (Proc.devRef .tc main_arg0)) = W (Proc.devRef .tc main_arg0) := by
  simp only [main_part16_ops0]
  after_results_simp
  all_goals rfl
set_option maxRecDepth 8192 in
set_option maxHeartbeats 2000000 in
/-- Window 16 writes no argument array: main_arg1 is as before. -/
theorem keep16_main_arg1 (W : Valuation τ sig (Elt F)) : after main_part16_ops0 W (no_index (Proc.devRef .tc main_arg1)) = W (Proc.devRef .tc main_arg1) := by
  simp only [main_part16_ops0]
  after_results_simp
  all_goals rfl
set_option maxRecDepth 8192 in
set_option maxHeartbeats 2000000 in
/-- Window 16 writes no argument array: main_arg2 is as before. -/
theorem keep16_main_arg2 (W : Valuation τ sig (Elt F)) : after main_part16_ops0 W (no_index (Proc.devRef .tc main_arg2)) = W (Proc.devRef .tc main_arg2) := by
  simp only [main_part16_ops0]
  after_results_simp
  all_goals rfl
set_option maxRecDepth 8192 in
set_option maxHeartbeats 2000000 in
/-- Window 17 writes no argument array: main_arg0 is as before. -/
theorem keep17_main_arg0 (W : Valuation τ sig (Elt F)) : after main_part17_ops0 W (no_index (Proc.devRef .tc main_arg0)) = W (Proc.devRef .tc main_arg0) := by
  simp only [main_part17_ops0]
  after_results_simp
  all_goals rfl
set_option maxRecDepth 8192 in
set_option maxHeartbeats 2000000 in
/-- Window 17 writes no argument array: main_arg1 is as before. -/
theorem keep17_main_arg1 (W : Valuation τ sig (Elt F)) : after main_part17_ops0 W (no_index (Proc.devRef .tc main_arg1)) = W (Proc.devRef .tc main_arg1) := by
  simp only [main_part17_ops0]
  after_results_simp
  all_goals rfl
set_option maxRecDepth 8192 in
set_option maxHeartbeats 2000000 in
/-- Window 17 writes no argument array: main_arg2 is as before. -/
theorem keep17_main_arg2 (W : Valuation τ sig (Elt F)) : after main_part17_ops0 W (no_index (Proc.devRef .tc main_arg2)) = W (Proc.devRef .tc main_arg2) := by
  simp only [main_part17_ops0]
  after_results_simp
  all_goals rfl
set_option maxRecDepth 8192 in
set_option maxHeartbeats 2000000 in
/-- Window 18 writes no argument array: main_arg0 is as before. -/
theorem keep18_main_arg0 (W : Valuation τ sig (Elt F)) : after main_part18_ops0 W (no_index (Proc.devRef .tc main_arg0)) = W (Proc.devRef .tc main_arg0) := by
  simp only [main_part18_ops0]
  after_results_simp
  all_goals rfl
set_option maxRecDepth 8192 in
set_option maxHeartbeats 2000000 in
/-- Window 18 writes no argument array: main_arg1 is as before. -/
theorem keep18_main_arg1 (W : Valuation τ sig (Elt F)) : after main_part18_ops0 W (no_index (Proc.devRef .tc main_arg1)) = W (Proc.devRef .tc main_arg1) := by
  simp only [main_part18_ops0]
  after_results_simp
  all_goals rfl
set_option maxRecDepth 8192 in
set_option maxHeartbeats 2000000 in
/-- Window 18 writes no argument array: main_arg2 is as before. -/
theorem keep18_main_arg2 (W : Valuation τ sig (Elt F)) : after main_part18_ops0 W (no_index (Proc.devRef .tc main_arg2)) = W (Proc.devRef .tc main_arg2) := by
  simp only [main_part18_ops0]
  after_results_simp
  all_goals rfl
set_option maxRecDepth 8192 in
set_option maxHeartbeats 2000000 in
/-- Window 19 writes no argument array: main_arg0 is as before. -/
theorem keep19_main_arg0 (W : Valuation τ sig (Elt F)) : after main_part19_ops0 W (no_index (Proc.devRef .tc main_arg0)) = W (Proc.devRef .tc main_arg0) := by
  simp only [main_part19_ops0]
  after_results_simp
  all_goals rfl
set_option maxRecDepth 8192 in
set_option maxHeartbeats 2000000 in
/-- Window 19 writes no argument array: main_arg1 is as before. -/
theorem keep19_main_arg1 (W : Valuation τ sig (Elt F)) : after main_part19_ops0 W (no_index (Proc.devRef .tc main_arg1)) = W (Proc.devRef .tc main_arg1) := by
  simp only [main_part19_ops0]
  after_results_simp
  all_goals rfl
set_option maxRecDepth 8192 in
set_option maxHeartbeats 2000000 in
/-- Window 19 writes no argument array: main_arg2 is as before. -/
theorem keep19_main_arg2 (W : Valuation τ sig (Elt F)) : after main_part19_ops0 W (no_index (Proc.devRef .tc main_arg2)) = W (Proc.devRef .tc main_arg2) := by
  simp only [main_part19_ops0]
  after_results_simp
  all_goals rfl

end Cert.Kernel.KHost

end
-- ==== Proof.BKeepW5.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 20 writes no argument array: main_arg0 is as before. -/
theorem keep20_main_arg0 (W : Valuation τ sig (Elt F)) : after main_part20_ops0 W (no_index (Proc.devRef .tc main_arg0)) = W (Proc.devRef .tc main_arg0) := by
  simp only [main_part20_ops0]
  after_results_simp
  all_goals rfl
set_option maxRecDepth 8192 in
set_option maxHeartbeats 2000000 in
/-- Window 20 writes no argument array: main_arg1 is as before. -/
theorem keep20_main_arg1 (W : Valuation τ sig (Elt F)) : after main_part20_ops0 W (no_index (Proc.devRef .tc main_arg1)) = W (Proc.devRef .tc main_arg1) := by
  simp only [main_part20_ops0]
  after_results_simp
  all_goals rfl
set_option maxRecDepth 8192 in
set_option maxHeartbeats 2000000 in
/-- Window 20 writes no argument array: main_arg2 is as before. -/
theorem keep20_main_arg2 (W : Valuation τ sig (Elt F)) : after main_part20_ops0 W (no_index (Proc.devRef .tc main_arg2)) = W (Proc.devRef .tc main_arg2) := by
  simp only [main_part20_ops0]
  after_results_simp
  all_goals rfl
set_option maxRecDepth 8192 in
set_option maxHeartbeats 2000000 in
/-- Window 21 writes no argument array: main_arg0 is as before. -/
theorem keep21_main_arg0 (W : Valuation τ sig (Elt F)) : after main_part21_ops0 W (no_index (Proc.devRef .tc main_arg0)) = W (Proc.devRef .tc main_arg0) := by
  simp only [main_part21_ops0]
  after_results_simp
  all_goals rfl
set_option maxRecDepth 8192 in
set_option maxHeartbeats 2000000 in
/-- Window 21 writes no argument array: main_arg1 is as before. -/
theorem keep21_main_arg1 (W : Valuation τ sig (Elt F)) : after main_part21_ops0 W (no_index (Proc.devRef .tc main_arg1)) = W (Proc.devRef .tc main_arg1) := by
  simp only [main_part21_ops0]
  after_results_simp
  all_goals rfl
set_option maxRecDepth 8192 in
set_option maxHeartbeats 2000000 in
/-- Window 21 writes no argument array: main_arg2 is as before. -/
theorem keep21_main_arg2 (W : Valuation τ sig (Elt F)) : after main_part21_ops0 W (no_index (Proc.devRef .tc main_arg2)) = W (Proc.devRef .tc main_arg2) := by
  simp only [main_part21_ops0]
  after_results_simp
  all_goals rfl
set_option maxRecDepth 8192 in
set_option maxHeartbeats 2000000 in
/-- Window 22 writes no argument array: main_arg0 is as before. -/
theorem keep22_main_arg0 (W : Valuation τ sig (Elt F)) : after main_part22_ops0 W (no_index (Proc.devRef .tc main_arg0)) = W (Proc.devRef .tc main_arg0) := by
  simp only [main_part22_ops0]
  after_results_simp
  all_goals rfl
set_option maxRecDepth 8192 in
set_option maxHeartbeats 2000000 in
/-- Window 22 writes no argument array: main_arg1 is as before. -/
theorem keep22_main_arg1 (W : Valuation τ sig (Elt F)) : after main_part22_ops0 W (no_index (Proc.devRef .tc main_arg1)) = W (Proc.devRef .tc main_arg1) := by
  simp only [main_part22_ops0]
  after_results_simp
  all_goals rfl
set_option maxRecDepth 8192 in
set_option maxHeartbeats 2000000 in
/-- Window 22 writes no argument array: main_arg2 is as before. -/
theorem keep22_main_arg2 (W : Valuation τ sig (Elt F)) : after main_part22_ops0 W (no_index (Proc.devRef .tc main_arg2)) = W (Proc.devRef .tc main_arg2) := by
  simp only [main_part22_ops0]
  after_results_simp
  all_goals rfl
set_option maxRecDepth 8192 in
set_option maxHeartbeats 2000000 in
/-- Window 23 writes no argument array: main_arg0 is as before. -/
theorem keep23_main_arg0 (W : Valuation τ sig (Elt F)) : after main_part23_ops0 W (no_index (Proc.devRef .tc main_arg0)) = W (Proc.devRef .tc main_arg0) := by
  simp only [main_part23_ops0]
  after_results_simp
  all_goals rfl
set_option maxRecDepth 8192 in
set_option maxHeartbeats 2000000 in
/-- Window 23 writes no argument array: main_arg1 is as before. -/
theorem keep23_main_arg1 (W : Valuation τ sig (Elt F)) : after main_part23_ops0 W (no_index (Proc.devRef .tc main_arg1)) = W (Proc.devRef .tc main_arg1) := by
  simp only [main_part23_ops0]
  after_results_simp
  all_goals rfl
set_option maxRecDepth 8192 in
set_option maxHeartbeats 2000000 in
/-- Window 23 writes no argument array: main_arg2 is as before. -/
theorem keep23_main_arg2 (W : Valuation τ sig (Elt F)) : after main_part23_ops0 W (no_index (Proc.devRef .tc main_arg2)) = W (Proc.devRef .tc main_arg2) := by
  simp only [main_part23_ops0]
  after_results_simp
  all_goals rfl

end Cert.Kernel.KHost

end
-- ==== Proof.BKeepW6.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 24 writes no argument array: main_arg0 is as before. -/
theorem keep24_main_arg0 (W : Valuation τ sig (Elt F)) : after main_part24_ops0 W (no_index (Proc.devRef .tc main_arg0)) = W (Proc.devRef .tc main_arg0) := by
  simp only [main_part24_ops0]
  after_results_simp
  all_goals rfl
set_option maxRecDepth 8192 in
set_option maxHeartbeats 2000000 in
/-- Window 24 writes no argument array: main_arg1 is as before. -/
theorem keep24_main_arg1 (W : Valuation τ sig (Elt F)) : after main_part24_ops0 W (no_index (Proc.devRef .tc main_arg1)) = W (Proc.devRef .tc main_arg1) := by
  simp only [main_part24_ops0]
  after_results_simp
  all_goals rfl
set_option maxRecDepth 8192 in
set_option maxHeartbeats 2000000 in
/-- Window 24 writes no argument array: main_arg2 is as before. -/
theorem keep24_main_arg2 (W : Valuation τ sig (Elt F)) : after main_part24_ops0 W (no_index (Proc.devRef .tc main_arg2)) = W (Proc.devRef .tc main_arg2) := by
  simp only [main_part24_ops0]
  after_results_simp
  all_goals rfl
set_option maxRecDepth 8192 in
set_option maxHeartbeats 2000000 in
/-- Window 25 writes no argument array: main_arg0 is as before. -/
theorem keep25_main_arg0 (W : Valuation τ sig (Elt F)) : after main_part25_ops0 W (no_index (Proc.devRef .tc main_arg0)) = W (Proc.devRef .tc main_arg0) := by
  simp only [main_part25_ops0]
  after_results_simp
  all_goals rfl
set_option maxRecDepth 8192 in
set_option maxHeartbeats 2000000 in
/-- Window 25 writes no argument array: main_arg1 is as before. -/
theorem keep25_main_arg1 (W : Valuation τ sig (Elt F)) : after main_part25_ops0 W (no_index (Proc.devRef .tc main_arg1)) = W (Proc.devRef .tc main_arg1) := by
  simp only [main_part25_ops0]
  after_results_simp
  all_goals rfl
set_option maxRecDepth 8192 in
set_option maxHeartbeats 2000000 in
/-- Window 25 writes no argument array: main_arg2 is as before. -/
theorem keep25_main_arg2 (W : Valuation τ sig (Elt F)) : after main_part25_ops0 W (no_index (Proc.devRef .tc main_arg2)) = W (Proc.devRef .tc main_arg2) := by
  simp only [main_part25_ops0]
  after_results_simp
  all_goals rfl
set_option maxRecDepth 8192 in
set_option maxHeartbeats 2000000 in
/-- Window 26 writes no argument array: main_arg0 is as before. -/
theorem keep26_main_arg0 (W : Valuation τ sig (Elt F)) : after main_part26_ops0 W (no_index (Proc.devRef .tc main_arg0)) = W (Proc.devRef .tc main_arg0) := by
  simp only [main_part26_ops0]
  after_results_simp
  all_goals rfl
set_option maxRecDepth 8192 in
set_option maxHeartbeats 2000000 in
/-- Window 26 writes no argument array: main_arg1 is as before. -/
theorem keep26_main_arg1 (W : Valuation τ sig (Elt F)) : after main_part26_ops0 W (no_index (Proc.devRef .tc main_arg1)) = W (Proc.devRef .tc main_arg1) := by
  simp only [main_part26_ops0]
  after_results_simp
  all_goals rfl
set_option maxRecDepth 8192 in
set_option maxHeartbeats 2000000 in
/-- Window 26 writes no argument array: main_arg2 is as before. -/
theorem keep26_main_arg2 (W : Valuation τ sig (Elt F)) : after main_part26_ops0 W (no_index (Proc.devRef .tc main_arg2)) = W (Proc.devRef .tc main_arg2) := by
  simp only [main_part26_ops0]
  after_results_simp
  all_goals rfl
set_option maxRecDepth 8192 in
set_option maxHeartbeats 2000000 in
/-- Window 27 writes no argument array: main_arg0 is as before. -/
theorem keep27_main_arg0 (W : Valuation τ sig (Elt F)) : after main_part27_ops0 W (no_index (Proc.devRef .tc main_arg0)) = W (Proc.devRef .tc main_arg0) := by
  simp only [main_part27_ops0]
  after_results_simp
  all_goals rfl
set_option maxRecDepth 8192 in
set_option maxHeartbeats 2000000 in
/-- Window 27 writes no argument array: main_arg1 is as before. -/
theorem keep27_main_arg1 (W : Valuation τ sig (Elt F)) : after main_part27_ops0 W (no_index (Proc.devRef .tc main_arg1)) = W (Proc.devRef .tc main_arg1) := by
  simp only [main_part27_ops0]
  after_results_simp
  all_goals rfl
set_option maxRecDepth 8192 in
set_option maxHeartbeats 2000000 in
/-- Window 27 writes no argument array: main_arg2 is as before. -/
theorem keep27_main_arg2 (W : Valuation τ sig (Elt F)) : after main_part27_ops0 W (no_index (Proc.devRef .tc main_arg2)) = W (Proc.devRef .tc main_arg2) := by
  simp only [main_part27_ops0]
  after_results_simp
  all_goals rfl

end Cert.Kernel.KHost

end
-- ==== Proof.BKeepW7.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 28 writes no argument array: main_arg0 is as before. -/
theorem keep28_main_arg0 (W : Valuation τ sig (Elt F)) : after main_part28_ops0 W (no_index (Proc.devRef .tc main_arg0)) = W (Proc.devRef .tc main_arg0) := by
  simp only [main_part28_ops0]
  after_results_simp
  all_goals rfl
set_option maxRecDepth 8192 in
set_option maxHeartbeats 2000000 in
/-- Window 28 writes no argument array: main_arg1 is as before. -/
theorem keep28_main_arg1 (W : Valuation τ sig (Elt F)) : after main_part28_ops0 W (no_index (Proc.devRef .tc main_arg1)) = W (Proc.devRef .tc main_arg1) := by
  simp only [main_part28_ops0]
  after_results_simp
  all_goals rfl
set_option maxRecDepth 8192 in
set_option maxHeartbeats 2000000 in
/-- Window 28 writes no argument array: main_arg2 is as before. -/
theorem keep28_main_arg2 (W : Valuation τ sig (Elt F)) : after main_part28_ops0 W (no_index (Proc.devRef .tc main_arg2)) = W (Proc.devRef .tc main_arg2) := by
  simp only [main_part28_ops0]
  after_results_simp
  all_goals rfl
set_option maxRecDepth 8192 in
set_option maxHeartbeats 2000000 in
/-- Window 29 writes no argument array: main_arg0 is as before. -/
theorem keep29_main_arg0 (W : Valuation τ sig (Elt F)) : after main_part29_ops0 W (no_index (Proc.devRef .tc main_arg0)) = W (Proc.devRef .tc main_arg0) := by
  simp only [main_part29_ops0]
  after_results_simp
  all_goals rfl
set_option maxRecDepth 8192 in
set_option maxHeartbeats 2000000 in
/-- Window 29 writes no argument array: main_arg1 is as before. -/
theorem keep29_main_arg1 (W : Valuation τ sig (Elt F)) : after main_part29_ops0 W (no_index (Proc.devRef .tc main_arg1)) = W (Proc.devRef .tc main_arg1) := by
  simp only [main_part29_ops0]
  after_results_simp
  all_goals rfl
set_option maxRecDepth 8192 in
set_option maxHeartbeats 2000000 in
/-- Window 29 writes no argument array: main_arg2 is as before. -/
theorem keep29_main_arg2 (W : Valuation τ sig (Elt F)) : after main_part29_ops0 W (no_index (Proc.devRef .tc main_arg2)) = W (Proc.devRef .tc main_arg2) := by
  simp only [main_part29_ops0]
  after_results_simp
  all_goals rfl
set_option maxRecDepth 8192 in
set_option maxHeartbeats 2000000 in
/-- Window 30 writes no argument array: main_arg0 is as before. -/
theorem keep30_main_arg0 (W : Valuation τ sig (Elt F)) : after main_part30_ops0 W (no_index (Proc.devRef .tc main_arg0)) = W (Proc.devRef .tc main_arg0) := by
  simp only [main_part30_ops0]
  after_results_simp
  all_goals rfl
set_option maxRecDepth 8192 in
set_option maxHeartbeats 2000000 in
/-- Window 30 writes no argument array: main_arg1 is as before. -/
theorem keep30_main_arg1 (W : Valuation τ sig (Elt F)) : after main_part30_ops0 W (no_index (Proc.devRef .tc main_arg1)) = W (Proc.devRef .tc main_arg1) := by
  simp only [main_part30_ops0]
  after_results_simp
  all_goals rfl
set_option maxRecDepth 8192 in
set_option maxHeartbeats 2000000 in
/-- Window 30 writes no argument array: main_arg2 is as before. -/
theorem keep30_main_arg2 (W : Valuation τ sig (Elt F)) : after main_part30_ops0 W (no_index (Proc.devRef .tc main_arg2)) = W (Proc.devRef .tc main_arg2) := by
  simp only [main_part30_ops0]
  after_results_simp
  all_goals rfl
set_option maxRecDepth 8192 in
set_option maxHeartbeats 2000000 in
/-- Window 31 writes no argument array: main_arg0 is as before. -/
theorem keep31_main_arg0 (W : Valuation τ sig (Elt F)) : after main_part31_ops0 W (no_index (Proc.devRef .tc main_arg0)) = W (Proc.devRef .tc main_arg0) := by
  simp only [main_part31_ops0]
  after_results_simp
  all_goals rfl
set_option maxRecDepth 8192 in
set_option maxHeartbeats 2000000 in
/-- Window 31 writes no argument array: main_arg1 is as before. -/
theorem keep31_main_arg1 (W : Valuation τ sig (Elt F)) : after main_part31_ops0 W (no_index (Proc.devRef .tc main_arg1)) = W (Proc.devRef .tc main_arg1) := by
  simp only [main_part31_ops0]
  after_results_simp
  all_goals rfl
set_option maxRecDepth 8192 in
set_option maxHeartbeats 2000000 in
/-- Window 31 writes no argument array: main_arg2 is as before. -/
theorem keep31_main_arg2 (W : Valuation τ sig (Elt F)) : after main_part31_ops0 W (no_index (Proc.devRef .tc main_arg2)) = W (Proc.devRef .tc main_arg2) := by
  simp only [main_part31_ops0]
  after_results_simp
  all_goals rfl

end Cert.Kernel.KHost

end
-- ==== Proof.BKeepW8.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 32 writes no argument array: main_arg0 is as before. -/
theorem keep32_main_arg0 (W : Valuation τ sig (Elt F)) : after main_part32_ops0 W (no_index (Proc.devRef .tc main_arg0)) = W (Proc.devRef .tc main_arg0) := by
  simp only [main_part32_ops0]
  after_results_simp
  all_goals rfl
set_option maxRecDepth 8192 in
set_option maxHeartbeats 2000000 in
/-- Window 32 writes no argument array: main_arg1 is as before. -/
theorem keep32_main_arg1 (W : Valuation τ sig (Elt F)) : after main_part32_ops0 W (no_index (Proc.devRef .tc main_arg1)) = W (Proc.devRef .tc main_arg1) := by
  simp only [main_part32_ops0]
  after_results_simp
  all_goals rfl
set_option maxRecDepth 8192 in
set_option maxHeartbeats 2000000 in
/-- Window 32 writes no argument array: main_arg2 is as before. -/
theorem keep32_main_arg2 (W : Valuation τ sig (Elt F)) : after main_part32_ops0 W (no_index (Proc.devRef .tc main_arg2)) = W (Proc.devRef .tc main_arg2) := by
  simp only [main_part32_ops0]
  after_results_simp
  all_goals rfl
set_option maxRecDepth 8192 in
set_option maxHeartbeats 2000000 in
/-- Window 33 writes no argument array: main_arg0 is as before. -/
theorem keep33_main_arg0 (W : Valuation τ sig (Elt F)) : after main_part33_ops0 W (no_index (Proc.devRef .tc main_arg0)) = W (Proc.devRef .tc main_arg0) := by
  simp only [main_part33_ops0]
  after_results_simp
  all_goals rfl
set_option maxRecDepth 8192 in
set_option maxHeartbeats 2000000 in
/-- Window 33 writes no argument array: main_arg1 is as before. -/
theorem keep33_main_arg1 (W : Valuation τ sig (Elt F)) : after main_part33_ops0 W (no_index (Proc.devRef .tc main_arg1)) = W (Proc.devRef .tc main_arg1) := by
  simp only [main_part33_ops0]
  after_results_simp
  all_goals rfl
set_option maxRecDepth 8192 in
set_option maxHeartbeats 2000000 in
/-- Window 33 writes no argument array: main_arg2 is as before. -/
theorem keep33_main_arg2 (W : Valuation τ sig (Elt F)) : after main_part33_ops0 W (no_index (Proc.devRef .tc main_arg2)) = W (Proc.devRef .tc main_arg2) := by
  simp only [main_part33_ops0]
  after_results_simp
  all_goals rfl
set_option maxRecDepth 8192 in
set_option maxHeartbeats 2000000 in
/-- Window 34 writes no argument array: main_arg0 is as before. -/
theorem keep34_main_arg0 (W : Valuation τ sig (Elt F)) : after main_part34_ops0 W (no_index (Proc.devRef .tc main_arg0)) = W (Proc.devRef .tc main_arg0) := by
  simp only [main_part34_ops0]
  after_results_simp
  all_goals rfl
set_option maxRecDepth 8192 in
set_option maxHeartbeats 2000000 in
/-- Window 34 writes no argument array: main_arg1 is as before. -/
theorem keep34_main_arg1 (W : Valuation τ sig (Elt F)) : after main_part34_ops0 W (no_index (Proc.devRef .tc main_arg1)) = W (Proc.devRef .tc main_arg1) := by
  simp only [main_part34_ops0]
  after_results_simp
  all_goals rfl
set_option maxRecDepth 8192 in
set_option maxHeartbeats 2000000 in
/-- Window 34 writes no argument array: main_arg2 is as before. -/
theorem keep34_main_arg2 (W : Valuation τ sig (Elt F)) : after main_part34_ops0 W (no_index (Proc.devRef .tc main_arg2)) = W (Proc.devRef .tc main_arg2) := by
  simp only [main_part34_ops0]
  after_results_simp
  all_goals rfl
set_option maxRecDepth 8192 in
set_option maxHeartbeats 2000000 in
/-- Window 35 writes no argument array: main_arg0 is as before. -/
theorem keep35_main_arg0 (W : Valuation τ sig (Elt F)) : after main_part35_ops0 W (no_index (Proc.devRef .tc main_arg0)) = W (Proc.devRef .tc main_arg0) := by
  simp only [main_part35_ops0]
  after_results_simp
  all_goals rfl
set_option maxRecDepth 8192 in
set_option maxHeartbeats 2000000 in
/-- Window 35 writes no argument array: main_arg1 is as before. -/
theorem keep35_main_arg1 (W : Valuation τ sig (Elt F)) : after main_part35_ops0 W (no_index (Proc.devRef .tc main_arg1)) = W (Proc.devRef .tc main_arg1) := by
  simp only [main_part35_ops0]
  after_results_simp
  all_goals rfl
set_option maxRecDepth 8192 in
set_option maxHeartbeats 2000000 in
/-- Window 35 writes no argument array: main_arg2 is as before. -/
theorem keep35_main_arg2 (W : Valuation τ sig (Elt F)) : after main_part35_ops0 W (no_index (Proc.devRef .tc main_arg2)) = W (Proc.devRef .tc main_arg2) := by
  simp only [main_part35_ops0]
  after_results_simp
  all_goals rfl

end Cert.Kernel.KHost

end
-- ==== Proof.BKeepW9.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 36 writes no argument array: main_arg0 is as before. -/
theorem keep36_main_arg0 (W : Valuation τ sig (Elt F)) : after main_part36_ops0 W (no_index (Proc.devRef .tc main_arg0)) = W (Proc.devRef .tc main_arg0) := by
  simp only [main_part36_ops0]
  after_results_simp
  all_goals rfl
set_option maxRecDepth 8192 in
set_option maxHeartbeats 2000000 in
/-- Window 36 writes no argument array: main_arg1 is as before. -/
theorem keep36_main_arg1 (W : Valuation τ sig (Elt F)) : after main_part36_ops0 W (no_index (Proc.devRef .tc main_arg1)) = W (Proc.devRef .tc main_arg1) := by
  simp only [main_part36_ops0]
  after_results_simp
  all_goals rfl
set_option maxRecDepth 8192 in
set_option maxHeartbeats 2000000 in
/-- Window 36 writes no argument array: main_arg2 is as before. -/
theorem keep36_main_arg2 (W : Valuation τ sig (Elt F)) : after main_part36_ops0 W (no_index (Proc.devRef .tc main_arg2)) = W (Proc.devRef .tc main_arg2) := by
  simp only [main_part36_ops0]
  after_results_simp
  all_goals rfl
set_option maxRecDepth 8192 in
set_option maxHeartbeats 2000000 in
/-- Window 37 writes no argument array: main_arg0 is as before. -/
theorem keep37_main_arg0 (W : Valuation τ sig (Elt F)) : after main_part37_ops0 W (no_index (Proc.devRef .tc main_arg0)) = W (Proc.devRef .tc main_arg0) := by
  simp only [main_part37_ops0]
  after_results_simp
  all_goals rfl
set_option maxRecDepth 8192 in
set_option maxHeartbeats 2000000 in
/-- Window 37 writes no argument array: main_arg1 is as before. -/
theorem keep37_main_arg1 (W : Valuation τ sig (Elt F)) : after main_part37_ops0 W (no_index (Proc.devRef .tc main_arg1)) = W (Proc.devRef .tc main_arg1) := by
  simp only [main_part37_ops0]
  after_results_simp
  all_goals rfl
set_option maxRecDepth 8192 in
set_option maxHeartbeats 2000000 in
/-- Window 37 writes no argument array: main_arg2 is as before. -/
theorem keep37_main_arg2 (W : Valuation τ sig (Elt F)) : after main_part37_ops0 W (no_index (Proc.devRef .tc main_arg2)) = W (Proc.devRef .tc main_arg2) := by
  simp only [main_part37_ops0]
  after_results_simp
  all_goals rfl
set_option maxRecDepth 8192 in
set_option maxHeartbeats 2000000 in
/-- Window 38 writes no argument array: main_arg0 is as before. -/
theorem keep38_main_arg0 (W : Valuation τ sig (Elt F)) : after main_part38_ops0 W (no_index (Proc.devRef .tc main_arg0)) = W (Proc.devRef .tc main_arg0) := by
  simp only [main_part38_ops0]
  after_results_simp
  all_goals rfl
set_option maxRecDepth 8192 in
set_option maxHeartbeats 2000000 in
/-- Window 38 writes no argument array: main_arg1 is as before. -/
theorem keep38_main_arg1 (W : Valuation τ sig (Elt F)) : after main_part38_ops0 W (no_index (Proc.devRef .tc main_arg1)) = W (Proc.devRef .tc main_arg1) := by
  simp only [main_part38_ops0]
  after_results_simp
  all_goals rfl
set_option maxRecDepth 8192 in
set_option maxHeartbeats 2000000 in
/-- Window 38 writes no argument array: main_arg2 is as before. -/
theorem keep38_main_arg2 (W : Valuation τ sig (Elt F)) : after main_part38_ops0 W (no_index (Proc.devRef .tc main_arg2)) = W (Proc.devRef .tc main_arg2) := by
  simp only [main_part38_ops0]
  after_results_simp
  all_goals rfl
set_option maxRecDepth 8192 in
set_option maxHeartbeats 2000000 in
/-- Window 39 writes no argument array: main_arg0 is as before. -/
theorem keep39_main_arg0 (W : Valuation τ sig (Elt F)) : after main_part39_ops0 W (no_index (Proc.devRef .tc main_arg0)) = W (Proc.devRef .tc main_arg0) := by
  simp only [main_part39_ops0]
  after_results_simp
  all_goals rfl
set_option maxRecDepth 8192 in
set_option maxHeartbeats 2000000 in
/-- Window 39 writes no argument array: main_arg1 is as before. -/
theorem keep39_main_arg1 (W : Valuation τ sig (Elt F)) : after main_part39_ops0 W (no_index (Proc.devRef .tc main_arg1)) = W (Proc.devRef .tc main_arg1) := by
  simp only [main_part39_ops0]
  after_results_simp
  all_goals rfl
set_option maxRecDepth 8192 in
set_option maxHeartbeats 2000000 in
/-- Window 39 writes no argument array: main_arg2 is as before. -/
theorem keep39_main_arg2 (W : Valuation τ sig (Elt F)) : after main_part39_ops0 W (no_index (Proc.devRef .tc main_arg2)) = W (Proc.devRef .tc main_arg2) := by
  simp only [main_part39_ops0]
  after_results_simp
  all_goals rfl

end Cert.Kernel.KHost

end
-- ==== Proof.BKeepW10.lean ====
import proofs.«128918_j72490458022405_1_alg».proof.Proof.Gen.Kernel.Launch

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 40 writes no argument array: main_arg0 is as before. -/
theorem keep40_main_arg0 (W : Valuation τ sig (Elt F)) : after main_part40_ops0 W (no_index (Proc.devRef .tc main_arg0)) = W (Proc.devRef .tc main_arg0) := by
  simp only [main_part40_ops0]
  after_results_simp
  all_goals rfl
set_option maxRecDepth 8192 in
set_option maxHeartbeats 2000000 in
/-- Window 40 writes no argument array: main_arg1 is as before. -/
theorem keep40_main_arg1 (W : Valuation τ sig (Elt F)) : after main_part40_ops0 W (no_index (Proc.devRef .tc main_arg1)) = W (Proc.devRef .tc main_arg1) := by
  simp only [main_part40_ops0]
  after_results_simp
  all_goals rfl
set_option maxRecDepth 8192 in
set_option maxHeartbeats 2000000 in
/-- Window 40 writes no argument array: main_arg2 is as before. -/
theorem keep40_main_arg2 (W : Valuation τ sig (Elt F)) : after main_part40_ops0 W (no_index (Proc.devRef .tc main_arg2)) = W (Proc.devRef .tc main_arg2) := by
  simp only [main_part40_ops0]
  after_results_simp
  all_goals rfl
set_option maxRecDepth 8192 in
set_option maxHeartbeats 2000000 in
/-- Window 41 writes no argument array: main_arg0 is as before. -/
theorem keep41_main_arg0 (W : Valuation τ sig (Elt F)) : after main_part41_ops0 W (no_index (Proc.devRef .tc main_arg0)) = W (Proc.devRef .tc main_arg0) := by
  simp only [main_part41_ops0]
  after_results_simp
  all_goals rfl
set_option maxRecDepth 8192 in
set_option maxHeartbeats 2000000 in
/-- Window 41 writes no argument array: main_arg1 is as before. -/
theorem keep41_main_arg1 (W : Valuation τ sig (Elt F)) : after main_part41_ops0 W (no_index (Proc.devRef .tc main_arg1)) = W (Proc.devRef .tc main_arg1) := by
  simp only [main_part41_ops0]
  after_results_simp
  all_goals rfl
set_option maxRecDepth 8192 in
set_option maxHeartbeats 2000000 in
/-- Window 41 writes no argument array: main_arg2 is as before. -/
theorem keep41_main_arg2 (W : Valuation τ sig (Elt F)) : after main_part41_ops0 W (no_index (Proc.devRef .tc main_arg2)) = W (Proc.devRef .tc main_arg2) := by
  simp only [main_part41_ops0]
  after_results_simp
  all_goals rfl
set_option maxRecDepth 8192 in
set_option maxHeartbeats 2000000 in
/-- Window 42 writes no argument array: main_arg0 is as before. -/
theorem keep42_main_arg0 (W : Valuation τ sig (Elt F)) : after main_part42_ops0 W (no_index (Proc.devRef .tc main_arg0)) = W (Proc.devRef .tc main_arg0) := by
  simp only [main_part42_ops0]
  after_results_simp
  all_goals rfl
set_option maxRecDepth 8192 in
set_option maxHeartbeats 2000000 in
/-- Window 42 writes no argument array: main_arg1 is as before. -/
theorem keep42_main_arg1 (W : Valuation τ sig (Elt F)) : after main_part42_ops0 W (no_index (Proc.devRef .tc main_arg1)) = W (Proc.devRef .tc main_arg1) := by
  simp only [main_part42_ops0]
  after_results_simp
  all_goals rfl
set_option maxRecDepth 8192 in
set_option maxHeartbeats 2000000 in
/-- Window 42 writes no argument array: main_arg2 is as before. -/
theorem keep42_main_arg2 (W : Valuation τ sig (Elt F)) : after main_part42_ops0 W (no_index (Proc.devRef .tc main_arg2)) = W (Proc.devRef .tc main_arg2) := by
  simp only [main_part42_ops0]
  after_results_simp
  all_goals rfl
set_option maxRecDepth 8192 in
set_option maxHeartbeats 2000000 in
/-- Window 43 writes no argument array: main_arg0 is as before. -/
theorem keep43_main_arg0 (W : Valuation τ sig (Elt F)) : after main_part43_ops0 W (no_index (Proc.devRef .tc main_arg0)) = W (Proc.devRef .tc main_arg0) := by
  simp only [main_part43_ops0]
  after_results_simp
  all_goals rfl
set_option maxRecDepth 8192 in
set_option maxHeartbeats 2000000 in
/-- Window 43 writes no argument array: main_arg1 is as before. -/
theorem keep43_main_arg1 (W : Valuation τ sig (Elt F)) : after main_part43_ops0 W (no_index (Proc.devRef .tc main_arg1)) = W (Proc.devRef .tc main_arg1) := by
  simp only [main_part43_ops0]
  after_results_simp
  all_goals rfl
set_option maxRecDepth 8192 in
set_option maxHeartbeats 2000000 in
/-- Window 43 writes no argument array: main_arg2 is as before. -/
theorem keep43_main_arg2 (W : Valuation τ sig (Elt F)) : after main_part43_ops0 W (no_index (Proc.devRef .tc main_arg2)) = W (Proc.devRef .tc main_arg2) := by
  simp only [main_part43_ops0]
  after_results_simp
  all_goals rfl

end Cert.Kernel.KHost

end
-- ==== Proof.BKeep.lean ====
/-
  The host prefix of the word-level kernel leaves the three argument arrays alone.

  Before its one region the program runs 2603 host operations, printed as 44 windows of @main.  The list of all of them is the
  44 windows' lists in a row (`hostOps0_eq`: the two spellings are the same list, element by element), so what the buffers
  hold when the region is entered is the windows' folds one after the other.  No operation of any window writes an argument
  array (each window's three facts are in the modules BKeepW0 … BKeepW10, one pass over the window's operations each), hence the
  region finds `X`, the angles and `μ` exactly as launched: `keep_arg0`, `keep_arg1`, `keep_arg2`.
-/
import proofs.«128918_j72490458022405_1_alg».proof.Proof.Gen.Kernel.Launch
import proofs.«128918_j72490458022405_1_alg».proof.Proof.BKeepW0
import proofs.«128918_j72490458022405_1_alg».proof.Proof.BKeepW1
import proofs.«128918_j72490458022405_1_alg».proof.Proof.BKeepW2
import proofs.«128918_j72490458022405_1_alg».proof.Proof.BKeepW3
import proofs.«128918_j72490458022405_1_alg».proof.Proof.BKeepW4
import proofs.«128918_j72490458022405_1_alg».proof.Proof.BKeepW5
import proofs.«128918_j72490458022405_1_alg».proof.Proof.BKeepW6
import proofs.«128918_j72490458022405_1_alg».proof.Proof.BKeepW7
import proofs.«128918_j72490458022405_1_alg».proof.Proof.BKeepW8
import proofs.«128918_j72490458022405_1_alg».proof.Proof.BKeepW9
import proofs.«128918_j72490458022405_1_alg».proof.Proof.BKeepW10
import Idealize.ShloMosaic.Lib.Pipeline.Frame

noncomputable section

namespace Cert.Kernel.KHost

open Cert.Kernel Cert.Kernel.Gen Idealize.ShloMosaic Idealize.ShloMosaic.TcCoe Idealize.SL.Sem Idealize.ShloMosaic.StableHlo

variable {F : FTy → Type} [FloatOps F]

set_option maxRecDepth 65536 in
/-- The 2603 operations before the region are the 44 windows' operations in a row. -/
theorem hostOps0_eq : (hostOps0 : List (HloOp τ sig (Elt F))) =
    main_part0_ops0 ++ (main_part1_ops0 ++ (main_part2_ops0 ++ (main_part3_ops0 ++ (main_part4_ops0 ++ (main_part5_ops0 ++ (main_part6_ops0 ++ (main_part7_ops0 ++ (main_part8_ops0 ++ (main_part9_ops0 ++ (main_part10_ops0 ++ (main_part11_ops0 ++ (main_part12_ops0 ++ (main_part13_ops0 ++ (main_part14_ops0 ++ (main_part15_ops0 ++ (main_part16_ops0 ++ (main_part17_ops0 ++ (main_part18_ops0 ++ (main_part19_ops0 ++ (main_part20_ops0 ++ (main_part21_ops0 ++ (main_part22_ops0 ++ (main_part23_ops0 ++ (main_part24_ops0 ++ (main_part25_ops0 ++ (main_part26_ops0 ++ (main_part27_ops0 ++ (main_part28_ops0 ++ (main_part29_ops0 ++ (main_part30_ops0 ++ (main_part31_ops0 ++ (main_part32_ops0 ++ (main_part33_ops0 ++ (main_part34_ops0 ++ (main_part35_ops0 ++ (main_part36_ops0 ++ (main_part37_ops0 ++ (main_part38_ops0 ++ (main_part39_ops0 ++ (main_part40_ops0 ++ (main_part41_ops0 ++ (main_part42_ops0 ++ (main_part43_ops0))))))))))))))))))))))))))))))))))))))))))) := rfl

/-- No window writes `main_arg0`: after the whole prefix it is as before. -/
theorem keep_arg0 (W : Valuation τ sig (Elt F)) : after hostOps0 W (Proc.devRef .tc main_arg0) = W (Proc.devRef .tc main_arg0) := by
  rw [hostOps0_eq]
  simp only [StableHlo.after_append]
  rw [keep43_main_arg0, keep42_main_arg0, keep41_main_arg0, keep40_main_arg0, keep39_main_arg0, keep38_main_arg0, keep37_main_arg0, keep36_main_arg0, keep35_main_arg0, keep34_main_arg0, keep33_main_arg0, keep32_main_arg0, keep31_main_arg0, keep30_main_arg0, keep29_main_arg0, keep28_main_arg0, keep27_main_arg0, keep26_main_arg0, keep25_main_arg0, keep24_main_arg0, keep23_main_arg0, keep22_main_arg0, keep21_main_arg0, keep20_main_arg0, keep19_main_arg0, keep18_main_arg0, keep17_main_arg0, keep16_main_arg0, keep15_main_arg0, keep14_main_arg0, keep13_main_arg0, keep12_main_arg0, keep11_main_arg0, keep10_main_arg0, keep9_main_arg0, keep8_main_arg0, keep7_main_arg0, keep6_main_arg0, keep5_main_arg0, keep4_main_arg0, keep3_main_arg0, keep2_main_arg0, keep1_main_arg0, keep0_main_arg0]

/-- No window writes `main_arg1`: after the whole prefix it is as before. -/
theorem keep_arg1 (W : Valuation τ sig (Elt F)) : after hostOps0 W (Proc.devRef .tc main_arg1) = W (Proc.devRef .tc main_arg1) := by
  rw [hostOps0_eq]
  simp only [StableHlo.after_append]
  rw [keep43_main_arg1, keep42_main_arg1, keep41_main_arg1, keep40_main_arg1, keep39_main_arg1, keep38_main_arg1, keep37_main_arg1, keep36_main_arg1, keep35_main_arg1, keep34_main_arg1, keep33_main_arg1, keep32_main_arg1, keep31_main_arg1, keep30_main_arg1, keep29_main_arg1, keep28_main_arg1, keep27_main_arg1, keep26_main_arg1, keep25_main_arg1, keep24_main_arg1, keep23_main_arg1, keep22_main_arg1, keep21_main_arg1, keep20_main_arg1, keep19_main_arg1, keep18_main_arg1, keep17_main_arg1, keep16_main_arg1, keep15_main_arg1, keep14_main_arg1, keep13_main_arg1, keep12_main_arg1, keep11_main_arg1, keep10_main_arg1, keep9_main_arg1, keep8_main_arg1, keep7_main_arg1, keep6_main_arg1, keep5_main_arg1, keep4_main_arg1, keep3_main_arg1, keep2_main_arg1, keep1_main_arg1, keep0_main_arg1]

/-- No window writes `main_arg2`: after the whole prefix it is as before. -/
theorem keep_arg2 (W : Valuation τ sig (Elt F)) : after hostOps0 W (Proc.devRef .tc main_arg2) = W (Proc.devRef .tc main_arg2) := by
  rw [hostOps0_eq]
  simp only [StableHlo.after_append]
  rw [keep43_main_arg2, keep42_main_arg2, keep41_main_arg2, keep40_main_arg2, keep39_main_arg2, keep38_main_arg2, keep37_main_arg2, keep36_main_arg2, keep35_main_arg2, keep34_main_arg2, keep33_main_arg2, keep32_main_arg2, keep31_main_arg2, keep30_main_arg2, keep29_main_arg2, keep28_main_arg2, keep27_main_arg2, keep26_main_arg2, keep25_main_arg2, keep24_main_arg2, keep23_main_arg2, keep22_main_arg2, keep21_main_arg2, keep20_main_arg2, keep19_main_arg2, keep18_main_arg2, keep17_main_arg2, keep16_main_arg2, keep15_main_arg2, keep14_main_arg2, keep13_main_arg2, keep12_main_arg2, keep11_main_arg2, keep10_main_arg2, keep9_main_arg2, keep8_main_arg2, keep7_main_arg2, keep6_main_arg2, keep5_main_arg2, keep4_main_arg2, keep3_main_arg2, keep2_main_arg2, keep1_main_arg2, keep0_main_arg2]

end Cert.Kernel.KHost

end
-- ==== Proof.KKeepW0.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 0 writes no argument array: main_arg0 is as before. -/
theorem keep0_main_arg0 (W : Valuation τ sig (Elt F)) : after main_part0_ops0 W (no_index (Proc.devRef .tc main_arg0)) = W (Proc.devRef .tc main_arg0) := by
  simp only [main_part0_ops0]
  after_results_simp
  all_goals rfl
set_option maxRecDepth 8192 in
set_option maxHeartbeats 2000000 in
/-- Window 0 writes no argument array: main_arg1 is as before. -/
theorem keep0_main_arg1 (W : Valuation τ sig (Elt F)) : after main_part0_ops0 W (no_index (Proc.devRef .tc main_arg1)) = W (Proc.devRef .tc main_arg1) := by
  simp only [main_part0_ops0]
  after_results_simp
  all_goals rfl
set_option maxRecDepth 8192 in
set_option maxHeartbeats 2000000 in
/-- Window 0 writes no argument array: main_arg2 is as before. -/
theorem keep0_main_arg2 (W : Valuation τ sig (Elt F)) : after main_part0_ops0 W (no_index (Proc.devRef .tc main_arg2)) = W (Proc.devRef .tc main_arg2) := by
  simp only [main_part0_ops0]
  after_results_simp
  all_goals rfl
set_option maxRecDepth 8192 in
set_option maxHeartbeats 2000000 in
/-- Window 1 writes no argument array: main_arg0 is as before. -/
theorem keep1_main_arg0 (W : Valuation τ sig (Elt F)) : after main_part1_ops0 W (no_index (Proc.devRef .tc main_arg0)) = W (Proc.devRef .tc main_arg0) := by
  simp only [main_part1_ops0]
  after_results_simp
  all_goals rfl
set_option maxRecDepth 8192 in
set_option maxHeartbeats 2000000 in
/-- Window 1 writes no argument array: main_arg1 is as before. -/
theorem keep1_main_arg1 (W : Valuation τ sig (Elt F)) : after main_part1_ops0 W (no_index (Proc.devRef .tc main_arg1)) = W (Proc.devRef .tc main_arg1) := by
  simp only [main_part1_ops0]
  after_results_simp
  all_goals rfl
set_option maxRecDepth 8192 in
set_option maxHeartbeats 2000000 in
/-- Window 1 writes no argument array: main_arg2 is as before. -/
theorem keep1_main_arg2 (W : Valuation τ sig (Elt F)) : after main_part1_ops0 W (no_index (Proc.devRef .tc main_arg2)) = W (Proc.devRef .tc main_arg2) := by
  simp only [main_part1_ops0]
  after_results_simp
  all_goals rfl
set_option maxRecDepth 8192 in
set_option maxHeartbeats 2000000 in
/-- Window 2 writes no argument array: main_arg0 is as before. -/
theorem keep2_main_arg0 (W : Valuation τ sig (Elt F)) : after main_part2_ops0 W (no_index (Proc.devRef .tc main_arg0)) = W (Proc.devRef .tc main_arg0) := by
  simp only [main_part2_ops0]
  after_results_simp
  all_goals rfl
set_option maxRecDepth 8192 in
set_option maxHeartbeats 2000000 in
/-- Window 2 writes no argument array: main_arg1 is as before. -/
theorem keep2_main_arg1 (W : Valuation τ sig (Elt F)) : after main_part2_ops0 W (no_index (Proc.devRef .tc main_arg1)) = W (Proc.devRef .tc main_arg1) := by
  simp only [main_part2_ops0]
  after_results_simp
  all_goals rfl
set_option maxRecDepth 8192 in
set_option maxHeartbeats 2000000 in
/-- Window 2 writes no argument array: main_arg2 is as before. -/
theorem keep2_main_arg2 (W : Valuation τ sig (Elt F)) : after main_part2_ops0 W (no_index (Proc.devRef .tc main_arg2)) = W (Proc.devRef .tc main_arg2) := by
  simp only [main_part2_ops0]
  after_results_simp
  all_goals rfl
set_option maxRecDepth 8192 in
set_option maxHeartbeats 2000000 in
/-- Window 3 writes no argument array: main_arg0 is as before. -/
theorem keep3_main_arg0 (W : Valuation τ sig (Elt F)) : after main_part3_ops0 W (no_index (Proc.devRef .tc main_arg0)) = W (Proc.devRef .tc main_arg0) := by
  simp only [main_part3_ops0]
  after_results_simp
  all_goals rfl
set_option maxRecDepth 8192 in
set_option maxHeartbeats 2000000 in
/-- Window 3 writes no argument array: main_arg1 is as before. -/
theorem keep3_main_arg1 (W : Valuation τ sig (Elt F)) : after main_part3_ops0 W (no_index (Proc.devRef .tc main_arg1)) = W (Proc.devRef .tc main_arg1) := by
  simp only [main_part3_ops0]
  after_results_simp
  all_goals rfl
set_option maxRecDepth 8192 in
set_option maxHeartbeats 2000000 in
/-- Window 3 writes no argument array: main_arg2 is as before. -/
theorem keep3_main_arg2 (W : Valuation τ sig (Elt F)) : after main_part3_ops0 W (no_index (Proc.devRef .tc main_arg2)) = W (Proc.devRef .tc main_arg2) := by
  simp only [main_part3_ops0]
  after_results_simp
  all_goals rfl

end Cert.KernelIdeal.KHost

end
-- ==== Proof.KKeepW1.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 4 writes no argument array: main_arg0 is as before. -/
theorem keep4_main_arg0 (W : Valuation τ sig (Elt F)) : after main_part4_ops0 W (no_index (Proc.devRef .tc main_arg0)) = W (Proc.devRef .tc main_arg0) := by
  simp only [main_part4_ops0]
  after_results_simp
  all_goals rfl
set_option maxRecDepth 8192 in
set_option maxHeartbeats 2000000 in
/-- Window 4 writes no argument array: main_arg1 is as before. -/
theorem keep4_main_arg1 (W : Valuation τ sig (Elt F)) : after main_part4_ops0 W (no_index (Proc.devRef .tc main_arg1)) = W (Proc.devRef .tc main_arg1) := by
  simp only [main_part4_ops0]
  after_results_simp
  all_goals rfl
set_option maxRecDepth 8192 in
set_option maxHeartbeats 2000000 in
/-- Window 4 writes no argument array: main_arg2 is as before. -/
theorem keep4_main_arg2 (W : Valuation τ sig (Elt F)) : after main_part4_ops0 W (no_index (Proc.devRef .tc main_arg2)) = W (Proc.devRef .tc main_arg2) := by
  simp only [main_part4_ops0]
  after_results_simp
  all_goals rfl
set_option maxRecDepth 8192 in
set_option maxHeartbeats 2000000 in
/-- Window 5 writes no argument array: main_arg0 is as before. -/
theorem keep5_main_arg0 (W : Valuation τ sig (Elt F)) : after main_part5_ops0 W (no_index (Proc.devRef .tc main_arg0)) = W (Proc.devRef .tc main_arg0) := by
  simp only [main_part5_ops0]
  after_results_simp
  all_goals rfl
set_option maxRecDepth 8192 in
set_option maxHeartbeats 2000000 in
/-- Window 5 writes no argument array: main_arg1 is as before. -/
theorem keep5_main_arg1 (W : Valuation τ sig (Elt F)) : after main_part5_ops0 W (no_index (Proc.devRef .tc main_arg1)) = W (Proc.devRef .tc main_arg1) := by
  simp only [main_part5_ops0]
  after_results_simp
  all_goals rfl
set_option maxRecDepth 8192 in
set_option maxHeartbeats 2000000 in
/-- Window 5 writes no argument array: main_arg2 is as before. -/
theorem keep5_main_arg2 (W : Valuation τ sig (Elt F)) : after main_part5_ops0 W (no_index (Proc.devRef .tc main_arg2)) = W (Proc.devRef .tc main_arg2) := by
  simp only [main_part5_ops0]
  after_results_simp
  all_goals rfl
set_option maxRecDepth 8192 in
set_option maxHeartbeats 2000000 in
/-- Window 6 writes no argument array: main_arg0 is as before. -/
theorem keep6_main_arg0 (W : Valuation τ sig (Elt F)) : after main_part6_ops0 W (no_index (Proc.devRef .tc main_arg0)) = W (Proc.devRef .tc main_arg0) := by
  simp only [main_part6_ops0]
  after_results_simp
  all_goals rfl
set_option maxRecDepth 8192 in
set_option maxHeartbeats 2000000 in
/-- Window 6 writes no argument array: main_arg1 is as before. -/
theorem keep6_main_arg1 (W : Valuation τ sig (Elt F)) : after main_part6_ops0 W (no_index (Proc.devRef .tc main_arg1)) = W (Proc.devRef .tc main_arg1) := by
  simp only [main_part6_ops0]
  after_results_simp
  all_goals rfl
set_option maxRecDepth 8192 in
set_option maxHeartbeats 2000000 in
/-- Window 6 writes no argument array: main_arg2 is as before. -/
theorem keep6_main_arg2 (W : Valuation τ sig (Elt F)) : after main_part6_ops0 W (no_index (Proc.devRef .tc main_arg2)) = W (Proc.devRef .tc main_arg2) := by
  simp only [main_part6_ops0]
  after_results_simp
  all_goals rfl
set_option maxRecDepth 8192 in
set_option maxHeartbeats 2000000 in
/-- Window 7 writes no argument array: main_arg0 is as before. -/
theorem keep7_main_arg0 (W : Valuation τ sig (Elt F)) : after main_part7_ops0 W (no_index (Proc.devRef .tc main_arg0)) = W (Proc.devRef .tc main_arg0) := by
  simp only [main_part7_ops0]
  after_results_simp
  all_goals rfl
set_option maxRecDepth 8192 in
set_option maxHeartbeats 2000000 in
/-- Window 7 writes no argument array: main_arg1 is as before. -/
theorem keep7_main_arg1 (W : Valuation τ sig (Elt F)) : after main_part7_ops0 W (no_index (Proc.devRef .tc main_arg1)) = W (Proc.devRef .tc main_arg1) := by
  simp only [main_part7_ops0]
  after_results_simp
  all_goals rfl
set_option maxRecDepth 8192 in
set_option maxHeartbeats 2000000 in
/-- Window 7 writes no argument array: main_arg2 is as before. -/
theorem keep7_main_arg2 (W : Valuation τ sig (Elt F)) : after main_part7_ops0 W (no_index (Proc.devRef .tc main_arg2)) = W (Proc.devRef .tc main_arg2) := by
  simp only [main_part7_ops0]
  after_results_simp
  all_goals rfl

end Cert.KernelIdeal.KHost

end
-- ==== Proof.KKeepW2.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 8 writes no argument array: main_arg0 is as before. -/
theorem keep8_main_arg0 (W : Valuation τ sig (Elt F)) : after main_part8_ops0 W (no_index (Proc.devRef .tc main_arg0)) = W (Proc.devRef .tc main_arg0) := by
  simp only [main_part8_ops0]
  after_results_simp
  all_goals rfl
set_option maxRecDepth 8192 in
set_option maxHeartbeats 2000000 in
/-- Window 8 writes no argument array: main_arg1 is as before. -/
theorem keep8_main_arg1 (W : Valuation τ sig (Elt F)) : after main_part8_ops0 W (no_index (Proc.devRef .tc main_arg1)) = W (Proc.devRef .tc main_arg1) := by
  simp only [main_part8_ops0]
  after_results_simp
  all_goals rfl
set_option maxRecDepth 8192 in
set_option maxHeartbeats 2000000 in
/-- Window 8 writes no argument array: main_arg2 is as before. -/
theorem keep8_main_arg2 (W : Valuation τ sig (Elt F)) : after main_part8_ops0 W (no_index (Proc.devRef .tc main_arg2)) = W (Proc.devRef .tc main_arg2) := by
  simp only [main_part8_ops0]
  after_results_simp
  all_goals rfl
set_option maxRecDepth 8192 in
set_option maxHeartbeats 2000000 in
/-- Window 9 writes no argument array: main_arg0 is as before. -/
theorem keep9_main_arg0 (W : Valuation τ sig (Elt F)) : after main_part9_ops0 W (no_index (Proc.devRef .tc main_arg0)) = W (Proc.devRef .tc main_arg0) := by
  simp only [main_part9_ops0]
  after_results_simp
  all_goals rfl
set_option maxRecDepth 8192 in
set_option maxHeartbeats 2000000 in
/-- Window 9 writes no argument array: main_arg1 is as before. -/
theorem keep9_main_arg1 (W : Valuation τ sig (Elt F)) : after main_part9_ops0 W (no_index (Proc.devRef .tc main_arg1)) = W (Proc.devRef .tc main_arg1) := by
  simp only [main_part9_ops0]
  after_results_simp
  all_goals rfl
set_option maxRecDepth 8192 in
set_option maxHeartbeats 2000000 in
/-- Window 9 writes no argument array: main_arg2 is as before. -/
theorem keep9_main_arg2 (W : Valuation τ sig (Elt F)) : after main_part9_ops0 W (no_index (Proc.devRef .tc main_arg2)) = W (Proc.devRef .tc main_arg2) := by
  simp only [main_part9_ops0]
  after_results_simp
  all_goals rfl
set_option maxRecDepth 8192 in
set_option maxHeartbeats 2000000 in
/-- Window 10 writes no argument array: main_arg0 is as before. -/
theorem keep10_main_arg0 (W : Valuation τ sig (Elt F)) : after main_part10_ops0 W (no_index (Proc.devRef .tc main_arg0)) = W (Proc.devRef .tc main_arg0) := by
  simp only [main_part10_ops0]
  after_results_simp
  all_goals rfl
set_option maxRecDepth 8192 in
set_option maxHeartbeats 2000000 in
/-- Window 10 writes no argument array: main_arg1 is as before. -/
theorem keep10_main_arg1 (W : Valuation τ sig (Elt F)) : after main_part10_ops0 W (no_index (Proc.devRef .tc main_arg1)) = W (Proc.devRef .tc main_arg1) := by
  simp only [main_part10_ops0]
  after_results_simp
  all_goals rfl
set_option maxRecDepth 8192 in
set_option maxHeartbeats 2000000 in
/-- Window 10 writes no argument array: main_arg2 is as before. -/
theorem keep10_main_arg2 (W : Valuation τ sig (Elt F)) : after main_part10_ops0 W (no_index (Proc.devRef .tc main_arg2)) = W (Proc.devRef .tc main_arg2) := by
  simp only [main_part10_ops0]
  after_results_simp
  all_goals rfl
set_option maxRecDepth 8192 in
set_option maxHeartbeats 2000000 in
/-- Window 11 writes no argument array: main_arg0 is as before. -/
theorem keep11_main_arg0 (W : Valuation τ sig (Elt F)) : after main_part11_ops0 W (no_index (Proc.devRef .tc main_arg0)) = W (Proc.devRef .tc main_arg0) := by
  simp only [main_part11_ops0]
  after_results_simp
  all_goals rfl
set_option maxRecDepth 8192 in
set_option maxHeartbeats 2000000 in
/-- Window 11 writes no argument array: main_arg1 is as before. -/
theorem keep11_main_arg1 (W : Valuation τ sig (Elt F)) : after main_part11_ops0 W (no_index (Proc.devRef .tc main_arg1)) = W (Proc.devRef .tc main_arg1) := by
  simp only [main_part11_ops0]
  after_results_simp
  all_goals rfl
set_option maxRecDepth 8192 in
set_option maxHeartbeats 2000000 in
/-- Window 11 writes no argument array: main_arg2 is as before. -/
theorem keep11_main_arg2 (W : Valuation τ sig (Elt F)) : after main_part11_ops0 W (no_index (Proc.devRef .tc main_arg2)) = W (Proc.devRef .tc main_arg2) := by
  simp only [main_part11_ops0]
  after_results_simp
  all_goals rfl

end Cert.KernelIdeal.KHost

end
-- ==== Proof.KKeepW3.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 12 writes no argument array: main_arg0 is as before. -/
theorem keep12_main_arg0 (W : Valuation τ sig (Elt F)) : after main_part12_ops0 W (no_index (Proc.devRef .tc main_arg0)) = W (Proc.devRef .tc main_arg0) := by
  simp only [main_part12_ops0]
  after_results_simp
  all_goals rfl
set_option maxRecDepth 8192 in
set_option maxHeartbeats 2000000 in
/-- Window 12 writes no argument array: main_arg1 is as before. -/
theorem keep12_main_arg1 (W : Valuation τ sig (Elt F)) : after main_part12_ops0 W (no_index (Proc.devRef .tc main_arg1)) = W (Proc.devRef .tc main_arg1) := by
  simp only [main_part12_ops0]
  after_results_simp
  all_goals rfl
set_option maxRecDepth 8192 in
set_option maxHeartbeats 2000000 in
/-- Window 12 writes no argument array: main_arg2 is as before. -/
theorem keep12_main_arg2 (W : Valuation τ sig (Elt F)) : after main_part12_ops0 W (no_index (Proc.devRef .tc main_arg2)) = W (Proc.devRef .tc main_arg2) := by
  simp only [main_part12_ops0]
  after_results_simp
  all_goals rfl
set_option maxRecDepth 8192 in
set_option maxHeartbeats 2000000 in
/-- Window 13 writes no argument array: main_arg0 is as before. -/
theorem keep13_main_arg0 (W : Valuation τ sig (Elt F)) : after main_part13_ops0 W (no_index (Proc.devRef .tc main_arg0)) = W (Proc.devRef .tc main_arg0) := by
  simp only [main_part13_ops0]
  after_results_simp
  all_goals rfl
set_option maxRecDepth 8192 in
set_option maxHeartbeats 2000000 in
/-- Window 13 writes no argument array: main_arg1 is as before. -/
theorem keep13_main_arg1 (W : Valuation τ sig (Elt F)) : after main_part13_ops0 W (no_index (Proc.devRef .tc main_arg1)) = W (Proc.devRef .tc main_arg1) := by
  simp only [main_part13_ops0]
  after_results_simp
  all_goals rfl
set_option maxRecDepth 8192 in
set_option maxHeartbeats 2000000 in
/-- Window 13 writes no argument array: main_arg2 is as before. -/
theorem keep13_main_arg2 (W : Valuation τ sig (Elt F)) : after main_part13_ops0 W (no_index (Proc.devRef .tc main_arg2)) = W (Proc.devRef .tc main_arg2) := by
  simp only [main_part13_ops0]
  after_results_simp
  all_goals rfl
set_option maxRecDepth 8192 in
set_option maxHeartbeats 2000000 in
/-- Window 14 writes no argument array: main_arg0 is as before. -/
theorem keep14_main_arg0 (W : Valuation τ sig (Elt F)) : after main_part14_ops0 W (no_index (Proc.devRef .tc main_arg0)) = W (Proc.devRef .tc main_arg0) := by
  simp only [main_part14_ops0]
  after_results_simp
  all_goals rfl
set_option maxRecDepth 8192 in
set_option maxHeartbeats 2000000 in
/-- Window 14 writes no argument array: main_arg1 is as before. -/
theorem keep14_main_arg1 (W : Valuation τ sig (Elt F)) : after main_part14_ops0 W (no_index (Proc.devRef .tc main_arg1)) = W (Proc.devRef .tc main_arg1) := by
  simp only [main_part14_ops0]
  after_results_simp
  all_goals rfl
set_option maxRecDepth 8192 in
set_option maxHeartbeats 2000000 in
/-- Window 14 writes no argument array: main_arg2 is as before. -/
theorem keep14_main_arg2 (W : Valuation τ sig (Elt F)) : after main_part14_ops0 W (no_index (Proc.devRef .tc main_arg2)) = W (Proc.devRef .tc main_arg2) := by
  simp only [main_part14_ops0]
  after_results_simp
  all_goals rfl
set_option maxRecDepth 8192 in
set_option maxHeartbeats 2000000 in
/-- Window 15 writes no argument array: main_arg0 is as before. -/
theorem keep15_main_arg0 (W : Valuation τ sig (Elt F)) : after main_part15_ops0 W (no_index (Proc.devRef .tc main_arg0)) = W (Proc.devRef .tc main_arg0) := by
  simp only [main_part15_ops0]
  after_results_simp
  all_goals rfl
set_option maxRecDepth 8192 in
set_option maxHeartbeats 2000000 in
/-- Window 15 writes no argument array: main_arg1 is as before. -/
theorem keep15_main_arg1 (W : Valuation τ sig (Elt F)) : after main_part15_ops0 W (no_index (Proc.devRef .tc main_arg1)) = W (Proc.devRef .tc main_arg1) := by
  simp only [main_part15_ops0]
  after_results_simp
  all_goals rfl
set_option maxRecDepth 8192 in
set_option maxHeartbeats 2000000 in
/-- Window 15 writes no argument array: main_arg2 is as before. -/
theorem keep15_main_arg2 (W : Valuation τ sig (Elt F)) : after main_part15_ops0 W (no_index (Proc.devRef .tc main_arg2)) = W (Proc.devRef .tc main_arg2) := by
  simp only [main_part15_ops0]
  after_results_simp
  all_goals rfl

end Cert.KernelIdeal.KHost

end
-- ==== Proof.KKeepW4.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 16 writes no argument array: main_arg0 is as before. -/
theorem keep16_main_arg0 (W : Valuation τ sig (Elt F)) : after main_part16_ops0 W (no_index (Proc.devRef .tc main_arg0)) = W (Proc.devRef .tc main_arg0) := by
  simp only [main_part16_ops0]
  after_results_simp
  all_goals rfl
set_option maxRecDepth 8192 in
set_option maxHeartbeats 2000000 in
/-- Window 16 writes no argument array: main_arg1 is as before. -/
theorem keep16_main_arg1 (W : Valuation τ sig (Elt F)) : after main_part16_ops0 W (no_index (Proc.devRef .tc main_arg1)) = W (Proc.devRef .tc main_arg1) := by
  simp only [main_part16_ops0]
  after_results_simp
  all_goals rfl
set_option maxRecDepth 8192 in
set_option maxHeartbeats 2000000 in
/-- Window 16 writes no argument array: main_arg2 is as before. -/
theorem keep16_main_arg2 (W : Valuation τ sig (Elt F)) : after main_part16_ops0 W (no_index (Proc.devRef .tc main_arg2)) = W (Proc.devRef .tc main_arg2) := by
  simp only [main_part16_ops0]
  after_results_simp
  all_goals rfl
set_option maxRecDepth 8192 in
set_option maxHeartbeats 2000000 in
/-- Window 17 writes no argument array: main_arg0 is as before. -/
theorem keep17_main_arg0 (W : Valuation τ sig (Elt F)) : after main_part17_ops0 W (no_index (Proc.devRef .tc main_arg0)) = W (Proc.devRef .tc main_arg0) := by
  simp only [main_part17_ops0]
  after_results_simp
  all_goals rfl
set_option maxRecDepth 8192 in
set_option maxHeartbeats 2000000 in
/-- Window 17 writes no argument array: main_arg1 is as before. -/
theorem keep17_main_arg1 (W : Valuation τ sig (Elt F)) : after main_part17_ops0 W (no_index (Proc.devRef .tc main_arg1)) = W (Proc.devRef .tc main_arg1) := by
  simp only [main_part17_ops0]
  after_results_simp
  all_goals rfl
set_option maxRecDepth 8192 in
set_option maxHeartbeats 2000000 in
/-- Window 17 writes no argument array: main_arg2 is as before. -/
theorem keep17_main_arg2 (W : Valuation τ sig (Elt F)) : after main_part17_ops0 W (no_index (Proc.devRef .tc main_arg2)) = W (Proc.devRef .tc main_arg2) := by
  simp only [main_part17_ops0]
  after_results_simp
  all_goals rfl
set_option maxRecDepth 8192 in
set_option maxHeartbeats 2000000 in
/-- Window 18 writes no argument array: main_arg0 is as before. -/
theorem keep18_main_arg0 (W : Valuation τ sig (Elt F)) : after main_part18_ops0 W (no_index (Proc.devRef .tc main_arg0)) = W (Proc.devRef .tc main_arg0) := by
  simp only [main_part18_ops0]
  after_results_simp
  all_goals rfl
set_option maxRecDepth 8192 in
set_option maxHeartbeats 2000000 in
/-- Window 18 writes no argument array: main_arg1 is as before. -/
theorem keep18_main_arg1 (W : Valuation τ sig (Elt F)) : after main_part18_ops0 W (no_index (Proc.devRef .tc main_arg1)) = W (Proc.devRef .tc main_arg1) := by
  simp only [main_part18_ops0]
  after_results_simp
  all_goals rfl
set_option maxRecDepth 8192 in
set_option maxHeartbeats 2000000 in
/-- Window 18 writes no argument array: main_arg2 is as before. -/
theorem keep18_main_arg2 (W : Valuation τ sig (Elt F)) : after main_part18_ops0 W (no_index (Proc.devRef .tc main_arg2)) = W (Proc.devRef .tc main_arg2) := by
  simp only [main_part18_ops0]
  after_results_simp
  all_goals rfl
set_option maxRecDepth 8192 in
set_option maxHeartbeats 2000000 in
/-- Window 19 writes no argument array: main_arg0 is as before. -/
theorem keep19_main_arg0 (W : Valuation τ sig (Elt F)) : after main_part19_ops0 W (no_index (Proc.devRef .tc main_arg0)) = W (Proc.devRef .tc main_arg0) := by
  simp only [main_part19_ops0]
  after_results_simp
  all_goals rfl
set_option maxRecDepth 8192 in
set_option maxHeartbeats 2000000 in
/-- Window 19 writes no argument array: main_arg1 is as before. -/
theorem keep19_main_arg1 (W : Valuation τ sig (Elt F)) : after main_part19_ops0 W (no_index (Proc.devRef .tc main_arg1)) = W (Proc.devRef .tc main_arg1) := by
  simp only [main_part19_ops0]
  after_results_simp
  all_goals rfl
set_option maxRecDepth 8192 in
set_option maxHeartbeats 2000000 in
/-- Window 19 writes no argument array: main_arg2 is as before. -/
theorem keep19_main_arg2 (W : Valuation τ sig (Elt F)) : after main_part19_ops0 W (no_index (Proc.devRef .tc main_arg2)) = W (Proc.devRef .tc main_arg2) := by
  simp only [main_part19_ops0]
  after_results_simp
  all_goals rfl

end Cert.KernelIdeal.KHost

end
-- ==== Proof.KKeepW5.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 20 writes no argument array: main_arg0 is as before. -/
theorem keep20_main_arg0 (W : Valuation τ sig (Elt F)) : after main_part20_ops0 W (no_index (Proc.devRef .tc main_arg0)) = W (Proc.devRef .tc main_arg0) := by
  simp only [main_part20_ops0]
  after_results_simp
  all_goals rfl
set_option maxRecDepth 8192 in
set_option maxHeartbeats 2000000 in
/-- Window 20 writes no argument array: main_arg1 is as before. -/
theorem keep20_main_arg1 (W : Valuation τ sig (Elt F)) : after main_part20_ops0 W (no_index (Proc.devRef .tc main_arg1)) = W (Proc.devRef .tc main_arg1) := by
  simp only [main_part20_ops0]
  after_results_simp
  all_goals rfl
set_option maxRecDepth 8192 in
set_option maxHeartbeats 2000000 in
/-- Window 20 writes no argument array: main_arg2 is as before. -/
theorem keep20_main_arg2 (W : Valuation τ sig (Elt F)) : after main_part20_ops0 W (no_index (Proc.devRef .tc main_arg2)) = W (Proc.devRef .tc main_arg2) := by
  simp only [main_part20_ops0]
  after_results_simp
  all_goals rfl
set_option maxRecDepth 8192 in
set_option maxHeartbeats 2000000 in
/-- Window 21 writes no argument array: main_arg0 is as before. -/
theorem keep21_main_arg0 (W : Valuation τ sig (Elt F)) : after main_part21_ops0 W (no_index (Proc.devRef .tc main_arg0)) = W (Proc.devRef .tc main_arg0) := by
  simp only [main_part21_ops0]
  after_results_simp
  all_goals rfl
set_option maxRecDepth 8192 in
set_option maxHeartbeats 2000000 in
/-- Window 21 writes no argument array: main_arg1 is as before. -/
theorem keep21_main_arg1 (W : Valuation τ sig (Elt F)) : after main_part21_ops0 W (no_index (Proc.devRef .tc main_arg1)) = W (Proc.devRef .tc main_arg1) := by
  simp only [main_part21_ops0]
  after_results_simp
  all_goals rfl
set_option maxRecDepth 8192 in
set_option maxHeartbeats 2000000 in
/-- Window 21 writes no argument array: main_arg2 is as before. -/
theorem keep21_main_arg2 (W : Valuation τ sig (Elt F)) : after main_part21_ops0 W (no_index (Proc.devRef .tc main_arg2)) = W (Proc.devRef .tc main_arg2) := by
  simp only [main_part21_ops0]
  after_results_simp
  all_goals rfl
set_option maxRecDepth 8192 in
set_option maxHeartbeats 2000000 in
/-- Window 22 writes no argument array: main_arg0 is as before. -/
theorem keep22_main_arg0 (W : Valuation τ sig (Elt F)) : after main_part22_ops0 W (no_index (Proc.devRef .tc main_arg0)) = W (Proc.devRef .tc main_arg0) := by
  simp only [main_part22_ops0]
  after_results_simp
  all_goals rfl
set_option maxRecDepth 8192 in
set_option maxHeartbeats 2000000 in
/-- Window 22 writes no argument array: main_arg1 is as before. -/
theorem keep22_main_arg1 (W : Valuation τ sig (Elt F)) : after main_part22_ops0 W (no_index (Proc.devRef .tc main_arg1)) = W (Proc.devRef .tc main_arg1) := by
  simp only [main_part22_ops0]
  after_results_simp
  all_goals rfl
set_option maxRecDepth 8192 in
set_option maxHeartbeats 2000000 in
/-- Window 22 writes no argument array: main_arg2 is as before. -/
theorem keep22_main_arg2 (W : Valuation τ sig (Elt F)) : after main_part22_ops0 W (no_index (Proc.devRef .tc main_arg2)) = W (Proc.devRef .tc main_arg2) := by
  simp only [main_part22_ops0]
  after_results_simp
  all_goals rfl
set_option maxRecDepth 8192 in
set_option maxHeartbeats 2000000 in
/-- Window 23 writes no argument array: main_arg0 is as before. -/
theorem keep23_main_arg0 (W : Valuation τ sig (Elt F)) : after main_part23_ops0 W (no_index (Proc.devRef .tc main_arg0)) = W (Proc.devRef .tc main_arg0) := by
  simp only [main_part23_ops0]
  after_results_simp
  all_goals rfl
set_option maxRecDepth 8192 in
set_option maxHeartbeats 2000000 in
/-- Window 23 writes no argument array: main_arg1 is as before. -/
theorem keep23_main_arg1 (W : Valuation τ sig (Elt F)) : after main_part23_ops0 W (no_index (Proc.devRef .tc main_arg1)) = W (Proc.devRef .tc main_arg1) := by
  simp only [main_part23_ops0]
  after_results_simp
  all_goals rfl
set_option maxRecDepth 8192 in
set_option maxHeartbeats 2000000 in
/-- Window 23 writes no argument array: main_arg2 is as before. -/
theorem keep23_main_arg2 (W : Valuation τ sig (Elt F)) : after main_part23_ops0 W (no_index (Proc.devRef .tc main_arg2)) = W (Proc.devRef .tc main_arg2) := by
  simp only [main_part23_ops0]
  after_results_simp
  all_goals rfl

end Cert.KernelIdeal.KHost

end
-- ==== Proof.KKeepW6.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 24 writes no argument array: main_arg0 is as before. -/
theorem keep24_main_arg0 (W : Valuation τ sig (Elt F)) : after main_part24_ops0 W (no_index (Proc.devRef .tc main_arg0)) = W (Proc.devRef .tc main_arg0) := by
  simp only [main_part24_ops0]
  after_results_simp
  all_goals rfl
set_option maxRecDepth 8192 in
set_option maxHeartbeats 2000000 in
/-- Window 24 writes no argument array: main_arg1 is as before. -/
theorem keep24_main_arg1 (W : Valuation τ sig (Elt F)) : after main_part24_ops0 W (no_index (Proc.devRef .tc main_arg1)) = W (Proc.devRef .tc main_arg1) := by
  simp only [main_part24_ops0]
  after_results_simp
  all_goals rfl
set_option maxRecDepth 8192 in
set_option maxHeartbeats 2000000 in
/-- Window 24 writes no argument array: main_arg2 is as before. -/
theorem keep24_main_arg2 (W : Valuation τ sig (Elt F)) : after main_part24_ops0 W (no_index (Proc.devRef .tc main_arg2)) = W (Proc.devRef .tc main_arg2) := by
  simp only [main_part24_ops0]
  after_results_simp
  all_goals rfl
set_option maxRecDepth 8192 in
set_option maxHeartbeats 2000000 in
/-- Window 25 writes no argument array: main_arg0 is as before. -/
theorem keep25_main_arg0 (W : Valuation τ sig (Elt F)) : after main_part25_ops0 W (no_index (Proc.devRef .tc main_arg0)) = W (Proc.devRef .tc main_arg0) := by
  simp only [main_part25_ops0]
  after_results_simp
  all_goals rfl
set_option maxRecDepth 8192 in
set_option maxHeartbeats 2000000 in
/-- Window 25 writes no argument array: main_arg1 is as before. -/
theorem keep25_main_arg1 (W : Valuation τ sig (Elt F)) : after main_part25_ops0 W (no_index (Proc.devRef .tc main_arg1)) = W (Proc.devRef .tc main_arg1) := by
  simp only [main_part25_ops0]
  after_results_simp
  all_goals rfl
set_option maxRecDepth 8192 in
set_option maxHeartbeats 2000000 in
/-- Window 25 writes no argument array: main_arg2 is as before. -/
theorem keep25_main_arg2 (W : Valuation τ sig (Elt F)) : after main_part25_ops0 W (no_index (Proc.devRef .tc main_arg2)) = W (Proc.devRef .tc main_arg2) := by
  simp only [main_part25_ops0]
  after_results_simp
  all_goals rfl
set_option maxRecDepth 8192 in
set_option maxHeartbeats 2000000 in
/-- Window 26 writes no argument array: main_arg0 is as before. -/
theorem keep26_main_arg0 (W : Valuation τ sig (Elt F)) : after main_part26_ops0 W (no_index (Proc.devRef .tc main_arg0)) = W (Proc.devRef .tc main_arg0) := by
  simp only [main_part26_ops0]
  after_results_simp
  all_goals rfl
set_option maxRecDepth 8192 in
set_option maxHeartbeats 2000000 in
/-- Window 26 writes no argument array: main_arg1 is as before. -/
theorem keep26_main_arg1 (W : Valuation τ sig (Elt F)) : after main_part26_ops0 W (no_index (Proc.devRef .tc main_arg1)) = W (Proc.devRef .tc main_arg1) := by
  simp only [main_part26_ops0]
  after_results_simp
  all_goals rfl
set_option maxRecDepth 8192 in
set_option maxHeartbeats 2000000 in
/-- Window 26 writes no argument array: main_arg2 is as before. -/
theorem keep26_main_arg2 (W : Valuation τ sig (Elt F)) : after main_part26_ops0 W (no_index (Proc.devRef .tc main_arg2)) = W (Proc.devRef .tc main_arg2) := by
  simp only [main_part26_ops0]
  after_results_simp
  all_goals rfl
set_option maxRecDepth 8192 in
set_option maxHeartbeats 2000000 in
/-- Window 27 writes no argument array: main_arg0 is as before. -/
theorem keep27_main_arg0 (W : Valuation τ sig (Elt F)) : after main_part27_ops0 W (no_index (Proc.devRef .tc main_arg0)) = W (Proc.devRef .tc main_arg0) := by
  simp only [main_part27_ops0]
  after_results_simp
  all_goals rfl
set_option maxRecDepth 8192 in
set_option maxHeartbeats 2000000 in
/-- Window 27 writes no argument array: main_arg1 is as before. -/
theorem keep27_main_arg1 (W : Valuation τ sig (Elt F)) : after main_part27_ops0 W (no_index (Proc.devRef .tc main_arg1)) = W (Proc.devRef .tc main_arg1) := by
  simp only [main_part27_ops0]
  after_results_simp
  all_goals rfl
set_option maxRecDepth 8192 in
set_option maxHeartbeats 2000000 in
/-- Window 27 writes no argument array: main_arg2 is as before. -/
theorem keep27_main_arg2 (W : Valuation τ sig (Elt F)) : after main_part27_ops0 W (no_index (Proc.devRef .tc main_arg2)) = W (Proc.devRef .tc main_arg2) := by
  simp only [main_part27_ops0]
  after_results_simp
  all_goals rfl

end Cert.KernelIdeal.KHost

end
-- ==== Proof.KKeepW7.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 28 writes no argument array: main_arg0 is as before. -/
theorem keep28_main_arg0 (W : Valuation τ sig (Elt F)) : after main_part28_ops0 W (no_index (Proc.devRef .tc main_arg0)) = W (Proc.devRef .tc main_arg0) := by
  simp only [main_part28_ops0]
  after_results_simp
  all_goals rfl
set_option maxRecDepth 8192 in
set_option maxHeartbeats 2000000 in
/-- Window 28 writes no argument array: main_arg1 is as before. -/
theorem keep28_main_arg1 (W : Valuation τ sig (Elt F)) : after main_part28_ops0 W (no_index (Proc.devRef .tc main_arg1)) = W (Proc.devRef .tc main_arg1) := by
  simp only [main_part28_ops0]
  after_results_simp
  all_goals rfl
set_option maxRecDepth 8192 in
set_option maxHeartbeats 2000000 in
/-- Window 28 writes no argument array: main_arg2 is as before. -/
theorem keep28_main_arg2 (W : Valuation τ sig (Elt F)) : after main_part28_ops0 W (no_index (Proc.devRef .tc main_arg2)) = W (Proc.devRef .tc main_arg2) := by
  simp only [main_part28_ops0]
  after_results_simp
  all_goals rfl
set_option maxRecDepth 8192 in
set_option maxHeartbeats 2000000 in
/-- Window 29 writes no argument array: main_arg0 is as before. -/
theorem keep29_main_arg0 (W : Valuation τ sig (Elt F)) : after main_part29_ops0 W (no_index (Proc.devRef .tc main_arg0)) = W (Proc.devRef .tc main_arg0) := by
  simp only [main_part29_ops0]
  after_results_simp
  all_goals rfl
set_option maxRecDepth 8192 in
set_option maxHeartbeats 2000000 in
/-- Window 29 writes no argument array: main_arg1 is as before. -/
theorem keep29_main_arg1 (W : Valuation τ sig (Elt F)) : after main_part29_ops0 W (no_index (Proc.devRef .tc main_arg1)) = W (Proc.devRef .tc main_arg1) := by
  simp only [main_part29_ops0]
  after_results_simp
  all_goals rfl
set_option maxRecDepth 8192 in
set_option maxHeartbeats 2000000 in
/-- Window 29 writes no argument array: main_arg2 is as before. -/
theorem keep29_main_arg2 (W : Valuation τ sig (Elt F)) : after main_part29_ops0 W (no_index (Proc.devRef .tc main_arg2)) = W (Proc.devRef .tc main_arg2) := by
  simp only [main_part29_ops0]
  after_results_simp
  all_goals rfl
set_option maxRecDepth 8192 in
set_option maxHeartbeats 2000000 in
/-- Window 30 writes no argument array: main_arg0 is as before. -/
theorem keep30_main_arg0 (W : Valuation τ sig (Elt F)) : after main_part30_ops0 W (no_index (Proc.devRef .tc main_arg0)) = W (Proc.devRef .tc main_arg0) := by
  simp only [main_part30_ops0]
  after_results_simp
  all_goals rfl
set_option maxRecDepth 8192 in
set_option maxHeartbeats 2000000 in
/-- Window 30 writes no argument array: main_arg1 is as before. -/
theorem keep30_main_arg1 (W : Valuation τ sig (Elt F)) : after main_part30_ops0 W (no_index (Proc.devRef .tc main_arg1)) = W (Proc.devRef .tc main_arg1) := by
  simp only [main_part30_ops0]
  after_results_simp
  all_goals rfl
set_option maxRecDepth 8192 in
set_option maxHeartbeats 2000000 in
/-- Window 30 writes no argument array: main_arg2 is as before. -/
theorem keep30_main_arg2 (W : Valuation τ sig (Elt F)) : after main_part30_ops0 W (no_index (Proc.devRef .tc main_arg2)) = W (Proc.devRef .tc main_arg2) := by
  simp only [main_part30_ops0]
  after_results_simp
  all_goals rfl
set_option maxRecDepth 8192 in
set_option maxHeartbeats 2000000 in
/-- Window 31 writes no argument array: main_arg0 is as before. -/
theorem keep31_main_arg0 (W : Valuation τ sig (Elt F)) : after main_part31_ops0 W (no_index (Proc.devRef .tc main_arg0)) = W (Proc.devRef .tc main_arg0) := by
  simp only [main_part31_ops0]
  after_results_simp
  all_goals rfl
set_option maxRecDepth 8192 in
set_option maxHeartbeats 2000000 in
/-- Window 31 writes no argument array: main_arg1 is as before. -/
theorem keep31_main_arg1 (W : Valuation τ sig (Elt F)) : after main_part31_ops0 W (no_index (Proc.devRef .tc main_arg1)) = W (Proc.devRef .tc main_arg1) := by
  simp only [main_part31_ops0]
  after_results_simp
  all_goals rfl
set_option maxRecDepth 8192 in
set_option maxHeartbeats 2000000 in
/-- Window 31 writes no argument array: main_arg2 is as before. -/
theorem keep31_main_arg2 (W : Valuation τ sig (Elt F)) : after main_part31_ops0 W (no_index (Proc.devRef .tc main_arg2)) = W (Proc.devRef .tc main_arg2) := by
  simp only [main_part31_ops0]
  after_results_simp
  all_goals rfl

end Cert.KernelIdeal.KHost

end
-- ==== Proof.KKeepW8.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 32 writes no argument array: main_arg0 is as before. -/
theorem keep32_main_arg0 (W : Valuation τ sig (Elt F)) : after main_part32_ops0 W (no_index (Proc.devRef .tc main_arg0)) = W (Proc.devRef .tc main_arg0) := by
  simp only [main_part32_ops0]
  after_results_simp
  all_goals rfl
set_option maxRecDepth 8192 in
set_option maxHeartbeats 2000000 in
/-- Window 32 writes no argument array: main_arg1 is as before. -/
theorem keep32_main_arg1 (W : Valuation τ sig (Elt F)) : after main_part32_ops0 W (no_index (Proc.devRef .tc main_arg1)) = W (Proc.devRef .tc main_arg1) := by
  simp only [main_part32_ops0]
  after_results_simp
  all_goals rfl
set_option maxRecDepth 8192 in
set_option maxHeartbeats 2000000 in
/-- Window 32 writes no argument array: main_arg2 is as before. -/
theorem keep32_main_arg2 (W : Valuation τ sig (Elt F)) : after main_part32_ops0 W (no_index (Proc.devRef .tc main_arg2)) = W (Proc.devRef .tc main_arg2) := by
  simp only [main_part32_ops0]
  after_results_simp
  all_goals rfl
set_option maxRecDepth 8192 in
set_option maxHeartbeats 2000000 in
/-- Window 33 writes no argument array: main_arg0 is as before. -/
theorem keep33_main_arg0 (W : Valuation τ sig (Elt F)) : after main_part33_ops0 W (no_index (Proc.devRef .tc main_arg0)) = W (Proc.devRef .tc main_arg0) := by
  simp only [main_part33_ops0]
  after_results_simp
  all_goals rfl
set_option maxRecDepth 8192 in
set_option maxHeartbeats 2000000 in
/-- Window 33 writes no argument array: main_arg1 is as before. -/
theorem keep33_main_arg1 (W : Valuation τ sig (Elt F)) : after main_part33_ops0 W (no_index (Proc.devRef .tc main_arg1)) = W (Proc.devRef .tc main_arg1) := by
  simp only [main_part33_ops0]
  after_results_simp
  all_goals rfl
set_option maxRecDepth 8192 in
set_option maxHeartbeats 2000000 in
/-- Window 33 writes no argument array: main_arg2 is as before. -/
theorem keep33_main_arg2 (W : Valuation τ sig (Elt F)) : after main_part33_ops0 W (no_index (Proc.devRef .tc main_arg2)) = W (Proc.devRef .tc main_arg2) := by
  simp only [main_part33_ops0]
  after_results_simp
  all_goals rfl
set_option maxRecDepth 8192 in
set_option maxHeartbeats 2000000 in
/-- Window 34 writes no argument array: main_arg0 is as before. -/
theorem keep34_main_arg0 (W : Valuation τ sig (Elt F)) : after main_part34_ops0 W (no_index (Proc.devRef .tc main_arg0)) = W (Proc.devRef .tc main_arg0) := by
  simp only [main_part34_ops0]
  after_results_simp
  all_goals rfl
set_option maxRecDepth 8192 in
set_option maxHeartbeats 2000000 in
/-- Window 34 writes no argument array: main_arg1 is as before. -/
theorem keep34_main_arg1 (W : Valuation τ sig (Elt F)) : after main_part34_ops0 W (no_index (Proc.devRef .tc main_arg1)) = W (Proc.devRef .tc main_arg1) := by
  simp only [main_part34_ops0]
  after_results_simp
  all_goals rfl
set_option maxRecDepth 8192 in
set_option maxHeartbeats 2000000 in
/-- Window 34 writes no argument array: main_arg2 is as before. -/
theorem keep34_main_arg2 (W : Valuation τ sig (Elt F)) : after main_part34_ops0 W (no_index (Proc.devRef .tc main_arg2)) = W (Proc.devRef .tc main_arg2) := by
  simp only [main_part34_ops0]
  after_results_simp
  all_goals rfl
set_option maxRecDepth 8192 in
set_option maxHeartbeats 2000000 in
/-- Window 35 writes no argument array: main_arg0 is as before. -/
theorem keep35_main_arg0 (W : Valuation τ sig (Elt F)) : after main_part35_ops0 W (no_index (Proc.devRef .tc main_arg0)) = W (Proc.devRef .tc main_arg0) := by
  simp only [main_part35_ops0]
  after_results_simp
  all_goals rfl
set_option maxRecDepth 8192 in
set_option maxHeartbeats 2000000 in
/-- Window 35 writes no argument array: main_arg1 is as before. -/
theorem keep35_main_arg1 (W : Valuation τ sig (Elt F)) : after main_part35_ops0 W (no_index (Proc.devRef .tc main_arg1)) = W (Proc.devRef .tc main_arg1) := by
  simp only [main_part35_ops0]
  after_results_simp
  all_goals rfl
set_option maxRecDepth 8192 in
set_option maxHeartbeats 2000000 in
/-- Window 35 writes no argument array: main_arg2 is as before. -/
theorem keep35_main_arg2 (W : Valuation τ sig (Elt F)) : after main_part35_ops0 W (no_index (Proc.devRef .tc main_arg2)) = W (Proc.devRef .tc main_arg2) := by
  simp only [main_part35_ops0]
  after_results_simp
  all_goals rfl

end Cert.KernelIdeal.KHost

end
-- ==== Proof.KKeepW9.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 36 writes no argument array: main_arg0 is as before. -/
theorem keep36_main_arg0 (W : Valuation τ sig (Elt F)) : after main_part36_ops0 W (no_index (Proc.devRef .tc main_arg0)) = W (Proc.devRef .tc main_arg0) := by
  simp only [main_part36_ops0]
  after_results_simp
  all_goals rfl
set_option maxRecDepth 8192 in
set_option maxHeartbeats 2000000 in
/-- Window 36 writes no argument array: main_arg1 is as before. -/
theorem keep36_main_arg1 (W : Valuation τ sig (Elt F)) : after main_part36_ops0 W (no_index (Proc.devRef .tc main_arg1)) = W (Proc.devRef .tc main_arg1) := by
  simp only [main_part36_ops0]
  after_results_simp
  all_goals rfl
set_option maxRecDepth 8192 in
set_option maxHeartbeats 2000000 in
/-- Window 36 writes no argument array: main_arg2 is as before. -/
theorem keep36_main_arg2 (W : Valuation τ sig (Elt F)) : after main_part36_ops0 W (no_index (Proc.devRef .tc main_arg2)) = W (Proc.devRef .tc main_arg2) := by
  simp only [main_part36_ops0]
  after_results_simp
  all_goals rfl
set_option maxRecDepth 8192 in
set_option maxHeartbeats 2000000 in
/-- Window 37 writes no argument array: main_arg0 is as before. -/
theorem keep37_main_arg0 (W : Valuation τ sig (Elt F)) : after main_part37_ops0 W (no_index (Proc.devRef .tc main_arg0)) = W (Proc.devRef .tc main_arg0) := by
  simp only [main_part37_ops0]
  after_results_simp
  all_goals rfl
set_option maxRecDepth 8192 in
set_option maxHeartbeats 2000000 in
/-- Window 37 writes no argument array: main_arg1 is as before. -/
theorem keep37_main_arg1 (W : Valuation τ sig (Elt F)) : after main_part37_ops0 W (no_index (Proc.devRef .tc main_arg1)) = W (Proc.devRef .tc main_arg1) := by
  simp only [main_part37_ops0]
  after_results_simp
  all_goals rfl
set_option maxRecDepth 8192 in
set_option maxHeartbeats 2000000 in
/-- Window 37 writes no argument array: main_arg2 is as before. -/
theorem keep37_main_arg2 (W : Valuation τ sig (Elt F)) : after main_part37_ops0 W (no_index (Proc.devRef .tc main_arg2)) = W (Proc.devRef .tc main_arg2) := by
  simp only [main_part37_ops0]
  after_results_simp
  all_goals rfl
set_option maxRecDepth 8192 in
set_option maxHeartbeats 2000000 in
/-- Window 38 writes no argument array: main_arg0 is as before. -/
theorem keep38_main_arg0 (W : Valuation τ sig (Elt F)) : after main_part38_ops0 W (no_index (Proc.devRef .tc main_arg0)) = W (Proc.devRef .tc main_arg0) := by
  simp only [main_part38_ops0]
  after_results_simp
  all_goals rfl
set_option maxRecDepth 8192 in
set_option maxHeartbeats 2000000 in
/-- Window 38 writes no argument array: main_arg1 is as before. -/
theorem keep38_main_arg1 (W : Valuation τ sig (Elt F)) : after main_part38_ops0 W (no_index (Proc.devRef .tc main_arg1)) = W (Proc.devRef .tc main_arg1) := by
  simp only [main_part38_ops0]
  after_results_simp
  all_goals rfl
set_option maxRecDepth 8192 in
set_option maxHeartbeats 2000000 in
/-- Window 38 writes no argument array: main_arg2 is as before. -/
theorem keep38_main_arg2 (W : Valuation τ sig (Elt F)) : after main_part38_ops0 W (no_index (Proc.devRef .tc main_arg2)) = W (Proc.devRef .tc main_arg2) := by
  simp only [main_part38_ops0]
  after_results_simp
  all_goals rfl
set_option maxRecDepth 8192 in
set_option maxHeartbeats 2000000 in
/-- Window 39 writes no argument array: main_arg0 is as before. -/
theorem keep39_main_arg0 (W : Valuation τ sig (Elt F)) : after main_part39_ops0 W (no_index (Proc.devRef .tc main_arg0)) = W (Proc.devRef .tc main_arg0) := by
  simp only [main_part39_ops0]
  after_results_simp
  all_goals rfl
set_option maxRecDepth 8192 in
set_option maxHeartbeats 2000000 in
/-- Window 39 writes no argument array: main_arg1 is as before. -/
theorem keep39_main_arg1 (W : Valuation τ sig (Elt F)) : after main_part39_ops0 W (no_index (Proc.devRef .tc main_arg1)) = W (Proc.devRef .tc main_arg1) := by
  simp only [main_part39_ops0]
  after_results_simp
  all_goals rfl
set_option maxRecDepth 8192 in
set_option maxHeartbeats 2000000 in
/-- Window 39 writes no argument array: main_arg2 is as before. -/
theorem keep39_main_arg2 (W : Valuation τ sig (Elt F)) : after main_part39_ops0 W (no_index (Proc.devRef .tc main_arg2)) = W (Proc.devRef .tc main_arg2) := by
  simp only [main_part39_ops0]
  after_results_simp
  all_goals rfl

end Cert.KernelIdeal.KHost

end
-- ==== Proof.KKeepW10.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 40 writes no argument array: main_arg0 is as before. -/
theorem keep40_main_arg0 (W : Valuation τ sig (Elt F)) : after main_part40_ops0 W (no_index (Proc.devRef .tc main_arg0)) = W (Proc.devRef .tc main_arg0) := by
  simp only [main_part40_ops0]
  after_results_simp
  all_goals rfl
set_option maxRecDepth 8192 in
set_option maxHeartbeats 2000000 in
/-- Window 40 writes no argument array: main_arg1 is as before. -/
theorem keep40_main_arg1 (W : Valuation τ sig (Elt F)) : after main_part40_ops0 W (no_index (Proc.devRef .tc main_arg1)) = W (Proc.devRef .tc main_arg1) := by
  simp only [main_part40_ops0]
  after_results_simp
  all_goals rfl
set_option maxRecDepth 8192 in
set_option maxHeartbeats 2000000 in
/-- Window 40 writes no argument array: main_arg2 is as before. -/
theorem keep40_main_arg2 (W : Valuation τ sig (Elt F)) : after main_part40_ops0 W (no_index (Proc.devRef .tc main_arg2)) = W (Proc.devRef .tc main_arg2) := by
  simp only [main_part40_ops0]
  after_results_simp
  all_goals rfl
set_option maxRecDepth 8192 in
set_option maxHeartbeats 2000000 in
/-- Window 41 writes no argument array: main_arg0 is as before. -/
theorem keep41_main_arg0 (W : Valuation τ sig (Elt F)) : after main_part41_ops0 W (no_index (Proc.devRef .tc main_arg0)) = W (Proc.devRef .tc main_arg0) := by
  simp only [main_part41_ops0]
  after_results_simp
  all_goals rfl
set_option maxRecDepth 8192 in
set_option maxHeartbeats 2000000 in
/-- Window 41 writes no argument array: main_arg1 is as before. -/
theorem keep41_main_arg1 (W : Valuation τ sig (Elt F)) : after main_part41_ops0 W (no_index (Proc.devRef .tc main_arg1)) = W (Proc.devRef .tc main_arg1) := by
  simp only [main_part41_ops0]
  after_results_simp
  all_goals rfl
set_option maxRecDepth 8192 in
set_option maxHeartbeats 2000000 in
/-- Window 41 writes no argument array: main_arg2 is as before. -/
theorem keep41_main_arg2 (W : Valuation τ sig (Elt F)) : after main_part41_ops0 W (no_index (Proc.devRef .tc main_arg2)) = W (Proc.devRef .tc main_arg2) := by
  simp only [main_part41_ops0]
  after_results_simp
  all_goals rfl
set_option maxRecDepth 8192 in
set_option maxHeartbeats 2000000 in
/-- Window 42 writes no argument array: main_arg0 is as before. -/
theorem keep42_main_arg0 (W : Valuation τ sig (Elt F)) : after main_part42_ops0 W (no_index (Proc.devRef .tc main_arg0)) = W (Proc.devRef .tc main_arg0) := by
  simp only [main_part42_ops0]
  after_results_simp
  all_goals rfl
set_option maxRecDepth 8192 in
set_option maxHeartbeats 2000000 in
/-- Window 42 writes no argument array: main_arg1 is as before. -/
theorem keep42_main_arg1 (W : Valuation τ sig (Elt F)) : after main_part42_ops0 W (no_index (Proc.devRef .tc main_arg1)) = W (Proc.devRef .tc main_arg1) := by
  simp only [main_part42_ops0]
  after_results_simp
  all_goals rfl
set_option maxRecDepth 8192 in
set_option maxHeartbeats 2000000 in
/-- Window 42 writes no argument array: main_arg2 is as before. -/
theorem keep42_main_arg2 (W : Valuation τ sig (Elt F)) : after main_part42_ops0 W (no_index (Proc.devRef .tc main_arg2)) = W (Proc.devRef .tc main_arg2) := by
  simp only [main_part42_ops0]
  after_results_simp
  all_goals rfl
set_option maxRecDepth 8192 in
set_option maxHeartbeats 2000000 in
/-- Window 43 writes no argument array: main_arg0 is as before. -/
theorem keep43_main_arg0 (W : Valuation τ sig (Elt F)) : after main_part43_ops0 W (no_index (Proc.devRef .tc main_arg0)) = W (Proc.devRef .tc main_arg0) := by
  simp only [main_part43_ops0]
  after_results_simp
  all_goals rfl
set_option maxRecDepth 8192 in
set_option maxHeartbeats 2000000 in
/-- Window 43 writes no argument array: main_arg1 is as before. -/
theorem keep43_main_arg1 (W : Valuation τ sig (Elt F)) : after main_part43_ops0 W (no_index (Proc.devRef .tc main_arg1)) = W (Proc.devRef .tc main_arg1) := by
  simp only [main_part43_ops0]
  after_results_simp
  all_goals rfl
set_option maxRecDepth 8192 in
set_option maxHeartbeats 2000000 in
/-- Window 43 writes no argument array: main_arg2 is as before. -/
theorem keep43_main_arg2 (W : Valuation τ sig (Elt F)) : after main_part43_ops0 W (no_index (Proc.devRef .tc main_arg2)) = W (Proc.devRef .tc main_arg2) := by
  simp only [main_part43_ops0]
  after_results_simp
  all_goals rfl

end Cert.KernelIdeal.KHost

end
-- ==== Proof.KKeep.lean ====
/-
  The host prefix of the kernel read at the extended reals leaves the three argument arrays alone.

  Before its one region the program runs 2603 host operations, printed as 44 windows of @main.  The list of all of them is the
  44 windows' lists in a row (`hostOps0_eq`: the two spellings are the same list, element by element), so what the buffers
  hold when the region is entered is the windows' folds one after the other.  No operation of any window writes an argument
  array (each window's three facts are in the modules KKeepW0 … KKeepW10, one pass over the window's operations each), hence the
  region finds `X`, the angles and `μ` exactly as launched: `keep_arg0`, `keep_arg1`, `keep_arg2`.
-/
import proofs.«128918_j72490458022405_1_alg».proof.Proof.Gen.KernelIdeal.Launch
import proofs.«128918_j72490458022405_1_alg».proof.Proof.KKeepW0
import proofs.«128918_j72490458022405_1_alg».proof.Proof.KKeepW1
import proofs.«128918_j72490458022405_1_alg».proof.Proof.KKeepW2
import proofs.«128918_j72490458022405_1_alg».proof.Proof.KKeepW3
import proofs.«128918_j72490458022405_1_alg».proof.Proof.KKeepW4
import proofs.«128918_j72490458022405_1_alg».proof.Proof.KKeepW5
import proofs.«128918_j72490458022405_1_alg».proof.Proof.KKeepW6
import proofs.«128918_j72490458022405_1_alg».proof.Proof.KKeepW7
import proofs.«128918_j72490458022405_1_alg».proof.Proof.KKeepW8
import proofs.«128918_j72490458022405_1_alg».proof.Proof.KKeepW9
import proofs.«128918_j72490458022405_1_alg».proof.Proof.KKeepW10
import Idealize.ShloMosaic.Lib.Pipeline.Frame

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
/-- The 2603 operations before the region are the 44 windows' operations in a row. -/
theorem hostOps0_eq : (hostOps0 : List (HloOp τ sig (Elt F))) =
    main_part0_ops0 ++ (main_part1_ops0 ++ (main_part2_ops0 ++ (main_part3_ops0 ++ (main_part4_ops0 ++ (main_part5_ops0 ++ (main_part6_ops0 ++ (main_part7_ops0 ++ (main_part8_ops0 ++ (main_part9_ops0 ++ (main_part10_ops0 ++ (main_part11_ops0 ++ (main_part12_ops0 ++ (main_part13_ops0 ++ (main_part14_ops0 ++ (main_part15_ops0 ++ (main_part16_ops0 ++ (main_part17_ops0 ++ (main_part18_ops0 ++ (main_part19_ops0 ++ (main_part20_ops0 ++ (main_part21_ops0 ++ (main_part22_ops0 ++ (main_part23_ops0 ++ (main_part24_ops0 ++ (main_part25_ops0 ++ (main_part26_ops0 ++ (main_part27_ops0 ++ (main_part28_ops0 ++ (main_part29_ops0 ++ (main_part30_ops0 ++ (main_part31_ops0 ++ (main_part32_ops0 ++ (main_part33_ops0 ++ (main_part34_ops0 ++ (main_part35_ops0 ++ (main_part36_ops0 ++ (main_part37_ops0 ++ (main_part38_ops0 ++ (main_part39_ops0 ++ (main_part40_ops0 ++ (main_part41_ops0 ++ (main_part42_ops0 ++ (main_part43_ops0))))))))))))))))))))))))))))))))))))))))))) := rfl

/-- No window writes `main_arg0`: after the whole prefix it is as before. -/
theorem keep_arg0 (W : Valuation τ sig (Elt F)) : after hostOps0 W (Proc.devRef .tc main_arg0) = W (Proc.devRef .tc main_arg0) := by
  rw [hostOps0_eq]
  simp only [StableHlo.after_append]
  rw [keep43_main_arg0, keep42_main_arg0, keep41_main_arg0, keep40_main_arg0, keep39_main_arg0, keep38_main_arg0, keep37_main_arg0, keep36_main_arg0, keep35_main_arg0, keep34_main_arg0, keep33_main_arg0, keep32_main_arg0, keep31_main_arg0, keep30_main_arg0, keep29_main_arg0, keep28_main_arg0, keep27_main_arg0, keep26_main_arg0, keep25_main_arg0, keep24_main_arg0, keep23_main_arg0, keep22_main_arg0, keep21_main_arg0, keep20_main_arg0, keep19_main_arg0, keep18_main_arg0, keep17_main_arg0, keep16_main_arg0, keep15_main_arg0, keep14_main_arg0, keep13_main_arg0, keep12_main_arg0, keep11_main_arg0, keep10_main_arg0, keep9_main_arg0, keep8_main_arg0, keep7_main_arg0, keep6_main_arg0, keep5_main_arg0, keep4_main_arg0, keep3_main_arg0, keep2_main_arg0, keep1_main_arg0, keep0_main_arg0]

/-- No window writes `main_arg1`: after the whole prefix it is as before. -/
theorem keep_arg1 (W : Valuation τ sig (Elt F)) : after hostOps0 W (Proc.devRef .tc main_arg1) = W (Proc.devRef .tc main_arg1) := by
  rw [hostOps0_eq]
  simp only [StableHlo.after_append]
  rw [keep43_main_arg1, keep42_main_arg1, keep41_main_arg1, keep40_main_arg1, keep39_main_arg1, keep38_main_arg1, keep37_main_arg1, keep36_main_arg1, keep35_main_arg1, keep34_main_arg1, keep33_main_arg1, keep32_main_arg1, keep31_main_arg1, keep30_main_arg1, keep29_main_arg1, keep28_main_arg1, keep27_main_arg1, keep26_main_arg1, keep25_main_arg1, keep24_main_arg1, keep23_main_arg1, keep22_main_arg1, keep21_main_arg1, keep20_main_arg1, keep19_main_arg1, keep18_main_arg1, keep17_main_arg1, keep16_main_arg1, keep15_main_arg1, keep14_main_arg1, keep13_main_arg1, keep12_main_arg1, keep11_main_arg1, keep10_main_arg1, keep9_main_arg1, keep8_main_arg1, keep7_main_arg1, keep6_main_arg1, keep5_main_arg1, keep4_main_arg1, keep3_main_arg1, keep2_main_arg1, keep1_main_arg1, keep0_main_arg1]

/-- No window writes `main_arg2`: after the whole prefix it is as before. -/
theorem keep_arg2 (W : Valuation τ sig (Elt F)) : after hostOps0 W (Proc.devRef .tc main_arg2) = W (Proc.devRef .tc main_arg2) := by
  rw [hostOps0_eq]
  simp only [StableHlo.after_append]
  rw [keep43_main_arg2, keep42_main_arg2, keep41_main_arg2, keep40_main_arg2, keep39_main_arg2, keep38_main_arg2, keep37_main_arg2, keep36_main_arg2, keep35_main_arg2, keep34_main_arg2, keep33_main_arg2, keep32_main_arg2, keep31_main_arg2, keep30_main_arg2, keep29_main_arg2, keep28_main_arg2, keep27_main_arg2, keep26_main_arg2, keep25_main_arg2, keep24_main_arg2, keep23_main_arg2, keep22_main_arg2, keep21_main_arg2, keep20_main_arg2, keep19_main_arg2, keep18_main_arg2, keep17_main_arg2, keep16_main_arg2, keep15_main_arg2, keep14_main_arg2, keep13_main_arg2, keep12_main_arg2, keep11_main_arg2, keep10_main_arg2, keep9_main_arg2, keep8_main_arg2, keep7_main_arg2, keep6_main_arg2, keep5_main_arg2, keep4_main_arg2, keep3_main_arg2, keep2_main_arg2, keep1_main_arg2, keep0_main_arg2]

end Cert.KernelIdeal.KHost

end
-- ==== Proof.KPay.lean ====
/-
  The value one grid point stores, read at an index.

  A grid point holds a stack of 64 matrices `r` (16 × 16), 64 × 16 row factors `μ` and a stack of 64 panels `x`
  (16 × 2048).  Its stored value is the stack of products, matrix by matrix, of the row-scaled matrices with the panels:
  the factors are laid out as a column (a third axis of extent 1) and copied along the rows of `r`, multiplied into `r`
  entry by entry, both operands are rounded to the narrower float type, and the products are accumulated into a zero
  array.  On the extended reals the rounding is the identity and accumulating into zero is the plain sum, so entry
  (b, i, q) is

      ∑ k, (μ (b, i) · r (b, i, k)) · x (b, k, q),

  the sum over the 16 positions of the contracted axis (axis 2 of the left operand, axis 1 of the right; axis 0 is
  carried along as the stack's number on both sides).
-/
import proofs.«128918_j72490458022405_1_alg».proof.Proof.Gen.KernelIdeal.Skeleton
import Idealize.ShloMosaic.Lib.StackMember
import Idealize.ShloMosaic.Lib.KernelVsHost
import Idealize.ShloMosaic.Lib.Pipeline.Value
import Idealize.ShloMosaic.Lib.ValueIdx

noncomputable section

open scoped BigOperators

namespace Cert.KernelIdeal.KValue

open Cert.KernelIdeal Cert.KernelIdeal.Gen Idealize.ShloMosaic Idealize.ShloMosaic.ValueIdx
open Idealize.ShloMosaic.StackMember (dotGeneral_stack_apply)

/-- The row factors laid out as a column and copied along a row: entry (b, i, k) of the copy is the factor (b, i),
    whatever `k`.  The copy reads the column at (b, i, 0), and position (b, i, 0) of the 64 × 16 × 1 array is position
    (b, i) of the 64 × 16 array in row-major order: (b · 16 + i) · 1 + 0 = b · 16 + i. -/
theorem column_copy_apply (x1 : FVec Ideal S64x16 .f32) (hc : S64x16.ShapeCasts S64x16x1) (hb : S64x16x1.Broadcasts S64x16x16)
    (b : Fin 64) (i : Fin 16) (k : Fin 16) :
    broadcastTo S64x16x16 (shapeCast S64x16x1 x1 hc) hb (ix3 b i k) = x1 (ix2 b i) := by
  refine (broadcastTo_apply _ hb (ix3 b i k) (ix3 b i (0 : Fin 1)) ?_).trans ?_
  · intro a
    match a with
    | ⟨0, _⟩ => rfl
    | ⟨1, _⟩ => rfl
    | ⟨2, _⟩ => rfl
  · refine shapeCast_apply x1 hc (ix3 b i (0 : Fin 1)) (ix2 b i) ?_
    rw [Shape.rowMajor_val_two, Shape.rowMajor_val_three]
    show b.val * 16 + i.val = (b.val * 16 + i.val) * 1 + 0
    omega

/-- The stored value at (b, i, q): the product into the zero array is the host's product with no accumulator, which for
    these axes (stack number carried, axis 2 against axis 1) is the sum over the contracted coordinate of the products
    of the operands' entries; each left entry is the rounded product of the copied factor and the matrix entry, each
    right entry the rounded panel entry, and rounding is the identity on the extended reals. -/
theorem pay_apply (x0 : Vec Ideal S64x16x16 .f32) (x1 : Vec Ideal S64x16 .f32) (x2 : Vec Ideal S64x16x2048 .f32)
    (b : Fin 64) (i : Fin 16) (q : Fin 2048) :
    k0_pay1 (F := Ideal) x0 x1 x2 (ix3 b i q) = ∑ k : Fin 16, (x1 (ix2 b i) * x0 (ix3 b i k)) * x2 (ix3 b k q) := by
  unfold k0_pay1
  rw [matmul_zero_eq_dotGeneral]
  refine (dotGeneral_stack_apply _ none _ _ b i q).trans ?_
  refine Finset.sum_congr rfl fun k _ => ?_
  rw [truncf_apply, truncf_apply, mulf_apply, column_copy_apply, shapeCast_self]

end Cert.KernelIdeal.KValue

end
-- ==== Proof.KBlocks.lean ====
/-
  From the kernel's blocks to its whole output array.

  The grid has 16 points; point `t` reads rows `64 t … 64 t + 63` of the matrices `R`, of the row factors `μ` and of
  the panels `X`, and writes the same rows of the output.  Entry `(b', i, q)` of what it writes is

      ∑ k, (μ-block (b', i) · R-block (b', i, k)) · X-block (b', k, q),

  and a block's entry at row `b'` is the array's entry at row `64 t + b'` (a block's coordinate is the block index times
  the block's extent plus the coordinate inside the block; on the two trailing axes the block index is 0 and the block
  is the whole axis).  So point `t` writes rows `64 t … 64 t + 63` of the one function `scaledRotate R μ X` of the
  whole arrays; row `r` of the output lies in the block of point `r / 64`, the 16 blocks cover the 1024 rows, and the
  output array after the run is `scaledRotate R μ X`.
-/
import proofs.«128918_j72490458022405_1_alg».proof.Proof.KValueP
import proofs.«128918_j72490458022405_1_alg».proof.Proof.KPay
import proofs.«128918_j72490458022405_1_alg».proof.Proof.Spec
import Idealize.ShloMosaic.Lib.Pipeline.Value
import Idealize.ShloMosaic.Lib.ValueIdx

noncomputable section

open scoped BigOperators

namespace Cert.KernelIdeal.KValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One entry of a block's result -/

/-- One entry of a block's result is the matching entry of the whole result: the block's three inputs are rows
    `64 s … 64 s + 63` of the three arrays, so the 16 products under the sum are the same products. -/
theorem block_entry (P : FVec Ideal ⟨3, ![64, 16, 2048]⟩ .f32)
    (x0 : FVec Ideal ⟨3, ![64, 16, 16]⟩ .f32) (x1 : FVec Ideal ⟨2, ![64, 16]⟩ .f32) (x2 : FVec Ideal ⟨3, ![64, 16, 2048]⟩ .f32)
    (hP : ∀ (b : Fin 64) (i : Fin 16) (q : Fin 2048),
      P (ix3 b i q) = ∑ k : Fin 16, (x1 (ix2 b i) * x0 (ix3 b i k)) * x2 (ix3 b k q))
    (R : FVec Ideal ⟨3, ![1024, 16, 16]⟩ .f32) (mu : FVec Ideal ⟨2, ![1024, 16]⟩ .f32) (X : FVec Ideal ⟨3, ![1024, 16, 2048]⟩ .f32)
    (s : Nat)
    (hR : ∀ (y : (⟨3, ![64, 16, 16]⟩ : Shape).Idx) (i : (⟨3, ![1024, 16, 16]⟩ : Shape).Idx),
      (i 0).val = 64 * s + (y 0).val → (i 1).val = (y 1).val → (i 2).val = (y 2).val → x0 y = R i)
    (hmu : ∀ (y : (⟨2, ![64, 16]⟩ : Shape).Idx) (i : (⟨2, ![1024, 16]⟩ : Shape).Idx),
      (i 0).val = 64 * s + (y 0).val → (i 1).val = (y 1).val → x1 y = mu i)
    (hX : ∀ (y : (⟨3, ![64, 16, 2048]⟩ : Shape).Idx) (i : (⟨3, ![1024, 16, 2048]⟩ : Shape).Idx),
      (i 0).val = 64 * s + (y 0).val → (i 1).val = (y 1).val → (i 2).val = (y 2).val → x2 y = X i)
    (y : (⟨3, ![64, 16, 2048]⟩ : Shape).Idx) (j : (⟨3, ![1024, 16, 2048]⟩ : Shape).Idx)
    (hj0 : (j 0).val = 64 * s + (y 0).val) (hj1 : (j 1).val = (y 1).val) (hj2 : (j 2).val = (y 2).val) :
    P y = Cert.Spec.scaledRotate R mu X j := by
  obtain ⟨b, i, q, rfl⟩ : ∃ (b : Fin 64) (i : Fin 16) (q : Fin 2048), y = ix3 b i q := ⟨y 0, y 1, y 2, eq_ix3 y⟩
  have hb : 64 * s + b.val < 1024 := by
    have h' : (j 0).val < 1024 := (j 0).isLt
    have e : (j 0).val = 64 * s + b.val := hj0
    omega
  obtain rfl : j = ix3 (⟨64 * s + b.val, hb⟩ : Fin 1024) i q := by
    funext a; apply Fin.ext
    match a with
    | ⟨0, _⟩ => exact hj0
    | ⟨1, _⟩ => exact hj1
    | ⟨2, _⟩ => exact hj2
  rw [hP, Cert.Spec.scaledRotate_apply]
  refine Finset.sum_congr rfl fun k _ => ?_
  rw [hR (ix3 b i k) (ix3 (⟨64 * s + b.val, hb⟩ : Fin 1024) i k) rfl rfl rfl,
    hmu (ix2 b i) (ix2 (⟨64 * s + b.val, hb⟩ : Fin 1024) i) rfl rfl,
    hX (ix3 b k q) (ix3 (⟨64 * s + b.val, hb⟩ : Fin 1024) k q) rfl rfl rfl]

/-! ## Where each window's block sits -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The four index maps over the 16 grid points: on the leading axis the block index is the point, on every other axis
    it is 0. -/
theorem index_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Any array of 1024 matrices read through point `t`'s block of the first window: entry `(b', i, k)` of the block is
    entry `(64 t + b', i, k)` of the array. -/
theorem blk0_read (A : FVec Ideal S1024x16x16 .f32) (t : Fin cfg0.N) (y : S64x16x16.Idx) (i : S1024x16x16.Idx)
    (h0 : (i 0).val = 64 * t.val + (y 0).val) (h1 : (i 1).val = (y 1).val) (h2 : (i 2).val = (y 2).val) :
    ((cfg0.win 0).blk t).view.read (Elt Ideal) A y = A i := by
  obtain ⟨e0, e1, e2, -⟩ := index_facts t
  rw [View.read_apply]
  show A (((cfg0.win 0).blk t).view.emb y) = A i
  refine congrArg A (funext fun a => Fin.ext ?_)
  match a with
  | ⟨0, _⟩ => show win0_0.index t (0 : Fin 3) * 64 + 1 * (y 0).val = (i 0).val; omega
  | ⟨1, _⟩ => show win0_0.index t (1 : Fin 3) * 16 + 1 * (y 1).val = (i 1).val; omega
  | ⟨2, _⟩ => show win0_0.index t (2 : Fin 3) * 16 + 1 * (y 2).val = (i 2).val; omega

/-- Any array of 1024 rows of factors read through point `t`'s block of the second window: entry `(b', i)` of the
    block is entry `(64 t + b', i)` of the array. -/
theorem blk1_read (A : FVec Ideal S1024x16 .f32) (t : Fin cfg0.N) (y : S64x16.Idx) (i : S1024x16.Idx)
    (h0 : (i 0).val = 64 * t.val + (y 0).val) (h1 : (i 1).val = (y 1).val) :
    ((cfg0.win 1).blk t).view.read (Elt Ideal) A y = A i := by
  obtain ⟨-, -, -, e0, e1, -⟩ := index_facts t
  rw [View.read_apply]
  show A (((cfg0.win 1).blk t).view.emb y) = A i
  refine congrArg A (funext fun a => Fin.ext ?_)
  match a with
  | ⟨0, _⟩ => show win0_1.index t (0 : Fin 2) * 64 + 1 * (y 0).val = (i 0).val; omega
  | ⟨1, _⟩ => show win0_1.index t (1 : Fin 2) * 16 + 1 * (y 1).val = (i 1).val; omega

/-- Any array of 1024 panels read through point `t`'s block of the third window: entry `(b', k, q)` of the block is
    entry `(64 t + b', k, q)` of the array. -/
theorem blk2_read (A : FVec Ideal S1024x16x2048 .f32) (t : Fin cfg0.N) (y : S64x16x2048.Idx) (i : S1024x16x2048.Idx)
    (h0 : (i 0).val = 64 * t.val + (y 0).val) (h1 : (i 1).val = (y 1).val) (h2 : (i 2).val = (y 2).val) :
    ((cfg0.win 2).blk t).view.read (Elt Ideal) A y = A i := by
  obtain ⟨-, -, -, -, -, e0, e1, e2, -⟩ := index_facts t
  rw [View.read_apply]
  show A (((cfg0.win 2).blk t).view.emb y) = A i
  refine congrArg A (funext fun a => Fin.ext ?_)
  match a with
  | ⟨0, _⟩ => show win0_2.index t (0 : Fin 3) * 64 + 1 * (y 0).val = (i 0).val; omega
  | ⟨1, _⟩ => show win0_2.index t (1 : Fin 3) * 16 + 1 * (y 1).val = (i 1).val; omega
  | ⟨2, _⟩ => show win0_2.index t (2 : Fin 3) * 2048 + 1 * (y 2).val = (i 2).val; omega

/-! ## What a point writes back -/

/-- For ANY three arrays: the body's result on point `t`'s three blocks is rows `64 t … 64 t + 63` of `scaledRotate`
    of the arrays — the output's block at `t` read off that one function. -/
theorem block_of_spec (R : FVec Ideal S1024x16x16 .f32) (mu : FVec Ideal S1024x16 .f32) (X : FVec Ideal S1024x16x2048 .f32)
    (t : Fin cfg0.N) :
    (cfg0.win 3).cut (grid0.coords t)
        (k0_pay1 (F := Ideal) (((cfg0.win 0).blk t).view.read (Elt Ideal) R) (((cfg0.win 1).blk t).view.read (Elt Ideal) mu)
          (((cfg0.win 2).blk t).view.read (Elt Ideal) X))
      = ((cfg0.win 3).blk t).view.read (Elt Ideal) (Cert.Spec.scaledRotate R mu X) := by
  obtain ⟨-, -, -, -, -, -, -, -, e0, e1, e2⟩ := index_facts t
  funext y
  show k0_pay1 (F := Ideal) (((cfg0.win 0).blk t).view.read (Elt Ideal) R) (((cfg0.win 1).blk t).view.read (Elt Ideal) mu)
      (((cfg0.win 2).blk t).view.read (Elt Ideal) X) _
    = Cert.Spec.scaledRotate R mu X (((cfg0.win 3).blk t).view.emb y)
  refine block_entry _ _ _ _ (pay_apply _ _ _) R mu X t.val (blk0_read R t) (blk1_read mu t) (blk2_read X t) _ _ ?_ ?_ ?_
  · show win0_3.index t (0 : Fin 3) * 64 + 1 * (y 0).val = 64 * t.val + (y 0).val; omega
  · show win0_3.index t (1 : Fin 3) * 16 + 1 * (y 1).val = (y 1).val; omega
  · show win0_3.index t (2 : Fin 3) * 2048 + 1 * (y 2).val = (y 2).val; omega

/-- Point `t` writes back rows `64 t … 64 t + 63` of `scaledRotate` of the three arrays as the region finds them. -/
theorem flushed_eq (c : Dev nD) (t : Fin cfg0.N) :
    (dats m 0 c).flushed 3 t = ((cfg0.win 3).blk t).view.read (Elt Ideal)
      (Cert.Spec.scaledRotate (V m c main_v2466) (V m c main_arg2) (V m c main_arg0)) := by
  rw [ValueP.flushed3]
  unfold GenP.out0_3
  rw [View.canon_unit_zero zeros3]
  simp only [View.ld_unit_zero (S := S64x16x16) zeros3, View.ld_unit_zero (S := S64x16) zeros2,
    View.ld_unit_zero (S := S64x16x2048) zeros3]
  unfold GenP.iblk
  exact block_of_spec (V m c main_v2466) (V m c main_arg2) (V m c main_arg0) t

/-! ## The blocks cover the array -/

/-- An index of the output array is in point `t`'s block iff each coordinate is in the block's range on its axis. -/
theorem mem_blk (t : Fin cfg0.N) (i : S1024x16x2048.Idx) :
    i ∈ ((cfg0.win 3).blk t).view.set ↔ ∀ a : Fin 3, win0_3.index t a * S64x16x2048.size a ≤ (i a).val
      ∧ (i a).val < win0_3.index t a * S64x16x2048.size a + S64x16x2048.size a := by
  show i ∈ ((View.whole main_v2467).slice (win0_3.rect t)).set ↔ _
  rw [View.set_slice_whole, Rect.mem_set_unit]
  exact Iff.rfl

/-- Row `r` of the output lies in the block of point `r / 64`. -/
theorem cover (i : S1024x16x2048.Idx) :
    ∃ t : Fin cfg0.N, (cfg0.win 3).flush t = true ∧ i ∈ ((cfg0.win 3).blk t).view.set := by
  have hi0 : (i 0).val < 1024 := (i 0).isLt
  have hi1 : (i 1).val < 16 := (i 1).isLt
  have hi2 : (i 2).val < 2048 := (i 2).isLt
  have hN : cfg0.N = 16 := N_0
  have hlt : (i 0).val / 64 < cfg0.N := by rw [hN]; omega
  obtain ⟨t, ht⟩ : ∃ t : Fin cfg0.N, t.val = (i 0).val / 64 := ⟨⟨(i 0).val / 64, hlt⟩, rfl⟩
  obtain ⟨-, -, -, -, -, -, -, -, e0, e1, e2⟩ := index_facts t
  refine ⟨t, flush0_3 t, ?_⟩
  rw [mem_blk]
  intro a
  match a with
  | ⟨0, _⟩ =>
    show win0_3.index t (0 : Fin 3) * 64 ≤ (i 0).val ∧ (i 0).val < win0_3.index t (0 : Fin 3) * 64 + 64
    omega
  | ⟨1, _⟩ =>
    show win0_3.index t (1 : Fin 3) * 16 ≤ (i 1).val ∧ (i 1).val < win0_3.index t (1 : Fin 3) * 16 + 16
    omega
  | ⟨2, _⟩ =>
    show win0_3.index t (2 : Fin 3) * 2048 ≤ (i 2).val ∧ (i 2).val < win0_3.index t (2 : Fin 3) * 2048 + 2048
    omega

/-! ## The array after the run, and the run -/

/-- The output array after the run is `scaledRotate` of the three arrays as the region finds them. -/
theorem final (c : Dev nD) : (dats m 0 c).arrAt 3 cfg0.N
    = Cert.Spec.scaledRotate (V m c main_v2466) (V m c main_arg2) (V m c main_arg0) :=
  (dats m 0 c).arrAt_eq_of_cover 3 _ (fun t _ => flushed_eq m c t) cover

/-- The same with the two argument arrays as launched: no host operation before the region writes them. -/
theorem final_args (c : Dev nD) : (dats m 0 c).arrAt 3 cfg0.N
    = Cert.Spec.scaledRotate (V m c main_v2466) (m ((c : Thread nD τ).loc main_arg2)) (m ((c : Thread nD τ).loc main_arg0)) :=
  (final m c).trans (congrArg₂ (Cert.Spec.scaledRotate (V m c main_v2466)) (V_main_arg2 m c) (V_main_arg0 m c))

/-- The kernel's run with its result named: the output array is `scaledRotate` of the matrices the host operations
    built and of the two argument arrays; the three arguments are as launched. -/
theorem run :
    θ_run (defs (F := Ideal)) (onTc (τ := τ) (main (F := Ideal))) ⟨m, fun _ => 0, ρ⟩ fun r => ∀ c : Dev nD,
      r.2.mem ((c : Thread nD τ).loc main_v2467) = Cert.Spec.scaledRotate (GenP.V m c main_v2466) (m ((c : Thread nD τ).loc main_arg2)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_args m c), (h c).2⟩) (ValueP.run_blocks m ρ)

end Cert.KernelIdeal.KValue

end
-- ==== Proof.RRead.lean ====
/-
  The reference's last four operations are the specification.

  After the 16 × 16 matrices `R` are built, the reference lays the 1024 × 16 row factors out as a column (a third axis of
  extent 1), copies the column along the rows of `R`, multiplies it into `R` entry by entry, and takes the product of
  the resulting stack with the stack of panels `X`, matrix by matrix (axis 0 carried along as the stack's number, axis 2
  of the left operand contracted against axis 1 of the right).  Entry (b, i, q) of that product is the sum over the 16
  positions `k` of the contracted axis of (μ (b, i) · R (b, i, k)) · X (b, k, q), which is the specification's entry.
-/
import proofs.«128918_j72490458022405_1_alg».proof.Proof.Gen.ReferenceIdeal
import proofs.«128918_j72490458022405_1_alg».proof.Proof.Spec
import Idealize.ShloMosaic.Lib.StackMember
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx
open Idealize.ShloMosaic.StackMember (dotGeneral_stack_apply)

/-- The row factors laid out as a column and then copied along a row: entry (b, i, k) of the copy is the factor (b, i),
    whatever `k`.  The copy keeps all three axes and reads the column at (b, i, 0), its third axis having extent 1; the
    column keeps axes 0 and 1 and reads the factors at (b, i). -/
theorem column_copy_apply (mus : FVec Ideal S1024x16 .f32)
    (h1 : S1024x16.BroadcastsInDim S1024x16x1 (![0, 1] : Fin 2 → Fin S1024x16x1.rank))
    (h2 : S1024x16x1.BroadcastsInDim S1024x16x16 (![0, 1, 2] : Fin 3 → Fin S1024x16x16.rank))
    (b : Fin 1024) (i : Fin 16) (k : Fin 16) :
    broadcastInDim S1024x16x16 ![0, 1, 2] h2 (broadcastInDim S1024x16x1 ![0, 1] h1 mus) (ix3 b i k) = mus (ix2 b i) := by
  refine (broadcastInDim_apply _ h2 _ (ix3 b i k) (ix3 b i (0 : Fin 1)) ?_).trans ?_
  · intro a
    match a with
    | ⟨0, _⟩ => rfl
    | ⟨1, _⟩ => rfl
    | ⟨2, _⟩ => rfl
  · refine broadcastInDim_apply _ h1 mus (ix3 b i (0 : Fin 1)) (ix2 b i) ?_
    intro a
    match a with
    | ⟨0, _⟩ => rfl
    | ⟨1, _⟩ => rfl

/-- The product of the row-scaled matrices with the panels is the specification: index by index, the product read at
    (b, i, q) is the sum over the contracted coordinate of the products of the operands' entries, and the left entry
    (b, i, k) is the copied factor μ (b, i) times R (b, i, k). -/
theorem dot_eq (R : FVec Ideal S1024x16x16 .f32) (mus : FVec Ideal S1024x16 .f32) (X : FVec Ideal S1024x16x2048 .f32) :
    Host.dotGeneral (F := Ideal) dot_S1024x16x16_S1024x16x2048_S1024x16x2048_2_1_1_2_0_0 none
        (mulf (broadcastInDim S1024x16x16 ![0, 1, 2] bcast_S1024x16x1_S1024x16x16_0_1_2
          (broadcastInDim S1024x16x1 ![0, 1] bcast_S1024x16_S1024x16x1_0_1 mus)) R) X
      = Cert.Spec.scaledRotate R mus X := by
  funext j
  obtain ⟨b, i, q, rfl⟩ : ∃ (b : Fin 1024) (i : Fin 16) (q : Fin 2048), j = ix3 b i q := ⟨j 0, j 1, j 2, eq_ix3 j⟩
  rw [Cert.Spec.scaledRotate_apply]
  refine (dotGeneral_stack_apply _ none _ X b i q).trans ?_
  refine Finset.sum_congr rfl fun k _ => ?_
  rw [mulf_apply, column_copy_apply]

end Cert.ReferenceIdeal.RefValue

end
-- ==== Proof.RKeepW0.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 0 writes no argument array: main_arg0 is as before. -/
theorem keep0_main_arg0 (W : Valuation τ sig (Elt F)) : after ops_part0 W (no_index (Proc.devRef .tc main_arg0)) = W (Proc.devRef .tc main_arg0) := by
  simp only [ops_part0]
  after_results_simp
  all_goals rfl
set_option maxRecDepth 8192 in
set_option maxHeartbeats 2000000 in
/-- Window 0 writes no argument array: main_arg1 is as before. -/
theorem keep0_main_arg1 (W : Valuation τ sig (Elt F)) : after ops_part0 W (no_index (Proc.devRef .tc main_arg1)) = W (Proc.devRef .tc main_arg1) := by
  simp only [ops_part0]
  after_results_simp
  all_goals rfl
set_option maxRecDepth 8192 in
set_option maxHeartbeats 2000000 in
/-- Window 0 writes no argument array: main_arg2 is as before. -/
theorem keep0_main_arg2 (W : Valuation τ sig (Elt F)) : after ops_part0 W (no_index (Proc.devRef .tc main_arg2)) = W (Proc.devRef .tc main_arg2) := by
  simp only [ops_part0]
  after_results_simp
  all_goals rfl
set_option maxRecDepth 8192 in
set_option maxHeartbeats 2000000 in
/-- Window 1 writes no argument array: main_arg0 is as before. -/
theorem keep1_main_arg0 (W : Valuation τ sig (Elt F)) : after ops_part1 W (no_index (Proc.devRef .tc main_arg0)) = W (Proc.devRef .tc main_arg0) := by
  simp only [ops_part1]
  after_results_simp
  all_goals rfl
set_option maxRecDepth 8192 in
set_option maxHeartbeats 2000000 in
/-- Window 1 writes no argument array: main_arg1 is as before. -/
theorem keep1_main_arg1 (W : Valuation τ sig (Elt F)) : after ops_part1 W (no_index (Proc.devRef .tc main_arg1)) = W (Proc.devRef .tc main_arg1) := by
  simp only [ops_part1]
  after_results_simp
  all_goals rfl
set_option maxRecDepth 8192 in
set_option maxHeartbeats 2000000 in
/-- Window 1 writes no argument array: main_arg2 is as before. -/
theorem keep1_main_arg2 (W : Valuation τ sig (Elt F)) : after ops_part1 W (no_index (Proc.devRef .tc main_arg2)) = W (Proc.devRef .tc main_arg2) := by
  simp only [ops_part1]
  after_results_simp
  all_goals rfl
set_option maxRecDepth 8192 in
set_option maxHeartbeats 2000000 in
/-- Window 2 writes no argument array: main_arg0 is as before. -/
theorem keep2_main_arg0 (W : Valuation τ sig (Elt F)) : after ops_part2 W (no_index (Proc.devRef .tc main_arg0)) = W (Proc.devRef .tc main_arg0) := by
  simp only [ops_part2]
  after_results_simp
  all_goals rfl
set_option maxRecDepth 8192 in
set_option maxHeartbeats 2000000 in
/-- Window 2 writes no argument array: main_arg1 is as before. -/
theorem keep2_main_arg1 (W : Valuation τ sig (Elt F)) : after ops_part2 W (no_index (Proc.devRef .tc main_arg1)) = W (Proc.devRef .tc main_arg1) := by
  simp only [ops_part2]
  after_results_simp
  all_goals rfl
set_option maxRecDepth 8192 in
set_option maxHeartbeats 2000000 in
/-- Window 2 writes no argument array: main_arg2 is as before. -/
theorem keep2_main_arg2 (W : Valuation τ sig (Elt F)) : after ops_part2 W (no_index (Proc.devRef .tc main_arg2)) = W (Proc.devRef .tc main_arg2) := by
  simp only [ops_part2]
  after_results_simp
  all_goals rfl
set_option maxRecDepth 8192 in
set_option maxHeartbeats 2000000 in
/-- Window 3 writes no argument array: main_arg0 is as before. -/
theorem keep3_main_arg0 (W : Valuation τ sig (Elt F)) : after ops_part3 W (no_index (Proc.devRef .tc main_arg0)) = W (Proc.devRef .tc main_arg0) := by
  simp only [ops_part3]
  after_results_simp
  all_goals rfl
set_option maxRecDepth 8192 in
set_option maxHeartbeats 2000000 in
/-- Window 3 writes no argument array: main_arg1 is as before. -/
theorem keep3_main_arg1 (W : Valuation τ sig (Elt F)) : after ops_part3 W (no_index (Proc.devRef .tc main_arg1)) = W (Proc.devRef .tc main_arg1) := by
  simp only [ops_part3]
  after_results_simp
  all_goals rfl
set_option maxRecDepth 8192 in
set_option maxHeartbeats 2000000 in
/-- Window 3 writes no argument array: main_arg2 is as before. -/
theorem keep3_main_arg2 (W : Valuation τ sig (Elt F)) : after ops_part3 W (no_index (Proc.devRef .tc main_arg2)) = W (Proc.devRef .tc main_arg2) := by
  simp only [ops_part3]
  after_results_simp
  all_goals rfl

end Cert.ReferenceIdeal.RefRun

end
-- ==== Proof.RKeepW1.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 4 writes no argument array: main_arg0 is as before. -/
theorem keep4_main_arg0 (W : Valuation τ sig (Elt F)) : after ops_part4 W (no_index (Proc.devRef .tc main_arg0)) = W (Proc.devRef .tc main_arg0) := by
  simp only [ops_part4]
  after_results_simp
  all_goals rfl
set_option maxRecDepth 8192 in
set_option maxHeartbeats 2000000 in
/-- Window 4 writes no argument array: main_arg1 is as before. -/
theorem keep4_main_arg1 (W : Valuation τ sig (Elt F)) : after ops_part4 W (no_index (Proc.devRef .tc main_arg1)) = W (Proc.devRef .tc main_arg1) := by
  simp only [ops_part4]
  after_results_simp
  all_goals rfl
set_option maxRecDepth 8192 in
set_option maxHeartbeats 2000000 in
/-- Window 4 writes no argument array: main_arg2 is as before. -/
theorem keep4_main_arg2 (W : Valuation τ sig (Elt F)) : after ops_part4 W (no_index (Proc.devRef .tc main_arg2)) = W (Proc.devRef .tc main_arg2) := by
  simp only [ops_part4]
  after_results_simp
  all_goals rfl
set_option maxRecDepth 8192 in
set_option maxHeartbeats 2000000 in
/-- Window 5 writes no argument array: main_arg0 is as before. -/
theorem keep5_main_arg0 (W : Valuation τ sig (Elt F)) : after ops_part5 W (no_index (Proc.devRef .tc main_arg0)) = W (Proc.devRef .tc main_arg0) := by
  simp only [ops_part5]
  after_results_simp
  all_goals rfl
set_option maxRecDepth 8192 in
set_option maxHeartbeats 2000000 in
/-- Window 5 writes no argument array: main_arg1 is as before. -/
theorem keep5_main_arg1 (W : Valuation τ sig (Elt F)) : after ops_part5 W (no_index (Proc.devRef .tc main_arg1)) = W (Proc.devRef .tc main_arg1) := by
  simp only [ops_part5]
  after_results_simp
  all_goals rfl
set_option maxRecDepth 8192 in
set_option maxHeartbeats 2000000 in
/-- Window 5 writes no argument array: main_arg2 is as before. -/
theorem keep5_main_arg2 (W : Valuation τ sig (Elt F)) : after ops_part5 W (no_index (Proc.devRef .tc main_arg2)) = W (Proc.devRef .tc main_arg2) := by
  simp only [ops_part5]
  after_results_simp
  all_goals rfl
set_option maxRecDepth 8192 in
set_option maxHeartbeats 2000000 in
/-- Window 6 writes no argument array: main_arg0 is as before. -/
theorem keep6_main_arg0 (W : Valuation τ sig (Elt F)) : after ops_part6 W (no_index (Proc.devRef .tc main_arg0)) = W (Proc.devRef .tc main_arg0) := by
  simp only [ops_part6]
  after_results_simp
  all_goals rfl
set_option maxRecDepth 8192 in
set_option maxHeartbeats 2000000 in
/-- Window 6 writes no argument array: main_arg1 is as before. -/
theorem keep6_main_arg1 (W : Valuation τ sig (Elt F)) : after ops_part6 W (no_index (Proc.devRef .tc main_arg1)) = W (Proc.devRef .tc main_arg1) := by
  simp only [ops_part6]
  after_results_simp
  all_goals rfl
set_option maxRecDepth 8192 in
set_option maxHeartbeats 2000000 in
/-- Window 6 writes no argument array: main_arg2 is as before. -/
theorem keep6_main_arg2 (W : Valuation τ sig (Elt F)) : after ops_part6 W (no_index (Proc.devRef .tc main_arg2)) = W (Proc.devRef .tc main_arg2) := by
  simp only [ops_part6]
  after_results_simp
  all_goals rfl
set_option maxRecDepth 8192 in
set_option maxHeartbeats 2000000 in
/-- Window 7 writes no argument array: main_arg0 is as before. -/
theorem keep7_main_arg0 (W : Valuation τ sig (Elt F)) : after ops_part7 W (no_index (Proc.devRef .tc main_arg0)) = W (Proc.devRef .tc main_arg0) := by
  simp only [ops_part7]
  after_results_simp
  all_goals rfl
set_option maxRecDepth 8192 in
set_option maxHeartbeats 2000000 in
/-- Window 7 writes no argument array: main_arg1 is as before. -/
theorem keep7_main_arg1 (W : Valuation τ sig (Elt F)) : after ops_part7 W (no_index (Proc.devRef .tc main_arg1)) = W (Proc.devRef .tc main_arg1) := by
  simp only [ops_part7]
  after_results_simp
  all_goals rfl
set_option maxRecDepth 8192 in
set_option maxHeartbeats 2000000 in
/-- Window 7 writes no argument array: main_arg2 is as before. -/
theorem keep7_main_arg2 (W : Valuation τ sig (Elt F)) : after ops_part7 W (no_index (Proc.devRef .tc main_arg2)) = W (Proc.devRef .tc main_arg2) := by
  simp only [ops_part7]
  after_results_simp
  all_goals rfl

end Cert.ReferenceIdeal.RefRun

end
-- ==== Proof.RKeepW2.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 8 writes no argument array: main_arg0 is as before. -/
theorem keep8_main_arg0 (W : Valuation τ sig (Elt F)) : after ops_part8 W (no_index (Proc.devRef .tc main_arg0)) = W (Proc.devRef .tc main_arg0) := by
  simp only [ops_part8]
  after_results_simp
  all_goals rfl
set_option maxRecDepth 8192 in
set_option maxHeartbeats 2000000 in
/-- Window 8 writes no argument array: main_arg1 is as before. -/
theorem keep8_main_arg1 (W : Valuation τ sig (Elt F)) : after ops_part8 W (no_index (Proc.devRef .tc main_arg1)) = W (Proc.devRef .tc main_arg1) := by
  simp only [ops_part8]
  after_results_simp
  all_goals rfl
set_option maxRecDepth 8192 in
set_option maxHeartbeats 2000000 in
/-- Window 8 writes no argument array: main_arg2 is as before. -/
theorem keep8_main_arg2 (W : Valuation τ sig (Elt F)) : after ops_part8 W (no_index (Proc.devRef .tc main_arg2)) = W (Proc.devRef .tc main_arg2) := by
  simp only [ops_part8]
  after_results_simp
  all_goals rfl
set_option maxRecDepth 8192 in
set_option maxHeartbeats 2000000 in
/-- Window 9 writes no argument array: main_arg0 is as before. -/
theorem keep9_main_arg0 (W : Valuation τ sig (Elt F)) : after ops_part9 W (no_index (Proc.devRef .tc main_arg0)) = W (Proc.devRef .tc main_arg0) := by
  simp only [ops_part9]
  after_results_simp
  all_goals rfl
set_option maxRecDepth 8192 in
set_option maxHeartbeats 2000000 in
/-- Window 9 writes no argument array: main_arg1 is as before. -/
theorem keep9_main_arg1 (W : Valuation τ sig (Elt F)) : after ops_part9 W (no_index (Proc.devRef .tc main_arg1)) = W (Proc.devRef .tc main_arg1) := by
  simp only [ops_part9]
  after_results_simp
  all_goals rfl
set_option maxRecDepth 8192 in
set_option maxHeartbeats 2000000 in
/-- Window 9 writes no argument array: main_arg2 is as before. -/
theorem keep9_main_arg2 (W : Valuation τ sig (Elt F)) : after ops_part9 W (no_index (Proc.devRef .tc main_arg2)) = W (Proc.devRef .tc main_arg2) := by
  simp only [ops_part9]
  after_results_simp
  all_goals rfl
set_option maxRecDepth 8192 in
set_option maxHeartbeats 2000000 in
/-- Window 10 writes no argument array: main_arg0 is as before. -/
theorem keep10_main_arg0 (W : Valuation τ sig (Elt F)) : after ops_part10 W (no_index (Proc.devRef .tc main_arg0)) = W (Proc.devRef .tc main_arg0) := by
  simp only [ops_part10]
  after_results_simp
  all_goals rfl
set_option maxRecDepth 8192 in
set_option maxHeartbeats 2000000 in
/-- Window 10 writes no argument array: main_arg1 is as before. -/
theorem keep10_main_arg1 (W : Valuation τ sig (Elt F)) : after ops_part10 W (no_index (Proc.devRef .tc main_arg1)) = W (Proc.devRef .tc main_arg1) := by
  simp only [ops_part10]
  after_results_simp
  all_goals rfl
set_option maxRecDepth 8192 in
set_option maxHeartbeats 2000000 in
/-- Window 10 writes no argument array: main_arg2 is as before. -/
theorem keep10_main_arg2 (W : Valuation τ sig (Elt F)) : after ops_part10 W (no_index (Proc.devRef .tc main_arg2)) = W (Proc.devRef .tc main_arg2) := by
  simp only [ops_part10]
  after_results_simp
  all_goals rfl
set_option maxRecDepth 8192 in
set_option maxHeartbeats 2000000 in
/-- Window 11 writes no argument array: main_arg0 is as before. -/
theorem keep11_main_arg0 (W : Valuation τ sig (Elt F)) : after ops_part11 W (no_index (Proc.devRef .tc main_arg0)) = W (Proc.devRef .tc main_arg0) := by
  simp only [ops_part11]
  after_results_simp
  all_goals rfl
set_option maxRecDepth 8192 in
set_option maxHeartbeats 2000000 in
/-- Window 11 writes no argument array: main_arg1 is as before. -/
theorem keep11_main_arg1 (W : Valuation τ sig (Elt F)) : after ops_part11 W (no_index (Proc.devRef .tc main_arg1)) = W (Proc.devRef .tc main_arg1) := by
  simp only [ops_part11]
  after_results_simp
  all_goals rfl
set_option maxRecDepth 8192 in
set_option maxHeartbeats 2000000 in
/-- Window 11 writes no argument array: main_arg2 is as before. -/
theorem keep11_main_arg2 (W : Valuation τ sig (Elt F)) : after ops_part11 W (no_index (Proc.devRef .tc main_arg2)) = W (Proc.devRef .tc main_arg2) := by
  simp only [ops_part11]
  after_results_simp
  all_goals rfl

end Cert.ReferenceIdeal.RefRun

end
-- ==== Proof.RKeepW3.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 12 writes no argument array: main_arg0 is as before. -/
theorem keep12_main_arg0 (W : Valuation τ sig (Elt F)) : after ops_part12 W (no_index (Proc.devRef .tc main_arg0)) = W (Proc.devRef .tc main_arg0) := by
  simp only [ops_part12]
  after_results_simp
  all_goals rfl
set_option maxRecDepth 8192 in
set_option maxHeartbeats 2000000 in
/-- Window 12 writes no argument array: main_arg1 is as before. -/
theorem keep12_main_arg1 (W : Valuation τ sig (Elt F)) : after ops_part12 W (no_index (Proc.devRef .tc main_arg1)) = W (Proc.devRef .tc main_arg1) := by
  simp only [ops_part12]
  after_results_simp
  all_goals rfl
set_option maxRecDepth 8192 in
set_option maxHeartbeats 2000000 in
/-- Window 12 writes no argument array: main_arg2 is as before. -/
theorem keep12_main_arg2 (W : Valuation τ sig (Elt F)) : after ops_part12 W (no_index (Proc.devRef .tc main_arg2)) = W (Proc.devRef .tc main_arg2) := by
  simp only [ops_part12]
  after_results_simp
  all_goals rfl
set_option maxRecDepth 8192 in
set_option maxHeartbeats 2000000 in
/-- Window 13 writes no argument array: main_arg0 is as before. -/
theorem keep13_main_arg0 (W : Valuation τ sig (Elt F)) : after ops_part13 W (no_index (Proc.devRef .tc main_arg0)) = W (Proc.devRef .tc main_arg0) := by
  simp only [ops_part13]
  after_results_simp
  all_goals rfl
set_option maxRecDepth 8192 in
set_option maxHeartbeats 2000000 in
/-- Window 13 writes no argument array: main_arg1 is as before. -/
theorem keep13_main_arg1 (W : Valuation τ sig (Elt F)) : after ops_part13 W (no_index (Proc.devRef .tc main_arg1)) = W (Proc.devRef .tc main_arg1) := by
  simp only [ops_part13]
  after_results_simp
  all_goals rfl
set_option maxRecDepth 8192 in
set_option maxHeartbeats 2000000 in
/-- Window 13 writes no argument array: main_arg2 is as before. -/
theorem keep13_main_arg2 (W : Valuation τ sig (Elt F)) : after ops_part13 W (no_index (Proc.devRef .tc main_arg2)) = W (Proc.devRef .tc main_arg2) := by
  simp only [ops_part13]
  after_results_simp
  all_goals rfl
set_option maxRecDepth 8192 in
set_option maxHeartbeats 2000000 in
/-- Window 14 writes no argument array: main_arg0 is as before. -/
theorem keep14_main_arg0 (W : Valuation τ sig (Elt F)) : after ops_part14 W (no_index (Proc.devRef .tc main_arg0)) = W (Proc.devRef .tc main_arg0) := by
  simp only [ops_part14]
  after_results_simp
  all_goals rfl
set_option maxRecDepth 8192 in
set_option maxHeartbeats 2000000 in
/-- Window 14 writes no argument array: main_arg1 is as before. -/
theorem keep14_main_arg1 (W : Valuation τ sig (Elt F)) : after ops_part14 W (no_index (Proc.devRef .tc main_arg1)) = W (Proc.devRef .tc main_arg1) := by
  simp only [ops_part14]
  after_results_simp
  all_goals rfl
set_option maxRecDepth 8192 in
set_option maxHeartbeats 2000000 in
/-- Window 14 writes no argument array: main_arg2 is as before. -/
theorem keep14_main_arg2 (W : Valuation τ sig (Elt F)) : after ops_part14 W (no_index (Proc.devRef .tc main_arg2)) = W (Proc.devRef .tc main_arg2) := by
  simp only [ops_part14]
  after_results_simp
  all_goals rfl
set_option maxRecDepth 8192 in
set_option maxHeartbeats 2000000 in
/-- Window 15 writes no argument array: main_arg0 is as before. -/
theorem keep15_main_arg0 (W : Valuation τ sig (Elt F)) : after ops_part15 W (no_index (Proc.devRef .tc main_arg0)) = W (Proc.devRef .tc main_arg0) := by
  simp only [ops_part15]
  after_results_simp
  all_goals rfl
set_option maxRecDepth 8192 in
set_option maxHeartbeats 2000000 in
/-- Window 15 writes no argument array: main_arg1 is as before. -/
theorem keep15_main_arg1 (W : Valuation τ sig (Elt F)) : after ops_part15 W (no_index (Proc.devRef .tc main_arg1)) = W (Proc.devRef .tc main_arg1) := by
  simp only [ops_part15]
  after_results_simp
  all_goals rfl
set_option maxRecDepth 8192 in
set_option maxHeartbeats 2000000 in
/-- Window 15 writes no argument array: main_arg2 is as before. -/
theorem keep15_main_arg2 (W : Valuation τ sig (Elt F)) : after ops_part15 W (no_index (Proc.devRef .tc main_arg2)) = W (Proc.devRef .tc main_arg2) := by
  simp only [ops_part15]
  after_results_simp
  all_goals rfl

end Cert.ReferenceIdeal.RefRun

end
-- ==== Proof.RKeepW4.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 16 writes no argument array: main_arg0 is as before. -/
theorem keep16_main_arg0 (W : Valuation τ sig (Elt F)) : after ops_part16 W (no_index (Proc.devRef .tc main_arg0)) = W (Proc.devRef .tc main_arg0) := by
  simp only [ops_part16]
  after_results_simp
  all_goals rfl
set_option maxRecDepth 8192 in
set_option maxHeartbeats 2000000 in
/-- Window 16 writes no argument array: main_arg1 is as before. -/
theorem keep16_main_arg1 (W : Valuation τ sig (Elt F)) : after ops_part16 W (no_index (Proc.devRef .tc main_arg1)) = W (Proc.devRef .tc main_arg1) := by
  simp only [ops_part16]
  after_results_simp
  all_goals rfl
set_option maxRecDepth 8192 in
set_option maxHeartbeats 2000000 in
/-- Window 16 writes no argument array: main_arg2 is as before. -/
theorem keep16_main_arg2 (W : Valuation τ sig (Elt F)) : after ops_part16 W (no_index (Proc.devRef .tc main_arg2)) = W (Proc.devRef .tc main_arg2) := by
  simp only [ops_part16]
  after_results_simp
  all_goals rfl
set_option maxRecDepth 8192 in
set_option maxHeartbeats 2000000 in
/-- Window 17 writes no argument array: main_arg0 is as before. -/
theorem keep17_main_arg0 (W : Valuation τ sig (Elt F)) : after ops_part17 W (no_index (Proc.devRef .tc main_arg0)) = W (Proc.devRef .tc main_arg0) := by
  simp only [ops_part17]
  after_results_simp
  all_goals rfl
set_option maxRecDepth 8192 in
set_option maxHeartbeats 2000000 in
/-- Window 17 writes no argument array: main_arg1 is as before. -/
theorem keep17_main_arg1 (W : Valuation τ sig (Elt F)) : after ops_part17 W (no_index (Proc.devRef .tc main_arg1)) = W (Proc.devRef .tc main_arg1) := by
  simp only [ops_part17]
  after_results_simp
  all_goals rfl
set_option maxRecDepth 8192 in
set_option maxHeartbeats 2000000 in
/-- Window 17 writes no argument array: main_arg2 is as before. -/
theorem keep17_main_arg2 (W : Valuation τ sig (Elt F)) : after ops_part17 W (no_index (Proc.devRef .tc main_arg2)) = W (Proc.devRef .tc main_arg2) := by
  simp only [ops_part17]
  after_results_simp
  all_goals rfl
set_option maxRecDepth 8192 in
set_option maxHeartbeats 2000000 in
/-- Window 18 writes no argument array: main_arg0 is as before. -/
theorem keep18_main_arg0 (W : Valuation τ sig (Elt F)) : after ops_part18 W (no_index (Proc.devRef .tc main_arg0)) = W (Proc.devRef .tc main_arg0) := by
  simp only [ops_part18]
  after_results_simp
  all_goals rfl
set_option maxRecDepth 8192 in
set_option maxHeartbeats 2000000 in
/-- Window 18 writes no argument array: main_arg1 is as before. -/
theorem keep18_main_arg1 (W : Valuation τ sig (Elt F)) : after ops_part18 W (no_index (Proc.devRef .tc main_arg1)) = W (Proc.devRef .tc main_arg1) := by
  simp only [ops_part18]
  after_results_simp
  all_goals rfl
set_option maxRecDepth 8192 in
set_option maxHeartbeats 2000000 in
/-- Window 18 writes no argument array: main_arg2 is as before. -/
theorem keep18_main_arg2 (W : Valuation τ sig (Elt F)) : after ops_part18 W (no_index (Proc.devRef .tc main_arg2)) = W (Proc.devRef .tc main_arg2) := by
  simp only [ops_part18]
  after_results_simp
  all_goals rfl
set_option maxRecDepth 8192 in
set_option maxHeartbeats 2000000 in
/-- Window 19 writes no argument array: main_arg0 is as before. -/
theorem keep19_main_arg0 (W : Valuation τ sig (Elt F)) : after ops_part19 W (no_index (Proc.devRef .tc main_arg0)) = W (Proc.devRef .tc main_arg0) := by
  simp only [ops_part19]
  after_results_simp
  all_goals rfl
set_option maxRecDepth 8192 in
set_option maxHeartbeats 2000000 in
/-- Window 19 writes no argument array: main_arg1 is as before. -/
theorem keep19_main_arg1 (W : Valuation τ sig (Elt F)) : after ops_part19 W (no_index (Proc.devRef .tc main_arg1)) = W (Proc.devRef .tc main_arg1) := by
  simp only [ops_part19]
  after_results_simp
  all_goals rfl
set_option maxRecDepth 8192 in
set_option maxHeartbeats 2000000 in
/-- Window 19 writes no argument array: main_arg2 is as before. -/
theorem keep19_main_arg2 (W : Valuation τ sig (Elt F)) : after ops_part19 W (no_index (Proc.devRef .tc main_arg2)) = W (Proc.devRef .tc main_arg2) := by
  simp only [ops_part19]
  after_results_simp
  all_goals rfl

end Cert.ReferenceIdeal.RefRun

end
-- ==== Proof.RKeepW5.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 20 writes no argument array: main_arg0 is as before. -/
theorem keep20_main_arg0 (W : Valuation τ sig (Elt F)) : after ops_part20 W (no_index (Proc.devRef .tc main_arg0)) = W (Proc.devRef .tc main_arg0) := by
  simp only [ops_part20]
  after_results_simp
  all_goals rfl
set_option maxRecDepth 8192 in
set_option maxHeartbeats 2000000 in
/-- Window 20 writes no argument array: main_arg1 is as before. -/
theorem keep20_main_arg1 (W : Valuation τ sig (Elt F)) : after ops_part20 W (no_index (Proc.devRef .tc main_arg1)) = W (Proc.devRef .tc main_arg1) := by
  simp only [ops_part20]
  after_results_simp
  all_goals rfl
set_option maxRecDepth 8192 in
set_option maxHeartbeats 2000000 in
/-- Window 20 writes no argument array: main_arg2 is as before. -/
theorem keep20_main_arg2 (W : Valuation τ sig (Elt F)) : after ops_part20 W (no_index (Proc.devRef .tc main_arg2)) = W (Proc.devRef .tc main_arg2) := by
  simp only [ops_part20]
  after_results_simp
  all_goals rfl
set_option maxRecDepth 8192 in
set_option maxHeartbeats 2000000 in
/-- Window 21 writes no argument array: main_arg0 is as before. -/
theorem keep21_main_arg0 (W : Valuation τ sig (Elt F)) : after ops_part21 W (no_index (Proc.devRef .tc main_arg0)) = W (Proc.devRef .tc main_arg0) := by
  simp only [ops_part21]
  after_results_simp
  all_goals rfl
set_option maxRecDepth 8192 in
set_option maxHeartbeats 2000000 in
/-- Window 21 writes no argument array: main_arg1 is as before. -/
theorem keep21_main_arg1 (W : Valuation τ sig (Elt F)) : after ops_part21 W (no_index (Proc.devRef .tc main_arg1)) = W (Proc.devRef .tc main_arg1) := by
  simp only [ops_part21]
  after_results_simp
  all_goals rfl
set_option maxRecDepth 8192 in
set_option maxHeartbeats 2000000 in
/-- Window 21 writes no argument array: main_arg2 is as before. -/
theorem keep21_main_arg2 (W : Valuation τ sig (Elt F)) : after ops_part21 W (no_index (Proc.devRef .tc main_arg2)) = W (Proc.devRef .tc main_arg2) := by
  simp only [ops_part21]
  after_results_simp
  all_goals rfl
set_option maxRecDepth 8192 in
set_option maxHeartbeats 2000000 in
/-- Window 22 writes no argument array: main_arg0 is as before. -/
theorem keep22_main_arg0 (W : Valuation τ sig (Elt F)) : after ops_part22 W (no_index (Proc.devRef .tc main_arg0)) = W (Proc.devRef .tc main_arg0) := by
  simp only [ops_part22]
  after_results_simp
  all_goals rfl
set_option maxRecDepth 8192 in
set_option maxHeartbeats 2000000 in
/-- Window 22 writes no argument array: main_arg1 is as before. -/
theorem keep22_main_arg1 (W : Valuation τ sig (Elt F)) : after ops_part22 W (no_index (Proc.devRef .tc main_arg1)) = W (Proc.devRef .tc main_arg1) := by
  simp only [ops_part22]
  after_results_simp
  all_goals rfl
set_option maxRecDepth 8192 in
set_option maxHeartbeats 2000000 in
/-- Window 22 writes no argument array: main_arg2 is as before. -/
theorem keep22_main_arg2 (W : Valuation τ sig (Elt F)) : after ops_part22 W (no_index (Proc.devRef .tc main_arg2)) = W (Proc.devRef .tc main_arg2) := by
  simp only [ops_part22]
  after_results_simp
  all_goals rfl
set_option maxRecDepth 8192 in
set_option maxHeartbeats 2000000 in
/-- Window 23 writes no argument array: main_arg0 is as before. -/
theorem keep23_main_arg0 (W : Valuation τ sig (Elt F)) : after ops_part23 W (no_index (Proc.devRef .tc main_arg0)) = W (Proc.devRef .tc main_arg0) := by
  simp only [ops_part23]
  after_results_simp
  all_goals rfl
set_option maxRecDepth 8192 in
set_option maxHeartbeats 2000000 in
/-- Window 23 writes no argument array: main_arg1 is as before. -/
theorem keep23_main_arg1 (W : Valuation τ sig (Elt F)) : after ops_part23 W (no_index (Proc.devRef .tc main_arg1)) = W (Proc.devRef .tc main_arg1) := by
  simp only [ops_part23]
  after_results_simp
  all_goals rfl
set_option maxRecDepth 8192 in
set_option maxHeartbeats 2000000 in
/-- Window 23 writes no argument array: main_arg2 is as before. -/
theorem keep23_main_arg2 (W : Valuation τ sig (Elt F)) : after ops_part23 W (no_index (Proc.devRef .tc main_arg2)) = W (Proc.devRef .tc main_arg2) := by
  simp only [ops_part23]
  after_results_simp
  all_goals rfl

end Cert.ReferenceIdeal.RefRun

end
-- ==== Proof.RKeepW6.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 24 writes no argument array: main_arg0 is as before. -/
theorem keep24_main_arg0 (W : Valuation τ sig (Elt F)) : after ops_part24 W (no_index (Proc.devRef .tc main_arg0)) = W (Proc.devRef .tc main_arg0) := by
  simp only [ops_part24]
  after_results_simp
  all_goals rfl
set_option maxRecDepth 8192 in
set_option maxHeartbeats 2000000 in
/-- Window 24 writes no argument array: main_arg1 is as before. -/
theorem keep24_main_arg1 (W : Valuation τ sig (Elt F)) : after ops_part24 W (no_index (Proc.devRef .tc main_arg1)) = W (Proc.devRef .tc main_arg1) := by
  simp only [ops_part24]
  after_results_simp
  all_goals rfl
set_option maxRecDepth 8192 in
set_option maxHeartbeats 2000000 in
/-- Window 24 writes no argument array: main_arg2 is as before. -/
theorem keep24_main_arg2 (W : Valuation τ sig (Elt F)) : after ops_part24 W (no_index (Proc.devRef .tc main_arg2)) = W (Proc.devRef .tc main_arg2) := by
  simp only [ops_part24]
  after_results_simp
  all_goals rfl
set_option maxRecDepth 8192 in
set_option maxHeartbeats 2000000 in
/-- Window 25 writes no argument array: main_arg0 is as before. -/
theorem keep25_main_arg0 (W : Valuation τ sig (Elt F)) : after ops_part25 W (no_index (Proc.devRef .tc main_arg0)) = W (Proc.devRef .tc main_arg0) := by
  simp only [ops_part25]
  after_results_simp
  all_goals rfl
set_option maxRecDepth 8192 in
set_option maxHeartbeats 2000000 in
/-- Window 25 writes no argument array: main_arg1 is as before. -/
theorem keep25_main_arg1 (W : Valuation τ sig (Elt F)) : after ops_part25 W (no_index (Proc.devRef .tc main_arg1)) = W (Proc.devRef .tc main_arg1) := by
  simp only [ops_part25]
  after_results_simp
  all_goals rfl
set_option maxRecDepth 8192 in
set_option maxHeartbeats 2000000 in
/-- Window 25 writes no argument array: main_arg2 is as before. -/
theorem keep25_main_arg2 (W : Valuation τ sig (Elt F)) : after ops_part25 W (no_index (Proc.devRef .tc main_arg2)) = W (Proc.devRef .tc main_arg2) := by
  simp only [ops_part25]
  after_results_simp
  all_goals rfl
set_option maxRecDepth 8192 in
set_option maxHeartbeats 2000000 in
/-- Window 26 writes no argument array: main_arg0 is as before. -/
theorem keep26_main_arg0 (W : Valuation τ sig (Elt F)) : after ops_part26 W (no_index (Proc.devRef .tc main_arg0)) = W (Proc.devRef .tc main_arg0) := by
  simp only [ops_part26]
  after_results_simp
  all_goals rfl
set_option maxRecDepth 8192 in
set_option maxHeartbeats 2000000 in
/-- Window 26 writes no argument array: main_arg1 is as before. -/
theorem keep26_main_arg1 (W : Valuation τ sig (Elt F)) : after ops_part26 W (no_index (Proc.devRef .tc main_arg1)) = W (Proc.devRef .tc main_arg1) := by
  simp only [ops_part26]
  after_results_simp
  all_goals rfl
set_option maxRecDepth 8192 in
set_option maxHeartbeats 2000000 in
/-- Window 26 writes no argument array: main_arg2 is as before. -/
theorem keep26_main_arg2 (W : Valuation τ sig (Elt F)) : after ops_part26 W (no_index (Proc.devRef .tc main_arg2)) = W (Proc.devRef .tc main_arg2) := by
  simp only [ops_part26]
  after_results_simp
  all_goals rfl
set_option maxRecDepth 8192 in
set_option maxHeartbeats 2000000 in
/-- Window 27 writes no argument array: main_arg0 is as before. -/
theorem keep27_main_arg0 (W : Valuation τ sig (Elt F)) : after ops_part27 W (no_index (Proc.devRef .tc main_arg0)) = W (Proc.devRef .tc main_arg0) := by
  simp only [ops_part27]
  after_results_simp
  all_goals rfl
set_option maxRecDepth 8192 in
set_option maxHeartbeats 2000000 in
/-- Window 27 writes no argument array: main_arg1 is as before. -/
theorem keep27_main_arg1 (W : Valuation τ sig (Elt F)) : after ops_part27 W (no_index (Proc.devRef .tc main_arg1)) = W (Proc.devRef .tc main_arg1) := by
  simp only [ops_part27]
  after_results_simp
  all_goals rfl
set_option maxRecDepth 8192 in
set_option maxHeartbeats 2000000 in
/-- Window 27 writes no argument array: main_arg2 is as before. -/
theorem keep27_main_arg2 (W : Valuation τ sig (Elt F)) : after ops_part27 W (no_index (Proc.devRef .tc main_arg2)) = W (Proc.devRef .tc main_arg2) := by
  simp only [ops_part27]
  after_results_simp
  all_goals rfl

end Cert.ReferenceIdeal.RefRun

end
-- ==== Proof.RKeepW7.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 28 writes no argument array: main_arg0 is as before. -/
theorem keep28_main_arg0 (W : Valuation τ sig (Elt F)) : after ops_part28 W (no_index (Proc.devRef .tc main_arg0)) = W (Proc.devRef .tc main_arg0) := by
  simp only [ops_part28]
  after_results_simp
  all_goals rfl
set_option maxRecDepth 8192 in
set_option maxHeartbeats 2000000 in
/-- Window 28 writes no argument array: main_arg1 is as before. -/
theorem keep28_main_arg1 (W : Valuation τ sig (Elt F)) : after ops_part28 W (no_index (Proc.devRef .tc main_arg1)) = W (Proc.devRef .tc main_arg1) := by
  simp only [ops_part28]
  after_results_simp
  all_goals rfl
set_option maxRecDepth 8192 in
set_option maxHeartbeats 2000000 in
/-- Window 28 writes no argument array: main_arg2 is as before. -/
theorem keep28_main_arg2 (W : Valuation τ sig (Elt F)) : after ops_part28 W (no_index (Proc.devRef .tc main_arg2)) = W (Proc.devRef .tc main_arg2) := by
  simp only [ops_part28]
  after_results_simp
  all_goals rfl
set_option maxRecDepth 8192 in
set_option maxHeartbeats 2000000 in
/-- Window 29 writes no argument array: main_arg0 is as before. -/
theorem keep29_main_arg0 (W : Valuation τ sig (Elt F)) : after ops_part29 W (no_index (Proc.devRef .tc main_arg0)) = W (Proc.devRef .tc main_arg0) := by
  simp only [ops_part29]
  after_results_simp
  all_goals rfl
set_option maxRecDepth 8192 in
set_option maxHeartbeats 2000000 in
/-- Window 29 writes no argument array: main_arg1 is as before. -/
theorem keep29_main_arg1 (W : Valuation τ sig (Elt F)) : after ops_part29 W (no_index (Proc.devRef .tc main_arg1)) = W (Proc.devRef .tc main_arg1) := by
  simp only [ops_part29]
  after_results_simp
  all_goals rfl
set_option maxRecDepth 8192 in
set_option maxHeartbeats 2000000 in
/-- Window 29 writes no argument array: main_arg2 is as before. -/
theorem keep29_main_arg2 (W : Valuation τ sig (Elt F)) : after ops_part29 W (no_index (Proc.devRef .tc main_arg2)) = W (Proc.devRef .tc main_arg2) := by
  simp only [ops_part29]
  after_results_simp
  all_goals rfl
set_option maxRecDepth 8192 in
set_option maxHeartbeats 2000000 in
/-- Window 30 writes no argument array: main_arg0 is as before. -/
theorem keep30_main_arg0 (W : Valuation τ sig (Elt F)) : after ops_part30 W (no_index (Proc.devRef .tc main_arg0)) = W (Proc.devRef .tc main_arg0) := by
  simp only [ops_part30]
  after_results_simp
  all_goals rfl
set_option maxRecDepth 8192 in
set_option maxHeartbeats 2000000 in
/-- Window 30 writes no argument array: main_arg1 is as before. -/
theorem keep30_main_arg1 (W : Valuation τ sig (Elt F)) : after ops_part30 W (no_index (Proc.devRef .tc main_arg1)) = W (Proc.devRef .tc main_arg1) := by
  simp only [ops_part30]
  after_results_simp
  all_goals rfl
set_option maxRecDepth 8192 in
set_option maxHeartbeats 2000000 in
/-- Window 30 writes no argument array: main_arg2 is as before. -/
theorem keep30_main_arg2 (W : Valuation τ sig (Elt F)) : after ops_part30 W (no_index (Proc.devRef .tc main_arg2)) = W (Proc.devRef .tc main_arg2) := by
  simp only [ops_part30]
  after_results_simp
  all_goals rfl
set_option maxRecDepth 8192 in
set_option maxHeartbeats 2000000 in
/-- Window 31 writes no argument array: main_arg0 is as before. -/
theorem keep31_main_arg0 (W : Valuation τ sig (Elt F)) : after ops_part31 W (no_index (Proc.devRef .tc main_arg0)) = W (Proc.devRef .tc main_arg0) := by
  simp only [ops_part31]
  after_results_simp
  all_goals rfl
set_option maxRecDepth 8192 in
set_option maxHeartbeats 2000000 in
/-- Window 31 writes no argument array: main_arg1 is as before. -/
theorem keep31_main_arg1 (W : Valuation τ sig (Elt F)) : after ops_part31 W (no_index (Proc.devRef .tc main_arg1)) = W (Proc.devRef .tc main_arg1) := by
  simp only [ops_part31]
  after_results_simp
  all_goals rfl
set_option maxRecDepth 8192 in
set_option maxHeartbeats 2000000 in
/-- Window 31 writes no argument array: main_arg2 is as before. -/
theorem keep31_main_arg2 (W : Valuation τ sig (Elt F)) : after ops_part31 W (no_index (Proc.devRef .tc main_arg2)) = W (Proc.devRef .tc main_arg2) := by
  simp only [ops_part31]
  after_results_simp
  all_goals rfl

end Cert.ReferenceIdeal.RefRun

end
-- ==== Proof.RKeepW8.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 32 writes no argument array: main_arg0 is as before. -/
theorem keep32_main_arg0 (W : Valuation τ sig (Elt F)) : after ops_part32 W (no_index (Proc.devRef .tc main_arg0)) = W (Proc.devRef .tc main_arg0) := by
  simp only [ops_part32]
  after_results_simp
  all_goals rfl
set_option maxRecDepth 8192 in
set_option maxHeartbeats 2000000 in
/-- Window 32 writes no argument array: main_arg1 is as before. -/
theorem keep32_main_arg1 (W : Valuation τ sig (Elt F)) : after ops_part32 W (no_index (Proc.devRef .tc main_arg1)) = W (Proc.devRef .tc main_arg1) := by
  simp only [ops_part32]
  after_results_simp
  all_goals rfl
set_option maxRecDepth 8192 in
set_option maxHeartbeats 2000000 in
/-- Window 32 writes no argument array: main_arg2 is as before. -/
theorem keep32_main_arg2 (W : Valuation τ sig (Elt F)) : after ops_part32 W (no_index (Proc.devRef .tc main_arg2)) = W (Proc.devRef .tc main_arg2) := by
  simp only [ops_part32]
  after_results_simp
  all_goals rfl
set_option maxRecDepth 8192 in
set_option maxHeartbeats 2000000 in
/-- Window 33 writes no argument array: main_arg0 is as before. -/
theorem keep33_main_arg0 (W : Valuation τ sig (Elt F)) : after ops_part33 W (no_index (Proc.devRef .tc main_arg0)) = W (Proc.devRef .tc main_arg0) := by
  simp only [ops_part33]
  after_results_simp
  all_goals rfl
set_option maxRecDepth 8192 in
set_option maxHeartbeats 2000000 in
/-- Window 33 writes no argument array: main_arg1 is as before. -/
theorem keep33_main_arg1 (W : Valuation τ sig (Elt F)) : after ops_part33 W (no_index (Proc.devRef .tc main_arg1)) = W (Proc.devRef .tc main_arg1) := by
  simp only [ops_part33]
  after_results_simp
  all_goals rfl
set_option maxRecDepth 8192 in
set_option maxHeartbeats 2000000 in
/-- Window 33 writes no argument array: main_arg2 is as before. -/
theorem keep33_main_arg2 (W : Valuation τ sig (Elt F)) : after ops_part33 W (no_index (Proc.devRef .tc main_arg2)) = W (Proc.devRef .tc main_arg2) := by
  simp only [ops_part33]
  after_results_simp
  all_goals rfl
set_option maxRecDepth 8192 in
set_option maxHeartbeats 2000000 in
/-- Window 34 writes no argument array: main_arg0 is as before. -/
theorem keep34_main_arg0 (W : Valuation τ sig (Elt F)) : after ops_part34 W (no_index (Proc.devRef .tc main_arg0)) = W (Proc.devRef .tc main_arg0) := by
  simp only [ops_part34]
  after_results_simp
  all_goals rfl
set_option maxRecDepth 8192 in
set_option maxHeartbeats 2000000 in
/-- Window 34 writes no argument array: main_arg1 is as before. -/
theorem keep34_main_arg1 (W : Valuation τ sig (Elt F)) : after ops_part34 W (no_index (Proc.devRef .tc main_arg1)) = W (Proc.devRef .tc main_arg1) := by
  simp only [ops_part34]
  after_results_simp
  all_goals rfl
set_option maxRecDepth 8192 in
set_option maxHeartbeats 2000000 in
/-- Window 34 writes no argument array: main_arg2 is as before. -/
theorem keep34_main_arg2 (W : Valuation τ sig (Elt F)) : after ops_part34 W (no_index (Proc.devRef .tc main_arg2)) = W (Proc.devRef .tc main_arg2) := by
  simp only [ops_part34]
  after_results_simp
  all_goals rfl
set_option maxRecDepth 8192 in
set_option maxHeartbeats 2000000 in
/-- Window 35 writes no argument array: main_arg0 is as before. -/
theorem keep35_main_arg0 (W : Valuation τ sig (Elt F)) : after ops_part35 W (no_index (Proc.devRef .tc main_arg0)) = W (Proc.devRef .tc main_arg0) := by
  simp only [ops_part35]
  after_results_simp
  all_goals rfl
set_option maxRecDepth 8192 in
set_option maxHeartbeats 2000000 in
/-- Window 35 writes no argument array: main_arg1 is as before. -/
theorem keep35_main_arg1 (W : Valuation τ sig (Elt F)) : after ops_part35 W (no_index (Proc.devRef .tc main_arg1)) = W (Proc.devRef .tc main_arg1) := by
  simp only [ops_part35]
  after_results_simp
  all_goals rfl
set_option maxRecDepth 8192 in
set_option maxHeartbeats 2000000 in
/-- Window 35 writes no argument array: main_arg2 is as before. -/
theorem keep35_main_arg2 (W : Valuation τ sig (Elt F)) : after ops_part35 W (no_index (Proc.devRef .tc main_arg2)) = W (Proc.devRef .tc main_arg2) := by
  simp only [ops_part35]
  after_results_simp
  all_goals rfl

end Cert.ReferenceIdeal.RefRun

end
-- ==== Proof.RKeepW9.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 36 writes no argument array: main_arg0 is as before. -/
theorem keep36_main_arg0 (W : Valuation τ sig (Elt F)) : after ops_part36 W (no_index (Proc.devRef .tc main_arg0)) = W (Proc.devRef .tc main_arg0) := by
  simp only [ops_part36]
  after_results_simp
  all_goals rfl
set_option maxRecDepth 8192 in
set_option maxHeartbeats 2000000 in
/-- Window 36 writes no argument array: main_arg1 is as before. -/
theorem keep36_main_arg1 (W : Valuation τ sig (Elt F)) : after ops_part36 W (no_index (Proc.devRef .tc main_arg1)) = W (Proc.devRef .tc main_arg1) := by
  simp only [ops_part36]
  after_results_simp
  all_goals rfl
set_option maxRecDepth 8192 in
set_option maxHeartbeats 2000000 in
/-- Window 36 writes no argument array: main_arg2 is as before. -/
theorem keep36_main_arg2 (W : Valuation τ sig (Elt F)) : after ops_part36 W (no_index (Proc.devRef .tc main_arg2)) = W (Proc.devRef .tc main_arg2) := by
  simp only [ops_part36]
  after_results_simp
  all_goals rfl
set_option maxRecDepth 8192 in
set_option maxHeartbeats 2000000 in
/-- Window 37 writes no argument array: main_arg0 is as before. -/
theorem keep37_main_arg0 (W : Valuation τ sig (Elt F)) : after ops_part37 W (no_index (Proc.devRef .tc main_arg0)) = W (Proc.devRef .tc main_arg0) := by
  simp only [ops_part37]
  after_results_simp
  all_goals rfl
set_option maxRecDepth 8192 in
set_option maxHeartbeats 2000000 in
/-- Window 37 writes no argument array: main_arg1 is as before. -/
theorem keep37_main_arg1 (W : Valuation τ sig (Elt F)) : after ops_part37 W (no_index (Proc.devRef .tc main_arg1)) = W (Proc.devRef .tc main_arg1) := by
  simp only [ops_part37]
  after_results_simp
  all_goals rfl
set_option maxRecDepth 8192 in
set_option maxHeartbeats 2000000 in
/-- Window 37 writes no argument array: main_arg2 is as before. -/
theorem keep37_main_arg2 (W : Valuation τ sig (Elt F)) : after ops_part37 W (no_index (Proc.devRef .tc main_arg2)) = W (Proc.devRef .tc main_arg2) := by
  simp only [ops_part37]
  after_results_simp
  all_goals rfl
set_option maxRecDepth 8192 in
set_option maxHeartbeats 2000000 in
/-- Window 38 writes no argument array: main_arg0 is as before. -/
theorem keep38_main_arg0 (W : Valuation τ sig (Elt F)) : after ops_part38 W (no_index (Proc.devRef .tc main_arg0)) = W (Proc.devRef .tc main_arg0) := by
  simp only [ops_part38]
  after_results_simp
  all_goals rfl
set_option maxRecDepth 8192 in
set_option maxHeartbeats 2000000 in
/-- Window 38 writes no argument array: main_arg1 is as before. -/
theorem keep38_main_arg1 (W : Valuation τ sig (Elt F)) : after ops_part38 W (no_index (Proc.devRef .tc main_arg1)) = W (Proc.devRef .tc main_arg1) := by
  simp only [ops_part38]
  after_results_simp
  all_goals rfl
set_option maxRecDepth 8192 in
set_option maxHeartbeats 2000000 in
/-- Window 38 writes no argument array: main_arg2 is as before. -/
theorem keep38_main_arg2 (W : Valuation τ sig (Elt F)) : after ops_part38 W (no_index (Proc.devRef .tc main_arg2)) = W (Proc.devRef .tc main_arg2) := by
  simp only [ops_part38]
  after_results_simp
  all_goals rfl
set_option maxRecDepth 8192 in
set_option maxHeartbeats 2000000 in
/-- Window 39 writes no argument array: main_arg0 is as before. -/
theorem keep39_main_arg0 (W : Valuation τ sig (Elt F)) : after ops_part39 W (no_index (Proc.devRef .tc main_arg0)) = W (Proc.devRef .tc main_arg0) := by
  simp only [ops_part39]
  after_results_simp
  all_goals rfl
set_option maxRecDepth 8192 in
set_option maxHeartbeats 2000000 in
/-- Window 39 writes no argument array: main_arg1 is as before. -/
theorem keep39_main_arg1 (W : Valuation τ sig (Elt F)) : after ops_part39 W (no_index (Proc.devRef .tc main_arg1)) = W (Proc.devRef .tc main_arg1) := by
  simp only [ops_part39]
  after_results_simp
  all_goals rfl
set_option maxRecDepth 8192 in
set_option maxHeartbeats 2000000 in
/-- Window 39 writes no argument array: main_arg2 is as before. -/
theorem keep39_main_arg2 (W : Valuation τ sig (Elt F)) : after ops_part39 W (no_index (Proc.devRef .tc main_arg2)) = W (Proc.devRef .tc main_arg2) := by
  simp only [ops_part39]
  after_results_simp
  all_goals rfl

end Cert.ReferenceIdeal.RefRun

end
-- ==== Proof.RKeepW10.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 40 writes no argument array: main_arg0 is as before. -/
theorem keep40_main_arg0 (W : Valuation τ sig (Elt F)) : after ops_part40 W (no_index (Proc.devRef .tc main_arg0)) = W (Proc.devRef .tc main_arg0) := by
  simp only [ops_part40]
  after_results_simp
  all_goals rfl
set_option maxRecDepth 8192 in
set_option maxHeartbeats 2000000 in
/-- Window 40 writes no argument array: main_arg1 is as before. -/
theorem keep40_main_arg1 (W : Valuation τ sig (Elt F)) : after ops_part40 W (no_index (Proc.devRef .tc main_arg1)) = W (Proc.devRef .tc main_arg1) := by
  simp only [ops_part40]
  after_results_simp
  all_goals rfl
set_option maxRecDepth 8192 in
set_option maxHeartbeats 2000000 in
/-- Window 40 writes no argument array: main_arg2 is as before. -/
theorem keep40_main_arg2 (W : Valuation τ sig (Elt F)) : after ops_part40 W (no_index (Proc.devRef .tc main_arg2)) = W (Proc.devRef .tc main_arg2) := by
  simp only [ops_part40]
  after_results_simp
  all_goals rfl
set_option maxRecDepth 8192 in
set_option maxHeartbeats 2000000 in
/-- Window 41 writes no argument array: main_arg0 is as before. -/
theorem keep41_main_arg0 (W : Valuation τ sig (Elt F)) : after ops_part41 W (no_index (Proc.devRef .tc main_arg0)) = W (Proc.devRef .tc main_arg0) := by
  simp only [ops_part41]
  after_results_simp
  all_goals rfl
set_option maxRecDepth 8192 in
set_option maxHeartbeats 2000000 in
/-- Window 41 writes no argument array: main_arg1 is as before. -/
theorem keep41_main_arg1 (W : Valuation τ sig (Elt F)) : after ops_part41 W (no_index (Proc.devRef .tc main_arg1)) = W (Proc.devRef .tc main_arg1) := by
  simp only [ops_part41]
  after_results_simp
  all_goals rfl
set_option maxRecDepth 8192 in
set_option maxHeartbeats 2000000 in
/-- Window 41 writes no argument array: main_arg2 is as before. -/
theorem keep41_main_arg2 (W : Valuation τ sig (Elt F)) : after ops_part41 W (no_index (Proc.devRef .tc main_arg2)) = W (Proc.devRef .tc main_arg2) := by
  simp only [ops_part41]
  after_results_simp
  all_goals rfl
set_option maxRecDepth 8192 in
set_option maxHeartbeats 2000000 in
/-- Window 42 writes no argument array: main_arg0 is as before. -/
theorem keep42_main_arg0 (W : Valuation τ sig (Elt F)) : after ops_part42 W (no_index (Proc.devRef .tc main_arg0)) = W (Proc.devRef .tc main_arg0) := by
  simp only [ops_part42]
  after_results_simp
  all_goals rfl
set_option maxRecDepth 8192 in
set_option maxHeartbeats 2000000 in
/-- Window 42 writes no argument array: main_arg1 is as before. -/
theorem keep42_main_arg1 (W : Valuation τ sig (Elt F)) : after ops_part42 W (no_index (Proc.devRef .tc main_arg1)) = W (Proc.devRef .tc main_arg1) := by
  simp only [ops_part42]
  after_results_simp
  all_goals rfl
set_option maxRecDepth 8192 in
set_option maxHeartbeats 2000000 in
/-- Window 42 writes no argument array: main_arg2 is as before. -/
theorem keep42_main_arg2 (W : Valuation τ sig (Elt F)) : after ops_part42 W (no_index (Proc.devRef .tc main_arg2)) = W (Proc.devRef .tc main_arg2) := by
  simp only [ops_part42]
  after_results_simp
  all_goals rfl
set_option maxRecDepth 8192 in
set_option maxHeartbeats 2000000 in
/-- Window 43 writes no argument array: main_arg0 is as before. -/
theorem keep43_main_arg0 (W : Valuation τ sig (Elt F)) : after ops_part43 W (no_index (Proc.devRef .tc main_arg0)) = W (Proc.devRef .tc main_arg0) := by
  simp only [ops_part43]
  after_results_simp
  all_goals rfl
set_option maxRecDepth 8192 in
set_option maxHeartbeats 2000000 in
/-- Window 43 writes no argument array: main_arg1 is as before. -/
theorem keep43_main_arg1 (W : Valuation τ sig (Elt F)) : after ops_part43 W (no_index (Proc.devRef .tc main_arg1)) = W (Proc.devRef .tc main_arg1) := by
  simp only [ops_part43]
  after_results_simp
  all_goals rfl
set_option maxRecDepth 8192 in
set_option maxHeartbeats 2000000 in
/-- Window 43 writes no argument array: main_arg2 is as before. -/
theorem keep43_main_arg2 (W : Valuation τ sig (Elt F)) : after ops_part43 W (no_index (Proc.devRef .tc main_arg2)) = W (Proc.devRef .tc main_arg2) := by
  simp only [ops_part43]
  after_results_simp
  all_goals rfl

end Cert.ReferenceIdeal.RefRun

end
-- ==== Proof.RRun.lean ====
/-
  The reference's run, with its result read as a product.

  The reference is 2607 host operations and nothing else, so every weakly fair execution ends with every buffer at the fold
  of the operations over the launch contents (`RefRun.run0`).  No operation writes an argument array (per window: RKeepW0 …
  RKeepW10), so the three arguments end as launched.  The result buffer is written by the last window, whose last four
  operations spread `μ` along a new last axis of extent 16, multiply by the array of rotation matrices — the buffer
  `main_v2466`, finished earlier in that same window — and contract with `X` over the 16 columns, block by block
  (`last_window`: one pass over the window).  The matrices themselves stay unread here: they are whatever the 2603 operations
  before left in `main_v2466`.
-/
import proofs.«128918_j72490458022405_1_alg».proof.Proof.RefOps
import proofs.«128918_j72490458022405_1_alg».proof.Proof.RKeepW0
import proofs.«128918_j72490458022405_1_alg».proof.Proof.RKeepW1
import proofs.«128918_j72490458022405_1_alg».proof.Proof.RKeepW2
import proofs.«128918_j72490458022405_1_alg».proof.Proof.RKeepW3
import proofs.«128918_j72490458022405_1_alg».proof.Proof.RKeepW4
import proofs.«128918_j72490458022405_1_alg».proof.Proof.RKeepW5
import proofs.«128918_j72490458022405_1_alg».proof.Proof.RKeepW6
import proofs.«128918_j72490458022405_1_alg».proof.Proof.RKeepW7
import proofs.«128918_j72490458022405_1_alg».proof.Proof.RKeepW8
import proofs.«128918_j72490458022405_1_alg».proof.Proof.RKeepW9
import proofs.«128918_j72490458022405_1_alg».proof.Proof.RKeepW10

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- No window writes `main_arg0`: after all 2607 operations it is as before. -/
theorem keep_main_arg0 (V : Valuation τ sig (Elt F)) : after ops V (Proc.devRef .tc main_arg0) = V (Proc.devRef .tc main_arg0) := by
  simp only [ops, StableHlo.after_append]
  rw [keep43_main_arg0, keep42_main_arg0, keep41_main_arg0, keep40_main_arg0, keep39_main_arg0, keep38_main_arg0, keep37_main_arg0, keep36_main_arg0, keep35_main_arg0, keep34_main_arg0, keep33_main_arg0, keep32_main_arg0, keep31_main_arg0, keep30_main_arg0, keep29_main_arg0, keep28_main_arg0, keep27_main_arg0, keep26_main_arg0, keep25_main_arg0, keep24_main_arg0, keep23_main_arg0, keep22_main_arg0, keep21_main_arg0, keep20_main_arg0, keep19_main_arg0, keep18_main_arg0, keep17_main_arg0, keep16_main_arg0, keep15_main_arg0, keep14_main_arg0, keep13_main_arg0, keep12_main_arg0, keep11_main_arg0, keep10_main_arg0, keep9_main_arg0, keep8_main_arg0, keep7_main_arg0, keep6_main_arg0, keep5_main_arg0, keep4_main_arg0, keep3_main_arg0, keep2_main_arg0, keep1_main_arg0, keep0_main_arg0]

/-- No window writes `main_arg1`: after all 2607 operations it is as before. -/
theorem keep_main_arg1 (V : Valuation τ sig (Elt F)) : after ops V (Proc.devRef .tc main_arg1) = V (Proc.devRef .tc main_arg1) := by
  simp only [ops, StableHlo.after_append]
  rw [keep43_main_arg1, keep42_main_arg1, keep41_main_arg1, keep40_main_arg1, keep39_main_arg1, keep38_main_arg1, keep37_main_arg1, keep36_main_arg1, keep35_main_arg1, keep34_main_arg1, keep33_main_arg1, keep32_main_arg1, keep31_main_arg1, keep30_main_arg1, keep29_main_arg1, keep28_main_arg1, keep27_main_arg1, keep26_main_arg1, keep25_main_arg1, keep24_main_arg1, keep23_main_arg1, keep22_main_arg1, keep21_main_arg1, keep20_main_arg1, keep19_main_arg1, keep18_main_arg1, keep17_main_arg1, keep16_main_arg1, keep15_main_arg1, keep14_main_arg1, keep13_main_arg1, keep12_main_arg1, keep11_main_arg1, keep10_main_arg1, keep9_main_arg1, keep8_main_arg1, keep7_main_arg1, keep6_main_arg1, keep5_main_arg1, keep4_main_arg1, keep3_main_arg1, keep2_main_arg1, keep1_main_arg1, keep0_main_arg1]

/-- No window writes `main_arg2`: after all 2607 operations it is as before. -/
theorem keep_main_arg2 (V : Valuation τ sig (Elt F)) : after ops V (Proc.devRef .tc main_arg2) = V (Proc.devRef .tc main_arg2) := by
  simp only [ops, StableHlo.after_append]
  rw [keep43_main_arg2, keep42_main_arg2, keep41_main_arg2, keep40_main_arg2, keep39_main_arg2, keep38_main_arg2, keep37_main_arg2, keep36_main_arg2, keep35_main_arg2, keep34_main_arg2, keep33_main_arg2, keep32_main_arg2, keep31_main_arg2, keep30_main_arg2, keep29_main_arg2, keep28_main_arg2, keep27_main_arg2, keep26_main_arg2, keep25_main_arg2, keep24_main_arg2, keep23_main_arg2, keep22_main_arg2, keep21_main_arg2, keep20_main_arg2, keep19_main_arg2, keep18_main_arg2, keep17_main_arg2, keep16_main_arg2, keep15_main_arg2, keep14_main_arg2, keep13_main_arg2, keep12_main_arg2, keep11_main_arg2, keep10_main_arg2, keep9_main_arg2, keep8_main_arg2, keep7_main_arg2, keep6_main_arg2, keep5_main_arg2, keep4_main_arg2, keep3_main_arg2, keep2_main_arg2, keep1_main_arg2, keep0_main_arg2]

set_option maxRecDepth 8192 in
set_option maxHeartbeats 2000000 in
/-- The last window's result: the batched product of the row-scaled matrices it has just finished with `X`. -/
theorem last_window (V : Valuation τ sig (Elt F)) :
    after ops_part43 V (no_index (Proc.devRef .tc main_v2470))
      = Host.dotGeneral dot_S1024x16x16_S1024x16x2048_S1024x16x2048_2_1_1_2_0_0 none (mulf (broadcastInDim S1024x16x16 ![0, 1, 2] bcast_S1024x16x1_S1024x16x16_0_1_2 (broadcastInDim S1024x16x1 ![0, 1] bcast_S1024x16_S1024x16x1_0_1 (V (Proc.devRef .tc main_arg2)))) (after ops_part43 V (Proc.devRef .tc main_v2466))) (V (Proc.devRef .tc main_arg0)) := by
  simp only [ops_part43]
  after_results_simp
  all_goals rfl

/-- After all 2607 operations: the result is that product of the launched `μ` and `X` and of whatever the operations leave
    in `main_v2466`. -/
theorem result (V : Valuation τ sig (Elt F)) :
    after ops V (Proc.devRef .tc main_v2470)
      = Host.dotGeneral dot_S1024x16x16_S1024x16x2048_S1024x16x2048_2_1_1_2_0_0 none (mulf (broadcastInDim S1024x16x16 ![0, 1, 2] bcast_S1024x16x1_S1024x16x16_0_1_2 (broadcastInDim S1024x16x1 ![0, 1] bcast_S1024x16_S1024x16x1_0_1 (V (Proc.devRef .tc main_arg2)))) (after ops V (Proc.devRef .tc main_v2466))) (V (Proc.devRef .tc main_arg0)) := by
  simp only [ops, StableHlo.after_append]
  rw [last_window]
  rw [keep42_main_arg2, keep41_main_arg2, keep40_main_arg2, keep39_main_arg2, keep38_main_arg2, keep37_main_arg2, keep36_main_arg2, keep35_main_arg2, keep34_main_arg2, keep33_main_arg2, keep32_main_arg2, keep31_main_arg2, keep30_main_arg2, keep29_main_arg2, keep28_main_arg2, keep27_main_arg2, keep26_main_arg2, keep25_main_arg2, keep24_main_arg2, keep23_main_arg2, keep22_main_arg2, keep21_main_arg2, keep20_main_arg2, keep19_main_arg2, keep18_main_arg2, keep17_main_arg2, keep16_main_arg2, keep15_main_arg2, keep14_main_arg2, keep13_main_arg2, keep12_main_arg2, keep11_main_arg2, keep10_main_arg2, keep9_main_arg2, keep8_main_arg2, keep7_main_arg2, keep6_main_arg2, keep5_main_arg2, keep4_main_arg2, keep3_main_arg2, keep2_main_arg2, keep1_main_arg2, keep0_main_arg2]
  rw [keep42_main_arg0, keep41_main_arg0, keep40_main_arg0, keep39_main_arg0, keep38_main_arg0, keep37_main_arg0, keep36_main_arg0, keep35_main_arg0, keep34_main_arg0, keep33_main_arg0, keep32_main_arg0, keep31_main_arg0, keep30_main_arg0, keep29_main_arg0, keep28_main_arg0, keep27_main_arg0, keep26_main_arg0, keep25_main_arg0, keep24_main_arg0, keep23_main_arg0, keep22_main_arg0, keep21_main_arg0, keep20_main_arg0, keep19_main_arg0, keep18_main_arg0, keep17_main_arg0, keep16_main_arg0, keep15_main_arg0, keep14_main_arg0, keep13_main_arg0, keep12_main_arg0, keep11_main_arg0, keep10_main_arg0, keep9_main_arg0, keep8_main_arg0, keep7_main_arg0, keep6_main_arg0, keep5_main_arg0, keep4_main_arg0, keep3_main_arg0, keep2_main_arg0, keep1_main_arg0, keep0_main_arg0]

/-- On every device, from any memory with zero counters: every weakly fair execution of the reference terminates, its result
    the product above, its arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2470)
        = Host.dotGeneral dot_S1024x16x16_S1024x16x2048_S1024x16x2048_2_1_1_2_0_0 none (mulf (broadcastInDim S1024x16x16 ![0, 1, 2] bcast_S1024x16x1_S1024x16x16_0_1_2 (broadcastInDim S1024x16x1 ![0, 1] bcast_S1024x16_S1024x16x1_0_1 ((launchContents m c) (Proc.devRef .tc main_arg2)))) (after ops (launchContents m c) (Proc.devRef .tc main_v2466))) ((launchContents m c) (Proc.devRef .tc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2470).trans (result (launchContents m c)),
      (h c main_arg0).trans (keep_main_arg0 (launchContents m c)),
      (h c main_arg1).trans (keep_main_arg1 (launchContents m c)),
      (h c main_arg2).trans (keep_main_arg2 (launchContents m c))⟩)
    (run0 m ρ)

end Cert.ReferenceIdeal.RefValue

end
-- ==== Proof.KSub.lean ====
import proofs.«128918_j72490458022405_1_alg».proof.Proof.Gen.KernelIdeal.Launch

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- Operations 1 … 20 of window 0. -/
abbrev st0 : List (HloOp τ sig (Elt F)) :=
  [ nullary main_v0 (iotaInDim S16x16 32 0),
    nullary main_v1 (iotaInDim S16x16 32 1),
    nullary main_c (constantI S_ 32 0#32),
    unary main_c main_v2 (broadcastInDim S16x16 ![] bcast_S_S16x16 : (⟨S_, .i32⟩ : BufTy).Contents (Elt F) → (⟨S16x16, .i32⟩ : BufTy).Contents (Elt F)),
    binary main_v0 main_v2 main_v3 (addi : (⟨S16x16, .i32⟩ : BufTy).Contents (Elt F) → (⟨S16x16, .i32⟩ : BufTy).Contents (Elt F) → (⟨S16x16, .i32⟩ : BufTy).Contents (Elt F)),
    binary main_v3 main_v1 main_v4 (cmpi .eq : (⟨S16x16, .i32⟩ : BufTy).Contents (Elt F) → (⟨S16x16, .i32⟩ : BufTy).Contents (Elt F) → (⟨S16x16, .i1⟩ : BufTy).Contents (Elt F)),
    unary main_v4 main_v5 (uitofp .f32 : (⟨S16x16, .i1⟩ : BufTy).Contents (Elt F) → (⟨S16x16, .f32⟩ : BufTy).Contents (Elt F)),
    unary main_v5 main_v6 (broadcastInDim S1024x16x16 ![1, 2] bcast_S16x16_S1024x16x16_1_2 : (⟨S16x16, .f32⟩ : BufTy).Contents (Elt F) → (⟨S1024x16x16, .f32⟩ : BufTy).Contents (Elt F)),
    unary main_v6 main_v7 ((extractStridedSlice S1024x1x16 ![0, 0, 0] · slices_S1024x16x16_S1024x1x16_0_0_0) : (⟨S1024x16x16, .f32⟩ : BufTy).Contents (Elt F) → (⟨S1024x1x16, .f32⟩ : BufTy).Contents (Elt F)),
    reshape main_v7 main_v8 rfl shapeCasts_S1024x1x16_S1024x16,
    unary main_arg1 main_v9 ((extractStridedSlice S1024x1 ![0, 0] · slices_S1024x120_S1024x1_0_0) : (⟨S1024x120, .f32⟩ : BufTy).Contents (Elt F) → (⟨S1024x1, .f32⟩ : BufTy).Contents (Elt F)),
    reshape main_v9 main_v10 rfl shapeCasts_S1024x1_S1024,
    unary main_v10 main_v11 (Host.cos : (⟨S1024, .f32⟩ : BufTy).Contents (Elt F) → (⟨S1024, .f32⟩ : BufTy).Contents (Elt F)),
    unary main_v11 main_v12 (broadcastInDim S1024x1 ![0] bcast_S1024_S1024x1_0 : (⟨S1024, .f32⟩ : BufTy).Contents (Elt F) → (⟨S1024x1, .f32⟩ : BufTy).Contents (Elt F)),
    unary main_v10 main_v13 (Host.sin : (⟨S1024, .f32⟩ : BufTy).Contents (Elt F) → (⟨S1024, .f32⟩ : BufTy).Contents (Elt F)),
    unary main_v13 main_v14 (broadcastInDim S1024x1 ![0] bcast_S1024_S1024x1_0 : (⟨S1024, .f32⟩ : BufTy).Contents (Elt F) → (⟨S1024x1, .f32⟩ : BufTy).Contents (Elt F)),
    unary main_v6 main_v15 ((extractStridedSlice S1024x1x16 ![0, 1, 0] · slices_S1024x16x16_S1024x1x16_0_1_0) : (⟨S1024x16x16, .f32⟩ : BufTy).Contents (Elt F) → (⟨S1024x1x16, .f32⟩ : BufTy).Contents (Elt F)),
    reshape main_v15 main_v16 rfl shapeCasts_S1024x1x16_S1024x16,
    unary main_v12 main_v17 (broadcastInDim S1024x16 ![0, 1] bcast_S1024x1_S1024x16_0_1 : (⟨S1024x1, .f32⟩ : BufTy).Contents (Elt F) → (⟨S1024x16, .f32⟩ : BufTy).Contents (Elt F)),
    binary main_v17 main_v8 main_v18 (mulf : (⟨S1024x16, .f32⟩ : BufTy).Contents (Elt F) → (⟨S1024x16, .f32⟩ : BufTy).Contents (Elt F) → (⟨S1024x16, .f32⟩ : BufTy).Contents (Elt F)) ]
/-- Operations 21 … 40 of window 0. -/
abbrev st1 : List (HloOp τ sig (Elt F)) :=
  [ unary main_v14 main_v19 (broadcastInDim S1024x16 ![0, 1] bcast_S1024x1_S1024x16_0_1 : (⟨S1024x1, .f32⟩ : BufTy).Contents (Elt F) → (⟨S1024x16, .f32⟩ : BufTy).Contents (Elt F)),
    binary main_v19 main_v16 main_v20 (mulf : (⟨S1024x16, .f32⟩ : BufTy).Contents (Elt F) → (⟨S1024x16, .f32⟩ : BufTy).Contents (Elt F) → (⟨S1024x16, .f32⟩ : BufTy).Contents (Elt F)),
    binary main_v18 main_v20 main_v21 (subf : (⟨S1024x16, .f32⟩ : BufTy).Contents (Elt F) → (⟨S1024x16, .f32⟩ : BufTy).Contents (Elt F) → (⟨S1024x16, .f32⟩ : BufTy).Contents (Elt F)),
    unary main_v14 main_v22 (broadcastInDim S1024x16 ![0, 1] bcast_S1024x1_S1024x16_0_1 : (⟨S1024x1, .f32⟩ : BufTy).Contents (Elt F) → (⟨S1024x16, .f32⟩ : BufTy).Contents (Elt F)),
    binary main_v22 main_v8 main_v23 (mulf : (⟨S1024x16, .f32⟩ : BufTy).Contents (Elt F) → (⟨S1024x16, .f32⟩ : BufTy).Contents (Elt F) → (⟨S1024x16, .f32⟩ : BufTy).Contents (Elt F)),
    unary main_v12 main_v24 (broadcastInDim S1024x16 ![0, 1] bcast_S1024x1_S1024x16_0_1 : (⟨S1024x1, .f32⟩ : BufTy).Contents (Elt F) → (⟨S1024x16, .f32⟩ : BufTy).Contents (Elt F)),
    binary main_v24 main_v16 main_v25 (mulf : (⟨S1024x16, .f32⟩ : BufTy).Contents (Elt F) → (⟨S1024x16, .f32⟩ : BufTy).Contents (Elt F) → (⟨S1024x16, .f32⟩ : BufTy).Contents (Elt F)),
    binary main_v23 main_v25 main_v26 (addf : (⟨S1024x16, .f32⟩ : BufTy).Contents (Elt F) → (⟨S1024x16, .f32⟩ : BufTy).Contents (Elt F) → (⟨S1024x16, .f32⟩ : BufTy).Contents (Elt F)),
    nullary main_c_0 (constantI S_ 32 1#32),
    unary main_c_0 main_v27 (broadcastInDim S1 ![] bcast_S_S1 : (⟨S_, .i32⟩ : BufTy).Contents (Elt F) → (⟨S1, .i32⟩ : BufTy).Contents (Elt F)),
    ternary main_v6 main_v27 main_v26 main_v28 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v29 ((extractStridedSlice S1024x1 ![0, 1] · slices_S1024x120_S1024x1_0_1) : (⟨S1024x120, .f32⟩ : BufTy).Contents (Elt F) → (⟨S1024x1, .f32⟩ : BufTy).Contents (Elt F)),
    reshape main_v29 main_v30 rfl shapeCasts_S1024x1_S1024,
    unary main_v30 main_v31 (Host.cos : (⟨S1024, .f32⟩ : BufTy).Contents (Elt F) → (⟨S1024, .f32⟩ : BufTy).Contents (Elt F)),
    unary main_v31 main_v32 (broadcastInDim S1024x1 ![0] bcast_S1024_S1024x1_0 : (⟨S1024, .f32⟩ : BufTy).Contents (Elt F) → (⟨S1024x1, .f32⟩ : BufTy).Contents (Elt F)),
    unary main_v30 main_v33 (Host.sin : (⟨S1024, .f32⟩ : BufTy).Contents (Elt F) → (⟨S1024, .f32⟩ : BufTy).Contents (Elt F)),
    unary main_v33 main_v34 (broadcastInDim S1024x1 ![0] bcast_S1024_S1024x1_0 : (⟨S1024, .f32⟩ : BufTy).Contents (Elt F) → (⟨S1024x1, .f32⟩ : BufTy).Contents (Elt F)),
    unary main_v28 main_v35 ((extractStridedSlice S1024x1x16 ![0, 2, 0] · slices_S1024x16x16_S1024x1x16_0_2_0) : (⟨S1024x16x16, .f32⟩ : BufTy).Contents (Elt F) → (⟨S1024x1x16, .f32⟩ : BufTy).Contents (Elt F)),
    reshape main_v35 main_v36 rfl shapeCasts_S1024x1x16_S1024x16,
    unary main_v32 main_v37 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 0. -/
abbrev st2 : List (HloOp τ sig (Elt F)) :=
  [ binary main_v37 main_v21 main_v38 (mulf : (⟨S1024x16, .f32⟩ : BufTy).Contents (Elt F) → (⟨S1024x16, .f32⟩ : BufTy).Contents (Elt F) → (⟨S1024x16, .f32⟩ : BufTy).Contents (Elt F)),
    unary main_v34 main_v39 (broadcastInDim S1024x16 ![0, 1] bcast_S1024x1_S1024x16_0_1 : (⟨S1024x1, .f32⟩ : BufTy).Contents (Elt F) → (⟨S1024x16, .f32⟩ : BufTy).Contents (Elt F)),
    binary main_v39 main_v36 main_v40 (mulf : (⟨S1024x16, .f32⟩ : BufTy).Contents (Elt F) → (⟨S1024x16, .f32⟩ : BufTy).Contents (Elt F) → (⟨S1024x16, .f32⟩ : BufTy).Contents (Elt F)),
    binary main_v38 main_v40 main_v41 (subf : (⟨S1024x16, .f32⟩ : BufTy).Contents (Elt F) → (⟨S1024x16, .f32⟩ : BufTy).Contents (Elt F) → (⟨S1024x16, .f32⟩ : BufTy).Contents (Elt F)),
    unary main_v34 main_v42 (broadcastInDim S1024x16 ![0, 1] bcast_S1024x1_S1024x16_0_1 : (⟨S1024x1, .f32⟩ : BufTy).Contents (Elt F) → (⟨S1024x16, .f32⟩ : BufTy).Contents (Elt F)),
    binary main_v42 main_v21 main_v43 (mulf : (⟨S1024x16, .f32⟩ : BufTy).Contents (Elt F) → (⟨S1024x16, .f32⟩ : BufTy).Contents (Elt F) → (⟨S1024x16, .f32⟩ : BufTy).Contents (Elt F)),
    unary main_v32 main_v44 (broadcastInDim S1024x16 ![0, 1] bcast_S1024x1_S1024x16_0_1 : (⟨S1024x1, .f32⟩ : BufTy).Contents (Elt F) → (⟨S1024x16, .f32⟩ : BufTy).Contents (Elt F)),
    binary main_v44 main_v36 main_v45 (mulf : (⟨S1024x16, .f32⟩ : BufTy).Contents (Elt F) → (⟨S1024x16, .f32⟩ : BufTy).Contents (Elt F) → (⟨S1024x16, .f32⟩ : BufTy).Contents (Elt F)),
    binary main_v43 main_v45 main_v46 (addf : (⟨S1024x16, .f32⟩ : BufTy).Contents (Elt F) → (⟨S1024x16, .f32⟩ : BufTy).Contents (Elt F) → (⟨S1024x16, .f32⟩ : BufTy).Contents (Elt F)),
    nullary main_c_1 (constantI S_ 32 2#32),
    unary main_c_1 main_v47 (broadcastInDim S1 ![] bcast_S_S1 : (⟨S_, .i32⟩ : BufTy).Contents (Elt F) → (⟨S1, .i32⟩ : BufTy).Contents (Elt F)),
    ternary main_v28 main_v47 main_v46 main_v48 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v49 ((extractStridedSlice S1024x1 ![0, 2] · slices_S1024x120_S1024x1_0_2) : (⟨S1024x120, .f32⟩ : BufTy).Contents (Elt F) → (⟨S1024x1, .f32⟩ : BufTy).Contents (Elt F)),
    reshape main_v49 main_v50 rfl shapeCasts_S1024x1_S1024,
    unary main_v50 main_v51 (Host.cos : (⟨S1024, .f32⟩ : BufTy).Contents (Elt F) → (⟨S1024, .f32⟩ : BufTy).Contents (Elt F)),
    unary main_v51 main_v52 (broadcastInDim S1024x1 ![0] bcast_S1024_S1024x1_0 : (⟨S1024, .f32⟩ : BufTy).Contents (Elt F) → (⟨S1024x1, .f32⟩ : BufTy).Contents (Elt F)),
    unary main_v50 main_v53 (Host.sin : (⟨S1024, .f32⟩ : BufTy).Contents (Elt F) → (⟨S1024, .f32⟩ : BufTy).Contents (Elt F)),
    unary main_v53 main_v54 (broadcastInDim S1024x1 ![0] bcast_S1024_S1024x1_0 : (⟨S1024, .f32⟩ : BufTy).Contents (Elt F) → (⟨S1024x1, .f32⟩ : BufTy).Contents (Elt F)),
    unary main_v48 main_v55 ((extractStridedSlice S1024x1x16 ![0, 3, 0] · slices_S1024x16x16_S1024x1x16_0_3_0) : (⟨S1024x16x16, .f32⟩ : BufTy).Contents (Elt F) → (⟨S1024x1x16, .f32⟩ : BufTy).Contents (Elt F)),
    reshape main_v55 main_v56 rfl shapeCasts_S1024x1x16_S1024x16 ]
/-- Operations 1 … 20 of window 1. -/
abbrev st3 : List (HloOp τ sig (Elt F)) :=
  [ unary main_v52 main_v57 (broadcastInDim S1024x16 ![0, 1] bcast_S1024x1_S1024x16_0_1 : (⟨S1024x1, .f32⟩ : BufTy).Contents (Elt F) → (⟨S1024x16, .f32⟩ : BufTy).Contents (Elt F)),
    binary main_v57 main_v41 main_v58 (mulf : (⟨S1024x16, .f32⟩ : BufTy).Contents (Elt F) → (⟨S1024x16, .f32⟩ : BufTy).Contents (Elt F) → (⟨S1024x16, .f32⟩ : BufTy).Contents (Elt F)),
    unary main_v54 main_v59 (broadcastInDim S1024x16 ![0, 1] bcast_S1024x1_S1024x16_0_1 : (⟨S1024x1, .f32⟩ : BufTy).Contents (Elt F) → (⟨S1024x16, .f32⟩ : BufTy).Contents (Elt F)),
    binary main_v59 main_v56 main_v60 (mulf : (⟨S1024x16, .f32⟩ : BufTy).Contents (Elt F) → (⟨S1024x16, .f32⟩ : BufTy).Contents (Elt F) → (⟨S1024x16, .f32⟩ : BufTy).Contents (Elt F)),
    binary main_v58 main_v60 main_v61 (subf : (⟨S1024x16, .f32⟩ : BufTy).Contents (Elt F) → (⟨S1024x16, .f32⟩ : BufTy).Contents (Elt F) → (⟨S1024x16, .f32⟩ : BufTy).Contents (Elt F)),
    unary main_v54 main_v62 (broadcastInDim S1024x16 ![0, 1] bcast_S1024x1_S1024x16_0_1 : (⟨S1024x1, .f32⟩ : BufTy).Contents (Elt F) → (⟨S1024x16, .f32⟩ : BufTy).Contents (Elt F)),
    binary main_v62 main_v41 main_v63 (mulf : (⟨S1024x16, .f32⟩ : BufTy).Contents (Elt F) → (⟨S1024x16, .f32⟩ : BufTy).Contents (Elt F) → (⟨S1024x16, .f32⟩ : BufTy).Contents (Elt F)),
    unary main_v52 main_v64 (broadcastInDim S1024x16 ![0, 1] bcast_S1024x1_S1024x16_0_1 : (⟨S1024x1, .f32⟩ : BufTy).Contents (Elt F) → (⟨S1024x16, .f32⟩ : BufTy).Contents (Elt F)),
    binary main_v64 main_v56 main_v65 (mulf : (⟨S1024x16, .f32⟩ : BufTy).Contents (Elt F) → (⟨S1024x16, .f32⟩ : BufTy).Contents (Elt F) → (⟨S1024x16, .f32⟩ : BufTy).Contents (Elt F)),
    binary main_v63 main_v65 main_v66 (addf : (⟨S1024x16, .f32⟩ : BufTy).Contents (Elt F) → (⟨S1024x16, .f32⟩ : BufTy).Contents (Elt F) → (⟨S1024x16, .f32⟩ : BufTy).Contents (Elt F)),
    nullary main_c_2 (constantI S_ 32 3#32),
    unary main_c_2 main_v67 (broadcastInDim S1 ![] bcast_S_S1 : (⟨S_, .i32⟩ : BufTy).Contents (Elt F) → (⟨S1, .i32⟩ : BufTy).Contents (Elt F)),
    ternary main_v48 main_v67 main_v66 main_v68 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v69 ((extractStridedSlice S1024x1 ![0, 3] · slices_S1024x120_S1024x1_0_3) : (⟨S1024x120, .f32⟩ : BufTy).Contents (Elt F) → (⟨S1024x1, .f32⟩ : BufTy).Contents (Elt F)),
    reshape main_v69 main_v70 rfl shapeCasts_S1024x1_S1024,
    unary main_v70 main_v71 (Host.cos : (⟨S1024, .f32⟩ : BufTy).Contents (Elt F) → (⟨S1024, .f32⟩ : BufTy).Contents (Elt F)),
    unary main_v71 main_v72 (broadcastInDim S1024x1 ![0] bcast_S1024_S1024x1_0 : (⟨S1024, .f32⟩ : BufTy).Contents (Elt F) → (⟨S1024x1, .f32⟩ : BufTy).Contents (Elt F)),
    unary main_v70 main_v73 (Host.sin : (⟨S1024, .f32⟩ : BufTy).Contents (Elt F) → (⟨S1024, .f32⟩ : BufTy).Contents (Elt F)),
    unary main_v73 main_v74 (broadcastInDim S1024x1 ![0] bcast_S1024_S1024x1_0 : (⟨S1024, .f32⟩ : BufTy).Contents (Elt F) → (⟨S1024x1, .f32⟩ : BufTy).Contents (Elt F)),
    unary main_v68 main_v75 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)) ]
/-- Operations 21 … 40 of window 1. -/
abbrev st4 : List (HloOp τ sig (Elt F)) :=
  [ reshape main_v75 main_v76 rfl shapeCasts_S1024x1x16_S1024x16,
    unary main_v72 main_v77 (broadcastInDim S1024x16 ![0, 1] bcast_S1024x1_S1024x16_0_1 : (⟨S1024x1, .f32⟩ : BufTy).Contents (Elt F) → (⟨S1024x16, .f32⟩ : BufTy).Contents (Elt F)),
    binary main_v77 main_v61 main_v78 (mulf : (⟨S1024x16, .f32⟩ : BufTy).Contents (Elt F) → (⟨S1024x16, .f32⟩ : BufTy).Contents (Elt F) → (⟨S1024x16, .f32⟩ : BufTy).Contents (Elt F)),
    unary main_v74 main_v79 (broadcastInDim S1024x16 ![0, 1] bcast_S1024x1_S1024x16_0_1 : (⟨S1024x1, .f32⟩ : BufTy).Contents (Elt F) → (⟨S1024x16, .f32⟩ : BufTy).Contents (Elt F)),
    binary main_v79 main_v76 main_v80 (mulf : (⟨S1024x16, .f32⟩ : BufTy).Contents (Elt F) → (⟨S1024x16, .f32⟩ : BufTy).Contents (Elt F) → (⟨S1024x16, .f32⟩ : BufTy).Contents (Elt F)),
    binary main_v78 main_v80 main_v81 (subf : (⟨S1024x16, .f32⟩ : BufTy).Contents (Elt F) → (⟨S1024x16, .f32⟩ : BufTy).Contents (Elt F) → (⟨S1024x16, .f32⟩ : BufTy).Contents (Elt F)),
    unary main_v74 main_v82 (broadcastInDim S1024x16 ![0, 1] bcast_S1024x1_S1024x16_0_1 : (⟨S1024x1, .f32⟩ : BufTy).Contents (Elt F) → (⟨S1024x16, .f32⟩ : BufTy).Contents (Elt F)),
    binary main_v82 main_v61 main_v83 (mulf : (⟨S1024x16, .f32⟩ : BufTy).Contents (Elt F) → (⟨S1024x16, .f32⟩ : BufTy).Contents (Elt F) → (⟨S1024x16, .f32⟩ : BufTy).Contents (Elt F)),
    unary main_v72 main_v84 (broadcastInDim S1024x16 ![0, 1] bcast_S1024x1_S1024x16_0_1 : (⟨S1024x1, .f32⟩ : BufTy).Contents (Elt F) → (⟨S1024x16, .f32⟩ : BufTy).Contents (Elt F)),
    binary main_v84 main_v76 main_v85 (mulf : (⟨S1024x16, .f32⟩ : BufTy).Contents (Elt F) → (⟨S1024x16, .f32⟩ : BufTy).Contents (Elt F) → (⟨S1024x16, .f32⟩ : BufTy).Contents (Elt F)),
    binary main_v83 main_v85 main_v86 (addf : (⟨S1024x16, .f32⟩ : BufTy).Contents (Elt F) → (⟨S1024x16, .f32⟩ : BufTy).Contents (Elt F) → (⟨S1024x16, .f32⟩ : BufTy).Contents (Elt F)),
    nullary main_c_3 (constantI S_ 32 4#32),
    unary main_c_3 main_v87 (broadcastInDim S1 ![] bcast_S_S1 : (⟨S_, .i32⟩ : BufTy).Contents (Elt F) → (⟨S1, .i32⟩ : BufTy).Contents (Elt F)),
    ternary main_v68 main_v87 main_v86 main_v88 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v89 ((extractStridedSlice S1024x1 ![0, 4] · slices_S1024x120_S1024x1_0_4) : (⟨S1024x120, .f32⟩ : BufTy).Contents (Elt F) → (⟨S1024x1, .f32⟩ : BufTy).Contents (Elt F)),
    reshape main_v89 main_v90 rfl shapeCasts_S1024x1_S1024,
    unary main_v90 main_v91 (Host.cos : (⟨S1024, .f32⟩ : BufTy).Contents (Elt F) → (⟨S1024, .f32⟩ : BufTy).Contents (Elt F)),
    unary main_v91 main_v92 (broadcastInDim S1024x1 ![0] bcast_S1024_S1024x1_0 : (⟨S1024, .f32⟩ : BufTy).Contents (Elt F) → (⟨S1024x1, .f32⟩ : BufTy).Contents (Elt F)),
    unary main_v90 main_v93 (Host.sin : (⟨S1024, .f32⟩ : BufTy).Contents (Elt F) → (⟨S1024, .f32⟩ : BufTy).Contents (Elt F)),
    unary main_v93 main_v94 (broadcastInDim S1024x1 ![0] bcast_S1024_S1024x1_0 : (⟨S1024, .f32⟩ : BufTy).Contents (Elt F) → (⟨S1024x1, .f32⟩ : BufTy).Contents (Elt F)) ]
/-- Operations 41 … 60 of window 1. -/
abbrev st5 : List (HloOp τ sig (Elt F)) :=
  [ unary main_v88 main_v95 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v95 main_v96 rfl shapeCasts_S1024x1x16_S1024x16,
    unary main_v92 main_v97 (broadcastInDim S1024x16 ![0, 1] bcast_S1024x1_S1024x16_0_1 : (⟨S1024x1, .f32⟩ : BufTy).Contents (Elt F) → (⟨S1024x16, .f32⟩ : BufTy).Contents (Elt F)),
    binary main_v97 main_v81 main_v98 (mulf : (⟨S1024x16, .f32⟩ : BufTy).Contents (Elt F) → (⟨S1024x16, .f32⟩ : BufTy).Contents (Elt F) → (⟨S1024x16, .f32⟩ : BufTy).Contents (Elt F)),
    unary main_v94 main_v99 (broadcastInDim S1024x16 ![0, 1] bcast_S1024x1_S1024x16_0_1 : (⟨S1024x1, .f32⟩ : BufTy).Contents (Elt F) → (⟨S1024x16, .f32⟩ : BufTy).Contents (Elt F)),
    binary main_v99 main_v96 main_v100 (mulf : (⟨S1024x16, .f32⟩ : BufTy).Contents (Elt F) → (⟨S1024x16, .f32⟩ : BufTy).Contents (Elt F) → (⟨S1024x16, .f32⟩ : BufTy).Contents (Elt F)),
    binary main_v98 main_v100 main_v101 (subf : (⟨S1024x16, .f32⟩ : BufTy).Contents (Elt F) → (⟨S1024x16, .f32⟩ : BufTy).Contents (Elt F) → (⟨S1024x16, .f32⟩ : BufTy).Contents (Elt F)),
    unary main_v94 main_v102 (broadcastInDim S1024x16 ![0, 1] bcast_S1024x1_S1024x16_0_1 : (⟨S1024x1, .f32⟩ : BufTy).Contents (Elt F) → (⟨S1024x16, .f32⟩ : BufTy).Contents (Elt F)),
    binary main_v102 main_v81 main_v103 (mulf : (⟨S1024x16, .f32⟩ : BufTy).Contents (Elt F) → (⟨S1024x16, .f32⟩ : BufTy).Contents (Elt F) → (⟨S1024x16, .f32⟩ : BufTy).Contents (Elt F)),
    unary main_v92 main_v104 (broadcastInDim S1024x16 ![0, 1] bcast_S1024x1_S1024x16_0_1 : (⟨S1024x1, .f32⟩ : BufTy).Contents (Elt F) → (⟨S1024x16, .f32⟩ : BufTy).Contents (Elt F)),
    binary main_v104 main_v96 main_v105 (mulf : (⟨S1024x16, .f32⟩ : BufTy).Contents (Elt F) → (⟨S1024x16, .f32⟩ : BufTy).Contents (Elt F) → (⟨S1024x16, .f32⟩ : BufTy).Contents (Elt F)),
    binary main_v103 main_v105 main_v106 (addf : (⟨S1024x16, .f32⟩ : BufTy).Contents (Elt F) → (⟨S1024x16, .f32⟩ : BufTy).Contents (Elt F) → (⟨S1024x16, .f32⟩ : BufTy).Contents (Elt F)),
    nullary main_c_4 (constantI S_ 32 5#32),
    unary main_c_4 main_v107 (broadcastInDim S1 ![] bcast_S_S1 : (⟨S_, .i32⟩ : BufTy).Contents (Elt F) → (⟨S1, .i32⟩ : BufTy).Contents (Elt F)),
    ternary main_v88 main_v107 main_v106 main_v108 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v109 ((extractStridedSlice S1024x1 ![0, 5] · slices_S1024x120_S1024x1_0_5) : (⟨S1024x120, .f32⟩ : BufTy).Contents (Elt F) → (⟨S1024x1, .f32⟩ : BufTy).Contents (Elt F)),
    reshape main_v109 main_v110 rfl shapeCasts_S1024x1_S1024,
    unary main_v110 main_v111 (Host.cos : (⟨S1024, .f32⟩ : BufTy).Contents (Elt F) → (⟨S1024, .f32⟩ : BufTy).Contents (Elt F)),
    unary main_v111 main_v112 (broadcastInDim S1024x1 ![0] bcast_S1024_S1024x1_0 : (⟨S1024, .f32⟩ : BufTy).Contents (Elt F) → (⟨S1024x1, .f32⟩ : BufTy).Contents (Elt F)),
    unary main_v110 main_v113 (Host.sin : (⟨S1024, .f32⟩ : BufTy).Contents (Elt F) → (⟨S1024, .f32⟩ : BufTy).Contents (Elt F)) ]
/-- Operations 1 … 20 of window 2. -/
abbrev st6 : List (HloOp τ sig (Elt F)) :=
  [ unary main_v113 main_v114 (broadcastInDim S1024x1 ![0] bcast_S1024_S1024x1_0 : (⟨S1024, .f32⟩ : BufTy).Contents (Elt F) → (⟨S1024x1, .f32⟩ : BufTy).Contents (Elt F)),
    unary main_v108 main_v115 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v115 main_v116 rfl shapeCasts_S1024x1x16_S1024x16,
    unary main_v112 main_v117 (broadcastInDim S1024x16 ![0, 1] bcast_S1024x1_S1024x16_0_1 : (⟨S1024x1, .f32⟩ : BufTy).Contents (Elt F) → (⟨S1024x16, .f32⟩ : BufTy).Contents (Elt F)),
    binary main_v117 main_v101 main_v118 (mulf : (⟨S1024x16, .f32⟩ : BufTy).Contents (Elt F) → (⟨S1024x16, .f32⟩ : BufTy).Contents (Elt F) → (⟨S1024x16, .f32⟩ : BufTy).Contents (Elt F)),
    unary main_v114 main_v119 (broadcastInDim S1024x16 ![0, 1] bcast_S1024x1_S1024x16_0_1 : (⟨S1024x1, .f32⟩ : BufTy).Contents (Elt F) → (⟨S1024x16, .f32⟩ : BufTy).Contents (Elt F)),
    binary main_v119 main_v116 main_v120 (mulf : (⟨S1024x16, .f32⟩ : BufTy).Contents (Elt F) → (⟨S1024x16, .f32⟩ : BufTy).Contents (Elt F) → (⟨S1024x16, .f32⟩ : BufTy).Contents (Elt F)),
    binary main_v118 main_v120 main_v121 (subf : (⟨S1024x16, .f32⟩ : BufTy).Contents (Elt F) → (⟨S1024x16, .f32⟩ : BufTy).Contents (Elt F) → (⟨S1024x16, .f32⟩ : BufTy).Contents (Elt F)),
    unary main_v114 main_v122 (broadcastInDim S1024x16 ![0, 1] bcast_S1024x1_S1024x16_0_1 : (⟨S1024x1, .f32⟩ : BufTy).Contents (Elt F) → (⟨S1024x16, .f32⟩ : BufTy).Contents (Elt F)),
    binary main_v122 main_v101 main_v123 (mulf : (⟨S1024x16, .f32⟩ : BufTy).Contents (Elt F) → (⟨S1024x16, .f32⟩ : BufTy).Contents (Elt F) → (⟨S1024x16, .f32⟩ : BufTy).Contents (Elt F)),
    unary main_v112 main_v124 (broadcastInDim S1024x16 ![0, 1] bcast_S1024x1_S1024x16_0_1 : (⟨S1024x1, .f32⟩ : BufTy).Contents (Elt F) → (⟨S1024x16, .f32⟩ : BufTy).Contents (Elt F)),
    binary main_v124 main_v116 main_v125 (mulf : (⟨S1024x16, .f32⟩ : BufTy).Contents (Elt F) → (⟨S1024x16, .f32⟩ : BufTy).Contents (Elt F) → (⟨S1024x16, .f32⟩ : BufTy).Contents (Elt F)),
    binary main_v123 main_v125 main_v126 (addf : (⟨S1024x16, .f32⟩ : BufTy).Contents (Elt F) → (⟨S1024x16, .f32⟩ : BufTy).Contents (Elt F) → (⟨S1024x16, .f32⟩ : BufTy).Contents (Elt F)),
    nullary main_c_5 (constantI S_ 32 6#32),
    unary main_c_5 main_v127 (broadcastInDim S1 ![] bcast_S_S1 : (⟨S_, .i32⟩ : BufTy).Contents (Elt F) → (⟨S1, .i32⟩ : BufTy).Contents (Elt F)),
    ternary main_v108 main_v127 main_v126 main_v128 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v129 ((extractStridedSlice S1024x1 ![0, 6] · slices_S1024x120_S1024x1_0_6) : (⟨S1024x120, .f32⟩ : BufTy).Contents (Elt F) → (⟨S1024x1, .f32⟩ : BufTy).Contents (Elt F)),
    reshape main_v129 main_v130 rfl shapeCasts_S1024x1_S1024,
    unary main_v130 main_v131 (Host.cos : (⟨S1024, .f32⟩ : BufTy).Contents (Elt F) → (⟨S1024, .f32⟩ : BufTy).Contents (Elt F)),
    unary main_v131 main_v132 (broadcastInDim S1024x1 ![0] bcast_S1024_S1024x1_0 : (⟨S1024, .f32⟩ : BufTy).Contents (Elt F) → (⟨S1024x1, .f32⟩ : BufTy).Contents (Elt F)) ]
/-- Operations 21 … 40 of window 2. -/
abbrev st7 : List (HloOp τ sig (Elt F)) :=
  [ unary main_v130 main_v133 (Host.sin : (⟨S1024, .f32⟩ : BufTy).Contents (Elt F) → (⟨S1024, .f32⟩ : BufTy).Contents (Elt F)),
    unary main_v133 main_v134 (broadcastInDim S1024x1 ![0] bcast_S1024_S1024x1_0 : (⟨S1024, .f32⟩ : BufTy).Contents (Elt F) → (⟨S1024x1, .f32⟩ : BufTy).Contents (Elt F)),
    unary main_v128 main_v135 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v135 main_v136 rfl shapeCasts_S1024x1x16_S1024x16,
    unary main_v132 main_v137 (broadcastInDim S1024x16 ![0, 1] bcast_S1024x1_S1024x16_0_1 : (⟨S1024x1, .f32⟩ : BufTy).Contents (Elt F) → (⟨S1024x16, .f32⟩ : BufTy).Contents (Elt F)),
    binary main_v137 main_v121 main_v138 (mulf : (⟨S1024x16, .f32⟩ : BufTy).Contents (Elt F) → (⟨S1024x16, .f32⟩ : BufTy).Contents (Elt F) → (⟨S1024x16, .f32⟩ : BufTy).Contents (Elt F)),
    unary main_v134 main_v139 (broadcastInDim S1024x16 ![0, 1] bcast_S1024x1_S1024x16_0_1 : (⟨S1024x1, .f32⟩ : BufTy).Contents (Elt F) → (⟨S1024x16, .f32⟩ : BufTy).Contents (Elt F)),
    binary main_v139 main_v136 main_v140 (mulf : (⟨S1024x16, .f32⟩ : BufTy).Contents (Elt F) → (⟨S1024x16, .f32⟩ : BufTy).Contents (Elt F) → (⟨S1024x16, .f32⟩ : BufTy).Contents (Elt F)),
    binary main_v138 main_v140 main_v141 (subf : (⟨S1024x16, .f32⟩ : BufTy).Contents (Elt F) → (⟨S1024x16, .f32⟩ : BufTy).Contents (Elt F) → (⟨S1024x16, .f32⟩ : BufTy).Contents (Elt F)),
    unary main_v134 main_v142 (broadcastInDim S1024x16 ![0, 1] bcast_S1024x1_S1024x16_0_1 : (⟨S1024x1, .f32⟩ : BufTy).Contents (Elt F) → (⟨S1024x16, .f32⟩ : BufTy).Contents (Elt F)),
    binary main_v142 main_v121 main_v143 (mulf : (⟨S1024x16, .f32⟩ : BufTy).Contents (Elt F) → (⟨S1024x16, .f32⟩ : BufTy).Contents (Elt F) → (⟨S1024x16, .f32⟩ : BufTy).Contents (Elt F)),
    unary main_v132 main_v144 (broadcastInDim S1024x16 ![0, 1] bcast_S1024x1_S1024x16_0_1 : (⟨S1024x1, .f32⟩ : BufTy).Contents (Elt F) → (⟨S1024x16, .f32⟩ : BufTy).Contents (Elt F)),
    binary main_v144 main_v136 main_v145 (mulf : (⟨S1024x16, .f32⟩ : BufTy).Contents (Elt F) → (⟨S1024x16, .f32⟩ : BufTy).Contents (Elt F) → (⟨S1024x16, .f32⟩ : BufTy).Contents (Elt F)),
    binary main_v143 main_v145 main_v146 (addf : (⟨S1024x16, .f32⟩ : BufTy).Contents (Elt F) → (⟨S1024x16, .f32⟩ : BufTy).Contents (Elt F) → (⟨S1024x16, .f32⟩ : BufTy).Contents (Elt F)),
    nullary main_c_6 (constantI S_ 32 7#32),
    unary main_c_6 main_v147 (broadcastInDim S1 ![] bcast_S_S1 : (⟨S_, .i32⟩ : BufTy).Contents (Elt F) → (⟨S1, .i32⟩ : BufTy).Contents (Elt F)),
    ternary main_v128 main_v147 main_v146 main_v148 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v149 ((extractStridedSlice S1024x1 ![0, 7] · slices_S1024x120_S1024x1_0_7) : (⟨S1024x120, .f32⟩ : BufTy).Contents (Elt F) → (⟨S1024x1, .f32⟩ : BufTy).Contents (Elt F)),
    reshape main_v149 main_v150 rfl shapeCasts_S1024x1_S1024,
    unary main_v150 main_v151 (Host.cos : (⟨S1024, .f32⟩ : BufTy).Contents (Elt F) → (⟨S1024, .f32⟩ : BufTy).Contents (Elt F)) ]
/-- Operations 41 … 60 of window 2. -/
abbrev st8 : List (HloOp τ sig (Elt F)) :=
  [ unary main_v151 main_v152 (broadcastInDim S1024x1 ![0] bcast_S1024_S1024x1_0 : (⟨S1024, .f32⟩ : BufTy).Contents (Elt F) → (⟨S1024x1, .f32⟩ : BufTy).Contents (Elt F)),
    unary main_v150 main_v153 (Host.sin : (⟨S1024, .f32⟩ : BufTy).Contents (Elt F) → (⟨S1024, .f32⟩ : BufTy).Contents (Elt F)),
    unary main_v153 main_v154 (broadcastInDim S1024x1 ![0] bcast_S1024_S1024x1_0 : (⟨S1024, .f32⟩ : BufTy).Contents (Elt F) → (⟨S1024x1, .f32⟩ : BufTy).Contents (Elt F)),
    unary main_v148 main_v155 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v155 main_v156 rfl shapeCasts_S1024x1x16_S1024x16,
    unary main_v152 main_v157 (broadcastInDim S1024x16 ![0, 1] bcast_S1024x1_S1024x16_0_1 : (⟨S1024x1, .f32⟩ : BufTy).Contents (Elt F) → (⟨S1024x16, .f32⟩ : BufTy).Contents (Elt F)),
    binary main_v157 main_v141 main_v158 (mulf : (⟨S1024x16, .f32⟩ : BufTy).Contents (Elt F) → (⟨S1024x16, .f32⟩ : BufTy).Contents (Elt F) → (⟨S1024x16, .f32⟩ : BufTy).Contents (Elt F)),
    unary main_v154 main_v159 (broadcastInDim S1024x16 ![0, 1] bcast_S1024x1_S1024x16_0_1 : (⟨S1024x1, .f32⟩ : BufTy).Contents (Elt F) → (⟨S1024x16, .f32⟩ : BufTy).Contents (Elt F)),
    binary main_v159 main_v156 main_v160 (mulf : (⟨S1024x16, .f32⟩ : BufTy).Contents (Elt F) → (⟨S1024x16, .f32⟩ : BufTy).Contents (Elt F) → (⟨S1024x16, .f32⟩ : BufTy).Contents (Elt F)),
    binary main_v158 main_v160 main_v161 (subf : (⟨S1024x16, .f32⟩ : BufTy).Contents (Elt F) → (⟨S1024x16, .f32⟩ : BufTy).Contents (Elt F) → (⟨S1024x16, .f32⟩ : BufTy).Contents (Elt F)),
    unary main_v154 main_v162 (broadcastInDim S1024x16 ![0, 1] bcast_S1024x1_S1024x16_0_1 : (⟨S1024x1, .f32⟩ : BufTy).Contents (Elt F) → (⟨S1024x16, .f32⟩ : BufTy).Contents (Elt F)),
    binary main_v162 main_v141 main_v163 (mulf : (⟨S1024x16, .f32⟩ : BufTy).Contents (Elt F) → (⟨S1024x16, .f32⟩ : BufTy).Contents (Elt F) → (⟨S1024x16, .f32⟩ : BufTy).Contents (Elt F)),
    unary main_v152 main_v164 (broadcastInDim S1024x16 ![0, 1] bcast_S1024x1_S1024x16_0_1 : (⟨S1024x1, .f32⟩ : BufTy).Contents (Elt F) → (⟨S1024x16, .f32⟩ : BufTy).Contents (Elt F)),
    binary main_v164 main_v156 main_v165 (mulf : (⟨S1024x16, .f32⟩ : BufTy).Contents (Elt F) → (⟨S1024x16, .f32⟩ : BufTy).Contents (Elt F) → (⟨S1024x16, .f32⟩ : BufTy).Contents (Elt F)),
    binary main_v163 main_v165 main_v166 (addf : (⟨S1024x16, .f32⟩ : BufTy).Contents (Elt F) → (⟨S1024x16, .f32⟩ : BufTy).Contents (Elt F) → (⟨S1024x16, .f32⟩ : BufTy).Contents (Elt F)),
    nullary main_c_7 (constantI S_ 32 8#32),
    unary main_c_7 main_v167 (broadcastInDim S1 ![] bcast_S_S1 : (⟨S_, .i32⟩ : BufTy).Contents (Elt F) → (⟨S1, .i32⟩ : BufTy).Contents (Elt F)),
    ternary main_v148 main_v167 main_v166 main_v168 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v169 ((extractStridedSlice S1024x1 ![0, 8] · slices_S1024x120_S1024x1_0_8) : (⟨S1024x120, .f32⟩ : BufTy).Contents (Elt F) → (⟨S1024x1, .f32⟩ : BufTy).Contents (Elt F)),
    reshape main_v169 main_v170 rfl shapeCasts_S1024x1_S1024 ]
/-- Operations 1 … 20 of window 3. -/
abbrev st9 : List (HloOp τ sig (Elt F)) :=
  [ unary main_v170 main_v171 (Host.cos : (⟨S1024, .f32⟩ : BufTy).Contents (Elt F) → (⟨S1024, .f32⟩ : BufTy).Contents (Elt F)),
    unary main_v171 main_v172 (broadcastInDim S1024x1 ![0] bcast_S1024_S1024x1_0 : (⟨S1024, .f32⟩ : BufTy).Contents (Elt F) → (⟨S1024x1, .f32⟩ : BufTy).Contents (Elt F)),
    unary main_v170 main_v173 (Host.sin : (⟨S1024, .f32⟩ : BufTy).Contents (Elt F) → (⟨S1024, .f32⟩ : BufTy).Contents (Elt F)),
    unary main_v173 main_v174 (broadcastInDim S1024x1 ![0] bcast_S1024_S1024x1_0 : (⟨S1024, .f32⟩ : BufTy).Contents (Elt F) → (⟨S1024x1, .f32⟩ : BufTy).Contents (Elt F)),
    unary main_v168 main_v175 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v175 main_v176 rfl shapeCasts_S1024x1x16_S1024x16,
    unary main_v172 main_v177 (broadcastInDim S1024x16 ![0, 1] bcast_S1024x1_S1024x16_0_1 : (⟨S1024x1, .f32⟩ : BufTy).Contents (Elt F) → (⟨S1024x16, .f32⟩ : BufTy).Contents (Elt F)),
    binary main_v177 main_v161 main_v178 (mulf : (⟨S1024x16, .f32⟩ : BufTy).Contents (Elt F) → (⟨S1024x16, .f32⟩ : BufTy).Contents (Elt F) → (⟨S1024x16, .f32⟩ : BufTy).Contents (Elt F)),
    unary main_v174 main_v179 (broadcastInDim S1024x16 ![0, 1] bcast_S1024x1_S1024x16_0_1 : (⟨S1024x1, .f32⟩ : BufTy).Contents (Elt F) → (⟨S1024x16, .f32⟩ : BufTy).Contents (Elt F)),
    binary main_v179 main_v176 main_v180 (mulf : (⟨S1024x16, .f32⟩ : BufTy).Contents (Elt F) → (⟨S1024x16, .f32⟩ : BufTy).Contents (Elt F) → (⟨S1024x16, .f32⟩ : BufTy).Contents (Elt F)),
    binary main_v178 main_v180 main_v181 (subf : (⟨S1024x16, .f32⟩ : BufTy).Contents (Elt F) → (⟨S1024x16, .f32⟩ : BufTy).Contents (Elt F) → (⟨S1024x16, .f32⟩ : BufTy).Contents (Elt F)),
    unary main_v174 main_v182 (broadcastInDim S1024x16 ![0, 1] bcast_S1024x1_S1024x16_0_1 : (⟨S1024x1, .f32⟩ : BufTy).Contents (Elt F) → (⟨S1024x16, .f32⟩ : BufTy).Contents (Elt F)),
    binary main_v182 main_v161 main_v183 (mulf : (⟨S1024x16, .f32⟩ : BufTy).Contents (Elt F) → (⟨S1024x16, .f32⟩ : BufTy).Contents (Elt F) → (⟨S1024x16, .f32⟩ : BufTy).Contents (Elt F)),
    unary main_v172 main_v184 (broadcastInDim S1024x16 ![0, 1] bcast_S1024x1_S1024x16_0_1 : (⟨S1024x1, .f32⟩ : BufTy).Contents (Elt F) → (⟨S1024x16, .f32⟩ : BufTy).Contents (Elt F)),
    binary main_v184 main_v176 main_v185 (mulf : (⟨S1024x16, .f32⟩ : BufTy).Contents (Elt F) → (⟨S1024x16, .f32⟩ : BufTy).Contents (Elt F) → (⟨S1024x16, .f32⟩ : BufTy).Contents (Elt F)),
    binary main_v183 main_v185 main_v186 (addf : (⟨S1024x16, .f32⟩ : BufTy).Contents (Elt F) → (⟨S1024x16, .f32⟩ : BufTy).Contents (Elt F) → (⟨S1024x16, .f32⟩ : BufTy).Contents (Elt F)),
    nullary main_c_8 (constantI S_ 32 9#32),
    unary main_c_8 main_v187 (broadcastInDim S1 ![] bcast_S_S1 : (⟨S_, .i32⟩ : BufTy).Contents (Elt F) → (⟨S1, .i32⟩ : BufTy).Contents (Elt F)),
    ternary main_v168 main_v187 main_v186 main_v188 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v189 ((extractStridedSlice S1024x1 ![0, 9] · slices_S1024x120_S1024x1_0_9) : (⟨S1024x120, .f32⟩ : BufTy).Contents (Elt F) → (⟨S1024x1, .f32⟩ : BufTy).Contents (Elt F)) ]
/-- Operations 21 … 40 of window 3. -/
abbrev st10 : List (HloOp τ sig (Elt F)) :=
  [ reshape main_v189 main_v190 rfl shapeCasts_S1024x1_S1024,
    unary main_v190 main_v191 (Host.cos : (⟨S1024, .f32⟩ : BufTy).Contents (Elt F) → (⟨S1024, .f32⟩ : BufTy).Contents (Elt F)),
    unary main_v191 main_v192 (broadcastInDim S1024x1 ![0] bcast_S1024_S1024x1_0 : (⟨S1024, .f32⟩ : BufTy).Contents (Elt F) → (⟨S1024x1, .f32⟩ : BufTy).Contents (Elt F)),
    unary main_v190 main_v193 (Host.sin : (⟨S1024, .f32⟩ : BufTy).Contents (Elt F) → (⟨S1024, .f32⟩ : BufTy).Contents (Elt F)),
    unary main_v193 main_v194 (broadcastInDim S1024x1 ![0] bcast_S1024_S1024x1_0 : (⟨S1024, .f32⟩ : BufTy).Contents (Elt F) → (⟨S1024x1, .f32⟩ : BufTy).Contents (Elt F)),
    unary main_v188 main_v195 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v195 main_v196 rfl shapeCasts_S1024x1x16_S1024x16,
    unary main_v192 main_v197 (broadcastInDim S1024x16 ![0, 1] bcast_S1024x1_S1024x16_0_1 : (⟨S1024x1, .f32⟩ : BufTy).Contents (Elt F) → (⟨S1024x16, .f32⟩ : BufTy).Contents (Elt F)),
    binary main_v197 main_v181 main_v198 (mulf : (⟨S1024x16, .f32⟩ : BufTy).Contents (Elt F) → (⟨S1024x16, .f32⟩ : BufTy).Contents (Elt F) → (⟨S1024x16, .f32⟩ : BufTy).Contents (Elt F)),
    unary main_v194 main_v199 (broadcastInDim S1024x16 ![0, 1] bcast_S1024x1_S1024x16_0_1 : (⟨S1024x1, .f32⟩ : BufTy).Contents (Elt F) → (⟨S1024x16, .f32⟩ : BufTy).Contents (Elt F)),
    binary main_v199 main_v196 main_v200 (mulf : (⟨S1024x16, .f32⟩ : BufTy).Contents (Elt F) → (⟨S1024x16, .f32⟩ : BufTy).Contents (Elt F) → (⟨S1024x16, .f32⟩ : BufTy).Contents (Elt F)),
    binary main_v198 main_v200 main_v201 (subf : (⟨S1024x16, .f32⟩ : BufTy).Contents (Elt F) → (⟨S1024x16, .f32⟩ : BufTy).Contents (Elt F) → (⟨S1024x16, .f32⟩ : BufTy).Contents (Elt F)),
    unary main_v194 main_v202 (broadcastInDim S1024x16 ![0, 1] bcast_S1024x1_S1024x16_0_1 : (⟨S1024x1, .f32⟩ : BufTy).Contents (Elt F) → (⟨S1024x16, .f32⟩ : BufTy).Contents (Elt F)),
    binary main_v202 main_v181 main_v203 (mulf : (⟨S1024x16, .f32⟩ : BufTy).Contents (Elt F) → (⟨S1024x16, .f32⟩ : BufTy).Contents (Elt F) → (⟨S1024x16, .f32⟩ : BufTy).Contents (Elt F)),
    unary main_v192 main_v204 (broadcastInDim S1024x16 ![0, 1] bcast_S1024x1_S1024x16_0_1 : (⟨S1024x1, .f32⟩ : BufTy).Contents (Elt F) → (⟨S1024x16, .f32⟩ : BufTy).Contents (Elt F)),
    binary main_v204 main_v196 main_v205 (mulf : (⟨S1024x16, .f32⟩ : BufTy).Contents (Elt F) → (⟨S1024x16, .f32⟩ : BufTy).Contents (Elt F) → (⟨S1024x16, .f32⟩ : BufTy).Contents (Elt F)),
    binary main_v203 main_v205 main_v206 (addf : (⟨S1024x16, .f32⟩ : BufTy).Contents (Elt F) → (⟨S1024x16, .f32⟩ : BufTy).Contents (Elt F) → (⟨S1024x16, .f32⟩ : BufTy).Contents (Elt F)),
    nullary main_c_9 (constantI S_ 32 10#32),
    unary main_c_9 main_v207 (broadcastInDim S1 ![] bcast_S_S1 : (⟨S_, .i32⟩ : BufTy).Contents (Elt F) → (⟨S1, .i32⟩ : BufTy).Contents (Elt F)),
    ternary main_v188 main_v207 main_v206 main_v208 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 41 … 60 of window 3. -/
abbrev st11 : List (HloOp τ sig (Elt F)) :=
  [ unary main_arg1 main_v209 ((extractStridedSlice S1024x1 ![0, 10] · slices_S1024x120_S1024x1_0_10) : (⟨S1024x120, .f32⟩ : BufTy).Contents (Elt F) → (⟨S1024x1, .f32⟩ : BufTy).Contents (Elt F)),
    reshape main_v209 main_v210 rfl shapeCasts_S1024x1_S1024,
    unary main_v210 main_v211 (Host.cos : (⟨S1024, .f32⟩ : BufTy).Contents (Elt F) → (⟨S1024, .f32⟩ : BufTy).Contents (Elt F)),
    unary main_v211 main_v212 (broadcastInDim S1024x1 ![0] bcast_S1024_S1024x1_0 : (⟨S1024, .f32⟩ : BufTy).Contents (Elt F) → (⟨S1024x1, .f32⟩ : BufTy).Contents (Elt F)),
    unary main_v210 main_v213 (Host.sin : (⟨S1024, .f32⟩ : BufTy).Contents (Elt F) → (⟨S1024, .f32⟩ : BufTy).Contents (Elt F)),
    unary main_v213 main_v214 (broadcastInDim S1024x1 ![0] bcast_S1024_S1024x1_0 : (⟨S1024, .f32⟩ : BufTy).Contents (Elt F) → (⟨S1024x1, .f32⟩ : BufTy).Contents (Elt F)),
    unary main_v208 main_v215 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v215 main_v216 rfl shapeCasts_S1024x1x16_S1024x16,
    unary main_v212 main_v217 (broadcastInDim S1024x16 ![0, 1] bcast_S1024x1_S1024x16_0_1 : (⟨S1024x1, .f32⟩ : BufTy).Contents (Elt F) → (⟨S1024x16, .f32⟩ : BufTy).Contents (Elt F)),
    binary main_v217 main_v201 main_v218 (mulf : (⟨S1024x16, .f32⟩ : BufTy).Contents (Elt F) → (⟨S1024x16, .f32⟩ : BufTy).Contents (Elt F) → (⟨S1024x16, .f32⟩ : BufTy).Contents (Elt F)),
    unary main_v214 main_v219 (broadcastInDim S1024x16 ![0, 1] bcast_S1024x1_S1024x16_0_1 : (⟨S1024x1, .f32⟩ : BufTy).Contents (Elt F) → (⟨S1024x16, .f32⟩ : BufTy).Contents (Elt F)),
    binary main_v219 main_v216 main_v220 (mulf : (⟨S1024x16, .f32⟩ : BufTy).Contents (Elt F) → (⟨S1024x16, .f32⟩ : BufTy).Contents (Elt F) → (⟨S1024x16, .f32⟩ : BufTy).Contents (Elt F)),
    binary main_v218 main_v220 main_v221 (subf : (⟨S1024x16, .f32⟩ : BufTy).Contents (Elt F) → (⟨S1024x16, .f32⟩ : BufTy).Contents (Elt F) → (⟨S1024x16, .f32⟩ : BufTy).Contents (Elt F)),
    unary main_v214 main_v222 (broadcastInDim S1024x16 ![0, 1] bcast_S1024x1_S1024x16_0_1 : (⟨S1024x1, .f32⟩ : BufTy).Contents (Elt F) → (⟨S1024x16, .f32⟩ : BufTy).Contents (Elt F)),
    binary main_v222 main_v201 main_v223 (mulf : (⟨S1024x16, .f32⟩ : BufTy).Contents (Elt F) → (⟨S1024x16, .f32⟩ : BufTy).Contents (Elt F) → (⟨S1024x16, .f32⟩ : BufTy).Contents (Elt F)),
    unary main_v212 main_v224 (broadcastInDim S1024x16 ![0, 1] bcast_S1024x1_S1024x16_0_1 : (⟨S1024x1, .f32⟩ : BufTy).Contents (Elt F) → (⟨S1024x16, .f32⟩ : BufTy).Contents (Elt F)),
    binary main_v224 main_v216 main_v225 (mulf : (⟨S1024x16, .f32⟩ : BufTy).Contents (Elt F) → (⟨S1024x16, .f32⟩ : BufTy).Contents (Elt F) → (⟨S1024x16, .f32⟩ : BufTy).Contents (Elt F)),
    binary main_v223 main_v225 main_v226 (addf : (⟨S1024x16, .f32⟩ : BufTy).Contents (Elt F) → (⟨S1024x16, .f32⟩ : BufTy).Contents (Elt F) → (⟨S1024x16, .f32⟩ : BufTy).Contents (Elt F)),
    nullary main_c_10 (constantI S_ 32 11#32),
    unary main_c_10 main_v227 (broadcastInDim S1 ![] bcast_S_S1 : (⟨S_, .i32⟩ : BufTy).Contents (Elt F) → (⟨S1, .i32⟩ : BufTy).Contents (Elt F)) ]
/-- Operations 1 … 20 of window 4. -/
abbrev st12 : List (HloOp τ sig (Elt F)) :=
  [ ternary main_v208 main_v227 main_v226 main_v228 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v229 ((extractStridedSlice S1024x1 ![0, 11] · slices_S1024x120_S1024x1_0_11) : (⟨S1024x120, .f32⟩ : BufTy).Contents (Elt F) → (⟨S1024x1, .f32⟩ : BufTy).Contents (Elt F)),
    reshape main_v229 main_v230 rfl shapeCasts_S1024x1_S1024,
    unary main_v230 main_v231 (Host.cos : (⟨S1024, .f32⟩ : BufTy).Contents (Elt F) → (⟨S1024, .f32⟩ : BufTy).Contents (Elt F)),
    unary main_v231 main_v232 (broadcastInDim S1024x1 ![0] bcast_S1024_S1024x1_0 : (⟨S1024, .f32⟩ : BufTy).Contents (Elt F) → (⟨S1024x1, .f32⟩ : BufTy).Contents (Elt F)),
    unary main_v230 main_v233 (Host.sin : (⟨S1024, .f32⟩ : BufTy).Contents (Elt F) → (⟨S1024, .f32⟩ : BufTy).Contents (Elt F)),
    unary main_v233 main_v234 (broadcastInDim S1024x1 ![0] bcast_S1024_S1024x1_0 : (⟨S1024, .f32⟩ : BufTy).Contents (Elt F) → (⟨S1024x1, .f32⟩ : BufTy).Contents (Elt F)),
    unary main_v228 main_v235 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v235 main_v236 rfl shapeCasts_S1024x1x16_S1024x16,
    unary main_v232 main_v237 (broadcastInDim S1024x16 ![0, 1] bcast_S1024x1_S1024x16_0_1 : (⟨S1024x1, .f32⟩ : BufTy).Contents (Elt F) → (⟨S1024x16, .f32⟩ : BufTy).Contents (Elt F)),
    binary main_v237 main_v221 main_v238 (mulf : (⟨S1024x16, .f32⟩ : BufTy).Contents (Elt F) → (⟨S1024x16, .f32⟩ : BufTy).Contents (Elt F) → (⟨S1024x16, .f32⟩ : BufTy).Contents (Elt F)),
    unary main_v234 main_v239 (broadcastInDim S1024x16 ![0, 1] bcast_S1024x1_S1024x16_0_1 : (⟨S1024x1, .f32⟩ : BufTy).Contents (Elt F) → (⟨S1024x16, .f32⟩ : BufTy).Contents (Elt F)),
    binary main_v239 main_v236 main_v240 (mulf : (⟨S1024x16, .f32⟩ : BufTy).Contents (Elt F) → (⟨S1024x16, .f32⟩ : BufTy).Contents (Elt F) → (⟨S1024x16, .f32⟩ : BufTy).Contents (Elt F)),
    binary main_v238 main_v240 main_v241 (subf : (⟨S1024x16, .f32⟩ : BufTy).Contents (Elt F) → (⟨S1024x16, .f32⟩ : BufTy).Contents (Elt F) → (⟨S1024x16, .f32⟩ : BufTy).Contents (Elt F)),
    unary main_v234 main_v242 (broadcastInDim S1024x16 ![0, 1] bcast_S1024x1_S1024x16_0_1 : (⟨S1024x1, .f32⟩ : BufTy).Contents (Elt F) → (⟨S1024x16, .f32⟩ : BufTy).Contents (Elt F)),
    binary main_v242 main_v221 main_v243 (mulf : (⟨S1024x16, .f32⟩ : BufTy).Contents (Elt F) → (⟨S1024x16, .f32⟩ : BufTy).Contents (Elt F) → (⟨S1024x16, .f32⟩ : BufTy).Contents (Elt F)),
    unary main_v232 main_v244 (broadcastInDim S1024x16 ![0, 1] bcast_S1024x1_S1024x16_0_1 : (⟨S1024x1, .f32⟩ : BufTy).Contents (Elt F) → (⟨S1024x16, .f32⟩ : BufTy).Contents (Elt F)),
    binary main_v244 main_v236 main_v245 (mulf : (⟨S1024x16, .f32⟩ : BufTy).Contents (Elt F) → (⟨S1024x16, .f32⟩ : BufTy).Contents (Elt F) → (⟨S1024x16, .f32⟩ : BufTy).Contents (Elt F)),
    binary main_v243 main_v245 main_v246 (addf : (⟨S1024x16, .f32⟩ : BufTy).Contents (Elt F) → (⟨S1024x16, .f32⟩ : BufTy).Contents (Elt F) → (⟨S1024x16, .f32⟩ : BufTy).Contents (Elt F)),
    nullary main_c_11 (constantI S_ 32 12#32) ]
/-- Operations 21 … 40 of window 4. -/
abbrev st13 : List (HloOp τ sig (Elt F)) :=
  [ unary main_c_11 main_v247 (broadcastInDim S1 ![] bcast_S_S1 : (⟨S_, .i32⟩ : BufTy).Contents (Elt F) → (⟨S1, .i32⟩ : BufTy).Contents (Elt F)),
    ternary main_v228 main_v247 main_v246 main_v248 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v249 ((extractStridedSlice S1024x1 ![0, 12] · slices_S1024x120_S1024x1_0_12) : (⟨S1024x120, .f32⟩ : BufTy).Contents (Elt F) → (⟨S1024x1, .f32⟩ : BufTy).Contents (Elt F)),
    reshape main_v249 main_v250 rfl shapeCasts_S1024x1_S1024,
    unary main_v250 main_v251 (Host.cos : (⟨S1024, .f32⟩ : BufTy).Contents (Elt F) → (⟨S1024, .f32⟩ : BufTy).Contents (Elt F)),
    unary main_v251 main_v252 (broadcastInDim S1024x1 ![0] bcast_S1024_S1024x1_0 : (⟨S1024, .f32⟩ : BufTy).Contents (Elt F) → (⟨S1024x1, .f32⟩ : BufTy).Contents (Elt F)),
    unary main_v250 main_v253 (Host.sin : (⟨S1024, .f32⟩ : BufTy).Contents (Elt F) → (⟨S1024, .f32⟩ : BufTy).Contents (Elt F)),
    unary main_v253 main_v254 (broadcastInDim S1024x1 ![0] bcast_S1024_S1024x1_0 : (⟨S1024, .f32⟩ : BufTy).Contents (Elt F) → (⟨S1024x1, .f32⟩ : BufTy).Contents (Elt F)),
    unary main_v248 main_v255 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v255 main_v256 rfl shapeCasts_S1024x1x16_S1024x16,
    unary main_v252 main_v257 (broadcastInDim S1024x16 ![0, 1] bcast_S1024x1_S1024x16_0_1 : (⟨S1024x1, .f32⟩ : BufTy).Contents (Elt F) → (⟨S1024x16, .f32⟩ : BufTy).Contents (Elt F)),
    binary main_v257 main_v241 main_v258 (mulf : (⟨S1024x16, .f32⟩ : BufTy).Contents (Elt F) → (⟨S1024x16, .f32⟩ : BufTy).Contents (Elt F) → (⟨S1024x16, .f32⟩ : BufTy).Contents (Elt F)),
    unary main_v254 main_v259 (broadcastInDim S1024x16 ![0, 1] bcast_S1024x1_S1024x16_0_1 : (⟨S1024x1, .f32⟩ : BufTy).Contents (Elt F) → (⟨S1024x16, .f32⟩ : BufTy).Contents (Elt F)),
    binary main_v259 main_v256 main_v260 (mulf : (⟨S1024x16, .f32⟩ : BufTy).Contents (Elt F) → (⟨S1024x16, .f32⟩ : BufTy).Contents (Elt F) → (⟨S1024x16, .f32⟩ : BufTy).Contents (Elt F)),
    binary main_v258 main_v260 main_v261 (subf : (⟨S1024x16, .f32⟩ : BufTy).Contents (Elt F) → (⟨S1024x16, .f32⟩ : BufTy).Contents (Elt F) → (⟨S1024x16, .f32⟩ : BufTy).Contents (Elt F)),
    unary main_v254 main_v262 (broadcastInDim S1024x16 ![0, 1] bcast_S1024x1_S1024x16_0_1 : (⟨S1024x1, .f32⟩ : BufTy).Contents (Elt F) → (⟨S1024x16, .f32⟩ : BufTy).Contents (Elt F)),
    binary main_v262 main_v241 main_v263 (mulf : (⟨S1024x16, .f32⟩ : BufTy).Contents (Elt F) → (⟨S1024x16, .f32⟩ : BufTy).Contents (Elt F) → (⟨S1024x16, .f32⟩ : BufTy).Contents (Elt F)),
    unary main_v252 main_v264 (broadcastInDim S1024x16 ![0, 1] bcast_S1024x1_S1024x16_0_1 : (⟨S1024x1, .f32⟩ : BufTy).Contents (Elt F) → (⟨S1024x16, .f32⟩ : BufTy).Contents (Elt F)),
    binary main_v264 main_v256 main_v265 (mulf : (⟨S1024x16, .f32⟩ : BufTy).Contents (Elt F) → (⟨S1024x16, .f32⟩ : BufTy).Contents (Elt F) → (⟨S1024x16, .f32⟩ : BufTy).Contents (Elt F)),
    binary main_v263 main_v265 main_v266 (addf : (⟨S1024x16, .f32⟩ : BufTy).Contents (Elt F) → (⟨S1024x16, .f32⟩ : BufTy).Contents (Elt F) → (⟨S1024x16, .f32⟩ : BufTy).Contents (Elt F)) ]
/-- Operations 41 … 60 of window 4. -/
abbrev st14 : List (HloOp τ sig (Elt F)) :=
  [ nullary main_c_12 (constantI S_ 32 13#32),
    unary main_c_12 main_v267 (broadcastInDim S1 ![] bcast_S_S1 : (⟨S_, .i32⟩ : BufTy).Contents (Elt F) → (⟨S1, .i32⟩ : BufTy).Contents (Elt F)),
    ternary main_v248 main_v267 main_v266 main_v268 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v269 ((extractStridedSlice S1024x1 ![0, 13] · slices_S1024x120_S1024x1_0_13) : (⟨S1024x120, .f32⟩ : BufTy).Contents (Elt F) → (⟨S1024x1, .f32⟩ : BufTy).Contents (Elt F)),
    reshape main_v269 main_v270 rfl shapeCasts_S1024x1_S1024,
    unary main_v270 main_v271 (Host.cos : (⟨S1024, .f32⟩ : BufTy).Contents (Elt F) → (⟨S1024, .f32⟩ : BufTy).Contents (Elt F)),
    unary main_v271 main_v272 (broadcastInDim S1024x1 ![0] bcast_S1024_S1024x1_0 : (⟨S1024, .f32⟩ : BufTy).Contents (Elt F) → (⟨S1024x1, .f32⟩ : BufTy).Contents (Elt F)),
    unary main_v270 main_v273 (Host.sin : (⟨S1024, .f32⟩ : BufTy).Contents (Elt F) → (⟨S1024, .f32⟩ : BufTy).Contents (Elt F)),
    unary main_v273 main_v274 (broadcastInDim S1024x1 ![0] bcast_S1024_S1024x1_0 : (⟨S1024, .f32⟩ : BufTy).Contents (Elt F) → (⟨S1024x1, .f32⟩ : BufTy).Contents (Elt F)),
    unary main_v268 main_v275 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v275 main_v276 rfl shapeCasts_S1024x1x16_S1024x16,
    unary main_v272 main_v277 (broadcastInDim S1024x16 ![0, 1] bcast_S1024x1_S1024x16_0_1 : (⟨S1024x1, .f32⟩ : BufTy).Contents (Elt F) → (⟨S1024x16, .f32⟩ : BufTy).Contents (Elt F)),
    binary main_v277 main_v261 main_v278 (mulf : (⟨S1024x16, .f32⟩ : BufTy).Contents (Elt F) → (⟨S1024x16, .f32⟩ : BufTy).Contents (Elt F) → (⟨S1024x16, .f32⟩ : BufTy).Contents (Elt F)),
    unary main_v274 main_v279 (broadcastInDim S1024x16 ![0, 1] bcast_S1024x1_S1024x16_0_1 : (⟨S1024x1, .f32⟩ : BufTy).Contents (Elt F) → (⟨S1024x16, .f32⟩ : BufTy).Contents (Elt F)),
    binary main_v279 main_v276 main_v280 (mulf : (⟨S1024x16, .f32⟩ : BufTy).Contents (Elt F) → (⟨S1024x16, .f32⟩ : BufTy).Contents (Elt F) → (⟨S1024x16, .f32⟩ : BufTy).Contents (Elt F)),
    binary main_v278 main_v280 main_v281 (subf : (⟨S1024x16, .f32⟩ : BufTy).Contents (Elt F) → (⟨S1024x16, .f32⟩ : BufTy).Contents (Elt F) → (⟨S1024x16, .f32⟩ : BufTy).Contents (Elt F)),
    unary main_v274 main_v282 (broadcastInDim S1024x16 ![0, 1] bcast_S1024x1_S1024x16_0_1 : (⟨S1024x1, .f32⟩ : BufTy).Contents (Elt F) → (⟨S1024x16, .f32⟩ : BufTy).Contents (Elt F)),
    binary main_v282 main_v261 main_v283 (mulf : (⟨S1024x16, .f32⟩ : BufTy).Contents (Elt F) → (⟨S1024x16, .f32⟩ : BufTy).Contents (Elt F) → (⟨S1024x16, .f32⟩ : BufTy).Contents (Elt F)),
    unary main_v272 main_v284 (broadcastInDim S1024x16 ![0, 1] bcast_S1024x1_S1024x16_0_1 : (⟨S1024x1, .f32⟩ : BufTy).Contents (Elt F) → (⟨S1024x16, .f32⟩ : BufTy).Contents (Elt F)),
    binary main_v284 main_v276 main_v285 (mulf : (⟨S1024x16, .f32⟩ : BufTy).Contents (Elt F) → (⟨S1024x16, .f32⟩ : BufTy).Contents (Elt F) → (⟨S1024x16, .f32⟩ : BufTy).Contents (Elt F)) ]
/-- Operations 1 … 20 of window 5. -/
abbrev st15 : List (HloOp τ sig (Elt F)) :=
  [ binary main_v283 main_v285 main_v286 (addf : (⟨S1024x16, .f32⟩ : BufTy).Contents (Elt F) → (⟨S1024x16, .f32⟩ : BufTy).Contents (Elt F) → (⟨S1024x16, .f32⟩ : BufTy).Contents (Elt F)),
    nullary main_c_13 (constantI S_ 32 14#32),
    unary main_c_13 main_v287 (broadcastInDim S1 ![] bcast_S_S1 : (⟨S_, .i32⟩ : BufTy).Contents (Elt F) → (⟨S1, .i32⟩ : BufTy).Contents (Elt F)),
    ternary main_v268 main_v287 main_v286 main_v288 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v289 ((extractStridedSlice S1024x1 ![0, 14] · slices_S1024x120_S1024x1_0_14) : (⟨S1024x120, .f32⟩ : BufTy).Contents (Elt F) → (⟨S1024x1, .f32⟩ : BufTy).Contents (Elt F)),
    reshape main_v289 main_v290 rfl shapeCasts_S1024x1_S1024,
    unary main_v290 main_v291 (Host.cos : (⟨S1024, .f32⟩ : BufTy).Contents (Elt F) → (⟨S1024, .f32⟩ : BufTy).Contents (Elt F)),
    unary main_v291 main_v292 (broadcastInDim S1024x1 ![0] bcast_S1024_S1024x1_0 : (⟨S1024, .f32⟩ : BufTy).Contents (Elt F) → (⟨S1024x1, .f32⟩ : BufTy).Contents (Elt F)),
    unary main_v290 main_v293 (Host.sin : (⟨S1024, .f32⟩ : BufTy).Contents (Elt F) → (⟨S1024, .f32⟩ : BufTy).Contents (Elt F)),
    unary main_v293 main_v294 (broadcastInDim S1024x1 ![0] bcast_S1024_S1024x1_0 : (⟨S1024, .f32⟩ : BufTy).Contents (Elt F) → (⟨S1024x1, .f32⟩ : BufTy).Contents (Elt F)),
    unary main_v288 main_v295 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v295 main_v296 rfl shapeCasts_S1024x1x16_S1024x16,
    unary main_v292 main_v297 (broadcastInDim S1024x16 ![0, 1] bcast_S1024x1_S1024x16_0_1 : (⟨S1024x1, .f32⟩ : BufTy).Contents (Elt F) → (⟨S1024x16, .f32⟩ : BufTy).Contents (Elt F)),
    binary main_v297 main_v281 main_v298 (mulf : (⟨S1024x16, .f32⟩ : BufTy).Contents (Elt F) → (⟨S1024x16, .f32⟩ : BufTy).Contents (Elt F) → (⟨S1024x16, .f32⟩ : BufTy).Contents (Elt F)),
    unary main_v294 main_v299 (broadcastInDim S1024x16 ![0, 1] bcast_S1024x1_S1024x16_0_1 : (⟨S1024x1, .f32⟩ : BufTy).Contents (Elt F) → (⟨S1024x16, .f32⟩ : BufTy).Contents (Elt F)),
    binary main_v299 main_v296 main_v300 (mulf : (⟨S1024x16, .f32⟩ : BufTy).Contents (Elt F) → (⟨S1024x16, .f32⟩ : BufTy).Contents (Elt F) → (⟨S1024x16, .f32⟩ : BufTy).Contents (Elt F)),
    binary main_v298 main_v300 main_v301 (subf : (⟨S1024x16, .f32⟩ : BufTy).Contents (Elt F) → (⟨S1024x16, .f32⟩ : BufTy).Contents (Elt F) → (⟨S1024x16, .f32⟩ : BufTy).Contents (Elt F)),
    unary main_v294 main_v302 (broadcastInDim S1024x16 ![0, 1] bcast_S1024x1_S1024x16_0_1 : (⟨S1024x1, .f32⟩ : BufTy).Contents (Elt F) → (⟨S1024x16, .f32⟩ : BufTy).Contents (Elt F)),
    binary main_v302 main_v281 main_v303 (mulf : (⟨S1024x16, .f32⟩ : BufTy).Contents (Elt F) → (⟨S1024x16, .f32⟩ : BufTy).Contents (Elt F) → (⟨S1024x16, .f32⟩ : BufTy).Contents (Elt F)),
    unary main_v292 main_v304 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 5. -/
abbrev st16 : List (HloOp τ sig (Elt F)) :=
  [ binary main_v304 main_v296 main_v305 (mulf : (⟨S1024x16, .f32⟩ : BufTy).Contents (Elt F) → (⟨S1024x16, .f32⟩ : BufTy).Contents (Elt F) → (⟨S1024x16, .f32⟩ : BufTy).Contents (Elt F)),
    binary main_v303 main_v305 main_v306 (addf : (⟨S1024x16, .f32⟩ : BufTy).Contents (Elt F) → (⟨S1024x16, .f32⟩ : BufTy).Contents (Elt F) → (⟨S1024x16, .f32⟩ : BufTy).Contents (Elt F)),
    nullary main_c_14 (constantI S_ 32 15#32),
    unary main_c_14 main_v307 (broadcastInDim S1 ![] bcast_S_S1 : (⟨S_, .i32⟩ : BufTy).Contents (Elt F) → (⟨S1, .i32⟩ : BufTy).Contents (Elt F)),
    ternary main_v288 main_v307 main_v306 main_v308 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_15 (constantI S_ 32 0#32),
    unary main_c_15 main_v309 (broadcastInDim S1 ![] bcast_S_S1 : (⟨S_, .i32⟩ : BufTy).Contents (Elt F) → (⟨S1, .i32⟩ : BufTy).Contents (Elt F)),
    ternary main_v308 main_v309 main_v301 main_v310 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v310 main_v311 ((extractStridedSlice S1024x1x16 ![0, 1, 0] · slices_S1024x16x16_S1024x1x16_0_1_0) : (⟨S1024x16x16, .f32⟩ : BufTy).Contents (Elt F) → (⟨S1024x1x16, .f32⟩ : BufTy).Contents (Elt F)),
    reshape main_v311 main_v312 rfl shapeCasts_S1024x1x16_S1024x16,
    unary main_arg1 main_v313 ((extractStridedSlice S1024x1 ![0, 15] · slices_S1024x120_S1024x1_0_15) : (⟨S1024x120, .f32⟩ : BufTy).Contents (Elt F) → (⟨S1024x1, .f32⟩ : BufTy).Contents (Elt F)),
    reshape main_v313 main_v314 rfl shapeCasts_S1024x1_S1024,
    unary main_v314 main_v315 (Host.cos : (⟨S1024, .f32⟩ : BufTy).Contents (Elt F) → (⟨S1024, .f32⟩ : BufTy).Contents (Elt F)),
    unary main_v315 main_v316 (broadcastInDim S1024x1 ![0] bcast_S1024_S1024x1_0 : (⟨S1024, .f32⟩ : BufTy).Contents (Elt F) → (⟨S1024x1, .f32⟩ : BufTy).Contents (Elt F)),
    unary main_v314 main_v317 (Host.sin : (⟨S1024, .f32⟩ : BufTy).Contents (Elt F) → (⟨S1024, .f32⟩ : BufTy).Contents (Elt F)),
    unary main_v317 main_v318 (broadcastInDim S1024x1 ![0] bcast_S1024_S1024x1_0 : (⟨S1024, .f32⟩ : BufTy).Contents (Elt F) → (⟨S1024x1, .f32⟩ : BufTy).Contents (Elt F)),
    unary main_v310 main_v319 ((extractStridedSlice S1024x1x16 ![0, 2, 0] · slices_S1024x16x16_S1024x1x16_0_2_0) : (⟨S1024x16x16, .f32⟩ : BufTy).Contents (Elt F) → (⟨S1024x1x16, .f32⟩ : BufTy).Contents (Elt F)),
    reshape main_v319 main_v320 rfl shapeCasts_S1024x1x16_S1024x16,
    unary main_v316 main_v321 (broadcastInDim S1024x16 ![0, 1] bcast_S1024x1_S1024x16_0_1 : (⟨S1024x1, .f32⟩ : BufTy).Contents (Elt F) → (⟨S1024x16, .f32⟩ : BufTy).Contents (Elt F)),
    binary main_v321 main_v312 main_v322 (mulf : (⟨S1024x16, .f32⟩ : BufTy).Contents (Elt F) → (⟨S1024x16, .f32⟩ : BufTy).Contents (Elt F) → (⟨S1024x16, .f32⟩ : BufTy).Contents (Elt F)) ]
/-- Operations 41 … 60 of window 5. -/
abbrev st17 : List (HloOp τ sig (Elt F)) :=
  [ unary main_v318 main_v323 (broadcastInDim S1024x16 ![0, 1] bcast_S1024x1_S1024x16_0_1 : (⟨S1024x1, .f32⟩ : BufTy).Contents (Elt F) → (⟨S1024x16, .f32⟩ : BufTy).Contents (Elt F)),
    binary main_v323 main_v320 main_v324 (mulf : (⟨S1024x16, .f32⟩ : BufTy).Contents (Elt F) → (⟨S1024x16, .f32⟩ : BufTy).Contents (Elt F) → (⟨S1024x16, .f32⟩ : BufTy).Contents (Elt F)),
    binary main_v322 main_v324 main_v325 (subf : (⟨S1024x16, .f32⟩ : BufTy).Contents (Elt F) → (⟨S1024x16, .f32⟩ : BufTy).Contents (Elt F) → (⟨S1024x16, .f32⟩ : BufTy).Contents (Elt F)),
    unary main_v318 main_v326 (broadcastInDim S1024x16 ![0, 1] bcast_S1024x1_S1024x16_0_1 : (⟨S1024x1, .f32⟩ : BufTy).Contents (Elt F) → (⟨S1024x16, .f32⟩ : BufTy).Contents (Elt F)),
    binary main_v326 main_v312 main_v327 (mulf : (⟨S1024x16, .f32⟩ : BufTy).Contents (Elt F) → (⟨S1024x16, .f32⟩ : BufTy).Contents (Elt F) → (⟨S1024x16, .f32⟩ : BufTy).Contents (Elt F)),
    unary main_v316 main_v328 (broadcastInDim S1024x16 ![0, 1] bcast_S1024x1_S1024x16_0_1 : (⟨S1024x1, .f32⟩ : BufTy).Contents (Elt F) → (⟨S1024x16, .f32⟩ : BufTy).Contents (Elt F)),
    binary main_v328 main_v320 main_v329 (mulf : (⟨S1024x16, .f32⟩ : BufTy).Contents (Elt F) → (⟨S1024x16, .f32⟩ : BufTy).Contents (Elt F) → (⟨S1024x16, .f32⟩ : BufTy).Contents (Elt F)),
    binary main_v327 main_v329 main_v330 (addf : (⟨S1024x16, .f32⟩ : BufTy).Contents (Elt F) → (⟨S1024x16, .f32⟩ : BufTy).Contents (Elt F) → (⟨S1024x16, .f32⟩ : BufTy).Contents (Elt F)),
    nullary main_c_16 (constantI S_ 32 2#32),
    unary main_c_16 main_v331 (broadcastInDim S1 ![] bcast_S_S1 : (⟨S_, .i32⟩ : BufTy).Contents (Elt F) → (⟨S1, .i32⟩ : BufTy).Contents (Elt F)),
    ternary main_v310 main_v331 main_v330 main_v332 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v333 ((extractStridedSlice S1024x1 ![0, 16] · slices_S1024x120_S1024x1_0_16) : (⟨S1024x120, .f32⟩ : BufTy).Contents (Elt F) → (⟨S1024x1, .f32⟩ : BufTy).Contents (Elt F)),
    reshape main_v333 main_v334 rfl shapeCasts_S1024x1_S1024,
    unary main_v334 main_v335 (Host.cos : (⟨S1024, .f32⟩ : BufTy).Contents (Elt F) → (⟨S1024, .f32⟩ : BufTy).Contents (Elt F)),
    unary main_v335 main_v336 (broadcastInDim S1024x1 ![0] bcast_S1024_S1024x1_0 : (⟨S1024, .f32⟩ : BufTy).Contents (Elt F) → (⟨S1024x1, .f32⟩ : BufTy).Contents (Elt F)),
    unary main_v334 main_v337 (Host.sin : (⟨S1024, .f32⟩ : BufTy).Contents (Elt F) → (⟨S1024, .f32⟩ : BufTy).Contents (Elt F)),
    unary main_v337 main_v338 (broadcastInDim S1024x1 ![0] bcast_S1024_S1024x1_0 : (⟨S1024, .f32⟩ : BufTy).Contents (Elt F) → (⟨S1024x1, .f32⟩ : BufTy).Contents (Elt F)),
    unary main_v332 main_v339 ((extractStridedSlice S1024x1x16 ![0, 3, 0] · slices_S1024x16x16_S1024x1x16_0_3_0) : (⟨S1024x16x16, .f32⟩ : BufTy).Contents (Elt F) → (⟨S1024x1x16, .f32⟩ : BufTy).Contents (Elt F)),
    reshape main_v339 main_v340 rfl shapeCasts_S1024x1x16_S1024x16,
    unary main_v336 main_v341 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 6. -/
abbrev st18 : List (HloOp τ sig (Elt F)) :=
  [ binary main_v341 main_v325 main_v342 (mulf : (⟨S1024x16, .f32⟩ : BufTy).Contents (Elt F) → (⟨S1024x16, .f32⟩ : BufTy).Contents (Elt F) → (⟨S1024x16, .f32⟩ : BufTy).Contents (Elt F)),
    unary main_v338 main_v343 (broadcastInDim S1024x16 ![0, 1] bcast_S1024x1_S1024x16_0_1 : (⟨S1024x1, .f32⟩ : BufTy).Contents (Elt F) → (⟨S1024x16, .f32⟩ : BufTy).Contents (Elt F)),
    binary main_v343 main_v340 main_v344 (mulf : (⟨S1024x16, .f32⟩ : BufTy).Contents (Elt F) → (⟨S1024x16, .f32⟩ : BufTy).Contents (Elt F) → (⟨S1024x16, .f32⟩ : BufTy).Contents (Elt F)),
    binary main_v342 main_v344 main_v345 (subf : (⟨S1024x16, .f32⟩ : BufTy).Contents (Elt F) → (⟨S1024x16, .f32⟩ : BufTy).Contents (Elt F) → (⟨S1024x16, .f32⟩ : BufTy).Contents (Elt F)),
    unary main_v338 main_v346 (broadcastInDim S1024x16 ![0, 1] bcast_S1024x1_S1024x16_0_1 : (⟨S1024x1, .f32⟩ : BufTy).Contents (Elt F) → (⟨S1024x16, .f32⟩ : BufTy).Contents (Elt F)),
    binary main_v346 main_v325 main_v347 (mulf : (⟨S1024x16, .f32⟩ : BufTy).Contents (Elt F) → (⟨S1024x16, .f32⟩ : BufTy).Contents (Elt F) → (⟨S1024x16, .f32⟩ : BufTy).Contents (Elt F)),
    unary main_v336 main_v348 (broadcastInDim S1024x16 ![0, 1] bcast_S1024x1_S1024x16_0_1 : (⟨S1024x1, .f32⟩ : BufTy).Contents (Elt F) → (⟨S1024x16, .f32⟩ : BufTy).Contents (Elt F)),
    binary main_v348 main_v340 main_v349 (mulf : (⟨S1024x16, .f32⟩ : BufTy).Contents (Elt F) → (⟨S1024x16, .f32⟩ : BufTy).Contents (Elt F) → (⟨S1024x16, .f32⟩ : BufTy).Contents (Elt F)),
    binary main_v347 main_v349 main_v350 (addf : (⟨S1024x16, .f32⟩ : BufTy).Contents (Elt F) → (⟨S1024x16, .f32⟩ : BufTy).Contents (Elt F) → (⟨S1024x16, .f32⟩ : BufTy).Contents (Elt F)),
    nullary main_c_17 (constantI S_ 32 3#32),
    unary main_c_17 main_v351 (broadcastInDim S1 ![] bcast_S_S1 : (⟨S_, .i32⟩ : BufTy).Contents (Elt F) → (⟨S1, .i32⟩ : BufTy).Contents (Elt F)),
    ternary main_v332 main_v351 main_v350 main_v352 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v353 ((extractStridedSlice S1024x1 ![0, 17] · slices_S1024x120_S1024x1_0_17) : (⟨S1024x120, .f32⟩ : BufTy).Contents (Elt F) → (⟨S1024x1, .f32⟩ : BufTy).Contents (Elt F)),
    reshape main_v353 main_v354 rfl shapeCasts_S1024x1_S1024,
    unary main_v354 main_v355 (Host.cos : (⟨S1024, .f32⟩ : BufTy).Contents (Elt F) → (⟨S1024, .f32⟩ : BufTy).Contents (Elt F)),
    unary main_v355 main_v356 (broadcastInDim S1024x1 ![0] bcast_S1024_S1024x1_0 : (⟨S1024, .f32⟩ : BufTy).Contents (Elt F) → (⟨S1024x1, .f32⟩ : BufTy).Contents (Elt F)),
    unary main_v354 main_v357 (Host.sin : (⟨S1024, .f32⟩ : BufTy).Contents (Elt F) → (⟨S1024, .f32⟩ : BufTy).Contents (Elt F)),
    unary main_v357 main_v358 (broadcastInDim S1024x1 ![0] bcast_S1024_S1024x1_0 : (⟨S1024, .f32⟩ : BufTy).Contents (Elt F) → (⟨S1024x1, .f32⟩ : BufTy).Contents (Elt F)),
    unary main_v352 main_v359 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)),
    reshape main_v359 main_v360 rfl shapeCasts_S1024x1x16_S1024x16 ]
/-- Operations 21 … 40 of window 6. -/
abbrev st19 : List (HloOp τ sig (Elt F)) :=
  [ unary main_v356 main_v361 (broadcastInDim S1024x16 ![0, 1] bcast_S1024x1_S1024x16_0_1 : (⟨S1024x1, .f32⟩ : BufTy).Contents (Elt F) → (⟨S1024x16, .f32⟩ : BufTy).Contents (Elt F)),
    binary main_v361 main_v345 main_v362 (mulf : (⟨S1024x16, .f32⟩ : BufTy).Contents (Elt F) → (⟨S1024x16, .f32⟩ : BufTy).Contents (Elt F) → (⟨S1024x16, .f32⟩ : BufTy).Contents (Elt F)),
    unary main_v358 main_v363 (broadcastInDim S1024x16 ![0, 1] bcast_S1024x1_S1024x16_0_1 : (⟨S1024x1, .f32⟩ : BufTy).Contents (Elt F) → (⟨S1024x16, .f32⟩ : BufTy).Contents (Elt F)),
    binary main_v363 main_v360 main_v364 (mulf : (⟨S1024x16, .f32⟩ : BufTy).Contents (Elt F) → (⟨S1024x16, .f32⟩ : BufTy).Contents (Elt F) → (⟨S1024x16, .f32⟩ : BufTy).Contents (Elt F)),
    binary main_v362 main_v364 main_v365 (subf : (⟨S1024x16, .f32⟩ : BufTy).Contents (Elt F) → (⟨S1024x16, .f32⟩ : BufTy).Contents (Elt F) → (⟨S1024x16, .f32⟩ : BufTy).Contents (Elt F)),
    unary main_v358 main_v366 (broadcastInDim S1024x16 ![0, 1] bcast_S1024x1_S1024x16_0_1 : (⟨S1024x1, .f32⟩ : BufTy).Contents (Elt F) → (⟨S1024x16, .f32⟩ : BufTy).Contents (Elt F)),
    binary main_v366 main_v345 main_v367 (mulf : (⟨S1024x16, .f32⟩ : BufTy).Contents (Elt F) → (⟨S1024x16, .f32⟩ : BufTy).Contents (Elt F) → (⟨S1024x16, .f32⟩ : BufTy).Contents (Elt F)),
    unary main_v356 main_v368 (broadcastInDim S1024x16 ![0, 1] bcast_S1024x1_S1024x16_0_1 : (⟨S1024x1, .f32⟩ : BufTy).Contents (Elt F) → (⟨S1024x16, .f32⟩ : BufTy).Contents (Elt F)),
    binary main_v368 main_v360 main_v369 (mulf : (⟨S1024x16, .f32⟩ : BufTy).Contents (Elt F) → (⟨S1024x16, .f32⟩ : BufTy).Contents (Elt F) → (⟨S1024x16, .f32⟩ : BufTy).Contents (Elt F)),
    binary main_v367 main_v369 main_v370 (addf : (⟨S1024x16, .f32⟩ : BufTy).Contents (Elt F) → (⟨S1024x16, .f32⟩ : BufTy).Contents (Elt F) → (⟨S1024x16, .f32⟩ : BufTy).Contents (Elt F)),
    nullary main_c_18 (constantI S_ 32 4#32),
    unary main_c_18 main_v371 (broadcastInDim S1 ![] bcast_S_S1 : (⟨S_, .i32⟩ : BufTy).Contents (Elt F) → (⟨S1, .i32⟩ : BufTy).Contents (Elt F)),
    ternary main_v352 main_v371 main_v370 main_v372 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v373 ((extractStridedSlice S1024x1 ![0, 18] · slices_S1024x120_S1024x1_0_18) : (⟨S1024x120, .f32⟩ : BufTy).Contents (Elt F) → (⟨S1024x1, .f32⟩ : BufTy).Contents (Elt F)),
    reshape main_v373 main_v374 rfl shapeCasts_S1024x1_S1024,
    unary main_v374 main_v375 (Host.cos : (⟨S1024, .f32⟩ : BufTy).Contents (Elt F) → (⟨S1024, .f32⟩ : BufTy).Contents (Elt F)),
    unary main_v375 main_v376 (broadcastInDim S1024x1 ![0] bcast_S1024_S1024x1_0 : (⟨S1024, .f32⟩ : BufTy).Contents (Elt F) → (⟨S1024x1, .f32⟩ : BufTy).Contents (Elt F)),
    unary main_v374 main_v377 (Host.sin : (⟨S1024, .f32⟩ : BufTy).Contents (Elt F) → (⟨S1024, .f32⟩ : BufTy).Contents (Elt F)),
    unary main_v377 main_v378 (broadcastInDim S1024x1 ![0] bcast_S1024_S1024x1_0 : (⟨S1024, .f32⟩ : BufTy).Contents (Elt F) → (⟨S1024x1, .f32⟩ : BufTy).Contents (Elt F)),
    unary main_v372 main_v379 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)) ]
/-- Operations 41 … 60 of window 6. -/
abbrev st20 : List (HloOp τ sig (Elt F)) :=
  [ reshape main_v379 main_v380 rfl shapeCasts_S1024x1x16_S1024x16,
    unary main_v376 main_v381 (broadcastInDim S1024x16 ![0, 1] bcast_S1024x1_S1024x16_0_1 : (⟨S1024x1, .f32⟩ : BufTy).Contents (Elt F) → (⟨S1024x16, .f32⟩ : BufTy).Contents (Elt F)),
    binary main_v381 main_v365 main_v382 (mulf : (⟨S1024x16, .f32⟩ : BufTy).Contents (Elt F) → (⟨S1024x16, .f32⟩ : BufTy).Contents (Elt F) → (⟨S1024x16, .f32⟩ : BufTy).Contents (Elt F)),
    unary main_v378 main_v383 (broadcastInDim S1024x16 ![0, 1] bcast_S1024x1_S1024x16_0_1 : (⟨S1024x1, .f32⟩ : BufTy).Contents (Elt F) → (⟨S1024x16, .f32⟩ : BufTy).Contents (Elt F)),
    binary main_v383 main_v380 main_v384 (mulf : (⟨S1024x16, .f32⟩ : BufTy).Contents (Elt F) → (⟨S1024x16, .f32⟩ : BufTy).Contents (Elt F) → (⟨S1024x16, .f32⟩ : BufTy).Contents (Elt F)),
    binary main_v382 main_v384 main_v385 (subf : (⟨S1024x16, .f32⟩ : BufTy).Contents (Elt F) → (⟨S1024x16, .f32⟩ : BufTy).Contents (Elt F) → (⟨S1024x16, .f32⟩ : BufTy).Contents (Elt F)),
    unary main_v378 main_v386 (broadcastInDim S1024x16 ![0, 1] bcast_S1024x1_S1024x16_0_1 : (⟨S1024x1, .f32⟩ : BufTy).Contents (Elt F) → (⟨S1024x16, .f32⟩ : BufTy).Contents (Elt F)),
    binary main_v386 main_v365 main_v387 (mulf : (⟨S1024x16, .f32⟩ : BufTy).Contents (Elt F) → (⟨S1024x16, .f32⟩ : BufTy).Contents (Elt F) → (⟨S1024x16, .f32⟩ : BufTy).Contents (Elt F)),
    unary main_v376 main_v388 (broadcastInDim S1024x16 ![0, 1] bcast_S1024x1_S1024x16_0_1 : (⟨S1024x1, .f32⟩ : BufTy).Contents (Elt F) → (⟨S1024x16, .f32⟩ : BufTy).Contents (Elt F)),
    binary main_v388 main_v380 main_v389 (mulf : (⟨S1024x16, .f32⟩ : BufTy).Contents (Elt F) → (⟨S1024x16, .f32⟩ : BufTy).Contents (Elt F) → (⟨S1024x16, .f32⟩ : BufTy).Contents (Elt F)),
    binary main_v387 main_v389 main_v390 (addf : (⟨S1024x16, .f32⟩ : BufTy).Contents (Elt F) → (⟨S1024x16, .f32⟩ : BufTy).Contents (Elt F) → (⟨S1024x16, .f32⟩ : BufTy).Contents (Elt F)),
    nullary main_c_19 (constantI S_ 32 5#32),
    unary main_c_19 main_v391 (broadcastInDim S1 ![] bcast_S_S1 : (⟨S_, .i32⟩ : BufTy).Contents (Elt F) → (⟨S1, .i32⟩ : BufTy).Contents (Elt F)),
    ternary main_v372 main_v391 main_v390 main_v392 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v393 ((extractStridedSlice S1024x1 ![0, 19] · slices_S1024x120_S1024x1_0_19) : (⟨S1024x120, .f32⟩ : BufTy).Contents (Elt F) → (⟨S1024x1, .f32⟩ : BufTy).Contents (Elt F)),
    reshape main_v393 main_v394 rfl shapeCasts_S1024x1_S1024,
    unary main_v394 main_v395 (Host.cos : (⟨S1024, .f32⟩ : BufTy).Contents (Elt F) → (⟨S1024, .f32⟩ : BufTy).Contents (Elt F)),
    unary main_v395 main_v396 (broadcastInDim S1024x1 ![0] bcast_S1024_S1024x1_0 : (⟨S1024, .f32⟩ : BufTy).Contents (Elt F) → (⟨S1024x1, .f32⟩ : BufTy).Contents (Elt F)),
    unary main_v394 main_v397 (Host.sin : (⟨S1024, .f32⟩ : BufTy).Contents (Elt F) → (⟨S1024, .f32⟩ : BufTy).Contents (Elt F)),
    unary main_v397 main_v398 (broadcastInDim S1024x1 ![0] bcast_S1024_S1024x1_0 : (⟨S1024, .f32⟩ : BufTy).Contents (Elt F) → (⟨S1024x1, .f32⟩ : BufTy).Contents (Elt F)) ]
/-- Operations 1 … 20 of window 7. -/
abbrev st21 : List (HloOp τ sig (Elt F)) :=
  [ unary main_v392 main_v399 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v399 main_v400 rfl shapeCasts_S1024x1x16_S1024x16,
    unary main_v396 main_v401 (broadcastInDim S1024x16 ![0, 1] bcast_S1024x1_S1024x16_0_1 : (⟨S1024x1, .f32⟩ : BufTy).Contents (Elt F) → (⟨S1024x16, .f32⟩ : BufTy).Contents (Elt F)),
    binary main_v401 main_v385 main_v402 (mulf : (⟨S1024x16, .f32⟩ : BufTy).Contents (Elt F) → (⟨S1024x16, .f32⟩ : BufTy).Contents (Elt F) → (⟨S1024x16, .f32⟩ : BufTy).Contents (Elt F)),
    unary main_v398 main_v403 (broadcastInDim S1024x16 ![0, 1] bcast_S1024x1_S1024x16_0_1 : (⟨S1024x1, .f32⟩ : BufTy).Contents (Elt F) → (⟨S1024x16, .f32⟩ : BufTy).Contents (Elt F)),
    binary main_v403 main_v400 main_v404 (mulf : (⟨S1024x16, .f32⟩ : BufTy).Contents (Elt F) → (⟨S1024x16, .f32⟩ : BufTy).Contents (Elt F) → (⟨S1024x16, .f32⟩ : BufTy).Contents (Elt F)),
    binary main_v402 main_v404 main_v405 (subf : (⟨S1024x16, .f32⟩ : BufTy).Contents (Elt F) → (⟨S1024x16, .f32⟩ : BufTy).Contents (Elt F) → (⟨S1024x16, .f32⟩ : BufTy).Contents (Elt F)),
    unary main_v398 main_v406 (broadcastInDim S1024x16 ![0, 1] bcast_S1024x1_S1024x16_0_1 : (⟨S1024x1, .f32⟩ : BufTy).Contents (Elt F) → (⟨S1024x16, .f32⟩ : BufTy).Contents (Elt F)),
    binary main_v406 main_v385 main_v407 (mulf : (⟨S1024x16, .f32⟩ : BufTy).Contents (Elt F) → (⟨S1024x16, .f32⟩ : BufTy).Contents (Elt F) → (⟨S1024x16, .f32⟩ : BufTy).Contents (Elt F)),
    unary main_v396 main_v408 (broadcastInDim S1024x16 ![0, 1] bcast_S1024x1_S1024x16_0_1 : (⟨S1024x1, .f32⟩ : BufTy).Contents (Elt F) → (⟨S1024x16, .f32⟩ : BufTy).Contents (Elt F)),
    binary main_v408 main_v400 main_v409 (mulf : (⟨S1024x16, .f32⟩ : BufTy).Contents (Elt F) → (⟨S1024x16, .f32⟩ : BufTy).Contents (Elt F) → (⟨S1024x16, .f32⟩ : BufTy).Contents (Elt F)),
    binary main_v407 main_v409 main_v410 (addf : (⟨S1024x16, .f32⟩ : BufTy).Contents (Elt F) → (⟨S1024x16, .f32⟩ : BufTy).Contents (Elt F) → (⟨S1024x16, .f32⟩ : BufTy).Contents (Elt F)),
    nullary main_c_20 (constantI S_ 32 6#32),
    unary main_c_20 main_v411 (broadcastInDim S1 ![] bcast_S_S1 : (⟨S_, .i32⟩ : BufTy).Contents (Elt F) → (⟨S1, .i32⟩ : BufTy).Contents (Elt F)),
    ternary main_v392 main_v411 main_v410 main_v412 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v413 ((extractStridedSlice S1024x1 ![0, 20] · slices_S1024x120_S1024x1_0_20) : (⟨S1024x120, .f32⟩ : BufTy).Contents (Elt F) → (⟨S1024x1, .f32⟩ : BufTy).Contents (Elt F)),
    reshape main_v413 main_v414 rfl shapeCasts_S1024x1_S1024,
    unary main_v414 main_v415 (Host.cos : (⟨S1024, .f32⟩ : BufTy).Contents (Elt F) → (⟨S1024, .f32⟩ : BufTy).Contents (Elt F)),
    unary main_v415 main_v416 (broadcastInDim S1024x1 ![0] bcast_S1024_S1024x1_0 : (⟨S1024, .f32⟩ : BufTy).Contents (Elt F) → (⟨S1024x1, .f32⟩ : BufTy).Contents (Elt F)),
    unary main_v414 main_v417 (Host.sin : (⟨S1024, .f32⟩ : BufTy).Contents (Elt F) → (⟨S1024, .f32⟩ : BufTy).Contents (Elt F)) ]
/-- Operations 21 … 40 of window 7. -/
abbrev st22 : List (HloOp τ sig (Elt F)) :=
  [ unary main_v417 main_v418 (broadcastInDim S1024x1 ![0] bcast_S1024_S1024x1_0 : (⟨S1024, .f32⟩ : BufTy).Contents (Elt F) → (⟨S1024x1, .f32⟩ : BufTy).Contents (Elt F)),
    unary main_v412 main_v419 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v419 main_v420 rfl shapeCasts_S1024x1x16_S1024x16,
    unary main_v416 main_v421 (broadcastInDim S1024x16 ![0, 1] bcast_S1024x1_S1024x16_0_1 : (⟨S1024x1, .f32⟩ : BufTy).Contents (Elt F) → (⟨S1024x16, .f32⟩ : BufTy).Contents (Elt F)),
    binary main_v421 main_v405 main_v422 (mulf : (⟨S1024x16, .f32⟩ : BufTy).Contents (Elt F) → (⟨S1024x16, .f32⟩ : BufTy).Contents (Elt F) → (⟨S1024x16, .f32⟩ : BufTy).Contents (Elt F)),
    unary main_v418 main_v423 (broadcastInDim S1024x16 ![0, 1] bcast_S1024x1_S1024x16_0_1 : (⟨S1024x1, .f32⟩ : BufTy).Contents (Elt F) → (⟨S1024x16, .f32⟩ : BufTy).Contents (Elt F)),
    binary main_v423 main_v420 main_v424 (mulf : (⟨S1024x16, .f32⟩ : BufTy).Contents (Elt F) → (⟨S1024x16, .f32⟩ : BufTy).Contents (Elt F) → (⟨S1024x16, .f32⟩ : BufTy).Contents (Elt F)),
    binary main_v422 main_v424 main_v425 (subf : (⟨S1024x16, .f32⟩ : BufTy).Contents (Elt F) → (⟨S1024x16, .f32⟩ : BufTy).Contents (Elt F) → (⟨S1024x16, .f32⟩ : BufTy).Contents (Elt F)),
    unary main_v418 main_v426 (broadcastInDim S1024x16 ![0, 1] bcast_S1024x1_S1024x16_0_1 : (⟨S1024x1, .f32⟩ : BufTy).Contents (Elt F) → (⟨S1024x16, .f32⟩ : BufTy).Contents (Elt F)),
    binary main_v426 main_v405 main_v427 (mulf : (⟨S1024x16, .f32⟩ : BufTy).Contents (Elt F) → (⟨S1024x16, .f32⟩ : BufTy).Contents (Elt F) → (⟨S1024x16, .f32⟩ : BufTy).Contents (Elt F)),
    unary main_v416 main_v428 (broadcastInDim S1024x16 ![0, 1] bcast_S1024x1_S1024x16_0_1 : (⟨S1024x1, .f32⟩ : BufTy).Contents (Elt F) → (⟨S1024x16, .f32⟩ : BufTy).Contents (Elt F)),
    binary main_v428 main_v420 main_v429 (mulf : (⟨S1024x16, .f32⟩ : BufTy).Contents (Elt F) → (⟨S1024x16, .f32⟩ : BufTy).Contents (Elt F) → (⟨S1024x16, .f32⟩ : BufTy).Contents (Elt F)),
    binary main_v427 main_v429 main_v430 (addf : (⟨S1024x16, .f32⟩ : BufTy).Contents (Elt F) → (⟨S1024x16, .f32⟩ : BufTy).Contents (Elt F) → (⟨S1024x16, .f32⟩ : BufTy).Contents (Elt F)),
    nullary main_c_21 (constantI S_ 32 7#32),
    unary main_c_21 main_v431 (broadcastInDim S1 ![] bcast_S_S1 : (⟨S_, .i32⟩ : BufTy).Contents (Elt F) → (⟨S1, .i32⟩ : BufTy).Contents (Elt F)),
    ternary main_v412 main_v431 main_v430 main_v432 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v433 ((extractStridedSlice S1024x1 ![0, 21] · slices_S1024x120_S1024x1_0_21) : (⟨S1024x120, .f32⟩ : BufTy).Contents (Elt F) → (⟨S1024x1, .f32⟩ : BufTy).Contents (Elt F)),
    reshape main_v433 main_v434 rfl shapeCasts_S1024x1_S1024,
    unary main_v434 main_v435 (Host.cos : (⟨S1024, .f32⟩ : BufTy).Contents (Elt F) → (⟨S1024, .f32⟩ : BufTy).Contents (Elt F)),
    unary main_v435 main_v436 (broadcastInDim S1024x1 ![0] bcast_S1024_S1024x1_0 : (⟨S1024, .f32⟩ : BufTy).Contents (Elt F) → (⟨S1024x1, .f32⟩ : BufTy).Contents (Elt F)) ]
/-- Operations 41 … 60 of window 7. -/
abbrev st23 : List (HloOp τ sig (Elt F)) :=
  [ unary main_v434 main_v437 (Host.sin : (⟨S1024, .f32⟩ : BufTy).Contents (Elt F) → (⟨S1024, .f32⟩ : BufTy).Contents (Elt F)),
    unary main_v437 main_v438 (broadcastInDim S1024x1 ![0] bcast_S1024_S1024x1_0 : (⟨S1024, .f32⟩ : BufTy).Contents (Elt F) → (⟨S1024x1, .f32⟩ : BufTy).Contents (Elt F)),
    unary main_v432 main_v439 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v439 main_v440 rfl shapeCasts_S1024x1x16_S1024x16,
    unary main_v436 main_v441 (broadcastInDim S1024x16 ![0, 1] bcast_S1024x1_S1024x16_0_1 : (⟨S1024x1, .f32⟩ : BufTy).Contents (Elt F) → (⟨S1024x16, .f32⟩ : BufTy).Contents (Elt F)),
    binary main_v441 main_v425 main_v442 (mulf : (⟨S1024x16, .f32⟩ : BufTy).Contents (Elt F) → (⟨S1024x16, .f32⟩ : BufTy).Contents (Elt F) → (⟨S1024x16, .f32⟩ : BufTy).Contents (Elt F)),
    unary main_v438 main_v443 (broadcastInDim S1024x16 ![0, 1] bcast_S1024x1_S1024x16_0_1 : (⟨S1024x1, .f32⟩ : BufTy).Contents (Elt F) → (⟨S1024x16, .f32⟩ : BufTy).Contents (Elt F)),
    binary main_v443 main_v440 main_v444 (mulf : (⟨S1024x16, .f32⟩ : BufTy).Contents (Elt F) → (⟨S1024x16, .f32⟩ : BufTy).Contents (Elt F) → (⟨S1024x16, .f32⟩ : BufTy).Contents (Elt F)),
    binary main_v442 main_v444 main_v445 (subf : (⟨S1024x16, .f32⟩ : BufTy).Contents (Elt F) → (⟨S1024x16, .f32⟩ : BufTy).Contents (Elt F) → (⟨S1024x16, .f32⟩ : BufTy).Contents (Elt F)),
    unary main_v438 main_v446 (broadcastInDim S1024x16 ![0, 1] bcast_S1024x1_S1024x16_0_1 : (⟨S1024x1, .f32⟩ : BufTy).Contents (Elt F) → (⟨S1024x16, .f32⟩ : BufTy).Contents (Elt F)),
    binary main_v446 main_v425 main_v447 (mulf : (⟨S1024x16, .f32⟩ : BufTy).Contents (Elt F) → (⟨S1024x16, .f32⟩ : BufTy).Contents (Elt F) → (⟨S1024x16, .f32⟩ : BufTy).Contents (Elt F)),
    unary main_v436 main_v448 (broadcastInDim S1024x16 ![0, 1] bcast_S1024x1_S1024x16_0_1 : (⟨S1024x1, .f32⟩ : BufTy).Contents (Elt F) → (⟨S1024x16, .f32⟩ : BufTy).Contents (Elt F)),
    binary main_v448 main_v440 main_v449 (mulf : (⟨S1024x16, .f32⟩ : BufTy).Contents (Elt F) → (⟨S1024x16, .f32⟩ : BufTy).Contents (Elt F) → (⟨S1024x16, .f32⟩ : BufTy).Contents (Elt F)),
    binary main_v447 main_v449 main_v450 (addf : (⟨S1024x16, .f32⟩ : BufTy).Contents (Elt F) → (⟨S1024x16, .f32⟩ : BufTy).Contents (Elt F) → (⟨S1024x16, .f32⟩ : BufTy).Contents (Elt F)),
    nullary main_c_22 (constantI S_ 32 8#32),
    unary main_c_22 main_v451 (broadcastInDim S1 ![] bcast_S_S1 : (⟨S_, .i32⟩ : BufTy).Contents (Elt F) → (⟨S1, .i32⟩ : BufTy).Contents (Elt F)),
    ternary main_v432 main_v451 main_v450 main_v452 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v453 ((extractStridedSlice S1024x1 ![0, 22] · slices_S1024x120_S1024x1_0_22) : (⟨S1024x120, .f32⟩ : BufTy).Contents (Elt F) → (⟨S1024x1, .f32⟩ : BufTy).Contents (Elt F)),
    reshape main_v453 main_v454 rfl shapeCasts_S1024x1_S1024,
    unary main_v454 main_v455 (Host.cos : (⟨S1024, .f32⟩ : BufTy).Contents (Elt F) → (⟨S1024, .f32⟩ : BufTy).Contents (Elt F)) ]
/-- Operations 1 … 20 of window 8. -/
abbrev st24 : List (HloOp τ sig (Elt F)) :=
  [ unary main_v455 main_v456 (broadcastInDim S1024x1 ![0] bcast_S1024_S1024x1_0 : (⟨S1024, .f32⟩ : BufTy).Contents (Elt F) → (⟨S1024x1, .f32⟩ : BufTy).Contents (Elt F)),
    unary main_v454 main_v457 (Host.sin : (⟨S1024, .f32⟩ : BufTy).Contents (Elt F) → (⟨S1024, .f32⟩ : BufTy).Contents (Elt F)),
    unary main_v457 main_v458 (broadcastInDim S1024x1 ![0] bcast_S1024_S1024x1_0 : (⟨S1024, .f32⟩ : BufTy).Contents (Elt F) → (⟨S1024x1, .f32⟩ : BufTy).Contents (Elt F)),
    unary main_v452 main_v459 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v459 main_v460 rfl shapeCasts_S1024x1x16_S1024x16,
    unary main_v456 main_v461 (broadcastInDim S1024x16 ![0, 1] bcast_S1024x1_S1024x16_0_1 : (⟨S1024x1, .f32⟩ : BufTy).Contents (Elt F) → (⟨S1024x16, .f32⟩ : BufTy).Contents (Elt F)),
    binary main_v461 main_v445 main_v462 (mulf : (⟨S1024x16, .f32⟩ : BufTy).Contents (Elt F) → (⟨S1024x16, .f32⟩ : BufTy).Contents (Elt F) → (⟨S1024x16, .f32⟩ : BufTy).Contents (Elt F)),
    unary main_v458 main_v463 (broadcastInDim S1024x16 ![0, 1] bcast_S1024x1_S1024x16_0_1 : (⟨S1024x1, .f32⟩ : BufTy).Contents (Elt F) → (⟨S1024x16, .f32⟩ : BufTy).Contents (Elt F)),
    binary main_v463 main_v460 main_v464 (mulf : (⟨S1024x16, .f32⟩ : BufTy).Contents (Elt F) → (⟨S1024x16, .f32⟩ : BufTy).Contents (Elt F) → (⟨S1024x16, .f32⟩ : BufTy).Contents (Elt F)),
    binary main_v462 main_v464 main_v465 (subf : (⟨S1024x16, .f32⟩ : BufTy).Contents (Elt F) → (⟨S1024x16, .f32⟩ : BufTy).Contents (Elt F) → (⟨S1024x16, .f32⟩ : BufTy).Contents (Elt F)),
    unary main_v458 main_v466 (broadcastInDim S1024x16 ![0, 1] bcast_S1024x1_S1024x16_0_1 : (⟨S1024x1, .f32⟩ : BufTy).Contents (Elt F) → (⟨S1024x16, .f32⟩ : BufTy).Contents (Elt F)),
    binary main_v466 main_v445 main_v467 (mulf : (⟨S1024x16, .f32⟩ : BufTy).Contents (Elt F) → (⟨S1024x16, .f32⟩ : BufTy).Contents (Elt F) → (⟨S1024x16, .f32⟩ : BufTy).Contents (Elt F)),
    unary main_v456 main_v468 (broadcastInDim S1024x16 ![0, 1] bcast_S1024x1_S1024x16_0_1 : (⟨S1024x1, .f32⟩ : BufTy).Contents (Elt F) → (⟨S1024x16, .f32⟩ : BufTy).Contents (Elt F)),
    binary main_v468 main_v460 main_v469 (mulf : (⟨S1024x16, .f32⟩ : BufTy).Contents (Elt F) → (⟨S1024x16, .f32⟩ : BufTy).Contents (Elt F) → (⟨S1024x16, .f32⟩ : BufTy).Contents (Elt F)),
    binary main_v467 main_v469 main_v470 (addf : (⟨S1024x16, .f32⟩ : BufTy).Contents (Elt F) → (⟨S1024x16, .f32⟩ : BufTy).Contents (Elt F) → (⟨S1024x16, .f32⟩ : BufTy).Contents (Elt F)),
    nullary main_c_23 (constantI S_ 32 9#32),
    unary main_c_23 main_v471 (broadcastInDim S1 ![] bcast_S_S1 : (⟨S_, .i32⟩ : BufTy).Contents (Elt F) → (⟨S1, .i32⟩ : BufTy).Contents (Elt F)),
    ternary main_v452 main_v471 main_v470 main_v472 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v473 ((extractStridedSlice S1024x1 ![0, 23] · slices_S1024x120_S1024x1_0_23) : (⟨S1024x120, .f32⟩ : BufTy).Contents (Elt F) → (⟨S1024x1, .f32⟩ : BufTy).Contents (Elt F)),
    reshape main_v473 main_v474 rfl shapeCasts_S1024x1_S1024 ]
/-- Operations 21 … 40 of window 8. -/
abbrev st25 : List (HloOp τ sig (Elt F)) :=
  [ unary main_v474 main_v475 (Host.cos : (⟨S1024, .f32⟩ : BufTy).Contents (Elt F) → (⟨S1024, .f32⟩ : BufTy).Contents (Elt F)),
    unary main_v475 main_v476 (broadcastInDim S1024x1 ![0] bcast_S1024_S1024x1_0 : (⟨S1024, .f32⟩ : BufTy).Contents (Elt F) → (⟨S1024x1, .f32⟩ : BufTy).Contents (Elt F)),
    unary main_v474 main_v477 (Host.sin : (⟨S1024, .f32⟩ : BufTy).Contents (Elt F) → (⟨S1024, .f32⟩ : BufTy).Contents (Elt F)),
    unary main_v477 main_v478 (broadcastInDim S1024x1 ![0] bcast_S1024_S1024x1_0 : (⟨S1024, .f32⟩ : BufTy).Contents (Elt F) → (⟨S1024x1, .f32⟩ : BufTy).Contents (Elt F)),
    unary main_v472 main_v479 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v479 main_v480 rfl shapeCasts_S1024x1x16_S1024x16,
    unary main_v476 main_v481 (broadcastInDim S1024x16 ![0, 1] bcast_S1024x1_S1024x16_0_1 : (⟨S1024x1, .f32⟩ : BufTy).Contents (Elt F) → (⟨S1024x16, .f32⟩ : BufTy).Contents (Elt F)),
    binary main_v481 main_v465 main_v482 (mulf : (⟨S1024x16, .f32⟩ : BufTy).Contents (Elt F) → (⟨S1024x16, .f32⟩ : BufTy).Contents (Elt F) → (⟨S1024x16, .f32⟩ : BufTy).Contents (Elt F)),
    unary main_v478 main_v483 (broadcastInDim S1024x16 ![0, 1] bcast_S1024x1_S1024x16_0_1 : (⟨S1024x1, .f32⟩ : BufTy).Contents (Elt F) → (⟨S1024x16, .f32⟩ : BufTy).Contents (Elt F)),
    binary main_v483 main_v480 main_v484 (mulf : (⟨S1024x16, .f32⟩ : BufTy).Contents (Elt F) → (⟨S1024x16, .f32⟩ : BufTy).Contents (Elt F) → (⟨S1024x16, .f32⟩ : BufTy).Contents (Elt F)),
    binary main_v482 main_v484 main_v485 (subf : (⟨S1024x16, .f32⟩ : BufTy).Contents (Elt F) → (⟨S1024x16, .f32⟩ : BufTy).Contents (Elt F) → (⟨S1024x16, .f32⟩ : BufTy).Contents (Elt F)),
    unary main_v478 main_v486 (broadcastInDim S1024x16 ![0, 1] bcast_S1024x1_S1024x16_0_1 : (⟨S1024x1, .f32⟩ : BufTy).Contents (Elt F) → (⟨S1024x16, .f32⟩ : BufTy).Contents (Elt F)),
    binary main_v486 main_v465 main_v487 (mulf : (⟨S1024x16, .f32⟩ : BufTy).Contents (Elt F) → (⟨S1024x16, .f32⟩ : BufTy).Contents (Elt F) → (⟨S1024x16, .f32⟩ : BufTy).Contents (Elt F)),
    unary main_v476 main_v488 (broadcastInDim S1024x16 ![0, 1] bcast_S1024x1_S1024x16_0_1 : (⟨S1024x1, .f32⟩ : BufTy).Contents (Elt F) → (⟨S1024x16, .f32⟩ : BufTy).Contents (Elt F)),
    binary main_v488 main_v480 main_v489 (mulf : (⟨S1024x16, .f32⟩ : BufTy).Contents (Elt F) → (⟨S1024x16, .f32⟩ : BufTy).Contents (Elt F) → (⟨S1024x16, .f32⟩ : BufTy).Contents (Elt F)),
    binary main_v487 main_v489 main_v490 (addf : (⟨S1024x16, .f32⟩ : BufTy).Contents (Elt F) → (⟨S1024x16, .f32⟩ : BufTy).Contents (Elt F) → (⟨S1024x16, .f32⟩ : BufTy).Contents (Elt F)),
    nullary main_c_24 (constantI S_ 32 10#32),
    unary main_c_24 main_v491 (broadcastInDim S1 ![] bcast_S_S1 : (⟨S_, .i32⟩ : BufTy).Contents (Elt F) → (⟨S1, .i32⟩ : BufTy).Contents (Elt F)),
    ternary main_v472 main_v491 main_v490 main_v492 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v493 ((extractStridedSlice S1024x1 ![0, 24] · slices_S1024x120_S1024x1_0_24) : (⟨S1024x120, .f32⟩ : BufTy).Contents (Elt F) → (⟨S1024x1, .f32⟩ : BufTy).Contents (Elt F)) ]
/-- Operations 41 … 60 of window 8. -/
abbrev st26 : List (HloOp τ sig (Elt F)) :=
  [ reshape main_v493 main_v494 rfl shapeCasts_S1024x1_S1024,
    unary main_v494 main_v495 (Host.cos : (⟨S1024, .f32⟩ : BufTy).Contents (Elt F) → (⟨S1024, .f32⟩ : BufTy).Contents (Elt F)),
    unary main_v495 main_v496 (broadcastInDim S1024x1 ![0] bcast_S1024_S1024x1_0 : (⟨S1024, .f32⟩ : BufTy).Contents (Elt F) → (⟨S1024x1, .f32⟩ : BufTy).Contents (Elt F)),
    unary main_v494 main_v497 (Host.sin : (⟨S1024, .f32⟩ : BufTy).Contents (Elt F) → (⟨S1024, .f32⟩ : BufTy).Contents (Elt F)),
    unary main_v497 main_v498 (broadcastInDim S1024x1 ![0] bcast_S1024_S1024x1_0 : (⟨S1024, .f32⟩ : BufTy).Contents (Elt F) → (⟨S1024x1, .f32⟩ : BufTy).Contents (Elt F)),
    unary main_v492 main_v499 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v499 main_v500 rfl shapeCasts_S1024x1x16_S1024x16,
    unary main_v496 main_v501 (broadcastInDim S1024x16 ![0, 1] bcast_S1024x1_S1024x16_0_1 : (⟨S1024x1, .f32⟩ : BufTy).Contents (Elt F) → (⟨S1024x16, .f32⟩ : BufTy).Contents (Elt F)),
    binary main_v501 main_v485 main_v502 (mulf : (⟨S1024x16, .f32⟩ : BufTy).Contents (Elt F) → (⟨S1024x16, .f32⟩ : BufTy).Contents (Elt F) → (⟨S1024x16, .f32⟩ : BufTy).Contents (Elt F)),
    unary main_v498 main_v503 (broadcastInDim S1024x16 ![0, 1] bcast_S1024x1_S1024x16_0_1 : (⟨S1024x1, .f32⟩ : BufTy).Contents (Elt F) → (⟨S1024x16, .f32⟩ : BufTy).Contents (Elt F)),
    binary main_v503 main_v500 main_v504 (mulf : (⟨S1024x16, .f32⟩ : BufTy).Contents (Elt F) → (⟨S1024x16, .f32⟩ : BufTy).Contents (Elt F) → (⟨S1024x16, .f32⟩ : BufTy).Contents (Elt F)),
    binary main_v502 main_v504 main_v505 (subf : (⟨S1024x16, .f32⟩ : BufTy).Contents (Elt F) → (⟨S1024x16, .f32⟩ : BufTy).Contents (Elt F) → (⟨S1024x16, .f32⟩ : BufTy).Contents (Elt F)),
    unary main_v498 main_v506 (broadcastInDim S1024x16 ![0, 1] bcast_S1024x1_S1024x16_0_1 : (⟨S1024x1, .f32⟩ : BufTy).Contents (Elt F) → (⟨S1024x16, .f32⟩ : BufTy).Contents (Elt F)),
    binary main_v506 main_v485 main_v507 (mulf : (⟨S1024x16, .f32⟩ : BufTy).Contents (Elt F) → (⟨S1024x16, .f32⟩ : BufTy).Contents (Elt F) → (⟨S1024x16, .f32⟩ : BufTy).Contents (Elt F)),
    unary main_v496 main_v508 (broadcastInDim S1024x16 ![0, 1] bcast_S1024x1_S1024x16_0_1 : (⟨S1024x1, .f32⟩ : BufTy).Contents (Elt F) → (⟨S1024x16, .f32⟩ : BufTy).Contents (Elt F)),
    binary main_v508 main_v500 main_v509 (mulf : (⟨S1024x16, .f32⟩ : BufTy).Contents (Elt F) → (⟨S1024x16, .f32⟩ : BufTy).Contents (Elt F) → (⟨S1024x16, .f32⟩ : BufTy).Contents (Elt F)),
    binary main_v507 main_v509 main_v510 (addf : (⟨S1024x16, .f32⟩ : BufTy).Contents (Elt F) → (⟨S1024x16, .f32⟩ : BufTy).Contents (Elt F) → (⟨S1024x16, .f32⟩ : BufTy).Contents (Elt F)),
    nullary main_c_25 (constantI S_ 32 11#32),
    unary main_c_25 main_v511 (broadcastInDim S1 ![] bcast_S_S1 : (⟨S_, .i32⟩ : BufTy).Contents (Elt F) → (⟨S1, .i32⟩ : BufTy).Contents (Elt F)),
    ternary main_v492 main_v511 main_v510 main_v512 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 1 … 20 of window 9. -/
abbrev st27 : List (HloOp τ sig (Elt F)) :=
  [ unary main_arg1 main_v513 ((extractStridedSlice S1024x1 ![0, 25] · slices_S1024x120_S1024x1_0_25) : (⟨S1024x120, .f32⟩ : BufTy).Contents (Elt F) → (⟨S1024x1, .f32⟩ : BufTy).Contents (Elt F)),
    reshape main_v513 main_v514 rfl shapeCasts_S1024x1_S1024,
    unary main_v514 main_v515 (Host.cos : (⟨S1024, .f32⟩ : BufTy).Contents (Elt F) → (⟨S1024, .f32⟩ : BufTy).Contents (Elt F)),
    unary main_v515 main_v516 (broadcastInDim S1024x1 ![0] bcast_S1024_S1024x1_0 : (⟨S1024, .f32⟩ : BufTy).Contents (Elt F) → (⟨S1024x1, .f32⟩ : BufTy).Contents (Elt F)),
    unary main_v514 main_v517 (Host.sin : (⟨S1024, .f32⟩ : BufTy).Contents (Elt F) → (⟨S1024, .f32⟩ : BufTy).Contents (Elt F)),
    unary main_v517 main_v518 (broadcastInDim S1024x1 ![0] bcast_S1024_S1024x1_0 : (⟨S1024, .f32⟩ : BufTy).Contents (Elt F) → (⟨S1024x1, .f32⟩ : BufTy).Contents (Elt F)),
    unary main_v512 main_v519 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v519 main_v520 rfl shapeCasts_S1024x1x16_S1024x16,
    unary main_v516 main_v521 (broadcastInDim S1024x16 ![0, 1] bcast_S1024x1_S1024x16_0_1 : (⟨S1024x1, .f32⟩ : BufTy).Contents (Elt F) → (⟨S1024x16, .f32⟩ : BufTy).Contents (Elt F)),
    binary main_v521 main_v505 main_v522 (mulf : (⟨S1024x16, .f32⟩ : BufTy).Contents (Elt F) → (⟨S1024x16, .f32⟩ : BufTy).Contents (Elt F) → (⟨S1024x16, .f32⟩ : BufTy).Contents (Elt F)),
    unary main_v518 main_v523 (broadcastInDim S1024x16 ![0, 1] bcast_S1024x1_S1024x16_0_1 : (⟨S1024x1, .f32⟩ : BufTy).Contents (Elt F) → (⟨S1024x16, .f32⟩ : BufTy).Contents (Elt F)),
    binary main_v523 main_v520 main_v524 (mulf : (⟨S1024x16, .f32⟩ : BufTy).Contents (Elt F) → (⟨S1024x16, .f32⟩ : BufTy).Contents (Elt F) → (⟨S1024x16, .f32⟩ : BufTy).Contents (Elt F)),
    binary main_v522 main_v524 main_v525 (subf : (⟨S1024x16, .f32⟩ : BufTy).Contents (Elt F) → (⟨S1024x16, .f32⟩ : BufTy).Contents (Elt F) → (⟨S1024x16, .f32⟩ : BufTy).Contents (Elt F)),
    unary main_v518 main_v526 (broadcastInDim S1024x16 ![0, 1] bcast_S1024x1_S1024x16_0_1 : (⟨S1024x1, .f32⟩ : BufTy).Contents (Elt F) → (⟨S1024x16, .f32⟩ : BufTy).Contents (Elt F)),
    binary main_v526 main_v505 main_v527 (mulf : (⟨S1024x16, .f32⟩ : BufTy).Contents (Elt F) → (⟨S1024x16, .f32⟩ : BufTy).Contents (Elt F) → (⟨S1024x16, .f32⟩ : BufTy).Contents (Elt F)),
    unary main_v516 main_v528 (broadcastInDim S1024x16 ![0, 1] bcast_S1024x1_S1024x16_0_1 : (⟨S1024x1, .f32⟩ : BufTy).Contents (Elt F) → (⟨S1024x16, .f32⟩ : BufTy).Contents (Elt F)),
    binary main_v528 main_v520 main_v529 (mulf : (⟨S1024x16, .f32⟩ : BufTy).Contents (Elt F) → (⟨S1024x16, .f32⟩ : BufTy).Contents (Elt F) → (⟨S1024x16, .f32⟩ : BufTy).Contents (Elt F)),
    binary main_v527 main_v529 main_v530 (addf : (⟨S1024x16, .f32⟩ : BufTy).Contents (Elt F) → (⟨S1024x16, .f32⟩ : BufTy).Contents (Elt F) → (⟨S1024x16, .f32⟩ : BufTy).Contents (Elt F)),
    nullary main_c_26 (constantI S_ 32 12#32),
    unary main_c_26 main_v531 (broadcastInDim S1 ![] bcast_S_S1 : (⟨S_, .i32⟩ : BufTy).Contents (Elt F) → (⟨S1, .i32⟩ : BufTy).Contents (Elt F)) ]
/-- Operations 21 … 40 of window 9. -/
abbrev st28 : List (HloOp τ sig (Elt F)) :=
  [ ternary main_v512 main_v531 main_v530 main_v532 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v533 ((extractStridedSlice S1024x1 ![0, 26] · slices_S1024x120_S1024x1_0_26) : (⟨S1024x120, .f32⟩ : BufTy).Contents (Elt F) → (⟨S1024x1, .f32⟩ : BufTy).Contents (Elt F)),
    reshape main_v533 main_v534 rfl shapeCasts_S1024x1_S1024,
    unary main_v534 main_v535 (Host.cos : (⟨S1024, .f32⟩ : BufTy).Contents (Elt F) → (⟨S1024, .f32⟩ : BufTy).Contents (Elt F)),
    unary main_v535 main_v536 (broadcastInDim S1024x1 ![0] bcast_S1024_S1024x1_0 : (⟨S1024, .f32⟩ : BufTy).Contents (Elt F) → (⟨S1024x1, .f32⟩ : BufTy).Contents (Elt F)),
    unary main_v534 main_v537 (Host.sin : (⟨S1024, .f32⟩ : BufTy).Contents (Elt F) → (⟨S1024, .f32⟩ : BufTy).Contents (Elt F)),
    unary main_v537 main_v538 (broadcastInDim S1024x1 ![0] bcast_S1024_S1024x1_0 : (⟨S1024, .f32⟩ : BufTy).Contents (Elt F) → (⟨S1024x1, .f32⟩ : BufTy).Contents (Elt F)),
    unary main_v532 main_v539 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v539 main_v540 rfl shapeCasts_S1024x1x16_S1024x16,
    unary main_v536 main_v541 (broadcastInDim S1024x16 ![0, 1] bcast_S1024x1_S1024x16_0_1 : (⟨S1024x1, .f32⟩ : BufTy).Contents (Elt F) → (⟨S1024x16, .f32⟩ : BufTy).Contents (Elt F)),
    binary main_v541 main_v525 main_v542 (mulf : (⟨S1024x16, .f32⟩ : BufTy).Contents (Elt F) → (⟨S1024x16, .f32⟩ : BufTy).Contents (Elt F) → (⟨S1024x16, .f32⟩ : BufTy).Contents (Elt F)),
    unary main_v538 main_v543 (broadcastInDim S1024x16 ![0, 1] bcast_S1024x1_S1024x16_0_1 : (⟨S1024x1, .f32⟩ : BufTy).Contents (Elt F) → (⟨S1024x16, .f32⟩ : BufTy).Contents (Elt F)),
    binary main_v543 main_v540 main_v544 (mulf : (⟨S1024x16, .f32⟩ : BufTy).Contents (Elt F) → (⟨S1024x16, .f32⟩ : BufTy).Contents (Elt F) → (⟨S1024x16, .f32⟩ : BufTy).Contents (Elt F)),
    binary main_v542 main_v544 main_v545 (subf : (⟨S1024x16, .f32⟩ : BufTy).Contents (Elt F) → (⟨S1024x16, .f32⟩ : BufTy).Contents (Elt F) → (⟨S1024x16, .f32⟩ : BufTy).Contents (Elt F)),
    unary main_v538 main_v546 (broadcastInDim S1024x16 ![0, 1] bcast_S1024x1_S1024x16_0_1 : (⟨S1024x1, .f32⟩ : BufTy).Contents (Elt F) → (⟨S1024x16, .f32⟩ : BufTy).Contents (Elt F)),
    binary main_v546 main_v525 main_v547 (mulf : (⟨S1024x16, .f32⟩ : BufTy).Contents (Elt F) → (⟨S1024x16, .f32⟩ : BufTy).Contents (Elt F) → (⟨S1024x16, .f32⟩ : BufTy).Contents (Elt F)),
    unary main_v536 main_v548 (broadcastInDim S1024x16 ![0, 1] bcast_S1024x1_S1024x16_0_1 : (⟨S1024x1, .f32⟩ : BufTy).Contents (Elt F) → (⟨S1024x16, .f32⟩ : BufTy).Contents (Elt F)),
    binary main_v548 main_v540 main_v549 (mulf : (⟨S1024x16, .f32⟩ : BufTy).Contents (Elt F) → (⟨S1024x16, .f32⟩ : BufTy).Contents (Elt F) → (⟨S1024x16, .f32⟩ : BufTy).Contents (Elt F)),
    binary main_v547 main_v549 main_v550 (addf : (⟨S1024x16, .f32⟩ : BufTy).Contents (Elt F) → (⟨S1024x16, .f32⟩ : BufTy).Contents (Elt F) → (⟨S1024x16, .f32⟩ : BufTy).Contents (Elt F)),
    nullary main_c_27 (constantI S_ 32 13#32) ]
/-- Operations 41 … 60 of window 9. -/
abbrev st29 : List (HloOp τ sig (Elt F)) :=
  [ unary main_c_27 main_v551 (broadcastInDim S1 ![] bcast_S_S1 : (⟨S_, .i32⟩ : BufTy).Contents (Elt F) → (⟨S1, .i32⟩ : BufTy).Contents (Elt F)),
    ternary main_v532 main_v551 main_v550 main_v552 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v553 ((extractStridedSlice S1024x1 ![0, 27] · slices_S1024x120_S1024x1_0_27) : (⟨S1024x120, .f32⟩ : BufTy).Contents (Elt F) → (⟨S1024x1, .f32⟩ : BufTy).Contents (Elt F)),
    reshape main_v553 main_v554 rfl shapeCasts_S1024x1_S1024,
    unary main_v554 main_v555 (Host.cos : (⟨S1024, .f32⟩ : BufTy).Contents (Elt F) → (⟨S1024, .f32⟩ : BufTy).Contents (Elt F)),
    unary main_v555 main_v556 (broadcastInDim S1024x1 ![0] bcast_S1024_S1024x1_0 : (⟨S1024, .f32⟩ : BufTy).Contents (Elt F) → (⟨S1024x1, .f32⟩ : BufTy).Contents (Elt F)),
    unary main_v554 main_v557 (Host.sin : (⟨S1024, .f32⟩ : BufTy).Contents (Elt F) → (⟨S1024, .f32⟩ : BufTy).Contents (Elt F)),
    unary main_v557 main_v558 (broadcastInDim S1024x1 ![0] bcast_S1024_S1024x1_0 : (⟨S1024, .f32⟩ : BufTy).Contents (Elt F) → (⟨S1024x1, .f32⟩ : BufTy).Contents (Elt F)),
    unary main_v552 main_v559 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v559 main_v560 rfl shapeCasts_S1024x1x16_S1024x16,
    unary main_v556 main_v561 (broadcastInDim S1024x16 ![0, 1] bcast_S1024x1_S1024x16_0_1 : (⟨S1024x1, .f32⟩ : BufTy).Contents (Elt F) → (⟨S1024x16, .f32⟩ : BufTy).Contents (Elt F)),
    binary main_v561 main_v545 main_v562 (mulf : (⟨S1024x16, .f32⟩ : BufTy).Contents (Elt F) → (⟨S1024x16, .f32⟩ : BufTy).Contents (Elt F) → (⟨S1024x16, .f32⟩ : BufTy).Contents (Elt F)),
    unary main_v558 main_v563 (broadcastInDim S1024x16 ![0, 1] bcast_S1024x1_S1024x16_0_1 : (⟨S1024x1, .f32⟩ : BufTy).Contents (Elt F) → (⟨S1024x16, .f32⟩ : BufTy).Contents (Elt F)),
    binary main_v563 main_v560 main_v564 (mulf : (⟨S1024x16, .f32⟩ : BufTy).Contents (Elt F) → (⟨S1024x16, .f32⟩ : BufTy).Contents (Elt F) → (⟨S1024x16, .f32⟩ : BufTy).Contents (Elt F)),
    binary main_v562 main_v564 main_v565 (subf : (⟨S1024x16, .f32⟩ : BufTy).Contents (Elt F) → (⟨S1024x16, .f32⟩ : BufTy).Contents (Elt F) → (⟨S1024x16, .f32⟩ : BufTy).Contents (Elt F)),
    unary main_v558 main_v566 (broadcastInDim S1024x16 ![0, 1] bcast_S1024x1_S1024x16_0_1 : (⟨S1024x1, .f32⟩ : BufTy).Contents (Elt F) → (⟨S1024x16, .f32⟩ : BufTy).Contents (Elt F)),
    binary main_v566 main_v545 main_v567 (mulf : (⟨S1024x16, .f32⟩ : BufTy).Contents (Elt F) → (⟨S1024x16, .f32⟩ : BufTy).Contents (Elt F) → (⟨S1024x16, .f32⟩ : BufTy).Contents (Elt F)),
    unary main_v556 main_v568 (broadcastInDim S1024x16 ![0, 1] bcast_S1024x1_S1024x16_0_1 : (⟨S1024x1, .f32⟩ : BufTy).Contents (Elt F) → (⟨S1024x16, .f32⟩ : BufTy).Contents (Elt F)),
    binary main_v568 main_v560 main_v569 (mulf : (⟨S1024x16, .f32⟩ : BufTy).Contents (Elt F) → (⟨S1024x16, .f32⟩ : BufTy).Contents (Elt F) → (⟨S1024x16, .f32⟩ : BufTy).Contents (Elt F)),
    binary main_v567 main_v569 main_v570 (addf : (⟨S1024x16, .f32⟩ : BufTy).Contents (Elt F) → (⟨S1024x16, .f32⟩ : BufTy).Contents (Elt F) → (⟨S1024x16, .f32⟩ : BufTy).Contents (Elt F)) ]
/-- Operations 1 … 20 of window 10. -/
abbrev st30 : List (HloOp τ sig (Elt F)) :=
  [ nullary main_c_28 (constantI S_ 32 14#32),
    unary main_c_28 main_v571 (broadcastInDim S1 ![] bcast_S_S1 : (⟨S_, .i32⟩ : BufTy).Contents (Elt F) → (⟨S1, .i32⟩ : BufTy).Contents (Elt F)),
    ternary main_v552 main_v571 main_v570 main_v572 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v573 ((extractStridedSlice S1024x1 ![0, 28] · slices_S1024x120_S1024x1_0_28) : (⟨S1024x120, .f32⟩ : BufTy).Contents (Elt F) → (⟨S1024x1, .f32⟩ : BufTy).Contents (Elt F)),
    reshape main_v573 main_v574 rfl shapeCasts_S1024x1_S1024,
    unary main_v574 main_v575 (Host.cos : (⟨S1024, .f32⟩ : BufTy).Contents (Elt F) → (⟨S1024, .f32⟩ : BufTy).Contents (Elt F)),
    unary main_v575 main_v576 (broadcastInDim S1024x1 ![0] bcast_S1024_S1024x1_0 : (⟨S1024, .f32⟩ : BufTy).Contents (Elt F) → (⟨S1024x1, .f32⟩ : BufTy).Contents (Elt F)),
    unary main_v574 main_v577 (Host.sin : (⟨S1024, .f32⟩ : BufTy).Contents (Elt F) → (⟨S1024, .f32⟩ : BufTy).Contents (Elt F)),
    unary main_v577 main_v578 (broadcastInDim S1024x1 ![0] bcast_S1024_S1024x1_0 : (⟨S1024, .f32⟩ : BufTy).Contents (Elt F) → (⟨S1024x1, .f32⟩ : BufTy).Contents (Elt F)),
    unary main_v572 main_v579 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v579 main_v580 rfl shapeCasts_S1024x1x16_S1024x16,
    unary main_v576 main_v581 (broadcastInDim S1024x16 ![0, 1] bcast_S1024x1_S1024x16_0_1 : (⟨S1024x1, .f32⟩ : BufTy).Contents (Elt F) → (⟨S1024x16, .f32⟩ : BufTy).Contents (Elt F)),
    binary main_v581 main_v565 main_v582 (mulf : (⟨S1024x16, .f32⟩ : BufTy).Contents (Elt F) → (⟨S1024x16, .f32⟩ : BufTy).Contents (Elt F) → (⟨S1024x16, .f32⟩ : BufTy).Contents (Elt F)),
    unary main_v578 main_v583 (broadcastInDim S1024x16 ![0, 1] bcast_S1024x1_S1024x16_0_1 : (⟨S1024x1, .f32⟩ : BufTy).Contents (Elt F) → (⟨S1024x16, .f32⟩ : BufTy).Contents (Elt F)),
    binary main_v583 main_v580 main_v584 (mulf : (⟨S1024x16, .f32⟩ : BufTy).Contents (Elt F) → (⟨S1024x16, .f32⟩ : BufTy).Contents (Elt F) → (⟨S1024x16, .f32⟩ : BufTy).Contents (Elt F)),
    binary main_v582 main_v584 main_v585 (subf : (⟨S1024x16, .f32⟩ : BufTy).Contents (Elt F) → (⟨S1024x16, .f32⟩ : BufTy).Contents (Elt F) → (⟨S1024x16, .f32⟩ : BufTy).Contents (Elt F)),
    unary main_v578 main_v586 (broadcastInDim S1024x16 ![0, 1] bcast_S1024x1_S1024x16_0_1 : (⟨S1024x1, .f32⟩ : BufTy).Contents (Elt F) → (⟨S1024x16, .f32⟩ : BufTy).Contents (Elt F)),
    binary main_v586 main_v565 main_v587 (mulf : (⟨S1024x16, .f32⟩ : BufTy).Contents (Elt F) → (⟨S1024x16, .f32⟩ : BufTy).Contents (Elt F) → (⟨S1024x16, .f32⟩ : BufTy).Contents (Elt F)),
    unary main_v576 main_v588 (broadcastInDim S1024x16 ![0, 1] bcast_S1024x1_S1024x16_0_1 : (⟨S1024x1, .f32⟩ : BufTy).Contents (Elt F) → (⟨S1024x16, .f32⟩ : BufTy).Contents (Elt F)),
    binary main_v588 main_v580 main_v589 (mulf : (⟨S1024x16, .f32⟩ : BufTy).Contents (Elt F) → (⟨S1024x16, .f32⟩ : BufTy).Contents (Elt F) → (⟨S1024x16, .f32⟩ : BufTy).Contents (Elt F)) ]
/-- Operations 21 … 40 of window 10. -/
abbrev st31 : List (HloOp τ sig (Elt F)) :=
  [ binary main_v587 main_v589 main_v590 (addf : (⟨S1024x16, .f32⟩ : BufTy).Contents (Elt F) → (⟨S1024x16, .f32⟩ : BufTy).Contents (Elt F) → (⟨S1024x16, .f32⟩ : BufTy).Contents (Elt F)),
    nullary main_c_29 (constantI S_ 32 15#32),
    unary main_c_29 main_v591 (broadcastInDim S1 ![] bcast_S_S1 : (⟨S_, .i32⟩ : BufTy).Contents (Elt F) → (⟨S1, .i32⟩ : BufTy).Contents (Elt F)),
    ternary main_v572 main_v591 main_v590 main_v592 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_30 (constantI S_ 32 1#32),
    unary main_c_30 main_v593 (broadcastInDim S1 ![] bcast_S_S1 : (⟨S_, .i32⟩ : BufTy).Contents (Elt F) → (⟨S1, .i32⟩ : BufTy).Contents (Elt F)),
    ternary main_v592 main_v593 main_v585 main_v594 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v594 main_v595 ((extractStridedSlice S1024x1x16 ![0, 2, 0] · slices_S1024x16x16_S1024x1x16_0_2_0) : (⟨S1024x16x16, .f32⟩ : BufTy).Contents (Elt F) → (⟨S1024x1x16, .f32⟩ : BufTy).Contents (Elt F)),
    reshape main_v595 main_v596 rfl shapeCasts_S1024x1x16_S1024x16,
    unary main_arg1 main_v597 ((extractStridedSlice S1024x1 ![0, 29] · slices_S1024x120_S1024x1_0_29) : (⟨S1024x120, .f32⟩ : BufTy).Contents (Elt F) → (⟨S1024x1, .f32⟩ : BufTy).Contents (Elt F)),
    reshape main_v597 main_v598 rfl shapeCasts_S1024x1_S1024,
    unary main_v598 main_v599 (Host.cos : (⟨S1024, .f32⟩ : BufTy).Contents (Elt F) → (⟨S1024, .f32⟩ : BufTy).Contents (Elt F)),
    unary main_v599 main_v600 (broadcastInDim S1024x1 ![0] bcast_S1024_S1024x1_0 : (⟨S1024, .f32⟩ : BufTy).Contents (Elt F) → (⟨S1024x1, .f32⟩ : BufTy).Contents (Elt F)),
    unary main_v598 main_v601 (Host.sin : (⟨S1024, .f32⟩ : BufTy).Contents (Elt F) → (⟨S1024, .f32⟩ : BufTy).Contents (Elt F)),
    unary main_v601 main_v602 (broadcastInDim S1024x1 ![0] bcast_S1024_S1024x1_0 : (⟨S1024, .f32⟩ : BufTy).Contents (Elt F) → (⟨S1024x1, .f32⟩ : BufTy).Contents (Elt F)),
    unary main_v594 main_v603 ((extractStridedSlice S1024x1x16 ![0, 3, 0] · slices_S1024x16x16_S1024x1x16_0_3_0) : (⟨S1024x16x16, .f32⟩ : BufTy).Contents (Elt F) → (⟨S1024x1x16, .f32⟩ : BufTy).Contents (Elt F)),
    reshape main_v603 main_v604 rfl shapeCasts_S1024x1x16_S1024x16,
    unary main_v600 main_v605 (broadcastInDim S1024x16 ![0, 1] bcast_S1024x1_S1024x16_0_1 : (⟨S1024x1, .f32⟩ : BufTy).Contents (Elt F) → (⟨S1024x16, .f32⟩ : BufTy).Contents (Elt F)),
    binary main_v605 main_v596 main_v606 (mulf : (⟨S1024x16, .f32⟩ : BufTy).Contents (Elt F) → (⟨S1024x16, .f32⟩ : BufTy).Contents (Elt F) → (⟨S1024x16, .f32⟩ : BufTy).Contents (Elt F)),
    unary main_v602 main_v607 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 10. -/
abbrev st32 : List (HloOp τ sig (Elt F)) :=
  [ binary main_v607 main_v604 main_v608 (mulf : (⟨S1024x16, .f32⟩ : BufTy).Contents (Elt F) → (⟨S1024x16, .f32⟩ : BufTy).Contents (Elt F) → (⟨S1024x16, .f32⟩ : BufTy).Contents (Elt F)),
    binary main_v606 main_v608 main_v609 (subf : (⟨S1024x16, .f32⟩ : BufTy).Contents (Elt F) → (⟨S1024x16, .f32⟩ : BufTy).Contents (Elt F) → (⟨S1024x16, .f32⟩ : BufTy).Contents (Elt F)),
    unary main_v602 main_v610 (broadcastInDim S1024x16 ![0, 1] bcast_S1024x1_S1024x16_0_1 : (⟨S1024x1, .f32⟩ : BufTy).Contents (Elt F) → (⟨S1024x16, .f32⟩ : BufTy).Contents (Elt F)),
    binary main_v610 main_v596 main_v611 (mulf : (⟨S1024x16, .f32⟩ : BufTy).Contents (Elt F) → (⟨S1024x16, .f32⟩ : BufTy).Contents (Elt F) → (⟨S1024x16, .f32⟩ : BufTy).Contents (Elt F)),
    unary main_v600 main_v612 (broadcastInDim S1024x16 ![0, 1] bcast_S1024x1_S1024x16_0_1 : (⟨S1024x1, .f32⟩ : BufTy).Contents (Elt F) → (⟨S1024x16, .f32⟩ : BufTy).Contents (Elt F)),
    binary main_v612 main_v604 main_v613 (mulf : (⟨S1024x16, .f32⟩ : BufTy).Contents (Elt F) → (⟨S1024x16, .f32⟩ : BufTy).Contents (Elt F) → (⟨S1024x16, .f32⟩ : BufTy).Contents (Elt F)),
    binary main_v611 main_v613 main_v614 (addf : (⟨S1024x16, .f32⟩ : BufTy).Contents (Elt F) → (⟨S1024x16, .f32⟩ : BufTy).Contents (Elt F) → (⟨S1024x16, .f32⟩ : BufTy).Contents (Elt F)),
    nullary main_c_31 (constantI S_ 32 3#32),
    unary main_c_31 main_v615 (broadcastInDim S1 ![] bcast_S_S1 : (⟨S_, .i32⟩ : BufTy).Contents (Elt F) → (⟨S1, .i32⟩ : BufTy).Contents (Elt F)),
    ternary main_v594 main_v615 main_v614 main_v616 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v617 ((extractStridedSlice S1024x1 ![0, 30] · slices_S1024x120_S1024x1_0_30) : (⟨S1024x120, .f32⟩ : BufTy).Contents (Elt F) → (⟨S1024x1, .f32⟩ : BufTy).Contents (Elt F)),
    reshape main_v617 main_v618 rfl shapeCasts_S1024x1_S1024,
    unary main_v618 main_v619 (Host.cos : (⟨S1024, .f32⟩ : BufTy).Contents (Elt F) → (⟨S1024, .f32⟩ : BufTy).Contents (Elt F)),
    unary main_v619 main_v620 (broadcastInDim S1024x1 ![0] bcast_S1024_S1024x1_0 : (⟨S1024, .f32⟩ : BufTy).Contents (Elt F) → (⟨S1024x1, .f32⟩ : BufTy).Contents (Elt F)),
    unary main_v618 main_v621 (Host.sin : (⟨S1024, .f32⟩ : BufTy).Contents (Elt F) → (⟨S1024, .f32⟩ : BufTy).Contents (Elt F)),
    unary main_v621 main_v622 (broadcastInDim S1024x1 ![0] bcast_S1024_S1024x1_0 : (⟨S1024, .f32⟩ : BufTy).Contents (Elt F) → (⟨S1024x1, .f32⟩ : BufTy).Contents (Elt F)),
    unary main_v616 main_v623 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)),
    reshape main_v623 main_v624 rfl shapeCasts_S1024x1x16_S1024x16,
    unary main_v620 main_v625 (broadcastInDim S1024x16 ![0, 1] bcast_S1024x1_S1024x16_0_1 : (⟨S1024x1, .f32⟩ : BufTy).Contents (Elt F) → (⟨S1024x16, .f32⟩ : BufTy).Contents (Elt F)),
    binary main_v625 main_v609 main_v626 (mulf : (⟨S1024x16, .f32⟩ : BufTy).Contents (Elt F) → (⟨S1024x16, .f32⟩ : BufTy).Contents (Elt F) → (⟨S1024x16, .f32⟩ : BufTy).Contents (Elt F)) ]
/-- Operations 1 … 20 of window 11. -/
abbrev st33 : List (HloOp τ sig (Elt F)) :=
  [ unary main_v622 main_v627 (broadcastInDim S1024x16 ![0, 1] bcast_S1024x1_S1024x16_0_1 : (⟨S1024x1, .f32⟩ : BufTy).Contents (Elt F) → (⟨S1024x16, .f32⟩ : BufTy).Contents (Elt F)),
    binary main_v627 main_v624 main_v628 (mulf : (⟨S1024x16, .f32⟩ : BufTy).Contents (Elt F) → (⟨S1024x16, .f32⟩ : BufTy).Contents (Elt F) → (⟨S1024x16, .f32⟩ : BufTy).Contents (Elt F)),
    binary main_v626 main_v628 main_v629 (subf : (⟨S1024x16, .f32⟩ : BufTy).Contents (Elt F) → (⟨S1024x16, .f32⟩ : BufTy).Contents (Elt F) → (⟨S1024x16, .f32⟩ : BufTy).Contents (Elt F)),
    unary main_v622 main_v630 (broadcastInDim S1024x16 ![0, 1] bcast_S1024x1_S1024x16_0_1 : (⟨S1024x1, .f32⟩ : BufTy).Contents (Elt F) → (⟨S1024x16, .f32⟩ : BufTy).Contents (Elt F)),
    binary main_v630 main_v609 main_v631 (mulf : (⟨S1024x16, .f32⟩ : BufTy).Contents (Elt F) → (⟨S1024x16, .f32⟩ : BufTy).Contents (Elt F) → (⟨S1024x16, .f32⟩ : BufTy).Contents (Elt F)),
    unary main_v620 main_v632 (broadcastInDim S1024x16 ![0, 1] bcast_S1024x1_S1024x16_0_1 : (⟨S1024x1, .f32⟩ : BufTy).Contents (Elt F) → (⟨S1024x16, .f32⟩ : BufTy).Contents (Elt F)),
    binary main_v632 main_v624 main_v633 (mulf : (⟨S1024x16, .f32⟩ : BufTy).Contents (Elt F) → (⟨S1024x16, .f32⟩ : BufTy).Contents (Elt F) → (⟨S1024x16, .f32⟩ : BufTy).Contents (Elt F)),
    binary main_v631 main_v633 main_v634 (addf : (⟨S1024x16, .f32⟩ : BufTy).Contents (Elt F) → (⟨S1024x16, .f32⟩ : BufTy).Contents (Elt F) → (⟨S1024x16, .f32⟩ : BufTy).Contents (Elt F)),
    nullary main_c_32 (constantI S_ 32 4#32),
    unary main_c_32 main_v635 (broadcastInDim S1 ![] bcast_S_S1 : (⟨S_, .i32⟩ : BufTy).Contents (Elt F) → (⟨S1, .i32⟩ : BufTy).Contents (Elt F)),
    ternary main_v616 main_v635 main_v634 main_v636 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v637 ((extractStridedSlice S1024x1 ![0, 31] · slices_S1024x120_S1024x1_0_31) : (⟨S1024x120, .f32⟩ : BufTy).Contents (Elt F) → (⟨S1024x1, .f32⟩ : BufTy).Contents (Elt F)),
    reshape main_v637 main_v638 rfl shapeCasts_S1024x1_S1024,
    unary main_v638 main_v639 (Host.cos : (⟨S1024, .f32⟩ : BufTy).Contents (Elt F) → (⟨S1024, .f32⟩ : BufTy).Contents (Elt F)),
    unary main_v639 main_v640 (broadcastInDim S1024x1 ![0] bcast_S1024_S1024x1_0 : (⟨S1024, .f32⟩ : BufTy).Contents (Elt F) → (⟨S1024x1, .f32⟩ : BufTy).Contents (Elt F)),
    unary main_v638 main_v641 (Host.sin : (⟨S1024, .f32⟩ : BufTy).Contents (Elt F) → (⟨S1024, .f32⟩ : BufTy).Contents (Elt F)),
    unary main_v641 main_v642 (broadcastInDim S1024x1 ![0] bcast_S1024_S1024x1_0 : (⟨S1024, .f32⟩ : BufTy).Contents (Elt F) → (⟨S1024x1, .f32⟩ : BufTy).Contents (Elt F)),
    unary main_v636 main_v643 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v643 main_v644 rfl shapeCasts_S1024x1x16_S1024x16,
    unary main_v640 main_v645 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 11. -/
abbrev st34 : List (HloOp τ sig (Elt F)) :=
  [ binary main_v645 main_v629 main_v646 (mulf : (⟨S1024x16, .f32⟩ : BufTy).Contents (Elt F) → (⟨S1024x16, .f32⟩ : BufTy).Contents (Elt F) → (⟨S1024x16, .f32⟩ : BufTy).Contents (Elt F)),
    unary main_v642 main_v647 (broadcastInDim S1024x16 ![0, 1] bcast_S1024x1_S1024x16_0_1 : (⟨S1024x1, .f32⟩ : BufTy).Contents (Elt F) → (⟨S1024x16, .f32⟩ : BufTy).Contents (Elt F)),
    binary main_v647 main_v644 main_v648 (mulf : (⟨S1024x16, .f32⟩ : BufTy).Contents (Elt F) → (⟨S1024x16, .f32⟩ : BufTy).Contents (Elt F) → (⟨S1024x16, .f32⟩ : BufTy).Contents (Elt F)),
    binary main_v646 main_v648 main_v649 (subf : (⟨S1024x16, .f32⟩ : BufTy).Contents (Elt F) → (⟨S1024x16, .f32⟩ : BufTy).Contents (Elt F) → (⟨S1024x16, .f32⟩ : BufTy).Contents (Elt F)),
    unary main_v642 main_v650 (broadcastInDim S1024x16 ![0, 1] bcast_S1024x1_S1024x16_0_1 : (⟨S1024x1, .f32⟩ : BufTy).Contents (Elt F) → (⟨S1024x16, .f32⟩ : BufTy).Contents (Elt F)),
    binary main_v650 main_v629 main_v651 (mulf : (⟨S1024x16, .f32⟩ : BufTy).Contents (Elt F) → (⟨S1024x16, .f32⟩ : BufTy).Contents (Elt F) → (⟨S1024x16, .f32⟩ : BufTy).Contents (Elt F)),
    unary main_v640 main_v652 (broadcastInDim S1024x16 ![0, 1] bcast_S1024x1_S1024x16_0_1 : (⟨S1024x1, .f32⟩ : BufTy).Contents (Elt F) → (⟨S1024x16, .f32⟩ : BufTy).Contents (Elt F)),
    binary main_v652 main_v644 main_v653 (mulf : (⟨S1024x16, .f32⟩ : BufTy).Contents (Elt F) → (⟨S1024x16, .f32⟩ : BufTy).Contents (Elt F) → (⟨S1024x16, .f32⟩ : BufTy).Contents (Elt F)),
    binary main_v651 main_v653 main_v654 (addf : (⟨S1024x16, .f32⟩ : BufTy).Contents (Elt F) → (⟨S1024x16, .f32⟩ : BufTy).Contents (Elt F) → (⟨S1024x16, .f32⟩ : BufTy).Contents (Elt F)),
    nullary main_c_33 (constantI S_ 32 5#32),
    unary main_c_33 main_v655 (broadcastInDim S1 ![] bcast_S_S1 : (⟨S_, .i32⟩ : BufTy).Contents (Elt F) → (⟨S1, .i32⟩ : BufTy).Contents (Elt F)),
    ternary main_v636 main_v655 main_v654 main_v656 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v657 ((extractStridedSlice S1024x1 ![0, 32] · slices_S1024x120_S1024x1_0_32) : (⟨S1024x120, .f32⟩ : BufTy).Contents (Elt F) → (⟨S1024x1, .f32⟩ : BufTy).Contents (Elt F)),
    reshape main_v657 main_v658 rfl shapeCasts_S1024x1_S1024,
    unary main_v658 main_v659 (Host.cos : (⟨S1024, .f32⟩ : BufTy).Contents (Elt F) → (⟨S1024, .f32⟩ : BufTy).Contents (Elt F)),
    unary main_v659 main_v660 (broadcastInDim S1024x1 ![0] bcast_S1024_S1024x1_0 : (⟨S1024, .f32⟩ : BufTy).Contents (Elt F) → (⟨S1024x1, .f32⟩ : BufTy).Contents (Elt F)),
    unary main_v658 main_v661 (Host.sin : (⟨S1024, .f32⟩ : BufTy).Contents (Elt F) → (⟨S1024, .f32⟩ : BufTy).Contents (Elt F)),
    unary main_v661 main_v662 (broadcastInDim S1024x1 ![0] bcast_S1024_S1024x1_0 : (⟨S1024, .f32⟩ : BufTy).Contents (Elt F) → (⟨S1024x1, .f32⟩ : BufTy).Contents (Elt F)),
    unary main_v656 main_v663 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v663 main_v664 rfl shapeCasts_S1024x1x16_S1024x16 ]
/-- Operations 41 … 60 of window 11. -/
abbrev st35 : List (HloOp τ sig (Elt F)) :=
  [ unary main_v660 main_v665 (broadcastInDim S1024x16 ![0, 1] bcast_S1024x1_S1024x16_0_1 : (⟨S1024x1, .f32⟩ : BufTy).Contents (Elt F) → (⟨S1024x16, .f32⟩ : BufTy).Contents (Elt F)),
    binary main_v665 main_v649 main_v666 (mulf : (⟨S1024x16, .f32⟩ : BufTy).Contents (Elt F) → (⟨S1024x16, .f32⟩ : BufTy).Contents (Elt F) → (⟨S1024x16, .f32⟩ : BufTy).Contents (Elt F)),
    unary main_v662 main_v667 (broadcastInDim S1024x16 ![0, 1] bcast_S1024x1_S1024x16_0_1 : (⟨S1024x1, .f32⟩ : BufTy).Contents (Elt F) → (⟨S1024x16, .f32⟩ : BufTy).Contents (Elt F)),
    binary main_v667 main_v664 main_v668 (mulf : (⟨S1024x16, .f32⟩ : BufTy).Contents (Elt F) → (⟨S1024x16, .f32⟩ : BufTy).Contents (Elt F) → (⟨S1024x16, .f32⟩ : BufTy).Contents (Elt F)),
    binary main_v666 main_v668 main_v669 (subf : (⟨S1024x16, .f32⟩ : BufTy).Contents (Elt F) → (⟨S1024x16, .f32⟩ : BufTy).Contents (Elt F) → (⟨S1024x16, .f32⟩ : BufTy).Contents (Elt F)),
    unary main_v662 main_v670 (broadcastInDim S1024x16 ![0, 1] bcast_S1024x1_S1024x16_0_1 : (⟨S1024x1, .f32⟩ : BufTy).Contents (Elt F) → (⟨S1024x16, .f32⟩ : BufTy).Contents (Elt F)),
    binary main_v670 main_v649 main_v671 (mulf : (⟨S1024x16, .f32⟩ : BufTy).Contents (Elt F) → (⟨S1024x16, .f32⟩ : BufTy).Contents (Elt F) → (⟨S1024x16, .f32⟩ : BufTy).Contents (Elt F)),
    unary main_v660 main_v672 (broadcastInDim S1024x16 ![0, 1] bcast_S1024x1_S1024x16_0_1 : (⟨S1024x1, .f32⟩ : BufTy).Contents (Elt F) → (⟨S1024x16, .f32⟩ : BufTy).Contents (Elt F)),
    binary main_v672 main_v664 main_v673 (mulf : (⟨S1024x16, .f32⟩ : BufTy).Contents (Elt F) → (⟨S1024x16, .f32⟩ : BufTy).Contents (Elt F) → (⟨S1024x16, .f32⟩ : BufTy).Contents (Elt F)),
    binary main_v671 main_v673 main_v674 (addf : (⟨S1024x16, .f32⟩ : BufTy).Contents (Elt F) → (⟨S1024x16, .f32⟩ : BufTy).Contents (Elt F) → (⟨S1024x16, .f32⟩ : BufTy).Contents (Elt F)),
    nullary main_c_34 (constantI S_ 32 6#32),
    unary main_c_34 main_v675 (broadcastInDim S1 ![] bcast_S_S1 : (⟨S_, .i32⟩ : BufTy).Contents (Elt F) → (⟨S1, .i32⟩ : BufTy).Contents (Elt F)),
    ternary main_v656 main_v675 main_v674 main_v676 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v677 ((extractStridedSlice S1024x1 ![0, 33] · slices_S1024x120_S1024x1_0_33) : (⟨S1024x120, .f32⟩ : BufTy).Contents (Elt F) → (⟨S1024x1, .f32⟩ : BufTy).Contents (Elt F)),
    reshape main_v677 main_v678 rfl shapeCasts_S1024x1_S1024,
    unary main_v678 main_v679 (Host.cos : (⟨S1024, .f32⟩ : BufTy).Contents (Elt F) → (⟨S1024, .f32⟩ : BufTy).Contents (Elt F)),
    unary main_v679 main_v680 (broadcastInDim S1024x1 ![0] bcast_S1024_S1024x1_0 : (⟨S1024, .f32⟩ : BufTy).Contents (Elt F) → (⟨S1024x1, .f32⟩ : BufTy).Contents (Elt F)),
    unary main_v678 main_v681 (Host.sin : (⟨S1024, .f32⟩ : BufTy).Contents (Elt F) → (⟨S1024, .f32⟩ : BufTy).Contents (Elt F)),
    unary main_v681 main_v682 (broadcastInDim S1024x1 ![0] bcast_S1024_S1024x1_0 : (⟨S1024, .f32⟩ : BufTy).Contents (Elt F) → (⟨S1024x1, .f32⟩ : BufTy).Contents (Elt F)),
    unary main_v676 main_v683 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)) ]
/-- Operations 1 … 20 of window 12. -/
abbrev st36 : List (HloOp τ sig (Elt F)) :=
  [ reshape main_v683 main_v684 rfl shapeCasts_S1024x1x16_S1024x16,
    unary main_v680 main_v685 (broadcastInDim S1024x16 ![0, 1] bcast_S1024x1_S1024x16_0_1 : (⟨S1024x1, .f32⟩ : BufTy).Contents (Elt F) → (⟨S1024x16, .f32⟩ : BufTy).Contents (Elt F)),
    binary main_v685 main_v669 main_v686 (mulf : (⟨S1024x16, .f32⟩ : BufTy).Contents (Elt F) → (⟨S1024x16, .f32⟩ : BufTy).Contents (Elt F) → (⟨S1024x16, .f32⟩ : BufTy).Contents (Elt F)),
    unary main_v682 main_v687 (broadcastInDim S1024x16 ![0, 1] bcast_S1024x1_S1024x16_0_1 : (⟨S1024x1, .f32⟩ : BufTy).Contents (Elt F) → (⟨S1024x16, .f32⟩ : BufTy).Contents (Elt F)),
    binary main_v687 main_v684 main_v688 (mulf : (⟨S1024x16, .f32⟩ : BufTy).Contents (Elt F) → (⟨S1024x16, .f32⟩ : BufTy).Contents (Elt F) → (⟨S1024x16, .f32⟩ : BufTy).Contents (Elt F)),
    binary main_v686 main_v688 main_v689 (subf : (⟨S1024x16, .f32⟩ : BufTy).Contents (Elt F) → (⟨S1024x16, .f32⟩ : BufTy).Contents (Elt F) → (⟨S1024x16, .f32⟩ : BufTy).Contents (Elt F)),
    unary main_v682 main_v690 (broadcastInDim S1024x16 ![0, 1] bcast_S1024x1_S1024x16_0_1 : (⟨S1024x1, .f32⟩ : BufTy).Contents (Elt F) → (⟨S1024x16, .f32⟩ : BufTy).Contents (Elt F)),
    binary main_v690 main_v669 main_v691 (mulf : (⟨S1024x16, .f32⟩ : BufTy).Contents (Elt F) → (⟨S1024x16, .f32⟩ : BufTy).Contents (Elt F) → (⟨S1024x16, .f32⟩ : BufTy).Contents (Elt F)),
    unary main_v680 main_v692 (broadcastInDim S1024x16 ![0, 1] bcast_S1024x1_S1024x16_0_1 : (⟨S1024x1, .f32⟩ : BufTy).Contents (Elt F) → (⟨S1024x16, .f32⟩ : BufTy).Contents (Elt F)),
    binary main_v692 main_v684 main_v693 (mulf : (⟨S1024x16, .f32⟩ : BufTy).Contents (Elt F) → (⟨S1024x16, .f32⟩ : BufTy).Contents (Elt F) → (⟨S1024x16, .f32⟩ : BufTy).Contents (Elt F)),
    binary main_v691 main_v693 main_v694 (addf : (⟨S1024x16, .f32⟩ : BufTy).Contents (Elt F) → (⟨S1024x16, .f32⟩ : BufTy).Contents (Elt F) → (⟨S1024x16, .f32⟩ : BufTy).Contents (Elt F)),
    nullary main_c_35 (constantI S_ 32 7#32),
    unary main_c_35 main_v695 (broadcastInDim S1 ![] bcast_S_S1 : (⟨S_, .i32⟩ : BufTy).Contents (Elt F) → (⟨S1, .i32⟩ : BufTy).Contents (Elt F)),
    ternary main_v676 main_v695 main_v694 main_v696 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v697 ((extractStridedSlice S1024x1 ![0, 34] · slices_S1024x120_S1024x1_0_34) : (⟨S1024x120, .f32⟩ : BufTy).Contents (Elt F) → (⟨S1024x1, .f32⟩ : BufTy).Contents (Elt F)),
    reshape main_v697 main_v698 rfl shapeCasts_S1024x1_S1024,
    unary main_v698 main_v699 (Host.cos : (⟨S1024, .f32⟩ : BufTy).Contents (Elt F) → (⟨S1024, .f32⟩ : BufTy).Contents (Elt F)),
    unary main_v699 main_v700 (broadcastInDim S1024x1 ![0] bcast_S1024_S1024x1_0 : (⟨S1024, .f32⟩ : BufTy).Contents (Elt F) → (⟨S1024x1, .f32⟩ : BufTy).Contents (Elt F)),
    unary main_v698 main_v701 (Host.sin : (⟨S1024, .f32⟩ : BufTy).Contents (Elt F) → (⟨S1024, .f32⟩ : BufTy).Contents (Elt F)),
    unary main_v701 main_v702 (broadcastInDim S1024x1 ![0] bcast_S1024_S1024x1_0 : (⟨S1024, .f32⟩ : BufTy).Contents (Elt F) → (⟨S1024x1, .f32⟩ : BufTy).Contents (Elt F)) ]
/-- Operations 21 … 40 of window 12. -/
abbrev st37 : List (HloOp τ sig (Elt F)) :=
  [ unary main_v696 main_v703 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v703 main_v704 rfl shapeCasts_S1024x1x16_S1024x16,
    unary main_v700 main_v705 (broadcastInDim S1024x16 ![0, 1] bcast_S1024x1_S1024x16_0_1 : (⟨S1024x1, .f32⟩ : BufTy).Contents (Elt F) → (⟨S1024x16, .f32⟩ : BufTy).Contents (Elt F)),
    binary main_v705 main_v689 main_v706 (mulf : (⟨S1024x16, .f32⟩ : BufTy).Contents (Elt F) → (⟨S1024x16, .f32⟩ : BufTy).Contents (Elt F) → (⟨S1024x16, .f32⟩ : BufTy).Contents (Elt F)),
    unary main_v702 main_v707 (broadcastInDim S1024x16 ![0, 1] bcast_S1024x1_S1024x16_0_1 : (⟨S1024x1, .f32⟩ : BufTy).Contents (Elt F) → (⟨S1024x16, .f32⟩ : BufTy).Contents (Elt F)),
    binary main_v707 main_v704 main_v708 (mulf : (⟨S1024x16, .f32⟩ : BufTy).Contents (Elt F) → (⟨S1024x16, .f32⟩ : BufTy).Contents (Elt F) → (⟨S1024x16, .f32⟩ : BufTy).Contents (Elt F)),
    binary main_v706 main_v708 main_v709 (subf : (⟨S1024x16, .f32⟩ : BufTy).Contents (Elt F) → (⟨S1024x16, .f32⟩ : BufTy).Contents (Elt F) → (⟨S1024x16, .f32⟩ : BufTy).Contents (Elt F)),
    unary main_v702 main_v710 (broadcastInDim S1024x16 ![0, 1] bcast_S1024x1_S1024x16_0_1 : (⟨S1024x1, .f32⟩ : BufTy).Contents (Elt F) → (⟨S1024x16, .f32⟩ : BufTy).Contents (Elt F)),
    binary main_v710 main_v689 main_v711 (mulf : (⟨S1024x16, .f32⟩ : BufTy).Contents (Elt F) → (⟨S1024x16, .f32⟩ : BufTy).Contents (Elt F) → (⟨S1024x16, .f32⟩ : BufTy).Contents (Elt F)),
    unary main_v700 main_v712 (broadcastInDim S1024x16 ![0, 1] bcast_S1024x1_S1024x16_0_1 : (⟨S1024x1, .f32⟩ : BufTy).Contents (Elt F) → (⟨S1024x16, .f32⟩ : BufTy).Contents (Elt F)),
    binary main_v712 main_v704 main_v713 (mulf : (⟨S1024x16, .f32⟩ : BufTy).Contents (Elt F) → (⟨S1024x16, .f32⟩ : BufTy).Contents (Elt F) → (⟨S1024x16, .f32⟩ : BufTy).Contents (Elt F)),
    binary main_v711 main_v713 main_v714 (addf : (⟨S1024x16, .f32⟩ : BufTy).Contents (Elt F) → (⟨S1024x16, .f32⟩ : BufTy).Contents (Elt F) → (⟨S1024x16, .f32⟩ : BufTy).Contents (Elt F)),
    nullary main_c_36 (constantI S_ 32 8#32),
    unary main_c_36 main_v715 (broadcastInDim S1 ![] bcast_S_S1 : (⟨S_, .i32⟩ : BufTy).Contents (Elt F) → (⟨S1, .i32⟩ : BufTy).Contents (Elt F)),
    ternary main_v696 main_v715 main_v714 main_v716 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v717 ((extractStridedSlice S1024x1 ![0, 35] · slices_S1024x120_S1024x1_0_35) : (⟨S1024x120, .f32⟩ : BufTy).Contents (Elt F) → (⟨S1024x1, .f32⟩ : BufTy).Contents (Elt F)),
    reshape main_v717 main_v718 rfl shapeCasts_S1024x1_S1024,
    unary main_v718 main_v719 (Host.cos : (⟨S1024, .f32⟩ : BufTy).Contents (Elt F) → (⟨S1024, .f32⟩ : BufTy).Contents (Elt F)),
    unary main_v719 main_v720 (broadcastInDim S1024x1 ![0] bcast_S1024_S1024x1_0 : (⟨S1024, .f32⟩ : BufTy).Contents (Elt F) → (⟨S1024x1, .f32⟩ : BufTy).Contents (Elt F)),
    unary main_v718 main_v721 (Host.sin : (⟨S1024, .f32⟩ : BufTy).Contents (Elt F) → (⟨S1024, .f32⟩ : BufTy).Contents (Elt F)) ]
/-- Operations 41 … 60 of window 12. -/
abbrev st38 : List (HloOp τ sig (Elt F)) :=
  [ unary main_v721 main_v722 (broadcastInDim S1024x1 ![0] bcast_S1024_S1024x1_0 : (⟨S1024, .f32⟩ : BufTy).Contents (Elt F) → (⟨S1024x1, .f32⟩ : BufTy).Contents (Elt F)),
    unary main_v716 main_v723 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v723 main_v724 rfl shapeCasts_S1024x1x16_S1024x16,
    unary main_v720 main_v725 (broadcastInDim S1024x16 ![0, 1] bcast_S1024x1_S1024x16_0_1 : (⟨S1024x1, .f32⟩ : BufTy).Contents (Elt F) → (⟨S1024x16, .f32⟩ : BufTy).Contents (Elt F)),
    binary main_v725 main_v709 main_v726 (mulf : (⟨S1024x16, .f32⟩ : BufTy).Contents (Elt F) → (⟨S1024x16, .f32⟩ : BufTy).Contents (Elt F) → (⟨S1024x16, .f32⟩ : BufTy).Contents (Elt F)),
    unary main_v722 main_v727 (broadcastInDim S1024x16 ![0, 1] bcast_S1024x1_S1024x16_0_1 : (⟨S1024x1, .f32⟩ : BufTy).Contents (Elt F) → (⟨S1024x16, .f32⟩ : BufTy).Contents (Elt F)),
    binary main_v727 main_v724 main_v728 (mulf : (⟨S1024x16, .f32⟩ : BufTy).Contents (Elt F) → (⟨S1024x16, .f32⟩ : BufTy).Contents (Elt F) → (⟨S1024x16, .f32⟩ : BufTy).Contents (Elt F)),
    binary main_v726 main_v728 main_v729 (subf : (⟨S1024x16, .f32⟩ : BufTy).Contents (Elt F) → (⟨S1024x16, .f32⟩ : BufTy).Contents (Elt F) → (⟨S1024x16, .f32⟩ : BufTy).Contents (Elt F)),
    unary main_v722 main_v730 (broadcastInDim S1024x16 ![0, 1] bcast_S1024x1_S1024x16_0_1 : (⟨S1024x1, .f32⟩ : BufTy).Contents (Elt F) → (⟨S1024x16, .f32⟩ : BufTy).Contents (Elt F)),
    binary main_v730 main_v709 main_v731 (mulf : (⟨S1024x16, .f32⟩ : BufTy).Contents (Elt F) → (⟨S1024x16, .f32⟩ : BufTy).Contents (Elt F) → (⟨S1024x16, .f32⟩ : BufTy).Contents (Elt F)),
    unary main_v720 main_v732 (broadcastInDim S1024x16 ![0, 1] bcast_S1024x1_S1024x16_0_1 : (⟨S1024x1, .f32⟩ : BufTy).Contents (Elt F) → (⟨S1024x16, .f32⟩ : BufTy).Contents (Elt F)),
    binary main_v732 main_v724 main_v733 (mulf : (⟨S1024x16, .f32⟩ : BufTy).Contents (Elt F) → (⟨S1024x16, .f32⟩ : BufTy).Contents (Elt F) → (⟨S1024x16, .f32⟩ : BufTy).Contents (Elt F)),
    binary main_v731 main_v733 main_v734 (addf : (⟨S1024x16, .f32⟩ : BufTy).Contents (Elt F) → (⟨S1024x16, .f32⟩ : BufTy).Contents (Elt F) → (⟨S1024x16, .f32⟩ : BufTy).Contents (Elt F)),
    nullary main_c_37 (constantI S_ 32 9#32),
    unary main_c_37 main_v735 (broadcastInDim S1 ![] bcast_S_S1 : (⟨S_, .i32⟩ : BufTy).Contents (Elt F) → (⟨S1, .i32⟩ : BufTy).Contents (Elt F)),
    ternary main_v716 main_v735 main_v734 main_v736 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v737 ((extractStridedSlice S1024x1 ![0, 36] · slices_S1024x120_S1024x1_0_36) : (⟨S1024x120, .f32⟩ : BufTy).Contents (Elt F) → (⟨S1024x1, .f32⟩ : BufTy).Contents (Elt F)),
    reshape main_v737 main_v738 rfl shapeCasts_S1024x1_S1024,
    unary main_v738 main_v739 (Host.cos : (⟨S1024, .f32⟩ : BufTy).Contents (Elt F) → (⟨S1024, .f32⟩ : BufTy).Contents (Elt F)),
    unary main_v739 main_v740 (broadcastInDim S1024x1 ![0] bcast_S1024_S1024x1_0 : (⟨S1024, .f32⟩ : BufTy).Contents (Elt F) → (⟨S1024x1, .f32⟩ : BufTy).Contents (Elt F)) ]
/-- Operations 1 … 20 of window 13. -/
abbrev st39 : List (HloOp τ sig (Elt F)) :=
  [ unary main_v738 main_v741 (Host.sin : (⟨S1024, .f32⟩ : BufTy).Contents (Elt F) → (⟨S1024, .f32⟩ : BufTy).Contents (Elt F)),
    unary main_v741 main_v742 (broadcastInDim S1024x1 ![0] bcast_S1024_S1024x1_0 : (⟨S1024, .f32⟩ : BufTy).Contents (Elt F) → (⟨S1024x1, .f32⟩ : BufTy).Contents (Elt F)),
    unary main_v736 main_v743 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v743 main_v744 rfl shapeCasts_S1024x1x16_S1024x16,
    unary main_v740 main_v745 (broadcastInDim S1024x16 ![0, 1] bcast_S1024x1_S1024x16_0_1 : (⟨S1024x1, .f32⟩ : BufTy).Contents (Elt F) → (⟨S1024x16, .f32⟩ : BufTy).Contents (Elt F)),
    binary main_v745 main_v729 main_v746 (mulf : (⟨S1024x16, .f32⟩ : BufTy).Contents (Elt F) → (⟨S1024x16, .f32⟩ : BufTy).Contents (Elt F) → (⟨S1024x16, .f32⟩ : BufTy).Contents (Elt F)),
    unary main_v742 main_v747 (broadcastInDim S1024x16 ![0, 1] bcast_S1024x1_S1024x16_0_1 : (⟨S1024x1, .f32⟩ : BufTy).Contents (Elt F) → (⟨S1024x16, .f32⟩ : BufTy).Contents (Elt F)),
    binary main_v747 main_v744 main_v748 (mulf : (⟨S1024x16, .f32⟩ : BufTy).Contents (Elt F) → (⟨S1024x16, .f32⟩ : BufTy).Contents (Elt F) → (⟨S1024x16, .f32⟩ : BufTy).Contents (Elt F)),
    binary main_v746 main_v748 main_v749 (subf : (⟨S1024x16, .f32⟩ : BufTy).Contents (Elt F) → (⟨S1024x16, .f32⟩ : BufTy).Contents (Elt F) → (⟨S1024x16, .f32⟩ : BufTy).Contents (Elt F)),
    unary main_v742 main_v750 (broadcastInDim S1024x16 ![0, 1] bcast_S1024x1_S1024x16_0_1 : (⟨S1024x1, .f32⟩ : BufTy).Contents (Elt F) → (⟨S1024x16, .f32⟩ : BufTy).Contents (Elt F)),
    binary main_v750 main_v729 main_v751 (mulf : (⟨S1024x16, .f32⟩ : BufTy).Contents (Elt F) → (⟨S1024x16, .f32⟩ : BufTy).Contents (Elt F) → (⟨S1024x16, .f32⟩ : BufTy).Contents (Elt F)),
    unary main_v740 main_v752 (broadcastInDim S1024x16 ![0, 1] bcast_S1024x1_S1024x16_0_1 : (⟨S1024x1, .f32⟩ : BufTy).Contents (Elt F) → (⟨S1024x16, .f32⟩ : BufTy).Contents (Elt F)),
    binary main_v752 main_v744 main_v753 (mulf : (⟨S1024x16, .f32⟩ : BufTy).Contents (Elt F) → (⟨S1024x16, .f32⟩ : BufTy).Contents (Elt F) → (⟨S1024x16, .f32⟩ : BufTy).Contents (Elt F)),
    binary main_v751 main_v753 main_v754 (addf : (⟨S1024x16, .f32⟩ : BufTy).Contents (Elt F) → (⟨S1024x16, .f32⟩ : BufTy).Contents (Elt F) → (⟨S1024x16, .f32⟩ : BufTy).Contents (Elt F)),
    nullary main_c_38 (constantI S_ 32 10#32),
    unary main_c_38 main_v755 (broadcastInDim S1 ![] bcast_S_S1 : (⟨S_, .i32⟩ : BufTy).Contents (Elt F) → (⟨S1, .i32⟩ : BufTy).Contents (Elt F)),
    ternary main_v736 main_v755 main_v754 main_v756 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v757 ((extractStridedSlice S1024x1 ![0, 37] · slices_S1024x120_S1024x1_0_37) : (⟨S1024x120, .f32⟩ : BufTy).Contents (Elt F) → (⟨S1024x1, .f32⟩ : BufTy).Contents (Elt F)),
    reshape main_v757 main_v758 rfl shapeCasts_S1024x1_S1024,
    unary main_v758 main_v759 (Host.cos : (⟨S1024, .f32⟩ : BufTy).Contents (Elt F) → (⟨S1024, .f32⟩ : BufTy).Contents (Elt F)) ]
/-- Operations 21 … 40 of window 13. -/
abbrev st40 : List (HloOp τ sig (Elt F)) :=
  [ unary main_v759 main_v760 (broadcastInDim S1024x1 ![0] bcast_S1024_S1024x1_0 : (⟨S1024, .f32⟩ : BufTy).Contents (Elt F) → (⟨S1024x1, .f32⟩ : BufTy).Contents (Elt F)),
    unary main_v758 main_v761 (Host.sin : (⟨S1024, .f32⟩ : BufTy).Contents (Elt F) → (⟨S1024, .f32⟩ : BufTy).Contents (Elt F)),
    unary main_v761 main_v762 (broadcastInDim S1024x1 ![0] bcast_S1024_S1024x1_0 : (⟨S1024, .f32⟩ : BufTy).Contents (Elt F) → (⟨S1024x1, .f32⟩ : BufTy).Contents (Elt F)),
    unary main_v756 main_v763 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v763 main_v764 rfl shapeCasts_S1024x1x16_S1024x16,
    unary main_v760 main_v765 (broadcastInDim S1024x16 ![0, 1] bcast_S1024x1_S1024x16_0_1 : (⟨S1024x1, .f32⟩ : BufTy).Contents (Elt F) → (⟨S1024x16, .f32⟩ : BufTy).Contents (Elt F)),
    binary main_v765 main_v749 main_v766 (mulf : (⟨S1024x16, .f32⟩ : BufTy).Contents (Elt F) → (⟨S1024x16, .f32⟩ : BufTy).Contents (Elt F) → (⟨S1024x16, .f32⟩ : BufTy).Contents (Elt F)),
    unary main_v762 main_v767 (broadcastInDim S1024x16 ![0, 1] bcast_S1024x1_S1024x16_0_1 : (⟨S1024x1, .f32⟩ : BufTy).Contents (Elt F) → (⟨S1024x16, .f32⟩ : BufTy).Contents (Elt F)),
    binary main_v767 main_v764 main_v768 (mulf : (⟨S1024x16, .f32⟩ : BufTy).Contents (Elt F) → (⟨S1024x16, .f32⟩ : BufTy).Contents (Elt F) → (⟨S1024x16, .f32⟩ : BufTy).Contents (Elt F)),
    binary main_v766 main_v768 main_v769 (subf : (⟨S1024x16, .f32⟩ : BufTy).Contents (Elt F) → (⟨S1024x16, .f32⟩ : BufTy).Contents (Elt F) → (⟨S1024x16, .f32⟩ : BufTy).Contents (Elt F)),
    unary main_v762 main_v770 (broadcastInDim S1024x16 ![0, 1] bcast_S1024x1_S1024x16_0_1 : (⟨S1024x1, .f32⟩ : BufTy).Contents (Elt F) → (⟨S1024x16, .f32⟩ : BufTy).Contents (Elt F)),
    binary main_v770 main_v749 main_v771 (mulf : (⟨S1024x16, .f32⟩ : BufTy).Contents (Elt F) → (⟨S1024x16, .f32⟩ : BufTy).Contents (Elt F) → (⟨S1024x16, .f32⟩ : BufTy).Contents (Elt F)),
    unary main_v760 main_v772 (broadcastInDim S1024x16 ![0, 1] bcast_S1024x1_S1024x16_0_1 : (⟨S1024x1, .f32⟩ : BufTy).Contents (Elt F) → (⟨S1024x16, .f32⟩ : BufTy).Contents (Elt F)),
    binary main_v772 main_v764 main_v773 (mulf : (⟨S1024x16, .f32⟩ : BufTy).Contents (Elt F) → (⟨S1024x16, .f32⟩ : BufTy).Contents (Elt F) → (⟨S1024x16, .f32⟩ : BufTy).Contents (Elt F)),
    binary main_v771 main_v773 main_v774 (addf : (⟨S1024x16, .f32⟩ : BufTy).Contents (Elt F) → (⟨S1024x16, .f32⟩ : BufTy).Contents (Elt F) → (⟨S1024x16, .f32⟩ : BufTy).Contents (Elt F)),
    nullary main_c_39 (constantI S_ 32 11#32),
    unary main_c_39 main_v775 (broadcastInDim S1 ![] bcast_S_S1 : (⟨S_, .i32⟩ : BufTy).Contents (Elt F) → (⟨S1, .i32⟩ : BufTy).Contents (Elt F)),
    ternary main_v756 main_v775 main_v774 main_v776 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v777 ((extractStridedSlice S1024x1 ![0, 38] · slices_S1024x120_S1024x1_0_38) : (⟨S1024x120, .f32⟩ : BufTy).Contents (Elt F) → (⟨S1024x1, .f32⟩ : BufTy).Contents (Elt F)),
    reshape main_v777 main_v778 rfl shapeCasts_S1024x1_S1024 ]
/-- Operations 41 … 60 of window 13. -/
abbrev st41 : List (HloOp τ sig (Elt F)) :=
  [ unary main_v778 main_v779 (Host.cos : (⟨S1024, .f32⟩ : BufTy).Contents (Elt F) → (⟨S1024, .f32⟩ : BufTy).Contents (Elt F)),
    unary main_v779 main_v780 (broadcastInDim S1024x1 ![0] bcast_S1024_S1024x1_0 : (⟨S1024, .f32⟩ : BufTy).Contents (Elt F) → (⟨S1024x1, .f32⟩ : BufTy).Contents (Elt F)),
    unary main_v778 main_v781 (Host.sin : (⟨S1024, .f32⟩ : BufTy).Contents (Elt F) → (⟨S1024, .f32⟩ : BufTy).Contents (Elt F)),
    unary main_v781 main_v782 (broadcastInDim S1024x1 ![0] bcast_S1024_S1024x1_0 : (⟨S1024, .f32⟩ : BufTy).Contents (Elt F) → (⟨S1024x1, .f32⟩ : BufTy).Contents (Elt F)),
    unary main_v776 main_v783 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v783 main_v784 rfl shapeCasts_S1024x1x16_S1024x16,
    unary main_v780 main_v785 (broadcastInDim S1024x16 ![0, 1] bcast_S1024x1_S1024x16_0_1 : (⟨S1024x1, .f32⟩ : BufTy).Contents (Elt F) → (⟨S1024x16, .f32⟩ : BufTy).Contents (Elt F)),
    binary main_v785 main_v769 main_v786 (mulf : (⟨S1024x16, .f32⟩ : BufTy).Contents (Elt F) → (⟨S1024x16, .f32⟩ : BufTy).Contents (Elt F) → (⟨S1024x16, .f32⟩ : BufTy).Contents (Elt F)),
    unary main_v782 main_v787 (broadcastInDim S1024x16 ![0, 1] bcast_S1024x1_S1024x16_0_1 : (⟨S1024x1, .f32⟩ : BufTy).Contents (Elt F) → (⟨S1024x16, .f32⟩ : BufTy).Contents (Elt F)),
    binary main_v787 main_v784 main_v788 (mulf : (⟨S1024x16, .f32⟩ : BufTy).Contents (Elt F) → (⟨S1024x16, .f32⟩ : BufTy).Contents (Elt F) → (⟨S1024x16, .f32⟩ : BufTy).Contents (Elt F)),
    binary main_v786 main_v788 main_v789 (subf : (⟨S1024x16, .f32⟩ : BufTy).Contents (Elt F) → (⟨S1024x16, .f32⟩ : BufTy).Contents (Elt F) → (⟨S1024x16, .f32⟩ : BufTy).Contents (Elt F)),
    unary main_v782 main_v790 (broadcastInDim S1024x16 ![0, 1] bcast_S1024x1_S1024x16_0_1 : (⟨S1024x1, .f32⟩ : BufTy).Contents (Elt F) → (⟨S1024x16, .f32⟩ : BufTy).Contents (Elt F)),
    binary main_v790 main_v769 main_v791 (mulf : (⟨S1024x16, .f32⟩ : BufTy).Contents (Elt F) → (⟨S1024x16, .f32⟩ : BufTy).Contents (Elt F) → (⟨S1024x16, .f32⟩ : BufTy).Contents (Elt F)),
    unary main_v780 main_v792 (broadcastInDim S1024x16 ![0, 1] bcast_S1024x1_S1024x16_0_1 : (⟨S1024x1, .f32⟩ : BufTy).Contents (Elt F) → (⟨S1024x16, .f32⟩ : BufTy).Contents (Elt F)),
    binary main_v792 main_v784 main_v793 (mulf : (⟨S1024x16, .f32⟩ : BufTy).Contents (Elt F) → (⟨S1024x16, .f32⟩ : BufTy).Contents (Elt F) → (⟨S1024x16, .f32⟩ : BufTy).Contents (Elt F)),
    binary main_v791 main_v793 main_v794 (addf : (⟨S1024x16, .f32⟩ : BufTy).Contents (Elt F) → (⟨S1024x16, .f32⟩ : BufTy).Contents (Elt F) → (⟨S1024x16, .f32⟩ : BufTy).Contents (Elt F)),
    nullary main_c_40 (constantI S_ 32 12#32),
    unary main_c_40 main_v795 (broadcastInDim S1 ![] bcast_S_S1 : (⟨S_, .i32⟩ : BufTy).Contents (Elt F) → (⟨S1, .i32⟩ : BufTy).Contents (Elt F)),
    ternary main_v776 main_v795 main_v794 main_v796 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v797 ((extractStridedSlice S1024x1 ![0, 39] · slices_S1024x120_S1024x1_0_39) : (⟨S1024x120, .f32⟩ : BufTy).Contents (Elt F) → (⟨S1024x1, .f32⟩ : BufTy).Contents (Elt F)) ]
/-- Operations 1 … 20 of window 14. -/
abbrev st42 : List (HloOp τ sig (Elt F)) :=
  [ reshape main_v797 main_v798 rfl shapeCasts_S1024x1_S1024,
    unary main_v798 main_v799 (Host.cos : (⟨S1024, .f32⟩ : BufTy).Contents (Elt F) → (⟨S1024, .f32⟩ : BufTy).Contents (Elt F)),
    unary main_v799 main_v800 (broadcastInDim S1024x1 ![0] bcast_S1024_S1024x1_0 : (⟨S1024, .f32⟩ : BufTy).Contents (Elt F) → (⟨S1024x1, .f32⟩ : BufTy).Contents (Elt F)),
    unary main_v798 main_v801 (Host.sin : (⟨S1024, .f32⟩ : BufTy).Contents (Elt F) → (⟨S1024, .f32⟩ : BufTy).Contents (Elt F)),
    unary main_v801 main_v802 (broadcastInDim S1024x1 ![0] bcast_S1024_S1024x1_0 : (⟨S1024, .f32⟩ : BufTy).Contents (Elt F) → (⟨S1024x1, .f32⟩ : BufTy).Contents (Elt F)),
    unary main_v796 main_v803 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v803 main_v804 rfl shapeCasts_S1024x1x16_S1024x16,
    unary main_v800 main_v805 (broadcastInDim S1024x16 ![0, 1] bcast_S1024x1_S1024x16_0_1 : (⟨S1024x1, .f32⟩ : BufTy).Contents (Elt F) → (⟨S1024x16, .f32⟩ : BufTy).Contents (Elt F)),
    binary main_v805 main_v789 main_v806 (mulf : (⟨S1024x16, .f32⟩ : BufTy).Contents (Elt F) → (⟨S1024x16, .f32⟩ : BufTy).Contents (Elt F) → (⟨S1024x16, .f32⟩ : BufTy).Contents (Elt F)),
    unary main_v802 main_v807 (broadcastInDim S1024x16 ![0, 1] bcast_S1024x1_S1024x16_0_1 : (⟨S1024x1, .f32⟩ : BufTy).Contents (Elt F) → (⟨S1024x16, .f32⟩ : BufTy).Contents (Elt F)),
    binary main_v807 main_v804 main_v808 (mulf : (⟨S1024x16, .f32⟩ : BufTy).Contents (Elt F) → (⟨S1024x16, .f32⟩ : BufTy).Contents (Elt F) → (⟨S1024x16, .f32⟩ : BufTy).Contents (Elt F)),
    binary main_v806 main_v808 main_v809 (subf : (⟨S1024x16, .f32⟩ : BufTy).Contents (Elt F) → (⟨S1024x16, .f32⟩ : BufTy).Contents (Elt F) → (⟨S1024x16, .f32⟩ : BufTy).Contents (Elt F)),
    unary main_v802 main_v810 (broadcastInDim S1024x16 ![0, 1] bcast_S1024x1_S1024x16_0_1 : (⟨S1024x1, .f32⟩ : BufTy).Contents (Elt F) → (⟨S1024x16, .f32⟩ : BufTy).Contents (Elt F)),
    binary main_v810 main_v789 main_v811 (mulf : (⟨S1024x16, .f32⟩ : BufTy).Contents (Elt F) → (⟨S1024x16, .f32⟩ : BufTy).Contents (Elt F) → (⟨S1024x16, .f32⟩ : BufTy).Contents (Elt F)),
    unary main_v800 main_v812 (broadcastInDim S1024x16 ![0, 1] bcast_S1024x1_S1024x16_0_1 : (⟨S1024x1, .f32⟩ : BufTy).Contents (Elt F) → (⟨S1024x16, .f32⟩ : BufTy).Contents (Elt F)),
    binary main_v812 main_v804 main_v813 (mulf : (⟨S1024x16, .f32⟩ : BufTy).Contents (Elt F) → (⟨S1024x16, .f32⟩ : BufTy).Contents (Elt F) → (⟨S1024x16, .f32⟩ : BufTy).Contents (Elt F)),
    binary main_v811 main_v813 main_v814 (addf : (⟨S1024x16, .f32⟩ : BufTy).Contents (Elt F) → (⟨S1024x16, .f32⟩ : BufTy).Contents (Elt F) → (⟨S1024x16, .f32⟩ : BufTy).Contents (Elt F)),
    nullary main_c_41 (constantI S_ 32 13#32),
    unary main_c_41 main_v815 (broadcastInDim S1 ![] bcast_S_S1 : (⟨S_, .i32⟩ : BufTy).Contents (Elt F) → (⟨S1, .i32⟩ : BufTy).Contents (Elt F)),
    ternary main_v796 main_v815 main_v814 main_v816 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 21 … 40 of window 14. -/
abbrev st43 : List (HloOp τ sig (Elt F)) :=
  [ unary main_arg1 main_v817 ((extractStridedSlice S1024x1 ![0, 40] · slices_S1024x120_S1024x1_0_40) : (⟨S1024x120, .f32⟩ : BufTy).Contents (Elt F) → (⟨S1024x1, .f32⟩ : BufTy).Contents (Elt F)),
    reshape main_v817 main_v818 rfl shapeCasts_S1024x1_S1024,
    unary main_v818 main_v819 (Host.cos : (⟨S1024, .f32⟩ : BufTy).Contents (Elt F) → (⟨S1024, .f32⟩ : BufTy).Contents (Elt F)),
    unary main_v819 main_v820 (broadcastInDim S1024x1 ![0] bcast_S1024_S1024x1_0 : (⟨S1024, .f32⟩ : BufTy).Contents (Elt F) → (⟨S1024x1, .f32⟩ : BufTy).Contents (Elt F)),
    unary main_v818 main_v821 (Host.sin : (⟨S1024, .f32⟩ : BufTy).Contents (Elt F) → (⟨S1024, .f32⟩ : BufTy).Contents (Elt F)),
    unary main_v821 main_v822 (broadcastInDim S1024x1 ![0] bcast_S1024_S1024x1_0 : (⟨S1024, .f32⟩ : BufTy).Contents (Elt F) → (⟨S1024x1, .f32⟩ : BufTy).Contents (Elt F)),
    unary main_v816 main_v823 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v823 main_v824 rfl shapeCasts_S1024x1x16_S1024x16,
    unary main_v820 main_v825 (broadcastInDim S1024x16 ![0, 1] bcast_S1024x1_S1024x16_0_1 : (⟨S1024x1, .f32⟩ : BufTy).Contents (Elt F) → (⟨S1024x16, .f32⟩ : BufTy).Contents (Elt F)),
    binary main_v825 main_v809 main_v826 (mulf : (⟨S1024x16, .f32⟩ : BufTy).Contents (Elt F) → (⟨S1024x16, .f32⟩ : BufTy).Contents (Elt F) → (⟨S1024x16, .f32⟩ : BufTy).Contents (Elt F)),
    unary main_v822 main_v827 (broadcastInDim S1024x16 ![0, 1] bcast_S1024x1_S1024x16_0_1 : (⟨S1024x1, .f32⟩ : BufTy).Contents (Elt F) → (⟨S1024x16, .f32⟩ : BufTy).Contents (Elt F)),
    binary main_v827 main_v824 main_v828 (mulf : (⟨S1024x16, .f32⟩ : BufTy).Contents (Elt F) → (⟨S1024x16, .f32⟩ : BufTy).Contents (Elt F) → (⟨S1024x16, .f32⟩ : BufTy).Contents (Elt F)),
    binary main_v826 main_v828 main_v829 (subf : (⟨S1024x16, .f32⟩ : BufTy).Contents (Elt F) → (⟨S1024x16, .f32⟩ : BufTy).Contents (Elt F) → (⟨S1024x16, .f32⟩ : BufTy).Contents (Elt F)),
    unary main_v822 main_v830 (broadcastInDim S1024x16 ![0, 1] bcast_S1024x1_S1024x16_0_1 : (⟨S1024x1, .f32⟩ : BufTy).Contents (Elt F) → (⟨S1024x16, .f32⟩ : BufTy).Contents (Elt F)),
    binary main_v830 main_v809 main_v831 (mulf : (⟨S1024x16, .f32⟩ : BufTy).Contents (Elt F) → (⟨S1024x16, .f32⟩ : BufTy).Contents (Elt F) → (⟨S1024x16, .f32⟩ : BufTy).Contents (Elt F)),
    unary main_v820 main_v832 (broadcastInDim S1024x16 ![0, 1] bcast_S1024x1_S1024x16_0_1 : (⟨S1024x1, .f32⟩ : BufTy).Contents (Elt F) → (⟨S1024x16, .f32⟩ : BufTy).Contents (Elt F)),
    binary main_v832 main_v824 main_v833 (mulf : (⟨S1024x16, .f32⟩ : BufTy).Contents (Elt F) → (⟨S1024x16, .f32⟩ : BufTy).Contents (Elt F) → (⟨S1024x16, .f32⟩ : BufTy).Contents (Elt F)),
    binary main_v831 main_v833 main_v834 (addf : (⟨S1024x16, .f32⟩ : BufTy).Contents (Elt F) → (⟨S1024x16, .f32⟩ : BufTy).Contents (Elt F) → (⟨S1024x16, .f32⟩ : BufTy).Contents (Elt F)),
    nullary main_c_42 (constantI S_ 32 14#32),
    unary main_c_42 main_v835 (broadcastInDim S1 ![] bcast_S_S1 : (⟨S_, .i32⟩ : BufTy).Contents (Elt F) → (⟨S1, .i32⟩ : BufTy).Contents (Elt F)) ]
/-- Operations 41 … 60 of window 14. -/
abbrev st44 : List (HloOp τ sig (Elt F)) :=
  [ ternary main_v816 main_v835 main_v834 main_v836 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v837 ((extractStridedSlice S1024x1 ![0, 41] · slices_S1024x120_S1024x1_0_41) : (⟨S1024x120, .f32⟩ : BufTy).Contents (Elt F) → (⟨S1024x1, .f32⟩ : BufTy).Contents (Elt F)),
    reshape main_v837 main_v838 rfl shapeCasts_S1024x1_S1024,
    unary main_v838 main_v839 (Host.cos : (⟨S1024, .f32⟩ : BufTy).Contents (Elt F) → (⟨S1024, .f32⟩ : BufTy).Contents (Elt F)),
    unary main_v839 main_v840 (broadcastInDim S1024x1 ![0] bcast_S1024_S1024x1_0 : (⟨S1024, .f32⟩ : BufTy).Contents (Elt F) → (⟨S1024x1, .f32⟩ : BufTy).Contents (Elt F)),
    unary main_v838 main_v841 (Host.sin : (⟨S1024, .f32⟩ : BufTy).Contents (Elt F) → (⟨S1024, .f32⟩ : BufTy).Contents (Elt F)),
    unary main_v841 main_v842 (broadcastInDim S1024x1 ![0] bcast_S1024_S1024x1_0 : (⟨S1024, .f32⟩ : BufTy).Contents (Elt F) → (⟨S1024x1, .f32⟩ : BufTy).Contents (Elt F)),
    unary main_v836 main_v843 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v843 main_v844 rfl shapeCasts_S1024x1x16_S1024x16,
    unary main_v840 main_v845 (broadcastInDim S1024x16 ![0, 1] bcast_S1024x1_S1024x16_0_1 : (⟨S1024x1, .f32⟩ : BufTy).Contents (Elt F) → (⟨S1024x16, .f32⟩ : BufTy).Contents (Elt F)),
    binary main_v845 main_v829 main_v846 (mulf : (⟨S1024x16, .f32⟩ : BufTy).Contents (Elt F) → (⟨S1024x16, .f32⟩ : BufTy).Contents (Elt F) → (⟨S1024x16, .f32⟩ : BufTy).Contents (Elt F)),
    unary main_v842 main_v847 (broadcastInDim S1024x16 ![0, 1] bcast_S1024x1_S1024x16_0_1 : (⟨S1024x1, .f32⟩ : BufTy).Contents (Elt F) → (⟨S1024x16, .f32⟩ : BufTy).Contents (Elt F)),
    binary main_v847 main_v844 main_v848 (mulf : (⟨S1024x16, .f32⟩ : BufTy).Contents (Elt F) → (⟨S1024x16, .f32⟩ : BufTy).Contents (Elt F) → (⟨S1024x16, .f32⟩ : BufTy).Contents (Elt F)),
    binary main_v846 main_v848 main_v849 (subf : (⟨S1024x16, .f32⟩ : BufTy).Contents (Elt F) → (⟨S1024x16, .f32⟩ : BufTy).Contents (Elt F) → (⟨S1024x16, .f32⟩ : BufTy).Contents (Elt F)),
    unary main_v842 main_v850 (broadcastInDim S1024x16 ![0, 1] bcast_S1024x1_S1024x16_0_1 : (⟨S1024x1, .f32⟩ : BufTy).Contents (Elt F) → (⟨S1024x16, .f32⟩ : BufTy).Contents (Elt F)),
    binary main_v850 main_v829 main_v851 (mulf : (⟨S1024x16, .f32⟩ : BufTy).Contents (Elt F) → (⟨S1024x16, .f32⟩ : BufTy).Contents (Elt F) → (⟨S1024x16, .f32⟩ : BufTy).Contents (Elt F)),
    unary main_v840 main_v852 (broadcastInDim S1024x16 ![0, 1] bcast_S1024x1_S1024x16_0_1 : (⟨S1024x1, .f32⟩ : BufTy).Contents (Elt F) → (⟨S1024x16, .f32⟩ : BufTy).Contents (Elt F)),
    binary main_v852 main_v844 main_v853 (mulf : (⟨S1024x16, .f32⟩ : BufTy).Contents (Elt F) → (⟨S1024x16, .f32⟩ : BufTy).Contents (Elt F) → (⟨S1024x16, .f32⟩ : BufTy).Contents (Elt F)),
    binary main_v851 main_v853 main_v854 (addf : (⟨S1024x16, .f32⟩ : BufTy).Contents (Elt F) → (⟨S1024x16, .f32⟩ : BufTy).Contents (Elt F) → (⟨S1024x16, .f32⟩ : BufTy).Contents (Elt F)),
    nullary main_c_43 (constantI S_ 32 15#32) ]
/-- Operations 1 … 20 of window 15. -/
abbrev st45 : List (HloOp τ sig (Elt F)) :=
  [ unary main_c_43 main_v855 (broadcastInDim S1 ![] bcast_S_S1 : (⟨S_, .i32⟩ : BufTy).Contents (Elt F) → (⟨S1, .i32⟩ : BufTy).Contents (Elt F)),
    ternary main_v836 main_v855 main_v854 main_v856 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_44 (constantI S_ 32 2#32),
    unary main_c_44 main_v857 (broadcastInDim S1 ![] bcast_S_S1 : (⟨S_, .i32⟩ : BufTy).Contents (Elt F) → (⟨S1, .i32⟩ : BufTy).Contents (Elt F)),
    ternary main_v856 main_v857 main_v849 main_v858 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v858 main_v859 ((extractStridedSlice S1024x1x16 ![0, 3, 0] · slices_S1024x16x16_S1024x1x16_0_3_0) : (⟨S1024x16x16, .f32⟩ : BufTy).Contents (Elt F) → (⟨S1024x1x16, .f32⟩ : BufTy).Contents (Elt F)),
    reshape main_v859 main_v860 rfl shapeCasts_S1024x1x16_S1024x16,
    unary main_arg1 main_v861 ((extractStridedSlice S1024x1 ![0, 42] · slices_S1024x120_S1024x1_0_42) : (⟨S1024x120, .f32⟩ : BufTy).Contents (Elt F) → (⟨S1024x1, .f32⟩ : BufTy).Contents (Elt F)),
    reshape main_v861 main_v862 rfl shapeCasts_S1024x1_S1024,
    unary main_v862 main_v863 (Host.cos : (⟨S1024, .f32⟩ : BufTy).Contents (Elt F) → (⟨S1024, .f32⟩ : BufTy).Contents (Elt F)),
    unary main_v863 main_v864 (broadcastInDim S1024x1 ![0] bcast_S1024_S1024x1_0 : (⟨S1024, .f32⟩ : BufTy).Contents (Elt F) → (⟨S1024x1, .f32⟩ : BufTy).Contents (Elt F)),
    unary main_v862 main_v865 (Host.sin : (⟨S1024, .f32⟩ : BufTy).Contents (Elt F) → (⟨S1024, .f32⟩ : BufTy).Contents (Elt F)),
    unary main_v865 main_v866 (broadcastInDim S1024x1 ![0] bcast_S1024_S1024x1_0 : (⟨S1024, .f32⟩ : BufTy).Contents (Elt F) → (⟨S1024x1, .f32⟩ : BufTy).Contents (Elt F)),
    unary main_v858 main_v867 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)),
    reshape main_v867 main_v868 rfl shapeCasts_S1024x1x16_S1024x16,
    unary main_v864 main_v869 (broadcastInDim S1024x16 ![0, 1] bcast_S1024x1_S1024x16_0_1 : (⟨S1024x1, .f32⟩ : BufTy).Contents (Elt F) → (⟨S1024x16, .f32⟩ : BufTy).Contents (Elt F)),
    binary main_v869 main_v860 main_v870 (mulf : (⟨S1024x16, .f32⟩ : BufTy).Contents (Elt F) → (⟨S1024x16, .f32⟩ : BufTy).Contents (Elt F) → (⟨S1024x16, .f32⟩ : BufTy).Contents (Elt F)),
    unary main_v866 main_v871 (broadcastInDim S1024x16 ![0, 1] bcast_S1024x1_S1024x16_0_1 : (⟨S1024x1, .f32⟩ : BufTy).Contents (Elt F) → (⟨S1024x16, .f32⟩ : BufTy).Contents (Elt F)),
    binary main_v871 main_v868 main_v872 (mulf : (⟨S1024x16, .f32⟩ : BufTy).Contents (Elt F) → (⟨S1024x16, .f32⟩ : BufTy).Contents (Elt F) → (⟨S1024x16, .f32⟩ : BufTy).Contents (Elt F)),
    binary main_v870 main_v872 main_v873 (subf : (⟨S1024x16, .f32⟩ : BufTy).Contents (Elt F) → (⟨S1024x16, .f32⟩ : BufTy).Contents (Elt F) → (⟨S1024x16, .f32⟩ : BufTy).Contents (Elt F)) ]
/-- Operations 21 … 40 of window 15. -/
abbrev st46 : List (HloOp τ sig (Elt F)) :=
  [ unary main_v866 main_v874 (broadcastInDim S1024x16 ![0, 1] bcast_S1024x1_S1024x16_0_1 : (⟨S1024x1, .f32⟩ : BufTy).Contents (Elt F) → (⟨S1024x16, .f32⟩ : BufTy).Contents (Elt F)),
    binary main_v874 main_v860 main_v875 (mulf : (⟨S1024x16, .f32⟩ : BufTy).Contents (Elt F) → (⟨S1024x16, .f32⟩ : BufTy).Contents (Elt F) → (⟨S1024x16, .f32⟩ : BufTy).Contents (Elt F)),
    unary main_v864 main_v876 (broadcastInDim S1024x16 ![0, 1] bcast_S1024x1_S1024x16_0_1 : (⟨S1024x1, .f32⟩ : BufTy).Contents (Elt F) → (⟨S1024x16, .f32⟩ : BufTy).Contents (Elt F)),
    binary main_v876 main_v868 main_v877 (mulf : (⟨S1024x16, .f32⟩ : BufTy).Contents (Elt F) → (⟨S1024x16, .f32⟩ : BufTy).Contents (Elt F) → (⟨S1024x16, .f32⟩ : BufTy).Contents (Elt F)),
    binary main_v875 main_v877 main_v878 (addf : (⟨S1024x16, .f32⟩ : BufTy).Contents (Elt F) → (⟨S1024x16, .f32⟩ : BufTy).Contents (Elt F) → (⟨S1024x16, .f32⟩ : BufTy).Contents (Elt F)),
    nullary main_c_45 (constantI S_ 32 4#32),
    unary main_c_45 main_v879 (broadcastInDim S1 ![] bcast_S_S1 : (⟨S_, .i32⟩ : BufTy).Contents (Elt F) → (⟨S1, .i32⟩ : BufTy).Contents (Elt F)),
    ternary main_v858 main_v879 main_v878 main_v880 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v881 ((extractStridedSlice S1024x1 ![0, 43] · slices_S1024x120_S1024x1_0_43) : (⟨S1024x120, .f32⟩ : BufTy).Contents (Elt F) → (⟨S1024x1, .f32⟩ : BufTy).Contents (Elt F)),
    reshape main_v881 main_v882 rfl shapeCasts_S1024x1_S1024,
    unary main_v882 main_v883 (Host.cos : (⟨S1024, .f32⟩ : BufTy).Contents (Elt F) → (⟨S1024, .f32⟩ : BufTy).Contents (Elt F)),
    unary main_v883 main_v884 (broadcastInDim S1024x1 ![0] bcast_S1024_S1024x1_0 : (⟨S1024, .f32⟩ : BufTy).Contents (Elt F) → (⟨S1024x1, .f32⟩ : BufTy).Contents (Elt F)),
    unary main_v882 main_v885 (Host.sin : (⟨S1024, .f32⟩ : BufTy).Contents (Elt F) → (⟨S1024, .f32⟩ : BufTy).Contents (Elt F)),
    unary main_v885 main_v886 (broadcastInDim S1024x1 ![0] bcast_S1024_S1024x1_0 : (⟨S1024, .f32⟩ : BufTy).Contents (Elt F) → (⟨S1024x1, .f32⟩ : BufTy).Contents (Elt F)),
    unary main_v880 main_v887 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v887 main_v888 rfl shapeCasts_S1024x1x16_S1024x16,
    unary main_v884 main_v889 (broadcastInDim S1024x16 ![0, 1] bcast_S1024x1_S1024x16_0_1 : (⟨S1024x1, .f32⟩ : BufTy).Contents (Elt F) → (⟨S1024x16, .f32⟩ : BufTy).Contents (Elt F)),
    binary main_v889 main_v873 main_v890 (mulf : (⟨S1024x16, .f32⟩ : BufTy).Contents (Elt F) → (⟨S1024x16, .f32⟩ : BufTy).Contents (Elt F) → (⟨S1024x16, .f32⟩ : BufTy).Contents (Elt F)),
    unary main_v886 main_v891 (broadcastInDim S1024x16 ![0, 1] bcast_S1024x1_S1024x16_0_1 : (⟨S1024x1, .f32⟩ : BufTy).Contents (Elt F) → (⟨S1024x16, .f32⟩ : BufTy).Contents (Elt F)),
    binary main_v891 main_v888 main_v892 (mulf : (⟨S1024x16, .f32⟩ : BufTy).Contents (Elt F) → (⟨S1024x16, .f32⟩ : BufTy).Contents (Elt F) → (⟨S1024x16, .f32⟩ : BufTy).Contents (Elt F)) ]
/-- Operations 41 … 60 of window 15. -/
abbrev st47 : List (HloOp τ sig (Elt F)) :=
  [ binary main_v890 main_v892 main_v893 (subf : (⟨S1024x16, .f32⟩ : BufTy).Contents (Elt F) → (⟨S1024x16, .f32⟩ : BufTy).Contents (Elt F) → (⟨S1024x16, .f32⟩ : BufTy).Contents (Elt F)),
    unary main_v886 main_v894 (broadcastInDim S1024x16 ![0, 1] bcast_S1024x1_S1024x16_0_1 : (⟨S1024x1, .f32⟩ : BufTy).Contents (Elt F) → (⟨S1024x16, .f32⟩ : BufTy).Contents (Elt F)),
    binary main_v894 main_v873 main_v895 (mulf : (⟨S1024x16, .f32⟩ : BufTy).Contents (Elt F) → (⟨S1024x16, .f32⟩ : BufTy).Contents (Elt F) → (⟨S1024x16, .f32⟩ : BufTy).Contents (Elt F)),
    unary main_v884 main_v896 (broadcastInDim S1024x16 ![0, 1] bcast_S1024x1_S1024x16_0_1 : (⟨S1024x1, .f32⟩ : BufTy).Contents (Elt F) → (⟨S1024x16, .f32⟩ : BufTy).Contents (Elt F)),
    binary main_v896 main_v888 main_v897 (mulf : (⟨S1024x16, .f32⟩ : BufTy).Contents (Elt F) → (⟨S1024x16, .f32⟩ : BufTy).Contents (Elt F) → (⟨S1024x16, .f32⟩ : BufTy).Contents (Elt F)),
    binary main_v895 main_v897 main_v898 (addf : (⟨S1024x16, .f32⟩ : BufTy).Contents (Elt F) → (⟨S1024x16, .f32⟩ : BufTy).Contents (Elt F) → (⟨S1024x16, .f32⟩ : BufTy).Contents (Elt F)),
    nullary main_c_46 (constantI S_ 32 5#32),
    unary main_c_46 main_v899 (broadcastInDim S1 ![] bcast_S_S1 : (⟨S_, .i32⟩ : BufTy).Contents (Elt F) → (⟨S1, .i32⟩ : BufTy).Contents (Elt F)),
    ternary main_v880 main_v899 main_v898 main_v900 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v901 ((extractStridedSlice S1024x1 ![0, 44] · slices_S1024x120_S1024x1_0_44) : (⟨S1024x120, .f32⟩ : BufTy).Contents (Elt F) → (⟨S1024x1, .f32⟩ : BufTy).Contents (Elt F)),
    reshape main_v901 main_v902 rfl shapeCasts_S1024x1_S1024,
    unary main_v902 main_v903 (Host.cos : (⟨S1024, .f32⟩ : BufTy).Contents (Elt F) → (⟨S1024, .f32⟩ : BufTy).Contents (Elt F)),
    unary main_v903 main_v904 (broadcastInDim S1024x1 ![0] bcast_S1024_S1024x1_0 : (⟨S1024, .f32⟩ : BufTy).Contents (Elt F) → (⟨S1024x1, .f32⟩ : BufTy).Contents (Elt F)),
    unary main_v902 main_v905 (Host.sin : (⟨S1024, .f32⟩ : BufTy).Contents (Elt F) → (⟨S1024, .f32⟩ : BufTy).Contents (Elt F)),
    unary main_v905 main_v906 (broadcastInDim S1024x1 ![0] bcast_S1024_S1024x1_0 : (⟨S1024, .f32⟩ : BufTy).Contents (Elt F) → (⟨S1024x1, .f32⟩ : BufTy).Contents (Elt F)),
    unary main_v900 main_v907 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v907 main_v908 rfl shapeCasts_S1024x1x16_S1024x16,
    unary main_v904 main_v909 (broadcastInDim S1024x16 ![0, 1] bcast_S1024x1_S1024x16_0_1 : (⟨S1024x1, .f32⟩ : BufTy).Contents (Elt F) → (⟨S1024x16, .f32⟩ : BufTy).Contents (Elt F)),
    binary main_v909 main_v893 main_v910 (mulf : (⟨S1024x16, .f32⟩ : BufTy).Contents (Elt F) → (⟨S1024x16, .f32⟩ : BufTy).Contents (Elt F) → (⟨S1024x16, .f32⟩ : BufTy).Contents (Elt F)),
    unary main_v906 main_v911 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 16. -/
abbrev st48 : List (HloOp τ sig (Elt F)) :=
  [ binary main_v911 main_v908 main_v912 (mulf : (⟨S1024x16, .f32⟩ : BufTy).Contents (Elt F) → (⟨S1024x16, .f32⟩ : BufTy).Contents (Elt F) → (⟨S1024x16, .f32⟩ : BufTy).Contents (Elt F)),
    binary main_v910 main_v912 main_v913 (subf : (⟨S1024x16, .f32⟩ : BufTy).Contents (Elt F) → (⟨S1024x16, .f32⟩ : BufTy).Contents (Elt F) → (⟨S1024x16, .f32⟩ : BufTy).Contents (Elt F)),
    unary main_v906 main_v914 (broadcastInDim S1024x16 ![0, 1] bcast_S1024x1_S1024x16_0_1 : (⟨S1024x1, .f32⟩ : BufTy).Contents (Elt F) → (⟨S1024x16, .f32⟩ : BufTy).Contents (Elt F)),
    binary main_v914 main_v893 main_v915 (mulf : (⟨S1024x16, .f32⟩ : BufTy).Contents (Elt F) → (⟨S1024x16, .f32⟩ : BufTy).Contents (Elt F) → (⟨S1024x16, .f32⟩ : BufTy).Contents (Elt F)),
    unary main_v904 main_v916 (broadcastInDim S1024x16 ![0, 1] bcast_S1024x1_S1024x16_0_1 : (⟨S1024x1, .f32⟩ : BufTy).Contents (Elt F) → (⟨S1024x16, .f32⟩ : BufTy).Contents (Elt F)),
    binary main_v916 main_v908 main_v917 (mulf : (⟨S1024x16, .f32⟩ : BufTy).Contents (Elt F) → (⟨S1024x16, .f32⟩ : BufTy).Contents (Elt F) → (⟨S1024x16, .f32⟩ : BufTy).Contents (Elt F)),
    binary main_v915 main_v917 main_v918 (addf : (⟨S1024x16, .f32⟩ : BufTy).Contents (Elt F) → (⟨S1024x16, .f32⟩ : BufTy).Contents (Elt F) → (⟨S1024x16, .f32⟩ : BufTy).Contents (Elt F)),
    nullary main_c_47 (constantI S_ 32 6#32),
    unary main_c_47 main_v919 (broadcastInDim S1 ![] bcast_S_S1 : (⟨S_, .i32⟩ : BufTy).Contents (Elt F) → (⟨S1, .i32⟩ : BufTy).Contents (Elt F)),
    ternary main_v900 main_v919 main_v918 main_v920 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v921 ((extractStridedSlice S1024x1 ![0, 45] · slices_S1024x120_S1024x1_0_45) : (⟨S1024x120, .f32⟩ : BufTy).Contents (Elt F) → (⟨S1024x1, .f32⟩ : BufTy).Contents (Elt F)),
    reshape main_v921 main_v922 rfl shapeCasts_S1024x1_S1024,
    unary main_v922 main_v923 (Host.cos : (⟨S1024, .f32⟩ : BufTy).Contents (Elt F) → (⟨S1024, .f32⟩ : BufTy).Contents (Elt F)),
    unary main_v923 main_v924 (broadcastInDim S1024x1 ![0] bcast_S1024_S1024x1_0 : (⟨S1024, .f32⟩ : BufTy).Contents (Elt F) → (⟨S1024x1, .f32⟩ : BufTy).Contents (Elt F)),
    unary main_v922 main_v925 (Host.sin : (⟨S1024, .f32⟩ : BufTy).Contents (Elt F) → (⟨S1024, .f32⟩ : BufTy).Contents (Elt F)),
    unary main_v925 main_v926 (broadcastInDim S1024x1 ![0] bcast_S1024_S1024x1_0 : (⟨S1024, .f32⟩ : BufTy).Contents (Elt F) → (⟨S1024x1, .f32⟩ : BufTy).Contents (Elt F)),
    unary main_v920 main_v927 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v927 main_v928 rfl shapeCasts_S1024x1x16_S1024x16,
    unary main_v924 main_v929 (broadcastInDim S1024x16 ![0, 1] bcast_S1024x1_S1024x16_0_1 : (⟨S1024x1, .f32⟩ : BufTy).Contents (Elt F) → (⟨S1024x16, .f32⟩ : BufTy).Contents (Elt F)),
    binary main_v929 main_v913 main_v930 (mulf : (⟨S1024x16, .f32⟩ : BufTy).Contents (Elt F) → (⟨S1024x16, .f32⟩ : BufTy).Contents (Elt F) → (⟨S1024x16, .f32⟩ : BufTy).Contents (Elt F)) ]
/-- Operations 21 … 40 of window 16. -/
abbrev st49 : List (HloOp τ sig (Elt F)) :=
  [ unary main_v926 main_v931 (broadcastInDim S1024x16 ![0, 1] bcast_S1024x1_S1024x16_0_1 : (⟨S1024x1, .f32⟩ : BufTy).Contents (Elt F) → (⟨S1024x16, .f32⟩ : BufTy).Contents (Elt F)),
    binary main_v931 main_v928 main_v932 (mulf : (⟨S1024x16, .f32⟩ : BufTy).Contents (Elt F) → (⟨S1024x16, .f32⟩ : BufTy).Contents (Elt F) → (⟨S1024x16, .f32⟩ : BufTy).Contents (Elt F)),
    binary main_v930 main_v932 main_v933 (subf : (⟨S1024x16, .f32⟩ : BufTy).Contents (Elt F) → (⟨S1024x16, .f32⟩ : BufTy).Contents (Elt F) → (⟨S1024x16, .f32⟩ : BufTy).Contents (Elt F)),
    unary main_v926 main_v934 (broadcastInDim S1024x16 ![0, 1] bcast_S1024x1_S1024x16_0_1 : (⟨S1024x1, .f32⟩ : BufTy).Contents (Elt F) → (⟨S1024x16, .f32⟩ : BufTy).Contents (Elt F)),
    binary main_v934 main_v913 main_v935 (mulf : (⟨S1024x16, .f32⟩ : BufTy).Contents (Elt F) → (⟨S1024x16, .f32⟩ : BufTy).Contents (Elt F) → (⟨S1024x16, .f32⟩ : BufTy).Contents (Elt F)),
    unary main_v924 main_v936 (broadcastInDim S1024x16 ![0, 1] bcast_S1024x1_S1024x16_0_1 : (⟨S1024x1, .f32⟩ : BufTy).Contents (Elt F) → (⟨S1024x16, .f32⟩ : BufTy).Contents (Elt F)),
    binary main_v936 main_v928 main_v937 (mulf : (⟨S1024x16, .f32⟩ : BufTy).Contents (Elt F) → (⟨S1024x16, .f32⟩ : BufTy).Contents (Elt F) → (⟨S1024x16, .f32⟩ : BufTy).Contents (Elt F)),
    binary main_v935 main_v937 main_v938 (addf : (⟨S1024x16, .f32⟩ : BufTy).Contents (Elt F) → (⟨S1024x16, .f32⟩ : BufTy).Contents (Elt F) → (⟨S1024x16, .f32⟩ : BufTy).Contents (Elt F)),
    nullary main_c_48 (constantI S_ 32 7#32),
    unary main_c_48 main_v939 (broadcastInDim S1 ![] bcast_S_S1 : (⟨S_, .i32⟩ : BufTy).Contents (Elt F) → (⟨S1, .i32⟩ : BufTy).Contents (Elt F)),
    ternary main_v920 main_v939 main_v938 main_v940 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v941 ((extractStridedSlice S1024x1 ![0, 46] · slices_S1024x120_S1024x1_0_46) : (⟨S1024x120, .f32⟩ : BufTy).Contents (Elt F) → (⟨S1024x1, .f32⟩ : BufTy).Contents (Elt F)),
    reshape main_v941 main_v942 rfl shapeCasts_S1024x1_S1024,
    unary main_v942 main_v943 (Host.cos : (⟨S1024, .f32⟩ : BufTy).Contents (Elt F) → (⟨S1024, .f32⟩ : BufTy).Contents (Elt F)),
    unary main_v943 main_v944 (broadcastInDim S1024x1 ![0] bcast_S1024_S1024x1_0 : (⟨S1024, .f32⟩ : BufTy).Contents (Elt F) → (⟨S1024x1, .f32⟩ : BufTy).Contents (Elt F)),
    unary main_v942 main_v945 (Host.sin : (⟨S1024, .f32⟩ : BufTy).Contents (Elt F) → (⟨S1024, .f32⟩ : BufTy).Contents (Elt F)),
    unary main_v945 main_v946 (broadcastInDim S1024x1 ![0] bcast_S1024_S1024x1_0 : (⟨S1024, .f32⟩ : BufTy).Contents (Elt F) → (⟨S1024x1, .f32⟩ : BufTy).Contents (Elt F)),
    unary main_v940 main_v947 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v947 main_v948 rfl shapeCasts_S1024x1x16_S1024x16,
    unary main_v944 main_v949 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 16. -/
abbrev st50 : List (HloOp τ sig (Elt F)) :=
  [ binary main_v949 main_v933 main_v950 (mulf : (⟨S1024x16, .f32⟩ : BufTy).Contents (Elt F) → (⟨S1024x16, .f32⟩ : BufTy).Contents (Elt F) → (⟨S1024x16, .f32⟩ : BufTy).Contents (Elt F)),
    unary main_v946 main_v951 (broadcastInDim S1024x16 ![0, 1] bcast_S1024x1_S1024x16_0_1 : (⟨S1024x1, .f32⟩ : BufTy).Contents (Elt F) → (⟨S1024x16, .f32⟩ : BufTy).Contents (Elt F)),
    binary main_v951 main_v948 main_v952 (mulf : (⟨S1024x16, .f32⟩ : BufTy).Contents (Elt F) → (⟨S1024x16, .f32⟩ : BufTy).Contents (Elt F) → (⟨S1024x16, .f32⟩ : BufTy).Contents (Elt F)),
    binary main_v950 main_v952 main_v953 (subf : (⟨S1024x16, .f32⟩ : BufTy).Contents (Elt F) → (⟨S1024x16, .f32⟩ : BufTy).Contents (Elt F) → (⟨S1024x16, .f32⟩ : BufTy).Contents (Elt F)),
    unary main_v946 main_v954 (broadcastInDim S1024x16 ![0, 1] bcast_S1024x1_S1024x16_0_1 : (⟨S1024x1, .f32⟩ : BufTy).Contents (Elt F) → (⟨S1024x16, .f32⟩ : BufTy).Contents (Elt F)),
    binary main_v954 main_v933 main_v955 (mulf : (⟨S1024x16, .f32⟩ : BufTy).Contents (Elt F) → (⟨S1024x16, .f32⟩ : BufTy).Contents (Elt F) → (⟨S1024x16, .f32⟩ : BufTy).Contents (Elt F)),
    unary main_v944 main_v956 (broadcastInDim S1024x16 ![0, 1] bcast_S1024x1_S1024x16_0_1 : (⟨S1024x1, .f32⟩ : BufTy).Contents (Elt F) → (⟨S1024x16, .f32⟩ : BufTy).Contents (Elt F)),
    binary main_v956 main_v948 main_v957 (mulf : (⟨S1024x16, .f32⟩ : BufTy).Contents (Elt F) → (⟨S1024x16, .f32⟩ : BufTy).Contents (Elt F) → (⟨S1024x16, .f32⟩ : BufTy).Contents (Elt F)),
    binary main_v955 main_v957 main_v958 (addf : (⟨S1024x16, .f32⟩ : BufTy).Contents (Elt F) → (⟨S1024x16, .f32⟩ : BufTy).Contents (Elt F) → (⟨S1024x16, .f32⟩ : BufTy).Contents (Elt F)),
    nullary main_c_49 (constantI S_ 32 8#32),
    unary main_c_49 main_v959 (broadcastInDim S1 ![] bcast_S_S1 : (⟨S_, .i32⟩ : BufTy).Contents (Elt F) → (⟨S1, .i32⟩ : BufTy).Contents (Elt F)),
    ternary main_v940 main_v959 main_v958 main_v960 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v961 ((extractStridedSlice S1024x1 ![0, 47] · slices_S1024x120_S1024x1_0_47) : (⟨S1024x120, .f32⟩ : BufTy).Contents (Elt F) → (⟨S1024x1, .f32⟩ : BufTy).Contents (Elt F)),
    reshape main_v961 main_v962 rfl shapeCasts_S1024x1_S1024,
    unary main_v962 main_v963 (Host.cos : (⟨S1024, .f32⟩ : BufTy).Contents (Elt F) → (⟨S1024, .f32⟩ : BufTy).Contents (Elt F)),
    unary main_v963 main_v964 (broadcastInDim S1024x1 ![0] bcast_S1024_S1024x1_0 : (⟨S1024, .f32⟩ : BufTy).Contents (Elt F) → (⟨S1024x1, .f32⟩ : BufTy).Contents (Elt F)),
    unary main_v962 main_v965 (Host.sin : (⟨S1024, .f32⟩ : BufTy).Contents (Elt F) → (⟨S1024, .f32⟩ : BufTy).Contents (Elt F)),
    unary main_v965 main_v966 (broadcastInDim S1024x1 ![0] bcast_S1024_S1024x1_0 : (⟨S1024, .f32⟩ : BufTy).Contents (Elt F) → (⟨S1024x1, .f32⟩ : BufTy).Contents (Elt F)),
    unary main_v960 main_v967 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v967 main_v968 rfl shapeCasts_S1024x1x16_S1024x16 ]
/-- Operations 1 … 20 of window 17. -/
abbrev st51 : List (HloOp τ sig (Elt F)) :=
  [ unary main_v964 main_v969 (broadcastInDim S1024x16 ![0, 1] bcast_S1024x1_S1024x16_0_1 : (⟨S1024x1, .f32⟩ : BufTy).Contents (Elt F) → (⟨S1024x16, .f32⟩ : BufTy).Contents (Elt F)),
    binary main_v969 main_v953 main_v970 (mulf : (⟨S1024x16, .f32⟩ : BufTy).Contents (Elt F) → (⟨S1024x16, .f32⟩ : BufTy).Contents (Elt F) → (⟨S1024x16, .f32⟩ : BufTy).Contents (Elt F)),
    unary main_v966 main_v971 (broadcastInDim S1024x16 ![0, 1] bcast_S1024x1_S1024x16_0_1 : (⟨S1024x1, .f32⟩ : BufTy).Contents (Elt F) → (⟨S1024x16, .f32⟩ : BufTy).Contents (Elt F)),
    binary main_v971 main_v968 main_v972 (mulf : (⟨S1024x16, .f32⟩ : BufTy).Contents (Elt F) → (⟨S1024x16, .f32⟩ : BufTy).Contents (Elt F) → (⟨S1024x16, .f32⟩ : BufTy).Contents (Elt F)),
    binary main_v970 main_v972 main_v973 (subf : (⟨S1024x16, .f32⟩ : BufTy).Contents (Elt F) → (⟨S1024x16, .f32⟩ : BufTy).Contents (Elt F) → (⟨S1024x16, .f32⟩ : BufTy).Contents (Elt F)),
    unary main_v966 main_v974 (broadcastInDim S1024x16 ![0, 1] bcast_S1024x1_S1024x16_0_1 : (⟨S1024x1, .f32⟩ : BufTy).Contents (Elt F) → (⟨S1024x16, .f32⟩ : BufTy).Contents (Elt F)),
    binary main_v974 main_v953 main_v975 (mulf : (⟨S1024x16, .f32⟩ : BufTy).Contents (Elt F) → (⟨S1024x16, .f32⟩ : BufTy).Contents (Elt F) → (⟨S1024x16, .f32⟩ : BufTy).Contents (Elt F)),
    unary main_v964 main_v976 (broadcastInDim S1024x16 ![0, 1] bcast_S1024x1_S1024x16_0_1 : (⟨S1024x1, .f32⟩ : BufTy).Contents (Elt F) → (⟨S1024x16, .f32⟩ : BufTy).Contents (Elt F)),
    binary main_v976 main_v968 main_v977 (mulf : (⟨S1024x16, .f32⟩ : BufTy).Contents (Elt F) → (⟨S1024x16, .f32⟩ : BufTy).Contents (Elt F) → (⟨S1024x16, .f32⟩ : BufTy).Contents (Elt F)),
    binary main_v975 main_v977 main_v978 (addf : (⟨S1024x16, .f32⟩ : BufTy).Contents (Elt F) → (⟨S1024x16, .f32⟩ : BufTy).Contents (Elt F) → (⟨S1024x16, .f32⟩ : BufTy).Contents (Elt F)),
    nullary main_c_50 (constantI S_ 32 9#32),
    unary main_c_50 main_v979 (broadcastInDim S1 ![] bcast_S_S1 : (⟨S_, .i32⟩ : BufTy).Contents (Elt F) → (⟨S1, .i32⟩ : BufTy).Contents (Elt F)),
    ternary main_v960 main_v979 main_v978 main_v980 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v981 ((extractStridedSlice S1024x1 ![0, 48] · slices_S1024x120_S1024x1_0_48) : (⟨S1024x120, .f32⟩ : BufTy).Contents (Elt F) → (⟨S1024x1, .f32⟩ : BufTy).Contents (Elt F)),
    reshape main_v981 main_v982 rfl shapeCasts_S1024x1_S1024,
    unary main_v982 main_v983 (Host.cos : (⟨S1024, .f32⟩ : BufTy).Contents (Elt F) → (⟨S1024, .f32⟩ : BufTy).Contents (Elt F)),
    unary main_v983 main_v984 (broadcastInDim S1024x1 ![0] bcast_S1024_S1024x1_0 : (⟨S1024, .f32⟩ : BufTy).Contents (Elt F) → (⟨S1024x1, .f32⟩ : BufTy).Contents (Elt F)),
    unary main_v982 main_v985 (Host.sin : (⟨S1024, .f32⟩ : BufTy).Contents (Elt F) → (⟨S1024, .f32⟩ : BufTy).Contents (Elt F)),
    unary main_v985 main_v986 (broadcastInDim S1024x1 ![0] bcast_S1024_S1024x1_0 : (⟨S1024, .f32⟩ : BufTy).Contents (Elt F) → (⟨S1024x1, .f32⟩ : BufTy).Contents (Elt F)),
    unary main_v980 main_v987 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)) ]
/-- Operations 21 … 40 of window 17. -/
abbrev st52 : List (HloOp τ sig (Elt F)) :=
  [ reshape main_v987 main_v988 rfl shapeCasts_S1024x1x16_S1024x16,
    unary main_v984 main_v989 (broadcastInDim S1024x16 ![0, 1] bcast_S1024x1_S1024x16_0_1 : (⟨S1024x1, .f32⟩ : BufTy).Contents (Elt F) → (⟨S1024x16, .f32⟩ : BufTy).Contents (Elt F)),
    binary main_v989 main_v973 main_v990 (mulf : (⟨S1024x16, .f32⟩ : BufTy).Contents (Elt F) → (⟨S1024x16, .f32⟩ : BufTy).Contents (Elt F) → (⟨S1024x16, .f32⟩ : BufTy).Contents (Elt F)),
    unary main_v986 main_v991 (broadcastInDim S1024x16 ![0, 1] bcast_S1024x1_S1024x16_0_1 : (⟨S1024x1, .f32⟩ : BufTy).Contents (Elt F) → (⟨S1024x16, .f32⟩ : BufTy).Contents (Elt F)),
    binary main_v991 main_v988 main_v992 (mulf : (⟨S1024x16, .f32⟩ : BufTy).Contents (Elt F) → (⟨S1024x16, .f32⟩ : BufTy).Contents (Elt F) → (⟨S1024x16, .f32⟩ : BufTy).Contents (Elt F)),
    binary main_v990 main_v992 main_v993 (subf : (⟨S1024x16, .f32⟩ : BufTy).Contents (Elt F) → (⟨S1024x16, .f32⟩ : BufTy).Contents (Elt F) → (⟨S1024x16, .f32⟩ : BufTy).Contents (Elt F)),
    unary main_v986 main_v994 (broadcastInDim S1024x16 ![0, 1] bcast_S1024x1_S1024x16_0_1 : (⟨S1024x1, .f32⟩ : BufTy).Contents (Elt F) → (⟨S1024x16, .f32⟩ : BufTy).Contents (Elt F)),
    binary main_v994 main_v973 main_v995 (mulf : (⟨S1024x16, .f32⟩ : BufTy).Contents (Elt F) → (⟨S1024x16, .f32⟩ : BufTy).Contents (Elt F) → (⟨S1024x16, .f32⟩ : BufTy).Contents (Elt F)),
    unary main_v984 main_v996 (broadcastInDim S1024x16 ![0, 1] bcast_S1024x1_S1024x16_0_1 : (⟨S1024x1, .f32⟩ : BufTy).Contents (Elt F) → (⟨S1024x16, .f32⟩ : BufTy).Contents (Elt F)),
    binary main_v996 main_v988 main_v997 (mulf : (⟨S1024x16, .f32⟩ : BufTy).Contents (Elt F) → (⟨S1024x16, .f32⟩ : BufTy).Contents (Elt F) → (⟨S1024x16, .f32⟩ : BufTy).Contents (Elt F)),
    binary main_v995 main_v997 main_v998 (addf : (⟨S1024x16, .f32⟩ : BufTy).Contents (Elt F) → (⟨S1024x16, .f32⟩ : BufTy).Contents (Elt F) → (⟨S1024x16, .f32⟩ : BufTy).Contents (Elt F)),
    nullary main_c_51 (constantI S_ 32 10#32),
    unary main_c_51 main_v999 (broadcastInDim S1 ![] bcast_S_S1 : (⟨S_, .i32⟩ : BufTy).Contents (Elt F) → (⟨S1, .i32⟩ : BufTy).Contents (Elt F)),
    ternary main_v980 main_v999 main_v998 main_v1000 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1001 ((extractStridedSlice S1024x1 ![0, 49] · slices_S1024x120_S1024x1_0_49) : (⟨S1024x120, .f32⟩ : BufTy).Contents (Elt F) → (⟨S1024x1, .f32⟩ : BufTy).Contents (Elt F)),
    reshape main_v1001 main_v1002 rfl shapeCasts_S1024x1_S1024,
    unary main_v1002 main_v1003 (Host.cos : (⟨S1024, .f32⟩ : BufTy).Contents (Elt F) → (⟨S1024, .f32⟩ : BufTy).Contents (Elt F)),
    unary main_v1003 main_v1004 (broadcastInDim S1024x1 ![0] bcast_S1024_S1024x1_0 : (⟨S1024, .f32⟩ : BufTy).Contents (Elt F) → (⟨S1024x1, .f32⟩ : BufTy).Contents (Elt F)),
    unary main_v1002 main_v1005 (Host.sin : (⟨S1024, .f32⟩ : BufTy).Contents (Elt F) → (⟨S1024, .f32⟩ : BufTy).Contents (Elt F)),
    unary main_v1005 main_v1006 (broadcastInDim S1024x1 ![0] bcast_S1024_S1024x1_0 : (⟨S1024, .f32⟩ : BufTy).Contents (Elt F) → (⟨S1024x1, .f32⟩ : BufTy).Contents (Elt F)) ]
/-- Operations 41 … 60 of window 17. -/
abbrev st53 : List (HloOp τ sig (Elt F)) :=
  [ unary main_v1000 main_v1007 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1007 main_v1008 rfl shapeCasts_S1024x1x16_S1024x16,
    unary main_v1004 main_v1009 (broadcastInDim S1024x16 ![0, 1] bcast_S1024x1_S1024x16_0_1 : (⟨S1024x1, .f32⟩ : BufTy).Contents (Elt F) → (⟨S1024x16, .f32⟩ : BufTy).Contents (Elt F)),
    binary main_v1009 main_v993 main_v1010 (mulf : (⟨S1024x16, .f32⟩ : BufTy).Contents (Elt F) → (⟨S1024x16, .f32⟩ : BufTy).Contents (Elt F) → (⟨S1024x16, .f32⟩ : BufTy).Contents (Elt F)),
    unary main_v1006 main_v1011 (broadcastInDim S1024x16 ![0, 1] bcast_S1024x1_S1024x16_0_1 : (⟨S1024x1, .f32⟩ : BufTy).Contents (Elt F) → (⟨S1024x16, .f32⟩ : BufTy).Contents (Elt F)),
    binary main_v1011 main_v1008 main_v1012 (mulf : (⟨S1024x16, .f32⟩ : BufTy).Contents (Elt F) → (⟨S1024x16, .f32⟩ : BufTy).Contents (Elt F) → (⟨S1024x16, .f32⟩ : BufTy).Contents (Elt F)),
    binary main_v1010 main_v1012 main_v1013 (subf : (⟨S1024x16, .f32⟩ : BufTy).Contents (Elt F) → (⟨S1024x16, .f32⟩ : BufTy).Contents (Elt F) → (⟨S1024x16, .f32⟩ : BufTy).Contents (Elt F)),
    unary main_v1006 main_v1014 (broadcastInDim S1024x16 ![0, 1] bcast_S1024x1_S1024x16_0_1 : (⟨S1024x1, .f32⟩ : BufTy).Contents (Elt F) → (⟨S1024x16, .f32⟩ : BufTy).Contents (Elt F)),
    binary main_v1014 main_v993 main_v1015 (mulf : (⟨S1024x16, .f32⟩ : BufTy).Contents (Elt F) → (⟨S1024x16, .f32⟩ : BufTy).Contents (Elt F) → (⟨S1024x16, .f32⟩ : BufTy).Contents (Elt F)),
    unary main_v1004 main_v1016 (broadcastInDim S1024x16 ![0, 1] bcast_S1024x1_S1024x16_0_1 : (⟨S1024x1, .f32⟩ : BufTy).Contents (Elt F) → (⟨S1024x16, .f32⟩ : BufTy).Contents (Elt F)),
    binary main_v1016 main_v1008 main_v1017 (mulf : (⟨S1024x16, .f32⟩ : BufTy).Contents (Elt F) → (⟨S1024x16, .f32⟩ : BufTy).Contents (Elt F) → (⟨S1024x16, .f32⟩ : BufTy).Contents (Elt F)),
    binary main_v1015 main_v1017 main_v1018 (addf : (⟨S1024x16, .f32⟩ : BufTy).Contents (Elt F) → (⟨S1024x16, .f32⟩ : BufTy).Contents (Elt F) → (⟨S1024x16, .f32⟩ : BufTy).Contents (Elt F)),
    nullary main_c_52 (constantI S_ 32 11#32),
    unary main_c_52 main_v1019 (broadcastInDim S1 ![] bcast_S_S1 : (⟨S_, .i32⟩ : BufTy).Contents (Elt F) → (⟨S1, .i32⟩ : BufTy).Contents (Elt F)),
    ternary main_v1000 main_v1019 main_v1018 main_v1020 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1021 ((extractStridedSlice S1024x1 ![0, 50] · slices_S1024x120_S1024x1_0_50) : (⟨S1024x120, .f32⟩ : BufTy).Contents (Elt F) → (⟨S1024x1, .f32⟩ : BufTy).Contents (Elt F)),
    reshape main_v1021 main_v1022 rfl shapeCasts_S1024x1_S1024,
    unary main_v1022 main_v1023 (Host.cos : (⟨S1024, .f32⟩ : BufTy).Contents (Elt F) → (⟨S1024, .f32⟩ : BufTy).Contents (Elt F)),
    unary main_v1023 main_v1024 (broadcastInDim S1024x1 ![0] bcast_S1024_S1024x1_0 : (⟨S1024, .f32⟩ : BufTy).Contents (Elt F) → (⟨S1024x1, .f32⟩ : BufTy).Contents (Elt F)),
    unary main_v1022 main_v1025 (Host.sin : (⟨S1024, .f32⟩ : BufTy).Contents (Elt F) → (⟨S1024, .f32⟩ : BufTy).Contents (Elt F)) ]
/-- Operations 1 … 20 of window 18. -/
abbrev st54 : List (HloOp τ sig (Elt F)) :=
  [ unary main_v1025 main_v1026 (broadcastInDim S1024x1 ![0] bcast_S1024_S1024x1_0 : (⟨S1024, .f32⟩ : BufTy).Contents (Elt F) → (⟨S1024x1, .f32⟩ : BufTy).Contents (Elt F)),
    unary main_v1020 main_v1027 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1027 main_v1028 rfl shapeCasts_S1024x1x16_S1024x16,
    unary main_v1024 main_v1029 (broadcastInDim S1024x16 ![0, 1] bcast_S1024x1_S1024x16_0_1 : (⟨S1024x1, .f32⟩ : BufTy).Contents (Elt F) → (⟨S1024x16, .f32⟩ : BufTy).Contents (Elt F)),
    binary main_v1029 main_v1013 main_v1030 (mulf : (⟨S1024x16, .f32⟩ : BufTy).Contents (Elt F) → (⟨S1024x16, .f32⟩ : BufTy).Contents (Elt F) → (⟨S1024x16, .f32⟩ : BufTy).Contents (Elt F)),
    unary main_v1026 main_v1031 (broadcastInDim S1024x16 ![0, 1] bcast_S1024x1_S1024x16_0_1 : (⟨S1024x1, .f32⟩ : BufTy).Contents (Elt F) → (⟨S1024x16, .f32⟩ : BufTy).Contents (Elt F)),
    binary main_v1031 main_v1028 main_v1032 (mulf : (⟨S1024x16, .f32⟩ : BufTy).Contents (Elt F) → (⟨S1024x16, .f32⟩ : BufTy).Contents (Elt F) → (⟨S1024x16, .f32⟩ : BufTy).Contents (Elt F)),
    binary main_v1030 main_v1032 main_v1033 (subf : (⟨S1024x16, .f32⟩ : BufTy).Contents (Elt F) → (⟨S1024x16, .f32⟩ : BufTy).Contents (Elt F) → (⟨S1024x16, .f32⟩ : BufTy).Contents (Elt F)),
    unary main_v1026 main_v1034 (broadcastInDim S1024x16 ![0, 1] bcast_S1024x1_S1024x16_0_1 : (⟨S1024x1, .f32⟩ : BufTy).Contents (Elt F) → (⟨S1024x16, .f32⟩ : BufTy).Contents (Elt F)),
    binary main_v1034 main_v1013 main_v1035 (mulf : (⟨S1024x16, .f32⟩ : BufTy).Contents (Elt F) → (⟨S1024x16, .f32⟩ : BufTy).Contents (Elt F) → (⟨S1024x16, .f32⟩ : BufTy).Contents (Elt F)),
    unary main_v1024 main_v1036 (broadcastInDim S1024x16 ![0, 1] bcast_S1024x1_S1024x16_0_1 : (⟨S1024x1, .f32⟩ : BufTy).Contents (Elt F) → (⟨S1024x16, .f32⟩ : BufTy).Contents (Elt F)),
    binary main_v1036 main_v1028 main_v1037 (mulf : (⟨S1024x16, .f32⟩ : BufTy).Contents (Elt F) → (⟨S1024x16, .f32⟩ : BufTy).Contents (Elt F) → (⟨S1024x16, .f32⟩ : BufTy).Contents (Elt F)),
    binary main_v1035 main_v1037 main_v1038 (addf : (⟨S1024x16, .f32⟩ : BufTy).Contents (Elt F) → (⟨S1024x16, .f32⟩ : BufTy).Contents (Elt F) → (⟨S1024x16, .f32⟩ : BufTy).Contents (Elt F)),
    nullary main_c_53 (constantI S_ 32 12#32),
    unary main_c_53 main_v1039 (broadcastInDim S1 ![] bcast_S_S1 : (⟨S_, .i32⟩ : BufTy).Contents (Elt F) → (⟨S1, .i32⟩ : BufTy).Contents (Elt F)),
    ternary main_v1020 main_v1039 main_v1038 main_v1040 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1041 ((extractStridedSlice S1024x1 ![0, 51] · slices_S1024x120_S1024x1_0_51) : (⟨S1024x120, .f32⟩ : BufTy).Contents (Elt F) → (⟨S1024x1, .f32⟩ : BufTy).Contents (Elt F)),
    reshape main_v1041 main_v1042 rfl shapeCasts_S1024x1_S1024,
    unary main_v1042 main_v1043 (Host.cos : (⟨S1024, .f32⟩ : BufTy).Contents (Elt F) → (⟨S1024, .f32⟩ : BufTy).Contents (Elt F)),
    unary main_v1043 main_v1044 (broadcastInDim S1024x1 ![0] bcast_S1024_S1024x1_0 : (⟨S1024, .f32⟩ : BufTy).Contents (Elt F) → (⟨S1024x1, .f32⟩ : BufTy).Contents (Elt F)) ]
/-- Operations 21 … 40 of window 18. -/
abbrev st55 : List (HloOp τ sig (Elt F)) :=
  [ unary main_v1042 main_v1045 (Host.sin : (⟨S1024, .f32⟩ : BufTy).Contents (Elt F) → (⟨S1024, .f32⟩ : BufTy).Contents (Elt F)),
    unary main_v1045 main_v1046 (broadcastInDim S1024x1 ![0] bcast_S1024_S1024x1_0 : (⟨S1024, .f32⟩ : BufTy).Contents (Elt F) → (⟨S1024x1, .f32⟩ : BufTy).Contents (Elt F)),
    unary main_v1040 main_v1047 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1047 main_v1048 rfl shapeCasts_S1024x1x16_S1024x16,
    unary main_v1044 main_v1049 (broadcastInDim S1024x16 ![0, 1] bcast_S1024x1_S1024x16_0_1 : (⟨S1024x1, .f32⟩ : BufTy).Contents (Elt F) → (⟨S1024x16, .f32⟩ : BufTy).Contents (Elt F)),
    binary main_v1049 main_v1033 main_v1050 (mulf : (⟨S1024x16, .f32⟩ : BufTy).Contents (Elt F) → (⟨S1024x16, .f32⟩ : BufTy).Contents (Elt F) → (⟨S1024x16, .f32⟩ : BufTy).Contents (Elt F)),
    unary main_v1046 main_v1051 (broadcastInDim S1024x16 ![0, 1] bcast_S1024x1_S1024x16_0_1 : (⟨S1024x1, .f32⟩ : BufTy).Contents (Elt F) → (⟨S1024x16, .f32⟩ : BufTy).Contents (Elt F)),
    binary main_v1051 main_v1048 main_v1052 (mulf : (⟨S1024x16, .f32⟩ : BufTy).Contents (Elt F) → (⟨S1024x16, .f32⟩ : BufTy).Contents (Elt F) → (⟨S1024x16, .f32⟩ : BufTy).Contents (Elt F)),
    binary main_v1050 main_v1052 main_v1053 (subf : (⟨S1024x16, .f32⟩ : BufTy).Contents (Elt F) → (⟨S1024x16, .f32⟩ : BufTy).Contents (Elt F) → (⟨S1024x16, .f32⟩ : BufTy).Contents (Elt F)),
    unary main_v1046 main_v1054 (broadcastInDim S1024x16 ![0, 1] bcast_S1024x1_S1024x16_0_1 : (⟨S1024x1, .f32⟩ : BufTy).Contents (Elt F) → (⟨S1024x16, .f32⟩ : BufTy).Contents (Elt F)),
    binary main_v1054 main_v1033 main_v1055 (mulf : (⟨S1024x16, .f32⟩ : BufTy).Contents (Elt F) → (⟨S1024x16, .f32⟩ : BufTy).Contents (Elt F) → (⟨S1024x16, .f32⟩ : BufTy).Contents (Elt F)),
    unary main_v1044 main_v1056 (broadcastInDim S1024x16 ![0, 1] bcast_S1024x1_S1024x16_0_1 : (⟨S1024x1, .f32⟩ : BufTy).Contents (Elt F) → (⟨S1024x16, .f32⟩ : BufTy).Contents (Elt F)),
    binary main_v1056 main_v1048 main_v1057 (mulf : (⟨S1024x16, .f32⟩ : BufTy).Contents (Elt F) → (⟨S1024x16, .f32⟩ : BufTy).Contents (Elt F) → (⟨S1024x16, .f32⟩ : BufTy).Contents (Elt F)),
    binary main_v1055 main_v1057 main_v1058 (addf : (⟨S1024x16, .f32⟩ : BufTy).Contents (Elt F) → (⟨S1024x16, .f32⟩ : BufTy).Contents (Elt F) → (⟨S1024x16, .f32⟩ : BufTy).Contents (Elt F)),
    nullary main_c_54 (constantI S_ 32 13#32),
    unary main_c_54 main_v1059 (broadcastInDim S1 ![] bcast_S_S1 : (⟨S_, .i32⟩ : BufTy).Contents (Elt F) → (⟨S1, .i32⟩ : BufTy).Contents (Elt F)),
    ternary main_v1040 main_v1059 main_v1058 main_v1060 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1061 ((extractStridedSlice S1024x1 ![0, 52] · slices_S1024x120_S1024x1_0_52) : (⟨S1024x120, .f32⟩ : BufTy).Contents (Elt F) → (⟨S1024x1, .f32⟩ : BufTy).Contents (Elt F)),
    reshape main_v1061 main_v1062 rfl shapeCasts_S1024x1_S1024,
    unary main_v1062 main_v1063 (Host.cos : (⟨S1024, .f32⟩ : BufTy).Contents (Elt F) → (⟨S1024, .f32⟩ : BufTy).Contents (Elt F)) ]
/-- Operations 41 … 60 of window 18. -/
abbrev st56 : List (HloOp τ sig (Elt F)) :=
  [ unary main_v1063 main_v1064 (broadcastInDim S1024x1 ![0] bcast_S1024_S1024x1_0 : (⟨S1024, .f32⟩ : BufTy).Contents (Elt F) → (⟨S1024x1, .f32⟩ : BufTy).Contents (Elt F)),
    unary main_v1062 main_v1065 (Host.sin : (⟨S1024, .f32⟩ : BufTy).Contents (Elt F) → (⟨S1024, .f32⟩ : BufTy).Contents (Elt F)),
    unary main_v1065 main_v1066 (broadcastInDim S1024x1 ![0] bcast_S1024_S1024x1_0 : (⟨S1024, .f32⟩ : BufTy).Contents (Elt F) → (⟨S1024x1, .f32⟩ : BufTy).Contents (Elt F)),
    unary main_v1060 main_v1067 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1067 main_v1068 rfl shapeCasts_S1024x1x16_S1024x16,
    unary main_v1064 main_v1069 (broadcastInDim S1024x16 ![0, 1] bcast_S1024x1_S1024x16_0_1 : (⟨S1024x1, .f32⟩ : BufTy).Contents (Elt F) → (⟨S1024x16, .f32⟩ : BufTy).Contents (Elt F)),
    binary main_v1069 main_v1053 main_v1070 (mulf : (⟨S1024x16, .f32⟩ : BufTy).Contents (Elt F) → (⟨S1024x16, .f32⟩ : BufTy).Contents (Elt F) → (⟨S1024x16, .f32⟩ : BufTy).Contents (Elt F)),
    unary main_v1066 main_v1071 (broadcastInDim S1024x16 ![0, 1] bcast_S1024x1_S1024x16_0_1 : (⟨S1024x1, .f32⟩ : BufTy).Contents (Elt F) → (⟨S1024x16, .f32⟩ : BufTy).Contents (Elt F)),
    binary main_v1071 main_v1068 main_v1072 (mulf : (⟨S1024x16, .f32⟩ : BufTy).Contents (Elt F) → (⟨S1024x16, .f32⟩ : BufTy).Contents (Elt F) → (⟨S1024x16, .f32⟩ : BufTy).Contents (Elt F)),
    binary main_v1070 main_v1072 main_v1073 (subf : (⟨S1024x16, .f32⟩ : BufTy).Contents (Elt F) → (⟨S1024x16, .f32⟩ : BufTy).Contents (Elt F) → (⟨S1024x16, .f32⟩ : BufTy).Contents (Elt F)),
    unary main_v1066 main_v1074 (broadcastInDim S1024x16 ![0, 1] bcast_S1024x1_S1024x16_0_1 : (⟨S1024x1, .f32⟩ : BufTy).Contents (Elt F) → (⟨S1024x16, .f32⟩ : BufTy).Contents (Elt F)),
    binary main_v1074 main_v1053 main_v1075 (mulf : (⟨S1024x16, .f32⟩ : BufTy).Contents (Elt F) → (⟨S1024x16, .f32⟩ : BufTy).Contents (Elt F) → (⟨S1024x16, .f32⟩ : BufTy).Contents (Elt F)),
    unary main_v1064 main_v1076 (broadcastInDim S1024x16 ![0, 1] bcast_S1024x1_S1024x16_0_1 : (⟨S1024x1, .f32⟩ : BufTy).Contents (Elt F) → (⟨S1024x16, .f32⟩ : BufTy).Contents (Elt F)),
    binary main_v1076 main_v1068 main_v1077 (mulf : (⟨S1024x16, .f32⟩ : BufTy).Contents (Elt F) → (⟨S1024x16, .f32⟩ : BufTy).Contents (Elt F) → (⟨S1024x16, .f32⟩ : BufTy).Contents (Elt F)),
    binary main_v1075 main_v1077 main_v1078 (addf : (⟨S1024x16, .f32⟩ : BufTy).Contents (Elt F) → (⟨S1024x16, .f32⟩ : BufTy).Contents (Elt F) → (⟨S1024x16, .f32⟩ : BufTy).Contents (Elt F)),
    nullary main_c_55 (constantI S_ 32 14#32),
    unary main_c_55 main_v1079 (broadcastInDim S1 ![] bcast_S_S1 : (⟨S_, .i32⟩ : BufTy).Contents (Elt F) → (⟨S1, .i32⟩ : BufTy).Contents (Elt F)),
    ternary main_v1060 main_v1079 main_v1078 main_v1080 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1081 ((extractStridedSlice S1024x1 ![0, 53] · slices_S1024x120_S1024x1_0_53) : (⟨S1024x120, .f32⟩ : BufTy).Contents (Elt F) → (⟨S1024x1, .f32⟩ : BufTy).Contents (Elt F)),
    reshape main_v1081 main_v1082 rfl shapeCasts_S1024x1_S1024 ]
/-- Operations 1 … 20 of window 19. -/
abbrev st57 : List (HloOp τ sig (Elt F)) :=
  [ unary main_v1082 main_v1083 (Host.cos : (⟨S1024, .f32⟩ : BufTy).Contents (Elt F) → (⟨S1024, .f32⟩ : BufTy).Contents (Elt F)),
    unary main_v1083 main_v1084 (broadcastInDim S1024x1 ![0] bcast_S1024_S1024x1_0 : (⟨S1024, .f32⟩ : BufTy).Contents (Elt F) → (⟨S1024x1, .f32⟩ : BufTy).Contents (Elt F)),
    unary main_v1082 main_v1085 (Host.sin : (⟨S1024, .f32⟩ : BufTy).Contents (Elt F) → (⟨S1024, .f32⟩ : BufTy).Contents (Elt F)),
    unary main_v1085 main_v1086 (broadcastInDim S1024x1 ![0] bcast_S1024_S1024x1_0 : (⟨S1024, .f32⟩ : BufTy).Contents (Elt F) → (⟨S1024x1, .f32⟩ : BufTy).Contents (Elt F)),
    unary main_v1080 main_v1087 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1087 main_v1088 rfl shapeCasts_S1024x1x16_S1024x16,
    unary main_v1084 main_v1089 (broadcastInDim S1024x16 ![0, 1] bcast_S1024x1_S1024x16_0_1 : (⟨S1024x1, .f32⟩ : BufTy).Contents (Elt F) → (⟨S1024x16, .f32⟩ : BufTy).Contents (Elt F)),
    binary main_v1089 main_v1073 main_v1090 (mulf : (⟨S1024x16, .f32⟩ : BufTy).Contents (Elt F) → (⟨S1024x16, .f32⟩ : BufTy).Contents (Elt F) → (⟨S1024x16, .f32⟩ : BufTy).Contents (Elt F)),
    unary main_v1086 main_v1091 (broadcastInDim S1024x16 ![0, 1] bcast_S1024x1_S1024x16_0_1 : (⟨S1024x1, .f32⟩ : BufTy).Contents (Elt F) → (⟨S1024x16, .f32⟩ : BufTy).Contents (Elt F)),
    binary main_v1091 main_v1088 main_v1092 (mulf : (⟨S1024x16, .f32⟩ : BufTy).Contents (Elt F) → (⟨S1024x16, .f32⟩ : BufTy).Contents (Elt F) → (⟨S1024x16, .f32⟩ : BufTy).Contents (Elt F)),
    binary main_v1090 main_v1092 main_v1093 (subf : (⟨S1024x16, .f32⟩ : BufTy).Contents (Elt F) → (⟨S1024x16, .f32⟩ : BufTy).Contents (Elt F) → (⟨S1024x16, .f32⟩ : BufTy).Contents (Elt F)),
    unary main_v1086 main_v1094 (broadcastInDim S1024x16 ![0, 1] bcast_S1024x1_S1024x16_0_1 : (⟨S1024x1, .f32⟩ : BufTy).Contents (Elt F) → (⟨S1024x16, .f32⟩ : BufTy).Contents (Elt F)),
    binary main_v1094 main_v1073 main_v1095 (mulf : (⟨S1024x16, .f32⟩ : BufTy).Contents (Elt F) → (⟨S1024x16, .f32⟩ : BufTy).Contents (Elt F) → (⟨S1024x16, .f32⟩ : BufTy).Contents (Elt F)),
    unary main_v1084 main_v1096 (broadcastInDim S1024x16 ![0, 1] bcast_S1024x1_S1024x16_0_1 : (⟨S1024x1, .f32⟩ : BufTy).Contents (Elt F) → (⟨S1024x16, .f32⟩ : BufTy).Contents (Elt F)),
    binary main_v1096 main_v1088 main_v1097 (mulf : (⟨S1024x16, .f32⟩ : BufTy).Contents (Elt F) → (⟨S1024x16, .f32⟩ : BufTy).Contents (Elt F) → (⟨S1024x16, .f32⟩ : BufTy).Contents (Elt F)),
    binary main_v1095 main_v1097 main_v1098 (addf : (⟨S1024x16, .f32⟩ : BufTy).Contents (Elt F) → (⟨S1024x16, .f32⟩ : BufTy).Contents (Elt F) → (⟨S1024x16, .f32⟩ : BufTy).Contents (Elt F)),
    nullary main_c_56 (constantI S_ 32 15#32),
    unary main_c_56 main_v1099 (broadcastInDim S1 ![] bcast_S_S1 : (⟨S_, .i32⟩ : BufTy).Contents (Elt F) → (⟨S1, .i32⟩ : BufTy).Contents (Elt F)),
    ternary main_v1080 main_v1099 main_v1098 main_v1100 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_57 (constantI S_ 32 3#32) ]
/-- Operations 21 … 40 of window 19. -/
abbrev st58 : List (HloOp τ sig (Elt F)) :=
  [ unary main_c_57 main_v1101 (broadcastInDim S1 ![] bcast_S_S1 : (⟨S_, .i32⟩ : BufTy).Contents (Elt F) → (⟨S1, .i32⟩ : BufTy).Contents (Elt F)),
    ternary main_v1100 main_v1101 main_v1093 main_v1102 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v1102 main_v1103 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)),
    reshape main_v1103 main_v1104 rfl shapeCasts_S1024x1x16_S1024x16,
    unary main_arg1 main_v1105 ((extractStridedSlice S1024x1 ![0, 54] · slices_S1024x120_S1024x1_0_54) : (⟨S1024x120, .f32⟩ : BufTy).Contents (Elt F) → (⟨S1024x1, .f32⟩ : BufTy).Contents (Elt F)),
    reshape main_v1105 main_v1106 rfl shapeCasts_S1024x1_S1024,
    unary main_v1106 main_v1107 (Host.cos : (⟨S1024, .f32⟩ : BufTy).Contents (Elt F) → (⟨S1024, .f32⟩ : BufTy).Contents (Elt F)),
    unary main_v1107 main_v1108 (broadcastInDim S1024x1 ![0] bcast_S1024_S1024x1_0 : (⟨S1024, .f32⟩ : BufTy).Contents (Elt F) → (⟨S1024x1, .f32⟩ : BufTy).Contents (Elt F)),
    unary main_v1106 main_v1109 (Host.sin : (⟨S1024, .f32⟩ : BufTy).Contents (Elt F) → (⟨S1024, .f32⟩ : BufTy).Contents (Elt F)),
    unary main_v1109 main_v1110 (broadcastInDim S1024x1 ![0] bcast_S1024_S1024x1_0 : (⟨S1024, .f32⟩ : BufTy).Contents (Elt F) → (⟨S1024x1, .f32⟩ : BufTy).Contents (Elt F)),
    unary main_v1102 main_v1111 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v1111 main_v1112 rfl shapeCasts_S1024x1x16_S1024x16,
    unary main_v1108 main_v1113 (broadcastInDim S1024x16 ![0, 1] bcast_S1024x1_S1024x16_0_1 : (⟨S1024x1, .f32⟩ : BufTy).Contents (Elt F) → (⟨S1024x16, .f32⟩ : BufTy).Contents (Elt F)),
    binary main_v1113 main_v1104 main_v1114 (mulf : (⟨S1024x16, .f32⟩ : BufTy).Contents (Elt F) → (⟨S1024x16, .f32⟩ : BufTy).Contents (Elt F) → (⟨S1024x16, .f32⟩ : BufTy).Contents (Elt F)),
    unary main_v1110 main_v1115 (broadcastInDim S1024x16 ![0, 1] bcast_S1024x1_S1024x16_0_1 : (⟨S1024x1, .f32⟩ : BufTy).Contents (Elt F) → (⟨S1024x16, .f32⟩ : BufTy).Contents (Elt F)),
    binary main_v1115 main_v1112 main_v1116 (mulf : (⟨S1024x16, .f32⟩ : BufTy).Contents (Elt F) → (⟨S1024x16, .f32⟩ : BufTy).Contents (Elt F) → (⟨S1024x16, .f32⟩ : BufTy).Contents (Elt F)),
    binary main_v1114 main_v1116 main_v1117 (subf : (⟨S1024x16, .f32⟩ : BufTy).Contents (Elt F) → (⟨S1024x16, .f32⟩ : BufTy).Contents (Elt F) → (⟨S1024x16, .f32⟩ : BufTy).Contents (Elt F)),
    unary main_v1110 main_v1118 (broadcastInDim S1024x16 ![0, 1] bcast_S1024x1_S1024x16_0_1 : (⟨S1024x1, .f32⟩ : BufTy).Contents (Elt F) → (⟨S1024x16, .f32⟩ : BufTy).Contents (Elt F)),
    binary main_v1118 main_v1104 main_v1119 (mulf : (⟨S1024x16, .f32⟩ : BufTy).Contents (Elt F) → (⟨S1024x16, .f32⟩ : BufTy).Contents (Elt F) → (⟨S1024x16, .f32⟩ : BufTy).Contents (Elt F)),
    unary main_v1108 main_v1120 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 19. -/
abbrev st59 : List (HloOp τ sig (Elt F)) :=
  [ binary main_v1120 main_v1112 main_v1121 (mulf : (⟨S1024x16, .f32⟩ : BufTy).Contents (Elt F) → (⟨S1024x16, .f32⟩ : BufTy).Contents (Elt F) → (⟨S1024x16, .f32⟩ : BufTy).Contents (Elt F)),
    binary main_v1119 main_v1121 main_v1122 (addf : (⟨S1024x16, .f32⟩ : BufTy).Contents (Elt F) → (⟨S1024x16, .f32⟩ : BufTy).Contents (Elt F) → (⟨S1024x16, .f32⟩ : BufTy).Contents (Elt F)),
    nullary main_c_58 (constantI S_ 32 5#32),
    unary main_c_58 main_v1123 (broadcastInDim S1 ![] bcast_S_S1 : (⟨S_, .i32⟩ : BufTy).Contents (Elt F) → (⟨S1, .i32⟩ : BufTy).Contents (Elt F)),
    ternary main_v1102 main_v1123 main_v1122 main_v1124 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1125 ((extractStridedSlice S1024x1 ![0, 55] · slices_S1024x120_S1024x1_0_55) : (⟨S1024x120, .f32⟩ : BufTy).Contents (Elt F) → (⟨S1024x1, .f32⟩ : BufTy).Contents (Elt F)),
    reshape main_v1125 main_v1126 rfl shapeCasts_S1024x1_S1024,
    unary main_v1126 main_v1127 (Host.cos : (⟨S1024, .f32⟩ : BufTy).Contents (Elt F) → (⟨S1024, .f32⟩ : BufTy).Contents (Elt F)),
    unary main_v1127 main_v1128 (broadcastInDim S1024x1 ![0] bcast_S1024_S1024x1_0 : (⟨S1024, .f32⟩ : BufTy).Contents (Elt F) → (⟨S1024x1, .f32⟩ : BufTy).Contents (Elt F)),
    unary main_v1126 main_v1129 (Host.sin : (⟨S1024, .f32⟩ : BufTy).Contents (Elt F) → (⟨S1024, .f32⟩ : BufTy).Contents (Elt F)),
    unary main_v1129 main_v1130 (broadcastInDim S1024x1 ![0] bcast_S1024_S1024x1_0 : (⟨S1024, .f32⟩ : BufTy).Contents (Elt F) → (⟨S1024x1, .f32⟩ : BufTy).Contents (Elt F)),
    unary main_v1124 main_v1131 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v1131 main_v1132 rfl shapeCasts_S1024x1x16_S1024x16,
    unary main_v1128 main_v1133 (broadcastInDim S1024x16 ![0, 1] bcast_S1024x1_S1024x16_0_1 : (⟨S1024x1, .f32⟩ : BufTy).Contents (Elt F) → (⟨S1024x16, .f32⟩ : BufTy).Contents (Elt F)),
    binary main_v1133 main_v1117 main_v1134 (mulf : (⟨S1024x16, .f32⟩ : BufTy).Contents (Elt F) → (⟨S1024x16, .f32⟩ : BufTy).Contents (Elt F) → (⟨S1024x16, .f32⟩ : BufTy).Contents (Elt F)),
    unary main_v1130 main_v1135 (broadcastInDim S1024x16 ![0, 1] bcast_S1024x1_S1024x16_0_1 : (⟨S1024x1, .f32⟩ : BufTy).Contents (Elt F) → (⟨S1024x16, .f32⟩ : BufTy).Contents (Elt F)),
    binary main_v1135 main_v1132 main_v1136 (mulf : (⟨S1024x16, .f32⟩ : BufTy).Contents (Elt F) → (⟨S1024x16, .f32⟩ : BufTy).Contents (Elt F) → (⟨S1024x16, .f32⟩ : BufTy).Contents (Elt F)),
    binary main_v1134 main_v1136 main_v1137 (subf : (⟨S1024x16, .f32⟩ : BufTy).Contents (Elt F) → (⟨S1024x16, .f32⟩ : BufTy).Contents (Elt F) → (⟨S1024x16, .f32⟩ : BufTy).Contents (Elt F)),
    unary main_v1130 main_v1138 (broadcastInDim S1024x16 ![0, 1] bcast_S1024x1_S1024x16_0_1 : (⟨S1024x1, .f32⟩ : BufTy).Contents (Elt F) → (⟨S1024x16, .f32⟩ : BufTy).Contents (Elt F)),
    binary main_v1138 main_v1117 main_v1139 (mulf : (⟨S1024x16, .f32⟩ : BufTy).Contents (Elt F) → (⟨S1024x16, .f32⟩ : BufTy).Contents (Elt F) → (⟨S1024x16, .f32⟩ : BufTy).Contents (Elt F)) ]
/-- Operations 1 … 20 of window 20. -/
abbrev st60 : List (HloOp τ sig (Elt F)) :=
  [ unary main_v1128 main_v1140 (broadcastInDim S1024x16 ![0, 1] bcast_S1024x1_S1024x16_0_1 : (⟨S1024x1, .f32⟩ : BufTy).Contents (Elt F) → (⟨S1024x16, .f32⟩ : BufTy).Contents (Elt F)),
    binary main_v1140 main_v1132 main_v1141 (mulf : (⟨S1024x16, .f32⟩ : BufTy).Contents (Elt F) → (⟨S1024x16, .f32⟩ : BufTy).Contents (Elt F) → (⟨S1024x16, .f32⟩ : BufTy).Contents (Elt F)),
    binary main_v1139 main_v1141 main_v1142 (addf : (⟨S1024x16, .f32⟩ : BufTy).Contents (Elt F) → (⟨S1024x16, .f32⟩ : BufTy).Contents (Elt F) → (⟨S1024x16, .f32⟩ : BufTy).Contents (Elt F)),
    nullary main_c_59 (constantI S_ 32 6#32),
    unary main_c_59 main_v1143 (broadcastInDim S1 ![] bcast_S_S1 : (⟨S_, .i32⟩ : BufTy).Contents (Elt F) → (⟨S1, .i32⟩ : BufTy).Contents (Elt F)),
    ternary main_v1124 main_v1143 main_v1142 main_v1144 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1145 ((extractStridedSlice S1024x1 ![0, 56] · slices_S1024x120_S1024x1_0_56) : (⟨S1024x120, .f32⟩ : BufTy).Contents (Elt F) → (⟨S1024x1, .f32⟩ : BufTy).Contents (Elt F)),
    reshape main_v1145 main_v1146 rfl shapeCasts_S1024x1_S1024,
    unary main_v1146 main_v1147 (Host.cos : (⟨S1024, .f32⟩ : BufTy).Contents (Elt F) → (⟨S1024, .f32⟩ : BufTy).Contents (Elt F)),
    unary main_v1147 main_v1148 (broadcastInDim S1024x1 ![0] bcast_S1024_S1024x1_0 : (⟨S1024, .f32⟩ : BufTy).Contents (Elt F) → (⟨S1024x1, .f32⟩ : BufTy).Contents (Elt F)),
    unary main_v1146 main_v1149 (Host.sin : (⟨S1024, .f32⟩ : BufTy).Contents (Elt F) → (⟨S1024, .f32⟩ : BufTy).Contents (Elt F)),
    unary main_v1149 main_v1150 (broadcastInDim S1024x1 ![0] bcast_S1024_S1024x1_0 : (⟨S1024, .f32⟩ : BufTy).Contents (Elt F) → (⟨S1024x1, .f32⟩ : BufTy).Contents (Elt F)),
    unary main_v1144 main_v1151 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v1151 main_v1152 rfl shapeCasts_S1024x1x16_S1024x16,
    unary main_v1148 main_v1153 (broadcastInDim S1024x16 ![0, 1] bcast_S1024x1_S1024x16_0_1 : (⟨S1024x1, .f32⟩ : BufTy).Contents (Elt F) → (⟨S1024x16, .f32⟩ : BufTy).Contents (Elt F)),
    binary main_v1153 main_v1137 main_v1154 (mulf : (⟨S1024x16, .f32⟩ : BufTy).Contents (Elt F) → (⟨S1024x16, .f32⟩ : BufTy).Contents (Elt F) → (⟨S1024x16, .f32⟩ : BufTy).Contents (Elt F)),
    unary main_v1150 main_v1155 (broadcastInDim S1024x16 ![0, 1] bcast_S1024x1_S1024x16_0_1 : (⟨S1024x1, .f32⟩ : BufTy).Contents (Elt F) → (⟨S1024x16, .f32⟩ : BufTy).Contents (Elt F)),
    binary main_v1155 main_v1152 main_v1156 (mulf : (⟨S1024x16, .f32⟩ : BufTy).Contents (Elt F) → (⟨S1024x16, .f32⟩ : BufTy).Contents (Elt F) → (⟨S1024x16, .f32⟩ : BufTy).Contents (Elt F)),
    binary main_v1154 main_v1156 main_v1157 (subf : (⟨S1024x16, .f32⟩ : BufTy).Contents (Elt F) → (⟨S1024x16, .f32⟩ : BufTy).Contents (Elt F) → (⟨S1024x16, .f32⟩ : BufTy).Contents (Elt F)),
    unary main_v1150 main_v1158 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 20. -/
abbrev st61 : List (HloOp τ sig (Elt F)) :=
  [ binary main_v1158 main_v1137 main_v1159 (mulf : (⟨S1024x16, .f32⟩ : BufTy).Contents (Elt F) → (⟨S1024x16, .f32⟩ : BufTy).Contents (Elt F) → (⟨S1024x16, .f32⟩ : BufTy).Contents (Elt F)),
    unary main_v1148 main_v1160 (broadcastInDim S1024x16 ![0, 1] bcast_S1024x1_S1024x16_0_1 : (⟨S1024x1, .f32⟩ : BufTy).Contents (Elt F) → (⟨S1024x16, .f32⟩ : BufTy).Contents (Elt F)),
    binary main_v1160 main_v1152 main_v1161 (mulf : (⟨S1024x16, .f32⟩ : BufTy).Contents (Elt F) → (⟨S1024x16, .f32⟩ : BufTy).Contents (Elt F) → (⟨S1024x16, .f32⟩ : BufTy).Contents (Elt F)),
    binary main_v1159 main_v1161 main_v1162 (addf : (⟨S1024x16, .f32⟩ : BufTy).Contents (Elt F) → (⟨S1024x16, .f32⟩ : BufTy).Contents (Elt F) → (⟨S1024x16, .f32⟩ : BufTy).Contents (Elt F)),
    nullary main_c_60 (constantI S_ 32 7#32),
    unary main_c_60 main_v1163 (broadcastInDim S1 ![] bcast_S_S1 : (⟨S_, .i32⟩ : BufTy).Contents (Elt F) → (⟨S1, .i32⟩ : BufTy).Contents (Elt F)),
    ternary main_v1144 main_v1163 main_v1162 main_v1164 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1165 ((extractStridedSlice S1024x1 ![0, 57] · slices_S1024x120_S1024x1_0_57) : (⟨S1024x120, .f32⟩ : BufTy).Contents (Elt F) → (⟨S1024x1, .f32⟩ : BufTy).Contents (Elt F)),
    reshape main_v1165 main_v1166 rfl shapeCasts_S1024x1_S1024,
    unary main_v1166 main_v1167 (Host.cos : (⟨S1024, .f32⟩ : BufTy).Contents (Elt F) → (⟨S1024, .f32⟩ : BufTy).Contents (Elt F)),
    unary main_v1167 main_v1168 (broadcastInDim S1024x1 ![0] bcast_S1024_S1024x1_0 : (⟨S1024, .f32⟩ : BufTy).Contents (Elt F) → (⟨S1024x1, .f32⟩ : BufTy).Contents (Elt F)),
    unary main_v1166 main_v1169 (Host.sin : (⟨S1024, .f32⟩ : BufTy).Contents (Elt F) → (⟨S1024, .f32⟩ : BufTy).Contents (Elt F)),
    unary main_v1169 main_v1170 (broadcastInDim S1024x1 ![0] bcast_S1024_S1024x1_0 : (⟨S1024, .f32⟩ : BufTy).Contents (Elt F) → (⟨S1024x1, .f32⟩ : BufTy).Contents (Elt F)),
    unary main_v1164 main_v1171 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1171 main_v1172 rfl shapeCasts_S1024x1x16_S1024x16,
    unary main_v1168 main_v1173 (broadcastInDim S1024x16 ![0, 1] bcast_S1024x1_S1024x16_0_1 : (⟨S1024x1, .f32⟩ : BufTy).Contents (Elt F) → (⟨S1024x16, .f32⟩ : BufTy).Contents (Elt F)),
    binary main_v1173 main_v1157 main_v1174 (mulf : (⟨S1024x16, .f32⟩ : BufTy).Contents (Elt F) → (⟨S1024x16, .f32⟩ : BufTy).Contents (Elt F) → (⟨S1024x16, .f32⟩ : BufTy).Contents (Elt F)),
    unary main_v1170 main_v1175 (broadcastInDim S1024x16 ![0, 1] bcast_S1024x1_S1024x16_0_1 : (⟨S1024x1, .f32⟩ : BufTy).Contents (Elt F) → (⟨S1024x16, .f32⟩ : BufTy).Contents (Elt F)),
    binary main_v1175 main_v1172 main_v1176 (mulf : (⟨S1024x16, .f32⟩ : BufTy).Contents (Elt F) → (⟨S1024x16, .f32⟩ : BufTy).Contents (Elt F) → (⟨S1024x16, .f32⟩ : BufTy).Contents (Elt F)),
    binary main_v1174 main_v1176 main_v1177 (subf : (⟨S1024x16, .f32⟩ : BufTy).Contents (Elt F) → (⟨S1024x16, .f32⟩ : BufTy).Contents (Elt F) → (⟨S1024x16, .f32⟩ : BufTy).Contents (Elt F)) ]
/-- Operations 41 … 60 of window 20. -/
abbrev st62 : List (HloOp τ sig (Elt F)) :=
  [ unary main_v1170 main_v1178 (broadcastInDim S1024x16 ![0, 1] bcast_S1024x1_S1024x16_0_1 : (⟨S1024x1, .f32⟩ : BufTy).Contents (Elt F) → (⟨S1024x16, .f32⟩ : BufTy).Contents (Elt F)),
    binary main_v1178 main_v1157 main_v1179 (mulf : (⟨S1024x16, .f32⟩ : BufTy).Contents (Elt F) → (⟨S1024x16, .f32⟩ : BufTy).Contents (Elt F) → (⟨S1024x16, .f32⟩ : BufTy).Contents (Elt F)),
    unary main_v1168 main_v1180 (broadcastInDim S1024x16 ![0, 1] bcast_S1024x1_S1024x16_0_1 : (⟨S1024x1, .f32⟩ : BufTy).Contents (Elt F) → (⟨S1024x16, .f32⟩ : BufTy).Contents (Elt F)),
    binary main_v1180 main_v1172 main_v1181 (mulf : (⟨S1024x16, .f32⟩ : BufTy).Contents (Elt F) → (⟨S1024x16, .f32⟩ : BufTy).Contents (Elt F) → (⟨S1024x16, .f32⟩ : BufTy).Contents (Elt F)),
    binary main_v1179 main_v1181 main_v1182 (addf : (⟨S1024x16, .f32⟩ : BufTy).Contents (Elt F) → (⟨S1024x16, .f32⟩ : BufTy).Contents (Elt F) → (⟨S1024x16, .f32⟩ : BufTy).Contents (Elt F)),
    nullary main_c_61 (constantI S_ 32 8#32),
    unary main_c_61 main_v1183 (broadcastInDim S1 ![] bcast_S_S1 : (⟨S_, .i32⟩ : BufTy).Contents (Elt F) → (⟨S1, .i32⟩ : BufTy).Contents (Elt F)),
    ternary main_v1164 main_v1183 main_v1182 main_v1184 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1185 ((extractStridedSlice S1024x1 ![0, 58] · slices_S1024x120_S1024x1_0_58) : (⟨S1024x120, .f32⟩ : BufTy).Contents (Elt F) → (⟨S1024x1, .f32⟩ : BufTy).Contents (Elt F)),
    reshape main_v1185 main_v1186 rfl shapeCasts_S1024x1_S1024,
    unary main_v1186 main_v1187 (Host.cos : (⟨S1024, .f32⟩ : BufTy).Contents (Elt F) → (⟨S1024, .f32⟩ : BufTy).Contents (Elt F)),
    unary main_v1187 main_v1188 (broadcastInDim S1024x1 ![0] bcast_S1024_S1024x1_0 : (⟨S1024, .f32⟩ : BufTy).Contents (Elt F) → (⟨S1024x1, .f32⟩ : BufTy).Contents (Elt F)),
    unary main_v1186 main_v1189 (Host.sin : (⟨S1024, .f32⟩ : BufTy).Contents (Elt F) → (⟨S1024, .f32⟩ : BufTy).Contents (Elt F)),
    unary main_v1189 main_v1190 (broadcastInDim S1024x1 ![0] bcast_S1024_S1024x1_0 : (⟨S1024, .f32⟩ : BufTy).Contents (Elt F) → (⟨S1024x1, .f32⟩ : BufTy).Contents (Elt F)),
    unary main_v1184 main_v1191 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1191 main_v1192 rfl shapeCasts_S1024x1x16_S1024x16,
    unary main_v1188 main_v1193 (broadcastInDim S1024x16 ![0, 1] bcast_S1024x1_S1024x16_0_1 : (⟨S1024x1, .f32⟩ : BufTy).Contents (Elt F) → (⟨S1024x16, .f32⟩ : BufTy).Contents (Elt F)),
    binary main_v1193 main_v1177 main_v1194 (mulf : (⟨S1024x16, .f32⟩ : BufTy).Contents (Elt F) → (⟨S1024x16, .f32⟩ : BufTy).Contents (Elt F) → (⟨S1024x16, .f32⟩ : BufTy).Contents (Elt F)),
    unary main_v1190 main_v1195 (broadcastInDim S1024x16 ![0, 1] bcast_S1024x1_S1024x16_0_1 : (⟨S1024x1, .f32⟩ : BufTy).Contents (Elt F) → (⟨S1024x16, .f32⟩ : BufTy).Contents (Elt F)),
    binary main_v1195 main_v1192 main_v1196 (mulf : (⟨S1024x16, .f32⟩ : BufTy).Contents (Elt F) → (⟨S1024x16, .f32⟩ : BufTy).Contents (Elt F) → (⟨S1024x16, .f32⟩ : BufTy).Contents (Elt F)) ]
/-- Operations 1 … 20 of window 21. -/
abbrev st63 : List (HloOp τ sig (Elt F)) :=
  [ binary main_v1194 main_v1196 main_v1197 (subf : (⟨S1024x16, .f32⟩ : BufTy).Contents (Elt F) → (⟨S1024x16, .f32⟩ : BufTy).Contents (Elt F) → (⟨S1024x16, .f32⟩ : BufTy).Contents (Elt F)),
    unary main_v1190 main_v1198 (broadcastInDim S1024x16 ![0, 1] bcast_S1024x1_S1024x16_0_1 : (⟨S1024x1, .f32⟩ : BufTy).Contents (Elt F) → (⟨S1024x16, .f32⟩ : BufTy).Contents (Elt F)),
    binary main_v1198 main_v1177 main_v1199 (mulf : (⟨S1024x16, .f32⟩ : BufTy).Contents (Elt F) → (⟨S1024x16, .f32⟩ : BufTy).Contents (Elt F) → (⟨S1024x16, .f32⟩ : BufTy).Contents (Elt F)),
    unary main_v1188 main_v1200 (broadcastInDim S1024x16 ![0, 1] bcast_S1024x1_S1024x16_0_1 : (⟨S1024x1, .f32⟩ : BufTy).Contents (Elt F) → (⟨S1024x16, .f32⟩ : BufTy).Contents (Elt F)),
    binary main_v1200 main_v1192 main_v1201 (mulf : (⟨S1024x16, .f32⟩ : BufTy).Contents (Elt F) → (⟨S1024x16, .f32⟩ : BufTy).Contents (Elt F) → (⟨S1024x16, .f32⟩ : BufTy).Contents (Elt F)),
    binary main_v1199 main_v1201 main_v1202 (addf : (⟨S1024x16, .f32⟩ : BufTy).Contents (Elt F) → (⟨S1024x16, .f32⟩ : BufTy).Contents (Elt F) → (⟨S1024x16, .f32⟩ : BufTy).Contents (Elt F)),
    nullary main_c_62 (constantI S_ 32 9#32),
    unary main_c_62 main_v1203 (broadcastInDim S1 ![] bcast_S_S1 : (⟨S_, .i32⟩ : BufTy).Contents (Elt F) → (⟨S1, .i32⟩ : BufTy).Contents (Elt F)),
    ternary main_v1184 main_v1203 main_v1202 main_v1204 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1205 ((extractStridedSlice S1024x1 ![0, 59] · slices_S1024x120_S1024x1_0_59) : (⟨S1024x120, .f32⟩ : BufTy).Contents (Elt F) → (⟨S1024x1, .f32⟩ : BufTy).Contents (Elt F)),
    reshape main_v1205 main_v1206 rfl shapeCasts_S1024x1_S1024,
    unary main_v1206 main_v1207 (Host.cos : (⟨S1024, .f32⟩ : BufTy).Contents (Elt F) → (⟨S1024, .f32⟩ : BufTy).Contents (Elt F)),
    unary main_v1207 main_v1208 (broadcastInDim S1024x1 ![0] bcast_S1024_S1024x1_0 : (⟨S1024, .f32⟩ : BufTy).Contents (Elt F) → (⟨S1024x1, .f32⟩ : BufTy).Contents (Elt F)),
    unary main_v1206 main_v1209 (Host.sin : (⟨S1024, .f32⟩ : BufTy).Contents (Elt F) → (⟨S1024, .f32⟩ : BufTy).Contents (Elt F)),
    unary main_v1209 main_v1210 (broadcastInDim S1024x1 ![0] bcast_S1024_S1024x1_0 : (⟨S1024, .f32⟩ : BufTy).Contents (Elt F) → (⟨S1024x1, .f32⟩ : BufTy).Contents (Elt F)),
    unary main_v1204 main_v1211 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1211 main_v1212 rfl shapeCasts_S1024x1x16_S1024x16,
    unary main_v1208 main_v1213 (broadcastInDim S1024x16 ![0, 1] bcast_S1024x1_S1024x16_0_1 : (⟨S1024x1, .f32⟩ : BufTy).Contents (Elt F) → (⟨S1024x16, .f32⟩ : BufTy).Contents (Elt F)),
    binary main_v1213 main_v1197 main_v1214 (mulf : (⟨S1024x16, .f32⟩ : BufTy).Contents (Elt F) → (⟨S1024x16, .f32⟩ : BufTy).Contents (Elt F) → (⟨S1024x16, .f32⟩ : BufTy).Contents (Elt F)),
    unary main_v1210 main_v1215 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 21. -/
abbrev st64 : List (HloOp τ sig (Elt F)) :=
  [ binary main_v1215 main_v1212 main_v1216 (mulf : (⟨S1024x16, .f32⟩ : BufTy).Contents (Elt F) → (⟨S1024x16, .f32⟩ : BufTy).Contents (Elt F) → (⟨S1024x16, .f32⟩ : BufTy).Contents (Elt F)),
    binary main_v1214 main_v1216 main_v1217 (subf : (⟨S1024x16, .f32⟩ : BufTy).Contents (Elt F) → (⟨S1024x16, .f32⟩ : BufTy).Contents (Elt F) → (⟨S1024x16, .f32⟩ : BufTy).Contents (Elt F)),
    unary main_v1210 main_v1218 (broadcastInDim S1024x16 ![0, 1] bcast_S1024x1_S1024x16_0_1 : (⟨S1024x1, .f32⟩ : BufTy).Contents (Elt F) → (⟨S1024x16, .f32⟩ : BufTy).Contents (Elt F)),
    binary main_v1218 main_v1197 main_v1219 (mulf : (⟨S1024x16, .f32⟩ : BufTy).Contents (Elt F) → (⟨S1024x16, .f32⟩ : BufTy).Contents (Elt F) → (⟨S1024x16, .f32⟩ : BufTy).Contents (Elt F)),
    unary main_v1208 main_v1220 (broadcastInDim S1024x16 ![0, 1] bcast_S1024x1_S1024x16_0_1 : (⟨S1024x1, .f32⟩ : BufTy).Contents (Elt F) → (⟨S1024x16, .f32⟩ : BufTy).Contents (Elt F)),
    binary main_v1220 main_v1212 main_v1221 (mulf : (⟨S1024x16, .f32⟩ : BufTy).Contents (Elt F) → (⟨S1024x16, .f32⟩ : BufTy).Contents (Elt F) → (⟨S1024x16, .f32⟩ : BufTy).Contents (Elt F)),
    binary main_v1219 main_v1221 main_v1222 (addf : (⟨S1024x16, .f32⟩ : BufTy).Contents (Elt F) → (⟨S1024x16, .f32⟩ : BufTy).Contents (Elt F) → (⟨S1024x16, .f32⟩ : BufTy).Contents (Elt F)),
    nullary main_c_63 (constantI S_ 32 10#32),
    unary main_c_63 main_v1223 (broadcastInDim S1 ![] bcast_S_S1 : (⟨S_, .i32⟩ : BufTy).Contents (Elt F) → (⟨S1, .i32⟩ : BufTy).Contents (Elt F)),
    ternary main_v1204 main_v1223 main_v1222 main_v1224 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1225 ((extractStridedSlice S1024x1 ![0, 60] · slices_S1024x120_S1024x1_0_60) : (⟨S1024x120, .f32⟩ : BufTy).Contents (Elt F) → (⟨S1024x1, .f32⟩ : BufTy).Contents (Elt F)),
    reshape main_v1225 main_v1226 rfl shapeCasts_S1024x1_S1024,
    unary main_v1226 main_v1227 (Host.cos : (⟨S1024, .f32⟩ : BufTy).Contents (Elt F) → (⟨S1024, .f32⟩ : BufTy).Contents (Elt F)),
    unary main_v1227 main_v1228 (broadcastInDim S1024x1 ![0] bcast_S1024_S1024x1_0 : (⟨S1024, .f32⟩ : BufTy).Contents (Elt F) → (⟨S1024x1, .f32⟩ : BufTy).Contents (Elt F)),
    unary main_v1226 main_v1229 (Host.sin : (⟨S1024, .f32⟩ : BufTy).Contents (Elt F) → (⟨S1024, .f32⟩ : BufTy).Contents (Elt F)),
    unary main_v1229 main_v1230 (broadcastInDim S1024x1 ![0] bcast_S1024_S1024x1_0 : (⟨S1024, .f32⟩ : BufTy).Contents (Elt F) → (⟨S1024x1, .f32⟩ : BufTy).Contents (Elt F)),
    unary main_v1224 main_v1231 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1231 main_v1232 rfl shapeCasts_S1024x1x16_S1024x16,
    unary main_v1228 main_v1233 (broadcastInDim S1024x16 ![0, 1] bcast_S1024x1_S1024x16_0_1 : (⟨S1024x1, .f32⟩ : BufTy).Contents (Elt F) → (⟨S1024x16, .f32⟩ : BufTy).Contents (Elt F)),
    binary main_v1233 main_v1217 main_v1234 (mulf : (⟨S1024x16, .f32⟩ : BufTy).Contents (Elt F) → (⟨S1024x16, .f32⟩ : BufTy).Contents (Elt F) → (⟨S1024x16, .f32⟩ : BufTy).Contents (Elt F)) ]
/-- Operations 41 … 60 of window 21. -/
abbrev st65 : List (HloOp τ sig (Elt F)) :=
  [ unary main_v1230 main_v1235 (broadcastInDim S1024x16 ![0, 1] bcast_S1024x1_S1024x16_0_1 : (⟨S1024x1, .f32⟩ : BufTy).Contents (Elt F) → (⟨S1024x16, .f32⟩ : BufTy).Contents (Elt F)),
    binary main_v1235 main_v1232 main_v1236 (mulf : (⟨S1024x16, .f32⟩ : BufTy).Contents (Elt F) → (⟨S1024x16, .f32⟩ : BufTy).Contents (Elt F) → (⟨S1024x16, .f32⟩ : BufTy).Contents (Elt F)),
    binary main_v1234 main_v1236 main_v1237 (subf : (⟨S1024x16, .f32⟩ : BufTy).Contents (Elt F) → (⟨S1024x16, .f32⟩ : BufTy).Contents (Elt F) → (⟨S1024x16, .f32⟩ : BufTy).Contents (Elt F)),
    unary main_v1230 main_v1238 (broadcastInDim S1024x16 ![0, 1] bcast_S1024x1_S1024x16_0_1 : (⟨S1024x1, .f32⟩ : BufTy).Contents (Elt F) → (⟨S1024x16, .f32⟩ : BufTy).Contents (Elt F)),
    binary main_v1238 main_v1217 main_v1239 (mulf : (⟨S1024x16, .f32⟩ : BufTy).Contents (Elt F) → (⟨S1024x16, .f32⟩ : BufTy).Contents (Elt F) → (⟨S1024x16, .f32⟩ : BufTy).Contents (Elt F)),
    unary main_v1228 main_v1240 (broadcastInDim S1024x16 ![0, 1] bcast_S1024x1_S1024x16_0_1 : (⟨S1024x1, .f32⟩ : BufTy).Contents (Elt F) → (⟨S1024x16, .f32⟩ : BufTy).Contents (Elt F)),
    binary main_v1240 main_v1232 main_v1241 (mulf : (⟨S1024x16, .f32⟩ : BufTy).Contents (Elt F) → (⟨S1024x16, .f32⟩ : BufTy).Contents (Elt F) → (⟨S1024x16, .f32⟩ : BufTy).Contents (Elt F)),
    binary main_v1239 main_v1241 main_v1242 (addf : (⟨S1024x16, .f32⟩ : BufTy).Contents (Elt F) → (⟨S1024x16, .f32⟩ : BufTy).Contents (Elt F) → (⟨S1024x16, .f32⟩ : BufTy).Contents (Elt F)),
    nullary main_c_64 (constantI S_ 32 11#32),
    unary main_c_64 main_v1243 (broadcastInDim S1 ![] bcast_S_S1 : (⟨S_, .i32⟩ : BufTy).Contents (Elt F) → (⟨S1, .i32⟩ : BufTy).Contents (Elt F)),
    ternary main_v1224 main_v1243 main_v1242 main_v1244 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1245 ((extractStridedSlice S1024x1 ![0, 61] · slices_S1024x120_S1024x1_0_61) : (⟨S1024x120, .f32⟩ : BufTy).Contents (Elt F) → (⟨S1024x1, .f32⟩ : BufTy).Contents (Elt F)),
    reshape main_v1245 main_v1246 rfl shapeCasts_S1024x1_S1024,
    unary main_v1246 main_v1247 (Host.cos : (⟨S1024, .f32⟩ : BufTy).Contents (Elt F) → (⟨S1024, .f32⟩ : BufTy).Contents (Elt F)),
    unary main_v1247 main_v1248 (broadcastInDim S1024x1 ![0] bcast_S1024_S1024x1_0 : (⟨S1024, .f32⟩ : BufTy).Contents (Elt F) → (⟨S1024x1, .f32⟩ : BufTy).Contents (Elt F)),
    unary main_v1246 main_v1249 (Host.sin : (⟨S1024, .f32⟩ : BufTy).Contents (Elt F) → (⟨S1024, .f32⟩ : BufTy).Contents (Elt F)),
    unary main_v1249 main_v1250 (broadcastInDim S1024x1 ![0] bcast_S1024_S1024x1_0 : (⟨S1024, .f32⟩ : BufTy).Contents (Elt F) → (⟨S1024x1, .f32⟩ : BufTy).Contents (Elt F)),
    unary main_v1244 main_v1251 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1251 main_v1252 rfl shapeCasts_S1024x1x16_S1024x16,
    unary main_v1248 main_v1253 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 22. -/
abbrev st66 : List (HloOp τ sig (Elt F)) :=
  [ binary main_v1253 main_v1237 main_v1254 (mulf : (⟨S1024x16, .f32⟩ : BufTy).Contents (Elt F) → (⟨S1024x16, .f32⟩ : BufTy).Contents (Elt F) → (⟨S1024x16, .f32⟩ : BufTy).Contents (Elt F)),
    unary main_v1250 main_v1255 (broadcastInDim S1024x16 ![0, 1] bcast_S1024x1_S1024x16_0_1 : (⟨S1024x1, .f32⟩ : BufTy).Contents (Elt F) → (⟨S1024x16, .f32⟩ : BufTy).Contents (Elt F)),
    binary main_v1255 main_v1252 main_v1256 (mulf : (⟨S1024x16, .f32⟩ : BufTy).Contents (Elt F) → (⟨S1024x16, .f32⟩ : BufTy).Contents (Elt F) → (⟨S1024x16, .f32⟩ : BufTy).Contents (Elt F)),
    binary main_v1254 main_v1256 main_v1257 (subf : (⟨S1024x16, .f32⟩ : BufTy).Contents (Elt F) → (⟨S1024x16, .f32⟩ : BufTy).Contents (Elt F) → (⟨S1024x16, .f32⟩ : BufTy).Contents (Elt F)),
    unary main_v1250 main_v1258 (broadcastInDim S1024x16 ![0, 1] bcast_S1024x1_S1024x16_0_1 : (⟨S1024x1, .f32⟩ : BufTy).Contents (Elt F) → (⟨S1024x16, .f32⟩ : BufTy).Contents (Elt F)),
    binary main_v1258 main_v1237 main_v1259 (mulf : (⟨S1024x16, .f32⟩ : BufTy).Contents (Elt F) → (⟨S1024x16, .f32⟩ : BufTy).Contents (Elt F) → (⟨S1024x16, .f32⟩ : BufTy).Contents (Elt F)),
    unary main_v1248 main_v1260 (broadcastInDim S1024x16 ![0, 1] bcast_S1024x1_S1024x16_0_1 : (⟨S1024x1, .f32⟩ : BufTy).Contents (Elt F) → (⟨S1024x16, .f32⟩ : BufTy).Contents (Elt F)),
    binary main_v1260 main_v1252 main_v1261 (mulf : (⟨S1024x16, .f32⟩ : BufTy).Contents (Elt F) → (⟨S1024x16, .f32⟩ : BufTy).Contents (Elt F) → (⟨S1024x16, .f32⟩ : BufTy).Contents (Elt F)),
    binary main_v1259 main_v1261 main_v1262 (addf : (⟨S1024x16, .f32⟩ : BufTy).Contents (Elt F) → (⟨S1024x16, .f32⟩ : BufTy).Contents (Elt F) → (⟨S1024x16, .f32⟩ : BufTy).Contents (Elt F)),
    nullary main_c_65 (constantI S_ 32 12#32),
    unary main_c_65 main_v1263 (broadcastInDim S1 ![] bcast_S_S1 : (⟨S_, .i32⟩ : BufTy).Contents (Elt F) → (⟨S1, .i32⟩ : BufTy).Contents (Elt F)),
    ternary main_v1244 main_v1263 main_v1262 main_v1264 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1265 ((extractStridedSlice S1024x1 ![0, 62] · slices_S1024x120_S1024x1_0_62) : (⟨S1024x120, .f32⟩ : BufTy).Contents (Elt F) → (⟨S1024x1, .f32⟩ : BufTy).Contents (Elt F)),
    reshape main_v1265 main_v1266 rfl shapeCasts_S1024x1_S1024,
    unary main_v1266 main_v1267 (Host.cos : (⟨S1024, .f32⟩ : BufTy).Contents (Elt F) → (⟨S1024, .f32⟩ : BufTy).Contents (Elt F)),
    unary main_v1267 main_v1268 (broadcastInDim S1024x1 ![0] bcast_S1024_S1024x1_0 : (⟨S1024, .f32⟩ : BufTy).Contents (Elt F) → (⟨S1024x1, .f32⟩ : BufTy).Contents (Elt F)),
    unary main_v1266 main_v1269 (Host.sin : (⟨S1024, .f32⟩ : BufTy).Contents (Elt F) → (⟨S1024, .f32⟩ : BufTy).Contents (Elt F)),
    unary main_v1269 main_v1270 (broadcastInDim S1024x1 ![0] bcast_S1024_S1024x1_0 : (⟨S1024, .f32⟩ : BufTy).Contents (Elt F) → (⟨S1024x1, .f32⟩ : BufTy).Contents (Elt F)),
    unary main_v1264 main_v1271 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1271 main_v1272 rfl shapeCasts_S1024x1x16_S1024x16 ]
/-- Operations 21 … 40 of window 22. -/
abbrev st67 : List (HloOp τ sig (Elt F)) :=
  [ unary main_v1268 main_v1273 (broadcastInDim S1024x16 ![0, 1] bcast_S1024x1_S1024x16_0_1 : (⟨S1024x1, .f32⟩ : BufTy).Contents (Elt F) → (⟨S1024x16, .f32⟩ : BufTy).Contents (Elt F)),
    binary main_v1273 main_v1257 main_v1274 (mulf : (⟨S1024x16, .f32⟩ : BufTy).Contents (Elt F) → (⟨S1024x16, .f32⟩ : BufTy).Contents (Elt F) → (⟨S1024x16, .f32⟩ : BufTy).Contents (Elt F)),
    unary main_v1270 main_v1275 (broadcastInDim S1024x16 ![0, 1] bcast_S1024x1_S1024x16_0_1 : (⟨S1024x1, .f32⟩ : BufTy).Contents (Elt F) → (⟨S1024x16, .f32⟩ : BufTy).Contents (Elt F)),
    binary main_v1275 main_v1272 main_v1276 (mulf : (⟨S1024x16, .f32⟩ : BufTy).Contents (Elt F) → (⟨S1024x16, .f32⟩ : BufTy).Contents (Elt F) → (⟨S1024x16, .f32⟩ : BufTy).Contents (Elt F)),
    binary main_v1274 main_v1276 main_v1277 (subf : (⟨S1024x16, .f32⟩ : BufTy).Contents (Elt F) → (⟨S1024x16, .f32⟩ : BufTy).Contents (Elt F) → (⟨S1024x16, .f32⟩ : BufTy).Contents (Elt F)),
    unary main_v1270 main_v1278 (broadcastInDim S1024x16 ![0, 1] bcast_S1024x1_S1024x16_0_1 : (⟨S1024x1, .f32⟩ : BufTy).Contents (Elt F) → (⟨S1024x16, .f32⟩ : BufTy).Contents (Elt F)),
    binary main_v1278 main_v1257 main_v1279 (mulf : (⟨S1024x16, .f32⟩ : BufTy).Contents (Elt F) → (⟨S1024x16, .f32⟩ : BufTy).Contents (Elt F) → (⟨S1024x16, .f32⟩ : BufTy).Contents (Elt F)),
    unary main_v1268 main_v1280 (broadcastInDim S1024x16 ![0, 1] bcast_S1024x1_S1024x16_0_1 : (⟨S1024x1, .f32⟩ : BufTy).Contents (Elt F) → (⟨S1024x16, .f32⟩ : BufTy).Contents (Elt F)),
    binary main_v1280 main_v1272 main_v1281 (mulf : (⟨S1024x16, .f32⟩ : BufTy).Contents (Elt F) → (⟨S1024x16, .f32⟩ : BufTy).Contents (Elt F) → (⟨S1024x16, .f32⟩ : BufTy).Contents (Elt F)),
    binary main_v1279 main_v1281 main_v1282 (addf : (⟨S1024x16, .f32⟩ : BufTy).Contents (Elt F) → (⟨S1024x16, .f32⟩ : BufTy).Contents (Elt F) → (⟨S1024x16, .f32⟩ : BufTy).Contents (Elt F)),
    nullary main_c_66 (constantI S_ 32 13#32),
    unary main_c_66 main_v1283 (broadcastInDim S1 ![] bcast_S_S1 : (⟨S_, .i32⟩ : BufTy).Contents (Elt F) → (⟨S1, .i32⟩ : BufTy).Contents (Elt F)),
    ternary main_v1264 main_v1283 main_v1282 main_v1284 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1285 ((extractStridedSlice S1024x1 ![0, 63] · slices_S1024x120_S1024x1_0_63) : (⟨S1024x120, .f32⟩ : BufTy).Contents (Elt F) → (⟨S1024x1, .f32⟩ : BufTy).Contents (Elt F)),
    reshape main_v1285 main_v1286 rfl shapeCasts_S1024x1_S1024,
    unary main_v1286 main_v1287 (Host.cos : (⟨S1024, .f32⟩ : BufTy).Contents (Elt F) → (⟨S1024, .f32⟩ : BufTy).Contents (Elt F)),
    unary main_v1287 main_v1288 (broadcastInDim S1024x1 ![0] bcast_S1024_S1024x1_0 : (⟨S1024, .f32⟩ : BufTy).Contents (Elt F) → (⟨S1024x1, .f32⟩ : BufTy).Contents (Elt F)),
    unary main_v1286 main_v1289 (Host.sin : (⟨S1024, .f32⟩ : BufTy).Contents (Elt F) → (⟨S1024, .f32⟩ : BufTy).Contents (Elt F)),
    unary main_v1289 main_v1290 (broadcastInDim S1024x1 ![0] bcast_S1024_S1024x1_0 : (⟨S1024, .f32⟩ : BufTy).Contents (Elt F) → (⟨S1024x1, .f32⟩ : BufTy).Contents (Elt F)),
    unary main_v1284 main_v1291 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)) ]
/-- Operations 41 … 60 of window 22. -/
abbrev st68 : List (HloOp τ sig (Elt F)) :=
  [ reshape main_v1291 main_v1292 rfl shapeCasts_S1024x1x16_S1024x16,
    unary main_v1288 main_v1293 (broadcastInDim S1024x16 ![0, 1] bcast_S1024x1_S1024x16_0_1 : (⟨S1024x1, .f32⟩ : BufTy).Contents (Elt F) → (⟨S1024x16, .f32⟩ : BufTy).Contents (Elt F)),
    binary main_v1293 main_v1277 main_v1294 (mulf : (⟨S1024x16, .f32⟩ : BufTy).Contents (Elt F) → (⟨S1024x16, .f32⟩ : BufTy).Contents (Elt F) → (⟨S1024x16, .f32⟩ : BufTy).Contents (Elt F)),
    unary main_v1290 main_v1295 (broadcastInDim S1024x16 ![0, 1] bcast_S1024x1_S1024x16_0_1 : (⟨S1024x1, .f32⟩ : BufTy).Contents (Elt F) → (⟨S1024x16, .f32⟩ : BufTy).Contents (Elt F)),
    binary main_v1295 main_v1292 main_v1296 (mulf : (⟨S1024x16, .f32⟩ : BufTy).Contents (Elt F) → (⟨S1024x16, .f32⟩ : BufTy).Contents (Elt F) → (⟨S1024x16, .f32⟩ : BufTy).Contents (Elt F)),
    binary main_v1294 main_v1296 main_v1297 (subf : (⟨S1024x16, .f32⟩ : BufTy).Contents (Elt F) → (⟨S1024x16, .f32⟩ : BufTy).Contents (Elt F) → (⟨S1024x16, .f32⟩ : BufTy).Contents (Elt F)),
    unary main_v1290 main_v1298 (broadcastInDim S1024x16 ![0, 1] bcast_S1024x1_S1024x16_0_1 : (⟨S1024x1, .f32⟩ : BufTy).Contents (Elt F) → (⟨S1024x16, .f32⟩ : BufTy).Contents (Elt F)),
    binary main_v1298 main_v1277 main_v1299 (mulf : (⟨S1024x16, .f32⟩ : BufTy).Contents (Elt F) → (⟨S1024x16, .f32⟩ : BufTy).Contents (Elt F) → (⟨S1024x16, .f32⟩ : BufTy).Contents (Elt F)),
    unary main_v1288 main_v1300 (broadcastInDim S1024x16 ![0, 1] bcast_S1024x1_S1024x16_0_1 : (⟨S1024x1, .f32⟩ : BufTy).Contents (Elt F) → (⟨S1024x16, .f32⟩ : BufTy).Contents (Elt F)),
    binary main_v1300 main_v1292 main_v1301 (mulf : (⟨S1024x16, .f32⟩ : BufTy).Contents (Elt F) → (⟨S1024x16, .f32⟩ : BufTy).Contents (Elt F) → (⟨S1024x16, .f32⟩ : BufTy).Contents (Elt F)),
    binary main_v1299 main_v1301 main_v1302 (addf : (⟨S1024x16, .f32⟩ : BufTy).Contents (Elt F) → (⟨S1024x16, .f32⟩ : BufTy).Contents (Elt F) → (⟨S1024x16, .f32⟩ : BufTy).Contents (Elt F)),
    nullary main_c_67 (constantI S_ 32 14#32),
    unary main_c_67 main_v1303 (broadcastInDim S1 ![] bcast_S_S1 : (⟨S_, .i32⟩ : BufTy).Contents (Elt F) → (⟨S1, .i32⟩ : BufTy).Contents (Elt F)),
    ternary main_v1284 main_v1303 main_v1302 main_v1304 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1305 ((extractStridedSlice S1024x1 ![0, 64] · slices_S1024x120_S1024x1_0_64) : (⟨S1024x120, .f32⟩ : BufTy).Contents (Elt F) → (⟨S1024x1, .f32⟩ : BufTy).Contents (Elt F)),
    reshape main_v1305 main_v1306 rfl shapeCasts_S1024x1_S1024,
    unary main_v1306 main_v1307 (Host.cos : (⟨S1024, .f32⟩ : BufTy).Contents (Elt F) → (⟨S1024, .f32⟩ : BufTy).Contents (Elt F)),
    unary main_v1307 main_v1308 (broadcastInDim S1024x1 ![0] bcast_S1024_S1024x1_0 : (⟨S1024, .f32⟩ : BufTy).Contents (Elt F) → (⟨S1024x1, .f32⟩ : BufTy).Contents (Elt F)),
    unary main_v1306 main_v1309 (Host.sin : (⟨S1024, .f32⟩ : BufTy).Contents (Elt F) → (⟨S1024, .f32⟩ : BufTy).Contents (Elt F)),
    unary main_v1309 main_v1310 (broadcastInDim S1024x1 ![0] bcast_S1024_S1024x1_0 : (⟨S1024, .f32⟩ : BufTy).Contents (Elt F) → (⟨S1024x1, .f32⟩ : BufTy).Contents (Elt F)) ]
/-- Operations 1 … 20 of window 23. -/
abbrev st69 : List (HloOp τ sig (Elt F)) :=
  [ unary main_v1304 main_v1311 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1311 main_v1312 rfl shapeCasts_S1024x1x16_S1024x16,
    unary main_v1308 main_v1313 (broadcastInDim S1024x16 ![0, 1] bcast_S1024x1_S1024x16_0_1 : (⟨S1024x1, .f32⟩ : BufTy).Contents (Elt F) → (⟨S1024x16, .f32⟩ : BufTy).Contents (Elt F)),
    binary main_v1313 main_v1297 main_v1314 (mulf : (⟨S1024x16, .f32⟩ : BufTy).Contents (Elt F) → (⟨S1024x16, .f32⟩ : BufTy).Contents (Elt F) → (⟨S1024x16, .f32⟩ : BufTy).Contents (Elt F)),
    unary main_v1310 main_v1315 (broadcastInDim S1024x16 ![0, 1] bcast_S1024x1_S1024x16_0_1 : (⟨S1024x1, .f32⟩ : BufTy).Contents (Elt F) → (⟨S1024x16, .f32⟩ : BufTy).Contents (Elt F)),
    binary main_v1315 main_v1312 main_v1316 (mulf : (⟨S1024x16, .f32⟩ : BufTy).Contents (Elt F) → (⟨S1024x16, .f32⟩ : BufTy).Contents (Elt F) → (⟨S1024x16, .f32⟩ : BufTy).Contents (Elt F)),
    binary main_v1314 main_v1316 main_v1317 (subf : (⟨S1024x16, .f32⟩ : BufTy).Contents (Elt F) → (⟨S1024x16, .f32⟩ : BufTy).Contents (Elt F) → (⟨S1024x16, .f32⟩ : BufTy).Contents (Elt F)),
    unary main_v1310 main_v1318 (broadcastInDim S1024x16 ![0, 1] bcast_S1024x1_S1024x16_0_1 : (⟨S1024x1, .f32⟩ : BufTy).Contents (Elt F) → (⟨S1024x16, .f32⟩ : BufTy).Contents (Elt F)),
    binary main_v1318 main_v1297 main_v1319 (mulf : (⟨S1024x16, .f32⟩ : BufTy).Contents (Elt F) → (⟨S1024x16, .f32⟩ : BufTy).Contents (Elt F) → (⟨S1024x16, .f32⟩ : BufTy).Contents (Elt F)),
    unary main_v1308 main_v1320 (broadcastInDim S1024x16 ![0, 1] bcast_S1024x1_S1024x16_0_1 : (⟨S1024x1, .f32⟩ : BufTy).Contents (Elt F) → (⟨S1024x16, .f32⟩ : BufTy).Contents (Elt F)),
    binary main_v1320 main_v1312 main_v1321 (mulf : (⟨S1024x16, .f32⟩ : BufTy).Contents (Elt F) → (⟨S1024x16, .f32⟩ : BufTy).Contents (Elt F) → (⟨S1024x16, .f32⟩ : BufTy).Contents (Elt F)),
    binary main_v1319 main_v1321 main_v1322 (addf : (⟨S1024x16, .f32⟩ : BufTy).Contents (Elt F) → (⟨S1024x16, .f32⟩ : BufTy).Contents (Elt F) → (⟨S1024x16, .f32⟩ : BufTy).Contents (Elt F)),
    nullary main_c_68 (constantI S_ 32 15#32),
    unary main_c_68 main_v1323 (broadcastInDim S1 ![] bcast_S_S1 : (⟨S_, .i32⟩ : BufTy).Contents (Elt F) → (⟨S1, .i32⟩ : BufTy).Contents (Elt F)),
    ternary main_v1304 main_v1323 main_v1322 main_v1324 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_69 (constantI S_ 32 4#32),
    unary main_c_69 main_v1325 (broadcastInDim S1 ![] bcast_S_S1 : (⟨S_, .i32⟩ : BufTy).Contents (Elt F) → (⟨S1, .i32⟩ : BufTy).Contents (Elt F)),
    ternary main_v1324 main_v1325 main_v1317 main_v1326 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v1326 main_v1327 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v1327 main_v1328 rfl shapeCasts_S1024x1x16_S1024x16 ]
/-- Operations 21 … 40 of window 23. -/
abbrev st70 : List (HloOp τ sig (Elt F)) :=
  [ unary main_arg1 main_v1329 ((extractStridedSlice S1024x1 ![0, 65] · slices_S1024x120_S1024x1_0_65) : (⟨S1024x120, .f32⟩ : BufTy).Contents (Elt F) → (⟨S1024x1, .f32⟩ : BufTy).Contents (Elt F)),
    reshape main_v1329 main_v1330 rfl shapeCasts_S1024x1_S1024,
    unary main_v1330 main_v1331 (Host.cos : (⟨S1024, .f32⟩ : BufTy).Contents (Elt F) → (⟨S1024, .f32⟩ : BufTy).Contents (Elt F)),
    unary main_v1331 main_v1332 (broadcastInDim S1024x1 ![0] bcast_S1024_S1024x1_0 : (⟨S1024, .f32⟩ : BufTy).Contents (Elt F) → (⟨S1024x1, .f32⟩ : BufTy).Contents (Elt F)),
    unary main_v1330 main_v1333 (Host.sin : (⟨S1024, .f32⟩ : BufTy).Contents (Elt F) → (⟨S1024, .f32⟩ : BufTy).Contents (Elt F)),
    unary main_v1333 main_v1334 (broadcastInDim S1024x1 ![0] bcast_S1024_S1024x1_0 : (⟨S1024, .f32⟩ : BufTy).Contents (Elt F) → (⟨S1024x1, .f32⟩ : BufTy).Contents (Elt F)),
    unary main_v1326 main_v1335 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v1335 main_v1336 rfl shapeCasts_S1024x1x16_S1024x16,
    unary main_v1332 main_v1337 (broadcastInDim S1024x16 ![0, 1] bcast_S1024x1_S1024x16_0_1 : (⟨S1024x1, .f32⟩ : BufTy).Contents (Elt F) → (⟨S1024x16, .f32⟩ : BufTy).Contents (Elt F)),
    binary main_v1337 main_v1328 main_v1338 (mulf : (⟨S1024x16, .f32⟩ : BufTy).Contents (Elt F) → (⟨S1024x16, .f32⟩ : BufTy).Contents (Elt F) → (⟨S1024x16, .f32⟩ : BufTy).Contents (Elt F)),
    unary main_v1334 main_v1339 (broadcastInDim S1024x16 ![0, 1] bcast_S1024x1_S1024x16_0_1 : (⟨S1024x1, .f32⟩ : BufTy).Contents (Elt F) → (⟨S1024x16, .f32⟩ : BufTy).Contents (Elt F)),
    binary main_v1339 main_v1336 main_v1340 (mulf : (⟨S1024x16, .f32⟩ : BufTy).Contents (Elt F) → (⟨S1024x16, .f32⟩ : BufTy).Contents (Elt F) → (⟨S1024x16, .f32⟩ : BufTy).Contents (Elt F)),
    binary main_v1338 main_v1340 main_v1341 (subf : (⟨S1024x16, .f32⟩ : BufTy).Contents (Elt F) → (⟨S1024x16, .f32⟩ : BufTy).Contents (Elt F) → (⟨S1024x16, .f32⟩ : BufTy).Contents (Elt F)),
    unary main_v1334 main_v1342 (broadcastInDim S1024x16 ![0, 1] bcast_S1024x1_S1024x16_0_1 : (⟨S1024x1, .f32⟩ : BufTy).Contents (Elt F) → (⟨S1024x16, .f32⟩ : BufTy).Contents (Elt F)),
    binary main_v1342 main_v1328 main_v1343 (mulf : (⟨S1024x16, .f32⟩ : BufTy).Contents (Elt F) → (⟨S1024x16, .f32⟩ : BufTy).Contents (Elt F) → (⟨S1024x16, .f32⟩ : BufTy).Contents (Elt F)),
    unary main_v1332 main_v1344 (broadcastInDim S1024x16 ![0, 1] bcast_S1024x1_S1024x16_0_1 : (⟨S1024x1, .f32⟩ : BufTy).Contents (Elt F) → (⟨S1024x16, .f32⟩ : BufTy).Contents (Elt F)),
    binary main_v1344 main_v1336 main_v1345 (mulf : (⟨S1024x16, .f32⟩ : BufTy).Contents (Elt F) → (⟨S1024x16, .f32⟩ : BufTy).Contents (Elt F) → (⟨S1024x16, .f32⟩ : BufTy).Contents (Elt F)),
    binary main_v1343 main_v1345 main_v1346 (addf : (⟨S1024x16, .f32⟩ : BufTy).Contents (Elt F) → (⟨S1024x16, .f32⟩ : BufTy).Contents (Elt F) → (⟨S1024x16, .f32⟩ : BufTy).Contents (Elt F)),
    nullary main_c_70 (constantI S_ 32 6#32),
    unary main_c_70 main_v1347 (broadcastInDim S1 ![] bcast_S_S1 : (⟨S_, .i32⟩ : BufTy).Contents (Elt F) → (⟨S1, .i32⟩ : BufTy).Contents (Elt F)) ]
/-- Operations 41 … 60 of window 23. -/
abbrev st71 : List (HloOp τ sig (Elt F)) :=
  [ ternary main_v1326 main_v1347 main_v1346 main_v1348 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1349 ((extractStridedSlice S1024x1 ![0, 66] · slices_S1024x120_S1024x1_0_66) : (⟨S1024x120, .f32⟩ : BufTy).Contents (Elt F) → (⟨S1024x1, .f32⟩ : BufTy).Contents (Elt F)),
    reshape main_v1349 main_v1350 rfl shapeCasts_S1024x1_S1024,
    unary main_v1350 main_v1351 (Host.cos : (⟨S1024, .f32⟩ : BufTy).Contents (Elt F) → (⟨S1024, .f32⟩ : BufTy).Contents (Elt F)),
    unary main_v1351 main_v1352 (broadcastInDim S1024x1 ![0] bcast_S1024_S1024x1_0 : (⟨S1024, .f32⟩ : BufTy).Contents (Elt F) → (⟨S1024x1, .f32⟩ : BufTy).Contents (Elt F)),
    unary main_v1350 main_v1353 (Host.sin : (⟨S1024, .f32⟩ : BufTy).Contents (Elt F) → (⟨S1024, .f32⟩ : BufTy).Contents (Elt F)),
    unary main_v1353 main_v1354 (broadcastInDim S1024x1 ![0] bcast_S1024_S1024x1_0 : (⟨S1024, .f32⟩ : BufTy).Contents (Elt F) → (⟨S1024x1, .f32⟩ : BufTy).Contents (Elt F)),
    unary main_v1348 main_v1355 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v1355 main_v1356 rfl shapeCasts_S1024x1x16_S1024x16,
    unary main_v1352 main_v1357 (broadcastInDim S1024x16 ![0, 1] bcast_S1024x1_S1024x16_0_1 : (⟨S1024x1, .f32⟩ : BufTy).Contents (Elt F) → (⟨S1024x16, .f32⟩ : BufTy).Contents (Elt F)),
    binary main_v1357 main_v1341 main_v1358 (mulf : (⟨S1024x16, .f32⟩ : BufTy).Contents (Elt F) → (⟨S1024x16, .f32⟩ : BufTy).Contents (Elt F) → (⟨S1024x16, .f32⟩ : BufTy).Contents (Elt F)),
    unary main_v1354 main_v1359 (broadcastInDim S1024x16 ![0, 1] bcast_S1024x1_S1024x16_0_1 : (⟨S1024x1, .f32⟩ : BufTy).Contents (Elt F) → (⟨S1024x16, .f32⟩ : BufTy).Contents (Elt F)),
    binary main_v1359 main_v1356 main_v1360 (mulf : (⟨S1024x16, .f32⟩ : BufTy).Contents (Elt F) → (⟨S1024x16, .f32⟩ : BufTy).Contents (Elt F) → (⟨S1024x16, .f32⟩ : BufTy).Contents (Elt F)),
    binary main_v1358 main_v1360 main_v1361 (subf : (⟨S1024x16, .f32⟩ : BufTy).Contents (Elt F) → (⟨S1024x16, .f32⟩ : BufTy).Contents (Elt F) → (⟨S1024x16, .f32⟩ : BufTy).Contents (Elt F)),
    unary main_v1354 main_v1362 (broadcastInDim S1024x16 ![0, 1] bcast_S1024x1_S1024x16_0_1 : (⟨S1024x1, .f32⟩ : BufTy).Contents (Elt F) → (⟨S1024x16, .f32⟩ : BufTy).Contents (Elt F)),
    binary main_v1362 main_v1341 main_v1363 (mulf : (⟨S1024x16, .f32⟩ : BufTy).Contents (Elt F) → (⟨S1024x16, .f32⟩ : BufTy).Contents (Elt F) → (⟨S1024x16, .f32⟩ : BufTy).Contents (Elt F)),
    unary main_v1352 main_v1364 (broadcastInDim S1024x16 ![0, 1] bcast_S1024x1_S1024x16_0_1 : (⟨S1024x1, .f32⟩ : BufTy).Contents (Elt F) → (⟨S1024x16, .f32⟩ : BufTy).Contents (Elt F)),
    binary main_v1364 main_v1356 main_v1365 (mulf : (⟨S1024x16, .f32⟩ : BufTy).Contents (Elt F) → (⟨S1024x16, .f32⟩ : BufTy).Contents (Elt F) → (⟨S1024x16, .f32⟩ : BufTy).Contents (Elt F)),
    binary main_v1363 main_v1365 main_v1366 (addf : (⟨S1024x16, .f32⟩ : BufTy).Contents (Elt F) → (⟨S1024x16, .f32⟩ : BufTy).Contents (Elt F) → (⟨S1024x16, .f32⟩ : BufTy).Contents (Elt F)),
    nullary main_c_71 (constantI S_ 32 7#32) ]
/-- Operations 1 … 20 of window 24. -/
abbrev st72 : List (HloOp τ sig (Elt F)) :=
  [ unary main_c_71 main_v1367 (broadcastInDim S1 ![] bcast_S_S1 : (⟨S_, .i32⟩ : BufTy).Contents (Elt F) → (⟨S1, .i32⟩ : BufTy).Contents (Elt F)),
    ternary main_v1348 main_v1367 main_v1366 main_v1368 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1369 ((extractStridedSlice S1024x1 ![0, 67] · slices_S1024x120_S1024x1_0_67) : (⟨S1024x120, .f32⟩ : BufTy).Contents (Elt F) → (⟨S1024x1, .f32⟩ : BufTy).Contents (Elt F)),
    reshape main_v1369 main_v1370 rfl shapeCasts_S1024x1_S1024,
    unary main_v1370 main_v1371 (Host.cos : (⟨S1024, .f32⟩ : BufTy).Contents (Elt F) → (⟨S1024, .f32⟩ : BufTy).Contents (Elt F)),
    unary main_v1371 main_v1372 (broadcastInDim S1024x1 ![0] bcast_S1024_S1024x1_0 : (⟨S1024, .f32⟩ : BufTy).Contents (Elt F) → (⟨S1024x1, .f32⟩ : BufTy).Contents (Elt F)),
    unary main_v1370 main_v1373 (Host.sin : (⟨S1024, .f32⟩ : BufTy).Contents (Elt F) → (⟨S1024, .f32⟩ : BufTy).Contents (Elt F)),
    unary main_v1373 main_v1374 (broadcastInDim S1024x1 ![0] bcast_S1024_S1024x1_0 : (⟨S1024, .f32⟩ : BufTy).Contents (Elt F) → (⟨S1024x1, .f32⟩ : BufTy).Contents (Elt F)),
    unary main_v1368 main_v1375 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1375 main_v1376 rfl shapeCasts_S1024x1x16_S1024x16,
    unary main_v1372 main_v1377 (broadcastInDim S1024x16 ![0, 1] bcast_S1024x1_S1024x16_0_1 : (⟨S1024x1, .f32⟩ : BufTy).Contents (Elt F) → (⟨S1024x16, .f32⟩ : BufTy).Contents (Elt F)),
    binary main_v1377 main_v1361 main_v1378 (mulf : (⟨S1024x16, .f32⟩ : BufTy).Contents (Elt F) → (⟨S1024x16, .f32⟩ : BufTy).Contents (Elt F) → (⟨S1024x16, .f32⟩ : BufTy).Contents (Elt F)),
    unary main_v1374 main_v1379 (broadcastInDim S1024x16 ![0, 1] bcast_S1024x1_S1024x16_0_1 : (⟨S1024x1, .f32⟩ : BufTy).Contents (Elt F) → (⟨S1024x16, .f32⟩ : BufTy).Contents (Elt F)),
    binary main_v1379 main_v1376 main_v1380 (mulf : (⟨S1024x16, .f32⟩ : BufTy).Contents (Elt F) → (⟨S1024x16, .f32⟩ : BufTy).Contents (Elt F) → (⟨S1024x16, .f32⟩ : BufTy).Contents (Elt F)),
    binary main_v1378 main_v1380 main_v1381 (subf : (⟨S1024x16, .f32⟩ : BufTy).Contents (Elt F) → (⟨S1024x16, .f32⟩ : BufTy).Contents (Elt F) → (⟨S1024x16, .f32⟩ : BufTy).Contents (Elt F)),
    unary main_v1374 main_v1382 (broadcastInDim S1024x16 ![0, 1] bcast_S1024x1_S1024x16_0_1 : (⟨S1024x1, .f32⟩ : BufTy).Contents (Elt F) → (⟨S1024x16, .f32⟩ : BufTy).Contents (Elt F)),
    binary main_v1382 main_v1361 main_v1383 (mulf : (⟨S1024x16, .f32⟩ : BufTy).Contents (Elt F) → (⟨S1024x16, .f32⟩ : BufTy).Contents (Elt F) → (⟨S1024x16, .f32⟩ : BufTy).Contents (Elt F)),
    unary main_v1372 main_v1384 (broadcastInDim S1024x16 ![0, 1] bcast_S1024x1_S1024x16_0_1 : (⟨S1024x1, .f32⟩ : BufTy).Contents (Elt F) → (⟨S1024x16, .f32⟩ : BufTy).Contents (Elt F)),
    binary main_v1384 main_v1376 main_v1385 (mulf : (⟨S1024x16, .f32⟩ : BufTy).Contents (Elt F) → (⟨S1024x16, .f32⟩ : BufTy).Contents (Elt F) → (⟨S1024x16, .f32⟩ : BufTy).Contents (Elt F)),
    binary main_v1383 main_v1385 main_v1386 (addf : (⟨S1024x16, .f32⟩ : BufTy).Contents (Elt F) → (⟨S1024x16, .f32⟩ : BufTy).Contents (Elt F) → (⟨S1024x16, .f32⟩ : BufTy).Contents (Elt F)) ]
/-- Operations 21 … 40 of window 24. -/
abbrev st73 : List (HloOp τ sig (Elt F)) :=
  [ nullary main_c_72 (constantI S_ 32 8#32),
    unary main_c_72 main_v1387 (broadcastInDim S1 ![] bcast_S_S1 : (⟨S_, .i32⟩ : BufTy).Contents (Elt F) → (⟨S1, .i32⟩ : BufTy).Contents (Elt F)),
    ternary main_v1368 main_v1387 main_v1386 main_v1388 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1389 ((extractStridedSlice S1024x1 ![0, 68] · slices_S1024x120_S1024x1_0_68) : (⟨S1024x120, .f32⟩ : BufTy).Contents (Elt F) → (⟨S1024x1, .f32⟩ : BufTy).Contents (Elt F)),
    reshape main_v1389 main_v1390 rfl shapeCasts_S1024x1_S1024,
    unary main_v1390 main_v1391 (Host.cos : (⟨S1024, .f32⟩ : BufTy).Contents (Elt F) → (⟨S1024, .f32⟩ : BufTy).Contents (Elt F)),
    unary main_v1391 main_v1392 (broadcastInDim S1024x1 ![0] bcast_S1024_S1024x1_0 : (⟨S1024, .f32⟩ : BufTy).Contents (Elt F) → (⟨S1024x1, .f32⟩ : BufTy).Contents (Elt F)),
    unary main_v1390 main_v1393 (Host.sin : (⟨S1024, .f32⟩ : BufTy).Contents (Elt F) → (⟨S1024, .f32⟩ : BufTy).Contents (Elt F)),
    unary main_v1393 main_v1394 (broadcastInDim S1024x1 ![0] bcast_S1024_S1024x1_0 : (⟨S1024, .f32⟩ : BufTy).Contents (Elt F) → (⟨S1024x1, .f32⟩ : BufTy).Contents (Elt F)),
    unary main_v1388 main_v1395 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1395 main_v1396 rfl shapeCasts_S1024x1x16_S1024x16,
    unary main_v1392 main_v1397 (broadcastInDim S1024x16 ![0, 1] bcast_S1024x1_S1024x16_0_1 : (⟨S1024x1, .f32⟩ : BufTy).Contents (Elt F) → (⟨S1024x16, .f32⟩ : BufTy).Contents (Elt F)),
    binary main_v1397 main_v1381 main_v1398 (mulf : (⟨S1024x16, .f32⟩ : BufTy).Contents (Elt F) → (⟨S1024x16, .f32⟩ : BufTy).Contents (Elt F) → (⟨S1024x16, .f32⟩ : BufTy).Contents (Elt F)),
    unary main_v1394 main_v1399 (broadcastInDim S1024x16 ![0, 1] bcast_S1024x1_S1024x16_0_1 : (⟨S1024x1, .f32⟩ : BufTy).Contents (Elt F) → (⟨S1024x16, .f32⟩ : BufTy).Contents (Elt F)),
    binary main_v1399 main_v1396 main_v1400 (mulf : (⟨S1024x16, .f32⟩ : BufTy).Contents (Elt F) → (⟨S1024x16, .f32⟩ : BufTy).Contents (Elt F) → (⟨S1024x16, .f32⟩ : BufTy).Contents (Elt F)),
    binary main_v1398 main_v1400 main_v1401 (subf : (⟨S1024x16, .f32⟩ : BufTy).Contents (Elt F) → (⟨S1024x16, .f32⟩ : BufTy).Contents (Elt F) → (⟨S1024x16, .f32⟩ : BufTy).Contents (Elt F)),
    unary main_v1394 main_v1402 (broadcastInDim S1024x16 ![0, 1] bcast_S1024x1_S1024x16_0_1 : (⟨S1024x1, .f32⟩ : BufTy).Contents (Elt F) → (⟨S1024x16, .f32⟩ : BufTy).Contents (Elt F)),
    binary main_v1402 main_v1381 main_v1403 (mulf : (⟨S1024x16, .f32⟩ : BufTy).Contents (Elt F) → (⟨S1024x16, .f32⟩ : BufTy).Contents (Elt F) → (⟨S1024x16, .f32⟩ : BufTy).Contents (Elt F)),
    unary main_v1392 main_v1404 (broadcastInDim S1024x16 ![0, 1] bcast_S1024x1_S1024x16_0_1 : (⟨S1024x1, .f32⟩ : BufTy).Contents (Elt F) → (⟨S1024x16, .f32⟩ : BufTy).Contents (Elt F)),
    binary main_v1404 main_v1396 main_v1405 (mulf : (⟨S1024x16, .f32⟩ : BufTy).Contents (Elt F) → (⟨S1024x16, .f32⟩ : BufTy).Contents (Elt F) → (⟨S1024x16, .f32⟩ : BufTy).Contents (Elt F)) ]
/-- Operations 41 … 60 of window 24. -/
abbrev st74 : List (HloOp τ sig (Elt F)) :=
  [ binary main_v1403 main_v1405 main_v1406 (addf : (⟨S1024x16, .f32⟩ : BufTy).Contents (Elt F) → (⟨S1024x16, .f32⟩ : BufTy).Contents (Elt F) → (⟨S1024x16, .f32⟩ : BufTy).Contents (Elt F)),
    nullary main_c_73 (constantI S_ 32 9#32),
    unary main_c_73 main_v1407 (broadcastInDim S1 ![] bcast_S_S1 : (⟨S_, .i32⟩ : BufTy).Contents (Elt F) → (⟨S1, .i32⟩ : BufTy).Contents (Elt F)),
    ternary main_v1388 main_v1407 main_v1406 main_v1408 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1409 ((extractStridedSlice S1024x1 ![0, 69] · slices_S1024x120_S1024x1_0_69) : (⟨S1024x120, .f32⟩ : BufTy).Contents (Elt F) → (⟨S1024x1, .f32⟩ : BufTy).Contents (Elt F)),
    reshape main_v1409 main_v1410 rfl shapeCasts_S1024x1_S1024,
    unary main_v1410 main_v1411 (Host.cos : (⟨S1024, .f32⟩ : BufTy).Contents (Elt F) → (⟨S1024, .f32⟩ : BufTy).Contents (Elt F)),
    unary main_v1411 main_v1412 (broadcastInDim S1024x1 ![0] bcast_S1024_S1024x1_0 : (⟨S1024, .f32⟩ : BufTy).Contents (Elt F) → (⟨S1024x1, .f32⟩ : BufTy).Contents (Elt F)),
    unary main_v1410 main_v1413 (Host.sin : (⟨S1024, .f32⟩ : BufTy).Contents (Elt F) → (⟨S1024, .f32⟩ : BufTy).Contents (Elt F)),
    unary main_v1413 main_v1414 (broadcastInDim S1024x1 ![0] bcast_S1024_S1024x1_0 : (⟨S1024, .f32⟩ : BufTy).Contents (Elt F) → (⟨S1024x1, .f32⟩ : BufTy).Contents (Elt F)),
    unary main_v1408 main_v1415 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1415 main_v1416 rfl shapeCasts_S1024x1x16_S1024x16,
    unary main_v1412 main_v1417 (broadcastInDim S1024x16 ![0, 1] bcast_S1024x1_S1024x16_0_1 : (⟨S1024x1, .f32⟩ : BufTy).Contents (Elt F) → (⟨S1024x16, .f32⟩ : BufTy).Contents (Elt F)),
    binary main_v1417 main_v1401 main_v1418 (mulf : (⟨S1024x16, .f32⟩ : BufTy).Contents (Elt F) → (⟨S1024x16, .f32⟩ : BufTy).Contents (Elt F) → (⟨S1024x16, .f32⟩ : BufTy).Contents (Elt F)),
    unary main_v1414 main_v1419 (broadcastInDim S1024x16 ![0, 1] bcast_S1024x1_S1024x16_0_1 : (⟨S1024x1, .f32⟩ : BufTy).Contents (Elt F) → (⟨S1024x16, .f32⟩ : BufTy).Contents (Elt F)),
    binary main_v1419 main_v1416 main_v1420 (mulf : (⟨S1024x16, .f32⟩ : BufTy).Contents (Elt F) → (⟨S1024x16, .f32⟩ : BufTy).Contents (Elt F) → (⟨S1024x16, .f32⟩ : BufTy).Contents (Elt F)),
    binary main_v1418 main_v1420 main_v1421 (subf : (⟨S1024x16, .f32⟩ : BufTy).Contents (Elt F) → (⟨S1024x16, .f32⟩ : BufTy).Contents (Elt F) → (⟨S1024x16, .f32⟩ : BufTy).Contents (Elt F)),
    unary main_v1414 main_v1422 (broadcastInDim S1024x16 ![0, 1] bcast_S1024x1_S1024x16_0_1 : (⟨S1024x1, .f32⟩ : BufTy).Contents (Elt F) → (⟨S1024x16, .f32⟩ : BufTy).Contents (Elt F)),
    binary main_v1422 main_v1401 main_v1423 (mulf : (⟨S1024x16, .f32⟩ : BufTy).Contents (Elt F) → (⟨S1024x16, .f32⟩ : BufTy).Contents (Elt F) → (⟨S1024x16, .f32⟩ : BufTy).Contents (Elt F)),
    unary main_v1412 main_v1424 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 25. -/
abbrev st75 : List (HloOp τ sig (Elt F)) :=
  [ binary main_v1424 main_v1416 main_v1425 (mulf : (⟨S1024x16, .f32⟩ : BufTy).Contents (Elt F) → (⟨S1024x16, .f32⟩ : BufTy).Contents (Elt F) → (⟨S1024x16, .f32⟩ : BufTy).Contents (Elt F)),
    binary main_v1423 main_v1425 main_v1426 (addf : (⟨S1024x16, .f32⟩ : BufTy).Contents (Elt F) → (⟨S1024x16, .f32⟩ : BufTy).Contents (Elt F) → (⟨S1024x16, .f32⟩ : BufTy).Contents (Elt F)),
    nullary main_c_74 (constantI S_ 32 10#32),
    unary main_c_74 main_v1427 (broadcastInDim S1 ![] bcast_S_S1 : (⟨S_, .i32⟩ : BufTy).Contents (Elt F) → (⟨S1, .i32⟩ : BufTy).Contents (Elt F)),
    ternary main_v1408 main_v1427 main_v1426 main_v1428 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1429 ((extractStridedSlice S1024x1 ![0, 70] · slices_S1024x120_S1024x1_0_70) : (⟨S1024x120, .f32⟩ : BufTy).Contents (Elt F) → (⟨S1024x1, .f32⟩ : BufTy).Contents (Elt F)),
    reshape main_v1429 main_v1430 rfl shapeCasts_S1024x1_S1024,
    unary main_v1430 main_v1431 (Host.cos : (⟨S1024, .f32⟩ : BufTy).Contents (Elt F) → (⟨S1024, .f32⟩ : BufTy).Contents (Elt F)),
    unary main_v1431 main_v1432 (broadcastInDim S1024x1 ![0] bcast_S1024_S1024x1_0 : (⟨S1024, .f32⟩ : BufTy).Contents (Elt F) → (⟨S1024x1, .f32⟩ : BufTy).Contents (Elt F)),
    unary main_v1430 main_v1433 (Host.sin : (⟨S1024, .f32⟩ : BufTy).Contents (Elt F) → (⟨S1024, .f32⟩ : BufTy).Contents (Elt F)),
    unary main_v1433 main_v1434 (broadcastInDim S1024x1 ![0] bcast_S1024_S1024x1_0 : (⟨S1024, .f32⟩ : BufTy).Contents (Elt F) → (⟨S1024x1, .f32⟩ : BufTy).Contents (Elt F)),
    unary main_v1428 main_v1435 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1435 main_v1436 rfl shapeCasts_S1024x1x16_S1024x16,
    unary main_v1432 main_v1437 (broadcastInDim S1024x16 ![0, 1] bcast_S1024x1_S1024x16_0_1 : (⟨S1024x1, .f32⟩ : BufTy).Contents (Elt F) → (⟨S1024x16, .f32⟩ : BufTy).Contents (Elt F)),
    binary main_v1437 main_v1421 main_v1438 (mulf : (⟨S1024x16, .f32⟩ : BufTy).Contents (Elt F) → (⟨S1024x16, .f32⟩ : BufTy).Contents (Elt F) → (⟨S1024x16, .f32⟩ : BufTy).Contents (Elt F)),
    unary main_v1434 main_v1439 (broadcastInDim S1024x16 ![0, 1] bcast_S1024x1_S1024x16_0_1 : (⟨S1024x1, .f32⟩ : BufTy).Contents (Elt F) → (⟨S1024x16, .f32⟩ : BufTy).Contents (Elt F)),
    binary main_v1439 main_v1436 main_v1440 (mulf : (⟨S1024x16, .f32⟩ : BufTy).Contents (Elt F) → (⟨S1024x16, .f32⟩ : BufTy).Contents (Elt F) → (⟨S1024x16, .f32⟩ : BufTy).Contents (Elt F)),
    binary main_v1438 main_v1440 main_v1441 (subf : (⟨S1024x16, .f32⟩ : BufTy).Contents (Elt F) → (⟨S1024x16, .f32⟩ : BufTy).Contents (Elt F) → (⟨S1024x16, .f32⟩ : BufTy).Contents (Elt F)),
    unary main_v1434 main_v1442 (broadcastInDim S1024x16 ![0, 1] bcast_S1024x1_S1024x16_0_1 : (⟨S1024x1, .f32⟩ : BufTy).Contents (Elt F) → (⟨S1024x16, .f32⟩ : BufTy).Contents (Elt F)),
    binary main_v1442 main_v1421 main_v1443 (mulf : (⟨S1024x16, .f32⟩ : BufTy).Contents (Elt F) → (⟨S1024x16, .f32⟩ : BufTy).Contents (Elt F) → (⟨S1024x16, .f32⟩ : BufTy).Contents (Elt F)) ]
/-- Operations 21 … 40 of window 25. -/
abbrev st76 : List (HloOp τ sig (Elt F)) :=
  [ unary main_v1432 main_v1444 (broadcastInDim S1024x16 ![0, 1] bcast_S1024x1_S1024x16_0_1 : (⟨S1024x1, .f32⟩ : BufTy).Contents (Elt F) → (⟨S1024x16, .f32⟩ : BufTy).Contents (Elt F)),
    binary main_v1444 main_v1436 main_v1445 (mulf : (⟨S1024x16, .f32⟩ : BufTy).Contents (Elt F) → (⟨S1024x16, .f32⟩ : BufTy).Contents (Elt F) → (⟨S1024x16, .f32⟩ : BufTy).Contents (Elt F)),
    binary main_v1443 main_v1445 main_v1446 (addf : (⟨S1024x16, .f32⟩ : BufTy).Contents (Elt F) → (⟨S1024x16, .f32⟩ : BufTy).Contents (Elt F) → (⟨S1024x16, .f32⟩ : BufTy).Contents (Elt F)),
    nullary main_c_75 (constantI S_ 32 11#32),
    unary main_c_75 main_v1447 (broadcastInDim S1 ![] bcast_S_S1 : (⟨S_, .i32⟩ : BufTy).Contents (Elt F) → (⟨S1, .i32⟩ : BufTy).Contents (Elt F)),
    ternary main_v1428 main_v1447 main_v1446 main_v1448 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1449 ((extractStridedSlice S1024x1 ![0, 71] · slices_S1024x120_S1024x1_0_71) : (⟨S1024x120, .f32⟩ : BufTy).Contents (Elt F) → (⟨S1024x1, .f32⟩ : BufTy).Contents (Elt F)),
    reshape main_v1449 main_v1450 rfl shapeCasts_S1024x1_S1024,
    unary main_v1450 main_v1451 (Host.cos : (⟨S1024, .f32⟩ : BufTy).Contents (Elt F) → (⟨S1024, .f32⟩ : BufTy).Contents (Elt F)),
    unary main_v1451 main_v1452 (broadcastInDim S1024x1 ![0] bcast_S1024_S1024x1_0 : (⟨S1024, .f32⟩ : BufTy).Contents (Elt F) → (⟨S1024x1, .f32⟩ : BufTy).Contents (Elt F)),
    unary main_v1450 main_v1453 (Host.sin : (⟨S1024, .f32⟩ : BufTy).Contents (Elt F) → (⟨S1024, .f32⟩ : BufTy).Contents (Elt F)),
    unary main_v1453 main_v1454 (broadcastInDim S1024x1 ![0] bcast_S1024_S1024x1_0 : (⟨S1024, .f32⟩ : BufTy).Contents (Elt F) → (⟨S1024x1, .f32⟩ : BufTy).Contents (Elt F)),
    unary main_v1448 main_v1455 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1455 main_v1456 rfl shapeCasts_S1024x1x16_S1024x16,
    unary main_v1452 main_v1457 (broadcastInDim S1024x16 ![0, 1] bcast_S1024x1_S1024x16_0_1 : (⟨S1024x1, .f32⟩ : BufTy).Contents (Elt F) → (⟨S1024x16, .f32⟩ : BufTy).Contents (Elt F)),
    binary main_v1457 main_v1441 main_v1458 (mulf : (⟨S1024x16, .f32⟩ : BufTy).Contents (Elt F) → (⟨S1024x16, .f32⟩ : BufTy).Contents (Elt F) → (⟨S1024x16, .f32⟩ : BufTy).Contents (Elt F)),
    unary main_v1454 main_v1459 (broadcastInDim S1024x16 ![0, 1] bcast_S1024x1_S1024x16_0_1 : (⟨S1024x1, .f32⟩ : BufTy).Contents (Elt F) → (⟨S1024x16, .f32⟩ : BufTy).Contents (Elt F)),
    binary main_v1459 main_v1456 main_v1460 (mulf : (⟨S1024x16, .f32⟩ : BufTy).Contents (Elt F) → (⟨S1024x16, .f32⟩ : BufTy).Contents (Elt F) → (⟨S1024x16, .f32⟩ : BufTy).Contents (Elt F)),
    binary main_v1458 main_v1460 main_v1461 (subf : (⟨S1024x16, .f32⟩ : BufTy).Contents (Elt F) → (⟨S1024x16, .f32⟩ : BufTy).Contents (Elt F) → (⟨S1024x16, .f32⟩ : BufTy).Contents (Elt F)),
    unary main_v1454 main_v1462 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 25. -/
abbrev st77 : List (HloOp τ sig (Elt F)) :=
  [ binary main_v1462 main_v1441 main_v1463 (mulf : (⟨S1024x16, .f32⟩ : BufTy).Contents (Elt F) → (⟨S1024x16, .f32⟩ : BufTy).Contents (Elt F) → (⟨S1024x16, .f32⟩ : BufTy).Contents (Elt F)),
    unary main_v1452 main_v1464 (broadcastInDim S1024x16 ![0, 1] bcast_S1024x1_S1024x16_0_1 : (⟨S1024x1, .f32⟩ : BufTy).Contents (Elt F) → (⟨S1024x16, .f32⟩ : BufTy).Contents (Elt F)),
    binary main_v1464 main_v1456 main_v1465 (mulf : (⟨S1024x16, .f32⟩ : BufTy).Contents (Elt F) → (⟨S1024x16, .f32⟩ : BufTy).Contents (Elt F) → (⟨S1024x16, .f32⟩ : BufTy).Contents (Elt F)),
    binary main_v1463 main_v1465 main_v1466 (addf : (⟨S1024x16, .f32⟩ : BufTy).Contents (Elt F) → (⟨S1024x16, .f32⟩ : BufTy).Contents (Elt F) → (⟨S1024x16, .f32⟩ : BufTy).Contents (Elt F)),
    nullary main_c_76 (constantI S_ 32 12#32),
    unary main_c_76 main_v1467 (broadcastInDim S1 ![] bcast_S_S1 : (⟨S_, .i32⟩ : BufTy).Contents (Elt F) → (⟨S1, .i32⟩ : BufTy).Contents (Elt F)),
    ternary main_v1448 main_v1467 main_v1466 main_v1468 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1469 ((extractStridedSlice S1024x1 ![0, 72] · slices_S1024x120_S1024x1_0_72) : (⟨S1024x120, .f32⟩ : BufTy).Contents (Elt F) → (⟨S1024x1, .f32⟩ : BufTy).Contents (Elt F)),
    reshape main_v1469 main_v1470 rfl shapeCasts_S1024x1_S1024,
    unary main_v1470 main_v1471 (Host.cos : (⟨S1024, .f32⟩ : BufTy).Contents (Elt F) → (⟨S1024, .f32⟩ : BufTy).Contents (Elt F)),
    unary main_v1471 main_v1472 (broadcastInDim S1024x1 ![0] bcast_S1024_S1024x1_0 : (⟨S1024, .f32⟩ : BufTy).Contents (Elt F) → (⟨S1024x1, .f32⟩ : BufTy).Contents (Elt F)),
    unary main_v1470 main_v1473 (Host.sin : (⟨S1024, .f32⟩ : BufTy).Contents (Elt F) → (⟨S1024, .f32⟩ : BufTy).Contents (Elt F)),
    unary main_v1473 main_v1474 (broadcastInDim S1024x1 ![0] bcast_S1024_S1024x1_0 : (⟨S1024, .f32⟩ : BufTy).Contents (Elt F) → (⟨S1024x1, .f32⟩ : BufTy).Contents (Elt F)),
    unary main_v1468 main_v1475 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1475 main_v1476 rfl shapeCasts_S1024x1x16_S1024x16,
    unary main_v1472 main_v1477 (broadcastInDim S1024x16 ![0, 1] bcast_S1024x1_S1024x16_0_1 : (⟨S1024x1, .f32⟩ : BufTy).Contents (Elt F) → (⟨S1024x16, .f32⟩ : BufTy).Contents (Elt F)),
    binary main_v1477 main_v1461 main_v1478 (mulf : (⟨S1024x16, .f32⟩ : BufTy).Contents (Elt F) → (⟨S1024x16, .f32⟩ : BufTy).Contents (Elt F) → (⟨S1024x16, .f32⟩ : BufTy).Contents (Elt F)),
    unary main_v1474 main_v1479 (broadcastInDim S1024x16 ![0, 1] bcast_S1024x1_S1024x16_0_1 : (⟨S1024x1, .f32⟩ : BufTy).Contents (Elt F) → (⟨S1024x16, .f32⟩ : BufTy).Contents (Elt F)),
    binary main_v1479 main_v1476 main_v1480 (mulf : (⟨S1024x16, .f32⟩ : BufTy).Contents (Elt F) → (⟨S1024x16, .f32⟩ : BufTy).Contents (Elt F) → (⟨S1024x16, .f32⟩ : BufTy).Contents (Elt F)),
    binary main_v1478 main_v1480 main_v1481 (subf : (⟨S1024x16, .f32⟩ : BufTy).Contents (Elt F) → (⟨S1024x16, .f32⟩ : BufTy).Contents (Elt F) → (⟨S1024x16, .f32⟩ : BufTy).Contents (Elt F)) ]
/-- Operations 1 … 20 of window 26. -/
abbrev st78 : List (HloOp τ sig (Elt F)) :=
  [ unary main_v1474 main_v1482 (broadcastInDim S1024x16 ![0, 1] bcast_S1024x1_S1024x16_0_1 : (⟨S1024x1, .f32⟩ : BufTy).Contents (Elt F) → (⟨S1024x16, .f32⟩ : BufTy).Contents (Elt F)),
    binary main_v1482 main_v1461 main_v1483 (mulf : (⟨S1024x16, .f32⟩ : BufTy).Contents (Elt F) → (⟨S1024x16, .f32⟩ : BufTy).Contents (Elt F) → (⟨S1024x16, .f32⟩ : BufTy).Contents (Elt F)),
    unary main_v1472 main_v1484 (broadcastInDim S1024x16 ![0, 1] bcast_S1024x1_S1024x16_0_1 : (⟨S1024x1, .f32⟩ : BufTy).Contents (Elt F) → (⟨S1024x16, .f32⟩ : BufTy).Contents (Elt F)),
    binary main_v1484 main_v1476 main_v1485 (mulf : (⟨S1024x16, .f32⟩ : BufTy).Contents (Elt F) → (⟨S1024x16, .f32⟩ : BufTy).Contents (Elt F) → (⟨S1024x16, .f32⟩ : BufTy).Contents (Elt F)),
    binary main_v1483 main_v1485 main_v1486 (addf : (⟨S1024x16, .f32⟩ : BufTy).Contents (Elt F) → (⟨S1024x16, .f32⟩ : BufTy).Contents (Elt F) → (⟨S1024x16, .f32⟩ : BufTy).Contents (Elt F)),
    nullary main_c_77 (constantI S_ 32 13#32),
    unary main_c_77 main_v1487 (broadcastInDim S1 ![] bcast_S_S1 : (⟨S_, .i32⟩ : BufTy).Contents (Elt F) → (⟨S1, .i32⟩ : BufTy).Contents (Elt F)),
    ternary main_v1468 main_v1487 main_v1486 main_v1488 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1489 ((extractStridedSlice S1024x1 ![0, 73] · slices_S1024x120_S1024x1_0_73) : (⟨S1024x120, .f32⟩ : BufTy).Contents (Elt F) → (⟨S1024x1, .f32⟩ : BufTy).Contents (Elt F)),
    reshape main_v1489 main_v1490 rfl shapeCasts_S1024x1_S1024,
    unary main_v1490 main_v1491 (Host.cos : (⟨S1024, .f32⟩ : BufTy).Contents (Elt F) → (⟨S1024, .f32⟩ : BufTy).Contents (Elt F)),
    unary main_v1491 main_v1492 (broadcastInDim S1024x1 ![0] bcast_S1024_S1024x1_0 : (⟨S1024, .f32⟩ : BufTy).Contents (Elt F) → (⟨S1024x1, .f32⟩ : BufTy).Contents (Elt F)),
    unary main_v1490 main_v1493 (Host.sin : (⟨S1024, .f32⟩ : BufTy).Contents (Elt F) → (⟨S1024, .f32⟩ : BufTy).Contents (Elt F)),
    unary main_v1493 main_v1494 (broadcastInDim S1024x1 ![0] bcast_S1024_S1024x1_0 : (⟨S1024, .f32⟩ : BufTy).Contents (Elt F) → (⟨S1024x1, .f32⟩ : BufTy).Contents (Elt F)),
    unary main_v1488 main_v1495 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1495 main_v1496 rfl shapeCasts_S1024x1x16_S1024x16,
    unary main_v1492 main_v1497 (broadcastInDim S1024x16 ![0, 1] bcast_S1024x1_S1024x16_0_1 : (⟨S1024x1, .f32⟩ : BufTy).Contents (Elt F) → (⟨S1024x16, .f32⟩ : BufTy).Contents (Elt F)),
    binary main_v1497 main_v1481 main_v1498 (mulf : (⟨S1024x16, .f32⟩ : BufTy).Contents (Elt F) → (⟨S1024x16, .f32⟩ : BufTy).Contents (Elt F) → (⟨S1024x16, .f32⟩ : BufTy).Contents (Elt F)),
    unary main_v1494 main_v1499 (broadcastInDim S1024x16 ![0, 1] bcast_S1024x1_S1024x16_0_1 : (⟨S1024x1, .f32⟩ : BufTy).Contents (Elt F) → (⟨S1024x16, .f32⟩ : BufTy).Contents (Elt F)),
    binary main_v1499 main_v1496 main_v1500 (mulf : (⟨S1024x16, .f32⟩ : BufTy).Contents (Elt F) → (⟨S1024x16, .f32⟩ : BufTy).Contents (Elt F) → (⟨S1024x16, .f32⟩ : BufTy).Contents (Elt F)) ]
/-- Operations 21 … 40 of window 26. -/
abbrev st79 : List (HloOp τ sig (Elt F)) :=
  [ binary main_v1498 main_v1500 main_v1501 (subf : (⟨S1024x16, .f32⟩ : BufTy).Contents (Elt F) → (⟨S1024x16, .f32⟩ : BufTy).Contents (Elt F) → (⟨S1024x16, .f32⟩ : BufTy).Contents (Elt F)),
    unary main_v1494 main_v1502 (broadcastInDim S1024x16 ![0, 1] bcast_S1024x1_S1024x16_0_1 : (⟨S1024x1, .f32⟩ : BufTy).Contents (Elt F) → (⟨S1024x16, .f32⟩ : BufTy).Contents (Elt F)),
    binary main_v1502 main_v1481 main_v1503 (mulf : (⟨S1024x16, .f32⟩ : BufTy).Contents (Elt F) → (⟨S1024x16, .f32⟩ : BufTy).Contents (Elt F) → (⟨S1024x16, .f32⟩ : BufTy).Contents (Elt F)),
    unary main_v1492 main_v1504 (broadcastInDim S1024x16 ![0, 1] bcast_S1024x1_S1024x16_0_1 : (⟨S1024x1, .f32⟩ : BufTy).Contents (Elt F) → (⟨S1024x16, .f32⟩ : BufTy).Contents (Elt F)),
    binary main_v1504 main_v1496 main_v1505 (mulf : (⟨S1024x16, .f32⟩ : BufTy).Contents (Elt F) → (⟨S1024x16, .f32⟩ : BufTy).Contents (Elt F) → (⟨S1024x16, .f32⟩ : BufTy).Contents (Elt F)),
    binary main_v1503 main_v1505 main_v1506 (addf : (⟨S1024x16, .f32⟩ : BufTy).Contents (Elt F) → (⟨S1024x16, .f32⟩ : BufTy).Contents (Elt F) → (⟨S1024x16, .f32⟩ : BufTy).Contents (Elt F)),
    nullary main_c_78 (constantI S_ 32 14#32),
    unary main_c_78 main_v1507 (broadcastInDim S1 ![] bcast_S_S1 : (⟨S_, .i32⟩ : BufTy).Contents (Elt F) → (⟨S1, .i32⟩ : BufTy).Contents (Elt F)),
    ternary main_v1488 main_v1507 main_v1506 main_v1508 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1509 ((extractStridedSlice S1024x1 ![0, 74] · slices_S1024x120_S1024x1_0_74) : (⟨S1024x120, .f32⟩ : BufTy).Contents (Elt F) → (⟨S1024x1, .f32⟩ : BufTy).Contents (Elt F)),
    reshape main_v1509 main_v1510 rfl shapeCasts_S1024x1_S1024,
    unary main_v1510 main_v1511 (Host.cos : (⟨S1024, .f32⟩ : BufTy).Contents (Elt F) → (⟨S1024, .f32⟩ : BufTy).Contents (Elt F)),
    unary main_v1511 main_v1512 (broadcastInDim S1024x1 ![0] bcast_S1024_S1024x1_0 : (⟨S1024, .f32⟩ : BufTy).Contents (Elt F) → (⟨S1024x1, .f32⟩ : BufTy).Contents (Elt F)),
    unary main_v1510 main_v1513 (Host.sin : (⟨S1024, .f32⟩ : BufTy).Contents (Elt F) → (⟨S1024, .f32⟩ : BufTy).Contents (Elt F)),
    unary main_v1513 main_v1514 (broadcastInDim S1024x1 ![0] bcast_S1024_S1024x1_0 : (⟨S1024, .f32⟩ : BufTy).Contents (Elt F) → (⟨S1024x1, .f32⟩ : BufTy).Contents (Elt F)),
    unary main_v1508 main_v1515 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1515 main_v1516 rfl shapeCasts_S1024x1x16_S1024x16,
    unary main_v1512 main_v1517 (broadcastInDim S1024x16 ![0, 1] bcast_S1024x1_S1024x16_0_1 : (⟨S1024x1, .f32⟩ : BufTy).Contents (Elt F) → (⟨S1024x16, .f32⟩ : BufTy).Contents (Elt F)),
    binary main_v1517 main_v1501 main_v1518 (mulf : (⟨S1024x16, .f32⟩ : BufTy).Contents (Elt F) → (⟨S1024x16, .f32⟩ : BufTy).Contents (Elt F) → (⟨S1024x16, .f32⟩ : BufTy).Contents (Elt F)),
    unary main_v1514 main_v1519 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 26. -/
abbrev st80 : List (HloOp τ sig (Elt F)) :=
  [ binary main_v1519 main_v1516 main_v1520 (mulf : (⟨S1024x16, .f32⟩ : BufTy).Contents (Elt F) → (⟨S1024x16, .f32⟩ : BufTy).Contents (Elt F) → (⟨S1024x16, .f32⟩ : BufTy).Contents (Elt F)),
    binary main_v1518 main_v1520 main_v1521 (subf : (⟨S1024x16, .f32⟩ : BufTy).Contents (Elt F) → (⟨S1024x16, .f32⟩ : BufTy).Contents (Elt F) → (⟨S1024x16, .f32⟩ : BufTy).Contents (Elt F)),
    unary main_v1514 main_v1522 (broadcastInDim S1024x16 ![0, 1] bcast_S1024x1_S1024x16_0_1 : (⟨S1024x1, .f32⟩ : BufTy).Contents (Elt F) → (⟨S1024x16, .f32⟩ : BufTy).Contents (Elt F)),
    binary main_v1522 main_v1501 main_v1523 (mulf : (⟨S1024x16, .f32⟩ : BufTy).Contents (Elt F) → (⟨S1024x16, .f32⟩ : BufTy).Contents (Elt F) → (⟨S1024x16, .f32⟩ : BufTy).Contents (Elt F)),
    unary main_v1512 main_v1524 (broadcastInDim S1024x16 ![0, 1] bcast_S1024x1_S1024x16_0_1 : (⟨S1024x1, .f32⟩ : BufTy).Contents (Elt F) → (⟨S1024x16, .f32⟩ : BufTy).Contents (Elt F)),
    binary main_v1524 main_v1516 main_v1525 (mulf : (⟨S1024x16, .f32⟩ : BufTy).Contents (Elt F) → (⟨S1024x16, .f32⟩ : BufTy).Contents (Elt F) → (⟨S1024x16, .f32⟩ : BufTy).Contents (Elt F)),
    binary main_v1523 main_v1525 main_v1526 (addf : (⟨S1024x16, .f32⟩ : BufTy).Contents (Elt F) → (⟨S1024x16, .f32⟩ : BufTy).Contents (Elt F) → (⟨S1024x16, .f32⟩ : BufTy).Contents (Elt F)),
    nullary main_c_79 (constantI S_ 32 15#32),
    unary main_c_79 main_v1527 (broadcastInDim S1 ![] bcast_S_S1 : (⟨S_, .i32⟩ : BufTy).Contents (Elt F) → (⟨S1, .i32⟩ : BufTy).Contents (Elt F)),
    ternary main_v1508 main_v1527 main_v1526 main_v1528 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_80 (constantI S_ 32 5#32),
    unary main_c_80 main_v1529 (broadcastInDim S1 ![] bcast_S_S1 : (⟨S_, .i32⟩ : BufTy).Contents (Elt F) → (⟨S1, .i32⟩ : BufTy).Contents (Elt F)),
    ternary main_v1528 main_v1529 main_v1521 main_v1530 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v1530 main_v1531 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v1531 main_v1532 rfl shapeCasts_S1024x1x16_S1024x16,
    unary main_arg1 main_v1533 ((extractStridedSlice S1024x1 ![0, 75] · slices_S1024x120_S1024x1_0_75) : (⟨S1024x120, .f32⟩ : BufTy).Contents (Elt F) → (⟨S1024x1, .f32⟩ : BufTy).Contents (Elt F)),
    reshape main_v1533 main_v1534 rfl shapeCasts_S1024x1_S1024,
    unary main_v1534 main_v1535 (Host.cos : (⟨S1024, .f32⟩ : BufTy).Contents (Elt F) → (⟨S1024, .f32⟩ : BufTy).Contents (Elt F)),
    unary main_v1535 main_v1536 (broadcastInDim S1024x1 ![0] bcast_S1024_S1024x1_0 : (⟨S1024, .f32⟩ : BufTy).Contents (Elt F) → (⟨S1024x1, .f32⟩ : BufTy).Contents (Elt F)),
    unary main_v1534 main_v1537 (Host.sin : (⟨S1024, .f32⟩ : BufTy).Contents (Elt F) → (⟨S1024, .f32⟩ : BufTy).Contents (Elt F)) ]
/-- Operations 1 … 20 of window 27. -/
abbrev st81 : List (HloOp τ sig (Elt F)) :=
  [ unary main_v1537 main_v1538 (broadcastInDim S1024x1 ![0] bcast_S1024_S1024x1_0 : (⟨S1024, .f32⟩ : BufTy).Contents (Elt F) → (⟨S1024x1, .f32⟩ : BufTy).Contents (Elt F)),
    unary main_v1530 main_v1539 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v1539 main_v1540 rfl shapeCasts_S1024x1x16_S1024x16,
    unary main_v1536 main_v1541 (broadcastInDim S1024x16 ![0, 1] bcast_S1024x1_S1024x16_0_1 : (⟨S1024x1, .f32⟩ : BufTy).Contents (Elt F) → (⟨S1024x16, .f32⟩ : BufTy).Contents (Elt F)),
    binary main_v1541 main_v1532 main_v1542 (mulf : (⟨S1024x16, .f32⟩ : BufTy).Contents (Elt F) → (⟨S1024x16, .f32⟩ : BufTy).Contents (Elt F) → (⟨S1024x16, .f32⟩ : BufTy).Contents (Elt F)),
    unary main_v1538 main_v1543 (broadcastInDim S1024x16 ![0, 1] bcast_S1024x1_S1024x16_0_1 : (⟨S1024x1, .f32⟩ : BufTy).Contents (Elt F) → (⟨S1024x16, .f32⟩ : BufTy).Contents (Elt F)),
    binary main_v1543 main_v1540 main_v1544 (mulf : (⟨S1024x16, .f32⟩ : BufTy).Contents (Elt F) → (⟨S1024x16, .f32⟩ : BufTy).Contents (Elt F) → (⟨S1024x16, .f32⟩ : BufTy).Contents (Elt F)),
    binary main_v1542 main_v1544 main_v1545 (subf : (⟨S1024x16, .f32⟩ : BufTy).Contents (Elt F) → (⟨S1024x16, .f32⟩ : BufTy).Contents (Elt F) → (⟨S1024x16, .f32⟩ : BufTy).Contents (Elt F)),
    unary main_v1538 main_v1546 (broadcastInDim S1024x16 ![0, 1] bcast_S1024x1_S1024x16_0_1 : (⟨S1024x1, .f32⟩ : BufTy).Contents (Elt F) → (⟨S1024x16, .f32⟩ : BufTy).Contents (Elt F)),
    binary main_v1546 main_v1532 main_v1547 (mulf : (⟨S1024x16, .f32⟩ : BufTy).Contents (Elt F) → (⟨S1024x16, .f32⟩ : BufTy).Contents (Elt F) → (⟨S1024x16, .f32⟩ : BufTy).Contents (Elt F)),
    unary main_v1536 main_v1548 (broadcastInDim S1024x16 ![0, 1] bcast_S1024x1_S1024x16_0_1 : (⟨S1024x1, .f32⟩ : BufTy).Contents (Elt F) → (⟨S1024x16, .f32⟩ : BufTy).Contents (Elt F)),
    binary main_v1548 main_v1540 main_v1549 (mulf : (⟨S1024x16, .f32⟩ : BufTy).Contents (Elt F) → (⟨S1024x16, .f32⟩ : BufTy).Contents (Elt F) → (⟨S1024x16, .f32⟩ : BufTy).Contents (Elt F)),
    binary main_v1547 main_v1549 main_v1550 (addf : (⟨S1024x16, .f32⟩ : BufTy).Contents (Elt F) → (⟨S1024x16, .f32⟩ : BufTy).Contents (Elt F) → (⟨S1024x16, .f32⟩ : BufTy).Contents (Elt F)),
    nullary main_c_81 (constantI S_ 32 7#32),
    unary main_c_81 main_v1551 (broadcastInDim S1 ![] bcast_S_S1 : (⟨S_, .i32⟩ : BufTy).Contents (Elt F) → (⟨S1, .i32⟩ : BufTy).Contents (Elt F)),
    ternary main_v1530 main_v1551 main_v1550 main_v1552 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1553 ((extractStridedSlice S1024x1 ![0, 76] · slices_S1024x120_S1024x1_0_76) : (⟨S1024x120, .f32⟩ : BufTy).Contents (Elt F) → (⟨S1024x1, .f32⟩ : BufTy).Contents (Elt F)),
    reshape main_v1553 main_v1554 rfl shapeCasts_S1024x1_S1024,
    unary main_v1554 main_v1555 (Host.cos : (⟨S1024, .f32⟩ : BufTy).Contents (Elt F) → (⟨S1024, .f32⟩ : BufTy).Contents (Elt F)),
    unary main_v1555 main_v1556 (broadcastInDim S1024x1 ![0] bcast_S1024_S1024x1_0 : (⟨S1024, .f32⟩ : BufTy).Contents (Elt F) → (⟨S1024x1, .f32⟩ : BufTy).Contents (Elt F)) ]
/-- Operations 21 … 40 of window 27. -/
abbrev st82 : List (HloOp τ sig (Elt F)) :=
  [ unary main_v1554 main_v1557 (Host.sin : (⟨S1024, .f32⟩ : BufTy).Contents (Elt F) → (⟨S1024, .f32⟩ : BufTy).Contents (Elt F)),
    unary main_v1557 main_v1558 (broadcastInDim S1024x1 ![0] bcast_S1024_S1024x1_0 : (⟨S1024, .f32⟩ : BufTy).Contents (Elt F) → (⟨S1024x1, .f32⟩ : BufTy).Contents (Elt F)),
    unary main_v1552 main_v1559 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1559 main_v1560 rfl shapeCasts_S1024x1x16_S1024x16,
    unary main_v1556 main_v1561 (broadcastInDim S1024x16 ![0, 1] bcast_S1024x1_S1024x16_0_1 : (⟨S1024x1, .f32⟩ : BufTy).Contents (Elt F) → (⟨S1024x16, .f32⟩ : BufTy).Contents (Elt F)),
    binary main_v1561 main_v1545 main_v1562 (mulf : (⟨S1024x16, .f32⟩ : BufTy).Contents (Elt F) → (⟨S1024x16, .f32⟩ : BufTy).Contents (Elt F) → (⟨S1024x16, .f32⟩ : BufTy).Contents (Elt F)),
    unary main_v1558 main_v1563 (broadcastInDim S1024x16 ![0, 1] bcast_S1024x1_S1024x16_0_1 : (⟨S1024x1, .f32⟩ : BufTy).Contents (Elt F) → (⟨S1024x16, .f32⟩ : BufTy).Contents (Elt F)),
    binary main_v1563 main_v1560 main_v1564 (mulf : (⟨S1024x16, .f32⟩ : BufTy).Contents (Elt F) → (⟨S1024x16, .f32⟩ : BufTy).Contents (Elt F) → (⟨S1024x16, .f32⟩ : BufTy).Contents (Elt F)),
    binary main_v1562 main_v1564 main_v1565 (subf : (⟨S1024x16, .f32⟩ : BufTy).Contents (Elt F) → (⟨S1024x16, .f32⟩ : BufTy).Contents (Elt F) → (⟨S1024x16, .f32⟩ : BufTy).Contents (Elt F)),
    unary main_v1558 main_v1566 (broadcastInDim S1024x16 ![0, 1] bcast_S1024x1_S1024x16_0_1 : (⟨S1024x1, .f32⟩ : BufTy).Contents (Elt F) → (⟨S1024x16, .f32⟩ : BufTy).Contents (Elt F)),
    binary main_v1566 main_v1545 main_v1567 (mulf : (⟨S1024x16, .f32⟩ : BufTy).Contents (Elt F) → (⟨S1024x16, .f32⟩ : BufTy).Contents (Elt F) → (⟨S1024x16, .f32⟩ : BufTy).Contents (Elt F)),
    unary main_v1556 main_v1568 (broadcastInDim S1024x16 ![0, 1] bcast_S1024x1_S1024x16_0_1 : (⟨S1024x1, .f32⟩ : BufTy).Contents (Elt F) → (⟨S1024x16, .f32⟩ : BufTy).Contents (Elt F)),
    binary main_v1568 main_v1560 main_v1569 (mulf : (⟨S1024x16, .f32⟩ : BufTy).Contents (Elt F) → (⟨S1024x16, .f32⟩ : BufTy).Contents (Elt F) → (⟨S1024x16, .f32⟩ : BufTy).Contents (Elt F)),
    binary main_v1567 main_v1569 main_v1570 (addf : (⟨S1024x16, .f32⟩ : BufTy).Contents (Elt F) → (⟨S1024x16, .f32⟩ : BufTy).Contents (Elt F) → (⟨S1024x16, .f32⟩ : BufTy).Contents (Elt F)),
    nullary main_c_82 (constantI S_ 32 8#32),
    unary main_c_82 main_v1571 (broadcastInDim S1 ![] bcast_S_S1 : (⟨S_, .i32⟩ : BufTy).Contents (Elt F) → (⟨S1, .i32⟩ : BufTy).Contents (Elt F)),
    ternary main_v1552 main_v1571 main_v1570 main_v1572 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1573 ((extractStridedSlice S1024x1 ![0, 77] · slices_S1024x120_S1024x1_0_77) : (⟨S1024x120, .f32⟩ : BufTy).Contents (Elt F) → (⟨S1024x1, .f32⟩ : BufTy).Contents (Elt F)),
    reshape main_v1573 main_v1574 rfl shapeCasts_S1024x1_S1024,
    unary main_v1574 main_v1575 (Host.cos : (⟨S1024, .f32⟩ : BufTy).Contents (Elt F) → (⟨S1024, .f32⟩ : BufTy).Contents (Elt F)) ]
/-- Operations 41 … 60 of window 27. -/
abbrev st83 : List (HloOp τ sig (Elt F)) :=
  [ unary main_v1575 main_v1576 (broadcastInDim S1024x1 ![0] bcast_S1024_S1024x1_0 : (⟨S1024, .f32⟩ : BufTy).Contents (Elt F) → (⟨S1024x1, .f32⟩ : BufTy).Contents (Elt F)),
    unary main_v1574 main_v1577 (Host.sin : (⟨S1024, .f32⟩ : BufTy).Contents (Elt F) → (⟨S1024, .f32⟩ : BufTy).Contents (Elt F)),
    unary main_v1577 main_v1578 (broadcastInDim S1024x1 ![0] bcast_S1024_S1024x1_0 : (⟨S1024, .f32⟩ : BufTy).Contents (Elt F) → (⟨S1024x1, .f32⟩ : BufTy).Contents (Elt F)),
    unary main_v1572 main_v1579 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1579 main_v1580 rfl shapeCasts_S1024x1x16_S1024x16,
    unary main_v1576 main_v1581 (broadcastInDim S1024x16 ![0, 1] bcast_S1024x1_S1024x16_0_1 : (⟨S1024x1, .f32⟩ : BufTy).Contents (Elt F) → (⟨S1024x16, .f32⟩ : BufTy).Contents (Elt F)),
    binary main_v1581 main_v1565 main_v1582 (mulf : (⟨S1024x16, .f32⟩ : BufTy).Contents (Elt F) → (⟨S1024x16, .f32⟩ : BufTy).Contents (Elt F) → (⟨S1024x16, .f32⟩ : BufTy).Contents (Elt F)),
    unary main_v1578 main_v1583 (broadcastInDim S1024x16 ![0, 1] bcast_S1024x1_S1024x16_0_1 : (⟨S1024x1, .f32⟩ : BufTy).Contents (Elt F) → (⟨S1024x16, .f32⟩ : BufTy).Contents (Elt F)),
    binary main_v1583 main_v1580 main_v1584 (mulf : (⟨S1024x16, .f32⟩ : BufTy).Contents (Elt F) → (⟨S1024x16, .f32⟩ : BufTy).Contents (Elt F) → (⟨S1024x16, .f32⟩ : BufTy).Contents (Elt F)),
    binary main_v1582 main_v1584 main_v1585 (subf : (⟨S1024x16, .f32⟩ : BufTy).Contents (Elt F) → (⟨S1024x16, .f32⟩ : BufTy).Contents (Elt F) → (⟨S1024x16, .f32⟩ : BufTy).Contents (Elt F)),
    unary main_v1578 main_v1586 (broadcastInDim S1024x16 ![0, 1] bcast_S1024x1_S1024x16_0_1 : (⟨S1024x1, .f32⟩ : BufTy).Contents (Elt F) → (⟨S1024x16, .f32⟩ : BufTy).Contents (Elt F)),
    binary main_v1586 main_v1565 main_v1587 (mulf : (⟨S1024x16, .f32⟩ : BufTy).Contents (Elt F) → (⟨S1024x16, .f32⟩ : BufTy).Contents (Elt F) → (⟨S1024x16, .f32⟩ : BufTy).Contents (Elt F)),
    unary main_v1576 main_v1588 (broadcastInDim S1024x16 ![0, 1] bcast_S1024x1_S1024x16_0_1 : (⟨S1024x1, .f32⟩ : BufTy).Contents (Elt F) → (⟨S1024x16, .f32⟩ : BufTy).Contents (Elt F)),
    binary main_v1588 main_v1580 main_v1589 (mulf : (⟨S1024x16, .f32⟩ : BufTy).Contents (Elt F) → (⟨S1024x16, .f32⟩ : BufTy).Contents (Elt F) → (⟨S1024x16, .f32⟩ : BufTy).Contents (Elt F)),
    binary main_v1587 main_v1589 main_v1590 (addf : (⟨S1024x16, .f32⟩ : BufTy).Contents (Elt F) → (⟨S1024x16, .f32⟩ : BufTy).Contents (Elt F) → (⟨S1024x16, .f32⟩ : BufTy).Contents (Elt F)),
    nullary main_c_83 (constantI S_ 32 9#32),
    unary main_c_83 main_v1591 (broadcastInDim S1 ![] bcast_S_S1 : (⟨S_, .i32⟩ : BufTy).Contents (Elt F) → (⟨S1, .i32⟩ : BufTy).Contents (Elt F)),
    ternary main_v1572 main_v1591 main_v1590 main_v1592 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1593 ((extractStridedSlice S1024x1 ![0, 78] · slices_S1024x120_S1024x1_0_78) : (⟨S1024x120, .f32⟩ : BufTy).Contents (Elt F) → (⟨S1024x1, .f32⟩ : BufTy).Contents (Elt F)),
    reshape main_v1593 main_v1594 rfl shapeCasts_S1024x1_S1024 ]
/-- Operations 1 … 20 of window 28. -/
abbrev st84 : List (HloOp τ sig (Elt F)) :=
  [ unary main_v1594 main_v1595 (Host.cos : (⟨S1024, .f32⟩ : BufTy).Contents (Elt F) → (⟨S1024, .f32⟩ : BufTy).Contents (Elt F)),
    unary main_v1595 main_v1596 (broadcastInDim S1024x1 ![0] bcast_S1024_S1024x1_0 : (⟨S1024, .f32⟩ : BufTy).Contents (Elt F) → (⟨S1024x1, .f32⟩ : BufTy).Contents (Elt F)),
    unary main_v1594 main_v1597 (Host.sin : (⟨S1024, .f32⟩ : BufTy).Contents (Elt F) → (⟨S1024, .f32⟩ : BufTy).Contents (Elt F)),
    unary main_v1597 main_v1598 (broadcastInDim S1024x1 ![0] bcast_S1024_S1024x1_0 : (⟨S1024, .f32⟩ : BufTy).Contents (Elt F) → (⟨S1024x1, .f32⟩ : BufTy).Contents (Elt F)),
    unary main_v1592 main_v1599 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1599 main_v1600 rfl shapeCasts_S1024x1x16_S1024x16,
    unary main_v1596 main_v1601 (broadcastInDim S1024x16 ![0, 1] bcast_S1024x1_S1024x16_0_1 : (⟨S1024x1, .f32⟩ : BufTy).Contents (Elt F) → (⟨S1024x16, .f32⟩ : BufTy).Contents (Elt F)),
    binary main_v1601 main_v1585 main_v1602 (mulf : (⟨S1024x16, .f32⟩ : BufTy).Contents (Elt F) → (⟨S1024x16, .f32⟩ : BufTy).Contents (Elt F) → (⟨S1024x16, .f32⟩ : BufTy).Contents (Elt F)),
    unary main_v1598 main_v1603 (broadcastInDim S1024x16 ![0, 1] bcast_S1024x1_S1024x16_0_1 : (⟨S1024x1, .f32⟩ : BufTy).Contents (Elt F) → (⟨S1024x16, .f32⟩ : BufTy).Contents (Elt F)),
    binary main_v1603 main_v1600 main_v1604 (mulf : (⟨S1024x16, .f32⟩ : BufTy).Contents (Elt F) → (⟨S1024x16, .f32⟩ : BufTy).Contents (Elt F) → (⟨S1024x16, .f32⟩ : BufTy).Contents (Elt F)),
    binary main_v1602 main_v1604 main_v1605 (subf : (⟨S1024x16, .f32⟩ : BufTy).Contents (Elt F) → (⟨S1024x16, .f32⟩ : BufTy).Contents (Elt F) → (⟨S1024x16, .f32⟩ : BufTy).Contents (Elt F)),
    unary main_v1598 main_v1606 (broadcastInDim S1024x16 ![0, 1] bcast_S1024x1_S1024x16_0_1 : (⟨S1024x1, .f32⟩ : BufTy).Contents (Elt F) → (⟨S1024x16, .f32⟩ : BufTy).Contents (Elt F)),
    binary main_v1606 main_v1585 main_v1607 (mulf : (⟨S1024x16, .f32⟩ : BufTy).Contents (Elt F) → (⟨S1024x16, .f32⟩ : BufTy).Contents (Elt F) → (⟨S1024x16, .f32⟩ : BufTy).Contents (Elt F)),
    unary main_v1596 main_v1608 (broadcastInDim S1024x16 ![0, 1] bcast_S1024x1_S1024x16_0_1 : (⟨S1024x1, .f32⟩ : BufTy).Contents (Elt F) → (⟨S1024x16, .f32⟩ : BufTy).Contents (Elt F)),
    binary main_v1608 main_v1600 main_v1609 (mulf : (⟨S1024x16, .f32⟩ : BufTy).Contents (Elt F) → (⟨S1024x16, .f32⟩ : BufTy).Contents (Elt F) → (⟨S1024x16, .f32⟩ : BufTy).Contents (Elt F)),
    binary main_v1607 main_v1609 main_v1610 (addf : (⟨S1024x16, .f32⟩ : BufTy).Contents (Elt F) → (⟨S1024x16, .f32⟩ : BufTy).Contents (Elt F) → (⟨S1024x16, .f32⟩ : BufTy).Contents (Elt F)),
    nullary main_c_84 (constantI S_ 32 10#32),
    unary main_c_84 main_v1611 (broadcastInDim S1 ![] bcast_S_S1 : (⟨S_, .i32⟩ : BufTy).Contents (Elt F) → (⟨S1, .i32⟩ : BufTy).Contents (Elt F)),
    ternary main_v1592 main_v1611 main_v1610 main_v1612 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1613 ((extractStridedSlice S1024x1 ![0, 79] · slices_S1024x120_S1024x1_0_79) : (⟨S1024x120, .f32⟩ : BufTy).Contents (Elt F) → (⟨S1024x1, .f32⟩ : BufTy).Contents (Elt F)) ]
/-- Operations 21 … 40 of window 28. -/
abbrev st85 : List (HloOp τ sig (Elt F)) :=
  [ reshape main_v1613 main_v1614 rfl shapeCasts_S1024x1_S1024,
    unary main_v1614 main_v1615 (Host.cos : (⟨S1024, .f32⟩ : BufTy).Contents (Elt F) → (⟨S1024, .f32⟩ : BufTy).Contents (Elt F)),
    unary main_v1615 main_v1616 (broadcastInDim S1024x1 ![0] bcast_S1024_S1024x1_0 : (⟨S1024, .f32⟩ : BufTy).Contents (Elt F) → (⟨S1024x1, .f32⟩ : BufTy).Contents (Elt F)),
    unary main_v1614 main_v1617 (Host.sin : (⟨S1024, .f32⟩ : BufTy).Contents (Elt F) → (⟨S1024, .f32⟩ : BufTy).Contents (Elt F)),
    unary main_v1617 main_v1618 (broadcastInDim S1024x1 ![0] bcast_S1024_S1024x1_0 : (⟨S1024, .f32⟩ : BufTy).Contents (Elt F) → (⟨S1024x1, .f32⟩ : BufTy).Contents (Elt F)),
    unary main_v1612 main_v1619 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1619 main_v1620 rfl shapeCasts_S1024x1x16_S1024x16,
    unary main_v1616 main_v1621 (broadcastInDim S1024x16 ![0, 1] bcast_S1024x1_S1024x16_0_1 : (⟨S1024x1, .f32⟩ : BufTy).Contents (Elt F) → (⟨S1024x16, .f32⟩ : BufTy).Contents (Elt F)),
    binary main_v1621 main_v1605 main_v1622 (mulf : (⟨S1024x16, .f32⟩ : BufTy).Contents (Elt F) → (⟨S1024x16, .f32⟩ : BufTy).Contents (Elt F) → (⟨S1024x16, .f32⟩ : BufTy).Contents (Elt F)),
    unary main_v1618 main_v1623 (broadcastInDim S1024x16 ![0, 1] bcast_S1024x1_S1024x16_0_1 : (⟨S1024x1, .f32⟩ : BufTy).Contents (Elt F) → (⟨S1024x16, .f32⟩ : BufTy).Contents (Elt F)),
    binary main_v1623 main_v1620 main_v1624 (mulf : (⟨S1024x16, .f32⟩ : BufTy).Contents (Elt F) → (⟨S1024x16, .f32⟩ : BufTy).Contents (Elt F) → (⟨S1024x16, .f32⟩ : BufTy).Contents (Elt F)),
    binary main_v1622 main_v1624 main_v1625 (subf : (⟨S1024x16, .f32⟩ : BufTy).Contents (Elt F) → (⟨S1024x16, .f32⟩ : BufTy).Contents (Elt F) → (⟨S1024x16, .f32⟩ : BufTy).Contents (Elt F)),
    unary main_v1618 main_v1626 (broadcastInDim S1024x16 ![0, 1] bcast_S1024x1_S1024x16_0_1 : (⟨S1024x1, .f32⟩ : BufTy).Contents (Elt F) → (⟨S1024x16, .f32⟩ : BufTy).Contents (Elt F)),
    binary main_v1626 main_v1605 main_v1627 (mulf : (⟨S1024x16, .f32⟩ : BufTy).Contents (Elt F) → (⟨S1024x16, .f32⟩ : BufTy).Contents (Elt F) → (⟨S1024x16, .f32⟩ : BufTy).Contents (Elt F)),
    unary main_v1616 main_v1628 (broadcastInDim S1024x16 ![0, 1] bcast_S1024x1_S1024x16_0_1 : (⟨S1024x1, .f32⟩ : BufTy).Contents (Elt F) → (⟨S1024x16, .f32⟩ : BufTy).Contents (Elt F)),
    binary main_v1628 main_v1620 main_v1629 (mulf : (⟨S1024x16, .f32⟩ : BufTy).Contents (Elt F) → (⟨S1024x16, .f32⟩ : BufTy).Contents (Elt F) → (⟨S1024x16, .f32⟩ : BufTy).Contents (Elt F)),
    binary main_v1627 main_v1629 main_v1630 (addf : (⟨S1024x16, .f32⟩ : BufTy).Contents (Elt F) → (⟨S1024x16, .f32⟩ : BufTy).Contents (Elt F) → (⟨S1024x16, .f32⟩ : BufTy).Contents (Elt F)),
    nullary main_c_85 (constantI S_ 32 11#32),
    unary main_c_85 main_v1631 (broadcastInDim S1 ![] bcast_S_S1 : (⟨S_, .i32⟩ : BufTy).Contents (Elt F) → (⟨S1, .i32⟩ : BufTy).Contents (Elt F)),
    ternary main_v1612 main_v1631 main_v1630 main_v1632 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 41 … 60 of window 28. -/
abbrev st86 : List (HloOp τ sig (Elt F)) :=
  [ unary main_arg1 main_v1633 ((extractStridedSlice S1024x1 ![0, 80] · slices_S1024x120_S1024x1_0_80) : (⟨S1024x120, .f32⟩ : BufTy).Contents (Elt F) → (⟨S1024x1, .f32⟩ : BufTy).Contents (Elt F)),
    reshape main_v1633 main_v1634 rfl shapeCasts_S1024x1_S1024,
    unary main_v1634 main_v1635 (Host.cos : (⟨S1024, .f32⟩ : BufTy).Contents (Elt F) → (⟨S1024, .f32⟩ : BufTy).Contents (Elt F)),
    unary main_v1635 main_v1636 (broadcastInDim S1024x1 ![0] bcast_S1024_S1024x1_0 : (⟨S1024, .f32⟩ : BufTy).Contents (Elt F) → (⟨S1024x1, .f32⟩ : BufTy).Contents (Elt F)),
    unary main_v1634 main_v1637 (Host.sin : (⟨S1024, .f32⟩ : BufTy).Contents (Elt F) → (⟨S1024, .f32⟩ : BufTy).Contents (Elt F)),
    unary main_v1637 main_v1638 (broadcastInDim S1024x1 ![0] bcast_S1024_S1024x1_0 : (⟨S1024, .f32⟩ : BufTy).Contents (Elt F) → (⟨S1024x1, .f32⟩ : BufTy).Contents (Elt F)),
    unary main_v1632 main_v1639 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1639 main_v1640 rfl shapeCasts_S1024x1x16_S1024x16,
    unary main_v1636 main_v1641 (broadcastInDim S1024x16 ![0, 1] bcast_S1024x1_S1024x16_0_1 : (⟨S1024x1, .f32⟩ : BufTy).Contents (Elt F) → (⟨S1024x16, .f32⟩ : BufTy).Contents (Elt F)),
    binary main_v1641 main_v1625 main_v1642 (mulf : (⟨S1024x16, .f32⟩ : BufTy).Contents (Elt F) → (⟨S1024x16, .f32⟩ : BufTy).Contents (Elt F) → (⟨S1024x16, .f32⟩ : BufTy).Contents (Elt F)),
    unary main_v1638 main_v1643 (broadcastInDim S1024x16 ![0, 1] bcast_S1024x1_S1024x16_0_1 : (⟨S1024x1, .f32⟩ : BufTy).Contents (Elt F) → (⟨S1024x16, .f32⟩ : BufTy).Contents (Elt F)),
    binary main_v1643 main_v1640 main_v1644 (mulf : (⟨S1024x16, .f32⟩ : BufTy).Contents (Elt F) → (⟨S1024x16, .f32⟩ : BufTy).Contents (Elt F) → (⟨S1024x16, .f32⟩ : BufTy).Contents (Elt F)),
    binary main_v1642 main_v1644 main_v1645 (subf : (⟨S1024x16, .f32⟩ : BufTy).Contents (Elt F) → (⟨S1024x16, .f32⟩ : BufTy).Contents (Elt F) → (⟨S1024x16, .f32⟩ : BufTy).Contents (Elt F)),
    unary main_v1638 main_v1646 (broadcastInDim S1024x16 ![0, 1] bcast_S1024x1_S1024x16_0_1 : (⟨S1024x1, .f32⟩ : BufTy).Contents (Elt F) → (⟨S1024x16, .f32⟩ : BufTy).Contents (Elt F)),
    binary main_v1646 main_v1625 main_v1647 (mulf : (⟨S1024x16, .f32⟩ : BufTy).Contents (Elt F) → (⟨S1024x16, .f32⟩ : BufTy).Contents (Elt F) → (⟨S1024x16, .f32⟩ : BufTy).Contents (Elt F)),
    unary main_v1636 main_v1648 (broadcastInDim S1024x16 ![0, 1] bcast_S1024x1_S1024x16_0_1 : (⟨S1024x1, .f32⟩ : BufTy).Contents (Elt F) → (⟨S1024x16, .f32⟩ : BufTy).Contents (Elt F)),
    binary main_v1648 main_v1640 main_v1649 (mulf : (⟨S1024x16, .f32⟩ : BufTy).Contents (Elt F) → (⟨S1024x16, .f32⟩ : BufTy).Contents (Elt F) → (⟨S1024x16, .f32⟩ : BufTy).Contents (Elt F)),
    binary main_v1647 main_v1649 main_v1650 (addf : (⟨S1024x16, .f32⟩ : BufTy).Contents (Elt F) → (⟨S1024x16, .f32⟩ : BufTy).Contents (Elt F) → (⟨S1024x16, .f32⟩ : BufTy).Contents (Elt F)),
    nullary main_c_86 (constantI S_ 32 12#32),
    unary main_c_86 main_v1651 (broadcastInDim S1 ![] bcast_S_S1 : (⟨S_, .i32⟩ : BufTy).Contents (Elt F) → (⟨S1, .i32⟩ : BufTy).Contents (Elt F)) ]
/-- Operations 1 … 20 of window 29. -/
abbrev st87 : List (HloOp τ sig (Elt F)) :=
  [ ternary main_v1632 main_v1651 main_v1650 main_v1652 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1653 ((extractStridedSlice S1024x1 ![0, 81] · slices_S1024x120_S1024x1_0_81) : (⟨S1024x120, .f32⟩ : BufTy).Contents (Elt F) → (⟨S1024x1, .f32⟩ : BufTy).Contents (Elt F)),
    reshape main_v1653 main_v1654 rfl shapeCasts_S1024x1_S1024,
    unary main_v1654 main_v1655 (Host.cos : (⟨S1024, .f32⟩ : BufTy).Contents (Elt F) → (⟨S1024, .f32⟩ : BufTy).Contents (Elt F)),
    unary main_v1655 main_v1656 (broadcastInDim S1024x1 ![0] bcast_S1024_S1024x1_0 : (⟨S1024, .f32⟩ : BufTy).Contents (Elt F) → (⟨S1024x1, .f32⟩ : BufTy).Contents (Elt F)),
    unary main_v1654 main_v1657 (Host.sin : (⟨S1024, .f32⟩ : BufTy).Contents (Elt F) → (⟨S1024, .f32⟩ : BufTy).Contents (Elt F)),
    unary main_v1657 main_v1658 (broadcastInDim S1024x1 ![0] bcast_S1024_S1024x1_0 : (⟨S1024, .f32⟩ : BufTy).Contents (Elt F) → (⟨S1024x1, .f32⟩ : BufTy).Contents (Elt F)),
    unary main_v1652 main_v1659 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1659 main_v1660 rfl shapeCasts_S1024x1x16_S1024x16,
    unary main_v1656 main_v1661 (broadcastInDim S1024x16 ![0, 1] bcast_S1024x1_S1024x16_0_1 : (⟨S1024x1, .f32⟩ : BufTy).Contents (Elt F) → (⟨S1024x16, .f32⟩ : BufTy).Contents (Elt F)),
    binary main_v1661 main_v1645 main_v1662 (mulf : (⟨S1024x16, .f32⟩ : BufTy).Contents (Elt F) → (⟨S1024x16, .f32⟩ : BufTy).Contents (Elt F) → (⟨S1024x16, .f32⟩ : BufTy).Contents (Elt F)),
    unary main_v1658 main_v1663 (broadcastInDim S1024x16 ![0, 1] bcast_S1024x1_S1024x16_0_1 : (⟨S1024x1, .f32⟩ : BufTy).Contents (Elt F) → (⟨S1024x16, .f32⟩ : BufTy).Contents (Elt F)),
    binary main_v1663 main_v1660 main_v1664 (mulf : (⟨S1024x16, .f32⟩ : BufTy).Contents (Elt F) → (⟨S1024x16, .f32⟩ : BufTy).Contents (Elt F) → (⟨S1024x16, .f32⟩ : BufTy).Contents (Elt F)),
    binary main_v1662 main_v1664 main_v1665 (subf : (⟨S1024x16, .f32⟩ : BufTy).Contents (Elt F) → (⟨S1024x16, .f32⟩ : BufTy).Contents (Elt F) → (⟨S1024x16, .f32⟩ : BufTy).Contents (Elt F)),
    unary main_v1658 main_v1666 (broadcastInDim S1024x16 ![0, 1] bcast_S1024x1_S1024x16_0_1 : (⟨S1024x1, .f32⟩ : BufTy).Contents (Elt F) → (⟨S1024x16, .f32⟩ : BufTy).Contents (Elt F)),
    binary main_v1666 main_v1645 main_v1667 (mulf : (⟨S1024x16, .f32⟩ : BufTy).Contents (Elt F) → (⟨S1024x16, .f32⟩ : BufTy).Contents (Elt F) → (⟨S1024x16, .f32⟩ : BufTy).Contents (Elt F)),
    unary main_v1656 main_v1668 (broadcastInDim S1024x16 ![0, 1] bcast_S1024x1_S1024x16_0_1 : (⟨S1024x1, .f32⟩ : BufTy).Contents (Elt F) → (⟨S1024x16, .f32⟩ : BufTy).Contents (Elt F)),
    binary main_v1668 main_v1660 main_v1669 (mulf : (⟨S1024x16, .f32⟩ : BufTy).Contents (Elt F) → (⟨S1024x16, .f32⟩ : BufTy).Contents (Elt F) → (⟨S1024x16, .f32⟩ : BufTy).Contents (Elt F)),
    binary main_v1667 main_v1669 main_v1670 (addf : (⟨S1024x16, .f32⟩ : BufTy).Contents (Elt F) → (⟨S1024x16, .f32⟩ : BufTy).Contents (Elt F) → (⟨S1024x16, .f32⟩ : BufTy).Contents (Elt F)),
    nullary main_c_87 (constantI S_ 32 13#32) ]
/-- Operations 21 … 40 of window 29. -/
abbrev st88 : List (HloOp τ sig (Elt F)) :=
  [ unary main_c_87 main_v1671 (broadcastInDim S1 ![] bcast_S_S1 : (⟨S_, .i32⟩ : BufTy).Contents (Elt F) → (⟨S1, .i32⟩ : BufTy).Contents (Elt F)),
    ternary main_v1652 main_v1671 main_v1670 main_v1672 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1673 ((extractStridedSlice S1024x1 ![0, 82] · slices_S1024x120_S1024x1_0_82) : (⟨S1024x120, .f32⟩ : BufTy).Contents (Elt F) → (⟨S1024x1, .f32⟩ : BufTy).Contents (Elt F)),
    reshape main_v1673 main_v1674 rfl shapeCasts_S1024x1_S1024,
    unary main_v1674 main_v1675 (Host.cos : (⟨S1024, .f32⟩ : BufTy).Contents (Elt F) → (⟨S1024, .f32⟩ : BufTy).Contents (Elt F)),
    unary main_v1675 main_v1676 (broadcastInDim S1024x1 ![0] bcast_S1024_S1024x1_0 : (⟨S1024, .f32⟩ : BufTy).Contents (Elt F) → (⟨S1024x1, .f32⟩ : BufTy).Contents (Elt F)),
    unary main_v1674 main_v1677 (Host.sin : (⟨S1024, .f32⟩ : BufTy).Contents (Elt F) → (⟨S1024, .f32⟩ : BufTy).Contents (Elt F)),
    unary main_v1677 main_v1678 (broadcastInDim S1024x1 ![0] bcast_S1024_S1024x1_0 : (⟨S1024, .f32⟩ : BufTy).Contents (Elt F) → (⟨S1024x1, .f32⟩ : BufTy).Contents (Elt F)),
    unary main_v1672 main_v1679 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1679 main_v1680 rfl shapeCasts_S1024x1x16_S1024x16,
    unary main_v1676 main_v1681 (broadcastInDim S1024x16 ![0, 1] bcast_S1024x1_S1024x16_0_1 : (⟨S1024x1, .f32⟩ : BufTy).Contents (Elt F) → (⟨S1024x16, .f32⟩ : BufTy).Contents (Elt F)),
    binary main_v1681 main_v1665 main_v1682 (mulf : (⟨S1024x16, .f32⟩ : BufTy).Contents (Elt F) → (⟨S1024x16, .f32⟩ : BufTy).Contents (Elt F) → (⟨S1024x16, .f32⟩ : BufTy).Contents (Elt F)),
    unary main_v1678 main_v1683 (broadcastInDim S1024x16 ![0, 1] bcast_S1024x1_S1024x16_0_1 : (⟨S1024x1, .f32⟩ : BufTy).Contents (Elt F) → (⟨S1024x16, .f32⟩ : BufTy).Contents (Elt F)),
    binary main_v1683 main_v1680 main_v1684 (mulf : (⟨S1024x16, .f32⟩ : BufTy).Contents (Elt F) → (⟨S1024x16, .f32⟩ : BufTy).Contents (Elt F) → (⟨S1024x16, .f32⟩ : BufTy).Contents (Elt F)),
    binary main_v1682 main_v1684 main_v1685 (subf : (⟨S1024x16, .f32⟩ : BufTy).Contents (Elt F) → (⟨S1024x16, .f32⟩ : BufTy).Contents (Elt F) → (⟨S1024x16, .f32⟩ : BufTy).Contents (Elt F)),
    unary main_v1678 main_v1686 (broadcastInDim S1024x16 ![0, 1] bcast_S1024x1_S1024x16_0_1 : (⟨S1024x1, .f32⟩ : BufTy).Contents (Elt F) → (⟨S1024x16, .f32⟩ : BufTy).Contents (Elt F)),
    binary main_v1686 main_v1665 main_v1687 (mulf : (⟨S1024x16, .f32⟩ : BufTy).Contents (Elt F) → (⟨S1024x16, .f32⟩ : BufTy).Contents (Elt F) → (⟨S1024x16, .f32⟩ : BufTy).Contents (Elt F)),
    unary main_v1676 main_v1688 (broadcastInDim S1024x16 ![0, 1] bcast_S1024x1_S1024x16_0_1 : (⟨S1024x1, .f32⟩ : BufTy).Contents (Elt F) → (⟨S1024x16, .f32⟩ : BufTy).Contents (Elt F)),
    binary main_v1688 main_v1680 main_v1689 (mulf : (⟨S1024x16, .f32⟩ : BufTy).Contents (Elt F) → (⟨S1024x16, .f32⟩ : BufTy).Contents (Elt F) → (⟨S1024x16, .f32⟩ : BufTy).Contents (Elt F)),
    binary main_v1687 main_v1689 main_v1690 (addf : (⟨S1024x16, .f32⟩ : BufTy).Contents (Elt F) → (⟨S1024x16, .f32⟩ : BufTy).Contents (Elt F) → (⟨S1024x16, .f32⟩ : BufTy).Contents (Elt F)) ]
/-- Operations 41 … 60 of window 29. -/
abbrev st89 : List (HloOp τ sig (Elt F)) :=
  [ nullary main_c_88 (constantI S_ 32 14#32),
    unary main_c_88 main_v1691 (broadcastInDim S1 ![] bcast_S_S1 : (⟨S_, .i32⟩ : BufTy).Contents (Elt F) → (⟨S1, .i32⟩ : BufTy).Contents (Elt F)),
    ternary main_v1672 main_v1691 main_v1690 main_v1692 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1693 ((extractStridedSlice S1024x1 ![0, 83] · slices_S1024x120_S1024x1_0_83) : (⟨S1024x120, .f32⟩ : BufTy).Contents (Elt F) → (⟨S1024x1, .f32⟩ : BufTy).Contents (Elt F)),
    reshape main_v1693 main_v1694 rfl shapeCasts_S1024x1_S1024,
    unary main_v1694 main_v1695 (Host.cos : (⟨S1024, .f32⟩ : BufTy).Contents (Elt F) → (⟨S1024, .f32⟩ : BufTy).Contents (Elt F)),
    unary main_v1695 main_v1696 (broadcastInDim S1024x1 ![0] bcast_S1024_S1024x1_0 : (⟨S1024, .f32⟩ : BufTy).Contents (Elt F) → (⟨S1024x1, .f32⟩ : BufTy).Contents (Elt F)),
    unary main_v1694 main_v1697 (Host.sin : (⟨S1024, .f32⟩ : BufTy).Contents (Elt F) → (⟨S1024, .f32⟩ : BufTy).Contents (Elt F)),
    unary main_v1697 main_v1698 (broadcastInDim S1024x1 ![0] bcast_S1024_S1024x1_0 : (⟨S1024, .f32⟩ : BufTy).Contents (Elt F) → (⟨S1024x1, .f32⟩ : BufTy).Contents (Elt F)),
    unary main_v1692 main_v1699 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1699 main_v1700 rfl shapeCasts_S1024x1x16_S1024x16,
    unary main_v1696 main_v1701 (broadcastInDim S1024x16 ![0, 1] bcast_S1024x1_S1024x16_0_1 : (⟨S1024x1, .f32⟩ : BufTy).Contents (Elt F) → (⟨S1024x16, .f32⟩ : BufTy).Contents (Elt F)),
    binary main_v1701 main_v1685 main_v1702 (mulf : (⟨S1024x16, .f32⟩ : BufTy).Contents (Elt F) → (⟨S1024x16, .f32⟩ : BufTy).Contents (Elt F) → (⟨S1024x16, .f32⟩ : BufTy).Contents (Elt F)),
    unary main_v1698 main_v1703 (broadcastInDim S1024x16 ![0, 1] bcast_S1024x1_S1024x16_0_1 : (⟨S1024x1, .f32⟩ : BufTy).Contents (Elt F) → (⟨S1024x16, .f32⟩ : BufTy).Contents (Elt F)),
    binary main_v1703 main_v1700 main_v1704 (mulf : (⟨S1024x16, .f32⟩ : BufTy).Contents (Elt F) → (⟨S1024x16, .f32⟩ : BufTy).Contents (Elt F) → (⟨S1024x16, .f32⟩ : BufTy).Contents (Elt F)),
    binary main_v1702 main_v1704 main_v1705 (subf : (⟨S1024x16, .f32⟩ : BufTy).Contents (Elt F) → (⟨S1024x16, .f32⟩ : BufTy).Contents (Elt F) → (⟨S1024x16, .f32⟩ : BufTy).Contents (Elt F)),
    unary main_v1698 main_v1706 (broadcastInDim S1024x16 ![0, 1] bcast_S1024x1_S1024x16_0_1 : (⟨S1024x1, .f32⟩ : BufTy).Contents (Elt F) → (⟨S1024x16, .f32⟩ : BufTy).Contents (Elt F)),
    binary main_v1706 main_v1685 main_v1707 (mulf : (⟨S1024x16, .f32⟩ : BufTy).Contents (Elt F) → (⟨S1024x16, .f32⟩ : BufTy).Contents (Elt F) → (⟨S1024x16, .f32⟩ : BufTy).Contents (Elt F)),
    unary main_v1696 main_v1708 (broadcastInDim S1024x16 ![0, 1] bcast_S1024x1_S1024x16_0_1 : (⟨S1024x1, .f32⟩ : BufTy).Contents (Elt F) → (⟨S1024x16, .f32⟩ : BufTy).Contents (Elt F)),
    binary main_v1708 main_v1700 main_v1709 (mulf : (⟨S1024x16, .f32⟩ : BufTy).Contents (Elt F) → (⟨S1024x16, .f32⟩ : BufTy).Contents (Elt F) → (⟨S1024x16, .f32⟩ : BufTy).Contents (Elt F)) ]
/-- Operations 1 … 20 of window 30. -/
abbrev st90 : List (HloOp τ sig (Elt F)) :=
  [ binary main_v1707 main_v1709 main_v1710 (addf : (⟨S1024x16, .f32⟩ : BufTy).Contents (Elt F) → (⟨S1024x16, .f32⟩ : BufTy).Contents (Elt F) → (⟨S1024x16, .f32⟩ : BufTy).Contents (Elt F)),
    nullary main_c_89 (constantI S_ 32 15#32),
    unary main_c_89 main_v1711 (broadcastInDim S1 ![] bcast_S_S1 : (⟨S_, .i32⟩ : BufTy).Contents (Elt F) → (⟨S1, .i32⟩ : BufTy).Contents (Elt F)),
    ternary main_v1692 main_v1711 main_v1710 main_v1712 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_90 (constantI S_ 32 6#32),
    unary main_c_90 main_v1713 (broadcastInDim S1 ![] bcast_S_S1 : (⟨S_, .i32⟩ : BufTy).Contents (Elt F) → (⟨S1, .i32⟩ : BufTy).Contents (Elt F)),
    ternary main_v1712 main_v1713 main_v1705 main_v1714 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v1714 main_v1715 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v1715 main_v1716 rfl shapeCasts_S1024x1x16_S1024x16,
    unary main_arg1 main_v1717 ((extractStridedSlice S1024x1 ![0, 84] · slices_S1024x120_S1024x1_0_84) : (⟨S1024x120, .f32⟩ : BufTy).Contents (Elt F) → (⟨S1024x1, .f32⟩ : BufTy).Contents (Elt F)),
    reshape main_v1717 main_v1718 rfl shapeCasts_S1024x1_S1024,
    unary main_v1718 main_v1719 (Host.cos : (⟨S1024, .f32⟩ : BufTy).Contents (Elt F) → (⟨S1024, .f32⟩ : BufTy).Contents (Elt F)),
    unary main_v1719 main_v1720 (broadcastInDim S1024x1 ![0] bcast_S1024_S1024x1_0 : (⟨S1024, .f32⟩ : BufTy).Contents (Elt F) → (⟨S1024x1, .f32⟩ : BufTy).Contents (Elt F)),
    unary main_v1718 main_v1721 (Host.sin : (⟨S1024, .f32⟩ : BufTy).Contents (Elt F) → (⟨S1024, .f32⟩ : BufTy).Contents (Elt F)),
    unary main_v1721 main_v1722 (broadcastInDim S1024x1 ![0] bcast_S1024_S1024x1_0 : (⟨S1024, .f32⟩ : BufTy).Contents (Elt F) → (⟨S1024x1, .f32⟩ : BufTy).Contents (Elt F)),
    unary main_v1714 main_v1723 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1723 main_v1724 rfl shapeCasts_S1024x1x16_S1024x16,
    unary main_v1720 main_v1725 (broadcastInDim S1024x16 ![0, 1] bcast_S1024x1_S1024x16_0_1 : (⟨S1024x1, .f32⟩ : BufTy).Contents (Elt F) → (⟨S1024x16, .f32⟩ : BufTy).Contents (Elt F)),
    binary main_v1725 main_v1716 main_v1726 (mulf : (⟨S1024x16, .f32⟩ : BufTy).Contents (Elt F) → (⟨S1024x16, .f32⟩ : BufTy).Contents (Elt F) → (⟨S1024x16, .f32⟩ : BufTy).Contents (Elt F)),
    unary main_v1722 main_v1727 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 30. -/
abbrev st91 : List (HloOp τ sig (Elt F)) :=
  [ binary main_v1727 main_v1724 main_v1728 (mulf : (⟨S1024x16, .f32⟩ : BufTy).Contents (Elt F) → (⟨S1024x16, .f32⟩ : BufTy).Contents (Elt F) → (⟨S1024x16, .f32⟩ : BufTy).Contents (Elt F)),
    binary main_v1726 main_v1728 main_v1729 (subf : (⟨S1024x16, .f32⟩ : BufTy).Contents (Elt F) → (⟨S1024x16, .f32⟩ : BufTy).Contents (Elt F) → (⟨S1024x16, .f32⟩ : BufTy).Contents (Elt F)),
    unary main_v1722 main_v1730 (broadcastInDim S1024x16 ![0, 1] bcast_S1024x1_S1024x16_0_1 : (⟨S1024x1, .f32⟩ : BufTy).Contents (Elt F) → (⟨S1024x16, .f32⟩ : BufTy).Contents (Elt F)),
    binary main_v1730 main_v1716 main_v1731 (mulf : (⟨S1024x16, .f32⟩ : BufTy).Contents (Elt F) → (⟨S1024x16, .f32⟩ : BufTy).Contents (Elt F) → (⟨S1024x16, .f32⟩ : BufTy).Contents (Elt F)),
    unary main_v1720 main_v1732 (broadcastInDim S1024x16 ![0, 1] bcast_S1024x1_S1024x16_0_1 : (⟨S1024x1, .f32⟩ : BufTy).Contents (Elt F) → (⟨S1024x16, .f32⟩ : BufTy).Contents (Elt F)),
    binary main_v1732 main_v1724 main_v1733 (mulf : (⟨S1024x16, .f32⟩ : BufTy).Contents (Elt F) → (⟨S1024x16, .f32⟩ : BufTy).Contents (Elt F) → (⟨S1024x16, .f32⟩ : BufTy).Contents (Elt F)),
    binary main_v1731 main_v1733 main_v1734 (addf : (⟨S1024x16, .f32⟩ : BufTy).Contents (Elt F) → (⟨S1024x16, .f32⟩ : BufTy).Contents (Elt F) → (⟨S1024x16, .f32⟩ : BufTy).Contents (Elt F)),
    nullary main_c_91 (constantI S_ 32 8#32),
    unary main_c_91 main_v1735 (broadcastInDim S1 ![] bcast_S_S1 : (⟨S_, .i32⟩ : BufTy).Contents (Elt F) → (⟨S1, .i32⟩ : BufTy).Contents (Elt F)),
    ternary main_v1714 main_v1735 main_v1734 main_v1736 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1737 ((extractStridedSlice S1024x1 ![0, 85] · slices_S1024x120_S1024x1_0_85) : (⟨S1024x120, .f32⟩ : BufTy).Contents (Elt F) → (⟨S1024x1, .f32⟩ : BufTy).Contents (Elt F)),
    reshape main_v1737 main_v1738 rfl shapeCasts_S1024x1_S1024,
    unary main_v1738 main_v1739 (Host.cos : (⟨S1024, .f32⟩ : BufTy).Contents (Elt F) → (⟨S1024, .f32⟩ : BufTy).Contents (Elt F)),
    unary main_v1739 main_v1740 (broadcastInDim S1024x1 ![0] bcast_S1024_S1024x1_0 : (⟨S1024, .f32⟩ : BufTy).Contents (Elt F) → (⟨S1024x1, .f32⟩ : BufTy).Contents (Elt F)),
    unary main_v1738 main_v1741 (Host.sin : (⟨S1024, .f32⟩ : BufTy).Contents (Elt F) → (⟨S1024, .f32⟩ : BufTy).Contents (Elt F)),
    unary main_v1741 main_v1742 (broadcastInDim S1024x1 ![0] bcast_S1024_S1024x1_0 : (⟨S1024, .f32⟩ : BufTy).Contents (Elt F) → (⟨S1024x1, .f32⟩ : BufTy).Contents (Elt F)),
    unary main_v1736 main_v1743 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1743 main_v1744 rfl shapeCasts_S1024x1x16_S1024x16,
    unary main_v1740 main_v1745 (broadcastInDim S1024x16 ![0, 1] bcast_S1024x1_S1024x16_0_1 : (⟨S1024x1, .f32⟩ : BufTy).Contents (Elt F) → (⟨S1024x16, .f32⟩ : BufTy).Contents (Elt F)),
    binary main_v1745 main_v1729 main_v1746 (mulf : (⟨S1024x16, .f32⟩ : BufTy).Contents (Elt F) → (⟨S1024x16, .f32⟩ : BufTy).Contents (Elt F) → (⟨S1024x16, .f32⟩ : BufTy).Contents (Elt F)) ]
/-- Operations 41 … 60 of window 30. -/
abbrev st92 : List (HloOp τ sig (Elt F)) :=
  [ unary main_v1742 main_v1747 (broadcastInDim S1024x16 ![0, 1] bcast_S1024x1_S1024x16_0_1 : (⟨S1024x1, .f32⟩ : BufTy).Contents (Elt F) → (⟨S1024x16, .f32⟩ : BufTy).Contents (Elt F)),
    binary main_v1747 main_v1744 main_v1748 (mulf : (⟨S1024x16, .f32⟩ : BufTy).Contents (Elt F) → (⟨S1024x16, .f32⟩ : BufTy).Contents (Elt F) → (⟨S1024x16, .f32⟩ : BufTy).Contents (Elt F)),
    binary main_v1746 main_v1748 main_v1749 (subf : (⟨S1024x16, .f32⟩ : BufTy).Contents (Elt F) → (⟨S1024x16, .f32⟩ : BufTy).Contents (Elt F) → (⟨S1024x16, .f32⟩ : BufTy).Contents (Elt F)),
    unary main_v1742 main_v1750 (broadcastInDim S1024x16 ![0, 1] bcast_S1024x1_S1024x16_0_1 : (⟨S1024x1, .f32⟩ : BufTy).Contents (Elt F) → (⟨S1024x16, .f32⟩ : BufTy).Contents (Elt F)),
    binary main_v1750 main_v1729 main_v1751 (mulf : (⟨S1024x16, .f32⟩ : BufTy).Contents (Elt F) → (⟨S1024x16, .f32⟩ : BufTy).Contents (Elt F) → (⟨S1024x16, .f32⟩ : BufTy).Contents (Elt F)),
    unary main_v1740 main_v1752 (broadcastInDim S1024x16 ![0, 1] bcast_S1024x1_S1024x16_0_1 : (⟨S1024x1, .f32⟩ : BufTy).Contents (Elt F) → (⟨S1024x16, .f32⟩ : BufTy).Contents (Elt F)),
    binary main_v1752 main_v1744 main_v1753 (mulf : (⟨S1024x16, .f32⟩ : BufTy).Contents (Elt F) → (⟨S1024x16, .f32⟩ : BufTy).Contents (Elt F) → (⟨S1024x16, .f32⟩ : BufTy).Contents (Elt F)),
    binary main_v1751 main_v1753 main_v1754 (addf : (⟨S1024x16, .f32⟩ : BufTy).Contents (Elt F) → (⟨S1024x16, .f32⟩ : BufTy).Contents (Elt F) → (⟨S1024x16, .f32⟩ : BufTy).Contents (Elt F)),
    nullary main_c_92 (constantI S_ 32 9#32),
    unary main_c_92 main_v1755 (broadcastInDim S1 ![] bcast_S_S1 : (⟨S_, .i32⟩ : BufTy).Contents (Elt F) → (⟨S1, .i32⟩ : BufTy).Contents (Elt F)),
    ternary main_v1736 main_v1755 main_v1754 main_v1756 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1757 ((extractStridedSlice S1024x1 ![0, 86] · slices_S1024x120_S1024x1_0_86) : (⟨S1024x120, .f32⟩ : BufTy).Contents (Elt F) → (⟨S1024x1, .f32⟩ : BufTy).Contents (Elt F)),
    reshape main_v1757 main_v1758 rfl shapeCasts_S1024x1_S1024,
    unary main_v1758 main_v1759 (Host.cos : (⟨S1024, .f32⟩ : BufTy).Contents (Elt F) → (⟨S1024, .f32⟩ : BufTy).Contents (Elt F)),
    unary main_v1759 main_v1760 (broadcastInDim S1024x1 ![0] bcast_S1024_S1024x1_0 : (⟨S1024, .f32⟩ : BufTy).Contents (Elt F) → (⟨S1024x1, .f32⟩ : BufTy).Contents (Elt F)),
    unary main_v1758 main_v1761 (Host.sin : (⟨S1024, .f32⟩ : BufTy).Contents (Elt F) → (⟨S1024, .f32⟩ : BufTy).Contents (Elt F)),
    unary main_v1761 main_v1762 (broadcastInDim S1024x1 ![0] bcast_S1024_S1024x1_0 : (⟨S1024, .f32⟩ : BufTy).Contents (Elt F) → (⟨S1024x1, .f32⟩ : BufTy).Contents (Elt F)),
    unary main_v1756 main_v1763 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1763 main_v1764 rfl shapeCasts_S1024x1x16_S1024x16,
    unary main_v1760 main_v1765 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 31. -/
abbrev st93 : List (HloOp τ sig (Elt F)) :=
  [ binary main_v1765 main_v1749 main_v1766 (mulf : (⟨S1024x16, .f32⟩ : BufTy).Contents (Elt F) → (⟨S1024x16, .f32⟩ : BufTy).Contents (Elt F) → (⟨S1024x16, .f32⟩ : BufTy).Contents (Elt F)),
    unary main_v1762 main_v1767 (broadcastInDim S1024x16 ![0, 1] bcast_S1024x1_S1024x16_0_1 : (⟨S1024x1, .f32⟩ : BufTy).Contents (Elt F) → (⟨S1024x16, .f32⟩ : BufTy).Contents (Elt F)),
    binary main_v1767 main_v1764 main_v1768 (mulf : (⟨S1024x16, .f32⟩ : BufTy).Contents (Elt F) → (⟨S1024x16, .f32⟩ : BufTy).Contents (Elt F) → (⟨S1024x16, .f32⟩ : BufTy).Contents (Elt F)),
    binary main_v1766 main_v1768 main_v1769 (subf : (⟨S1024x16, .f32⟩ : BufTy).Contents (Elt F) → (⟨S1024x16, .f32⟩ : BufTy).Contents (Elt F) → (⟨S1024x16, .f32⟩ : BufTy).Contents (Elt F)),
    unary main_v1762 main_v1770 (broadcastInDim S1024x16 ![0, 1] bcast_S1024x1_S1024x16_0_1 : (⟨S1024x1, .f32⟩ : BufTy).Contents (Elt F) → (⟨S1024x16, .f32⟩ : BufTy).Contents (Elt F)),
    binary main_v1770 main_v1749 main_v1771 (mulf : (⟨S1024x16, .f32⟩ : BufTy).Contents (Elt F) → (⟨S1024x16, .f32⟩ : BufTy).Contents (Elt F) → (⟨S1024x16, .f32⟩ : BufTy).Contents (Elt F)),
    unary main_v1760 main_v1772 (broadcastInDim S1024x16 ![0, 1] bcast_S1024x1_S1024x16_0_1 : (⟨S1024x1, .f32⟩ : BufTy).Contents (Elt F) → (⟨S1024x16, .f32⟩ : BufTy).Contents (Elt F)),
    binary main_v1772 main_v1764 main_v1773 (mulf : (⟨S1024x16, .f32⟩ : BufTy).Contents (Elt F) → (⟨S1024x16, .f32⟩ : BufTy).Contents (Elt F) → (⟨S1024x16, .f32⟩ : BufTy).Contents (Elt F)),
    binary main_v1771 main_v1773 main_v1774 (addf : (⟨S1024x16, .f32⟩ : BufTy).Contents (Elt F) → (⟨S1024x16, .f32⟩ : BufTy).Contents (Elt F) → (⟨S1024x16, .f32⟩ : BufTy).Contents (Elt F)),
    nullary main_c_93 (constantI S_ 32 10#32),
    unary main_c_93 main_v1775 (broadcastInDim S1 ![] bcast_S_S1 : (⟨S_, .i32⟩ : BufTy).Contents (Elt F) → (⟨S1, .i32⟩ : BufTy).Contents (Elt F)),
    ternary main_v1756 main_v1775 main_v1774 main_v1776 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1777 ((extractStridedSlice S1024x1 ![0, 87] · slices_S1024x120_S1024x1_0_87) : (⟨S1024x120, .f32⟩ : BufTy).Contents (Elt F) → (⟨S1024x1, .f32⟩ : BufTy).Contents (Elt F)),
    reshape main_v1777 main_v1778 rfl shapeCasts_S1024x1_S1024,
    unary main_v1778 main_v1779 (Host.cos : (⟨S1024, .f32⟩ : BufTy).Contents (Elt F) → (⟨S1024, .f32⟩ : BufTy).Contents (Elt F)),
    unary main_v1779 main_v1780 (broadcastInDim S1024x1 ![0] bcast_S1024_S1024x1_0 : (⟨S1024, .f32⟩ : BufTy).Contents (Elt F) → (⟨S1024x1, .f32⟩ : BufTy).Contents (Elt F)),
    unary main_v1778 main_v1781 (Host.sin : (⟨S1024, .f32⟩ : BufTy).Contents (Elt F) → (⟨S1024, .f32⟩ : BufTy).Contents (Elt F)),
    unary main_v1781 main_v1782 (broadcastInDim S1024x1 ![0] bcast_S1024_S1024x1_0 : (⟨S1024, .f32⟩ : BufTy).Contents (Elt F) → (⟨S1024x1, .f32⟩ : BufTy).Contents (Elt F)),
    unary main_v1776 main_v1783 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1783 main_v1784 rfl shapeCasts_S1024x1x16_S1024x16 ]
/-- Operations 21 … 40 of window 31. -/
abbrev st94 : List (HloOp τ sig (Elt F)) :=
  [ unary main_v1780 main_v1785 (broadcastInDim S1024x16 ![0, 1] bcast_S1024x1_S1024x16_0_1 : (⟨S1024x1, .f32⟩ : BufTy).Contents (Elt F) → (⟨S1024x16, .f32⟩ : BufTy).Contents (Elt F)),
    binary main_v1785 main_v1769 main_v1786 (mulf : (⟨S1024x16, .f32⟩ : BufTy).Contents (Elt F) → (⟨S1024x16, .f32⟩ : BufTy).Contents (Elt F) → (⟨S1024x16, .f32⟩ : BufTy).Contents (Elt F)),
    unary main_v1782 main_v1787 (broadcastInDim S1024x16 ![0, 1] bcast_S1024x1_S1024x16_0_1 : (⟨S1024x1, .f32⟩ : BufTy).Contents (Elt F) → (⟨S1024x16, .f32⟩ : BufTy).Contents (Elt F)),
    binary main_v1787 main_v1784 main_v1788 (mulf : (⟨S1024x16, .f32⟩ : BufTy).Contents (Elt F) → (⟨S1024x16, .f32⟩ : BufTy).Contents (Elt F) → (⟨S1024x16, .f32⟩ : BufTy).Contents (Elt F)),
    binary main_v1786 main_v1788 main_v1789 (subf : (⟨S1024x16, .f32⟩ : BufTy).Contents (Elt F) → (⟨S1024x16, .f32⟩ : BufTy).Contents (Elt F) → (⟨S1024x16, .f32⟩ : BufTy).Contents (Elt F)),
    unary main_v1782 main_v1790 (broadcastInDim S1024x16 ![0, 1] bcast_S1024x1_S1024x16_0_1 : (⟨S1024x1, .f32⟩ : BufTy).Contents (Elt F) → (⟨S1024x16, .f32⟩ : BufTy).Contents (Elt F)),
    binary main_v1790 main_v1769 main_v1791 (mulf : (⟨S1024x16, .f32⟩ : BufTy).Contents (Elt F) → (⟨S1024x16, .f32⟩ : BufTy).Contents (Elt F) → (⟨S1024x16, .f32⟩ : BufTy).Contents (Elt F)),
    unary main_v1780 main_v1792 (broadcastInDim S1024x16 ![0, 1] bcast_S1024x1_S1024x16_0_1 : (⟨S1024x1, .f32⟩ : BufTy).Contents (Elt F) → (⟨S1024x16, .f32⟩ : BufTy).Contents (Elt F)),
    binary main_v1792 main_v1784 main_v1793 (mulf : (⟨S1024x16, .f32⟩ : BufTy).Contents (Elt F) → (⟨S1024x16, .f32⟩ : BufTy).Contents (Elt F) → (⟨S1024x16, .f32⟩ : BufTy).Contents (Elt F)),
    binary main_v1791 main_v1793 main_v1794 (addf : (⟨S1024x16, .f32⟩ : BufTy).Contents (Elt F) → (⟨S1024x16, .f32⟩ : BufTy).Contents (Elt F) → (⟨S1024x16, .f32⟩ : BufTy).Contents (Elt F)),
    nullary main_c_94 (constantI S_ 32 11#32),
    unary main_c_94 main_v1795 (broadcastInDim S1 ![] bcast_S_S1 : (⟨S_, .i32⟩ : BufTy).Contents (Elt F) → (⟨S1, .i32⟩ : BufTy).Contents (Elt F)),
    ternary main_v1776 main_v1795 main_v1794 main_v1796 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1797 ((extractStridedSlice S1024x1 ![0, 88] · slices_S1024x120_S1024x1_0_88) : (⟨S1024x120, .f32⟩ : BufTy).Contents (Elt F) → (⟨S1024x1, .f32⟩ : BufTy).Contents (Elt F)),
    reshape main_v1797 main_v1798 rfl shapeCasts_S1024x1_S1024,
    unary main_v1798 main_v1799 (Host.cos : (⟨S1024, .f32⟩ : BufTy).Contents (Elt F) → (⟨S1024, .f32⟩ : BufTy).Contents (Elt F)),
    unary main_v1799 main_v1800 (broadcastInDim S1024x1 ![0] bcast_S1024_S1024x1_0 : (⟨S1024, .f32⟩ : BufTy).Contents (Elt F) → (⟨S1024x1, .f32⟩ : BufTy).Contents (Elt F)),
    unary main_v1798 main_v1801 (Host.sin : (⟨S1024, .f32⟩ : BufTy).Contents (Elt F) → (⟨S1024, .f32⟩ : BufTy).Contents (Elt F)),
    unary main_v1801 main_v1802 (broadcastInDim S1024x1 ![0] bcast_S1024_S1024x1_0 : (⟨S1024, .f32⟩ : BufTy).Contents (Elt F) → (⟨S1024x1, .f32⟩ : BufTy).Contents (Elt F)),
    unary main_v1796 main_v1803 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)) ]
/-- Operations 41 … 60 of window 31. -/
abbrev st95 : List (HloOp τ sig (Elt F)) :=
  [ reshape main_v1803 main_v1804 rfl shapeCasts_S1024x1x16_S1024x16,
    unary main_v1800 main_v1805 (broadcastInDim S1024x16 ![0, 1] bcast_S1024x1_S1024x16_0_1 : (⟨S1024x1, .f32⟩ : BufTy).Contents (Elt F) → (⟨S1024x16, .f32⟩ : BufTy).Contents (Elt F)),
    binary main_v1805 main_v1789 main_v1806 (mulf : (⟨S1024x16, .f32⟩ : BufTy).Contents (Elt F) → (⟨S1024x16, .f32⟩ : BufTy).Contents (Elt F) → (⟨S1024x16, .f32⟩ : BufTy).Contents (Elt F)),
    unary main_v1802 main_v1807 (broadcastInDim S1024x16 ![0, 1] bcast_S1024x1_S1024x16_0_1 : (⟨S1024x1, .f32⟩ : BufTy).Contents (Elt F) → (⟨S1024x16, .f32⟩ : BufTy).Contents (Elt F)),
    binary main_v1807 main_v1804 main_v1808 (mulf : (⟨S1024x16, .f32⟩ : BufTy).Contents (Elt F) → (⟨S1024x16, .f32⟩ : BufTy).Contents (Elt F) → (⟨S1024x16, .f32⟩ : BufTy).Contents (Elt F)),
    binary main_v1806 main_v1808 main_v1809 (subf : (⟨S1024x16, .f32⟩ : BufTy).Contents (Elt F) → (⟨S1024x16, .f32⟩ : BufTy).Contents (Elt F) → (⟨S1024x16, .f32⟩ : BufTy).Contents (Elt F)),
    unary main_v1802 main_v1810 (broadcastInDim S1024x16 ![0, 1] bcast_S1024x1_S1024x16_0_1 : (⟨S1024x1, .f32⟩ : BufTy).Contents (Elt F) → (⟨S1024x16, .f32⟩ : BufTy).Contents (Elt F)),
    binary main_v1810 main_v1789 main_v1811 (mulf : (⟨S1024x16, .f32⟩ : BufTy).Contents (Elt F) → (⟨S1024x16, .f32⟩ : BufTy).Contents (Elt F) → (⟨S1024x16, .f32⟩ : BufTy).Contents (Elt F)),
    unary main_v1800 main_v1812 (broadcastInDim S1024x16 ![0, 1] bcast_S1024x1_S1024x16_0_1 : (⟨S1024x1, .f32⟩ : BufTy).Contents (Elt F) → (⟨S1024x16, .f32⟩ : BufTy).Contents (Elt F)),
    binary main_v1812 main_v1804 main_v1813 (mulf : (⟨S1024x16, .f32⟩ : BufTy).Contents (Elt F) → (⟨S1024x16, .f32⟩ : BufTy).Contents (Elt F) → (⟨S1024x16, .f32⟩ : BufTy).Contents (Elt F)),
    binary main_v1811 main_v1813 main_v1814 (addf : (⟨S1024x16, .f32⟩ : BufTy).Contents (Elt F) → (⟨S1024x16, .f32⟩ : BufTy).Contents (Elt F) → (⟨S1024x16, .f32⟩ : BufTy).Contents (Elt F)),
    nullary main_c_95 (constantI S_ 32 12#32),
    unary main_c_95 main_v1815 (broadcastInDim S1 ![] bcast_S_S1 : (⟨S_, .i32⟩ : BufTy).Contents (Elt F) → (⟨S1, .i32⟩ : BufTy).Contents (Elt F)),
    ternary main_v1796 main_v1815 main_v1814 main_v1816 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1817 ((extractStridedSlice S1024x1 ![0, 89] · slices_S1024x120_S1024x1_0_89) : (⟨S1024x120, .f32⟩ : BufTy).Contents (Elt F) → (⟨S1024x1, .f32⟩ : BufTy).Contents (Elt F)),
    reshape main_v1817 main_v1818 rfl shapeCasts_S1024x1_S1024,
    unary main_v1818 main_v1819 (Host.cos : (⟨S1024, .f32⟩ : BufTy).Contents (Elt F) → (⟨S1024, .f32⟩ : BufTy).Contents (Elt F)),
    unary main_v1819 main_v1820 (broadcastInDim S1024x1 ![0] bcast_S1024_S1024x1_0 : (⟨S1024, .f32⟩ : BufTy).Contents (Elt F) → (⟨S1024x1, .f32⟩ : BufTy).Contents (Elt F)),
    unary main_v1818 main_v1821 (Host.sin : (⟨S1024, .f32⟩ : BufTy).Contents (Elt F) → (⟨S1024, .f32⟩ : BufTy).Contents (Elt F)),
    unary main_v1821 main_v1822 (broadcastInDim S1024x1 ![0] bcast_S1024_S1024x1_0 : (⟨S1024, .f32⟩ : BufTy).Contents (Elt F) → (⟨S1024x1, .f32⟩ : BufTy).Contents (Elt F)) ]
/-- Operations 1 … 20 of window 32. -/
abbrev st96 : List (HloOp τ sig (Elt F)) :=
  [ unary main_v1816 main_v1823 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1823 main_v1824 rfl shapeCasts_S1024x1x16_S1024x16,
    unary main_v1820 main_v1825 (broadcastInDim S1024x16 ![0, 1] bcast_S1024x1_S1024x16_0_1 : (⟨S1024x1, .f32⟩ : BufTy).Contents (Elt F) → (⟨S1024x16, .f32⟩ : BufTy).Contents (Elt F)),
    binary main_v1825 main_v1809 main_v1826 (mulf : (⟨S1024x16, .f32⟩ : BufTy).Contents (Elt F) → (⟨S1024x16, .f32⟩ : BufTy).Contents (Elt F) → (⟨S1024x16, .f32⟩ : BufTy).Contents (Elt F)),
    unary main_v1822 main_v1827 (broadcastInDim S1024x16 ![0, 1] bcast_S1024x1_S1024x16_0_1 : (⟨S1024x1, .f32⟩ : BufTy).Contents (Elt F) → (⟨S1024x16, .f32⟩ : BufTy).Contents (Elt F)),
    binary main_v1827 main_v1824 main_v1828 (mulf : (⟨S1024x16, .f32⟩ : BufTy).Contents (Elt F) → (⟨S1024x16, .f32⟩ : BufTy).Contents (Elt F) → (⟨S1024x16, .f32⟩ : BufTy).Contents (Elt F)),
    binary main_v1826 main_v1828 main_v1829 (subf : (⟨S1024x16, .f32⟩ : BufTy).Contents (Elt F) → (⟨S1024x16, .f32⟩ : BufTy).Contents (Elt F) → (⟨S1024x16, .f32⟩ : BufTy).Contents (Elt F)),
    unary main_v1822 main_v1830 (broadcastInDim S1024x16 ![0, 1] bcast_S1024x1_S1024x16_0_1 : (⟨S1024x1, .f32⟩ : BufTy).Contents (Elt F) → (⟨S1024x16, .f32⟩ : BufTy).Contents (Elt F)),
    binary main_v1830 main_v1809 main_v1831 (mulf : (⟨S1024x16, .f32⟩ : BufTy).Contents (Elt F) → (⟨S1024x16, .f32⟩ : BufTy).Contents (Elt F) → (⟨S1024x16, .f32⟩ : BufTy).Contents (Elt F)),
    unary main_v1820 main_v1832 (broadcastInDim S1024x16 ![0, 1] bcast_S1024x1_S1024x16_0_1 : (⟨S1024x1, .f32⟩ : BufTy).Contents (Elt F) → (⟨S1024x16, .f32⟩ : BufTy).Contents (Elt F)),
    binary main_v1832 main_v1824 main_v1833 (mulf : (⟨S1024x16, .f32⟩ : BufTy).Contents (Elt F) → (⟨S1024x16, .f32⟩ : BufTy).Contents (Elt F) → (⟨S1024x16, .f32⟩ : BufTy).Contents (Elt F)),
    binary main_v1831 main_v1833 main_v1834 (addf : (⟨S1024x16, .f32⟩ : BufTy).Contents (Elt F) → (⟨S1024x16, .f32⟩ : BufTy).Contents (Elt F) → (⟨S1024x16, .f32⟩ : BufTy).Contents (Elt F)),
    nullary main_c_96 (constantI S_ 32 13#32),
    unary main_c_96 main_v1835 (broadcastInDim S1 ![] bcast_S_S1 : (⟨S_, .i32⟩ : BufTy).Contents (Elt F) → (⟨S1, .i32⟩ : BufTy).Contents (Elt F)),
    ternary main_v1816 main_v1835 main_v1834 main_v1836 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1837 ((extractStridedSlice S1024x1 ![0, 90] · slices_S1024x120_S1024x1_0_90) : (⟨S1024x120, .f32⟩ : BufTy).Contents (Elt F) → (⟨S1024x1, .f32⟩ : BufTy).Contents (Elt F)),
    reshape main_v1837 main_v1838 rfl shapeCasts_S1024x1_S1024,
    unary main_v1838 main_v1839 (Host.cos : (⟨S1024, .f32⟩ : BufTy).Contents (Elt F) → (⟨S1024, .f32⟩ : BufTy).Contents (Elt F)),
    unary main_v1839 main_v1840 (broadcastInDim S1024x1 ![0] bcast_S1024_S1024x1_0 : (⟨S1024, .f32⟩ : BufTy).Contents (Elt F) → (⟨S1024x1, .f32⟩ : BufTy).Contents (Elt F)),
    unary main_v1838 main_v1841 (Host.sin : (⟨S1024, .f32⟩ : BufTy).Contents (Elt F) → (⟨S1024, .f32⟩ : BufTy).Contents (Elt F)) ]
/-- Operations 21 … 40 of window 32. -/
abbrev st97 : List (HloOp τ sig (Elt F)) :=
  [ unary main_v1841 main_v1842 (broadcastInDim S1024x1 ![0] bcast_S1024_S1024x1_0 : (⟨S1024, .f32⟩ : BufTy).Contents (Elt F) → (⟨S1024x1, .f32⟩ : BufTy).Contents (Elt F)),
    unary main_v1836 main_v1843 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1843 main_v1844 rfl shapeCasts_S1024x1x16_S1024x16,
    unary main_v1840 main_v1845 (broadcastInDim S1024x16 ![0, 1] bcast_S1024x1_S1024x16_0_1 : (⟨S1024x1, .f32⟩ : BufTy).Contents (Elt F) → (⟨S1024x16, .f32⟩ : BufTy).Contents (Elt F)),
    binary main_v1845 main_v1829 main_v1846 (mulf : (⟨S1024x16, .f32⟩ : BufTy).Contents (Elt F) → (⟨S1024x16, .f32⟩ : BufTy).Contents (Elt F) → (⟨S1024x16, .f32⟩ : BufTy).Contents (Elt F)),
    unary main_v1842 main_v1847 (broadcastInDim S1024x16 ![0, 1] bcast_S1024x1_S1024x16_0_1 : (⟨S1024x1, .f32⟩ : BufTy).Contents (Elt F) → (⟨S1024x16, .f32⟩ : BufTy).Contents (Elt F)),
    binary main_v1847 main_v1844 main_v1848 (mulf : (⟨S1024x16, .f32⟩ : BufTy).Contents (Elt F) → (⟨S1024x16, .f32⟩ : BufTy).Contents (Elt F) → (⟨S1024x16, .f32⟩ : BufTy).Contents (Elt F)),
    binary main_v1846 main_v1848 main_v1849 (subf : (⟨S1024x16, .f32⟩ : BufTy).Contents (Elt F) → (⟨S1024x16, .f32⟩ : BufTy).Contents (Elt F) → (⟨S1024x16, .f32⟩ : BufTy).Contents (Elt F)),
    unary main_v1842 main_v1850 (broadcastInDim S1024x16 ![0, 1] bcast_S1024x1_S1024x16_0_1 : (⟨S1024x1, .f32⟩ : BufTy).Contents (Elt F) → (⟨S1024x16, .f32⟩ : BufTy).Contents (Elt F)),
    binary main_v1850 main_v1829 main_v1851 (mulf : (⟨S1024x16, .f32⟩ : BufTy).Contents (Elt F) → (⟨S1024x16, .f32⟩ : BufTy).Contents (Elt F) → (⟨S1024x16, .f32⟩ : BufTy).Contents (Elt F)),
    unary main_v1840 main_v1852 (broadcastInDim S1024x16 ![0, 1] bcast_S1024x1_S1024x16_0_1 : (⟨S1024x1, .f32⟩ : BufTy).Contents (Elt F) → (⟨S1024x16, .f32⟩ : BufTy).Contents (Elt F)),
    binary main_v1852 main_v1844 main_v1853 (mulf : (⟨S1024x16, .f32⟩ : BufTy).Contents (Elt F) → (⟨S1024x16, .f32⟩ : BufTy).Contents (Elt F) → (⟨S1024x16, .f32⟩ : BufTy).Contents (Elt F)),
    binary main_v1851 main_v1853 main_v1854 (addf : (⟨S1024x16, .f32⟩ : BufTy).Contents (Elt F) → (⟨S1024x16, .f32⟩ : BufTy).Contents (Elt F) → (⟨S1024x16, .f32⟩ : BufTy).Contents (Elt F)),
    nullary main_c_97 (constantI S_ 32 14#32),
    unary main_c_97 main_v1855 (broadcastInDim S1 ![] bcast_S_S1 : (⟨S_, .i32⟩ : BufTy).Contents (Elt F) → (⟨S1, .i32⟩ : BufTy).Contents (Elt F)),
    ternary main_v1836 main_v1855 main_v1854 main_v1856 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1857 ((extractStridedSlice S1024x1 ![0, 91] · slices_S1024x120_S1024x1_0_91) : (⟨S1024x120, .f32⟩ : BufTy).Contents (Elt F) → (⟨S1024x1, .f32⟩ : BufTy).Contents (Elt F)),
    reshape main_v1857 main_v1858 rfl shapeCasts_S1024x1_S1024,
    unary main_v1858 main_v1859 (Host.cos : (⟨S1024, .f32⟩ : BufTy).Contents (Elt F) → (⟨S1024, .f32⟩ : BufTy).Contents (Elt F)),
    unary main_v1859 main_v1860 (broadcastInDim S1024x1 ![0] bcast_S1024_S1024x1_0 : (⟨S1024, .f32⟩ : BufTy).Contents (Elt F) → (⟨S1024x1, .f32⟩ : BufTy).Contents (Elt F)) ]
/-- Operations 41 … 60 of window 32. -/
abbrev st98 : List (HloOp τ sig (Elt F)) :=
  [ unary main_v1858 main_v1861 (Host.sin : (⟨S1024, .f32⟩ : BufTy).Contents (Elt F) → (⟨S1024, .f32⟩ : BufTy).Contents (Elt F)),
    unary main_v1861 main_v1862 (broadcastInDim S1024x1 ![0] bcast_S1024_S1024x1_0 : (⟨S1024, .f32⟩ : BufTy).Contents (Elt F) → (⟨S1024x1, .f32⟩ : BufTy).Contents (Elt F)),
    unary main_v1856 main_v1863 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1863 main_v1864 rfl shapeCasts_S1024x1x16_S1024x16,
    unary main_v1860 main_v1865 (broadcastInDim S1024x16 ![0, 1] bcast_S1024x1_S1024x16_0_1 : (⟨S1024x1, .f32⟩ : BufTy).Contents (Elt F) → (⟨S1024x16, .f32⟩ : BufTy).Contents (Elt F)),
    binary main_v1865 main_v1849 main_v1866 (mulf : (⟨S1024x16, .f32⟩ : BufTy).Contents (Elt F) → (⟨S1024x16, .f32⟩ : BufTy).Contents (Elt F) → (⟨S1024x16, .f32⟩ : BufTy).Contents (Elt F)),
    unary main_v1862 main_v1867 (broadcastInDim S1024x16 ![0, 1] bcast_S1024x1_S1024x16_0_1 : (⟨S1024x1, .f32⟩ : BufTy).Contents (Elt F) → (⟨S1024x16, .f32⟩ : BufTy).Contents (Elt F)),
    binary main_v1867 main_v1864 main_v1868 (mulf : (⟨S1024x16, .f32⟩ : BufTy).Contents (Elt F) → (⟨S1024x16, .f32⟩ : BufTy).Contents (Elt F) → (⟨S1024x16, .f32⟩ : BufTy).Contents (Elt F)),
    binary main_v1866 main_v1868 main_v1869 (subf : (⟨S1024x16, .f32⟩ : BufTy).Contents (Elt F) → (⟨S1024x16, .f32⟩ : BufTy).Contents (Elt F) → (⟨S1024x16, .f32⟩ : BufTy).Contents (Elt F)),
    unary main_v1862 main_v1870 (broadcastInDim S1024x16 ![0, 1] bcast_S1024x1_S1024x16_0_1 : (⟨S1024x1, .f32⟩ : BufTy).Contents (Elt F) → (⟨S1024x16, .f32⟩ : BufTy).Contents (Elt F)),
    binary main_v1870 main_v1849 main_v1871 (mulf : (⟨S1024x16, .f32⟩ : BufTy).Contents (Elt F) → (⟨S1024x16, .f32⟩ : BufTy).Contents (Elt F) → (⟨S1024x16, .f32⟩ : BufTy).Contents (Elt F)),
    unary main_v1860 main_v1872 (broadcastInDim S1024x16 ![0, 1] bcast_S1024x1_S1024x16_0_1 : (⟨S1024x1, .f32⟩ : BufTy).Contents (Elt F) → (⟨S1024x16, .f32⟩ : BufTy).Contents (Elt F)),
    binary main_v1872 main_v1864 main_v1873 (mulf : (⟨S1024x16, .f32⟩ : BufTy).Contents (Elt F) → (⟨S1024x16, .f32⟩ : BufTy).Contents (Elt F) → (⟨S1024x16, .f32⟩ : BufTy).Contents (Elt F)),
    binary main_v1871 main_v1873 main_v1874 (addf : (⟨S1024x16, .f32⟩ : BufTy).Contents (Elt F) → (⟨S1024x16, .f32⟩ : BufTy).Contents (Elt F) → (⟨S1024x16, .f32⟩ : BufTy).Contents (Elt F)),
    nullary main_c_98 (constantI S_ 32 15#32),
    unary main_c_98 main_v1875 (broadcastInDim S1 ![] bcast_S_S1 : (⟨S_, .i32⟩ : BufTy).Contents (Elt F) → (⟨S1, .i32⟩ : BufTy).Contents (Elt F)),
    ternary main_v1856 main_v1875 main_v1874 main_v1876 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_99 (constantI S_ 32 7#32),
    unary main_c_99 main_v1877 (broadcastInDim S1 ![] bcast_S_S1 : (⟨S_, .i32⟩ : BufTy).Contents (Elt F) → (⟨S1, .i32⟩ : BufTy).Contents (Elt F)),
    ternary main_v1876 main_v1877 main_v1869 main_v1878 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 1 … 20 of window 33. -/
abbrev st99 : List (HloOp τ sig (Elt F)) :=
  [ unary main_v1878 main_v1879 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1879 main_v1880 rfl shapeCasts_S1024x1x16_S1024x16,
    unary main_arg1 main_v1881 ((extractStridedSlice S1024x1 ![0, 92] · slices_S1024x120_S1024x1_0_92) : (⟨S1024x120, .f32⟩ : BufTy).Contents (Elt F) → (⟨S1024x1, .f32⟩ : BufTy).Contents (Elt F)),
    reshape main_v1881 main_v1882 rfl shapeCasts_S1024x1_S1024,
    unary main_v1882 main_v1883 (Host.cos : (⟨S1024, .f32⟩ : BufTy).Contents (Elt F) → (⟨S1024, .f32⟩ : BufTy).Contents (Elt F)),
    unary main_v1883 main_v1884 (broadcastInDim S1024x1 ![0] bcast_S1024_S1024x1_0 : (⟨S1024, .f32⟩ : BufTy).Contents (Elt F) → (⟨S1024x1, .f32⟩ : BufTy).Contents (Elt F)),
    unary main_v1882 main_v1885 (Host.sin : (⟨S1024, .f32⟩ : BufTy).Contents (Elt F) → (⟨S1024, .f32⟩ : BufTy).Contents (Elt F)),
    unary main_v1885 main_v1886 (broadcastInDim S1024x1 ![0] bcast_S1024_S1024x1_0 : (⟨S1024, .f32⟩ : BufTy).Contents (Elt F) → (⟨S1024x1, .f32⟩ : BufTy).Contents (Elt F)),
    unary main_v1878 main_v1887 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1887 main_v1888 rfl shapeCasts_S1024x1x16_S1024x16,
    unary main_v1884 main_v1889 (broadcastInDim S1024x16 ![0, 1] bcast_S1024x1_S1024x16_0_1 : (⟨S1024x1, .f32⟩ : BufTy).Contents (Elt F) → (⟨S1024x16, .f32⟩ : BufTy).Contents (Elt F)),
    binary main_v1889 main_v1880 main_v1890 (mulf : (⟨S1024x16, .f32⟩ : BufTy).Contents (Elt F) → (⟨S1024x16, .f32⟩ : BufTy).Contents (Elt F) → (⟨S1024x16, .f32⟩ : BufTy).Contents (Elt F)),
    unary main_v1886 main_v1891 (broadcastInDim S1024x16 ![0, 1] bcast_S1024x1_S1024x16_0_1 : (⟨S1024x1, .f32⟩ : BufTy).Contents (Elt F) → (⟨S1024x16, .f32⟩ : BufTy).Contents (Elt F)),
    binary main_v1891 main_v1888 main_v1892 (mulf : (⟨S1024x16, .f32⟩ : BufTy).Contents (Elt F) → (⟨S1024x16, .f32⟩ : BufTy).Contents (Elt F) → (⟨S1024x16, .f32⟩ : BufTy).Contents (Elt F)),
    binary main_v1890 main_v1892 main_v1893 (subf : (⟨S1024x16, .f32⟩ : BufTy).Contents (Elt F) → (⟨S1024x16, .f32⟩ : BufTy).Contents (Elt F) → (⟨S1024x16, .f32⟩ : BufTy).Contents (Elt F)),
    unary main_v1886 main_v1894 (broadcastInDim S1024x16 ![0, 1] bcast_S1024x1_S1024x16_0_1 : (⟨S1024x1, .f32⟩ : BufTy).Contents (Elt F) → (⟨S1024x16, .f32⟩ : BufTy).Contents (Elt F)),
    binary main_v1894 main_v1880 main_v1895 (mulf : (⟨S1024x16, .f32⟩ : BufTy).Contents (Elt F) → (⟨S1024x16, .f32⟩ : BufTy).Contents (Elt F) → (⟨S1024x16, .f32⟩ : BufTy).Contents (Elt F)),
    unary main_v1884 main_v1896 (broadcastInDim S1024x16 ![0, 1] bcast_S1024x1_S1024x16_0_1 : (⟨S1024x1, .f32⟩ : BufTy).Contents (Elt F) → (⟨S1024x16, .f32⟩ : BufTy).Contents (Elt F)),
    binary main_v1896 main_v1888 main_v1897 (mulf : (⟨S1024x16, .f32⟩ : BufTy).Contents (Elt F) → (⟨S1024x16, .f32⟩ : BufTy).Contents (Elt F) → (⟨S1024x16, .f32⟩ : BufTy).Contents (Elt F)),
    binary main_v1895 main_v1897 main_v1898 (addf : (⟨S1024x16, .f32⟩ : BufTy).Contents (Elt F) → (⟨S1024x16, .f32⟩ : BufTy).Contents (Elt F) → (⟨S1024x16, .f32⟩ : BufTy).Contents (Elt F)) ]
/-- Operations 21 … 40 of window 33. -/
abbrev st100 : List (HloOp τ sig (Elt F)) :=
  [ nullary main_c_100 (constantI S_ 32 9#32),
    unary main_c_100 main_v1899 (broadcastInDim S1 ![] bcast_S_S1 : (⟨S_, .i32⟩ : BufTy).Contents (Elt F) → (⟨S1, .i32⟩ : BufTy).Contents (Elt F)),
    ternary main_v1878 main_v1899 main_v1898 main_v1900 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1901 ((extractStridedSlice S1024x1 ![0, 93] · slices_S1024x120_S1024x1_0_93) : (⟨S1024x120, .f32⟩ : BufTy).Contents (Elt F) → (⟨S1024x1, .f32⟩ : BufTy).Contents (Elt F)),
    reshape main_v1901 main_v1902 rfl shapeCasts_S1024x1_S1024,
    unary main_v1902 main_v1903 (Host.cos : (⟨S1024, .f32⟩ : BufTy).Contents (Elt F) → (⟨S1024, .f32⟩ : BufTy).Contents (Elt F)),
    unary main_v1903 main_v1904 (broadcastInDim S1024x1 ![0] bcast_S1024_S1024x1_0 : (⟨S1024, .f32⟩ : BufTy).Contents (Elt F) → (⟨S1024x1, .f32⟩ : BufTy).Contents (Elt F)),
    unary main_v1902 main_v1905 (Host.sin : (⟨S1024, .f32⟩ : BufTy).Contents (Elt F) → (⟨S1024, .f32⟩ : BufTy).Contents (Elt F)),
    unary main_v1905 main_v1906 (broadcastInDim S1024x1 ![0] bcast_S1024_S1024x1_0 : (⟨S1024, .f32⟩ : BufTy).Contents (Elt F) → (⟨S1024x1, .f32⟩ : BufTy).Contents (Elt F)),
    unary main_v1900 main_v1907 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1907 main_v1908 rfl shapeCasts_S1024x1x16_S1024x16,
    unary main_v1904 main_v1909 (broadcastInDim S1024x16 ![0, 1] bcast_S1024x1_S1024x16_0_1 : (⟨S1024x1, .f32⟩ : BufTy).Contents (Elt F) → (⟨S1024x16, .f32⟩ : BufTy).Contents (Elt F)),
    binary main_v1909 main_v1893 main_v1910 (mulf : (⟨S1024x16, .f32⟩ : BufTy).Contents (Elt F) → (⟨S1024x16, .f32⟩ : BufTy).Contents (Elt F) → (⟨S1024x16, .f32⟩ : BufTy).Contents (Elt F)),
    unary main_v1906 main_v1911 (broadcastInDim S1024x16 ![0, 1] bcast_S1024x1_S1024x16_0_1 : (⟨S1024x1, .f32⟩ : BufTy).Contents (Elt F) → (⟨S1024x16, .f32⟩ : BufTy).Contents (Elt F)),
    binary main_v1911 main_v1908 main_v1912 (mulf : (⟨S1024x16, .f32⟩ : BufTy).Contents (Elt F) → (⟨S1024x16, .f32⟩ : BufTy).Contents (Elt F) → (⟨S1024x16, .f32⟩ : BufTy).Contents (Elt F)),
    binary main_v1910 main_v1912 main_v1913 (subf : (⟨S1024x16, .f32⟩ : BufTy).Contents (Elt F) → (⟨S1024x16, .f32⟩ : BufTy).Contents (Elt F) → (⟨S1024x16, .f32⟩ : BufTy).Contents (Elt F)),
    unary main_v1906 main_v1914 (broadcastInDim S1024x16 ![0, 1] bcast_S1024x1_S1024x16_0_1 : (⟨S1024x1, .f32⟩ : BufTy).Contents (Elt F) → (⟨S1024x16, .f32⟩ : BufTy).Contents (Elt F)),
    binary main_v1914 main_v1893 main_v1915 (mulf : (⟨S1024x16, .f32⟩ : BufTy).Contents (Elt F) → (⟨S1024x16, .f32⟩ : BufTy).Contents (Elt F) → (⟨S1024x16, .f32⟩ : BufTy).Contents (Elt F)),
    unary main_v1904 main_v1916 (broadcastInDim S1024x16 ![0, 1] bcast_S1024x1_S1024x16_0_1 : (⟨S1024x1, .f32⟩ : BufTy).Contents (Elt F) → (⟨S1024x16, .f32⟩ : BufTy).Contents (Elt F)),
    binary main_v1916 main_v1908 main_v1917 (mulf : (⟨S1024x16, .f32⟩ : BufTy).Contents (Elt F) → (⟨S1024x16, .f32⟩ : BufTy).Contents (Elt F) → (⟨S1024x16, .f32⟩ : BufTy).Contents (Elt F)) ]
/-- Operations 41 … 60 of window 33. -/
abbrev st101 : List (HloOp τ sig (Elt F)) :=
  [ binary main_v1915 main_v1917 main_v1918 (addf : (⟨S1024x16, .f32⟩ : BufTy).Contents (Elt F) → (⟨S1024x16, .f32⟩ : BufTy).Contents (Elt F) → (⟨S1024x16, .f32⟩ : BufTy).Contents (Elt F)),
    nullary main_c_101 (constantI S_ 32 10#32),
    unary main_c_101 main_v1919 (broadcastInDim S1 ![] bcast_S_S1 : (⟨S_, .i32⟩ : BufTy).Contents (Elt F) → (⟨S1, .i32⟩ : BufTy).Contents (Elt F)),
    ternary main_v1900 main_v1919 main_v1918 main_v1920 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1921 ((extractStridedSlice S1024x1 ![0, 94] · slices_S1024x120_S1024x1_0_94) : (⟨S1024x120, .f32⟩ : BufTy).Contents (Elt F) → (⟨S1024x1, .f32⟩ : BufTy).Contents (Elt F)),
    reshape main_v1921 main_v1922 rfl shapeCasts_S1024x1_S1024,
    unary main_v1922 main_v1923 (Host.cos : (⟨S1024, .f32⟩ : BufTy).Contents (Elt F) → (⟨S1024, .f32⟩ : BufTy).Contents (Elt F)),
    unary main_v1923 main_v1924 (broadcastInDim S1024x1 ![0] bcast_S1024_S1024x1_0 : (⟨S1024, .f32⟩ : BufTy).Contents (Elt F) → (⟨S1024x1, .f32⟩ : BufTy).Contents (Elt F)),
    unary main_v1922 main_v1925 (Host.sin : (⟨S1024, .f32⟩ : BufTy).Contents (Elt F) → (⟨S1024, .f32⟩ : BufTy).Contents (Elt F)),
    unary main_v1925 main_v1926 (broadcastInDim S1024x1 ![0] bcast_S1024_S1024x1_0 : (⟨S1024, .f32⟩ : BufTy).Contents (Elt F) → (⟨S1024x1, .f32⟩ : BufTy).Contents (Elt F)),
    unary main_v1920 main_v1927 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1927 main_v1928 rfl shapeCasts_S1024x1x16_S1024x16,
    unary main_v1924 main_v1929 (broadcastInDim S1024x16 ![0, 1] bcast_S1024x1_S1024x16_0_1 : (⟨S1024x1, .f32⟩ : BufTy).Contents (Elt F) → (⟨S1024x16, .f32⟩ : BufTy).Contents (Elt F)),
    binary main_v1929 main_v1913 main_v1930 (mulf : (⟨S1024x16, .f32⟩ : BufTy).Contents (Elt F) → (⟨S1024x16, .f32⟩ : BufTy).Contents (Elt F) → (⟨S1024x16, .f32⟩ : BufTy).Contents (Elt F)),
    unary main_v1926 main_v1931 (broadcastInDim S1024x16 ![0, 1] bcast_S1024x1_S1024x16_0_1 : (⟨S1024x1, .f32⟩ : BufTy).Contents (Elt F) → (⟨S1024x16, .f32⟩ : BufTy).Contents (Elt F)),
    binary main_v1931 main_v1928 main_v1932 (mulf : (⟨S1024x16, .f32⟩ : BufTy).Contents (Elt F) → (⟨S1024x16, .f32⟩ : BufTy).Contents (Elt F) → (⟨S1024x16, .f32⟩ : BufTy).Contents (Elt F)),
    binary main_v1930 main_v1932 main_v1933 (subf : (⟨S1024x16, .f32⟩ : BufTy).Contents (Elt F) → (⟨S1024x16, .f32⟩ : BufTy).Contents (Elt F) → (⟨S1024x16, .f32⟩ : BufTy).Contents (Elt F)),
    unary main_v1926 main_v1934 (broadcastInDim S1024x16 ![0, 1] bcast_S1024x1_S1024x16_0_1 : (⟨S1024x1, .f32⟩ : BufTy).Contents (Elt F) → (⟨S1024x16, .f32⟩ : BufTy).Contents (Elt F)),
    binary main_v1934 main_v1913 main_v1935 (mulf : (⟨S1024x16, .f32⟩ : BufTy).Contents (Elt F) → (⟨S1024x16, .f32⟩ : BufTy).Contents (Elt F) → (⟨S1024x16, .f32⟩ : BufTy).Contents (Elt F)),
    unary main_v1924 main_v1936 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 34. -/
abbrev st102 : List (HloOp τ sig (Elt F)) :=
  [ binary main_v1936 main_v1928 main_v1937 (mulf : (⟨S1024x16, .f32⟩ : BufTy).Contents (Elt F) → (⟨S1024x16, .f32⟩ : BufTy).Contents (Elt F) → (⟨S1024x16, .f32⟩ : BufTy).Contents (Elt F)),
    binary main_v1935 main_v1937 main_v1938 (addf : (⟨S1024x16, .f32⟩ : BufTy).Contents (Elt F) → (⟨S1024x16, .f32⟩ : BufTy).Contents (Elt F) → (⟨S1024x16, .f32⟩ : BufTy).Contents (Elt F)),
    nullary main_c_102 (constantI S_ 32 11#32),
    unary main_c_102 main_v1939 (broadcastInDim S1 ![] bcast_S_S1 : (⟨S_, .i32⟩ : BufTy).Contents (Elt F) → (⟨S1, .i32⟩ : BufTy).Contents (Elt F)),
    ternary main_v1920 main_v1939 main_v1938 main_v1940 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1941 ((extractStridedSlice S1024x1 ![0, 95] · slices_S1024x120_S1024x1_0_95) : (⟨S1024x120, .f32⟩ : BufTy).Contents (Elt F) → (⟨S1024x1, .f32⟩ : BufTy).Contents (Elt F)),
    reshape main_v1941 main_v1942 rfl shapeCasts_S1024x1_S1024,
    unary main_v1942 main_v1943 (Host.cos : (⟨S1024, .f32⟩ : BufTy).Contents (Elt F) → (⟨S1024, .f32⟩ : BufTy).Contents (Elt F)),
    unary main_v1943 main_v1944 (broadcastInDim S1024x1 ![0] bcast_S1024_S1024x1_0 : (⟨S1024, .f32⟩ : BufTy).Contents (Elt F) → (⟨S1024x1, .f32⟩ : BufTy).Contents (Elt F)),
    unary main_v1942 main_v1945 (Host.sin : (⟨S1024, .f32⟩ : BufTy).Contents (Elt F) → (⟨S1024, .f32⟩ : BufTy).Contents (Elt F)),
    unary main_v1945 main_v1946 (broadcastInDim S1024x1 ![0] bcast_S1024_S1024x1_0 : (⟨S1024, .f32⟩ : BufTy).Contents (Elt F) → (⟨S1024x1, .f32⟩ : BufTy).Contents (Elt F)),
    unary main_v1940 main_v1947 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1947 main_v1948 rfl shapeCasts_S1024x1x16_S1024x16,
    unary main_v1944 main_v1949 (broadcastInDim S1024x16 ![0, 1] bcast_S1024x1_S1024x16_0_1 : (⟨S1024x1, .f32⟩ : BufTy).Contents (Elt F) → (⟨S1024x16, .f32⟩ : BufTy).Contents (Elt F)),
    binary main_v1949 main_v1933 main_v1950 (mulf : (⟨S1024x16, .f32⟩ : BufTy).Contents (Elt F) → (⟨S1024x16, .f32⟩ : BufTy).Contents (Elt F) → (⟨S1024x16, .f32⟩ : BufTy).Contents (Elt F)),
    unary main_v1946 main_v1951 (broadcastInDim S1024x16 ![0, 1] bcast_S1024x1_S1024x16_0_1 : (⟨S1024x1, .f32⟩ : BufTy).Contents (Elt F) → (⟨S1024x16, .f32⟩ : BufTy).Contents (Elt F)),
    binary main_v1951 main_v1948 main_v1952 (mulf : (⟨S1024x16, .f32⟩ : BufTy).Contents (Elt F) → (⟨S1024x16, .f32⟩ : BufTy).Contents (Elt F) → (⟨S1024x16, .f32⟩ : BufTy).Contents (Elt F)),
    binary main_v1950 main_v1952 main_v1953 (subf : (⟨S1024x16, .f32⟩ : BufTy).Contents (Elt F) → (⟨S1024x16, .f32⟩ : BufTy).Contents (Elt F) → (⟨S1024x16, .f32⟩ : BufTy).Contents (Elt F)),
    unary main_v1946 main_v1954 (broadcastInDim S1024x16 ![0, 1] bcast_S1024x1_S1024x16_0_1 : (⟨S1024x1, .f32⟩ : BufTy).Contents (Elt F) → (⟨S1024x16, .f32⟩ : BufTy).Contents (Elt F)),
    binary main_v1954 main_v1933 main_v1955 (mulf : (⟨S1024x16, .f32⟩ : BufTy).Contents (Elt F) → (⟨S1024x16, .f32⟩ : BufTy).Contents (Elt F) → (⟨S1024x16, .f32⟩ : BufTy).Contents (Elt F)) ]
/-- Operations 21 … 40 of window 34. -/
abbrev st103 : List (HloOp τ sig (Elt F)) :=
  [ unary main_v1944 main_v1956 (broadcastInDim S1024x16 ![0, 1] bcast_S1024x1_S1024x16_0_1 : (⟨S1024x1, .f32⟩ : BufTy).Contents (Elt F) → (⟨S1024x16, .f32⟩ : BufTy).Contents (Elt F)),
    binary main_v1956 main_v1948 main_v1957 (mulf : (⟨S1024x16, .f32⟩ : BufTy).Contents (Elt F) → (⟨S1024x16, .f32⟩ : BufTy).Contents (Elt F) → (⟨S1024x16, .f32⟩ : BufTy).Contents (Elt F)),
    binary main_v1955 main_v1957 main_v1958 (addf : (⟨S1024x16, .f32⟩ : BufTy).Contents (Elt F) → (⟨S1024x16, .f32⟩ : BufTy).Contents (Elt F) → (⟨S1024x16, .f32⟩ : BufTy).Contents (Elt F)),
    nullary main_c_103 (constantI S_ 32 12#32),
    unary main_c_103 main_v1959 (broadcastInDim S1 ![] bcast_S_S1 : (⟨S_, .i32⟩ : BufTy).Contents (Elt F) → (⟨S1, .i32⟩ : BufTy).Contents (Elt F)),
    ternary main_v1940 main_v1959 main_v1958 main_v1960 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1961 ((extractStridedSlice S1024x1 ![0, 96] · slices_S1024x120_S1024x1_0_96) : (⟨S1024x120, .f32⟩ : BufTy).Contents (Elt F) → (⟨S1024x1, .f32⟩ : BufTy).Contents (Elt F)),
    reshape main_v1961 main_v1962 rfl shapeCasts_S1024x1_S1024,
    unary main_v1962 main_v1963 (Host.cos : (⟨S1024, .f32⟩ : BufTy).Contents (Elt F) → (⟨S1024, .f32⟩ : BufTy).Contents (Elt F)),
    unary main_v1963 main_v1964 (broadcastInDim S1024x1 ![0] bcast_S1024_S1024x1_0 : (⟨S1024, .f32⟩ : BufTy).Contents (Elt F) → (⟨S1024x1, .f32⟩ : BufTy).Contents (Elt F)),
    unary main_v1962 main_v1965 (Host.sin : (⟨S1024, .f32⟩ : BufTy).Contents (Elt F) → (⟨S1024, .f32⟩ : BufTy).Contents (Elt F)),
    unary main_v1965 main_v1966 (broadcastInDim S1024x1 ![0] bcast_S1024_S1024x1_0 : (⟨S1024, .f32⟩ : BufTy).Contents (Elt F) → (⟨S1024x1, .f32⟩ : BufTy).Contents (Elt F)),
    unary main_v1960 main_v1967 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1967 main_v1968 rfl shapeCasts_S1024x1x16_S1024x16,
    unary main_v1964 main_v1969 (broadcastInDim S1024x16 ![0, 1] bcast_S1024x1_S1024x16_0_1 : (⟨S1024x1, .f32⟩ : BufTy).Contents (Elt F) → (⟨S1024x16, .f32⟩ : BufTy).Contents (Elt F)),
    binary main_v1969 main_v1953 main_v1970 (mulf : (⟨S1024x16, .f32⟩ : BufTy).Contents (Elt F) → (⟨S1024x16, .f32⟩ : BufTy).Contents (Elt F) → (⟨S1024x16, .f32⟩ : BufTy).Contents (Elt F)),
    unary main_v1966 main_v1971 (broadcastInDim S1024x16 ![0, 1] bcast_S1024x1_S1024x16_0_1 : (⟨S1024x1, .f32⟩ : BufTy).Contents (Elt F) → (⟨S1024x16, .f32⟩ : BufTy).Contents (Elt F)),
    binary main_v1971 main_v1968 main_v1972 (mulf : (⟨S1024x16, .f32⟩ : BufTy).Contents (Elt F) → (⟨S1024x16, .f32⟩ : BufTy).Contents (Elt F) → (⟨S1024x16, .f32⟩ : BufTy).Contents (Elt F)),
    binary main_v1970 main_v1972 main_v1973 (subf : (⟨S1024x16, .f32⟩ : BufTy).Contents (Elt F) → (⟨S1024x16, .f32⟩ : BufTy).Contents (Elt F) → (⟨S1024x16, .f32⟩ : BufTy).Contents (Elt F)),
    unary main_v1966 main_v1974 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 34. -/
abbrev st104 : List (HloOp τ sig (Elt F)) :=
  [ binary main_v1974 main_v1953 main_v1975 (mulf : (⟨S1024x16, .f32⟩ : BufTy).Contents (Elt F) → (⟨S1024x16, .f32⟩ : BufTy).Contents (Elt F) → (⟨S1024x16, .f32⟩ : BufTy).Contents (Elt F)),
    unary main_v1964 main_v1976 (broadcastInDim S1024x16 ![0, 1] bcast_S1024x1_S1024x16_0_1 : (⟨S1024x1, .f32⟩ : BufTy).Contents (Elt F) → (⟨S1024x16, .f32⟩ : BufTy).Contents (Elt F)),
    binary main_v1976 main_v1968 main_v1977 (mulf : (⟨S1024x16, .f32⟩ : BufTy).Contents (Elt F) → (⟨S1024x16, .f32⟩ : BufTy).Contents (Elt F) → (⟨S1024x16, .f32⟩ : BufTy).Contents (Elt F)),
    binary main_v1975 main_v1977 main_v1978 (addf : (⟨S1024x16, .f32⟩ : BufTy).Contents (Elt F) → (⟨S1024x16, .f32⟩ : BufTy).Contents (Elt F) → (⟨S1024x16, .f32⟩ : BufTy).Contents (Elt F)),
    nullary main_c_104 (constantI S_ 32 13#32),
    unary main_c_104 main_v1979 (broadcastInDim S1 ![] bcast_S_S1 : (⟨S_, .i32⟩ : BufTy).Contents (Elt F) → (⟨S1, .i32⟩ : BufTy).Contents (Elt F)),
    ternary main_v1960 main_v1979 main_v1978 main_v1980 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1981 ((extractStridedSlice S1024x1 ![0, 97] · slices_S1024x120_S1024x1_0_97) : (⟨S1024x120, .f32⟩ : BufTy).Contents (Elt F) → (⟨S1024x1, .f32⟩ : BufTy).Contents (Elt F)),
    reshape main_v1981 main_v1982 rfl shapeCasts_S1024x1_S1024,
    unary main_v1982 main_v1983 (Host.cos : (⟨S1024, .f32⟩ : BufTy).Contents (Elt F) → (⟨S1024, .f32⟩ : BufTy).Contents (Elt F)),
    unary main_v1983 main_v1984 (broadcastInDim S1024x1 ![0] bcast_S1024_S1024x1_0 : (⟨S1024, .f32⟩ : BufTy).Contents (Elt F) → (⟨S1024x1, .f32⟩ : BufTy).Contents (Elt F)),
    unary main_v1982 main_v1985 (Host.sin : (⟨S1024, .f32⟩ : BufTy).Contents (Elt F) → (⟨S1024, .f32⟩ : BufTy).Contents (Elt F)),
    unary main_v1985 main_v1986 (broadcastInDim S1024x1 ![0] bcast_S1024_S1024x1_0 : (⟨S1024, .f32⟩ : BufTy).Contents (Elt F) → (⟨S1024x1, .f32⟩ : BufTy).Contents (Elt F)),
    unary main_v1980 main_v1987 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1987 main_v1988 rfl shapeCasts_S1024x1x16_S1024x16,
    unary main_v1984 main_v1989 (broadcastInDim S1024x16 ![0, 1] bcast_S1024x1_S1024x16_0_1 : (⟨S1024x1, .f32⟩ : BufTy).Contents (Elt F) → (⟨S1024x16, .f32⟩ : BufTy).Contents (Elt F)),
    binary main_v1989 main_v1973 main_v1990 (mulf : (⟨S1024x16, .f32⟩ : BufTy).Contents (Elt F) → (⟨S1024x16, .f32⟩ : BufTy).Contents (Elt F) → (⟨S1024x16, .f32⟩ : BufTy).Contents (Elt F)),
    unary main_v1986 main_v1991 (broadcastInDim S1024x16 ![0, 1] bcast_S1024x1_S1024x16_0_1 : (⟨S1024x1, .f32⟩ : BufTy).Contents (Elt F) → (⟨S1024x16, .f32⟩ : BufTy).Contents (Elt F)),
    binary main_v1991 main_v1988 main_v1992 (mulf : (⟨S1024x16, .f32⟩ : BufTy).Contents (Elt F) → (⟨S1024x16, .f32⟩ : BufTy).Contents (Elt F) → (⟨S1024x16, .f32⟩ : BufTy).Contents (Elt F)),
    binary main_v1990 main_v1992 main_v1993 (subf : (⟨S1024x16, .f32⟩ : BufTy).Contents (Elt F) → (⟨S1024x16, .f32⟩ : BufTy).Contents (Elt F) → (⟨S1024x16, .f32⟩ : BufTy).Contents (Elt F)) ]
/-- Operations 1 … 20 of window 35. -/
abbrev st105 : List (HloOp τ sig (Elt F)) :=
  [ unary main_v1986 main_v1994 (broadcastInDim S1024x16 ![0, 1] bcast_S1024x1_S1024x16_0_1 : (⟨S1024x1, .f32⟩ : BufTy).Contents (Elt F) → (⟨S1024x16, .f32⟩ : BufTy).Contents (Elt F)),
    binary main_v1994 main_v1973 main_v1995 (mulf : (⟨S1024x16, .f32⟩ : BufTy).Contents (Elt F) → (⟨S1024x16, .f32⟩ : BufTy).Contents (Elt F) → (⟨S1024x16, .f32⟩ : BufTy).Contents (Elt F)),
    unary main_v1984 main_v1996 (broadcastInDim S1024x16 ![0, 1] bcast_S1024x1_S1024x16_0_1 : (⟨S1024x1, .f32⟩ : BufTy).Contents (Elt F) → (⟨S1024x16, .f32⟩ : BufTy).Contents (Elt F)),
    binary main_v1996 main_v1988 main_v1997 (mulf : (⟨S1024x16, .f32⟩ : BufTy).Contents (Elt F) → (⟨S1024x16, .f32⟩ : BufTy).Contents (Elt F) → (⟨S1024x16, .f32⟩ : BufTy).Contents (Elt F)),
    binary main_v1995 main_v1997 main_v1998 (addf : (⟨S1024x16, .f32⟩ : BufTy).Contents (Elt F) → (⟨S1024x16, .f32⟩ : BufTy).Contents (Elt F) → (⟨S1024x16, .f32⟩ : BufTy).Contents (Elt F)),
    nullary main_c_105 (constantI S_ 32 14#32),
    unary main_c_105 main_v1999 (broadcastInDim S1 ![] bcast_S_S1 : (⟨S_, .i32⟩ : BufTy).Contents (Elt F) → (⟨S1, .i32⟩ : BufTy).Contents (Elt F)),
    ternary main_v1980 main_v1999 main_v1998 main_v2000 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2001 ((extractStridedSlice S1024x1 ![0, 98] · slices_S1024x120_S1024x1_0_98) : (⟨S1024x120, .f32⟩ : BufTy).Contents (Elt F) → (⟨S1024x1, .f32⟩ : BufTy).Contents (Elt F)),
    reshape main_v2001 main_v2002 rfl shapeCasts_S1024x1_S1024,
    unary main_v2002 main_v2003 (Host.cos : (⟨S1024, .f32⟩ : BufTy).Contents (Elt F) → (⟨S1024, .f32⟩ : BufTy).Contents (Elt F)),
    unary main_v2003 main_v2004 (broadcastInDim S1024x1 ![0] bcast_S1024_S1024x1_0 : (⟨S1024, .f32⟩ : BufTy).Contents (Elt F) → (⟨S1024x1, .f32⟩ : BufTy).Contents (Elt F)),
    unary main_v2002 main_v2005 (Host.sin : (⟨S1024, .f32⟩ : BufTy).Contents (Elt F) → (⟨S1024, .f32⟩ : BufTy).Contents (Elt F)),
    unary main_v2005 main_v2006 (broadcastInDim S1024x1 ![0] bcast_S1024_S1024x1_0 : (⟨S1024, .f32⟩ : BufTy).Contents (Elt F) → (⟨S1024x1, .f32⟩ : BufTy).Contents (Elt F)),
    unary main_v2000 main_v2007 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2007 main_v2008 rfl shapeCasts_S1024x1x16_S1024x16,
    unary main_v2004 main_v2009 (broadcastInDim S1024x16 ![0, 1] bcast_S1024x1_S1024x16_0_1 : (⟨S1024x1, .f32⟩ : BufTy).Contents (Elt F) → (⟨S1024x16, .f32⟩ : BufTy).Contents (Elt F)),
    binary main_v2009 main_v1993 main_v2010 (mulf : (⟨S1024x16, .f32⟩ : BufTy).Contents (Elt F) → (⟨S1024x16, .f32⟩ : BufTy).Contents (Elt F) → (⟨S1024x16, .f32⟩ : BufTy).Contents (Elt F)),
    unary main_v2006 main_v2011 (broadcastInDim S1024x16 ![0, 1] bcast_S1024x1_S1024x16_0_1 : (⟨S1024x1, .f32⟩ : BufTy).Contents (Elt F) → (⟨S1024x16, .f32⟩ : BufTy).Contents (Elt F)),
    binary main_v2011 main_v2008 main_v2012 (mulf : (⟨S1024x16, .f32⟩ : BufTy).Contents (Elt F) → (⟨S1024x16, .f32⟩ : BufTy).Contents (Elt F) → (⟨S1024x16, .f32⟩ : BufTy).Contents (Elt F)) ]
/-- Operations 21 … 40 of window 35. -/
abbrev st106 : List (HloOp τ sig (Elt F)) :=
  [ binary main_v2010 main_v2012 main_v2013 (subf : (⟨S1024x16, .f32⟩ : BufTy).Contents (Elt F) → (⟨S1024x16, .f32⟩ : BufTy).Contents (Elt F) → (⟨S1024x16, .f32⟩ : BufTy).Contents (Elt F)),
    unary main_v2006 main_v2014 (broadcastInDim S1024x16 ![0, 1] bcast_S1024x1_S1024x16_0_1 : (⟨S1024x1, .f32⟩ : BufTy).Contents (Elt F) → (⟨S1024x16, .f32⟩ : BufTy).Contents (Elt F)),
    binary main_v2014 main_v1993 main_v2015 (mulf : (⟨S1024x16, .f32⟩ : BufTy).Contents (Elt F) → (⟨S1024x16, .f32⟩ : BufTy).Contents (Elt F) → (⟨S1024x16, .f32⟩ : BufTy).Contents (Elt F)),
    unary main_v2004 main_v2016 (broadcastInDim S1024x16 ![0, 1] bcast_S1024x1_S1024x16_0_1 : (⟨S1024x1, .f32⟩ : BufTy).Contents (Elt F) → (⟨S1024x16, .f32⟩ : BufTy).Contents (Elt F)),
    binary main_v2016 main_v2008 main_v2017 (mulf : (⟨S1024x16, .f32⟩ : BufTy).Contents (Elt F) → (⟨S1024x16, .f32⟩ : BufTy).Contents (Elt F) → (⟨S1024x16, .f32⟩ : BufTy).Contents (Elt F)),
    binary main_v2015 main_v2017 main_v2018 (addf : (⟨S1024x16, .f32⟩ : BufTy).Contents (Elt F) → (⟨S1024x16, .f32⟩ : BufTy).Contents (Elt F) → (⟨S1024x16, .f32⟩ : BufTy).Contents (Elt F)),
    nullary main_c_106 (constantI S_ 32 15#32),
    unary main_c_106 main_v2019 (broadcastInDim S1 ![] bcast_S_S1 : (⟨S_, .i32⟩ : BufTy).Contents (Elt F) → (⟨S1, .i32⟩ : BufTy).Contents (Elt F)),
    ternary main_v2000 main_v2019 main_v2018 main_v2020 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_107 (constantI S_ 32 8#32),
    unary main_c_107 main_v2021 (broadcastInDim S1 ![] bcast_S_S1 : (⟨S_, .i32⟩ : BufTy).Contents (Elt F) → (⟨S1, .i32⟩ : BufTy).Contents (Elt F)),
    ternary main_v2020 main_v2021 main_v2013 main_v2022 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2022 main_v2023 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v2023 main_v2024 rfl shapeCasts_S1024x1x16_S1024x16,
    unary main_arg1 main_v2025 ((extractStridedSlice S1024x1 ![0, 99] · slices_S1024x120_S1024x1_0_99) : (⟨S1024x120, .f32⟩ : BufTy).Contents (Elt F) → (⟨S1024x1, .f32⟩ : BufTy).Contents (Elt F)),
    reshape main_v2025 main_v2026 rfl shapeCasts_S1024x1_S1024,
    unary main_v2026 main_v2027 (Host.cos : (⟨S1024, .f32⟩ : BufTy).Contents (Elt F) → (⟨S1024, .f32⟩ : BufTy).Contents (Elt F)),
    unary main_v2027 main_v2028 (broadcastInDim S1024x1 ![0] bcast_S1024_S1024x1_0 : (⟨S1024, .f32⟩ : BufTy).Contents (Elt F) → (⟨S1024x1, .f32⟩ : BufTy).Contents (Elt F)),
    unary main_v2026 main_v2029 (Host.sin : (⟨S1024, .f32⟩ : BufTy).Contents (Elt F) → (⟨S1024, .f32⟩ : BufTy).Contents (Elt F)),
    unary main_v2029 main_v2030 (broadcastInDim S1024x1 ![0] bcast_S1024_S1024x1_0 : (⟨S1024, .f32⟩ : BufTy).Contents (Elt F) → (⟨S1024x1, .f32⟩ : BufTy).Contents (Elt F)) ]
/-- Operations 41 … 60 of window 35. -/
abbrev st107 : List (HloOp τ sig (Elt F)) :=
  [ unary main_v2022 main_v2031 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v2031 main_v2032 rfl shapeCasts_S1024x1x16_S1024x16,
    unary main_v2028 main_v2033 (broadcastInDim S1024x16 ![0, 1] bcast_S1024x1_S1024x16_0_1 : (⟨S1024x1, .f32⟩ : BufTy).Contents (Elt F) → (⟨S1024x16, .f32⟩ : BufTy).Contents (Elt F)),
    binary main_v2033 main_v2024 main_v2034 (mulf : (⟨S1024x16, .f32⟩ : BufTy).Contents (Elt F) → (⟨S1024x16, .f32⟩ : BufTy).Contents (Elt F) → (⟨S1024x16, .f32⟩ : BufTy).Contents (Elt F)),
    unary main_v2030 main_v2035 (broadcastInDim S1024x16 ![0, 1] bcast_S1024x1_S1024x16_0_1 : (⟨S1024x1, .f32⟩ : BufTy).Contents (Elt F) → (⟨S1024x16, .f32⟩ : BufTy).Contents (Elt F)),
    binary main_v2035 main_v2032 main_v2036 (mulf : (⟨S1024x16, .f32⟩ : BufTy).Contents (Elt F) → (⟨S1024x16, .f32⟩ : BufTy).Contents (Elt F) → (⟨S1024x16, .f32⟩ : BufTy).Contents (Elt F)),
    binary main_v2034 main_v2036 main_v2037 (subf : (⟨S1024x16, .f32⟩ : BufTy).Contents (Elt F) → (⟨S1024x16, .f32⟩ : BufTy).Contents (Elt F) → (⟨S1024x16, .f32⟩ : BufTy).Contents (Elt F)),
    unary main_v2030 main_v2038 (broadcastInDim S1024x16 ![0, 1] bcast_S1024x1_S1024x16_0_1 : (⟨S1024x1, .f32⟩ : BufTy).Contents (Elt F) → (⟨S1024x16, .f32⟩ : BufTy).Contents (Elt F)),
    binary main_v2038 main_v2024 main_v2039 (mulf : (⟨S1024x16, .f32⟩ : BufTy).Contents (Elt F) → (⟨S1024x16, .f32⟩ : BufTy).Contents (Elt F) → (⟨S1024x16, .f32⟩ : BufTy).Contents (Elt F)),
    unary main_v2028 main_v2040 (broadcastInDim S1024x16 ![0, 1] bcast_S1024x1_S1024x16_0_1 : (⟨S1024x1, .f32⟩ : BufTy).Contents (Elt F) → (⟨S1024x16, .f32⟩ : BufTy).Contents (Elt F)),
    binary main_v2040 main_v2032 main_v2041 (mulf : (⟨S1024x16, .f32⟩ : BufTy).Contents (Elt F) → (⟨S1024x16, .f32⟩ : BufTy).Contents (Elt F) → (⟨S1024x16, .f32⟩ : BufTy).Contents (Elt F)),
    binary main_v2039 main_v2041 main_v2042 (addf : (⟨S1024x16, .f32⟩ : BufTy).Contents (Elt F) → (⟨S1024x16, .f32⟩ : BufTy).Contents (Elt F) → (⟨S1024x16, .f32⟩ : BufTy).Contents (Elt F)),
    nullary main_c_108 (constantI S_ 32 10#32),
    unary main_c_108 main_v2043 (broadcastInDim S1 ![] bcast_S_S1 : (⟨S_, .i32⟩ : BufTy).Contents (Elt F) → (⟨S1, .i32⟩ : BufTy).Contents (Elt F)),
    ternary main_v2022 main_v2043 main_v2042 main_v2044 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2045 ((extractStridedSlice S1024x1 ![0, 100] · slices_S1024x120_S1024x1_0_100) : (⟨S1024x120, .f32⟩ : BufTy).Contents (Elt F) → (⟨S1024x1, .f32⟩ : BufTy).Contents (Elt F)),
    reshape main_v2045 main_v2046 rfl shapeCasts_S1024x1_S1024,
    unary main_v2046 main_v2047 (Host.cos : (⟨S1024, .f32⟩ : BufTy).Contents (Elt F) → (⟨S1024, .f32⟩ : BufTy).Contents (Elt F)),
    unary main_v2047 main_v2048 (broadcastInDim S1024x1 ![0] bcast_S1024_S1024x1_0 : (⟨S1024, .f32⟩ : BufTy).Contents (Elt F) → (⟨S1024x1, .f32⟩ : BufTy).Contents (Elt F)),
    unary main_v2046 main_v2049 (Host.sin : (⟨S1024, .f32⟩ : BufTy).Contents (Elt F) → (⟨S1024, .f32⟩ : BufTy).Contents (Elt F)) ]
/-- Operations 1 … 20 of window 36. -/
abbrev st108 : List (HloOp τ sig (Elt F)) :=
  [ unary main_v2049 main_v2050 (broadcastInDim S1024x1 ![0] bcast_S1024_S1024x1_0 : (⟨S1024, .f32⟩ : BufTy).Contents (Elt F) → (⟨S1024x1, .f32⟩ : BufTy).Contents (Elt F)),
    unary main_v2044 main_v2051 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v2051 main_v2052 rfl shapeCasts_S1024x1x16_S1024x16,
    unary main_v2048 main_v2053 (broadcastInDim S1024x16 ![0, 1] bcast_S1024x1_S1024x16_0_1 : (⟨S1024x1, .f32⟩ : BufTy).Contents (Elt F) → (⟨S1024x16, .f32⟩ : BufTy).Contents (Elt F)),
    binary main_v2053 main_v2037 main_v2054 (mulf : (⟨S1024x16, .f32⟩ : BufTy).Contents (Elt F) → (⟨S1024x16, .f32⟩ : BufTy).Contents (Elt F) → (⟨S1024x16, .f32⟩ : BufTy).Contents (Elt F)),
    unary main_v2050 main_v2055 (broadcastInDim S1024x16 ![0, 1] bcast_S1024x1_S1024x16_0_1 : (⟨S1024x1, .f32⟩ : BufTy).Contents (Elt F) → (⟨S1024x16, .f32⟩ : BufTy).Contents (Elt F)),
    binary main_v2055 main_v2052 main_v2056 (mulf : (⟨S1024x16, .f32⟩ : BufTy).Contents (Elt F) → (⟨S1024x16, .f32⟩ : BufTy).Contents (Elt F) → (⟨S1024x16, .f32⟩ : BufTy).Contents (Elt F)),
    binary main_v2054 main_v2056 main_v2057 (subf : (⟨S1024x16, .f32⟩ : BufTy).Contents (Elt F) → (⟨S1024x16, .f32⟩ : BufTy).Contents (Elt F) → (⟨S1024x16, .f32⟩ : BufTy).Contents (Elt F)),
    unary main_v2050 main_v2058 (broadcastInDim S1024x16 ![0, 1] bcast_S1024x1_S1024x16_0_1 : (⟨S1024x1, .f32⟩ : BufTy).Contents (Elt F) → (⟨S1024x16, .f32⟩ : BufTy).Contents (Elt F)),
    binary main_v2058 main_v2037 main_v2059 (mulf : (⟨S1024x16, .f32⟩ : BufTy).Contents (Elt F) → (⟨S1024x16, .f32⟩ : BufTy).Contents (Elt F) → (⟨S1024x16, .f32⟩ : BufTy).Contents (Elt F)),
    unary main_v2048 main_v2060 (broadcastInDim S1024x16 ![0, 1] bcast_S1024x1_S1024x16_0_1 : (⟨S1024x1, .f32⟩ : BufTy).Contents (Elt F) → (⟨S1024x16, .f32⟩ : BufTy).Contents (Elt F)),
    binary main_v2060 main_v2052 main_v2061 (mulf : (⟨S1024x16, .f32⟩ : BufTy).Contents (Elt F) → (⟨S1024x16, .f32⟩ : BufTy).Contents (Elt F) → (⟨S1024x16, .f32⟩ : BufTy).Contents (Elt F)),
    binary main_v2059 main_v2061 main_v2062 (addf : (⟨S1024x16, .f32⟩ : BufTy).Contents (Elt F) → (⟨S1024x16, .f32⟩ : BufTy).Contents (Elt F) → (⟨S1024x16, .f32⟩ : BufTy).Contents (Elt F)),
    nullary main_c_109 (constantI S_ 32 11#32),
    unary main_c_109 main_v2063 (broadcastInDim S1 ![] bcast_S_S1 : (⟨S_, .i32⟩ : BufTy).Contents (Elt F) → (⟨S1, .i32⟩ : BufTy).Contents (Elt F)),
    ternary main_v2044 main_v2063 main_v2062 main_v2064 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2065 ((extractStridedSlice S1024x1 ![0, 101] · slices_S1024x120_S1024x1_0_101) : (⟨S1024x120, .f32⟩ : BufTy).Contents (Elt F) → (⟨S1024x1, .f32⟩ : BufTy).Contents (Elt F)),
    reshape main_v2065 main_v2066 rfl shapeCasts_S1024x1_S1024,
    unary main_v2066 main_v2067 (Host.cos : (⟨S1024, .f32⟩ : BufTy).Contents (Elt F) → (⟨S1024, .f32⟩ : BufTy).Contents (Elt F)),
    unary main_v2067 main_v2068 (broadcastInDim S1024x1 ![0] bcast_S1024_S1024x1_0 : (⟨S1024, .f32⟩ : BufTy).Contents (Elt F) → (⟨S1024x1, .f32⟩ : BufTy).Contents (Elt F)) ]
/-- Operations 21 … 40 of window 36. -/
abbrev st109 : List (HloOp τ sig (Elt F)) :=
  [ unary main_v2066 main_v2069 (Host.sin : (⟨S1024, .f32⟩ : BufTy).Contents (Elt F) → (⟨S1024, .f32⟩ : BufTy).Contents (Elt F)),
    unary main_v2069 main_v2070 (broadcastInDim S1024x1 ![0] bcast_S1024_S1024x1_0 : (⟨S1024, .f32⟩ : BufTy).Contents (Elt F) → (⟨S1024x1, .f32⟩ : BufTy).Contents (Elt F)),
    unary main_v2064 main_v2071 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v2071 main_v2072 rfl shapeCasts_S1024x1x16_S1024x16,
    unary main_v2068 main_v2073 (broadcastInDim S1024x16 ![0, 1] bcast_S1024x1_S1024x16_0_1 : (⟨S1024x1, .f32⟩ : BufTy).Contents (Elt F) → (⟨S1024x16, .f32⟩ : BufTy).Contents (Elt F)),
    binary main_v2073 main_v2057 main_v2074 (mulf : (⟨S1024x16, .f32⟩ : BufTy).Contents (Elt F) → (⟨S1024x16, .f32⟩ : BufTy).Contents (Elt F) → (⟨S1024x16, .f32⟩ : BufTy).Contents (Elt F)),
    unary main_v2070 main_v2075 (broadcastInDim S1024x16 ![0, 1] bcast_S1024x1_S1024x16_0_1 : (⟨S1024x1, .f32⟩ : BufTy).Contents (Elt F) → (⟨S1024x16, .f32⟩ : BufTy).Contents (Elt F)),
    binary main_v2075 main_v2072 main_v2076 (mulf : (⟨S1024x16, .f32⟩ : BufTy).Contents (Elt F) → (⟨S1024x16, .f32⟩ : BufTy).Contents (Elt F) → (⟨S1024x16, .f32⟩ : BufTy).Contents (Elt F)),
    binary main_v2074 main_v2076 main_v2077 (subf : (⟨S1024x16, .f32⟩ : BufTy).Contents (Elt F) → (⟨S1024x16, .f32⟩ : BufTy).Contents (Elt F) → (⟨S1024x16, .f32⟩ : BufTy).Contents (Elt F)),
    unary main_v2070 main_v2078 (broadcastInDim S1024x16 ![0, 1] bcast_S1024x1_S1024x16_0_1 : (⟨S1024x1, .f32⟩ : BufTy).Contents (Elt F) → (⟨S1024x16, .f32⟩ : BufTy).Contents (Elt F)),
    binary main_v2078 main_v2057 main_v2079 (mulf : (⟨S1024x16, .f32⟩ : BufTy).Contents (Elt F) → (⟨S1024x16, .f32⟩ : BufTy).Contents (Elt F) → (⟨S1024x16, .f32⟩ : BufTy).Contents (Elt F)),
    unary main_v2068 main_v2080 (broadcastInDim S1024x16 ![0, 1] bcast_S1024x1_S1024x16_0_1 : (⟨S1024x1, .f32⟩ : BufTy).Contents (Elt F) → (⟨S1024x16, .f32⟩ : BufTy).Contents (Elt F)),
    binary main_v2080 main_v2072 main_v2081 (mulf : (⟨S1024x16, .f32⟩ : BufTy).Contents (Elt F) → (⟨S1024x16, .f32⟩ : BufTy).Contents (Elt F) → (⟨S1024x16, .f32⟩ : BufTy).Contents (Elt F)),
    binary main_v2079 main_v2081 main_v2082 (addf : (⟨S1024x16, .f32⟩ : BufTy).Contents (Elt F) → (⟨S1024x16, .f32⟩ : BufTy).Contents (Elt F) → (⟨S1024x16, .f32⟩ : BufTy).Contents (Elt F)),
    nullary main_c_110 (constantI S_ 32 12#32),
    unary main_c_110 main_v2083 (broadcastInDim S1 ![] bcast_S_S1 : (⟨S_, .i32⟩ : BufTy).Contents (Elt F) → (⟨S1, .i32⟩ : BufTy).Contents (Elt F)),
    ternary main_v2064 main_v2083 main_v2082 main_v2084 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2085 ((extractStridedSlice S1024x1 ![0, 102] · slices_S1024x120_S1024x1_0_102) : (⟨S1024x120, .f32⟩ : BufTy).Contents (Elt F) → (⟨S1024x1, .f32⟩ : BufTy).Contents (Elt F)),
    reshape main_v2085 main_v2086 rfl shapeCasts_S1024x1_S1024,
    unary main_v2086 main_v2087 (Host.cos : (⟨S1024, .f32⟩ : BufTy).Contents (Elt F) → (⟨S1024, .f32⟩ : BufTy).Contents (Elt F)) ]
/-- Operations 41 … 60 of window 36. -/
abbrev st110 : List (HloOp τ sig (Elt F)) :=
  [ unary main_v2087 main_v2088 (broadcastInDim S1024x1 ![0] bcast_S1024_S1024x1_0 : (⟨S1024, .f32⟩ : BufTy).Contents (Elt F) → (⟨S1024x1, .f32⟩ : BufTy).Contents (Elt F)),
    unary main_v2086 main_v2089 (Host.sin : (⟨S1024, .f32⟩ : BufTy).Contents (Elt F) → (⟨S1024, .f32⟩ : BufTy).Contents (Elt F)),
    unary main_v2089 main_v2090 (broadcastInDim S1024x1 ![0] bcast_S1024_S1024x1_0 : (⟨S1024, .f32⟩ : BufTy).Contents (Elt F) → (⟨S1024x1, .f32⟩ : BufTy).Contents (Elt F)),
    unary main_v2084 main_v2091 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2091 main_v2092 rfl shapeCasts_S1024x1x16_S1024x16,
    unary main_v2088 main_v2093 (broadcastInDim S1024x16 ![0, 1] bcast_S1024x1_S1024x16_0_1 : (⟨S1024x1, .f32⟩ : BufTy).Contents (Elt F) → (⟨S1024x16, .f32⟩ : BufTy).Contents (Elt F)),
    binary main_v2093 main_v2077 main_v2094 (mulf : (⟨S1024x16, .f32⟩ : BufTy).Contents (Elt F) → (⟨S1024x16, .f32⟩ : BufTy).Contents (Elt F) → (⟨S1024x16, .f32⟩ : BufTy).Contents (Elt F)),
    unary main_v2090 main_v2095 (broadcastInDim S1024x16 ![0, 1] bcast_S1024x1_S1024x16_0_1 : (⟨S1024x1, .f32⟩ : BufTy).Contents (Elt F) → (⟨S1024x16, .f32⟩ : BufTy).Contents (Elt F)),
    binary main_v2095 main_v2092 main_v2096 (mulf : (⟨S1024x16, .f32⟩ : BufTy).Contents (Elt F) → (⟨S1024x16, .f32⟩ : BufTy).Contents (Elt F) → (⟨S1024x16, .f32⟩ : BufTy).Contents (Elt F)),
    binary main_v2094 main_v2096 main_v2097 (subf : (⟨S1024x16, .f32⟩ : BufTy).Contents (Elt F) → (⟨S1024x16, .f32⟩ : BufTy).Contents (Elt F) → (⟨S1024x16, .f32⟩ : BufTy).Contents (Elt F)),
    unary main_v2090 main_v2098 (broadcastInDim S1024x16 ![0, 1] bcast_S1024x1_S1024x16_0_1 : (⟨S1024x1, .f32⟩ : BufTy).Contents (Elt F) → (⟨S1024x16, .f32⟩ : BufTy).Contents (Elt F)),
    binary main_v2098 main_v2077 main_v2099 (mulf : (⟨S1024x16, .f32⟩ : BufTy).Contents (Elt F) → (⟨S1024x16, .f32⟩ : BufTy).Contents (Elt F) → (⟨S1024x16, .f32⟩ : BufTy).Contents (Elt F)),
    unary main_v2088 main_v2100 (broadcastInDim S1024x16 ![0, 1] bcast_S1024x1_S1024x16_0_1 : (⟨S1024x1, .f32⟩ : BufTy).Contents (Elt F) → (⟨S1024x16, .f32⟩ : BufTy).Contents (Elt F)),
    binary main_v2100 main_v2092 main_v2101 (mulf : (⟨S1024x16, .f32⟩ : BufTy).Contents (Elt F) → (⟨S1024x16, .f32⟩ : BufTy).Contents (Elt F) → (⟨S1024x16, .f32⟩ : BufTy).Contents (Elt F)),
    binary main_v2099 main_v2101 main_v2102 (addf : (⟨S1024x16, .f32⟩ : BufTy).Contents (Elt F) → (⟨S1024x16, .f32⟩ : BufTy).Contents (Elt F) → (⟨S1024x16, .f32⟩ : BufTy).Contents (Elt F)),
    nullary main_c_111 (constantI S_ 32 13#32),
    unary main_c_111 main_v2103 (broadcastInDim S1 ![] bcast_S_S1 : (⟨S_, .i32⟩ : BufTy).Contents (Elt F) → (⟨S1, .i32⟩ : BufTy).Contents (Elt F)),
    ternary main_v2084 main_v2103 main_v2102 main_v2104 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2105 ((extractStridedSlice S1024x1 ![0, 103] · slices_S1024x120_S1024x1_0_103) : (⟨S1024x120, .f32⟩ : BufTy).Contents (Elt F) → (⟨S1024x1, .f32⟩ : BufTy).Contents (Elt F)),
    reshape main_v2105 main_v2106 rfl shapeCasts_S1024x1_S1024 ]
/-- Operations 1 … 20 of window 37. -/
abbrev st111 : List (HloOp τ sig (Elt F)) :=
  [ unary main_v2106 main_v2107 (Host.cos : (⟨S1024, .f32⟩ : BufTy).Contents (Elt F) → (⟨S1024, .f32⟩ : BufTy).Contents (Elt F)),
    unary main_v2107 main_v2108 (broadcastInDim S1024x1 ![0] bcast_S1024_S1024x1_0 : (⟨S1024, .f32⟩ : BufTy).Contents (Elt F) → (⟨S1024x1, .f32⟩ : BufTy).Contents (Elt F)),
    unary main_v2106 main_v2109 (Host.sin : (⟨S1024, .f32⟩ : BufTy).Contents (Elt F) → (⟨S1024, .f32⟩ : BufTy).Contents (Elt F)),
    unary main_v2109 main_v2110 (broadcastInDim S1024x1 ![0] bcast_S1024_S1024x1_0 : (⟨S1024, .f32⟩ : BufTy).Contents (Elt F) → (⟨S1024x1, .f32⟩ : BufTy).Contents (Elt F)),
    unary main_v2104 main_v2111 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2111 main_v2112 rfl shapeCasts_S1024x1x16_S1024x16,
    unary main_v2108 main_v2113 (broadcastInDim S1024x16 ![0, 1] bcast_S1024x1_S1024x16_0_1 : (⟨S1024x1, .f32⟩ : BufTy).Contents (Elt F) → (⟨S1024x16, .f32⟩ : BufTy).Contents (Elt F)),
    binary main_v2113 main_v2097 main_v2114 (mulf : (⟨S1024x16, .f32⟩ : BufTy).Contents (Elt F) → (⟨S1024x16, .f32⟩ : BufTy).Contents (Elt F) → (⟨S1024x16, .f32⟩ : BufTy).Contents (Elt F)),
    unary main_v2110 main_v2115 (broadcastInDim S1024x16 ![0, 1] bcast_S1024x1_S1024x16_0_1 : (⟨S1024x1, .f32⟩ : BufTy).Contents (Elt F) → (⟨S1024x16, .f32⟩ : BufTy).Contents (Elt F)),
    binary main_v2115 main_v2112 main_v2116 (mulf : (⟨S1024x16, .f32⟩ : BufTy).Contents (Elt F) → (⟨S1024x16, .f32⟩ : BufTy).Contents (Elt F) → (⟨S1024x16, .f32⟩ : BufTy).Contents (Elt F)),
    binary main_v2114 main_v2116 main_v2117 (subf : (⟨S1024x16, .f32⟩ : BufTy).Contents (Elt F) → (⟨S1024x16, .f32⟩ : BufTy).Contents (Elt F) → (⟨S1024x16, .f32⟩ : BufTy).Contents (Elt F)),
    unary main_v2110 main_v2118 (broadcastInDim S1024x16 ![0, 1] bcast_S1024x1_S1024x16_0_1 : (⟨S1024x1, .f32⟩ : BufTy).Contents (Elt F) → (⟨S1024x16, .f32⟩ : BufTy).Contents (Elt F)),
    binary main_v2118 main_v2097 main_v2119 (mulf : (⟨S1024x16, .f32⟩ : BufTy).Contents (Elt F) → (⟨S1024x16, .f32⟩ : BufTy).Contents (Elt F) → (⟨S1024x16, .f32⟩ : BufTy).Contents (Elt F)),
    unary main_v2108 main_v2120 (broadcastInDim S1024x16 ![0, 1] bcast_S1024x1_S1024x16_0_1 : (⟨S1024x1, .f32⟩ : BufTy).Contents (Elt F) → (⟨S1024x16, .f32⟩ : BufTy).Contents (Elt F)),
    binary main_v2120 main_v2112 main_v2121 (mulf : (⟨S1024x16, .f32⟩ : BufTy).Contents (Elt F) → (⟨S1024x16, .f32⟩ : BufTy).Contents (Elt F) → (⟨S1024x16, .f32⟩ : BufTy).Contents (Elt F)),
    binary main_v2119 main_v2121 main_v2122 (addf : (⟨S1024x16, .f32⟩ : BufTy).Contents (Elt F) → (⟨S1024x16, .f32⟩ : BufTy).Contents (Elt F) → (⟨S1024x16, .f32⟩ : BufTy).Contents (Elt F)),
    nullary main_c_112 (constantI S_ 32 14#32),
    unary main_c_112 main_v2123 (broadcastInDim S1 ![] bcast_S_S1 : (⟨S_, .i32⟩ : BufTy).Contents (Elt F) → (⟨S1, .i32⟩ : BufTy).Contents (Elt F)),
    ternary main_v2104 main_v2123 main_v2122 main_v2124 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2125 ((extractStridedSlice S1024x1 ![0, 104] · slices_S1024x120_S1024x1_0_104) : (⟨S1024x120, .f32⟩ : BufTy).Contents (Elt F) → (⟨S1024x1, .f32⟩ : BufTy).Contents (Elt F)) ]
/-- Operations 21 … 40 of window 37. -/
abbrev st112 : List (HloOp τ sig (Elt F)) :=
  [ reshape main_v2125 main_v2126 rfl shapeCasts_S1024x1_S1024,
    unary main_v2126 main_v2127 (Host.cos : (⟨S1024, .f32⟩ : BufTy).Contents (Elt F) → (⟨S1024, .f32⟩ : BufTy).Contents (Elt F)),
    unary main_v2127 main_v2128 (broadcastInDim S1024x1 ![0] bcast_S1024_S1024x1_0 : (⟨S1024, .f32⟩ : BufTy).Contents (Elt F) → (⟨S1024x1, .f32⟩ : BufTy).Contents (Elt F)),
    unary main_v2126 main_v2129 (Host.sin : (⟨S1024, .f32⟩ : BufTy).Contents (Elt F) → (⟨S1024, .f32⟩ : BufTy).Contents (Elt F)),
    unary main_v2129 main_v2130 (broadcastInDim S1024x1 ![0] bcast_S1024_S1024x1_0 : (⟨S1024, .f32⟩ : BufTy).Contents (Elt F) → (⟨S1024x1, .f32⟩ : BufTy).Contents (Elt F)),
    unary main_v2124 main_v2131 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2131 main_v2132 rfl shapeCasts_S1024x1x16_S1024x16,
    unary main_v2128 main_v2133 (broadcastInDim S1024x16 ![0, 1] bcast_S1024x1_S1024x16_0_1 : (⟨S1024x1, .f32⟩ : BufTy).Contents (Elt F) → (⟨S1024x16, .f32⟩ : BufTy).Contents (Elt F)),
    binary main_v2133 main_v2117 main_v2134 (mulf : (⟨S1024x16, .f32⟩ : BufTy).Contents (Elt F) → (⟨S1024x16, .f32⟩ : BufTy).Contents (Elt F) → (⟨S1024x16, .f32⟩ : BufTy).Contents (Elt F)),
    unary main_v2130 main_v2135 (broadcastInDim S1024x16 ![0, 1] bcast_S1024x1_S1024x16_0_1 : (⟨S1024x1, .f32⟩ : BufTy).Contents (Elt F) → (⟨S1024x16, .f32⟩ : BufTy).Contents (Elt F)),
    binary main_v2135 main_v2132 main_v2136 (mulf : (⟨S1024x16, .f32⟩ : BufTy).Contents (Elt F) → (⟨S1024x16, .f32⟩ : BufTy).Contents (Elt F) → (⟨S1024x16, .f32⟩ : BufTy).Contents (Elt F)),
    binary main_v2134 main_v2136 main_v2137 (subf : (⟨S1024x16, .f32⟩ : BufTy).Contents (Elt F) → (⟨S1024x16, .f32⟩ : BufTy).Contents (Elt F) → (⟨S1024x16, .f32⟩ : BufTy).Contents (Elt F)),
    unary main_v2130 main_v2138 (broadcastInDim S1024x16 ![0, 1] bcast_S1024x1_S1024x16_0_1 : (⟨S1024x1, .f32⟩ : BufTy).Contents (Elt F) → (⟨S1024x16, .f32⟩ : BufTy).Contents (Elt F)),
    binary main_v2138 main_v2117 main_v2139 (mulf : (⟨S1024x16, .f32⟩ : BufTy).Contents (Elt F) → (⟨S1024x16, .f32⟩ : BufTy).Contents (Elt F) → (⟨S1024x16, .f32⟩ : BufTy).Contents (Elt F)),
    unary main_v2128 main_v2140 (broadcastInDim S1024x16 ![0, 1] bcast_S1024x1_S1024x16_0_1 : (⟨S1024x1, .f32⟩ : BufTy).Contents (Elt F) → (⟨S1024x16, .f32⟩ : BufTy).Contents (Elt F)),
    binary main_v2140 main_v2132 main_v2141 (mulf : (⟨S1024x16, .f32⟩ : BufTy).Contents (Elt F) → (⟨S1024x16, .f32⟩ : BufTy).Contents (Elt F) → (⟨S1024x16, .f32⟩ : BufTy).Contents (Elt F)),
    binary main_v2139 main_v2141 main_v2142 (addf : (⟨S1024x16, .f32⟩ : BufTy).Contents (Elt F) → (⟨S1024x16, .f32⟩ : BufTy).Contents (Elt F) → (⟨S1024x16, .f32⟩ : BufTy).Contents (Elt F)),
    nullary main_c_113 (constantI S_ 32 15#32),
    unary main_c_113 main_v2143 (broadcastInDim S1 ![] bcast_S_S1 : (⟨S_, .i32⟩ : BufTy).Contents (Elt F) → (⟨S1, .i32⟩ : BufTy).Contents (Elt F)),
    ternary main_v2124 main_v2143 main_v2142 main_v2144 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 41 … 60 of window 37. -/
abbrev st113 : List (HloOp τ sig (Elt F)) :=
  [ nullary main_c_114 (constantI S_ 32 9#32),
    unary main_c_114 main_v2145 (broadcastInDim S1 ![] bcast_S_S1 : (⟨S_, .i32⟩ : BufTy).Contents (Elt F) → (⟨S1, .i32⟩ : BufTy).Contents (Elt F)),
    ternary main_v2144 main_v2145 main_v2137 main_v2146 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2146 main_v2147 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v2147 main_v2148 rfl shapeCasts_S1024x1x16_S1024x16,
    unary main_arg1 main_v2149 ((extractStridedSlice S1024x1 ![0, 105] · slices_S1024x120_S1024x1_0_105) : (⟨S1024x120, .f32⟩ : BufTy).Contents (Elt F) → (⟨S1024x1, .f32⟩ : BufTy).Contents (Elt F)),
    reshape main_v2149 main_v2150 rfl shapeCasts_S1024x1_S1024,
    unary main_v2150 main_v2151 (Host.cos : (⟨S1024, .f32⟩ : BufTy).Contents (Elt F) → (⟨S1024, .f32⟩ : BufTy).Contents (Elt F)),
    unary main_v2151 main_v2152 (broadcastInDim S1024x1 ![0] bcast_S1024_S1024x1_0 : (⟨S1024, .f32⟩ : BufTy).Contents (Elt F) → (⟨S1024x1, .f32⟩ : BufTy).Contents (Elt F)),
    unary main_v2150 main_v2153 (Host.sin : (⟨S1024, .f32⟩ : BufTy).Contents (Elt F) → (⟨S1024, .f32⟩ : BufTy).Contents (Elt F)),
    unary main_v2153 main_v2154 (broadcastInDim S1024x1 ![0] bcast_S1024_S1024x1_0 : (⟨S1024, .f32⟩ : BufTy).Contents (Elt F) → (⟨S1024x1, .f32⟩ : BufTy).Contents (Elt F)),
    unary main_v2146 main_v2155 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v2155 main_v2156 rfl shapeCasts_S1024x1x16_S1024x16,
    unary main_v2152 main_v2157 (broadcastInDim S1024x16 ![0, 1] bcast_S1024x1_S1024x16_0_1 : (⟨S1024x1, .f32⟩ : BufTy).Contents (Elt F) → (⟨S1024x16, .f32⟩ : BufTy).Contents (Elt F)),
    binary main_v2157 main_v2148 main_v2158 (mulf : (⟨S1024x16, .f32⟩ : BufTy).Contents (Elt F) → (⟨S1024x16, .f32⟩ : BufTy).Contents (Elt F) → (⟨S1024x16, .f32⟩ : BufTy).Contents (Elt F)),
    unary main_v2154 main_v2159 (broadcastInDim S1024x16 ![0, 1] bcast_S1024x1_S1024x16_0_1 : (⟨S1024x1, .f32⟩ : BufTy).Contents (Elt F) → (⟨S1024x16, .f32⟩ : BufTy).Contents (Elt F)),
    binary main_v2159 main_v2156 main_v2160 (mulf : (⟨S1024x16, .f32⟩ : BufTy).Contents (Elt F) → (⟨S1024x16, .f32⟩ : BufTy).Contents (Elt F) → (⟨S1024x16, .f32⟩ : BufTy).Contents (Elt F)),
    binary main_v2158 main_v2160 main_v2161 (subf : (⟨S1024x16, .f32⟩ : BufTy).Contents (Elt F) → (⟨S1024x16, .f32⟩ : BufTy).Contents (Elt F) → (⟨S1024x16, .f32⟩ : BufTy).Contents (Elt F)),
    unary main_v2154 main_v2162 (broadcastInDim S1024x16 ![0, 1] bcast_S1024x1_S1024x16_0_1 : (⟨S1024x1, .f32⟩ : BufTy).Contents (Elt F) → (⟨S1024x16, .f32⟩ : BufTy).Contents (Elt F)),
    binary main_v2162 main_v2148 main_v2163 (mulf : (⟨S1024x16, .f32⟩ : BufTy).Contents (Elt F) → (⟨S1024x16, .f32⟩ : BufTy).Contents (Elt F) → (⟨S1024x16, .f32⟩ : BufTy).Contents (Elt F)) ]
/-- Operations 1 … 20 of window 38. -/
abbrev st114 : List (HloOp τ sig (Elt F)) :=
  [ unary main_v2152 main_v2164 (broadcastInDim S1024x16 ![0, 1] bcast_S1024x1_S1024x16_0_1 : (⟨S1024x1, .f32⟩ : BufTy).Contents (Elt F) → (⟨S1024x16, .f32⟩ : BufTy).Contents (Elt F)),
    binary main_v2164 main_v2156 main_v2165 (mulf : (⟨S1024x16, .f32⟩ : BufTy).Contents (Elt F) → (⟨S1024x16, .f32⟩ : BufTy).Contents (Elt F) → (⟨S1024x16, .f32⟩ : BufTy).Contents (Elt F)),
    binary main_v2163 main_v2165 main_v2166 (addf : (⟨S1024x16, .f32⟩ : BufTy).Contents (Elt F) → (⟨S1024x16, .f32⟩ : BufTy).Contents (Elt F) → (⟨S1024x16, .f32⟩ : BufTy).Contents (Elt F)),
    nullary main_c_115 (constantI S_ 32 11#32),
    unary main_c_115 main_v2167 (broadcastInDim S1 ![] bcast_S_S1 : (⟨S_, .i32⟩ : BufTy).Contents (Elt F) → (⟨S1, .i32⟩ : BufTy).Contents (Elt F)),
    ternary main_v2146 main_v2167 main_v2166 main_v2168 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2169 ((extractStridedSlice S1024x1 ![0, 106] · slices_S1024x120_S1024x1_0_106) : (⟨S1024x120, .f32⟩ : BufTy).Contents (Elt F) → (⟨S1024x1, .f32⟩ : BufTy).Contents (Elt F)),
    reshape main_v2169 main_v2170 rfl shapeCasts_S1024x1_S1024,
    unary main_v2170 main_v2171 (Host.cos : (⟨S1024, .f32⟩ : BufTy).Contents (Elt F) → (⟨S1024, .f32⟩ : BufTy).Contents (Elt F)),
    unary main_v2171 main_v2172 (broadcastInDim S1024x1 ![0] bcast_S1024_S1024x1_0 : (⟨S1024, .f32⟩ : BufTy).Contents (Elt F) → (⟨S1024x1, .f32⟩ : BufTy).Contents (Elt F)),
    unary main_v2170 main_v2173 (Host.sin : (⟨S1024, .f32⟩ : BufTy).Contents (Elt F) → (⟨S1024, .f32⟩ : BufTy).Contents (Elt F)),
    unary main_v2173 main_v2174 (broadcastInDim S1024x1 ![0] bcast_S1024_S1024x1_0 : (⟨S1024, .f32⟩ : BufTy).Contents (Elt F) → (⟨S1024x1, .f32⟩ : BufTy).Contents (Elt F)),
    unary main_v2168 main_v2175 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v2175 main_v2176 rfl shapeCasts_S1024x1x16_S1024x16,
    unary main_v2172 main_v2177 (broadcastInDim S1024x16 ![0, 1] bcast_S1024x1_S1024x16_0_1 : (⟨S1024x1, .f32⟩ : BufTy).Contents (Elt F) → (⟨S1024x16, .f32⟩ : BufTy).Contents (Elt F)),
    binary main_v2177 main_v2161 main_v2178 (mulf : (⟨S1024x16, .f32⟩ : BufTy).Contents (Elt F) → (⟨S1024x16, .f32⟩ : BufTy).Contents (Elt F) → (⟨S1024x16, .f32⟩ : BufTy).Contents (Elt F)),
    unary main_v2174 main_v2179 (broadcastInDim S1024x16 ![0, 1] bcast_S1024x1_S1024x16_0_1 : (⟨S1024x1, .f32⟩ : BufTy).Contents (Elt F) → (⟨S1024x16, .f32⟩ : BufTy).Contents (Elt F)),
    binary main_v2179 main_v2176 main_v2180 (mulf : (⟨S1024x16, .f32⟩ : BufTy).Contents (Elt F) → (⟨S1024x16, .f32⟩ : BufTy).Contents (Elt F) → (⟨S1024x16, .f32⟩ : BufTy).Contents (Elt F)),
    binary main_v2178 main_v2180 main_v2181 (subf : (⟨S1024x16, .f32⟩ : BufTy).Contents (Elt F) → (⟨S1024x16, .f32⟩ : BufTy).Contents (Elt F) → (⟨S1024x16, .f32⟩ : BufTy).Contents (Elt F)),
    unary main_v2174 main_v2182 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 38. -/
abbrev st115 : List (HloOp τ sig (Elt F)) :=
  [ binary main_v2182 main_v2161 main_v2183 (mulf : (⟨S1024x16, .f32⟩ : BufTy).Contents (Elt F) → (⟨S1024x16, .f32⟩ : BufTy).Contents (Elt F) → (⟨S1024x16, .f32⟩ : BufTy).Contents (Elt F)),
    unary main_v2172 main_v2184 (broadcastInDim S1024x16 ![0, 1] bcast_S1024x1_S1024x16_0_1 : (⟨S1024x1, .f32⟩ : BufTy).Contents (Elt F) → (⟨S1024x16, .f32⟩ : BufTy).Contents (Elt F)),
    binary main_v2184 main_v2176 main_v2185 (mulf : (⟨S1024x16, .f32⟩ : BufTy).Contents (Elt F) → (⟨S1024x16, .f32⟩ : BufTy).Contents (Elt F) → (⟨S1024x16, .f32⟩ : BufTy).Contents (Elt F)),
    binary main_v2183 main_v2185 main_v2186 (addf : (⟨S1024x16, .f32⟩ : BufTy).Contents (Elt F) → (⟨S1024x16, .f32⟩ : BufTy).Contents (Elt F) → (⟨S1024x16, .f32⟩ : BufTy).Contents (Elt F)),
    nullary main_c_116 (constantI S_ 32 12#32),
    unary main_c_116 main_v2187 (broadcastInDim S1 ![] bcast_S_S1 : (⟨S_, .i32⟩ : BufTy).Contents (Elt F) → (⟨S1, .i32⟩ : BufTy).Contents (Elt F)),
    ternary main_v2168 main_v2187 main_v2186 main_v2188 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2189 ((extractStridedSlice S1024x1 ![0, 107] · slices_S1024x120_S1024x1_0_107) : (⟨S1024x120, .f32⟩ : BufTy).Contents (Elt F) → (⟨S1024x1, .f32⟩ : BufTy).Contents (Elt F)),
    reshape main_v2189 main_v2190 rfl shapeCasts_S1024x1_S1024,
    unary main_v2190 main_v2191 (Host.cos : (⟨S1024, .f32⟩ : BufTy).Contents (Elt F) → (⟨S1024, .f32⟩ : BufTy).Contents (Elt F)),
    unary main_v2191 main_v2192 (broadcastInDim S1024x1 ![0] bcast_S1024_S1024x1_0 : (⟨S1024, .f32⟩ : BufTy).Contents (Elt F) → (⟨S1024x1, .f32⟩ : BufTy).Contents (Elt F)),
    unary main_v2190 main_v2193 (Host.sin : (⟨S1024, .f32⟩ : BufTy).Contents (Elt F) → (⟨S1024, .f32⟩ : BufTy).Contents (Elt F)),
    unary main_v2193 main_v2194 (broadcastInDim S1024x1 ![0] bcast_S1024_S1024x1_0 : (⟨S1024, .f32⟩ : BufTy).Contents (Elt F) → (⟨S1024x1, .f32⟩ : BufTy).Contents (Elt F)),
    unary main_v2188 main_v2195 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2195 main_v2196 rfl shapeCasts_S1024x1x16_S1024x16,
    unary main_v2192 main_v2197 (broadcastInDim S1024x16 ![0, 1] bcast_S1024x1_S1024x16_0_1 : (⟨S1024x1, .f32⟩ : BufTy).Contents (Elt F) → (⟨S1024x16, .f32⟩ : BufTy).Contents (Elt F)),
    binary main_v2197 main_v2181 main_v2198 (mulf : (⟨S1024x16, .f32⟩ : BufTy).Contents (Elt F) → (⟨S1024x16, .f32⟩ : BufTy).Contents (Elt F) → (⟨S1024x16, .f32⟩ : BufTy).Contents (Elt F)),
    unary main_v2194 main_v2199 (broadcastInDim S1024x16 ![0, 1] bcast_S1024x1_S1024x16_0_1 : (⟨S1024x1, .f32⟩ : BufTy).Contents (Elt F) → (⟨S1024x16, .f32⟩ : BufTy).Contents (Elt F)),
    binary main_v2199 main_v2196 main_v2200 (mulf : (⟨S1024x16, .f32⟩ : BufTy).Contents (Elt F) → (⟨S1024x16, .f32⟩ : BufTy).Contents (Elt F) → (⟨S1024x16, .f32⟩ : BufTy).Contents (Elt F)),
    binary main_v2198 main_v2200 main_v2201 (subf : (⟨S1024x16, .f32⟩ : BufTy).Contents (Elt F) → (⟨S1024x16, .f32⟩ : BufTy).Contents (Elt F) → (⟨S1024x16, .f32⟩ : BufTy).Contents (Elt F)) ]
/-- Operations 41 … 60 of window 38. -/
abbrev st116 : List (HloOp τ sig (Elt F)) :=
  [ unary main_v2194 main_v2202 (broadcastInDim S1024x16 ![0, 1] bcast_S1024x1_S1024x16_0_1 : (⟨S1024x1, .f32⟩ : BufTy).Contents (Elt F) → (⟨S1024x16, .f32⟩ : BufTy).Contents (Elt F)),
    binary main_v2202 main_v2181 main_v2203 (mulf : (⟨S1024x16, .f32⟩ : BufTy).Contents (Elt F) → (⟨S1024x16, .f32⟩ : BufTy).Contents (Elt F) → (⟨S1024x16, .f32⟩ : BufTy).Contents (Elt F)),
    unary main_v2192 main_v2204 (broadcastInDim S1024x16 ![0, 1] bcast_S1024x1_S1024x16_0_1 : (⟨S1024x1, .f32⟩ : BufTy).Contents (Elt F) → (⟨S1024x16, .f32⟩ : BufTy).Contents (Elt F)),
    binary main_v2204 main_v2196 main_v2205 (mulf : (⟨S1024x16, .f32⟩ : BufTy).Contents (Elt F) → (⟨S1024x16, .f32⟩ : BufTy).Contents (Elt F) → (⟨S1024x16, .f32⟩ : BufTy).Contents (Elt F)),
    binary main_v2203 main_v2205 main_v2206 (addf : (⟨S1024x16, .f32⟩ : BufTy).Contents (Elt F) → (⟨S1024x16, .f32⟩ : BufTy).Contents (Elt F) → (⟨S1024x16, .f32⟩ : BufTy).Contents (Elt F)),
    nullary main_c_117 (constantI S_ 32 13#32),
    unary main_c_117 main_v2207 (broadcastInDim S1 ![] bcast_S_S1 : (⟨S_, .i32⟩ : BufTy).Contents (Elt F) → (⟨S1, .i32⟩ : BufTy).Contents (Elt F)),
    ternary main_v2188 main_v2207 main_v2206 main_v2208 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2209 ((extractStridedSlice S1024x1 ![0, 108] · slices_S1024x120_S1024x1_0_108) : (⟨S1024x120, .f32⟩ : BufTy).Contents (Elt F) → (⟨S1024x1, .f32⟩ : BufTy).Contents (Elt F)),
    reshape main_v2209 main_v2210 rfl shapeCasts_S1024x1_S1024,
    unary main_v2210 main_v2211 (Host.cos : (⟨S1024, .f32⟩ : BufTy).Contents (Elt F) → (⟨S1024, .f32⟩ : BufTy).Contents (Elt F)),
    unary main_v2211 main_v2212 (broadcastInDim S1024x1 ![0] bcast_S1024_S1024x1_0 : (⟨S1024, .f32⟩ : BufTy).Contents (Elt F) → (⟨S1024x1, .f32⟩ : BufTy).Contents (Elt F)),
    unary main_v2210 main_v2213 (Host.sin : (⟨S1024, .f32⟩ : BufTy).Contents (Elt F) → (⟨S1024, .f32⟩ : BufTy).Contents (Elt F)),
    unary main_v2213 main_v2214 (broadcastInDim S1024x1 ![0] bcast_S1024_S1024x1_0 : (⟨S1024, .f32⟩ : BufTy).Contents (Elt F) → (⟨S1024x1, .f32⟩ : BufTy).Contents (Elt F)),
    unary main_v2208 main_v2215 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2215 main_v2216 rfl shapeCasts_S1024x1x16_S1024x16,
    unary main_v2212 main_v2217 (broadcastInDim S1024x16 ![0, 1] bcast_S1024x1_S1024x16_0_1 : (⟨S1024x1, .f32⟩ : BufTy).Contents (Elt F) → (⟨S1024x16, .f32⟩ : BufTy).Contents (Elt F)),
    binary main_v2217 main_v2201 main_v2218 (mulf : (⟨S1024x16, .f32⟩ : BufTy).Contents (Elt F) → (⟨S1024x16, .f32⟩ : BufTy).Contents (Elt F) → (⟨S1024x16, .f32⟩ : BufTy).Contents (Elt F)),
    unary main_v2214 main_v2219 (broadcastInDim S1024x16 ![0, 1] bcast_S1024x1_S1024x16_0_1 : (⟨S1024x1, .f32⟩ : BufTy).Contents (Elt F) → (⟨S1024x16, .f32⟩ : BufTy).Contents (Elt F)),
    binary main_v2219 main_v2216 main_v2220 (mulf : (⟨S1024x16, .f32⟩ : BufTy).Contents (Elt F) → (⟨S1024x16, .f32⟩ : BufTy).Contents (Elt F) → (⟨S1024x16, .f32⟩ : BufTy).Contents (Elt F)) ]
/-- Operations 1 … 20 of window 39. -/
abbrev st117 : List (HloOp τ sig (Elt F)) :=
  [ binary main_v2218 main_v2220 main_v2221 (subf : (⟨S1024x16, .f32⟩ : BufTy).Contents (Elt F) → (⟨S1024x16, .f32⟩ : BufTy).Contents (Elt F) → (⟨S1024x16, .f32⟩ : BufTy).Contents (Elt F)),
    unary main_v2214 main_v2222 (broadcastInDim S1024x16 ![0, 1] bcast_S1024x1_S1024x16_0_1 : (⟨S1024x1, .f32⟩ : BufTy).Contents (Elt F) → (⟨S1024x16, .f32⟩ : BufTy).Contents (Elt F)),
    binary main_v2222 main_v2201 main_v2223 (mulf : (⟨S1024x16, .f32⟩ : BufTy).Contents (Elt F) → (⟨S1024x16, .f32⟩ : BufTy).Contents (Elt F) → (⟨S1024x16, .f32⟩ : BufTy).Contents (Elt F)),
    unary main_v2212 main_v2224 (broadcastInDim S1024x16 ![0, 1] bcast_S1024x1_S1024x16_0_1 : (⟨S1024x1, .f32⟩ : BufTy).Contents (Elt F) → (⟨S1024x16, .f32⟩ : BufTy).Contents (Elt F)),
    binary main_v2224 main_v2216 main_v2225 (mulf : (⟨S1024x16, .f32⟩ : BufTy).Contents (Elt F) → (⟨S1024x16, .f32⟩ : BufTy).Contents (Elt F) → (⟨S1024x16, .f32⟩ : BufTy).Contents (Elt F)),
    binary main_v2223 main_v2225 main_v2226 (addf : (⟨S1024x16, .f32⟩ : BufTy).Contents (Elt F) → (⟨S1024x16, .f32⟩ : BufTy).Contents (Elt F) → (⟨S1024x16, .f32⟩ : BufTy).Contents (Elt F)),
    nullary main_c_118 (constantI S_ 32 14#32),
    unary main_c_118 main_v2227 (broadcastInDim S1 ![] bcast_S_S1 : (⟨S_, .i32⟩ : BufTy).Contents (Elt F) → (⟨S1, .i32⟩ : BufTy).Contents (Elt F)),
    ternary main_v2208 main_v2227 main_v2226 main_v2228 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2229 ((extractStridedSlice S1024x1 ![0, 109] · slices_S1024x120_S1024x1_0_109) : (⟨S1024x120, .f32⟩ : BufTy).Contents (Elt F) → (⟨S1024x1, .f32⟩ : BufTy).Contents (Elt F)),
    reshape main_v2229 main_v2230 rfl shapeCasts_S1024x1_S1024,
    unary main_v2230 main_v2231 (Host.cos : (⟨S1024, .f32⟩ : BufTy).Contents (Elt F) → (⟨S1024, .f32⟩ : BufTy).Contents (Elt F)),
    unary main_v2231 main_v2232 (broadcastInDim S1024x1 ![0] bcast_S1024_S1024x1_0 : (⟨S1024, .f32⟩ : BufTy).Contents (Elt F) → (⟨S1024x1, .f32⟩ : BufTy).Contents (Elt F)),
    unary main_v2230 main_v2233 (Host.sin : (⟨S1024, .f32⟩ : BufTy).Contents (Elt F) → (⟨S1024, .f32⟩ : BufTy).Contents (Elt F)),
    unary main_v2233 main_v2234 (broadcastInDim S1024x1 ![0] bcast_S1024_S1024x1_0 : (⟨S1024, .f32⟩ : BufTy).Contents (Elt F) → (⟨S1024x1, .f32⟩ : BufTy).Contents (Elt F)),
    unary main_v2228 main_v2235 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2235 main_v2236 rfl shapeCasts_S1024x1x16_S1024x16,
    unary main_v2232 main_v2237 (broadcastInDim S1024x16 ![0, 1] bcast_S1024x1_S1024x16_0_1 : (⟨S1024x1, .f32⟩ : BufTy).Contents (Elt F) → (⟨S1024x16, .f32⟩ : BufTy).Contents (Elt F)),
    binary main_v2237 main_v2221 main_v2238 (mulf : (⟨S1024x16, .f32⟩ : BufTy).Contents (Elt F) → (⟨S1024x16, .f32⟩ : BufTy).Contents (Elt F) → (⟨S1024x16, .f32⟩ : BufTy).Contents (Elt F)),
    unary main_v2234 main_v2239 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 39. -/
abbrev st118 : List (HloOp τ sig (Elt F)) :=
  [ binary main_v2239 main_v2236 main_v2240 (mulf : (⟨S1024x16, .f32⟩ : BufTy).Contents (Elt F) → (⟨S1024x16, .f32⟩ : BufTy).Contents (Elt F) → (⟨S1024x16, .f32⟩ : BufTy).Contents (Elt F)),
    binary main_v2238 main_v2240 main_v2241 (subf : (⟨S1024x16, .f32⟩ : BufTy).Contents (Elt F) → (⟨S1024x16, .f32⟩ : BufTy).Contents (Elt F) → (⟨S1024x16, .f32⟩ : BufTy).Contents (Elt F)),
    unary main_v2234 main_v2242 (broadcastInDim S1024x16 ![0, 1] bcast_S1024x1_S1024x16_0_1 : (⟨S1024x1, .f32⟩ : BufTy).Contents (Elt F) → (⟨S1024x16, .f32⟩ : BufTy).Contents (Elt F)),
    binary main_v2242 main_v2221 main_v2243 (mulf : (⟨S1024x16, .f32⟩ : BufTy).Contents (Elt F) → (⟨S1024x16, .f32⟩ : BufTy).Contents (Elt F) → (⟨S1024x16, .f32⟩ : BufTy).Contents (Elt F)),
    unary main_v2232 main_v2244 (broadcastInDim S1024x16 ![0, 1] bcast_S1024x1_S1024x16_0_1 : (⟨S1024x1, .f32⟩ : BufTy).Contents (Elt F) → (⟨S1024x16, .f32⟩ : BufTy).Contents (Elt F)),
    binary main_v2244 main_v2236 main_v2245 (mulf : (⟨S1024x16, .f32⟩ : BufTy).Contents (Elt F) → (⟨S1024x16, .f32⟩ : BufTy).Contents (Elt F) → (⟨S1024x16, .f32⟩ : BufTy).Contents (Elt F)),
    binary main_v2243 main_v2245 main_v2246 (addf : (⟨S1024x16, .f32⟩ : BufTy).Contents (Elt F) → (⟨S1024x16, .f32⟩ : BufTy).Contents (Elt F) → (⟨S1024x16, .f32⟩ : BufTy).Contents (Elt F)),
    nullary main_c_119 (constantI S_ 32 15#32),
    unary main_c_119 main_v2247 (broadcastInDim S1 ![] bcast_S_S1 : (⟨S_, .i32⟩ : BufTy).Contents (Elt F) → (⟨S1, .i32⟩ : BufTy).Contents (Elt F)),
    ternary main_v2228 main_v2247 main_v2246 main_v2248 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_120 (constantI S_ 32 10#32),
    unary main_c_120 main_v2249 (broadcastInDim S1 ![] bcast_S_S1 : (⟨S_, .i32⟩ : BufTy).Contents (Elt F) → (⟨S1, .i32⟩ : BufTy).Contents (Elt F)),
    ternary main_v2248 main_v2249 main_v2241 main_v2250 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2250 main_v2251 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v2251 main_v2252 rfl shapeCasts_S1024x1x16_S1024x16,
    unary main_arg1 main_v2253 ((extractStridedSlice S1024x1 ![0, 110] · slices_S1024x120_S1024x1_0_110) : (⟨S1024x120, .f32⟩ : BufTy).Contents (Elt F) → (⟨S1024x1, .f32⟩ : BufTy).Contents (Elt F)),
    reshape main_v2253 main_v2254 rfl shapeCasts_S1024x1_S1024,
    unary main_v2254 main_v2255 (Host.cos : (⟨S1024, .f32⟩ : BufTy).Contents (Elt F) → (⟨S1024, .f32⟩ : BufTy).Contents (Elt F)),
    unary main_v2255 main_v2256 (broadcastInDim S1024x1 ![0] bcast_S1024_S1024x1_0 : (⟨S1024, .f32⟩ : BufTy).Contents (Elt F) → (⟨S1024x1, .f32⟩ : BufTy).Contents (Elt F)),
    unary main_v2254 main_v2257 (Host.sin : (⟨S1024, .f32⟩ : BufTy).Contents (Elt F) → (⟨S1024, .f32⟩ : BufTy).Contents (Elt F)) ]
/-- Operations 41 … 60 of window 39. -/
abbrev st119 : List (HloOp τ sig (Elt F)) :=
  [ unary main_v2257 main_v2258 (broadcastInDim S1024x1 ![0] bcast_S1024_S1024x1_0 : (⟨S1024, .f32⟩ : BufTy).Contents (Elt F) → (⟨S1024x1, .f32⟩ : BufTy).Contents (Elt F)),
    unary main_v2250 main_v2259 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v2259 main_v2260 rfl shapeCasts_S1024x1x16_S1024x16,
    unary main_v2256 main_v2261 (broadcastInDim S1024x16 ![0, 1] bcast_S1024x1_S1024x16_0_1 : (⟨S1024x1, .f32⟩ : BufTy).Contents (Elt F) → (⟨S1024x16, .f32⟩ : BufTy).Contents (Elt F)),
    binary main_v2261 main_v2252 main_v2262 (mulf : (⟨S1024x16, .f32⟩ : BufTy).Contents (Elt F) → (⟨S1024x16, .f32⟩ : BufTy).Contents (Elt F) → (⟨S1024x16, .f32⟩ : BufTy).Contents (Elt F)),
    unary main_v2258 main_v2263 (broadcastInDim S1024x16 ![0, 1] bcast_S1024x1_S1024x16_0_1 : (⟨S1024x1, .f32⟩ : BufTy).Contents (Elt F) → (⟨S1024x16, .f32⟩ : BufTy).Contents (Elt F)),
    binary main_v2263 main_v2260 main_v2264 (mulf : (⟨S1024x16, .f32⟩ : BufTy).Contents (Elt F) → (⟨S1024x16, .f32⟩ : BufTy).Contents (Elt F) → (⟨S1024x16, .f32⟩ : BufTy).Contents (Elt F)),
    binary main_v2262 main_v2264 main_v2265 (subf : (⟨S1024x16, .f32⟩ : BufTy).Contents (Elt F) → (⟨S1024x16, .f32⟩ : BufTy).Contents (Elt F) → (⟨S1024x16, .f32⟩ : BufTy).Contents (Elt F)),
    unary main_v2258 main_v2266 (broadcastInDim S1024x16 ![0, 1] bcast_S1024x1_S1024x16_0_1 : (⟨S1024x1, .f32⟩ : BufTy).Contents (Elt F) → (⟨S1024x16, .f32⟩ : BufTy).Contents (Elt F)),
    binary main_v2266 main_v2252 main_v2267 (mulf : (⟨S1024x16, .f32⟩ : BufTy).Contents (Elt F) → (⟨S1024x16, .f32⟩ : BufTy).Contents (Elt F) → (⟨S1024x16, .f32⟩ : BufTy).Contents (Elt F)),
    unary main_v2256 main_v2268 (broadcastInDim S1024x16 ![0, 1] bcast_S1024x1_S1024x16_0_1 : (⟨S1024x1, .f32⟩ : BufTy).Contents (Elt F) → (⟨S1024x16, .f32⟩ : BufTy).Contents (Elt F)),
    binary main_v2268 main_v2260 main_v2269 (mulf : (⟨S1024x16, .f32⟩ : BufTy).Contents (Elt F) → (⟨S1024x16, .f32⟩ : BufTy).Contents (Elt F) → (⟨S1024x16, .f32⟩ : BufTy).Contents (Elt F)),
    binary main_v2267 main_v2269 main_v2270 (addf : (⟨S1024x16, .f32⟩ : BufTy).Contents (Elt F) → (⟨S1024x16, .f32⟩ : BufTy).Contents (Elt F) → (⟨S1024x16, .f32⟩ : BufTy).Contents (Elt F)),
    nullary main_c_121 (constantI S_ 32 12#32),
    unary main_c_121 main_v2271 (broadcastInDim S1 ![] bcast_S_S1 : (⟨S_, .i32⟩ : BufTy).Contents (Elt F) → (⟨S1, .i32⟩ : BufTy).Contents (Elt F)),
    ternary main_v2250 main_v2271 main_v2270 main_v2272 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2273 ((extractStridedSlice S1024x1 ![0, 111] · slices_S1024x120_S1024x1_0_111) : (⟨S1024x120, .f32⟩ : BufTy).Contents (Elt F) → (⟨S1024x1, .f32⟩ : BufTy).Contents (Elt F)),
    reshape main_v2273 main_v2274 rfl shapeCasts_S1024x1_S1024,
    unary main_v2274 main_v2275 (Host.cos : (⟨S1024, .f32⟩ : BufTy).Contents (Elt F) → (⟨S1024, .f32⟩ : BufTy).Contents (Elt F)),
    unary main_v2275 main_v2276 (broadcastInDim S1024x1 ![0] bcast_S1024_S1024x1_0 : (⟨S1024, .f32⟩ : BufTy).Contents (Elt F) → (⟨S1024x1, .f32⟩ : BufTy).Contents (Elt F)) ]
/-- Operations 1 … 20 of window 40. -/
abbrev st120 : List (HloOp τ sig (Elt F)) :=
  [ unary main_v2274 main_v2277 (Host.sin : (⟨S1024, .f32⟩ : BufTy).Contents (Elt F) → (⟨S1024, .f32⟩ : BufTy).Contents (Elt F)),
    unary main_v2277 main_v2278 (broadcastInDim S1024x1 ![0] bcast_S1024_S1024x1_0 : (⟨S1024, .f32⟩ : BufTy).Contents (Elt F) → (⟨S1024x1, .f32⟩ : BufTy).Contents (Elt F)),
    unary main_v2272 main_v2279 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2279 main_v2280 rfl shapeCasts_S1024x1x16_S1024x16,
    unary main_v2276 main_v2281 (broadcastInDim S1024x16 ![0, 1] bcast_S1024x1_S1024x16_0_1 : (⟨S1024x1, .f32⟩ : BufTy).Contents (Elt F) → (⟨S1024x16, .f32⟩ : BufTy).Contents (Elt F)),
    binary main_v2281 main_v2265 main_v2282 (mulf : (⟨S1024x16, .f32⟩ : BufTy).Contents (Elt F) → (⟨S1024x16, .f32⟩ : BufTy).Contents (Elt F) → (⟨S1024x16, .f32⟩ : BufTy).Contents (Elt F)),
    unary main_v2278 main_v2283 (broadcastInDim S1024x16 ![0, 1] bcast_S1024x1_S1024x16_0_1 : (⟨S1024x1, .f32⟩ : BufTy).Contents (Elt F) → (⟨S1024x16, .f32⟩ : BufTy).Contents (Elt F)),
    binary main_v2283 main_v2280 main_v2284 (mulf : (⟨S1024x16, .f32⟩ : BufTy).Contents (Elt F) → (⟨S1024x16, .f32⟩ : BufTy).Contents (Elt F) → (⟨S1024x16, .f32⟩ : BufTy).Contents (Elt F)),
    binary main_v2282 main_v2284 main_v2285 (subf : (⟨S1024x16, .f32⟩ : BufTy).Contents (Elt F) → (⟨S1024x16, .f32⟩ : BufTy).Contents (Elt F) → (⟨S1024x16, .f32⟩ : BufTy).Contents (Elt F)),
    unary main_v2278 main_v2286 (broadcastInDim S1024x16 ![0, 1] bcast_S1024x1_S1024x16_0_1 : (⟨S1024x1, .f32⟩ : BufTy).Contents (Elt F) → (⟨S1024x16, .f32⟩ : BufTy).Contents (Elt F)),
    binary main_v2286 main_v2265 main_v2287 (mulf : (⟨S1024x16, .f32⟩ : BufTy).Contents (Elt F) → (⟨S1024x16, .f32⟩ : BufTy).Contents (Elt F) → (⟨S1024x16, .f32⟩ : BufTy).Contents (Elt F)),
    unary main_v2276 main_v2288 (broadcastInDim S1024x16 ![0, 1] bcast_S1024x1_S1024x16_0_1 : (⟨S1024x1, .f32⟩ : BufTy).Contents (Elt F) → (⟨S1024x16, .f32⟩ : BufTy).Contents (Elt F)),
    binary main_v2288 main_v2280 main_v2289 (mulf : (⟨S1024x16, .f32⟩ : BufTy).Contents (Elt F) → (⟨S1024x16, .f32⟩ : BufTy).Contents (Elt F) → (⟨S1024x16, .f32⟩ : BufTy).Contents (Elt F)),
    binary main_v2287 main_v2289 main_v2290 (addf : (⟨S1024x16, .f32⟩ : BufTy).Contents (Elt F) → (⟨S1024x16, .f32⟩ : BufTy).Contents (Elt F) → (⟨S1024x16, .f32⟩ : BufTy).Contents (Elt F)),
    nullary main_c_122 (constantI S_ 32 13#32),
    unary main_c_122 main_v2291 (broadcastInDim S1 ![] bcast_S_S1 : (⟨S_, .i32⟩ : BufTy).Contents (Elt F) → (⟨S1, .i32⟩ : BufTy).Contents (Elt F)),
    ternary main_v2272 main_v2291 main_v2290 main_v2292 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2293 ((extractStridedSlice S1024x1 ![0, 112] · slices_S1024x120_S1024x1_0_112) : (⟨S1024x120, .f32⟩ : BufTy).Contents (Elt F) → (⟨S1024x1, .f32⟩ : BufTy).Contents (Elt F)),
    reshape main_v2293 main_v2294 rfl shapeCasts_S1024x1_S1024,
    unary main_v2294 main_v2295 (Host.cos : (⟨S1024, .f32⟩ : BufTy).Contents (Elt F) → (⟨S1024, .f32⟩ : BufTy).Contents (Elt F)) ]
/-- Operations 21 … 40 of window 40. -/
abbrev st121 : List (HloOp τ sig (Elt F)) :=
  [ unary main_v2295 main_v2296 (broadcastInDim S1024x1 ![0] bcast_S1024_S1024x1_0 : (⟨S1024, .f32⟩ : BufTy).Contents (Elt F) → (⟨S1024x1, .f32⟩ : BufTy).Contents (Elt F)),
    unary main_v2294 main_v2297 (Host.sin : (⟨S1024, .f32⟩ : BufTy).Contents (Elt F) → (⟨S1024, .f32⟩ : BufTy).Contents (Elt F)),
    unary main_v2297 main_v2298 (broadcastInDim S1024x1 ![0] bcast_S1024_S1024x1_0 : (⟨S1024, .f32⟩ : BufTy).Contents (Elt F) → (⟨S1024x1, .f32⟩ : BufTy).Contents (Elt F)),
    unary main_v2292 main_v2299 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2299 main_v2300 rfl shapeCasts_S1024x1x16_S1024x16,
    unary main_v2296 main_v2301 (broadcastInDim S1024x16 ![0, 1] bcast_S1024x1_S1024x16_0_1 : (⟨S1024x1, .f32⟩ : BufTy).Contents (Elt F) → (⟨S1024x16, .f32⟩ : BufTy).Contents (Elt F)),
    binary main_v2301 main_v2285 main_v2302 (mulf : (⟨S1024x16, .f32⟩ : BufTy).Contents (Elt F) → (⟨S1024x16, .f32⟩ : BufTy).Contents (Elt F) → (⟨S1024x16, .f32⟩ : BufTy).Contents (Elt F)),
    unary main_v2298 main_v2303 (broadcastInDim S1024x16 ![0, 1] bcast_S1024x1_S1024x16_0_1 : (⟨S1024x1, .f32⟩ : BufTy).Contents (Elt F) → (⟨S1024x16, .f32⟩ : BufTy).Contents (Elt F)),
    binary main_v2303 main_v2300 main_v2304 (mulf : (⟨S1024x16, .f32⟩ : BufTy).Contents (Elt F) → (⟨S1024x16, .f32⟩ : BufTy).Contents (Elt F) → (⟨S1024x16, .f32⟩ : BufTy).Contents (Elt F)),
    binary main_v2302 main_v2304 main_v2305 (subf : (⟨S1024x16, .f32⟩ : BufTy).Contents (Elt F) → (⟨S1024x16, .f32⟩ : BufTy).Contents (Elt F) → (⟨S1024x16, .f32⟩ : BufTy).Contents (Elt F)),
    unary main_v2298 main_v2306 (broadcastInDim S1024x16 ![0, 1] bcast_S1024x1_S1024x16_0_1 : (⟨S1024x1, .f32⟩ : BufTy).Contents (Elt F) → (⟨S1024x16, .f32⟩ : BufTy).Contents (Elt F)),
    binary main_v2306 main_v2285 main_v2307 (mulf : (⟨S1024x16, .f32⟩ : BufTy).Contents (Elt F) → (⟨S1024x16, .f32⟩ : BufTy).Contents (Elt F) → (⟨S1024x16, .f32⟩ : BufTy).Contents (Elt F)),
    unary main_v2296 main_v2308 (broadcastInDim S1024x16 ![0, 1] bcast_S1024x1_S1024x16_0_1 : (⟨S1024x1, .f32⟩ : BufTy).Contents (Elt F) → (⟨S1024x16, .f32⟩ : BufTy).Contents (Elt F)),
    binary main_v2308 main_v2300 main_v2309 (mulf : (⟨S1024x16, .f32⟩ : BufTy).Contents (Elt F) → (⟨S1024x16, .f32⟩ : BufTy).Contents (Elt F) → (⟨S1024x16, .f32⟩ : BufTy).Contents (Elt F)),
    binary main_v2307 main_v2309 main_v2310 (addf : (⟨S1024x16, .f32⟩ : BufTy).Contents (Elt F) → (⟨S1024x16, .f32⟩ : BufTy).Contents (Elt F) → (⟨S1024x16, .f32⟩ : BufTy).Contents (Elt F)),
    nullary main_c_123 (constantI S_ 32 14#32),
    unary main_c_123 main_v2311 (broadcastInDim S1 ![] bcast_S_S1 : (⟨S_, .i32⟩ : BufTy).Contents (Elt F) → (⟨S1, .i32⟩ : BufTy).Contents (Elt F)),
    ternary main_v2292 main_v2311 main_v2310 main_v2312 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2313 ((extractStridedSlice S1024x1 ![0, 113] · slices_S1024x120_S1024x1_0_113) : (⟨S1024x120, .f32⟩ : BufTy).Contents (Elt F) → (⟨S1024x1, .f32⟩ : BufTy).Contents (Elt F)),
    reshape main_v2313 main_v2314 rfl shapeCasts_S1024x1_S1024 ]
/-- Operations 41 … 60 of window 40. -/
abbrev st122 : List (HloOp τ sig (Elt F)) :=
  [ unary main_v2314 main_v2315 (Host.cos : (⟨S1024, .f32⟩ : BufTy).Contents (Elt F) → (⟨S1024, .f32⟩ : BufTy).Contents (Elt F)),
    unary main_v2315 main_v2316 (broadcastInDim S1024x1 ![0] bcast_S1024_S1024x1_0 : (⟨S1024, .f32⟩ : BufTy).Contents (Elt F) → (⟨S1024x1, .f32⟩ : BufTy).Contents (Elt F)),
    unary main_v2314 main_v2317 (Host.sin : (⟨S1024, .f32⟩ : BufTy).Contents (Elt F) → (⟨S1024, .f32⟩ : BufTy).Contents (Elt F)),
    unary main_v2317 main_v2318 (broadcastInDim S1024x1 ![0] bcast_S1024_S1024x1_0 : (⟨S1024, .f32⟩ : BufTy).Contents (Elt F) → (⟨S1024x1, .f32⟩ : BufTy).Contents (Elt F)),
    unary main_v2312 main_v2319 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2319 main_v2320 rfl shapeCasts_S1024x1x16_S1024x16,
    unary main_v2316 main_v2321 (broadcastInDim S1024x16 ![0, 1] bcast_S1024x1_S1024x16_0_1 : (⟨S1024x1, .f32⟩ : BufTy).Contents (Elt F) → (⟨S1024x16, .f32⟩ : BufTy).Contents (Elt F)),
    binary main_v2321 main_v2305 main_v2322 (mulf : (⟨S1024x16, .f32⟩ : BufTy).Contents (Elt F) → (⟨S1024x16, .f32⟩ : BufTy).Contents (Elt F) → (⟨S1024x16, .f32⟩ : BufTy).Contents (Elt F)),
    unary main_v2318 main_v2323 (broadcastInDim S1024x16 ![0, 1] bcast_S1024x1_S1024x16_0_1 : (⟨S1024x1, .f32⟩ : BufTy).Contents (Elt F) → (⟨S1024x16, .f32⟩ : BufTy).Contents (Elt F)),
    binary main_v2323 main_v2320 main_v2324 (mulf : (⟨S1024x16, .f32⟩ : BufTy).Contents (Elt F) → (⟨S1024x16, .f32⟩ : BufTy).Contents (Elt F) → (⟨S1024x16, .f32⟩ : BufTy).Contents (Elt F)),
    binary main_v2322 main_v2324 main_v2325 (subf : (⟨S1024x16, .f32⟩ : BufTy).Contents (Elt F) → (⟨S1024x16, .f32⟩ : BufTy).Contents (Elt F) → (⟨S1024x16, .f32⟩ : BufTy).Contents (Elt F)),
    unary main_v2318 main_v2326 (broadcastInDim S1024x16 ![0, 1] bcast_S1024x1_S1024x16_0_1 : (⟨S1024x1, .f32⟩ : BufTy).Contents (Elt F) → (⟨S1024x16, .f32⟩ : BufTy).Contents (Elt F)),
    binary main_v2326 main_v2305 main_v2327 (mulf : (⟨S1024x16, .f32⟩ : BufTy).Contents (Elt F) → (⟨S1024x16, .f32⟩ : BufTy).Contents (Elt F) → (⟨S1024x16, .f32⟩ : BufTy).Contents (Elt F)),
    unary main_v2316 main_v2328 (broadcastInDim S1024x16 ![0, 1] bcast_S1024x1_S1024x16_0_1 : (⟨S1024x1, .f32⟩ : BufTy).Contents (Elt F) → (⟨S1024x16, .f32⟩ : BufTy).Contents (Elt F)),
    binary main_v2328 main_v2320 main_v2329 (mulf : (⟨S1024x16, .f32⟩ : BufTy).Contents (Elt F) → (⟨S1024x16, .f32⟩ : BufTy).Contents (Elt F) → (⟨S1024x16, .f32⟩ : BufTy).Contents (Elt F)),
    binary main_v2327 main_v2329 main_v2330 (addf : (⟨S1024x16, .f32⟩ : BufTy).Contents (Elt F) → (⟨S1024x16, .f32⟩ : BufTy).Contents (Elt F) → (⟨S1024x16, .f32⟩ : BufTy).Contents (Elt F)),
    nullary main_c_124 (constantI S_ 32 15#32),
    unary main_c_124 main_v2331 (broadcastInDim S1 ![] bcast_S_S1 : (⟨S_, .i32⟩ : BufTy).Contents (Elt F) → (⟨S1, .i32⟩ : BufTy).Contents (Elt F)),
    ternary main_v2312 main_v2331 main_v2330 main_v2332 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_125 (constantI S_ 32 11#32) ]
/-- Operations 1 … 20 of window 41. -/
abbrev st123 : List (HloOp τ sig (Elt F)) :=
  [ unary main_c_125 main_v2333 (broadcastInDim S1 ![] bcast_S_S1 : (⟨S_, .i32⟩ : BufTy).Contents (Elt F) → (⟨S1, .i32⟩ : BufTy).Contents (Elt F)),
    ternary main_v2332 main_v2333 main_v2325 main_v2334 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2334 main_v2335 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v2335 main_v2336 rfl shapeCasts_S1024x1x16_S1024x16,
    unary main_arg1 main_v2337 ((extractStridedSlice S1024x1 ![0, 114] · slices_S1024x120_S1024x1_0_114) : (⟨S1024x120, .f32⟩ : BufTy).Contents (Elt F) → (⟨S1024x1, .f32⟩ : BufTy).Contents (Elt F)),
    reshape main_v2337 main_v2338 rfl shapeCasts_S1024x1_S1024,
    unary main_v2338 main_v2339 (Host.cos : (⟨S1024, .f32⟩ : BufTy).Contents (Elt F) → (⟨S1024, .f32⟩ : BufTy).Contents (Elt F)),
    unary main_v2339 main_v2340 (broadcastInDim S1024x1 ![0] bcast_S1024_S1024x1_0 : (⟨S1024, .f32⟩ : BufTy).Contents (Elt F) → (⟨S1024x1, .f32⟩ : BufTy).Contents (Elt F)),
    unary main_v2338 main_v2341 (Host.sin : (⟨S1024, .f32⟩ : BufTy).Contents (Elt F) → (⟨S1024, .f32⟩ : BufTy).Contents (Elt F)),
    unary main_v2341 main_v2342 (broadcastInDim S1024x1 ![0] bcast_S1024_S1024x1_0 : (⟨S1024, .f32⟩ : BufTy).Contents (Elt F) → (⟨S1024x1, .f32⟩ : BufTy).Contents (Elt F)),
    unary main_v2334 main_v2343 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2343 main_v2344 rfl shapeCasts_S1024x1x16_S1024x16,
    unary main_v2340 main_v2345 (broadcastInDim S1024x16 ![0, 1] bcast_S1024x1_S1024x16_0_1 : (⟨S1024x1, .f32⟩ : BufTy).Contents (Elt F) → (⟨S1024x16, .f32⟩ : BufTy).Contents (Elt F)),
    binary main_v2345 main_v2336 main_v2346 (mulf : (⟨S1024x16, .f32⟩ : BufTy).Contents (Elt F) → (⟨S1024x16, .f32⟩ : BufTy).Contents (Elt F) → (⟨S1024x16, .f32⟩ : BufTy).Contents (Elt F)),
    unary main_v2342 main_v2347 (broadcastInDim S1024x16 ![0, 1] bcast_S1024x1_S1024x16_0_1 : (⟨S1024x1, .f32⟩ : BufTy).Contents (Elt F) → (⟨S1024x16, .f32⟩ : BufTy).Contents (Elt F)),
    binary main_v2347 main_v2344 main_v2348 (mulf : (⟨S1024x16, .f32⟩ : BufTy).Contents (Elt F) → (⟨S1024x16, .f32⟩ : BufTy).Contents (Elt F) → (⟨S1024x16, .f32⟩ : BufTy).Contents (Elt F)),
    binary main_v2346 main_v2348 main_v2349 (subf : (⟨S1024x16, .f32⟩ : BufTy).Contents (Elt F) → (⟨S1024x16, .f32⟩ : BufTy).Contents (Elt F) → (⟨S1024x16, .f32⟩ : BufTy).Contents (Elt F)),
    unary main_v2342 main_v2350 (broadcastInDim S1024x16 ![0, 1] bcast_S1024x1_S1024x16_0_1 : (⟨S1024x1, .f32⟩ : BufTy).Contents (Elt F) → (⟨S1024x16, .f32⟩ : BufTy).Contents (Elt F)),
    binary main_v2350 main_v2336 main_v2351 (mulf : (⟨S1024x16, .f32⟩ : BufTy).Contents (Elt F) → (⟨S1024x16, .f32⟩ : BufTy).Contents (Elt F) → (⟨S1024x16, .f32⟩ : BufTy).Contents (Elt F)),
    unary main_v2340 main_v2352 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 41. -/
abbrev st124 : List (HloOp τ sig (Elt F)) :=
  [ binary main_v2352 main_v2344 main_v2353 (mulf : (⟨S1024x16, .f32⟩ : BufTy).Contents (Elt F) → (⟨S1024x16, .f32⟩ : BufTy).Contents (Elt F) → (⟨S1024x16, .f32⟩ : BufTy).Contents (Elt F)),
    binary main_v2351 main_v2353 main_v2354 (addf : (⟨S1024x16, .f32⟩ : BufTy).Contents (Elt F) → (⟨S1024x16, .f32⟩ : BufTy).Contents (Elt F) → (⟨S1024x16, .f32⟩ : BufTy).Contents (Elt F)),
    nullary main_c_126 (constantI S_ 32 13#32),
    unary main_c_126 main_v2355 (broadcastInDim S1 ![] bcast_S_S1 : (⟨S_, .i32⟩ : BufTy).Contents (Elt F) → (⟨S1, .i32⟩ : BufTy).Contents (Elt F)),
    ternary main_v2334 main_v2355 main_v2354 main_v2356 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2357 ((extractStridedSlice S1024x1 ![0, 115] · slices_S1024x120_S1024x1_0_115) : (⟨S1024x120, .f32⟩ : BufTy).Contents (Elt F) → (⟨S1024x1, .f32⟩ : BufTy).Contents (Elt F)),
    reshape main_v2357 main_v2358 rfl shapeCasts_S1024x1_S1024,
    unary main_v2358 main_v2359 (Host.cos : (⟨S1024, .f32⟩ : BufTy).Contents (Elt F) → (⟨S1024, .f32⟩ : BufTy).Contents (Elt F)),
    unary main_v2359 main_v2360 (broadcastInDim S1024x1 ![0] bcast_S1024_S1024x1_0 : (⟨S1024, .f32⟩ : BufTy).Contents (Elt F) → (⟨S1024x1, .f32⟩ : BufTy).Contents (Elt F)),
    unary main_v2358 main_v2361 (Host.sin : (⟨S1024, .f32⟩ : BufTy).Contents (Elt F) → (⟨S1024, .f32⟩ : BufTy).Contents (Elt F)),
    unary main_v2361 main_v2362 (broadcastInDim S1024x1 ![0] bcast_S1024_S1024x1_0 : (⟨S1024, .f32⟩ : BufTy).Contents (Elt F) → (⟨S1024x1, .f32⟩ : BufTy).Contents (Elt F)),
    unary main_v2356 main_v2363 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2363 main_v2364 rfl shapeCasts_S1024x1x16_S1024x16,
    unary main_v2360 main_v2365 (broadcastInDim S1024x16 ![0, 1] bcast_S1024x1_S1024x16_0_1 : (⟨S1024x1, .f32⟩ : BufTy).Contents (Elt F) → (⟨S1024x16, .f32⟩ : BufTy).Contents (Elt F)),
    binary main_v2365 main_v2349 main_v2366 (mulf : (⟨S1024x16, .f32⟩ : BufTy).Contents (Elt F) → (⟨S1024x16, .f32⟩ : BufTy).Contents (Elt F) → (⟨S1024x16, .f32⟩ : BufTy).Contents (Elt F)),
    unary main_v2362 main_v2367 (broadcastInDim S1024x16 ![0, 1] bcast_S1024x1_S1024x16_0_1 : (⟨S1024x1, .f32⟩ : BufTy).Contents (Elt F) → (⟨S1024x16, .f32⟩ : BufTy).Contents (Elt F)),
    binary main_v2367 main_v2364 main_v2368 (mulf : (⟨S1024x16, .f32⟩ : BufTy).Contents (Elt F) → (⟨S1024x16, .f32⟩ : BufTy).Contents (Elt F) → (⟨S1024x16, .f32⟩ : BufTy).Contents (Elt F)),
    binary main_v2366 main_v2368 main_v2369 (subf : (⟨S1024x16, .f32⟩ : BufTy).Contents (Elt F) → (⟨S1024x16, .f32⟩ : BufTy).Contents (Elt F) → (⟨S1024x16, .f32⟩ : BufTy).Contents (Elt F)),
    unary main_v2362 main_v2370 (broadcastInDim S1024x16 ![0, 1] bcast_S1024x1_S1024x16_0_1 : (⟨S1024x1, .f32⟩ : BufTy).Contents (Elt F) → (⟨S1024x16, .f32⟩ : BufTy).Contents (Elt F)),
    binary main_v2370 main_v2349 main_v2371 (mulf : (⟨S1024x16, .f32⟩ : BufTy).Contents (Elt F) → (⟨S1024x16, .f32⟩ : BufTy).Contents (Elt F) → (⟨S1024x16, .f32⟩ : BufTy).Contents (Elt F)) ]
/-- Operations 41 … 60 of window 41. -/
abbrev st125 : List (HloOp τ sig (Elt F)) :=
  [ unary main_v2360 main_v2372 (broadcastInDim S1024x16 ![0, 1] bcast_S1024x1_S1024x16_0_1 : (⟨S1024x1, .f32⟩ : BufTy).Contents (Elt F) → (⟨S1024x16, .f32⟩ : BufTy).Contents (Elt F)),
    binary main_v2372 main_v2364 main_v2373 (mulf : (⟨S1024x16, .f32⟩ : BufTy).Contents (Elt F) → (⟨S1024x16, .f32⟩ : BufTy).Contents (Elt F) → (⟨S1024x16, .f32⟩ : BufTy).Contents (Elt F)),
    binary main_v2371 main_v2373 main_v2374 (addf : (⟨S1024x16, .f32⟩ : BufTy).Contents (Elt F) → (⟨S1024x16, .f32⟩ : BufTy).Contents (Elt F) → (⟨S1024x16, .f32⟩ : BufTy).Contents (Elt F)),
    nullary main_c_127 (constantI S_ 32 14#32),
    unary main_c_127 main_v2375 (broadcastInDim S1 ![] bcast_S_S1 : (⟨S_, .i32⟩ : BufTy).Contents (Elt F) → (⟨S1, .i32⟩ : BufTy).Contents (Elt F)),
    ternary main_v2356 main_v2375 main_v2374 main_v2376 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2377 ((extractStridedSlice S1024x1 ![0, 116] · slices_S1024x120_S1024x1_0_116) : (⟨S1024x120, .f32⟩ : BufTy).Contents (Elt F) → (⟨S1024x1, .f32⟩ : BufTy).Contents (Elt F)),
    reshape main_v2377 main_v2378 rfl shapeCasts_S1024x1_S1024,
    unary main_v2378 main_v2379 (Host.cos : (⟨S1024, .f32⟩ : BufTy).Contents (Elt F) → (⟨S1024, .f32⟩ : BufTy).Contents (Elt F)),
    unary main_v2379 main_v2380 (broadcastInDim S1024x1 ![0] bcast_S1024_S1024x1_0 : (⟨S1024, .f32⟩ : BufTy).Contents (Elt F) → (⟨S1024x1, .f32⟩ : BufTy).Contents (Elt F)),
    unary main_v2378 main_v2381 (Host.sin : (⟨S1024, .f32⟩ : BufTy).Contents (Elt F) → (⟨S1024, .f32⟩ : BufTy).Contents (Elt F)),
    unary main_v2381 main_v2382 (broadcastInDim S1024x1 ![0] bcast_S1024_S1024x1_0 : (⟨S1024, .f32⟩ : BufTy).Contents (Elt F) → (⟨S1024x1, .f32⟩ : BufTy).Contents (Elt F)),
    unary main_v2376 main_v2383 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2383 main_v2384 rfl shapeCasts_S1024x1x16_S1024x16,
    unary main_v2380 main_v2385 (broadcastInDim S1024x16 ![0, 1] bcast_S1024x1_S1024x16_0_1 : (⟨S1024x1, .f32⟩ : BufTy).Contents (Elt F) → (⟨S1024x16, .f32⟩ : BufTy).Contents (Elt F)),
    binary main_v2385 main_v2369 main_v2386 (mulf : (⟨S1024x16, .f32⟩ : BufTy).Contents (Elt F) → (⟨S1024x16, .f32⟩ : BufTy).Contents (Elt F) → (⟨S1024x16, .f32⟩ : BufTy).Contents (Elt F)),
    unary main_v2382 main_v2387 (broadcastInDim S1024x16 ![0, 1] bcast_S1024x1_S1024x16_0_1 : (⟨S1024x1, .f32⟩ : BufTy).Contents (Elt F) → (⟨S1024x16, .f32⟩ : BufTy).Contents (Elt F)),
    binary main_v2387 main_v2384 main_v2388 (mulf : (⟨S1024x16, .f32⟩ : BufTy).Contents (Elt F) → (⟨S1024x16, .f32⟩ : BufTy).Contents (Elt F) → (⟨S1024x16, .f32⟩ : BufTy).Contents (Elt F)),
    binary main_v2386 main_v2388 main_v2389 (subf : (⟨S1024x16, .f32⟩ : BufTy).Contents (Elt F) → (⟨S1024x16, .f32⟩ : BufTy).Contents (Elt F) → (⟨S1024x16, .f32⟩ : BufTy).Contents (Elt F)),
    unary main_v2382 main_v2390 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 42. -/
abbrev st126 : List (HloOp τ sig (Elt F)) :=
  [ binary main_v2390 main_v2369 main_v2391 (mulf : (⟨S1024x16, .f32⟩ : BufTy).Contents (Elt F) → (⟨S1024x16, .f32⟩ : BufTy).Contents (Elt F) → (⟨S1024x16, .f32⟩ : BufTy).Contents (Elt F)),
    unary main_v2380 main_v2392 (broadcastInDim S1024x16 ![0, 1] bcast_S1024x1_S1024x16_0_1 : (⟨S1024x1, .f32⟩ : BufTy).Contents (Elt F) → (⟨S1024x16, .f32⟩ : BufTy).Contents (Elt F)),
    binary main_v2392 main_v2384 main_v2393 (mulf : (⟨S1024x16, .f32⟩ : BufTy).Contents (Elt F) → (⟨S1024x16, .f32⟩ : BufTy).Contents (Elt F) → (⟨S1024x16, .f32⟩ : BufTy).Contents (Elt F)),
    binary main_v2391 main_v2393 main_v2394 (addf : (⟨S1024x16, .f32⟩ : BufTy).Contents (Elt F) → (⟨S1024x16, .f32⟩ : BufTy).Contents (Elt F) → (⟨S1024x16, .f32⟩ : BufTy).Contents (Elt F)),
    nullary main_c_128 (constantI S_ 32 15#32),
    unary main_c_128 main_v2395 (broadcastInDim S1 ![] bcast_S_S1 : (⟨S_, .i32⟩ : BufTy).Contents (Elt F) → (⟨S1, .i32⟩ : BufTy).Contents (Elt F)),
    ternary main_v2376 main_v2395 main_v2394 main_v2396 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_129 (constantI S_ 32 12#32),
    unary main_c_129 main_v2397 (broadcastInDim S1 ![] bcast_S_S1 : (⟨S_, .i32⟩ : BufTy).Contents (Elt F) → (⟨S1, .i32⟩ : BufTy).Contents (Elt F)),
    ternary main_v2396 main_v2397 main_v2389 main_v2398 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2398 main_v2399 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2399 main_v2400 rfl shapeCasts_S1024x1x16_S1024x16,
    unary main_arg1 main_v2401 ((extractStridedSlice S1024x1 ![0, 117] · slices_S1024x120_S1024x1_0_117) : (⟨S1024x120, .f32⟩ : BufTy).Contents (Elt F) → (⟨S1024x1, .f32⟩ : BufTy).Contents (Elt F)),
    reshape main_v2401 main_v2402 rfl shapeCasts_S1024x1_S1024,
    unary main_v2402 main_v2403 (Host.cos : (⟨S1024, .f32⟩ : BufTy).Contents (Elt F) → (⟨S1024, .f32⟩ : BufTy).Contents (Elt F)),
    unary main_v2403 main_v2404 (broadcastInDim S1024x1 ![0] bcast_S1024_S1024x1_0 : (⟨S1024, .f32⟩ : BufTy).Contents (Elt F) → (⟨S1024x1, .f32⟩ : BufTy).Contents (Elt F)),
    unary main_v2402 main_v2405 (Host.sin : (⟨S1024, .f32⟩ : BufTy).Contents (Elt F) → (⟨S1024, .f32⟩ : BufTy).Contents (Elt F)),
    unary main_v2405 main_v2406 (broadcastInDim S1024x1 ![0] bcast_S1024_S1024x1_0 : (⟨S1024, .f32⟩ : BufTy).Contents (Elt F) → (⟨S1024x1, .f32⟩ : BufTy).Contents (Elt F)),
    unary main_v2398 main_v2407 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2407 main_v2408 rfl shapeCasts_S1024x1x16_S1024x16 ]
/-- Operations 21 … 40 of window 42. -/
abbrev st127 : List (HloOp τ sig (Elt F)) :=
  [ unary main_v2404 main_v2409 (broadcastInDim S1024x16 ![0, 1] bcast_S1024x1_S1024x16_0_1 : (⟨S1024x1, .f32⟩ : BufTy).Contents (Elt F) → (⟨S1024x16, .f32⟩ : BufTy).Contents (Elt F)),
    binary main_v2409 main_v2400 main_v2410 (mulf : (⟨S1024x16, .f32⟩ : BufTy).Contents (Elt F) → (⟨S1024x16, .f32⟩ : BufTy).Contents (Elt F) → (⟨S1024x16, .f32⟩ : BufTy).Contents (Elt F)),
    unary main_v2406 main_v2411 (broadcastInDim S1024x16 ![0, 1] bcast_S1024x1_S1024x16_0_1 : (⟨S1024x1, .f32⟩ : BufTy).Contents (Elt F) → (⟨S1024x16, .f32⟩ : BufTy).Contents (Elt F)),
    binary main_v2411 main_v2408 main_v2412 (mulf : (⟨S1024x16, .f32⟩ : BufTy).Contents (Elt F) → (⟨S1024x16, .f32⟩ : BufTy).Contents (Elt F) → (⟨S1024x16, .f32⟩ : BufTy).Contents (Elt F)),
    binary main_v2410 main_v2412 main_v2413 (subf : (⟨S1024x16, .f32⟩ : BufTy).Contents (Elt F) → (⟨S1024x16, .f32⟩ : BufTy).Contents (Elt F) → (⟨S1024x16, .f32⟩ : BufTy).Contents (Elt F)),
    unary main_v2406 main_v2414 (broadcastInDim S1024x16 ![0, 1] bcast_S1024x1_S1024x16_0_1 : (⟨S1024x1, .f32⟩ : BufTy).Contents (Elt F) → (⟨S1024x16, .f32⟩ : BufTy).Contents (Elt F)),
    binary main_v2414 main_v2400 main_v2415 (mulf : (⟨S1024x16, .f32⟩ : BufTy).Contents (Elt F) → (⟨S1024x16, .f32⟩ : BufTy).Contents (Elt F) → (⟨S1024x16, .f32⟩ : BufTy).Contents (Elt F)),
    unary main_v2404 main_v2416 (broadcastInDim S1024x16 ![0, 1] bcast_S1024x1_S1024x16_0_1 : (⟨S1024x1, .f32⟩ : BufTy).Contents (Elt F) → (⟨S1024x16, .f32⟩ : BufTy).Contents (Elt F)),
    binary main_v2416 main_v2408 main_v2417 (mulf : (⟨S1024x16, .f32⟩ : BufTy).Contents (Elt F) → (⟨S1024x16, .f32⟩ : BufTy).Contents (Elt F) → (⟨S1024x16, .f32⟩ : BufTy).Contents (Elt F)),
    binary main_v2415 main_v2417 main_v2418 (addf : (⟨S1024x16, .f32⟩ : BufTy).Contents (Elt F) → (⟨S1024x16, .f32⟩ : BufTy).Contents (Elt F) → (⟨S1024x16, .f32⟩ : BufTy).Contents (Elt F)),
    nullary main_c_130 (constantI S_ 32 14#32),
    unary main_c_130 main_v2419 (broadcastInDim S1 ![] bcast_S_S1 : (⟨S_, .i32⟩ : BufTy).Contents (Elt F) → (⟨S1, .i32⟩ : BufTy).Contents (Elt F)),
    ternary main_v2398 main_v2419 main_v2418 main_v2420 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2421 ((extractStridedSlice S1024x1 ![0, 118] · slices_S1024x120_S1024x1_0_118) : (⟨S1024x120, .f32⟩ : BufTy).Contents (Elt F) → (⟨S1024x1, .f32⟩ : BufTy).Contents (Elt F)),
    reshape main_v2421 main_v2422 rfl shapeCasts_S1024x1_S1024,
    unary main_v2422 main_v2423 (Host.cos : (⟨S1024, .f32⟩ : BufTy).Contents (Elt F) → (⟨S1024, .f32⟩ : BufTy).Contents (Elt F)),
    unary main_v2423 main_v2424 (broadcastInDim S1024x1 ![0] bcast_S1024_S1024x1_0 : (⟨S1024, .f32⟩ : BufTy).Contents (Elt F) → (⟨S1024x1, .f32⟩ : BufTy).Contents (Elt F)),
    unary main_v2422 main_v2425 (Host.sin : (⟨S1024, .f32⟩ : BufTy).Contents (Elt F) → (⟨S1024, .f32⟩ : BufTy).Contents (Elt F)),
    unary main_v2425 main_v2426 (broadcastInDim S1024x1 ![0] bcast_S1024_S1024x1_0 : (⟨S1024, .f32⟩ : BufTy).Contents (Elt F) → (⟨S1024x1, .f32⟩ : BufTy).Contents (Elt F)),
    unary main_v2420 main_v2427 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)) ]
/-- Operations 41 … 60 of window 42. -/
abbrev st128 : List (HloOp τ sig (Elt F)) :=
  [ reshape main_v2427 main_v2428 rfl shapeCasts_S1024x1x16_S1024x16,
    unary main_v2424 main_v2429 (broadcastInDim S1024x16 ![0, 1] bcast_S1024x1_S1024x16_0_1 : (⟨S1024x1, .f32⟩ : BufTy).Contents (Elt F) → (⟨S1024x16, .f32⟩ : BufTy).Contents (Elt F)),
    binary main_v2429 main_v2413 main_v2430 (mulf : (⟨S1024x16, .f32⟩ : BufTy).Contents (Elt F) → (⟨S1024x16, .f32⟩ : BufTy).Contents (Elt F) → (⟨S1024x16, .f32⟩ : BufTy).Contents (Elt F)),
    unary main_v2426 main_v2431 (broadcastInDim S1024x16 ![0, 1] bcast_S1024x1_S1024x16_0_1 : (⟨S1024x1, .f32⟩ : BufTy).Contents (Elt F) → (⟨S1024x16, .f32⟩ : BufTy).Contents (Elt F)),
    binary main_v2431 main_v2428 main_v2432 (mulf : (⟨S1024x16, .f32⟩ : BufTy).Contents (Elt F) → (⟨S1024x16, .f32⟩ : BufTy).Contents (Elt F) → (⟨S1024x16, .f32⟩ : BufTy).Contents (Elt F)),
    binary main_v2430 main_v2432 main_v2433 (subf : (⟨S1024x16, .f32⟩ : BufTy).Contents (Elt F) → (⟨S1024x16, .f32⟩ : BufTy).Contents (Elt F) → (⟨S1024x16, .f32⟩ : BufTy).Contents (Elt F)),
    unary main_v2426 main_v2434 (broadcastInDim S1024x16 ![0, 1] bcast_S1024x1_S1024x16_0_1 : (⟨S1024x1, .f32⟩ : BufTy).Contents (Elt F) → (⟨S1024x16, .f32⟩ : BufTy).Contents (Elt F)),
    binary main_v2434 main_v2413 main_v2435 (mulf : (⟨S1024x16, .f32⟩ : BufTy).Contents (Elt F) → (⟨S1024x16, .f32⟩ : BufTy).Contents (Elt F) → (⟨S1024x16, .f32⟩ : BufTy).Contents (Elt F)),
    unary main_v2424 main_v2436 (broadcastInDim S1024x16 ![0, 1] bcast_S1024x1_S1024x16_0_1 : (⟨S1024x1, .f32⟩ : BufTy).Contents (Elt F) → (⟨S1024x16, .f32⟩ : BufTy).Contents (Elt F)),
    binary main_v2436 main_v2428 main_v2437 (mulf : (⟨S1024x16, .f32⟩ : BufTy).Contents (Elt F) → (⟨S1024x16, .f32⟩ : BufTy).Contents (Elt F) → (⟨S1024x16, .f32⟩ : BufTy).Contents (Elt F)),
    binary main_v2435 main_v2437 main_v2438 (addf : (⟨S1024x16, .f32⟩ : BufTy).Contents (Elt F) → (⟨S1024x16, .f32⟩ : BufTy).Contents (Elt F) → (⟨S1024x16, .f32⟩ : BufTy).Contents (Elt F)),
    nullary main_c_131 (constantI S_ 32 15#32),
    unary main_c_131 main_v2439 (broadcastInDim S1 ![] bcast_S_S1 : (⟨S_, .i32⟩ : BufTy).Contents (Elt F) → (⟨S1, .i32⟩ : BufTy).Contents (Elt F)),
    ternary main_v2420 main_v2439 main_v2438 main_v2440 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_132 (constantI S_ 32 13#32),
    unary main_c_132 main_v2441 (broadcastInDim S1 ![] bcast_S_S1 : (⟨S_, .i32⟩ : BufTy).Contents (Elt F) → (⟨S1, .i32⟩ : BufTy).Contents (Elt F)),
    ternary main_v2440 main_v2441 main_v2433 main_v2442 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2442 main_v2443 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2443 main_v2444 rfl shapeCasts_S1024x1x16_S1024x16,
    unary main_arg1 main_v2445 ((extractStridedSlice S1024x1 ![0, 119] · slices_S1024x120_S1024x1_0_119) : (⟨S1024x120, .f32⟩ : BufTy).Contents (Elt F) → (⟨S1024x1, .f32⟩ : BufTy).Contents (Elt F)) ]
/-- Operations 1 … 20 of window 43. -/
abbrev st129 : List (HloOp τ sig (Elt F)) :=
  [ reshape main_v2445 main_v2446 rfl shapeCasts_S1024x1_S1024,
    unary main_v2446 main_v2447 (Host.cos : (⟨S1024, .f32⟩ : BufTy).Contents (Elt F) → (⟨S1024, .f32⟩ : BufTy).Contents (Elt F)),
    unary main_v2447 main_v2448 (broadcastInDim S1024x1 ![0] bcast_S1024_S1024x1_0 : (⟨S1024, .f32⟩ : BufTy).Contents (Elt F) → (⟨S1024x1, .f32⟩ : BufTy).Contents (Elt F)),
    unary main_v2446 main_v2449 (Host.sin : (⟨S1024, .f32⟩ : BufTy).Contents (Elt F) → (⟨S1024, .f32⟩ : BufTy).Contents (Elt F)),
    unary main_v2449 main_v2450 (broadcastInDim S1024x1 ![0] bcast_S1024_S1024x1_0 : (⟨S1024, .f32⟩ : BufTy).Contents (Elt F) → (⟨S1024x1, .f32⟩ : BufTy).Contents (Elt F)),
    unary main_v2442 main_v2451 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2451 main_v2452 rfl shapeCasts_S1024x1x16_S1024x16,
    unary main_v2448 main_v2453 (broadcastInDim S1024x16 ![0, 1] bcast_S1024x1_S1024x16_0_1 : (⟨S1024x1, .f32⟩ : BufTy).Contents (Elt F) → (⟨S1024x16, .f32⟩ : BufTy).Contents (Elt F)),
    binary main_v2453 main_v2444 main_v2454 (mulf : (⟨S1024x16, .f32⟩ : BufTy).Contents (Elt F) → (⟨S1024x16, .f32⟩ : BufTy).Contents (Elt F) → (⟨S1024x16, .f32⟩ : BufTy).Contents (Elt F)),
    unary main_v2450 main_v2455 (broadcastInDim S1024x16 ![0, 1] bcast_S1024x1_S1024x16_0_1 : (⟨S1024x1, .f32⟩ : BufTy).Contents (Elt F) → (⟨S1024x16, .f32⟩ : BufTy).Contents (Elt F)),
    binary main_v2455 main_v2452 main_v2456 (mulf : (⟨S1024x16, .f32⟩ : BufTy).Contents (Elt F) → (⟨S1024x16, .f32⟩ : BufTy).Contents (Elt F) → (⟨S1024x16, .f32⟩ : BufTy).Contents (Elt F)),
    binary main_v2454 main_v2456 main_v2457 (subf : (⟨S1024x16, .f32⟩ : BufTy).Contents (Elt F) → (⟨S1024x16, .f32⟩ : BufTy).Contents (Elt F) → (⟨S1024x16, .f32⟩ : BufTy).Contents (Elt F)),
    unary main_v2450 main_v2458 (broadcastInDim S1024x16 ![0, 1] bcast_S1024x1_S1024x16_0_1 : (⟨S1024x1, .f32⟩ : BufTy).Contents (Elt F) → (⟨S1024x16, .f32⟩ : BufTy).Contents (Elt F)),
    binary main_v2458 main_v2444 main_v2459 (mulf : (⟨S1024x16, .f32⟩ : BufTy).Contents (Elt F) → (⟨S1024x16, .f32⟩ : BufTy).Contents (Elt F) → (⟨S1024x16, .f32⟩ : BufTy).Contents (Elt F)),
    unary main_v2448 main_v2460 (broadcastInDim S1024x16 ![0, 1] bcast_S1024x1_S1024x16_0_1 : (⟨S1024x1, .f32⟩ : BufTy).Contents (Elt F) → (⟨S1024x16, .f32⟩ : BufTy).Contents (Elt F)),
    binary main_v2460 main_v2452 main_v2461 (mulf : (⟨S1024x16, .f32⟩ : BufTy).Contents (Elt F) → (⟨S1024x16, .f32⟩ : BufTy).Contents (Elt F) → (⟨S1024x16, .f32⟩ : BufTy).Contents (Elt F)),
    binary main_v2459 main_v2461 main_v2462 (addf : (⟨S1024x16, .f32⟩ : BufTy).Contents (Elt F) → (⟨S1024x16, .f32⟩ : BufTy).Contents (Elt F) → (⟨S1024x16, .f32⟩ : BufTy).Contents (Elt F)),
    nullary main_c_133 (constantI S_ 32 15#32),
    unary main_c_133 main_v2463 (broadcastInDim S1 ![] bcast_S_S1 : (⟨S_, .i32⟩ : BufTy).Contents (Elt F) → (⟨S1, .i32⟩ : BufTy).Contents (Elt F)),
    ternary main_v2442 main_v2463 main_v2462 main_v2464 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 21 … 23 of window 43. -/
abbrev st130 : List (HloOp τ sig (Elt F)) :=
  [ nullary main_c_134 (constantI S_ 32 14#32),
    unary main_c_134 main_v2465 (broadcastInDim S1 ![] bcast_S_S1 : (⟨S_, .i32⟩ : BufTy).Contents (Elt F) → (⟨S1, .i32⟩ : BufTy).Contents (Elt F)),
    ternary main_v2464 main_v2465 main_v2457 main_v2466 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Window 0 is its stretches in a row. -/
theorem part0_split : (main_part0_ops0 : List (HloOp τ sig (Elt F))) = st0 ++ (st1 ++ (st2)) := rfl
/-- Window 1 is its stretches in a row. -/
theorem part1_split : (main_part1_ops0 : List (HloOp τ sig (Elt F))) = st3 ++ (st4 ++ (st5)) := rfl
/-- Window 2 is its stretches in a row. -/
theorem part2_split : (main_part2_ops0 : List (HloOp τ sig (Elt F))) = st6 ++ (st7 ++ (st8)) := rfl
/-- Window 3 is its stretches in a row. -/
theorem part3_split : (main_part3_ops0 : List (HloOp τ sig (Elt F))) = st9 ++ (st10 ++ (st11)) := rfl
/-- Window 4 is its stretches in a row. -/
theorem part4_split : (main_part4_ops0 : List (HloOp τ sig (Elt F))) = st12 ++ (st13 ++ (st14)) := rfl
/-- Window 5 is its stretches in a row. -/
theorem part5_split : (main_part5_ops0 : List (HloOp τ sig (Elt F))) = st15 ++ (st16 ++ (st17)) := rfl
/-- Window 6 is its stretches in a row. -/
theorem part6_split : (main_part6_ops0 : List (HloOp τ sig (Elt F))) = st18 ++ (st19 ++ (st20)) := rfl
/-- Window 7 is its stretches in a row. -/
theorem part7_split : (main_part7_ops0 : List (HloOp τ sig (Elt F))) = st21 ++ (st22 ++ (st23)) := rfl
/-- Window 8 is its stretches in a row. -/
theorem part8_split : (main_part8_ops0 : List (HloOp τ sig (Elt F))) = st24 ++ (st25 ++ (st26)) := rfl
/-- Window 9 is its stretches in a row. -/
theorem part9_split : (main_part9_ops0 : List (HloOp τ sig (Elt F))) = st27 ++ (st28 ++ (st29)) := rfl
/-- Window 10 is its stretches in a row. -/
theorem part10_split : (main_part10_ops0 : List (HloOp τ sig (Elt F))) = st30 ++ (st31 ++ (st32)) := rfl
/-- Window 11 is its stretches in a row. -/
theorem part11_split : (main_part11_ops0 : List (HloOp τ sig (Elt F))) = st33 ++ (st34 ++ (st35)) := rfl
/-- Window 12 is its stretches in a row. -/
theorem part12_split : (main_part12_ops0 : List (HloOp τ sig (Elt F))) = st36 ++ (st37 ++ (st38)) := rfl
/-- Window 13 is its stretches in a row. -/
theorem part13_split : (main_part13_ops0 : List (HloOp τ sig (Elt F))) = st39 ++ (st40 ++ (st41)) := rfl
/-- Window 14 is its stretches in a row. -/
theorem part14_split : (main_part14_ops0 : List (HloOp τ sig (Elt F))) = st42 ++ (st43 ++ (st44)) := rfl
/-- Window 15 is its stretches in a row. -/
theorem part15_split : (main_part15_ops0 : List (HloOp τ sig (Elt F))) = st45 ++ (st46 ++ (st47)) := rfl
/-- Window 16 is its stretches in a row. -/
theorem part16_split : (main_part16_ops0 : List (HloOp τ sig (Elt F))) = st48 ++ (st49 ++ (st50)) := rfl
/-- Window 17 is its stretches in a row. -/
theorem part17_split : (main_part17_ops0 : List (HloOp τ sig (Elt F))) = st51 ++ (st52 ++ (st53)) := rfl
/-- Window 18 is its stretches in a row. -/
theorem part18_split : (main_part18_ops0 : List (HloOp τ sig (Elt F))) = st54 ++ (st55 ++ (st56)) := rfl
/-- Window 19 is its stretches in a row. -/
theorem part19_split : (main_part19_ops0 : List (HloOp τ sig (Elt F))) = st57 ++ (st58 ++ (st59)) := rfl
/-- Window 20 is its stretches in a row. -/
theorem part20_split : (main_part20_ops0 : List (HloOp τ sig (Elt F))) = st60 ++ (st61 ++ (st62)) := rfl
/-- Window 21 is its stretches in a row. -/
theorem part21_split : (main_part21_ops0 : List (HloOp τ sig (Elt F))) = st63 ++ (st64 ++ (st65)) := rfl
/-- Window 22 is its stretches in a row. -/
theorem part22_split : (main_part22_ops0 : List (HloOp τ sig (Elt F))) = st66 ++ (st67 ++ (st68)) := rfl
/-- Window 23 is its stretches in a row. -/
theorem part23_split : (main_part23_ops0 : List (HloOp τ sig (Elt F))) = st69 ++ (st70 ++ (st71)) := rfl
/-- Window 24 is its stretches in a row. -/
theorem part24_split : (main_part24_ops0 : List (HloOp τ sig (Elt F))) = st72 ++ (st73 ++ (st74)) := rfl
/-- Window 25 is its stretches in a row. -/
theorem part25_split : (main_part25_ops0 : List (HloOp τ sig (Elt F))) = st75 ++ (st76 ++ (st77)) := rfl
/-- Window 26 is its stretches in a row. -/
theorem part26_split : (main_part26_ops0 : List (HloOp τ sig (Elt F))) = st78 ++ (st79 ++ (st80)) := rfl
/-- Window 27 is its stretches in a row. -/
theorem part27_split : (main_part27_ops0 : List (HloOp τ sig (Elt F))) = st81 ++ (st82 ++ (st83)) := rfl
/-- Window 28 is its stretches in a row. -/
theorem part28_split : (main_part28_ops0 : List (HloOp τ sig (Elt F))) = st84 ++ (st85 ++ (st86)) := rfl
/-- Window 29 is its stretches in a row. -/
theorem part29_split : (main_part29_ops0 : List (HloOp τ sig (Elt F))) = st87 ++ (st88 ++ (st89)) := rfl
/-- Window 30 is its stretches in a row. -/
theorem part30_split : (main_part30_ops0 : List (HloOp τ sig (Elt F))) = st90 ++ (st91 ++ (st92)) := rfl
/-- Window 31 is its stretches in a row. -/
theorem part31_split : (main_part31_ops0 : List (HloOp τ sig (Elt F))) = st93 ++ (st94 ++ (st95)) := rfl
/-- Window 32 is its stretches in a row. -/
theorem part32_split : (main_part32_ops0 : List (HloOp τ sig (Elt F))) = st96 ++ (st97 ++ (st98)) := rfl
/-- Window 33 is its stretches in a row. -/
theorem part33_split : (main_part33_ops0 : List (HloOp τ sig (Elt F))) = st99 ++ (st100 ++ (st101)) := rfl
/-- Window 34 is its stretches in a row. -/
theorem part34_split : (main_part34_ops0 : List (HloOp τ sig (Elt F))) = st102 ++ (st103 ++ (st104)) := rfl
/-- Window 35 is its stretches in a row. -/
theorem part35_split : (main_part35_ops0 : List (HloOp τ sig (Elt F))) = st105 ++ (st106 ++ (st107)) := rfl
/-- Window 36 is its stretches in a row. -/
theorem part36_split : (main_part36_ops0 : List (HloOp τ sig (Elt F))) = st108 ++ (st109 ++ (st110)) := rfl
/-- Window 37 is its stretches in a row. -/
theorem part37_split : (main_part37_ops0 : List (HloOp τ sig (Elt F))) = st111 ++ (st112 ++ (st113)) := rfl
/-- Window 38 is its stretches in a row. -/
theorem part38_split : (main_part38_ops0 : List (HloOp τ sig (Elt F))) = st114 ++ (st115 ++ (st116)) := rfl
/-- Window 39 is its stretches in a row. -/
theorem part39_split : (main_part39_ops0 : List (HloOp τ sig (Elt F))) = st117 ++ (st118 ++ (st119)) := rfl
/-- Window 40 is its stretches in a row. -/
theorem part40_split : (main_part40_ops0 : List (HloOp τ sig (Elt F))) = st120 ++ (st121 ++ (st122)) := rfl
/-- Window 41 is its stretches in a row. -/
theorem part41_split : (main_part41_ops0 : List (HloOp τ sig (Elt F))) = st123 ++ (st124 ++ (st125)) := rfl
/-- Window 42 is its stretches in a row. -/
theorem part42_split : (main_part42_ops0 : List (HloOp τ sig (Elt F))) = st126 ++ (st127 ++ (st128)) := rfl
/-- Window 43 is its stretches in a row. -/
theorem part43_split : (main_part43_ops0 : List (HloOp τ sig (Elt F))) = st129 ++ (st130) := rfl

end Cert.KernelIdeal.KHost

end
-- ==== Proof.RSub.lean ====
import proofs.«128918_j72490458022405_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 20 of window 0. -/
abbrev st0 : List (HloOp τ sig (Elt F)) :=
  [ nullary main_v0 (iotaInDim S16x16 32 0),
    nullary main_v1 (iotaInDim S16x16 32 1),
    nullary main_c (constantI S_ 32 0#32),
    unary main_c main_v2 (broadcastInDim S16x16 ![] bcast_S_S16x16 : (⟨S_, .i32⟩ : BufTy).Contents (Elt F) → (⟨S16x16, .i32⟩ : BufTy).Contents (Elt F)),
    binary main_v0 main_v2 main_v3 (addi : (⟨S16x16, .i32⟩ : BufTy).Contents (Elt F) → (⟨S16x16, .i32⟩ : BufTy).Contents (Elt F) → (⟨S16x16, .i32⟩ : BufTy).Contents (Elt F)),
    binary main_v3 main_v1 main_v4 (cmpi .eq : (⟨S16x16, .i32⟩ : BufTy).Contents (Elt F) → (⟨S16x16, .i32⟩ : BufTy).Contents (Elt F) → (⟨S16x16, .i1⟩ : BufTy).Contents (Elt F)),
    unary main_v4 main_v5 (uitofp .f32 : (⟨S16x16, .i1⟩ : BufTy).Contents (Elt F) → (⟨S16x16, .f32⟩ : BufTy).Contents (Elt F)),
    unary main_v5 main_v6 (broadcastInDim S1024x16x16 ![1, 2] bcast_S16x16_S1024x16x16_1_2 : (⟨S16x16, .f32⟩ : BufTy).Contents (Elt F) → (⟨S1024x16x16, .f32⟩ : BufTy).Contents (Elt F)),
    unary main_v6 main_v7 ((extractStridedSlice S1024x1x16 ![0, 0, 0] · slices_S1024x16x16_S1024x1x16_0_0_0) : (⟨S1024x16x16, .f32⟩ : BufTy).Contents (Elt F) → (⟨S1024x1x16, .f32⟩ : BufTy).Contents (Elt F)),
    reshape main_v7 main_v8 rfl shapeCasts_S1024x1x16_S1024x16,
    unary main_arg1 main_v9 ((extractStridedSlice S1024x1 ![0, 0] · slices_S1024x120_S1024x1_0_0) : (⟨S1024x120, .f32⟩ : BufTy).Contents (Elt F) → (⟨S1024x1, .f32⟩ : BufTy).Contents (Elt F)),
    reshape main_v9 main_v10 rfl shapeCasts_S1024x1_S1024,
    unary main_v10 main_v11 (Host.cos : (⟨S1024, .f32⟩ : BufTy).Contents (Elt F) → (⟨S1024, .f32⟩ : BufTy).Contents (Elt F)),
    unary main_v11 main_v12 (broadcastInDim S1024x1 ![0] bcast_S1024_S1024x1_0 : (⟨S1024, .f32⟩ : BufTy).Contents (Elt F) → (⟨S1024x1, .f32⟩ : BufTy).Contents (Elt F)),
    unary main_v10 main_v13 (Host.sin : (⟨S1024, .f32⟩ : BufTy).Contents (Elt F) → (⟨S1024, .f32⟩ : BufTy).Contents (Elt F)),
    unary main_v13 main_v14 (broadcastInDim S1024x1 ![0] bcast_S1024_S1024x1_0 : (⟨S1024, .f32⟩ : BufTy).Contents (Elt F) → (⟨S1024x1, .f32⟩ : BufTy).Contents (Elt F)),
    unary main_v6 main_v15 ((extractStridedSlice S1024x1x16 ![0, 1, 0] · slices_S1024x16x16_S1024x1x16_0_1_0) : (⟨S1024x16x16, .f32⟩ : BufTy).Contents (Elt F) → (⟨S1024x1x16, .f32⟩ : BufTy).Contents (Elt F)),
    reshape main_v15 main_v16 rfl shapeCasts_S1024x1x16_S1024x16,
    unary main_v12 main_v17 (broadcastInDim S1024x16 ![0, 1] bcast_S1024x1_S1024x16_0_1 : (⟨S1024x1, .f32⟩ : BufTy).Contents (Elt F) → (⟨S1024x16, .f32⟩ : BufTy).Contents (Elt F)),
    binary main_v17 main_v8 main_v18 (mulf : (⟨S1024x16, .f32⟩ : BufTy).Contents (Elt F) → (⟨S1024x16, .f32⟩ : BufTy).Contents (Elt F) → (⟨S1024x16, .f32⟩ : BufTy).Contents (Elt F)) ]
/-- Operations 21 … 40 of window 0. -/
abbrev st1 : List (HloOp τ sig (Elt F)) :=
  [ unary main_v14 main_v19 (broadcastInDim S1024x16 ![0, 1] bcast_S1024x1_S1024x16_0_1 : (⟨S1024x1, .f32⟩ : BufTy).Contents (Elt F) → (⟨S1024x16, .f32⟩ : BufTy).Contents (Elt F)),
    binary main_v19 main_v16 main_v20 (mulf : (⟨S1024x16, .f32⟩ : BufTy).Contents (Elt F) → (⟨S1024x16, .f32⟩ : BufTy).Contents (Elt F) → (⟨S1024x16, .f32⟩ : BufTy).Contents (Elt F)),
    binary main_v18 main_v20 main_v21 (subf : (⟨S1024x16, .f32⟩ : BufTy).Contents (Elt F) → (⟨S1024x16, .f32⟩ : BufTy).Contents (Elt F) → (⟨S1024x16, .f32⟩ : BufTy).Contents (Elt F)),
    unary main_v14 main_v22 (broadcastInDim S1024x16 ![0, 1] bcast_S1024x1_S1024x16_0_1 : (⟨S1024x1, .f32⟩ : BufTy).Contents (Elt F) → (⟨S1024x16, .f32⟩ : BufTy).Contents (Elt F)),
    binary main_v22 main_v8 main_v23 (mulf : (⟨S1024x16, .f32⟩ : BufTy).Contents (Elt F) → (⟨S1024x16, .f32⟩ : BufTy).Contents (Elt F) → (⟨S1024x16, .f32⟩ : BufTy).Contents (Elt F)),
    unary main_v12 main_v24 (broadcastInDim S1024x16 ![0, 1] bcast_S1024x1_S1024x16_0_1 : (⟨S1024x1, .f32⟩ : BufTy).Contents (Elt F) → (⟨S1024x16, .f32⟩ : BufTy).Contents (Elt F)),
    binary main_v24 main_v16 main_v25 (mulf : (⟨S1024x16, .f32⟩ : BufTy).Contents (Elt F) → (⟨S1024x16, .f32⟩ : BufTy).Contents (Elt F) → (⟨S1024x16, .f32⟩ : BufTy).Contents (Elt F)),
    binary main_v23 main_v25 main_v26 (addf : (⟨S1024x16, .f32⟩ : BufTy).Contents (Elt F) → (⟨S1024x16, .f32⟩ : BufTy).Contents (Elt F) → (⟨S1024x16, .f32⟩ : BufTy).Contents (Elt F)),
    nullary main_c_0 (constantI S_ 32 1#32),
    unary main_c_0 main_v27 (broadcastInDim S1 ![] bcast_S_S1 : (⟨S_, .i32⟩ : BufTy).Contents (Elt F) → (⟨S1, .i32⟩ : BufTy).Contents (Elt F)),
    ternary main_v6 main_v27 main_v26 main_v28 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v29 ((extractStridedSlice S1024x1 ![0, 1] · slices_S1024x120_S1024x1_0_1) : (⟨S1024x120, .f32⟩ : BufTy).Contents (Elt F) → (⟨S1024x1, .f32⟩ : BufTy).Contents (Elt F)),
    reshape main_v29 main_v30 rfl shapeCasts_S1024x1_S1024,
    unary main_v30 main_v31 (Host.cos : (⟨S1024, .f32⟩ : BufTy).Contents (Elt F) → (⟨S1024, .f32⟩ : BufTy).Contents (Elt F)),
    unary main_v31 main_v32 (broadcastInDim S1024x1 ![0] bcast_S1024_S1024x1_0 : (⟨S1024, .f32⟩ : BufTy).Contents (Elt F) → (⟨S1024x1, .f32⟩ : BufTy).Contents (Elt F)),
    unary main_v30 main_v33 (Host.sin : (⟨S1024, .f32⟩ : BufTy).Contents (Elt F) → (⟨S1024, .f32⟩ : BufTy).Contents (Elt F)),
    unary main_v33 main_v34 (broadcastInDim S1024x1 ![0] bcast_S1024_S1024x1_0 : (⟨S1024, .f32⟩ : BufTy).Contents (Elt F) → (⟨S1024x1, .f32⟩ : BufTy).Contents (Elt F)),
    unary main_v28 main_v35 ((extractStridedSlice S1024x1x16 ![0, 2, 0] · slices_S1024x16x16_S1024x1x16_0_2_0) : (⟨S1024x16x16, .f32⟩ : BufTy).Contents (Elt F) → (⟨S1024x1x16, .f32⟩ : BufTy).Contents (Elt F)),
    reshape main_v35 main_v36 rfl shapeCasts_S1024x1x16_S1024x16,
    unary main_v32 main_v37 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 0. -/
abbrev st2 : List (HloOp τ sig (Elt F)) :=
  [ binary main_v37 main_v21 main_v38 (mulf : (⟨S1024x16, .f32⟩ : BufTy).Contents (Elt F) → (⟨S1024x16, .f32⟩ : BufTy).Contents (Elt F) → (⟨S1024x16, .f32⟩ : BufTy).Contents (Elt F)),
    unary main_v34 main_v39 (broadcastInDim S1024x16 ![0, 1] bcast_S1024x1_S1024x16_0_1 : (⟨S1024x1, .f32⟩ : BufTy).Contents (Elt F) → (⟨S1024x16, .f32⟩ : BufTy).Contents (Elt F)),
    binary main_v39 main_v36 main_v40 (mulf : (⟨S1024x16, .f32⟩ : BufTy).Contents (Elt F) → (⟨S1024x16, .f32⟩ : BufTy).Contents (Elt F) → (⟨S1024x16, .f32⟩ : BufTy).Contents (Elt F)),
    binary main_v38 main_v40 main_v41 (subf : (⟨S1024x16, .f32⟩ : BufTy).Contents (Elt F) → (⟨S1024x16, .f32⟩ : BufTy).Contents (Elt F) → (⟨S1024x16, .f32⟩ : BufTy).Contents (Elt F)),
    unary main_v34 main_v42 (broadcastInDim S1024x16 ![0, 1] bcast_S1024x1_S1024x16_0_1 : (⟨S1024x1, .f32⟩ : BufTy).Contents (Elt F) → (⟨S1024x16, .f32⟩ : BufTy).Contents (Elt F)),
    binary main_v42 main_v21 main_v43 (mulf : (⟨S1024x16, .f32⟩ : BufTy).Contents (Elt F) → (⟨S1024x16, .f32⟩ : BufTy).Contents (Elt F) → (⟨S1024x16, .f32⟩ : BufTy).Contents (Elt F)),
    unary main_v32 main_v44 (broadcastInDim S1024x16 ![0, 1] bcast_S1024x1_S1024x16_0_1 : (⟨S1024x1, .f32⟩ : BufTy).Contents (Elt F) → (⟨S1024x16, .f32⟩ : BufTy).Contents (Elt F)),
    binary main_v44 main_v36 main_v45 (mulf : (⟨S1024x16, .f32⟩ : BufTy).Contents (Elt F) → (⟨S1024x16, .f32⟩ : BufTy).Contents (Elt F) → (⟨S1024x16, .f32⟩ : BufTy).Contents (Elt F)),
    binary main_v43 main_v45 main_v46 (addf : (⟨S1024x16, .f32⟩ : BufTy).Contents (Elt F) → (⟨S1024x16, .f32⟩ : BufTy).Contents (Elt F) → (⟨S1024x16, .f32⟩ : BufTy).Contents (Elt F)),
    nullary main_c_1 (constantI S_ 32 2#32),
    unary main_c_1 main_v47 (broadcastInDim S1 ![] bcast_S_S1 : (⟨S_, .i32⟩ : BufTy).Contents (Elt F) → (⟨S1, .i32⟩ : BufTy).Contents (Elt F)),
    ternary main_v28 main_v47 main_v46 main_v48 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v49 ((extractStridedSlice S1024x1 ![0, 2] · slices_S1024x120_S1024x1_0_2) : (⟨S1024x120, .f32⟩ : BufTy).Contents (Elt F) → (⟨S1024x1, .f32⟩ : BufTy).Contents (Elt F)),
    reshape main_v49 main_v50 rfl shapeCasts_S1024x1_S1024,
    unary main_v50 main_v51 (Host.cos : (⟨S1024, .f32⟩ : BufTy).Contents (Elt F) → (⟨S1024, .f32⟩ : BufTy).Contents (Elt F)),
    unary main_v51 main_v52 (broadcastInDim S1024x1 ![0] bcast_S1024_S1024x1_0 : (⟨S1024, .f32⟩ : BufTy).Contents (Elt F) → (⟨S1024x1, .f32⟩ : BufTy).Contents (Elt F)),
    unary main_v50 main_v53 (Host.sin : (⟨S1024, .f32⟩ : BufTy).Contents (Elt F) → (⟨S1024, .f32⟩ : BufTy).Contents (Elt F)),
    unary main_v53 main_v54 (broadcastInDim S1024x1 ![0] bcast_S1024_S1024x1_0 : (⟨S1024, .f32⟩ : BufTy).Contents (Elt F) → (⟨S1024x1, .f32⟩ : BufTy).Contents (Elt F)),
    unary main_v48 main_v55 ((extractStridedSlice S1024x1x16 ![0, 3, 0] · slices_S1024x16x16_S1024x1x16_0_3_0) : (⟨S1024x16x16, .f32⟩ : BufTy).Contents (Elt F) → (⟨S1024x1x16, .f32⟩ : BufTy).Contents (Elt F)),
    reshape main_v55 main_v56 rfl shapeCasts_S1024x1x16_S1024x16 ]
/-- Operations 1 … 20 of window 1. -/
abbrev st3 : List (HloOp τ sig (Elt F)) :=
  [ unary main_v52 main_v57 (broadcastInDim S1024x16 ![0, 1] bcast_S1024x1_S1024x16_0_1 : (⟨S1024x1, .f32⟩ : BufTy).Contents (Elt F) → (⟨S1024x16, .f32⟩ : BufTy).Contents (Elt F)),
    binary main_v57 main_v41 main_v58 (mulf : (⟨S1024x16, .f32⟩ : BufTy).Contents (Elt F) → (⟨S1024x16, .f32⟩ : BufTy).Contents (Elt F) → (⟨S1024x16, .f32⟩ : BufTy).Contents (Elt F)),
    unary main_v54 main_v59 (broadcastInDim S1024x16 ![0, 1] bcast_S1024x1_S1024x16_0_1 : (⟨S1024x1, .f32⟩ : BufTy).Contents (Elt F) → (⟨S1024x16, .f32⟩ : BufTy).Contents (Elt F)),
    binary main_v59 main_v56 main_v60 (mulf : (⟨S1024x16, .f32⟩ : BufTy).Contents (Elt F) → (⟨S1024x16, .f32⟩ : BufTy).Contents (Elt F) → (⟨S1024x16, .f32⟩ : BufTy).Contents (Elt F)),
    binary main_v58 main_v60 main_v61 (subf : (⟨S1024x16, .f32⟩ : BufTy).Contents (Elt F) → (⟨S1024x16, .f32⟩ : BufTy).Contents (Elt F) → (⟨S1024x16, .f32⟩ : BufTy).Contents (Elt F)),
    unary main_v54 main_v62 (broadcastInDim S1024x16 ![0, 1] bcast_S1024x1_S1024x16_0_1 : (⟨S1024x1, .f32⟩ : BufTy).Contents (Elt F) → (⟨S1024x16, .f32⟩ : BufTy).Contents (Elt F)),
    binary main_v62 main_v41 main_v63 (mulf : (⟨S1024x16, .f32⟩ : BufTy).Contents (Elt F) → (⟨S1024x16, .f32⟩ : BufTy).Contents (Elt F) → (⟨S1024x16, .f32⟩ : BufTy).Contents (Elt F)),
    unary main_v52 main_v64 (broadcastInDim S1024x16 ![0, 1] bcast_S1024x1_S1024x16_0_1 : (⟨S1024x1, .f32⟩ : BufTy).Contents (Elt F) → (⟨S1024x16, .f32⟩ : BufTy).Contents (Elt F)),
    binary main_v64 main_v56 main_v65 (mulf : (⟨S1024x16, .f32⟩ : BufTy).Contents (Elt F) → (⟨S1024x16, .f32⟩ : BufTy).Contents (Elt F) → (⟨S1024x16, .f32⟩ : BufTy).Contents (Elt F)),
    binary main_v63 main_v65 main_v66 (addf : (⟨S1024x16, .f32⟩ : BufTy).Contents (Elt F) → (⟨S1024x16, .f32⟩ : BufTy).Contents (Elt F) → (⟨S1024x16, .f32⟩ : BufTy).Contents (Elt F)),
    nullary main_c_2 (constantI S_ 32 3#32),
    unary main_c_2 main_v67 (broadcastInDim S1 ![] bcast_S_S1 : (⟨S_, .i32⟩ : BufTy).Contents (Elt F) → (⟨S1, .i32⟩ : BufTy).Contents (Elt F)),
    ternary main_v48 main_v67 main_v66 main_v68 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v69 ((extractStridedSlice S1024x1 ![0, 3] · slices_S1024x120_S1024x1_0_3) : (⟨S1024x120, .f32⟩ : BufTy).Contents (Elt F) → (⟨S1024x1, .f32⟩ : BufTy).Contents (Elt F)),
    reshape main_v69 main_v70 rfl shapeCasts_S1024x1_S1024,
    unary main_v70 main_v71 (Host.cos : (⟨S1024, .f32⟩ : BufTy).Contents (Elt F) → (⟨S1024, .f32⟩ : BufTy).Contents (Elt F)),
    unary main_v71 main_v72 (broadcastInDim S1024x1 ![0] bcast_S1024_S1024x1_0 : (⟨S1024, .f32⟩ : BufTy).Contents (Elt F) → (⟨S1024x1, .f32⟩ : BufTy).Contents (Elt F)),
    unary main_v70 main_v73 (Host.sin : (⟨S1024, .f32⟩ : BufTy).Contents (Elt F) → (⟨S1024, .f32⟩ : BufTy).Contents (Elt F)),
    unary main_v73 main_v74 (broadcastInDim S1024x1 ![0] bcast_S1024_S1024x1_0 : (⟨S1024, .f32⟩ : BufTy).Contents (Elt F) → (⟨S1024x1, .f32⟩ : BufTy).Contents (Elt F)),
    unary main_v68 main_v75 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)) ]
/-- Operations 21 … 40 of window 1. -/
abbrev st4 : List (HloOp τ sig (Elt F)) :=
  [ reshape main_v75 main_v76 rfl shapeCasts_S1024x1x16_S1024x16,
    unary main_v72 main_v77 (broadcastInDim S1024x16 ![0, 1] bcast_S1024x1_S1024x16_0_1 : (⟨S1024x1, .f32⟩ : BufTy).Contents (Elt F) → (⟨S1024x16, .f32⟩ : BufTy).Contents (Elt F)),
    binary main_v77 main_v61 main_v78 (mulf : (⟨S1024x16, .f32⟩ : BufTy).Contents (Elt F) → (⟨S1024x16, .f32⟩ : BufTy).Contents (Elt F) → (⟨S1024x16, .f32⟩ : BufTy).Contents (Elt F)),
    unary main_v74 main_v79 (broadcastInDim S1024x16 ![0, 1] bcast_S1024x1_S1024x16_0_1 : (⟨S1024x1, .f32⟩ : BufTy).Contents (Elt F) → (⟨S1024x16, .f32⟩ : BufTy).Contents (Elt F)),
    binary main_v79 main_v76 main_v80 (mulf : (⟨S1024x16, .f32⟩ : BufTy).Contents (Elt F) → (⟨S1024x16, .f32⟩ : BufTy).Contents (Elt F) → (⟨S1024x16, .f32⟩ : BufTy).Contents (Elt F)),
    binary main_v78 main_v80 main_v81 (subf : (⟨S1024x16, .f32⟩ : BufTy).Contents (Elt F) → (⟨S1024x16, .f32⟩ : BufTy).Contents (Elt F) → (⟨S1024x16, .f32⟩ : BufTy).Contents (Elt F)),
    unary main_v74 main_v82 (broadcastInDim S1024x16 ![0, 1] bcast_S1024x1_S1024x16_0_1 : (⟨S1024x1, .f32⟩ : BufTy).Contents (Elt F) → (⟨S1024x16, .f32⟩ : BufTy).Contents (Elt F)),
    binary main_v82 main_v61 main_v83 (mulf : (⟨S1024x16, .f32⟩ : BufTy).Contents (Elt F) → (⟨S1024x16, .f32⟩ : BufTy).Contents (Elt F) → (⟨S1024x16, .f32⟩ : BufTy).Contents (Elt F)),
    unary main_v72 main_v84 (broadcastInDim S1024x16 ![0, 1] bcast_S1024x1_S1024x16_0_1 : (⟨S1024x1, .f32⟩ : BufTy).Contents (Elt F) → (⟨S1024x16, .f32⟩ : BufTy).Contents (Elt F)),
    binary main_v84 main_v76 main_v85 (mulf : (⟨S1024x16, .f32⟩ : BufTy).Contents (Elt F) → (⟨S1024x16, .f32⟩ : BufTy).Contents (Elt F) → (⟨S1024x16, .f32⟩ : BufTy).Contents (Elt F)),
    binary main_v83 main_v85 main_v86 (addf : (⟨S1024x16, .f32⟩ : BufTy).Contents (Elt F) → (⟨S1024x16, .f32⟩ : BufTy).Contents (Elt F) → (⟨S1024x16, .f32⟩ : BufTy).Contents (Elt F)),
    nullary main_c_3 (constantI S_ 32 4#32),
    unary main_c_3 main_v87 (broadcastInDim S1 ![] bcast_S_S1 : (⟨S_, .i32⟩ : BufTy).Contents (Elt F) → (⟨S1, .i32⟩ : BufTy).Contents (Elt F)),
    ternary main_v68 main_v87 main_v86 main_v88 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v89 ((extractStridedSlice S1024x1 ![0, 4] · slices_S1024x120_S1024x1_0_4) : (⟨S1024x120, .f32⟩ : BufTy).Contents (Elt F) → (⟨S1024x1, .f32⟩ : BufTy).Contents (Elt F)),
    reshape main_v89 main_v90 rfl shapeCasts_S1024x1_S1024,
    unary main_v90 main_v91 (Host.cos : (⟨S1024, .f32⟩ : BufTy).Contents (Elt F) → (⟨S1024, .f32⟩ : BufTy).Contents (Elt F)),
    unary main_v91 main_v92 (broadcastInDim S1024x1 ![0] bcast_S1024_S1024x1_0 : (⟨S1024, .f32⟩ : BufTy).Contents (Elt F) → (⟨S1024x1, .f32⟩ : BufTy).Contents (Elt F)),
    unary main_v90 main_v93 (Host.sin : (⟨S1024, .f32⟩ : BufTy).Contents (Elt F) → (⟨S1024, .f32⟩ : BufTy).Contents (Elt F)),
    unary main_v93 main_v94 (broadcastInDim S1024x1 ![0] bcast_S1024_S1024x1_0 : (⟨S1024, .f32⟩ : BufTy).Contents (Elt F) → (⟨S1024x1, .f32⟩ : BufTy).Contents (Elt F)) ]
/-- Operations 41 … 60 of window 1. -/
abbrev st5 : List (HloOp τ sig (Elt F)) :=
  [ unary main_v88 main_v95 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v95 main_v96 rfl shapeCasts_S1024x1x16_S1024x16,
    unary main_v92 main_v97 (broadcastInDim S1024x16 ![0, 1] bcast_S1024x1_S1024x16_0_1 : (⟨S1024x1, .f32⟩ : BufTy).Contents (Elt F) → (⟨S1024x16, .f32⟩ : BufTy).Contents (Elt F)),
    binary main_v97 main_v81 main_v98 (mulf : (⟨S1024x16, .f32⟩ : BufTy).Contents (Elt F) → (⟨S1024x16, .f32⟩ : BufTy).Contents (Elt F) → (⟨S1024x16, .f32⟩ : BufTy).Contents (Elt F)),
    unary main_v94 main_v99 (broadcastInDim S1024x16 ![0, 1] bcast_S1024x1_S1024x16_0_1 : (⟨S1024x1, .f32⟩ : BufTy).Contents (Elt F) → (⟨S1024x16, .f32⟩ : BufTy).Contents (Elt F)),
    binary main_v99 main_v96 main_v100 (mulf : (⟨S1024x16, .f32⟩ : BufTy).Contents (Elt F) → (⟨S1024x16, .f32⟩ : BufTy).Contents (Elt F) → (⟨S1024x16, .f32⟩ : BufTy).Contents (Elt F)),
    binary main_v98 main_v100 main_v101 (subf : (⟨S1024x16, .f32⟩ : BufTy).Contents (Elt F) → (⟨S1024x16, .f32⟩ : BufTy).Contents (Elt F) → (⟨S1024x16, .f32⟩ : BufTy).Contents (Elt F)),
    unary main_v94 main_v102 (broadcastInDim S1024x16 ![0, 1] bcast_S1024x1_S1024x16_0_1 : (⟨S1024x1, .f32⟩ : BufTy).Contents (Elt F) → (⟨S1024x16, .f32⟩ : BufTy).Contents (Elt F)),
    binary main_v102 main_v81 main_v103 (mulf : (⟨S1024x16, .f32⟩ : BufTy).Contents (Elt F) → (⟨S1024x16, .f32⟩ : BufTy).Contents (Elt F) → (⟨S1024x16, .f32⟩ : BufTy).Contents (Elt F)),
    unary main_v92 main_v104 (broadcastInDim S1024x16 ![0, 1] bcast_S1024x1_S1024x16_0_1 : (⟨S1024x1, .f32⟩ : BufTy).Contents (Elt F) → (⟨S1024x16, .f32⟩ : BufTy).Contents (Elt F)),
    binary main_v104 main_v96 main_v105 (mulf : (⟨S1024x16, .f32⟩ : BufTy).Contents (Elt F) → (⟨S1024x16, .f32⟩ : BufTy).Contents (Elt F) → (⟨S1024x16, .f32⟩ : BufTy).Contents (Elt F)),
    binary main_v103 main_v105 main_v106 (addf : (⟨S1024x16, .f32⟩ : BufTy).Contents (Elt F) → (⟨S1024x16, .f32⟩ : BufTy).Contents (Elt F) → (⟨S1024x16, .f32⟩ : BufTy).Contents (Elt F)),
    nullary main_c_4 (constantI S_ 32 5#32),
    unary main_c_4 main_v107 (broadcastInDim S1 ![] bcast_S_S1 : (⟨S_, .i32⟩ : BufTy).Contents (Elt F) → (⟨S1, .i32⟩ : BufTy).Contents (Elt F)),
    ternary main_v88 main_v107 main_v106 main_v108 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v109 ((extractStridedSlice S1024x1 ![0, 5] · slices_S1024x120_S1024x1_0_5) : (⟨S1024x120, .f32⟩ : BufTy).Contents (Elt F) → (⟨S1024x1, .f32⟩ : BufTy).Contents (Elt F)),
    reshape main_v109 main_v110 rfl shapeCasts_S1024x1_S1024,
    unary main_v110 main_v111 (Host.cos : (⟨S1024, .f32⟩ : BufTy).Contents (Elt F) → (⟨S1024, .f32⟩ : BufTy).Contents (Elt F)),
    unary main_v111 main_v112 (broadcastInDim S1024x1 ![0] bcast_S1024_S1024x1_0 : (⟨S1024, .f32⟩ : BufTy).Contents (Elt F) → (⟨S1024x1, .f32⟩ : BufTy).Contents (Elt F)),
    unary main_v110 main_v113 (Host.sin : (⟨S1024, .f32⟩ : BufTy).Contents (Elt F) → (⟨S1024, .f32⟩ : BufTy).Contents (Elt F)) ]
/-- Operations 1 … 20 of window 2. -/
abbrev st6 : List (HloOp τ sig (Elt F)) :=
  [ unary main_v113 main_v114 (broadcastInDim S1024x1 ![0] bcast_S1024_S1024x1_0 : (⟨S1024, .f32⟩ : BufTy).Contents (Elt F) → (⟨S1024x1, .f32⟩ : BufTy).Contents (Elt F)),
    unary main_v108 main_v115 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v115 main_v116 rfl shapeCasts_S1024x1x16_S1024x16,
    unary main_v112 main_v117 (broadcastInDim S1024x16 ![0, 1] bcast_S1024x1_S1024x16_0_1 : (⟨S1024x1, .f32⟩ : BufTy).Contents (Elt F) → (⟨S1024x16, .f32⟩ : BufTy).Contents (Elt F)),
    binary main_v117 main_v101 main_v118 (mulf : (⟨S1024x16, .f32⟩ : BufTy).Contents (Elt F) → (⟨S1024x16, .f32⟩ : BufTy).Contents (Elt F) → (⟨S1024x16, .f32⟩ : BufTy).Contents (Elt F)),
    unary main_v114 main_v119 (broadcastInDim S1024x16 ![0, 1] bcast_S1024x1_S1024x16_0_1 : (⟨S1024x1, .f32⟩ : BufTy).Contents (Elt F) → (⟨S1024x16, .f32⟩ : BufTy).Contents (Elt F)),
    binary main_v119 main_v116 main_v120 (mulf : (⟨S1024x16, .f32⟩ : BufTy).Contents (Elt F) → (⟨S1024x16, .f32⟩ : BufTy).Contents (Elt F) → (⟨S1024x16, .f32⟩ : BufTy).Contents (Elt F)),
    binary main_v118 main_v120 main_v121 (subf : (⟨S1024x16, .f32⟩ : BufTy).Contents (Elt F) → (⟨S1024x16, .f32⟩ : BufTy).Contents (Elt F) → (⟨S1024x16, .f32⟩ : BufTy).Contents (Elt F)),
    unary main_v114 main_v122 (broadcastInDim S1024x16 ![0, 1] bcast_S1024x1_S1024x16_0_1 : (⟨S1024x1, .f32⟩ : BufTy).Contents (Elt F) → (⟨S1024x16, .f32⟩ : BufTy).Contents (Elt F)),
    binary main_v122 main_v101 main_v123 (mulf : (⟨S1024x16, .f32⟩ : BufTy).Contents (Elt F) → (⟨S1024x16, .f32⟩ : BufTy).Contents (Elt F) → (⟨S1024x16, .f32⟩ : BufTy).Contents (Elt F)),
    unary main_v112 main_v124 (broadcastInDim S1024x16 ![0, 1] bcast_S1024x1_S1024x16_0_1 : (⟨S1024x1, .f32⟩ : BufTy).Contents (Elt F) → (⟨S1024x16, .f32⟩ : BufTy).Contents (Elt F)),
    binary main_v124 main_v116 main_v125 (mulf : (⟨S1024x16, .f32⟩ : BufTy).Contents (Elt F) → (⟨S1024x16, .f32⟩ : BufTy).Contents (Elt F) → (⟨S1024x16, .f32⟩ : BufTy).Contents (Elt F)),
    binary main_v123 main_v125 main_v126 (addf : (⟨S1024x16, .f32⟩ : BufTy).Contents (Elt F) → (⟨S1024x16, .f32⟩ : BufTy).Contents (Elt F) → (⟨S1024x16, .f32⟩ : BufTy).Contents (Elt F)),
    nullary main_c_5 (constantI S_ 32 6#32),
    unary main_c_5 main_v127 (broadcastInDim S1 ![] bcast_S_S1 : (⟨S_, .i32⟩ : BufTy).Contents (Elt F) → (⟨S1, .i32⟩ : BufTy).Contents (Elt F)),
    ternary main_v108 main_v127 main_v126 main_v128 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v129 ((extractStridedSlice S1024x1 ![0, 6] · slices_S1024x120_S1024x1_0_6) : (⟨S1024x120, .f32⟩ : BufTy).Contents (Elt F) → (⟨S1024x1, .f32⟩ : BufTy).Contents (Elt F)),
    reshape main_v129 main_v130 rfl shapeCasts_S1024x1_S1024,
    unary main_v130 main_v131 (Host.cos : (⟨S1024, .f32⟩ : BufTy).Contents (Elt F) → (⟨S1024, .f32⟩ : BufTy).Contents (Elt F)),
    unary main_v131 main_v132 (broadcastInDim S1024x1 ![0] bcast_S1024_S1024x1_0 : (⟨S1024, .f32⟩ : BufTy).Contents (Elt F) → (⟨S1024x1, .f32⟩ : BufTy).Contents (Elt F)) ]
/-- Operations 21 … 40 of window 2. -/
abbrev st7 : List (HloOp τ sig (Elt F)) :=
  [ unary main_v130 main_v133 (Host.sin : (⟨S1024, .f32⟩ : BufTy).Contents (Elt F) → (⟨S1024, .f32⟩ : BufTy).Contents (Elt F)),
    unary main_v133 main_v134 (broadcastInDim S1024x1 ![0] bcast_S1024_S1024x1_0 : (⟨S1024, .f32⟩ : BufTy).Contents (Elt F) → (⟨S1024x1, .f32⟩ : BufTy).Contents (Elt F)),
    unary main_v128 main_v135 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v135 main_v136 rfl shapeCasts_S1024x1x16_S1024x16,
    unary main_v132 main_v137 (broadcastInDim S1024x16 ![0, 1] bcast_S1024x1_S1024x16_0_1 : (⟨S1024x1, .f32⟩ : BufTy).Contents (Elt F) → (⟨S1024x16, .f32⟩ : BufTy).Contents (Elt F)),
    binary main_v137 main_v121 main_v138 (mulf : (⟨S1024x16, .f32⟩ : BufTy).Contents (Elt F) → (⟨S1024x16, .f32⟩ : BufTy).Contents (Elt F) → (⟨S1024x16, .f32⟩ : BufTy).Contents (Elt F)),
    unary main_v134 main_v139 (broadcastInDim S1024x16 ![0, 1] bcast_S1024x1_S1024x16_0_1 : (⟨S1024x1, .f32⟩ : BufTy).Contents (Elt F) → (⟨S1024x16, .f32⟩ : BufTy).Contents (Elt F)),
    binary main_v139 main_v136 main_v140 (mulf : (⟨S1024x16, .f32⟩ : BufTy).Contents (Elt F) → (⟨S1024x16, .f32⟩ : BufTy).Contents (Elt F) → (⟨S1024x16, .f32⟩ : BufTy).Contents (Elt F)),
    binary main_v138 main_v140 main_v141 (subf : (⟨S1024x16, .f32⟩ : BufTy).Contents (Elt F) → (⟨S1024x16, .f32⟩ : BufTy).Contents (Elt F) → (⟨S1024x16, .f32⟩ : BufTy).Contents (Elt F)),
    unary main_v134 main_v142 (broadcastInDim S1024x16 ![0, 1] bcast_S1024x1_S1024x16_0_1 : (⟨S1024x1, .f32⟩ : BufTy).Contents (Elt F) → (⟨S1024x16, .f32⟩ : BufTy).Contents (Elt F)),
    binary main_v142 main_v121 main_v143 (mulf : (⟨S1024x16, .f32⟩ : BufTy).Contents (Elt F) → (⟨S1024x16, .f32⟩ : BufTy).Contents (Elt F) → (⟨S1024x16, .f32⟩ : BufTy).Contents (Elt F)),
    unary main_v132 main_v144 (broadcastInDim S1024x16 ![0, 1] bcast_S1024x1_S1024x16_0_1 : (⟨S1024x1, .f32⟩ : BufTy).Contents (Elt F) → (⟨S1024x16, .f32⟩ : BufTy).Contents (Elt F)),
    binary main_v144 main_v136 main_v145 (mulf : (⟨S1024x16, .f32⟩ : BufTy).Contents (Elt F) → (⟨S1024x16, .f32⟩ : BufTy).Contents (Elt F) → (⟨S1024x16, .f32⟩ : BufTy).Contents (Elt F)),
    binary main_v143 main_v145 main_v146 (addf : (⟨S1024x16, .f32⟩ : BufTy).Contents (Elt F) → (⟨S1024x16, .f32⟩ : BufTy).Contents (Elt F) → (⟨S1024x16, .f32⟩ : BufTy).Contents (Elt F)),
    nullary main_c_6 (constantI S_ 32 7#32),
    unary main_c_6 main_v147 (broadcastInDim S1 ![] bcast_S_S1 : (⟨S_, .i32⟩ : BufTy).Contents (Elt F) → (⟨S1, .i32⟩ : BufTy).Contents (Elt F)),
    ternary main_v128 main_v147 main_v146 main_v148 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v149 ((extractStridedSlice S1024x1 ![0, 7] · slices_S1024x120_S1024x1_0_7) : (⟨S1024x120, .f32⟩ : BufTy).Contents (Elt F) → (⟨S1024x1, .f32⟩ : BufTy).Contents (Elt F)),
    reshape main_v149 main_v150 rfl shapeCasts_S1024x1_S1024,
    unary main_v150 main_v151 (Host.cos : (⟨S1024, .f32⟩ : BufTy).Contents (Elt F) → (⟨S1024, .f32⟩ : BufTy).Contents (Elt F)) ]
/-- Operations 41 … 60 of window 2. -/
abbrev st8 : List (HloOp τ sig (Elt F)) :=
  [ unary main_v151 main_v152 (broadcastInDim S1024x1 ![0] bcast_S1024_S1024x1_0 : (⟨S1024, .f32⟩ : BufTy).Contents (Elt F) → (⟨S1024x1, .f32⟩ : BufTy).Contents (Elt F)),
    unary main_v150 main_v153 (Host.sin : (⟨S1024, .f32⟩ : BufTy).Contents (Elt F) → (⟨S1024, .f32⟩ : BufTy).Contents (Elt F)),
    unary main_v153 main_v154 (broadcastInDim S1024x1 ![0] bcast_S1024_S1024x1_0 : (⟨S1024, .f32⟩ : BufTy).Contents (Elt F) → (⟨S1024x1, .f32⟩ : BufTy).Contents (Elt F)),
    unary main_v148 main_v155 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v155 main_v156 rfl shapeCasts_S1024x1x16_S1024x16,
    unary main_v152 main_v157 (broadcastInDim S1024x16 ![0, 1] bcast_S1024x1_S1024x16_0_1 : (⟨S1024x1, .f32⟩ : BufTy).Contents (Elt F) → (⟨S1024x16, .f32⟩ : BufTy).Contents (Elt F)),
    binary main_v157 main_v141 main_v158 (mulf : (⟨S1024x16, .f32⟩ : BufTy).Contents (Elt F) → (⟨S1024x16, .f32⟩ : BufTy).Contents (Elt F) → (⟨S1024x16, .f32⟩ : BufTy).Contents (Elt F)),
    unary main_v154 main_v159 (broadcastInDim S1024x16 ![0, 1] bcast_S1024x1_S1024x16_0_1 : (⟨S1024x1, .f32⟩ : BufTy).Contents (Elt F) → (⟨S1024x16, .f32⟩ : BufTy).Contents (Elt F)),
    binary main_v159 main_v156 main_v160 (mulf : (⟨S1024x16, .f32⟩ : BufTy).Contents (Elt F) → (⟨S1024x16, .f32⟩ : BufTy).Contents (Elt F) → (⟨S1024x16, .f32⟩ : BufTy).Contents (Elt F)),
    binary main_v158 main_v160 main_v161 (subf : (⟨S1024x16, .f32⟩ : BufTy).Contents (Elt F) → (⟨S1024x16, .f32⟩ : BufTy).Contents (Elt F) → (⟨S1024x16, .f32⟩ : BufTy).Contents (Elt F)),
    unary main_v154 main_v162 (broadcastInDim S1024x16 ![0, 1] bcast_S1024x1_S1024x16_0_1 : (⟨S1024x1, .f32⟩ : BufTy).Contents (Elt F) → (⟨S1024x16, .f32⟩ : BufTy).Contents (Elt F)),
    binary main_v162 main_v141 main_v163 (mulf : (⟨S1024x16, .f32⟩ : BufTy).Contents (Elt F) → (⟨S1024x16, .f32⟩ : BufTy).Contents (Elt F) → (⟨S1024x16, .f32⟩ : BufTy).Contents (Elt F)),
    unary main_v152 main_v164 (broadcastInDim S1024x16 ![0, 1] bcast_S1024x1_S1024x16_0_1 : (⟨S1024x1, .f32⟩ : BufTy).Contents (Elt F) → (⟨S1024x16, .f32⟩ : BufTy).Contents (Elt F)),
    binary main_v164 main_v156 main_v165 (mulf : (⟨S1024x16, .f32⟩ : BufTy).Contents (Elt F) → (⟨S1024x16, .f32⟩ : BufTy).Contents (Elt F) → (⟨S1024x16, .f32⟩ : BufTy).Contents (Elt F)),
    binary main_v163 main_v165 main_v166 (addf : (⟨S1024x16, .f32⟩ : BufTy).Contents (Elt F) → (⟨S1024x16, .f32⟩ : BufTy).Contents (Elt F) → (⟨S1024x16, .f32⟩ : BufTy).Contents (Elt F)),
    nullary main_c_7 (constantI S_ 32 8#32),
    unary main_c_7 main_v167 (broadcastInDim S1 ![] bcast_S_S1 : (⟨S_, .i32⟩ : BufTy).Contents (Elt F) → (⟨S1, .i32⟩ : BufTy).Contents (Elt F)),
    ternary main_v148 main_v167 main_v166 main_v168 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v169 ((extractStridedSlice S1024x1 ![0, 8] · slices_S1024x120_S1024x1_0_8) : (⟨S1024x120, .f32⟩ : BufTy).Contents (Elt F) → (⟨S1024x1, .f32⟩ : BufTy).Contents (Elt F)),
    reshape main_v169 main_v170 rfl shapeCasts_S1024x1_S1024 ]
/-- Operations 1 … 20 of window 3. -/
abbrev st9 : List (HloOp τ sig (Elt F)) :=
  [ unary main_v170 main_v171 (Host.cos : (⟨S1024, .f32⟩ : BufTy).Contents (Elt F) → (⟨S1024, .f32⟩ : BufTy).Contents (Elt F)),
    unary main_v171 main_v172 (broadcastInDim S1024x1 ![0] bcast_S1024_S1024x1_0 : (⟨S1024, .f32⟩ : BufTy).Contents (Elt F) → (⟨S1024x1, .f32⟩ : BufTy).Contents (Elt F)),
    unary main_v170 main_v173 (Host.sin : (⟨S1024, .f32⟩ : BufTy).Contents (Elt F) → (⟨S1024, .f32⟩ : BufTy).Contents (Elt F)),
    unary main_v173 main_v174 (broadcastInDim S1024x1 ![0] bcast_S1024_S1024x1_0 : (⟨S1024, .f32⟩ : BufTy).Contents (Elt F) → (⟨S1024x1, .f32⟩ : BufTy).Contents (Elt F)),
    unary main_v168 main_v175 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v175 main_v176 rfl shapeCasts_S1024x1x16_S1024x16,
    unary main_v172 main_v177 (broadcastInDim S1024x16 ![0, 1] bcast_S1024x1_S1024x16_0_1 : (⟨S1024x1, .f32⟩ : BufTy).Contents (Elt F) → (⟨S1024x16, .f32⟩ : BufTy).Contents (Elt F)),
    binary main_v177 main_v161 main_v178 (mulf : (⟨S1024x16, .f32⟩ : BufTy).Contents (Elt F) → (⟨S1024x16, .f32⟩ : BufTy).Contents (Elt F) → (⟨S1024x16, .f32⟩ : BufTy).Contents (Elt F)),
    unary main_v174 main_v179 (broadcastInDim S1024x16 ![0, 1] bcast_S1024x1_S1024x16_0_1 : (⟨S1024x1, .f32⟩ : BufTy).Contents (Elt F) → (⟨S1024x16, .f32⟩ : BufTy).Contents (Elt F)),
    binary main_v179 main_v176 main_v180 (mulf : (⟨S1024x16, .f32⟩ : BufTy).Contents (Elt F) → (⟨S1024x16, .f32⟩ : BufTy).Contents (Elt F) → (⟨S1024x16, .f32⟩ : BufTy).Contents (Elt F)),
    binary main_v178 main_v180 main_v181 (subf : (⟨S1024x16, .f32⟩ : BufTy).Contents (Elt F) → (⟨S1024x16, .f32⟩ : BufTy).Contents (Elt F) → (⟨S1024x16, .f32⟩ : BufTy).Contents (Elt F)),
    unary main_v174 main_v182 (broadcastInDim S1024x16 ![0, 1] bcast_S1024x1_S1024x16_0_1 : (⟨S1024x1, .f32⟩ : BufTy).Contents (Elt F) → (⟨S1024x16, .f32⟩ : BufTy).Contents (Elt F)),
    binary main_v182 main_v161 main_v183 (mulf : (⟨S1024x16, .f32⟩ : BufTy).Contents (Elt F) → (⟨S1024x16, .f32⟩ : BufTy).Contents (Elt F) → (⟨S1024x16, .f32⟩ : BufTy).Contents (Elt F)),
    unary main_v172 main_v184 (broadcastInDim S1024x16 ![0, 1] bcast_S1024x1_S1024x16_0_1 : (⟨S1024x1, .f32⟩ : BufTy).Contents (Elt F) → (⟨S1024x16, .f32⟩ : BufTy).Contents (Elt F)),
    binary main_v184 main_v176 main_v185 (mulf : (⟨S1024x16, .f32⟩ : BufTy).Contents (Elt F) → (⟨S1024x16, .f32⟩ : BufTy).Contents (Elt F) → (⟨S1024x16, .f32⟩ : BufTy).Contents (Elt F)),
    binary main_v183 main_v185 main_v186 (addf : (⟨S1024x16, .f32⟩ : BufTy).Contents (Elt F) → (⟨S1024x16, .f32⟩ : BufTy).Contents (Elt F) → (⟨S1024x16, .f32⟩ : BufTy).Contents (Elt F)),
    nullary main_c_8 (constantI S_ 32 9#32),
    unary main_c_8 main_v187 (broadcastInDim S1 ![] bcast_S_S1 : (⟨S_, .i32⟩ : BufTy).Contents (Elt F) → (⟨S1, .i32⟩ : BufTy).Contents (Elt F)),
    ternary main_v168 main_v187 main_v186 main_v188 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v189 ((extractStridedSlice S1024x1 ![0, 9] · slices_S1024x120_S1024x1_0_9) : (⟨S1024x120, .f32⟩ : BufTy).Contents (Elt F) → (⟨S1024x1, .f32⟩ : BufTy).Contents (Elt F)) ]
/-- Operations 21 … 40 of window 3. -/
abbrev st10 : List (HloOp τ sig (Elt F)) :=
  [ reshape main_v189 main_v190 rfl shapeCasts_S1024x1_S1024,
    unary main_v190 main_v191 (Host.cos : (⟨S1024, .f32⟩ : BufTy).Contents (Elt F) → (⟨S1024, .f32⟩ : BufTy).Contents (Elt F)),
    unary main_v191 main_v192 (broadcastInDim S1024x1 ![0] bcast_S1024_S1024x1_0 : (⟨S1024, .f32⟩ : BufTy).Contents (Elt F) → (⟨S1024x1, .f32⟩ : BufTy).Contents (Elt F)),
    unary main_v190 main_v193 (Host.sin : (⟨S1024, .f32⟩ : BufTy).Contents (Elt F) → (⟨S1024, .f32⟩ : BufTy).Contents (Elt F)),
    unary main_v193 main_v194 (broadcastInDim S1024x1 ![0] bcast_S1024_S1024x1_0 : (⟨S1024, .f32⟩ : BufTy).Contents (Elt F) → (⟨S1024x1, .f32⟩ : BufTy).Contents (Elt F)),
    unary main_v188 main_v195 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v195 main_v196 rfl shapeCasts_S1024x1x16_S1024x16,
    unary main_v192 main_v197 (broadcastInDim S1024x16 ![0, 1] bcast_S1024x1_S1024x16_0_1 : (⟨S1024x1, .f32⟩ : BufTy).Contents (Elt F) → (⟨S1024x16, .f32⟩ : BufTy).Contents (Elt F)),
    binary main_v197 main_v181 main_v198 (mulf : (⟨S1024x16, .f32⟩ : BufTy).Contents (Elt F) → (⟨S1024x16, .f32⟩ : BufTy).Contents (Elt F) → (⟨S1024x16, .f32⟩ : BufTy).Contents (Elt F)),
    unary main_v194 main_v199 (broadcastInDim S1024x16 ![0, 1] bcast_S1024x1_S1024x16_0_1 : (⟨S1024x1, .f32⟩ : BufTy).Contents (Elt F) → (⟨S1024x16, .f32⟩ : BufTy).Contents (Elt F)),
    binary main_v199 main_v196 main_v200 (mulf : (⟨S1024x16, .f32⟩ : BufTy).Contents (Elt F) → (⟨S1024x16, .f32⟩ : BufTy).Contents (Elt F) → (⟨S1024x16, .f32⟩ : BufTy).Contents (Elt F)),
    binary main_v198 main_v200 main_v201 (subf : (⟨S1024x16, .f32⟩ : BufTy).Contents (Elt F) → (⟨S1024x16, .f32⟩ : BufTy).Contents (Elt F) → (⟨S1024x16, .f32⟩ : BufTy).Contents (Elt F)),
    unary main_v194 main_v202 (broadcastInDim S1024x16 ![0, 1] bcast_S1024x1_S1024x16_0_1 : (⟨S1024x1, .f32⟩ : BufTy).Contents (Elt F) → (⟨S1024x16, .f32⟩ : BufTy).Contents (Elt F)),
    binary main_v202 main_v181 main_v203 (mulf : (⟨S1024x16, .f32⟩ : BufTy).Contents (Elt F) → (⟨S1024x16, .f32⟩ : BufTy).Contents (Elt F) → (⟨S1024x16, .f32⟩ : BufTy).Contents (Elt F)),
    unary main_v192 main_v204 (broadcastInDim S1024x16 ![0, 1] bcast_S1024x1_S1024x16_0_1 : (⟨S1024x1, .f32⟩ : BufTy).Contents (Elt F) → (⟨S1024x16, .f32⟩ : BufTy).Contents (Elt F)),
    binary main_v204 main_v196 main_v205 (mulf : (⟨S1024x16, .f32⟩ : BufTy).Contents (Elt F) → (⟨S1024x16, .f32⟩ : BufTy).Contents (Elt F) → (⟨S1024x16, .f32⟩ : BufTy).Contents (Elt F)),
    binary main_v203 main_v205 main_v206 (addf : (⟨S1024x16, .f32⟩ : BufTy).Contents (Elt F) → (⟨S1024x16, .f32⟩ : BufTy).Contents (Elt F) → (⟨S1024x16, .f32⟩ : BufTy).Contents (Elt F)),
    nullary main_c_9 (constantI S_ 32 10#32),
    unary main_c_9 main_v207 (broadcastInDim S1 ![] bcast_S_S1 : (⟨S_, .i32⟩ : BufTy).Contents (Elt F) → (⟨S1, .i32⟩ : BufTy).Contents (Elt F)),
    ternary main_v188 main_v207 main_v206 main_v208 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 41 … 60 of window 3. -/
abbrev st11 : List (HloOp τ sig (Elt F)) :=
  [ unary main_arg1 main_v209 ((extractStridedSlice S1024x1 ![0, 10] · slices_S1024x120_S1024x1_0_10) : (⟨S1024x120, .f32⟩ : BufTy).Contents (Elt F) → (⟨S1024x1, .f32⟩ : BufTy).Contents (Elt F)),
    reshape main_v209 main_v210 rfl shapeCasts_S1024x1_S1024,
    unary main_v210 main_v211 (Host.cos : (⟨S1024, .f32⟩ : BufTy).Contents (Elt F) → (⟨S1024, .f32⟩ : BufTy).Contents (Elt F)),
    unary main_v211 main_v212 (broadcastInDim S1024x1 ![0] bcast_S1024_S1024x1_0 : (⟨S1024, .f32⟩ : BufTy).Contents (Elt F) → (⟨S1024x1, .f32⟩ : BufTy).Contents (Elt F)),
    unary main_v210 main_v213 (Host.sin : (⟨S1024, .f32⟩ : BufTy).Contents (Elt F) → (⟨S1024, .f32⟩ : BufTy).Contents (Elt F)),
    unary main_v213 main_v214 (broadcastInDim S1024x1 ![0] bcast_S1024_S1024x1_0 : (⟨S1024, .f32⟩ : BufTy).Contents (Elt F) → (⟨S1024x1, .f32⟩ : BufTy).Contents (Elt F)),
    unary main_v208 main_v215 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v215 main_v216 rfl shapeCasts_S1024x1x16_S1024x16,
    unary main_v212 main_v217 (broadcastInDim S1024x16 ![0, 1] bcast_S1024x1_S1024x16_0_1 : (⟨S1024x1, .f32⟩ : BufTy).Contents (Elt F) → (⟨S1024x16, .f32⟩ : BufTy).Contents (Elt F)),
    binary main_v217 main_v201 main_v218 (mulf : (⟨S1024x16, .f32⟩ : BufTy).Contents (Elt F) → (⟨S1024x16, .f32⟩ : BufTy).Contents (Elt F) → (⟨S1024x16, .f32⟩ : BufTy).Contents (Elt F)),
    unary main_v214 main_v219 (broadcastInDim S1024x16 ![0, 1] bcast_S1024x1_S1024x16_0_1 : (⟨S1024x1, .f32⟩ : BufTy).Contents (Elt F) → (⟨S1024x16, .f32⟩ : BufTy).Contents (Elt F)),
    binary main_v219 main_v216 main_v220 (mulf : (⟨S1024x16, .f32⟩ : BufTy).Contents (Elt F) → (⟨S1024x16, .f32⟩ : BufTy).Contents (Elt F) → (⟨S1024x16, .f32⟩ : BufTy).Contents (Elt F)),
    binary main_v218 main_v220 main_v221 (subf : (⟨S1024x16, .f32⟩ : BufTy).Contents (Elt F) → (⟨S1024x16, .f32⟩ : BufTy).Contents (Elt F) → (⟨S1024x16, .f32⟩ : BufTy).Contents (Elt F)),
    unary main_v214 main_v222 (broadcastInDim S1024x16 ![0, 1] bcast_S1024x1_S1024x16_0_1 : (⟨S1024x1, .f32⟩ : BufTy).Contents (Elt F) → (⟨S1024x16, .f32⟩ : BufTy).Contents (Elt F)),
    binary main_v222 main_v201 main_v223 (mulf : (⟨S1024x16, .f32⟩ : BufTy).Contents (Elt F) → (⟨S1024x16, .f32⟩ : BufTy).Contents (Elt F) → (⟨S1024x16, .f32⟩ : BufTy).Contents (Elt F)),
    unary main_v212 main_v224 (broadcastInDim S1024x16 ![0, 1] bcast_S1024x1_S1024x16_0_1 : (⟨S1024x1, .f32⟩ : BufTy).Contents (Elt F) → (⟨S1024x16, .f32⟩ : BufTy).Contents (Elt F)),
    binary main_v224 main_v216 main_v225 (mulf : (⟨S1024x16, .f32⟩ : BufTy).Contents (Elt F) → (⟨S1024x16, .f32⟩ : BufTy).Contents (Elt F) → (⟨S1024x16, .f32⟩ : BufTy).Contents (Elt F)),
    binary main_v223 main_v225 main_v226 (addf : (⟨S1024x16, .f32⟩ : BufTy).Contents (Elt F) → (⟨S1024x16, .f32⟩ : BufTy).Contents (Elt F) → (⟨S1024x16, .f32⟩ : BufTy).Contents (Elt F)),
    nullary main_c_10 (constantI S_ 32 11#32),
    unary main_c_10 main_v227 (broadcastInDim S1 ![] bcast_S_S1 : (⟨S_, .i32⟩ : BufTy).Contents (Elt F) → (⟨S1, .i32⟩ : BufTy).Contents (Elt F)) ]
/-- Operations 1 … 20 of window 4. -/
abbrev st12 : List (HloOp τ sig (Elt F)) :=
  [ ternary main_v208 main_v227 main_v226 main_v228 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v229 ((extractStridedSlice S1024x1 ![0, 11] · slices_S1024x120_S1024x1_0_11) : (⟨S1024x120, .f32⟩ : BufTy).Contents (Elt F) → (⟨S1024x1, .f32⟩ : BufTy).Contents (Elt F)),
    reshape main_v229 main_v230 rfl shapeCasts_S1024x1_S1024,
    unary main_v230 main_v231 (Host.cos : (⟨S1024, .f32⟩ : BufTy).Contents (Elt F) → (⟨S1024, .f32⟩ : BufTy).Contents (Elt F)),
    unary main_v231 main_v232 (broadcastInDim S1024x1 ![0] bcast_S1024_S1024x1_0 : (⟨S1024, .f32⟩ : BufTy).Contents (Elt F) → (⟨S1024x1, .f32⟩ : BufTy).Contents (Elt F)),
    unary main_v230 main_v233 (Host.sin : (⟨S1024, .f32⟩ : BufTy).Contents (Elt F) → (⟨S1024, .f32⟩ : BufTy).Contents (Elt F)),
    unary main_v233 main_v234 (broadcastInDim S1024x1 ![0] bcast_S1024_S1024x1_0 : (⟨S1024, .f32⟩ : BufTy).Contents (Elt F) → (⟨S1024x1, .f32⟩ : BufTy).Contents (Elt F)),
    unary main_v228 main_v235 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v235 main_v236 rfl shapeCasts_S1024x1x16_S1024x16,
    unary main_v232 main_v237 (broadcastInDim S1024x16 ![0, 1] bcast_S1024x1_S1024x16_0_1 : (⟨S1024x1, .f32⟩ : BufTy).Contents (Elt F) → (⟨S1024x16, .f32⟩ : BufTy).Contents (Elt F)),
    binary main_v237 main_v221 main_v238 (mulf : (⟨S1024x16, .f32⟩ : BufTy).Contents (Elt F) → (⟨S1024x16, .f32⟩ : BufTy).Contents (Elt F) → (⟨S1024x16, .f32⟩ : BufTy).Contents (Elt F)),
    unary main_v234 main_v239 (broadcastInDim S1024x16 ![0, 1] bcast_S1024x1_S1024x16_0_1 : (⟨S1024x1, .f32⟩ : BufTy).Contents (Elt F) → (⟨S1024x16, .f32⟩ : BufTy).Contents (Elt F)),
    binary main_v239 main_v236 main_v240 (mulf : (⟨S1024x16, .f32⟩ : BufTy).Contents (Elt F) → (⟨S1024x16, .f32⟩ : BufTy).Contents (Elt F) → (⟨S1024x16, .f32⟩ : BufTy).Contents (Elt F)),
    binary main_v238 main_v240 main_v241 (subf : (⟨S1024x16, .f32⟩ : BufTy).Contents (Elt F) → (⟨S1024x16, .f32⟩ : BufTy).Contents (Elt F) → (⟨S1024x16, .f32⟩ : BufTy).Contents (Elt F)),
    unary main_v234 main_v242 (broadcastInDim S1024x16 ![0, 1] bcast_S1024x1_S1024x16_0_1 : (⟨S1024x1, .f32⟩ : BufTy).Contents (Elt F) → (⟨S1024x16, .f32⟩ : BufTy).Contents (Elt F)),
    binary main_v242 main_v221 main_v243 (mulf : (⟨S1024x16, .f32⟩ : BufTy).Contents (Elt F) → (⟨S1024x16, .f32⟩ : BufTy).Contents (Elt F) → (⟨S1024x16, .f32⟩ : BufTy).Contents (Elt F)),
    unary main_v232 main_v244 (broadcastInDim S1024x16 ![0, 1] bcast_S1024x1_S1024x16_0_1 : (⟨S1024x1, .f32⟩ : BufTy).Contents (Elt F) → (⟨S1024x16, .f32⟩ : BufTy).Contents (Elt F)),
    binary main_v244 main_v236 main_v245 (mulf : (⟨S1024x16, .f32⟩ : BufTy).Contents (Elt F) → (⟨S1024x16, .f32⟩ : BufTy).Contents (Elt F) → (⟨S1024x16, .f32⟩ : BufTy).Contents (Elt F)),
    binary main_v243 main_v245 main_v246 (addf : (⟨S1024x16, .f32⟩ : BufTy).Contents (Elt F) → (⟨S1024x16, .f32⟩ : BufTy).Contents (Elt F) → (⟨S1024x16, .f32⟩ : BufTy).Contents (Elt F)),
    nullary main_c_11 (constantI S_ 32 12#32) ]
/-- Operations 21 … 40 of window 4. -/
abbrev st13 : List (HloOp τ sig (Elt F)) :=
  [ unary main_c_11 main_v247 (broadcastInDim S1 ![] bcast_S_S1 : (⟨S_, .i32⟩ : BufTy).Contents (Elt F) → (⟨S1, .i32⟩ : BufTy).Contents (Elt F)),
    ternary main_v228 main_v247 main_v246 main_v248 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v249 ((extractStridedSlice S1024x1 ![0, 12] · slices_S1024x120_S1024x1_0_12) : (⟨S1024x120, .f32⟩ : BufTy).Contents (Elt F) → (⟨S1024x1, .f32⟩ : BufTy).Contents (Elt F)),
    reshape main_v249 main_v250 rfl shapeCasts_S1024x1_S1024,
    unary main_v250 main_v251 (Host.cos : (⟨S1024, .f32⟩ : BufTy).Contents (Elt F) → (⟨S1024, .f32⟩ : BufTy).Contents (Elt F)),
    unary main_v251 main_v252 (broadcastInDim S1024x1 ![0] bcast_S1024_S1024x1_0 : (⟨S1024, .f32⟩ : BufTy).Contents (Elt F) → (⟨S1024x1, .f32⟩ : BufTy).Contents (Elt F)),
    unary main_v250 main_v253 (Host.sin : (⟨S1024, .f32⟩ : BufTy).Contents (Elt F) → (⟨S1024, .f32⟩ : BufTy).Contents (Elt F)),
    unary main_v253 main_v254 (broadcastInDim S1024x1 ![0] bcast_S1024_S1024x1_0 : (⟨S1024, .f32⟩ : BufTy).Contents (Elt F) → (⟨S1024x1, .f32⟩ : BufTy).Contents (Elt F)),
    unary main_v248 main_v255 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v255 main_v256 rfl shapeCasts_S1024x1x16_S1024x16,
    unary main_v252 main_v257 (broadcastInDim S1024x16 ![0, 1] bcast_S1024x1_S1024x16_0_1 : (⟨S1024x1, .f32⟩ : BufTy).Contents (Elt F) → (⟨S1024x16, .f32⟩ : BufTy).Contents (Elt F)),
    binary main_v257 main_v241 main_v258 (mulf : (⟨S1024x16, .f32⟩ : BufTy).Contents (Elt F) → (⟨S1024x16, .f32⟩ : BufTy).Contents (Elt F) → (⟨S1024x16, .f32⟩ : BufTy).Contents (Elt F)),
    unary main_v254 main_v259 (broadcastInDim S1024x16 ![0, 1] bcast_S1024x1_S1024x16_0_1 : (⟨S1024x1, .f32⟩ : BufTy).Contents (Elt F) → (⟨S1024x16, .f32⟩ : BufTy).Contents (Elt F)),
    binary main_v259 main_v256 main_v260 (mulf : (⟨S1024x16, .f32⟩ : BufTy).Contents (Elt F) → (⟨S1024x16, .f32⟩ : BufTy).Contents (Elt F) → (⟨S1024x16, .f32⟩ : BufTy).Contents (Elt F)),
    binary main_v258 main_v260 main_v261 (subf : (⟨S1024x16, .f32⟩ : BufTy).Contents (Elt F) → (⟨S1024x16, .f32⟩ : BufTy).Contents (Elt F) → (⟨S1024x16, .f32⟩ : BufTy).Contents (Elt F)),
    unary main_v254 main_v262 (broadcastInDim S1024x16 ![0, 1] bcast_S1024x1_S1024x16_0_1 : (⟨S1024x1, .f32⟩ : BufTy).Contents (Elt F) → (⟨S1024x16, .f32⟩ : BufTy).Contents (Elt F)),
    binary main_v262 main_v241 main_v263 (mulf : (⟨S1024x16, .f32⟩ : BufTy).Contents (Elt F) → (⟨S1024x16, .f32⟩ : BufTy).Contents (Elt F) → (⟨S1024x16, .f32⟩ : BufTy).Contents (Elt F)),
    unary main_v252 main_v264 (broadcastInDim S1024x16 ![0, 1] bcast_S1024x1_S1024x16_0_1 : (⟨S1024x1, .f32⟩ : BufTy).Contents (Elt F) → (⟨S1024x16, .f32⟩ : BufTy).Contents (Elt F)),
    binary main_v264 main_v256 main_v265 (mulf : (⟨S1024x16, .f32⟩ : BufTy).Contents (Elt F) → (⟨S1024x16, .f32⟩ : BufTy).Contents (Elt F) → (⟨S1024x16, .f32⟩ : BufTy).Contents (Elt F)),
    binary main_v263 main_v265 main_v266 (addf : (⟨S1024x16, .f32⟩ : BufTy).Contents (Elt F) → (⟨S1024x16, .f32⟩ : BufTy).Contents (Elt F) → (⟨S1024x16, .f32⟩ : BufTy).Contents (Elt F)) ]
/-- Operations 41 … 60 of window 4. -/
abbrev st14 : List (HloOp τ sig (Elt F)) :=
  [ nullary main_c_12 (constantI S_ 32 13#32),
    unary main_c_12 main_v267 (broadcastInDim S1 ![] bcast_S_S1 : (⟨S_, .i32⟩ : BufTy).Contents (Elt F) → (⟨S1, .i32⟩ : BufTy).Contents (Elt F)),
    ternary main_v248 main_v267 main_v266 main_v268 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v269 ((extractStridedSlice S1024x1 ![0, 13] · slices_S1024x120_S1024x1_0_13) : (⟨S1024x120, .f32⟩ : BufTy).Contents (Elt F) → (⟨S1024x1, .f32⟩ : BufTy).Contents (Elt F)),
    reshape main_v269 main_v270 rfl shapeCasts_S1024x1_S1024,
    unary main_v270 main_v271 (Host.cos : (⟨S1024, .f32⟩ : BufTy).Contents (Elt F) → (⟨S1024, .f32⟩ : BufTy).Contents (Elt F)),
    unary main_v271 main_v272 (broadcastInDim S1024x1 ![0] bcast_S1024_S1024x1_0 : (⟨S1024, .f32⟩ : BufTy).Contents (Elt F) → (⟨S1024x1, .f32⟩ : BufTy).Contents (Elt F)),
    unary main_v270 main_v273 (Host.sin : (⟨S1024, .f32⟩ : BufTy).Contents (Elt F) → (⟨S1024, .f32⟩ : BufTy).Contents (Elt F)),
    unary main_v273 main_v274 (broadcastInDim S1024x1 ![0] bcast_S1024_S1024x1_0 : (⟨S1024, .f32⟩ : BufTy).Contents (Elt F) → (⟨S1024x1, .f32⟩ : BufTy).Contents (Elt F)),
    unary main_v268 main_v275 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v275 main_v276 rfl shapeCasts_S1024x1x16_S1024x16,
    unary main_v272 main_v277 (broadcastInDim S1024x16 ![0, 1] bcast_S1024x1_S1024x16_0_1 : (⟨S1024x1, .f32⟩ : BufTy).Contents (Elt F) → (⟨S1024x16, .f32⟩ : BufTy).Contents (Elt F)),
    binary main_v277 main_v261 main_v278 (mulf : (⟨S1024x16, .f32⟩ : BufTy).Contents (Elt F) → (⟨S1024x16, .f32⟩ : BufTy).Contents (Elt F) → (⟨S1024x16, .f32⟩ : BufTy).Contents (Elt F)),
    unary main_v274 main_v279 (broadcastInDim S1024x16 ![0, 1] bcast_S1024x1_S1024x16_0_1 : (⟨S1024x1, .f32⟩ : BufTy).Contents (Elt F) → (⟨S1024x16, .f32⟩ : BufTy).Contents (Elt F)),
    binary main_v279 main_v276 main_v280 (mulf : (⟨S1024x16, .f32⟩ : BufTy).Contents (Elt F) → (⟨S1024x16, .f32⟩ : BufTy).Contents (Elt F) → (⟨S1024x16, .f32⟩ : BufTy).Contents (Elt F)),
    binary main_v278 main_v280 main_v281 (subf : (⟨S1024x16, .f32⟩ : BufTy).Contents (Elt F) → (⟨S1024x16, .f32⟩ : BufTy).Contents (Elt F) → (⟨S1024x16, .f32⟩ : BufTy).Contents (Elt F)),
    unary main_v274 main_v282 (broadcastInDim S1024x16 ![0, 1] bcast_S1024x1_S1024x16_0_1 : (⟨S1024x1, .f32⟩ : BufTy).Contents (Elt F) → (⟨S1024x16, .f32⟩ : BufTy).Contents (Elt F)),
    binary main_v282 main_v261 main_v283 (mulf : (⟨S1024x16, .f32⟩ : BufTy).Contents (Elt F) → (⟨S1024x16, .f32⟩ : BufTy).Contents (Elt F) → (⟨S1024x16, .f32⟩ : BufTy).Contents (Elt F)),
    unary main_v272 main_v284 (broadcastInDim S1024x16 ![0, 1] bcast_S1024x1_S1024x16_0_1 : (⟨S1024x1, .f32⟩ : BufTy).Contents (Elt F) → (⟨S1024x16, .f32⟩ : BufTy).Contents (Elt F)),
    binary main_v284 main_v276 main_v285 (mulf : (⟨S1024x16, .f32⟩ : BufTy).Contents (Elt F) → (⟨S1024x16, .f32⟩ : BufTy).Contents (Elt F) → (⟨S1024x16, .f32⟩ : BufTy).Contents (Elt F)) ]
/-- Operations 1 … 20 of window 5. -/
abbrev st15 : List (HloOp τ sig (Elt F)) :=
  [ binary main_v283 main_v285 main_v286 (addf : (⟨S1024x16, .f32⟩ : BufTy).Contents (Elt F) → (⟨S1024x16, .f32⟩ : BufTy).Contents (Elt F) → (⟨S1024x16, .f32⟩ : BufTy).Contents (Elt F)),
    nullary main_c_13 (constantI S_ 32 14#32),
    unary main_c_13 main_v287 (broadcastInDim S1 ![] bcast_S_S1 : (⟨S_, .i32⟩ : BufTy).Contents (Elt F) → (⟨S1, .i32⟩ : BufTy).Contents (Elt F)),
    ternary main_v268 main_v287 main_v286 main_v288 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v289 ((extractStridedSlice S1024x1 ![0, 14] · slices_S1024x120_S1024x1_0_14) : (⟨S1024x120, .f32⟩ : BufTy).Contents (Elt F) → (⟨S1024x1, .f32⟩ : BufTy).Contents (Elt F)),
    reshape main_v289 main_v290 rfl shapeCasts_S1024x1_S1024,
    unary main_v290 main_v291 (Host.cos : (⟨S1024, .f32⟩ : BufTy).Contents (Elt F) → (⟨S1024, .f32⟩ : BufTy).Contents (Elt F)),
    unary main_v291 main_v292 (broadcastInDim S1024x1 ![0] bcast_S1024_S1024x1_0 : (⟨S1024, .f32⟩ : BufTy).Contents (Elt F) → (⟨S1024x1, .f32⟩ : BufTy).Contents (Elt F)),
    unary main_v290 main_v293 (Host.sin : (⟨S1024, .f32⟩ : BufTy).Contents (Elt F) → (⟨S1024, .f32⟩ : BufTy).Contents (Elt F)),
    unary main_v293 main_v294 (broadcastInDim S1024x1 ![0] bcast_S1024_S1024x1_0 : (⟨S1024, .f32⟩ : BufTy).Contents (Elt F) → (⟨S1024x1, .f32⟩ : BufTy).Contents (Elt F)),
    unary main_v288 main_v295 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v295 main_v296 rfl shapeCasts_S1024x1x16_S1024x16,
    unary main_v292 main_v297 (broadcastInDim S1024x16 ![0, 1] bcast_S1024x1_S1024x16_0_1 : (⟨S1024x1, .f32⟩ : BufTy).Contents (Elt F) → (⟨S1024x16, .f32⟩ : BufTy).Contents (Elt F)),
    binary main_v297 main_v281 main_v298 (mulf : (⟨S1024x16, .f32⟩ : BufTy).Contents (Elt F) → (⟨S1024x16, .f32⟩ : BufTy).Contents (Elt F) → (⟨S1024x16, .f32⟩ : BufTy).Contents (Elt F)),
    unary main_v294 main_v299 (broadcastInDim S1024x16 ![0, 1] bcast_S1024x1_S1024x16_0_1 : (⟨S1024x1, .f32⟩ : BufTy).Contents (Elt F) → (⟨S1024x16, .f32⟩ : BufTy).Contents (Elt F)),
    binary main_v299 main_v296 main_v300 (mulf : (⟨S1024x16, .f32⟩ : BufTy).Contents (Elt F) → (⟨S1024x16, .f32⟩ : BufTy).Contents (Elt F) → (⟨S1024x16, .f32⟩ : BufTy).Contents (Elt F)),
    binary main_v298 main_v300 main_v301 (subf : (⟨S1024x16, .f32⟩ : BufTy).Contents (Elt F) → (⟨S1024x16, .f32⟩ : BufTy).Contents (Elt F) → (⟨S1024x16, .f32⟩ : BufTy).Contents (Elt F)),
    unary main_v294 main_v302 (broadcastInDim S1024x16 ![0, 1] bcast_S1024x1_S1024x16_0_1 : (⟨S1024x1, .f32⟩ : BufTy).Contents (Elt F) → (⟨S1024x16, .f32⟩ : BufTy).Contents (Elt F)),
    binary main_v302 main_v281 main_v303 (mulf : (⟨S1024x16, .f32⟩ : BufTy).Contents (Elt F) → (⟨S1024x16, .f32⟩ : BufTy).Contents (Elt F) → (⟨S1024x16, .f32⟩ : BufTy).Contents (Elt F)),
    unary main_v292 main_v304 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 5. -/
abbrev st16 : List (HloOp τ sig (Elt F)) :=
  [ binary main_v304 main_v296 main_v305 (mulf : (⟨S1024x16, .f32⟩ : BufTy).Contents (Elt F) → (⟨S1024x16, .f32⟩ : BufTy).Contents (Elt F) → (⟨S1024x16, .f32⟩ : BufTy).Contents (Elt F)),
    binary main_v303 main_v305 main_v306 (addf : (⟨S1024x16, .f32⟩ : BufTy).Contents (Elt F) → (⟨S1024x16, .f32⟩ : BufTy).Contents (Elt F) → (⟨S1024x16, .f32⟩ : BufTy).Contents (Elt F)),
    nullary main_c_14 (constantI S_ 32 15#32),
    unary main_c_14 main_v307 (broadcastInDim S1 ![] bcast_S_S1 : (⟨S_, .i32⟩ : BufTy).Contents (Elt F) → (⟨S1, .i32⟩ : BufTy).Contents (Elt F)),
    ternary main_v288 main_v307 main_v306 main_v308 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_15 (constantI S_ 32 0#32),
    unary main_c_15 main_v309 (broadcastInDim S1 ![] bcast_S_S1 : (⟨S_, .i32⟩ : BufTy).Contents (Elt F) → (⟨S1, .i32⟩ : BufTy).Contents (Elt F)),
    ternary main_v308 main_v309 main_v301 main_v310 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v310 main_v311 ((extractStridedSlice S1024x1x16 ![0, 1, 0] · slices_S1024x16x16_S1024x1x16_0_1_0) : (⟨S1024x16x16, .f32⟩ : BufTy).Contents (Elt F) → (⟨S1024x1x16, .f32⟩ : BufTy).Contents (Elt F)),
    reshape main_v311 main_v312 rfl shapeCasts_S1024x1x16_S1024x16,
    unary main_arg1 main_v313 ((extractStridedSlice S1024x1 ![0, 15] · slices_S1024x120_S1024x1_0_15) : (⟨S1024x120, .f32⟩ : BufTy).Contents (Elt F) → (⟨S1024x1, .f32⟩ : BufTy).Contents (Elt F)),
    reshape main_v313 main_v314 rfl shapeCasts_S1024x1_S1024,
    unary main_v314 main_v315 (Host.cos : (⟨S1024, .f32⟩ : BufTy).Contents (Elt F) → (⟨S1024, .f32⟩ : BufTy).Contents (Elt F)),
    unary main_v315 main_v316 (broadcastInDim S1024x1 ![0] bcast_S1024_S1024x1_0 : (⟨S1024, .f32⟩ : BufTy).Contents (Elt F) → (⟨S1024x1, .f32⟩ : BufTy).Contents (Elt F)),
    unary main_v314 main_v317 (Host.sin : (⟨S1024, .f32⟩ : BufTy).Contents (Elt F) → (⟨S1024, .f32⟩ : BufTy).Contents (Elt F)),
    unary main_v317 main_v318 (broadcastInDim S1024x1 ![0] bcast_S1024_S1024x1_0 : (⟨S1024, .f32⟩ : BufTy).Contents (Elt F) → (⟨S1024x1, .f32⟩ : BufTy).Contents (Elt F)),
    unary main_v310 main_v319 ((extractStridedSlice S1024x1x16 ![0, 2, 0] · slices_S1024x16x16_S1024x1x16_0_2_0) : (⟨S1024x16x16, .f32⟩ : BufTy).Contents (Elt F) → (⟨S1024x1x16, .f32⟩ : BufTy).Contents (Elt F)),
    reshape main_v319 main_v320 rfl shapeCasts_S1024x1x16_S1024x16,
    unary main_v316 main_v321 (broadcastInDim S1024x16 ![0, 1] bcast_S1024x1_S1024x16_0_1 : (⟨S1024x1, .f32⟩ : BufTy).Contents (Elt F) → (⟨S1024x16, .f32⟩ : BufTy).Contents (Elt F)),
    binary main_v321 main_v312 main_v322 (mulf : (⟨S1024x16, .f32⟩ : BufTy).Contents (Elt F) → (⟨S1024x16, .f32⟩ : BufTy).Contents (Elt F) → (⟨S1024x16, .f32⟩ : BufTy).Contents (Elt F)) ]
/-- Operations 41 … 60 of window 5. -/
abbrev st17 : List (HloOp τ sig (Elt F)) :=
  [ unary main_v318 main_v323 (broadcastInDim S1024x16 ![0, 1] bcast_S1024x1_S1024x16_0_1 : (⟨S1024x1, .f32⟩ : BufTy).Contents (Elt F) → (⟨S1024x16, .f32⟩ : BufTy).Contents (Elt F)),
    binary main_v323 main_v320 main_v324 (mulf : (⟨S1024x16, .f32⟩ : BufTy).Contents (Elt F) → (⟨S1024x16, .f32⟩ : BufTy).Contents (Elt F) → (⟨S1024x16, .f32⟩ : BufTy).Contents (Elt F)),
    binary main_v322 main_v324 main_v325 (subf : (⟨S1024x16, .f32⟩ : BufTy).Contents (Elt F) → (⟨S1024x16, .f32⟩ : BufTy).Contents (Elt F) → (⟨S1024x16, .f32⟩ : BufTy).Contents (Elt F)),
    unary main_v318 main_v326 (broadcastInDim S1024x16 ![0, 1] bcast_S1024x1_S1024x16_0_1 : (⟨S1024x1, .f32⟩ : BufTy).Contents (Elt F) → (⟨S1024x16, .f32⟩ : BufTy).Contents (Elt F)),
    binary main_v326 main_v312 main_v327 (mulf : (⟨S1024x16, .f32⟩ : BufTy).Contents (Elt F) → (⟨S1024x16, .f32⟩ : BufTy).Contents (Elt F) → (⟨S1024x16, .f32⟩ : BufTy).Contents (Elt F)),
    unary main_v316 main_v328 (broadcastInDim S1024x16 ![0, 1] bcast_S1024x1_S1024x16_0_1 : (⟨S1024x1, .f32⟩ : BufTy).Contents (Elt F) → (⟨S1024x16, .f32⟩ : BufTy).Contents (Elt F)),
    binary main_v328 main_v320 main_v329 (mulf : (⟨S1024x16, .f32⟩ : BufTy).Contents (Elt F) → (⟨S1024x16, .f32⟩ : BufTy).Contents (Elt F) → (⟨S1024x16, .f32⟩ : BufTy).Contents (Elt F)),
    binary main_v327 main_v329 main_v330 (addf : (⟨S1024x16, .f32⟩ : BufTy).Contents (Elt F) → (⟨S1024x16, .f32⟩ : BufTy).Contents (Elt F) → (⟨S1024x16, .f32⟩ : BufTy).Contents (Elt F)),
    nullary main_c_16 (constantI S_ 32 2#32),
    unary main_c_16 main_v331 (broadcastInDim S1 ![] bcast_S_S1 : (⟨S_, .i32⟩ : BufTy).Contents (Elt F) → (⟨S1, .i32⟩ : BufTy).Contents (Elt F)),
    ternary main_v310 main_v331 main_v330 main_v332 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v333 ((extractStridedSlice S1024x1 ![0, 16] · slices_S1024x120_S1024x1_0_16) : (⟨S1024x120, .f32⟩ : BufTy).Contents (Elt F) → (⟨S1024x1, .f32⟩ : BufTy).Contents (Elt F)),
    reshape main_v333 main_v334 rfl shapeCasts_S1024x1_S1024,
    unary main_v334 main_v335 (Host.cos : (⟨S1024, .f32⟩ : BufTy).Contents (Elt F) → (⟨S1024, .f32⟩ : BufTy).Contents (Elt F)),
    unary main_v335 main_v336 (broadcastInDim S1024x1 ![0] bcast_S1024_S1024x1_0 : (⟨S1024, .f32⟩ : BufTy).Contents (Elt F) → (⟨S1024x1, .f32⟩ : BufTy).Contents (Elt F)),
    unary main_v334 main_v337 (Host.sin : (⟨S1024, .f32⟩ : BufTy).Contents (Elt F) → (⟨S1024, .f32⟩ : BufTy).Contents (Elt F)),
    unary main_v337 main_v338 (broadcastInDim S1024x1 ![0] bcast_S1024_S1024x1_0 : (⟨S1024, .f32⟩ : BufTy).Contents (Elt F) → (⟨S1024x1, .f32⟩ : BufTy).Contents (Elt F)),
    unary main_v332 main_v339 ((extractStridedSlice S1024x1x16 ![0, 3, 0] · slices_S1024x16x16_S1024x1x16_0_3_0) : (⟨S1024x16x16, .f32⟩ : BufTy).Contents (Elt F) → (⟨S1024x1x16, .f32⟩ : BufTy).Contents (Elt F)),
    reshape main_v339 main_v340 rfl shapeCasts_S1024x1x16_S1024x16,
    unary main_v336 main_v341 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 6. -/
abbrev st18 : List (HloOp τ sig (Elt F)) :=
  [ binary main_v341 main_v325 main_v342 (mulf : (⟨S1024x16, .f32⟩ : BufTy).Contents (Elt F) → (⟨S1024x16, .f32⟩ : BufTy).Contents (Elt F) → (⟨S1024x16, .f32⟩ : BufTy).Contents (Elt F)),
    unary main_v338 main_v343 (broadcastInDim S1024x16 ![0, 1] bcast_S1024x1_S1024x16_0_1 : (⟨S1024x1, .f32⟩ : BufTy).Contents (Elt F) → (⟨S1024x16, .f32⟩ : BufTy).Contents (Elt F)),
    binary main_v343 main_v340 main_v344 (mulf : (⟨S1024x16, .f32⟩ : BufTy).Contents (Elt F) → (⟨S1024x16, .f32⟩ : BufTy).Contents (Elt F) → (⟨S1024x16, .f32⟩ : BufTy).Contents (Elt F)),
    binary main_v342 main_v344 main_v345 (subf : (⟨S1024x16, .f32⟩ : BufTy).Contents (Elt F) → (⟨S1024x16, .f32⟩ : BufTy).Contents (Elt F) → (⟨S1024x16, .f32⟩ : BufTy).Contents (Elt F)),
    unary main_v338 main_v346 (broadcastInDim S1024x16 ![0, 1] bcast_S1024x1_S1024x16_0_1 : (⟨S1024x1, .f32⟩ : BufTy).Contents (Elt F) → (⟨S1024x16, .f32⟩ : BufTy).Contents (Elt F)),
    binary main_v346 main_v325 main_v347 (mulf : (⟨S1024x16, .f32⟩ : BufTy).Contents (Elt F) → (⟨S1024x16, .f32⟩ : BufTy).Contents (Elt F) → (⟨S1024x16, .f32⟩ : BufTy).Contents (Elt F)),
    unary main_v336 main_v348 (broadcastInDim S1024x16 ![0, 1] bcast_S1024x1_S1024x16_0_1 : (⟨S1024x1, .f32⟩ : BufTy).Contents (Elt F) → (⟨S1024x16, .f32⟩ : BufTy).Contents (Elt F)),
    binary main_v348 main_v340 main_v349 (mulf : (⟨S1024x16, .f32⟩ : BufTy).Contents (Elt F) → (⟨S1024x16, .f32⟩ : BufTy).Contents (Elt F) → (⟨S1024x16, .f32⟩ : BufTy).Contents (Elt F)),
    binary main_v347 main_v349 main_v350 (addf : (⟨S1024x16, .f32⟩ : BufTy).Contents (Elt F) → (⟨S1024x16, .f32⟩ : BufTy).Contents (Elt F) → (⟨S1024x16, .f32⟩ : BufTy).Contents (Elt F)),
    nullary main_c_17 (constantI S_ 32 3#32),
    unary main_c_17 main_v351 (broadcastInDim S1 ![] bcast_S_S1 : (⟨S_, .i32⟩ : BufTy).Contents (Elt F) → (⟨S1, .i32⟩ : BufTy).Contents (Elt F)),
    ternary main_v332 main_v351 main_v350 main_v352 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v353 ((extractStridedSlice S1024x1 ![0, 17] · slices_S1024x120_S1024x1_0_17) : (⟨S1024x120, .f32⟩ : BufTy).Contents (Elt F) → (⟨S1024x1, .f32⟩ : BufTy).Contents (Elt F)),
    reshape main_v353 main_v354 rfl shapeCasts_S1024x1_S1024,
    unary main_v354 main_v355 (Host.cos : (⟨S1024, .f32⟩ : BufTy).Contents (Elt F) → (⟨S1024, .f32⟩ : BufTy).Contents (Elt F)),
    unary main_v355 main_v356 (broadcastInDim S1024x1 ![0] bcast_S1024_S1024x1_0 : (⟨S1024, .f32⟩ : BufTy).Contents (Elt F) → (⟨S1024x1, .f32⟩ : BufTy).Contents (Elt F)),
    unary main_v354 main_v357 (Host.sin : (⟨S1024, .f32⟩ : BufTy).Contents (Elt F) → (⟨S1024, .f32⟩ : BufTy).Contents (Elt F)),
    unary main_v357 main_v358 (broadcastInDim S1024x1 ![0] bcast_S1024_S1024x1_0 : (⟨S1024, .f32⟩ : BufTy).Contents (Elt F) → (⟨S1024x1, .f32⟩ : BufTy).Contents (Elt F)),
    unary main_v352 main_v359 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)),
    reshape main_v359 main_v360 rfl shapeCasts_S1024x1x16_S1024x16 ]
/-- Operations 21 … 40 of window 6. -/
abbrev st19 : List (HloOp τ sig (Elt F)) :=
  [ unary main_v356 main_v361 (broadcastInDim S1024x16 ![0, 1] bcast_S1024x1_S1024x16_0_1 : (⟨S1024x1, .f32⟩ : BufTy).Contents (Elt F) → (⟨S1024x16, .f32⟩ : BufTy).Contents (Elt F)),
    binary main_v361 main_v345 main_v362 (mulf : (⟨S1024x16, .f32⟩ : BufTy).Contents (Elt F) → (⟨S1024x16, .f32⟩ : BufTy).Contents (Elt F) → (⟨S1024x16, .f32⟩ : BufTy).Contents (Elt F)),
    unary main_v358 main_v363 (broadcastInDim S1024x16 ![0, 1] bcast_S1024x1_S1024x16_0_1 : (⟨S1024x1, .f32⟩ : BufTy).Contents (Elt F) → (⟨S1024x16, .f32⟩ : BufTy).Contents (Elt F)),
    binary main_v363 main_v360 main_v364 (mulf : (⟨S1024x16, .f32⟩ : BufTy).Contents (Elt F) → (⟨S1024x16, .f32⟩ : BufTy).Contents (Elt F) → (⟨S1024x16, .f32⟩ : BufTy).Contents (Elt F)),
    binary main_v362 main_v364 main_v365 (subf : (⟨S1024x16, .f32⟩ : BufTy).Contents (Elt F) → (⟨S1024x16, .f32⟩ : BufTy).Contents (Elt F) → (⟨S1024x16, .f32⟩ : BufTy).Contents (Elt F)),
    unary main_v358 main_v366 (broadcastInDim S1024x16 ![0, 1] bcast_S1024x1_S1024x16_0_1 : (⟨S1024x1, .f32⟩ : BufTy).Contents (Elt F) → (⟨S1024x16, .f32⟩ : BufTy).Contents (Elt F)),
    binary main_v366 main_v345 main_v367 (mulf : (⟨S1024x16, .f32⟩ : BufTy).Contents (Elt F) → (⟨S1024x16, .f32⟩ : BufTy).Contents (Elt F) → (⟨S1024x16, .f32⟩ : BufTy).Contents (Elt F)),
    unary main_v356 main_v368 (broadcastInDim S1024x16 ![0, 1] bcast_S1024x1_S1024x16_0_1 : (⟨S1024x1, .f32⟩ : BufTy).Contents (Elt F) → (⟨S1024x16, .f32⟩ : BufTy).Contents (Elt F)),
    binary main_v368 main_v360 main_v369 (mulf : (⟨S1024x16, .f32⟩ : BufTy).Contents (Elt F) → (⟨S1024x16, .f32⟩ : BufTy).Contents (Elt F) → (⟨S1024x16, .f32⟩ : BufTy).Contents (Elt F)),
    binary main_v367 main_v369 main_v370 (addf : (⟨S1024x16, .f32⟩ : BufTy).Contents (Elt F) → (⟨S1024x16, .f32⟩ : BufTy).Contents (Elt F) → (⟨S1024x16, .f32⟩ : BufTy).Contents (Elt F)),
    nullary main_c_18 (constantI S_ 32 4#32),
    unary main_c_18 main_v371 (broadcastInDim S1 ![] bcast_S_S1 : (⟨S_, .i32⟩ : BufTy).Contents (Elt F) → (⟨S1, .i32⟩ : BufTy).Contents (Elt F)),
    ternary main_v352 main_v371 main_v370 main_v372 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v373 ((extractStridedSlice S1024x1 ![0, 18] · slices_S1024x120_S1024x1_0_18) : (⟨S1024x120, .f32⟩ : BufTy).Contents (Elt F) → (⟨S1024x1, .f32⟩ : BufTy).Contents (Elt F)),
    reshape main_v373 main_v374 rfl shapeCasts_S1024x1_S1024,
    unary main_v374 main_v375 (Host.cos : (⟨S1024, .f32⟩ : BufTy).Contents (Elt F) → (⟨S1024, .f32⟩ : BufTy).Contents (Elt F)),
    unary main_v375 main_v376 (broadcastInDim S1024x1 ![0] bcast_S1024_S1024x1_0 : (⟨S1024, .f32⟩ : BufTy).Contents (Elt F) → (⟨S1024x1, .f32⟩ : BufTy).Contents (Elt F)),
    unary main_v374 main_v377 (Host.sin : (⟨S1024, .f32⟩ : BufTy).Contents (Elt F) → (⟨S1024, .f32⟩ : BufTy).Contents (Elt F)),
    unary main_v377 main_v378 (broadcastInDim S1024x1 ![0] bcast_S1024_S1024x1_0 : (⟨S1024, .f32⟩ : BufTy).Contents (Elt F) → (⟨S1024x1, .f32⟩ : BufTy).Contents (Elt F)),
    unary main_v372 main_v379 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)) ]
/-- Operations 41 … 60 of window 6. -/
abbrev st20 : List (HloOp τ sig (Elt F)) :=
  [ reshape main_v379 main_v380 rfl shapeCasts_S1024x1x16_S1024x16,
    unary main_v376 main_v381 (broadcastInDim S1024x16 ![0, 1] bcast_S1024x1_S1024x16_0_1 : (⟨S1024x1, .f32⟩ : BufTy).Contents (Elt F) → (⟨S1024x16, .f32⟩ : BufTy).Contents (Elt F)),
    binary main_v381 main_v365 main_v382 (mulf : (⟨S1024x16, .f32⟩ : BufTy).Contents (Elt F) → (⟨S1024x16, .f32⟩ : BufTy).Contents (Elt F) → (⟨S1024x16, .f32⟩ : BufTy).Contents (Elt F)),
    unary main_v378 main_v383 (broadcastInDim S1024x16 ![0, 1] bcast_S1024x1_S1024x16_0_1 : (⟨S1024x1, .f32⟩ : BufTy).Contents (Elt F) → (⟨S1024x16, .f32⟩ : BufTy).Contents (Elt F)),
    binary main_v383 main_v380 main_v384 (mulf : (⟨S1024x16, .f32⟩ : BufTy).Contents (Elt F) → (⟨S1024x16, .f32⟩ : BufTy).Contents (Elt F) → (⟨S1024x16, .f32⟩ : BufTy).Contents (Elt F)),
    binary main_v382 main_v384 main_v385 (subf : (⟨S1024x16, .f32⟩ : BufTy).Contents (Elt F) → (⟨S1024x16, .f32⟩ : BufTy).Contents (Elt F) → (⟨S1024x16, .f32⟩ : BufTy).Contents (Elt F)),
    unary main_v378 main_v386 (broadcastInDim S1024x16 ![0, 1] bcast_S1024x1_S1024x16_0_1 : (⟨S1024x1, .f32⟩ : BufTy).Contents (Elt F) → (⟨S1024x16, .f32⟩ : BufTy).Contents (Elt F)),
    binary main_v386 main_v365 main_v387 (mulf : (⟨S1024x16, .f32⟩ : BufTy).Contents (Elt F) → (⟨S1024x16, .f32⟩ : BufTy).Contents (Elt F) → (⟨S1024x16, .f32⟩ : BufTy).Contents (Elt F)),
    unary main_v376 main_v388 (broadcastInDim S1024x16 ![0, 1] bcast_S1024x1_S1024x16_0_1 : (⟨S1024x1, .f32⟩ : BufTy).Contents (Elt F) → (⟨S1024x16, .f32⟩ : BufTy).Contents (Elt F)),
    binary main_v388 main_v380 main_v389 (mulf : (⟨S1024x16, .f32⟩ : BufTy).Contents (Elt F) → (⟨S1024x16, .f32⟩ : BufTy).Contents (Elt F) → (⟨S1024x16, .f32⟩ : BufTy).Contents (Elt F)),
    binary main_v387 main_v389 main_v390 (addf : (⟨S1024x16, .f32⟩ : BufTy).Contents (Elt F) → (⟨S1024x16, .f32⟩ : BufTy).Contents (Elt F) → (⟨S1024x16, .f32⟩ : BufTy).Contents (Elt F)),
    nullary main_c_19 (constantI S_ 32 5#32),
    unary main_c_19 main_v391 (broadcastInDim S1 ![] bcast_S_S1 : (⟨S_, .i32⟩ : BufTy).Contents (Elt F) → (⟨S1, .i32⟩ : BufTy).Contents (Elt F)),
    ternary main_v372 main_v391 main_v390 main_v392 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v393 ((extractStridedSlice S1024x1 ![0, 19] · slices_S1024x120_S1024x1_0_19) : (⟨S1024x120, .f32⟩ : BufTy).Contents (Elt F) → (⟨S1024x1, .f32⟩ : BufTy).Contents (Elt F)),
    reshape main_v393 main_v394 rfl shapeCasts_S1024x1_S1024,
    unary main_v394 main_v395 (Host.cos : (⟨S1024, .f32⟩ : BufTy).Contents (Elt F) → (⟨S1024, .f32⟩ : BufTy).Contents (Elt F)),
    unary main_v395 main_v396 (broadcastInDim S1024x1 ![0] bcast_S1024_S1024x1_0 : (⟨S1024, .f32⟩ : BufTy).Contents (Elt F) → (⟨S1024x1, .f32⟩ : BufTy).Contents (Elt F)),
    unary main_v394 main_v397 (Host.sin : (⟨S1024, .f32⟩ : BufTy).Contents (Elt F) → (⟨S1024, .f32⟩ : BufTy).Contents (Elt F)),
    unary main_v397 main_v398 (broadcastInDim S1024x1 ![0] bcast_S1024_S1024x1_0 : (⟨S1024, .f32⟩ : BufTy).Contents (Elt F) → (⟨S1024x1, .f32⟩ : BufTy).Contents (Elt F)) ]
/-- Operations 1 … 20 of window 7. -/
abbrev st21 : List (HloOp τ sig (Elt F)) :=
  [ unary main_v392 main_v399 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v399 main_v400 rfl shapeCasts_S1024x1x16_S1024x16,
    unary main_v396 main_v401 (broadcastInDim S1024x16 ![0, 1] bcast_S1024x1_S1024x16_0_1 : (⟨S1024x1, .f32⟩ : BufTy).Contents (Elt F) → (⟨S1024x16, .f32⟩ : BufTy).Contents (Elt F)),
    binary main_v401 main_v385 main_v402 (mulf : (⟨S1024x16, .f32⟩ : BufTy).Contents (Elt F) → (⟨S1024x16, .f32⟩ : BufTy).Contents (Elt F) → (⟨S1024x16, .f32⟩ : BufTy).Contents (Elt F)),
    unary main_v398 main_v403 (broadcastInDim S1024x16 ![0, 1] bcast_S1024x1_S1024x16_0_1 : (⟨S1024x1, .f32⟩ : BufTy).Contents (Elt F) → (⟨S1024x16, .f32⟩ : BufTy).Contents (Elt F)),
    binary main_v403 main_v400 main_v404 (mulf : (⟨S1024x16, .f32⟩ : BufTy).Contents (Elt F) → (⟨S1024x16, .f32⟩ : BufTy).Contents (Elt F) → (⟨S1024x16, .f32⟩ : BufTy).Contents (Elt F)),
    binary main_v402 main_v404 main_v405 (subf : (⟨S1024x16, .f32⟩ : BufTy).Contents (Elt F) → (⟨S1024x16, .f32⟩ : BufTy).Contents (Elt F) → (⟨S1024x16, .f32⟩ : BufTy).Contents (Elt F)),
    unary main_v398 main_v406 (broadcastInDim S1024x16 ![0, 1] bcast_S1024x1_S1024x16_0_1 : (⟨S1024x1, .f32⟩ : BufTy).Contents (Elt F) → (⟨S1024x16, .f32⟩ : BufTy).Contents (Elt F)),
    binary main_v406 main_v385 main_v407 (mulf : (⟨S1024x16, .f32⟩ : BufTy).Contents (Elt F) → (⟨S1024x16, .f32⟩ : BufTy).Contents (Elt F) → (⟨S1024x16, .f32⟩ : BufTy).Contents (Elt F)),
    unary main_v396 main_v408 (broadcastInDim S1024x16 ![0, 1] bcast_S1024x1_S1024x16_0_1 : (⟨S1024x1, .f32⟩ : BufTy).Contents (Elt F) → (⟨S1024x16, .f32⟩ : BufTy).Contents (Elt F)),
    binary main_v408 main_v400 main_v409 (mulf : (⟨S1024x16, .f32⟩ : BufTy).Contents (Elt F) → (⟨S1024x16, .f32⟩ : BufTy).Contents (Elt F) → (⟨S1024x16, .f32⟩ : BufTy).Contents (Elt F)),
    binary main_v407 main_v409 main_v410 (addf : (⟨S1024x16, .f32⟩ : BufTy).Contents (Elt F) → (⟨S1024x16, .f32⟩ : BufTy).Contents (Elt F) → (⟨S1024x16, .f32⟩ : BufTy).Contents (Elt F)),
    nullary main_c_20 (constantI S_ 32 6#32),
    unary main_c_20 main_v411 (broadcastInDim S1 ![] bcast_S_S1 : (⟨S_, .i32⟩ : BufTy).Contents (Elt F) → (⟨S1, .i32⟩ : BufTy).Contents (Elt F)),
    ternary main_v392 main_v411 main_v410 main_v412 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v413 ((extractStridedSlice S1024x1 ![0, 20] · slices_S1024x120_S1024x1_0_20) : (⟨S1024x120, .f32⟩ : BufTy).Contents (Elt F) → (⟨S1024x1, .f32⟩ : BufTy).Contents (Elt F)),
    reshape main_v413 main_v414 rfl shapeCasts_S1024x1_S1024,
    unary main_v414 main_v415 (Host.cos : (⟨S1024, .f32⟩ : BufTy).Contents (Elt F) → (⟨S1024, .f32⟩ : BufTy).Contents (Elt F)),
    unary main_v415 main_v416 (broadcastInDim S1024x1 ![0] bcast_S1024_S1024x1_0 : (⟨S1024, .f32⟩ : BufTy).Contents (Elt F) → (⟨S1024x1, .f32⟩ : BufTy).Contents (Elt F)),
    unary main_v414 main_v417 (Host.sin : (⟨S1024, .f32⟩ : BufTy).Contents (Elt F) → (⟨S1024, .f32⟩ : BufTy).Contents (Elt F)) ]
/-- Operations 21 … 40 of window 7. -/
abbrev st22 : List (HloOp τ sig (Elt F)) :=
  [ unary main_v417 main_v418 (broadcastInDim S1024x1 ![0] bcast_S1024_S1024x1_0 : (⟨S1024, .f32⟩ : BufTy).Contents (Elt F) → (⟨S1024x1, .f32⟩ : BufTy).Contents (Elt F)),
    unary main_v412 main_v419 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v419 main_v420 rfl shapeCasts_S1024x1x16_S1024x16,
    unary main_v416 main_v421 (broadcastInDim S1024x16 ![0, 1] bcast_S1024x1_S1024x16_0_1 : (⟨S1024x1, .f32⟩ : BufTy).Contents (Elt F) → (⟨S1024x16, .f32⟩ : BufTy).Contents (Elt F)),
    binary main_v421 main_v405 main_v422 (mulf : (⟨S1024x16, .f32⟩ : BufTy).Contents (Elt F) → (⟨S1024x16, .f32⟩ : BufTy).Contents (Elt F) → (⟨S1024x16, .f32⟩ : BufTy).Contents (Elt F)),
    unary main_v418 main_v423 (broadcastInDim S1024x16 ![0, 1] bcast_S1024x1_S1024x16_0_1 : (⟨S1024x1, .f32⟩ : BufTy).Contents (Elt F) → (⟨S1024x16, .f32⟩ : BufTy).Contents (Elt F)),
    binary main_v423 main_v420 main_v424 (mulf : (⟨S1024x16, .f32⟩ : BufTy).Contents (Elt F) → (⟨S1024x16, .f32⟩ : BufTy).Contents (Elt F) → (⟨S1024x16, .f32⟩ : BufTy).Contents (Elt F)),
    binary main_v422 main_v424 main_v425 (subf : (⟨S1024x16, .f32⟩ : BufTy).Contents (Elt F) → (⟨S1024x16, .f32⟩ : BufTy).Contents (Elt F) → (⟨S1024x16, .f32⟩ : BufTy).Contents (Elt F)),
    unary main_v418 main_v426 (broadcastInDim S1024x16 ![0, 1] bcast_S1024x1_S1024x16_0_1 : (⟨S1024x1, .f32⟩ : BufTy).Contents (Elt F) → (⟨S1024x16, .f32⟩ : BufTy).Contents (Elt F)),
    binary main_v426 main_v405 main_v427 (mulf : (⟨S1024x16, .f32⟩ : BufTy).Contents (Elt F) → (⟨S1024x16, .f32⟩ : BufTy).Contents (Elt F) → (⟨S1024x16, .f32⟩ : BufTy).Contents (Elt F)),
    unary main_v416 main_v428 (broadcastInDim S1024x16 ![0, 1] bcast_S1024x1_S1024x16_0_1 : (⟨S1024x1, .f32⟩ : BufTy).Contents (Elt F) → (⟨S1024x16, .f32⟩ : BufTy).Contents (Elt F)),
    binary main_v428 main_v420 main_v429 (mulf : (⟨S1024x16, .f32⟩ : BufTy).Contents (Elt F) → (⟨S1024x16, .f32⟩ : BufTy).Contents (Elt F) → (⟨S1024x16, .f32⟩ : BufTy).Contents (Elt F)),
    binary main_v427 main_v429 main_v430 (addf : (⟨S1024x16, .f32⟩ : BufTy).Contents (Elt F) → (⟨S1024x16, .f32⟩ : BufTy).Contents (Elt F) → (⟨S1024x16, .f32⟩ : BufTy).Contents (Elt F)),
    nullary main_c_21 (constantI S_ 32 7#32),
    unary main_c_21 main_v431 (broadcastInDim S1 ![] bcast_S_S1 : (⟨S_, .i32⟩ : BufTy).Contents (Elt F) → (⟨S1, .i32⟩ : BufTy).Contents (Elt F)),
    ternary main_v412 main_v431 main_v430 main_v432 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v433 ((extractStridedSlice S1024x1 ![0, 21] · slices_S1024x120_S1024x1_0_21) : (⟨S1024x120, .f32⟩ : BufTy).Contents (Elt F) → (⟨S1024x1, .f32⟩ : BufTy).Contents (Elt F)),
    reshape main_v433 main_v434 rfl shapeCasts_S1024x1_S1024,
    unary main_v434 main_v435 (Host.cos : (⟨S1024, .f32⟩ : BufTy).Contents (Elt F) → (⟨S1024, .f32⟩ : BufTy).Contents (Elt F)),
    unary main_v435 main_v436 (broadcastInDim S1024x1 ![0] bcast_S1024_S1024x1_0 : (⟨S1024, .f32⟩ : BufTy).Contents (Elt F) → (⟨S1024x1, .f32⟩ : BufTy).Contents (Elt F)) ]
/-- Operations 41 … 60 of window 7. -/
abbrev st23 : List (HloOp τ sig (Elt F)) :=
  [ unary main_v434 main_v437 (Host.sin : (⟨S1024, .f32⟩ : BufTy).Contents (Elt F) → (⟨S1024, .f32⟩ : BufTy).Contents (Elt F)),
    unary main_v437 main_v438 (broadcastInDim S1024x1 ![0] bcast_S1024_S1024x1_0 : (⟨S1024, .f32⟩ : BufTy).Contents (Elt F) → (⟨S1024x1, .f32⟩ : BufTy).Contents (Elt F)),
    unary main_v432 main_v439 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v439 main_v440 rfl shapeCasts_S1024x1x16_S1024x16,
    unary main_v436 main_v441 (broadcastInDim S1024x16 ![0, 1] bcast_S1024x1_S1024x16_0_1 : (⟨S1024x1, .f32⟩ : BufTy).Contents (Elt F) → (⟨S1024x16, .f32⟩ : BufTy).Contents (Elt F)),
    binary main_v441 main_v425 main_v442 (mulf : (⟨S1024x16, .f32⟩ : BufTy).Contents (Elt F) → (⟨S1024x16, .f32⟩ : BufTy).Contents (Elt F) → (⟨S1024x16, .f32⟩ : BufTy).Contents (Elt F)),
    unary main_v438 main_v443 (broadcastInDim S1024x16 ![0, 1] bcast_S1024x1_S1024x16_0_1 : (⟨S1024x1, .f32⟩ : BufTy).Contents (Elt F) → (⟨S1024x16, .f32⟩ : BufTy).Contents (Elt F)),
    binary main_v443 main_v440 main_v444 (mulf : (⟨S1024x16, .f32⟩ : BufTy).Contents (Elt F) → (⟨S1024x16, .f32⟩ : BufTy).Contents (Elt F) → (⟨S1024x16, .f32⟩ : BufTy).Contents (Elt F)),
    binary main_v442 main_v444 main_v445 (subf : (⟨S1024x16, .f32⟩ : BufTy).Contents (Elt F) → (⟨S1024x16, .f32⟩ : BufTy).Contents (Elt F) → (⟨S1024x16, .f32⟩ : BufTy).Contents (Elt F)),
    unary main_v438 main_v446 (broadcastInDim S1024x16 ![0, 1] bcast_S1024x1_S1024x16_0_1 : (⟨S1024x1, .f32⟩ : BufTy).Contents (Elt F) → (⟨S1024x16, .f32⟩ : BufTy).Contents (Elt F)),
    binary main_v446 main_v425 main_v447 (mulf : (⟨S1024x16, .f32⟩ : BufTy).Contents (Elt F) → (⟨S1024x16, .f32⟩ : BufTy).Contents (Elt F) → (⟨S1024x16, .f32⟩ : BufTy).Contents (Elt F)),
    unary main_v436 main_v448 (broadcastInDim S1024x16 ![0, 1] bcast_S1024x1_S1024x16_0_1 : (⟨S1024x1, .f32⟩ : BufTy).Contents (Elt F) → (⟨S1024x16, .f32⟩ : BufTy).Contents (Elt F)),
    binary main_v448 main_v440 main_v449 (mulf : (⟨S1024x16, .f32⟩ : BufTy).Contents (Elt F) → (⟨S1024x16, .f32⟩ : BufTy).Contents (Elt F) → (⟨S1024x16, .f32⟩ : BufTy).Contents (Elt F)),
    binary main_v447 main_v449 main_v450 (addf : (⟨S1024x16, .f32⟩ : BufTy).Contents (Elt F) → (⟨S1024x16, .f32⟩ : BufTy).Contents (Elt F) → (⟨S1024x16, .f32⟩ : BufTy).Contents (Elt F)),
    nullary main_c_22 (constantI S_ 32 8#32),
    unary main_c_22 main_v451 (broadcastInDim S1 ![] bcast_S_S1 : (⟨S_, .i32⟩ : BufTy).Contents (Elt F) → (⟨S1, .i32⟩ : BufTy).Contents (Elt F)),
    ternary main_v432 main_v451 main_v450 main_v452 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v453 ((extractStridedSlice S1024x1 ![0, 22] · slices_S1024x120_S1024x1_0_22) : (⟨S1024x120, .f32⟩ : BufTy).Contents (Elt F) → (⟨S1024x1, .f32⟩ : BufTy).Contents (Elt F)),
    reshape main_v453 main_v454 rfl shapeCasts_S1024x1_S1024,
    unary main_v454 main_v455 (Host.cos : (⟨S1024, .f32⟩ : BufTy).Contents (Elt F) → (⟨S1024, .f32⟩ : BufTy).Contents (Elt F)) ]
/-- Operations 1 … 20 of window 8. -/
abbrev st24 : List (HloOp τ sig (Elt F)) :=
  [ unary main_v455 main_v456 (broadcastInDim S1024x1 ![0] bcast_S1024_S1024x1_0 : (⟨S1024, .f32⟩ : BufTy).Contents (Elt F) → (⟨S1024x1, .f32⟩ : BufTy).Contents (Elt F)),
    unary main_v454 main_v457 (Host.sin : (⟨S1024, .f32⟩ : BufTy).Contents (Elt F) → (⟨S1024, .f32⟩ : BufTy).Contents (Elt F)),
    unary main_v457 main_v458 (broadcastInDim S1024x1 ![0] bcast_S1024_S1024x1_0 : (⟨S1024, .f32⟩ : BufTy).Contents (Elt F) → (⟨S1024x1, .f32⟩ : BufTy).Contents (Elt F)),
    unary main_v452 main_v459 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v459 main_v460 rfl shapeCasts_S1024x1x16_S1024x16,
    unary main_v456 main_v461 (broadcastInDim S1024x16 ![0, 1] bcast_S1024x1_S1024x16_0_1 : (⟨S1024x1, .f32⟩ : BufTy).Contents (Elt F) → (⟨S1024x16, .f32⟩ : BufTy).Contents (Elt F)),
    binary main_v461 main_v445 main_v462 (mulf : (⟨S1024x16, .f32⟩ : BufTy).Contents (Elt F) → (⟨S1024x16, .f32⟩ : BufTy).Contents (Elt F) → (⟨S1024x16, .f32⟩ : BufTy).Contents (Elt F)),
    unary main_v458 main_v463 (broadcastInDim S1024x16 ![0, 1] bcast_S1024x1_S1024x16_0_1 : (⟨S1024x1, .f32⟩ : BufTy).Contents (Elt F) → (⟨S1024x16, .f32⟩ : BufTy).Contents (Elt F)),
    binary main_v463 main_v460 main_v464 (mulf : (⟨S1024x16, .f32⟩ : BufTy).Contents (Elt F) → (⟨S1024x16, .f32⟩ : BufTy).Contents (Elt F) → (⟨S1024x16, .f32⟩ : BufTy).Contents (Elt F)),
    binary main_v462 main_v464 main_v465 (subf : (⟨S1024x16, .f32⟩ : BufTy).Contents (Elt F) → (⟨S1024x16, .f32⟩ : BufTy).Contents (Elt F) → (⟨S1024x16, .f32⟩ : BufTy).Contents (Elt F)),
    unary main_v458 main_v466 (broadcastInDim S1024x16 ![0, 1] bcast_S1024x1_S1024x16_0_1 : (⟨S1024x1, .f32⟩ : BufTy).Contents (Elt F) → (⟨S1024x16, .f32⟩ : BufTy).Contents (Elt F)),
    binary main_v466 main_v445 main_v467 (mulf : (⟨S1024x16, .f32⟩ : BufTy).Contents (Elt F) → (⟨S1024x16, .f32⟩ : BufTy).Contents (Elt F) → (⟨S1024x16, .f32⟩ : BufTy).Contents (Elt F)),
    unary main_v456 main_v468 (broadcastInDim S1024x16 ![0, 1] bcast_S1024x1_S1024x16_0_1 : (⟨S1024x1, .f32⟩ : BufTy).Contents (Elt F) → (⟨S1024x16, .f32⟩ : BufTy).Contents (Elt F)),
    binary main_v468 main_v460 main_v469 (mulf : (⟨S1024x16, .f32⟩ : BufTy).Contents (Elt F) → (⟨S1024x16, .f32⟩ : BufTy).Contents (Elt F) → (⟨S1024x16, .f32⟩ : BufTy).Contents (Elt F)),
    binary main_v467 main_v469 main_v470 (addf : (⟨S1024x16, .f32⟩ : BufTy).Contents (Elt F) → (⟨S1024x16, .f32⟩ : BufTy).Contents (Elt F) → (⟨S1024x16, .f32⟩ : BufTy).Contents (Elt F)),
    nullary main_c_23 (constantI S_ 32 9#32),
    unary main_c_23 main_v471 (broadcastInDim S1 ![] bcast_S_S1 : (⟨S_, .i32⟩ : BufTy).Contents (Elt F) → (⟨S1, .i32⟩ : BufTy).Contents (Elt F)),
    ternary main_v452 main_v471 main_v470 main_v472 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v473 ((extractStridedSlice S1024x1 ![0, 23] · slices_S1024x120_S1024x1_0_23) : (⟨S1024x120, .f32⟩ : BufTy).Contents (Elt F) → (⟨S1024x1, .f32⟩ : BufTy).Contents (Elt F)),
    reshape main_v473 main_v474 rfl shapeCasts_S1024x1_S1024 ]
/-- Operations 21 … 40 of window 8. -/
abbrev st25 : List (HloOp τ sig (Elt F)) :=
  [ unary main_v474 main_v475 (Host.cos : (⟨S1024, .f32⟩ : BufTy).Contents (Elt F) → (⟨S1024, .f32⟩ : BufTy).Contents (Elt F)),
    unary main_v475 main_v476 (broadcastInDim S1024x1 ![0] bcast_S1024_S1024x1_0 : (⟨S1024, .f32⟩ : BufTy).Contents (Elt F) → (⟨S1024x1, .f32⟩ : BufTy).Contents (Elt F)),
    unary main_v474 main_v477 (Host.sin : (⟨S1024, .f32⟩ : BufTy).Contents (Elt F) → (⟨S1024, .f32⟩ : BufTy).Contents (Elt F)),
    unary main_v477 main_v478 (broadcastInDim S1024x1 ![0] bcast_S1024_S1024x1_0 : (⟨S1024, .f32⟩ : BufTy).Contents (Elt F) → (⟨S1024x1, .f32⟩ : BufTy).Contents (Elt F)),
    unary main_v472 main_v479 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v479 main_v480 rfl shapeCasts_S1024x1x16_S1024x16,
    unary main_v476 main_v481 (broadcastInDim S1024x16 ![0, 1] bcast_S1024x1_S1024x16_0_1 : (⟨S1024x1, .f32⟩ : BufTy).Contents (Elt F) → (⟨S1024x16, .f32⟩ : BufTy).Contents (Elt F)),
    binary main_v481 main_v465 main_v482 (mulf : (⟨S1024x16, .f32⟩ : BufTy).Contents (Elt F) → (⟨S1024x16, .f32⟩ : BufTy).Contents (Elt F) → (⟨S1024x16, .f32⟩ : BufTy).Contents (Elt F)),
    unary main_v478 main_v483 (broadcastInDim S1024x16 ![0, 1] bcast_S1024x1_S1024x16_0_1 : (⟨S1024x1, .f32⟩ : BufTy).Contents (Elt F) → (⟨S1024x16, .f32⟩ : BufTy).Contents (Elt F)),
    binary main_v483 main_v480 main_v484 (mulf : (⟨S1024x16, .f32⟩ : BufTy).Contents (Elt F) → (⟨S1024x16, .f32⟩ : BufTy).Contents (Elt F) → (⟨S1024x16, .f32⟩ : BufTy).Contents (Elt F)),
    binary main_v482 main_v484 main_v485 (subf : (⟨S1024x16, .f32⟩ : BufTy).Contents (Elt F) → (⟨S1024x16, .f32⟩ : BufTy).Contents (Elt F) → (⟨S1024x16, .f32⟩ : BufTy).Contents (Elt F)),
    unary main_v478 main_v486 (broadcastInDim S1024x16 ![0, 1] bcast_S1024x1_S1024x16_0_1 : (⟨S1024x1, .f32⟩ : BufTy).Contents (Elt F) → (⟨S1024x16, .f32⟩ : BufTy).Contents (Elt F)),
    binary main_v486 main_v465 main_v487 (mulf : (⟨S1024x16, .f32⟩ : BufTy).Contents (Elt F) → (⟨S1024x16, .f32⟩ : BufTy).Contents (Elt F) → (⟨S1024x16, .f32⟩ : BufTy).Contents (Elt F)),
    unary main_v476 main_v488 (broadcastInDim S1024x16 ![0, 1] bcast_S1024x1_S1024x16_0_1 : (⟨S1024x1, .f32⟩ : BufTy).Contents (Elt F) → (⟨S1024x16, .f32⟩ : BufTy).Contents (Elt F)),
    binary main_v488 main_v480 main_v489 (mulf : (⟨S1024x16, .f32⟩ : BufTy).Contents (Elt F) → (⟨S1024x16, .f32⟩ : BufTy).Contents (Elt F) → (⟨S1024x16, .f32⟩ : BufTy).Contents (Elt F)),
    binary main_v487 main_v489 main_v490 (addf : (⟨S1024x16, .f32⟩ : BufTy).Contents (Elt F) → (⟨S1024x16, .f32⟩ : BufTy).Contents (Elt F) → (⟨S1024x16, .f32⟩ : BufTy).Contents (Elt F)),
    nullary main_c_24 (constantI S_ 32 10#32),
    unary main_c_24 main_v491 (broadcastInDim S1 ![] bcast_S_S1 : (⟨S_, .i32⟩ : BufTy).Contents (Elt F) → (⟨S1, .i32⟩ : BufTy).Contents (Elt F)),
    ternary main_v472 main_v491 main_v490 main_v492 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v493 ((extractStridedSlice S1024x1 ![0, 24] · slices_S1024x120_S1024x1_0_24) : (⟨S1024x120, .f32⟩ : BufTy).Contents (Elt F) → (⟨S1024x1, .f32⟩ : BufTy).Contents (Elt F)) ]
/-- Operations 41 … 60 of window 8. -/
abbrev st26 : List (HloOp τ sig (Elt F)) :=
  [ reshape main_v493 main_v494 rfl shapeCasts_S1024x1_S1024,
    unary main_v494 main_v495 (Host.cos : (⟨S1024, .f32⟩ : BufTy).Contents (Elt F) → (⟨S1024, .f32⟩ : BufTy).Contents (Elt F)),
    unary main_v495 main_v496 (broadcastInDim S1024x1 ![0] bcast_S1024_S1024x1_0 : (⟨S1024, .f32⟩ : BufTy).Contents (Elt F) → (⟨S1024x1, .f32⟩ : BufTy).Contents (Elt F)),
    unary main_v494 main_v497 (Host.sin : (⟨S1024, .f32⟩ : BufTy).Contents (Elt F) → (⟨S1024, .f32⟩ : BufTy).Contents (Elt F)),
    unary main_v497 main_v498 (broadcastInDim S1024x1 ![0] bcast_S1024_S1024x1_0 : (⟨S1024, .f32⟩ : BufTy).Contents (Elt F) → (⟨S1024x1, .f32⟩ : BufTy).Contents (Elt F)),
    unary main_v492 main_v499 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v499 main_v500 rfl shapeCasts_S1024x1x16_S1024x16,
    unary main_v496 main_v501 (broadcastInDim S1024x16 ![0, 1] bcast_S1024x1_S1024x16_0_1 : (⟨S1024x1, .f32⟩ : BufTy).Contents (Elt F) → (⟨S1024x16, .f32⟩ : BufTy).Contents (Elt F)),
    binary main_v501 main_v485 main_v502 (mulf : (⟨S1024x16, .f32⟩ : BufTy).Contents (Elt F) → (⟨S1024x16, .f32⟩ : BufTy).Contents (Elt F) → (⟨S1024x16, .f32⟩ : BufTy).Contents (Elt F)),
    unary main_v498 main_v503 (broadcastInDim S1024x16 ![0, 1] bcast_S1024x1_S1024x16_0_1 : (⟨S1024x1, .f32⟩ : BufTy).Contents (Elt F) → (⟨S1024x16, .f32⟩ : BufTy).Contents (Elt F)),
    binary main_v503 main_v500 main_v504 (mulf : (⟨S1024x16, .f32⟩ : BufTy).Contents (Elt F) → (⟨S1024x16, .f32⟩ : BufTy).Contents (Elt F) → (⟨S1024x16, .f32⟩ : BufTy).Contents (Elt F)),
    binary main_v502 main_v504 main_v505 (subf : (⟨S1024x16, .f32⟩ : BufTy).Contents (Elt F) → (⟨S1024x16, .f32⟩ : BufTy).Contents (Elt F) → (⟨S1024x16, .f32⟩ : BufTy).Contents (Elt F)),
    unary main_v498 main_v506 (broadcastInDim S1024x16 ![0, 1] bcast_S1024x1_S1024x16_0_1 : (⟨S1024x1, .f32⟩ : BufTy).Contents (Elt F) → (⟨S1024x16, .f32⟩ : BufTy).Contents (Elt F)),
    binary main_v506 main_v485 main_v507 (mulf : (⟨S1024x16, .f32⟩ : BufTy).Contents (Elt F) → (⟨S1024x16, .f32⟩ : BufTy).Contents (Elt F) → (⟨S1024x16, .f32⟩ : BufTy).Contents (Elt F)),
    unary main_v496 main_v508 (broadcastInDim S1024x16 ![0, 1] bcast_S1024x1_S1024x16_0_1 : (⟨S1024x1, .f32⟩ : BufTy).Contents (Elt F) → (⟨S1024x16, .f32⟩ : BufTy).Contents (Elt F)),
    binary main_v508 main_v500 main_v509 (mulf : (⟨S1024x16, .f32⟩ : BufTy).Contents (Elt F) → (⟨S1024x16, .f32⟩ : BufTy).Contents (Elt F) → (⟨S1024x16, .f32⟩ : BufTy).Contents (Elt F)),
    binary main_v507 main_v509 main_v510 (addf : (⟨S1024x16, .f32⟩ : BufTy).Contents (Elt F) → (⟨S1024x16, .f32⟩ : BufTy).Contents (Elt F) → (⟨S1024x16, .f32⟩ : BufTy).Contents (Elt F)),
    nullary main_c_25 (constantI S_ 32 11#32),
    unary main_c_25 main_v511 (broadcastInDim S1 ![] bcast_S_S1 : (⟨S_, .i32⟩ : BufTy).Contents (Elt F) → (⟨S1, .i32⟩ : BufTy).Contents (Elt F)),
    ternary main_v492 main_v511 main_v510 main_v512 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 1 … 20 of window 9. -/
abbrev st27 : List (HloOp τ sig (Elt F)) :=
  [ unary main_arg1 main_v513 ((extractStridedSlice S1024x1 ![0, 25] · slices_S1024x120_S1024x1_0_25) : (⟨S1024x120, .f32⟩ : BufTy).Contents (Elt F) → (⟨S1024x1, .f32⟩ : BufTy).Contents (Elt F)),
    reshape main_v513 main_v514 rfl shapeCasts_S1024x1_S1024,
    unary main_v514 main_v515 (Host.cos : (⟨S1024, .f32⟩ : BufTy).Contents (Elt F) → (⟨S1024, .f32⟩ : BufTy).Contents (Elt F)),
    unary main_v515 main_v516 (broadcastInDim S1024x1 ![0] bcast_S1024_S1024x1_0 : (⟨S1024, .f32⟩ : BufTy).Contents (Elt F) → (⟨S1024x1, .f32⟩ : BufTy).Contents (Elt F)),
    unary main_v514 main_v517 (Host.sin : (⟨S1024, .f32⟩ : BufTy).Contents (Elt F) → (⟨S1024, .f32⟩ : BufTy).Contents (Elt F)),
    unary main_v517 main_v518 (broadcastInDim S1024x1 ![0] bcast_S1024_S1024x1_0 : (⟨S1024, .f32⟩ : BufTy).Contents (Elt F) → (⟨S1024x1, .f32⟩ : BufTy).Contents (Elt F)),
    unary main_v512 main_v519 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v519 main_v520 rfl shapeCasts_S1024x1x16_S1024x16,
    unary main_v516 main_v521 (broadcastInDim S1024x16 ![0, 1] bcast_S1024x1_S1024x16_0_1 : (⟨S1024x1, .f32⟩ : BufTy).Contents (Elt F) → (⟨S1024x16, .f32⟩ : BufTy).Contents (Elt F)),
    binary main_v521 main_v505 main_v522 (mulf : (⟨S1024x16, .f32⟩ : BufTy).Contents (Elt F) → (⟨S1024x16, .f32⟩ : BufTy).Contents (Elt F) → (⟨S1024x16, .f32⟩ : BufTy).Contents (Elt F)),
    unary main_v518 main_v523 (broadcastInDim S1024x16 ![0, 1] bcast_S1024x1_S1024x16_0_1 : (⟨S1024x1, .f32⟩ : BufTy).Contents (Elt F) → (⟨S1024x16, .f32⟩ : BufTy).Contents (Elt F)),
    binary main_v523 main_v520 main_v524 (mulf : (⟨S1024x16, .f32⟩ : BufTy).Contents (Elt F) → (⟨S1024x16, .f32⟩ : BufTy).Contents (Elt F) → (⟨S1024x16, .f32⟩ : BufTy).Contents (Elt F)),
    binary main_v522 main_v524 main_v525 (subf : (⟨S1024x16, .f32⟩ : BufTy).Contents (Elt F) → (⟨S1024x16, .f32⟩ : BufTy).Contents (Elt F) → (⟨S1024x16, .f32⟩ : BufTy).Contents (Elt F)),
    unary main_v518 main_v526 (broadcastInDim S1024x16 ![0, 1] bcast_S1024x1_S1024x16_0_1 : (⟨S1024x1, .f32⟩ : BufTy).Contents (Elt F) → (⟨S1024x16, .f32⟩ : BufTy).Contents (Elt F)),
    binary main_v526 main_v505 main_v527 (mulf : (⟨S1024x16, .f32⟩ : BufTy).Contents (Elt F) → (⟨S1024x16, .f32⟩ : BufTy).Contents (Elt F) → (⟨S1024x16, .f32⟩ : BufTy).Contents (Elt F)),
    unary main_v516 main_v528 (broadcastInDim S1024x16 ![0, 1] bcast_S1024x1_S1024x16_0_1 : (⟨S1024x1, .f32⟩ : BufTy).Contents (Elt F) → (⟨S1024x16, .f32⟩ : BufTy).Contents (Elt F)),
    binary main_v528 main_v520 main_v529 (mulf : (⟨S1024x16, .f32⟩ : BufTy).Contents (Elt F) → (⟨S1024x16, .f32⟩ : BufTy).Contents (Elt F) → (⟨S1024x16, .f32⟩ : BufTy).Contents (Elt F)),
    binary main_v527 main_v529 main_v530 (addf : (⟨S1024x16, .f32⟩ : BufTy).Contents (Elt F) → (⟨S1024x16, .f32⟩ : BufTy).Contents (Elt F) → (⟨S1024x16, .f32⟩ : BufTy).Contents (Elt F)),
    nullary main_c_26 (constantI S_ 32 12#32),
    unary main_c_26 main_v531 (broadcastInDim S1 ![] bcast_S_S1 : (⟨S_, .i32⟩ : BufTy).Contents (Elt F) → (⟨S1, .i32⟩ : BufTy).Contents (Elt F)) ]
/-- Operations 21 … 40 of window 9. -/
abbrev st28 : List (HloOp τ sig (Elt F)) :=
  [ ternary main_v512 main_v531 main_v530 main_v532 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v533 ((extractStridedSlice S1024x1 ![0, 26] · slices_S1024x120_S1024x1_0_26) : (⟨S1024x120, .f32⟩ : BufTy).Contents (Elt F) → (⟨S1024x1, .f32⟩ : BufTy).Contents (Elt F)),
    reshape main_v533 main_v534 rfl shapeCasts_S1024x1_S1024,
    unary main_v534 main_v535 (Host.cos : (⟨S1024, .f32⟩ : BufTy).Contents (Elt F) → (⟨S1024, .f32⟩ : BufTy).Contents (Elt F)),
    unary main_v535 main_v536 (broadcastInDim S1024x1 ![0] bcast_S1024_S1024x1_0 : (⟨S1024, .f32⟩ : BufTy).Contents (Elt F) → (⟨S1024x1, .f32⟩ : BufTy).Contents (Elt F)),
    unary main_v534 main_v537 (Host.sin : (⟨S1024, .f32⟩ : BufTy).Contents (Elt F) → (⟨S1024, .f32⟩ : BufTy).Contents (Elt F)),
    unary main_v537 main_v538 (broadcastInDim S1024x1 ![0] bcast_S1024_S1024x1_0 : (⟨S1024, .f32⟩ : BufTy).Contents (Elt F) → (⟨S1024x1, .f32⟩ : BufTy).Contents (Elt F)),
    unary main_v532 main_v539 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v539 main_v540 rfl shapeCasts_S1024x1x16_S1024x16,
    unary main_v536 main_v541 (broadcastInDim S1024x16 ![0, 1] bcast_S1024x1_S1024x16_0_1 : (⟨S1024x1, .f32⟩ : BufTy).Contents (Elt F) → (⟨S1024x16, .f32⟩ : BufTy).Contents (Elt F)),
    binary main_v541 main_v525 main_v542 (mulf : (⟨S1024x16, .f32⟩ : BufTy).Contents (Elt F) → (⟨S1024x16, .f32⟩ : BufTy).Contents (Elt F) → (⟨S1024x16, .f32⟩ : BufTy).Contents (Elt F)),
    unary main_v538 main_v543 (broadcastInDim S1024x16 ![0, 1] bcast_S1024x1_S1024x16_0_1 : (⟨S1024x1, .f32⟩ : BufTy).Contents (Elt F) → (⟨S1024x16, .f32⟩ : BufTy).Contents (Elt F)),
    binary main_v543 main_v540 main_v544 (mulf : (⟨S1024x16, .f32⟩ : BufTy).Contents (Elt F) → (⟨S1024x16, .f32⟩ : BufTy).Contents (Elt F) → (⟨S1024x16, .f32⟩ : BufTy).Contents (Elt F)),
    binary main_v542 main_v544 main_v545 (subf : (⟨S1024x16, .f32⟩ : BufTy).Contents (Elt F) → (⟨S1024x16, .f32⟩ : BufTy).Contents (Elt F) → (⟨S1024x16, .f32⟩ : BufTy).Contents (Elt F)),
    unary main_v538 main_v546 (broadcastInDim S1024x16 ![0, 1] bcast_S1024x1_S1024x16_0_1 : (⟨S1024x1, .f32⟩ : BufTy).Contents (Elt F) → (⟨S1024x16, .f32⟩ : BufTy).Contents (Elt F)),
    binary main_v546 main_v525 main_v547 (mulf : (⟨S1024x16, .f32⟩ : BufTy).Contents (Elt F) → (⟨S1024x16, .f32⟩ : BufTy).Contents (Elt F) → (⟨S1024x16, .f32⟩ : BufTy).Contents (Elt F)),
    unary main_v536 main_v548 (broadcastInDim S1024x16 ![0, 1] bcast_S1024x1_S1024x16_0_1 : (⟨S1024x1, .f32⟩ : BufTy).Contents (Elt F) → (⟨S1024x16, .f32⟩ : BufTy).Contents (Elt F)),
    binary main_v548 main_v540 main_v549 (mulf : (⟨S1024x16, .f32⟩ : BufTy).Contents (Elt F) → (⟨S1024x16, .f32⟩ : BufTy).Contents (Elt F) → (⟨S1024x16, .f32⟩ : BufTy).Contents (Elt F)),
    binary main_v547 main_v549 main_v550 (addf : (⟨S1024x16, .f32⟩ : BufTy).Contents (Elt F) → (⟨S1024x16, .f32⟩ : BufTy).Contents (Elt F) → (⟨S1024x16, .f32⟩ : BufTy).Contents (Elt F)),
    nullary main_c_27 (constantI S_ 32 13#32) ]
/-- Operations 41 … 60 of window 9. -/
abbrev st29 : List (HloOp τ sig (Elt F)) :=
  [ unary main_c_27 main_v551 (broadcastInDim S1 ![] bcast_S_S1 : (⟨S_, .i32⟩ : BufTy).Contents (Elt F) → (⟨S1, .i32⟩ : BufTy).Contents (Elt F)),
    ternary main_v532 main_v551 main_v550 main_v552 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v553 ((extractStridedSlice S1024x1 ![0, 27] · slices_S1024x120_S1024x1_0_27) : (⟨S1024x120, .f32⟩ : BufTy).Contents (Elt F) → (⟨S1024x1, .f32⟩ : BufTy).Contents (Elt F)),
    reshape main_v553 main_v554 rfl shapeCasts_S1024x1_S1024,
    unary main_v554 main_v555 (Host.cos : (⟨S1024, .f32⟩ : BufTy).Contents (Elt F) → (⟨S1024, .f32⟩ : BufTy).Contents (Elt F)),
    unary main_v555 main_v556 (broadcastInDim S1024x1 ![0] bcast_S1024_S1024x1_0 : (⟨S1024, .f32⟩ : BufTy).Contents (Elt F) → (⟨S1024x1, .f32⟩ : BufTy).Contents (Elt F)),
    unary main_v554 main_v557 (Host.sin : (⟨S1024, .f32⟩ : BufTy).Contents (Elt F) → (⟨S1024, .f32⟩ : BufTy).Contents (Elt F)),
    unary main_v557 main_v558 (broadcastInDim S1024x1 ![0] bcast_S1024_S1024x1_0 : (⟨S1024, .f32⟩ : BufTy).Contents (Elt F) → (⟨S1024x1, .f32⟩ : BufTy).Contents (Elt F)),
    unary main_v552 main_v559 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v559 main_v560 rfl shapeCasts_S1024x1x16_S1024x16,
    unary main_v556 main_v561 (broadcastInDim S1024x16 ![0, 1] bcast_S1024x1_S1024x16_0_1 : (⟨S1024x1, .f32⟩ : BufTy).Contents (Elt F) → (⟨S1024x16, .f32⟩ : BufTy).Contents (Elt F)),
    binary main_v561 main_v545 main_v562 (mulf : (⟨S1024x16, .f32⟩ : BufTy).Contents (Elt F) → (⟨S1024x16, .f32⟩ : BufTy).Contents (Elt F) → (⟨S1024x16, .f32⟩ : BufTy).Contents (Elt F)),
    unary main_v558 main_v563 (broadcastInDim S1024x16 ![0, 1] bcast_S1024x1_S1024x16_0_1 : (⟨S1024x1, .f32⟩ : BufTy).Contents (Elt F) → (⟨S1024x16, .f32⟩ : BufTy).Contents (Elt F)),
    binary main_v563 main_v560 main_v564 (mulf : (⟨S1024x16, .f32⟩ : BufTy).Contents (Elt F) → (⟨S1024x16, .f32⟩ : BufTy).Contents (Elt F) → (⟨S1024x16, .f32⟩ : BufTy).Contents (Elt F)),
    binary main_v562 main_v564 main_v565 (subf : (⟨S1024x16, .f32⟩ : BufTy).Contents (Elt F) → (⟨S1024x16, .f32⟩ : BufTy).Contents (Elt F) → (⟨S1024x16, .f32⟩ : BufTy).Contents (Elt F)),
    unary main_v558 main_v566 (broadcastInDim S1024x16 ![0, 1] bcast_S1024x1_S1024x16_0_1 : (⟨S1024x1, .f32⟩ : BufTy).Contents (Elt F) → (⟨S1024x16, .f32⟩ : BufTy).Contents (Elt F)),
    binary main_v566 main_v545 main_v567 (mulf : (⟨S1024x16, .f32⟩ : BufTy).Contents (Elt F) → (⟨S1024x16, .f32⟩ : BufTy).Contents (Elt F) → (⟨S1024x16, .f32⟩ : BufTy).Contents (Elt F)),
    unary main_v556 main_v568 (broadcastInDim S1024x16 ![0, 1] bcast_S1024x1_S1024x16_0_1 : (⟨S1024x1, .f32⟩ : BufTy).Contents (Elt F) → (⟨S1024x16, .f32⟩ : BufTy).Contents (Elt F)),
    binary main_v568 main_v560 main_v569 (mulf : (⟨S1024x16, .f32⟩ : BufTy).Contents (Elt F) → (⟨S1024x16, .f32⟩ : BufTy).Contents (Elt F) → (⟨S1024x16, .f32⟩ : BufTy).Contents (Elt F)),
    binary main_v567 main_v569 main_v570 (addf : (⟨S1024x16, .f32⟩ : BufTy).Contents (Elt F) → (⟨S1024x16, .f32⟩ : BufTy).Contents (Elt F) → (⟨S1024x16, .f32⟩ : BufTy).Contents (Elt F)) ]
/-- Operations 1 … 20 of window 10. -/
abbrev st30 : List (HloOp τ sig (Elt F)) :=
  [ nullary main_c_28 (constantI S_ 32 14#32),
    unary main_c_28 main_v571 (broadcastInDim S1 ![] bcast_S_S1 : (⟨S_, .i32⟩ : BufTy).Contents (Elt F) → (⟨S1, .i32⟩ : BufTy).Contents (Elt F)),
    ternary main_v552 main_v571 main_v570 main_v572 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v573 ((extractStridedSlice S1024x1 ![0, 28] · slices_S1024x120_S1024x1_0_28) : (⟨S1024x120, .f32⟩ : BufTy).Contents (Elt F) → (⟨S1024x1, .f32⟩ : BufTy).Contents (Elt F)),
    reshape main_v573 main_v574 rfl shapeCasts_S1024x1_S1024,
    unary main_v574 main_v575 (Host.cos : (⟨S1024, .f32⟩ : BufTy).Contents (Elt F) → (⟨S1024, .f32⟩ : BufTy).Contents (Elt F)),
    unary main_v575 main_v576 (broadcastInDim S1024x1 ![0] bcast_S1024_S1024x1_0 : (⟨S1024, .f32⟩ : BufTy).Contents (Elt F) → (⟨S1024x1, .f32⟩ : BufTy).Contents (Elt F)),
    unary main_v574 main_v577 (Host.sin : (⟨S1024, .f32⟩ : BufTy).Contents (Elt F) → (⟨S1024, .f32⟩ : BufTy).Contents (Elt F)),
    unary main_v577 main_v578 (broadcastInDim S1024x1 ![0] bcast_S1024_S1024x1_0 : (⟨S1024, .f32⟩ : BufTy).Contents (Elt F) → (⟨S1024x1, .f32⟩ : BufTy).Contents (Elt F)),
    unary main_v572 main_v579 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v579 main_v580 rfl shapeCasts_S1024x1x16_S1024x16,
    unary main_v576 main_v581 (broadcastInDim S1024x16 ![0, 1] bcast_S1024x1_S1024x16_0_1 : (⟨S1024x1, .f32⟩ : BufTy).Contents (Elt F) → (⟨S1024x16, .f32⟩ : BufTy).Contents (Elt F)),
    binary main_v581 main_v565 main_v582 (mulf : (⟨S1024x16, .f32⟩ : BufTy).Contents (Elt F) → (⟨S1024x16, .f32⟩ : BufTy).Contents (Elt F) → (⟨S1024x16, .f32⟩ : BufTy).Contents (Elt F)),
    unary main_v578 main_v583 (broadcastInDim S1024x16 ![0, 1] bcast_S1024x1_S1024x16_0_1 : (⟨S1024x1, .f32⟩ : BufTy).Contents (Elt F) → (⟨S1024x16, .f32⟩ : BufTy).Contents (Elt F)),
    binary main_v583 main_v580 main_v584 (mulf : (⟨S1024x16, .f32⟩ : BufTy).Contents (Elt F) → (⟨S1024x16, .f32⟩ : BufTy).Contents (Elt F) → (⟨S1024x16, .f32⟩ : BufTy).Contents (Elt F)),
    binary main_v582 main_v584 main_v585 (subf : (⟨S1024x16, .f32⟩ : BufTy).Contents (Elt F) → (⟨S1024x16, .f32⟩ : BufTy).Contents (Elt F) → (⟨S1024x16, .f32⟩ : BufTy).Contents (Elt F)),
    unary main_v578 main_v586 (broadcastInDim S1024x16 ![0, 1] bcast_S1024x1_S1024x16_0_1 : (⟨S1024x1, .f32⟩ : BufTy).Contents (Elt F) → (⟨S1024x16, .f32⟩ : BufTy).Contents (Elt F)),
    binary main_v586 main_v565 main_v587 (mulf : (⟨S1024x16, .f32⟩ : BufTy).Contents (Elt F) → (⟨S1024x16, .f32⟩ : BufTy).Contents (Elt F) → (⟨S1024x16, .f32⟩ : BufTy).Contents (Elt F)),
    unary main_v576 main_v588 (broadcastInDim S1024x16 ![0, 1] bcast_S1024x1_S1024x16_0_1 : (⟨S1024x1, .f32⟩ : BufTy).Contents (Elt F) → (⟨S1024x16, .f32⟩ : BufTy).Contents (Elt F)),
    binary main_v588 main_v580 main_v589 (mulf : (⟨S1024x16, .f32⟩ : BufTy).Contents (Elt F) → (⟨S1024x16, .f32⟩ : BufTy).Contents (Elt F) → (⟨S1024x16, .f32⟩ : BufTy).Contents (Elt F)) ]
/-- Operations 21 … 40 of window 10. -/
abbrev st31 : List (HloOp τ sig (Elt F)) :=
  [ binary main_v587 main_v589 main_v590 (addf : (⟨S1024x16, .f32⟩ : BufTy).Contents (Elt F) → (⟨S1024x16, .f32⟩ : BufTy).Contents (Elt F) → (⟨S1024x16, .f32⟩ : BufTy).Contents (Elt F)),
    nullary main_c_29 (constantI S_ 32 15#32),
    unary main_c_29 main_v591 (broadcastInDim S1 ![] bcast_S_S1 : (⟨S_, .i32⟩ : BufTy).Contents (Elt F) → (⟨S1, .i32⟩ : BufTy).Contents (Elt F)),
    ternary main_v572 main_v591 main_v590 main_v592 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_30 (constantI S_ 32 1#32),
    unary main_c_30 main_v593 (broadcastInDim S1 ![] bcast_S_S1 : (⟨S_, .i32⟩ : BufTy).Contents (Elt F) → (⟨S1, .i32⟩ : BufTy).Contents (Elt F)),
    ternary main_v592 main_v593 main_v585 main_v594 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v594 main_v595 ((extractStridedSlice S1024x1x16 ![0, 2, 0] · slices_S1024x16x16_S1024x1x16_0_2_0) : (⟨S1024x16x16, .f32⟩ : BufTy).Contents (Elt F) → (⟨S1024x1x16, .f32⟩ : BufTy).Contents (Elt F)),
    reshape main_v595 main_v596 rfl shapeCasts_S1024x1x16_S1024x16,
    unary main_arg1 main_v597 ((extractStridedSlice S1024x1 ![0, 29] · slices_S1024x120_S1024x1_0_29) : (⟨S1024x120, .f32⟩ : BufTy).Contents (Elt F) → (⟨S1024x1, .f32⟩ : BufTy).Contents (Elt F)),
    reshape main_v597 main_v598 rfl shapeCasts_S1024x1_S1024,
    unary main_v598 main_v599 (Host.cos : (⟨S1024, .f32⟩ : BufTy).Contents (Elt F) → (⟨S1024, .f32⟩ : BufTy).Contents (Elt F)),
    unary main_v599 main_v600 (broadcastInDim S1024x1 ![0] bcast_S1024_S1024x1_0 : (⟨S1024, .f32⟩ : BufTy).Contents (Elt F) → (⟨S1024x1, .f32⟩ : BufTy).Contents (Elt F)),
    unary main_v598 main_v601 (Host.sin : (⟨S1024, .f32⟩ : BufTy).Contents (Elt F) → (⟨S1024, .f32⟩ : BufTy).Contents (Elt F)),
    unary main_v601 main_v602 (broadcastInDim S1024x1 ![0] bcast_S1024_S1024x1_0 : (⟨S1024, .f32⟩ : BufTy).Contents (Elt F) → (⟨S1024x1, .f32⟩ : BufTy).Contents (Elt F)),
    unary main_v594 main_v603 ((extractStridedSlice S1024x1x16 ![0, 3, 0] · slices_S1024x16x16_S1024x1x16_0_3_0) : (⟨S1024x16x16, .f32⟩ : BufTy).Contents (Elt F) → (⟨S1024x1x16, .f32⟩ : BufTy).Contents (Elt F)),
    reshape main_v603 main_v604 rfl shapeCasts_S1024x1x16_S1024x16,
    unary main_v600 main_v605 (broadcastInDim S1024x16 ![0, 1] bcast_S1024x1_S1024x16_0_1 : (⟨S1024x1, .f32⟩ : BufTy).Contents (Elt F) → (⟨S1024x16, .f32⟩ : BufTy).Contents (Elt F)),
    binary main_v605 main_v596 main_v606 (mulf : (⟨S1024x16, .f32⟩ : BufTy).Contents (Elt F) → (⟨S1024x16, .f32⟩ : BufTy).Contents (Elt F) → (⟨S1024x16, .f32⟩ : BufTy).Contents (Elt F)),
    unary main_v602 main_v607 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 10. -/
abbrev st32 : List (HloOp τ sig (Elt F)) :=
  [ binary main_v607 main_v604 main_v608 (mulf : (⟨S1024x16, .f32⟩ : BufTy).Contents (Elt F) → (⟨S1024x16, .f32⟩ : BufTy).Contents (Elt F) → (⟨S1024x16, .f32⟩ : BufTy).Contents (Elt F)),
    binary main_v606 main_v608 main_v609 (subf : (⟨S1024x16, .f32⟩ : BufTy).Contents (Elt F) → (⟨S1024x16, .f32⟩ : BufTy).Contents (Elt F) → (⟨S1024x16, .f32⟩ : BufTy).Contents (Elt F)),
    unary main_v602 main_v610 (broadcastInDim S1024x16 ![0, 1] bcast_S1024x1_S1024x16_0_1 : (⟨S1024x1, .f32⟩ : BufTy).Contents (Elt F) → (⟨S1024x16, .f32⟩ : BufTy).Contents (Elt F)),
    binary main_v610 main_v596 main_v611 (mulf : (⟨S1024x16, .f32⟩ : BufTy).Contents (Elt F) → (⟨S1024x16, .f32⟩ : BufTy).Contents (Elt F) → (⟨S1024x16, .f32⟩ : BufTy).Contents (Elt F)),
    unary main_v600 main_v612 (broadcastInDim S1024x16 ![0, 1] bcast_S1024x1_S1024x16_0_1 : (⟨S1024x1, .f32⟩ : BufTy).Contents (Elt F) → (⟨S1024x16, .f32⟩ : BufTy).Contents (Elt F)),
    binary main_v612 main_v604 main_v613 (mulf : (⟨S1024x16, .f32⟩ : BufTy).Contents (Elt F) → (⟨S1024x16, .f32⟩ : BufTy).Contents (Elt F) → (⟨S1024x16, .f32⟩ : BufTy).Contents (Elt F)),
    binary main_v611 main_v613 main_v614 (addf : (⟨S1024x16, .f32⟩ : BufTy).Contents (Elt F) → (⟨S1024x16, .f32⟩ : BufTy).Contents (Elt F) → (⟨S1024x16, .f32⟩ : BufTy).Contents (Elt F)),
    nullary main_c_31 (constantI S_ 32 3#32),
    unary main_c_31 main_v615 (broadcastInDim S1 ![] bcast_S_S1 : (⟨S_, .i32⟩ : BufTy).Contents (Elt F) → (⟨S1, .i32⟩ : BufTy).Contents (Elt F)),
    ternary main_v594 main_v615 main_v614 main_v616 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v617 ((extractStridedSlice S1024x1 ![0, 30] · slices_S1024x120_S1024x1_0_30) : (⟨S1024x120, .f32⟩ : BufTy).Contents (Elt F) → (⟨S1024x1, .f32⟩ : BufTy).Contents (Elt F)),
    reshape main_v617 main_v618 rfl shapeCasts_S1024x1_S1024,
    unary main_v618 main_v619 (Host.cos : (⟨S1024, .f32⟩ : BufTy).Contents (Elt F) → (⟨S1024, .f32⟩ : BufTy).Contents (Elt F)),
    unary main_v619 main_v620 (broadcastInDim S1024x1 ![0] bcast_S1024_S1024x1_0 : (⟨S1024, .f32⟩ : BufTy).Contents (Elt F) → (⟨S1024x1, .f32⟩ : BufTy).Contents (Elt F)),
    unary main_v618 main_v621 (Host.sin : (⟨S1024, .f32⟩ : BufTy).Contents (Elt F) → (⟨S1024, .f32⟩ : BufTy).Contents (Elt F)),
    unary main_v621 main_v622 (broadcastInDim S1024x1 ![0] bcast_S1024_S1024x1_0 : (⟨S1024, .f32⟩ : BufTy).Contents (Elt F) → (⟨S1024x1, .f32⟩ : BufTy).Contents (Elt F)),
    unary main_v616 main_v623 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)),
    reshape main_v623 main_v624 rfl shapeCasts_S1024x1x16_S1024x16,
    unary main_v620 main_v625 (broadcastInDim S1024x16 ![0, 1] bcast_S1024x1_S1024x16_0_1 : (⟨S1024x1, .f32⟩ : BufTy).Contents (Elt F) → (⟨S1024x16, .f32⟩ : BufTy).Contents (Elt F)),
    binary main_v625 main_v609 main_v626 (mulf : (⟨S1024x16, .f32⟩ : BufTy).Contents (Elt F) → (⟨S1024x16, .f32⟩ : BufTy).Contents (Elt F) → (⟨S1024x16, .f32⟩ : BufTy).Contents (Elt F)) ]
/-- Operations 1 … 20 of window 11. -/
abbrev st33 : List (HloOp τ sig (Elt F)) :=
  [ unary main_v622 main_v627 (broadcastInDim S1024x16 ![0, 1] bcast_S1024x1_S1024x16_0_1 : (⟨S1024x1, .f32⟩ : BufTy).Contents (Elt F) → (⟨S1024x16, .f32⟩ : BufTy).Contents (Elt F)),
    binary main_v627 main_v624 main_v628 (mulf : (⟨S1024x16, .f32⟩ : BufTy).Contents (Elt F) → (⟨S1024x16, .f32⟩ : BufTy).Contents (Elt F) → (⟨S1024x16, .f32⟩ : BufTy).Contents (Elt F)),
    binary main_v626 main_v628 main_v629 (subf : (⟨S1024x16, .f32⟩ : BufTy).Contents (Elt F) → (⟨S1024x16, .f32⟩ : BufTy).Contents (Elt F) → (⟨S1024x16, .f32⟩ : BufTy).Contents (Elt F)),
    unary main_v622 main_v630 (broadcastInDim S1024x16 ![0, 1] bcast_S1024x1_S1024x16_0_1 : (⟨S1024x1, .f32⟩ : BufTy).Contents (Elt F) → (⟨S1024x16, .f32⟩ : BufTy).Contents (Elt F)),
    binary main_v630 main_v609 main_v631 (mulf : (⟨S1024x16, .f32⟩ : BufTy).Contents (Elt F) → (⟨S1024x16, .f32⟩ : BufTy).Contents (Elt F) → (⟨S1024x16, .f32⟩ : BufTy).Contents (Elt F)),
    unary main_v620 main_v632 (broadcastInDim S1024x16 ![0, 1] bcast_S1024x1_S1024x16_0_1 : (⟨S1024x1, .f32⟩ : BufTy).Contents (Elt F) → (⟨S1024x16, .f32⟩ : BufTy).Contents (Elt F)),
    binary main_v632 main_v624 main_v633 (mulf : (⟨S1024x16, .f32⟩ : BufTy).Contents (Elt F) → (⟨S1024x16, .f32⟩ : BufTy).Contents (Elt F) → (⟨S1024x16, .f32⟩ : BufTy).Contents (Elt F)),
    binary main_v631 main_v633 main_v634 (addf : (⟨S1024x16, .f32⟩ : BufTy).Contents (Elt F) → (⟨S1024x16, .f32⟩ : BufTy).Contents (Elt F) → (⟨S1024x16, .f32⟩ : BufTy).Contents (Elt F)),
    nullary main_c_32 (constantI S_ 32 4#32),
    unary main_c_32 main_v635 (broadcastInDim S1 ![] bcast_S_S1 : (⟨S_, .i32⟩ : BufTy).Contents (Elt F) → (⟨S1, .i32⟩ : BufTy).Contents (Elt F)),
    ternary main_v616 main_v635 main_v634 main_v636 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v637 ((extractStridedSlice S1024x1 ![0, 31] · slices_S1024x120_S1024x1_0_31) : (⟨S1024x120, .f32⟩ : BufTy).Contents (Elt F) → (⟨S1024x1, .f32⟩ : BufTy).Contents (Elt F)),
    reshape main_v637 main_v638 rfl shapeCasts_S1024x1_S1024,
    unary main_v638 main_v639 (Host.cos : (⟨S1024, .f32⟩ : BufTy).Contents (Elt F) → (⟨S1024, .f32⟩ : BufTy).Contents (Elt F)),
    unary main_v639 main_v640 (broadcastInDim S1024x1 ![0] bcast_S1024_S1024x1_0 : (⟨S1024, .f32⟩ : BufTy).Contents (Elt F) → (⟨S1024x1, .f32⟩ : BufTy).Contents (Elt F)),
    unary main_v638 main_v641 (Host.sin : (⟨S1024, .f32⟩ : BufTy).Contents (Elt F) → (⟨S1024, .f32⟩ : BufTy).Contents (Elt F)),
    unary main_v641 main_v642 (broadcastInDim S1024x1 ![0] bcast_S1024_S1024x1_0 : (⟨S1024, .f32⟩ : BufTy).Contents (Elt F) → (⟨S1024x1, .f32⟩ : BufTy).Contents (Elt F)),
    unary main_v636 main_v643 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v643 main_v644 rfl shapeCasts_S1024x1x16_S1024x16,
    unary main_v640 main_v645 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 11. -/
abbrev st34 : List (HloOp τ sig (Elt F)) :=
  [ binary main_v645 main_v629 main_v646 (mulf : (⟨S1024x16, .f32⟩ : BufTy).Contents (Elt F) → (⟨S1024x16, .f32⟩ : BufTy).Contents (Elt F) → (⟨S1024x16, .f32⟩ : BufTy).Contents (Elt F)),
    unary main_v642 main_v647 (broadcastInDim S1024x16 ![0, 1] bcast_S1024x1_S1024x16_0_1 : (⟨S1024x1, .f32⟩ : BufTy).Contents (Elt F) → (⟨S1024x16, .f32⟩ : BufTy).Contents (Elt F)),
    binary main_v647 main_v644 main_v648 (mulf : (⟨S1024x16, .f32⟩ : BufTy).Contents (Elt F) → (⟨S1024x16, .f32⟩ : BufTy).Contents (Elt F) → (⟨S1024x16, .f32⟩ : BufTy).Contents (Elt F)),
    binary main_v646 main_v648 main_v649 (subf : (⟨S1024x16, .f32⟩ : BufTy).Contents (Elt F) → (⟨S1024x16, .f32⟩ : BufTy).Contents (Elt F) → (⟨S1024x16, .f32⟩ : BufTy).Contents (Elt F)),
    unary main_v642 main_v650 (broadcastInDim S1024x16 ![0, 1] bcast_S1024x1_S1024x16_0_1 : (⟨S1024x1, .f32⟩ : BufTy).Contents (Elt F) → (⟨S1024x16, .f32⟩ : BufTy).Contents (Elt F)),
    binary main_v650 main_v629 main_v651 (mulf : (⟨S1024x16, .f32⟩ : BufTy).Contents (Elt F) → (⟨S1024x16, .f32⟩ : BufTy).Contents (Elt F) → (⟨S1024x16, .f32⟩ : BufTy).Contents (Elt F)),
    unary main_v640 main_v652 (broadcastInDim S1024x16 ![0, 1] bcast_S1024x1_S1024x16_0_1 : (⟨S1024x1, .f32⟩ : BufTy).Contents (Elt F) → (⟨S1024x16, .f32⟩ : BufTy).Contents (Elt F)),
    binary main_v652 main_v644 main_v653 (mulf : (⟨S1024x16, .f32⟩ : BufTy).Contents (Elt F) → (⟨S1024x16, .f32⟩ : BufTy).Contents (Elt F) → (⟨S1024x16, .f32⟩ : BufTy).Contents (Elt F)),
    binary main_v651 main_v653 main_v654 (addf : (⟨S1024x16, .f32⟩ : BufTy).Contents (Elt F) → (⟨S1024x16, .f32⟩ : BufTy).Contents (Elt F) → (⟨S1024x16, .f32⟩ : BufTy).Contents (Elt F)),
    nullary main_c_33 (constantI S_ 32 5#32),
    unary main_c_33 main_v655 (broadcastInDim S1 ![] bcast_S_S1 : (⟨S_, .i32⟩ : BufTy).Contents (Elt F) → (⟨S1, .i32⟩ : BufTy).Contents (Elt F)),
    ternary main_v636 main_v655 main_v654 main_v656 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v657 ((extractStridedSlice S1024x1 ![0, 32] · slices_S1024x120_S1024x1_0_32) : (⟨S1024x120, .f32⟩ : BufTy).Contents (Elt F) → (⟨S1024x1, .f32⟩ : BufTy).Contents (Elt F)),
    reshape main_v657 main_v658 rfl shapeCasts_S1024x1_S1024,
    unary main_v658 main_v659 (Host.cos : (⟨S1024, .f32⟩ : BufTy).Contents (Elt F) → (⟨S1024, .f32⟩ : BufTy).Contents (Elt F)),
    unary main_v659 main_v660 (broadcastInDim S1024x1 ![0] bcast_S1024_S1024x1_0 : (⟨S1024, .f32⟩ : BufTy).Contents (Elt F) → (⟨S1024x1, .f32⟩ : BufTy).Contents (Elt F)),
    unary main_v658 main_v661 (Host.sin : (⟨S1024, .f32⟩ : BufTy).Contents (Elt F) → (⟨S1024, .f32⟩ : BufTy).Contents (Elt F)),
    unary main_v661 main_v662 (broadcastInDim S1024x1 ![0] bcast_S1024_S1024x1_0 : (⟨S1024, .f32⟩ : BufTy).Contents (Elt F) → (⟨S1024x1, .f32⟩ : BufTy).Contents (Elt F)),
    unary main_v656 main_v663 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v663 main_v664 rfl shapeCasts_S1024x1x16_S1024x16 ]
/-- Operations 41 … 60 of window 11. -/
abbrev st35 : List (HloOp τ sig (Elt F)) :=
  [ unary main_v660 main_v665 (broadcastInDim S1024x16 ![0, 1] bcast_S1024x1_S1024x16_0_1 : (⟨S1024x1, .f32⟩ : BufTy).Contents (Elt F) → (⟨S1024x16, .f32⟩ : BufTy).Contents (Elt F)),
    binary main_v665 main_v649 main_v666 (mulf : (⟨S1024x16, .f32⟩ : BufTy).Contents (Elt F) → (⟨S1024x16, .f32⟩ : BufTy).Contents (Elt F) → (⟨S1024x16, .f32⟩ : BufTy).Contents (Elt F)),
    unary main_v662 main_v667 (broadcastInDim S1024x16 ![0, 1] bcast_S1024x1_S1024x16_0_1 : (⟨S1024x1, .f32⟩ : BufTy).Contents (Elt F) → (⟨S1024x16, .f32⟩ : BufTy).Contents (Elt F)),
    binary main_v667 main_v664 main_v668 (mulf : (⟨S1024x16, .f32⟩ : BufTy).Contents (Elt F) → (⟨S1024x16, .f32⟩ : BufTy).Contents (Elt F) → (⟨S1024x16, .f32⟩ : BufTy).Contents (Elt F)),
    binary main_v666 main_v668 main_v669 (subf : (⟨S1024x16, .f32⟩ : BufTy).Contents (Elt F) → (⟨S1024x16, .f32⟩ : BufTy).Contents (Elt F) → (⟨S1024x16, .f32⟩ : BufTy).Contents (Elt F)),
    unary main_v662 main_v670 (broadcastInDim S1024x16 ![0, 1] bcast_S1024x1_S1024x16_0_1 : (⟨S1024x1, .f32⟩ : BufTy).Contents (Elt F) → (⟨S1024x16, .f32⟩ : BufTy).Contents (Elt F)),
    binary main_v670 main_v649 main_v671 (mulf : (⟨S1024x16, .f32⟩ : BufTy).Contents (Elt F) → (⟨S1024x16, .f32⟩ : BufTy).Contents (Elt F) → (⟨S1024x16, .f32⟩ : BufTy).Contents (Elt F)),
    unary main_v660 main_v672 (broadcastInDim S1024x16 ![0, 1] bcast_S1024x1_S1024x16_0_1 : (⟨S1024x1, .f32⟩ : BufTy).Contents (Elt F) → (⟨S1024x16, .f32⟩ : BufTy).Contents (Elt F)),
    binary main_v672 main_v664 main_v673 (mulf : (⟨S1024x16, .f32⟩ : BufTy).Contents (Elt F) → (⟨S1024x16, .f32⟩ : BufTy).Contents (Elt F) → (⟨S1024x16, .f32⟩ : BufTy).Contents (Elt F)),
    binary main_v671 main_v673 main_v674 (addf : (⟨S1024x16, .f32⟩ : BufTy).Contents (Elt F) → (⟨S1024x16, .f32⟩ : BufTy).Contents (Elt F) → (⟨S1024x16, .f32⟩ : BufTy).Contents (Elt F)),
    nullary main_c_34 (constantI S_ 32 6#32),
    unary main_c_34 main_v675 (broadcastInDim S1 ![] bcast_S_S1 : (⟨S_, .i32⟩ : BufTy).Contents (Elt F) → (⟨S1, .i32⟩ : BufTy).Contents (Elt F)),
    ternary main_v656 main_v675 main_v674 main_v676 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v677 ((extractStridedSlice S1024x1 ![0, 33] · slices_S1024x120_S1024x1_0_33) : (⟨S1024x120, .f32⟩ : BufTy).Contents (Elt F) → (⟨S1024x1, .f32⟩ : BufTy).Contents (Elt F)),
    reshape main_v677 main_v678 rfl shapeCasts_S1024x1_S1024,
    unary main_v678 main_v679 (Host.cos : (⟨S1024, .f32⟩ : BufTy).Contents (Elt F) → (⟨S1024, .f32⟩ : BufTy).Contents (Elt F)),
    unary main_v679 main_v680 (broadcastInDim S1024x1 ![0] bcast_S1024_S1024x1_0 : (⟨S1024, .f32⟩ : BufTy).Contents (Elt F) → (⟨S1024x1, .f32⟩ : BufTy).Contents (Elt F)),
    unary main_v678 main_v681 (Host.sin : (⟨S1024, .f32⟩ : BufTy).Contents (Elt F) → (⟨S1024, .f32⟩ : BufTy).Contents (Elt F)),
    unary main_v681 main_v682 (broadcastInDim S1024x1 ![0] bcast_S1024_S1024x1_0 : (⟨S1024, .f32⟩ : BufTy).Contents (Elt F) → (⟨S1024x1, .f32⟩ : BufTy).Contents (Elt F)),
    unary main_v676 main_v683 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)) ]
/-- Operations 1 … 20 of window 12. -/
abbrev st36 : List (HloOp τ sig (Elt F)) :=
  [ reshape main_v683 main_v684 rfl shapeCasts_S1024x1x16_S1024x16,
    unary main_v680 main_v685 (broadcastInDim S1024x16 ![0, 1] bcast_S1024x1_S1024x16_0_1 : (⟨S1024x1, .f32⟩ : BufTy).Contents (Elt F) → (⟨S1024x16, .f32⟩ : BufTy).Contents (Elt F)),
    binary main_v685 main_v669 main_v686 (mulf : (⟨S1024x16, .f32⟩ : BufTy).Contents (Elt F) → (⟨S1024x16, .f32⟩ : BufTy).Contents (Elt F) → (⟨S1024x16, .f32⟩ : BufTy).Contents (Elt F)),
    unary main_v682 main_v687 (broadcastInDim S1024x16 ![0, 1] bcast_S1024x1_S1024x16_0_1 : (⟨S1024x1, .f32⟩ : BufTy).Contents (Elt F) → (⟨S1024x16, .f32⟩ : BufTy).Contents (Elt F)),
    binary main_v687 main_v684 main_v688 (mulf : (⟨S1024x16, .f32⟩ : BufTy).Contents (Elt F) → (⟨S1024x16, .f32⟩ : BufTy).Contents (Elt F) → (⟨S1024x16, .f32⟩ : BufTy).Contents (Elt F)),
    binary main_v686 main_v688 main_v689 (subf : (⟨S1024x16, .f32⟩ : BufTy).Contents (Elt F) → (⟨S1024x16, .f32⟩ : BufTy).Contents (Elt F) → (⟨S1024x16, .f32⟩ : BufTy).Contents (Elt F)),
    unary main_v682 main_v690 (broadcastInDim S1024x16 ![0, 1] bcast_S1024x1_S1024x16_0_1 : (⟨S1024x1, .f32⟩ : BufTy).Contents (Elt F) → (⟨S1024x16, .f32⟩ : BufTy).Contents (Elt F)),
    binary main_v690 main_v669 main_v691 (mulf : (⟨S1024x16, .f32⟩ : BufTy).Contents (Elt F) → (⟨S1024x16, .f32⟩ : BufTy).Contents (Elt F) → (⟨S1024x16, .f32⟩ : BufTy).Contents (Elt F)),
    unary main_v680 main_v692 (broadcastInDim S1024x16 ![0, 1] bcast_S1024x1_S1024x16_0_1 : (⟨S1024x1, .f32⟩ : BufTy).Contents (Elt F) → (⟨S1024x16, .f32⟩ : BufTy).Contents (Elt F)),
    binary main_v692 main_v684 main_v693 (mulf : (⟨S1024x16, .f32⟩ : BufTy).Contents (Elt F) → (⟨S1024x16, .f32⟩ : BufTy).Contents (Elt F) → (⟨S1024x16, .f32⟩ : BufTy).Contents (Elt F)),
    binary main_v691 main_v693 main_v694 (addf : (⟨S1024x16, .f32⟩ : BufTy).Contents (Elt F) → (⟨S1024x16, .f32⟩ : BufTy).Contents (Elt F) → (⟨S1024x16, .f32⟩ : BufTy).Contents (Elt F)),
    nullary main_c_35 (constantI S_ 32 7#32),
    unary main_c_35 main_v695 (broadcastInDim S1 ![] bcast_S_S1 : (⟨S_, .i32⟩ : BufTy).Contents (Elt F) → (⟨S1, .i32⟩ : BufTy).Contents (Elt F)),
    ternary main_v676 main_v695 main_v694 main_v696 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v697 ((extractStridedSlice S1024x1 ![0, 34] · slices_S1024x120_S1024x1_0_34) : (⟨S1024x120, .f32⟩ : BufTy).Contents (Elt F) → (⟨S1024x1, .f32⟩ : BufTy).Contents (Elt F)),
    reshape main_v697 main_v698 rfl shapeCasts_S1024x1_S1024,
    unary main_v698 main_v699 (Host.cos : (⟨S1024, .f32⟩ : BufTy).Contents (Elt F) → (⟨S1024, .f32⟩ : BufTy).Contents (Elt F)),
    unary main_v699 main_v700 (broadcastInDim S1024x1 ![0] bcast_S1024_S1024x1_0 : (⟨S1024, .f32⟩ : BufTy).Contents (Elt F) → (⟨S1024x1, .f32⟩ : BufTy).Contents (Elt F)),
    unary main_v698 main_v701 (Host.sin : (⟨S1024, .f32⟩ : BufTy).Contents (Elt F) → (⟨S1024, .f32⟩ : BufTy).Contents (Elt F)),
    unary main_v701 main_v702 (broadcastInDim S1024x1 ![0] bcast_S1024_S1024x1_0 : (⟨S1024, .f32⟩ : BufTy).Contents (Elt F) → (⟨S1024x1, .f32⟩ : BufTy).Contents (Elt F)) ]
/-- Operations 21 … 40 of window 12. -/
abbrev st37 : List (HloOp τ sig (Elt F)) :=
  [ unary main_v696 main_v703 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v703 main_v704 rfl shapeCasts_S1024x1x16_S1024x16,
    unary main_v700 main_v705 (broadcastInDim S1024x16 ![0, 1] bcast_S1024x1_S1024x16_0_1 : (⟨S1024x1, .f32⟩ : BufTy).Contents (Elt F) → (⟨S1024x16, .f32⟩ : BufTy).Contents (Elt F)),
    binary main_v705 main_v689 main_v706 (mulf : (⟨S1024x16, .f32⟩ : BufTy).Contents (Elt F) → (⟨S1024x16, .f32⟩ : BufTy).Contents (Elt F) → (⟨S1024x16, .f32⟩ : BufTy).Contents (Elt F)),
    unary main_v702 main_v707 (broadcastInDim S1024x16 ![0, 1] bcast_S1024x1_S1024x16_0_1 : (⟨S1024x1, .f32⟩ : BufTy).Contents (Elt F) → (⟨S1024x16, .f32⟩ : BufTy).Contents (Elt F)),
    binary main_v707 main_v704 main_v708 (mulf : (⟨S1024x16, .f32⟩ : BufTy).Contents (Elt F) → (⟨S1024x16, .f32⟩ : BufTy).Contents (Elt F) → (⟨S1024x16, .f32⟩ : BufTy).Contents (Elt F)),
    binary main_v706 main_v708 main_v709 (subf : (⟨S1024x16, .f32⟩ : BufTy).Contents (Elt F) → (⟨S1024x16, .f32⟩ : BufTy).Contents (Elt F) → (⟨S1024x16, .f32⟩ : BufTy).Contents (Elt F)),
    unary main_v702 main_v710 (broadcastInDim S1024x16 ![0, 1] bcast_S1024x1_S1024x16_0_1 : (⟨S1024x1, .f32⟩ : BufTy).Contents (Elt F) → (⟨S1024x16, .f32⟩ : BufTy).Contents (Elt F)),
    binary main_v710 main_v689 main_v711 (mulf : (⟨S1024x16, .f32⟩ : BufTy).Contents (Elt F) → (⟨S1024x16, .f32⟩ : BufTy).Contents (Elt F) → (⟨S1024x16, .f32⟩ : BufTy).Contents (Elt F)),
    unary main_v700 main_v712 (broadcastInDim S1024x16 ![0, 1] bcast_S1024x1_S1024x16_0_1 : (⟨S1024x1, .f32⟩ : BufTy).Contents (Elt F) → (⟨S1024x16, .f32⟩ : BufTy).Contents (Elt F)),
    binary main_v712 main_v704 main_v713 (mulf : (⟨S1024x16, .f32⟩ : BufTy).Contents (Elt F) → (⟨S1024x16, .f32⟩ : BufTy).Contents (Elt F) → (⟨S1024x16, .f32⟩ : BufTy).Contents (Elt F)),
    binary main_v711 main_v713 main_v714 (addf : (⟨S1024x16, .f32⟩ : BufTy).Contents (Elt F) → (⟨S1024x16, .f32⟩ : BufTy).Contents (Elt F) → (⟨S1024x16, .f32⟩ : BufTy).Contents (Elt F)),
    nullary main_c_36 (constantI S_ 32 8#32),
    unary main_c_36 main_v715 (broadcastInDim S1 ![] bcast_S_S1 : (⟨S_, .i32⟩ : BufTy).Contents (Elt F) → (⟨S1, .i32⟩ : BufTy).Contents (Elt F)),
    ternary main_v696 main_v715 main_v714 main_v716 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v717 ((extractStridedSlice S1024x1 ![0, 35] · slices_S1024x120_S1024x1_0_35) : (⟨S1024x120, .f32⟩ : BufTy).Contents (Elt F) → (⟨S1024x1, .f32⟩ : BufTy).Contents (Elt F)),
    reshape main_v717 main_v718 rfl shapeCasts_S1024x1_S1024,
    unary main_v718 main_v719 (Host.cos : (⟨S1024, .f32⟩ : BufTy).Contents (Elt F) → (⟨S1024, .f32⟩ : BufTy).Contents (Elt F)),
    unary main_v719 main_v720 (broadcastInDim S1024x1 ![0] bcast_S1024_S1024x1_0 : (⟨S1024, .f32⟩ : BufTy).Contents (Elt F) → (⟨S1024x1, .f32⟩ : BufTy).Contents (Elt F)),
    unary main_v718 main_v721 (Host.sin : (⟨S1024, .f32⟩ : BufTy).Contents (Elt F) → (⟨S1024, .f32⟩ : BufTy).Contents (Elt F)) ]
/-- Operations 41 … 60 of window 12. -/
abbrev st38 : List (HloOp τ sig (Elt F)) :=
  [ unary main_v721 main_v722 (broadcastInDim S1024x1 ![0] bcast_S1024_S1024x1_0 : (⟨S1024, .f32⟩ : BufTy).Contents (Elt F) → (⟨S1024x1, .f32⟩ : BufTy).Contents (Elt F)),
    unary main_v716 main_v723 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v723 main_v724 rfl shapeCasts_S1024x1x16_S1024x16,
    unary main_v720 main_v725 (broadcastInDim S1024x16 ![0, 1] bcast_S1024x1_S1024x16_0_1 : (⟨S1024x1, .f32⟩ : BufTy).Contents (Elt F) → (⟨S1024x16, .f32⟩ : BufTy).Contents (Elt F)),
    binary main_v725 main_v709 main_v726 (mulf : (⟨S1024x16, .f32⟩ : BufTy).Contents (Elt F) → (⟨S1024x16, .f32⟩ : BufTy).Contents (Elt F) → (⟨S1024x16, .f32⟩ : BufTy).Contents (Elt F)),
    unary main_v722 main_v727 (broadcastInDim S1024x16 ![0, 1] bcast_S1024x1_S1024x16_0_1 : (⟨S1024x1, .f32⟩ : BufTy).Contents (Elt F) → (⟨S1024x16, .f32⟩ : BufTy).Contents (Elt F)),
    binary main_v727 main_v724 main_v728 (mulf : (⟨S1024x16, .f32⟩ : BufTy).Contents (Elt F) → (⟨S1024x16, .f32⟩ : BufTy).Contents (Elt F) → (⟨S1024x16, .f32⟩ : BufTy).Contents (Elt F)),
    binary main_v726 main_v728 main_v729 (subf : (⟨S1024x16, .f32⟩ : BufTy).Contents (Elt F) → (⟨S1024x16, .f32⟩ : BufTy).Contents (Elt F) → (⟨S1024x16, .f32⟩ : BufTy).Contents (Elt F)),
    unary main_v722 main_v730 (broadcastInDim S1024x16 ![0, 1] bcast_S1024x1_S1024x16_0_1 : (⟨S1024x1, .f32⟩ : BufTy).Contents (Elt F) → (⟨S1024x16, .f32⟩ : BufTy).Contents (Elt F)),
    binary main_v730 main_v709 main_v731 (mulf : (⟨S1024x16, .f32⟩ : BufTy).Contents (Elt F) → (⟨S1024x16, .f32⟩ : BufTy).Contents (Elt F) → (⟨S1024x16, .f32⟩ : BufTy).Contents (Elt F)),
    unary main_v720 main_v732 (broadcastInDim S1024x16 ![0, 1] bcast_S1024x1_S1024x16_0_1 : (⟨S1024x1, .f32⟩ : BufTy).Contents (Elt F) → (⟨S1024x16, .f32⟩ : BufTy).Contents (Elt F)),
    binary main_v732 main_v724 main_v733 (mulf : (⟨S1024x16, .f32⟩ : BufTy).Contents (Elt F) → (⟨S1024x16, .f32⟩ : BufTy).Contents (Elt F) → (⟨S1024x16, .f32⟩ : BufTy).Contents (Elt F)),
    binary main_v731 main_v733 main_v734 (addf : (⟨S1024x16, .f32⟩ : BufTy).Contents (Elt F) → (⟨S1024x16, .f32⟩ : BufTy).Contents (Elt F) → (⟨S1024x16, .f32⟩ : BufTy).Contents (Elt F)),
    nullary main_c_37 (constantI S_ 32 9#32),
    unary main_c_37 main_v735 (broadcastInDim S1 ![] bcast_S_S1 : (⟨S_, .i32⟩ : BufTy).Contents (Elt F) → (⟨S1, .i32⟩ : BufTy).Contents (Elt F)),
    ternary main_v716 main_v735 main_v734 main_v736 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v737 ((extractStridedSlice S1024x1 ![0, 36] · slices_S1024x120_S1024x1_0_36) : (⟨S1024x120, .f32⟩ : BufTy).Contents (Elt F) → (⟨S1024x1, .f32⟩ : BufTy).Contents (Elt F)),
    reshape main_v737 main_v738 rfl shapeCasts_S1024x1_S1024,
    unary main_v738 main_v739 (Host.cos : (⟨S1024, .f32⟩ : BufTy).Contents (Elt F) → (⟨S1024, .f32⟩ : BufTy).Contents (Elt F)),
    unary main_v739 main_v740 (broadcastInDim S1024x1 ![0] bcast_S1024_S1024x1_0 : (⟨S1024, .f32⟩ : BufTy).Contents (Elt F) → (⟨S1024x1, .f32⟩ : BufTy).Contents (Elt F)) ]
/-- Operations 1 … 20 of window 13. -/
abbrev st39 : List (HloOp τ sig (Elt F)) :=
  [ unary main_v738 main_v741 (Host.sin : (⟨S1024, .f32⟩ : BufTy).Contents (Elt F) → (⟨S1024, .f32⟩ : BufTy).Contents (Elt F)),
    unary main_v741 main_v742 (broadcastInDim S1024x1 ![0] bcast_S1024_S1024x1_0 : (⟨S1024, .f32⟩ : BufTy).Contents (Elt F) → (⟨S1024x1, .f32⟩ : BufTy).Contents (Elt F)),
    unary main_v736 main_v743 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v743 main_v744 rfl shapeCasts_S1024x1x16_S1024x16,
    unary main_v740 main_v745 (broadcastInDim S1024x16 ![0, 1] bcast_S1024x1_S1024x16_0_1 : (⟨S1024x1, .f32⟩ : BufTy).Contents (Elt F) → (⟨S1024x16, .f32⟩ : BufTy).Contents (Elt F)),
    binary main_v745 main_v729 main_v746 (mulf : (⟨S1024x16, .f32⟩ : BufTy).Contents (Elt F) → (⟨S1024x16, .f32⟩ : BufTy).Contents (Elt F) → (⟨S1024x16, .f32⟩ : BufTy).Contents (Elt F)),
    unary main_v742 main_v747 (broadcastInDim S1024x16 ![0, 1] bcast_S1024x1_S1024x16_0_1 : (⟨S1024x1, .f32⟩ : BufTy).Contents (Elt F) → (⟨S1024x16, .f32⟩ : BufTy).Contents (Elt F)),
    binary main_v747 main_v744 main_v748 (mulf : (⟨S1024x16, .f32⟩ : BufTy).Contents (Elt F) → (⟨S1024x16, .f32⟩ : BufTy).Contents (Elt F) → (⟨S1024x16, .f32⟩ : BufTy).Contents (Elt F)),
    binary main_v746 main_v748 main_v749 (subf : (⟨S1024x16, .f32⟩ : BufTy).Contents (Elt F) → (⟨S1024x16, .f32⟩ : BufTy).Contents (Elt F) → (⟨S1024x16, .f32⟩ : BufTy).Contents (Elt F)),
    unary main_v742 main_v750 (broadcastInDim S1024x16 ![0, 1] bcast_S1024x1_S1024x16_0_1 : (⟨S1024x1, .f32⟩ : BufTy).Contents (Elt F) → (⟨S1024x16, .f32⟩ : BufTy).Contents (Elt F)),
    binary main_v750 main_v729 main_v751 (mulf : (⟨S1024x16, .f32⟩ : BufTy).Contents (Elt F) → (⟨S1024x16, .f32⟩ : BufTy).Contents (Elt F) → (⟨S1024x16, .f32⟩ : BufTy).Contents (Elt F)),
    unary main_v740 main_v752 (broadcastInDim S1024x16 ![0, 1] bcast_S1024x1_S1024x16_0_1 : (⟨S1024x1, .f32⟩ : BufTy).Contents (Elt F) → (⟨S1024x16, .f32⟩ : BufTy).Contents (Elt F)),
    binary main_v752 main_v744 main_v753 (mulf : (⟨S1024x16, .f32⟩ : BufTy).Contents (Elt F) → (⟨S1024x16, .f32⟩ : BufTy).Contents (Elt F) → (⟨S1024x16, .f32⟩ : BufTy).Contents (Elt F)),
    binary main_v751 main_v753 main_v754 (addf : (⟨S1024x16, .f32⟩ : BufTy).Contents (Elt F) → (⟨S1024x16, .f32⟩ : BufTy).Contents (Elt F) → (⟨S1024x16, .f32⟩ : BufTy).Contents (Elt F)),
    nullary main_c_38 (constantI S_ 32 10#32),
    unary main_c_38 main_v755 (broadcastInDim S1 ![] bcast_S_S1 : (⟨S_, .i32⟩ : BufTy).Contents (Elt F) → (⟨S1, .i32⟩ : BufTy).Contents (Elt F)),
    ternary main_v736 main_v755 main_v754 main_v756 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v757 ((extractStridedSlice S1024x1 ![0, 37] · slices_S1024x120_S1024x1_0_37) : (⟨S1024x120, .f32⟩ : BufTy).Contents (Elt F) → (⟨S1024x1, .f32⟩ : BufTy).Contents (Elt F)),
    reshape main_v757 main_v758 rfl shapeCasts_S1024x1_S1024,
    unary main_v758 main_v759 (Host.cos : (⟨S1024, .f32⟩ : BufTy).Contents (Elt F) → (⟨S1024, .f32⟩ : BufTy).Contents (Elt F)) ]
/-- Operations 21 … 40 of window 13. -/
abbrev st40 : List (HloOp τ sig (Elt F)) :=
  [ unary main_v759 main_v760 (broadcastInDim S1024x1 ![0] bcast_S1024_S1024x1_0 : (⟨S1024, .f32⟩ : BufTy).Contents (Elt F) → (⟨S1024x1, .f32⟩ : BufTy).Contents (Elt F)),
    unary main_v758 main_v761 (Host.sin : (⟨S1024, .f32⟩ : BufTy).Contents (Elt F) → (⟨S1024, .f32⟩ : BufTy).Contents (Elt F)),
    unary main_v761 main_v762 (broadcastInDim S1024x1 ![0] bcast_S1024_S1024x1_0 : (⟨S1024, .f32⟩ : BufTy).Contents (Elt F) → (⟨S1024x1, .f32⟩ : BufTy).Contents (Elt F)),
    unary main_v756 main_v763 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v763 main_v764 rfl shapeCasts_S1024x1x16_S1024x16,
    unary main_v760 main_v765 (broadcastInDim S1024x16 ![0, 1] bcast_S1024x1_S1024x16_0_1 : (⟨S1024x1, .f32⟩ : BufTy).Contents (Elt F) → (⟨S1024x16, .f32⟩ : BufTy).Contents (Elt F)),
    binary main_v765 main_v749 main_v766 (mulf : (⟨S1024x16, .f32⟩ : BufTy).Contents (Elt F) → (⟨S1024x16, .f32⟩ : BufTy).Contents (Elt F) → (⟨S1024x16, .f32⟩ : BufTy).Contents (Elt F)),
    unary main_v762 main_v767 (broadcastInDim S1024x16 ![0, 1] bcast_S1024x1_S1024x16_0_1 : (⟨S1024x1, .f32⟩ : BufTy).Contents (Elt F) → (⟨S1024x16, .f32⟩ : BufTy).Contents (Elt F)),
    binary main_v767 main_v764 main_v768 (mulf : (⟨S1024x16, .f32⟩ : BufTy).Contents (Elt F) → (⟨S1024x16, .f32⟩ : BufTy).Contents (Elt F) → (⟨S1024x16, .f32⟩ : BufTy).Contents (Elt F)),
    binary main_v766 main_v768 main_v769 (subf : (⟨S1024x16, .f32⟩ : BufTy).Contents (Elt F) → (⟨S1024x16, .f32⟩ : BufTy).Contents (Elt F) → (⟨S1024x16, .f32⟩ : BufTy).Contents (Elt F)),
    unary main_v762 main_v770 (broadcastInDim S1024x16 ![0, 1] bcast_S1024x1_S1024x16_0_1 : (⟨S1024x1, .f32⟩ : BufTy).Contents (Elt F) → (⟨S1024x16, .f32⟩ : BufTy).Contents (Elt F)),
    binary main_v770 main_v749 main_v771 (mulf : (⟨S1024x16, .f32⟩ : BufTy).Contents (Elt F) → (⟨S1024x16, .f32⟩ : BufTy).Contents (Elt F) → (⟨S1024x16, .f32⟩ : BufTy).Contents (Elt F)),
    unary main_v760 main_v772 (broadcastInDim S1024x16 ![0, 1] bcast_S1024x1_S1024x16_0_1 : (⟨S1024x1, .f32⟩ : BufTy).Contents (Elt F) → (⟨S1024x16, .f32⟩ : BufTy).Contents (Elt F)),
    binary main_v772 main_v764 main_v773 (mulf : (⟨S1024x16, .f32⟩ : BufTy).Contents (Elt F) → (⟨S1024x16, .f32⟩ : BufTy).Contents (Elt F) → (⟨S1024x16, .f32⟩ : BufTy).Contents (Elt F)),
    binary main_v771 main_v773 main_v774 (addf : (⟨S1024x16, .f32⟩ : BufTy).Contents (Elt F) → (⟨S1024x16, .f32⟩ : BufTy).Contents (Elt F) → (⟨S1024x16, .f32⟩ : BufTy).Contents (Elt F)),
    nullary main_c_39 (constantI S_ 32 11#32),
    unary main_c_39 main_v775 (broadcastInDim S1 ![] bcast_S_S1 : (⟨S_, .i32⟩ : BufTy).Contents (Elt F) → (⟨S1, .i32⟩ : BufTy).Contents (Elt F)),
    ternary main_v756 main_v775 main_v774 main_v776 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v777 ((extractStridedSlice S1024x1 ![0, 38] · slices_S1024x120_S1024x1_0_38) : (⟨S1024x120, .f32⟩ : BufTy).Contents (Elt F) → (⟨S1024x1, .f32⟩ : BufTy).Contents (Elt F)),
    reshape main_v777 main_v778 rfl shapeCasts_S1024x1_S1024 ]
/-- Operations 41 … 60 of window 13. -/
abbrev st41 : List (HloOp τ sig (Elt F)) :=
  [ unary main_v778 main_v779 (Host.cos : (⟨S1024, .f32⟩ : BufTy).Contents (Elt F) → (⟨S1024, .f32⟩ : BufTy).Contents (Elt F)),
    unary main_v779 main_v780 (broadcastInDim S1024x1 ![0] bcast_S1024_S1024x1_0 : (⟨S1024, .f32⟩ : BufTy).Contents (Elt F) → (⟨S1024x1, .f32⟩ : BufTy).Contents (Elt F)),
    unary main_v778 main_v781 (Host.sin : (⟨S1024, .f32⟩ : BufTy).Contents (Elt F) → (⟨S1024, .f32⟩ : BufTy).Contents (Elt F)),
    unary main_v781 main_v782 (broadcastInDim S1024x1 ![0] bcast_S1024_S1024x1_0 : (⟨S1024, .f32⟩ : BufTy).Contents (Elt F) → (⟨S1024x1, .f32⟩ : BufTy).Contents (Elt F)),
    unary main_v776 main_v783 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v783 main_v784 rfl shapeCasts_S1024x1x16_S1024x16,
    unary main_v780 main_v785 (broadcastInDim S1024x16 ![0, 1] bcast_S1024x1_S1024x16_0_1 : (⟨S1024x1, .f32⟩ : BufTy).Contents (Elt F) → (⟨S1024x16, .f32⟩ : BufTy).Contents (Elt F)),
    binary main_v785 main_v769 main_v786 (mulf : (⟨S1024x16, .f32⟩ : BufTy).Contents (Elt F) → (⟨S1024x16, .f32⟩ : BufTy).Contents (Elt F) → (⟨S1024x16, .f32⟩ : BufTy).Contents (Elt F)),
    unary main_v782 main_v787 (broadcastInDim S1024x16 ![0, 1] bcast_S1024x1_S1024x16_0_1 : (⟨S1024x1, .f32⟩ : BufTy).Contents (Elt F) → (⟨S1024x16, .f32⟩ : BufTy).Contents (Elt F)),
    binary main_v787 main_v784 main_v788 (mulf : (⟨S1024x16, .f32⟩ : BufTy).Contents (Elt F) → (⟨S1024x16, .f32⟩ : BufTy).Contents (Elt F) → (⟨S1024x16, .f32⟩ : BufTy).Contents (Elt F)),
    binary main_v786 main_v788 main_v789 (subf : (⟨S1024x16, .f32⟩ : BufTy).Contents (Elt F) → (⟨S1024x16, .f32⟩ : BufTy).Contents (Elt F) → (⟨S1024x16, .f32⟩ : BufTy).Contents (Elt F)),
    unary main_v782 main_v790 (broadcastInDim S1024x16 ![0, 1] bcast_S1024x1_S1024x16_0_1 : (⟨S1024x1, .f32⟩ : BufTy).Contents (Elt F) → (⟨S1024x16, .f32⟩ : BufTy).Contents (Elt F)),
    binary main_v790 main_v769 main_v791 (mulf : (⟨S1024x16, .f32⟩ : BufTy).Contents (Elt F) → (⟨S1024x16, .f32⟩ : BufTy).Contents (Elt F) → (⟨S1024x16, .f32⟩ : BufTy).Contents (Elt F)),
    unary main_v780 main_v792 (broadcastInDim S1024x16 ![0, 1] bcast_S1024x1_S1024x16_0_1 : (⟨S1024x1, .f32⟩ : BufTy).Contents (Elt F) → (⟨S1024x16, .f32⟩ : BufTy).Contents (Elt F)),
    binary main_v792 main_v784 main_v793 (mulf : (⟨S1024x16, .f32⟩ : BufTy).Contents (Elt F) → (⟨S1024x16, .f32⟩ : BufTy).Contents (Elt F) → (⟨S1024x16, .f32⟩ : BufTy).Contents (Elt F)),
    binary main_v791 main_v793 main_v794 (addf : (⟨S1024x16, .f32⟩ : BufTy).Contents (Elt F) → (⟨S1024x16, .f32⟩ : BufTy).Contents (Elt F) → (⟨S1024x16, .f32⟩ : BufTy).Contents (Elt F)),
    nullary main_c_40 (constantI S_ 32 12#32),
    unary main_c_40 main_v795 (broadcastInDim S1 ![] bcast_S_S1 : (⟨S_, .i32⟩ : BufTy).Contents (Elt F) → (⟨S1, .i32⟩ : BufTy).Contents (Elt F)),
    ternary main_v776 main_v795 main_v794 main_v796 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v797 ((extractStridedSlice S1024x1 ![0, 39] · slices_S1024x120_S1024x1_0_39) : (⟨S1024x120, .f32⟩ : BufTy).Contents (Elt F) → (⟨S1024x1, .f32⟩ : BufTy).Contents (Elt F)) ]
/-- Operations 1 … 20 of window 14. -/
abbrev st42 : List (HloOp τ sig (Elt F)) :=
  [ reshape main_v797 main_v798 rfl shapeCasts_S1024x1_S1024,
    unary main_v798 main_v799 (Host.cos : (⟨S1024, .f32⟩ : BufTy).Contents (Elt F) → (⟨S1024, .f32⟩ : BufTy).Contents (Elt F)),
    unary main_v799 main_v800 (broadcastInDim S1024x1 ![0] bcast_S1024_S1024x1_0 : (⟨S1024, .f32⟩ : BufTy).Contents (Elt F) → (⟨S1024x1, .f32⟩ : BufTy).Contents (Elt F)),
    unary main_v798 main_v801 (Host.sin : (⟨S1024, .f32⟩ : BufTy).Contents (Elt F) → (⟨S1024, .f32⟩ : BufTy).Contents (Elt F)),
    unary main_v801 main_v802 (broadcastInDim S1024x1 ![0] bcast_S1024_S1024x1_0 : (⟨S1024, .f32⟩ : BufTy).Contents (Elt F) → (⟨S1024x1, .f32⟩ : BufTy).Contents (Elt F)),
    unary main_v796 main_v803 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v803 main_v804 rfl shapeCasts_S1024x1x16_S1024x16,
    unary main_v800 main_v805 (broadcastInDim S1024x16 ![0, 1] bcast_S1024x1_S1024x16_0_1 : (⟨S1024x1, .f32⟩ : BufTy).Contents (Elt F) → (⟨S1024x16, .f32⟩ : BufTy).Contents (Elt F)),
    binary main_v805 main_v789 main_v806 (mulf : (⟨S1024x16, .f32⟩ : BufTy).Contents (Elt F) → (⟨S1024x16, .f32⟩ : BufTy).Contents (Elt F) → (⟨S1024x16, .f32⟩ : BufTy).Contents (Elt F)),
    unary main_v802 main_v807 (broadcastInDim S1024x16 ![0, 1] bcast_S1024x1_S1024x16_0_1 : (⟨S1024x1, .f32⟩ : BufTy).Contents (Elt F) → (⟨S1024x16, .f32⟩ : BufTy).Contents (Elt F)),
    binary main_v807 main_v804 main_v808 (mulf : (⟨S1024x16, .f32⟩ : BufTy).Contents (Elt F) → (⟨S1024x16, .f32⟩ : BufTy).Contents (Elt F) → (⟨S1024x16, .f32⟩ : BufTy).Contents (Elt F)),
    binary main_v806 main_v808 main_v809 (subf : (⟨S1024x16, .f32⟩ : BufTy).Contents (Elt F) → (⟨S1024x16, .f32⟩ : BufTy).Contents (Elt F) → (⟨S1024x16, .f32⟩ : BufTy).Contents (Elt F)),
    unary main_v802 main_v810 (broadcastInDim S1024x16 ![0, 1] bcast_S1024x1_S1024x16_0_1 : (⟨S1024x1, .f32⟩ : BufTy).Contents (Elt F) → (⟨S1024x16, .f32⟩ : BufTy).Contents (Elt F)),
    binary main_v810 main_v789 main_v811 (mulf : (⟨S1024x16, .f32⟩ : BufTy).Contents (Elt F) → (⟨S1024x16, .f32⟩ : BufTy).Contents (Elt F) → (⟨S1024x16, .f32⟩ : BufTy).Contents (Elt F)),
    unary main_v800 main_v812 (broadcastInDim S1024x16 ![0, 1] bcast_S1024x1_S1024x16_0_1 : (⟨S1024x1, .f32⟩ : BufTy).Contents (Elt F) → (⟨S1024x16, .f32⟩ : BufTy).Contents (Elt F)),
    binary main_v812 main_v804 main_v813 (mulf : (⟨S1024x16, .f32⟩ : BufTy).Contents (Elt F) → (⟨S1024x16, .f32⟩ : BufTy).Contents (Elt F) → (⟨S1024x16, .f32⟩ : BufTy).Contents (Elt F)),
    binary main_v811 main_v813 main_v814 (addf : (⟨S1024x16, .f32⟩ : BufTy).Contents (Elt F) → (⟨S1024x16, .f32⟩ : BufTy).Contents (Elt F) → (⟨S1024x16, .f32⟩ : BufTy).Contents (Elt F)),
    nullary main_c_41 (constantI S_ 32 13#32),
    unary main_c_41 main_v815 (broadcastInDim S1 ![] bcast_S_S1 : (⟨S_, .i32⟩ : BufTy).Contents (Elt F) → (⟨S1, .i32⟩ : BufTy).Contents (Elt F)),
    ternary main_v796 main_v815 main_v814 main_v816 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 21 … 40 of window 14. -/
abbrev st43 : List (HloOp τ sig (Elt F)) :=
  [ unary main_arg1 main_v817 ((extractStridedSlice S1024x1 ![0, 40] · slices_S1024x120_S1024x1_0_40) : (⟨S1024x120, .f32⟩ : BufTy).Contents (Elt F) → (⟨S1024x1, .f32⟩ : BufTy).Contents (Elt F)),
    reshape main_v817 main_v818 rfl shapeCasts_S1024x1_S1024,
    unary main_v818 main_v819 (Host.cos : (⟨S1024, .f32⟩ : BufTy).Contents (Elt F) → (⟨S1024, .f32⟩ : BufTy).Contents (Elt F)),
    unary main_v819 main_v820 (broadcastInDim S1024x1 ![0] bcast_S1024_S1024x1_0 : (⟨S1024, .f32⟩ : BufTy).Contents (Elt F) → (⟨S1024x1, .f32⟩ : BufTy).Contents (Elt F)),
    unary main_v818 main_v821 (Host.sin : (⟨S1024, .f32⟩ : BufTy).Contents (Elt F) → (⟨S1024, .f32⟩ : BufTy).Contents (Elt F)),
    unary main_v821 main_v822 (broadcastInDim S1024x1 ![0] bcast_S1024_S1024x1_0 : (⟨S1024, .f32⟩ : BufTy).Contents (Elt F) → (⟨S1024x1, .f32⟩ : BufTy).Contents (Elt F)),
    unary main_v816 main_v823 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v823 main_v824 rfl shapeCasts_S1024x1x16_S1024x16,
    unary main_v820 main_v825 (broadcastInDim S1024x16 ![0, 1] bcast_S1024x1_S1024x16_0_1 : (⟨S1024x1, .f32⟩ : BufTy).Contents (Elt F) → (⟨S1024x16, .f32⟩ : BufTy).Contents (Elt F)),
    binary main_v825 main_v809 main_v826 (mulf : (⟨S1024x16, .f32⟩ : BufTy).Contents (Elt F) → (⟨S1024x16, .f32⟩ : BufTy).Contents (Elt F) → (⟨S1024x16, .f32⟩ : BufTy).Contents (Elt F)),
    unary main_v822 main_v827 (broadcastInDim S1024x16 ![0, 1] bcast_S1024x1_S1024x16_0_1 : (⟨S1024x1, .f32⟩ : BufTy).Contents (Elt F) → (⟨S1024x16, .f32⟩ : BufTy).Contents (Elt F)),
    binary main_v827 main_v824 main_v828 (mulf : (⟨S1024x16, .f32⟩ : BufTy).Contents (Elt F) → (⟨S1024x16, .f32⟩ : BufTy).Contents (Elt F) → (⟨S1024x16, .f32⟩ : BufTy).Contents (Elt F)),
    binary main_v826 main_v828 main_v829 (subf : (⟨S1024x16, .f32⟩ : BufTy).Contents (Elt F) → (⟨S1024x16, .f32⟩ : BufTy).Contents (Elt F) → (⟨S1024x16, .f32⟩ : BufTy).Contents (Elt F)),
    unary main_v822 main_v830 (broadcastInDim S1024x16 ![0, 1] bcast_S1024x1_S1024x16_0_1 : (⟨S1024x1, .f32⟩ : BufTy).Contents (Elt F) → (⟨S1024x16, .f32⟩ : BufTy).Contents (Elt F)),
    binary main_v830 main_v809 main_v831 (mulf : (⟨S1024x16, .f32⟩ : BufTy).Contents (Elt F) → (⟨S1024x16, .f32⟩ : BufTy).Contents (Elt F) → (⟨S1024x16, .f32⟩ : BufTy).Contents (Elt F)),
    unary main_v820 main_v832 (broadcastInDim S1024x16 ![0, 1] bcast_S1024x1_S1024x16_0_1 : (⟨S1024x1, .f32⟩ : BufTy).Contents (Elt F) → (⟨S1024x16, .f32⟩ : BufTy).Contents (Elt F)),
    binary main_v832 main_v824 main_v833 (mulf : (⟨S1024x16, .f32⟩ : BufTy).Contents (Elt F) → (⟨S1024x16, .f32⟩ : BufTy).Contents (Elt F) → (⟨S1024x16, .f32⟩ : BufTy).Contents (Elt F)),
    binary main_v831 main_v833 main_v834 (addf : (⟨S1024x16, .f32⟩ : BufTy).Contents (Elt F) → (⟨S1024x16, .f32⟩ : BufTy).Contents (Elt F) → (⟨S1024x16, .f32⟩ : BufTy).Contents (Elt F)),
    nullary main_c_42 (constantI S_ 32 14#32),
    unary main_c_42 main_v835 (broadcastInDim S1 ![] bcast_S_S1 : (⟨S_, .i32⟩ : BufTy).Contents (Elt F) → (⟨S1, .i32⟩ : BufTy).Contents (Elt F)) ]
/-- Operations 41 … 60 of window 14. -/
abbrev st44 : List (HloOp τ sig (Elt F)) :=
  [ ternary main_v816 main_v835 main_v834 main_v836 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v837 ((extractStridedSlice S1024x1 ![0, 41] · slices_S1024x120_S1024x1_0_41) : (⟨S1024x120, .f32⟩ : BufTy).Contents (Elt F) → (⟨S1024x1, .f32⟩ : BufTy).Contents (Elt F)),
    reshape main_v837 main_v838 rfl shapeCasts_S1024x1_S1024,
    unary main_v838 main_v839 (Host.cos : (⟨S1024, .f32⟩ : BufTy).Contents (Elt F) → (⟨S1024, .f32⟩ : BufTy).Contents (Elt F)),
    unary main_v839 main_v840 (broadcastInDim S1024x1 ![0] bcast_S1024_S1024x1_0 : (⟨S1024, .f32⟩ : BufTy).Contents (Elt F) → (⟨S1024x1, .f32⟩ : BufTy).Contents (Elt F)),
    unary main_v838 main_v841 (Host.sin : (⟨S1024, .f32⟩ : BufTy).Contents (Elt F) → (⟨S1024, .f32⟩ : BufTy).Contents (Elt F)),
    unary main_v841 main_v842 (broadcastInDim S1024x1 ![0] bcast_S1024_S1024x1_0 : (⟨S1024, .f32⟩ : BufTy).Contents (Elt F) → (⟨S1024x1, .f32⟩ : BufTy).Contents (Elt F)),
    unary main_v836 main_v843 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v843 main_v844 rfl shapeCasts_S1024x1x16_S1024x16,
    unary main_v840 main_v845 (broadcastInDim S1024x16 ![0, 1] bcast_S1024x1_S1024x16_0_1 : (⟨S1024x1, .f32⟩ : BufTy).Contents (Elt F) → (⟨S1024x16, .f32⟩ : BufTy).Contents (Elt F)),
    binary main_v845 main_v829 main_v846 (mulf : (⟨S1024x16, .f32⟩ : BufTy).Contents (Elt F) → (⟨S1024x16, .f32⟩ : BufTy).Contents (Elt F) → (⟨S1024x16, .f32⟩ : BufTy).Contents (Elt F)),
    unary main_v842 main_v847 (broadcastInDim S1024x16 ![0, 1] bcast_S1024x1_S1024x16_0_1 : (⟨S1024x1, .f32⟩ : BufTy).Contents (Elt F) → (⟨S1024x16, .f32⟩ : BufTy).Contents (Elt F)),
    binary main_v847 main_v844 main_v848 (mulf : (⟨S1024x16, .f32⟩ : BufTy).Contents (Elt F) → (⟨S1024x16, .f32⟩ : BufTy).Contents (Elt F) → (⟨S1024x16, .f32⟩ : BufTy).Contents (Elt F)),
    binary main_v846 main_v848 main_v849 (subf : (⟨S1024x16, .f32⟩ : BufTy).Contents (Elt F) → (⟨S1024x16, .f32⟩ : BufTy).Contents (Elt F) → (⟨S1024x16, .f32⟩ : BufTy).Contents (Elt F)),
    unary main_v842 main_v850 (broadcastInDim S1024x16 ![0, 1] bcast_S1024x1_S1024x16_0_1 : (⟨S1024x1, .f32⟩ : BufTy).Contents (Elt F) → (⟨S1024x16, .f32⟩ : BufTy).Contents (Elt F)),
    binary main_v850 main_v829 main_v851 (mulf : (⟨S1024x16, .f32⟩ : BufTy).Contents (Elt F) → (⟨S1024x16, .f32⟩ : BufTy).Contents (Elt F) → (⟨S1024x16, .f32⟩ : BufTy).Contents (Elt F)),
    unary main_v840 main_v852 (broadcastInDim S1024x16 ![0, 1] bcast_S1024x1_S1024x16_0_1 : (⟨S1024x1, .f32⟩ : BufTy).Contents (Elt F) → (⟨S1024x16, .f32⟩ : BufTy).Contents (Elt F)),
    binary main_v852 main_v844 main_v853 (mulf : (⟨S1024x16, .f32⟩ : BufTy).Contents (Elt F) → (⟨S1024x16, .f32⟩ : BufTy).Contents (Elt F) → (⟨S1024x16, .f32⟩ : BufTy).Contents (Elt F)),
    binary main_v851 main_v853 main_v854 (addf : (⟨S1024x16, .f32⟩ : BufTy).Contents (Elt F) → (⟨S1024x16, .f32⟩ : BufTy).Contents (Elt F) → (⟨S1024x16, .f32⟩ : BufTy).Contents (Elt F)),
    nullary main_c_43 (constantI S_ 32 15#32) ]
/-- Operations 1 … 20 of window 15. -/
abbrev st45 : List (HloOp τ sig (Elt F)) :=
  [ unary main_c_43 main_v855 (broadcastInDim S1 ![] bcast_S_S1 : (⟨S_, .i32⟩ : BufTy).Contents (Elt F) → (⟨S1, .i32⟩ : BufTy).Contents (Elt F)),
    ternary main_v836 main_v855 main_v854 main_v856 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_44 (constantI S_ 32 2#32),
    unary main_c_44 main_v857 (broadcastInDim S1 ![] bcast_S_S1 : (⟨S_, .i32⟩ : BufTy).Contents (Elt F) → (⟨S1, .i32⟩ : BufTy).Contents (Elt F)),
    ternary main_v856 main_v857 main_v849 main_v858 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v858 main_v859 ((extractStridedSlice S1024x1x16 ![0, 3, 0] · slices_S1024x16x16_S1024x1x16_0_3_0) : (⟨S1024x16x16, .f32⟩ : BufTy).Contents (Elt F) → (⟨S1024x1x16, .f32⟩ : BufTy).Contents (Elt F)),
    reshape main_v859 main_v860 rfl shapeCasts_S1024x1x16_S1024x16,
    unary main_arg1 main_v861 ((extractStridedSlice S1024x1 ![0, 42] · slices_S1024x120_S1024x1_0_42) : (⟨S1024x120, .f32⟩ : BufTy).Contents (Elt F) → (⟨S1024x1, .f32⟩ : BufTy).Contents (Elt F)),
    reshape main_v861 main_v862 rfl shapeCasts_S1024x1_S1024,
    unary main_v862 main_v863 (Host.cos : (⟨S1024, .f32⟩ : BufTy).Contents (Elt F) → (⟨S1024, .f32⟩ : BufTy).Contents (Elt F)),
    unary main_v863 main_v864 (broadcastInDim S1024x1 ![0] bcast_S1024_S1024x1_0 : (⟨S1024, .f32⟩ : BufTy).Contents (Elt F) → (⟨S1024x1, .f32⟩ : BufTy).Contents (Elt F)),
    unary main_v862 main_v865 (Host.sin : (⟨S1024, .f32⟩ : BufTy).Contents (Elt F) → (⟨S1024, .f32⟩ : BufTy).Contents (Elt F)),
    unary main_v865 main_v866 (broadcastInDim S1024x1 ![0] bcast_S1024_S1024x1_0 : (⟨S1024, .f32⟩ : BufTy).Contents (Elt F) → (⟨S1024x1, .f32⟩ : BufTy).Contents (Elt F)),
    unary main_v858 main_v867 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)),
    reshape main_v867 main_v868 rfl shapeCasts_S1024x1x16_S1024x16,
    unary main_v864 main_v869 (broadcastInDim S1024x16 ![0, 1] bcast_S1024x1_S1024x16_0_1 : (⟨S1024x1, .f32⟩ : BufTy).Contents (Elt F) → (⟨S1024x16, .f32⟩ : BufTy).Contents (Elt F)),
    binary main_v869 main_v860 main_v870 (mulf : (⟨S1024x16, .f32⟩ : BufTy).Contents (Elt F) → (⟨S1024x16, .f32⟩ : BufTy).Contents (Elt F) → (⟨S1024x16, .f32⟩ : BufTy).Contents (Elt F)),
    unary main_v866 main_v871 (broadcastInDim S1024x16 ![0, 1] bcast_S1024x1_S1024x16_0_1 : (⟨S1024x1, .f32⟩ : BufTy).Contents (Elt F) → (⟨S1024x16, .f32⟩ : BufTy).Contents (Elt F)),
    binary main_v871 main_v868 main_v872 (mulf : (⟨S1024x16, .f32⟩ : BufTy).Contents (Elt F) → (⟨S1024x16, .f32⟩ : BufTy).Contents (Elt F) → (⟨S1024x16, .f32⟩ : BufTy).Contents (Elt F)),
    binary main_v870 main_v872 main_v873 (subf : (⟨S1024x16, .f32⟩ : BufTy).Contents (Elt F) → (⟨S1024x16, .f32⟩ : BufTy).Contents (Elt F) → (⟨S1024x16, .f32⟩ : BufTy).Contents (Elt F)) ]
/-- Operations 21 … 40 of window 15. -/
abbrev st46 : List (HloOp τ sig (Elt F)) :=
  [ unary main_v866 main_v874 (broadcastInDim S1024x16 ![0, 1] bcast_S1024x1_S1024x16_0_1 : (⟨S1024x1, .f32⟩ : BufTy).Contents (Elt F) → (⟨S1024x16, .f32⟩ : BufTy).Contents (Elt F)),
    binary main_v874 main_v860 main_v875 (mulf : (⟨S1024x16, .f32⟩ : BufTy).Contents (Elt F) → (⟨S1024x16, .f32⟩ : BufTy).Contents (Elt F) → (⟨S1024x16, .f32⟩ : BufTy).Contents (Elt F)),
    unary main_v864 main_v876 (broadcastInDim S1024x16 ![0, 1] bcast_S1024x1_S1024x16_0_1 : (⟨S1024x1, .f32⟩ : BufTy).Contents (Elt F) → (⟨S1024x16, .f32⟩ : BufTy).Contents (Elt F)),
    binary main_v876 main_v868 main_v877 (mulf : (⟨S1024x16, .f32⟩ : BufTy).Contents (Elt F) → (⟨S1024x16, .f32⟩ : BufTy).Contents (Elt F) → (⟨S1024x16, .f32⟩ : BufTy).Contents (Elt F)),
    binary main_v875 main_v877 main_v878 (addf : (⟨S1024x16, .f32⟩ : BufTy).Contents (Elt F) → (⟨S1024x16, .f32⟩ : BufTy).Contents (Elt F) → (⟨S1024x16, .f32⟩ : BufTy).Contents (Elt F)),
    nullary main_c_45 (constantI S_ 32 4#32),
    unary main_c_45 main_v879 (broadcastInDim S1 ![] bcast_S_S1 : (⟨S_, .i32⟩ : BufTy).Contents (Elt F) → (⟨S1, .i32⟩ : BufTy).Contents (Elt F)),
    ternary main_v858 main_v879 main_v878 main_v880 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v881 ((extractStridedSlice S1024x1 ![0, 43] · slices_S1024x120_S1024x1_0_43) : (⟨S1024x120, .f32⟩ : BufTy).Contents (Elt F) → (⟨S1024x1, .f32⟩ : BufTy).Contents (Elt F)),
    reshape main_v881 main_v882 rfl shapeCasts_S1024x1_S1024,
    unary main_v882 main_v883 (Host.cos : (⟨S1024, .f32⟩ : BufTy).Contents (Elt F) → (⟨S1024, .f32⟩ : BufTy).Contents (Elt F)),
    unary main_v883 main_v884 (broadcastInDim S1024x1 ![0] bcast_S1024_S1024x1_0 : (⟨S1024, .f32⟩ : BufTy).Contents (Elt F) → (⟨S1024x1, .f32⟩ : BufTy).Contents (Elt F)),
    unary main_v882 main_v885 (Host.sin : (⟨S1024, .f32⟩ : BufTy).Contents (Elt F) → (⟨S1024, .f32⟩ : BufTy).Contents (Elt F)),
    unary main_v885 main_v886 (broadcastInDim S1024x1 ![0] bcast_S1024_S1024x1_0 : (⟨S1024, .f32⟩ : BufTy).Contents (Elt F) → (⟨S1024x1, .f32⟩ : BufTy).Contents (Elt F)),
    unary main_v880 main_v887 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v887 main_v888 rfl shapeCasts_S1024x1x16_S1024x16,
    unary main_v884 main_v889 (broadcastInDim S1024x16 ![0, 1] bcast_S1024x1_S1024x16_0_1 : (⟨S1024x1, .f32⟩ : BufTy).Contents (Elt F) → (⟨S1024x16, .f32⟩ : BufTy).Contents (Elt F)),
    binary main_v889 main_v873 main_v890 (mulf : (⟨S1024x16, .f32⟩ : BufTy).Contents (Elt F) → (⟨S1024x16, .f32⟩ : BufTy).Contents (Elt F) → (⟨S1024x16, .f32⟩ : BufTy).Contents (Elt F)),
    unary main_v886 main_v891 (broadcastInDim S1024x16 ![0, 1] bcast_S1024x1_S1024x16_0_1 : (⟨S1024x1, .f32⟩ : BufTy).Contents (Elt F) → (⟨S1024x16, .f32⟩ : BufTy).Contents (Elt F)),
    binary main_v891 main_v888 main_v892 (mulf : (⟨S1024x16, .f32⟩ : BufTy).Contents (Elt F) → (⟨S1024x16, .f32⟩ : BufTy).Contents (Elt F) → (⟨S1024x16, .f32⟩ : BufTy).Contents (Elt F)) ]
/-- Operations 41 … 60 of window 15. -/
abbrev st47 : List (HloOp τ sig (Elt F)) :=
  [ binary main_v890 main_v892 main_v893 (subf : (⟨S1024x16, .f32⟩ : BufTy).Contents (Elt F) → (⟨S1024x16, .f32⟩ : BufTy).Contents (Elt F) → (⟨S1024x16, .f32⟩ : BufTy).Contents (Elt F)),
    unary main_v886 main_v894 (broadcastInDim S1024x16 ![0, 1] bcast_S1024x1_S1024x16_0_1 : (⟨S1024x1, .f32⟩ : BufTy).Contents (Elt F) → (⟨S1024x16, .f32⟩ : BufTy).Contents (Elt F)),
    binary main_v894 main_v873 main_v895 (mulf : (⟨S1024x16, .f32⟩ : BufTy).Contents (Elt F) → (⟨S1024x16, .f32⟩ : BufTy).Contents (Elt F) → (⟨S1024x16, .f32⟩ : BufTy).Contents (Elt F)),
    unary main_v884 main_v896 (broadcastInDim S1024x16 ![0, 1] bcast_S1024x1_S1024x16_0_1 : (⟨S1024x1, .f32⟩ : BufTy).Contents (Elt F) → (⟨S1024x16, .f32⟩ : BufTy).Contents (Elt F)),
    binary main_v896 main_v888 main_v897 (mulf : (⟨S1024x16, .f32⟩ : BufTy).Contents (Elt F) → (⟨S1024x16, .f32⟩ : BufTy).Contents (Elt F) → (⟨S1024x16, .f32⟩ : BufTy).Contents (Elt F)),
    binary main_v895 main_v897 main_v898 (addf : (⟨S1024x16, .f32⟩ : BufTy).Contents (Elt F) → (⟨S1024x16, .f32⟩ : BufTy).Contents (Elt F) → (⟨S1024x16, .f32⟩ : BufTy).Contents (Elt F)),
    nullary main_c_46 (constantI S_ 32 5#32),
    unary main_c_46 main_v899 (broadcastInDim S1 ![] bcast_S_S1 : (⟨S_, .i32⟩ : BufTy).Contents (Elt F) → (⟨S1, .i32⟩ : BufTy).Contents (Elt F)),
    ternary main_v880 main_v899 main_v898 main_v900 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v901 ((extractStridedSlice S1024x1 ![0, 44] · slices_S1024x120_S1024x1_0_44) : (⟨S1024x120, .f32⟩ : BufTy).Contents (Elt F) → (⟨S1024x1, .f32⟩ : BufTy).Contents (Elt F)),
    reshape main_v901 main_v902 rfl shapeCasts_S1024x1_S1024,
    unary main_v902 main_v903 (Host.cos : (⟨S1024, .f32⟩ : BufTy).Contents (Elt F) → (⟨S1024, .f32⟩ : BufTy).Contents (Elt F)),
    unary main_v903 main_v904 (broadcastInDim S1024x1 ![0] bcast_S1024_S1024x1_0 : (⟨S1024, .f32⟩ : BufTy).Contents (Elt F) → (⟨S1024x1, .f32⟩ : BufTy).Contents (Elt F)),
    unary main_v902 main_v905 (Host.sin : (⟨S1024, .f32⟩ : BufTy).Contents (Elt F) → (⟨S1024, .f32⟩ : BufTy).Contents (Elt F)),
    unary main_v905 main_v906 (broadcastInDim S1024x1 ![0] bcast_S1024_S1024x1_0 : (⟨S1024, .f32⟩ : BufTy).Contents (Elt F) → (⟨S1024x1, .f32⟩ : BufTy).Contents (Elt F)),
    unary main_v900 main_v907 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v907 main_v908 rfl shapeCasts_S1024x1x16_S1024x16,
    unary main_v904 main_v909 (broadcastInDim S1024x16 ![0, 1] bcast_S1024x1_S1024x16_0_1 : (⟨S1024x1, .f32⟩ : BufTy).Contents (Elt F) → (⟨S1024x16, .f32⟩ : BufTy).Contents (Elt F)),
    binary main_v909 main_v893 main_v910 (mulf : (⟨S1024x16, .f32⟩ : BufTy).Contents (Elt F) → (⟨S1024x16, .f32⟩ : BufTy).Contents (Elt F) → (⟨S1024x16, .f32⟩ : BufTy).Contents (Elt F)),
    unary main_v906 main_v911 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 16. -/
abbrev st48 : List (HloOp τ sig (Elt F)) :=
  [ binary main_v911 main_v908 main_v912 (mulf : (⟨S1024x16, .f32⟩ : BufTy).Contents (Elt F) → (⟨S1024x16, .f32⟩ : BufTy).Contents (Elt F) → (⟨S1024x16, .f32⟩ : BufTy).Contents (Elt F)),
    binary main_v910 main_v912 main_v913 (subf : (⟨S1024x16, .f32⟩ : BufTy).Contents (Elt F) → (⟨S1024x16, .f32⟩ : BufTy).Contents (Elt F) → (⟨S1024x16, .f32⟩ : BufTy).Contents (Elt F)),
    unary main_v906 main_v914 (broadcastInDim S1024x16 ![0, 1] bcast_S1024x1_S1024x16_0_1 : (⟨S1024x1, .f32⟩ : BufTy).Contents (Elt F) → (⟨S1024x16, .f32⟩ : BufTy).Contents (Elt F)),
    binary main_v914 main_v893 main_v915 (mulf : (⟨S1024x16, .f32⟩ : BufTy).Contents (Elt F) → (⟨S1024x16, .f32⟩ : BufTy).Contents (Elt F) → (⟨S1024x16, .f32⟩ : BufTy).Contents (Elt F)),
    unary main_v904 main_v916 (broadcastInDim S1024x16 ![0, 1] bcast_S1024x1_S1024x16_0_1 : (⟨S1024x1, .f32⟩ : BufTy).Contents (Elt F) → (⟨S1024x16, .f32⟩ : BufTy).Contents (Elt F)),
    binary main_v916 main_v908 main_v917 (mulf : (⟨S1024x16, .f32⟩ : BufTy).Contents (Elt F) → (⟨S1024x16, .f32⟩ : BufTy).Contents (Elt F) → (⟨S1024x16, .f32⟩ : BufTy).Contents (Elt F)),
    binary main_v915 main_v917 main_v918 (addf : (⟨S1024x16, .f32⟩ : BufTy).Contents (Elt F) → (⟨S1024x16, .f32⟩ : BufTy).Contents (Elt F) → (⟨S1024x16, .f32⟩ : BufTy).Contents (Elt F)),
    nullary main_c_47 (constantI S_ 32 6#32),
    unary main_c_47 main_v919 (broadcastInDim S1 ![] bcast_S_S1 : (⟨S_, .i32⟩ : BufTy).Contents (Elt F) → (⟨S1, .i32⟩ : BufTy).Contents (Elt F)),
    ternary main_v900 main_v919 main_v918 main_v920 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v921 ((extractStridedSlice S1024x1 ![0, 45] · slices_S1024x120_S1024x1_0_45) : (⟨S1024x120, .f32⟩ : BufTy).Contents (Elt F) → (⟨S1024x1, .f32⟩ : BufTy).Contents (Elt F)),
    reshape main_v921 main_v922 rfl shapeCasts_S1024x1_S1024,
    unary main_v922 main_v923 (Host.cos : (⟨S1024, .f32⟩ : BufTy).Contents (Elt F) → (⟨S1024, .f32⟩ : BufTy).Contents (Elt F)),
    unary main_v923 main_v924 (broadcastInDim S1024x1 ![0] bcast_S1024_S1024x1_0 : (⟨S1024, .f32⟩ : BufTy).Contents (Elt F) → (⟨S1024x1, .f32⟩ : BufTy).Contents (Elt F)),
    unary main_v922 main_v925 (Host.sin : (⟨S1024, .f32⟩ : BufTy).Contents (Elt F) → (⟨S1024, .f32⟩ : BufTy).Contents (Elt F)),
    unary main_v925 main_v926 (broadcastInDim S1024x1 ![0] bcast_S1024_S1024x1_0 : (⟨S1024, .f32⟩ : BufTy).Contents (Elt F) → (⟨S1024x1, .f32⟩ : BufTy).Contents (Elt F)),
    unary main_v920 main_v927 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v927 main_v928 rfl shapeCasts_S1024x1x16_S1024x16,
    unary main_v924 main_v929 (broadcastInDim S1024x16 ![0, 1] bcast_S1024x1_S1024x16_0_1 : (⟨S1024x1, .f32⟩ : BufTy).Contents (Elt F) → (⟨S1024x16, .f32⟩ : BufTy).Contents (Elt F)),
    binary main_v929 main_v913 main_v930 (mulf : (⟨S1024x16, .f32⟩ : BufTy).Contents (Elt F) → (⟨S1024x16, .f32⟩ : BufTy).Contents (Elt F) → (⟨S1024x16, .f32⟩ : BufTy).Contents (Elt F)) ]
/-- Operations 21 … 40 of window 16. -/
abbrev st49 : List (HloOp τ sig (Elt F)) :=
  [ unary main_v926 main_v931 (broadcastInDim S1024x16 ![0, 1] bcast_S1024x1_S1024x16_0_1 : (⟨S1024x1, .f32⟩ : BufTy).Contents (Elt F) → (⟨S1024x16, .f32⟩ : BufTy).Contents (Elt F)),
    binary main_v931 main_v928 main_v932 (mulf : (⟨S1024x16, .f32⟩ : BufTy).Contents (Elt F) → (⟨S1024x16, .f32⟩ : BufTy).Contents (Elt F) → (⟨S1024x16, .f32⟩ : BufTy).Contents (Elt F)),
    binary main_v930 main_v932 main_v933 (subf : (⟨S1024x16, .f32⟩ : BufTy).Contents (Elt F) → (⟨S1024x16, .f32⟩ : BufTy).Contents (Elt F) → (⟨S1024x16, .f32⟩ : BufTy).Contents (Elt F)),
    unary main_v926 main_v934 (broadcastInDim S1024x16 ![0, 1] bcast_S1024x1_S1024x16_0_1 : (⟨S1024x1, .f32⟩ : BufTy).Contents (Elt F) → (⟨S1024x16, .f32⟩ : BufTy).Contents (Elt F)),
    binary main_v934 main_v913 main_v935 (mulf : (⟨S1024x16, .f32⟩ : BufTy).Contents (Elt F) → (⟨S1024x16, .f32⟩ : BufTy).Contents (Elt F) → (⟨S1024x16, .f32⟩ : BufTy).Contents (Elt F)),
    unary main_v924 main_v936 (broadcastInDim S1024x16 ![0, 1] bcast_S1024x1_S1024x16_0_1 : (⟨S1024x1, .f32⟩ : BufTy).Contents (Elt F) → (⟨S1024x16, .f32⟩ : BufTy).Contents (Elt F)),
    binary main_v936 main_v928 main_v937 (mulf : (⟨S1024x16, .f32⟩ : BufTy).Contents (Elt F) → (⟨S1024x16, .f32⟩ : BufTy).Contents (Elt F) → (⟨S1024x16, .f32⟩ : BufTy).Contents (Elt F)),
    binary main_v935 main_v937 main_v938 (addf : (⟨S1024x16, .f32⟩ : BufTy).Contents (Elt F) → (⟨S1024x16, .f32⟩ : BufTy).Contents (Elt F) → (⟨S1024x16, .f32⟩ : BufTy).Contents (Elt F)),
    nullary main_c_48 (constantI S_ 32 7#32),
    unary main_c_48 main_v939 (broadcastInDim S1 ![] bcast_S_S1 : (⟨S_, .i32⟩ : BufTy).Contents (Elt F) → (⟨S1, .i32⟩ : BufTy).Contents (Elt F)),
    ternary main_v920 main_v939 main_v938 main_v940 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v941 ((extractStridedSlice S1024x1 ![0, 46] · slices_S1024x120_S1024x1_0_46) : (⟨S1024x120, .f32⟩ : BufTy).Contents (Elt F) → (⟨S1024x1, .f32⟩ : BufTy).Contents (Elt F)),
    reshape main_v941 main_v942 rfl shapeCasts_S1024x1_S1024,
    unary main_v942 main_v943 (Host.cos : (⟨S1024, .f32⟩ : BufTy).Contents (Elt F) → (⟨S1024, .f32⟩ : BufTy).Contents (Elt F)),
    unary main_v943 main_v944 (broadcastInDim S1024x1 ![0] bcast_S1024_S1024x1_0 : (⟨S1024, .f32⟩ : BufTy).Contents (Elt F) → (⟨S1024x1, .f32⟩ : BufTy).Contents (Elt F)),
    unary main_v942 main_v945 (Host.sin : (⟨S1024, .f32⟩ : BufTy).Contents (Elt F) → (⟨S1024, .f32⟩ : BufTy).Contents (Elt F)),
    unary main_v945 main_v946 (broadcastInDim S1024x1 ![0] bcast_S1024_S1024x1_0 : (⟨S1024, .f32⟩ : BufTy).Contents (Elt F) → (⟨S1024x1, .f32⟩ : BufTy).Contents (Elt F)),
    unary main_v940 main_v947 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v947 main_v948 rfl shapeCasts_S1024x1x16_S1024x16,
    unary main_v944 main_v949 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 16. -/
abbrev st50 : List (HloOp τ sig (Elt F)) :=
  [ binary main_v949 main_v933 main_v950 (mulf : (⟨S1024x16, .f32⟩ : BufTy).Contents (Elt F) → (⟨S1024x16, .f32⟩ : BufTy).Contents (Elt F) → (⟨S1024x16, .f32⟩ : BufTy).Contents (Elt F)),
    unary main_v946 main_v951 (broadcastInDim S1024x16 ![0, 1] bcast_S1024x1_S1024x16_0_1 : (⟨S1024x1, .f32⟩ : BufTy).Contents (Elt F) → (⟨S1024x16, .f32⟩ : BufTy).Contents (Elt F)),
    binary main_v951 main_v948 main_v952 (mulf : (⟨S1024x16, .f32⟩ : BufTy).Contents (Elt F) → (⟨S1024x16, .f32⟩ : BufTy).Contents (Elt F) → (⟨S1024x16, .f32⟩ : BufTy).Contents (Elt F)),
    binary main_v950 main_v952 main_v953 (subf : (⟨S1024x16, .f32⟩ : BufTy).Contents (Elt F) → (⟨S1024x16, .f32⟩ : BufTy).Contents (Elt F) → (⟨S1024x16, .f32⟩ : BufTy).Contents (Elt F)),
    unary main_v946 main_v954 (broadcastInDim S1024x16 ![0, 1] bcast_S1024x1_S1024x16_0_1 : (⟨S1024x1, .f32⟩ : BufTy).Contents (Elt F) → (⟨S1024x16, .f32⟩ : BufTy).Contents (Elt F)),
    binary main_v954 main_v933 main_v955 (mulf : (⟨S1024x16, .f32⟩ : BufTy).Contents (Elt F) → (⟨S1024x16, .f32⟩ : BufTy).Contents (Elt F) → (⟨S1024x16, .f32⟩ : BufTy).Contents (Elt F)),
    unary main_v944 main_v956 (broadcastInDim S1024x16 ![0, 1] bcast_S1024x1_S1024x16_0_1 : (⟨S1024x1, .f32⟩ : BufTy).Contents (Elt F) → (⟨S1024x16, .f32⟩ : BufTy).Contents (Elt F)),
    binary main_v956 main_v948 main_v957 (mulf : (⟨S1024x16, .f32⟩ : BufTy).Contents (Elt F) → (⟨S1024x16, .f32⟩ : BufTy).Contents (Elt F) → (⟨S1024x16, .f32⟩ : BufTy).Contents (Elt F)),
    binary main_v955 main_v957 main_v958 (addf : (⟨S1024x16, .f32⟩ : BufTy).Contents (Elt F) → (⟨S1024x16, .f32⟩ : BufTy).Contents (Elt F) → (⟨S1024x16, .f32⟩ : BufTy).Contents (Elt F)),
    nullary main_c_49 (constantI S_ 32 8#32),
    unary main_c_49 main_v959 (broadcastInDim S1 ![] bcast_S_S1 : (⟨S_, .i32⟩ : BufTy).Contents (Elt F) → (⟨S1, .i32⟩ : BufTy).Contents (Elt F)),
    ternary main_v940 main_v959 main_v958 main_v960 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v961 ((extractStridedSlice S1024x1 ![0, 47] · slices_S1024x120_S1024x1_0_47) : (⟨S1024x120, .f32⟩ : BufTy).Contents (Elt F) → (⟨S1024x1, .f32⟩ : BufTy).Contents (Elt F)),
    reshape main_v961 main_v962 rfl shapeCasts_S1024x1_S1024,
    unary main_v962 main_v963 (Host.cos : (⟨S1024, .f32⟩ : BufTy).Contents (Elt F) → (⟨S1024, .f32⟩ : BufTy).Contents (Elt F)),
    unary main_v963 main_v964 (broadcastInDim S1024x1 ![0] bcast_S1024_S1024x1_0 : (⟨S1024, .f32⟩ : BufTy).Contents (Elt F) → (⟨S1024x1, .f32⟩ : BufTy).Contents (Elt F)),
    unary main_v962 main_v965 (Host.sin : (⟨S1024, .f32⟩ : BufTy).Contents (Elt F) → (⟨S1024, .f32⟩ : BufTy).Contents (Elt F)),
    unary main_v965 main_v966 (broadcastInDim S1024x1 ![0] bcast_S1024_S1024x1_0 : (⟨S1024, .f32⟩ : BufTy).Contents (Elt F) → (⟨S1024x1, .f32⟩ : BufTy).Contents (Elt F)),
    unary main_v960 main_v967 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v967 main_v968 rfl shapeCasts_S1024x1x16_S1024x16 ]
/-- Operations 1 … 20 of window 17. -/
abbrev st51 : List (HloOp τ sig (Elt F)) :=
  [ unary main_v964 main_v969 (broadcastInDim S1024x16 ![0, 1] bcast_S1024x1_S1024x16_0_1 : (⟨S1024x1, .f32⟩ : BufTy).Contents (Elt F) → (⟨S1024x16, .f32⟩ : BufTy).Contents (Elt F)),
    binary main_v969 main_v953 main_v970 (mulf : (⟨S1024x16, .f32⟩ : BufTy).Contents (Elt F) → (⟨S1024x16, .f32⟩ : BufTy).Contents (Elt F) → (⟨S1024x16, .f32⟩ : BufTy).Contents (Elt F)),
    unary main_v966 main_v971 (broadcastInDim S1024x16 ![0, 1] bcast_S1024x1_S1024x16_0_1 : (⟨S1024x1, .f32⟩ : BufTy).Contents (Elt F) → (⟨S1024x16, .f32⟩ : BufTy).Contents (Elt F)),
    binary main_v971 main_v968 main_v972 (mulf : (⟨S1024x16, .f32⟩ : BufTy).Contents (Elt F) → (⟨S1024x16, .f32⟩ : BufTy).Contents (Elt F) → (⟨S1024x16, .f32⟩ : BufTy).Contents (Elt F)),
    binary main_v970 main_v972 main_v973 (subf : (⟨S1024x16, .f32⟩ : BufTy).Contents (Elt F) → (⟨S1024x16, .f32⟩ : BufTy).Contents (Elt F) → (⟨S1024x16, .f32⟩ : BufTy).Contents (Elt F)),
    unary main_v966 main_v974 (broadcastInDim S1024x16 ![0, 1] bcast_S1024x1_S1024x16_0_1 : (⟨S1024x1, .f32⟩ : BufTy).Contents (Elt F) → (⟨S1024x16, .f32⟩ : BufTy).Contents (Elt F)),
    binary main_v974 main_v953 main_v975 (mulf : (⟨S1024x16, .f32⟩ : BufTy).Contents (Elt F) → (⟨S1024x16, .f32⟩ : BufTy).Contents (Elt F) → (⟨S1024x16, .f32⟩ : BufTy).Contents (Elt F)),
    unary main_v964 main_v976 (broadcastInDim S1024x16 ![0, 1] bcast_S1024x1_S1024x16_0_1 : (⟨S1024x1, .f32⟩ : BufTy).Contents (Elt F) → (⟨S1024x16, .f32⟩ : BufTy).Contents (Elt F)),
    binary main_v976 main_v968 main_v977 (mulf : (⟨S1024x16, .f32⟩ : BufTy).Contents (Elt F) → (⟨S1024x16, .f32⟩ : BufTy).Contents (Elt F) → (⟨S1024x16, .f32⟩ : BufTy).Contents (Elt F)),
    binary main_v975 main_v977 main_v978 (addf : (⟨S1024x16, .f32⟩ : BufTy).Contents (Elt F) → (⟨S1024x16, .f32⟩ : BufTy).Contents (Elt F) → (⟨S1024x16, .f32⟩ : BufTy).Contents (Elt F)),
    nullary main_c_50 (constantI S_ 32 9#32),
    unary main_c_50 main_v979 (broadcastInDim S1 ![] bcast_S_S1 : (⟨S_, .i32⟩ : BufTy).Contents (Elt F) → (⟨S1, .i32⟩ : BufTy).Contents (Elt F)),
    ternary main_v960 main_v979 main_v978 main_v980 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v981 ((extractStridedSlice S1024x1 ![0, 48] · slices_S1024x120_S1024x1_0_48) : (⟨S1024x120, .f32⟩ : BufTy).Contents (Elt F) → (⟨S1024x1, .f32⟩ : BufTy).Contents (Elt F)),
    reshape main_v981 main_v982 rfl shapeCasts_S1024x1_S1024,
    unary main_v982 main_v983 (Host.cos : (⟨S1024, .f32⟩ : BufTy).Contents (Elt F) → (⟨S1024, .f32⟩ : BufTy).Contents (Elt F)),
    unary main_v983 main_v984 (broadcastInDim S1024x1 ![0] bcast_S1024_S1024x1_0 : (⟨S1024, .f32⟩ : BufTy).Contents (Elt F) → (⟨S1024x1, .f32⟩ : BufTy).Contents (Elt F)),
    unary main_v982 main_v985 (Host.sin : (⟨S1024, .f32⟩ : BufTy).Contents (Elt F) → (⟨S1024, .f32⟩ : BufTy).Contents (Elt F)),
    unary main_v985 main_v986 (broadcastInDim S1024x1 ![0] bcast_S1024_S1024x1_0 : (⟨S1024, .f32⟩ : BufTy).Contents (Elt F) → (⟨S1024x1, .f32⟩ : BufTy).Contents (Elt F)),
    unary main_v980 main_v987 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)) ]
/-- Operations 21 … 40 of window 17. -/
abbrev st52 : List (HloOp τ sig (Elt F)) :=
  [ reshape main_v987 main_v988 rfl shapeCasts_S1024x1x16_S1024x16,
    unary main_v984 main_v989 (broadcastInDim S1024x16 ![0, 1] bcast_S1024x1_S1024x16_0_1 : (⟨S1024x1, .f32⟩ : BufTy).Contents (Elt F) → (⟨S1024x16, .f32⟩ : BufTy).Contents (Elt F)),
    binary main_v989 main_v973 main_v990 (mulf : (⟨S1024x16, .f32⟩ : BufTy).Contents (Elt F) → (⟨S1024x16, .f32⟩ : BufTy).Contents (Elt F) → (⟨S1024x16, .f32⟩ : BufTy).Contents (Elt F)),
    unary main_v986 main_v991 (broadcastInDim S1024x16 ![0, 1] bcast_S1024x1_S1024x16_0_1 : (⟨S1024x1, .f32⟩ : BufTy).Contents (Elt F) → (⟨S1024x16, .f32⟩ : BufTy).Contents (Elt F)),
    binary main_v991 main_v988 main_v992 (mulf : (⟨S1024x16, .f32⟩ : BufTy).Contents (Elt F) → (⟨S1024x16, .f32⟩ : BufTy).Contents (Elt F) → (⟨S1024x16, .f32⟩ : BufTy).Contents (Elt F)),
    binary main_v990 main_v992 main_v993 (subf : (⟨S1024x16, .f32⟩ : BufTy).Contents (Elt F) → (⟨S1024x16, .f32⟩ : BufTy).Contents (Elt F) → (⟨S1024x16, .f32⟩ : BufTy).Contents (Elt F)),
    unary main_v986 main_v994 (broadcastInDim S1024x16 ![0, 1] bcast_S1024x1_S1024x16_0_1 : (⟨S1024x1, .f32⟩ : BufTy).Contents (Elt F) → (⟨S1024x16, .f32⟩ : BufTy).Contents (Elt F)),
    binary main_v994 main_v973 main_v995 (mulf : (⟨S1024x16, .f32⟩ : BufTy).Contents (Elt F) → (⟨S1024x16, .f32⟩ : BufTy).Contents (Elt F) → (⟨S1024x16, .f32⟩ : BufTy).Contents (Elt F)),
    unary main_v984 main_v996 (broadcastInDim S1024x16 ![0, 1] bcast_S1024x1_S1024x16_0_1 : (⟨S1024x1, .f32⟩ : BufTy).Contents (Elt F) → (⟨S1024x16, .f32⟩ : BufTy).Contents (Elt F)),
    binary main_v996 main_v988 main_v997 (mulf : (⟨S1024x16, .f32⟩ : BufTy).Contents (Elt F) → (⟨S1024x16, .f32⟩ : BufTy).Contents (Elt F) → (⟨S1024x16, .f32⟩ : BufTy).Contents (Elt F)),
    binary main_v995 main_v997 main_v998 (addf : (⟨S1024x16, .f32⟩ : BufTy).Contents (Elt F) → (⟨S1024x16, .f32⟩ : BufTy).Contents (Elt F) → (⟨S1024x16, .f32⟩ : BufTy).Contents (Elt F)),
    nullary main_c_51 (constantI S_ 32 10#32),
    unary main_c_51 main_v999 (broadcastInDim S1 ![] bcast_S_S1 : (⟨S_, .i32⟩ : BufTy).Contents (Elt F) → (⟨S1, .i32⟩ : BufTy).Contents (Elt F)),
    ternary main_v980 main_v999 main_v998 main_v1000 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1001 ((extractStridedSlice S1024x1 ![0, 49] · slices_S1024x120_S1024x1_0_49) : (⟨S1024x120, .f32⟩ : BufTy).Contents (Elt F) → (⟨S1024x1, .f32⟩ : BufTy).Contents (Elt F)),
    reshape main_v1001 main_v1002 rfl shapeCasts_S1024x1_S1024,
    unary main_v1002 main_v1003 (Host.cos : (⟨S1024, .f32⟩ : BufTy).Contents (Elt F) → (⟨S1024, .f32⟩ : BufTy).Contents (Elt F)),
    unary main_v1003 main_v1004 (broadcastInDim S1024x1 ![0] bcast_S1024_S1024x1_0 : (⟨S1024, .f32⟩ : BufTy).Contents (Elt F) → (⟨S1024x1, .f32⟩ : BufTy).Contents (Elt F)),
    unary main_v1002 main_v1005 (Host.sin : (⟨S1024, .f32⟩ : BufTy).Contents (Elt F) → (⟨S1024, .f32⟩ : BufTy).Contents (Elt F)),
    unary main_v1005 main_v1006 (broadcastInDim S1024x1 ![0] bcast_S1024_S1024x1_0 : (⟨S1024, .f32⟩ : BufTy).Contents (Elt F) → (⟨S1024x1, .f32⟩ : BufTy).Contents (Elt F)) ]
/-- Operations 41 … 60 of window 17. -/
abbrev st53 : List (HloOp τ sig (Elt F)) :=
  [ unary main_v1000 main_v1007 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1007 main_v1008 rfl shapeCasts_S1024x1x16_S1024x16,
    unary main_v1004 main_v1009 (broadcastInDim S1024x16 ![0, 1] bcast_S1024x1_S1024x16_0_1 : (⟨S1024x1, .f32⟩ : BufTy).Contents (Elt F) → (⟨S1024x16, .f32⟩ : BufTy).Contents (Elt F)),
    binary main_v1009 main_v993 main_v1010 (mulf : (⟨S1024x16, .f32⟩ : BufTy).Contents (Elt F) → (⟨S1024x16, .f32⟩ : BufTy).Contents (Elt F) → (⟨S1024x16, .f32⟩ : BufTy).Contents (Elt F)),
    unary main_v1006 main_v1011 (broadcastInDim S1024x16 ![0, 1] bcast_S1024x1_S1024x16_0_1 : (⟨S1024x1, .f32⟩ : BufTy).Contents (Elt F) → (⟨S1024x16, .f32⟩ : BufTy).Contents (Elt F)),
    binary main_v1011 main_v1008 main_v1012 (mulf : (⟨S1024x16, .f32⟩ : BufTy).Contents (Elt F) → (⟨S1024x16, .f32⟩ : BufTy).Contents (Elt F) → (⟨S1024x16, .f32⟩ : BufTy).Contents (Elt F)),
    binary main_v1010 main_v1012 main_v1013 (subf : (⟨S1024x16, .f32⟩ : BufTy).Contents (Elt F) → (⟨S1024x16, .f32⟩ : BufTy).Contents (Elt F) → (⟨S1024x16, .f32⟩ : BufTy).Contents (Elt F)),
    unary main_v1006 main_v1014 (broadcastInDim S1024x16 ![0, 1] bcast_S1024x1_S1024x16_0_1 : (⟨S1024x1, .f32⟩ : BufTy).Contents (Elt F) → (⟨S1024x16, .f32⟩ : BufTy).Contents (Elt F)),
    binary main_v1014 main_v993 main_v1015 (mulf : (⟨S1024x16, .f32⟩ : BufTy).Contents (Elt F) → (⟨S1024x16, .f32⟩ : BufTy).Contents (Elt F) → (⟨S1024x16, .f32⟩ : BufTy).Contents (Elt F)),
    unary main_v1004 main_v1016 (broadcastInDim S1024x16 ![0, 1] bcast_S1024x1_S1024x16_0_1 : (⟨S1024x1, .f32⟩ : BufTy).Contents (Elt F) → (⟨S1024x16, .f32⟩ : BufTy).Contents (Elt F)),
    binary main_v1016 main_v1008 main_v1017 (mulf : (⟨S1024x16, .f32⟩ : BufTy).Contents (Elt F) → (⟨S1024x16, .f32⟩ : BufTy).Contents (Elt F) → (⟨S1024x16, .f32⟩ : BufTy).Contents (Elt F)),
    binary main_v1015 main_v1017 main_v1018 (addf : (⟨S1024x16, .f32⟩ : BufTy).Contents (Elt F) → (⟨S1024x16, .f32⟩ : BufTy).Contents (Elt F) → (⟨S1024x16, .f32⟩ : BufTy).Contents (Elt F)),
    nullary main_c_52 (constantI S_ 32 11#32),
    unary main_c_52 main_v1019 (broadcastInDim S1 ![] bcast_S_S1 : (⟨S_, .i32⟩ : BufTy).Contents (Elt F) → (⟨S1, .i32⟩ : BufTy).Contents (Elt F)),
    ternary main_v1000 main_v1019 main_v1018 main_v1020 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1021 ((extractStridedSlice S1024x1 ![0, 50] · slices_S1024x120_S1024x1_0_50) : (⟨S1024x120, .f32⟩ : BufTy).Contents (Elt F) → (⟨S1024x1, .f32⟩ : BufTy).Contents (Elt F)),
    reshape main_v1021 main_v1022 rfl shapeCasts_S1024x1_S1024,
    unary main_v1022 main_v1023 (Host.cos : (⟨S1024, .f32⟩ : BufTy).Contents (Elt F) → (⟨S1024, .f32⟩ : BufTy).Contents (Elt F)),
    unary main_v1023 main_v1024 (broadcastInDim S1024x1 ![0] bcast_S1024_S1024x1_0 : (⟨S1024, .f32⟩ : BufTy).Contents (Elt F) → (⟨S1024x1, .f32⟩ : BufTy).Contents (Elt F)),
    unary main_v1022 main_v1025 (Host.sin : (⟨S1024, .f32⟩ : BufTy).Contents (Elt F) → (⟨S1024, .f32⟩ : BufTy).Contents (Elt F)) ]
/-- Operations 1 … 20 of window 18. -/
abbrev st54 : List (HloOp τ sig (Elt F)) :=
  [ unary main_v1025 main_v1026 (broadcastInDim S1024x1 ![0] bcast_S1024_S1024x1_0 : (⟨S1024, .f32⟩ : BufTy).Contents (Elt F) → (⟨S1024x1, .f32⟩ : BufTy).Contents (Elt F)),
    unary main_v1020 main_v1027 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1027 main_v1028 rfl shapeCasts_S1024x1x16_S1024x16,
    unary main_v1024 main_v1029 (broadcastInDim S1024x16 ![0, 1] bcast_S1024x1_S1024x16_0_1 : (⟨S1024x1, .f32⟩ : BufTy).Contents (Elt F) → (⟨S1024x16, .f32⟩ : BufTy).Contents (Elt F)),
    binary main_v1029 main_v1013 main_v1030 (mulf : (⟨S1024x16, .f32⟩ : BufTy).Contents (Elt F) → (⟨S1024x16, .f32⟩ : BufTy).Contents (Elt F) → (⟨S1024x16, .f32⟩ : BufTy).Contents (Elt F)),
    unary main_v1026 main_v1031 (broadcastInDim S1024x16 ![0, 1] bcast_S1024x1_S1024x16_0_1 : (⟨S1024x1, .f32⟩ : BufTy).Contents (Elt F) → (⟨S1024x16, .f32⟩ : BufTy).Contents (Elt F)),
    binary main_v1031 main_v1028 main_v1032 (mulf : (⟨S1024x16, .f32⟩ : BufTy).Contents (Elt F) → (⟨S1024x16, .f32⟩ : BufTy).Contents (Elt F) → (⟨S1024x16, .f32⟩ : BufTy).Contents (Elt F)),
    binary main_v1030 main_v1032 main_v1033 (subf : (⟨S1024x16, .f32⟩ : BufTy).Contents (Elt F) → (⟨S1024x16, .f32⟩ : BufTy).Contents (Elt F) → (⟨S1024x16, .f32⟩ : BufTy).Contents (Elt F)),
    unary main_v1026 main_v1034 (broadcastInDim S1024x16 ![0, 1] bcast_S1024x1_S1024x16_0_1 : (⟨S1024x1, .f32⟩ : BufTy).Contents (Elt F) → (⟨S1024x16, .f32⟩ : BufTy).Contents (Elt F)),
    binary main_v1034 main_v1013 main_v1035 (mulf : (⟨S1024x16, .f32⟩ : BufTy).Contents (Elt F) → (⟨S1024x16, .f32⟩ : BufTy).Contents (Elt F) → (⟨S1024x16, .f32⟩ : BufTy).Contents (Elt F)),
    unary main_v1024 main_v1036 (broadcastInDim S1024x16 ![0, 1] bcast_S1024x1_S1024x16_0_1 : (⟨S1024x1, .f32⟩ : BufTy).Contents (Elt F) → (⟨S1024x16, .f32⟩ : BufTy).Contents (Elt F)),
    binary main_v1036 main_v1028 main_v1037 (mulf : (⟨S1024x16, .f32⟩ : BufTy).Contents (Elt F) → (⟨S1024x16, .f32⟩ : BufTy).Contents (Elt F) → (⟨S1024x16, .f32⟩ : BufTy).Contents (Elt F)),
    binary main_v1035 main_v1037 main_v1038 (addf : (⟨S1024x16, .f32⟩ : BufTy).Contents (Elt F) → (⟨S1024x16, .f32⟩ : BufTy).Contents (Elt F) → (⟨S1024x16, .f32⟩ : BufTy).Contents (Elt F)),
    nullary main_c_53 (constantI S_ 32 12#32),
    unary main_c_53 main_v1039 (broadcastInDim S1 ![] bcast_S_S1 : (⟨S_, .i32⟩ : BufTy).Contents (Elt F) → (⟨S1, .i32⟩ : BufTy).Contents (Elt F)),
    ternary main_v1020 main_v1039 main_v1038 main_v1040 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1041 ((extractStridedSlice S1024x1 ![0, 51] · slices_S1024x120_S1024x1_0_51) : (⟨S1024x120, .f32⟩ : BufTy).Contents (Elt F) → (⟨S1024x1, .f32⟩ : BufTy).Contents (Elt F)),
    reshape main_v1041 main_v1042 rfl shapeCasts_S1024x1_S1024,
    unary main_v1042 main_v1043 (Host.cos : (⟨S1024, .f32⟩ : BufTy).Contents (Elt F) → (⟨S1024, .f32⟩ : BufTy).Contents (Elt F)),
    unary main_v1043 main_v1044 (broadcastInDim S1024x1 ![0] bcast_S1024_S1024x1_0 : (⟨S1024, .f32⟩ : BufTy).Contents (Elt F) → (⟨S1024x1, .f32⟩ : BufTy).Contents (Elt F)) ]
/-- Operations 21 … 40 of window 18. -/
abbrev st55 : List (HloOp τ sig (Elt F)) :=
  [ unary main_v1042 main_v1045 (Host.sin : (⟨S1024, .f32⟩ : BufTy).Contents (Elt F) → (⟨S1024, .f32⟩ : BufTy).Contents (Elt F)),
    unary main_v1045 main_v1046 (broadcastInDim S1024x1 ![0] bcast_S1024_S1024x1_0 : (⟨S1024, .f32⟩ : BufTy).Contents (Elt F) → (⟨S1024x1, .f32⟩ : BufTy).Contents (Elt F)),
    unary main_v1040 main_v1047 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1047 main_v1048 rfl shapeCasts_S1024x1x16_S1024x16,
    unary main_v1044 main_v1049 (broadcastInDim S1024x16 ![0, 1] bcast_S1024x1_S1024x16_0_1 : (⟨S1024x1, .f32⟩ : BufTy).Contents (Elt F) → (⟨S1024x16, .f32⟩ : BufTy).Contents (Elt F)),
    binary main_v1049 main_v1033 main_v1050 (mulf : (⟨S1024x16, .f32⟩ : BufTy).Contents (Elt F) → (⟨S1024x16, .f32⟩ : BufTy).Contents (Elt F) → (⟨S1024x16, .f32⟩ : BufTy).Contents (Elt F)),
    unary main_v1046 main_v1051 (broadcastInDim S1024x16 ![0, 1] bcast_S1024x1_S1024x16_0_1 : (⟨S1024x1, .f32⟩ : BufTy).Contents (Elt F) → (⟨S1024x16, .f32⟩ : BufTy).Contents (Elt F)),
    binary main_v1051 main_v1048 main_v1052 (mulf : (⟨S1024x16, .f32⟩ : BufTy).Contents (Elt F) → (⟨S1024x16, .f32⟩ : BufTy).Contents (Elt F) → (⟨S1024x16, .f32⟩ : BufTy).Contents (Elt F)),
    binary main_v1050 main_v1052 main_v1053 (subf : (⟨S1024x16, .f32⟩ : BufTy).Contents (Elt F) → (⟨S1024x16, .f32⟩ : BufTy).Contents (Elt F) → (⟨S1024x16, .f32⟩ : BufTy).Contents (Elt F)),
    unary main_v1046 main_v1054 (broadcastInDim S1024x16 ![0, 1] bcast_S1024x1_S1024x16_0_1 : (⟨S1024x1, .f32⟩ : BufTy).Contents (Elt F) → (⟨S1024x16, .f32⟩ : BufTy).Contents (Elt F)),
    binary main_v1054 main_v1033 main_v1055 (mulf : (⟨S1024x16, .f32⟩ : BufTy).Contents (Elt F) → (⟨S1024x16, .f32⟩ : BufTy).Contents (Elt F) → (⟨S1024x16, .f32⟩ : BufTy).Contents (Elt F)),
    unary main_v1044 main_v1056 (broadcastInDim S1024x16 ![0, 1] bcast_S1024x1_S1024x16_0_1 : (⟨S1024x1, .f32⟩ : BufTy).Contents (Elt F) → (⟨S1024x16, .f32⟩ : BufTy).Contents (Elt F)),
    binary main_v1056 main_v1048 main_v1057 (mulf : (⟨S1024x16, .f32⟩ : BufTy).Contents (Elt F) → (⟨S1024x16, .f32⟩ : BufTy).Contents (Elt F) → (⟨S1024x16, .f32⟩ : BufTy).Contents (Elt F)),
    binary main_v1055 main_v1057 main_v1058 (addf : (⟨S1024x16, .f32⟩ : BufTy).Contents (Elt F) → (⟨S1024x16, .f32⟩ : BufTy).Contents (Elt F) → (⟨S1024x16, .f32⟩ : BufTy).Contents (Elt F)),
    nullary main_c_54 (constantI S_ 32 13#32),
    unary main_c_54 main_v1059 (broadcastInDim S1 ![] bcast_S_S1 : (⟨S_, .i32⟩ : BufTy).Contents (Elt F) → (⟨S1, .i32⟩ : BufTy).Contents (Elt F)),
    ternary main_v1040 main_v1059 main_v1058 main_v1060 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1061 ((extractStridedSlice S1024x1 ![0, 52] · slices_S1024x120_S1024x1_0_52) : (⟨S1024x120, .f32⟩ : BufTy).Contents (Elt F) → (⟨S1024x1, .f32⟩ : BufTy).Contents (Elt F)),
    reshape main_v1061 main_v1062 rfl shapeCasts_S1024x1_S1024,
    unary main_v1062 main_v1063 (Host.cos : (⟨S1024, .f32⟩ : BufTy).Contents (Elt F) → (⟨S1024, .f32⟩ : BufTy).Contents (Elt F)) ]
/-- Operations 41 … 60 of window 18. -/
abbrev st56 : List (HloOp τ sig (Elt F)) :=
  [ unary main_v1063 main_v1064 (broadcastInDim S1024x1 ![0] bcast_S1024_S1024x1_0 : (⟨S1024, .f32⟩ : BufTy).Contents (Elt F) → (⟨S1024x1, .f32⟩ : BufTy).Contents (Elt F)),
    unary main_v1062 main_v1065 (Host.sin : (⟨S1024, .f32⟩ : BufTy).Contents (Elt F) → (⟨S1024, .f32⟩ : BufTy).Contents (Elt F)),
    unary main_v1065 main_v1066 (broadcastInDim S1024x1 ![0] bcast_S1024_S1024x1_0 : (⟨S1024, .f32⟩ : BufTy).Contents (Elt F) → (⟨S1024x1, .f32⟩ : BufTy).Contents (Elt F)),
    unary main_v1060 main_v1067 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1067 main_v1068 rfl shapeCasts_S1024x1x16_S1024x16,
    unary main_v1064 main_v1069 (broadcastInDim S1024x16 ![0, 1] bcast_S1024x1_S1024x16_0_1 : (⟨S1024x1, .f32⟩ : BufTy).Contents (Elt F) → (⟨S1024x16, .f32⟩ : BufTy).Contents (Elt F)),
    binary main_v1069 main_v1053 main_v1070 (mulf : (⟨S1024x16, .f32⟩ : BufTy).Contents (Elt F) → (⟨S1024x16, .f32⟩ : BufTy).Contents (Elt F) → (⟨S1024x16, .f32⟩ : BufTy).Contents (Elt F)),
    unary main_v1066 main_v1071 (broadcastInDim S1024x16 ![0, 1] bcast_S1024x1_S1024x16_0_1 : (⟨S1024x1, .f32⟩ : BufTy).Contents (Elt F) → (⟨S1024x16, .f32⟩ : BufTy).Contents (Elt F)),
    binary main_v1071 main_v1068 main_v1072 (mulf : (⟨S1024x16, .f32⟩ : BufTy).Contents (Elt F) → (⟨S1024x16, .f32⟩ : BufTy).Contents (Elt F) → (⟨S1024x16, .f32⟩ : BufTy).Contents (Elt F)),
    binary main_v1070 main_v1072 main_v1073 (subf : (⟨S1024x16, .f32⟩ : BufTy).Contents (Elt F) → (⟨S1024x16, .f32⟩ : BufTy).Contents (Elt F) → (⟨S1024x16, .f32⟩ : BufTy).Contents (Elt F)),
    unary main_v1066 main_v1074 (broadcastInDim S1024x16 ![0, 1] bcast_S1024x1_S1024x16_0_1 : (⟨S1024x1, .f32⟩ : BufTy).Contents (Elt F) → (⟨S1024x16, .f32⟩ : BufTy).Contents (Elt F)),
    binary main_v1074 main_v1053 main_v1075 (mulf : (⟨S1024x16, .f32⟩ : BufTy).Contents (Elt F) → (⟨S1024x16, .f32⟩ : BufTy).Contents (Elt F) → (⟨S1024x16, .f32⟩ : BufTy).Contents (Elt F)),
    unary main_v1064 main_v1076 (broadcastInDim S1024x16 ![0, 1] bcast_S1024x1_S1024x16_0_1 : (⟨S1024x1, .f32⟩ : BufTy).Contents (Elt F) → (⟨S1024x16, .f32⟩ : BufTy).Contents (Elt F)),
    binary main_v1076 main_v1068 main_v1077 (mulf : (⟨S1024x16, .f32⟩ : BufTy).Contents (Elt F) → (⟨S1024x16, .f32⟩ : BufTy).Contents (Elt F) → (⟨S1024x16, .f32⟩ : BufTy).Contents (Elt F)),
    binary main_v1075 main_v1077 main_v1078 (addf : (⟨S1024x16, .f32⟩ : BufTy).Contents (Elt F) → (⟨S1024x16, .f32⟩ : BufTy).Contents (Elt F) → (⟨S1024x16, .f32⟩ : BufTy).Contents (Elt F)),
    nullary main_c_55 (constantI S_ 32 14#32),
    unary main_c_55 main_v1079 (broadcastInDim S1 ![] bcast_S_S1 : (⟨S_, .i32⟩ : BufTy).Contents (Elt F) → (⟨S1, .i32⟩ : BufTy).Contents (Elt F)),
    ternary main_v1060 main_v1079 main_v1078 main_v1080 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1081 ((extractStridedSlice S1024x1 ![0, 53] · slices_S1024x120_S1024x1_0_53) : (⟨S1024x120, .f32⟩ : BufTy).Contents (Elt F) → (⟨S1024x1, .f32⟩ : BufTy).Contents (Elt F)),
    reshape main_v1081 main_v1082 rfl shapeCasts_S1024x1_S1024 ]
/-- Operations 1 … 20 of window 19. -/
abbrev st57 : List (HloOp τ sig (Elt F)) :=
  [ unary main_v1082 main_v1083 (Host.cos : (⟨S1024, .f32⟩ : BufTy).Contents (Elt F) → (⟨S1024, .f32⟩ : BufTy).Contents (Elt F)),
    unary main_v1083 main_v1084 (broadcastInDim S1024x1 ![0] bcast_S1024_S1024x1_0 : (⟨S1024, .f32⟩ : BufTy).Contents (Elt F) → (⟨S1024x1, .f32⟩ : BufTy).Contents (Elt F)),
    unary main_v1082 main_v1085 (Host.sin : (⟨S1024, .f32⟩ : BufTy).Contents (Elt F) → (⟨S1024, .f32⟩ : BufTy).Contents (Elt F)),
    unary main_v1085 main_v1086 (broadcastInDim S1024x1 ![0] bcast_S1024_S1024x1_0 : (⟨S1024, .f32⟩ : BufTy).Contents (Elt F) → (⟨S1024x1, .f32⟩ : BufTy).Contents (Elt F)),
    unary main_v1080 main_v1087 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1087 main_v1088 rfl shapeCasts_S1024x1x16_S1024x16,
    unary main_v1084 main_v1089 (broadcastInDim S1024x16 ![0, 1] bcast_S1024x1_S1024x16_0_1 : (⟨S1024x1, .f32⟩ : BufTy).Contents (Elt F) → (⟨S1024x16, .f32⟩ : BufTy).Contents (Elt F)),
    binary main_v1089 main_v1073 main_v1090 (mulf : (⟨S1024x16, .f32⟩ : BufTy).Contents (Elt F) → (⟨S1024x16, .f32⟩ : BufTy).Contents (Elt F) → (⟨S1024x16, .f32⟩ : BufTy).Contents (Elt F)),
    unary main_v1086 main_v1091 (broadcastInDim S1024x16 ![0, 1] bcast_S1024x1_S1024x16_0_1 : (⟨S1024x1, .f32⟩ : BufTy).Contents (Elt F) → (⟨S1024x16, .f32⟩ : BufTy).Contents (Elt F)),
    binary main_v1091 main_v1088 main_v1092 (mulf : (⟨S1024x16, .f32⟩ : BufTy).Contents (Elt F) → (⟨S1024x16, .f32⟩ : BufTy).Contents (Elt F) → (⟨S1024x16, .f32⟩ : BufTy).Contents (Elt F)),
    binary main_v1090 main_v1092 main_v1093 (subf : (⟨S1024x16, .f32⟩ : BufTy).Contents (Elt F) → (⟨S1024x16, .f32⟩ : BufTy).Contents (Elt F) → (⟨S1024x16, .f32⟩ : BufTy).Contents (Elt F)),
    unary main_v1086 main_v1094 (broadcastInDim S1024x16 ![0, 1] bcast_S1024x1_S1024x16_0_1 : (⟨S1024x1, .f32⟩ : BufTy).Contents (Elt F) → (⟨S1024x16, .f32⟩ : BufTy).Contents (Elt F)),
    binary main_v1094 main_v1073 main_v1095 (mulf : (⟨S1024x16, .f32⟩ : BufTy).Contents (Elt F) → (⟨S1024x16, .f32⟩ : BufTy).Contents (Elt F) → (⟨S1024x16, .f32⟩ : BufTy).Contents (Elt F)),
    unary main_v1084 main_v1096 (broadcastInDim S1024x16 ![0, 1] bcast_S1024x1_S1024x16_0_1 : (⟨S1024x1, .f32⟩ : BufTy).Contents (Elt F) → (⟨S1024x16, .f32⟩ : BufTy).Contents (Elt F)),
    binary main_v1096 main_v1088 main_v1097 (mulf : (⟨S1024x16, .f32⟩ : BufTy).Contents (Elt F) → (⟨S1024x16, .f32⟩ : BufTy).Contents (Elt F) → (⟨S1024x16, .f32⟩ : BufTy).Contents (Elt F)),
    binary main_v1095 main_v1097 main_v1098 (addf : (⟨S1024x16, .f32⟩ : BufTy).Contents (Elt F) → (⟨S1024x16, .f32⟩ : BufTy).Contents (Elt F) → (⟨S1024x16, .f32⟩ : BufTy).Contents (Elt F)),
    nullary main_c_56 (constantI S_ 32 15#32),
    unary main_c_56 main_v1099 (broadcastInDim S1 ![] bcast_S_S1 : (⟨S_, .i32⟩ : BufTy).Contents (Elt F) → (⟨S1, .i32⟩ : BufTy).Contents (Elt F)),
    ternary main_v1080 main_v1099 main_v1098 main_v1100 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_57 (constantI S_ 32 3#32) ]
/-- Operations 21 … 40 of window 19. -/
abbrev st58 : List (HloOp τ sig (Elt F)) :=
  [ unary main_c_57 main_v1101 (broadcastInDim S1 ![] bcast_S_S1 : (⟨S_, .i32⟩ : BufTy).Contents (Elt F) → (⟨S1, .i32⟩ : BufTy).Contents (Elt F)),
    ternary main_v1100 main_v1101 main_v1093 main_v1102 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v1102 main_v1103 ((extractStridedSlice S1024x1x16 ![0, 4, 0] · slices_S1024x16x16_S1024x1x16_0_4_0) : (⟨S1024x16x16, .f32⟩ : BufTy).Contents (Elt F) → (⟨S1024x1x16, .f32⟩ : BufTy).Contents (Elt F)),
    reshape main_v1103 main_v1104 rfl shapeCasts_S1024x1x16_S1024x16,
    unary main_arg1 main_v1105 ((extractStridedSlice S1024x1 ![0, 54] · slices_S1024x120_S1024x1_0_54) : (⟨S1024x120, .f32⟩ : BufTy).Contents (Elt F) → (⟨S1024x1, .f32⟩ : BufTy).Contents (Elt F)),
    reshape main_v1105 main_v1106 rfl shapeCasts_S1024x1_S1024,
    unary main_v1106 main_v1107 (Host.cos : (⟨S1024, .f32⟩ : BufTy).Contents (Elt F) → (⟨S1024, .f32⟩ : BufTy).Contents (Elt F)),
    unary main_v1107 main_v1108 (broadcastInDim S1024x1 ![0] bcast_S1024_S1024x1_0 : (⟨S1024, .f32⟩ : BufTy).Contents (Elt F) → (⟨S1024x1, .f32⟩ : BufTy).Contents (Elt F)),
    unary main_v1106 main_v1109 (Host.sin : (⟨S1024, .f32⟩ : BufTy).Contents (Elt F) → (⟨S1024, .f32⟩ : BufTy).Contents (Elt F)),
    unary main_v1109 main_v1110 (broadcastInDim S1024x1 ![0] bcast_S1024_S1024x1_0 : (⟨S1024, .f32⟩ : BufTy).Contents (Elt F) → (⟨S1024x1, .f32⟩ : BufTy).Contents (Elt F)),
    unary main_v1102 main_v1111 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v1111 main_v1112 rfl shapeCasts_S1024x1x16_S1024x16,
    unary main_v1108 main_v1113 (broadcastInDim S1024x16 ![0, 1] bcast_S1024x1_S1024x16_0_1 : (⟨S1024x1, .f32⟩ : BufTy).Contents (Elt F) → (⟨S1024x16, .f32⟩ : BufTy).Contents (Elt F)),
    binary main_v1113 main_v1104 main_v1114 (mulf : (⟨S1024x16, .f32⟩ : BufTy).Contents (Elt F) → (⟨S1024x16, .f32⟩ : BufTy).Contents (Elt F) → (⟨S1024x16, .f32⟩ : BufTy).Contents (Elt F)),
    unary main_v1110 main_v1115 (broadcastInDim S1024x16 ![0, 1] bcast_S1024x1_S1024x16_0_1 : (⟨S1024x1, .f32⟩ : BufTy).Contents (Elt F) → (⟨S1024x16, .f32⟩ : BufTy).Contents (Elt F)),
    binary main_v1115 main_v1112 main_v1116 (mulf : (⟨S1024x16, .f32⟩ : BufTy).Contents (Elt F) → (⟨S1024x16, .f32⟩ : BufTy).Contents (Elt F) → (⟨S1024x16, .f32⟩ : BufTy).Contents (Elt F)),
    binary main_v1114 main_v1116 main_v1117 (subf : (⟨S1024x16, .f32⟩ : BufTy).Contents (Elt F) → (⟨S1024x16, .f32⟩ : BufTy).Contents (Elt F) → (⟨S1024x16, .f32⟩ : BufTy).Contents (Elt F)),
    unary main_v1110 main_v1118 (broadcastInDim S1024x16 ![0, 1] bcast_S1024x1_S1024x16_0_1 : (⟨S1024x1, .f32⟩ : BufTy).Contents (Elt F) → (⟨S1024x16, .f32⟩ : BufTy).Contents (Elt F)),
    binary main_v1118 main_v1104 main_v1119 (mulf : (⟨S1024x16, .f32⟩ : BufTy).Contents (Elt F) → (⟨S1024x16, .f32⟩ : BufTy).Contents (Elt F) → (⟨S1024x16, .f32⟩ : BufTy).Contents (Elt F)),
    unary main_v1108 main_v1120 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 19. -/
abbrev st59 : List (HloOp τ sig (Elt F)) :=
  [ binary main_v1120 main_v1112 main_v1121 (mulf : (⟨S1024x16, .f32⟩ : BufTy).Contents (Elt F) → (⟨S1024x16, .f32⟩ : BufTy).Contents (Elt F) → (⟨S1024x16, .f32⟩ : BufTy).Contents (Elt F)),
    binary main_v1119 main_v1121 main_v1122 (addf : (⟨S1024x16, .f32⟩ : BufTy).Contents (Elt F) → (⟨S1024x16, .f32⟩ : BufTy).Contents (Elt F) → (⟨S1024x16, .f32⟩ : BufTy).Contents (Elt F)),
    nullary main_c_58 (constantI S_ 32 5#32),
    unary main_c_58 main_v1123 (broadcastInDim S1 ![] bcast_S_S1 : (⟨S_, .i32⟩ : BufTy).Contents (Elt F) → (⟨S1, .i32⟩ : BufTy).Contents (Elt F)),
    ternary main_v1102 main_v1123 main_v1122 main_v1124 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1125 ((extractStridedSlice S1024x1 ![0, 55] · slices_S1024x120_S1024x1_0_55) : (⟨S1024x120, .f32⟩ : BufTy).Contents (Elt F) → (⟨S1024x1, .f32⟩ : BufTy).Contents (Elt F)),
    reshape main_v1125 main_v1126 rfl shapeCasts_S1024x1_S1024,
    unary main_v1126 main_v1127 (Host.cos : (⟨S1024, .f32⟩ : BufTy).Contents (Elt F) → (⟨S1024, .f32⟩ : BufTy).Contents (Elt F)),
    unary main_v1127 main_v1128 (broadcastInDim S1024x1 ![0] bcast_S1024_S1024x1_0 : (⟨S1024, .f32⟩ : BufTy).Contents (Elt F) → (⟨S1024x1, .f32⟩ : BufTy).Contents (Elt F)),
    unary main_v1126 main_v1129 (Host.sin : (⟨S1024, .f32⟩ : BufTy).Contents (Elt F) → (⟨S1024, .f32⟩ : BufTy).Contents (Elt F)),
    unary main_v1129 main_v1130 (broadcastInDim S1024x1 ![0] bcast_S1024_S1024x1_0 : (⟨S1024, .f32⟩ : BufTy).Contents (Elt F) → (⟨S1024x1, .f32⟩ : BufTy).Contents (Elt F)),
    unary main_v1124 main_v1131 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v1131 main_v1132 rfl shapeCasts_S1024x1x16_S1024x16,
    unary main_v1128 main_v1133 (broadcastInDim S1024x16 ![0, 1] bcast_S1024x1_S1024x16_0_1 : (⟨S1024x1, .f32⟩ : BufTy).Contents (Elt F) → (⟨S1024x16, .f32⟩ : BufTy).Contents (Elt F)),
    binary main_v1133 main_v1117 main_v1134 (mulf : (⟨S1024x16, .f32⟩ : BufTy).Contents (Elt F) → (⟨S1024x16, .f32⟩ : BufTy).Contents (Elt F) → (⟨S1024x16, .f32⟩ : BufTy).Contents (Elt F)),
    unary main_v1130 main_v1135 (broadcastInDim S1024x16 ![0, 1] bcast_S1024x1_S1024x16_0_1 : (⟨S1024x1, .f32⟩ : BufTy).Contents (Elt F) → (⟨S1024x16, .f32⟩ : BufTy).Contents (Elt F)),
    binary main_v1135 main_v1132 main_v1136 (mulf : (⟨S1024x16, .f32⟩ : BufTy).Contents (Elt F) → (⟨S1024x16, .f32⟩ : BufTy).Contents (Elt F) → (⟨S1024x16, .f32⟩ : BufTy).Contents (Elt F)),
    binary main_v1134 main_v1136 main_v1137 (subf : (⟨S1024x16, .f32⟩ : BufTy).Contents (Elt F) → (⟨S1024x16, .f32⟩ : BufTy).Contents (Elt F) → (⟨S1024x16, .f32⟩ : BufTy).Contents (Elt F)),
    unary main_v1130 main_v1138 (broadcastInDim S1024x16 ![0, 1] bcast_S1024x1_S1024x16_0_1 : (⟨S1024x1, .f32⟩ : BufTy).Contents (Elt F) → (⟨S1024x16, .f32⟩ : BufTy).Contents (Elt F)),
    binary main_v1138 main_v1117 main_v1139 (mulf : (⟨S1024x16, .f32⟩ : BufTy).Contents (Elt F) → (⟨S1024x16, .f32⟩ : BufTy).Contents (Elt F) → (⟨S1024x16, .f32⟩ : BufTy).Contents (Elt F)) ]
/-- Operations 1 … 20 of window 20. -/
abbrev st60 : List (HloOp τ sig (Elt F)) :=
  [ unary main_v1128 main_v1140 (broadcastInDim S1024x16 ![0, 1] bcast_S1024x1_S1024x16_0_1 : (⟨S1024x1, .f32⟩ : BufTy).Contents (Elt F) → (⟨S1024x16, .f32⟩ : BufTy).Contents (Elt F)),
    binary main_v1140 main_v1132 main_v1141 (mulf : (⟨S1024x16, .f32⟩ : BufTy).Contents (Elt F) → (⟨S1024x16, .f32⟩ : BufTy).Contents (Elt F) → (⟨S1024x16, .f32⟩ : BufTy).Contents (Elt F)),
    binary main_v1139 main_v1141 main_v1142 (addf : (⟨S1024x16, .f32⟩ : BufTy).Contents (Elt F) → (⟨S1024x16, .f32⟩ : BufTy).Contents (Elt F) → (⟨S1024x16, .f32⟩ : BufTy).Contents (Elt F)),
    nullary main_c_59 (constantI S_ 32 6#32),
    unary main_c_59 main_v1143 (broadcastInDim S1 ![] bcast_S_S1 : (⟨S_, .i32⟩ : BufTy).Contents (Elt F) → (⟨S1, .i32⟩ : BufTy).Contents (Elt F)),
    ternary main_v1124 main_v1143 main_v1142 main_v1144 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1145 ((extractStridedSlice S1024x1 ![0, 56] · slices_S1024x120_S1024x1_0_56) : (⟨S1024x120, .f32⟩ : BufTy).Contents (Elt F) → (⟨S1024x1, .f32⟩ : BufTy).Contents (Elt F)),
    reshape main_v1145 main_v1146 rfl shapeCasts_S1024x1_S1024,
    unary main_v1146 main_v1147 (Host.cos : (⟨S1024, .f32⟩ : BufTy).Contents (Elt F) → (⟨S1024, .f32⟩ : BufTy).Contents (Elt F)),
    unary main_v1147 main_v1148 (broadcastInDim S1024x1 ![0] bcast_S1024_S1024x1_0 : (⟨S1024, .f32⟩ : BufTy).Contents (Elt F) → (⟨S1024x1, .f32⟩ : BufTy).Contents (Elt F)),
    unary main_v1146 main_v1149 (Host.sin : (⟨S1024, .f32⟩ : BufTy).Contents (Elt F) → (⟨S1024, .f32⟩ : BufTy).Contents (Elt F)),
    unary main_v1149 main_v1150 (broadcastInDim S1024x1 ![0] bcast_S1024_S1024x1_0 : (⟨S1024, .f32⟩ : BufTy).Contents (Elt F) → (⟨S1024x1, .f32⟩ : BufTy).Contents (Elt F)),
    unary main_v1144 main_v1151 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v1151 main_v1152 rfl shapeCasts_S1024x1x16_S1024x16,
    unary main_v1148 main_v1153 (broadcastInDim S1024x16 ![0, 1] bcast_S1024x1_S1024x16_0_1 : (⟨S1024x1, .f32⟩ : BufTy).Contents (Elt F) → (⟨S1024x16, .f32⟩ : BufTy).Contents (Elt F)),
    binary main_v1153 main_v1137 main_v1154 (mulf : (⟨S1024x16, .f32⟩ : BufTy).Contents (Elt F) → (⟨S1024x16, .f32⟩ : BufTy).Contents (Elt F) → (⟨S1024x16, .f32⟩ : BufTy).Contents (Elt F)),
    unary main_v1150 main_v1155 (broadcastInDim S1024x16 ![0, 1] bcast_S1024x1_S1024x16_0_1 : (⟨S1024x1, .f32⟩ : BufTy).Contents (Elt F) → (⟨S1024x16, .f32⟩ : BufTy).Contents (Elt F)),
    binary main_v1155 main_v1152 main_v1156 (mulf : (⟨S1024x16, .f32⟩ : BufTy).Contents (Elt F) → (⟨S1024x16, .f32⟩ : BufTy).Contents (Elt F) → (⟨S1024x16, .f32⟩ : BufTy).Contents (Elt F)),
    binary main_v1154 main_v1156 main_v1157 (subf : (⟨S1024x16, .f32⟩ : BufTy).Contents (Elt F) → (⟨S1024x16, .f32⟩ : BufTy).Contents (Elt F) → (⟨S1024x16, .f32⟩ : BufTy).Contents (Elt F)),
    unary main_v1150 main_v1158 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 20. -/
abbrev st61 : List (HloOp τ sig (Elt F)) :=
  [ binary main_v1158 main_v1137 main_v1159 (mulf : (⟨S1024x16, .f32⟩ : BufTy).Contents (Elt F) → (⟨S1024x16, .f32⟩ : BufTy).Contents (Elt F) → (⟨S1024x16, .f32⟩ : BufTy).Contents (Elt F)),
    unary main_v1148 main_v1160 (broadcastInDim S1024x16 ![0, 1] bcast_S1024x1_S1024x16_0_1 : (⟨S1024x1, .f32⟩ : BufTy).Contents (Elt F) → (⟨S1024x16, .f32⟩ : BufTy).Contents (Elt F)),
    binary main_v1160 main_v1152 main_v1161 (mulf : (⟨S1024x16, .f32⟩ : BufTy).Contents (Elt F) → (⟨S1024x16, .f32⟩ : BufTy).Contents (Elt F) → (⟨S1024x16, .f32⟩ : BufTy).Contents (Elt F)),
    binary main_v1159 main_v1161 main_v1162 (addf : (⟨S1024x16, .f32⟩ : BufTy).Contents (Elt F) → (⟨S1024x16, .f32⟩ : BufTy).Contents (Elt F) → (⟨S1024x16, .f32⟩ : BufTy).Contents (Elt F)),
    nullary main_c_60 (constantI S_ 32 7#32),
    unary main_c_60 main_v1163 (broadcastInDim S1 ![] bcast_S_S1 : (⟨S_, .i32⟩ : BufTy).Contents (Elt F) → (⟨S1, .i32⟩ : BufTy).Contents (Elt F)),
    ternary main_v1144 main_v1163 main_v1162 main_v1164 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1165 ((extractStridedSlice S1024x1 ![0, 57] · slices_S1024x120_S1024x1_0_57) : (⟨S1024x120, .f32⟩ : BufTy).Contents (Elt F) → (⟨S1024x1, .f32⟩ : BufTy).Contents (Elt F)),
    reshape main_v1165 main_v1166 rfl shapeCasts_S1024x1_S1024,
    unary main_v1166 main_v1167 (Host.cos : (⟨S1024, .f32⟩ : BufTy).Contents (Elt F) → (⟨S1024, .f32⟩ : BufTy).Contents (Elt F)),
    unary main_v1167 main_v1168 (broadcastInDim S1024x1 ![0] bcast_S1024_S1024x1_0 : (⟨S1024, .f32⟩ : BufTy).Contents (Elt F) → (⟨S1024x1, .f32⟩ : BufTy).Contents (Elt F)),
    unary main_v1166 main_v1169 (Host.sin : (⟨S1024, .f32⟩ : BufTy).Contents (Elt F) → (⟨S1024, .f32⟩ : BufTy).Contents (Elt F)),
    unary main_v1169 main_v1170 (broadcastInDim S1024x1 ![0] bcast_S1024_S1024x1_0 : (⟨S1024, .f32⟩ : BufTy).Contents (Elt F) → (⟨S1024x1, .f32⟩ : BufTy).Contents (Elt F)),
    unary main_v1164 main_v1171 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1171 main_v1172 rfl shapeCasts_S1024x1x16_S1024x16,
    unary main_v1168 main_v1173 (broadcastInDim S1024x16 ![0, 1] bcast_S1024x1_S1024x16_0_1 : (⟨S1024x1, .f32⟩ : BufTy).Contents (Elt F) → (⟨S1024x16, .f32⟩ : BufTy).Contents (Elt F)),
    binary main_v1173 main_v1157 main_v1174 (mulf : (⟨S1024x16, .f32⟩ : BufTy).Contents (Elt F) → (⟨S1024x16, .f32⟩ : BufTy).Contents (Elt F) → (⟨S1024x16, .f32⟩ : BufTy).Contents (Elt F)),
    unary main_v1170 main_v1175 (broadcastInDim S1024x16 ![0, 1] bcast_S1024x1_S1024x16_0_1 : (⟨S1024x1, .f32⟩ : BufTy).Contents (Elt F) → (⟨S1024x16, .f32⟩ : BufTy).Contents (Elt F)),
    binary main_v1175 main_v1172 main_v1176 (mulf : (⟨S1024x16, .f32⟩ : BufTy).Contents (Elt F) → (⟨S1024x16, .f32⟩ : BufTy).Contents (Elt F) → (⟨S1024x16, .f32⟩ : BufTy).Contents (Elt F)),
    binary main_v1174 main_v1176 main_v1177 (subf : (⟨S1024x16, .f32⟩ : BufTy).Contents (Elt F) → (⟨S1024x16, .f32⟩ : BufTy).Contents (Elt F) → (⟨S1024x16, .f32⟩ : BufTy).Contents (Elt F)) ]
/-- Operations 41 … 60 of window 20. -/
abbrev st62 : List (HloOp τ sig (Elt F)) :=
  [ unary main_v1170 main_v1178 (broadcastInDim S1024x16 ![0, 1] bcast_S1024x1_S1024x16_0_1 : (⟨S1024x1, .f32⟩ : BufTy).Contents (Elt F) → (⟨S1024x16, .f32⟩ : BufTy).Contents (Elt F)),
    binary main_v1178 main_v1157 main_v1179 (mulf : (⟨S1024x16, .f32⟩ : BufTy).Contents (Elt F) → (⟨S1024x16, .f32⟩ : BufTy).Contents (Elt F) → (⟨S1024x16, .f32⟩ : BufTy).Contents (Elt F)),
    unary main_v1168 main_v1180 (broadcastInDim S1024x16 ![0, 1] bcast_S1024x1_S1024x16_0_1 : (⟨S1024x1, .f32⟩ : BufTy).Contents (Elt F) → (⟨S1024x16, .f32⟩ : BufTy).Contents (Elt F)),
    binary main_v1180 main_v1172 main_v1181 (mulf : (⟨S1024x16, .f32⟩ : BufTy).Contents (Elt F) → (⟨S1024x16, .f32⟩ : BufTy).Contents (Elt F) → (⟨S1024x16, .f32⟩ : BufTy).Contents (Elt F)),
    binary main_v1179 main_v1181 main_v1182 (addf : (⟨S1024x16, .f32⟩ : BufTy).Contents (Elt F) → (⟨S1024x16, .f32⟩ : BufTy).Contents (Elt F) → (⟨S1024x16, .f32⟩ : BufTy).Contents (Elt F)),
    nullary main_c_61 (constantI S_ 32 8#32),
    unary main_c_61 main_v1183 (broadcastInDim S1 ![] bcast_S_S1 : (⟨S_, .i32⟩ : BufTy).Contents (Elt F) → (⟨S1, .i32⟩ : BufTy).Contents (Elt F)),
    ternary main_v1164 main_v1183 main_v1182 main_v1184 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1185 ((extractStridedSlice S1024x1 ![0, 58] · slices_S1024x120_S1024x1_0_58) : (⟨S1024x120, .f32⟩ : BufTy).Contents (Elt F) → (⟨S1024x1, .f32⟩ : BufTy).Contents (Elt F)),
    reshape main_v1185 main_v1186 rfl shapeCasts_S1024x1_S1024,
    unary main_v1186 main_v1187 (Host.cos : (⟨S1024, .f32⟩ : BufTy).Contents (Elt F) → (⟨S1024, .f32⟩ : BufTy).Contents (Elt F)),
    unary main_v1187 main_v1188 (broadcastInDim S1024x1 ![0] bcast_S1024_S1024x1_0 : (⟨S1024, .f32⟩ : BufTy).Contents (Elt F) → (⟨S1024x1, .f32⟩ : BufTy).Contents (Elt F)),
    unary main_v1186 main_v1189 (Host.sin : (⟨S1024, .f32⟩ : BufTy).Contents (Elt F) → (⟨S1024, .f32⟩ : BufTy).Contents (Elt F)),
    unary main_v1189 main_v1190 (broadcastInDim S1024x1 ![0] bcast_S1024_S1024x1_0 : (⟨S1024, .f32⟩ : BufTy).Contents (Elt F) → (⟨S1024x1, .f32⟩ : BufTy).Contents (Elt F)),
    unary main_v1184 main_v1191 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1191 main_v1192 rfl shapeCasts_S1024x1x16_S1024x16,
    unary main_v1188 main_v1193 (broadcastInDim S1024x16 ![0, 1] bcast_S1024x1_S1024x16_0_1 : (⟨S1024x1, .f32⟩ : BufTy).Contents (Elt F) → (⟨S1024x16, .f32⟩ : BufTy).Contents (Elt F)),
    binary main_v1193 main_v1177 main_v1194 (mulf : (⟨S1024x16, .f32⟩ : BufTy).Contents (Elt F) → (⟨S1024x16, .f32⟩ : BufTy).Contents (Elt F) → (⟨S1024x16, .f32⟩ : BufTy).Contents (Elt F)),
    unary main_v1190 main_v1195 (broadcastInDim S1024x16 ![0, 1] bcast_S1024x1_S1024x16_0_1 : (⟨S1024x1, .f32⟩ : BufTy).Contents (Elt F) → (⟨S1024x16, .f32⟩ : BufTy).Contents (Elt F)),
    binary main_v1195 main_v1192 main_v1196 (mulf : (⟨S1024x16, .f32⟩ : BufTy).Contents (Elt F) → (⟨S1024x16, .f32⟩ : BufTy).Contents (Elt F) → (⟨S1024x16, .f32⟩ : BufTy).Contents (Elt F)) ]
/-- Operations 1 … 20 of window 21. -/
abbrev st63 : List (HloOp τ sig (Elt F)) :=
  [ binary main_v1194 main_v1196 main_v1197 (subf : (⟨S1024x16, .f32⟩ : BufTy).Contents (Elt F) → (⟨S1024x16, .f32⟩ : BufTy).Contents (Elt F) → (⟨S1024x16, .f32⟩ : BufTy).Contents (Elt F)),
    unary main_v1190 main_v1198 (broadcastInDim S1024x16 ![0, 1] bcast_S1024x1_S1024x16_0_1 : (⟨S1024x1, .f32⟩ : BufTy).Contents (Elt F) → (⟨S1024x16, .f32⟩ : BufTy).Contents (Elt F)),
    binary main_v1198 main_v1177 main_v1199 (mulf : (⟨S1024x16, .f32⟩ : BufTy).Contents (Elt F) → (⟨S1024x16, .f32⟩ : BufTy).Contents (Elt F) → (⟨S1024x16, .f32⟩ : BufTy).Contents (Elt F)),
    unary main_v1188 main_v1200 (broadcastInDim S1024x16 ![0, 1] bcast_S1024x1_S1024x16_0_1 : (⟨S1024x1, .f32⟩ : BufTy).Contents (Elt F) → (⟨S1024x16, .f32⟩ : BufTy).Contents (Elt F)),
    binary main_v1200 main_v1192 main_v1201 (mulf : (⟨S1024x16, .f32⟩ : BufTy).Contents (Elt F) → (⟨S1024x16, .f32⟩ : BufTy).Contents (Elt F) → (⟨S1024x16, .f32⟩ : BufTy).Contents (Elt F)),
    binary main_v1199 main_v1201 main_v1202 (addf : (⟨S1024x16, .f32⟩ : BufTy).Contents (Elt F) → (⟨S1024x16, .f32⟩ : BufTy).Contents (Elt F) → (⟨S1024x16, .f32⟩ : BufTy).Contents (Elt F)),
    nullary main_c_62 (constantI S_ 32 9#32),
    unary main_c_62 main_v1203 (broadcastInDim S1 ![] bcast_S_S1 : (⟨S_, .i32⟩ : BufTy).Contents (Elt F) → (⟨S1, .i32⟩ : BufTy).Contents (Elt F)),
    ternary main_v1184 main_v1203 main_v1202 main_v1204 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1205 ((extractStridedSlice S1024x1 ![0, 59] · slices_S1024x120_S1024x1_0_59) : (⟨S1024x120, .f32⟩ : BufTy).Contents (Elt F) → (⟨S1024x1, .f32⟩ : BufTy).Contents (Elt F)),
    reshape main_v1205 main_v1206 rfl shapeCasts_S1024x1_S1024,
    unary main_v1206 main_v1207 (Host.cos : (⟨S1024, .f32⟩ : BufTy).Contents (Elt F) → (⟨S1024, .f32⟩ : BufTy).Contents (Elt F)),
    unary main_v1207 main_v1208 (broadcastInDim S1024x1 ![0] bcast_S1024_S1024x1_0 : (⟨S1024, .f32⟩ : BufTy).Contents (Elt F) → (⟨S1024x1, .f32⟩ : BufTy).Contents (Elt F)),
    unary main_v1206 main_v1209 (Host.sin : (⟨S1024, .f32⟩ : BufTy).Contents (Elt F) → (⟨S1024, .f32⟩ : BufTy).Contents (Elt F)),
    unary main_v1209 main_v1210 (broadcastInDim S1024x1 ![0] bcast_S1024_S1024x1_0 : (⟨S1024, .f32⟩ : BufTy).Contents (Elt F) → (⟨S1024x1, .f32⟩ : BufTy).Contents (Elt F)),
    unary main_v1204 main_v1211 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1211 main_v1212 rfl shapeCasts_S1024x1x16_S1024x16,
    unary main_v1208 main_v1213 (broadcastInDim S1024x16 ![0, 1] bcast_S1024x1_S1024x16_0_1 : (⟨S1024x1, .f32⟩ : BufTy).Contents (Elt F) → (⟨S1024x16, .f32⟩ : BufTy).Contents (Elt F)),
    binary main_v1213 main_v1197 main_v1214 (mulf : (⟨S1024x16, .f32⟩ : BufTy).Contents (Elt F) → (⟨S1024x16, .f32⟩ : BufTy).Contents (Elt F) → (⟨S1024x16, .f32⟩ : BufTy).Contents (Elt F)),
    unary main_v1210 main_v1215 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 21. -/
abbrev st64 : List (HloOp τ sig (Elt F)) :=
  [ binary main_v1215 main_v1212 main_v1216 (mulf : (⟨S1024x16, .f32⟩ : BufTy).Contents (Elt F) → (⟨S1024x16, .f32⟩ : BufTy).Contents (Elt F) → (⟨S1024x16, .f32⟩ : BufTy).Contents (Elt F)),
    binary main_v1214 main_v1216 main_v1217 (subf : (⟨S1024x16, .f32⟩ : BufTy).Contents (Elt F) → (⟨S1024x16, .f32⟩ : BufTy).Contents (Elt F) → (⟨S1024x16, .f32⟩ : BufTy).Contents (Elt F)),
    unary main_v1210 main_v1218 (broadcastInDim S1024x16 ![0, 1] bcast_S1024x1_S1024x16_0_1 : (⟨S1024x1, .f32⟩ : BufTy).Contents (Elt F) → (⟨S1024x16, .f32⟩ : BufTy).Contents (Elt F)),
    binary main_v1218 main_v1197 main_v1219 (mulf : (⟨S1024x16, .f32⟩ : BufTy).Contents (Elt F) → (⟨S1024x16, .f32⟩ : BufTy).Contents (Elt F) → (⟨S1024x16, .f32⟩ : BufTy).Contents (Elt F)),
    unary main_v1208 main_v1220 (broadcastInDim S1024x16 ![0, 1] bcast_S1024x1_S1024x16_0_1 : (⟨S1024x1, .f32⟩ : BufTy).Contents (Elt F) → (⟨S1024x16, .f32⟩ : BufTy).Contents (Elt F)),
    binary main_v1220 main_v1212 main_v1221 (mulf : (⟨S1024x16, .f32⟩ : BufTy).Contents (Elt F) → (⟨S1024x16, .f32⟩ : BufTy).Contents (Elt F) → (⟨S1024x16, .f32⟩ : BufTy).Contents (Elt F)),
    binary main_v1219 main_v1221 main_v1222 (addf : (⟨S1024x16, .f32⟩ : BufTy).Contents (Elt F) → (⟨S1024x16, .f32⟩ : BufTy).Contents (Elt F) → (⟨S1024x16, .f32⟩ : BufTy).Contents (Elt F)),
    nullary main_c_63 (constantI S_ 32 10#32),
    unary main_c_63 main_v1223 (broadcastInDim S1 ![] bcast_S_S1 : (⟨S_, .i32⟩ : BufTy).Contents (Elt F) → (⟨S1, .i32⟩ : BufTy).Contents (Elt F)),
    ternary main_v1204 main_v1223 main_v1222 main_v1224 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1225 ((extractStridedSlice S1024x1 ![0, 60] · slices_S1024x120_S1024x1_0_60) : (⟨S1024x120, .f32⟩ : BufTy).Contents (Elt F) → (⟨S1024x1, .f32⟩ : BufTy).Contents (Elt F)),
    reshape main_v1225 main_v1226 rfl shapeCasts_S1024x1_S1024,
    unary main_v1226 main_v1227 (Host.cos : (⟨S1024, .f32⟩ : BufTy).Contents (Elt F) → (⟨S1024, .f32⟩ : BufTy).Contents (Elt F)),
    unary main_v1227 main_v1228 (broadcastInDim S1024x1 ![0] bcast_S1024_S1024x1_0 : (⟨S1024, .f32⟩ : BufTy).Contents (Elt F) → (⟨S1024x1, .f32⟩ : BufTy).Contents (Elt F)),
    unary main_v1226 main_v1229 (Host.sin : (⟨S1024, .f32⟩ : BufTy).Contents (Elt F) → (⟨S1024, .f32⟩ : BufTy).Contents (Elt F)),
    unary main_v1229 main_v1230 (broadcastInDim S1024x1 ![0] bcast_S1024_S1024x1_0 : (⟨S1024, .f32⟩ : BufTy).Contents (Elt F) → (⟨S1024x1, .f32⟩ : BufTy).Contents (Elt F)),
    unary main_v1224 main_v1231 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1231 main_v1232 rfl shapeCasts_S1024x1x16_S1024x16,
    unary main_v1228 main_v1233 (broadcastInDim S1024x16 ![0, 1] bcast_S1024x1_S1024x16_0_1 : (⟨S1024x1, .f32⟩ : BufTy).Contents (Elt F) → (⟨S1024x16, .f32⟩ : BufTy).Contents (Elt F)),
    binary main_v1233 main_v1217 main_v1234 (mulf : (⟨S1024x16, .f32⟩ : BufTy).Contents (Elt F) → (⟨S1024x16, .f32⟩ : BufTy).Contents (Elt F) → (⟨S1024x16, .f32⟩ : BufTy).Contents (Elt F)) ]
/-- Operations 41 … 60 of window 21. -/
abbrev st65 : List (HloOp τ sig (Elt F)) :=
  [ unary main_v1230 main_v1235 (broadcastInDim S1024x16 ![0, 1] bcast_S1024x1_S1024x16_0_1 : (⟨S1024x1, .f32⟩ : BufTy).Contents (Elt F) → (⟨S1024x16, .f32⟩ : BufTy).Contents (Elt F)),
    binary main_v1235 main_v1232 main_v1236 (mulf : (⟨S1024x16, .f32⟩ : BufTy).Contents (Elt F) → (⟨S1024x16, .f32⟩ : BufTy).Contents (Elt F) → (⟨S1024x16, .f32⟩ : BufTy).Contents (Elt F)),
    binary main_v1234 main_v1236 main_v1237 (subf : (⟨S1024x16, .f32⟩ : BufTy).Contents (Elt F) → (⟨S1024x16, .f32⟩ : BufTy).Contents (Elt F) → (⟨S1024x16, .f32⟩ : BufTy).Contents (Elt F)),
    unary main_v1230 main_v1238 (broadcastInDim S1024x16 ![0, 1] bcast_S1024x1_S1024x16_0_1 : (⟨S1024x1, .f32⟩ : BufTy).Contents (Elt F) → (⟨S1024x16, .f32⟩ : BufTy).Contents (Elt F)),
    binary main_v1238 main_v1217 main_v1239 (mulf : (⟨S1024x16, .f32⟩ : BufTy).Contents (Elt F) → (⟨S1024x16, .f32⟩ : BufTy).Contents (Elt F) → (⟨S1024x16, .f32⟩ : BufTy).Contents (Elt F)),
    unary main_v1228 main_v1240 (broadcastInDim S1024x16 ![0, 1] bcast_S1024x1_S1024x16_0_1 : (⟨S1024x1, .f32⟩ : BufTy).Contents (Elt F) → (⟨S1024x16, .f32⟩ : BufTy).Contents (Elt F)),
    binary main_v1240 main_v1232 main_v1241 (mulf : (⟨S1024x16, .f32⟩ : BufTy).Contents (Elt F) → (⟨S1024x16, .f32⟩ : BufTy).Contents (Elt F) → (⟨S1024x16, .f32⟩ : BufTy).Contents (Elt F)),
    binary main_v1239 main_v1241 main_v1242 (addf : (⟨S1024x16, .f32⟩ : BufTy).Contents (Elt F) → (⟨S1024x16, .f32⟩ : BufTy).Contents (Elt F) → (⟨S1024x16, .f32⟩ : BufTy).Contents (Elt F)),
    nullary main_c_64 (constantI S_ 32 11#32),
    unary main_c_64 main_v1243 (broadcastInDim S1 ![] bcast_S_S1 : (⟨S_, .i32⟩ : BufTy).Contents (Elt F) → (⟨S1, .i32⟩ : BufTy).Contents (Elt F)),
    ternary main_v1224 main_v1243 main_v1242 main_v1244 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1245 ((extractStridedSlice S1024x1 ![0, 61] · slices_S1024x120_S1024x1_0_61) : (⟨S1024x120, .f32⟩ : BufTy).Contents (Elt F) → (⟨S1024x1, .f32⟩ : BufTy).Contents (Elt F)),
    reshape main_v1245 main_v1246 rfl shapeCasts_S1024x1_S1024,
    unary main_v1246 main_v1247 (Host.cos : (⟨S1024, .f32⟩ : BufTy).Contents (Elt F) → (⟨S1024, .f32⟩ : BufTy).Contents (Elt F)),
    unary main_v1247 main_v1248 (broadcastInDim S1024x1 ![0] bcast_S1024_S1024x1_0 : (⟨S1024, .f32⟩ : BufTy).Contents (Elt F) → (⟨S1024x1, .f32⟩ : BufTy).Contents (Elt F)),
    unary main_v1246 main_v1249 (Host.sin : (⟨S1024, .f32⟩ : BufTy).Contents (Elt F) → (⟨S1024, .f32⟩ : BufTy).Contents (Elt F)),
    unary main_v1249 main_v1250 (broadcastInDim S1024x1 ![0] bcast_S1024_S1024x1_0 : (⟨S1024, .f32⟩ : BufTy).Contents (Elt F) → (⟨S1024x1, .f32⟩ : BufTy).Contents (Elt F)),
    unary main_v1244 main_v1251 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1251 main_v1252 rfl shapeCasts_S1024x1x16_S1024x16,
    unary main_v1248 main_v1253 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 22. -/
abbrev st66 : List (HloOp τ sig (Elt F)) :=
  [ binary main_v1253 main_v1237 main_v1254 (mulf : (⟨S1024x16, .f32⟩ : BufTy).Contents (Elt F) → (⟨S1024x16, .f32⟩ : BufTy).Contents (Elt F) → (⟨S1024x16, .f32⟩ : BufTy).Contents (Elt F)),
    unary main_v1250 main_v1255 (broadcastInDim S1024x16 ![0, 1] bcast_S1024x1_S1024x16_0_1 : (⟨S1024x1, .f32⟩ : BufTy).Contents (Elt F) → (⟨S1024x16, .f32⟩ : BufTy).Contents (Elt F)),
    binary main_v1255 main_v1252 main_v1256 (mulf : (⟨S1024x16, .f32⟩ : BufTy).Contents (Elt F) → (⟨S1024x16, .f32⟩ : BufTy).Contents (Elt F) → (⟨S1024x16, .f32⟩ : BufTy).Contents (Elt F)),
    binary main_v1254 main_v1256 main_v1257 (subf : (⟨S1024x16, .f32⟩ : BufTy).Contents (Elt F) → (⟨S1024x16, .f32⟩ : BufTy).Contents (Elt F) → (⟨S1024x16, .f32⟩ : BufTy).Contents (Elt F)),
    unary main_v1250 main_v1258 (broadcastInDim S1024x16 ![0, 1] bcast_S1024x1_S1024x16_0_1 : (⟨S1024x1, .f32⟩ : BufTy).Contents (Elt F) → (⟨S1024x16, .f32⟩ : BufTy).Contents (Elt F)),
    binary main_v1258 main_v1237 main_v1259 (mulf : (⟨S1024x16, .f32⟩ : BufTy).Contents (Elt F) → (⟨S1024x16, .f32⟩ : BufTy).Contents (Elt F) → (⟨S1024x16, .f32⟩ : BufTy).Contents (Elt F)),
    unary main_v1248 main_v1260 (broadcastInDim S1024x16 ![0, 1] bcast_S1024x1_S1024x16_0_1 : (⟨S1024x1, .f32⟩ : BufTy).Contents (Elt F) → (⟨S1024x16, .f32⟩ : BufTy).Contents (Elt F)),
    binary main_v1260 main_v1252 main_v1261 (mulf : (⟨S1024x16, .f32⟩ : BufTy).Contents (Elt F) → (⟨S1024x16, .f32⟩ : BufTy).Contents (Elt F) → (⟨S1024x16, .f32⟩ : BufTy).Contents (Elt F)),
    binary main_v1259 main_v1261 main_v1262 (addf : (⟨S1024x16, .f32⟩ : BufTy).Contents (Elt F) → (⟨S1024x16, .f32⟩ : BufTy).Contents (Elt F) → (⟨S1024x16, .f32⟩ : BufTy).Contents (Elt F)),
    nullary main_c_65 (constantI S_ 32 12#32),
    unary main_c_65 main_v1263 (broadcastInDim S1 ![] bcast_S_S1 : (⟨S_, .i32⟩ : BufTy).Contents (Elt F) → (⟨S1, .i32⟩ : BufTy).Contents (Elt F)),
    ternary main_v1244 main_v1263 main_v1262 main_v1264 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1265 ((extractStridedSlice S1024x1 ![0, 62] · slices_S1024x120_S1024x1_0_62) : (⟨S1024x120, .f32⟩ : BufTy).Contents (Elt F) → (⟨S1024x1, .f32⟩ : BufTy).Contents (Elt F)),
    reshape main_v1265 main_v1266 rfl shapeCasts_S1024x1_S1024,
    unary main_v1266 main_v1267 (Host.cos : (⟨S1024, .f32⟩ : BufTy).Contents (Elt F) → (⟨S1024, .f32⟩ : BufTy).Contents (Elt F)),
    unary main_v1267 main_v1268 (broadcastInDim S1024x1 ![0] bcast_S1024_S1024x1_0 : (⟨S1024, .f32⟩ : BufTy).Contents (Elt F) → (⟨S1024x1, .f32⟩ : BufTy).Contents (Elt F)),
    unary main_v1266 main_v1269 (Host.sin : (⟨S1024, .f32⟩ : BufTy).Contents (Elt F) → (⟨S1024, .f32⟩ : BufTy).Contents (Elt F)),
    unary main_v1269 main_v1270 (broadcastInDim S1024x1 ![0] bcast_S1024_S1024x1_0 : (⟨S1024, .f32⟩ : BufTy).Contents (Elt F) → (⟨S1024x1, .f32⟩ : BufTy).Contents (Elt F)),
    unary main_v1264 main_v1271 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1271 main_v1272 rfl shapeCasts_S1024x1x16_S1024x16 ]
/-- Operations 21 … 40 of window 22. -/
abbrev st67 : List (HloOp τ sig (Elt F)) :=
  [ unary main_v1268 main_v1273 (broadcastInDim S1024x16 ![0, 1] bcast_S1024x1_S1024x16_0_1 : (⟨S1024x1, .f32⟩ : BufTy).Contents (Elt F) → (⟨S1024x16, .f32⟩ : BufTy).Contents (Elt F)),
    binary main_v1273 main_v1257 main_v1274 (mulf : (⟨S1024x16, .f32⟩ : BufTy).Contents (Elt F) → (⟨S1024x16, .f32⟩ : BufTy).Contents (Elt F) → (⟨S1024x16, .f32⟩ : BufTy).Contents (Elt F)),
    unary main_v1270 main_v1275 (broadcastInDim S1024x16 ![0, 1] bcast_S1024x1_S1024x16_0_1 : (⟨S1024x1, .f32⟩ : BufTy).Contents (Elt F) → (⟨S1024x16, .f32⟩ : BufTy).Contents (Elt F)),
    binary main_v1275 main_v1272 main_v1276 (mulf : (⟨S1024x16, .f32⟩ : BufTy).Contents (Elt F) → (⟨S1024x16, .f32⟩ : BufTy).Contents (Elt F) → (⟨S1024x16, .f32⟩ : BufTy).Contents (Elt F)),
    binary main_v1274 main_v1276 main_v1277 (subf : (⟨S1024x16, .f32⟩ : BufTy).Contents (Elt F) → (⟨S1024x16, .f32⟩ : BufTy).Contents (Elt F) → (⟨S1024x16, .f32⟩ : BufTy).Contents (Elt F)),
    unary main_v1270 main_v1278 (broadcastInDim S1024x16 ![0, 1] bcast_S1024x1_S1024x16_0_1 : (⟨S1024x1, .f32⟩ : BufTy).Contents (Elt F) → (⟨S1024x16, .f32⟩ : BufTy).Contents (Elt F)),
    binary main_v1278 main_v1257 main_v1279 (mulf : (⟨S1024x16, .f32⟩ : BufTy).Contents (Elt F) → (⟨S1024x16, .f32⟩ : BufTy).Contents (Elt F) → (⟨S1024x16, .f32⟩ : BufTy).Contents (Elt F)),
    unary main_v1268 main_v1280 (broadcastInDim S1024x16 ![0, 1] bcast_S1024x1_S1024x16_0_1 : (⟨S1024x1, .f32⟩ : BufTy).Contents (Elt F) → (⟨S1024x16, .f32⟩ : BufTy).Contents (Elt F)),
    binary main_v1280 main_v1272 main_v1281 (mulf : (⟨S1024x16, .f32⟩ : BufTy).Contents (Elt F) → (⟨S1024x16, .f32⟩ : BufTy).Contents (Elt F) → (⟨S1024x16, .f32⟩ : BufTy).Contents (Elt F)),
    binary main_v1279 main_v1281 main_v1282 (addf : (⟨S1024x16, .f32⟩ : BufTy).Contents (Elt F) → (⟨S1024x16, .f32⟩ : BufTy).Contents (Elt F) → (⟨S1024x16, .f32⟩ : BufTy).Contents (Elt F)),
    nullary main_c_66 (constantI S_ 32 13#32),
    unary main_c_66 main_v1283 (broadcastInDim S1 ![] bcast_S_S1 : (⟨S_, .i32⟩ : BufTy).Contents (Elt F) → (⟨S1, .i32⟩ : BufTy).Contents (Elt F)),
    ternary main_v1264 main_v1283 main_v1282 main_v1284 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1285 ((extractStridedSlice S1024x1 ![0, 63] · slices_S1024x120_S1024x1_0_63) : (⟨S1024x120, .f32⟩ : BufTy).Contents (Elt F) → (⟨S1024x1, .f32⟩ : BufTy).Contents (Elt F)),
    reshape main_v1285 main_v1286 rfl shapeCasts_S1024x1_S1024,
    unary main_v1286 main_v1287 (Host.cos : (⟨S1024, .f32⟩ : BufTy).Contents (Elt F) → (⟨S1024, .f32⟩ : BufTy).Contents (Elt F)),
    unary main_v1287 main_v1288 (broadcastInDim S1024x1 ![0] bcast_S1024_S1024x1_0 : (⟨S1024, .f32⟩ : BufTy).Contents (Elt F) → (⟨S1024x1, .f32⟩ : BufTy).Contents (Elt F)),
    unary main_v1286 main_v1289 (Host.sin : (⟨S1024, .f32⟩ : BufTy).Contents (Elt F) → (⟨S1024, .f32⟩ : BufTy).Contents (Elt F)),
    unary main_v1289 main_v1290 (broadcastInDim S1024x1 ![0] bcast_S1024_S1024x1_0 : (⟨S1024, .f32⟩ : BufTy).Contents (Elt F) → (⟨S1024x1, .f32⟩ : BufTy).Contents (Elt F)),
    unary main_v1284 main_v1291 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)) ]
/-- Operations 41 … 60 of window 22. -/
abbrev st68 : List (HloOp τ sig (Elt F)) :=
  [ reshape main_v1291 main_v1292 rfl shapeCasts_S1024x1x16_S1024x16,
    unary main_v1288 main_v1293 (broadcastInDim S1024x16 ![0, 1] bcast_S1024x1_S1024x16_0_1 : (⟨S1024x1, .f32⟩ : BufTy).Contents (Elt F) → (⟨S1024x16, .f32⟩ : BufTy).Contents (Elt F)),
    binary main_v1293 main_v1277 main_v1294 (mulf : (⟨S1024x16, .f32⟩ : BufTy).Contents (Elt F) → (⟨S1024x16, .f32⟩ : BufTy).Contents (Elt F) → (⟨S1024x16, .f32⟩ : BufTy).Contents (Elt F)),
    unary main_v1290 main_v1295 (broadcastInDim S1024x16 ![0, 1] bcast_S1024x1_S1024x16_0_1 : (⟨S1024x1, .f32⟩ : BufTy).Contents (Elt F) → (⟨S1024x16, .f32⟩ : BufTy).Contents (Elt F)),
    binary main_v1295 main_v1292 main_v1296 (mulf : (⟨S1024x16, .f32⟩ : BufTy).Contents (Elt F) → (⟨S1024x16, .f32⟩ : BufTy).Contents (Elt F) → (⟨S1024x16, .f32⟩ : BufTy).Contents (Elt F)),
    binary main_v1294 main_v1296 main_v1297 (subf : (⟨S1024x16, .f32⟩ : BufTy).Contents (Elt F) → (⟨S1024x16, .f32⟩ : BufTy).Contents (Elt F) → (⟨S1024x16, .f32⟩ : BufTy).Contents (Elt F)),
    unary main_v1290 main_v1298 (broadcastInDim S1024x16 ![0, 1] bcast_S1024x1_S1024x16_0_1 : (⟨S1024x1, .f32⟩ : BufTy).Contents (Elt F) → (⟨S1024x16, .f32⟩ : BufTy).Contents (Elt F)),
    binary main_v1298 main_v1277 main_v1299 (mulf : (⟨S1024x16, .f32⟩ : BufTy).Contents (Elt F) → (⟨S1024x16, .f32⟩ : BufTy).Contents (Elt F) → (⟨S1024x16, .f32⟩ : BufTy).Contents (Elt F)),
    unary main_v1288 main_v1300 (broadcastInDim S1024x16 ![0, 1] bcast_S1024x1_S1024x16_0_1 : (⟨S1024x1, .f32⟩ : BufTy).Contents (Elt F) → (⟨S1024x16, .f32⟩ : BufTy).Contents (Elt F)),
    binary main_v1300 main_v1292 main_v1301 (mulf : (⟨S1024x16, .f32⟩ : BufTy).Contents (Elt F) → (⟨S1024x16, .f32⟩ : BufTy).Contents (Elt F) → (⟨S1024x16, .f32⟩ : BufTy).Contents (Elt F)),
    binary main_v1299 main_v1301 main_v1302 (addf : (⟨S1024x16, .f32⟩ : BufTy).Contents (Elt F) → (⟨S1024x16, .f32⟩ : BufTy).Contents (Elt F) → (⟨S1024x16, .f32⟩ : BufTy).Contents (Elt F)),
    nullary main_c_67 (constantI S_ 32 14#32),
    unary main_c_67 main_v1303 (broadcastInDim S1 ![] bcast_S_S1 : (⟨S_, .i32⟩ : BufTy).Contents (Elt F) → (⟨S1, .i32⟩ : BufTy).Contents (Elt F)),
    ternary main_v1284 main_v1303 main_v1302 main_v1304 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1305 ((extractStridedSlice S1024x1 ![0, 64] · slices_S1024x120_S1024x1_0_64) : (⟨S1024x120, .f32⟩ : BufTy).Contents (Elt F) → (⟨S1024x1, .f32⟩ : BufTy).Contents (Elt F)),
    reshape main_v1305 main_v1306 rfl shapeCasts_S1024x1_S1024,
    unary main_v1306 main_v1307 (Host.cos : (⟨S1024, .f32⟩ : BufTy).Contents (Elt F) → (⟨S1024, .f32⟩ : BufTy).Contents (Elt F)),
    unary main_v1307 main_v1308 (broadcastInDim S1024x1 ![0] bcast_S1024_S1024x1_0 : (⟨S1024, .f32⟩ : BufTy).Contents (Elt F) → (⟨S1024x1, .f32⟩ : BufTy).Contents (Elt F)),
    unary main_v1306 main_v1309 (Host.sin : (⟨S1024, .f32⟩ : BufTy).Contents (Elt F) → (⟨S1024, .f32⟩ : BufTy).Contents (Elt F)),
    unary main_v1309 main_v1310 (broadcastInDim S1024x1 ![0] bcast_S1024_S1024x1_0 : (⟨S1024, .f32⟩ : BufTy).Contents (Elt F) → (⟨S1024x1, .f32⟩ : BufTy).Contents (Elt F)) ]
/-- Operations 1 … 20 of window 23. -/
abbrev st69 : List (HloOp τ sig (Elt F)) :=
  [ unary main_v1304 main_v1311 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1311 main_v1312 rfl shapeCasts_S1024x1x16_S1024x16,
    unary main_v1308 main_v1313 (broadcastInDim S1024x16 ![0, 1] bcast_S1024x1_S1024x16_0_1 : (⟨S1024x1, .f32⟩ : BufTy).Contents (Elt F) → (⟨S1024x16, .f32⟩ : BufTy).Contents (Elt F)),
    binary main_v1313 main_v1297 main_v1314 (mulf : (⟨S1024x16, .f32⟩ : BufTy).Contents (Elt F) → (⟨S1024x16, .f32⟩ : BufTy).Contents (Elt F) → (⟨S1024x16, .f32⟩ : BufTy).Contents (Elt F)),
    unary main_v1310 main_v1315 (broadcastInDim S1024x16 ![0, 1] bcast_S1024x1_S1024x16_0_1 : (⟨S1024x1, .f32⟩ : BufTy).Contents (Elt F) → (⟨S1024x16, .f32⟩ : BufTy).Contents (Elt F)),
    binary main_v1315 main_v1312 main_v1316 (mulf : (⟨S1024x16, .f32⟩ : BufTy).Contents (Elt F) → (⟨S1024x16, .f32⟩ : BufTy).Contents (Elt F) → (⟨S1024x16, .f32⟩ : BufTy).Contents (Elt F)),
    binary main_v1314 main_v1316 main_v1317 (subf : (⟨S1024x16, .f32⟩ : BufTy).Contents (Elt F) → (⟨S1024x16, .f32⟩ : BufTy).Contents (Elt F) → (⟨S1024x16, .f32⟩ : BufTy).Contents (Elt F)),
    unary main_v1310 main_v1318 (broadcastInDim S1024x16 ![0, 1] bcast_S1024x1_S1024x16_0_1 : (⟨S1024x1, .f32⟩ : BufTy).Contents (Elt F) → (⟨S1024x16, .f32⟩ : BufTy).Contents (Elt F)),
    binary main_v1318 main_v1297 main_v1319 (mulf : (⟨S1024x16, .f32⟩ : BufTy).Contents (Elt F) → (⟨S1024x16, .f32⟩ : BufTy).Contents (Elt F) → (⟨S1024x16, .f32⟩ : BufTy).Contents (Elt F)),
    unary main_v1308 main_v1320 (broadcastInDim S1024x16 ![0, 1] bcast_S1024x1_S1024x16_0_1 : (⟨S1024x1, .f32⟩ : BufTy).Contents (Elt F) → (⟨S1024x16, .f32⟩ : BufTy).Contents (Elt F)),
    binary main_v1320 main_v1312 main_v1321 (mulf : (⟨S1024x16, .f32⟩ : BufTy).Contents (Elt F) → (⟨S1024x16, .f32⟩ : BufTy).Contents (Elt F) → (⟨S1024x16, .f32⟩ : BufTy).Contents (Elt F)),
    binary main_v1319 main_v1321 main_v1322 (addf : (⟨S1024x16, .f32⟩ : BufTy).Contents (Elt F) → (⟨S1024x16, .f32⟩ : BufTy).Contents (Elt F) → (⟨S1024x16, .f32⟩ : BufTy).Contents (Elt F)),
    nullary main_c_68 (constantI S_ 32 15#32),
    unary main_c_68 main_v1323 (broadcastInDim S1 ![] bcast_S_S1 : (⟨S_, .i32⟩ : BufTy).Contents (Elt F) → (⟨S1, .i32⟩ : BufTy).Contents (Elt F)),
    ternary main_v1304 main_v1323 main_v1322 main_v1324 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_69 (constantI S_ 32 4#32),
    unary main_c_69 main_v1325 (broadcastInDim S1 ![] bcast_S_S1 : (⟨S_, .i32⟩ : BufTy).Contents (Elt F) → (⟨S1, .i32⟩ : BufTy).Contents (Elt F)),
    ternary main_v1324 main_v1325 main_v1317 main_v1326 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v1326 main_v1327 ((extractStridedSlice S1024x1x16 ![0, 5, 0] · slices_S1024x16x16_S1024x1x16_0_5_0) : (⟨S1024x16x16, .f32⟩ : BufTy).Contents (Elt F) → (⟨S1024x1x16, .f32⟩ : BufTy).Contents (Elt F)),
    reshape main_v1327 main_v1328 rfl shapeCasts_S1024x1x16_S1024x16 ]
/-- Operations 21 … 40 of window 23. -/
abbrev st70 : List (HloOp τ sig (Elt F)) :=
  [ unary main_arg1 main_v1329 ((extractStridedSlice S1024x1 ![0, 65] · slices_S1024x120_S1024x1_0_65) : (⟨S1024x120, .f32⟩ : BufTy).Contents (Elt F) → (⟨S1024x1, .f32⟩ : BufTy).Contents (Elt F)),
    reshape main_v1329 main_v1330 rfl shapeCasts_S1024x1_S1024,
    unary main_v1330 main_v1331 (Host.cos : (⟨S1024, .f32⟩ : BufTy).Contents (Elt F) → (⟨S1024, .f32⟩ : BufTy).Contents (Elt F)),
    unary main_v1331 main_v1332 (broadcastInDim S1024x1 ![0] bcast_S1024_S1024x1_0 : (⟨S1024, .f32⟩ : BufTy).Contents (Elt F) → (⟨S1024x1, .f32⟩ : BufTy).Contents (Elt F)),
    unary main_v1330 main_v1333 (Host.sin : (⟨S1024, .f32⟩ : BufTy).Contents (Elt F) → (⟨S1024, .f32⟩ : BufTy).Contents (Elt F)),
    unary main_v1333 main_v1334 (broadcastInDim S1024x1 ![0] bcast_S1024_S1024x1_0 : (⟨S1024, .f32⟩ : BufTy).Contents (Elt F) → (⟨S1024x1, .f32⟩ : BufTy).Contents (Elt F)),
    unary main_v1326 main_v1335 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v1335 main_v1336 rfl shapeCasts_S1024x1x16_S1024x16,
    unary main_v1332 main_v1337 (broadcastInDim S1024x16 ![0, 1] bcast_S1024x1_S1024x16_0_1 : (⟨S1024x1, .f32⟩ : BufTy).Contents (Elt F) → (⟨S1024x16, .f32⟩ : BufTy).Contents (Elt F)),
    binary main_v1337 main_v1328 main_v1338 (mulf : (⟨S1024x16, .f32⟩ : BufTy).Contents (Elt F) → (⟨S1024x16, .f32⟩ : BufTy).Contents (Elt F) → (⟨S1024x16, .f32⟩ : BufTy).Contents (Elt F)),
    unary main_v1334 main_v1339 (broadcastInDim S1024x16 ![0, 1] bcast_S1024x1_S1024x16_0_1 : (⟨S1024x1, .f32⟩ : BufTy).Contents (Elt F) → (⟨S1024x16, .f32⟩ : BufTy).Contents (Elt F)),
    binary main_v1339 main_v1336 main_v1340 (mulf : (⟨S1024x16, .f32⟩ : BufTy).Contents (Elt F) → (⟨S1024x16, .f32⟩ : BufTy).Contents (Elt F) → (⟨S1024x16, .f32⟩ : BufTy).Contents (Elt F)),
    binary main_v1338 main_v1340 main_v1341 (subf : (⟨S1024x16, .f32⟩ : BufTy).Contents (Elt F) → (⟨S1024x16, .f32⟩ : BufTy).Contents (Elt F) → (⟨S1024x16, .f32⟩ : BufTy).Contents (Elt F)),
    unary main_v1334 main_v1342 (broadcastInDim S1024x16 ![0, 1] bcast_S1024x1_S1024x16_0_1 : (⟨S1024x1, .f32⟩ : BufTy).Contents (Elt F) → (⟨S1024x16, .f32⟩ : BufTy).Contents (Elt F)),
    binary main_v1342 main_v1328 main_v1343 (mulf : (⟨S1024x16, .f32⟩ : BufTy).Contents (Elt F) → (⟨S1024x16, .f32⟩ : BufTy).Contents (Elt F) → (⟨S1024x16, .f32⟩ : BufTy).Contents (Elt F)),
    unary main_v1332 main_v1344 (broadcastInDim S1024x16 ![0, 1] bcast_S1024x1_S1024x16_0_1 : (⟨S1024x1, .f32⟩ : BufTy).Contents (Elt F) → (⟨S1024x16, .f32⟩ : BufTy).Contents (Elt F)),
    binary main_v1344 main_v1336 main_v1345 (mulf : (⟨S1024x16, .f32⟩ : BufTy).Contents (Elt F) → (⟨S1024x16, .f32⟩ : BufTy).Contents (Elt F) → (⟨S1024x16, .f32⟩ : BufTy).Contents (Elt F)),
    binary main_v1343 main_v1345 main_v1346 (addf : (⟨S1024x16, .f32⟩ : BufTy).Contents (Elt F) → (⟨S1024x16, .f32⟩ : BufTy).Contents (Elt F) → (⟨S1024x16, .f32⟩ : BufTy).Contents (Elt F)),
    nullary main_c_70 (constantI S_ 32 6#32),
    unary main_c_70 main_v1347 (broadcastInDim S1 ![] bcast_S_S1 : (⟨S_, .i32⟩ : BufTy).Contents (Elt F) → (⟨S1, .i32⟩ : BufTy).Contents (Elt F)) ]
/-- Operations 41 … 60 of window 23. -/
abbrev st71 : List (HloOp τ sig (Elt F)) :=
  [ ternary main_v1326 main_v1347 main_v1346 main_v1348 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1349 ((extractStridedSlice S1024x1 ![0, 66] · slices_S1024x120_S1024x1_0_66) : (⟨S1024x120, .f32⟩ : BufTy).Contents (Elt F) → (⟨S1024x1, .f32⟩ : BufTy).Contents (Elt F)),
    reshape main_v1349 main_v1350 rfl shapeCasts_S1024x1_S1024,
    unary main_v1350 main_v1351 (Host.cos : (⟨S1024, .f32⟩ : BufTy).Contents (Elt F) → (⟨S1024, .f32⟩ : BufTy).Contents (Elt F)),
    unary main_v1351 main_v1352 (broadcastInDim S1024x1 ![0] bcast_S1024_S1024x1_0 : (⟨S1024, .f32⟩ : BufTy).Contents (Elt F) → (⟨S1024x1, .f32⟩ : BufTy).Contents (Elt F)),
    unary main_v1350 main_v1353 (Host.sin : (⟨S1024, .f32⟩ : BufTy).Contents (Elt F) → (⟨S1024, .f32⟩ : BufTy).Contents (Elt F)),
    unary main_v1353 main_v1354 (broadcastInDim S1024x1 ![0] bcast_S1024_S1024x1_0 : (⟨S1024, .f32⟩ : BufTy).Contents (Elt F) → (⟨S1024x1, .f32⟩ : BufTy).Contents (Elt F)),
    unary main_v1348 main_v1355 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v1355 main_v1356 rfl shapeCasts_S1024x1x16_S1024x16,
    unary main_v1352 main_v1357 (broadcastInDim S1024x16 ![0, 1] bcast_S1024x1_S1024x16_0_1 : (⟨S1024x1, .f32⟩ : BufTy).Contents (Elt F) → (⟨S1024x16, .f32⟩ : BufTy).Contents (Elt F)),
    binary main_v1357 main_v1341 main_v1358 (mulf : (⟨S1024x16, .f32⟩ : BufTy).Contents (Elt F) → (⟨S1024x16, .f32⟩ : BufTy).Contents (Elt F) → (⟨S1024x16, .f32⟩ : BufTy).Contents (Elt F)),
    unary main_v1354 main_v1359 (broadcastInDim S1024x16 ![0, 1] bcast_S1024x1_S1024x16_0_1 : (⟨S1024x1, .f32⟩ : BufTy).Contents (Elt F) → (⟨S1024x16, .f32⟩ : BufTy).Contents (Elt F)),
    binary main_v1359 main_v1356 main_v1360 (mulf : (⟨S1024x16, .f32⟩ : BufTy).Contents (Elt F) → (⟨S1024x16, .f32⟩ : BufTy).Contents (Elt F) → (⟨S1024x16, .f32⟩ : BufTy).Contents (Elt F)),
    binary main_v1358 main_v1360 main_v1361 (subf : (⟨S1024x16, .f32⟩ : BufTy).Contents (Elt F) → (⟨S1024x16, .f32⟩ : BufTy).Contents (Elt F) → (⟨S1024x16, .f32⟩ : BufTy).Contents (Elt F)),
    unary main_v1354 main_v1362 (broadcastInDim S1024x16 ![0, 1] bcast_S1024x1_S1024x16_0_1 : (⟨S1024x1, .f32⟩ : BufTy).Contents (Elt F) → (⟨S1024x16, .f32⟩ : BufTy).Contents (Elt F)),
    binary main_v1362 main_v1341 main_v1363 (mulf : (⟨S1024x16, .f32⟩ : BufTy).Contents (Elt F) → (⟨S1024x16, .f32⟩ : BufTy).Contents (Elt F) → (⟨S1024x16, .f32⟩ : BufTy).Contents (Elt F)),
    unary main_v1352 main_v1364 (broadcastInDim S1024x16 ![0, 1] bcast_S1024x1_S1024x16_0_1 : (⟨S1024x1, .f32⟩ : BufTy).Contents (Elt F) → (⟨S1024x16, .f32⟩ : BufTy).Contents (Elt F)),
    binary main_v1364 main_v1356 main_v1365 (mulf : (⟨S1024x16, .f32⟩ : BufTy).Contents (Elt F) → (⟨S1024x16, .f32⟩ : BufTy).Contents (Elt F) → (⟨S1024x16, .f32⟩ : BufTy).Contents (Elt F)),
    binary main_v1363 main_v1365 main_v1366 (addf : (⟨S1024x16, .f32⟩ : BufTy).Contents (Elt F) → (⟨S1024x16, .f32⟩ : BufTy).Contents (Elt F) → (⟨S1024x16, .f32⟩ : BufTy).Contents (Elt F)),
    nullary main_c_71 (constantI S_ 32 7#32) ]
/-- Operations 1 … 20 of window 24. -/
abbrev st72 : List (HloOp τ sig (Elt F)) :=
  [ unary main_c_71 main_v1367 (broadcastInDim S1 ![] bcast_S_S1 : (⟨S_, .i32⟩ : BufTy).Contents (Elt F) → (⟨S1, .i32⟩ : BufTy).Contents (Elt F)),
    ternary main_v1348 main_v1367 main_v1366 main_v1368 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1369 ((extractStridedSlice S1024x1 ![0, 67] · slices_S1024x120_S1024x1_0_67) : (⟨S1024x120, .f32⟩ : BufTy).Contents (Elt F) → (⟨S1024x1, .f32⟩ : BufTy).Contents (Elt F)),
    reshape main_v1369 main_v1370 rfl shapeCasts_S1024x1_S1024,
    unary main_v1370 main_v1371 (Host.cos : (⟨S1024, .f32⟩ : BufTy).Contents (Elt F) → (⟨S1024, .f32⟩ : BufTy).Contents (Elt F)),
    unary main_v1371 main_v1372 (broadcastInDim S1024x1 ![0] bcast_S1024_S1024x1_0 : (⟨S1024, .f32⟩ : BufTy).Contents (Elt F) → (⟨S1024x1, .f32⟩ : BufTy).Contents (Elt F)),
    unary main_v1370 main_v1373 (Host.sin : (⟨S1024, .f32⟩ : BufTy).Contents (Elt F) → (⟨S1024, .f32⟩ : BufTy).Contents (Elt F)),
    unary main_v1373 main_v1374 (broadcastInDim S1024x1 ![0] bcast_S1024_S1024x1_0 : (⟨S1024, .f32⟩ : BufTy).Contents (Elt F) → (⟨S1024x1, .f32⟩ : BufTy).Contents (Elt F)),
    unary main_v1368 main_v1375 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1375 main_v1376 rfl shapeCasts_S1024x1x16_S1024x16,
    unary main_v1372 main_v1377 (broadcastInDim S1024x16 ![0, 1] bcast_S1024x1_S1024x16_0_1 : (⟨S1024x1, .f32⟩ : BufTy).Contents (Elt F) → (⟨S1024x16, .f32⟩ : BufTy).Contents (Elt F)),
    binary main_v1377 main_v1361 main_v1378 (mulf : (⟨S1024x16, .f32⟩ : BufTy).Contents (Elt F) → (⟨S1024x16, .f32⟩ : BufTy).Contents (Elt F) → (⟨S1024x16, .f32⟩ : BufTy).Contents (Elt F)),
    unary main_v1374 main_v1379 (broadcastInDim S1024x16 ![0, 1] bcast_S1024x1_S1024x16_0_1 : (⟨S1024x1, .f32⟩ : BufTy).Contents (Elt F) → (⟨S1024x16, .f32⟩ : BufTy).Contents (Elt F)),
    binary main_v1379 main_v1376 main_v1380 (mulf : (⟨S1024x16, .f32⟩ : BufTy).Contents (Elt F) → (⟨S1024x16, .f32⟩ : BufTy).Contents (Elt F) → (⟨S1024x16, .f32⟩ : BufTy).Contents (Elt F)),
    binary main_v1378 main_v1380 main_v1381 (subf : (⟨S1024x16, .f32⟩ : BufTy).Contents (Elt F) → (⟨S1024x16, .f32⟩ : BufTy).Contents (Elt F) → (⟨S1024x16, .f32⟩ : BufTy).Contents (Elt F)),
    unary main_v1374 main_v1382 (broadcastInDim S1024x16 ![0, 1] bcast_S1024x1_S1024x16_0_1 : (⟨S1024x1, .f32⟩ : BufTy).Contents (Elt F) → (⟨S1024x16, .f32⟩ : BufTy).Contents (Elt F)),
    binary main_v1382 main_v1361 main_v1383 (mulf : (⟨S1024x16, .f32⟩ : BufTy).Contents (Elt F) → (⟨S1024x16, .f32⟩ : BufTy).Contents (Elt F) → (⟨S1024x16, .f32⟩ : BufTy).Contents (Elt F)),
    unary main_v1372 main_v1384 (broadcastInDim S1024x16 ![0, 1] bcast_S1024x1_S1024x16_0_1 : (⟨S1024x1, .f32⟩ : BufTy).Contents (Elt F) → (⟨S1024x16, .f32⟩ : BufTy).Contents (Elt F)),
    binary main_v1384 main_v1376 main_v1385 (mulf : (⟨S1024x16, .f32⟩ : BufTy).Contents (Elt F) → (⟨S1024x16, .f32⟩ : BufTy).Contents (Elt F) → (⟨S1024x16, .f32⟩ : BufTy).Contents (Elt F)),
    binary main_v1383 main_v1385 main_v1386 (addf : (⟨S1024x16, .f32⟩ : BufTy).Contents (Elt F) → (⟨S1024x16, .f32⟩ : BufTy).Contents (Elt F) → (⟨S1024x16, .f32⟩ : BufTy).Contents (Elt F)) ]
/-- Operations 21 … 40 of window 24. -/
abbrev st73 : List (HloOp τ sig (Elt F)) :=
  [ nullary main_c_72 (constantI S_ 32 8#32),
    unary main_c_72 main_v1387 (broadcastInDim S1 ![] bcast_S_S1 : (⟨S_, .i32⟩ : BufTy).Contents (Elt F) → (⟨S1, .i32⟩ : BufTy).Contents (Elt F)),
    ternary main_v1368 main_v1387 main_v1386 main_v1388 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1389 ((extractStridedSlice S1024x1 ![0, 68] · slices_S1024x120_S1024x1_0_68) : (⟨S1024x120, .f32⟩ : BufTy).Contents (Elt F) → (⟨S1024x1, .f32⟩ : BufTy).Contents (Elt F)),
    reshape main_v1389 main_v1390 rfl shapeCasts_S1024x1_S1024,
    unary main_v1390 main_v1391 (Host.cos : (⟨S1024, .f32⟩ : BufTy).Contents (Elt F) → (⟨S1024, .f32⟩ : BufTy).Contents (Elt F)),
    unary main_v1391 main_v1392 (broadcastInDim S1024x1 ![0] bcast_S1024_S1024x1_0 : (⟨S1024, .f32⟩ : BufTy).Contents (Elt F) → (⟨S1024x1, .f32⟩ : BufTy).Contents (Elt F)),
    unary main_v1390 main_v1393 (Host.sin : (⟨S1024, .f32⟩ : BufTy).Contents (Elt F) → (⟨S1024, .f32⟩ : BufTy).Contents (Elt F)),
    unary main_v1393 main_v1394 (broadcastInDim S1024x1 ![0] bcast_S1024_S1024x1_0 : (⟨S1024, .f32⟩ : BufTy).Contents (Elt F) → (⟨S1024x1, .f32⟩ : BufTy).Contents (Elt F)),
    unary main_v1388 main_v1395 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1395 main_v1396 rfl shapeCasts_S1024x1x16_S1024x16,
    unary main_v1392 main_v1397 (broadcastInDim S1024x16 ![0, 1] bcast_S1024x1_S1024x16_0_1 : (⟨S1024x1, .f32⟩ : BufTy).Contents (Elt F) → (⟨S1024x16, .f32⟩ : BufTy).Contents (Elt F)),
    binary main_v1397 main_v1381 main_v1398 (mulf : (⟨S1024x16, .f32⟩ : BufTy).Contents (Elt F) → (⟨S1024x16, .f32⟩ : BufTy).Contents (Elt F) → (⟨S1024x16, .f32⟩ : BufTy).Contents (Elt F)),
    unary main_v1394 main_v1399 (broadcastInDim S1024x16 ![0, 1] bcast_S1024x1_S1024x16_0_1 : (⟨S1024x1, .f32⟩ : BufTy).Contents (Elt F) → (⟨S1024x16, .f32⟩ : BufTy).Contents (Elt F)),
    binary main_v1399 main_v1396 main_v1400 (mulf : (⟨S1024x16, .f32⟩ : BufTy).Contents (Elt F) → (⟨S1024x16, .f32⟩ : BufTy).Contents (Elt F) → (⟨S1024x16, .f32⟩ : BufTy).Contents (Elt F)),
    binary main_v1398 main_v1400 main_v1401 (subf : (⟨S1024x16, .f32⟩ : BufTy).Contents (Elt F) → (⟨S1024x16, .f32⟩ : BufTy).Contents (Elt F) → (⟨S1024x16, .f32⟩ : BufTy).Contents (Elt F)),
    unary main_v1394 main_v1402 (broadcastInDim S1024x16 ![0, 1] bcast_S1024x1_S1024x16_0_1 : (⟨S1024x1, .f32⟩ : BufTy).Contents (Elt F) → (⟨S1024x16, .f32⟩ : BufTy).Contents (Elt F)),
    binary main_v1402 main_v1381 main_v1403 (mulf : (⟨S1024x16, .f32⟩ : BufTy).Contents (Elt F) → (⟨S1024x16, .f32⟩ : BufTy).Contents (Elt F) → (⟨S1024x16, .f32⟩ : BufTy).Contents (Elt F)),
    unary main_v1392 main_v1404 (broadcastInDim S1024x16 ![0, 1] bcast_S1024x1_S1024x16_0_1 : (⟨S1024x1, .f32⟩ : BufTy).Contents (Elt F) → (⟨S1024x16, .f32⟩ : BufTy).Contents (Elt F)),
    binary main_v1404 main_v1396 main_v1405 (mulf : (⟨S1024x16, .f32⟩ : BufTy).Contents (Elt F) → (⟨S1024x16, .f32⟩ : BufTy).Contents (Elt F) → (⟨S1024x16, .f32⟩ : BufTy).Contents (Elt F)) ]
/-- Operations 41 … 60 of window 24. -/
abbrev st74 : List (HloOp τ sig (Elt F)) :=
  [ binary main_v1403 main_v1405 main_v1406 (addf : (⟨S1024x16, .f32⟩ : BufTy).Contents (Elt F) → (⟨S1024x16, .f32⟩ : BufTy).Contents (Elt F) → (⟨S1024x16, .f32⟩ : BufTy).Contents (Elt F)),
    nullary main_c_73 (constantI S_ 32 9#32),
    unary main_c_73 main_v1407 (broadcastInDim S1 ![] bcast_S_S1 : (⟨S_, .i32⟩ : BufTy).Contents (Elt F) → (⟨S1, .i32⟩ : BufTy).Contents (Elt F)),
    ternary main_v1388 main_v1407 main_v1406 main_v1408 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1409 ((extractStridedSlice S1024x1 ![0, 69] · slices_S1024x120_S1024x1_0_69) : (⟨S1024x120, .f32⟩ : BufTy).Contents (Elt F) → (⟨S1024x1, .f32⟩ : BufTy).Contents (Elt F)),
    reshape main_v1409 main_v1410 rfl shapeCasts_S1024x1_S1024,
    unary main_v1410 main_v1411 (Host.cos : (⟨S1024, .f32⟩ : BufTy).Contents (Elt F) → (⟨S1024, .f32⟩ : BufTy).Contents (Elt F)),
    unary main_v1411 main_v1412 (broadcastInDim S1024x1 ![0] bcast_S1024_S1024x1_0 : (⟨S1024, .f32⟩ : BufTy).Contents (Elt F) → (⟨S1024x1, .f32⟩ : BufTy).Contents (Elt F)),
    unary main_v1410 main_v1413 (Host.sin : (⟨S1024, .f32⟩ : BufTy).Contents (Elt F) → (⟨S1024, .f32⟩ : BufTy).Contents (Elt F)),
    unary main_v1413 main_v1414 (broadcastInDim S1024x1 ![0] bcast_S1024_S1024x1_0 : (⟨S1024, .f32⟩ : BufTy).Contents (Elt F) → (⟨S1024x1, .f32⟩ : BufTy).Contents (Elt F)),
    unary main_v1408 main_v1415 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1415 main_v1416 rfl shapeCasts_S1024x1x16_S1024x16,
    unary main_v1412 main_v1417 (broadcastInDim S1024x16 ![0, 1] bcast_S1024x1_S1024x16_0_1 : (⟨S1024x1, .f32⟩ : BufTy).Contents (Elt F) → (⟨S1024x16, .f32⟩ : BufTy).Contents (Elt F)),
    binary main_v1417 main_v1401 main_v1418 (mulf : (⟨S1024x16, .f32⟩ : BufTy).Contents (Elt F) → (⟨S1024x16, .f32⟩ : BufTy).Contents (Elt F) → (⟨S1024x16, .f32⟩ : BufTy).Contents (Elt F)),
    unary main_v1414 main_v1419 (broadcastInDim S1024x16 ![0, 1] bcast_S1024x1_S1024x16_0_1 : (⟨S1024x1, .f32⟩ : BufTy).Contents (Elt F) → (⟨S1024x16, .f32⟩ : BufTy).Contents (Elt F)),
    binary main_v1419 main_v1416 main_v1420 (mulf : (⟨S1024x16, .f32⟩ : BufTy).Contents (Elt F) → (⟨S1024x16, .f32⟩ : BufTy).Contents (Elt F) → (⟨S1024x16, .f32⟩ : BufTy).Contents (Elt F)),
    binary main_v1418 main_v1420 main_v1421 (subf : (⟨S1024x16, .f32⟩ : BufTy).Contents (Elt F) → (⟨S1024x16, .f32⟩ : BufTy).Contents (Elt F) → (⟨S1024x16, .f32⟩ : BufTy).Contents (Elt F)),
    unary main_v1414 main_v1422 (broadcastInDim S1024x16 ![0, 1] bcast_S1024x1_S1024x16_0_1 : (⟨S1024x1, .f32⟩ : BufTy).Contents (Elt F) → (⟨S1024x16, .f32⟩ : BufTy).Contents (Elt F)),
    binary main_v1422 main_v1401 main_v1423 (mulf : (⟨S1024x16, .f32⟩ : BufTy).Contents (Elt F) → (⟨S1024x16, .f32⟩ : BufTy).Contents (Elt F) → (⟨S1024x16, .f32⟩ : BufTy).Contents (Elt F)),
    unary main_v1412 main_v1424 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 25. -/
abbrev st75 : List (HloOp τ sig (Elt F)) :=
  [ binary main_v1424 main_v1416 main_v1425 (mulf : (⟨S1024x16, .f32⟩ : BufTy).Contents (Elt F) → (⟨S1024x16, .f32⟩ : BufTy).Contents (Elt F) → (⟨S1024x16, .f32⟩ : BufTy).Contents (Elt F)),
    binary main_v1423 main_v1425 main_v1426 (addf : (⟨S1024x16, .f32⟩ : BufTy).Contents (Elt F) → (⟨S1024x16, .f32⟩ : BufTy).Contents (Elt F) → (⟨S1024x16, .f32⟩ : BufTy).Contents (Elt F)),
    nullary main_c_74 (constantI S_ 32 10#32),
    unary main_c_74 main_v1427 (broadcastInDim S1 ![] bcast_S_S1 : (⟨S_, .i32⟩ : BufTy).Contents (Elt F) → (⟨S1, .i32⟩ : BufTy).Contents (Elt F)),
    ternary main_v1408 main_v1427 main_v1426 main_v1428 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1429 ((extractStridedSlice S1024x1 ![0, 70] · slices_S1024x120_S1024x1_0_70) : (⟨S1024x120, .f32⟩ : BufTy).Contents (Elt F) → (⟨S1024x1, .f32⟩ : BufTy).Contents (Elt F)),
    reshape main_v1429 main_v1430 rfl shapeCasts_S1024x1_S1024,
    unary main_v1430 main_v1431 (Host.cos : (⟨S1024, .f32⟩ : BufTy).Contents (Elt F) → (⟨S1024, .f32⟩ : BufTy).Contents (Elt F)),
    unary main_v1431 main_v1432 (broadcastInDim S1024x1 ![0] bcast_S1024_S1024x1_0 : (⟨S1024, .f32⟩ : BufTy).Contents (Elt F) → (⟨S1024x1, .f32⟩ : BufTy).Contents (Elt F)),
    unary main_v1430 main_v1433 (Host.sin : (⟨S1024, .f32⟩ : BufTy).Contents (Elt F) → (⟨S1024, .f32⟩ : BufTy).Contents (Elt F)),
    unary main_v1433 main_v1434 (broadcastInDim S1024x1 ![0] bcast_S1024_S1024x1_0 : (⟨S1024, .f32⟩ : BufTy).Contents (Elt F) → (⟨S1024x1, .f32⟩ : BufTy).Contents (Elt F)),
    unary main_v1428 main_v1435 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1435 main_v1436 rfl shapeCasts_S1024x1x16_S1024x16,
    unary main_v1432 main_v1437 (broadcastInDim S1024x16 ![0, 1] bcast_S1024x1_S1024x16_0_1 : (⟨S1024x1, .f32⟩ : BufTy).Contents (Elt F) → (⟨S1024x16, .f32⟩ : BufTy).Contents (Elt F)),
    binary main_v1437 main_v1421 main_v1438 (mulf : (⟨S1024x16, .f32⟩ : BufTy).Contents (Elt F) → (⟨S1024x16, .f32⟩ : BufTy).Contents (Elt F) → (⟨S1024x16, .f32⟩ : BufTy).Contents (Elt F)),
    unary main_v1434 main_v1439 (broadcastInDim S1024x16 ![0, 1] bcast_S1024x1_S1024x16_0_1 : (⟨S1024x1, .f32⟩ : BufTy).Contents (Elt F) → (⟨S1024x16, .f32⟩ : BufTy).Contents (Elt F)),
    binary main_v1439 main_v1436 main_v1440 (mulf : (⟨S1024x16, .f32⟩ : BufTy).Contents (Elt F) → (⟨S1024x16, .f32⟩ : BufTy).Contents (Elt F) → (⟨S1024x16, .f32⟩ : BufTy).Contents (Elt F)),
    binary main_v1438 main_v1440 main_v1441 (subf : (⟨S1024x16, .f32⟩ : BufTy).Contents (Elt F) → (⟨S1024x16, .f32⟩ : BufTy).Contents (Elt F) → (⟨S1024x16, .f32⟩ : BufTy).Contents (Elt F)),
    unary main_v1434 main_v1442 (broadcastInDim S1024x16 ![0, 1] bcast_S1024x1_S1024x16_0_1 : (⟨S1024x1, .f32⟩ : BufTy).Contents (Elt F) → (⟨S1024x16, .f32⟩ : BufTy).Contents (Elt F)),
    binary main_v1442 main_v1421 main_v1443 (mulf : (⟨S1024x16, .f32⟩ : BufTy).Contents (Elt F) → (⟨S1024x16, .f32⟩ : BufTy).Contents (Elt F) → (⟨S1024x16, .f32⟩ : BufTy).Contents (Elt F)) ]
/-- Operations 21 … 40 of window 25. -/
abbrev st76 : List (HloOp τ sig (Elt F)) :=
  [ unary main_v1432 main_v1444 (broadcastInDim S1024x16 ![0, 1] bcast_S1024x1_S1024x16_0_1 : (⟨S1024x1, .f32⟩ : BufTy).Contents (Elt F) → (⟨S1024x16, .f32⟩ : BufTy).Contents (Elt F)),
    binary main_v1444 main_v1436 main_v1445 (mulf : (⟨S1024x16, .f32⟩ : BufTy).Contents (Elt F) → (⟨S1024x16, .f32⟩ : BufTy).Contents (Elt F) → (⟨S1024x16, .f32⟩ : BufTy).Contents (Elt F)),
    binary main_v1443 main_v1445 main_v1446 (addf : (⟨S1024x16, .f32⟩ : BufTy).Contents (Elt F) → (⟨S1024x16, .f32⟩ : BufTy).Contents (Elt F) → (⟨S1024x16, .f32⟩ : BufTy).Contents (Elt F)),
    nullary main_c_75 (constantI S_ 32 11#32),
    unary main_c_75 main_v1447 (broadcastInDim S1 ![] bcast_S_S1 : (⟨S_, .i32⟩ : BufTy).Contents (Elt F) → (⟨S1, .i32⟩ : BufTy).Contents (Elt F)),
    ternary main_v1428 main_v1447 main_v1446 main_v1448 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1449 ((extractStridedSlice S1024x1 ![0, 71] · slices_S1024x120_S1024x1_0_71) : (⟨S1024x120, .f32⟩ : BufTy).Contents (Elt F) → (⟨S1024x1, .f32⟩ : BufTy).Contents (Elt F)),
    reshape main_v1449 main_v1450 rfl shapeCasts_S1024x1_S1024,
    unary main_v1450 main_v1451 (Host.cos : (⟨S1024, .f32⟩ : BufTy).Contents (Elt F) → (⟨S1024, .f32⟩ : BufTy).Contents (Elt F)),
    unary main_v1451 main_v1452 (broadcastInDim S1024x1 ![0] bcast_S1024_S1024x1_0 : (⟨S1024, .f32⟩ : BufTy).Contents (Elt F) → (⟨S1024x1, .f32⟩ : BufTy).Contents (Elt F)),
    unary main_v1450 main_v1453 (Host.sin : (⟨S1024, .f32⟩ : BufTy).Contents (Elt F) → (⟨S1024, .f32⟩ : BufTy).Contents (Elt F)),
    unary main_v1453 main_v1454 (broadcastInDim S1024x1 ![0] bcast_S1024_S1024x1_0 : (⟨S1024, .f32⟩ : BufTy).Contents (Elt F) → (⟨S1024x1, .f32⟩ : BufTy).Contents (Elt F)),
    unary main_v1448 main_v1455 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1455 main_v1456 rfl shapeCasts_S1024x1x16_S1024x16,
    unary main_v1452 main_v1457 (broadcastInDim S1024x16 ![0, 1] bcast_S1024x1_S1024x16_0_1 : (⟨S1024x1, .f32⟩ : BufTy).Contents (Elt F) → (⟨S1024x16, .f32⟩ : BufTy).Contents (Elt F)),
    binary main_v1457 main_v1441 main_v1458 (mulf : (⟨S1024x16, .f32⟩ : BufTy).Contents (Elt F) → (⟨S1024x16, .f32⟩ : BufTy).Contents (Elt F) → (⟨S1024x16, .f32⟩ : BufTy).Contents (Elt F)),
    unary main_v1454 main_v1459 (broadcastInDim S1024x16 ![0, 1] bcast_S1024x1_S1024x16_0_1 : (⟨S1024x1, .f32⟩ : BufTy).Contents (Elt F) → (⟨S1024x16, .f32⟩ : BufTy).Contents (Elt F)),
    binary main_v1459 main_v1456 main_v1460 (mulf : (⟨S1024x16, .f32⟩ : BufTy).Contents (Elt F) → (⟨S1024x16, .f32⟩ : BufTy).Contents (Elt F) → (⟨S1024x16, .f32⟩ : BufTy).Contents (Elt F)),
    binary main_v1458 main_v1460 main_v1461 (subf : (⟨S1024x16, .f32⟩ : BufTy).Contents (Elt F) → (⟨S1024x16, .f32⟩ : BufTy).Contents (Elt F) → (⟨S1024x16, .f32⟩ : BufTy).Contents (Elt F)),
    unary main_v1454 main_v1462 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 25. -/
abbrev st77 : List (HloOp τ sig (Elt F)) :=
  [ binary main_v1462 main_v1441 main_v1463 (mulf : (⟨S1024x16, .f32⟩ : BufTy).Contents (Elt F) → (⟨S1024x16, .f32⟩ : BufTy).Contents (Elt F) → (⟨S1024x16, .f32⟩ : BufTy).Contents (Elt F)),
    unary main_v1452 main_v1464 (broadcastInDim S1024x16 ![0, 1] bcast_S1024x1_S1024x16_0_1 : (⟨S1024x1, .f32⟩ : BufTy).Contents (Elt F) → (⟨S1024x16, .f32⟩ : BufTy).Contents (Elt F)),
    binary main_v1464 main_v1456 main_v1465 (mulf : (⟨S1024x16, .f32⟩ : BufTy).Contents (Elt F) → (⟨S1024x16, .f32⟩ : BufTy).Contents (Elt F) → (⟨S1024x16, .f32⟩ : BufTy).Contents (Elt F)),
    binary main_v1463 main_v1465 main_v1466 (addf : (⟨S1024x16, .f32⟩ : BufTy).Contents (Elt F) → (⟨S1024x16, .f32⟩ : BufTy).Contents (Elt F) → (⟨S1024x16, .f32⟩ : BufTy).Contents (Elt F)),
    nullary main_c_76 (constantI S_ 32 12#32),
    unary main_c_76 main_v1467 (broadcastInDim S1 ![] bcast_S_S1 : (⟨S_, .i32⟩ : BufTy).Contents (Elt F) → (⟨S1, .i32⟩ : BufTy).Contents (Elt F)),
    ternary main_v1448 main_v1467 main_v1466 main_v1468 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1469 ((extractStridedSlice S1024x1 ![0, 72] · slices_S1024x120_S1024x1_0_72) : (⟨S1024x120, .f32⟩ : BufTy).Contents (Elt F) → (⟨S1024x1, .f32⟩ : BufTy).Contents (Elt F)),
    reshape main_v1469 main_v1470 rfl shapeCasts_S1024x1_S1024,
    unary main_v1470 main_v1471 (Host.cos : (⟨S1024, .f32⟩ : BufTy).Contents (Elt F) → (⟨S1024, .f32⟩ : BufTy).Contents (Elt F)),
    unary main_v1471 main_v1472 (broadcastInDim S1024x1 ![0] bcast_S1024_S1024x1_0 : (⟨S1024, .f32⟩ : BufTy).Contents (Elt F) → (⟨S1024x1, .f32⟩ : BufTy).Contents (Elt F)),
    unary main_v1470 main_v1473 (Host.sin : (⟨S1024, .f32⟩ : BufTy).Contents (Elt F) → (⟨S1024, .f32⟩ : BufTy).Contents (Elt F)),
    unary main_v1473 main_v1474 (broadcastInDim S1024x1 ![0] bcast_S1024_S1024x1_0 : (⟨S1024, .f32⟩ : BufTy).Contents (Elt F) → (⟨S1024x1, .f32⟩ : BufTy).Contents (Elt F)),
    unary main_v1468 main_v1475 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1475 main_v1476 rfl shapeCasts_S1024x1x16_S1024x16,
    unary main_v1472 main_v1477 (broadcastInDim S1024x16 ![0, 1] bcast_S1024x1_S1024x16_0_1 : (⟨S1024x1, .f32⟩ : BufTy).Contents (Elt F) → (⟨S1024x16, .f32⟩ : BufTy).Contents (Elt F)),
    binary main_v1477 main_v1461 main_v1478 (mulf : (⟨S1024x16, .f32⟩ : BufTy).Contents (Elt F) → (⟨S1024x16, .f32⟩ : BufTy).Contents (Elt F) → (⟨S1024x16, .f32⟩ : BufTy).Contents (Elt F)),
    unary main_v1474 main_v1479 (broadcastInDim S1024x16 ![0, 1] bcast_S1024x1_S1024x16_0_1 : (⟨S1024x1, .f32⟩ : BufTy).Contents (Elt F) → (⟨S1024x16, .f32⟩ : BufTy).Contents (Elt F)),
    binary main_v1479 main_v1476 main_v1480 (mulf : (⟨S1024x16, .f32⟩ : BufTy).Contents (Elt F) → (⟨S1024x16, .f32⟩ : BufTy).Contents (Elt F) → (⟨S1024x16, .f32⟩ : BufTy).Contents (Elt F)),
    binary main_v1478 main_v1480 main_v1481 (subf : (⟨S1024x16, .f32⟩ : BufTy).Contents (Elt F) → (⟨S1024x16, .f32⟩ : BufTy).Contents (Elt F) → (⟨S1024x16, .f32⟩ : BufTy).Contents (Elt F)) ]
/-- Operations 1 … 20 of window 26. -/
abbrev st78 : List (HloOp τ sig (Elt F)) :=
  [ unary main_v1474 main_v1482 (broadcastInDim S1024x16 ![0, 1] bcast_S1024x1_S1024x16_0_1 : (⟨S1024x1, .f32⟩ : BufTy).Contents (Elt F) → (⟨S1024x16, .f32⟩ : BufTy).Contents (Elt F)),
    binary main_v1482 main_v1461 main_v1483 (mulf : (⟨S1024x16, .f32⟩ : BufTy).Contents (Elt F) → (⟨S1024x16, .f32⟩ : BufTy).Contents (Elt F) → (⟨S1024x16, .f32⟩ : BufTy).Contents (Elt F)),
    unary main_v1472 main_v1484 (broadcastInDim S1024x16 ![0, 1] bcast_S1024x1_S1024x16_0_1 : (⟨S1024x1, .f32⟩ : BufTy).Contents (Elt F) → (⟨S1024x16, .f32⟩ : BufTy).Contents (Elt F)),
    binary main_v1484 main_v1476 main_v1485 (mulf : (⟨S1024x16, .f32⟩ : BufTy).Contents (Elt F) → (⟨S1024x16, .f32⟩ : BufTy).Contents (Elt F) → (⟨S1024x16, .f32⟩ : BufTy).Contents (Elt F)),
    binary main_v1483 main_v1485 main_v1486 (addf : (⟨S1024x16, .f32⟩ : BufTy).Contents (Elt F) → (⟨S1024x16, .f32⟩ : BufTy).Contents (Elt F) → (⟨S1024x16, .f32⟩ : BufTy).Contents (Elt F)),
    nullary main_c_77 (constantI S_ 32 13#32),
    unary main_c_77 main_v1487 (broadcastInDim S1 ![] bcast_S_S1 : (⟨S_, .i32⟩ : BufTy).Contents (Elt F) → (⟨S1, .i32⟩ : BufTy).Contents (Elt F)),
    ternary main_v1468 main_v1487 main_v1486 main_v1488 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1489 ((extractStridedSlice S1024x1 ![0, 73] · slices_S1024x120_S1024x1_0_73) : (⟨S1024x120, .f32⟩ : BufTy).Contents (Elt F) → (⟨S1024x1, .f32⟩ : BufTy).Contents (Elt F)),
    reshape main_v1489 main_v1490 rfl shapeCasts_S1024x1_S1024,
    unary main_v1490 main_v1491 (Host.cos : (⟨S1024, .f32⟩ : BufTy).Contents (Elt F) → (⟨S1024, .f32⟩ : BufTy).Contents (Elt F)),
    unary main_v1491 main_v1492 (broadcastInDim S1024x1 ![0] bcast_S1024_S1024x1_0 : (⟨S1024, .f32⟩ : BufTy).Contents (Elt F) → (⟨S1024x1, .f32⟩ : BufTy).Contents (Elt F)),
    unary main_v1490 main_v1493 (Host.sin : (⟨S1024, .f32⟩ : BufTy).Contents (Elt F) → (⟨S1024, .f32⟩ : BufTy).Contents (Elt F)),
    unary main_v1493 main_v1494 (broadcastInDim S1024x1 ![0] bcast_S1024_S1024x1_0 : (⟨S1024, .f32⟩ : BufTy).Contents (Elt F) → (⟨S1024x1, .f32⟩ : BufTy).Contents (Elt F)),
    unary main_v1488 main_v1495 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1495 main_v1496 rfl shapeCasts_S1024x1x16_S1024x16,
    unary main_v1492 main_v1497 (broadcastInDim S1024x16 ![0, 1] bcast_S1024x1_S1024x16_0_1 : (⟨S1024x1, .f32⟩ : BufTy).Contents (Elt F) → (⟨S1024x16, .f32⟩ : BufTy).Contents (Elt F)),
    binary main_v1497 main_v1481 main_v1498 (mulf : (⟨S1024x16, .f32⟩ : BufTy).Contents (Elt F) → (⟨S1024x16, .f32⟩ : BufTy).Contents (Elt F) → (⟨S1024x16, .f32⟩ : BufTy).Contents (Elt F)),
    unary main_v1494 main_v1499 (broadcastInDim S1024x16 ![0, 1] bcast_S1024x1_S1024x16_0_1 : (⟨S1024x1, .f32⟩ : BufTy).Contents (Elt F) → (⟨S1024x16, .f32⟩ : BufTy).Contents (Elt F)),
    binary main_v1499 main_v1496 main_v1500 (mulf : (⟨S1024x16, .f32⟩ : BufTy).Contents (Elt F) → (⟨S1024x16, .f32⟩ : BufTy).Contents (Elt F) → (⟨S1024x16, .f32⟩ : BufTy).Contents (Elt F)) ]
/-- Operations 21 … 40 of window 26. -/
abbrev st79 : List (HloOp τ sig (Elt F)) :=
  [ binary main_v1498 main_v1500 main_v1501 (subf : (⟨S1024x16, .f32⟩ : BufTy).Contents (Elt F) → (⟨S1024x16, .f32⟩ : BufTy).Contents (Elt F) → (⟨S1024x16, .f32⟩ : BufTy).Contents (Elt F)),
    unary main_v1494 main_v1502 (broadcastInDim S1024x16 ![0, 1] bcast_S1024x1_S1024x16_0_1 : (⟨S1024x1, .f32⟩ : BufTy).Contents (Elt F) → (⟨S1024x16, .f32⟩ : BufTy).Contents (Elt F)),
    binary main_v1502 main_v1481 main_v1503 (mulf : (⟨S1024x16, .f32⟩ : BufTy).Contents (Elt F) → (⟨S1024x16, .f32⟩ : BufTy).Contents (Elt F) → (⟨S1024x16, .f32⟩ : BufTy).Contents (Elt F)),
    unary main_v1492 main_v1504 (broadcastInDim S1024x16 ![0, 1] bcast_S1024x1_S1024x16_0_1 : (⟨S1024x1, .f32⟩ : BufTy).Contents (Elt F) → (⟨S1024x16, .f32⟩ : BufTy).Contents (Elt F)),
    binary main_v1504 main_v1496 main_v1505 (mulf : (⟨S1024x16, .f32⟩ : BufTy).Contents (Elt F) → (⟨S1024x16, .f32⟩ : BufTy).Contents (Elt F) → (⟨S1024x16, .f32⟩ : BufTy).Contents (Elt F)),
    binary main_v1503 main_v1505 main_v1506 (addf : (⟨S1024x16, .f32⟩ : BufTy).Contents (Elt F) → (⟨S1024x16, .f32⟩ : BufTy).Contents (Elt F) → (⟨S1024x16, .f32⟩ : BufTy).Contents (Elt F)),
    nullary main_c_78 (constantI S_ 32 14#32),
    unary main_c_78 main_v1507 (broadcastInDim S1 ![] bcast_S_S1 : (⟨S_, .i32⟩ : BufTy).Contents (Elt F) → (⟨S1, .i32⟩ : BufTy).Contents (Elt F)),
    ternary main_v1488 main_v1507 main_v1506 main_v1508 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1509 ((extractStridedSlice S1024x1 ![0, 74] · slices_S1024x120_S1024x1_0_74) : (⟨S1024x120, .f32⟩ : BufTy).Contents (Elt F) → (⟨S1024x1, .f32⟩ : BufTy).Contents (Elt F)),
    reshape main_v1509 main_v1510 rfl shapeCasts_S1024x1_S1024,
    unary main_v1510 main_v1511 (Host.cos : (⟨S1024, .f32⟩ : BufTy).Contents (Elt F) → (⟨S1024, .f32⟩ : BufTy).Contents (Elt F)),
    unary main_v1511 main_v1512 (broadcastInDim S1024x1 ![0] bcast_S1024_S1024x1_0 : (⟨S1024, .f32⟩ : BufTy).Contents (Elt F) → (⟨S1024x1, .f32⟩ : BufTy).Contents (Elt F)),
    unary main_v1510 main_v1513 (Host.sin : (⟨S1024, .f32⟩ : BufTy).Contents (Elt F) → (⟨S1024, .f32⟩ : BufTy).Contents (Elt F)),
    unary main_v1513 main_v1514 (broadcastInDim S1024x1 ![0] bcast_S1024_S1024x1_0 : (⟨S1024, .f32⟩ : BufTy).Contents (Elt F) → (⟨S1024x1, .f32⟩ : BufTy).Contents (Elt F)),
    unary main_v1508 main_v1515 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1515 main_v1516 rfl shapeCasts_S1024x1x16_S1024x16,
    unary main_v1512 main_v1517 (broadcastInDim S1024x16 ![0, 1] bcast_S1024x1_S1024x16_0_1 : (⟨S1024x1, .f32⟩ : BufTy).Contents (Elt F) → (⟨S1024x16, .f32⟩ : BufTy).Contents (Elt F)),
    binary main_v1517 main_v1501 main_v1518 (mulf : (⟨S1024x16, .f32⟩ : BufTy).Contents (Elt F) → (⟨S1024x16, .f32⟩ : BufTy).Contents (Elt F) → (⟨S1024x16, .f32⟩ : BufTy).Contents (Elt F)),
    unary main_v1514 main_v1519 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 26. -/
abbrev st80 : List (HloOp τ sig (Elt F)) :=
  [ binary main_v1519 main_v1516 main_v1520 (mulf : (⟨S1024x16, .f32⟩ : BufTy).Contents (Elt F) → (⟨S1024x16, .f32⟩ : BufTy).Contents (Elt F) → (⟨S1024x16, .f32⟩ : BufTy).Contents (Elt F)),
    binary main_v1518 main_v1520 main_v1521 (subf : (⟨S1024x16, .f32⟩ : BufTy).Contents (Elt F) → (⟨S1024x16, .f32⟩ : BufTy).Contents (Elt F) → (⟨S1024x16, .f32⟩ : BufTy).Contents (Elt F)),
    unary main_v1514 main_v1522 (broadcastInDim S1024x16 ![0, 1] bcast_S1024x1_S1024x16_0_1 : (⟨S1024x1, .f32⟩ : BufTy).Contents (Elt F) → (⟨S1024x16, .f32⟩ : BufTy).Contents (Elt F)),
    binary main_v1522 main_v1501 main_v1523 (mulf : (⟨S1024x16, .f32⟩ : BufTy).Contents (Elt F) → (⟨S1024x16, .f32⟩ : BufTy).Contents (Elt F) → (⟨S1024x16, .f32⟩ : BufTy).Contents (Elt F)),
    unary main_v1512 main_v1524 (broadcastInDim S1024x16 ![0, 1] bcast_S1024x1_S1024x16_0_1 : (⟨S1024x1, .f32⟩ : BufTy).Contents (Elt F) → (⟨S1024x16, .f32⟩ : BufTy).Contents (Elt F)),
    binary main_v1524 main_v1516 main_v1525 (mulf : (⟨S1024x16, .f32⟩ : BufTy).Contents (Elt F) → (⟨S1024x16, .f32⟩ : BufTy).Contents (Elt F) → (⟨S1024x16, .f32⟩ : BufTy).Contents (Elt F)),
    binary main_v1523 main_v1525 main_v1526 (addf : (⟨S1024x16, .f32⟩ : BufTy).Contents (Elt F) → (⟨S1024x16, .f32⟩ : BufTy).Contents (Elt F) → (⟨S1024x16, .f32⟩ : BufTy).Contents (Elt F)),
    nullary main_c_79 (constantI S_ 32 15#32),
    unary main_c_79 main_v1527 (broadcastInDim S1 ![] bcast_S_S1 : (⟨S_, .i32⟩ : BufTy).Contents (Elt F) → (⟨S1, .i32⟩ : BufTy).Contents (Elt F)),
    ternary main_v1508 main_v1527 main_v1526 main_v1528 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_80 (constantI S_ 32 5#32),
    unary main_c_80 main_v1529 (broadcastInDim S1 ![] bcast_S_S1 : (⟨S_, .i32⟩ : BufTy).Contents (Elt F) → (⟨S1, .i32⟩ : BufTy).Contents (Elt F)),
    ternary main_v1528 main_v1529 main_v1521 main_v1530 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v1530 main_v1531 ((extractStridedSlice S1024x1x16 ![0, 6, 0] · slices_S1024x16x16_S1024x1x16_0_6_0) : (⟨S1024x16x16, .f32⟩ : BufTy).Contents (Elt F) → (⟨S1024x1x16, .f32⟩ : BufTy).Contents (Elt F)),
    reshape main_v1531 main_v1532 rfl shapeCasts_S1024x1x16_S1024x16,
    unary main_arg1 main_v1533 ((extractStridedSlice S1024x1 ![0, 75] · slices_S1024x120_S1024x1_0_75) : (⟨S1024x120, .f32⟩ : BufTy).Contents (Elt F) → (⟨S1024x1, .f32⟩ : BufTy).Contents (Elt F)),
    reshape main_v1533 main_v1534 rfl shapeCasts_S1024x1_S1024,
    unary main_v1534 main_v1535 (Host.cos : (⟨S1024, .f32⟩ : BufTy).Contents (Elt F) → (⟨S1024, .f32⟩ : BufTy).Contents (Elt F)),
    unary main_v1535 main_v1536 (broadcastInDim S1024x1 ![0] bcast_S1024_S1024x1_0 : (⟨S1024, .f32⟩ : BufTy).Contents (Elt F) → (⟨S1024x1, .f32⟩ : BufTy).Contents (Elt F)),
    unary main_v1534 main_v1537 (Host.sin : (⟨S1024, .f32⟩ : BufTy).Contents (Elt F) → (⟨S1024, .f32⟩ : BufTy).Contents (Elt F)) ]
/-- Operations 1 … 20 of window 27. -/
abbrev st81 : List (HloOp τ sig (Elt F)) :=
  [ unary main_v1537 main_v1538 (broadcastInDim S1024x1 ![0] bcast_S1024_S1024x1_0 : (⟨S1024, .f32⟩ : BufTy).Contents (Elt F) → (⟨S1024x1, .f32⟩ : BufTy).Contents (Elt F)),
    unary main_v1530 main_v1539 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v1539 main_v1540 rfl shapeCasts_S1024x1x16_S1024x16,
    unary main_v1536 main_v1541 (broadcastInDim S1024x16 ![0, 1] bcast_S1024x1_S1024x16_0_1 : (⟨S1024x1, .f32⟩ : BufTy).Contents (Elt F) → (⟨S1024x16, .f32⟩ : BufTy).Contents (Elt F)),
    binary main_v1541 main_v1532 main_v1542 (mulf : (⟨S1024x16, .f32⟩ : BufTy).Contents (Elt F) → (⟨S1024x16, .f32⟩ : BufTy).Contents (Elt F) → (⟨S1024x16, .f32⟩ : BufTy).Contents (Elt F)),
    unary main_v1538 main_v1543 (broadcastInDim S1024x16 ![0, 1] bcast_S1024x1_S1024x16_0_1 : (⟨S1024x1, .f32⟩ : BufTy).Contents (Elt F) → (⟨S1024x16, .f32⟩ : BufTy).Contents (Elt F)),
    binary main_v1543 main_v1540 main_v1544 (mulf : (⟨S1024x16, .f32⟩ : BufTy).Contents (Elt F) → (⟨S1024x16, .f32⟩ : BufTy).Contents (Elt F) → (⟨S1024x16, .f32⟩ : BufTy).Contents (Elt F)),
    binary main_v1542 main_v1544 main_v1545 (subf : (⟨S1024x16, .f32⟩ : BufTy).Contents (Elt F) → (⟨S1024x16, .f32⟩ : BufTy).Contents (Elt F) → (⟨S1024x16, .f32⟩ : BufTy).Contents (Elt F)),
    unary main_v1538 main_v1546 (broadcastInDim S1024x16 ![0, 1] bcast_S1024x1_S1024x16_0_1 : (⟨S1024x1, .f32⟩ : BufTy).Contents (Elt F) → (⟨S1024x16, .f32⟩ : BufTy).Contents (Elt F)),
    binary main_v1546 main_v1532 main_v1547 (mulf : (⟨S1024x16, .f32⟩ : BufTy).Contents (Elt F) → (⟨S1024x16, .f32⟩ : BufTy).Contents (Elt F) → (⟨S1024x16, .f32⟩ : BufTy).Contents (Elt F)),
    unary main_v1536 main_v1548 (broadcastInDim S1024x16 ![0, 1] bcast_S1024x1_S1024x16_0_1 : (⟨S1024x1, .f32⟩ : BufTy).Contents (Elt F) → (⟨S1024x16, .f32⟩ : BufTy).Contents (Elt F)),
    binary main_v1548 main_v1540 main_v1549 (mulf : (⟨S1024x16, .f32⟩ : BufTy).Contents (Elt F) → (⟨S1024x16, .f32⟩ : BufTy).Contents (Elt F) → (⟨S1024x16, .f32⟩ : BufTy).Contents (Elt F)),
    binary main_v1547 main_v1549 main_v1550 (addf : (⟨S1024x16, .f32⟩ : BufTy).Contents (Elt F) → (⟨S1024x16, .f32⟩ : BufTy).Contents (Elt F) → (⟨S1024x16, .f32⟩ : BufTy).Contents (Elt F)),
    nullary main_c_81 (constantI S_ 32 7#32),
    unary main_c_81 main_v1551 (broadcastInDim S1 ![] bcast_S_S1 : (⟨S_, .i32⟩ : BufTy).Contents (Elt F) → (⟨S1, .i32⟩ : BufTy).Contents (Elt F)),
    ternary main_v1530 main_v1551 main_v1550 main_v1552 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1553 ((extractStridedSlice S1024x1 ![0, 76] · slices_S1024x120_S1024x1_0_76) : (⟨S1024x120, .f32⟩ : BufTy).Contents (Elt F) → (⟨S1024x1, .f32⟩ : BufTy).Contents (Elt F)),
    reshape main_v1553 main_v1554 rfl shapeCasts_S1024x1_S1024,
    unary main_v1554 main_v1555 (Host.cos : (⟨S1024, .f32⟩ : BufTy).Contents (Elt F) → (⟨S1024, .f32⟩ : BufTy).Contents (Elt F)),
    unary main_v1555 main_v1556 (broadcastInDim S1024x1 ![0] bcast_S1024_S1024x1_0 : (⟨S1024, .f32⟩ : BufTy).Contents (Elt F) → (⟨S1024x1, .f32⟩ : BufTy).Contents (Elt F)) ]
/-- Operations 21 … 40 of window 27. -/
abbrev st82 : List (HloOp τ sig (Elt F)) :=
  [ unary main_v1554 main_v1557 (Host.sin : (⟨S1024, .f32⟩ : BufTy).Contents (Elt F) → (⟨S1024, .f32⟩ : BufTy).Contents (Elt F)),
    unary main_v1557 main_v1558 (broadcastInDim S1024x1 ![0] bcast_S1024_S1024x1_0 : (⟨S1024, .f32⟩ : BufTy).Contents (Elt F) → (⟨S1024x1, .f32⟩ : BufTy).Contents (Elt F)),
    unary main_v1552 main_v1559 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1559 main_v1560 rfl shapeCasts_S1024x1x16_S1024x16,
    unary main_v1556 main_v1561 (broadcastInDim S1024x16 ![0, 1] bcast_S1024x1_S1024x16_0_1 : (⟨S1024x1, .f32⟩ : BufTy).Contents (Elt F) → (⟨S1024x16, .f32⟩ : BufTy).Contents (Elt F)),
    binary main_v1561 main_v1545 main_v1562 (mulf : (⟨S1024x16, .f32⟩ : BufTy).Contents (Elt F) → (⟨S1024x16, .f32⟩ : BufTy).Contents (Elt F) → (⟨S1024x16, .f32⟩ : BufTy).Contents (Elt F)),
    unary main_v1558 main_v1563 (broadcastInDim S1024x16 ![0, 1] bcast_S1024x1_S1024x16_0_1 : (⟨S1024x1, .f32⟩ : BufTy).Contents (Elt F) → (⟨S1024x16, .f32⟩ : BufTy).Contents (Elt F)),
    binary main_v1563 main_v1560 main_v1564 (mulf : (⟨S1024x16, .f32⟩ : BufTy).Contents (Elt F) → (⟨S1024x16, .f32⟩ : BufTy).Contents (Elt F) → (⟨S1024x16, .f32⟩ : BufTy).Contents (Elt F)),
    binary main_v1562 main_v1564 main_v1565 (subf : (⟨S1024x16, .f32⟩ : BufTy).Contents (Elt F) → (⟨S1024x16, .f32⟩ : BufTy).Contents (Elt F) → (⟨S1024x16, .f32⟩ : BufTy).Contents (Elt F)),
    unary main_v1558 main_v1566 (broadcastInDim S1024x16 ![0, 1] bcast_S1024x1_S1024x16_0_1 : (⟨S1024x1, .f32⟩ : BufTy).Contents (Elt F) → (⟨S1024x16, .f32⟩ : BufTy).Contents (Elt F)),
    binary main_v1566 main_v1545 main_v1567 (mulf : (⟨S1024x16, .f32⟩ : BufTy).Contents (Elt F) → (⟨S1024x16, .f32⟩ : BufTy).Contents (Elt F) → (⟨S1024x16, .f32⟩ : BufTy).Contents (Elt F)),
    unary main_v1556 main_v1568 (broadcastInDim S1024x16 ![0, 1] bcast_S1024x1_S1024x16_0_1 : (⟨S1024x1, .f32⟩ : BufTy).Contents (Elt F) → (⟨S1024x16, .f32⟩ : BufTy).Contents (Elt F)),
    binary main_v1568 main_v1560 main_v1569 (mulf : (⟨S1024x16, .f32⟩ : BufTy).Contents (Elt F) → (⟨S1024x16, .f32⟩ : BufTy).Contents (Elt F) → (⟨S1024x16, .f32⟩ : BufTy).Contents (Elt F)),
    binary main_v1567 main_v1569 main_v1570 (addf : (⟨S1024x16, .f32⟩ : BufTy).Contents (Elt F) → (⟨S1024x16, .f32⟩ : BufTy).Contents (Elt F) → (⟨S1024x16, .f32⟩ : BufTy).Contents (Elt F)),
    nullary main_c_82 (constantI S_ 32 8#32),
    unary main_c_82 main_v1571 (broadcastInDim S1 ![] bcast_S_S1 : (⟨S_, .i32⟩ : BufTy).Contents (Elt F) → (⟨S1, .i32⟩ : BufTy).Contents (Elt F)),
    ternary main_v1552 main_v1571 main_v1570 main_v1572 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1573 ((extractStridedSlice S1024x1 ![0, 77] · slices_S1024x120_S1024x1_0_77) : (⟨S1024x120, .f32⟩ : BufTy).Contents (Elt F) → (⟨S1024x1, .f32⟩ : BufTy).Contents (Elt F)),
    reshape main_v1573 main_v1574 rfl shapeCasts_S1024x1_S1024,
    unary main_v1574 main_v1575 (Host.cos : (⟨S1024, .f32⟩ : BufTy).Contents (Elt F) → (⟨S1024, .f32⟩ : BufTy).Contents (Elt F)) ]
/-- Operations 41 … 60 of window 27. -/
abbrev st83 : List (HloOp τ sig (Elt F)) :=
  [ unary main_v1575 main_v1576 (broadcastInDim S1024x1 ![0] bcast_S1024_S1024x1_0 : (⟨S1024, .f32⟩ : BufTy).Contents (Elt F) → (⟨S1024x1, .f32⟩ : BufTy).Contents (Elt F)),
    unary main_v1574 main_v1577 (Host.sin : (⟨S1024, .f32⟩ : BufTy).Contents (Elt F) → (⟨S1024, .f32⟩ : BufTy).Contents (Elt F)),
    unary main_v1577 main_v1578 (broadcastInDim S1024x1 ![0] bcast_S1024_S1024x1_0 : (⟨S1024, .f32⟩ : BufTy).Contents (Elt F) → (⟨S1024x1, .f32⟩ : BufTy).Contents (Elt F)),
    unary main_v1572 main_v1579 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1579 main_v1580 rfl shapeCasts_S1024x1x16_S1024x16,
    unary main_v1576 main_v1581 (broadcastInDim S1024x16 ![0, 1] bcast_S1024x1_S1024x16_0_1 : (⟨S1024x1, .f32⟩ : BufTy).Contents (Elt F) → (⟨S1024x16, .f32⟩ : BufTy).Contents (Elt F)),
    binary main_v1581 main_v1565 main_v1582 (mulf : (⟨S1024x16, .f32⟩ : BufTy).Contents (Elt F) → (⟨S1024x16, .f32⟩ : BufTy).Contents (Elt F) → (⟨S1024x16, .f32⟩ : BufTy).Contents (Elt F)),
    unary main_v1578 main_v1583 (broadcastInDim S1024x16 ![0, 1] bcast_S1024x1_S1024x16_0_1 : (⟨S1024x1, .f32⟩ : BufTy).Contents (Elt F) → (⟨S1024x16, .f32⟩ : BufTy).Contents (Elt F)),
    binary main_v1583 main_v1580 main_v1584 (mulf : (⟨S1024x16, .f32⟩ : BufTy).Contents (Elt F) → (⟨S1024x16, .f32⟩ : BufTy).Contents (Elt F) → (⟨S1024x16, .f32⟩ : BufTy).Contents (Elt F)),
    binary main_v1582 main_v1584 main_v1585 (subf : (⟨S1024x16, .f32⟩ : BufTy).Contents (Elt F) → (⟨S1024x16, .f32⟩ : BufTy).Contents (Elt F) → (⟨S1024x16, .f32⟩ : BufTy).Contents (Elt F)),
    unary main_v1578 main_v1586 (broadcastInDim S1024x16 ![0, 1] bcast_S1024x1_S1024x16_0_1 : (⟨S1024x1, .f32⟩ : BufTy).Contents (Elt F) → (⟨S1024x16, .f32⟩ : BufTy).Contents (Elt F)),
    binary main_v1586 main_v1565 main_v1587 (mulf : (⟨S1024x16, .f32⟩ : BufTy).Contents (Elt F) → (⟨S1024x16, .f32⟩ : BufTy).Contents (Elt F) → (⟨S1024x16, .f32⟩ : BufTy).Contents (Elt F)),
    unary main_v1576 main_v1588 (broadcastInDim S1024x16 ![0, 1] bcast_S1024x1_S1024x16_0_1 : (⟨S1024x1, .f32⟩ : BufTy).Contents (Elt F) → (⟨S1024x16, .f32⟩ : BufTy).Contents (Elt F)),
    binary main_v1588 main_v1580 main_v1589 (mulf : (⟨S1024x16, .f32⟩ : BufTy).Contents (Elt F) → (⟨S1024x16, .f32⟩ : BufTy).Contents (Elt F) → (⟨S1024x16, .f32⟩ : BufTy).Contents (Elt F)),
    binary main_v1587 main_v1589 main_v1590 (addf : (⟨S1024x16, .f32⟩ : BufTy).Contents (Elt F) → (⟨S1024x16, .f32⟩ : BufTy).Contents (Elt F) → (⟨S1024x16, .f32⟩ : BufTy).Contents (Elt F)),
    nullary main_c_83 (constantI S_ 32 9#32),
    unary main_c_83 main_v1591 (broadcastInDim S1 ![] bcast_S_S1 : (⟨S_, .i32⟩ : BufTy).Contents (Elt F) → (⟨S1, .i32⟩ : BufTy).Contents (Elt F)),
    ternary main_v1572 main_v1591 main_v1590 main_v1592 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1593 ((extractStridedSlice S1024x1 ![0, 78] · slices_S1024x120_S1024x1_0_78) : (⟨S1024x120, .f32⟩ : BufTy).Contents (Elt F) → (⟨S1024x1, .f32⟩ : BufTy).Contents (Elt F)),
    reshape main_v1593 main_v1594 rfl shapeCasts_S1024x1_S1024 ]
/-- Operations 1 … 20 of window 28. -/
abbrev st84 : List (HloOp τ sig (Elt F)) :=
  [ unary main_v1594 main_v1595 (Host.cos : (⟨S1024, .f32⟩ : BufTy).Contents (Elt F) → (⟨S1024, .f32⟩ : BufTy).Contents (Elt F)),
    unary main_v1595 main_v1596 (broadcastInDim S1024x1 ![0] bcast_S1024_S1024x1_0 : (⟨S1024, .f32⟩ : BufTy).Contents (Elt F) → (⟨S1024x1, .f32⟩ : BufTy).Contents (Elt F)),
    unary main_v1594 main_v1597 (Host.sin : (⟨S1024, .f32⟩ : BufTy).Contents (Elt F) → (⟨S1024, .f32⟩ : BufTy).Contents (Elt F)),
    unary main_v1597 main_v1598 (broadcastInDim S1024x1 ![0] bcast_S1024_S1024x1_0 : (⟨S1024, .f32⟩ : BufTy).Contents (Elt F) → (⟨S1024x1, .f32⟩ : BufTy).Contents (Elt F)),
    unary main_v1592 main_v1599 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1599 main_v1600 rfl shapeCasts_S1024x1x16_S1024x16,
    unary main_v1596 main_v1601 (broadcastInDim S1024x16 ![0, 1] bcast_S1024x1_S1024x16_0_1 : (⟨S1024x1, .f32⟩ : BufTy).Contents (Elt F) → (⟨S1024x16, .f32⟩ : BufTy).Contents (Elt F)),
    binary main_v1601 main_v1585 main_v1602 (mulf : (⟨S1024x16, .f32⟩ : BufTy).Contents (Elt F) → (⟨S1024x16, .f32⟩ : BufTy).Contents (Elt F) → (⟨S1024x16, .f32⟩ : BufTy).Contents (Elt F)),
    unary main_v1598 main_v1603 (broadcastInDim S1024x16 ![0, 1] bcast_S1024x1_S1024x16_0_1 : (⟨S1024x1, .f32⟩ : BufTy).Contents (Elt F) → (⟨S1024x16, .f32⟩ : BufTy).Contents (Elt F)),
    binary main_v1603 main_v1600 main_v1604 (mulf : (⟨S1024x16, .f32⟩ : BufTy).Contents (Elt F) → (⟨S1024x16, .f32⟩ : BufTy).Contents (Elt F) → (⟨S1024x16, .f32⟩ : BufTy).Contents (Elt F)),
    binary main_v1602 main_v1604 main_v1605 (subf : (⟨S1024x16, .f32⟩ : BufTy).Contents (Elt F) → (⟨S1024x16, .f32⟩ : BufTy).Contents (Elt F) → (⟨S1024x16, .f32⟩ : BufTy).Contents (Elt F)),
    unary main_v1598 main_v1606 (broadcastInDim S1024x16 ![0, 1] bcast_S1024x1_S1024x16_0_1 : (⟨S1024x1, .f32⟩ : BufTy).Contents (Elt F) → (⟨S1024x16, .f32⟩ : BufTy).Contents (Elt F)),
    binary main_v1606 main_v1585 main_v1607 (mulf : (⟨S1024x16, .f32⟩ : BufTy).Contents (Elt F) → (⟨S1024x16, .f32⟩ : BufTy).Contents (Elt F) → (⟨S1024x16, .f32⟩ : BufTy).Contents (Elt F)),
    unary main_v1596 main_v1608 (broadcastInDim S1024x16 ![0, 1] bcast_S1024x1_S1024x16_0_1 : (⟨S1024x1, .f32⟩ : BufTy).Contents (Elt F) → (⟨S1024x16, .f32⟩ : BufTy).Contents (Elt F)),
    binary main_v1608 main_v1600 main_v1609 (mulf : (⟨S1024x16, .f32⟩ : BufTy).Contents (Elt F) → (⟨S1024x16, .f32⟩ : BufTy).Contents (Elt F) → (⟨S1024x16, .f32⟩ : BufTy).Contents (Elt F)),
    binary main_v1607 main_v1609 main_v1610 (addf : (⟨S1024x16, .f32⟩ : BufTy).Contents (Elt F) → (⟨S1024x16, .f32⟩ : BufTy).Contents (Elt F) → (⟨S1024x16, .f32⟩ : BufTy).Contents (Elt F)),
    nullary main_c_84 (constantI S_ 32 10#32),
    unary main_c_84 main_v1611 (broadcastInDim S1 ![] bcast_S_S1 : (⟨S_, .i32⟩ : BufTy).Contents (Elt F) → (⟨S1, .i32⟩ : BufTy).Contents (Elt F)),
    ternary main_v1592 main_v1611 main_v1610 main_v1612 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1613 ((extractStridedSlice S1024x1 ![0, 79] · slices_S1024x120_S1024x1_0_79) : (⟨S1024x120, .f32⟩ : BufTy).Contents (Elt F) → (⟨S1024x1, .f32⟩ : BufTy).Contents (Elt F)) ]
/-- Operations 21 … 40 of window 28. -/
abbrev st85 : List (HloOp τ sig (Elt F)) :=
  [ reshape main_v1613 main_v1614 rfl shapeCasts_S1024x1_S1024,
    unary main_v1614 main_v1615 (Host.cos : (⟨S1024, .f32⟩ : BufTy).Contents (Elt F) → (⟨S1024, .f32⟩ : BufTy).Contents (Elt F)),
    unary main_v1615 main_v1616 (broadcastInDim S1024x1 ![0] bcast_S1024_S1024x1_0 : (⟨S1024, .f32⟩ : BufTy).Contents (Elt F) → (⟨S1024x1, .f32⟩ : BufTy).Contents (Elt F)),
    unary main_v1614 main_v1617 (Host.sin : (⟨S1024, .f32⟩ : BufTy).Contents (Elt F) → (⟨S1024, .f32⟩ : BufTy).Contents (Elt F)),
    unary main_v1617 main_v1618 (broadcastInDim S1024x1 ![0] bcast_S1024_S1024x1_0 : (⟨S1024, .f32⟩ : BufTy).Contents (Elt F) → (⟨S1024x1, .f32⟩ : BufTy).Contents (Elt F)),
    unary main_v1612 main_v1619 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1619 main_v1620 rfl shapeCasts_S1024x1x16_S1024x16,
    unary main_v1616 main_v1621 (broadcastInDim S1024x16 ![0, 1] bcast_S1024x1_S1024x16_0_1 : (⟨S1024x1, .f32⟩ : BufTy).Contents (Elt F) → (⟨S1024x16, .f32⟩ : BufTy).Contents (Elt F)),
    binary main_v1621 main_v1605 main_v1622 (mulf : (⟨S1024x16, .f32⟩ : BufTy).Contents (Elt F) → (⟨S1024x16, .f32⟩ : BufTy).Contents (Elt F) → (⟨S1024x16, .f32⟩ : BufTy).Contents (Elt F)),
    unary main_v1618 main_v1623 (broadcastInDim S1024x16 ![0, 1] bcast_S1024x1_S1024x16_0_1 : (⟨S1024x1, .f32⟩ : BufTy).Contents (Elt F) → (⟨S1024x16, .f32⟩ : BufTy).Contents (Elt F)),
    binary main_v1623 main_v1620 main_v1624 (mulf : (⟨S1024x16, .f32⟩ : BufTy).Contents (Elt F) → (⟨S1024x16, .f32⟩ : BufTy).Contents (Elt F) → (⟨S1024x16, .f32⟩ : BufTy).Contents (Elt F)),
    binary main_v1622 main_v1624 main_v1625 (subf : (⟨S1024x16, .f32⟩ : BufTy).Contents (Elt F) → (⟨S1024x16, .f32⟩ : BufTy).Contents (Elt F) → (⟨S1024x16, .f32⟩ : BufTy).Contents (Elt F)),
    unary main_v1618 main_v1626 (broadcastInDim S1024x16 ![0, 1] bcast_S1024x1_S1024x16_0_1 : (⟨S1024x1, .f32⟩ : BufTy).Contents (Elt F) → (⟨S1024x16, .f32⟩ : BufTy).Contents (Elt F)),
    binary main_v1626 main_v1605 main_v1627 (mulf : (⟨S1024x16, .f32⟩ : BufTy).Contents (Elt F) → (⟨S1024x16, .f32⟩ : BufTy).Contents (Elt F) → (⟨S1024x16, .f32⟩ : BufTy).Contents (Elt F)),
    unary main_v1616 main_v1628 (broadcastInDim S1024x16 ![0, 1] bcast_S1024x1_S1024x16_0_1 : (⟨S1024x1, .f32⟩ : BufTy).Contents (Elt F) → (⟨S1024x16, .f32⟩ : BufTy).Contents (Elt F)),
    binary main_v1628 main_v1620 main_v1629 (mulf : (⟨S1024x16, .f32⟩ : BufTy).Contents (Elt F) → (⟨S1024x16, .f32⟩ : BufTy).Contents (Elt F) → (⟨S1024x16, .f32⟩ : BufTy).Contents (Elt F)),
    binary main_v1627 main_v1629 main_v1630 (addf : (⟨S1024x16, .f32⟩ : BufTy).Contents (Elt F) → (⟨S1024x16, .f32⟩ : BufTy).Contents (Elt F) → (⟨S1024x16, .f32⟩ : BufTy).Contents (Elt F)),
    nullary main_c_85 (constantI S_ 32 11#32),
    unary main_c_85 main_v1631 (broadcastInDim S1 ![] bcast_S_S1 : (⟨S_, .i32⟩ : BufTy).Contents (Elt F) → (⟨S1, .i32⟩ : BufTy).Contents (Elt F)),
    ternary main_v1612 main_v1631 main_v1630 main_v1632 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 41 … 60 of window 28. -/
abbrev st86 : List (HloOp τ sig (Elt F)) :=
  [ unary main_arg1 main_v1633 ((extractStridedSlice S1024x1 ![0, 80] · slices_S1024x120_S1024x1_0_80) : (⟨S1024x120, .f32⟩ : BufTy).Contents (Elt F) → (⟨S1024x1, .f32⟩ : BufTy).Contents (Elt F)),
    reshape main_v1633 main_v1634 rfl shapeCasts_S1024x1_S1024,
    unary main_v1634 main_v1635 (Host.cos : (⟨S1024, .f32⟩ : BufTy).Contents (Elt F) → (⟨S1024, .f32⟩ : BufTy).Contents (Elt F)),
    unary main_v1635 main_v1636 (broadcastInDim S1024x1 ![0] bcast_S1024_S1024x1_0 : (⟨S1024, .f32⟩ : BufTy).Contents (Elt F) → (⟨S1024x1, .f32⟩ : BufTy).Contents (Elt F)),
    unary main_v1634 main_v1637 (Host.sin : (⟨S1024, .f32⟩ : BufTy).Contents (Elt F) → (⟨S1024, .f32⟩ : BufTy).Contents (Elt F)),
    unary main_v1637 main_v1638 (broadcastInDim S1024x1 ![0] bcast_S1024_S1024x1_0 : (⟨S1024, .f32⟩ : BufTy).Contents (Elt F) → (⟨S1024x1, .f32⟩ : BufTy).Contents (Elt F)),
    unary main_v1632 main_v1639 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1639 main_v1640 rfl shapeCasts_S1024x1x16_S1024x16,
    unary main_v1636 main_v1641 (broadcastInDim S1024x16 ![0, 1] bcast_S1024x1_S1024x16_0_1 : (⟨S1024x1, .f32⟩ : BufTy).Contents (Elt F) → (⟨S1024x16, .f32⟩ : BufTy).Contents (Elt F)),
    binary main_v1641 main_v1625 main_v1642 (mulf : (⟨S1024x16, .f32⟩ : BufTy).Contents (Elt F) → (⟨S1024x16, .f32⟩ : BufTy).Contents (Elt F) → (⟨S1024x16, .f32⟩ : BufTy).Contents (Elt F)),
    unary main_v1638 main_v1643 (broadcastInDim S1024x16 ![0, 1] bcast_S1024x1_S1024x16_0_1 : (⟨S1024x1, .f32⟩ : BufTy).Contents (Elt F) → (⟨S1024x16, .f32⟩ : BufTy).Contents (Elt F)),
    binary main_v1643 main_v1640 main_v1644 (mulf : (⟨S1024x16, .f32⟩ : BufTy).Contents (Elt F) → (⟨S1024x16, .f32⟩ : BufTy).Contents (Elt F) → (⟨S1024x16, .f32⟩ : BufTy).Contents (Elt F)),
    binary main_v1642 main_v1644 main_v1645 (subf : (⟨S1024x16, .f32⟩ : BufTy).Contents (Elt F) → (⟨S1024x16, .f32⟩ : BufTy).Contents (Elt F) → (⟨S1024x16, .f32⟩ : BufTy).Contents (Elt F)),
    unary main_v1638 main_v1646 (broadcastInDim S1024x16 ![0, 1] bcast_S1024x1_S1024x16_0_1 : (⟨S1024x1, .f32⟩ : BufTy).Contents (Elt F) → (⟨S1024x16, .f32⟩ : BufTy).Contents (Elt F)),
    binary main_v1646 main_v1625 main_v1647 (mulf : (⟨S1024x16, .f32⟩ : BufTy).Contents (Elt F) → (⟨S1024x16, .f32⟩ : BufTy).Contents (Elt F) → (⟨S1024x16, .f32⟩ : BufTy).Contents (Elt F)),
    unary main_v1636 main_v1648 (broadcastInDim S1024x16 ![0, 1] bcast_S1024x1_S1024x16_0_1 : (⟨S1024x1, .f32⟩ : BufTy).Contents (Elt F) → (⟨S1024x16, .f32⟩ : BufTy).Contents (Elt F)),
    binary main_v1648 main_v1640 main_v1649 (mulf : (⟨S1024x16, .f32⟩ : BufTy).Contents (Elt F) → (⟨S1024x16, .f32⟩ : BufTy).Contents (Elt F) → (⟨S1024x16, .f32⟩ : BufTy).Contents (Elt F)),
    binary main_v1647 main_v1649 main_v1650 (addf : (⟨S1024x16, .f32⟩ : BufTy).Contents (Elt F) → (⟨S1024x16, .f32⟩ : BufTy).Contents (Elt F) → (⟨S1024x16, .f32⟩ : BufTy).Contents (Elt F)),
    nullary main_c_86 (constantI S_ 32 12#32),
    unary main_c_86 main_v1651 (broadcastInDim S1 ![] bcast_S_S1 : (⟨S_, .i32⟩ : BufTy).Contents (Elt F) → (⟨S1, .i32⟩ : BufTy).Contents (Elt F)) ]
/-- Operations 1 … 20 of window 29. -/
abbrev st87 : List (HloOp τ sig (Elt F)) :=
  [ ternary main_v1632 main_v1651 main_v1650 main_v1652 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1653 ((extractStridedSlice S1024x1 ![0, 81] · slices_S1024x120_S1024x1_0_81) : (⟨S1024x120, .f32⟩ : BufTy).Contents (Elt F) → (⟨S1024x1, .f32⟩ : BufTy).Contents (Elt F)),
    reshape main_v1653 main_v1654 rfl shapeCasts_S1024x1_S1024,
    unary main_v1654 main_v1655 (Host.cos : (⟨S1024, .f32⟩ : BufTy).Contents (Elt F) → (⟨S1024, .f32⟩ : BufTy).Contents (Elt F)),
    unary main_v1655 main_v1656 (broadcastInDim S1024x1 ![0] bcast_S1024_S1024x1_0 : (⟨S1024, .f32⟩ : BufTy).Contents (Elt F) → (⟨S1024x1, .f32⟩ : BufTy).Contents (Elt F)),
    unary main_v1654 main_v1657 (Host.sin : (⟨S1024, .f32⟩ : BufTy).Contents (Elt F) → (⟨S1024, .f32⟩ : BufTy).Contents (Elt F)),
    unary main_v1657 main_v1658 (broadcastInDim S1024x1 ![0] bcast_S1024_S1024x1_0 : (⟨S1024, .f32⟩ : BufTy).Contents (Elt F) → (⟨S1024x1, .f32⟩ : BufTy).Contents (Elt F)),
    unary main_v1652 main_v1659 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1659 main_v1660 rfl shapeCasts_S1024x1x16_S1024x16,
    unary main_v1656 main_v1661 (broadcastInDim S1024x16 ![0, 1] bcast_S1024x1_S1024x16_0_1 : (⟨S1024x1, .f32⟩ : BufTy).Contents (Elt F) → (⟨S1024x16, .f32⟩ : BufTy).Contents (Elt F)),
    binary main_v1661 main_v1645 main_v1662 (mulf : (⟨S1024x16, .f32⟩ : BufTy).Contents (Elt F) → (⟨S1024x16, .f32⟩ : BufTy).Contents (Elt F) → (⟨S1024x16, .f32⟩ : BufTy).Contents (Elt F)),
    unary main_v1658 main_v1663 (broadcastInDim S1024x16 ![0, 1] bcast_S1024x1_S1024x16_0_1 : (⟨S1024x1, .f32⟩ : BufTy).Contents (Elt F) → (⟨S1024x16, .f32⟩ : BufTy).Contents (Elt F)),
    binary main_v1663 main_v1660 main_v1664 (mulf : (⟨S1024x16, .f32⟩ : BufTy).Contents (Elt F) → (⟨S1024x16, .f32⟩ : BufTy).Contents (Elt F) → (⟨S1024x16, .f32⟩ : BufTy).Contents (Elt F)),
    binary main_v1662 main_v1664 main_v1665 (subf : (⟨S1024x16, .f32⟩ : BufTy).Contents (Elt F) → (⟨S1024x16, .f32⟩ : BufTy).Contents (Elt F) → (⟨S1024x16, .f32⟩ : BufTy).Contents (Elt F)),
    unary main_v1658 main_v1666 (broadcastInDim S1024x16 ![0, 1] bcast_S1024x1_S1024x16_0_1 : (⟨S1024x1, .f32⟩ : BufTy).Contents (Elt F) → (⟨S1024x16, .f32⟩ : BufTy).Contents (Elt F)),
    binary main_v1666 main_v1645 main_v1667 (mulf : (⟨S1024x16, .f32⟩ : BufTy).Contents (Elt F) → (⟨S1024x16, .f32⟩ : BufTy).Contents (Elt F) → (⟨S1024x16, .f32⟩ : BufTy).Contents (Elt F)),
    unary main_v1656 main_v1668 (broadcastInDim S1024x16 ![0, 1] bcast_S1024x1_S1024x16_0_1 : (⟨S1024x1, .f32⟩ : BufTy).Contents (Elt F) → (⟨S1024x16, .f32⟩ : BufTy).Contents (Elt F)),
    binary main_v1668 main_v1660 main_v1669 (mulf : (⟨S1024x16, .f32⟩ : BufTy).Contents (Elt F) → (⟨S1024x16, .f32⟩ : BufTy).Contents (Elt F) → (⟨S1024x16, .f32⟩ : BufTy).Contents (Elt F)),
    binary main_v1667 main_v1669 main_v1670 (addf : (⟨S1024x16, .f32⟩ : BufTy).Contents (Elt F) → (⟨S1024x16, .f32⟩ : BufTy).Contents (Elt F) → (⟨S1024x16, .f32⟩ : BufTy).Contents (Elt F)),
    nullary main_c_87 (constantI S_ 32 13#32) ]
/-- Operations 21 … 40 of window 29. -/
abbrev st88 : List (HloOp τ sig (Elt F)) :=
  [ unary main_c_87 main_v1671 (broadcastInDim S1 ![] bcast_S_S1 : (⟨S_, .i32⟩ : BufTy).Contents (Elt F) → (⟨S1, .i32⟩ : BufTy).Contents (Elt F)),
    ternary main_v1652 main_v1671 main_v1670 main_v1672 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1673 ((extractStridedSlice S1024x1 ![0, 82] · slices_S1024x120_S1024x1_0_82) : (⟨S1024x120, .f32⟩ : BufTy).Contents (Elt F) → (⟨S1024x1, .f32⟩ : BufTy).Contents (Elt F)),
    reshape main_v1673 main_v1674 rfl shapeCasts_S1024x1_S1024,
    unary main_v1674 main_v1675 (Host.cos : (⟨S1024, .f32⟩ : BufTy).Contents (Elt F) → (⟨S1024, .f32⟩ : BufTy).Contents (Elt F)),
    unary main_v1675 main_v1676 (broadcastInDim S1024x1 ![0] bcast_S1024_S1024x1_0 : (⟨S1024, .f32⟩ : BufTy).Contents (Elt F) → (⟨S1024x1, .f32⟩ : BufTy).Contents (Elt F)),
    unary main_v1674 main_v1677 (Host.sin : (⟨S1024, .f32⟩ : BufTy).Contents (Elt F) → (⟨S1024, .f32⟩ : BufTy).Contents (Elt F)),
    unary main_v1677 main_v1678 (broadcastInDim S1024x1 ![0] bcast_S1024_S1024x1_0 : (⟨S1024, .f32⟩ : BufTy).Contents (Elt F) → (⟨S1024x1, .f32⟩ : BufTy).Contents (Elt F)),
    unary main_v1672 main_v1679 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1679 main_v1680 rfl shapeCasts_S1024x1x16_S1024x16,
    unary main_v1676 main_v1681 (broadcastInDim S1024x16 ![0, 1] bcast_S1024x1_S1024x16_0_1 : (⟨S1024x1, .f32⟩ : BufTy).Contents (Elt F) → (⟨S1024x16, .f32⟩ : BufTy).Contents (Elt F)),
    binary main_v1681 main_v1665 main_v1682 (mulf : (⟨S1024x16, .f32⟩ : BufTy).Contents (Elt F) → (⟨S1024x16, .f32⟩ : BufTy).Contents (Elt F) → (⟨S1024x16, .f32⟩ : BufTy).Contents (Elt F)),
    unary main_v1678 main_v1683 (broadcastInDim S1024x16 ![0, 1] bcast_S1024x1_S1024x16_0_1 : (⟨S1024x1, .f32⟩ : BufTy).Contents (Elt F) → (⟨S1024x16, .f32⟩ : BufTy).Contents (Elt F)),
    binary main_v1683 main_v1680 main_v1684 (mulf : (⟨S1024x16, .f32⟩ : BufTy).Contents (Elt F) → (⟨S1024x16, .f32⟩ : BufTy).Contents (Elt F) → (⟨S1024x16, .f32⟩ : BufTy).Contents (Elt F)),
    binary main_v1682 main_v1684 main_v1685 (subf : (⟨S1024x16, .f32⟩ : BufTy).Contents (Elt F) → (⟨S1024x16, .f32⟩ : BufTy).Contents (Elt F) → (⟨S1024x16, .f32⟩ : BufTy).Contents (Elt F)),
    unary main_v1678 main_v1686 (broadcastInDim S1024x16 ![0, 1] bcast_S1024x1_S1024x16_0_1 : (⟨S1024x1, .f32⟩ : BufTy).Contents (Elt F) → (⟨S1024x16, .f32⟩ : BufTy).Contents (Elt F)),
    binary main_v1686 main_v1665 main_v1687 (mulf : (⟨S1024x16, .f32⟩ : BufTy).Contents (Elt F) → (⟨S1024x16, .f32⟩ : BufTy).Contents (Elt F) → (⟨S1024x16, .f32⟩ : BufTy).Contents (Elt F)),
    unary main_v1676 main_v1688 (broadcastInDim S1024x16 ![0, 1] bcast_S1024x1_S1024x16_0_1 : (⟨S1024x1, .f32⟩ : BufTy).Contents (Elt F) → (⟨S1024x16, .f32⟩ : BufTy).Contents (Elt F)),
    binary main_v1688 main_v1680 main_v1689 (mulf : (⟨S1024x16, .f32⟩ : BufTy).Contents (Elt F) → (⟨S1024x16, .f32⟩ : BufTy).Contents (Elt F) → (⟨S1024x16, .f32⟩ : BufTy).Contents (Elt F)),
    binary main_v1687 main_v1689 main_v1690 (addf : (⟨S1024x16, .f32⟩ : BufTy).Contents (Elt F) → (⟨S1024x16, .f32⟩ : BufTy).Contents (Elt F) → (⟨S1024x16, .f32⟩ : BufTy).Contents (Elt F)) ]
/-- Operations 41 … 60 of window 29. -/
abbrev st89 : List (HloOp τ sig (Elt F)) :=
  [ nullary main_c_88 (constantI S_ 32 14#32),
    unary main_c_88 main_v1691 (broadcastInDim S1 ![] bcast_S_S1 : (⟨S_, .i32⟩ : BufTy).Contents (Elt F) → (⟨S1, .i32⟩ : BufTy).Contents (Elt F)),
    ternary main_v1672 main_v1691 main_v1690 main_v1692 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1693 ((extractStridedSlice S1024x1 ![0, 83] · slices_S1024x120_S1024x1_0_83) : (⟨S1024x120, .f32⟩ : BufTy).Contents (Elt F) → (⟨S1024x1, .f32⟩ : BufTy).Contents (Elt F)),
    reshape main_v1693 main_v1694 rfl shapeCasts_S1024x1_S1024,
    unary main_v1694 main_v1695 (Host.cos : (⟨S1024, .f32⟩ : BufTy).Contents (Elt F) → (⟨S1024, .f32⟩ : BufTy).Contents (Elt F)),
    unary main_v1695 main_v1696 (broadcastInDim S1024x1 ![0] bcast_S1024_S1024x1_0 : (⟨S1024, .f32⟩ : BufTy).Contents (Elt F) → (⟨S1024x1, .f32⟩ : BufTy).Contents (Elt F)),
    unary main_v1694 main_v1697 (Host.sin : (⟨S1024, .f32⟩ : BufTy).Contents (Elt F) → (⟨S1024, .f32⟩ : BufTy).Contents (Elt F)),
    unary main_v1697 main_v1698 (broadcastInDim S1024x1 ![0] bcast_S1024_S1024x1_0 : (⟨S1024, .f32⟩ : BufTy).Contents (Elt F) → (⟨S1024x1, .f32⟩ : BufTy).Contents (Elt F)),
    unary main_v1692 main_v1699 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1699 main_v1700 rfl shapeCasts_S1024x1x16_S1024x16,
    unary main_v1696 main_v1701 (broadcastInDim S1024x16 ![0, 1] bcast_S1024x1_S1024x16_0_1 : (⟨S1024x1, .f32⟩ : BufTy).Contents (Elt F) → (⟨S1024x16, .f32⟩ : BufTy).Contents (Elt F)),
    binary main_v1701 main_v1685 main_v1702 (mulf : (⟨S1024x16, .f32⟩ : BufTy).Contents (Elt F) → (⟨S1024x16, .f32⟩ : BufTy).Contents (Elt F) → (⟨S1024x16, .f32⟩ : BufTy).Contents (Elt F)),
    unary main_v1698 main_v1703 (broadcastInDim S1024x16 ![0, 1] bcast_S1024x1_S1024x16_0_1 : (⟨S1024x1, .f32⟩ : BufTy).Contents (Elt F) → (⟨S1024x16, .f32⟩ : BufTy).Contents (Elt F)),
    binary main_v1703 main_v1700 main_v1704 (mulf : (⟨S1024x16, .f32⟩ : BufTy).Contents (Elt F) → (⟨S1024x16, .f32⟩ : BufTy).Contents (Elt F) → (⟨S1024x16, .f32⟩ : BufTy).Contents (Elt F)),
    binary main_v1702 main_v1704 main_v1705 (subf : (⟨S1024x16, .f32⟩ : BufTy).Contents (Elt F) → (⟨S1024x16, .f32⟩ : BufTy).Contents (Elt F) → (⟨S1024x16, .f32⟩ : BufTy).Contents (Elt F)),
    unary main_v1698 main_v1706 (broadcastInDim S1024x16 ![0, 1] bcast_S1024x1_S1024x16_0_1 : (⟨S1024x1, .f32⟩ : BufTy).Contents (Elt F) → (⟨S1024x16, .f32⟩ : BufTy).Contents (Elt F)),
    binary main_v1706 main_v1685 main_v1707 (mulf : (⟨S1024x16, .f32⟩ : BufTy).Contents (Elt F) → (⟨S1024x16, .f32⟩ : BufTy).Contents (Elt F) → (⟨S1024x16, .f32⟩ : BufTy).Contents (Elt F)),
    unary main_v1696 main_v1708 (broadcastInDim S1024x16 ![0, 1] bcast_S1024x1_S1024x16_0_1 : (⟨S1024x1, .f32⟩ : BufTy).Contents (Elt F) → (⟨S1024x16, .f32⟩ : BufTy).Contents (Elt F)),
    binary main_v1708 main_v1700 main_v1709 (mulf : (⟨S1024x16, .f32⟩ : BufTy).Contents (Elt F) → (⟨S1024x16, .f32⟩ : BufTy).Contents (Elt F) → (⟨S1024x16, .f32⟩ : BufTy).Contents (Elt F)) ]
/-- Operations 1 … 20 of window 30. -/
abbrev st90 : List (HloOp τ sig (Elt F)) :=
  [ binary main_v1707 main_v1709 main_v1710 (addf : (⟨S1024x16, .f32⟩ : BufTy).Contents (Elt F) → (⟨S1024x16, .f32⟩ : BufTy).Contents (Elt F) → (⟨S1024x16, .f32⟩ : BufTy).Contents (Elt F)),
    nullary main_c_89 (constantI S_ 32 15#32),
    unary main_c_89 main_v1711 (broadcastInDim S1 ![] bcast_S_S1 : (⟨S_, .i32⟩ : BufTy).Contents (Elt F) → (⟨S1, .i32⟩ : BufTy).Contents (Elt F)),
    ternary main_v1692 main_v1711 main_v1710 main_v1712 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_90 (constantI S_ 32 6#32),
    unary main_c_90 main_v1713 (broadcastInDim S1 ![] bcast_S_S1 : (⟨S_, .i32⟩ : BufTy).Contents (Elt F) → (⟨S1, .i32⟩ : BufTy).Contents (Elt F)),
    ternary main_v1712 main_v1713 main_v1705 main_v1714 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v1714 main_v1715 ((extractStridedSlice S1024x1x16 ![0, 7, 0] · slices_S1024x16x16_S1024x1x16_0_7_0) : (⟨S1024x16x16, .f32⟩ : BufTy).Contents (Elt F) → (⟨S1024x1x16, .f32⟩ : BufTy).Contents (Elt F)),
    reshape main_v1715 main_v1716 rfl shapeCasts_S1024x1x16_S1024x16,
    unary main_arg1 main_v1717 ((extractStridedSlice S1024x1 ![0, 84] · slices_S1024x120_S1024x1_0_84) : (⟨S1024x120, .f32⟩ : BufTy).Contents (Elt F) → (⟨S1024x1, .f32⟩ : BufTy).Contents (Elt F)),
    reshape main_v1717 main_v1718 rfl shapeCasts_S1024x1_S1024,
    unary main_v1718 main_v1719 (Host.cos : (⟨S1024, .f32⟩ : BufTy).Contents (Elt F) → (⟨S1024, .f32⟩ : BufTy).Contents (Elt F)),
    unary main_v1719 main_v1720 (broadcastInDim S1024x1 ![0] bcast_S1024_S1024x1_0 : (⟨S1024, .f32⟩ : BufTy).Contents (Elt F) → (⟨S1024x1, .f32⟩ : BufTy).Contents (Elt F)),
    unary main_v1718 main_v1721 (Host.sin : (⟨S1024, .f32⟩ : BufTy).Contents (Elt F) → (⟨S1024, .f32⟩ : BufTy).Contents (Elt F)),
    unary main_v1721 main_v1722 (broadcastInDim S1024x1 ![0] bcast_S1024_S1024x1_0 : (⟨S1024, .f32⟩ : BufTy).Contents (Elt F) → (⟨S1024x1, .f32⟩ : BufTy).Contents (Elt F)),
    unary main_v1714 main_v1723 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1723 main_v1724 rfl shapeCasts_S1024x1x16_S1024x16,
    unary main_v1720 main_v1725 (broadcastInDim S1024x16 ![0, 1] bcast_S1024x1_S1024x16_0_1 : (⟨S1024x1, .f32⟩ : BufTy).Contents (Elt F) → (⟨S1024x16, .f32⟩ : BufTy).Contents (Elt F)),
    binary main_v1725 main_v1716 main_v1726 (mulf : (⟨S1024x16, .f32⟩ : BufTy).Contents (Elt F) → (⟨S1024x16, .f32⟩ : BufTy).Contents (Elt F) → (⟨S1024x16, .f32⟩ : BufTy).Contents (Elt F)),
    unary main_v1722 main_v1727 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 30. -/
abbrev st91 : List (HloOp τ sig (Elt F)) :=
  [ binary main_v1727 main_v1724 main_v1728 (mulf : (⟨S1024x16, .f32⟩ : BufTy).Contents (Elt F) → (⟨S1024x16, .f32⟩ : BufTy).Contents (Elt F) → (⟨S1024x16, .f32⟩ : BufTy).Contents (Elt F)),
    binary main_v1726 main_v1728 main_v1729 (subf : (⟨S1024x16, .f32⟩ : BufTy).Contents (Elt F) → (⟨S1024x16, .f32⟩ : BufTy).Contents (Elt F) → (⟨S1024x16, .f32⟩ : BufTy).Contents (Elt F)),
    unary main_v1722 main_v1730 (broadcastInDim S1024x16 ![0, 1] bcast_S1024x1_S1024x16_0_1 : (⟨S1024x1, .f32⟩ : BufTy).Contents (Elt F) → (⟨S1024x16, .f32⟩ : BufTy).Contents (Elt F)),
    binary main_v1730 main_v1716 main_v1731 (mulf : (⟨S1024x16, .f32⟩ : BufTy).Contents (Elt F) → (⟨S1024x16, .f32⟩ : BufTy).Contents (Elt F) → (⟨S1024x16, .f32⟩ : BufTy).Contents (Elt F)),
    unary main_v1720 main_v1732 (broadcastInDim S1024x16 ![0, 1] bcast_S1024x1_S1024x16_0_1 : (⟨S1024x1, .f32⟩ : BufTy).Contents (Elt F) → (⟨S1024x16, .f32⟩ : BufTy).Contents (Elt F)),
    binary main_v1732 main_v1724 main_v1733 (mulf : (⟨S1024x16, .f32⟩ : BufTy).Contents (Elt F) → (⟨S1024x16, .f32⟩ : BufTy).Contents (Elt F) → (⟨S1024x16, .f32⟩ : BufTy).Contents (Elt F)),
    binary main_v1731 main_v1733 main_v1734 (addf : (⟨S1024x16, .f32⟩ : BufTy).Contents (Elt F) → (⟨S1024x16, .f32⟩ : BufTy).Contents (Elt F) → (⟨S1024x16, .f32⟩ : BufTy).Contents (Elt F)),
    nullary main_c_91 (constantI S_ 32 8#32),
    unary main_c_91 main_v1735 (broadcastInDim S1 ![] bcast_S_S1 : (⟨S_, .i32⟩ : BufTy).Contents (Elt F) → (⟨S1, .i32⟩ : BufTy).Contents (Elt F)),
    ternary main_v1714 main_v1735 main_v1734 main_v1736 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1737 ((extractStridedSlice S1024x1 ![0, 85] · slices_S1024x120_S1024x1_0_85) : (⟨S1024x120, .f32⟩ : BufTy).Contents (Elt F) → (⟨S1024x1, .f32⟩ : BufTy).Contents (Elt F)),
    reshape main_v1737 main_v1738 rfl shapeCasts_S1024x1_S1024,
    unary main_v1738 main_v1739 (Host.cos : (⟨S1024, .f32⟩ : BufTy).Contents (Elt F) → (⟨S1024, .f32⟩ : BufTy).Contents (Elt F)),
    unary main_v1739 main_v1740 (broadcastInDim S1024x1 ![0] bcast_S1024_S1024x1_0 : (⟨S1024, .f32⟩ : BufTy).Contents (Elt F) → (⟨S1024x1, .f32⟩ : BufTy).Contents (Elt F)),
    unary main_v1738 main_v1741 (Host.sin : (⟨S1024, .f32⟩ : BufTy).Contents (Elt F) → (⟨S1024, .f32⟩ : BufTy).Contents (Elt F)),
    unary main_v1741 main_v1742 (broadcastInDim S1024x1 ![0] bcast_S1024_S1024x1_0 : (⟨S1024, .f32⟩ : BufTy).Contents (Elt F) → (⟨S1024x1, .f32⟩ : BufTy).Contents (Elt F)),
    unary main_v1736 main_v1743 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1743 main_v1744 rfl shapeCasts_S1024x1x16_S1024x16,
    unary main_v1740 main_v1745 (broadcastInDim S1024x16 ![0, 1] bcast_S1024x1_S1024x16_0_1 : (⟨S1024x1, .f32⟩ : BufTy).Contents (Elt F) → (⟨S1024x16, .f32⟩ : BufTy).Contents (Elt F)),
    binary main_v1745 main_v1729 main_v1746 (mulf : (⟨S1024x16, .f32⟩ : BufTy).Contents (Elt F) → (⟨S1024x16, .f32⟩ : BufTy).Contents (Elt F) → (⟨S1024x16, .f32⟩ : BufTy).Contents (Elt F)) ]
/-- Operations 41 … 60 of window 30. -/
abbrev st92 : List (HloOp τ sig (Elt F)) :=
  [ unary main_v1742 main_v1747 (broadcastInDim S1024x16 ![0, 1] bcast_S1024x1_S1024x16_0_1 : (⟨S1024x1, .f32⟩ : BufTy).Contents (Elt F) → (⟨S1024x16, .f32⟩ : BufTy).Contents (Elt F)),
    binary main_v1747 main_v1744 main_v1748 (mulf : (⟨S1024x16, .f32⟩ : BufTy).Contents (Elt F) → (⟨S1024x16, .f32⟩ : BufTy).Contents (Elt F) → (⟨S1024x16, .f32⟩ : BufTy).Contents (Elt F)),
    binary main_v1746 main_v1748 main_v1749 (subf : (⟨S1024x16, .f32⟩ : BufTy).Contents (Elt F) → (⟨S1024x16, .f32⟩ : BufTy).Contents (Elt F) → (⟨S1024x16, .f32⟩ : BufTy).Contents (Elt F)),
    unary main_v1742 main_v1750 (broadcastInDim S1024x16 ![0, 1] bcast_S1024x1_S1024x16_0_1 : (⟨S1024x1, .f32⟩ : BufTy).Contents (Elt F) → (⟨S1024x16, .f32⟩ : BufTy).Contents (Elt F)),
    binary main_v1750 main_v1729 main_v1751 (mulf : (⟨S1024x16, .f32⟩ : BufTy).Contents (Elt F) → (⟨S1024x16, .f32⟩ : BufTy).Contents (Elt F) → (⟨S1024x16, .f32⟩ : BufTy).Contents (Elt F)),
    unary main_v1740 main_v1752 (broadcastInDim S1024x16 ![0, 1] bcast_S1024x1_S1024x16_0_1 : (⟨S1024x1, .f32⟩ : BufTy).Contents (Elt F) → (⟨S1024x16, .f32⟩ : BufTy).Contents (Elt F)),
    binary main_v1752 main_v1744 main_v1753 (mulf : (⟨S1024x16, .f32⟩ : BufTy).Contents (Elt F) → (⟨S1024x16, .f32⟩ : BufTy).Contents (Elt F) → (⟨S1024x16, .f32⟩ : BufTy).Contents (Elt F)),
    binary main_v1751 main_v1753 main_v1754 (addf : (⟨S1024x16, .f32⟩ : BufTy).Contents (Elt F) → (⟨S1024x16, .f32⟩ : BufTy).Contents (Elt F) → (⟨S1024x16, .f32⟩ : BufTy).Contents (Elt F)),
    nullary main_c_92 (constantI S_ 32 9#32),
    unary main_c_92 main_v1755 (broadcastInDim S1 ![] bcast_S_S1 : (⟨S_, .i32⟩ : BufTy).Contents (Elt F) → (⟨S1, .i32⟩ : BufTy).Contents (Elt F)),
    ternary main_v1736 main_v1755 main_v1754 main_v1756 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1757 ((extractStridedSlice S1024x1 ![0, 86] · slices_S1024x120_S1024x1_0_86) : (⟨S1024x120, .f32⟩ : BufTy).Contents (Elt F) → (⟨S1024x1, .f32⟩ : BufTy).Contents (Elt F)),
    reshape main_v1757 main_v1758 rfl shapeCasts_S1024x1_S1024,
    unary main_v1758 main_v1759 (Host.cos : (⟨S1024, .f32⟩ : BufTy).Contents (Elt F) → (⟨S1024, .f32⟩ : BufTy).Contents (Elt F)),
    unary main_v1759 main_v1760 (broadcastInDim S1024x1 ![0] bcast_S1024_S1024x1_0 : (⟨S1024, .f32⟩ : BufTy).Contents (Elt F) → (⟨S1024x1, .f32⟩ : BufTy).Contents (Elt F)),
    unary main_v1758 main_v1761 (Host.sin : (⟨S1024, .f32⟩ : BufTy).Contents (Elt F) → (⟨S1024, .f32⟩ : BufTy).Contents (Elt F)),
    unary main_v1761 main_v1762 (broadcastInDim S1024x1 ![0] bcast_S1024_S1024x1_0 : (⟨S1024, .f32⟩ : BufTy).Contents (Elt F) → (⟨S1024x1, .f32⟩ : BufTy).Contents (Elt F)),
    unary main_v1756 main_v1763 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1763 main_v1764 rfl shapeCasts_S1024x1x16_S1024x16,
    unary main_v1760 main_v1765 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 31. -/
abbrev st93 : List (HloOp τ sig (Elt F)) :=
  [ binary main_v1765 main_v1749 main_v1766 (mulf : (⟨S1024x16, .f32⟩ : BufTy).Contents (Elt F) → (⟨S1024x16, .f32⟩ : BufTy).Contents (Elt F) → (⟨S1024x16, .f32⟩ : BufTy).Contents (Elt F)),
    unary main_v1762 main_v1767 (broadcastInDim S1024x16 ![0, 1] bcast_S1024x1_S1024x16_0_1 : (⟨S1024x1, .f32⟩ : BufTy).Contents (Elt F) → (⟨S1024x16, .f32⟩ : BufTy).Contents (Elt F)),
    binary main_v1767 main_v1764 main_v1768 (mulf : (⟨S1024x16, .f32⟩ : BufTy).Contents (Elt F) → (⟨S1024x16, .f32⟩ : BufTy).Contents (Elt F) → (⟨S1024x16, .f32⟩ : BufTy).Contents (Elt F)),
    binary main_v1766 main_v1768 main_v1769 (subf : (⟨S1024x16, .f32⟩ : BufTy).Contents (Elt F) → (⟨S1024x16, .f32⟩ : BufTy).Contents (Elt F) → (⟨S1024x16, .f32⟩ : BufTy).Contents (Elt F)),
    unary main_v1762 main_v1770 (broadcastInDim S1024x16 ![0, 1] bcast_S1024x1_S1024x16_0_1 : (⟨S1024x1, .f32⟩ : BufTy).Contents (Elt F) → (⟨S1024x16, .f32⟩ : BufTy).Contents (Elt F)),
    binary main_v1770 main_v1749 main_v1771 (mulf : (⟨S1024x16, .f32⟩ : BufTy).Contents (Elt F) → (⟨S1024x16, .f32⟩ : BufTy).Contents (Elt F) → (⟨S1024x16, .f32⟩ : BufTy).Contents (Elt F)),
    unary main_v1760 main_v1772 (broadcastInDim S1024x16 ![0, 1] bcast_S1024x1_S1024x16_0_1 : (⟨S1024x1, .f32⟩ : BufTy).Contents (Elt F) → (⟨S1024x16, .f32⟩ : BufTy).Contents (Elt F)),
    binary main_v1772 main_v1764 main_v1773 (mulf : (⟨S1024x16, .f32⟩ : BufTy).Contents (Elt F) → (⟨S1024x16, .f32⟩ : BufTy).Contents (Elt F) → (⟨S1024x16, .f32⟩ : BufTy).Contents (Elt F)),
    binary main_v1771 main_v1773 main_v1774 (addf : (⟨S1024x16, .f32⟩ : BufTy).Contents (Elt F) → (⟨S1024x16, .f32⟩ : BufTy).Contents (Elt F) → (⟨S1024x16, .f32⟩ : BufTy).Contents (Elt F)),
    nullary main_c_93 (constantI S_ 32 10#32),
    unary main_c_93 main_v1775 (broadcastInDim S1 ![] bcast_S_S1 : (⟨S_, .i32⟩ : BufTy).Contents (Elt F) → (⟨S1, .i32⟩ : BufTy).Contents (Elt F)),
    ternary main_v1756 main_v1775 main_v1774 main_v1776 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1777 ((extractStridedSlice S1024x1 ![0, 87] · slices_S1024x120_S1024x1_0_87) : (⟨S1024x120, .f32⟩ : BufTy).Contents (Elt F) → (⟨S1024x1, .f32⟩ : BufTy).Contents (Elt F)),
    reshape main_v1777 main_v1778 rfl shapeCasts_S1024x1_S1024,
    unary main_v1778 main_v1779 (Host.cos : (⟨S1024, .f32⟩ : BufTy).Contents (Elt F) → (⟨S1024, .f32⟩ : BufTy).Contents (Elt F)),
    unary main_v1779 main_v1780 (broadcastInDim S1024x1 ![0] bcast_S1024_S1024x1_0 : (⟨S1024, .f32⟩ : BufTy).Contents (Elt F) → (⟨S1024x1, .f32⟩ : BufTy).Contents (Elt F)),
    unary main_v1778 main_v1781 (Host.sin : (⟨S1024, .f32⟩ : BufTy).Contents (Elt F) → (⟨S1024, .f32⟩ : BufTy).Contents (Elt F)),
    unary main_v1781 main_v1782 (broadcastInDim S1024x1 ![0] bcast_S1024_S1024x1_0 : (⟨S1024, .f32⟩ : BufTy).Contents (Elt F) → (⟨S1024x1, .f32⟩ : BufTy).Contents (Elt F)),
    unary main_v1776 main_v1783 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1783 main_v1784 rfl shapeCasts_S1024x1x16_S1024x16 ]
/-- Operations 21 … 40 of window 31. -/
abbrev st94 : List (HloOp τ sig (Elt F)) :=
  [ unary main_v1780 main_v1785 (broadcastInDim S1024x16 ![0, 1] bcast_S1024x1_S1024x16_0_1 : (⟨S1024x1, .f32⟩ : BufTy).Contents (Elt F) → (⟨S1024x16, .f32⟩ : BufTy).Contents (Elt F)),
    binary main_v1785 main_v1769 main_v1786 (mulf : (⟨S1024x16, .f32⟩ : BufTy).Contents (Elt F) → (⟨S1024x16, .f32⟩ : BufTy).Contents (Elt F) → (⟨S1024x16, .f32⟩ : BufTy).Contents (Elt F)),
    unary main_v1782 main_v1787 (broadcastInDim S1024x16 ![0, 1] bcast_S1024x1_S1024x16_0_1 : (⟨S1024x1, .f32⟩ : BufTy).Contents (Elt F) → (⟨S1024x16, .f32⟩ : BufTy).Contents (Elt F)),
    binary main_v1787 main_v1784 main_v1788 (mulf : (⟨S1024x16, .f32⟩ : BufTy).Contents (Elt F) → (⟨S1024x16, .f32⟩ : BufTy).Contents (Elt F) → (⟨S1024x16, .f32⟩ : BufTy).Contents (Elt F)),
    binary main_v1786 main_v1788 main_v1789 (subf : (⟨S1024x16, .f32⟩ : BufTy).Contents (Elt F) → (⟨S1024x16, .f32⟩ : BufTy).Contents (Elt F) → (⟨S1024x16, .f32⟩ : BufTy).Contents (Elt F)),
    unary main_v1782 main_v1790 (broadcastInDim S1024x16 ![0, 1] bcast_S1024x1_S1024x16_0_1 : (⟨S1024x1, .f32⟩ : BufTy).Contents (Elt F) → (⟨S1024x16, .f32⟩ : BufTy).Contents (Elt F)),
    binary main_v1790 main_v1769 main_v1791 (mulf : (⟨S1024x16, .f32⟩ : BufTy).Contents (Elt F) → (⟨S1024x16, .f32⟩ : BufTy).Contents (Elt F) → (⟨S1024x16, .f32⟩ : BufTy).Contents (Elt F)),
    unary main_v1780 main_v1792 (broadcastInDim S1024x16 ![0, 1] bcast_S1024x1_S1024x16_0_1 : (⟨S1024x1, .f32⟩ : BufTy).Contents (Elt F) → (⟨S1024x16, .f32⟩ : BufTy).Contents (Elt F)),
    binary main_v1792 main_v1784 main_v1793 (mulf : (⟨S1024x16, .f32⟩ : BufTy).Contents (Elt F) → (⟨S1024x16, .f32⟩ : BufTy).Contents (Elt F) → (⟨S1024x16, .f32⟩ : BufTy).Contents (Elt F)),
    binary main_v1791 main_v1793 main_v1794 (addf : (⟨S1024x16, .f32⟩ : BufTy).Contents (Elt F) → (⟨S1024x16, .f32⟩ : BufTy).Contents (Elt F) → (⟨S1024x16, .f32⟩ : BufTy).Contents (Elt F)),
    nullary main_c_94 (constantI S_ 32 11#32),
    unary main_c_94 main_v1795 (broadcastInDim S1 ![] bcast_S_S1 : (⟨S_, .i32⟩ : BufTy).Contents (Elt F) → (⟨S1, .i32⟩ : BufTy).Contents (Elt F)),
    ternary main_v1776 main_v1795 main_v1794 main_v1796 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1797 ((extractStridedSlice S1024x1 ![0, 88] · slices_S1024x120_S1024x1_0_88) : (⟨S1024x120, .f32⟩ : BufTy).Contents (Elt F) → (⟨S1024x1, .f32⟩ : BufTy).Contents (Elt F)),
    reshape main_v1797 main_v1798 rfl shapeCasts_S1024x1_S1024,
    unary main_v1798 main_v1799 (Host.cos : (⟨S1024, .f32⟩ : BufTy).Contents (Elt F) → (⟨S1024, .f32⟩ : BufTy).Contents (Elt F)),
    unary main_v1799 main_v1800 (broadcastInDim S1024x1 ![0] bcast_S1024_S1024x1_0 : (⟨S1024, .f32⟩ : BufTy).Contents (Elt F) → (⟨S1024x1, .f32⟩ : BufTy).Contents (Elt F)),
    unary main_v1798 main_v1801 (Host.sin : (⟨S1024, .f32⟩ : BufTy).Contents (Elt F) → (⟨S1024, .f32⟩ : BufTy).Contents (Elt F)),
    unary main_v1801 main_v1802 (broadcastInDim S1024x1 ![0] bcast_S1024_S1024x1_0 : (⟨S1024, .f32⟩ : BufTy).Contents (Elt F) → (⟨S1024x1, .f32⟩ : BufTy).Contents (Elt F)),
    unary main_v1796 main_v1803 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)) ]
/-- Operations 41 … 60 of window 31. -/
abbrev st95 : List (HloOp τ sig (Elt F)) :=
  [ reshape main_v1803 main_v1804 rfl shapeCasts_S1024x1x16_S1024x16,
    unary main_v1800 main_v1805 (broadcastInDim S1024x16 ![0, 1] bcast_S1024x1_S1024x16_0_1 : (⟨S1024x1, .f32⟩ : BufTy).Contents (Elt F) → (⟨S1024x16, .f32⟩ : BufTy).Contents (Elt F)),
    binary main_v1805 main_v1789 main_v1806 (mulf : (⟨S1024x16, .f32⟩ : BufTy).Contents (Elt F) → (⟨S1024x16, .f32⟩ : BufTy).Contents (Elt F) → (⟨S1024x16, .f32⟩ : BufTy).Contents (Elt F)),
    unary main_v1802 main_v1807 (broadcastInDim S1024x16 ![0, 1] bcast_S1024x1_S1024x16_0_1 : (⟨S1024x1, .f32⟩ : BufTy).Contents (Elt F) → (⟨S1024x16, .f32⟩ : BufTy).Contents (Elt F)),
    binary main_v1807 main_v1804 main_v1808 (mulf : (⟨S1024x16, .f32⟩ : BufTy).Contents (Elt F) → (⟨S1024x16, .f32⟩ : BufTy).Contents (Elt F) → (⟨S1024x16, .f32⟩ : BufTy).Contents (Elt F)),
    binary main_v1806 main_v1808 main_v1809 (subf : (⟨S1024x16, .f32⟩ : BufTy).Contents (Elt F) → (⟨S1024x16, .f32⟩ : BufTy).Contents (Elt F) → (⟨S1024x16, .f32⟩ : BufTy).Contents (Elt F)),
    unary main_v1802 main_v1810 (broadcastInDim S1024x16 ![0, 1] bcast_S1024x1_S1024x16_0_1 : (⟨S1024x1, .f32⟩ : BufTy).Contents (Elt F) → (⟨S1024x16, .f32⟩ : BufTy).Contents (Elt F)),
    binary main_v1810 main_v1789 main_v1811 (mulf : (⟨S1024x16, .f32⟩ : BufTy).Contents (Elt F) → (⟨S1024x16, .f32⟩ : BufTy).Contents (Elt F) → (⟨S1024x16, .f32⟩ : BufTy).Contents (Elt F)),
    unary main_v1800 main_v1812 (broadcastInDim S1024x16 ![0, 1] bcast_S1024x1_S1024x16_0_1 : (⟨S1024x1, .f32⟩ : BufTy).Contents (Elt F) → (⟨S1024x16, .f32⟩ : BufTy).Contents (Elt F)),
    binary main_v1812 main_v1804 main_v1813 (mulf : (⟨S1024x16, .f32⟩ : BufTy).Contents (Elt F) → (⟨S1024x16, .f32⟩ : BufTy).Contents (Elt F) → (⟨S1024x16, .f32⟩ : BufTy).Contents (Elt F)),
    binary main_v1811 main_v1813 main_v1814 (addf : (⟨S1024x16, .f32⟩ : BufTy).Contents (Elt F) → (⟨S1024x16, .f32⟩ : BufTy).Contents (Elt F) → (⟨S1024x16, .f32⟩ : BufTy).Contents (Elt F)),
    nullary main_c_95 (constantI S_ 32 12#32),
    unary main_c_95 main_v1815 (broadcastInDim S1 ![] bcast_S_S1 : (⟨S_, .i32⟩ : BufTy).Contents (Elt F) → (⟨S1, .i32⟩ : BufTy).Contents (Elt F)),
    ternary main_v1796 main_v1815 main_v1814 main_v1816 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1817 ((extractStridedSlice S1024x1 ![0, 89] · slices_S1024x120_S1024x1_0_89) : (⟨S1024x120, .f32⟩ : BufTy).Contents (Elt F) → (⟨S1024x1, .f32⟩ : BufTy).Contents (Elt F)),
    reshape main_v1817 main_v1818 rfl shapeCasts_S1024x1_S1024,
    unary main_v1818 main_v1819 (Host.cos : (⟨S1024, .f32⟩ : BufTy).Contents (Elt F) → (⟨S1024, .f32⟩ : BufTy).Contents (Elt F)),
    unary main_v1819 main_v1820 (broadcastInDim S1024x1 ![0] bcast_S1024_S1024x1_0 : (⟨S1024, .f32⟩ : BufTy).Contents (Elt F) → (⟨S1024x1, .f32⟩ : BufTy).Contents (Elt F)),
    unary main_v1818 main_v1821 (Host.sin : (⟨S1024, .f32⟩ : BufTy).Contents (Elt F) → (⟨S1024, .f32⟩ : BufTy).Contents (Elt F)),
    unary main_v1821 main_v1822 (broadcastInDim S1024x1 ![0] bcast_S1024_S1024x1_0 : (⟨S1024, .f32⟩ : BufTy).Contents (Elt F) → (⟨S1024x1, .f32⟩ : BufTy).Contents (Elt F)) ]
/-- Operations 1 … 20 of window 32. -/
abbrev st96 : List (HloOp τ sig (Elt F)) :=
  [ unary main_v1816 main_v1823 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1823 main_v1824 rfl shapeCasts_S1024x1x16_S1024x16,
    unary main_v1820 main_v1825 (broadcastInDim S1024x16 ![0, 1] bcast_S1024x1_S1024x16_0_1 : (⟨S1024x1, .f32⟩ : BufTy).Contents (Elt F) → (⟨S1024x16, .f32⟩ : BufTy).Contents (Elt F)),
    binary main_v1825 main_v1809 main_v1826 (mulf : (⟨S1024x16, .f32⟩ : BufTy).Contents (Elt F) → (⟨S1024x16, .f32⟩ : BufTy).Contents (Elt F) → (⟨S1024x16, .f32⟩ : BufTy).Contents (Elt F)),
    unary main_v1822 main_v1827 (broadcastInDim S1024x16 ![0, 1] bcast_S1024x1_S1024x16_0_1 : (⟨S1024x1, .f32⟩ : BufTy).Contents (Elt F) → (⟨S1024x16, .f32⟩ : BufTy).Contents (Elt F)),
    binary main_v1827 main_v1824 main_v1828 (mulf : (⟨S1024x16, .f32⟩ : BufTy).Contents (Elt F) → (⟨S1024x16, .f32⟩ : BufTy).Contents (Elt F) → (⟨S1024x16, .f32⟩ : BufTy).Contents (Elt F)),
    binary main_v1826 main_v1828 main_v1829 (subf : (⟨S1024x16, .f32⟩ : BufTy).Contents (Elt F) → (⟨S1024x16, .f32⟩ : BufTy).Contents (Elt F) → (⟨S1024x16, .f32⟩ : BufTy).Contents (Elt F)),
    unary main_v1822 main_v1830 (broadcastInDim S1024x16 ![0, 1] bcast_S1024x1_S1024x16_0_1 : (⟨S1024x1, .f32⟩ : BufTy).Contents (Elt F) → (⟨S1024x16, .f32⟩ : BufTy).Contents (Elt F)),
    binary main_v1830 main_v1809 main_v1831 (mulf : (⟨S1024x16, .f32⟩ : BufTy).Contents (Elt F) → (⟨S1024x16, .f32⟩ : BufTy).Contents (Elt F) → (⟨S1024x16, .f32⟩ : BufTy).Contents (Elt F)),
    unary main_v1820 main_v1832 (broadcastInDim S1024x16 ![0, 1] bcast_S1024x1_S1024x16_0_1 : (⟨S1024x1, .f32⟩ : BufTy).Contents (Elt F) → (⟨S1024x16, .f32⟩ : BufTy).Contents (Elt F)),
    binary main_v1832 main_v1824 main_v1833 (mulf : (⟨S1024x16, .f32⟩ : BufTy).Contents (Elt F) → (⟨S1024x16, .f32⟩ : BufTy).Contents (Elt F) → (⟨S1024x16, .f32⟩ : BufTy).Contents (Elt F)),
    binary main_v1831 main_v1833 main_v1834 (addf : (⟨S1024x16, .f32⟩ : BufTy).Contents (Elt F) → (⟨S1024x16, .f32⟩ : BufTy).Contents (Elt F) → (⟨S1024x16, .f32⟩ : BufTy).Contents (Elt F)),
    nullary main_c_96 (constantI S_ 32 13#32),
    unary main_c_96 main_v1835 (broadcastInDim S1 ![] bcast_S_S1 : (⟨S_, .i32⟩ : BufTy).Contents (Elt F) → (⟨S1, .i32⟩ : BufTy).Contents (Elt F)),
    ternary main_v1816 main_v1835 main_v1834 main_v1836 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1837 ((extractStridedSlice S1024x1 ![0, 90] · slices_S1024x120_S1024x1_0_90) : (⟨S1024x120, .f32⟩ : BufTy).Contents (Elt F) → (⟨S1024x1, .f32⟩ : BufTy).Contents (Elt F)),
    reshape main_v1837 main_v1838 rfl shapeCasts_S1024x1_S1024,
    unary main_v1838 main_v1839 (Host.cos : (⟨S1024, .f32⟩ : BufTy).Contents (Elt F) → (⟨S1024, .f32⟩ : BufTy).Contents (Elt F)),
    unary main_v1839 main_v1840 (broadcastInDim S1024x1 ![0] bcast_S1024_S1024x1_0 : (⟨S1024, .f32⟩ : BufTy).Contents (Elt F) → (⟨S1024x1, .f32⟩ : BufTy).Contents (Elt F)),
    unary main_v1838 main_v1841 (Host.sin : (⟨S1024, .f32⟩ : BufTy).Contents (Elt F) → (⟨S1024, .f32⟩ : BufTy).Contents (Elt F)) ]
/-- Operations 21 … 40 of window 32. -/
abbrev st97 : List (HloOp τ sig (Elt F)) :=
  [ unary main_v1841 main_v1842 (broadcastInDim S1024x1 ![0] bcast_S1024_S1024x1_0 : (⟨S1024, .f32⟩ : BufTy).Contents (Elt F) → (⟨S1024x1, .f32⟩ : BufTy).Contents (Elt F)),
    unary main_v1836 main_v1843 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1843 main_v1844 rfl shapeCasts_S1024x1x16_S1024x16,
    unary main_v1840 main_v1845 (broadcastInDim S1024x16 ![0, 1] bcast_S1024x1_S1024x16_0_1 : (⟨S1024x1, .f32⟩ : BufTy).Contents (Elt F) → (⟨S1024x16, .f32⟩ : BufTy).Contents (Elt F)),
    binary main_v1845 main_v1829 main_v1846 (mulf : (⟨S1024x16, .f32⟩ : BufTy).Contents (Elt F) → (⟨S1024x16, .f32⟩ : BufTy).Contents (Elt F) → (⟨S1024x16, .f32⟩ : BufTy).Contents (Elt F)),
    unary main_v1842 main_v1847 (broadcastInDim S1024x16 ![0, 1] bcast_S1024x1_S1024x16_0_1 : (⟨S1024x1, .f32⟩ : BufTy).Contents (Elt F) → (⟨S1024x16, .f32⟩ : BufTy).Contents (Elt F)),
    binary main_v1847 main_v1844 main_v1848 (mulf : (⟨S1024x16, .f32⟩ : BufTy).Contents (Elt F) → (⟨S1024x16, .f32⟩ : BufTy).Contents (Elt F) → (⟨S1024x16, .f32⟩ : BufTy).Contents (Elt F)),
    binary main_v1846 main_v1848 main_v1849 (subf : (⟨S1024x16, .f32⟩ : BufTy).Contents (Elt F) → (⟨S1024x16, .f32⟩ : BufTy).Contents (Elt F) → (⟨S1024x16, .f32⟩ : BufTy).Contents (Elt F)),
    unary main_v1842 main_v1850 (broadcastInDim S1024x16 ![0, 1] bcast_S1024x1_S1024x16_0_1 : (⟨S1024x1, .f32⟩ : BufTy).Contents (Elt F) → (⟨S1024x16, .f32⟩ : BufTy).Contents (Elt F)),
    binary main_v1850 main_v1829 main_v1851 (mulf : (⟨S1024x16, .f32⟩ : BufTy).Contents (Elt F) → (⟨S1024x16, .f32⟩ : BufTy).Contents (Elt F) → (⟨S1024x16, .f32⟩ : BufTy).Contents (Elt F)),
    unary main_v1840 main_v1852 (broadcastInDim S1024x16 ![0, 1] bcast_S1024x1_S1024x16_0_1 : (⟨S1024x1, .f32⟩ : BufTy).Contents (Elt F) → (⟨S1024x16, .f32⟩ : BufTy).Contents (Elt F)),
    binary main_v1852 main_v1844 main_v1853 (mulf : (⟨S1024x16, .f32⟩ : BufTy).Contents (Elt F) → (⟨S1024x16, .f32⟩ : BufTy).Contents (Elt F) → (⟨S1024x16, .f32⟩ : BufTy).Contents (Elt F)),
    binary main_v1851 main_v1853 main_v1854 (addf : (⟨S1024x16, .f32⟩ : BufTy).Contents (Elt F) → (⟨S1024x16, .f32⟩ : BufTy).Contents (Elt F) → (⟨S1024x16, .f32⟩ : BufTy).Contents (Elt F)),
    nullary main_c_97 (constantI S_ 32 14#32),
    unary main_c_97 main_v1855 (broadcastInDim S1 ![] bcast_S_S1 : (⟨S_, .i32⟩ : BufTy).Contents (Elt F) → (⟨S1, .i32⟩ : BufTy).Contents (Elt F)),
    ternary main_v1836 main_v1855 main_v1854 main_v1856 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1857 ((extractStridedSlice S1024x1 ![0, 91] · slices_S1024x120_S1024x1_0_91) : (⟨S1024x120, .f32⟩ : BufTy).Contents (Elt F) → (⟨S1024x1, .f32⟩ : BufTy).Contents (Elt F)),
    reshape main_v1857 main_v1858 rfl shapeCasts_S1024x1_S1024,
    unary main_v1858 main_v1859 (Host.cos : (⟨S1024, .f32⟩ : BufTy).Contents (Elt F) → (⟨S1024, .f32⟩ : BufTy).Contents (Elt F)),
    unary main_v1859 main_v1860 (broadcastInDim S1024x1 ![0] bcast_S1024_S1024x1_0 : (⟨S1024, .f32⟩ : BufTy).Contents (Elt F) → (⟨S1024x1, .f32⟩ : BufTy).Contents (Elt F)) ]
/-- Operations 41 … 60 of window 32. -/
abbrev st98 : List (HloOp τ sig (Elt F)) :=
  [ unary main_v1858 main_v1861 (Host.sin : (⟨S1024, .f32⟩ : BufTy).Contents (Elt F) → (⟨S1024, .f32⟩ : BufTy).Contents (Elt F)),
    unary main_v1861 main_v1862 (broadcastInDim S1024x1 ![0] bcast_S1024_S1024x1_0 : (⟨S1024, .f32⟩ : BufTy).Contents (Elt F) → (⟨S1024x1, .f32⟩ : BufTy).Contents (Elt F)),
    unary main_v1856 main_v1863 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v1863 main_v1864 rfl shapeCasts_S1024x1x16_S1024x16,
    unary main_v1860 main_v1865 (broadcastInDim S1024x16 ![0, 1] bcast_S1024x1_S1024x16_0_1 : (⟨S1024x1, .f32⟩ : BufTy).Contents (Elt F) → (⟨S1024x16, .f32⟩ : BufTy).Contents (Elt F)),
    binary main_v1865 main_v1849 main_v1866 (mulf : (⟨S1024x16, .f32⟩ : BufTy).Contents (Elt F) → (⟨S1024x16, .f32⟩ : BufTy).Contents (Elt F) → (⟨S1024x16, .f32⟩ : BufTy).Contents (Elt F)),
    unary main_v1862 main_v1867 (broadcastInDim S1024x16 ![0, 1] bcast_S1024x1_S1024x16_0_1 : (⟨S1024x1, .f32⟩ : BufTy).Contents (Elt F) → (⟨S1024x16, .f32⟩ : BufTy).Contents (Elt F)),
    binary main_v1867 main_v1864 main_v1868 (mulf : (⟨S1024x16, .f32⟩ : BufTy).Contents (Elt F) → (⟨S1024x16, .f32⟩ : BufTy).Contents (Elt F) → (⟨S1024x16, .f32⟩ : BufTy).Contents (Elt F)),
    binary main_v1866 main_v1868 main_v1869 (subf : (⟨S1024x16, .f32⟩ : BufTy).Contents (Elt F) → (⟨S1024x16, .f32⟩ : BufTy).Contents (Elt F) → (⟨S1024x16, .f32⟩ : BufTy).Contents (Elt F)),
    unary main_v1862 main_v1870 (broadcastInDim S1024x16 ![0, 1] bcast_S1024x1_S1024x16_0_1 : (⟨S1024x1, .f32⟩ : BufTy).Contents (Elt F) → (⟨S1024x16, .f32⟩ : BufTy).Contents (Elt F)),
    binary main_v1870 main_v1849 main_v1871 (mulf : (⟨S1024x16, .f32⟩ : BufTy).Contents (Elt F) → (⟨S1024x16, .f32⟩ : BufTy).Contents (Elt F) → (⟨S1024x16, .f32⟩ : BufTy).Contents (Elt F)),
    unary main_v1860 main_v1872 (broadcastInDim S1024x16 ![0, 1] bcast_S1024x1_S1024x16_0_1 : (⟨S1024x1, .f32⟩ : BufTy).Contents (Elt F) → (⟨S1024x16, .f32⟩ : BufTy).Contents (Elt F)),
    binary main_v1872 main_v1864 main_v1873 (mulf : (⟨S1024x16, .f32⟩ : BufTy).Contents (Elt F) → (⟨S1024x16, .f32⟩ : BufTy).Contents (Elt F) → (⟨S1024x16, .f32⟩ : BufTy).Contents (Elt F)),
    binary main_v1871 main_v1873 main_v1874 (addf : (⟨S1024x16, .f32⟩ : BufTy).Contents (Elt F) → (⟨S1024x16, .f32⟩ : BufTy).Contents (Elt F) → (⟨S1024x16, .f32⟩ : BufTy).Contents (Elt F)),
    nullary main_c_98 (constantI S_ 32 15#32),
    unary main_c_98 main_v1875 (broadcastInDim S1 ![] bcast_S_S1 : (⟨S_, .i32⟩ : BufTy).Contents (Elt F) → (⟨S1, .i32⟩ : BufTy).Contents (Elt F)),
    ternary main_v1856 main_v1875 main_v1874 main_v1876 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_99 (constantI S_ 32 7#32),
    unary main_c_99 main_v1877 (broadcastInDim S1 ![] bcast_S_S1 : (⟨S_, .i32⟩ : BufTy).Contents (Elt F) → (⟨S1, .i32⟩ : BufTy).Contents (Elt F)),
    ternary main_v1876 main_v1877 main_v1869 main_v1878 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 1 … 20 of window 33. -/
abbrev st99 : List (HloOp τ sig (Elt F)) :=
  [ unary main_v1878 main_v1879 ((extractStridedSlice S1024x1x16 ![0, 8, 0] · slices_S1024x16x16_S1024x1x16_0_8_0) : (⟨S1024x16x16, .f32⟩ : BufTy).Contents (Elt F) → (⟨S1024x1x16, .f32⟩ : BufTy).Contents (Elt F)),
    reshape main_v1879 main_v1880 rfl shapeCasts_S1024x1x16_S1024x16,
    unary main_arg1 main_v1881 ((extractStridedSlice S1024x1 ![0, 92] · slices_S1024x120_S1024x1_0_92) : (⟨S1024x120, .f32⟩ : BufTy).Contents (Elt F) → (⟨S1024x1, .f32⟩ : BufTy).Contents (Elt F)),
    reshape main_v1881 main_v1882 rfl shapeCasts_S1024x1_S1024,
    unary main_v1882 main_v1883 (Host.cos : (⟨S1024, .f32⟩ : BufTy).Contents (Elt F) → (⟨S1024, .f32⟩ : BufTy).Contents (Elt F)),
    unary main_v1883 main_v1884 (broadcastInDim S1024x1 ![0] bcast_S1024_S1024x1_0 : (⟨S1024, .f32⟩ : BufTy).Contents (Elt F) → (⟨S1024x1, .f32⟩ : BufTy).Contents (Elt F)),
    unary main_v1882 main_v1885 (Host.sin : (⟨S1024, .f32⟩ : BufTy).Contents (Elt F) → (⟨S1024, .f32⟩ : BufTy).Contents (Elt F)),
    unary main_v1885 main_v1886 (broadcastInDim S1024x1 ![0] bcast_S1024_S1024x1_0 : (⟨S1024, .f32⟩ : BufTy).Contents (Elt F) → (⟨S1024x1, .f32⟩ : BufTy).Contents (Elt F)),
    unary main_v1878 main_v1887 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v1887 main_v1888 rfl shapeCasts_S1024x1x16_S1024x16,
    unary main_v1884 main_v1889 (broadcastInDim S1024x16 ![0, 1] bcast_S1024x1_S1024x16_0_1 : (⟨S1024x1, .f32⟩ : BufTy).Contents (Elt F) → (⟨S1024x16, .f32⟩ : BufTy).Contents (Elt F)),
    binary main_v1889 main_v1880 main_v1890 (mulf : (⟨S1024x16, .f32⟩ : BufTy).Contents (Elt F) → (⟨S1024x16, .f32⟩ : BufTy).Contents (Elt F) → (⟨S1024x16, .f32⟩ : BufTy).Contents (Elt F)),
    unary main_v1886 main_v1891 (broadcastInDim S1024x16 ![0, 1] bcast_S1024x1_S1024x16_0_1 : (⟨S1024x1, .f32⟩ : BufTy).Contents (Elt F) → (⟨S1024x16, .f32⟩ : BufTy).Contents (Elt F)),
    binary main_v1891 main_v1888 main_v1892 (mulf : (⟨S1024x16, .f32⟩ : BufTy).Contents (Elt F) → (⟨S1024x16, .f32⟩ : BufTy).Contents (Elt F) → (⟨S1024x16, .f32⟩ : BufTy).Contents (Elt F)),
    binary main_v1890 main_v1892 main_v1893 (subf : (⟨S1024x16, .f32⟩ : BufTy).Contents (Elt F) → (⟨S1024x16, .f32⟩ : BufTy).Contents (Elt F) → (⟨S1024x16, .f32⟩ : BufTy).Contents (Elt F)),
    unary main_v1886 main_v1894 (broadcastInDim S1024x16 ![0, 1] bcast_S1024x1_S1024x16_0_1 : (⟨S1024x1, .f32⟩ : BufTy).Contents (Elt F) → (⟨S1024x16, .f32⟩ : BufTy).Contents (Elt F)),
    binary main_v1894 main_v1880 main_v1895 (mulf : (⟨S1024x16, .f32⟩ : BufTy).Contents (Elt F) → (⟨S1024x16, .f32⟩ : BufTy).Contents (Elt F) → (⟨S1024x16, .f32⟩ : BufTy).Contents (Elt F)),
    unary main_v1884 main_v1896 (broadcastInDim S1024x16 ![0, 1] bcast_S1024x1_S1024x16_0_1 : (⟨S1024x1, .f32⟩ : BufTy).Contents (Elt F) → (⟨S1024x16, .f32⟩ : BufTy).Contents (Elt F)),
    binary main_v1896 main_v1888 main_v1897 (mulf : (⟨S1024x16, .f32⟩ : BufTy).Contents (Elt F) → (⟨S1024x16, .f32⟩ : BufTy).Contents (Elt F) → (⟨S1024x16, .f32⟩ : BufTy).Contents (Elt F)),
    binary main_v1895 main_v1897 main_v1898 (addf : (⟨S1024x16, .f32⟩ : BufTy).Contents (Elt F) → (⟨S1024x16, .f32⟩ : BufTy).Contents (Elt F) → (⟨S1024x16, .f32⟩ : BufTy).Contents (Elt F)) ]
/-- Operations 21 … 40 of window 33. -/
abbrev st100 : List (HloOp τ sig (Elt F)) :=
  [ nullary main_c_100 (constantI S_ 32 9#32),
    unary main_c_100 main_v1899 (broadcastInDim S1 ![] bcast_S_S1 : (⟨S_, .i32⟩ : BufTy).Contents (Elt F) → (⟨S1, .i32⟩ : BufTy).Contents (Elt F)),
    ternary main_v1878 main_v1899 main_v1898 main_v1900 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1901 ((extractStridedSlice S1024x1 ![0, 93] · slices_S1024x120_S1024x1_0_93) : (⟨S1024x120, .f32⟩ : BufTy).Contents (Elt F) → (⟨S1024x1, .f32⟩ : BufTy).Contents (Elt F)),
    reshape main_v1901 main_v1902 rfl shapeCasts_S1024x1_S1024,
    unary main_v1902 main_v1903 (Host.cos : (⟨S1024, .f32⟩ : BufTy).Contents (Elt F) → (⟨S1024, .f32⟩ : BufTy).Contents (Elt F)),
    unary main_v1903 main_v1904 (broadcastInDim S1024x1 ![0] bcast_S1024_S1024x1_0 : (⟨S1024, .f32⟩ : BufTy).Contents (Elt F) → (⟨S1024x1, .f32⟩ : BufTy).Contents (Elt F)),
    unary main_v1902 main_v1905 (Host.sin : (⟨S1024, .f32⟩ : BufTy).Contents (Elt F) → (⟨S1024, .f32⟩ : BufTy).Contents (Elt F)),
    unary main_v1905 main_v1906 (broadcastInDim S1024x1 ![0] bcast_S1024_S1024x1_0 : (⟨S1024, .f32⟩ : BufTy).Contents (Elt F) → (⟨S1024x1, .f32⟩ : BufTy).Contents (Elt F)),
    unary main_v1900 main_v1907 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v1907 main_v1908 rfl shapeCasts_S1024x1x16_S1024x16,
    unary main_v1904 main_v1909 (broadcastInDim S1024x16 ![0, 1] bcast_S1024x1_S1024x16_0_1 : (⟨S1024x1, .f32⟩ : BufTy).Contents (Elt F) → (⟨S1024x16, .f32⟩ : BufTy).Contents (Elt F)),
    binary main_v1909 main_v1893 main_v1910 (mulf : (⟨S1024x16, .f32⟩ : BufTy).Contents (Elt F) → (⟨S1024x16, .f32⟩ : BufTy).Contents (Elt F) → (⟨S1024x16, .f32⟩ : BufTy).Contents (Elt F)),
    unary main_v1906 main_v1911 (broadcastInDim S1024x16 ![0, 1] bcast_S1024x1_S1024x16_0_1 : (⟨S1024x1, .f32⟩ : BufTy).Contents (Elt F) → (⟨S1024x16, .f32⟩ : BufTy).Contents (Elt F)),
    binary main_v1911 main_v1908 main_v1912 (mulf : (⟨S1024x16, .f32⟩ : BufTy).Contents (Elt F) → (⟨S1024x16, .f32⟩ : BufTy).Contents (Elt F) → (⟨S1024x16, .f32⟩ : BufTy).Contents (Elt F)),
    binary main_v1910 main_v1912 main_v1913 (subf : (⟨S1024x16, .f32⟩ : BufTy).Contents (Elt F) → (⟨S1024x16, .f32⟩ : BufTy).Contents (Elt F) → (⟨S1024x16, .f32⟩ : BufTy).Contents (Elt F)),
    unary main_v1906 main_v1914 (broadcastInDim S1024x16 ![0, 1] bcast_S1024x1_S1024x16_0_1 : (⟨S1024x1, .f32⟩ : BufTy).Contents (Elt F) → (⟨S1024x16, .f32⟩ : BufTy).Contents (Elt F)),
    binary main_v1914 main_v1893 main_v1915 (mulf : (⟨S1024x16, .f32⟩ : BufTy).Contents (Elt F) → (⟨S1024x16, .f32⟩ : BufTy).Contents (Elt F) → (⟨S1024x16, .f32⟩ : BufTy).Contents (Elt F)),
    unary main_v1904 main_v1916 (broadcastInDim S1024x16 ![0, 1] bcast_S1024x1_S1024x16_0_1 : (⟨S1024x1, .f32⟩ : BufTy).Contents (Elt F) → (⟨S1024x16, .f32⟩ : BufTy).Contents (Elt F)),
    binary main_v1916 main_v1908 main_v1917 (mulf : (⟨S1024x16, .f32⟩ : BufTy).Contents (Elt F) → (⟨S1024x16, .f32⟩ : BufTy).Contents (Elt F) → (⟨S1024x16, .f32⟩ : BufTy).Contents (Elt F)) ]
/-- Operations 41 … 60 of window 33. -/
abbrev st101 : List (HloOp τ sig (Elt F)) :=
  [ binary main_v1915 main_v1917 main_v1918 (addf : (⟨S1024x16, .f32⟩ : BufTy).Contents (Elt F) → (⟨S1024x16, .f32⟩ : BufTy).Contents (Elt F) → (⟨S1024x16, .f32⟩ : BufTy).Contents (Elt F)),
    nullary main_c_101 (constantI S_ 32 10#32),
    unary main_c_101 main_v1919 (broadcastInDim S1 ![] bcast_S_S1 : (⟨S_, .i32⟩ : BufTy).Contents (Elt F) → (⟨S1, .i32⟩ : BufTy).Contents (Elt F)),
    ternary main_v1900 main_v1919 main_v1918 main_v1920 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1921 ((extractStridedSlice S1024x1 ![0, 94] · slices_S1024x120_S1024x1_0_94) : (⟨S1024x120, .f32⟩ : BufTy).Contents (Elt F) → (⟨S1024x1, .f32⟩ : BufTy).Contents (Elt F)),
    reshape main_v1921 main_v1922 rfl shapeCasts_S1024x1_S1024,
    unary main_v1922 main_v1923 (Host.cos : (⟨S1024, .f32⟩ : BufTy).Contents (Elt F) → (⟨S1024, .f32⟩ : BufTy).Contents (Elt F)),
    unary main_v1923 main_v1924 (broadcastInDim S1024x1 ![0] bcast_S1024_S1024x1_0 : (⟨S1024, .f32⟩ : BufTy).Contents (Elt F) → (⟨S1024x1, .f32⟩ : BufTy).Contents (Elt F)),
    unary main_v1922 main_v1925 (Host.sin : (⟨S1024, .f32⟩ : BufTy).Contents (Elt F) → (⟨S1024, .f32⟩ : BufTy).Contents (Elt F)),
    unary main_v1925 main_v1926 (broadcastInDim S1024x1 ![0] bcast_S1024_S1024x1_0 : (⟨S1024, .f32⟩ : BufTy).Contents (Elt F) → (⟨S1024x1, .f32⟩ : BufTy).Contents (Elt F)),
    unary main_v1920 main_v1927 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v1927 main_v1928 rfl shapeCasts_S1024x1x16_S1024x16,
    unary main_v1924 main_v1929 (broadcastInDim S1024x16 ![0, 1] bcast_S1024x1_S1024x16_0_1 : (⟨S1024x1, .f32⟩ : BufTy).Contents (Elt F) → (⟨S1024x16, .f32⟩ : BufTy).Contents (Elt F)),
    binary main_v1929 main_v1913 main_v1930 (mulf : (⟨S1024x16, .f32⟩ : BufTy).Contents (Elt F) → (⟨S1024x16, .f32⟩ : BufTy).Contents (Elt F) → (⟨S1024x16, .f32⟩ : BufTy).Contents (Elt F)),
    unary main_v1926 main_v1931 (broadcastInDim S1024x16 ![0, 1] bcast_S1024x1_S1024x16_0_1 : (⟨S1024x1, .f32⟩ : BufTy).Contents (Elt F) → (⟨S1024x16, .f32⟩ : BufTy).Contents (Elt F)),
    binary main_v1931 main_v1928 main_v1932 (mulf : (⟨S1024x16, .f32⟩ : BufTy).Contents (Elt F) → (⟨S1024x16, .f32⟩ : BufTy).Contents (Elt F) → (⟨S1024x16, .f32⟩ : BufTy).Contents (Elt F)),
    binary main_v1930 main_v1932 main_v1933 (subf : (⟨S1024x16, .f32⟩ : BufTy).Contents (Elt F) → (⟨S1024x16, .f32⟩ : BufTy).Contents (Elt F) → (⟨S1024x16, .f32⟩ : BufTy).Contents (Elt F)),
    unary main_v1926 main_v1934 (broadcastInDim S1024x16 ![0, 1] bcast_S1024x1_S1024x16_0_1 : (⟨S1024x1, .f32⟩ : BufTy).Contents (Elt F) → (⟨S1024x16, .f32⟩ : BufTy).Contents (Elt F)),
    binary main_v1934 main_v1913 main_v1935 (mulf : (⟨S1024x16, .f32⟩ : BufTy).Contents (Elt F) → (⟨S1024x16, .f32⟩ : BufTy).Contents (Elt F) → (⟨S1024x16, .f32⟩ : BufTy).Contents (Elt F)),
    unary main_v1924 main_v1936 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 34. -/
abbrev st102 : List (HloOp τ sig (Elt F)) :=
  [ binary main_v1936 main_v1928 main_v1937 (mulf : (⟨S1024x16, .f32⟩ : BufTy).Contents (Elt F) → (⟨S1024x16, .f32⟩ : BufTy).Contents (Elt F) → (⟨S1024x16, .f32⟩ : BufTy).Contents (Elt F)),
    binary main_v1935 main_v1937 main_v1938 (addf : (⟨S1024x16, .f32⟩ : BufTy).Contents (Elt F) → (⟨S1024x16, .f32⟩ : BufTy).Contents (Elt F) → (⟨S1024x16, .f32⟩ : BufTy).Contents (Elt F)),
    nullary main_c_102 (constantI S_ 32 11#32),
    unary main_c_102 main_v1939 (broadcastInDim S1 ![] bcast_S_S1 : (⟨S_, .i32⟩ : BufTy).Contents (Elt F) → (⟨S1, .i32⟩ : BufTy).Contents (Elt F)),
    ternary main_v1920 main_v1939 main_v1938 main_v1940 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1941 ((extractStridedSlice S1024x1 ![0, 95] · slices_S1024x120_S1024x1_0_95) : (⟨S1024x120, .f32⟩ : BufTy).Contents (Elt F) → (⟨S1024x1, .f32⟩ : BufTy).Contents (Elt F)),
    reshape main_v1941 main_v1942 rfl shapeCasts_S1024x1_S1024,
    unary main_v1942 main_v1943 (Host.cos : (⟨S1024, .f32⟩ : BufTy).Contents (Elt F) → (⟨S1024, .f32⟩ : BufTy).Contents (Elt F)),
    unary main_v1943 main_v1944 (broadcastInDim S1024x1 ![0] bcast_S1024_S1024x1_0 : (⟨S1024, .f32⟩ : BufTy).Contents (Elt F) → (⟨S1024x1, .f32⟩ : BufTy).Contents (Elt F)),
    unary main_v1942 main_v1945 (Host.sin : (⟨S1024, .f32⟩ : BufTy).Contents (Elt F) → (⟨S1024, .f32⟩ : BufTy).Contents (Elt F)),
    unary main_v1945 main_v1946 (broadcastInDim S1024x1 ![0] bcast_S1024_S1024x1_0 : (⟨S1024, .f32⟩ : BufTy).Contents (Elt F) → (⟨S1024x1, .f32⟩ : BufTy).Contents (Elt F)),
    unary main_v1940 main_v1947 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v1947 main_v1948 rfl shapeCasts_S1024x1x16_S1024x16,
    unary main_v1944 main_v1949 (broadcastInDim S1024x16 ![0, 1] bcast_S1024x1_S1024x16_0_1 : (⟨S1024x1, .f32⟩ : BufTy).Contents (Elt F) → (⟨S1024x16, .f32⟩ : BufTy).Contents (Elt F)),
    binary main_v1949 main_v1933 main_v1950 (mulf : (⟨S1024x16, .f32⟩ : BufTy).Contents (Elt F) → (⟨S1024x16, .f32⟩ : BufTy).Contents (Elt F) → (⟨S1024x16, .f32⟩ : BufTy).Contents (Elt F)),
    unary main_v1946 main_v1951 (broadcastInDim S1024x16 ![0, 1] bcast_S1024x1_S1024x16_0_1 : (⟨S1024x1, .f32⟩ : BufTy).Contents (Elt F) → (⟨S1024x16, .f32⟩ : BufTy).Contents (Elt F)),
    binary main_v1951 main_v1948 main_v1952 (mulf : (⟨S1024x16, .f32⟩ : BufTy).Contents (Elt F) → (⟨S1024x16, .f32⟩ : BufTy).Contents (Elt F) → (⟨S1024x16, .f32⟩ : BufTy).Contents (Elt F)),
    binary main_v1950 main_v1952 main_v1953 (subf : (⟨S1024x16, .f32⟩ : BufTy).Contents (Elt F) → (⟨S1024x16, .f32⟩ : BufTy).Contents (Elt F) → (⟨S1024x16, .f32⟩ : BufTy).Contents (Elt F)),
    unary main_v1946 main_v1954 (broadcastInDim S1024x16 ![0, 1] bcast_S1024x1_S1024x16_0_1 : (⟨S1024x1, .f32⟩ : BufTy).Contents (Elt F) → (⟨S1024x16, .f32⟩ : BufTy).Contents (Elt F)),
    binary main_v1954 main_v1933 main_v1955 (mulf : (⟨S1024x16, .f32⟩ : BufTy).Contents (Elt F) → (⟨S1024x16, .f32⟩ : BufTy).Contents (Elt F) → (⟨S1024x16, .f32⟩ : BufTy).Contents (Elt F)) ]
/-- Operations 21 … 40 of window 34. -/
abbrev st103 : List (HloOp τ sig (Elt F)) :=
  [ unary main_v1944 main_v1956 (broadcastInDim S1024x16 ![0, 1] bcast_S1024x1_S1024x16_0_1 : (⟨S1024x1, .f32⟩ : BufTy).Contents (Elt F) → (⟨S1024x16, .f32⟩ : BufTy).Contents (Elt F)),
    binary main_v1956 main_v1948 main_v1957 (mulf : (⟨S1024x16, .f32⟩ : BufTy).Contents (Elt F) → (⟨S1024x16, .f32⟩ : BufTy).Contents (Elt F) → (⟨S1024x16, .f32⟩ : BufTy).Contents (Elt F)),
    binary main_v1955 main_v1957 main_v1958 (addf : (⟨S1024x16, .f32⟩ : BufTy).Contents (Elt F) → (⟨S1024x16, .f32⟩ : BufTy).Contents (Elt F) → (⟨S1024x16, .f32⟩ : BufTy).Contents (Elt F)),
    nullary main_c_103 (constantI S_ 32 12#32),
    unary main_c_103 main_v1959 (broadcastInDim S1 ![] bcast_S_S1 : (⟨S_, .i32⟩ : BufTy).Contents (Elt F) → (⟨S1, .i32⟩ : BufTy).Contents (Elt F)),
    ternary main_v1940 main_v1959 main_v1958 main_v1960 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1961 ((extractStridedSlice S1024x1 ![0, 96] · slices_S1024x120_S1024x1_0_96) : (⟨S1024x120, .f32⟩ : BufTy).Contents (Elt F) → (⟨S1024x1, .f32⟩ : BufTy).Contents (Elt F)),
    reshape main_v1961 main_v1962 rfl shapeCasts_S1024x1_S1024,
    unary main_v1962 main_v1963 (Host.cos : (⟨S1024, .f32⟩ : BufTy).Contents (Elt F) → (⟨S1024, .f32⟩ : BufTy).Contents (Elt F)),
    unary main_v1963 main_v1964 (broadcastInDim S1024x1 ![0] bcast_S1024_S1024x1_0 : (⟨S1024, .f32⟩ : BufTy).Contents (Elt F) → (⟨S1024x1, .f32⟩ : BufTy).Contents (Elt F)),
    unary main_v1962 main_v1965 (Host.sin : (⟨S1024, .f32⟩ : BufTy).Contents (Elt F) → (⟨S1024, .f32⟩ : BufTy).Contents (Elt F)),
    unary main_v1965 main_v1966 (broadcastInDim S1024x1 ![0] bcast_S1024_S1024x1_0 : (⟨S1024, .f32⟩ : BufTy).Contents (Elt F) → (⟨S1024x1, .f32⟩ : BufTy).Contents (Elt F)),
    unary main_v1960 main_v1967 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v1967 main_v1968 rfl shapeCasts_S1024x1x16_S1024x16,
    unary main_v1964 main_v1969 (broadcastInDim S1024x16 ![0, 1] bcast_S1024x1_S1024x16_0_1 : (⟨S1024x1, .f32⟩ : BufTy).Contents (Elt F) → (⟨S1024x16, .f32⟩ : BufTy).Contents (Elt F)),
    binary main_v1969 main_v1953 main_v1970 (mulf : (⟨S1024x16, .f32⟩ : BufTy).Contents (Elt F) → (⟨S1024x16, .f32⟩ : BufTy).Contents (Elt F) → (⟨S1024x16, .f32⟩ : BufTy).Contents (Elt F)),
    unary main_v1966 main_v1971 (broadcastInDim S1024x16 ![0, 1] bcast_S1024x1_S1024x16_0_1 : (⟨S1024x1, .f32⟩ : BufTy).Contents (Elt F) → (⟨S1024x16, .f32⟩ : BufTy).Contents (Elt F)),
    binary main_v1971 main_v1968 main_v1972 (mulf : (⟨S1024x16, .f32⟩ : BufTy).Contents (Elt F) → (⟨S1024x16, .f32⟩ : BufTy).Contents (Elt F) → (⟨S1024x16, .f32⟩ : BufTy).Contents (Elt F)),
    binary main_v1970 main_v1972 main_v1973 (subf : (⟨S1024x16, .f32⟩ : BufTy).Contents (Elt F) → (⟨S1024x16, .f32⟩ : BufTy).Contents (Elt F) → (⟨S1024x16, .f32⟩ : BufTy).Contents (Elt F)),
    unary main_v1966 main_v1974 (broadcastInDim S1024x16 ![0, 1] bcast_S1024x1_S1024x16_0_1 : (⟨S1024x1, .f32⟩ : BufTy).Contents (Elt F) → (⟨S1024x16, .f32⟩ : BufTy).Contents (Elt F)) ]
/-- Operations 41 … 60 of window 34. -/
abbrev st104 : List (HloOp τ sig (Elt F)) :=
  [ binary main_v1974 main_v1953 main_v1975 (mulf : (⟨S1024x16, .f32⟩ : BufTy).Contents (Elt F) → (⟨S1024x16, .f32⟩ : BufTy).Contents (Elt F) → (⟨S1024x16, .f32⟩ : BufTy).Contents (Elt F)),
    unary main_v1964 main_v1976 (broadcastInDim S1024x16 ![0, 1] bcast_S1024x1_S1024x16_0_1 : (⟨S1024x1, .f32⟩ : BufTy).Contents (Elt F) → (⟨S1024x16, .f32⟩ : BufTy).Contents (Elt F)),
    binary main_v1976 main_v1968 main_v1977 (mulf : (⟨S1024x16, .f32⟩ : BufTy).Contents (Elt F) → (⟨S1024x16, .f32⟩ : BufTy).Contents (Elt F) → (⟨S1024x16, .f32⟩ : BufTy).Contents (Elt F)),
    binary main_v1975 main_v1977 main_v1978 (addf : (⟨S1024x16, .f32⟩ : BufTy).Contents (Elt F) → (⟨S1024x16, .f32⟩ : BufTy).Contents (Elt F) → (⟨S1024x16, .f32⟩ : BufTy).Contents (Elt F)),
    nullary main_c_104 (constantI S_ 32 13#32),
    unary main_c_104 main_v1979 (broadcastInDim S1 ![] bcast_S_S1 : (⟨S_, .i32⟩ : BufTy).Contents (Elt F) → (⟨S1, .i32⟩ : BufTy).Contents (Elt F)),
    ternary main_v1960 main_v1979 main_v1978 main_v1980 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v1981 ((extractStridedSlice S1024x1 ![0, 97] · slices_S1024x120_S1024x1_0_97) : (⟨S1024x120, .f32⟩ : BufTy).Contents (Elt F) → (⟨S1024x1, .f32⟩ : BufTy).Contents (Elt F)),
    reshape main_v1981 main_v1982 rfl shapeCasts_S1024x1_S1024,
    unary main_v1982 main_v1983 (Host.cos : (⟨S1024, .f32⟩ : BufTy).Contents (Elt F) → (⟨S1024, .f32⟩ : BufTy).Contents (Elt F)),
    unary main_v1983 main_v1984 (broadcastInDim S1024x1 ![0] bcast_S1024_S1024x1_0 : (⟨S1024, .f32⟩ : BufTy).Contents (Elt F) → (⟨S1024x1, .f32⟩ : BufTy).Contents (Elt F)),
    unary main_v1982 main_v1985 (Host.sin : (⟨S1024, .f32⟩ : BufTy).Contents (Elt F) → (⟨S1024, .f32⟩ : BufTy).Contents (Elt F)),
    unary main_v1985 main_v1986 (broadcastInDim S1024x1 ![0] bcast_S1024_S1024x1_0 : (⟨S1024, .f32⟩ : BufTy).Contents (Elt F) → (⟨S1024x1, .f32⟩ : BufTy).Contents (Elt F)),
    unary main_v1980 main_v1987 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v1987 main_v1988 rfl shapeCasts_S1024x1x16_S1024x16,
    unary main_v1984 main_v1989 (broadcastInDim S1024x16 ![0, 1] bcast_S1024x1_S1024x16_0_1 : (⟨S1024x1, .f32⟩ : BufTy).Contents (Elt F) → (⟨S1024x16, .f32⟩ : BufTy).Contents (Elt F)),
    binary main_v1989 main_v1973 main_v1990 (mulf : (⟨S1024x16, .f32⟩ : BufTy).Contents (Elt F) → (⟨S1024x16, .f32⟩ : BufTy).Contents (Elt F) → (⟨S1024x16, .f32⟩ : BufTy).Contents (Elt F)),
    unary main_v1986 main_v1991 (broadcastInDim S1024x16 ![0, 1] bcast_S1024x1_S1024x16_0_1 : (⟨S1024x1, .f32⟩ : BufTy).Contents (Elt F) → (⟨S1024x16, .f32⟩ : BufTy).Contents (Elt F)),
    binary main_v1991 main_v1988 main_v1992 (mulf : (⟨S1024x16, .f32⟩ : BufTy).Contents (Elt F) → (⟨S1024x16, .f32⟩ : BufTy).Contents (Elt F) → (⟨S1024x16, .f32⟩ : BufTy).Contents (Elt F)),
    binary main_v1990 main_v1992 main_v1993 (subf : (⟨S1024x16, .f32⟩ : BufTy).Contents (Elt F) → (⟨S1024x16, .f32⟩ : BufTy).Contents (Elt F) → (⟨S1024x16, .f32⟩ : BufTy).Contents (Elt F)) ]
/-- Operations 1 … 20 of window 35. -/
abbrev st105 : List (HloOp τ sig (Elt F)) :=
  [ unary main_v1986 main_v1994 (broadcastInDim S1024x16 ![0, 1] bcast_S1024x1_S1024x16_0_1 : (⟨S1024x1, .f32⟩ : BufTy).Contents (Elt F) → (⟨S1024x16, .f32⟩ : BufTy).Contents (Elt F)),
    binary main_v1994 main_v1973 main_v1995 (mulf : (⟨S1024x16, .f32⟩ : BufTy).Contents (Elt F) → (⟨S1024x16, .f32⟩ : BufTy).Contents (Elt F) → (⟨S1024x16, .f32⟩ : BufTy).Contents (Elt F)),
    unary main_v1984 main_v1996 (broadcastInDim S1024x16 ![0, 1] bcast_S1024x1_S1024x16_0_1 : (⟨S1024x1, .f32⟩ : BufTy).Contents (Elt F) → (⟨S1024x16, .f32⟩ : BufTy).Contents (Elt F)),
    binary main_v1996 main_v1988 main_v1997 (mulf : (⟨S1024x16, .f32⟩ : BufTy).Contents (Elt F) → (⟨S1024x16, .f32⟩ : BufTy).Contents (Elt F) → (⟨S1024x16, .f32⟩ : BufTy).Contents (Elt F)),
    binary main_v1995 main_v1997 main_v1998 (addf : (⟨S1024x16, .f32⟩ : BufTy).Contents (Elt F) → (⟨S1024x16, .f32⟩ : BufTy).Contents (Elt F) → (⟨S1024x16, .f32⟩ : BufTy).Contents (Elt F)),
    nullary main_c_105 (constantI S_ 32 14#32),
    unary main_c_105 main_v1999 (broadcastInDim S1 ![] bcast_S_S1 : (⟨S_, .i32⟩ : BufTy).Contents (Elt F) → (⟨S1, .i32⟩ : BufTy).Contents (Elt F)),
    ternary main_v1980 main_v1999 main_v1998 main_v2000 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2001 ((extractStridedSlice S1024x1 ![0, 98] · slices_S1024x120_S1024x1_0_98) : (⟨S1024x120, .f32⟩ : BufTy).Contents (Elt F) → (⟨S1024x1, .f32⟩ : BufTy).Contents (Elt F)),
    reshape main_v2001 main_v2002 rfl shapeCasts_S1024x1_S1024,
    unary main_v2002 main_v2003 (Host.cos : (⟨S1024, .f32⟩ : BufTy).Contents (Elt F) → (⟨S1024, .f32⟩ : BufTy).Contents (Elt F)),
    unary main_v2003 main_v2004 (broadcastInDim S1024x1 ![0] bcast_S1024_S1024x1_0 : (⟨S1024, .f32⟩ : BufTy).Contents (Elt F) → (⟨S1024x1, .f32⟩ : BufTy).Contents (Elt F)),
    unary main_v2002 main_v2005 (Host.sin : (⟨S1024, .f32⟩ : BufTy).Contents (Elt F) → (⟨S1024, .f32⟩ : BufTy).Contents (Elt F)),
    unary main_v2005 main_v2006 (broadcastInDim S1024x1 ![0] bcast_S1024_S1024x1_0 : (⟨S1024, .f32⟩ : BufTy).Contents (Elt F) → (⟨S1024x1, .f32⟩ : BufTy).Contents (Elt F)),
    unary main_v2000 main_v2007 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2007 main_v2008 rfl shapeCasts_S1024x1x16_S1024x16,
    unary main_v2004 main_v2009 (broadcastInDim S1024x16 ![0, 1] bcast_S1024x1_S1024x16_0_1 : (⟨S1024x1, .f32⟩ : BufTy).Contents (Elt F) → (⟨S1024x16, .f32⟩ : BufTy).Contents (Elt F)),
    binary main_v2009 main_v1993 main_v2010 (mulf : (⟨S1024x16, .f32⟩ : BufTy).Contents (Elt F) → (⟨S1024x16, .f32⟩ : BufTy).Contents (Elt F) → (⟨S1024x16, .f32⟩ : BufTy).Contents (Elt F)),
    unary main_v2006 main_v2011 (broadcastInDim S1024x16 ![0, 1] bcast_S1024x1_S1024x16_0_1 : (⟨S1024x1, .f32⟩ : BufTy).Contents (Elt F) → (⟨S1024x16, .f32⟩ : BufTy).Contents (Elt F)),
    binary main_v2011 main_v2008 main_v2012 (mulf : (⟨S1024x16, .f32⟩ : BufTy).Contents (Elt F) → (⟨S1024x16, .f32⟩ : BufTy).Contents (Elt F) → (⟨S1024x16, .f32⟩ : BufTy).Contents (Elt F)) ]
/-- Operations 21 … 40 of window 35. -/
abbrev st106 : List (HloOp τ sig (Elt F)) :=
  [ binary main_v2010 main_v2012 main_v2013 (subf : (⟨S1024x16, .f32⟩ : BufTy).Contents (Elt F) → (⟨S1024x16, .f32⟩ : BufTy).Contents (Elt F) → (⟨S1024x16, .f32⟩ : BufTy).Contents (Elt F)),
    unary main_v2006 main_v2014 (broadcastInDim S1024x16 ![0, 1] bcast_S1024x1_S1024x16_0_1 : (⟨S1024x1, .f32⟩ : BufTy).Contents (Elt F) → (⟨S1024x16, .f32⟩ : BufTy).Contents (Elt F)),
    binary main_v2014 main_v1993 main_v2015 (mulf : (⟨S1024x16, .f32⟩ : BufTy).Contents (Elt F) → (⟨S1024x16, .f32⟩ : BufTy).Contents (Elt F) → (⟨S1024x16, .f32⟩ : BufTy).Contents (Elt F)),
    unary main_v2004 main_v2016 (broadcastInDim S1024x16 ![0, 1] bcast_S1024x1_S1024x16_0_1 : (⟨S1024x1, .f32⟩ : BufTy).Contents (Elt F) → (⟨S1024x16, .f32⟩ : BufTy).Contents (Elt F)),
    binary main_v2016 main_v2008 main_v2017 (mulf : (⟨S1024x16, .f32⟩ : BufTy).Contents (Elt F) → (⟨S1024x16, .f32⟩ : BufTy).Contents (Elt F) → (⟨S1024x16, .f32⟩ : BufTy).Contents (Elt F)),
    binary main_v2015 main_v2017 main_v2018 (addf : (⟨S1024x16, .f32⟩ : BufTy).Contents (Elt F) → (⟨S1024x16, .f32⟩ : BufTy).Contents (Elt F) → (⟨S1024x16, .f32⟩ : BufTy).Contents (Elt F)),
    nullary main_c_106 (constantI S_ 32 15#32),
    unary main_c_106 main_v2019 (broadcastInDim S1 ![] bcast_S_S1 : (⟨S_, .i32⟩ : BufTy).Contents (Elt F) → (⟨S1, .i32⟩ : BufTy).Contents (Elt F)),
    ternary main_v2000 main_v2019 main_v2018 main_v2020 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_107 (constantI S_ 32 8#32),
    unary main_c_107 main_v2021 (broadcastInDim S1 ![] bcast_S_S1 : (⟨S_, .i32⟩ : BufTy).Contents (Elt F) → (⟨S1, .i32⟩ : BufTy).Contents (Elt F)),
    ternary main_v2020 main_v2021 main_v2013 main_v2022 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2022 main_v2023 ((extractStridedSlice S1024x1x16 ![0, 9, 0] · slices_S1024x16x16_S1024x1x16_0_9_0) : (⟨S1024x16x16, .f32⟩ : BufTy).Contents (Elt F) → (⟨S1024x1x16, .f32⟩ : BufTy).Contents (Elt F)),
    reshape main_v2023 main_v2024 rfl shapeCasts_S1024x1x16_S1024x16,
    unary main_arg1 main_v2025 ((extractStridedSlice S1024x1 ![0, 99] · slices_S1024x120_S1024x1_0_99) : (⟨S1024x120, .f32⟩ : BufTy).Contents (Elt F) → (⟨S1024x1, .f32⟩ : BufTy).Contents (Elt F)),
    reshape main_v2025 main_v2026 rfl shapeCasts_S1024x1_S1024,
    unary main_v2026 main_v2027 (Host.cos : (⟨S1024, .f32⟩ : BufTy).Contents (Elt F) → (⟨S1024, .f32⟩ : BufTy).Contents (Elt F)),
    unary main_v2027 main_v2028 (broadcastInDim S1024x1 ![0] bcast_S1024_S1024x1_0 : (⟨S1024, .f32⟩ : BufTy).Contents (Elt F) → (⟨S1024x1, .f32⟩ : BufTy).Contents (Elt F)),
    unary main_v2026 main_v2029 (Host.sin : (⟨S1024, .f32⟩ : BufTy).Contents (Elt F) → (⟨S1024, .f32⟩ : BufTy).Contents (Elt F)),
    unary main_v2029 main_v2030 (broadcastInDim S1024x1 ![0] bcast_S1024_S1024x1_0 : (⟨S1024, .f32⟩ : BufTy).Contents (Elt F) → (⟨S1024x1, .f32⟩ : BufTy).Contents (Elt F)) ]
/-- Operations 41 … 60 of window 35. -/
abbrev st107 : List (HloOp τ sig (Elt F)) :=
  [ unary main_v2022 main_v2031 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v2031 main_v2032 rfl shapeCasts_S1024x1x16_S1024x16,
    unary main_v2028 main_v2033 (broadcastInDim S1024x16 ![0, 1] bcast_S1024x1_S1024x16_0_1 : (⟨S1024x1, .f32⟩ : BufTy).Contents (Elt F) → (⟨S1024x16, .f32⟩ : BufTy).Contents (Elt F)),
    binary main_v2033 main_v2024 main_v2034 (mulf : (⟨S1024x16, .f32⟩ : BufTy).Contents (Elt F) → (⟨S1024x16, .f32⟩ : BufTy).Contents (Elt F) → (⟨S1024x16, .f32⟩ : BufTy).Contents (Elt F)),
    unary main_v2030 main_v2035 (broadcastInDim S1024x16 ![0, 1] bcast_S1024x1_S1024x16_0_1 : (⟨S1024x1, .f32⟩ : BufTy).Contents (Elt F) → (⟨S1024x16, .f32⟩ : BufTy).Contents (Elt F)),
    binary main_v2035 main_v2032 main_v2036 (mulf : (⟨S1024x16, .f32⟩ : BufTy).Contents (Elt F) → (⟨S1024x16, .f32⟩ : BufTy).Contents (Elt F) → (⟨S1024x16, .f32⟩ : BufTy).Contents (Elt F)),
    binary main_v2034 main_v2036 main_v2037 (subf : (⟨S1024x16, .f32⟩ : BufTy).Contents (Elt F) → (⟨S1024x16, .f32⟩ : BufTy).Contents (Elt F) → (⟨S1024x16, .f32⟩ : BufTy).Contents (Elt F)),
    unary main_v2030 main_v2038 (broadcastInDim S1024x16 ![0, 1] bcast_S1024x1_S1024x16_0_1 : (⟨S1024x1, .f32⟩ : BufTy).Contents (Elt F) → (⟨S1024x16, .f32⟩ : BufTy).Contents (Elt F)),
    binary main_v2038 main_v2024 main_v2039 (mulf : (⟨S1024x16, .f32⟩ : BufTy).Contents (Elt F) → (⟨S1024x16, .f32⟩ : BufTy).Contents (Elt F) → (⟨S1024x16, .f32⟩ : BufTy).Contents (Elt F)),
    unary main_v2028 main_v2040 (broadcastInDim S1024x16 ![0, 1] bcast_S1024x1_S1024x16_0_1 : (⟨S1024x1, .f32⟩ : BufTy).Contents (Elt F) → (⟨S1024x16, .f32⟩ : BufTy).Contents (Elt F)),
    binary main_v2040 main_v2032 main_v2041 (mulf : (⟨S1024x16, .f32⟩ : BufTy).Contents (Elt F) → (⟨S1024x16, .f32⟩ : BufTy).Contents (Elt F) → (⟨S1024x16, .f32⟩ : BufTy).Contents (Elt F)),
    binary main_v2039 main_v2041 main_v2042 (addf : (⟨S1024x16, .f32⟩ : BufTy).Contents (Elt F) → (⟨S1024x16, .f32⟩ : BufTy).Contents (Elt F) → (⟨S1024x16, .f32⟩ : BufTy).Contents (Elt F)),
    nullary main_c_108 (constantI S_ 32 10#32),
    unary main_c_108 main_v2043 (broadcastInDim S1 ![] bcast_S_S1 : (⟨S_, .i32⟩ : BufTy).Contents (Elt F) → (⟨S1, .i32⟩ : BufTy).Contents (Elt F)),
    ternary main_v2022 main_v2043 main_v2042 main_v2044 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2045 ((extractStridedSlice S1024x1 ![0, 100] · slices_S1024x120_S1024x1_0_100) : (⟨S1024x120, .f32⟩ : BufTy).Contents (Elt F) → (⟨S1024x1, .f32⟩ : BufTy).Contents (Elt F)),
    reshape main_v2045 main_v2046 rfl shapeCasts_S1024x1_S1024,
    unary main_v2046 main_v2047 (Host.cos : (⟨S1024, .f32⟩ : BufTy).Contents (Elt F) → (⟨S1024, .f32⟩ : BufTy).Contents (Elt F)),
    unary main_v2047 main_v2048 (broadcastInDim S1024x1 ![0] bcast_S1024_S1024x1_0 : (⟨S1024, .f32⟩ : BufTy).Contents (Elt F) → (⟨S1024x1, .f32⟩ : BufTy).Contents (Elt F)),
    unary main_v2046 main_v2049 (Host.sin : (⟨S1024, .f32⟩ : BufTy).Contents (Elt F) → (⟨S1024, .f32⟩ : BufTy).Contents (Elt F)) ]
/-- Operations 1 … 20 of window 36. -/
abbrev st108 : List (HloOp τ sig (Elt F)) :=
  [ unary main_v2049 main_v2050 (broadcastInDim S1024x1 ![0] bcast_S1024_S1024x1_0 : (⟨S1024, .f32⟩ : BufTy).Contents (Elt F) → (⟨S1024x1, .f32⟩ : BufTy).Contents (Elt F)),
    unary main_v2044 main_v2051 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v2051 main_v2052 rfl shapeCasts_S1024x1x16_S1024x16,
    unary main_v2048 main_v2053 (broadcastInDim S1024x16 ![0, 1] bcast_S1024x1_S1024x16_0_1 : (⟨S1024x1, .f32⟩ : BufTy).Contents (Elt F) → (⟨S1024x16, .f32⟩ : BufTy).Contents (Elt F)),
    binary main_v2053 main_v2037 main_v2054 (mulf : (⟨S1024x16, .f32⟩ : BufTy).Contents (Elt F) → (⟨S1024x16, .f32⟩ : BufTy).Contents (Elt F) → (⟨S1024x16, .f32⟩ : BufTy).Contents (Elt F)),
    unary main_v2050 main_v2055 (broadcastInDim S1024x16 ![0, 1] bcast_S1024x1_S1024x16_0_1 : (⟨S1024x1, .f32⟩ : BufTy).Contents (Elt F) → (⟨S1024x16, .f32⟩ : BufTy).Contents (Elt F)),
    binary main_v2055 main_v2052 main_v2056 (mulf : (⟨S1024x16, .f32⟩ : BufTy).Contents (Elt F) → (⟨S1024x16, .f32⟩ : BufTy).Contents (Elt F) → (⟨S1024x16, .f32⟩ : BufTy).Contents (Elt F)),
    binary main_v2054 main_v2056 main_v2057 (subf : (⟨S1024x16, .f32⟩ : BufTy).Contents (Elt F) → (⟨S1024x16, .f32⟩ : BufTy).Contents (Elt F) → (⟨S1024x16, .f32⟩ : BufTy).Contents (Elt F)),
    unary main_v2050 main_v2058 (broadcastInDim S1024x16 ![0, 1] bcast_S1024x1_S1024x16_0_1 : (⟨S1024x1, .f32⟩ : BufTy).Contents (Elt F) → (⟨S1024x16, .f32⟩ : BufTy).Contents (Elt F)),
    binary main_v2058 main_v2037 main_v2059 (mulf : (⟨S1024x16, .f32⟩ : BufTy).Contents (Elt F) → (⟨S1024x16, .f32⟩ : BufTy).Contents (Elt F) → (⟨S1024x16, .f32⟩ : BufTy).Contents (Elt F)),
    unary main_v2048 main_v2060 (broadcastInDim S1024x16 ![0, 1] bcast_S1024x1_S1024x16_0_1 : (⟨S1024x1, .f32⟩ : BufTy).Contents (Elt F) → (⟨S1024x16, .f32⟩ : BufTy).Contents (Elt F)),
    binary main_v2060 main_v2052 main_v2061 (mulf : (⟨S1024x16, .f32⟩ : BufTy).Contents (Elt F) → (⟨S1024x16, .f32⟩ : BufTy).Contents (Elt F) → (⟨S1024x16, .f32⟩ : BufTy).Contents (Elt F)),
    binary main_v2059 main_v2061 main_v2062 (addf : (⟨S1024x16, .f32⟩ : BufTy).Contents (Elt F) → (⟨S1024x16, .f32⟩ : BufTy).Contents (Elt F) → (⟨S1024x16, .f32⟩ : BufTy).Contents (Elt F)),
    nullary main_c_109 (constantI S_ 32 11#32),
    unary main_c_109 main_v2063 (broadcastInDim S1 ![] bcast_S_S1 : (⟨S_, .i32⟩ : BufTy).Contents (Elt F) → (⟨S1, .i32⟩ : BufTy).Contents (Elt F)),
    ternary main_v2044 main_v2063 main_v2062 main_v2064 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2065 ((extractStridedSlice S1024x1 ![0, 101] · slices_S1024x120_S1024x1_0_101) : (⟨S1024x120, .f32⟩ : BufTy).Contents (Elt F) → (⟨S1024x1, .f32⟩ : BufTy).Contents (Elt F)),
    reshape main_v2065 main_v2066 rfl shapeCasts_S1024x1_S1024,
    unary main_v2066 main_v2067 (Host.cos : (⟨S1024, .f32⟩ : BufTy).Contents (Elt F) → (⟨S1024, .f32⟩ : BufTy).Contents (Elt F)),
    unary main_v2067 main_v2068 (broadcastInDim S1024x1 ![0] bcast_S1024_S1024x1_0 : (⟨S1024, .f32⟩ : BufTy).Contents (Elt F) → (⟨S1024x1, .f32⟩ : BufTy).Contents (Elt F)) ]
/-- Operations 21 … 40 of window 36. -/
abbrev st109 : List (HloOp τ sig (Elt F)) :=
  [ unary main_v2066 main_v2069 (Host.sin : (⟨S1024, .f32⟩ : BufTy).Contents (Elt F) → (⟨S1024, .f32⟩ : BufTy).Contents (Elt F)),
    unary main_v2069 main_v2070 (broadcastInDim S1024x1 ![0] bcast_S1024_S1024x1_0 : (⟨S1024, .f32⟩ : BufTy).Contents (Elt F) → (⟨S1024x1, .f32⟩ : BufTy).Contents (Elt F)),
    unary main_v2064 main_v2071 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v2071 main_v2072 rfl shapeCasts_S1024x1x16_S1024x16,
    unary main_v2068 main_v2073 (broadcastInDim S1024x16 ![0, 1] bcast_S1024x1_S1024x16_0_1 : (⟨S1024x1, .f32⟩ : BufTy).Contents (Elt F) → (⟨S1024x16, .f32⟩ : BufTy).Contents (Elt F)),
    binary main_v2073 main_v2057 main_v2074 (mulf : (⟨S1024x16, .f32⟩ : BufTy).Contents (Elt F) → (⟨S1024x16, .f32⟩ : BufTy).Contents (Elt F) → (⟨S1024x16, .f32⟩ : BufTy).Contents (Elt F)),
    unary main_v2070 main_v2075 (broadcastInDim S1024x16 ![0, 1] bcast_S1024x1_S1024x16_0_1 : (⟨S1024x1, .f32⟩ : BufTy).Contents (Elt F) → (⟨S1024x16, .f32⟩ : BufTy).Contents (Elt F)),
    binary main_v2075 main_v2072 main_v2076 (mulf : (⟨S1024x16, .f32⟩ : BufTy).Contents (Elt F) → (⟨S1024x16, .f32⟩ : BufTy).Contents (Elt F) → (⟨S1024x16, .f32⟩ : BufTy).Contents (Elt F)),
    binary main_v2074 main_v2076 main_v2077 (subf : (⟨S1024x16, .f32⟩ : BufTy).Contents (Elt F) → (⟨S1024x16, .f32⟩ : BufTy).Contents (Elt F) → (⟨S1024x16, .f32⟩ : BufTy).Contents (Elt F)),
    unary main_v2070 main_v2078 (broadcastInDim S1024x16 ![0, 1] bcast_S1024x1_S1024x16_0_1 : (⟨S1024x1, .f32⟩ : BufTy).Contents (Elt F) → (⟨S1024x16, .f32⟩ : BufTy).Contents (Elt F)),
    binary main_v2078 main_v2057 main_v2079 (mulf : (⟨S1024x16, .f32⟩ : BufTy).Contents (Elt F) → (⟨S1024x16, .f32⟩ : BufTy).Contents (Elt F) → (⟨S1024x16, .f32⟩ : BufTy).Contents (Elt F)),
    unary main_v2068 main_v2080 (broadcastInDim S1024x16 ![0, 1] bcast_S1024x1_S1024x16_0_1 : (⟨S1024x1, .f32⟩ : BufTy).Contents (Elt F) → (⟨S1024x16, .f32⟩ : BufTy).Contents (Elt F)),
    binary main_v2080 main_v2072 main_v2081 (mulf : (⟨S1024x16, .f32⟩ : BufTy).Contents (Elt F) → (⟨S1024x16, .f32⟩ : BufTy).Contents (Elt F) → (⟨S1024x16, .f32⟩ : BufTy).Contents (Elt F)),
    binary main_v2079 main_v2081 main_v2082 (addf : (⟨S1024x16, .f32⟩ : BufTy).Contents (Elt F) → (⟨S1024x16, .f32⟩ : BufTy).Contents (Elt F) → (⟨S1024x16, .f32⟩ : BufTy).Contents (Elt F)),
    nullary main_c_110 (constantI S_ 32 12#32),
    unary main_c_110 main_v2083 (broadcastInDim S1 ![] bcast_S_S1 : (⟨S_, .i32⟩ : BufTy).Contents (Elt F) → (⟨S1, .i32⟩ : BufTy).Contents (Elt F)),
    ternary main_v2064 main_v2083 main_v2082 main_v2084 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2085 ((extractStridedSlice S1024x1 ![0, 102] · slices_S1024x120_S1024x1_0_102) : (⟨S1024x120, .f32⟩ : BufTy).Contents (Elt F) → (⟨S1024x1, .f32⟩ : BufTy).Contents (Elt F)),
    reshape main_v2085 main_v2086 rfl shapeCasts_S1024x1_S1024,
    unary main_v2086 main_v2087 (Host.cos : (⟨S1024, .f32⟩ : BufTy).Contents (Elt F) → (⟨S1024, .f32⟩ : BufTy).Contents (Elt F)) ]
/-- Operations 41 … 60 of window 36. -/
abbrev st110 : List (HloOp τ sig (Elt F)) :=
  [ unary main_v2087 main_v2088 (broadcastInDim S1024x1 ![0] bcast_S1024_S1024x1_0 : (⟨S1024, .f32⟩ : BufTy).Contents (Elt F) → (⟨S1024x1, .f32⟩ : BufTy).Contents (Elt F)),
    unary main_v2086 main_v2089 (Host.sin : (⟨S1024, .f32⟩ : BufTy).Contents (Elt F) → (⟨S1024, .f32⟩ : BufTy).Contents (Elt F)),
    unary main_v2089 main_v2090 (broadcastInDim S1024x1 ![0] bcast_S1024_S1024x1_0 : (⟨S1024, .f32⟩ : BufTy).Contents (Elt F) → (⟨S1024x1, .f32⟩ : BufTy).Contents (Elt F)),
    unary main_v2084 main_v2091 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2091 main_v2092 rfl shapeCasts_S1024x1x16_S1024x16,
    unary main_v2088 main_v2093 (broadcastInDim S1024x16 ![0, 1] bcast_S1024x1_S1024x16_0_1 : (⟨S1024x1, .f32⟩ : BufTy).Contents (Elt F) → (⟨S1024x16, .f32⟩ : BufTy).Contents (Elt F)),
    binary main_v2093 main_v2077 main_v2094 (mulf : (⟨S1024x16, .f32⟩ : BufTy).Contents (Elt F) → (⟨S1024x16, .f32⟩ : BufTy).Contents (Elt F) → (⟨S1024x16, .f32⟩ : BufTy).Contents (Elt F)),
    unary main_v2090 main_v2095 (broadcastInDim S1024x16 ![0, 1] bcast_S1024x1_S1024x16_0_1 : (⟨S1024x1, .f32⟩ : BufTy).Contents (Elt F) → (⟨S1024x16, .f32⟩ : BufTy).Contents (Elt F)),
    binary main_v2095 main_v2092 main_v2096 (mulf : (⟨S1024x16, .f32⟩ : BufTy).Contents (Elt F) → (⟨S1024x16, .f32⟩ : BufTy).Contents (Elt F) → (⟨S1024x16, .f32⟩ : BufTy).Contents (Elt F)),
    binary main_v2094 main_v2096 main_v2097 (subf : (⟨S1024x16, .f32⟩ : BufTy).Contents (Elt F) → (⟨S1024x16, .f32⟩ : BufTy).Contents (Elt F) → (⟨S1024x16, .f32⟩ : BufTy).Contents (Elt F)),
    unary main_v2090 main_v2098 (broadcastInDim S1024x16 ![0, 1] bcast_S1024x1_S1024x16_0_1 : (⟨S1024x1, .f32⟩ : BufTy).Contents (Elt F) → (⟨S1024x16, .f32⟩ : BufTy).Contents (Elt F)),
    binary main_v2098 main_v2077 main_v2099 (mulf : (⟨S1024x16, .f32⟩ : BufTy).Contents (Elt F) → (⟨S1024x16, .f32⟩ : BufTy).Contents (Elt F) → (⟨S1024x16, .f32⟩ : BufTy).Contents (Elt F)),
    unary main_v2088 main_v2100 (broadcastInDim S1024x16 ![0, 1] bcast_S1024x1_S1024x16_0_1 : (⟨S1024x1, .f32⟩ : BufTy).Contents (Elt F) → (⟨S1024x16, .f32⟩ : BufTy).Contents (Elt F)),
    binary main_v2100 main_v2092 main_v2101 (mulf : (⟨S1024x16, .f32⟩ : BufTy).Contents (Elt F) → (⟨S1024x16, .f32⟩ : BufTy).Contents (Elt F) → (⟨S1024x16, .f32⟩ : BufTy).Contents (Elt F)),
    binary main_v2099 main_v2101 main_v2102 (addf : (⟨S1024x16, .f32⟩ : BufTy).Contents (Elt F) → (⟨S1024x16, .f32⟩ : BufTy).Contents (Elt F) → (⟨S1024x16, .f32⟩ : BufTy).Contents (Elt F)),
    nullary main_c_111 (constantI S_ 32 13#32),
    unary main_c_111 main_v2103 (broadcastInDim S1 ![] bcast_S_S1 : (⟨S_, .i32⟩ : BufTy).Contents (Elt F) → (⟨S1, .i32⟩ : BufTy).Contents (Elt F)),
    ternary main_v2084 main_v2103 main_v2102 main_v2104 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2105 ((extractStridedSlice S1024x1 ![0, 103] · slices_S1024x120_S1024x1_0_103) : (⟨S1024x120, .f32⟩ : BufTy).Contents (Elt F) → (⟨S1024x1, .f32⟩ : BufTy).Contents (Elt F)),
    reshape main_v2105 main_v2106 rfl shapeCasts_S1024x1_S1024 ]
/-- Operations 1 … 20 of window 37. -/
abbrev st111 : List (HloOp τ sig (Elt F)) :=
  [ unary main_v2106 main_v2107 (Host.cos : (⟨S1024, .f32⟩ : BufTy).Contents (Elt F) → (⟨S1024, .f32⟩ : BufTy).Contents (Elt F)),
    unary main_v2107 main_v2108 (broadcastInDim S1024x1 ![0] bcast_S1024_S1024x1_0 : (⟨S1024, .f32⟩ : BufTy).Contents (Elt F) → (⟨S1024x1, .f32⟩ : BufTy).Contents (Elt F)),
    unary main_v2106 main_v2109 (Host.sin : (⟨S1024, .f32⟩ : BufTy).Contents (Elt F) → (⟨S1024, .f32⟩ : BufTy).Contents (Elt F)),
    unary main_v2109 main_v2110 (broadcastInDim S1024x1 ![0] bcast_S1024_S1024x1_0 : (⟨S1024, .f32⟩ : BufTy).Contents (Elt F) → (⟨S1024x1, .f32⟩ : BufTy).Contents (Elt F)),
    unary main_v2104 main_v2111 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2111 main_v2112 rfl shapeCasts_S1024x1x16_S1024x16,
    unary main_v2108 main_v2113 (broadcastInDim S1024x16 ![0, 1] bcast_S1024x1_S1024x16_0_1 : (⟨S1024x1, .f32⟩ : BufTy).Contents (Elt F) → (⟨S1024x16, .f32⟩ : BufTy).Contents (Elt F)),
    binary main_v2113 main_v2097 main_v2114 (mulf : (⟨S1024x16, .f32⟩ : BufTy).Contents (Elt F) → (⟨S1024x16, .f32⟩ : BufTy).Contents (Elt F) → (⟨S1024x16, .f32⟩ : BufTy).Contents (Elt F)),
    unary main_v2110 main_v2115 (broadcastInDim S1024x16 ![0, 1] bcast_S1024x1_S1024x16_0_1 : (⟨S1024x1, .f32⟩ : BufTy).Contents (Elt F) → (⟨S1024x16, .f32⟩ : BufTy).Contents (Elt F)),
    binary main_v2115 main_v2112 main_v2116 (mulf : (⟨S1024x16, .f32⟩ : BufTy).Contents (Elt F) → (⟨S1024x16, .f32⟩ : BufTy).Contents (Elt F) → (⟨S1024x16, .f32⟩ : BufTy).Contents (Elt F)),
    binary main_v2114 main_v2116 main_v2117 (subf : (⟨S1024x16, .f32⟩ : BufTy).Contents (Elt F) → (⟨S1024x16, .f32⟩ : BufTy).Contents (Elt F) → (⟨S1024x16, .f32⟩ : BufTy).Contents (Elt F)),
    unary main_v2110 main_v2118 (broadcastInDim S1024x16 ![0, 1] bcast_S1024x1_S1024x16_0_1 : (⟨S1024x1, .f32⟩ : BufTy).Contents (Elt F) → (⟨S1024x16, .f32⟩ : BufTy).Contents (Elt F)),
    binary main_v2118 main_v2097 main_v2119 (mulf : (⟨S1024x16, .f32⟩ : BufTy).Contents (Elt F) → (⟨S1024x16, .f32⟩ : BufTy).Contents (Elt F) → (⟨S1024x16, .f32⟩ : BufTy).Contents (Elt F)),
    unary main_v2108 main_v2120 (broadcastInDim S1024x16 ![0, 1] bcast_S1024x1_S1024x16_0_1 : (⟨S1024x1, .f32⟩ : BufTy).Contents (Elt F) → (⟨S1024x16, .f32⟩ : BufTy).Contents (Elt F)),
    binary main_v2120 main_v2112 main_v2121 (mulf : (⟨S1024x16, .f32⟩ : BufTy).Contents (Elt F) → (⟨S1024x16, .f32⟩ : BufTy).Contents (Elt F) → (⟨S1024x16, .f32⟩ : BufTy).Contents (Elt F)),
    binary main_v2119 main_v2121 main_v2122 (addf : (⟨S1024x16, .f32⟩ : BufTy).Contents (Elt F) → (⟨S1024x16, .f32⟩ : BufTy).Contents (Elt F) → (⟨S1024x16, .f32⟩ : BufTy).Contents (Elt F)),
    nullary main_c_112 (constantI S_ 32 14#32),
    unary main_c_112 main_v2123 (broadcastInDim S1 ![] bcast_S_S1 : (⟨S_, .i32⟩ : BufTy).Contents (Elt F) → (⟨S1, .i32⟩ : BufTy).Contents (Elt F)),
    ternary main_v2104 main_v2123 main_v2122 main_v2124 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2125 ((extractStridedSlice S1024x1 ![0, 104] · slices_S1024x120_S1024x1_0_104) : (⟨S1024x120, .f32⟩ : BufTy).Contents (Elt F) → (⟨S1024x1, .f32⟩ : BufTy).Contents (Elt F)) ]
/-- Operations 21 … 40 of window 37. -/
abbrev st112 : List (HloOp τ sig (Elt F)) :=
  [ reshape main_v2125 main_v2126 rfl shapeCasts_S1024x1_S1024,
    unary main_v2126 main_v2127 (Host.cos : (⟨S1024, .f32⟩ : BufTy).Contents (Elt F) → (⟨S1024, .f32⟩ : BufTy).Contents (Elt F)),
    unary main_v2127 main_v2128 (broadcastInDim S1024x1 ![0] bcast_S1024_S1024x1_0 : (⟨S1024, .f32⟩ : BufTy).Contents (Elt F) → (⟨S1024x1, .f32⟩ : BufTy).Contents (Elt F)),
    unary main_v2126 main_v2129 (Host.sin : (⟨S1024, .f32⟩ : BufTy).Contents (Elt F) → (⟨S1024, .f32⟩ : BufTy).Contents (Elt F)),
    unary main_v2129 main_v2130 (broadcastInDim S1024x1 ![0] bcast_S1024_S1024x1_0 : (⟨S1024, .f32⟩ : BufTy).Contents (Elt F) → (⟨S1024x1, .f32⟩ : BufTy).Contents (Elt F)),
    unary main_v2124 main_v2131 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2131 main_v2132 rfl shapeCasts_S1024x1x16_S1024x16,
    unary main_v2128 main_v2133 (broadcastInDim S1024x16 ![0, 1] bcast_S1024x1_S1024x16_0_1 : (⟨S1024x1, .f32⟩ : BufTy).Contents (Elt F) → (⟨S1024x16, .f32⟩ : BufTy).Contents (Elt F)),
    binary main_v2133 main_v2117 main_v2134 (mulf : (⟨S1024x16, .f32⟩ : BufTy).Contents (Elt F) → (⟨S1024x16, .f32⟩ : BufTy).Contents (Elt F) → (⟨S1024x16, .f32⟩ : BufTy).Contents (Elt F)),
    unary main_v2130 main_v2135 (broadcastInDim S1024x16 ![0, 1] bcast_S1024x1_S1024x16_0_1 : (⟨S1024x1, .f32⟩ : BufTy).Contents (Elt F) → (⟨S1024x16, .f32⟩ : BufTy).Contents (Elt F)),
    binary main_v2135 main_v2132 main_v2136 (mulf : (⟨S1024x16, .f32⟩ : BufTy).Contents (Elt F) → (⟨S1024x16, .f32⟩ : BufTy).Contents (Elt F) → (⟨S1024x16, .f32⟩ : BufTy).Contents (Elt F)),
    binary main_v2134 main_v2136 main_v2137 (subf : (⟨S1024x16, .f32⟩ : BufTy).Contents (Elt F) → (⟨S1024x16, .f32⟩ : BufTy).Contents (Elt F) → (⟨S1024x16, .f32⟩ : BufTy).Contents (Elt F)),
    unary main_v2130 main_v2138 (broadcastInDim S1024x16 ![0, 1] bcast_S1024x1_S1024x16_0_1 : (⟨S1024x1, .f32⟩ : BufTy).Contents (Elt F) → (⟨S1024x16, .f32⟩ : BufTy).Contents (Elt F)),
    binary main_v2138 main_v2117 main_v2139 (mulf : (⟨S1024x16, .f32⟩ : BufTy).Contents (Elt F) → (⟨S1024x16, .f32⟩ : BufTy).Contents (Elt F) → (⟨S1024x16, .f32⟩ : BufTy).Contents (Elt F)),
    unary main_v2128 main_v2140 (broadcastInDim S1024x16 ![0, 1] bcast_S1024x1_S1024x16_0_1 : (⟨S1024x1, .f32⟩ : BufTy).Contents (Elt F) → (⟨S1024x16, .f32⟩ : BufTy).Contents (Elt F)),
    binary main_v2140 main_v2132 main_v2141 (mulf : (⟨S1024x16, .f32⟩ : BufTy).Contents (Elt F) → (⟨S1024x16, .f32⟩ : BufTy).Contents (Elt F) → (⟨S1024x16, .f32⟩ : BufTy).Contents (Elt F)),
    binary main_v2139 main_v2141 main_v2142 (addf : (⟨S1024x16, .f32⟩ : BufTy).Contents (Elt F) → (⟨S1024x16, .f32⟩ : BufTy).Contents (Elt F) → (⟨S1024x16, .f32⟩ : BufTy).Contents (Elt F)),
    nullary main_c_113 (constantI S_ 32 15#32),
    unary main_c_113 main_v2143 (broadcastInDim S1 ![] bcast_S_S1 : (⟨S_, .i32⟩ : BufTy).Contents (Elt F) → (⟨S1, .i32⟩ : BufTy).Contents (Elt F)),
    ternary main_v2124 main_v2143 main_v2142 main_v2144 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 41 … 60 of window 37. -/
abbrev st113 : List (HloOp τ sig (Elt F)) :=
  [ nullary main_c_114 (constantI S_ 32 9#32),
    unary main_c_114 main_v2145 (broadcastInDim S1 ![] bcast_S_S1 : (⟨S_, .i32⟩ : BufTy).Contents (Elt F) → (⟨S1, .i32⟩ : BufTy).Contents (Elt F)),
    ternary main_v2144 main_v2145 main_v2137 main_v2146 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2146 main_v2147 ((extractStridedSlice S1024x1x16 ![0, 10, 0] · slices_S1024x16x16_S1024x1x16_0_10_0) : (⟨S1024x16x16, .f32⟩ : BufTy).Contents (Elt F) → (⟨S1024x1x16, .f32⟩ : BufTy).Contents (Elt F)),
    reshape main_v2147 main_v2148 rfl shapeCasts_S1024x1x16_S1024x16,
    unary main_arg1 main_v2149 ((extractStridedSlice S1024x1 ![0, 105] · slices_S1024x120_S1024x1_0_105) : (⟨S1024x120, .f32⟩ : BufTy).Contents (Elt F) → (⟨S1024x1, .f32⟩ : BufTy).Contents (Elt F)),
    reshape main_v2149 main_v2150 rfl shapeCasts_S1024x1_S1024,
    unary main_v2150 main_v2151 (Host.cos : (⟨S1024, .f32⟩ : BufTy).Contents (Elt F) → (⟨S1024, .f32⟩ : BufTy).Contents (Elt F)),
    unary main_v2151 main_v2152 (broadcastInDim S1024x1 ![0] bcast_S1024_S1024x1_0 : (⟨S1024, .f32⟩ : BufTy).Contents (Elt F) → (⟨S1024x1, .f32⟩ : BufTy).Contents (Elt F)),
    unary main_v2150 main_v2153 (Host.sin : (⟨S1024, .f32⟩ : BufTy).Contents (Elt F) → (⟨S1024, .f32⟩ : BufTy).Contents (Elt F)),
    unary main_v2153 main_v2154 (broadcastInDim S1024x1 ![0] bcast_S1024_S1024x1_0 : (⟨S1024, .f32⟩ : BufTy).Contents (Elt F) → (⟨S1024x1, .f32⟩ : BufTy).Contents (Elt F)),
    unary main_v2146 main_v2155 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v2155 main_v2156 rfl shapeCasts_S1024x1x16_S1024x16,
    unary main_v2152 main_v2157 (broadcastInDim S1024x16 ![0, 1] bcast_S1024x1_S1024x16_0_1 : (⟨S1024x1, .f32⟩ : BufTy).Contents (Elt F) → (⟨S1024x16, .f32⟩ : BufTy).Contents (Elt F)),
    binary main_v2157 main_v2148 main_v2158 (mulf : (⟨S1024x16, .f32⟩ : BufTy).Contents (Elt F) → (⟨S1024x16, .f32⟩ : BufTy).Contents (Elt F) → (⟨S1024x16, .f32⟩ : BufTy).Contents (Elt F)),
    unary main_v2154 main_v2159 (broadcastInDim S1024x16 ![0, 1] bcast_S1024x1_S1024x16_0_1 : (⟨S1024x1, .f32⟩ : BufTy).Contents (Elt F) → (⟨S1024x16, .f32⟩ : BufTy).Contents (Elt F)),
    binary main_v2159 main_v2156 main_v2160 (mulf : (⟨S1024x16, .f32⟩ : BufTy).Contents (Elt F) → (⟨S1024x16, .f32⟩ : BufTy).Contents (Elt F) → (⟨S1024x16, .f32⟩ : BufTy).Contents (Elt F)),
    binary main_v2158 main_v2160 main_v2161 (subf : (⟨S1024x16, .f32⟩ : BufTy).Contents (Elt F) → (⟨S1024x16, .f32⟩ : BufTy).Contents (Elt F) → (⟨S1024x16, .f32⟩ : BufTy).Contents (Elt F)),
    unary main_v2154 main_v2162 (broadcastInDim S1024x16 ![0, 1] bcast_S1024x1_S1024x16_0_1 : (⟨S1024x1, .f32⟩ : BufTy).Contents (Elt F) → (⟨S1024x16, .f32⟩ : BufTy).Contents (Elt F)),
    binary main_v2162 main_v2148 main_v2163 (mulf : (⟨S1024x16, .f32⟩ : BufTy).Contents (Elt F) → (⟨S1024x16, .f32⟩ : BufTy).Contents (Elt F) → (⟨S1024x16, .f32⟩ : BufTy).Contents (Elt F)) ]
/-- Operations 1 … 20 of window 38. -/
abbrev st114 : List (HloOp τ sig (Elt F)) :=
  [ unary main_v2152 main_v2164 (broadcastInDim S1024x16 ![0, 1] bcast_S1024x1_S1024x16_0_1 : (⟨S1024x1, .f32⟩ : BufTy).Contents (Elt F) → (⟨S1024x16, .f32⟩ : BufTy).Contents (Elt F)),
    binary main_v2164 main_v2156 main_v2165 (mulf : (⟨S1024x16, .f32⟩ : BufTy).Contents (Elt F) → (⟨S1024x16, .f32⟩ : BufTy).Contents (Elt F) → (⟨S1024x16, .f32⟩ : BufTy).Contents (Elt F)),
    binary main_v2163 main_v2165 main_v2166 (addf : (⟨S1024x16, .f32⟩ : BufTy).Contents (Elt F) → (⟨S1024x16, .f32⟩ : BufTy).Contents (Elt F) → (⟨S1024x16, .f32⟩ : BufTy).Contents (Elt F)),
    nullary main_c_115 (constantI S_ 32 11#32),
    unary main_c_115 main_v2167 (broadcastInDim S1 ![] bcast_S_S1 : (⟨S_, .i32⟩ : BufTy).Contents (Elt F) → (⟨S1, .i32⟩ : BufTy).Contents (Elt F)),
    ternary main_v2146 main_v2167 main_v2166 main_v2168 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2169 ((extractStridedSlice S1024x1 ![0, 106] · slices_S1024x120_S1024x1_0_106) : (⟨S1024x120, .f32⟩ : BufTy).Contents (Elt F) → (⟨S1024x1, .f32⟩ : BufTy).Contents (Elt F)),
    reshape main_v2169 main_v2170 rfl shapeCasts_S1024x1_S1024,
    unary main_v2170 main_v2171 (Host.cos : (⟨S1024, .f32⟩ : BufTy).Contents (Elt F) → (⟨S1024, .f32⟩ : BufTy).Contents (Elt F)),
    unary main_v2171 main_v2172 (broadcastInDim S1024x1 ![0] bcast_S1024_S1024x1_0 : (⟨S1024, .f32⟩ : BufTy).Contents (Elt F) → (⟨S1024x1, .f32⟩ : BufTy).Contents (Elt F)),
    unary main_v2170 main_v2173 (Host.sin : (⟨S1024, .f32⟩ : BufTy).Contents (Elt F) → (⟨S1024, .f32⟩ : BufTy).Contents (Elt F)),
    unary main_v2173 main_v2174 (broadcastInDim S1024x1 ![0] bcast_S1024_S1024x1_0 : (⟨S1024, .f32⟩ : BufTy).Contents (Elt F) → (⟨S1024x1, .f32⟩ : BufTy).Contents (Elt F)),
    unary main_v2168 main_v2175 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v2175 main_v2176 rfl shapeCasts_S1024x1x16_S1024x16,
    unary main_v2172 main_v2177 (broadcastInDim S1024x16 ![0, 1] bcast_S1024x1_S1024x16_0_1 : (⟨S1024x1, .f32⟩ : BufTy).Contents (Elt F) → (⟨S1024x16, .f32⟩ : BufTy).Contents (Elt F)),
    binary main_v2177 main_v2161 main_v2178 (mulf : (⟨S1024x16, .f32⟩ : BufTy).Contents (Elt F) → (⟨S1024x16, .f32⟩ : BufTy).Contents (Elt F) → (⟨S1024x16, .f32⟩ : BufTy).Contents (Elt F)),
    unary main_v2174 main_v2179 (broadcastInDim S1024x16 ![0, 1] bcast_S1024x1_S1024x16_0_1 : (⟨S1024x1, .f32⟩ : BufTy).Contents (Elt F) → (⟨S1024x16, .f32⟩ : BufTy).Contents (Elt F)),
    binary main_v2179 main_v2176 main_v2180 (mulf : (⟨S1024x16, .f32⟩ : BufTy).Contents (Elt F) → (⟨S1024x16, .f32⟩ : BufTy).Contents (Elt F) → (⟨S1024x16, .f32⟩ : BufTy).Contents (Elt F)),
    binary main_v2178 main_v2180 main_v2181 (subf : (⟨S1024x16, .f32⟩ : BufTy).Contents (Elt F) → (⟨S1024x16, .f32⟩ : BufTy).Contents (Elt F) → (⟨S1024x16, .f32⟩ : BufTy).Contents (Elt F)),
    unary main_v2174 main_v2182 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 38. -/
abbrev st115 : List (HloOp τ sig (Elt F)) :=
  [ binary main_v2182 main_v2161 main_v2183 (mulf : (⟨S1024x16, .f32⟩ : BufTy).Contents (Elt F) → (⟨S1024x16, .f32⟩ : BufTy).Contents (Elt F) → (⟨S1024x16, .f32⟩ : BufTy).Contents (Elt F)),
    unary main_v2172 main_v2184 (broadcastInDim S1024x16 ![0, 1] bcast_S1024x1_S1024x16_0_1 : (⟨S1024x1, .f32⟩ : BufTy).Contents (Elt F) → (⟨S1024x16, .f32⟩ : BufTy).Contents (Elt F)),
    binary main_v2184 main_v2176 main_v2185 (mulf : (⟨S1024x16, .f32⟩ : BufTy).Contents (Elt F) → (⟨S1024x16, .f32⟩ : BufTy).Contents (Elt F) → (⟨S1024x16, .f32⟩ : BufTy).Contents (Elt F)),
    binary main_v2183 main_v2185 main_v2186 (addf : (⟨S1024x16, .f32⟩ : BufTy).Contents (Elt F) → (⟨S1024x16, .f32⟩ : BufTy).Contents (Elt F) → (⟨S1024x16, .f32⟩ : BufTy).Contents (Elt F)),
    nullary main_c_116 (constantI S_ 32 12#32),
    unary main_c_116 main_v2187 (broadcastInDim S1 ![] bcast_S_S1 : (⟨S_, .i32⟩ : BufTy).Contents (Elt F) → (⟨S1, .i32⟩ : BufTy).Contents (Elt F)),
    ternary main_v2168 main_v2187 main_v2186 main_v2188 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2189 ((extractStridedSlice S1024x1 ![0, 107] · slices_S1024x120_S1024x1_0_107) : (⟨S1024x120, .f32⟩ : BufTy).Contents (Elt F) → (⟨S1024x1, .f32⟩ : BufTy).Contents (Elt F)),
    reshape main_v2189 main_v2190 rfl shapeCasts_S1024x1_S1024,
    unary main_v2190 main_v2191 (Host.cos : (⟨S1024, .f32⟩ : BufTy).Contents (Elt F) → (⟨S1024, .f32⟩ : BufTy).Contents (Elt F)),
    unary main_v2191 main_v2192 (broadcastInDim S1024x1 ![0] bcast_S1024_S1024x1_0 : (⟨S1024, .f32⟩ : BufTy).Contents (Elt F) → (⟨S1024x1, .f32⟩ : BufTy).Contents (Elt F)),
    unary main_v2190 main_v2193 (Host.sin : (⟨S1024, .f32⟩ : BufTy).Contents (Elt F) → (⟨S1024, .f32⟩ : BufTy).Contents (Elt F)),
    unary main_v2193 main_v2194 (broadcastInDim S1024x1 ![0] bcast_S1024_S1024x1_0 : (⟨S1024, .f32⟩ : BufTy).Contents (Elt F) → (⟨S1024x1, .f32⟩ : BufTy).Contents (Elt F)),
    unary main_v2188 main_v2195 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2195 main_v2196 rfl shapeCasts_S1024x1x16_S1024x16,
    unary main_v2192 main_v2197 (broadcastInDim S1024x16 ![0, 1] bcast_S1024x1_S1024x16_0_1 : (⟨S1024x1, .f32⟩ : BufTy).Contents (Elt F) → (⟨S1024x16, .f32⟩ : BufTy).Contents (Elt F)),
    binary main_v2197 main_v2181 main_v2198 (mulf : (⟨S1024x16, .f32⟩ : BufTy).Contents (Elt F) → (⟨S1024x16, .f32⟩ : BufTy).Contents (Elt F) → (⟨S1024x16, .f32⟩ : BufTy).Contents (Elt F)),
    unary main_v2194 main_v2199 (broadcastInDim S1024x16 ![0, 1] bcast_S1024x1_S1024x16_0_1 : (⟨S1024x1, .f32⟩ : BufTy).Contents (Elt F) → (⟨S1024x16, .f32⟩ : BufTy).Contents (Elt F)),
    binary main_v2199 main_v2196 main_v2200 (mulf : (⟨S1024x16, .f32⟩ : BufTy).Contents (Elt F) → (⟨S1024x16, .f32⟩ : BufTy).Contents (Elt F) → (⟨S1024x16, .f32⟩ : BufTy).Contents (Elt F)),
    binary main_v2198 main_v2200 main_v2201 (subf : (⟨S1024x16, .f32⟩ : BufTy).Contents (Elt F) → (⟨S1024x16, .f32⟩ : BufTy).Contents (Elt F) → (⟨S1024x16, .f32⟩ : BufTy).Contents (Elt F)) ]
/-- Operations 41 … 60 of window 38. -/
abbrev st116 : List (HloOp τ sig (Elt F)) :=
  [ unary main_v2194 main_v2202 (broadcastInDim S1024x16 ![0, 1] bcast_S1024x1_S1024x16_0_1 : (⟨S1024x1, .f32⟩ : BufTy).Contents (Elt F) → (⟨S1024x16, .f32⟩ : BufTy).Contents (Elt F)),
    binary main_v2202 main_v2181 main_v2203 (mulf : (⟨S1024x16, .f32⟩ : BufTy).Contents (Elt F) → (⟨S1024x16, .f32⟩ : BufTy).Contents (Elt F) → (⟨S1024x16, .f32⟩ : BufTy).Contents (Elt F)),
    unary main_v2192 main_v2204 (broadcastInDim S1024x16 ![0, 1] bcast_S1024x1_S1024x16_0_1 : (⟨S1024x1, .f32⟩ : BufTy).Contents (Elt F) → (⟨S1024x16, .f32⟩ : BufTy).Contents (Elt F)),
    binary main_v2204 main_v2196 main_v2205 (mulf : (⟨S1024x16, .f32⟩ : BufTy).Contents (Elt F) → (⟨S1024x16, .f32⟩ : BufTy).Contents (Elt F) → (⟨S1024x16, .f32⟩ : BufTy).Contents (Elt F)),
    binary main_v2203 main_v2205 main_v2206 (addf : (⟨S1024x16, .f32⟩ : BufTy).Contents (Elt F) → (⟨S1024x16, .f32⟩ : BufTy).Contents (Elt F) → (⟨S1024x16, .f32⟩ : BufTy).Contents (Elt F)),
    nullary main_c_117 (constantI S_ 32 13#32),
    unary main_c_117 main_v2207 (broadcastInDim S1 ![] bcast_S_S1 : (⟨S_, .i32⟩ : BufTy).Contents (Elt F) → (⟨S1, .i32⟩ : BufTy).Contents (Elt F)),
    ternary main_v2188 main_v2207 main_v2206 main_v2208 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2209 ((extractStridedSlice S1024x1 ![0, 108] · slices_S1024x120_S1024x1_0_108) : (⟨S1024x120, .f32⟩ : BufTy).Contents (Elt F) → (⟨S1024x1, .f32⟩ : BufTy).Contents (Elt F)),
    reshape main_v2209 main_v2210 rfl shapeCasts_S1024x1_S1024,
    unary main_v2210 main_v2211 (Host.cos : (⟨S1024, .f32⟩ : BufTy).Contents (Elt F) → (⟨S1024, .f32⟩ : BufTy).Contents (Elt F)),
    unary main_v2211 main_v2212 (broadcastInDim S1024x1 ![0] bcast_S1024_S1024x1_0 : (⟨S1024, .f32⟩ : BufTy).Contents (Elt F) → (⟨S1024x1, .f32⟩ : BufTy).Contents (Elt F)),
    unary main_v2210 main_v2213 (Host.sin : (⟨S1024, .f32⟩ : BufTy).Contents (Elt F) → (⟨S1024, .f32⟩ : BufTy).Contents (Elt F)),
    unary main_v2213 main_v2214 (broadcastInDim S1024x1 ![0] bcast_S1024_S1024x1_0 : (⟨S1024, .f32⟩ : BufTy).Contents (Elt F) → (⟨S1024x1, .f32⟩ : BufTy).Contents (Elt F)),
    unary main_v2208 main_v2215 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2215 main_v2216 rfl shapeCasts_S1024x1x16_S1024x16,
    unary main_v2212 main_v2217 (broadcastInDim S1024x16 ![0, 1] bcast_S1024x1_S1024x16_0_1 : (⟨S1024x1, .f32⟩ : BufTy).Contents (Elt F) → (⟨S1024x16, .f32⟩ : BufTy).Contents (Elt F)),
    binary main_v2217 main_v2201 main_v2218 (mulf : (⟨S1024x16, .f32⟩ : BufTy).Contents (Elt F) → (⟨S1024x16, .f32⟩ : BufTy).Contents (Elt F) → (⟨S1024x16, .f32⟩ : BufTy).Contents (Elt F)),
    unary main_v2214 main_v2219 (broadcastInDim S1024x16 ![0, 1] bcast_S1024x1_S1024x16_0_1 : (⟨S1024x1, .f32⟩ : BufTy).Contents (Elt F) → (⟨S1024x16, .f32⟩ : BufTy).Contents (Elt F)),
    binary main_v2219 main_v2216 main_v2220 (mulf : (⟨S1024x16, .f32⟩ : BufTy).Contents (Elt F) → (⟨S1024x16, .f32⟩ : BufTy).Contents (Elt F) → (⟨S1024x16, .f32⟩ : BufTy).Contents (Elt F)) ]
/-- Operations 1 … 20 of window 39. -/
abbrev st117 : List (HloOp τ sig (Elt F)) :=
  [ binary main_v2218 main_v2220 main_v2221 (subf : (⟨S1024x16, .f32⟩ : BufTy).Contents (Elt F) → (⟨S1024x16, .f32⟩ : BufTy).Contents (Elt F) → (⟨S1024x16, .f32⟩ : BufTy).Contents (Elt F)),
    unary main_v2214 main_v2222 (broadcastInDim S1024x16 ![0, 1] bcast_S1024x1_S1024x16_0_1 : (⟨S1024x1, .f32⟩ : BufTy).Contents (Elt F) → (⟨S1024x16, .f32⟩ : BufTy).Contents (Elt F)),
    binary main_v2222 main_v2201 main_v2223 (mulf : (⟨S1024x16, .f32⟩ : BufTy).Contents (Elt F) → (⟨S1024x16, .f32⟩ : BufTy).Contents (Elt F) → (⟨S1024x16, .f32⟩ : BufTy).Contents (Elt F)),
    unary main_v2212 main_v2224 (broadcastInDim S1024x16 ![0, 1] bcast_S1024x1_S1024x16_0_1 : (⟨S1024x1, .f32⟩ : BufTy).Contents (Elt F) → (⟨S1024x16, .f32⟩ : BufTy).Contents (Elt F)),
    binary main_v2224 main_v2216 main_v2225 (mulf : (⟨S1024x16, .f32⟩ : BufTy).Contents (Elt F) → (⟨S1024x16, .f32⟩ : BufTy).Contents (Elt F) → (⟨S1024x16, .f32⟩ : BufTy).Contents (Elt F)),
    binary main_v2223 main_v2225 main_v2226 (addf : (⟨S1024x16, .f32⟩ : BufTy).Contents (Elt F) → (⟨S1024x16, .f32⟩ : BufTy).Contents (Elt F) → (⟨S1024x16, .f32⟩ : BufTy).Contents (Elt F)),
    nullary main_c_118 (constantI S_ 32 14#32),
    unary main_c_118 main_v2227 (broadcastInDim S1 ![] bcast_S_S1 : (⟨S_, .i32⟩ : BufTy).Contents (Elt F) → (⟨S1, .i32⟩ : BufTy).Contents (Elt F)),
    ternary main_v2208 main_v2227 main_v2226 main_v2228 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2229 ((extractStridedSlice S1024x1 ![0, 109] · slices_S1024x120_S1024x1_0_109) : (⟨S1024x120, .f32⟩ : BufTy).Contents (Elt F) → (⟨S1024x1, .f32⟩ : BufTy).Contents (Elt F)),
    reshape main_v2229 main_v2230 rfl shapeCasts_S1024x1_S1024,
    unary main_v2230 main_v2231 (Host.cos : (⟨S1024, .f32⟩ : BufTy).Contents (Elt F) → (⟨S1024, .f32⟩ : BufTy).Contents (Elt F)),
    unary main_v2231 main_v2232 (broadcastInDim S1024x1 ![0] bcast_S1024_S1024x1_0 : (⟨S1024, .f32⟩ : BufTy).Contents (Elt F) → (⟨S1024x1, .f32⟩ : BufTy).Contents (Elt F)),
    unary main_v2230 main_v2233 (Host.sin : (⟨S1024, .f32⟩ : BufTy).Contents (Elt F) → (⟨S1024, .f32⟩ : BufTy).Contents (Elt F)),
    unary main_v2233 main_v2234 (broadcastInDim S1024x1 ![0] bcast_S1024_S1024x1_0 : (⟨S1024, .f32⟩ : BufTy).Contents (Elt F) → (⟨S1024x1, .f32⟩ : BufTy).Contents (Elt F)),
    unary main_v2228 main_v2235 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2235 main_v2236 rfl shapeCasts_S1024x1x16_S1024x16,
    unary main_v2232 main_v2237 (broadcastInDim S1024x16 ![0, 1] bcast_S1024x1_S1024x16_0_1 : (⟨S1024x1, .f32⟩ : BufTy).Contents (Elt F) → (⟨S1024x16, .f32⟩ : BufTy).Contents (Elt F)),
    binary main_v2237 main_v2221 main_v2238 (mulf : (⟨S1024x16, .f32⟩ : BufTy).Contents (Elt F) → (⟨S1024x16, .f32⟩ : BufTy).Contents (Elt F) → (⟨S1024x16, .f32⟩ : BufTy).Contents (Elt F)),
    unary main_v2234 main_v2239 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 39. -/
abbrev st118 : List (HloOp τ sig (Elt F)) :=
  [ binary main_v2239 main_v2236 main_v2240 (mulf : (⟨S1024x16, .f32⟩ : BufTy).Contents (Elt F) → (⟨S1024x16, .f32⟩ : BufTy).Contents (Elt F) → (⟨S1024x16, .f32⟩ : BufTy).Contents (Elt F)),
    binary main_v2238 main_v2240 main_v2241 (subf : (⟨S1024x16, .f32⟩ : BufTy).Contents (Elt F) → (⟨S1024x16, .f32⟩ : BufTy).Contents (Elt F) → (⟨S1024x16, .f32⟩ : BufTy).Contents (Elt F)),
    unary main_v2234 main_v2242 (broadcastInDim S1024x16 ![0, 1] bcast_S1024x1_S1024x16_0_1 : (⟨S1024x1, .f32⟩ : BufTy).Contents (Elt F) → (⟨S1024x16, .f32⟩ : BufTy).Contents (Elt F)),
    binary main_v2242 main_v2221 main_v2243 (mulf : (⟨S1024x16, .f32⟩ : BufTy).Contents (Elt F) → (⟨S1024x16, .f32⟩ : BufTy).Contents (Elt F) → (⟨S1024x16, .f32⟩ : BufTy).Contents (Elt F)),
    unary main_v2232 main_v2244 (broadcastInDim S1024x16 ![0, 1] bcast_S1024x1_S1024x16_0_1 : (⟨S1024x1, .f32⟩ : BufTy).Contents (Elt F) → (⟨S1024x16, .f32⟩ : BufTy).Contents (Elt F)),
    binary main_v2244 main_v2236 main_v2245 (mulf : (⟨S1024x16, .f32⟩ : BufTy).Contents (Elt F) → (⟨S1024x16, .f32⟩ : BufTy).Contents (Elt F) → (⟨S1024x16, .f32⟩ : BufTy).Contents (Elt F)),
    binary main_v2243 main_v2245 main_v2246 (addf : (⟨S1024x16, .f32⟩ : BufTy).Contents (Elt F) → (⟨S1024x16, .f32⟩ : BufTy).Contents (Elt F) → (⟨S1024x16, .f32⟩ : BufTy).Contents (Elt F)),
    nullary main_c_119 (constantI S_ 32 15#32),
    unary main_c_119 main_v2247 (broadcastInDim S1 ![] bcast_S_S1 : (⟨S_, .i32⟩ : BufTy).Contents (Elt F) → (⟨S1, .i32⟩ : BufTy).Contents (Elt F)),
    ternary main_v2228 main_v2247 main_v2246 main_v2248 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_120 (constantI S_ 32 10#32),
    unary main_c_120 main_v2249 (broadcastInDim S1 ![] bcast_S_S1 : (⟨S_, .i32⟩ : BufTy).Contents (Elt F) → (⟨S1, .i32⟩ : BufTy).Contents (Elt F)),
    ternary main_v2248 main_v2249 main_v2241 main_v2250 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2250 main_v2251 ((extractStridedSlice S1024x1x16 ![0, 11, 0] · slices_S1024x16x16_S1024x1x16_0_11_0) : (⟨S1024x16x16, .f32⟩ : BufTy).Contents (Elt F) → (⟨S1024x1x16, .f32⟩ : BufTy).Contents (Elt F)),
    reshape main_v2251 main_v2252 rfl shapeCasts_S1024x1x16_S1024x16,
    unary main_arg1 main_v2253 ((extractStridedSlice S1024x1 ![0, 110] · slices_S1024x120_S1024x1_0_110) : (⟨S1024x120, .f32⟩ : BufTy).Contents (Elt F) → (⟨S1024x1, .f32⟩ : BufTy).Contents (Elt F)),
    reshape main_v2253 main_v2254 rfl shapeCasts_S1024x1_S1024,
    unary main_v2254 main_v2255 (Host.cos : (⟨S1024, .f32⟩ : BufTy).Contents (Elt F) → (⟨S1024, .f32⟩ : BufTy).Contents (Elt F)),
    unary main_v2255 main_v2256 (broadcastInDim S1024x1 ![0] bcast_S1024_S1024x1_0 : (⟨S1024, .f32⟩ : BufTy).Contents (Elt F) → (⟨S1024x1, .f32⟩ : BufTy).Contents (Elt F)),
    unary main_v2254 main_v2257 (Host.sin : (⟨S1024, .f32⟩ : BufTy).Contents (Elt F) → (⟨S1024, .f32⟩ : BufTy).Contents (Elt F)) ]
/-- Operations 41 … 60 of window 39. -/
abbrev st119 : List (HloOp τ sig (Elt F)) :=
  [ unary main_v2257 main_v2258 (broadcastInDim S1024x1 ![0] bcast_S1024_S1024x1_0 : (⟨S1024, .f32⟩ : BufTy).Contents (Elt F) → (⟨S1024x1, .f32⟩ : BufTy).Contents (Elt F)),
    unary main_v2250 main_v2259 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v2259 main_v2260 rfl shapeCasts_S1024x1x16_S1024x16,
    unary main_v2256 main_v2261 (broadcastInDim S1024x16 ![0, 1] bcast_S1024x1_S1024x16_0_1 : (⟨S1024x1, .f32⟩ : BufTy).Contents (Elt F) → (⟨S1024x16, .f32⟩ : BufTy).Contents (Elt F)),
    binary main_v2261 main_v2252 main_v2262 (mulf : (⟨S1024x16, .f32⟩ : BufTy).Contents (Elt F) → (⟨S1024x16, .f32⟩ : BufTy).Contents (Elt F) → (⟨S1024x16, .f32⟩ : BufTy).Contents (Elt F)),
    unary main_v2258 main_v2263 (broadcastInDim S1024x16 ![0, 1] bcast_S1024x1_S1024x16_0_1 : (⟨S1024x1, .f32⟩ : BufTy).Contents (Elt F) → (⟨S1024x16, .f32⟩ : BufTy).Contents (Elt F)),
    binary main_v2263 main_v2260 main_v2264 (mulf : (⟨S1024x16, .f32⟩ : BufTy).Contents (Elt F) → (⟨S1024x16, .f32⟩ : BufTy).Contents (Elt F) → (⟨S1024x16, .f32⟩ : BufTy).Contents (Elt F)),
    binary main_v2262 main_v2264 main_v2265 (subf : (⟨S1024x16, .f32⟩ : BufTy).Contents (Elt F) → (⟨S1024x16, .f32⟩ : BufTy).Contents (Elt F) → (⟨S1024x16, .f32⟩ : BufTy).Contents (Elt F)),
    unary main_v2258 main_v2266 (broadcastInDim S1024x16 ![0, 1] bcast_S1024x1_S1024x16_0_1 : (⟨S1024x1, .f32⟩ : BufTy).Contents (Elt F) → (⟨S1024x16, .f32⟩ : BufTy).Contents (Elt F)),
    binary main_v2266 main_v2252 main_v2267 (mulf : (⟨S1024x16, .f32⟩ : BufTy).Contents (Elt F) → (⟨S1024x16, .f32⟩ : BufTy).Contents (Elt F) → (⟨S1024x16, .f32⟩ : BufTy).Contents (Elt F)),
    unary main_v2256 main_v2268 (broadcastInDim S1024x16 ![0, 1] bcast_S1024x1_S1024x16_0_1 : (⟨S1024x1, .f32⟩ : BufTy).Contents (Elt F) → (⟨S1024x16, .f32⟩ : BufTy).Contents (Elt F)),
    binary main_v2268 main_v2260 main_v2269 (mulf : (⟨S1024x16, .f32⟩ : BufTy).Contents (Elt F) → (⟨S1024x16, .f32⟩ : BufTy).Contents (Elt F) → (⟨S1024x16, .f32⟩ : BufTy).Contents (Elt F)),
    binary main_v2267 main_v2269 main_v2270 (addf : (⟨S1024x16, .f32⟩ : BufTy).Contents (Elt F) → (⟨S1024x16, .f32⟩ : BufTy).Contents (Elt F) → (⟨S1024x16, .f32⟩ : BufTy).Contents (Elt F)),
    nullary main_c_121 (constantI S_ 32 12#32),
    unary main_c_121 main_v2271 (broadcastInDim S1 ![] bcast_S_S1 : (⟨S_, .i32⟩ : BufTy).Contents (Elt F) → (⟨S1, .i32⟩ : BufTy).Contents (Elt F)),
    ternary main_v2250 main_v2271 main_v2270 main_v2272 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2273 ((extractStridedSlice S1024x1 ![0, 111] · slices_S1024x120_S1024x1_0_111) : (⟨S1024x120, .f32⟩ : BufTy).Contents (Elt F) → (⟨S1024x1, .f32⟩ : BufTy).Contents (Elt F)),
    reshape main_v2273 main_v2274 rfl shapeCasts_S1024x1_S1024,
    unary main_v2274 main_v2275 (Host.cos : (⟨S1024, .f32⟩ : BufTy).Contents (Elt F) → (⟨S1024, .f32⟩ : BufTy).Contents (Elt F)),
    unary main_v2275 main_v2276 (broadcastInDim S1024x1 ![0] bcast_S1024_S1024x1_0 : (⟨S1024, .f32⟩ : BufTy).Contents (Elt F) → (⟨S1024x1, .f32⟩ : BufTy).Contents (Elt F)) ]
/-- Operations 1 … 20 of window 40. -/
abbrev st120 : List (HloOp τ sig (Elt F)) :=
  [ unary main_v2274 main_v2277 (Host.sin : (⟨S1024, .f32⟩ : BufTy).Contents (Elt F) → (⟨S1024, .f32⟩ : BufTy).Contents (Elt F)),
    unary main_v2277 main_v2278 (broadcastInDim S1024x1 ![0] bcast_S1024_S1024x1_0 : (⟨S1024, .f32⟩ : BufTy).Contents (Elt F) → (⟨S1024x1, .f32⟩ : BufTy).Contents (Elt F)),
    unary main_v2272 main_v2279 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2279 main_v2280 rfl shapeCasts_S1024x1x16_S1024x16,
    unary main_v2276 main_v2281 (broadcastInDim S1024x16 ![0, 1] bcast_S1024x1_S1024x16_0_1 : (⟨S1024x1, .f32⟩ : BufTy).Contents (Elt F) → (⟨S1024x16, .f32⟩ : BufTy).Contents (Elt F)),
    binary main_v2281 main_v2265 main_v2282 (mulf : (⟨S1024x16, .f32⟩ : BufTy).Contents (Elt F) → (⟨S1024x16, .f32⟩ : BufTy).Contents (Elt F) → (⟨S1024x16, .f32⟩ : BufTy).Contents (Elt F)),
    unary main_v2278 main_v2283 (broadcastInDim S1024x16 ![0, 1] bcast_S1024x1_S1024x16_0_1 : (⟨S1024x1, .f32⟩ : BufTy).Contents (Elt F) → (⟨S1024x16, .f32⟩ : BufTy).Contents (Elt F)),
    binary main_v2283 main_v2280 main_v2284 (mulf : (⟨S1024x16, .f32⟩ : BufTy).Contents (Elt F) → (⟨S1024x16, .f32⟩ : BufTy).Contents (Elt F) → (⟨S1024x16, .f32⟩ : BufTy).Contents (Elt F)),
    binary main_v2282 main_v2284 main_v2285 (subf : (⟨S1024x16, .f32⟩ : BufTy).Contents (Elt F) → (⟨S1024x16, .f32⟩ : BufTy).Contents (Elt F) → (⟨S1024x16, .f32⟩ : BufTy).Contents (Elt F)),
    unary main_v2278 main_v2286 (broadcastInDim S1024x16 ![0, 1] bcast_S1024x1_S1024x16_0_1 : (⟨S1024x1, .f32⟩ : BufTy).Contents (Elt F) → (⟨S1024x16, .f32⟩ : BufTy).Contents (Elt F)),
    binary main_v2286 main_v2265 main_v2287 (mulf : (⟨S1024x16, .f32⟩ : BufTy).Contents (Elt F) → (⟨S1024x16, .f32⟩ : BufTy).Contents (Elt F) → (⟨S1024x16, .f32⟩ : BufTy).Contents (Elt F)),
    unary main_v2276 main_v2288 (broadcastInDim S1024x16 ![0, 1] bcast_S1024x1_S1024x16_0_1 : (⟨S1024x1, .f32⟩ : BufTy).Contents (Elt F) → (⟨S1024x16, .f32⟩ : BufTy).Contents (Elt F)),
    binary main_v2288 main_v2280 main_v2289 (mulf : (⟨S1024x16, .f32⟩ : BufTy).Contents (Elt F) → (⟨S1024x16, .f32⟩ : BufTy).Contents (Elt F) → (⟨S1024x16, .f32⟩ : BufTy).Contents (Elt F)),
    binary main_v2287 main_v2289 main_v2290 (addf : (⟨S1024x16, .f32⟩ : BufTy).Contents (Elt F) → (⟨S1024x16, .f32⟩ : BufTy).Contents (Elt F) → (⟨S1024x16, .f32⟩ : BufTy).Contents (Elt F)),
    nullary main_c_122 (constantI S_ 32 13#32),
    unary main_c_122 main_v2291 (broadcastInDim S1 ![] bcast_S_S1 : (⟨S_, .i32⟩ : BufTy).Contents (Elt F) → (⟨S1, .i32⟩ : BufTy).Contents (Elt F)),
    ternary main_v2272 main_v2291 main_v2290 main_v2292 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2293 ((extractStridedSlice S1024x1 ![0, 112] · slices_S1024x120_S1024x1_0_112) : (⟨S1024x120, .f32⟩ : BufTy).Contents (Elt F) → (⟨S1024x1, .f32⟩ : BufTy).Contents (Elt F)),
    reshape main_v2293 main_v2294 rfl shapeCasts_S1024x1_S1024,
    unary main_v2294 main_v2295 (Host.cos : (⟨S1024, .f32⟩ : BufTy).Contents (Elt F) → (⟨S1024, .f32⟩ : BufTy).Contents (Elt F)) ]
/-- Operations 21 … 40 of window 40. -/
abbrev st121 : List (HloOp τ sig (Elt F)) :=
  [ unary main_v2295 main_v2296 (broadcastInDim S1024x1 ![0] bcast_S1024_S1024x1_0 : (⟨S1024, .f32⟩ : BufTy).Contents (Elt F) → (⟨S1024x1, .f32⟩ : BufTy).Contents (Elt F)),
    unary main_v2294 main_v2297 (Host.sin : (⟨S1024, .f32⟩ : BufTy).Contents (Elt F) → (⟨S1024, .f32⟩ : BufTy).Contents (Elt F)),
    unary main_v2297 main_v2298 (broadcastInDim S1024x1 ![0] bcast_S1024_S1024x1_0 : (⟨S1024, .f32⟩ : BufTy).Contents (Elt F) → (⟨S1024x1, .f32⟩ : BufTy).Contents (Elt F)),
    unary main_v2292 main_v2299 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2299 main_v2300 rfl shapeCasts_S1024x1x16_S1024x16,
    unary main_v2296 main_v2301 (broadcastInDim S1024x16 ![0, 1] bcast_S1024x1_S1024x16_0_1 : (⟨S1024x1, .f32⟩ : BufTy).Contents (Elt F) → (⟨S1024x16, .f32⟩ : BufTy).Contents (Elt F)),
    binary main_v2301 main_v2285 main_v2302 (mulf : (⟨S1024x16, .f32⟩ : BufTy).Contents (Elt F) → (⟨S1024x16, .f32⟩ : BufTy).Contents (Elt F) → (⟨S1024x16, .f32⟩ : BufTy).Contents (Elt F)),
    unary main_v2298 main_v2303 (broadcastInDim S1024x16 ![0, 1] bcast_S1024x1_S1024x16_0_1 : (⟨S1024x1, .f32⟩ : BufTy).Contents (Elt F) → (⟨S1024x16, .f32⟩ : BufTy).Contents (Elt F)),
    binary main_v2303 main_v2300 main_v2304 (mulf : (⟨S1024x16, .f32⟩ : BufTy).Contents (Elt F) → (⟨S1024x16, .f32⟩ : BufTy).Contents (Elt F) → (⟨S1024x16, .f32⟩ : BufTy).Contents (Elt F)),
    binary main_v2302 main_v2304 main_v2305 (subf : (⟨S1024x16, .f32⟩ : BufTy).Contents (Elt F) → (⟨S1024x16, .f32⟩ : BufTy).Contents (Elt F) → (⟨S1024x16, .f32⟩ : BufTy).Contents (Elt F)),
    unary main_v2298 main_v2306 (broadcastInDim S1024x16 ![0, 1] bcast_S1024x1_S1024x16_0_1 : (⟨S1024x1, .f32⟩ : BufTy).Contents (Elt F) → (⟨S1024x16, .f32⟩ : BufTy).Contents (Elt F)),
    binary main_v2306 main_v2285 main_v2307 (mulf : (⟨S1024x16, .f32⟩ : BufTy).Contents (Elt F) → (⟨S1024x16, .f32⟩ : BufTy).Contents (Elt F) → (⟨S1024x16, .f32⟩ : BufTy).Contents (Elt F)),
    unary main_v2296 main_v2308 (broadcastInDim S1024x16 ![0, 1] bcast_S1024x1_S1024x16_0_1 : (⟨S1024x1, .f32⟩ : BufTy).Contents (Elt F) → (⟨S1024x16, .f32⟩ : BufTy).Contents (Elt F)),
    binary main_v2308 main_v2300 main_v2309 (mulf : (⟨S1024x16, .f32⟩ : BufTy).Contents (Elt F) → (⟨S1024x16, .f32⟩ : BufTy).Contents (Elt F) → (⟨S1024x16, .f32⟩ : BufTy).Contents (Elt F)),
    binary main_v2307 main_v2309 main_v2310 (addf : (⟨S1024x16, .f32⟩ : BufTy).Contents (Elt F) → (⟨S1024x16, .f32⟩ : BufTy).Contents (Elt F) → (⟨S1024x16, .f32⟩ : BufTy).Contents (Elt F)),
    nullary main_c_123 (constantI S_ 32 14#32),
    unary main_c_123 main_v2311 (broadcastInDim S1 ![] bcast_S_S1 : (⟨S_, .i32⟩ : BufTy).Contents (Elt F) → (⟨S1, .i32⟩ : BufTy).Contents (Elt F)),
    ternary main_v2292 main_v2311 main_v2310 main_v2312 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2313 ((extractStridedSlice S1024x1 ![0, 113] · slices_S1024x120_S1024x1_0_113) : (⟨S1024x120, .f32⟩ : BufTy).Contents (Elt F) → (⟨S1024x1, .f32⟩ : BufTy).Contents (Elt F)),
    reshape main_v2313 main_v2314 rfl shapeCasts_S1024x1_S1024 ]
/-- Operations 41 … 60 of window 40. -/
abbrev st122 : List (HloOp τ sig (Elt F)) :=
  [ unary main_v2314 main_v2315 (Host.cos : (⟨S1024, .f32⟩ : BufTy).Contents (Elt F) → (⟨S1024, .f32⟩ : BufTy).Contents (Elt F)),
    unary main_v2315 main_v2316 (broadcastInDim S1024x1 ![0] bcast_S1024_S1024x1_0 : (⟨S1024, .f32⟩ : BufTy).Contents (Elt F) → (⟨S1024x1, .f32⟩ : BufTy).Contents (Elt F)),
    unary main_v2314 main_v2317 (Host.sin : (⟨S1024, .f32⟩ : BufTy).Contents (Elt F) → (⟨S1024, .f32⟩ : BufTy).Contents (Elt F)),
    unary main_v2317 main_v2318 (broadcastInDim S1024x1 ![0] bcast_S1024_S1024x1_0 : (⟨S1024, .f32⟩ : BufTy).Contents (Elt F) → (⟨S1024x1, .f32⟩ : BufTy).Contents (Elt F)),
    unary main_v2312 main_v2319 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2319 main_v2320 rfl shapeCasts_S1024x1x16_S1024x16,
    unary main_v2316 main_v2321 (broadcastInDim S1024x16 ![0, 1] bcast_S1024x1_S1024x16_0_1 : (⟨S1024x1, .f32⟩ : BufTy).Contents (Elt F) → (⟨S1024x16, .f32⟩ : BufTy).Contents (Elt F)),
    binary main_v2321 main_v2305 main_v2322 (mulf : (⟨S1024x16, .f32⟩ : BufTy).Contents (Elt F) → (⟨S1024x16, .f32⟩ : BufTy).Contents (Elt F) → (⟨S1024x16, .f32⟩ : BufTy).Contents (Elt F)),
    unary main_v2318 main_v2323 (broadcastInDim S1024x16 ![0, 1] bcast_S1024x1_S1024x16_0_1 : (⟨S1024x1, .f32⟩ : BufTy).Contents (Elt F) → (⟨S1024x16, .f32⟩ : BufTy).Contents (Elt F)),
    binary main_v2323 main_v2320 main_v2324 (mulf : (⟨S1024x16, .f32⟩ : BufTy).Contents (Elt F) → (⟨S1024x16, .f32⟩ : BufTy).Contents (Elt F) → (⟨S1024x16, .f32⟩ : BufTy).Contents (Elt F)),
    binary main_v2322 main_v2324 main_v2325 (subf : (⟨S1024x16, .f32⟩ : BufTy).Contents (Elt F) → (⟨S1024x16, .f32⟩ : BufTy).Contents (Elt F) → (⟨S1024x16, .f32⟩ : BufTy).Contents (Elt F)),
    unary main_v2318 main_v2326 (broadcastInDim S1024x16 ![0, 1] bcast_S1024x1_S1024x16_0_1 : (⟨S1024x1, .f32⟩ : BufTy).Contents (Elt F) → (⟨S1024x16, .f32⟩ : BufTy).Contents (Elt F)),
    binary main_v2326 main_v2305 main_v2327 (mulf : (⟨S1024x16, .f32⟩ : BufTy).Contents (Elt F) → (⟨S1024x16, .f32⟩ : BufTy).Contents (Elt F) → (⟨S1024x16, .f32⟩ : BufTy).Contents (Elt F)),
    unary main_v2316 main_v2328 (broadcastInDim S1024x16 ![0, 1] bcast_S1024x1_S1024x16_0_1 : (⟨S1024x1, .f32⟩ : BufTy).Contents (Elt F) → (⟨S1024x16, .f32⟩ : BufTy).Contents (Elt F)),
    binary main_v2328 main_v2320 main_v2329 (mulf : (⟨S1024x16, .f32⟩ : BufTy).Contents (Elt F) → (⟨S1024x16, .f32⟩ : BufTy).Contents (Elt F) → (⟨S1024x16, .f32⟩ : BufTy).Contents (Elt F)),
    binary main_v2327 main_v2329 main_v2330 (addf : (⟨S1024x16, .f32⟩ : BufTy).Contents (Elt F) → (⟨S1024x16, .f32⟩ : BufTy).Contents (Elt F) → (⟨S1024x16, .f32⟩ : BufTy).Contents (Elt F)),
    nullary main_c_124 (constantI S_ 32 15#32),
    unary main_c_124 main_v2331 (broadcastInDim S1 ![] bcast_S_S1 : (⟨S_, .i32⟩ : BufTy).Contents (Elt F) → (⟨S1, .i32⟩ : BufTy).Contents (Elt F)),
    ternary main_v2312 main_v2331 main_v2330 main_v2332 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_125 (constantI S_ 32 11#32) ]
/-- Operations 1 … 20 of window 41. -/
abbrev st123 : List (HloOp τ sig (Elt F)) :=
  [ unary main_c_125 main_v2333 (broadcastInDim S1 ![] bcast_S_S1 : (⟨S_, .i32⟩ : BufTy).Contents (Elt F) → (⟨S1, .i32⟩ : BufTy).Contents (Elt F)),
    ternary main_v2332 main_v2333 main_v2325 main_v2334 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2334 main_v2335 ((extractStridedSlice S1024x1x16 ![0, 12, 0] · slices_S1024x16x16_S1024x1x16_0_12_0) : (⟨S1024x16x16, .f32⟩ : BufTy).Contents (Elt F) → (⟨S1024x1x16, .f32⟩ : BufTy).Contents (Elt F)),
    reshape main_v2335 main_v2336 rfl shapeCasts_S1024x1x16_S1024x16,
    unary main_arg1 main_v2337 ((extractStridedSlice S1024x1 ![0, 114] · slices_S1024x120_S1024x1_0_114) : (⟨S1024x120, .f32⟩ : BufTy).Contents (Elt F) → (⟨S1024x1, .f32⟩ : BufTy).Contents (Elt F)),
    reshape main_v2337 main_v2338 rfl shapeCasts_S1024x1_S1024,
    unary main_v2338 main_v2339 (Host.cos : (⟨S1024, .f32⟩ : BufTy).Contents (Elt F) → (⟨S1024, .f32⟩ : BufTy).Contents (Elt F)),
    unary main_v2339 main_v2340 (broadcastInDim S1024x1 ![0] bcast_S1024_S1024x1_0 : (⟨S1024, .f32⟩ : BufTy).Contents (Elt F) → (⟨S1024x1, .f32⟩ : BufTy).Contents (Elt F)),
    unary main_v2338 main_v2341 (Host.sin : (⟨S1024, .f32⟩ : BufTy).Contents (Elt F) → (⟨S1024, .f32⟩ : BufTy).Contents (Elt F)),
    unary main_v2341 main_v2342 (broadcastInDim S1024x1 ![0] bcast_S1024_S1024x1_0 : (⟨S1024, .f32⟩ : BufTy).Contents (Elt F) → (⟨S1024x1, .f32⟩ : BufTy).Contents (Elt F)),
    unary main_v2334 main_v2343 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2343 main_v2344 rfl shapeCasts_S1024x1x16_S1024x16,
    unary main_v2340 main_v2345 (broadcastInDim S1024x16 ![0, 1] bcast_S1024x1_S1024x16_0_1 : (⟨S1024x1, .f32⟩ : BufTy).Contents (Elt F) → (⟨S1024x16, .f32⟩ : BufTy).Contents (Elt F)),
    binary main_v2345 main_v2336 main_v2346 (mulf : (⟨S1024x16, .f32⟩ : BufTy).Contents (Elt F) → (⟨S1024x16, .f32⟩ : BufTy).Contents (Elt F) → (⟨S1024x16, .f32⟩ : BufTy).Contents (Elt F)),
    unary main_v2342 main_v2347 (broadcastInDim S1024x16 ![0, 1] bcast_S1024x1_S1024x16_0_1 : (⟨S1024x1, .f32⟩ : BufTy).Contents (Elt F) → (⟨S1024x16, .f32⟩ : BufTy).Contents (Elt F)),
    binary main_v2347 main_v2344 main_v2348 (mulf : (⟨S1024x16, .f32⟩ : BufTy).Contents (Elt F) → (⟨S1024x16, .f32⟩ : BufTy).Contents (Elt F) → (⟨S1024x16, .f32⟩ : BufTy).Contents (Elt F)),
    binary main_v2346 main_v2348 main_v2349 (subf : (⟨S1024x16, .f32⟩ : BufTy).Contents (Elt F) → (⟨S1024x16, .f32⟩ : BufTy).Contents (Elt F) → (⟨S1024x16, .f32⟩ : BufTy).Contents (Elt F)),
    unary main_v2342 main_v2350 (broadcastInDim S1024x16 ![0, 1] bcast_S1024x1_S1024x16_0_1 : (⟨S1024x1, .f32⟩ : BufTy).Contents (Elt F) → (⟨S1024x16, .f32⟩ : BufTy).Contents (Elt F)),
    binary main_v2350 main_v2336 main_v2351 (mulf : (⟨S1024x16, .f32⟩ : BufTy).Contents (Elt F) → (⟨S1024x16, .f32⟩ : BufTy).Contents (Elt F) → (⟨S1024x16, .f32⟩ : BufTy).Contents (Elt F)),
    unary main_v2340 main_v2352 (broadcastInDim S1024x16 ![0, 1] bcast_S1024x1_S1024x16_0_1 : (⟨S1024x1, .f32⟩ : BufTy).Contents (Elt F) → (⟨S1024x16, .f32⟩ : BufTy).Contents (Elt F)) ]
/-- Operations 21 … 40 of window 41. -/
abbrev st124 : List (HloOp τ sig (Elt F)) :=
  [ binary main_v2352 main_v2344 main_v2353 (mulf : (⟨S1024x16, .f32⟩ : BufTy).Contents (Elt F) → (⟨S1024x16, .f32⟩ : BufTy).Contents (Elt F) → (⟨S1024x16, .f32⟩ : BufTy).Contents (Elt F)),
    binary main_v2351 main_v2353 main_v2354 (addf : (⟨S1024x16, .f32⟩ : BufTy).Contents (Elt F) → (⟨S1024x16, .f32⟩ : BufTy).Contents (Elt F) → (⟨S1024x16, .f32⟩ : BufTy).Contents (Elt F)),
    nullary main_c_126 (constantI S_ 32 13#32),
    unary main_c_126 main_v2355 (broadcastInDim S1 ![] bcast_S_S1 : (⟨S_, .i32⟩ : BufTy).Contents (Elt F) → (⟨S1, .i32⟩ : BufTy).Contents (Elt F)),
    ternary main_v2334 main_v2355 main_v2354 main_v2356 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2357 ((extractStridedSlice S1024x1 ![0, 115] · slices_S1024x120_S1024x1_0_115) : (⟨S1024x120, .f32⟩ : BufTy).Contents (Elt F) → (⟨S1024x1, .f32⟩ : BufTy).Contents (Elt F)),
    reshape main_v2357 main_v2358 rfl shapeCasts_S1024x1_S1024,
    unary main_v2358 main_v2359 (Host.cos : (⟨S1024, .f32⟩ : BufTy).Contents (Elt F) → (⟨S1024, .f32⟩ : BufTy).Contents (Elt F)),
    unary main_v2359 main_v2360 (broadcastInDim S1024x1 ![0] bcast_S1024_S1024x1_0 : (⟨S1024, .f32⟩ : BufTy).Contents (Elt F) → (⟨S1024x1, .f32⟩ : BufTy).Contents (Elt F)),
    unary main_v2358 main_v2361 (Host.sin : (⟨S1024, .f32⟩ : BufTy).Contents (Elt F) → (⟨S1024, .f32⟩ : BufTy).Contents (Elt F)),
    unary main_v2361 main_v2362 (broadcastInDim S1024x1 ![0] bcast_S1024_S1024x1_0 : (⟨S1024, .f32⟩ : BufTy).Contents (Elt F) → (⟨S1024x1, .f32⟩ : BufTy).Contents (Elt F)),
    unary main_v2356 main_v2363 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2363 main_v2364 rfl shapeCasts_S1024x1x16_S1024x16,
    unary main_v2360 main_v2365 (broadcastInDim S1024x16 ![0, 1] bcast_S1024x1_S1024x16_0_1 : (⟨S1024x1, .f32⟩ : BufTy).Contents (Elt F) → (⟨S1024x16, .f32⟩ : BufTy).Contents (Elt F)),
    binary main_v2365 main_v2349 main_v2366 (mulf : (⟨S1024x16, .f32⟩ : BufTy).Contents (Elt F) → (⟨S1024x16, .f32⟩ : BufTy).Contents (Elt F) → (⟨S1024x16, .f32⟩ : BufTy).Contents (Elt F)),
    unary main_v2362 main_v2367 (broadcastInDim S1024x16 ![0, 1] bcast_S1024x1_S1024x16_0_1 : (⟨S1024x1, .f32⟩ : BufTy).Contents (Elt F) → (⟨S1024x16, .f32⟩ : BufTy).Contents (Elt F)),
    binary main_v2367 main_v2364 main_v2368 (mulf : (⟨S1024x16, .f32⟩ : BufTy).Contents (Elt F) → (⟨S1024x16, .f32⟩ : BufTy).Contents (Elt F) → (⟨S1024x16, .f32⟩ : BufTy).Contents (Elt F)),
    binary main_v2366 main_v2368 main_v2369 (subf : (⟨S1024x16, .f32⟩ : BufTy).Contents (Elt F) → (⟨S1024x16, .f32⟩ : BufTy).Contents (Elt F) → (⟨S1024x16, .f32⟩ : BufTy).Contents (Elt F)),
    unary main_v2362 main_v2370 (broadcastInDim S1024x16 ![0, 1] bcast_S1024x1_S1024x16_0_1 : (⟨S1024x1, .f32⟩ : BufTy).Contents (Elt F) → (⟨S1024x16, .f32⟩ : BufTy).Contents (Elt F)),
    binary main_v2370 main_v2349 main_v2371 (mulf : (⟨S1024x16, .f32⟩ : BufTy).Contents (Elt F) → (⟨S1024x16, .f32⟩ : BufTy).Contents (Elt F) → (⟨S1024x16, .f32⟩ : BufTy).Contents (Elt F)) ]
/-- Operations 41 … 60 of window 41. -/
abbrev st125 : List (HloOp τ sig (Elt F)) :=
  [ unary main_v2360 main_v2372 (broadcastInDim S1024x16 ![0, 1] bcast_S1024x1_S1024x16_0_1 : (⟨S1024x1, .f32⟩ : BufTy).Contents (Elt F) → (⟨S1024x16, .f32⟩ : BufTy).Contents (Elt F)),
    binary main_v2372 main_v2364 main_v2373 (mulf : (⟨S1024x16, .f32⟩ : BufTy).Contents (Elt F) → (⟨S1024x16, .f32⟩ : BufTy).Contents (Elt F) → (⟨S1024x16, .f32⟩ : BufTy).Contents (Elt F)),
    binary main_v2371 main_v2373 main_v2374 (addf : (⟨S1024x16, .f32⟩ : BufTy).Contents (Elt F) → (⟨S1024x16, .f32⟩ : BufTy).Contents (Elt F) → (⟨S1024x16, .f32⟩ : BufTy).Contents (Elt F)),
    nullary main_c_127 (constantI S_ 32 14#32),
    unary main_c_127 main_v2375 (broadcastInDim S1 ![] bcast_S_S1 : (⟨S_, .i32⟩ : BufTy).Contents (Elt F) → (⟨S1, .i32⟩ : BufTy).Contents (Elt F)),
    ternary main_v2356 main_v2375 main_v2374 main_v2376 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2377 ((extractStridedSlice S1024x1 ![0, 116] · slices_S1024x120_S1024x1_0_116) : (⟨S1024x120, .f32⟩ : BufTy).Contents (Elt F) → (⟨S1024x1, .f32⟩ : BufTy).Contents (Elt F)),
    reshape main_v2377 main_v2378 rfl shapeCasts_S1024x1_S1024,
    unary main_v2378 main_v2379 (Host.cos : (⟨S1024, .f32⟩ : BufTy).Contents (Elt F) → (⟨S1024, .f32⟩ : BufTy).Contents (Elt F)),
    unary main_v2379 main_v2380 (broadcastInDim S1024x1 ![0] bcast_S1024_S1024x1_0 : (⟨S1024, .f32⟩ : BufTy).Contents (Elt F) → (⟨S1024x1, .f32⟩ : BufTy).Contents (Elt F)),
    unary main_v2378 main_v2381 (Host.sin : (⟨S1024, .f32⟩ : BufTy).Contents (Elt F) → (⟨S1024, .f32⟩ : BufTy).Contents (Elt F)),
    unary main_v2381 main_v2382 (broadcastInDim S1024x1 ![0] bcast_S1024_S1024x1_0 : (⟨S1024, .f32⟩ : BufTy).Contents (Elt F) → (⟨S1024x1, .f32⟩ : BufTy).Contents (Elt F)),
    unary main_v2376 main_v2383 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2383 main_v2384 rfl shapeCasts_S1024x1x16_S1024x16,
    unary main_v2380 main_v2385 (broadcastInDim S1024x16 ![0, 1] bcast_S1024x1_S1024x16_0_1 : (⟨S1024x1, .f32⟩ : BufTy).Contents (Elt F) → (⟨S1024x16, .f32⟩ : BufTy).Contents (Elt F)),
    binary main_v2385 main_v2369 main_v2386 (mulf : (⟨S1024x16, .f32⟩ : BufTy).Contents (Elt F) → (⟨S1024x16, .f32⟩ : BufTy).Contents (Elt F) → (⟨S1024x16, .f32⟩ : BufTy).Contents (Elt F)),
    unary main_v2382 main_v2387 (broadcastInDim S1024x16 ![0, 1] bcast_S1024x1_S1024x16_0_1 : (⟨S1024x1, .f32⟩ : BufTy).Contents (Elt F) → (⟨S1024x16, .f32⟩ : BufTy).Contents (Elt F)),
    binary main_v2387 main_v2384 main_v2388 (mulf : (⟨S1024x16, .f32⟩ : BufTy).Contents (Elt F) → (⟨S1024x16, .f32⟩ : BufTy).Contents (Elt F) → (⟨S1024x16, .f32⟩ : BufTy).Contents (Elt F)),
    binary main_v2386 main_v2388 main_v2389 (subf : (⟨S1024x16, .f32⟩ : BufTy).Contents (Elt F) → (⟨S1024x16, .f32⟩ : BufTy).Contents (Elt F) → (⟨S1024x16, .f32⟩ : BufTy).Contents (Elt F)),
    unary main_v2382 main_v2390 (broadcastInDim S1024x16 ![0, 1] bcast_S1024x1_S1024x16_0_1 : (⟨S1024x1, .f32⟩ : BufTy).Contents (Elt F) → (⟨S1024x16, .f32⟩ : BufTy).Contents (Elt F)) ]
/-- Operations 1 … 20 of window 42. -/
abbrev st126 : List (HloOp τ sig (Elt F)) :=
  [ binary main_v2390 main_v2369 main_v2391 (mulf : (⟨S1024x16, .f32⟩ : BufTy).Contents (Elt F) → (⟨S1024x16, .f32⟩ : BufTy).Contents (Elt F) → (⟨S1024x16, .f32⟩ : BufTy).Contents (Elt F)),
    unary main_v2380 main_v2392 (broadcastInDim S1024x16 ![0, 1] bcast_S1024x1_S1024x16_0_1 : (⟨S1024x1, .f32⟩ : BufTy).Contents (Elt F) → (⟨S1024x16, .f32⟩ : BufTy).Contents (Elt F)),
    binary main_v2392 main_v2384 main_v2393 (mulf : (⟨S1024x16, .f32⟩ : BufTy).Contents (Elt F) → (⟨S1024x16, .f32⟩ : BufTy).Contents (Elt F) → (⟨S1024x16, .f32⟩ : BufTy).Contents (Elt F)),
    binary main_v2391 main_v2393 main_v2394 (addf : (⟨S1024x16, .f32⟩ : BufTy).Contents (Elt F) → (⟨S1024x16, .f32⟩ : BufTy).Contents (Elt F) → (⟨S1024x16, .f32⟩ : BufTy).Contents (Elt F)),
    nullary main_c_128 (constantI S_ 32 15#32),
    unary main_c_128 main_v2395 (broadcastInDim S1 ![] bcast_S_S1 : (⟨S_, .i32⟩ : BufTy).Contents (Elt F) → (⟨S1, .i32⟩ : BufTy).Contents (Elt F)),
    ternary main_v2376 main_v2395 main_v2394 main_v2396 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_129 (constantI S_ 32 12#32),
    unary main_c_129 main_v2397 (broadcastInDim S1 ![] bcast_S_S1 : (⟨S_, .i32⟩ : BufTy).Contents (Elt F) → (⟨S1, .i32⟩ : BufTy).Contents (Elt F)),
    ternary main_v2396 main_v2397 main_v2389 main_v2398 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2398 main_v2399 ((extractStridedSlice S1024x1x16 ![0, 13, 0] · slices_S1024x16x16_S1024x1x16_0_13_0) : (⟨S1024x16x16, .f32⟩ : BufTy).Contents (Elt F) → (⟨S1024x1x16, .f32⟩ : BufTy).Contents (Elt F)),
    reshape main_v2399 main_v2400 rfl shapeCasts_S1024x1x16_S1024x16,
    unary main_arg1 main_v2401 ((extractStridedSlice S1024x1 ![0, 117] · slices_S1024x120_S1024x1_0_117) : (⟨S1024x120, .f32⟩ : BufTy).Contents (Elt F) → (⟨S1024x1, .f32⟩ : BufTy).Contents (Elt F)),
    reshape main_v2401 main_v2402 rfl shapeCasts_S1024x1_S1024,
    unary main_v2402 main_v2403 (Host.cos : (⟨S1024, .f32⟩ : BufTy).Contents (Elt F) → (⟨S1024, .f32⟩ : BufTy).Contents (Elt F)),
    unary main_v2403 main_v2404 (broadcastInDim S1024x1 ![0] bcast_S1024_S1024x1_0 : (⟨S1024, .f32⟩ : BufTy).Contents (Elt F) → (⟨S1024x1, .f32⟩ : BufTy).Contents (Elt F)),
    unary main_v2402 main_v2405 (Host.sin : (⟨S1024, .f32⟩ : BufTy).Contents (Elt F) → (⟨S1024, .f32⟩ : BufTy).Contents (Elt F)),
    unary main_v2405 main_v2406 (broadcastInDim S1024x1 ![0] bcast_S1024_S1024x1_0 : (⟨S1024, .f32⟩ : BufTy).Contents (Elt F) → (⟨S1024x1, .f32⟩ : BufTy).Contents (Elt F)),
    unary main_v2398 main_v2407 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2407 main_v2408 rfl shapeCasts_S1024x1x16_S1024x16 ]
/-- Operations 21 … 40 of window 42. -/
abbrev st127 : List (HloOp τ sig (Elt F)) :=
  [ unary main_v2404 main_v2409 (broadcastInDim S1024x16 ![0, 1] bcast_S1024x1_S1024x16_0_1 : (⟨S1024x1, .f32⟩ : BufTy).Contents (Elt F) → (⟨S1024x16, .f32⟩ : BufTy).Contents (Elt F)),
    binary main_v2409 main_v2400 main_v2410 (mulf : (⟨S1024x16, .f32⟩ : BufTy).Contents (Elt F) → (⟨S1024x16, .f32⟩ : BufTy).Contents (Elt F) → (⟨S1024x16, .f32⟩ : BufTy).Contents (Elt F)),
    unary main_v2406 main_v2411 (broadcastInDim S1024x16 ![0, 1] bcast_S1024x1_S1024x16_0_1 : (⟨S1024x1, .f32⟩ : BufTy).Contents (Elt F) → (⟨S1024x16, .f32⟩ : BufTy).Contents (Elt F)),
    binary main_v2411 main_v2408 main_v2412 (mulf : (⟨S1024x16, .f32⟩ : BufTy).Contents (Elt F) → (⟨S1024x16, .f32⟩ : BufTy).Contents (Elt F) → (⟨S1024x16, .f32⟩ : BufTy).Contents (Elt F)),
    binary main_v2410 main_v2412 main_v2413 (subf : (⟨S1024x16, .f32⟩ : BufTy).Contents (Elt F) → (⟨S1024x16, .f32⟩ : BufTy).Contents (Elt F) → (⟨S1024x16, .f32⟩ : BufTy).Contents (Elt F)),
    unary main_v2406 main_v2414 (broadcastInDim S1024x16 ![0, 1] bcast_S1024x1_S1024x16_0_1 : (⟨S1024x1, .f32⟩ : BufTy).Contents (Elt F) → (⟨S1024x16, .f32⟩ : BufTy).Contents (Elt F)),
    binary main_v2414 main_v2400 main_v2415 (mulf : (⟨S1024x16, .f32⟩ : BufTy).Contents (Elt F) → (⟨S1024x16, .f32⟩ : BufTy).Contents (Elt F) → (⟨S1024x16, .f32⟩ : BufTy).Contents (Elt F)),
    unary main_v2404 main_v2416 (broadcastInDim S1024x16 ![0, 1] bcast_S1024x1_S1024x16_0_1 : (⟨S1024x1, .f32⟩ : BufTy).Contents (Elt F) → (⟨S1024x16, .f32⟩ : BufTy).Contents (Elt F)),
    binary main_v2416 main_v2408 main_v2417 (mulf : (⟨S1024x16, .f32⟩ : BufTy).Contents (Elt F) → (⟨S1024x16, .f32⟩ : BufTy).Contents (Elt F) → (⟨S1024x16, .f32⟩ : BufTy).Contents (Elt F)),
    binary main_v2415 main_v2417 main_v2418 (addf : (⟨S1024x16, .f32⟩ : BufTy).Contents (Elt F) → (⟨S1024x16, .f32⟩ : BufTy).Contents (Elt F) → (⟨S1024x16, .f32⟩ : BufTy).Contents (Elt F)),
    nullary main_c_130 (constantI S_ 32 14#32),
    unary main_c_130 main_v2419 (broadcastInDim S1 ![] bcast_S_S1 : (⟨S_, .i32⟩ : BufTy).Contents (Elt F) → (⟨S1, .i32⟩ : BufTy).Contents (Elt F)),
    ternary main_v2398 main_v2419 main_v2418 main_v2420 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg1 main_v2421 ((extractStridedSlice S1024x1 ![0, 118] · slices_S1024x120_S1024x1_0_118) : (⟨S1024x120, .f32⟩ : BufTy).Contents (Elt F) → (⟨S1024x1, .f32⟩ : BufTy).Contents (Elt F)),
    reshape main_v2421 main_v2422 rfl shapeCasts_S1024x1_S1024,
    unary main_v2422 main_v2423 (Host.cos : (⟨S1024, .f32⟩ : BufTy).Contents (Elt F) → (⟨S1024, .f32⟩ : BufTy).Contents (Elt F)),
    unary main_v2423 main_v2424 (broadcastInDim S1024x1 ![0] bcast_S1024_S1024x1_0 : (⟨S1024, .f32⟩ : BufTy).Contents (Elt F) → (⟨S1024x1, .f32⟩ : BufTy).Contents (Elt F)),
    unary main_v2422 main_v2425 (Host.sin : (⟨S1024, .f32⟩ : BufTy).Contents (Elt F) → (⟨S1024, .f32⟩ : BufTy).Contents (Elt F)),
    unary main_v2425 main_v2426 (broadcastInDim S1024x1 ![0] bcast_S1024_S1024x1_0 : (⟨S1024, .f32⟩ : BufTy).Contents (Elt F) → (⟨S1024x1, .f32⟩ : BufTy).Contents (Elt F)),
    unary main_v2420 main_v2427 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)) ]
/-- Operations 41 … 60 of window 42. -/
abbrev st128 : List (HloOp τ sig (Elt F)) :=
  [ reshape main_v2427 main_v2428 rfl shapeCasts_S1024x1x16_S1024x16,
    unary main_v2424 main_v2429 (broadcastInDim S1024x16 ![0, 1] bcast_S1024x1_S1024x16_0_1 : (⟨S1024x1, .f32⟩ : BufTy).Contents (Elt F) → (⟨S1024x16, .f32⟩ : BufTy).Contents (Elt F)),
    binary main_v2429 main_v2413 main_v2430 (mulf : (⟨S1024x16, .f32⟩ : BufTy).Contents (Elt F) → (⟨S1024x16, .f32⟩ : BufTy).Contents (Elt F) → (⟨S1024x16, .f32⟩ : BufTy).Contents (Elt F)),
    unary main_v2426 main_v2431 (broadcastInDim S1024x16 ![0, 1] bcast_S1024x1_S1024x16_0_1 : (⟨S1024x1, .f32⟩ : BufTy).Contents (Elt F) → (⟨S1024x16, .f32⟩ : BufTy).Contents (Elt F)),
    binary main_v2431 main_v2428 main_v2432 (mulf : (⟨S1024x16, .f32⟩ : BufTy).Contents (Elt F) → (⟨S1024x16, .f32⟩ : BufTy).Contents (Elt F) → (⟨S1024x16, .f32⟩ : BufTy).Contents (Elt F)),
    binary main_v2430 main_v2432 main_v2433 (subf : (⟨S1024x16, .f32⟩ : BufTy).Contents (Elt F) → (⟨S1024x16, .f32⟩ : BufTy).Contents (Elt F) → (⟨S1024x16, .f32⟩ : BufTy).Contents (Elt F)),
    unary main_v2426 main_v2434 (broadcastInDim S1024x16 ![0, 1] bcast_S1024x1_S1024x16_0_1 : (⟨S1024x1, .f32⟩ : BufTy).Contents (Elt F) → (⟨S1024x16, .f32⟩ : BufTy).Contents (Elt F)),
    binary main_v2434 main_v2413 main_v2435 (mulf : (⟨S1024x16, .f32⟩ : BufTy).Contents (Elt F) → (⟨S1024x16, .f32⟩ : BufTy).Contents (Elt F) → (⟨S1024x16, .f32⟩ : BufTy).Contents (Elt F)),
    unary main_v2424 main_v2436 (broadcastInDim S1024x16 ![0, 1] bcast_S1024x1_S1024x16_0_1 : (⟨S1024x1, .f32⟩ : BufTy).Contents (Elt F) → (⟨S1024x16, .f32⟩ : BufTy).Contents (Elt F)),
    binary main_v2436 main_v2428 main_v2437 (mulf : (⟨S1024x16, .f32⟩ : BufTy).Contents (Elt F) → (⟨S1024x16, .f32⟩ : BufTy).Contents (Elt F) → (⟨S1024x16, .f32⟩ : BufTy).Contents (Elt F)),
    binary main_v2435 main_v2437 main_v2438 (addf : (⟨S1024x16, .f32⟩ : BufTy).Contents (Elt F) → (⟨S1024x16, .f32⟩ : BufTy).Contents (Elt F) → (⟨S1024x16, .f32⟩ : BufTy).Contents (Elt F)),
    nullary main_c_131 (constantI S_ 32 15#32),
    unary main_c_131 main_v2439 (broadcastInDim S1 ![] bcast_S_S1 : (⟨S_, .i32⟩ : BufTy).Contents (Elt F) → (⟨S1, .i32⟩ : BufTy).Contents (Elt F)),
    ternary main_v2420 main_v2439 main_v2438 main_v2440 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    nullary main_c_132 (constantI S_ 32 13#32),
    unary main_c_132 main_v2441 (broadcastInDim S1 ![] bcast_S_S1 : (⟨S_, .i32⟩ : BufTy).Contents (Elt F) → (⟨S1, .i32⟩ : BufTy).Contents (Elt F)),
    ternary main_v2440 main_v2441 main_v2433 main_v2442 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_v2442 main_v2443 ((extractStridedSlice S1024x1x16 ![0, 14, 0] · slices_S1024x16x16_S1024x1x16_0_14_0) : (⟨S1024x16x16, .f32⟩ : BufTy).Contents (Elt F) → (⟨S1024x1x16, .f32⟩ : BufTy).Contents (Elt F)),
    reshape main_v2443 main_v2444 rfl shapeCasts_S1024x1x16_S1024x16,
    unary main_arg1 main_v2445 ((extractStridedSlice S1024x1 ![0, 119] · slices_S1024x120_S1024x1_0_119) : (⟨S1024x120, .f32⟩ : BufTy).Contents (Elt F) → (⟨S1024x1, .f32⟩ : BufTy).Contents (Elt F)) ]
/-- Operations 1 … 20 of window 43. -/
abbrev st129 : List (HloOp τ sig (Elt F)) :=
  [ reshape main_v2445 main_v2446 rfl shapeCasts_S1024x1_S1024,
    unary main_v2446 main_v2447 (Host.cos : (⟨S1024, .f32⟩ : BufTy).Contents (Elt F) → (⟨S1024, .f32⟩ : BufTy).Contents (Elt F)),
    unary main_v2447 main_v2448 (broadcastInDim S1024x1 ![0] bcast_S1024_S1024x1_0 : (⟨S1024, .f32⟩ : BufTy).Contents (Elt F) → (⟨S1024x1, .f32⟩ : BufTy).Contents (Elt F)),
    unary main_v2446 main_v2449 (Host.sin : (⟨S1024, .f32⟩ : BufTy).Contents (Elt F) → (⟨S1024, .f32⟩ : BufTy).Contents (Elt F)),
    unary main_v2449 main_v2450 (broadcastInDim S1024x1 ![0] bcast_S1024_S1024x1_0 : (⟨S1024, .f32⟩ : BufTy).Contents (Elt F) → (⟨S1024x1, .f32⟩ : BufTy).Contents (Elt F)),
    unary main_v2442 main_v2451 ((extractStridedSlice S1024x1x16 ![0, 15, 0] · slices_S1024x16x16_S1024x1x16_0_15_0) : (⟨S1024x16x16, .f32⟩ : BufTy).Contents (Elt F) → (⟨S1024x1x16, .f32⟩ : BufTy).Contents (Elt F)),
    reshape main_v2451 main_v2452 rfl shapeCasts_S1024x1x16_S1024x16,
    unary main_v2448 main_v2453 (broadcastInDim S1024x16 ![0, 1] bcast_S1024x1_S1024x16_0_1 : (⟨S1024x1, .f32⟩ : BufTy).Contents (Elt F) → (⟨S1024x16, .f32⟩ : BufTy).Contents (Elt F)),
    binary main_v2453 main_v2444 main_v2454 (mulf : (⟨S1024x16, .f32⟩ : BufTy).Contents (Elt F) → (⟨S1024x16, .f32⟩ : BufTy).Contents (Elt F) → (⟨S1024x16, .f32⟩ : BufTy).Contents (Elt F)),
    unary main_v2450 main_v2455 (broadcastInDim S1024x16 ![0, 1] bcast_S1024x1_S1024x16_0_1 : (⟨S1024x1, .f32⟩ : BufTy).Contents (Elt F) → (⟨S1024x16, .f32⟩ : BufTy).Contents (Elt F)),
    binary main_v2455 main_v2452 main_v2456 (mulf : (⟨S1024x16, .f32⟩ : BufTy).Contents (Elt F) → (⟨S1024x16, .f32⟩ : BufTy).Contents (Elt F) → (⟨S1024x16, .f32⟩ : BufTy).Contents (Elt F)),
    binary main_v2454 main_v2456 main_v2457 (subf : (⟨S1024x16, .f32⟩ : BufTy).Contents (Elt F) → (⟨S1024x16, .f32⟩ : BufTy).Contents (Elt F) → (⟨S1024x16, .f32⟩ : BufTy).Contents (Elt F)),
    unary main_v2450 main_v2458 (broadcastInDim S1024x16 ![0, 1] bcast_S1024x1_S1024x16_0_1 : (⟨S1024x1, .f32⟩ : BufTy).Contents (Elt F) → (⟨S1024x16, .f32⟩ : BufTy).Contents (Elt F)),
    binary main_v2458 main_v2444 main_v2459 (mulf : (⟨S1024x16, .f32⟩ : BufTy).Contents (Elt F) → (⟨S1024x16, .f32⟩ : BufTy).Contents (Elt F) → (⟨S1024x16, .f32⟩ : BufTy).Contents (Elt F)),
    unary main_v2448 main_v2460 (broadcastInDim S1024x16 ![0, 1] bcast_S1024x1_S1024x16_0_1 : (⟨S1024x1, .f32⟩ : BufTy).Contents (Elt F) → (⟨S1024x16, .f32⟩ : BufTy).Contents (Elt F)),
    binary main_v2460 main_v2452 main_v2461 (mulf : (⟨S1024x16, .f32⟩ : BufTy).Contents (Elt F) → (⟨S1024x16, .f32⟩ : BufTy).Contents (Elt F) → (⟨S1024x16, .f32⟩ : BufTy).Contents (Elt F)),
    binary main_v2459 main_v2461 main_v2462 (addf : (⟨S1024x16, .f32⟩ : BufTy).Contents (Elt F) → (⟨S1024x16, .f32⟩ : BufTy).Contents (Elt F) → (⟨S1024x16, .f32⟩ : BufTy).Contents (Elt F)),
    nullary main_c_133 (constantI S_ 32 15#32),
    unary main_c_133 main_v2463 (broadcastInDim S1 ![] bcast_S_S1 : (⟨S_, .i32⟩ : BufTy).Contents (Elt F) → (⟨S1, .i32⟩ : BufTy).Contents (Elt F)),
    ternary main_v2442 main_v2463 main_v2462 main_v2464 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)) ]
/-- Operations 21 … 27 of window 43. -/
abbrev st130 : List (HloOp τ sig (Elt F)) :=
  [ nullary main_c_134 (constantI S_ 32 14#32),
    unary main_c_134 main_v2465 (broadcastInDim S1 ![] bcast_S_S1 : (⟨S_, .i32⟩ : BufTy).Contents (Elt F) → (⟨S1, .i32⟩ : BufTy).Contents (Elt F)),
    ternary main_v2464 main_v2465 main_v2457 main_v2466 ((fun x i u => Host.scatter scatter_S1024x16x16_S1_S1024x16_01_1_1_0 (fun _ b => b) x i u) : (⟨S1024x16x16, .f32⟩ : BufTy).Contents (Elt F) → (⟨S1, .i32⟩ : BufTy).Contents (Elt F) → (⟨S1024x16, .f32⟩ : BufTy).Contents (Elt F) → (⟨S1024x16x16, .f32⟩ : BufTy).Contents (Elt F)),
    unary main_arg2 main_v2467 (broadcastInDim S1024x16x1 ![0, 1] bcast_S1024x16_S1024x16x1_0_1 : (⟨S1024x16, .f32⟩ : BufTy).Contents (Elt F) → (⟨S1024x16x1, .f32⟩ : BufTy).Contents (Elt F)),
    unary main_v2467 main_v2468 (broadcastInDim S1024x16x16 ![0, 1, 2] bcast_S1024x16x1_S1024x16x16_0_1_2 : (⟨S1024x16x1, .f32⟩ : BufTy).Contents (Elt F) → (⟨S1024x16x16, .f32⟩ : BufTy).Contents (Elt F)),
    binary main_v2468 main_v2466 main_v2469 (mulf : (⟨S1024x16x16, .f32⟩ : BufTy).Contents (Elt F) → (⟨S1024x16x16, .f32⟩ : BufTy).Contents (Elt F) → (⟨S1024x16x16, .f32⟩ : BufTy).Contents (Elt F)),
    binary main_v2469 main_arg0 main_v2470 ((fun l r => Host.dotGeneral dot_S1024x16x16_S1024x16x2048_S1024x16x2048_2_1_1_2_0_0 none l r) : (⟨S1024x16x16, .f32⟩ : BufTy).Contents (Elt F) → (⟨S1024x16x2048, .f32⟩ : BufTy).Contents (Elt F) → (⟨S1024x16x2048, .f32⟩ : BufTy).Contents (Elt F)) ]
/-- Window 0 is its stretches in a row. -/
theorem part0_split : (ops_part0 : List (HloOp τ sig (Elt F))) = st0 ++ (st1 ++ (st2)) := rfl
/-- Window 1 is its stretches in a row. -/
theorem part1_split : (ops_part1 : List (HloOp τ sig (Elt F))) = st3 ++ (st4 ++ (st5)) := rfl
/-- Window 2 is its stretches in a row. -/
theorem part2_split : (ops_part2 : List (HloOp τ sig (Elt F))) = st6 ++ (st7 ++ (st8)) := rfl
/-- Window 3 is its stretches in a row. -/
theorem part3_split : (ops_part3 : List (HloOp τ sig (Elt F))) = st9 ++ (st10 ++ (st11)) := rfl
/-- Window 4 is its stretches in a row. -/
theorem part4_split : (ops_part4 : List (HloOp τ sig (Elt F))) = st12 ++ (st13 ++ (st14)) := rfl
/-- Window 5 is its stretches in a row. -/
theorem part5_split : (ops_part5 : List (HloOp τ sig (Elt F))) = st15 ++ (st16 ++ (st17)) := rfl
/-- Window 6 is its stretches in a row. -/
theorem part6_split : (ops_part6 : List (HloOp τ sig (Elt F))) = st18 ++ (st19 ++ (st20)) := rfl
/-- Window 7 is its stretches in a row. -/
theorem part7_split : (ops_part7 : List (HloOp τ sig (Elt F))) = st21 ++ (st22 ++ (st23)) := rfl
/-- Window 8 is its stretches in a row. -/
theorem part8_split : (ops_part8 : List (HloOp τ sig (Elt F))) = st24 ++ (st25 ++ (st26)) := rfl
/-- Window 9 is its stretches in a row. -/
theorem part9_split : (ops_part9 : List (HloOp τ sig (Elt F))) = st27 ++ (st28 ++ (st29)) := rfl
/-- Window 10 is its stretches in a row. -/
theorem part10_split : (ops_part10 : List (HloOp τ sig (Elt F))) = st30 ++ (st31 ++ (st32)) := rfl
/-- Window 11 is its stretches in a row. -/
theorem part11_split : (ops_part11 : List (HloOp τ sig (Elt F))) = st33 ++ (st34 ++ (st35)) := rfl
/-- Window 12 is its stretches in a row. -/
theorem part12_split : (ops_part12 : List (HloOp τ sig (Elt F))) = st36 ++ (st37 ++ (st38)) := rfl
/-- Window 13 is its stretches in a row. -/
theorem part13_split : (ops_part13 : List (HloOp τ sig (Elt F))) = st39 ++ (st40 ++ (st41)) := rfl
/-- Window 14 is its stretches in a row. -/
theorem part14_split : (ops_part14 : List (HloOp τ sig (Elt F))) = st42 ++ (st43 ++ (st44)) := rfl
/-- Window 15 is its stretches in a row. -/
theorem part15_split : (ops_part15 : List (HloOp τ sig (Elt F))) = st45 ++ (st46 ++ (st47)) := rfl
/-- Window 16 is its stretches in a row. -/
theorem part16_split : (ops_part16 : List (HloOp τ sig (Elt F))) = st48 ++ (st49 ++ (st50)) := rfl
/-- Window 17 is its stretches in a row. -/
theorem part17_split : (ops_part17 : List (HloOp τ sig (Elt F))) = st51 ++ (st52 ++ (st53)) := rfl
/-- Window 18 is its stretches in a row. -/
theorem part18_split : (ops_part18 : List (HloOp τ sig (Elt F))) = st54 ++ (st55 ++ (st56)) := rfl
/-- Window 19 is its stretches in a row. -/
theorem part19_split : (ops_part19 : List (HloOp τ sig (Elt F))) = st57 ++ (st58 ++ (st59)) := rfl
/-- Window 20 is its stretches in a row. -/
theorem part20_split : (ops_part20 : List (HloOp τ sig (Elt F))) = st60 ++ (st61 ++ (st62)) := rfl
/-- Window 21 is its stretches in a row. -/
theorem part21_split : (ops_part21 : List (HloOp τ sig (Elt F))) = st63 ++ (st64 ++ (st65)) := rfl
/-- Window 22 is its stretches in a row. -/
theorem part22_split : (ops_part22 : List (HloOp τ sig (Elt F))) = st66 ++ (st67 ++ (st68)) := rfl
/-- Window 23 is its stretches in a row. -/
theorem part23_split : (ops_part23 : List (HloOp τ sig (Elt F))) = st69 ++ (st70 ++ (st71)) := rfl
/-- Window 24 is its stretches in a row. -/
theorem part24_split : (ops_part24 : List (HloOp τ sig (Elt F))) = st72 ++ (st73 ++ (st74)) := rfl
/-- Window 25 is its stretches in a row. -/
theorem part25_split : (ops_part25 : List (HloOp τ sig (Elt F))) = st75 ++ (st76 ++ (st77)) := rfl
/-- Window 26 is its stretches in a row. -/
theorem part26_split : (ops_part26 : List (HloOp τ sig (Elt F))) = st78 ++ (st79 ++ (st80)) := rfl
/-- Window 27 is its stretches in a row. -/
theorem part27_split : (ops_part27 : List (HloOp τ sig (Elt F))) = st81 ++ (st82 ++ (st83)) := rfl
/-- Window 28 is its stretches in a row. -/
theorem part28_split : (ops_part28 : List (HloOp τ sig (Elt F))) = st84 ++ (st85 ++ (st86)) := rfl
/-- Window 29 is its stretches in a row. -/
theorem part29_split : (ops_part29 : List (HloOp τ sig (Elt F))) = st87 ++ (st88 ++ (st89)) := rfl
/-- Window 30 is its stretches in a row. -/
theorem part30_split : (ops_part30 : List (HloOp τ sig (Elt F))) = st90 ++ (st91 ++ (st92)) := rfl
/-- Window 31 is its stretches in a row. -/
theorem part31_split : (ops_part31 : List (HloOp τ sig (Elt F))) = st93 ++ (st94 ++ (st95)) := rfl
/-- Window 32 is its stretches in a row. -/
theorem part32_split : (ops_part32 : List (HloOp τ sig (Elt F))) = st96 ++ (st97 ++ (st98)) := rfl
/-- Window 33 is its stretches in a row. -/
theorem part33_split : (ops_part33 : List (HloOp τ sig (Elt F))) = st99 ++ (st100 ++ (st101)) := rfl
/-- Window 34 is its stretches in a row. -/
theorem part34_split : (ops_part34 : List (HloOp τ sig (Elt F))) = st102 ++ (st103 ++ (st104)) := rfl
/-- Window 35 is its stretches in a row. -/
theorem part35_split : (ops_part35 : List (HloOp τ sig (Elt F))) = st105 ++ (st106 ++ (st107)) := rfl
/-- Window 36 is its stretches in a row. -/
theorem part36_split : (ops_part36 : List (HloOp τ sig (Elt F))) = st108 ++ (st109 ++ (st110)) := rfl
/-- Window 37 is its stretches in a row. -/
theorem part37_split : (ops_part37 : List (HloOp τ sig (Elt F))) = st111 ++ (st112 ++ (st113)) := rfl
/-- Window 38 is its stretches in a row. -/
theorem part38_split : (ops_part38 : List (HloOp τ sig (Elt F))) = st114 ++ (st115 ++ (st116)) := rfl
/-- Window 39 is its stretches in a row. -/
theorem part39_split : (ops_part39 : List (HloOp τ sig (Elt F))) = st117 ++ (st118 ++ (st119)) := rfl
/-- Window 40 is its stretches in a row. -/
theorem part40_split : (ops_part40 : List (HloOp τ sig (Elt F))) = st120 ++ (st121 ++ (st122)) := rfl
/-- Window 41 is its stretches in a row. -/
theorem part41_split : (ops_part41 : List (HloOp τ sig (Elt F))) = st123 ++ (st124 ++ (st125)) := rfl
/-- Window 42 is its stretches in a row. -/
theorem part42_split : (ops_part42 : List (HloOp τ sig (Elt F))) = st126 ++ (st127 ++ (st128)) := rfl
/-- Window 43 is its stretches in a row. -/
theorem part43_split : (ops_part43 : List (HloOp τ sig (Elt F))) = st129 ++ (st130) := rfl

end Cert.ReferenceIdeal.RefRun

end
-- ==== Proof.LockDefs.lean ====
import proofs.«128918_j72490458022405_1_alg».proof.Proof.KSub
import proofs.«128918_j72490458022405_1_alg».proof.Proof.RSub

noncomputable section

namespace Cert.Lock

open Idealize.ShloMosaic Idealize.ShloMosaic.TcCoe Idealize.SL.Sem Idealize.ShloMosaic.StableHlo

variable {F : FTy → Type} [FloatOps F]

/-- The kernel's buffers before the first stretch of its host prefix. -/
def kval0 (W : Valuation Cert.KernelIdeal.τ Cert.KernelIdeal.sig (Elt F)) : Valuation Cert.KernelIdeal.τ Cert.KernelIdeal.sig (Elt F) := W
/-- The reference's buffers before its first stretch. -/
def rval0 (V : Valuation Cert.ReferenceIdeal.τ Cert.ReferenceIdeal.sig (Elt F)) : Valuation Cert.ReferenceIdeal.τ Cert.ReferenceIdeal.sig (Elt F) := V
/-- The kernel's buffers after 1 stretches. -/
def kval1 (W : Valuation Cert.KernelIdeal.τ Cert.KernelIdeal.sig (Elt F)) : Valuation Cert.KernelIdeal.τ Cert.KernelIdeal.sig (Elt F) := after Cert.KernelIdeal.KHost.st0 (kval0 W)
/-- The reference's buffers after 1 stretches. -/
def rval1 (V : Valuation Cert.ReferenceIdeal.τ Cert.ReferenceIdeal.sig (Elt F)) : Valuation Cert.ReferenceIdeal.τ Cert.ReferenceIdeal.sig (Elt F) := after Cert.ReferenceIdeal.RefRun.st0 (rval0 V)
/-- The kernel's buffers after 2 stretches. -/
def kval2 (W : Valuation Cert.KernelIdeal.τ Cert.KernelIdeal.sig (Elt F)) : Valuation Cert.KernelIdeal.τ Cert.KernelIdeal.sig (Elt F) := after Cert.KernelIdeal.KHost.st1 (kval1 W)
/-- The reference's buffers after 2 stretches. -/
def rval2 (V : Valuation Cert.ReferenceIdeal.τ Cert.ReferenceIdeal.sig (Elt F)) : Valuation Cert.ReferenceIdeal.τ Cert.ReferenceIdeal.sig (Elt F) := after Cert.ReferenceIdeal.RefRun.st1 (rval1 V)
/-- The kernel's buffers after 3 stretches. -/
def kval3 (W : Valuation Cert.KernelIdeal.τ Cert.KernelIdeal.sig (Elt F)) : Valuation Cert.KernelIdeal.τ Cert.KernelIdeal.sig (Elt F) := after Cert.KernelIdeal.KHost.st2 (kval2 W)
/-- The reference's buffers after 3 stretches. -/
def rval3 (V : Valuation Cert.ReferenceIdeal.τ Cert.ReferenceIdeal.sig (Elt F)) : Valuation Cert.ReferenceIdeal.τ Cert.ReferenceIdeal.sig (Elt F) := after Cert.ReferenceIdeal.RefRun.st2 (rval2 V)
/-- The kernel's buffers after 4 stretches. -/
def kval4 (W : Valuation Cert.KernelIdeal.τ Cert.KernelIdeal.sig (Elt F)) : Valuation Cert.KernelIdeal.τ Cert.KernelIdeal.sig (Elt F) := after Cert.KernelIdeal.KHost.st3 (kval3 W)
/-- The reference's buffers after 4 stretches. -/
def rval4 (V : Valuation Cert.ReferenceIdeal.τ Cert.ReferenceIdeal.sig (Elt F)) : Valuation Cert.ReferenceIdeal.τ Cert.ReferenceIdeal.sig (Elt F) := after Cert.ReferenceIdeal.RefRun.st3 (rval3 V)
/-- The kernel's buffers after 5 stretches. -/
def kval5 (W : Valuation Cert.KernelIdeal.τ Cert.KernelIdeal.sig (Elt F)) : Valuation Cert.KernelIdeal.τ Cert.KernelIdeal.sig (Elt F) := after Cert.KernelIdeal.KHost.st4 (kval4 W)
/-- The reference's buffers after 5 stretches. -/
def rval5 (V : Valuation Cert.ReferenceIdeal.τ Cert.ReferenceIdeal.sig (Elt F)) : Valuation Cert.ReferenceIdeal.τ Cert.ReferenceIdeal.sig (Elt F) := after Cert.ReferenceIdeal.RefRun.st4 (rval4 V)
/-- The kernel's buffers after 6 stretches. -/
def kval6 (W : Valuation Cert.KernelIdeal.τ Cert.KernelIdeal.sig (Elt F)) : Valuation Cert.KernelIdeal.τ Cert.KernelIdeal.sig (Elt F) := after Cert.KernelIdeal.KHost.st5 (kval5 W)
/-- The reference's buffers after 6 stretches. -/
def rval6 (V : Valuation Cert.ReferenceIdeal.τ Cert.ReferenceIdeal.sig (Elt F)) : Valuation Cert.ReferenceIdeal.τ Cert.ReferenceIdeal.sig (Elt F) := after Cert.ReferenceIdeal.RefRun.st5 (rval5 V)
/-- The kernel's buffers after 7 stretches. -/
def kval7 (W : Valuation Cert.KernelIdeal.τ Cert.KernelIdeal.sig (Elt F)) : Valuation Cert.KernelIdeal.τ Cert.KernelIdeal.sig (Elt F) := after Cert.KernelIdeal.KHost.st6 (kval6 W)
/-- The reference's buffers after 7 stretches. -/
def rval7 (V : Valuation Cert.ReferenceIdeal.τ Cert.ReferenceIdeal.sig (Elt F)) : Valuation Cert.ReferenceIdeal.τ Cert.ReferenceIdeal.sig (Elt F) := after Cert.ReferenceIdeal.RefRun.st6 (rval6 V)
/-- The kernel's buffers after 8 stretches. -/
def kval8 (W : Valuation Cert.KernelIdeal.τ Cert.KernelIdeal.sig (Elt F)) : Valuation Cert.KernelIdeal.τ Cert.KernelIdeal.sig (Elt F) := after Cert.KernelIdeal.KHost.st7 (kval7 W)
/-- The reference's buffers after 8 stretches. -/
def rval8 (V : Valuation Cert.ReferenceIdeal.τ Cert.ReferenceIdeal.sig (Elt F)) : Valuation Cert.ReferenceIdeal.τ Cert.ReferenceIdeal.sig (Elt F) := after Cert.ReferenceIdeal.RefRun.st7 (rval7 V)
/-- The kernel's buffers after 9 stretches. -/
def kval9 (W : Valuation Cert.KernelIdeal.τ Cert.KernelIdeal.sig (Elt F)) : Valuation Cert.KernelIdeal.τ Cert.KernelIdeal.sig (Elt F) := after Cert.KernelIdeal.KHost.st8 (kval8 W)
/-- The reference's buffers after 9 stretches. -/
def rval9 (V : Valuation Cert.ReferenceIdeal.τ Cert.ReferenceIdeal.sig (Elt F)) : Valuation Cert.ReferenceIdeal.τ Cert.ReferenceIdeal.sig (Elt F) := after Cert.ReferenceIdeal.RefRun.st8 (rval8 V)
/-- The kernel's buffers after 10 stretches. -/
def kval10 (W : Valuation Cert.KernelIdeal.τ Cert.KernelIdeal.sig (Elt F)) : Valuation Cert.KernelIdeal.τ Cert.KernelIdeal.sig (Elt F) := after Cert.KernelIdeal.KHost.st9 (kval9 W)
/-- The reference's buffers after 10 stretches. -/
def rval10 (V : Valuation Cert.ReferenceIdeal.τ Cert.ReferenceIdeal.sig (Elt F)) : Valuation Cert.ReferenceIdeal.τ Cert.ReferenceIdeal.sig (Elt F) := after Cert.ReferenceIdeal.RefRun.st9 (rval9 V)
/-- The kernel's buffers after 11 stretches. -/
def kval11 (W : Valuation Cert.KernelIdeal.τ Cert.KernelIdeal.sig (Elt F)) : Valuation Cert.KernelIdeal.τ Cert.KernelIdeal.sig (Elt F) := after Cert.KernelIdeal.KHost.st10 (kval10 W)
/-- The reference's buffers after 11 stretches. -/
def rval11 (V : Valuation Cert.ReferenceIdeal.τ Cert.ReferenceIdeal.sig (Elt F)) : Valuation Cert.ReferenceIdeal.τ Cert.ReferenceIdeal.sig (Elt F) := after Cert.ReferenceIdeal.RefRun.st10 (rval10 V)
/-- The kernel's buffers after 12 stretches. -/
def kval12 (W : Valuation Cert.KernelIdeal.τ Cert.KernelIdeal.sig (Elt F)) : Valuation Cert.KernelIdeal.τ Cert.KernelIdeal.sig (Elt F) := after Cert.KernelIdeal.KHost.st11 (kval11 W)
/-- The reference's buffers after 12 stretches. -/
def rval12 (V : Valuation Cert.ReferenceIdeal.τ Cert.ReferenceIdeal.sig (Elt F)) : Valuation Cert.ReferenceIdeal.τ Cert.ReferenceIdeal.sig (Elt F) := after Cert.ReferenceIdeal.RefRun.st11 (rval11 V)
/-- The kernel's buffers after 13 stretches. -/
def kval13 (W : Valuation Cert.KernelIdeal.τ Cert.KernelIdeal.sig (Elt F)) : Valuation Cert.KernelIdeal.τ Cert.KernelIdeal.sig (Elt F) := after Cert.KernelIdeal.KHost.st12 (kval12 W)
/-- The reference's buffers after 13 stretches. -/
def rval13 (V : Valuation Cert.ReferenceIdeal.τ Cert.ReferenceIdeal.sig (Elt F)) : Valuation Cert.ReferenceIdeal.τ Cert.ReferenceIdeal.sig (Elt F) := after Cert.ReferenceIdeal.RefRun.st12 (rval12 V)
/-- The kernel's buffers after 14 stretches. -/
def kval14 (W : Valuation Cert.KernelIdeal.τ Cert.KernelIdeal.sig (Elt F)) : Valuation Cert.KernelIdeal.τ Cert.KernelIdeal.sig (Elt F) := after Cert.KernelIdeal.KHost.st13 (kval13 W)
/-- The reference's buffers after 14 stretches. -/
def rval14 (V : Valuation Cert.ReferenceIdeal.τ Cert.ReferenceIdeal.sig (Elt F)) : Valuation Cert.ReferenceIdeal.τ Cert.ReferenceIdeal.sig (Elt F) := after Cert.ReferenceIdeal.RefRun.st13 (rval13 V)
/-- The kernel's buffers after 15 stretches. -/
def kval15 (W : Valuation Cert.KernelIdeal.τ Cert.KernelIdeal.sig (Elt F)) : Valuation Cert.KernelIdeal.τ Cert.KernelIdeal.sig (Elt F) := after Cert.KernelIdeal.KHost.st14 (kval14 W)
/-- The reference's buffers after 15 stretches. -/
def rval15 (V : Valuation Cert.ReferenceIdeal.τ Cert.ReferenceIdeal.sig (Elt F)) : Valuation Cert.ReferenceIdeal.τ Cert.ReferenceIdeal.sig (Elt F) := after Cert.ReferenceIdeal.RefRun.st14 (rval14 V)
/-- The kernel's buffers after 16 stretches. -/
def kval16 (W : Valuation Cert.KernelIdeal.τ Cert.KernelIdeal.sig (Elt F)) : Valuation Cert.KernelIdeal.τ Cert.KernelIdeal.sig (Elt F) := after Cert.KernelIdeal.KHost.st15 (kval15 W)
/-- The reference's buffers after 16 stretches. -/
def rval16 (V : Valuation Cert.ReferenceIdeal.τ Cert.ReferenceIdeal.sig (Elt F)) : Valuation Cert.ReferenceIdeal.τ Cert.ReferenceIdeal.sig (Elt F) := after Cert.ReferenceIdeal.RefRun.st15 (rval15 V)
/-- The kernel's buffers after 17 stretches. -/
def kval17 (W : Valuation Cert.KernelIdeal.τ Cert.KernelIdeal.sig (Elt F)) : Valuation Cert.KernelIdeal.τ Cert.KernelIdeal.sig (Elt F) := after Cert.KernelIdeal.KHost.st16 (kval16 W)
/-- The reference's buffers after 17 stretches. -/
def rval17 (V : Valuation Cert.ReferenceIdeal.τ Cert.ReferenceIdeal.sig (Elt F)) : Valuation Cert.ReferenceIdeal.τ Cert.ReferenceIdeal.sig (Elt F) := after Cert.ReferenceIdeal.RefRun.st16 (rval16 V)
/-- The kernel's buffers after 18 stretches. -/
def kval18 (W : Valuation Cert.KernelIdeal.τ Cert.KernelIdeal.sig (Elt F)) : Valuation Cert.KernelIdeal.τ Cert.KernelIdeal.sig (Elt F) := after Cert.KernelIdeal.KHost.st17 (kval17 W)
/-- The reference's buffers after 18 stretches. -/
def rval18 (V : Valuation Cert.ReferenceIdeal.τ Cert.ReferenceIdeal.sig (Elt F)) : Valuation Cert.ReferenceIdeal.τ Cert.ReferenceIdeal.sig (Elt F) := after Cert.ReferenceIdeal.RefRun.st17 (rval17 V)
/-- The kernel's buffers after 19 stretches. -/
def kval19 (W : Valuation Cert.KernelIdeal.τ Cert.KernelIdeal.sig (Elt F)) : Valuation Cert.KernelIdeal.τ Cert.KernelIdeal.sig (Elt F) := after Cert.KernelIdeal.KHost.st18 (kval18 W)
/-- The reference's buffers after 19 stretches. -/
def rval19 (V : Valuation Cert.ReferenceIdeal.τ Cert.ReferenceIdeal.sig (Elt F)) : Valuation Cert.ReferenceIdeal.τ Cert.ReferenceIdeal.sig (Elt F) := after Cert.ReferenceIdeal.RefRun.st18 (rval18 V)
/-- The kernel's buffers after 20 stretches. -/
def kval20 (W : Valuation Cert.KernelIdeal.τ Cert.KernelIdeal.sig (Elt F)) : Valuation Cert.KernelIdeal.τ Cert.KernelIdeal.sig (Elt F) := after Cert.KernelIdeal.KHost.st19 (kval19 W)
/-- The reference's buffers after 20 stretches. -/
def rval20 (V : Valuation Cert.ReferenceIdeal.τ Cert.ReferenceIdeal.sig (Elt F)) : Valuation Cert.ReferenceIdeal.τ Cert.ReferenceIdeal.sig (Elt F) := after Cert.ReferenceIdeal.RefRun.st19 (rval19 V)
/-- The kernel's buffers after 21 stretches. -/
def kval21 (W : Valuation Cert.KernelIdeal.τ Cert.KernelIdeal.sig (Elt F)) : Valuation Cert.KernelIdeal.τ Cert.KernelIdeal.sig (Elt F) := after Cert.KernelIdeal.KHost.st20 (kval20 W)
/-- The reference's buffers after 21 stretches. -/
def rval21 (V : Valuation Cert.ReferenceIdeal.τ Cert.ReferenceIdeal.sig (Elt F)) : Valuation Cert.ReferenceIdeal.τ Cert.ReferenceIdeal.sig (Elt F) := after Cert.ReferenceIdeal.RefRun.st20 (rval20 V)
/-- The kernel's buffers after 22 stretches. -/
def kval22 (W : Valuation Cert.KernelIdeal.τ Cert.KernelIdeal.sig (Elt F)) : Valuation Cert.KernelIdeal.τ Cert.KernelIdeal.sig (Elt F) := after Cert.KernelIdeal.KHost.st21 (kval21 W)
/-- The reference's buffers after 22 stretches. -/
def rval22 (V : Valuation Cert.ReferenceIdeal.τ Cert.ReferenceIdeal.sig (Elt F)) : Valuation Cert.ReferenceIdeal.τ Cert.ReferenceIdeal.sig (Elt F) := after Cert.ReferenceIdeal.RefRun.st21 (rval21 V)
/-- The kernel's buffers after 23 stretches. -/
def kval23 (W : Valuation Cert.KernelIdeal.τ Cert.KernelIdeal.sig (Elt F)) : Valuation Cert.KernelIdeal.τ Cert.KernelIdeal.sig (Elt F) := after Cert.KernelIdeal.KHost.st22 (kval22 W)
/-- The reference's buffers after 23 stretches. -/
def rval23 (V : Valuation Cert.ReferenceIdeal.τ Cert.ReferenceIdeal.sig (Elt F)) : Valuation Cert.ReferenceIdeal.τ Cert.ReferenceIdeal.sig (Elt F) := after Cert.ReferenceIdeal.RefRun.st22 (rval22 V)
/-- The kernel's buffers after 24 stretches. -/
def kval24 (W : Valuation Cert.KernelIdeal.τ Cert.KernelIdeal.sig (Elt F)) : Valuation Cert.KernelIdeal.τ Cert.KernelIdeal.sig (Elt F) := after Cert.KernelIdeal.KHost.st23 (kval23 W)
/-- The reference's buffers after 24 stretches. -/
def rval24 (V : Valuation Cert.ReferenceIdeal.τ Cert.ReferenceIdeal.sig (Elt F)) : Valuation Cert.ReferenceIdeal.τ Cert.ReferenceIdeal.sig (Elt F) := after Cert.ReferenceIdeal.RefRun.st23 (rval23 V)
/-- The kernel's buffers after 25 stretches. -/
def kval25 (W : Valuation Cert.KernelIdeal.τ Cert.KernelIdeal.sig (Elt F)) : Valuation Cert.KernelIdeal.τ Cert.KernelIdeal.sig (Elt F) := after Cert.KernelIdeal.KHost.st24 (kval24 W)
/-- The reference's buffers after 25 stretches. -/
def rval25 (V : Valuation Cert.ReferenceIdeal.τ Cert.ReferenceIdeal.sig (Elt F)) : Valuation Cert.ReferenceIdeal.τ Cert.ReferenceIdeal.sig (Elt F) := after Cert.ReferenceIdeal.RefRun.st24 (rval24 V)
/-- The kernel's buffers after 26 stretches. -/
def kval26 (W : Valuation Cert.KernelIdeal.τ Cert.KernelIdeal.sig (Elt F)) : Valuation Cert.KernelIdeal.τ Cert.KernelIdeal.sig (Elt F) := after Cert.KernelIdeal.KHost.st25 (kval25 W)
/-- The reference's buffers after 26 stretches. -/
def rval26 (V : Valuation Cert.ReferenceIdeal.τ Cert.ReferenceIdeal.sig (Elt F)) : Valuation Cert.ReferenceIdeal.τ Cert.ReferenceIdeal.sig (Elt F) := after Cert.ReferenceIdeal.RefRun.st25 (rval25 V)
/-- The kernel's buffers after 27 stretches. -/
def kval27 (W : Valuation Cert.KernelIdeal.τ Cert.KernelIdeal.sig (Elt F)) : Valuation Cert.KernelIdeal.τ Cert.KernelIdeal.sig (Elt F) := after Cert.KernelIdeal.KHost.st26 (kval26 W)
/-- The reference's buffers after 27 stretches. -/
def rval27 (V : Valuation Cert.ReferenceIdeal.τ Cert.ReferenceIdeal.sig (Elt F)) : Valuation Cert.ReferenceIdeal.τ Cert.ReferenceIdeal.sig (Elt F) := after Cert.ReferenceIdeal.RefRun.st26 (rval26 V)
/-- The kernel's buffers after 28 stretches. -/
def kval28 (W : Valuation Cert.KernelIdeal.τ Cert.KernelIdeal.sig (Elt F)) : Valuation Cert.KernelIdeal.τ Cert.KernelIdeal.sig (Elt F) := after Cert.KernelIdeal.KHost.st27 (kval27 W)
/-- The reference's buffers after 28 stretches. -/
def rval28 (V : Valuation Cert.ReferenceIdeal.τ Cert.ReferenceIdeal.sig (Elt F)) : Valuation Cert.ReferenceIdeal.τ Cert.ReferenceIdeal.sig (Elt F) := after Cert.ReferenceIdeal.RefRun.st27 (rval27 V)
/-- The kernel's buffers after 29 stretches. -/
def kval29 (W : Valuation Cert.KernelIdeal.τ Cert.KernelIdeal.sig (Elt F)) : Valuation Cert.KernelIdeal.τ Cert.KernelIdeal.sig (Elt F) := after Cert.KernelIdeal.KHost.st28 (kval28 W)
/-- The reference's buffers after 29 stretches. -/
def rval29 (V : Valuation Cert.ReferenceIdeal.τ Cert.ReferenceIdeal.sig (Elt F)) : Valuation Cert.ReferenceIdeal.τ Cert.ReferenceIdeal.sig (Elt F) := after Cert.ReferenceIdeal.RefRun.st28 (rval28 V)
/-- The kernel's buffers after 30 stretches. -/
def kval30 (W : Valuation Cert.KernelIdeal.τ Cert.KernelIdeal.sig (Elt F)) : Valuation Cert.KernelIdeal.τ Cert.KernelIdeal.sig (Elt F) := after Cert.KernelIdeal.KHost.st29 (kval29 W)
/-- The reference's buffers after 30 stretches. -/
def rval30 (V : Valuation Cert.ReferenceIdeal.τ Cert.ReferenceIdeal.sig (Elt F)) : Valuation Cert.ReferenceIdeal.τ Cert.ReferenceIdeal.sig (Elt F) := after Cert.ReferenceIdeal.RefRun.st29 (rval29 V)
/-- The kernel's buffers after 31 stretches. -/
def kval31 (W : Valuation Cert.KernelIdeal.τ Cert.KernelIdeal.sig (Elt F)) : Valuation Cert.KernelIdeal.τ Cert.KernelIdeal.sig (Elt F) := after Cert.KernelIdeal.KHost.st30 (kval30 W)
/-- The reference's buffers after 31 stretches. -/
def rval31 (V : Valuation Cert.ReferenceIdeal.τ Cert.ReferenceIdeal.sig (Elt F)) : Valuation Cert.ReferenceIdeal.τ Cert.ReferenceIdeal.sig (Elt F) := after Cert.ReferenceIdeal.RefRun.st30 (rval30 V)
/-- The kernel's buffers after 32 stretches. -/
def kval32 (W : Valuation Cert.KernelIdeal.τ Cert.KernelIdeal.sig (Elt F)) : Valuation Cert.KernelIdeal.τ Cert.KernelIdeal.sig (Elt F) := after Cert.KernelIdeal.KHost.st31 (kval31 W)
/-- The reference's buffers after 32 stretches. -/
def rval32 (V : Valuation Cert.ReferenceIdeal.τ Cert.ReferenceIdeal.sig (Elt F)) : Valuation Cert.ReferenceIdeal.τ Cert.ReferenceIdeal.sig (Elt F) := after Cert.ReferenceIdeal.RefRun.st31 (rval31 V)
/-- The kernel's buffers after 33 stretches. -/
def kval33 (W : Valuation Cert.KernelIdeal.τ Cert.KernelIdeal.sig (Elt F)) : Valuation Cert.KernelIdeal.τ Cert.KernelIdeal.sig (Elt F) := after Cert.KernelIdeal.KHost.st32 (kval32 W)
/-- The reference's buffers after 33 stretches. -/
def rval33 (V : Valuation Cert.ReferenceIdeal.τ Cert.ReferenceIdeal.sig (Elt F)) : Valuation Cert.ReferenceIdeal.τ Cert.ReferenceIdeal.sig (Elt F) := after Cert.ReferenceIdeal.RefRun.st32 (rval32 V)
/-- The kernel's buffers after 34 stretches. -/
def kval34 (W : Valuation Cert.KernelIdeal.τ Cert.KernelIdeal.sig (Elt F)) : Valuation Cert.KernelIdeal.τ Cert.KernelIdeal.sig (Elt F) := after Cert.KernelIdeal.KHost.st33 (kval33 W)
/-- The reference's buffers after 34 stretches. -/
def rval34 (V : Valuation Cert.ReferenceIdeal.τ Cert.ReferenceIdeal.sig (Elt F)) : Valuation Cert.ReferenceIdeal.τ Cert.ReferenceIdeal.sig (Elt F) := after Cert.ReferenceIdeal.RefRun.st33 (rval33 V)
/-- The kernel's buffers after 35 stretches. -/
def kval35 (W : Valuation Cert.KernelIdeal.τ Cert.KernelIdeal.sig (Elt F)) : Valuation Cert.KernelIdeal.τ Cert.KernelIdeal.sig (Elt F) := after Cert.KernelIdeal.KHost.st34 (kval34 W)
/-- The reference's buffers after 35 stretches. -/
def rval35 (V : Valuation Cert.ReferenceIdeal.τ Cert.ReferenceIdeal.sig (Elt F)) : Valuation Cert.ReferenceIdeal.τ Cert.ReferenceIdeal.sig (Elt F) := after Cert.ReferenceIdeal.RefRun.st34 (rval34 V)
/-- The kernel's buffers after 36 stretches. -/
def kval36 (W : Valuation Cert.KernelIdeal.τ Cert.KernelIdeal.sig (Elt F)) : Valuation Cert.KernelIdeal.τ Cert.KernelIdeal.sig (Elt F) := after Cert.KernelIdeal.KHost.st35 (kval35 W)
/-- The reference's buffers after 36 stretches. -/
def rval36 (V : Valuation Cert.ReferenceIdeal.τ Cert.ReferenceIdeal.sig (Elt F)) : Valuation Cert.ReferenceIdeal.τ Cert.ReferenceIdeal.sig (Elt F) := after Cert.ReferenceIdeal.RefRun.st35 (rval35 V)
/-- The kernel's buffers after 37 stretches. -/
def kval37 (W : Valuation Cert.KernelIdeal.τ Cert.KernelIdeal.sig (Elt F)) : Valuation Cert.KernelIdeal.τ Cert.KernelIdeal.sig (Elt F) := after Cert.KernelIdeal.KHost.st36 (kval36 W)
/-- The reference's buffers after 37 stretches. -/
def rval37 (V : Valuation Cert.ReferenceIdeal.τ Cert.ReferenceIdeal.sig (Elt F)) : Valuation Cert.ReferenceIdeal.τ Cert.ReferenceIdeal.sig (Elt F) := after Cert.ReferenceIdeal.RefRun.st36 (rval36 V)
/-- The kernel's buffers after 38 stretches. -/
def kval38 (W : Valuation Cert.KernelIdeal.τ Cert.KernelIdeal.sig (Elt F)) : Valuation Cert.KernelIdeal.τ Cert.KernelIdeal.sig (Elt F) := after Cert.KernelIdeal.KHost.st37 (kval37 W)
/-- The reference's buffers after 38 stretches. -/
def rval38 (V : Valuation Cert.ReferenceIdeal.τ Cert.ReferenceIdeal.sig (Elt F)) : Valuation Cert.ReferenceIdeal.τ Cert.ReferenceIdeal.sig (Elt F) := after Cert.ReferenceIdeal.RefRun.st37 (rval37 V)
/-- The kernel's buffers after 39 stretches. -/
def kval39 (W : Valuation Cert.KernelIdeal.τ Cert.KernelIdeal.sig (Elt F)) : Valuation Cert.KernelIdeal.τ Cert.KernelIdeal.sig (Elt F) := after Cert.KernelIdeal.KHost.st38 (kval38 W)
/-- The reference's buffers after 39 stretches. -/
def rval39 (V : Valuation Cert.ReferenceIdeal.τ Cert.ReferenceIdeal.sig (Elt F)) : Valuation Cert.ReferenceIdeal.τ Cert.ReferenceIdeal.sig (Elt F) := after Cert.ReferenceIdeal.RefRun.st38 (rval38 V)
/-- The kernel's buffers after 40 stretches. -/
def kval40 (W : Valuation Cert.KernelIdeal.τ Cert.KernelIdeal.sig (Elt F)) : Valuation Cert.KernelIdeal.τ Cert.KernelIdeal.sig (Elt F) := after Cert.KernelIdeal.KHost.st39 (kval39 W)
/-- The reference's buffers after 40 stretches. -/
def rval40 (V : Valuation Cert.ReferenceIdeal.τ Cert.ReferenceIdeal.sig (Elt F)) : Valuation Cert.ReferenceIdeal.τ Cert.ReferenceIdeal.sig (Elt F) := after Cert.ReferenceIdeal.RefRun.st39 (rval39 V)
/-- The kernel's buffers after 41 stretches. -/
def kval41 (W : Valuation Cert.KernelIdeal.τ Cert.KernelIdeal.sig (Elt F)) : Valuation Cert.KernelIdeal.τ Cert.KernelIdeal.sig (Elt F) := after Cert.KernelIdeal.KHost.st40 (kval40 W)
/-- The reference's buffers after 41 stretches. -/
def rval41 (V : Valuation Cert.ReferenceIdeal.τ Cert.ReferenceIdeal.sig (Elt F)) : Valuation Cert.ReferenceIdeal.τ Cert.ReferenceIdeal.sig (Elt F) := after Cert.ReferenceIdeal.RefRun.st40 (rval40 V)
/-- The kernel's buffers after 42 stretches. -/
def kval42 (W : Valuation Cert.KernelIdeal.τ Cert.KernelIdeal.sig (Elt F)) : Valuation Cert.KernelIdeal.τ Cert.KernelIdeal.sig (Elt F) := after Cert.KernelIdeal.KHost.st41 (kval41 W)
/-- The reference's buffers after 42 stretches. -/
def rval42 (V : Valuation Cert.ReferenceIdeal.τ Cert.ReferenceIdeal.sig (Elt F)) : Valuation Cert.ReferenceIdeal.τ Cert.ReferenceIdeal.sig (Elt F) := after Cert.ReferenceIdeal.RefRun.st41 (rval41 V)
/-- The kernel's buffers after 43 stretches. -/
def kval43 (W : Valuation Cert.KernelIdeal.τ Cert.KernelIdeal.sig (Elt F)) : Valuation Cert.KernelIdeal.τ Cert.KernelIdeal.sig (Elt F) := after Cert.KernelIdeal.KHost.st42 (kval42 W)
/-- The reference's buffers after 43 stretches. -/
def rval43 (V : Valuation Cert.ReferenceIdeal.τ Cert.ReferenceIdeal.sig (Elt F)) : Valuation Cert.ReferenceIdeal.τ Cert.ReferenceIdeal.sig (Elt F) := after Cert.ReferenceIdeal.RefRun.st42 (rval42 V)
/-- The kernel's buffers after 44 stretches. -/
def kval44 (W : Valuation Cert.KernelIdeal.τ Cert.KernelIdeal.sig (Elt F)) : Valuation Cert.KernelIdeal.τ Cert.KernelIdeal.sig (Elt F) := after Cert.KernelIdeal.KHost.st43 (kval43 W)
/-- The reference's buffers after 44 stretches. -/
def rval44 (V : Valuation Cert.ReferenceIdeal.τ Cert.ReferenceIdeal.sig (Elt F)) : Valuation Cert.ReferenceIdeal.τ Cert.ReferenceIdeal.sig (Elt F) := after Cert.ReferenceIdeal.RefRun.st43 (rval43 V)
/-- The kernel's buffers after 45 stretches. -/
def kval45 (W : Valuation Cert.KernelIdeal.τ Cert.KernelIdeal.sig (Elt F)) : Valuation Cert.KernelIdeal.τ Cert.KernelIdeal.sig (Elt F) := after Cert.KernelIdeal.KHost.st44 (kval44 W)
/-- The reference's buffers after 45 stretches. -/
def rval45 (V : Valuation Cert.ReferenceIdeal.τ Cert.ReferenceIdeal.sig (Elt F)) : Valuation Cert.ReferenceIdeal.τ Cert.ReferenceIdeal.sig (Elt F) := after Cert.ReferenceIdeal.RefRun.st44 (rval44 V)
/-- The kernel's buffers after 46 stretches. -/
def kval46 (W : Valuation Cert.KernelIdeal.τ Cert.KernelIdeal.sig (Elt F)) : Valuation Cert.KernelIdeal.τ Cert.KernelIdeal.sig (Elt F) := after Cert.KernelIdeal.KHost.st45 (kval45 W)
/-- The reference's buffers after 46 stretches. -/
def rval46 (V : Valuation Cert.ReferenceIdeal.τ Cert.ReferenceIdeal.sig (Elt F)) : Valuation Cert.ReferenceIdeal.τ Cert.ReferenceIdeal.sig (Elt F) := after Cert.ReferenceIdeal.RefRun.st45 (rval45 V)
/-- The kernel's buffers after 47 stretches. -/
def kval47 (W : Valuation Cert.KernelIdeal.τ Cert.KernelIdeal.sig (Elt F)) : Valuation Cert.KernelIdeal.τ Cert.KernelIdeal.sig (Elt F) := after Cert.KernelIdeal.KHost.st46 (kval46 W)
/-- The reference's buffers after 47 stretches. -/
def rval47 (V : Valuation Cert.ReferenceIdeal.τ Cert.ReferenceIdeal.sig (Elt F)) : Valuation Cert.ReferenceIdeal.τ Cert.ReferenceIdeal.sig (Elt F) := after Cert.ReferenceIdeal.RefRun.st46 (rval46 V)
/-- The kernel's buffers after 48 stretches. -/
def kval48 (W : Valuation Cert.KernelIdeal.τ Cert.KernelIdeal.sig (Elt F)) : Valuation Cert.KernelIdeal.τ Cert.KernelIdeal.sig (Elt F) := after Cert.KernelIdeal.KHost.st47 (kval47 W)
/-- The reference's buffers after 48 stretches. -/
def rval48 (V : Valuation Cert.ReferenceIdeal.τ Cert.ReferenceIdeal.sig (Elt F)) : Valuation Cert.ReferenceIdeal.τ Cert.ReferenceIdeal.sig (Elt F) := after Cert.ReferenceIdeal.RefRun.st47 (rval47 V)
/-- The kernel's buffers after 49 stretches. -/
def kval49 (W : Valuation Cert.KernelIdeal.τ Cert.KernelIdeal.sig (Elt F)) : Valuation Cert.KernelIdeal.τ Cert.KernelIdeal.sig (Elt F) := after Cert.KernelIdeal.KHost.st48 (kval48 W)
/-- The reference's buffers after 49 stretches. -/
def rval49 (V : Valuation Cert.ReferenceIdeal.τ Cert.ReferenceIdeal.sig (Elt F)) : Valuation Cert.ReferenceIdeal.τ Cert.ReferenceIdeal.sig (Elt F) := after Cert.ReferenceIdeal.RefRun.st48 (rval48 V)
/-- The kernel's buffers after 50 stretches. -/
def kval50 (W : Valuation Cert.KernelIdeal.τ Cert.KernelIdeal.sig (Elt F)) : Valuation Cert.KernelIdeal.τ Cert.KernelIdeal.sig (Elt F) := after Cert.KernelIdeal.KHost.st49 (kval49 W)
/-- The reference's buffers after 50 stretches. -/
def rval50 (V : Valuation Cert.ReferenceIdeal.τ Cert.ReferenceIdeal.sig (Elt F)) : Valuation Cert.ReferenceIdeal.τ Cert.ReferenceIdeal.sig (Elt F) := after Cert.ReferenceIdeal.RefRun.st49 (rval49 V)
/-- The kernel's buffers after 51 stretches. -/
def kval51 (W : Valuation Cert.KernelIdeal.τ Cert.KernelIdeal.sig (Elt F)) : Valuation Cert.KernelIdeal.τ Cert.KernelIdeal.sig (Elt F) := after Cert.KernelIdeal.KHost.st50 (kval50 W)
/-- The reference's buffers after 51 stretches. -/
def rval51 (V : Valuation Cert.ReferenceIdeal.τ Cert.ReferenceIdeal.sig (Elt F)) : Valuation Cert.ReferenceIdeal.τ Cert.ReferenceIdeal.sig (Elt F) := after Cert.ReferenceIdeal.RefRun.st50 (rval50 V)
/-- The kernel's buffers after 52 stretches. -/
def kval52 (W : Valuation Cert.KernelIdeal.τ Cert.KernelIdeal.sig (Elt F)) : Valuation Cert.KernelIdeal.τ Cert.KernelIdeal.sig (Elt F) := after Cert.KernelIdeal.KHost.st51 (kval51 W)
/-- The reference's buffers after 52 stretches. -/
def rval52 (V : Valuation Cert.ReferenceIdeal.τ Cert.ReferenceIdeal.sig (Elt F)) : Valuation Cert.ReferenceIdeal.τ Cert.ReferenceIdeal.sig (Elt F) := after Cert.ReferenceIdeal.RefRun.st51 (rval51 V)
/-- The kernel's buffers after 53 stretches. -/
def kval53 (W : Valuation Cert.KernelIdeal.τ Cert.KernelIdeal.sig (Elt F)) : Valuation Cert.KernelIdeal.τ Cert.KernelIdeal.sig (Elt F) := after Cert.KernelIdeal.KHost.st52 (kval52 W)
/-- The reference's buffers after 53 stretches. -/
def rval53 (V : Valuation Cert.ReferenceIdeal.τ Cert.ReferenceIdeal.sig (Elt F)) : Valuation Cert.ReferenceIdeal.τ Cert.ReferenceIdeal.sig (Elt F) := after Cert.ReferenceIdeal.RefRun.st52 (rval52 V)
/-- The kernel's buffers after 54 stretches. -/
def kval54 (W : Valuation Cert.KernelIdeal.τ Cert.KernelIdeal.sig (Elt F)) : Valuation Cert.KernelIdeal.τ Cert.KernelIdeal.sig (Elt F) := after Cert.KernelIdeal.KHost.st53 (kval53 W)
/-- The reference's buffers after 54 stretches. -/
def rval54 (V : Valuation Cert.ReferenceIdeal.τ Cert.ReferenceIdeal.sig (Elt F)) : Valuation Cert.ReferenceIdeal.τ Cert.ReferenceIdeal.sig (Elt F) := after Cert.ReferenceIdeal.RefRun.st53 (rval53 V)
/-- The kernel's buffers after 55 stretches. -/
def kval55 (W : Valuation Cert.KernelIdeal.τ Cert.KernelIdeal.sig (Elt F)) : Valuation Cert.KernelIdeal.τ Cert.KernelIdeal.sig (Elt F) := after Cert.KernelIdeal.KHost.st54 (kval54 W)
/-- The reference's buffers after 55 stretches. -/
def rval55 (V : Valuation Cert.ReferenceIdeal.τ Cert.ReferenceIdeal.sig (Elt F)) : Valuation Cert.ReferenceIdeal.τ Cert.ReferenceIdeal.sig (Elt F) := after Cert.ReferenceIdeal.RefRun.st54 (rval54 V)
/-- The kernel's buffers after 56 stretches. -/
def kval56 (W : Valuation Cert.KernelIdeal.τ Cert.KernelIdeal.sig (Elt F)) : Valuation Cert.KernelIdeal.τ Cert.KernelIdeal.sig (Elt F) := after Cert.KernelIdeal.KHost.st55 (kval55 W)
/-- The reference's buffers after 56 stretches. -/
def rval56 (V : Valuation Cert.ReferenceIdeal.τ Cert.ReferenceIdeal.sig (Elt F)) : Valuation Cert.ReferenceIdeal.τ Cert.ReferenceIdeal.sig (Elt F) := after Cert.ReferenceIdeal.RefRun.st55 (rval55 V)
/-- The kernel's buffers after 57 stretches. -/
def kval57 (W : Valuation Cert.KernelIdeal.τ Cert.KernelIdeal.sig (Elt F)) : Valuation Cert.KernelIdeal.τ Cert.KernelIdeal.sig (Elt F) := after Cert.KernelIdeal.KHost.st56 (kval56 W)
/-- The reference's buffers after 57 stretches. -/
def rval57 (V : Valuation Cert.ReferenceIdeal.τ Cert.ReferenceIdeal.sig (Elt F)) : Valuation Cert.ReferenceIdeal.τ Cert.ReferenceIdeal.sig (Elt F) := after Cert.ReferenceIdeal.RefRun.st56 (rval56 V)
/-- The kernel's buffers after 58 stretches. -/
def kval58 (W : Valuation Cert.KernelIdeal.τ Cert.KernelIdeal.sig (Elt F)) : Valuation Cert.KernelIdeal.τ Cert.KernelIdeal.sig (Elt F) := after Cert.KernelIdeal.KHost.st57 (kval57 W)
/-- The reference's buffers after 58 stretches. -/
def rval58 (V : Valuation Cert.ReferenceIdeal.τ Cert.ReferenceIdeal.sig (Elt F)) : Valuation Cert.ReferenceIdeal.τ Cert.ReferenceIdeal.sig (Elt F) := after Cert.ReferenceIdeal.RefRun.st57 (rval57 V)
/-- The kernel's buffers after 59 stretches. -/
def kval59 (W : Valuation Cert.KernelIdeal.τ Cert.KernelIdeal.sig (Elt F)) : Valuation Cert.KernelIdeal.τ Cert.KernelIdeal.sig (Elt F) := after Cert.KernelIdeal.KHost.st58 (kval58 W)
/-- The reference's buffers after 59 stretches. -/
def rval59 (V : Valuation Cert.ReferenceIdeal.τ Cert.ReferenceIdeal.sig (Elt F)) : Valuation Cert.ReferenceIdeal.τ Cert.ReferenceIdeal.sig (Elt F) := after Cert.ReferenceIdeal.RefRun.st58 (rval58 V)
/-- The kernel's buffers after 60 stretches. -/
def kval60 (W : Valuation Cert.KernelIdeal.τ Cert.KernelIdeal.sig (Elt F)) : Valuation Cert.KernelIdeal.τ Cert.KernelIdeal.sig (Elt F) := after Cert.KernelIdeal.KHost.st59 (kval59 W)
/-- The reference's buffers after 60 stretches. -/
def rval60 (V : Valuation Cert.ReferenceIdeal.τ Cert.ReferenceIdeal.sig (Elt F)) : Valuation Cert.ReferenceIdeal.τ Cert.ReferenceIdeal.sig (Elt F) := after Cert.ReferenceIdeal.RefRun.st59 (rval59 V)
/-- The kernel's buffers after 61 stretches. -/
def kval61 (W : Valuation Cert.KernelIdeal.τ Cert.KernelIdeal.sig (Elt F)) : Valuation Cert.KernelIdeal.τ Cert.KernelIdeal.sig (Elt F) := after Cert.KernelIdeal.KHost.st60 (kval60 W)
/-- The reference's buffers after 61 stretches. -/
def rval61 (V : Valuation Cert.ReferenceIdeal.τ Cert.ReferenceIdeal.sig (Elt F)) : Valuation Cert.ReferenceIdeal.τ Cert.ReferenceIdeal.sig (Elt F) := after Cert.ReferenceIdeal.RefRun.st60 (rval60 V)
/-- The kernel's buffers after 62 stretches. -/
def kval62 (W : Valuation Cert.KernelIdeal.τ Cert.KernelIdeal.sig (Elt F)) : Valuation Cert.KernelIdeal.τ Cert.KernelIdeal.sig (Elt F) := after Cert.KernelIdeal.KHost.st61 (kval61 W)
/-- The reference's buffers after 62 stretches. -/
def rval62 (V : Valuation Cert.ReferenceIdeal.τ Cert.ReferenceIdeal.sig (Elt F)) : Valuation Cert.ReferenceIdeal.τ Cert.ReferenceIdeal.sig (Elt F) := after Cert.ReferenceIdeal.RefRun.st61 (rval61 V)
/-- The kernel's buffers after 63 stretches. -/
def kval63 (W : Valuation Cert.KernelIdeal.τ Cert.KernelIdeal.sig (Elt F)) : Valuation Cert.KernelIdeal.τ Cert.KernelIdeal.sig (Elt F) := after Cert.KernelIdeal.KHost.st62 (kval62 W)
/-- The reference's buffers after 63 stretches. -/
def rval63 (V : Valuation Cert.ReferenceIdeal.τ Cert.ReferenceIdeal.sig (Elt F)) : Valuation Cert.ReferenceIdeal.τ Cert.ReferenceIdeal.sig (Elt F) := after Cert.ReferenceIdeal.RefRun.st62 (rval62 V)
/-- The kernel's buffers after 64 stretches. -/
def kval64 (W : Valuation Cert.KernelIdeal.τ Cert.KernelIdeal.sig (Elt F)) : Valuation Cert.KernelIdeal.τ Cert.KernelIdeal.sig (Elt F) := after Cert.KernelIdeal.KHost.st63 (kval63 W)
/-- The reference's buffers after 64 stretches. -/
def rval64 (V : Valuation Cert.ReferenceIdeal.τ Cert.ReferenceIdeal.sig (Elt F)) : Valuation Cert.ReferenceIdeal.τ Cert.ReferenceIdeal.sig (Elt F) := after Cert.ReferenceIdeal.RefRun.st63 (rval63 V)
/-- The kernel's buffers after 65 stretches. -/
def kval65 (W : Valuation Cert.KernelIdeal.τ Cert.KernelIdeal.sig (Elt F)) : Valuation Cert.KernelIdeal.τ Cert.KernelIdeal.sig (Elt F) := after Cert.KernelIdeal.KHost.st64 (kval64 W)
/-- The reference's buffers after 65 stretches. -/
def rval65 (V : Valuation Cert.ReferenceIdeal.τ Cert.ReferenceIdeal.sig (Elt F)) : Valuation Cert.ReferenceIdeal.τ Cert.ReferenceIdeal.sig (Elt F) := after Cert.ReferenceIdeal.RefRun.st64 (rval64 V)
/-- The kernel's buffers after 66 stretches. -/
def kval66 (W : Valuation Cert.KernelIdeal.τ Cert.KernelIdeal.sig (Elt F)) : Valuation Cert.KernelIdeal.τ Cert.KernelIdeal.sig (Elt F) := after Cert.KernelIdeal.KHost.st65 (kval65 W)
/-- The reference's buffers after 66 stretches. -/
def rval66 (V : Valuation Cert.ReferenceIdeal.τ Cert.ReferenceIdeal.sig (Elt F)) : Valuation Cert.ReferenceIdeal.τ Cert.ReferenceIdeal.sig (Elt F) := after Cert.ReferenceIdeal.RefRun.st65 (rval65 V)
/-- The kernel's buffers after 67 stretches. -/
def kval67 (W : Valuation Cert.KernelIdeal.τ Cert.KernelIdeal.sig (Elt F)) : Valuation Cert.KernelIdeal.τ Cert.KernelIdeal.sig (Elt F) := after Cert.KernelIdeal.KHost.st66 (kval66 W)
/-- The reference's buffers after 67 stretches. -/
def rval67 (V : Valuation Cert.ReferenceIdeal.τ Cert.ReferenceIdeal.sig (Elt F)) : Valuation Cert.ReferenceIdeal.τ Cert.ReferenceIdeal.sig (Elt F) := after Cert.ReferenceIdeal.RefRun.st66 (rval66 V)
/-- The kernel's buffers after 68 stretches. -/
def kval68 (W : Valuation Cert.KernelIdeal.τ Cert.KernelIdeal.sig (Elt F)) : Valuation Cert.KernelIdeal.τ Cert.KernelIdeal.sig (Elt F) := after Cert.KernelIdeal.KHost.st67 (kval67 W)
/-- The reference's buffers after 68 stretches. -/
def rval68 (V : Valuation Cert.ReferenceIdeal.τ Cert.ReferenceIdeal.sig (Elt F)) : Valuation Cert.ReferenceIdeal.τ Cert.ReferenceIdeal.sig (Elt F) := after Cert.ReferenceIdeal.RefRun.st67 (rval67 V)
/-- The kernel's buffers after 69 stretches. -/
def kval69 (W : Valuation Cert.KernelIdeal.τ Cert.KernelIdeal.sig (Elt F)) : Valuation Cert.KernelIdeal.τ Cert.KernelIdeal.sig (Elt F) := after Cert.KernelIdeal.KHost.st68 (kval68 W)
/-- The reference's buffers after 69 stretches. -/
def rval69 (V : Valuation Cert.ReferenceIdeal.τ Cert.ReferenceIdeal.sig (Elt F)) : Valuation Cert.ReferenceIdeal.τ Cert.ReferenceIdeal.sig (Elt F) := after Cert.ReferenceIdeal.RefRun.st68 (rval68 V)
/-- The kernel's buffers after 70 stretches. -/
def kval70 (W : Valuation Cert.KernelIdeal.τ Cert.KernelIdeal.sig (Elt F)) : Valuation Cert.KernelIdeal.τ Cert.KernelIdeal.sig (Elt F) := after Cert.KernelIdeal.KHost.st69 (kval69 W)
/-- The reference's buffers after 70 stretches. -/
def rval70 (V : Valuation Cert.ReferenceIdeal.τ Cert.ReferenceIdeal.sig (Elt F)) : Valuation Cert.ReferenceIdeal.τ Cert.ReferenceIdeal.sig (Elt F) := after Cert.ReferenceIdeal.RefRun.st69 (rval69 V)
/-- The kernel's buffers after 71 stretches. -/
def kval71 (W : Valuation Cert.KernelIdeal.τ Cert.KernelIdeal.sig (Elt F)) : Valuation Cert.KernelIdeal.τ Cert.KernelIdeal.sig (Elt F) := after Cert.KernelIdeal.KHost.st70 (kval70 W)
/-- The reference's buffers after 71 stretches. -/
def rval71 (V : Valuation Cert.ReferenceIdeal.τ Cert.ReferenceIdeal.sig (Elt F)) : Valuation Cert.ReferenceIdeal.τ Cert.ReferenceIdeal.sig (Elt F) := after Cert.ReferenceIdeal.RefRun.st70 (rval70 V)
/-- The kernel's buffers after 72 stretches. -/
def kval72 (W : Valuation Cert.KernelIdeal.τ Cert.KernelIdeal.sig (Elt F)) : Valuation Cert.KernelIdeal.τ Cert.KernelIdeal.sig (Elt F) := after Cert.KernelIdeal.KHost.st71 (kval71 W)
/-- The reference's buffers after 72 stretches. -/
def rval72 (V : Valuation Cert.ReferenceIdeal.τ Cert.ReferenceIdeal.sig (Elt F)) : Valuation Cert.ReferenceIdeal.τ Cert.ReferenceIdeal.sig (Elt F) := after Cert.ReferenceIdeal.RefRun.st71 (rval71 V)
/-- The kernel's buffers after 73 stretches. -/
def kval73 (W : Valuation Cert.KernelIdeal.τ Cert.KernelIdeal.sig (Elt F)) : Valuation Cert.KernelIdeal.τ Cert.KernelIdeal.sig (Elt F) := after Cert.KernelIdeal.KHost.st72 (kval72 W)
/-- The reference's buffers after 73 stretches. -/
def rval73 (V : Valuation Cert.ReferenceIdeal.τ Cert.ReferenceIdeal.sig (Elt F)) : Valuation Cert.ReferenceIdeal.τ Cert.ReferenceIdeal.sig (Elt F) := after Cert.ReferenceIdeal.RefRun.st72 (rval72 V)
/-- The kernel's buffers after 74 stretches. -/
def kval74 (W : Valuation Cert.KernelIdeal.τ Cert.KernelIdeal.sig (Elt F)) : Valuation Cert.KernelIdeal.τ Cert.KernelIdeal.sig (Elt F) := after Cert.KernelIdeal.KHost.st73 (kval73 W)
/-- The reference's buffers after 74 stretches. -/
def rval74 (V : Valuation Cert.ReferenceIdeal.τ Cert.ReferenceIdeal.sig (Elt F)) : Valuation Cert.ReferenceIdeal.τ Cert.ReferenceIdeal.sig (Elt F) := after Cert.ReferenceIdeal.RefRun.st73 (rval73 V)
/-- The kernel's buffers after 75 stretches. -/
def kval75 (W : Valuation Cert.KernelIdeal.τ Cert.KernelIdeal.sig (Elt F)) : Valuation Cert.KernelIdeal.τ Cert.KernelIdeal.sig (Elt F) := after Cert.KernelIdeal.KHost.st74 (kval74 W)
/-- The reference's buffers after 75 stretches. -/
def rval75 (V : Valuation Cert.ReferenceIdeal.τ Cert.ReferenceIdeal.sig (Elt F)) : Valuation Cert.ReferenceIdeal.τ Cert.ReferenceIdeal.sig (Elt F) := after Cert.ReferenceIdeal.RefRun.st74 (rval74 V)
/-- The kernel's buffers after 76 stretches. -/
def kval76 (W : Valuation Cert.KernelIdeal.τ Cert.KernelIdeal.sig (Elt F)) : Valuation Cert.KernelIdeal.τ Cert.KernelIdeal.sig (Elt F) := after Cert.KernelIdeal.KHost.st75 (kval75 W)
/-- The reference's buffers after 76 stretches. -/
def rval76 (V : Valuation Cert.ReferenceIdeal.τ Cert.ReferenceIdeal.sig (Elt F)) : Valuation Cert.ReferenceIdeal.τ Cert.ReferenceIdeal.sig (Elt F) := after Cert.ReferenceIdeal.RefRun.st75 (rval75 V)
/-- The kernel's buffers after 77 stretches. -/
def kval77 (W : Valuation Cert.KernelIdeal.τ Cert.KernelIdeal.sig (Elt F)) : Valuation Cert.KernelIdeal.τ Cert.KernelIdeal.sig (Elt F) := after Cert.KernelIdeal.KHost.st76 (kval76 W)
/-- The reference's buffers after 77 stretches. -/
def rval77 (V : Valuation Cert.ReferenceIdeal.τ Cert.ReferenceIdeal.sig (Elt F)) : Valuation Cert.ReferenceIdeal.τ Cert.ReferenceIdeal.sig (Elt F) := after Cert.ReferenceIdeal.RefRun.st76 (rval76 V)
/-- The kernel's buffers after 78 stretches. -/
def kval78 (W : Valuation Cert.KernelIdeal.τ Cert.KernelIdeal.sig (Elt F)) : Valuation Cert.KernelIdeal.τ Cert.KernelIdeal.sig (Elt F) := after Cert.KernelIdeal.KHost.st77 (kval77 W)
/-- The reference's buffers after 78 stretches. -/
def rval78 (V : Valuation Cert.ReferenceIdeal.τ Cert.ReferenceIdeal.sig (Elt F)) : Valuation Cert.ReferenceIdeal.τ Cert.ReferenceIdeal.sig (Elt F) := after Cert.ReferenceIdeal.RefRun.st77 (rval77 V)
/-- The kernel's buffers after 79 stretches. -/
def kval79 (W : Valuation Cert.KernelIdeal.τ Cert.KernelIdeal.sig (Elt F)) : Valuation Cert.KernelIdeal.τ Cert.KernelIdeal.sig (Elt F) := after Cert.KernelIdeal.KHost.st78 (kval78 W)
/-- The reference's buffers after 79 stretches. -/
def rval79 (V : Valuation Cert.ReferenceIdeal.τ Cert.ReferenceIdeal.sig (Elt F)) : Valuation Cert.ReferenceIdeal.τ Cert.ReferenceIdeal.sig (Elt F) := after Cert.ReferenceIdeal.RefRun.st78 (rval78 V)
/-- The kernel's buffers after 80 stretches. -/
def kval80 (W : Valuation Cert.KernelIdeal.τ Cert.KernelIdeal.sig (Elt F)) : Valuation Cert.KernelIdeal.τ Cert.KernelIdeal.sig (Elt F) := after Cert.KernelIdeal.KHost.st79 (kval79 W)
/-- The reference's buffers after 80 stretches. -/
def rval80 (V : Valuation Cert.ReferenceIdeal.τ Cert.ReferenceIdeal.sig (Elt F)) : Valuation Cert.ReferenceIdeal.τ Cert.ReferenceIdeal.sig (Elt F) := after Cert.ReferenceIdeal.RefRun.st79 (rval79 V)
/-- The kernel's buffers after 81 stretches. -/
def kval81 (W : Valuation Cert.KernelIdeal.τ Cert.KernelIdeal.sig (Elt F)) : Valuation Cert.KernelIdeal.τ Cert.KernelIdeal.sig (Elt F) := after Cert.KernelIdeal.KHost.st80 (kval80 W)
/-- The reference's buffers after 81 stretches. -/
def rval81 (V : Valuation Cert.ReferenceIdeal.τ Cert.ReferenceIdeal.sig (Elt F)) : Valuation Cert.ReferenceIdeal.τ Cert.ReferenceIdeal.sig (Elt F) := after Cert.ReferenceIdeal.RefRun.st80 (rval80 V)
/-- The kernel's buffers after 82 stretches. -/
def kval82 (W : Valuation Cert.KernelIdeal.τ Cert.KernelIdeal.sig (Elt F)) : Valuation Cert.KernelIdeal.τ Cert.KernelIdeal.sig (Elt F) := after Cert.KernelIdeal.KHost.st81 (kval81 W)
/-- The reference's buffers after 82 stretches. -/
def rval82 (V : Valuation Cert.ReferenceIdeal.τ Cert.ReferenceIdeal.sig (Elt F)) : Valuation Cert.ReferenceIdeal.τ Cert.ReferenceIdeal.sig (Elt F) := after Cert.ReferenceIdeal.RefRun.st81 (rval81 V)
/-- The kernel's buffers after 83 stretches. -/
def kval83 (W : Valuation Cert.KernelIdeal.τ Cert.KernelIdeal.sig (Elt F)) : Valuation Cert.KernelIdeal.τ Cert.KernelIdeal.sig (Elt F) := after Cert.KernelIdeal.KHost.st82 (kval82 W)
/-- The reference's buffers after 83 stretches. -/
def rval83 (V : Valuation Cert.ReferenceIdeal.τ Cert.ReferenceIdeal.sig (Elt F)) : Valuation Cert.ReferenceIdeal.τ Cert.ReferenceIdeal.sig (Elt F) := after Cert.ReferenceIdeal.RefRun.st82 (rval82 V)
/-- The kernel's buffers after 84 stretches. -/
def kval84 (W : Valuation Cert.KernelIdeal.τ Cert.KernelIdeal.sig (Elt F)) : Valuation Cert.KernelIdeal.τ Cert.KernelIdeal.sig (Elt F) := after Cert.KernelIdeal.KHost.st83 (kval83 W)
/-- The reference's buffers after 84 stretches. -/
def rval84 (V : Valuation Cert.ReferenceIdeal.τ Cert.ReferenceIdeal.sig (Elt F)) : Valuation Cert.ReferenceIdeal.τ Cert.ReferenceIdeal.sig (Elt F) := after Cert.ReferenceIdeal.RefRun.st83 (rval83 V)
/-- The kernel's buffers after 85 stretches. -/
def kval85 (W : Valuation Cert.KernelIdeal.τ Cert.KernelIdeal.sig (Elt F)) : Valuation Cert.KernelIdeal.τ Cert.KernelIdeal.sig (Elt F) := after Cert.KernelIdeal.KHost.st84 (kval84 W)
/-- The reference's buffers after 85 stretches. -/
def rval85 (V : Valuation Cert.ReferenceIdeal.τ Cert.ReferenceIdeal.sig (Elt F)) : Valuation Cert.ReferenceIdeal.τ Cert.ReferenceIdeal.sig (Elt F) := after Cert.ReferenceIdeal.RefRun.st84 (rval84 V)
/-- The kernel's buffers after 86 stretches. -/
def kval86 (W : Valuation Cert.KernelIdeal.τ Cert.KernelIdeal.sig (Elt F)) : Valuation Cert.KernelIdeal.τ Cert.KernelIdeal.sig (Elt F) := after Cert.KernelIdeal.KHost.st85 (kval85 W)
/-- The reference's buffers after 86 stretches. -/
def rval86 (V : Valuation Cert.ReferenceIdeal.τ Cert.ReferenceIdeal.sig (Elt F)) : Valuation Cert.ReferenceIdeal.τ Cert.ReferenceIdeal.sig (Elt F) := after Cert.ReferenceIdeal.RefRun.st85 (rval85 V)
/-- The kernel's buffers after 87 stretches. -/
def kval87 (W : Valuation Cert.KernelIdeal.τ Cert.KernelIdeal.sig (Elt F)) : Valuation Cert.KernelIdeal.τ Cert.KernelIdeal.sig (Elt F) := after Cert.KernelIdeal.KHost.st86 (kval86 W)
/-- The reference's buffers after 87 stretches. -/
def rval87 (V : Valuation Cert.ReferenceIdeal.τ Cert.ReferenceIdeal.sig (Elt F)) : Valuation Cert.ReferenceIdeal.τ Cert.ReferenceIdeal.sig (Elt F) := after Cert.ReferenceIdeal.RefRun.st86 (rval86 V)
/-- The kernel's buffers after 88 stretches. -/
def kval88 (W : Valuation Cert.KernelIdeal.τ Cert.KernelIdeal.sig (Elt F)) : Valuation Cert.KernelIdeal.τ Cert.KernelIdeal.sig (Elt F) := after Cert.KernelIdeal.KHost.st87 (kval87 W)
/-- The reference's buffers after 88 stretches. -/
def rval88 (V : Valuation Cert.ReferenceIdeal.τ Cert.ReferenceIdeal.sig (Elt F)) : Valuation Cert.ReferenceIdeal.τ Cert.ReferenceIdeal.sig (Elt F) := after Cert.ReferenceIdeal.RefRun.st87 (rval87 V)
/-- The kernel's buffers after 89 stretches. -/
def kval89 (W : Valuation Cert.KernelIdeal.τ Cert.KernelIdeal.sig (Elt F)) : Valuation Cert.KernelIdeal.τ Cert.KernelIdeal.sig (Elt F) := after Cert.KernelIdeal.KHost.st88 (kval88 W)
/-- The reference's buffers after 89 stretches. -/
def rval89 (V : Valuation Cert.ReferenceIdeal.τ Cert.ReferenceIdeal.sig (Elt F)) : Valuation Cert.ReferenceIdeal.τ Cert.ReferenceIdeal.sig (Elt F) := after Cert.ReferenceIdeal.RefRun.st88 (rval88 V)
/-- The kernel's buffers after 90 stretches. -/
def kval90 (W : Valuation Cert.KernelIdeal.τ Cert.KernelIdeal.sig (Elt F)) : Valuation Cert.KernelIdeal.τ Cert.KernelIdeal.sig (Elt F) := after Cert.KernelIdeal.KHost.st89 (kval89 W)
/-- The reference's buffers after 90 stretches. -/
def rval90 (V : Valuation Cert.ReferenceIdeal.τ Cert.ReferenceIdeal.sig (Elt F)) : Valuation Cert.ReferenceIdeal.τ Cert.ReferenceIdeal.sig (Elt F) := after Cert.ReferenceIdeal.RefRun.st89 (rval89 V)
/-- The kernel's buffers after 91 stretches. -/
def kval91 (W : Valuation Cert.KernelIdeal.τ Cert.KernelIdeal.sig (Elt F)) : Valuation Cert.KernelIdeal.τ Cert.KernelIdeal.sig (Elt F) := after Cert.KernelIdeal.KHost.st90 (kval90 W)
/-- The reference's buffers after 91 stretches. -/
def rval91 (V : Valuation Cert.ReferenceIdeal.τ Cert.ReferenceIdeal.sig (Elt F)) : Valuation Cert.ReferenceIdeal.τ Cert.ReferenceIdeal.sig (Elt F) := after Cert.ReferenceIdeal.RefRun.st90 (rval90 V)
/-- The kernel's buffers after 92 stretches. -/
def kval92 (W : Valuation Cert.KernelIdeal.τ Cert.KernelIdeal.sig (Elt F)) : Valuation Cert.KernelIdeal.τ Cert.KernelIdeal.sig (Elt F) := after Cert.KernelIdeal.KHost.st91 (kval91 W)
/-- The reference's buffers after 92 stretches. -/
def rval92 (V : Valuation Cert.ReferenceIdeal.τ Cert.ReferenceIdeal.sig (Elt F)) : Valuation Cert.ReferenceIdeal.τ Cert.ReferenceIdeal.sig (Elt F) := after Cert.ReferenceIdeal.RefRun.st91 (rval91 V)
/-- The kernel's buffers after 93 stretches. -/
def kval93 (W : Valuation Cert.KernelIdeal.τ Cert.KernelIdeal.sig (Elt F)) : Valuation Cert.KernelIdeal.τ Cert.KernelIdeal.sig (Elt F) := after Cert.KernelIdeal.KHost.st92 (kval92 W)
/-- The reference's buffers after 93 stretches. -/
def rval93 (V : Valuation Cert.ReferenceIdeal.τ Cert.ReferenceIdeal.sig (Elt F)) : Valuation Cert.ReferenceIdeal.τ Cert.ReferenceIdeal.sig (Elt F) := after Cert.ReferenceIdeal.RefRun.st92 (rval92 V)
/-- The kernel's buffers after 94 stretches. -/
def kval94 (W : Valuation Cert.KernelIdeal.τ Cert.KernelIdeal.sig (Elt F)) : Valuation Cert.KernelIdeal.τ Cert.KernelIdeal.sig (Elt F) := after Cert.KernelIdeal.KHost.st93 (kval93 W)
/-- The reference's buffers after 94 stretches. -/
def rval94 (V : Valuation Cert.ReferenceIdeal.τ Cert.ReferenceIdeal.sig (Elt F)) : Valuation Cert.ReferenceIdeal.τ Cert.ReferenceIdeal.sig (Elt F) := after Cert.ReferenceIdeal.RefRun.st93 (rval93 V)
/-- The kernel's buffers after 95 stretches. -/
def kval95 (W : Valuation Cert.KernelIdeal.τ Cert.KernelIdeal.sig (Elt F)) : Valuation Cert.KernelIdeal.τ Cert.KernelIdeal.sig (Elt F) := after Cert.KernelIdeal.KHost.st94 (kval94 W)
/-- The reference's buffers after 95 stretches. -/
def rval95 (V : Valuation Cert.ReferenceIdeal.τ Cert.ReferenceIdeal.sig (Elt F)) : Valuation Cert.ReferenceIdeal.τ Cert.ReferenceIdeal.sig (Elt F) := after Cert.ReferenceIdeal.RefRun.st94 (rval94 V)
/-- The kernel's buffers after 96 stretches. -/
def kval96 (W : Valuation Cert.KernelIdeal.τ Cert.KernelIdeal.sig (Elt F)) : Valuation Cert.KernelIdeal.τ Cert.KernelIdeal.sig (Elt F) := after Cert.KernelIdeal.KHost.st95 (kval95 W)
/-- The reference's buffers after 96 stretches. -/
def rval96 (V : Valuation Cert.ReferenceIdeal.τ Cert.ReferenceIdeal.sig (Elt F)) : Valuation Cert.ReferenceIdeal.τ Cert.ReferenceIdeal.sig (Elt F) := after Cert.ReferenceIdeal.RefRun.st95 (rval95 V)
/-- The kernel's buffers after 97 stretches. -/
def kval97 (W : Valuation Cert.KernelIdeal.τ Cert.KernelIdeal.sig (Elt F)) : Valuation Cert.KernelIdeal.τ Cert.KernelIdeal.sig (Elt F) := after Cert.KernelIdeal.KHost.st96 (kval96 W)
/-- The reference's buffers after 97 stretches. -/
def rval97 (V : Valuation Cert.ReferenceIdeal.τ Cert.ReferenceIdeal.sig (Elt F)) : Valuation Cert.ReferenceIdeal.τ Cert.ReferenceIdeal.sig (Elt F) := after Cert.ReferenceIdeal.RefRun.st96 (rval96 V)
/-- The kernel's buffers after 98 stretches. -/
def kval98 (W : Valuation Cert.KernelIdeal.τ Cert.KernelIdeal.sig (Elt F)) : Valuation Cert.KernelIdeal.τ Cert.KernelIdeal.sig (Elt F) := after Cert.KernelIdeal.KHost.st97 (kval97 W)
/-- The reference's buffers after 98 stretches. -/
def rval98 (V : Valuation Cert.ReferenceIdeal.τ Cert.ReferenceIdeal.sig (Elt F)) : Valuation Cert.ReferenceIdeal.τ Cert.ReferenceIdeal.sig (Elt F) := after Cert.ReferenceIdeal.RefRun.st97 (rval97 V)
/-- The kernel's buffers after 99 stretches. -/
def kval99 (W : Valuation Cert.KernelIdeal.τ Cert.KernelIdeal.sig (Elt F)) : Valuation Cert.KernelIdeal.τ Cert.KernelIdeal.sig (Elt F) := after Cert.KernelIdeal.KHost.st98 (kval98 W)
/-- The reference's buffers after 99 stretches. -/
def rval99 (V : Valuation Cert.ReferenceIdeal.τ Cert.ReferenceIdeal.sig (Elt F)) : Valuation Cert.ReferenceIdeal.τ Cert.ReferenceIdeal.sig (Elt F) := after Cert.ReferenceIdeal.RefRun.st98 (rval98 V)
/-- The kernel's buffers after 100 stretches. -/
def kval100 (W : Valuation Cert.KernelIdeal.τ Cert.KernelIdeal.sig (Elt F)) : Valuation Cert.KernelIdeal.τ Cert.KernelIdeal.sig (Elt F) := after Cert.KernelIdeal.KHost.st99 (kval99 W)
/-- The reference's buffers after 100 stretches. -/
def rval100 (V : Valuation Cert.ReferenceIdeal.τ Cert.ReferenceIdeal.sig (Elt F)) : Valuation Cert.ReferenceIdeal.τ Cert.ReferenceIdeal.sig (Elt F) := after Cert.ReferenceIdeal.RefRun.st99 (rval99 V)
/-- The kernel's buffers after 101 stretches. -/
def kval101 (W : Valuation Cert.KernelIdeal.τ Cert.KernelIdeal.sig (Elt F)) : Valuation Cert.KernelIdeal.τ Cert.KernelIdeal.sig (Elt F) := after Cert.KernelIdeal.KHost.st100 (kval100 W)
/-- The reference's buffers after 101 stretches. -/
def rval101 (V : Valuation Cert.ReferenceIdeal.τ Cert.ReferenceIdeal.sig (Elt F)) : Valuation Cert.ReferenceIdeal.τ Cert.ReferenceIdeal.sig (Elt F) := after Cert.ReferenceIdeal.RefRun.st100 (rval100 V)
/-- The kernel's buffers after 102 stretches. -/
def kval102 (W : Valuation Cert.KernelIdeal.τ Cert.KernelIdeal.sig (Elt F)) : Valuation Cert.KernelIdeal.τ Cert.KernelIdeal.sig (Elt F) := after Cert.KernelIdeal.KHost.st101 (kval101 W)
/-- The reference's buffers after 102 stretches. -/
def rval102 (V : Valuation Cert.ReferenceIdeal.τ Cert.ReferenceIdeal.sig (Elt F)) : Valuation Cert.ReferenceIdeal.τ Cert.ReferenceIdeal.sig (Elt F) := after Cert.ReferenceIdeal.RefRun.st101 (rval101 V)
/-- The kernel's buffers after 103 stretches. -/
def kval103 (W : Valuation Cert.KernelIdeal.τ Cert.KernelIdeal.sig (Elt F)) : Valuation Cert.KernelIdeal.τ Cert.KernelIdeal.sig (Elt F) := after Cert.KernelIdeal.KHost.st102 (kval102 W)
/-- The reference's buffers after 103 stretches. -/
def rval103 (V : Valuation Cert.ReferenceIdeal.τ Cert.ReferenceIdeal.sig (Elt F)) : Valuation Cert.ReferenceIdeal.τ Cert.ReferenceIdeal.sig (Elt F) := after Cert.ReferenceIdeal.RefRun.st102 (rval102 V)
/-- The kernel's buffers after 104 stretches. -/
def kval104 (W : Valuation Cert.KernelIdeal.τ Cert.KernelIdeal.sig (Elt F)) : Valuation Cert.KernelIdeal.τ Cert.KernelIdeal.sig (Elt F) := after Cert.KernelIdeal.KHost.st103 (kval103 W)
/-- The reference's buffers after 104 stretches. -/
def rval104 (V : Valuation Cert.ReferenceIdeal.τ Cert.ReferenceIdeal.sig (Elt F)) : Valuation Cert.ReferenceIdeal.τ Cert.ReferenceIdeal.sig (Elt F) := after Cert.ReferenceIdeal.RefRun.st103 (rval103 V)
/-- The kernel's buffers after 105 stretches. -/
def kval105 (W : Valuation Cert.KernelIdeal.τ Cert.KernelIdeal.sig (Elt F)) : Valuation Cert.KernelIdeal.τ Cert.KernelIdeal.sig (Elt F) := after Cert.KernelIdeal.KHost.st104 (kval104 W)
/-- The reference's buffers after 105 stretches. -/
def rval105 (V : Valuation Cert.ReferenceIdeal.τ Cert.ReferenceIdeal.sig (Elt F)) : Valuation Cert.ReferenceIdeal.τ Cert.ReferenceIdeal.sig (Elt F) := after Cert.ReferenceIdeal.RefRun.st104 (rval104 V)
/-- The kernel's buffers after 106 stretches. -/
def kval106 (W : Valuation Cert.KernelIdeal.τ Cert.KernelIdeal.sig (Elt F)) : Valuation Cert.KernelIdeal.τ Cert.KernelIdeal.sig (Elt F) := after Cert.KernelIdeal.KHost.st105 (kval105 W)
/-- The reference's buffers after 106 stretches. -/
def rval106 (V : Valuation Cert.ReferenceIdeal.τ Cert.ReferenceIdeal.sig (Elt F)) : Valuation Cert.ReferenceIdeal.τ Cert.ReferenceIdeal.sig (Elt F) := after Cert.ReferenceIdeal.RefRun.st105 (rval105 V)
/-- The kernel's buffers after 107 stretches. -/
def kval107 (W : Valuation Cert.KernelIdeal.τ Cert.KernelIdeal.sig (Elt F)) : Valuation Cert.KernelIdeal.τ Cert.KernelIdeal.sig (Elt F) := after Cert.KernelIdeal.KHost.st106 (kval106 W)
/-- The reference's buffers after 107 stretches. -/
def rval107 (V : Valuation Cert.ReferenceIdeal.τ Cert.ReferenceIdeal.sig (Elt F)) : Valuation Cert.ReferenceIdeal.τ Cert.ReferenceIdeal.sig (Elt F) := after Cert.ReferenceIdeal.RefRun.st106 (rval106 V)
/-- The kernel's buffers after 108 stretches. -/
def kval108 (W : Valuation Cert.KernelIdeal.τ Cert.KernelIdeal.sig (Elt F)) : Valuation Cert.KernelIdeal.τ Cert.KernelIdeal.sig (Elt F) := after Cert.KernelIdeal.KHost.st107 (kval107 W)
/-- The reference's buffers after 108 stretches. -/
def rval108 (V : Valuation Cert.ReferenceIdeal.τ Cert.ReferenceIdeal.sig (Elt F)) : Valuation Cert.ReferenceIdeal.τ Cert.ReferenceIdeal.sig (Elt F) := after Cert.ReferenceIdeal.RefRun.st107 (rval107 V)
/-- The kernel's buffers after 109 stretches. -/
def kval109 (W : Valuation Cert.KernelIdeal.τ Cert.KernelIdeal.sig (Elt F)) : Valuation Cert.KernelIdeal.τ Cert.KernelIdeal.sig (Elt F) := after Cert.KernelIdeal.KHost.st108 (kval108 W)
/-- The reference's buffers after 109 stretches. -/
def rval109 (V : Valuation Cert.ReferenceIdeal.τ Cert.ReferenceIdeal.sig (Elt F)) : Valuation Cert.ReferenceIdeal.τ Cert.ReferenceIdeal.sig (Elt F) := after Cert.ReferenceIdeal.RefRun.st108 (rval108 V)
/-- The kernel's buffers after 110 stretches. -/
def kval110 (W : Valuation Cert.KernelIdeal.τ Cert.KernelIdeal.sig (Elt F)) : Valuation Cert.KernelIdeal.τ Cert.KernelIdeal.sig (Elt F) := after Cert.KernelIdeal.KHost.st109 (kval109 W)
/-- The reference's buffers after 110 stretches. -/
def rval110 (V : Valuation Cert.ReferenceIdeal.τ Cert.ReferenceIdeal.sig (Elt F)) : Valuation Cert.ReferenceIdeal.τ Cert.ReferenceIdeal.sig (Elt F) := after Cert.ReferenceIdeal.RefRun.st109 (rval109 V)
/-- The kernel's buffers after 111 stretches. -/
def kval111 (W : Valuation Cert.KernelIdeal.τ Cert.KernelIdeal.sig (Elt F)) : Valuation Cert.KernelIdeal.τ Cert.KernelIdeal.sig (Elt F) := after Cert.KernelIdeal.KHost.st110 (kval110 W)
/-- The reference's buffers after 111 stretches. -/
def rval111 (V : Valuation Cert.ReferenceIdeal.τ Cert.ReferenceIdeal.sig (Elt F)) : Valuation Cert.ReferenceIdeal.τ Cert.ReferenceIdeal.sig (Elt F) := after Cert.ReferenceIdeal.RefRun.st110 (rval110 V)
/-- The kernel's buffers after 112 stretches. -/
def kval112 (W : Valuation Cert.KernelIdeal.τ Cert.KernelIdeal.sig (Elt F)) : Valuation Cert.KernelIdeal.τ Cert.KernelIdeal.sig (Elt F) := after Cert.KernelIdeal.KHost.st111 (kval111 W)
/-- The reference's buffers after 112 stretches. -/
def rval112 (V : Valuation Cert.ReferenceIdeal.τ Cert.ReferenceIdeal.sig (Elt F)) : Valuation Cert.ReferenceIdeal.τ Cert.ReferenceIdeal.sig (Elt F) := after Cert.ReferenceIdeal.RefRun.st111 (rval111 V)
/-- The kernel's buffers after 113 stretches. -/
def kval113 (W : Valuation Cert.KernelIdeal.τ Cert.KernelIdeal.sig (Elt F)) : Valuation Cert.KernelIdeal.τ Cert.KernelIdeal.sig (Elt F) := after Cert.KernelIdeal.KHost.st112 (kval112 W)
/-- The reference's buffers after 113 stretches. -/
def rval113 (V : Valuation Cert.ReferenceIdeal.τ Cert.ReferenceIdeal.sig (Elt F)) : Valuation Cert.ReferenceIdeal.τ Cert.ReferenceIdeal.sig (Elt F) := after Cert.ReferenceIdeal.RefRun.st112 (rval112 V)
/-- The kernel's buffers after 114 stretches. -/
def kval114 (W : Valuation Cert.KernelIdeal.τ Cert.KernelIdeal.sig (Elt F)) : Valuation Cert.KernelIdeal.τ Cert.KernelIdeal.sig (Elt F) := after Cert.KernelIdeal.KHost.st113 (kval113 W)
/-- The reference's buffers after 114 stretches. -/
def rval114 (V : Valuation Cert.ReferenceIdeal.τ Cert.ReferenceIdeal.sig (Elt F)) : Valuation Cert.ReferenceIdeal.τ Cert.ReferenceIdeal.sig (Elt F) := after Cert.ReferenceIdeal.RefRun.st113 (rval113 V)
/-- The kernel's buffers after 115 stretches. -/
def kval115 (W : Valuation Cert.KernelIdeal.τ Cert.KernelIdeal.sig (Elt F)) : Valuation Cert.KernelIdeal.τ Cert.KernelIdeal.sig (Elt F) := after Cert.KernelIdeal.KHost.st114 (kval114 W)
/-- The reference's buffers after 115 stretches. -/
def rval115 (V : Valuation Cert.ReferenceIdeal.τ Cert.ReferenceIdeal.sig (Elt F)) : Valuation Cert.ReferenceIdeal.τ Cert.ReferenceIdeal.sig (Elt F) := after Cert.ReferenceIdeal.RefRun.st114 (rval114 V)
/-- The kernel's buffers after 116 stretches. -/
def kval116 (W : Valuation Cert.KernelIdeal.τ Cert.KernelIdeal.sig (Elt F)) : Valuation Cert.KernelIdeal.τ Cert.KernelIdeal.sig (Elt F) := after Cert.KernelIdeal.KHost.st115 (kval115 W)
/-- The reference's buffers after 116 stretches. -/
def rval116 (V : Valuation Cert.ReferenceIdeal.τ Cert.ReferenceIdeal.sig (Elt F)) : Valuation Cert.ReferenceIdeal.τ Cert.ReferenceIdeal.sig (Elt F) := after Cert.ReferenceIdeal.RefRun.st115 (rval115 V)
/-- The kernel's buffers after 117 stretches. -/
def kval117 (W : Valuation Cert.KernelIdeal.τ Cert.KernelIdeal.sig (Elt F)) : Valuation Cert.KernelIdeal.τ Cert.KernelIdeal.sig (Elt F) := after Cert.KernelIdeal.KHost.st116 (kval116 W)
/-- The reference's buffers after 117 stretches. -/
def rval117 (V : Valuation Cert.ReferenceIdeal.τ Cert.ReferenceIdeal.sig (Elt F)) : Valuation Cert.ReferenceIdeal.τ Cert.ReferenceIdeal.sig (Elt F) := after Cert.ReferenceIdeal.RefRun.st116 (rval116 V)
/-- The kernel's buffers after 118 stretches. -/
def kval118 (W : Valuation Cert.KernelIdeal.τ Cert.KernelIdeal.sig (Elt F)) : Valuation Cert.KernelIdeal.τ Cert.KernelIdeal.sig (Elt F) := after Cert.KernelIdeal.KHost.st117 (kval117 W)
/-- The reference's buffers after 118 stretches. -/
def rval118 (V : Valuation Cert.ReferenceIdeal.τ Cert.ReferenceIdeal.sig (Elt F)) : Valuation Cert.ReferenceIdeal.τ Cert.ReferenceIdeal.sig (Elt F) := after Cert.ReferenceIdeal.RefRun.st117 (rval117 V)
/-- The kernel's buffers after 119 stretches. -/
def kval119 (W : Valuation Cert.KernelIdeal.τ Cert.KernelIdeal.sig (Elt F)) : Valuation Cert.KernelIdeal.τ Cert.KernelIdeal.sig (Elt F) := after Cert.KernelIdeal.KHost.st118 (kval118 W)
/-- The reference's buffers after 119 stretches. -/
def rval119 (V : Valuation Cert.ReferenceIdeal.τ Cert.ReferenceIdeal.sig (Elt F)) : Valuation Cert.ReferenceIdeal.τ Cert.ReferenceIdeal.sig (Elt F) := after Cert.ReferenceIdeal.RefRun.st118 (rval118 V)
/-- The kernel's buffers after 120 stretches. -/
def kval120 (W : Valuation Cert.KernelIdeal.τ Cert.KernelIdeal.sig (Elt F)) : Valuation Cert.KernelIdeal.τ Cert.KernelIdeal.sig (Elt F) := after Cert.KernelIdeal.KHost.st119 (kval119 W)
/-- The reference's buffers after 120 stretches. -/
def rval120 (V : Valuation Cert.ReferenceIdeal.τ Cert.ReferenceIdeal.sig (Elt F)) : Valuation Cert.ReferenceIdeal.τ Cert.ReferenceIdeal.sig (Elt F) := after Cert.ReferenceIdeal.RefRun.st119 (rval119 V)
/-- The kernel's buffers after 121 stretches. -/
def kval121 (W : Valuation Cert.KernelIdeal.τ Cert.KernelIdeal.sig (Elt F)) : Valuation Cert.KernelIdeal.τ Cert.KernelIdeal.sig (Elt F) := after Cert.KernelIdeal.KHost.st120 (kval120 W)
/-- The reference's buffers after 121 stretches. -/
def rval121 (V : Valuation Cert.ReferenceIdeal.τ Cert.ReferenceIdeal.sig (Elt F)) : Valuation Cert.ReferenceIdeal.τ Cert.ReferenceIdeal.sig (Elt F) := after Cert.ReferenceIdeal.RefRun.st120 (rval120 V)
/-- The kernel's buffers after 122 stretches. -/
def kval122 (W : Valuation Cert.KernelIdeal.τ Cert.KernelIdeal.sig (Elt F)) : Valuation Cert.KernelIdeal.τ Cert.KernelIdeal.sig (Elt F) := after Cert.KernelIdeal.KHost.st121 (kval121 W)
/-- The reference's buffers after 122 stretches. -/
def rval122 (V : Valuation Cert.ReferenceIdeal.τ Cert.ReferenceIdeal.sig (Elt F)) : Valuation Cert.ReferenceIdeal.τ Cert.ReferenceIdeal.sig (Elt F) := after Cert.ReferenceIdeal.RefRun.st121 (rval121 V)
/-- The kernel's buffers after 123 stretches. -/
def kval123 (W : Valuation Cert.KernelIdeal.τ Cert.KernelIdeal.sig (Elt F)) : Valuation Cert.KernelIdeal.τ Cert.KernelIdeal.sig (Elt F) := after Cert.KernelIdeal.KHost.st122 (kval122 W)
/-- The reference's buffers after 123 stretches. -/
def rval123 (V : Valuation Cert.ReferenceIdeal.τ Cert.ReferenceIdeal.sig (Elt F)) : Valuation Cert.ReferenceIdeal.τ Cert.ReferenceIdeal.sig (Elt F) := after Cert.ReferenceIdeal.RefRun.st122 (rval122 V)
/-- The kernel's buffers after 124 stretches. -/
def kval124 (W : Valuation Cert.KernelIdeal.τ Cert.KernelIdeal.sig (Elt F)) : Valuation Cert.KernelIdeal.τ Cert.KernelIdeal.sig (Elt F) := after Cert.KernelIdeal.KHost.st123 (kval123 W)
/-- The reference's buffers after 124 stretches. -/
def rval124 (V : Valuation Cert.ReferenceIdeal.τ Cert.ReferenceIdeal.sig (Elt F)) : Valuation Cert.ReferenceIdeal.τ Cert.ReferenceIdeal.sig (Elt F) := after Cert.ReferenceIdeal.RefRun.st123 (rval123 V)
/-- The kernel's buffers after 125 stretches. -/
def kval125 (W : Valuation Cert.KernelIdeal.τ Cert.KernelIdeal.sig (Elt F)) : Valuation Cert.KernelIdeal.τ Cert.KernelIdeal.sig (Elt F) := after Cert.KernelIdeal.KHost.st124 (kval124 W)
/-- The reference's buffers after 125 stretches. -/
def rval125 (V : Valuation Cert.ReferenceIdeal.τ Cert.ReferenceIdeal.sig (Elt F)) : Valuation Cert.ReferenceIdeal.τ Cert.ReferenceIdeal.sig (Elt F) := after Cert.ReferenceIdeal.RefRun.st124 (rval124 V)
/-- The kernel's buffers after 126 stretches. -/
def kval126 (W : Valuation Cert.KernelIdeal.τ Cert.KernelIdeal.sig (Elt F)) : Valuation Cert.KernelIdeal.τ Cert.KernelIdeal.sig (Elt F) := after Cert.KernelIdeal.KHost.st125 (kval125 W)
/-- The reference's buffers after 126 stretches. -/
def rval126 (V : Valuation Cert.ReferenceIdeal.τ Cert.ReferenceIdeal.sig (Elt F)) : Valuation Cert.ReferenceIdeal.τ Cert.ReferenceIdeal.sig (Elt F) := after Cert.ReferenceIdeal.RefRun.st125 (rval125 V)
/-- The kernel's buffers after 127 stretches. -/
def kval127 (W : Valuation Cert.KernelIdeal.τ Cert.KernelIdeal.sig (Elt F)) : Valuation Cert.KernelIdeal.τ Cert.KernelIdeal.sig (Elt F) := after Cert.KernelIdeal.KHost.st126 (kval126 W)
/-- The reference's buffers after 127 stretches. -/
def rval127 (V : Valuation Cert.ReferenceIdeal.τ Cert.ReferenceIdeal.sig (Elt F)) : Valuation Cert.ReferenceIdeal.τ Cert.ReferenceIdeal.sig (Elt F) := after Cert.ReferenceIdeal.RefRun.st126 (rval126 V)
/-- The kernel's buffers after 128 stretches. -/
def kval128 (W : Valuation Cert.KernelIdeal.τ Cert.KernelIdeal.sig (Elt F)) : Valuation Cert.KernelIdeal.τ Cert.KernelIdeal.sig (Elt F) := after Cert.KernelIdeal.KHost.st127 (kval127 W)
/-- The reference's buffers after 128 stretches. -/
def rval128 (V : Valuation Cert.ReferenceIdeal.τ Cert.ReferenceIdeal.sig (Elt F)) : Valuation Cert.ReferenceIdeal.τ Cert.ReferenceIdeal.sig (Elt F) := after Cert.ReferenceIdeal.RefRun.st127 (rval127 V)
/-- The kernel's buffers after 129 stretches. -/
def kval129 (W : Valuation Cert.KernelIdeal.τ Cert.KernelIdeal.sig (Elt F)) : Valuation Cert.KernelIdeal.τ Cert.KernelIdeal.sig (Elt F) := after Cert.KernelIdeal.KHost.st128 (kval128 W)
/-- The reference's buffers after 129 stretches. -/
def rval129 (V : Valuation Cert.ReferenceIdeal.τ Cert.ReferenceIdeal.sig (Elt F)) : Valuation Cert.ReferenceIdeal.τ Cert.ReferenceIdeal.sig (Elt F) := after Cert.ReferenceIdeal.RefRun.st128 (rval128 V)
/-- The kernel's buffers after 130 stretches. -/
def kval130 (W : Valuation Cert.KernelIdeal.τ Cert.KernelIdeal.sig (Elt F)) : Valuation Cert.KernelIdeal.τ Cert.KernelIdeal.sig (Elt F) := after Cert.KernelIdeal.KHost.st129 (kval129 W)
/-- The reference's buffers after 130 stretches. -/
def rval130 (V : Valuation Cert.ReferenceIdeal.τ Cert.ReferenceIdeal.sig (Elt F)) : Valuation Cert.ReferenceIdeal.τ Cert.ReferenceIdeal.sig (Elt F) := after Cert.ReferenceIdeal.RefRun.st129 (rval129 V)
/-- The kernel's buffers after 131 stretches. -/
def kval131 (W : Valuation Cert.KernelIdeal.τ Cert.KernelIdeal.sig (Elt F)) : Valuation Cert.KernelIdeal.τ Cert.KernelIdeal.sig (Elt F) := after Cert.KernelIdeal.KHost.st130 (kval130 W)
/-- The reference's buffers after 131 stretches. -/
def rval131 (V : Valuation Cert.ReferenceIdeal.τ Cert.ReferenceIdeal.sig (Elt F)) : Valuation Cert.ReferenceIdeal.τ Cert.ReferenceIdeal.sig (Elt F) := after Cert.ReferenceIdeal.RefRun.st130 (rval130 V)

/-- Boundary 0: every buffer written before it and read after it holds the same contents in the two programs' memories (each equation at the buffer's own array type, written out: the two programs' buffer tables are never compared). -/
structure Agree0 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))

/-- Boundary 1: every buffer written before it and read after it holds the same contents in the two programs' memories (each equation at the buffer's own array type, written out: the two programs' buffer tables are never compared). -/
structure Agree1 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v6 : @Eq ((⟨⟨3, ![1024, 16, 16]⟩, .f32⟩ : BufTy).Contents (Elt F)) (W (no_index (Proc.devRef .tc Cert.KernelIdeal.main_v6))) (V (Proc.devRef .tc Cert.ReferenceIdeal.main_v6))
  main_v8 : @Eq ((⟨⟨2, ![1024, 16]⟩, .f32⟩ : BufTy).Contents (Elt F)) (W (no_index (Proc.devRef .tc Cert.KernelIdeal.main_v8))) (V (Proc.devRef .tc Cert.ReferenceIdeal.main_v8))
  main_v12 : @Eq ((⟨⟨2, ![1024, 1]⟩, .f32⟩ : BufTy).Contents (Elt F)) (W (no_index (Proc.devRef .tc Cert.KernelIdeal.main_v12))) (V (Proc.devRef .tc Cert.ReferenceIdeal.main_v12))
  main_v14 : @Eq ((⟨⟨2, ![1024, 1]⟩, .f32⟩ : BufTy).Contents (Elt F)) (W (no_index (Proc.devRef .tc Cert.KernelIdeal.main_v14))) (V (Proc.devRef .tc Cert.ReferenceIdeal.main_v14))
  main_v16 : @Eq ((⟨⟨2, ![1024, 16]⟩, .f32⟩ : BufTy).Contents (Elt F)) (W (no_index (Proc.devRef .tc Cert.KernelIdeal.main_v16))) (V (Proc.devRef .tc Cert.ReferenceIdeal.main_v16))
  main_v18 : @Eq ((⟨⟨2, ![1024, 16]⟩, .f32⟩ : BufTy).Contents (Elt F)) (W (no_index (Proc.devRef .tc Cert.KernelIdeal.main_v18))) (V (Proc.devRef .tc Cert.ReferenceIdeal.main_v18))

/-- Boundary 2: every buffer written before it and read after it holds the same contents in the two programs' memories (each equation at the buffer's own array type, written out: the two programs' buffer tables are never compared). -/
structure Agree2 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v21 : @Eq ((⟨⟨2, ![1024, 16]⟩, .f32⟩ : BufTy).Contents (Elt F)) (W (no_index (Proc.devRef .tc Cert.KernelIdeal.main_v21))) (V (Proc.devRef .tc Cert.ReferenceIdeal.main_v21))
  main_v28 : @Eq ((⟨⟨3, ![1024, 16, 16]⟩, .f32⟩ : BufTy).Contents (Elt F)) (W (no_index (Proc.devRef .tc Cert.KernelIdeal.main_v28))) (V (Proc.devRef .tc Cert.ReferenceIdeal.main_v28))
  main_v32 : @Eq ((⟨⟨2, ![1024, 1]⟩, .f32⟩ : BufTy).Contents (Elt F)) (W (no_index (Proc.devRef .tc Cert.KernelIdeal.main_v32))) (V (Proc.devRef .tc Cert.ReferenceIdeal.main_v32))
  main_v34 : @Eq ((⟨⟨2, ![1024, 1]⟩, .f32⟩ : BufTy).Contents (Elt F)) (W (no_index (Proc.devRef .tc Cert.KernelIdeal.main_v34))) (V (Proc.devRef .tc Cert.ReferenceIdeal.main_v34))
  main_v36 : @Eq ((⟨⟨2, ![1024, 16]⟩, .f32⟩ : BufTy).Contents (Elt F)) (W (no_index (Proc.devRef .tc Cert.KernelIdeal.main_v36))) (V (Proc.devRef .tc Cert.ReferenceIdeal.main_v36))
  main_v37 : @Eq ((⟨⟨2, ![1024, 16]⟩, .f32⟩ : BufTy).Contents (Elt F)) (W (no_index (Proc.devRef .tc Cert.KernelIdeal.main_v37))) (V (Proc.devRef .tc Cert.ReferenceIdeal.main_v37))

/-- Boundary 3: every buffer written before it and read after it holds the same contents in the two programs' memories (each equation at the buffer's own array type, written out: the two programs' buffer tables are never compared). -/
structure Agree3 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v41 : @Eq ((⟨⟨2, ![1024, 16]⟩, .f32⟩ : BufTy).Contents (Elt F)) (W (no_index (Proc.devRef .tc Cert.KernelIdeal.main_v41))) (V (Proc.devRef .tc Cert.ReferenceIdeal.main_v41))
  main_v48 : @Eq ((⟨⟨3, ![1024, 16, 16]⟩, .f32⟩ : BufTy).Contents (Elt F)) (W (no_index (Proc.devRef .tc Cert.KernelIdeal.main_v48))) (V (Proc.devRef .tc Cert.ReferenceIdeal.main_v48))
  main_v52 : @Eq ((⟨⟨2, ![1024, 1]⟩, .f32⟩ : BufTy).Contents (Elt F)) (W (no_index (Proc.devRef .tc Cert.KernelIdeal.main_v52))) (V (Proc.devRef .tc Cert.ReferenceIdeal.main_v52))
  main_v54 : @Eq ((⟨⟨2, ![1024, 1]⟩, .f32⟩ : BufTy).Contents (Elt F)) (W (no_index (Proc.devRef .tc Cert.KernelIdeal.main_v54))) (V (Proc.devRef .tc Cert.ReferenceIdeal.main_v54))
  main_v56 : @Eq ((⟨⟨2, ![1024, 16]⟩, .f32⟩ : BufTy).Contents (Elt F)) (W (no_index (Proc.devRef .tc Cert.KernelIdeal.main_v56))) (V (Proc.devRef .tc Cert.ReferenceIdeal.main_v56))

/-- Boundary 4: every buffer written before it and read after it holds the same contents in the two programs' memories (each equation at the buffer's own array type, written out: the two programs' buffer tables are never compared). -/
structure Agree4 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v61 : @Eq ((⟨⟨2, ![1024, 16]⟩, .f32⟩ : BufTy).Contents (Elt F)) (W (no_index (Proc.devRef .tc Cert.KernelIdeal.main_v61))) (V (Proc.devRef .tc Cert.ReferenceIdeal.main_v61))
  main_v68 : @Eq ((⟨⟨3, ![1024, 16, 16]⟩, .f32⟩ : BufTy).Contents (Elt F)) (W (no_index (Proc.devRef .tc Cert.KernelIdeal.main_v68))) (V (Proc.devRef .tc Cert.ReferenceIdeal.main_v68))
  main_v72 : @Eq ((⟨⟨2, ![1024, 1]⟩, .f32⟩ : BufTy).Contents (Elt F)) (W (no_index (Proc.devRef .tc Cert.KernelIdeal.main_v72))) (V (Proc.devRef .tc Cert.ReferenceIdeal.main_v72))
  main_v74 : @Eq ((⟨⟨2, ![1024, 1]⟩, .f32⟩ : BufTy).Contents (Elt F)) (W (no_index (Proc.devRef .tc Cert.KernelIdeal.main_v74))) (V (Proc.devRef .tc Cert.ReferenceIdeal.main_v74))
  main_v75 : @Eq ((⟨⟨3, ![1024, 1, 16]⟩, .f32⟩ : BufTy).Contents (Elt F)) (W (no_index (Proc.devRef .tc Cert.KernelIdeal.main_v75))) (V (Proc.devRef .tc Cert.ReferenceIdeal.main_v75))

/-- Boundary 5: every buffer written before it and read after it holds the same contents in the two programs' memories (each equation at the buffer's own array type, written out: the two programs' buffer tables are never compared). -/
structure Agree5 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v81 : @Eq ((⟨⟨2, ![1024, 16]⟩, .f32⟩ : BufTy).Contents (Elt F)) (W (no_index (Proc.devRef .tc Cert.KernelIdeal.main_v81))) (V (Proc.devRef .tc Cert.ReferenceIdeal.main_v81))
  main_v88 : @Eq ((⟨⟨3, ![1024, 16, 16]⟩, .f32⟩ : BufTy).Contents (Elt F)) (W (no_index (Proc.devRef .tc Cert.KernelIdeal.main_v88))) (V (Proc.devRef .tc Cert.ReferenceIdeal.main_v88))
  main_v92 : @Eq ((⟨⟨2, ![1024, 1]⟩, .f32⟩ : BufTy).Contents (Elt F)) (W (no_index (Proc.devRef .tc Cert.KernelIdeal.main_v92))) (V (Proc.devRef .tc Cert.ReferenceIdeal.main_v92))
  main_v94 : @Eq ((⟨⟨2, ![1024, 1]⟩, .f32⟩ : BufTy).Contents (Elt F)) (W (no_index (Proc.devRef .tc Cert.KernelIdeal.main_v94))) (V (Proc.devRef .tc Cert.ReferenceIdeal.main_v94))

/-- Boundary 6: every buffer written before it and read after it holds the same contents in the two programs' memories (each equation at the buffer's own array type, written out: the two programs' buffer tables are never compared). -/
structure Agree6 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v101 : @Eq ((⟨⟨2, ![1024, 16]⟩, .f32⟩ : BufTy).Contents (Elt F)) (W (no_index (Proc.devRef .tc Cert.KernelIdeal.main_v101))) (V (Proc.devRef .tc Cert.ReferenceIdeal.main_v101))
  main_v108 : @Eq ((⟨⟨3, ![1024, 16, 16]⟩, .f32⟩ : BufTy).Contents (Elt F)) (W (no_index (Proc.devRef .tc Cert.KernelIdeal.main_v108))) (V (Proc.devRef .tc Cert.ReferenceIdeal.main_v108))
  main_v112 : @Eq ((⟨⟨2, ![1024, 1]⟩, .f32⟩ : BufTy).Contents (Elt F)) (W (no_index (Proc.devRef .tc Cert.KernelIdeal.main_v112))) (V (Proc.devRef .tc Cert.ReferenceIdeal.main_v112))
  main_v113 : @Eq ((⟨⟨1, ![1024]⟩, .f32⟩ : BufTy).Contents (Elt F)) (W (no_index (Proc.devRef .tc Cert.KernelIdeal.main_v113))) (V (Proc.devRef .tc Cert.ReferenceIdeal.main_v113))

/-- Boundary 7: every buffer written before it and read after it holds the same contents in the two programs' memories (each equation at the buffer's own array type, written out: the two programs' buffer tables are never compared). -/
structure Agree7 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v121 : @Eq ((⟨⟨2, ![1024, 16]⟩, .f32⟩ : BufTy).Contents (Elt F)) (W (no_index (Proc.devRef .tc Cert.KernelIdeal.main_v121))) (V (Proc.devRef .tc Cert.ReferenceIdeal.main_v121))
  main_v128 : @Eq ((⟨⟨3, ![1024, 16, 16]⟩, .f32⟩ : BufTy).Contents (Elt F)) (W (no_index (Proc.devRef .tc Cert.KernelIdeal.main_v128))) (V (Proc.devRef .tc Cert.ReferenceIdeal.main_v128))
  main_v130 : @Eq ((⟨⟨1, ![1024]⟩, .f32⟩ : BufTy).Contents (Elt F)) (W (no_index (Proc.devRef .tc Cert.KernelIdeal.main_v130))) (V (Proc.devRef .tc Cert.ReferenceIdeal.main_v130))
  main_v132 : @Eq ((⟨⟨2, ![1024, 1]⟩, .f32⟩ : BufTy).Contents (Elt F)) (W (no_index (Proc.devRef .tc Cert.KernelIdeal.main_v132))) (V (Proc.devRef .tc Cert.ReferenceIdeal.main_v132))

/-- Boundary 8: every buffer written before it and read after it holds the same contents in the two programs' memories (each equation at the buffer's own array type, written out: the two programs' buffer tables are never compared). -/
structure Agree8 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v141 : @Eq ((⟨⟨2, ![1024, 16]⟩, .f32⟩ : BufTy).Contents (Elt F)) (W (no_index (Proc.devRef .tc Cert.KernelIdeal.main_v141))) (V (Proc.devRef .tc Cert.ReferenceIdeal.main_v141))
  main_v148 : @Eq ((⟨⟨3, ![1024, 16, 16]⟩, .f32⟩ : BufTy).Contents (Elt F)) (W (no_index (Proc.devRef .tc Cert.KernelIdeal.main_v148))) (V (Proc.devRef .tc Cert.ReferenceIdeal.main_v148))
  main_v150 : @Eq ((⟨⟨1, ![1024]⟩, .f32⟩ : BufTy).Contents (Elt F)) (W (no_index (Proc.devRef .tc Cert.KernelIdeal.main_v150))) (V (Proc.devRef .tc Cert.ReferenceIdeal.main_v150))
  main_v151 : @Eq ((⟨⟨1, ![1024]⟩, .f32⟩ : BufTy).Contents (Elt F)) (W (no_index (Proc.devRef .tc Cert.KernelIdeal.main_v151))) (V (Proc.devRef .tc Cert.ReferenceIdeal.main_v151))

/-- Boundary 9: every buffer written before it and read after it holds the same contents in the two programs' memories (each equation at the buffer's own array type, written out: the two programs' buffer tables are never compared). -/
structure Agree9 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v161 : @Eq ((⟨⟨2, ![1024, 16]⟩, .f32⟩ : BufTy).Contents (Elt F)) (W (no_index (Proc.devRef .tc Cert.KernelIdeal.main_v161))) (V (Proc.devRef .tc Cert.ReferenceIdeal.main_v161))
  main_v168 : @Eq ((⟨⟨3, ![1024, 16, 16]⟩, .f32⟩ : BufTy).Contents (Elt F)) (W (no_index (Proc.devRef .tc Cert.KernelIdeal.main_v168))) (V (Proc.devRef .tc Cert.ReferenceIdeal.main_v168))
  main_v170 : @Eq ((⟨⟨1, ![1024]⟩, .f32⟩ : BufTy).Contents (Elt F)) (W (no_index (Proc.devRef .tc Cert.KernelIdeal.main_v170))) (V (Proc.devRef .tc Cert.ReferenceIdeal.main_v170))

/-- Boundary 10: every buffer written before it and read after it holds the same contents in the two programs' memories (each equation at the buffer's own array type, written out: the two programs' buffer tables are never compared). -/
structure Agree10 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v181 : @Eq ((⟨⟨2, ![1024, 16]⟩, .f32⟩ : BufTy).Contents (Elt F)) (W (no_index (Proc.devRef .tc Cert.KernelIdeal.main_v181))) (V (Proc.devRef .tc Cert.ReferenceIdeal.main_v181))
  main_v188 : @Eq ((⟨⟨3, ![1024, 16, 16]⟩, .f32⟩ : BufTy).Contents (Elt F)) (W (no_index (Proc.devRef .tc Cert.KernelIdeal.main_v188))) (V (Proc.devRef .tc Cert.ReferenceIdeal.main_v188))
  main_v189 : @Eq ((⟨⟨2, ![1024, 1]⟩, .f32⟩ : BufTy).Contents (Elt F)) (W (no_index (Proc.devRef .tc Cert.KernelIdeal.main_v189))) (V (Proc.devRef .tc Cert.ReferenceIdeal.main_v189))

/-- Boundary 11: every buffer written before it and read after it holds the same contents in the two programs' memories (each equation at the buffer's own array type, written out: the two programs' buffer tables are never compared). -/
structure Agree11 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v201 : @Eq ((⟨⟨2, ![1024, 16]⟩, .f32⟩ : BufTy).Contents (Elt F)) (W (no_index (Proc.devRef .tc Cert.KernelIdeal.main_v201))) (V (Proc.devRef .tc Cert.ReferenceIdeal.main_v201))
  main_v208 : @Eq ((⟨⟨3, ![1024, 16, 16]⟩, .f32⟩ : BufTy).Contents (Elt F)) (W (no_index (Proc.devRef .tc Cert.KernelIdeal.main_v208))) (V (Proc.devRef .tc Cert.ReferenceIdeal.main_v208))

/-- Boundary 12: every buffer written before it and read after it holds the same contents in the two programs' memories (each equation at the buffer's own array type, written out: the two programs' buffer tables are never compared). -/
structure Agree12 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v208 : @Eq ((⟨⟨3, ![1024, 16, 16]⟩, .f32⟩ : BufTy).Contents (Elt F)) (W (no_index (Proc.devRef .tc Cert.KernelIdeal.main_v208))) (V (Proc.devRef .tc Cert.ReferenceIdeal.main_v208))
  main_v221 : @Eq ((⟨⟨2, ![1024, 16]⟩, .f32⟩ : BufTy).Contents (Elt F)) (W (no_index (Proc.devRef .tc Cert.KernelIdeal.main_v221))) (V (Proc.devRef .tc Cert.ReferenceIdeal.main_v221))
  main_v226 : @Eq ((⟨⟨2, ![1024, 16]⟩, .f32⟩ : BufTy).Contents (Elt F)) (W (no_index (Proc.devRef .tc Cert.KernelIdeal.main_v226))) (V (Proc.devRef .tc Cert.ReferenceIdeal.main_v226))
  main_v227 : @Eq ((⟨⟨1, ![1]⟩, .i32⟩ : BufTy).Contents (Elt F)) (W (no_index (Proc.devRef .tc Cert.KernelIdeal.main_v227))) (V (Proc.devRef .tc Cert.ReferenceIdeal.main_v227))

/-- Boundary 13: every buffer written before it and read after it holds the same contents in the two programs' memories (each equation at the buffer's own array type, written out: the two programs' buffer tables are never compared). -/
structure Agree13 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v228 : @Eq ((⟨⟨3, ![1024, 16, 16]⟩, .f32⟩ : BufTy).Contents (Elt F)) (W (no_index (Proc.devRef .tc Cert.KernelIdeal.main_v228))) (V (Proc.devRef .tc Cert.ReferenceIdeal.main_v228))
  main_v241 : @Eq ((⟨⟨2, ![1024, 16]⟩, .f32⟩ : BufTy).Contents (Elt F)) (W (no_index (Proc.devRef .tc Cert.KernelIdeal.main_v241))) (V (Proc.devRef .tc Cert.ReferenceIdeal.main_v241))
  main_v246 : @Eq ((⟨⟨2, ![1024, 16]⟩, .f32⟩ : BufTy).Contents (Elt F)) (W (no_index (Proc.devRef .tc Cert.KernelIdeal.main_v246))) (V (Proc.devRef .tc Cert.ReferenceIdeal.main_v246))
  main_c_11 : @Eq ((⟨⟨0, ![]⟩, .i32⟩ : BufTy).Contents (Elt F)) (W (no_index (Proc.devRef .tc Cert.KernelIdeal.main_c_11))) (V (Proc.devRef .tc Cert.ReferenceIdeal.main_c_11))

/-- Boundary 14: every buffer written before it and read after it holds the same contents in the two programs' memories (each equation at the buffer's own array type, written out: the two programs' buffer tables are never compared). -/
structure Agree14 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v248 : @Eq ((⟨⟨3, ![1024, 16, 16]⟩, .f32⟩ : BufTy).Contents (Elt F)) (W (no_index (Proc.devRef .tc Cert.KernelIdeal.main_v248))) (V (Proc.devRef .tc Cert.ReferenceIdeal.main_v248))
  main_v261 : @Eq ((⟨⟨2, ![1024, 16]⟩, .f32⟩ : BufTy).Contents (Elt F)) (W (no_index (Proc.devRef .tc Cert.KernelIdeal.main_v261))) (V (Proc.devRef .tc Cert.ReferenceIdeal.main_v261))
  main_v266 : @Eq ((⟨⟨2, ![1024, 16]⟩, .f32⟩ : BufTy).Contents (Elt F)) (W (no_index (Proc.devRef .tc Cert.KernelIdeal.main_v266))) (V (Proc.devRef .tc Cert.ReferenceIdeal.main_v266))

/-- Boundary 15: every buffer written before it and read after it holds the same contents in the two programs' memories (each equation at the buffer's own array type, written out: the two programs' buffer tables are never compared). -/
structure Agree15 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v268 : @Eq ((⟨⟨3, ![1024, 16, 16]⟩, .f32⟩ : BufTy).Contents (Elt F)) (W (no_index (Proc.devRef .tc Cert.KernelIdeal.main_v268))) (V (Proc.devRef .tc Cert.ReferenceIdeal.main_v268))
  main_v281 : @Eq ((⟨⟨2, ![1024, 16]⟩, .f32⟩ : BufTy).Contents (Elt F)) (W (no_index (Proc.devRef .tc Cert.KernelIdeal.main_v281))) (V (Proc.devRef .tc Cert.ReferenceIdeal.main_v281))
  main_v283 : @Eq ((⟨⟨2, ![1024, 16]⟩, .f32⟩ : BufTy).Contents (Elt F)) (W (no_index (Proc.devRef .tc Cert.KernelIdeal.main_v283))) (V (Proc.devRef .tc Cert.ReferenceIdeal.main_v283))
  main_v285 : @Eq ((⟨⟨2, ![1024, 16]⟩, .f32⟩ : BufTy).Contents (Elt F)) (W (no_index (Proc.devRef .tc Cert.KernelIdeal.main_v285))) (V (Proc.devRef .tc Cert.ReferenceIdeal.main_v285))

/-- Boundary 16: every buffer written before it and read after it holds the same contents in the two programs' memories (each equation at the buffer's own array type, written out: the two programs' buffer tables are never compared). -/
structure Agree16 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v288 : @Eq ((⟨⟨3, ![1024, 16, 16]⟩, .f32⟩ : BufTy).Contents (Elt F)) (W (no_index (Proc.devRef .tc Cert.KernelIdeal.main_v288))) (V (Proc.devRef .tc Cert.ReferenceIdeal.main_v288))
  main_v296 : @Eq ((⟨⟨2, ![1024, 16]⟩, .f32⟩ : BufTy).Contents (Elt F)) (W (no_index (Proc.devRef .tc Cert.KernelIdeal.main_v296))) (V (Proc.devRef .tc Cert.ReferenceIdeal.main_v296))
  main_v301 : @Eq ((⟨⟨2, ![1024, 16]⟩, .f32⟩ : BufTy).Contents (Elt F)) (W (no_index (Proc.devRef .tc Cert.KernelIdeal.main_v301))) (V (Proc.devRef .tc Cert.ReferenceIdeal.main_v301))
  main_v303 : @Eq ((⟨⟨2, ![1024, 16]⟩, .f32⟩ : BufTy).Contents (Elt F)) (W (no_index (Proc.devRef .tc Cert.KernelIdeal.main_v303))) (V (Proc.devRef .tc Cert.ReferenceIdeal.main_v303))
  main_v304 : @Eq ((⟨⟨2, ![1024, 16]⟩, .f32⟩ : BufTy).Contents (Elt F)) (W (no_index (Proc.devRef .tc Cert.KernelIdeal.main_v304))) (V (Proc.devRef .tc Cert.ReferenceIdeal.main_v304))

/-- Boundary 17: every buffer written before it and read after it holds the same contents in the two programs' memories (each equation at the buffer's own array type, written out: the two programs' buffer tables are never compared). -/
structure Agree17 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v310 : @Eq ((⟨⟨3, ![1024, 16, 16]⟩, .f32⟩ : BufTy).Contents (Elt F)) (W (no_index (Proc.devRef .tc Cert.KernelIdeal.main_v310))) (V (Proc.devRef .tc Cert.ReferenceIdeal.main_v310))
  main_v312 : @Eq ((⟨⟨2, ![1024, 16]⟩, .f32⟩ : BufTy).Contents (Elt F)) (W (no_index (Proc.devRef .tc Cert.KernelIdeal.main_v312))) (V (Proc.devRef .tc Cert.ReferenceIdeal.main_v312))
  main_v316 : @Eq ((⟨⟨2, ![1024, 1]⟩, .f32⟩ : BufTy).Contents (Elt F)) (W (no_index (Proc.devRef .tc Cert.KernelIdeal.main_v316))) (V (Proc.devRef .tc Cert.ReferenceIdeal.main_v316))
  main_v318 : @Eq ((⟨⟨2, ![1024, 1]⟩, .f32⟩ : BufTy).Contents (Elt F)) (W (no_index (Proc.devRef .tc Cert.KernelIdeal.main_v318))) (V (Proc.devRef .tc Cert.ReferenceIdeal.main_v318))
  main_v320 : @Eq ((⟨⟨2, ![1024, 16]⟩, .f32⟩ : BufTy).Contents (Elt F)) (W (no_index (Proc.devRef .tc Cert.KernelIdeal.main_v320))) (V (Proc.devRef .tc Cert.ReferenceIdeal.main_v320))
  main_v322 : @Eq ((⟨⟨2, ![1024, 16]⟩, .f32⟩ : BufTy).Contents (Elt F)) (W (no_index (Proc.devRef .tc Cert.KernelIdeal.main_v322))) (V (Proc.devRef .tc Cert.ReferenceIdeal.main_v322))

/-- Boundary 18: every buffer written before it and read after it holds the same contents in the two programs' memories (each equation at the buffer's own array type, written out: the two programs' buffer tables are never compared). -/
structure Agree18 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v325 : @Eq ((⟨⟨2, ![1024, 16]⟩, .f32⟩ : BufTy).Contents (Elt F)) (W (no_index (Proc.devRef .tc Cert.KernelIdeal.main_v325))) (V (Proc.devRef .tc Cert.ReferenceIdeal.main_v325))
  main_v332 : @Eq ((⟨⟨3, ![1024, 16, 16]⟩, .f32⟩ : BufTy).Contents (Elt F)) (W (no_index (Proc.devRef .tc Cert.KernelIdeal.main_v332))) (V (Proc.devRef .tc Cert.ReferenceIdeal.main_v332))
  main_v336 : @Eq ((⟨⟨2, ![1024, 1]⟩, .f32⟩ : BufTy).Contents (Elt F)) (W (no_index (Proc.devRef .tc Cert.KernelIdeal.main_v336))) (V (Proc.devRef .tc Cert.ReferenceIdeal.main_v336))
  main_v338 : @Eq ((⟨⟨2, ![1024, 1]⟩, .f32⟩ : BufTy).Contents (Elt F)) (W (no_index (Proc.devRef .tc Cert.KernelIdeal.main_v338))) (V (Proc.devRef .tc Cert.ReferenceIdeal.main_v338))
  main_v340 : @Eq ((⟨⟨2, ![1024, 16]⟩, .f32⟩ : BufTy).Contents (Elt F)) (W (no_index (Proc.devRef .tc Cert.KernelIdeal.main_v340))) (V (Proc.devRef .tc Cert.ReferenceIdeal.main_v340))
  main_v341 : @Eq ((⟨⟨2, ![1024, 16]⟩, .f32⟩ : BufTy).Contents (Elt F)) (W (no_index (Proc.devRef .tc Cert.KernelIdeal.main_v341))) (V (Proc.devRef .tc Cert.ReferenceIdeal.main_v341))

/-- Boundary 19: every buffer written before it and read after it holds the same contents in the two programs' memories (each equation at the buffer's own array type, written out: the two programs' buffer tables are never compared). -/
structure Agree19 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v345 : @Eq ((⟨⟨2, ![1024, 16]⟩, .f32⟩ : BufTy).Contents (Elt F)) (W (no_index (Proc.devRef .tc Cert.KernelIdeal.main_v345))) (V (Proc.devRef .tc Cert.ReferenceIdeal.main_v345))
  main_v352 : @Eq ((⟨⟨3, ![1024, 16, 16]⟩, .f32⟩ : BufTy).Contents (Elt F)) (W (no_index (Proc.devRef .tc Cert.KernelIdeal.main_v352))) (V (Proc.devRef .tc Cert.ReferenceIdeal.main_v352))
  main_v356 : @Eq ((⟨⟨2, ![1024, 1]⟩, .f32⟩ : BufTy).Contents (Elt F)) (W (no_index (Proc.devRef .tc Cert.KernelIdeal.main_v356))) (V (Proc.devRef .tc Cert.ReferenceIdeal.main_v356))
  main_v358 : @Eq ((⟨⟨2, ![1024, 1]⟩, .f32⟩ : BufTy).Contents (Elt F)) (W (no_index (Proc.devRef .tc Cert.KernelIdeal.main_v358))) (V (Proc.devRef .tc Cert.ReferenceIdeal.main_v358))
  main_v360 : @Eq ((⟨⟨2, ![1024, 16]⟩, .f32⟩ : BufTy).Contents (Elt F)) (W (no_index (Proc.devRef .tc Cert.KernelIdeal.main_v360))) (V (Proc.devRef .tc Cert.ReferenceIdeal.main_v360))

/-- Boundary 20: every buffer written before it and read after it holds the same contents in the two programs' memories (each equation at the buffer's own array type, written out: the two programs' buffer tables are never compared). -/
structure Agree20 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v365 : @Eq ((⟨⟨2, ![1024, 16]⟩, .f32⟩ : BufTy).Contents (Elt F)) (W (no_index (Proc.devRef .tc Cert.KernelIdeal.main_v365))) (V (Proc.devRef .tc Cert.ReferenceIdeal.main_v365))
  main_v372 : @Eq ((⟨⟨3, ![1024, 16, 16]⟩, .f32⟩ : BufTy).Contents (Elt F)) (W (no_index (Proc.devRef .tc Cert.KernelIdeal.main_v372))) (V (Proc.devRef .tc Cert.ReferenceIdeal.main_v372))
  main_v376 : @Eq ((⟨⟨2, ![1024, 1]⟩, .f32⟩ : BufTy).Contents (Elt F)) (W (no_index (Proc.devRef .tc Cert.KernelIdeal.main_v376))) (V (Proc.devRef .tc Cert.ReferenceIdeal.main_v376))
  main_v378 : @Eq ((⟨⟨2, ![1024, 1]⟩, .f32⟩ : BufTy).Contents (Elt F)) (W (no_index (Proc.devRef .tc Cert.KernelIdeal.main_v378))) (V (Proc.devRef .tc Cert.ReferenceIdeal.main_v378))
  main_v379 : @Eq ((⟨⟨3, ![1024, 1, 16]⟩, .f32⟩ : BufTy).Contents (Elt F)) (W (no_index (Proc.devRef .tc Cert.KernelIdeal.main_v379))) (V (Proc.devRef .tc Cert.ReferenceIdeal.main_v379))

/-- Boundary 21: every buffer written before it and read after it holds the same contents in the two programs' memories (each equation at the buffer's own array type, written out: the two programs' buffer tables are never compared). -/
structure Agree21 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v385 : @Eq ((⟨⟨2, ![1024, 16]⟩, .f32⟩ : BufTy).Contents (Elt F)) (W (no_index (Proc.devRef .tc Cert.KernelIdeal.main_v385))) (V (Proc.devRef .tc Cert.ReferenceIdeal.main_v385))
  main_v392 : @Eq ((⟨⟨3, ![1024, 16, 16]⟩, .f32⟩ : BufTy).Contents (Elt F)) (W (no_index (Proc.devRef .tc Cert.KernelIdeal.main_v392))) (V (Proc.devRef .tc Cert.ReferenceIdeal.main_v392))
  main_v396 : @Eq ((⟨⟨2, ![1024, 1]⟩, .f32⟩ : BufTy).Contents (Elt F)) (W (no_index (Proc.devRef .tc Cert.KernelIdeal.main_v396))) (V (Proc.devRef .tc Cert.ReferenceIdeal.main_v396))
  main_v398 : @Eq ((⟨⟨2, ![1024, 1]⟩, .f32⟩ : BufTy).Contents (Elt F)) (W (no_index (Proc.devRef .tc Cert.KernelIdeal.main_v398))) (V (Proc.devRef .tc Cert.ReferenceIdeal.main_v398))

/-- Boundary 22: every buffer written before it and read after it holds the same contents in the two programs' memories (each equation at the buffer's own array type, written out: the two programs' buffer tables are never compared). -/
structure Agree22 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v405 : @Eq ((⟨⟨2, ![1024, 16]⟩, .f32⟩ : BufTy).Contents (Elt F)) (W (no_index (Proc.devRef .tc Cert.KernelIdeal.main_v405))) (V (Proc.devRef .tc Cert.ReferenceIdeal.main_v405))
  main_v412 : @Eq ((⟨⟨3, ![1024, 16, 16]⟩, .f32⟩ : BufTy).Contents (Elt F)) (W (no_index (Proc.devRef .tc Cert.KernelIdeal.main_v412))) (V (Proc.devRef .tc Cert.ReferenceIdeal.main_v412))
  main_v416 : @Eq ((⟨⟨2, ![1024, 1]⟩, .f32⟩ : BufTy).Contents (Elt F)) (W (no_index (Proc.devRef .tc Cert.KernelIdeal.main_v416))) (V (Proc.devRef .tc Cert.ReferenceIdeal.main_v416))
  main_v417 : @Eq ((⟨⟨1, ![1024]⟩, .f32⟩ : BufTy).Contents (Elt F)) (W (no_index (Proc.devRef .tc Cert.KernelIdeal.main_v417))) (V (Proc.devRef .tc Cert.ReferenceIdeal.main_v417))

/-- Boundary 23: every buffer written before it and read after it holds the same contents in the two programs' memories (each equation at the buffer's own array type, written out: the two programs' buffer tables are never compared). -/
structure Agree23 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v425 : @Eq ((⟨⟨2, ![1024, 16]⟩, .f32⟩ : BufTy).Contents (Elt F)) (W (no_index (Proc.devRef .tc Cert.KernelIdeal.main_v425))) (V (Proc.devRef .tc Cert.ReferenceIdeal.main_v425))
  main_v432 : @Eq ((⟨⟨3, ![1024, 16, 16]⟩, .f32⟩ : BufTy).Contents (Elt F)) (W (no_index (Proc.devRef .tc Cert.KernelIdeal.main_v432))) (V (Proc.devRef .tc Cert.ReferenceIdeal.main_v432))
  main_v434 : @Eq ((⟨⟨1, ![1024]⟩, .f32⟩ : BufTy).Contents (Elt F)) (W (no_index (Proc.devRef .tc Cert.KernelIdeal.main_v434))) (V (Proc.devRef .tc Cert.ReferenceIdeal.main_v434))
  main_v436 : @Eq ((⟨⟨2, ![1024, 1]⟩, .f32⟩ : BufTy).Contents (Elt F)) (W (no_index (Proc.devRef .tc Cert.KernelIdeal.main_v436))) (V (Proc.devRef .tc Cert.ReferenceIdeal.main_v436))

/-- Boundary 24: every buffer written before it and read after it holds the same contents in the two programs' memories (each equation at the buffer's own array type, written out: the two programs' buffer tables are never compared). -/
structure Agree24 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v445 : @Eq ((⟨⟨2, ![1024, 16]⟩, .f32⟩ : BufTy).Contents (Elt F)) (W (no_index (Proc.devRef .tc Cert.KernelIdeal.main_v445))) (V (Proc.devRef .tc Cert.ReferenceIdeal.main_v445))
  main_v452 : @Eq ((⟨⟨3, ![1024, 16, 16]⟩, .f32⟩ : BufTy).Contents (Elt F)) (W (no_index (Proc.devRef .tc Cert.KernelIdeal.main_v452))) (V (Proc.devRef .tc Cert.ReferenceIdeal.main_v452))
  main_v454 : @Eq ((⟨⟨1, ![1024]⟩, .f32⟩ : BufTy).Contents (Elt F)) (W (no_index (Proc.devRef .tc Cert.KernelIdeal.main_v454))) (V (Proc.devRef .tc Cert.ReferenceIdeal.main_v454))
  main_v455 : @Eq ((⟨⟨1, ![1024]⟩, .f32⟩ : BufTy).Contents (Elt F)) (W (no_index (Proc.devRef .tc Cert.KernelIdeal.main_v455))) (V (Proc.devRef .tc Cert.ReferenceIdeal.main_v455))

/-- Boundary 25: every buffer written before it and read after it holds the same contents in the two programs' memories (each equation at the buffer's own array type, written out: the two programs' buffer tables are never compared). -/
structure Agree25 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v465 : @Eq ((⟨⟨2, ![1024, 16]⟩, .f32⟩ : BufTy).Contents (Elt F)) (W (no_index (Proc.devRef .tc Cert.KernelIdeal.main_v465))) (V (Proc.devRef .tc Cert.ReferenceIdeal.main_v465))
  main_v472 : @Eq ((⟨⟨3, ![1024, 16, 16]⟩, .f32⟩ : BufTy).Contents (Elt F)) (W (no_index (Proc.devRef .tc Cert.KernelIdeal.main_v472))) (V (Proc.devRef .tc Cert.ReferenceIdeal.main_v472))
  main_v474 : @Eq ((⟨⟨1, ![1024]⟩, .f32⟩ : BufTy).Contents (Elt F)) (W (no_index (Proc.devRef .tc Cert.KernelIdeal.main_v474))) (V (Proc.devRef .tc Cert.ReferenceIdeal.main_v474))

/-- Boundary 26: every buffer written before it and read after it holds the same contents in the two programs' memories (each equation at the buffer's own array type, written out: the two programs' buffer tables are never compared). -/
structure Agree26 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v485 : @Eq ((⟨⟨2, ![1024, 16]⟩, .f32⟩ : BufTy).Contents (Elt F)) (W (no_index (Proc.devRef .tc Cert.KernelIdeal.main_v485))) (V (Proc.devRef .tc Cert.ReferenceIdeal.main_v485))
  main_v492 : @Eq ((⟨⟨3, ![1024, 16, 16]⟩, .f32⟩ : BufTy).Contents (Elt F)) (W (no_index (Proc.devRef .tc Cert.KernelIdeal.main_v492))) (V (Proc.devRef .tc Cert.ReferenceIdeal.main_v492))
  main_v493 : @Eq ((⟨⟨2, ![1024, 1]⟩, .f32⟩ : BufTy).Contents (Elt F)) (W (no_index (Proc.devRef .tc Cert.KernelIdeal.main_v493))) (V (Proc.devRef .tc Cert.ReferenceIdeal.main_v493))

/-- Boundary 27: every buffer written before it and read after it holds the same contents in the two programs' memories (each equation at the buffer's own array type, written out: the two programs' buffer tables are never compared). -/
structure Agree27 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v505 : @Eq ((⟨⟨2, ![1024, 16]⟩, .f32⟩ : BufTy).Contents (Elt F)) (W (no_index (Proc.devRef .tc Cert.KernelIdeal.main_v505))) (V (Proc.devRef .tc Cert.ReferenceIdeal.main_v505))
  main_v512 : @Eq ((⟨⟨3, ![1024, 16, 16]⟩, .f32⟩ : BufTy).Contents (Elt F)) (W (no_index (Proc.devRef .tc Cert.KernelIdeal.main_v512))) (V (Proc.devRef .tc Cert.ReferenceIdeal.main_v512))

/-- Boundary 28: every buffer written before it and read after it holds the same contents in the two programs' memories (each equation at the buffer's own array type, written out: the two programs' buffer tables are never compared). -/
structure Agree28 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v512 : @Eq ((⟨⟨3, ![1024, 16, 16]⟩, .f32⟩ : BufTy).Contents (Elt F)) (W (no_index (Proc.devRef .tc Cert.KernelIdeal.main_v512))) (V (Proc.devRef .tc Cert.ReferenceIdeal.main_v512))
  main_v525 : @Eq ((⟨⟨2, ![1024, 16]⟩, .f32⟩ : BufTy).Contents (Elt F)) (W (no_index (Proc.devRef .tc Cert.KernelIdeal.main_v525))) (V (Proc.devRef .tc Cert.ReferenceIdeal.main_v525))
  main_v530 : @Eq ((⟨⟨2, ![1024, 16]⟩, .f32⟩ : BufTy).Contents (Elt F)) (W (no_index (Proc.devRef .tc Cert.KernelIdeal.main_v530))) (V (Proc.devRef .tc Cert.ReferenceIdeal.main_v530))
  main_v531 : @Eq ((⟨⟨1, ![1]⟩, .i32⟩ : BufTy).Contents (Elt F)) (W (no_index (Proc.devRef .tc Cert.KernelIdeal.main_v531))) (V (Proc.devRef .tc Cert.ReferenceIdeal.main_v531))

/-- Boundary 29: every buffer written before it and read after it holds the same contents in the two programs' memories (each equation at the buffer's own array type, written out: the two programs' buffer tables are never compared). -/
structure Agree29 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v532 : @Eq ((⟨⟨3, ![1024, 16, 16]⟩, .f32⟩ : BufTy).Contents (Elt F)) (W (no_index (Proc.devRef .tc Cert.KernelIdeal.main_v532))) (V (Proc.devRef .tc Cert.ReferenceIdeal.main_v532))
  main_v545 : @Eq ((⟨⟨2, ![1024, 16]⟩, .f32⟩ : BufTy).Contents (Elt F)) (W (no_index (Proc.devRef .tc Cert.KernelIdeal.main_v545))) (V (Proc.devRef .tc Cert.ReferenceIdeal.main_v545))
  main_v550 : @Eq ((⟨⟨2, ![1024, 16]⟩, .f32⟩ : BufTy).Contents (Elt F)) (W (no_index (Proc.devRef .tc Cert.KernelIdeal.main_v550))) (V (Proc.devRef .tc Cert.ReferenceIdeal.main_v550))
  main_c_27 : @Eq ((⟨⟨0, ![]⟩, .i32⟩ : BufTy).Contents (Elt F)) (W (no_index (Proc.devRef .tc Cert.KernelIdeal.main_c_27))) (V (Proc.devRef .tc Cert.ReferenceIdeal.main_c_27))

/-- Boundary 30: every buffer written before it and read after it holds the same contents in the two programs' memories (each equation at the buffer's own array type, written out: the two programs' buffer tables are never compared). -/
structure Agree30 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v552 : @Eq ((⟨⟨3, ![1024, 16, 16]⟩, .f32⟩ : BufTy).Contents (Elt F)) (W (no_index (Proc.devRef .tc Cert.KernelIdeal.main_v552))) (V (Proc.devRef .tc Cert.ReferenceIdeal.main_v552))
  main_v565 : @Eq ((⟨⟨2, ![1024, 16]⟩, .f32⟩ : BufTy).Contents (Elt F)) (W (no_index (Proc.devRef .tc Cert.KernelIdeal.main_v565))) (V (Proc.devRef .tc Cert.ReferenceIdeal.main_v565))
  main_v570 : @Eq ((⟨⟨2, ![1024, 16]⟩, .f32⟩ : BufTy).Contents (Elt F)) (W (no_index (Proc.devRef .tc Cert.KernelIdeal.main_v570))) (V (Proc.devRef .tc Cert.ReferenceIdeal.main_v570))

/-- Boundary 31: every buffer written before it and read after it holds the same contents in the two programs' memories (each equation at the buffer's own array type, written out: the two programs' buffer tables are never compared). -/
structure Agree31 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v572 : @Eq ((⟨⟨3, ![1024, 16, 16]⟩, .f32⟩ : BufTy).Contents (Elt F)) (W (no_index (Proc.devRef .tc Cert.KernelIdeal.main_v572))) (V (Proc.devRef .tc Cert.ReferenceIdeal.main_v572))
  main_v585 : @Eq ((⟨⟨2, ![1024, 16]⟩, .f32⟩ : BufTy).Contents (Elt F)) (W (no_index (Proc.devRef .tc Cert.KernelIdeal.main_v585))) (V (Proc.devRef .tc Cert.ReferenceIdeal.main_v585))
  main_v587 : @Eq ((⟨⟨2, ![1024, 16]⟩, .f32⟩ : BufTy).Contents (Elt F)) (W (no_index (Proc.devRef .tc Cert.KernelIdeal.main_v587))) (V (Proc.devRef .tc Cert.ReferenceIdeal.main_v587))
  main_v589 : @Eq ((⟨⟨2, ![1024, 16]⟩, .f32⟩ : BufTy).Contents (Elt F)) (W (no_index (Proc.devRef .tc Cert.KernelIdeal.main_v589))) (V (Proc.devRef .tc Cert.ReferenceIdeal.main_v589))

/-- Boundary 32: every buffer written before it and read after it holds the same contents in the two programs' memories (each equation at the buffer's own array type, written out: the two programs' buffer tables are never compared). -/
structure Agree32 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v594 : @Eq ((⟨⟨3, ![1024, 16, 16]⟩, .f32⟩ : BufTy).Contents (Elt F)) (W (no_index (Proc.devRef .tc Cert.KernelIdeal.main_v594))) (V (Proc.devRef .tc Cert.ReferenceIdeal.main_v594))
  main_v596 : @Eq ((⟨⟨2, ![1024, 16]⟩, .f32⟩ : BufTy).Contents (Elt F)) (W (no_index (Proc.devRef .tc Cert.KernelIdeal.main_v596))) (V (Proc.devRef .tc Cert.ReferenceIdeal.main_v596))
  main_v600 : @Eq ((⟨⟨2, ![1024, 1]⟩, .f32⟩ : BufTy).Contents (Elt F)) (W (no_index (Proc.devRef .tc Cert.KernelIdeal.main_v600))) (V (Proc.devRef .tc Cert.ReferenceIdeal.main_v600))
  main_v602 : @Eq ((⟨⟨2, ![1024, 1]⟩, .f32⟩ : BufTy).Contents (Elt F)) (W (no_index (Proc.devRef .tc Cert.KernelIdeal.main_v602))) (V (Proc.devRef .tc Cert.ReferenceIdeal.main_v602))
  main_v604 : @Eq ((⟨⟨2, ![1024, 16]⟩, .f32⟩ : BufTy).Contents (Elt F)) (W (no_index (Proc.devRef .tc Cert.KernelIdeal.main_v604))) (V (Proc.devRef .tc Cert.ReferenceIdeal.main_v604))
  main_v606 : @Eq ((⟨⟨2, ![1024, 16]⟩, .f32⟩ : BufTy).Contents (Elt F)) (W (no_index (Proc.devRef .tc Cert.KernelIdeal.main_v606))) (V (Proc.devRef .tc Cert.ReferenceIdeal.main_v606))
  main_v607 : @Eq ((⟨⟨2, ![1024, 16]⟩, .f32⟩ : BufTy).Contents (Elt F)) (W (no_index (Proc.devRef .tc Cert.KernelIdeal.main_v607))) (V (Proc.devRef .tc Cert.ReferenceIdeal.main_v607))

/-- Boundary 33: every buffer written before it and read after it holds the same contents in the two programs' memories (each equation at the buffer's own array type, written out: the two programs' buffer tables are never compared). -/
structure Agree33 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v609 : @Eq ((⟨⟨2, ![1024, 16]⟩, .f32⟩ : BufTy).Contents (Elt F)) (W (no_index (Proc.devRef .tc Cert.KernelIdeal.main_v609))) (V (Proc.devRef .tc Cert.ReferenceIdeal.main_v609))
  main_v616 : @Eq ((⟨⟨3, ![1024, 16, 16]⟩, .f32⟩ : BufTy).Contents (Elt F)) (W (no_index (Proc.devRef .tc Cert.KernelIdeal.main_v616))) (V (Proc.devRef .tc Cert.ReferenceIdeal.main_v616))
  main_v620 : @Eq ((⟨⟨2, ![1024, 1]⟩, .f32⟩ : BufTy).Contents (Elt F)) (W (no_index (Proc.devRef .tc Cert.KernelIdeal.main_v620))) (V (Proc.devRef .tc Cert.ReferenceIdeal.main_v620))
  main_v622 : @Eq ((⟨⟨2, ![1024, 1]⟩, .f32⟩ : BufTy).Contents (Elt F)) (W (no_index (Proc.devRef .tc Cert.KernelIdeal.main_v622))) (V (Proc.devRef .tc Cert.ReferenceIdeal.main_v622))
  main_v624 : @Eq ((⟨⟨2, ![1024, 16]⟩, .f32⟩ : BufTy).Contents (Elt F)) (W (no_index (Proc.devRef .tc Cert.KernelIdeal.main_v624))) (V (Proc.devRef .tc Cert.ReferenceIdeal.main_v624))
  main_v626 : @Eq ((⟨⟨2, ![1024, 16]⟩, .f32⟩ : BufTy).Contents (Elt F)) (W (no_index (Proc.devRef .tc Cert.KernelIdeal.main_v626))) (V (Proc.devRef .tc Cert.ReferenceIdeal.main_v626))

/-- Boundary 34: every buffer written before it and read after it holds the same contents in the two programs' memories (each equation at the buffer's own array type, written out: the two programs' buffer tables are never compared). -/
structure Agree34 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v629 : @Eq ((⟨⟨2, ![1024, 16]⟩, .f32⟩ : BufTy).Contents (Elt F)) (W (no_index (Proc.devRef .tc Cert.KernelIdeal.main_v629))) (V (Proc.devRef .tc Cert.ReferenceIdeal.main_v629))
  main_v636 : @Eq ((⟨⟨3, ![1024, 16, 16]⟩, .f32⟩ : BufTy).Contents (Elt F)) (W (no_index (Proc.devRef .tc Cert.KernelIdeal.main_v636))) (V (Proc.devRef .tc Cert.ReferenceIdeal.main_v636))
  main_v640 : @Eq ((⟨⟨2, ![1024, 1]⟩, .f32⟩ : BufTy).Contents (Elt F)) (W (no_index (Proc.devRef .tc Cert.KernelIdeal.main_v640))) (V (Proc.devRef .tc Cert.ReferenceIdeal.main_v640))
  main_v642 : @Eq ((⟨⟨2, ![1024, 1]⟩, .f32⟩ : BufTy).Contents (Elt F)) (W (no_index (Proc.devRef .tc Cert.KernelIdeal.main_v642))) (V (Proc.devRef .tc Cert.ReferenceIdeal.main_v642))
  main_v644 : @Eq ((⟨⟨2, ![1024, 16]⟩, .f32⟩ : BufTy).Contents (Elt F)) (W (no_index (Proc.devRef .tc Cert.KernelIdeal.main_v644))) (V (Proc.devRef .tc Cert.ReferenceIdeal.main_v644))
  main_v645 : @Eq ((⟨⟨2, ![1024, 16]⟩, .f32⟩ : BufTy).Contents (Elt F)) (W (no_index (Proc.devRef .tc Cert.KernelIdeal.main_v645))) (V (Proc.devRef .tc Cert.ReferenceIdeal.main_v645))

/-- Boundary 35: every buffer written before it and read after it holds the same contents in the two programs' memories (each equation at the buffer's own array type, written out: the two programs' buffer tables are never compared). -/
structure Agree35 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v649 : @Eq ((⟨⟨2, ![1024, 16]⟩, .f32⟩ : BufTy).Contents (Elt F)) (W (no_index (Proc.devRef .tc Cert.KernelIdeal.main_v649))) (V (Proc.devRef .tc Cert.ReferenceIdeal.main_v649))
  main_v656 : @Eq ((⟨⟨3, ![1024, 16, 16]⟩, .f32⟩ : BufTy).Contents (Elt F)) (W (no_index (Proc.devRef .tc Cert.KernelIdeal.main_v656))) (V (Proc.devRef .tc Cert.ReferenceIdeal.main_v656))
  main_v660 : @Eq ((⟨⟨2, ![1024, 1]⟩, .f32⟩ : BufTy).Contents (Elt F)) (W (no_index (Proc.devRef .tc Cert.KernelIdeal.main_v660))) (V (Proc.devRef .tc Cert.ReferenceIdeal.main_v660))
  main_v662 : @Eq ((⟨⟨2, ![1024, 1]⟩, .f32⟩ : BufTy).Contents (Elt F)) (W (no_index (Proc.devRef .tc Cert.KernelIdeal.main_v662))) (V (Proc.devRef .tc Cert.ReferenceIdeal.main_v662))
  main_v664 : @Eq ((⟨⟨2, ![1024, 16]⟩, .f32⟩ : BufTy).Contents (Elt F)) (W (no_index (Proc.devRef .tc Cert.KernelIdeal.main_v664))) (V (Proc.devRef .tc Cert.ReferenceIdeal.main_v664))

/-- Boundary 36: every buffer written before it and read after it holds the same contents in the two programs' memories (each equation at the buffer's own array type, written out: the two programs' buffer tables are never compared). -/
structure Agree36 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v669 : @Eq ((⟨⟨2, ![1024, 16]⟩, .f32⟩ : BufTy).Contents (Elt F)) (W (no_index (Proc.devRef .tc Cert.KernelIdeal.main_v669))) (V (Proc.devRef .tc Cert.ReferenceIdeal.main_v669))
  main_v676 : @Eq ((⟨⟨3, ![1024, 16, 16]⟩, .f32⟩ : BufTy).Contents (Elt F)) (W (no_index (Proc.devRef .tc Cert.KernelIdeal.main_v676))) (V (Proc.devRef .tc Cert.ReferenceIdeal.main_v676))
  main_v680 : @Eq ((⟨⟨2, ![1024, 1]⟩, .f32⟩ : BufTy).Contents (Elt F)) (W (no_index (Proc.devRef .tc Cert.KernelIdeal.main_v680))) (V (Proc.devRef .tc Cert.ReferenceIdeal.main_v680))
  main_v682 : @Eq ((⟨⟨2, ![1024, 1]⟩, .f32⟩ : BufTy).Contents (Elt F)) (W (no_index (Proc.devRef .tc Cert.KernelIdeal.main_v682))) (V (Proc.devRef .tc Cert.ReferenceIdeal.main_v682))
  main_v683 : @Eq ((⟨⟨3, ![1024, 1, 16]⟩, .f32⟩ : BufTy).Contents (Elt F)) (W (no_index (Proc.devRef .tc Cert.KernelIdeal.main_v683))) (V (Proc.devRef .tc Cert.ReferenceIdeal.main_v683))

/-- Boundary 37: every buffer written before it and read after it holds the same contents in the two programs' memories (each equation at the buffer's own array type, written out: the two programs' buffer tables are never compared). -/
structure Agree37 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v689 : @Eq ((⟨⟨2, ![1024, 16]⟩, .f32⟩ : BufTy).Contents (Elt F)) (W (no_index (Proc.devRef .tc Cert.KernelIdeal.main_v689))) (V (Proc.devRef .tc Cert.ReferenceIdeal.main_v689))
  main_v696 : @Eq ((⟨⟨3, ![1024, 16, 16]⟩, .f32⟩ : BufTy).Contents (Elt F)) (W (no_index (Proc.devRef .tc Cert.KernelIdeal.main_v696))) (V (Proc.devRef .tc Cert.ReferenceIdeal.main_v696))
  main_v700 : @Eq ((⟨⟨2, ![1024, 1]⟩, .f32⟩ : BufTy).Contents (Elt F)) (W (no_index (Proc.devRef .tc Cert.KernelIdeal.main_v700))) (V (Proc.devRef .tc Cert.ReferenceIdeal.main_v700))
  main_v702 : @Eq ((⟨⟨2, ![1024, 1]⟩, .f32⟩ : BufTy).Contents (Elt F)) (W (no_index (Proc.devRef .tc Cert.KernelIdeal.main_v702))) (V (Proc.devRef .tc Cert.ReferenceIdeal.main_v702))

/-- Boundary 38: every buffer written before it and read after it holds the same contents in the two programs' memories (each equation at the buffer's own array type, written out: the two programs' buffer tables are never compared). -/
structure Agree38 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v709 : @Eq ((⟨⟨2, ![1024, 16]⟩, .f32⟩ : BufTy).Contents (Elt F)) (W (no_index (Proc.devRef .tc Cert.KernelIdeal.main_v709))) (V (Proc.devRef .tc Cert.ReferenceIdeal.main_v709))
  main_v716 : @Eq ((⟨⟨3, ![1024, 16, 16]⟩, .f32⟩ : BufTy).Contents (Elt F)) (W (no_index (Proc.devRef .tc Cert.KernelIdeal.main_v716))) (V (Proc.devRef .tc Cert.ReferenceIdeal.main_v716))
  main_v720 : @Eq ((⟨⟨2, ![1024, 1]⟩, .f32⟩ : BufTy).Contents (Elt F)) (W (no_index (Proc.devRef .tc Cert.KernelIdeal.main_v720))) (V (Proc.devRef .tc Cert.ReferenceIdeal.main_v720))
  main_v721 : @Eq ((⟨⟨1, ![1024]⟩, .f32⟩ : BufTy).Contents (Elt F)) (W (no_index (Proc.devRef .tc Cert.KernelIdeal.main_v721))) (V (Proc.devRef .tc Cert.ReferenceIdeal.main_v721))

/-- Boundary 39: every buffer written before it and read after it holds the same contents in the two programs' memories (each equation at the buffer's own array type, written out: the two programs' buffer tables are never compared). -/
structure Agree39 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v729 : @Eq ((⟨⟨2, ![1024, 16]⟩, .f32⟩ : BufTy).Contents (Elt F)) (W (no_index (Proc.devRef .tc Cert.KernelIdeal.main_v729))) (V (Proc.devRef .tc Cert.ReferenceIdeal.main_v729))
  main_v736 : @Eq ((⟨⟨3, ![1024, 16, 16]⟩, .f32⟩ : BufTy).Contents (Elt F)) (W (no_index (Proc.devRef .tc Cert.KernelIdeal.main_v736))) (V (Proc.devRef .tc Cert.ReferenceIdeal.main_v736))
  main_v738 : @Eq ((⟨⟨1, ![1024]⟩, .f32⟩ : BufTy).Contents (Elt F)) (W (no_index (Proc.devRef .tc Cert.KernelIdeal.main_v738))) (V (Proc.devRef .tc Cert.ReferenceIdeal.main_v738))
  main_v740 : @Eq ((⟨⟨2, ![1024, 1]⟩, .f32⟩ : BufTy).Contents (Elt F)) (W (no_index (Proc.devRef .tc Cert.KernelIdeal.main_v740))) (V (Proc.devRef .tc Cert.ReferenceIdeal.main_v740))

/-- Boundary 40: every buffer written before it and read after it holds the same contents in the two programs' memories (each equation at the buffer's own array type, written out: the two programs' buffer tables are never compared). -/
structure Agree40 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v749 : @Eq ((⟨⟨2, ![1024, 16]⟩, .f32⟩ : BufTy).Contents (Elt F)) (W (no_index (Proc.devRef .tc Cert.KernelIdeal.main_v749))) (V (Proc.devRef .tc Cert.ReferenceIdeal.main_v749))
  main_v756 : @Eq ((⟨⟨3, ![1024, 16, 16]⟩, .f32⟩ : BufTy).Contents (Elt F)) (W (no_index (Proc.devRef .tc Cert.KernelIdeal.main_v756))) (V (Proc.devRef .tc Cert.ReferenceIdeal.main_v756))
  main_v758 : @Eq ((⟨⟨1, ![1024]⟩, .f32⟩ : BufTy).Contents (Elt F)) (W (no_index (Proc.devRef .tc Cert.KernelIdeal.main_v758))) (V (Proc.devRef .tc Cert.ReferenceIdeal.main_v758))
  main_v759 : @Eq ((⟨⟨1, ![1024]⟩, .f32⟩ : BufTy).Contents (Elt F)) (W (no_index (Proc.devRef .tc Cert.KernelIdeal.main_v759))) (V (Proc.devRef .tc Cert.ReferenceIdeal.main_v759))

/-- Boundary 41: every buffer written before it and read after it holds the same contents in the two programs' memories (each equation at the buffer's own array type, written out: the two programs' buffer tables are never compared). -/
structure Agree41 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v769 : @Eq ((⟨⟨2, ![1024, 16]⟩, .f32⟩ : BufTy).Contents (Elt F)) (W (no_index (Proc.devRef .tc Cert.KernelIdeal.main_v769))) (V (Proc.devRef .tc Cert.ReferenceIdeal.main_v769))
  main_v776 : @Eq ((⟨⟨3, ![1024, 16, 16]⟩, .f32⟩ : BufTy).Contents (Elt F)) (W (no_index (Proc.devRef .tc Cert.KernelIdeal.main_v776))) (V (Proc.devRef .tc Cert.ReferenceIdeal.main_v776))
  main_v778 : @Eq ((⟨⟨1, ![1024]⟩, .f32⟩ : BufTy).Contents (Elt F)) (W (no_index (Proc.devRef .tc Cert.KernelIdeal.main_v778))) (V (Proc.devRef .tc Cert.ReferenceIdeal.main_v778))

/-- Boundary 42: every buffer written before it and read after it holds the same contents in the two programs' memories (each equation at the buffer's own array type, written out: the two programs' buffer tables are never compared). -/
structure Agree42 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v789 : @Eq ((⟨⟨2, ![1024, 16]⟩, .f32⟩ : BufTy).Contents (Elt F)) (W (no_index (Proc.devRef .tc Cert.KernelIdeal.main_v789))) (V (Proc.devRef .tc Cert.ReferenceIdeal.main_v789))
  main_v796 : @Eq ((⟨⟨3, ![1024, 16, 16]⟩, .f32⟩ : BufTy).Contents (Elt F)) (W (no_index (Proc.devRef .tc Cert.KernelIdeal.main_v796))) (V (Proc.devRef .tc Cert.ReferenceIdeal.main_v796))
  main_v797 : @Eq ((⟨⟨2, ![1024, 1]⟩, .f32⟩ : BufTy).Contents (Elt F)) (W (no_index (Proc.devRef .tc Cert.KernelIdeal.main_v797))) (V (Proc.devRef .tc Cert.ReferenceIdeal.main_v797))

/-- Boundary 43: every buffer written before it and read after it holds the same contents in the two programs' memories (each equation at the buffer's own array type, written out: the two programs' buffer tables are never compared). -/
structure Agree43 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v809 : @Eq ((⟨⟨2, ![1024, 16]⟩, .f32⟩ : BufTy).Contents (Elt F)) (W (no_index (Proc.devRef .tc Cert.KernelIdeal.main_v809))) (V (Proc.devRef .tc Cert.ReferenceIdeal.main_v809))
  main_v816 : @Eq ((⟨⟨3, ![1024, 16, 16]⟩, .f32⟩ : BufTy).Contents (Elt F)) (W (no_index (Proc.devRef .tc Cert.KernelIdeal.main_v816))) (V (Proc.devRef .tc Cert.ReferenceIdeal.main_v816))

/-- Boundary 44: every buffer written before it and read after it holds the same contents in the two programs' memories (each equation at the buffer's own array type, written out: the two programs' buffer tables are never compared). -/
structure Agree44 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v816 : @Eq ((⟨⟨3, ![1024, 16, 16]⟩, .f32⟩ : BufTy).Contents (Elt F)) (W (no_index (Proc.devRef .tc Cert.KernelIdeal.main_v816))) (V (Proc.devRef .tc Cert.ReferenceIdeal.main_v816))
  main_v829 : @Eq ((⟨⟨2, ![1024, 16]⟩, .f32⟩ : BufTy).Contents (Elt F)) (W (no_index (Proc.devRef .tc Cert.KernelIdeal.main_v829))) (V (Proc.devRef .tc Cert.ReferenceIdeal.main_v829))
  main_v834 : @Eq ((⟨⟨2, ![1024, 16]⟩, .f32⟩ : BufTy).Contents (Elt F)) (W (no_index (Proc.devRef .tc Cert.KernelIdeal.main_v834))) (V (Proc.devRef .tc Cert.ReferenceIdeal.main_v834))
  main_v835 : @Eq ((⟨⟨1, ![1]⟩, .i32⟩ : BufTy).Contents (Elt F)) (W (no_index (Proc.devRef .tc Cert.KernelIdeal.main_v835))) (V (Proc.devRef .tc Cert.ReferenceIdeal.main_v835))

/-- Boundary 45: every buffer written before it and read after it holds the same contents in the two programs' memories (each equation at the buffer's own array type, written out: the two programs' buffer tables are never compared). -/
structure Agree45 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v836 : @Eq ((⟨⟨3, ![1024, 16, 16]⟩, .f32⟩ : BufTy).Contents (Elt F)) (W (no_index (Proc.devRef .tc Cert.KernelIdeal.main_v836))) (V (Proc.devRef .tc Cert.ReferenceIdeal.main_v836))
  main_v849 : @Eq ((⟨⟨2, ![1024, 16]⟩, .f32⟩ : BufTy).Contents (Elt F)) (W (no_index (Proc.devRef .tc Cert.KernelIdeal.main_v849))) (V (Proc.devRef .tc Cert.ReferenceIdeal.main_v849))
  main_v854 : @Eq ((⟨⟨2, ![1024, 16]⟩, .f32⟩ : BufTy).Contents (Elt F)) (W (no_index (Proc.devRef .tc Cert.KernelIdeal.main_v854))) (V (Proc.devRef .tc Cert.ReferenceIdeal.main_v854))
  main_c_43 : @Eq ((⟨⟨0, ![]⟩, .i32⟩ : BufTy).Contents (Elt F)) (W (no_index (Proc.devRef .tc Cert.KernelIdeal.main_c_43))) (V (Proc.devRef .tc Cert.ReferenceIdeal.main_c_43))

/-- Boundary 46: every buffer written before it and read after it holds the same contents in the two programs' memories (each equation at the buffer's own array type, written out: the two programs' buffer tables are never compared). -/
structure Agree46 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v858 : @Eq ((⟨⟨3, ![1024, 16, 16]⟩, .f32⟩ : BufTy).Contents (Elt F)) (W (no_index (Proc.devRef .tc Cert.KernelIdeal.main_v858))) (V (Proc.devRef .tc Cert.ReferenceIdeal.main_v858))
  main_v860 : @Eq ((⟨⟨2, ![1024, 16]⟩, .f32⟩ : BufTy).Contents (Elt F)) (W (no_index (Proc.devRef .tc Cert.KernelIdeal.main_v860))) (V (Proc.devRef .tc Cert.ReferenceIdeal.main_v860))
  main_v864 : @Eq ((⟨⟨2, ![1024, 1]⟩, .f32⟩ : BufTy).Contents (Elt F)) (W (no_index (Proc.devRef .tc Cert.KernelIdeal.main_v864))) (V (Proc.devRef .tc Cert.ReferenceIdeal.main_v864))
  main_v866 : @Eq ((⟨⟨2, ![1024, 1]⟩, .f32⟩ : BufTy).Contents (Elt F)) (W (no_index (Proc.devRef .tc Cert.KernelIdeal.main_v866))) (V (Proc.devRef .tc Cert.ReferenceIdeal.main_v866))
  main_v868 : @Eq ((⟨⟨2, ![1024, 16]⟩, .f32⟩ : BufTy).Contents (Elt F)) (W (no_index (Proc.devRef .tc Cert.KernelIdeal.main_v868))) (V (Proc.devRef .tc Cert.ReferenceIdeal.main_v868))
  main_v873 : @Eq ((⟨⟨2, ![1024, 16]⟩, .f32⟩ : BufTy).Contents (Elt F)) (W (no_index (Proc.devRef .tc Cert.KernelIdeal.main_v873))) (V (Proc.devRef .tc Cert.ReferenceIdeal.main_v873))

/-- Boundary 47: every buffer written before it and read after it holds the same contents in the two programs' memories (each equation at the buffer's own array type, written out: the two programs' buffer tables are never compared). -/
structure Agree47 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v873 : @Eq ((⟨⟨2, ![1024, 16]⟩, .f32⟩ : BufTy).Contents (Elt F)) (W (no_index (Proc.devRef .tc Cert.KernelIdeal.main_v873))) (V (Proc.devRef .tc Cert.ReferenceIdeal.main_v873))
  main_v880 : @Eq ((⟨⟨3, ![1024, 16, 16]⟩, .f32⟩ : BufTy).Contents (Elt F)) (W (no_index (Proc.devRef .tc Cert.KernelIdeal.main_v880))) (V (Proc.devRef .tc Cert.ReferenceIdeal.main_v880))
  main_v884 : @Eq ((⟨⟨2, ![1024, 1]⟩, .f32⟩ : BufTy).Contents (Elt F)) (W (no_index (Proc.devRef .tc Cert.KernelIdeal.main_v884))) (V (Proc.devRef .tc Cert.ReferenceIdeal.main_v884))
  main_v886 : @Eq ((⟨⟨2, ![1024, 1]⟩, .f32⟩ : BufTy).Contents (Elt F)) (W (no_index (Proc.devRef .tc Cert.KernelIdeal.main_v886))) (V (Proc.devRef .tc Cert.ReferenceIdeal.main_v886))
  main_v888 : @Eq ((⟨⟨2, ![1024, 16]⟩, .f32⟩ : BufTy).Contents (Elt F)) (W (no_index (Proc.devRef .tc Cert.KernelIdeal.main_v888))) (V (Proc.devRef .tc Cert.ReferenceIdeal.main_v888))
  main_v890 : @Eq ((⟨⟨2, ![1024, 16]⟩, .f32⟩ : BufTy).Contents (Elt F)) (W (no_index (Proc.devRef .tc Cert.KernelIdeal.main_v890))) (V (Proc.devRef .tc Cert.ReferenceIdeal.main_v890))
  main_v892 : @Eq ((⟨⟨2, ![1024, 16]⟩, .f32⟩ : BufTy).Contents (Elt F)) (W (no_index (Proc.devRef .tc Cert.KernelIdeal.main_v892))) (V (Proc.devRef .tc Cert.ReferenceIdeal.main_v892))

/-- Boundary 48: every buffer written before it and read after it holds the same contents in the two programs' memories (each equation at the buffer's own array type, written out: the two programs' buffer tables are never compared). -/
structure Agree48 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v893 : @Eq ((⟨⟨2, ![1024, 16]⟩, .f32⟩ : BufTy).Contents (Elt F)) (W (no_index (Proc.devRef .tc Cert.KernelIdeal.main_v893))) (V (Proc.devRef .tc Cert.ReferenceIdeal.main_v893))
  main_v900 : @Eq ((⟨⟨3, ![1024, 16, 16]⟩, .f32⟩ : BufTy).Contents (Elt F)) (W (no_index (Proc.devRef .tc Cert.KernelIdeal.main_v900))) (V (Proc.devRef .tc Cert.ReferenceIdeal.main_v900))
  main_v904 : @Eq ((⟨⟨2, ![1024, 1]⟩, .f32⟩ : BufTy).Contents (Elt F)) (W (no_index (Proc.devRef .tc Cert.KernelIdeal.main_v904))) (V (Proc.devRef .tc Cert.ReferenceIdeal.main_v904))
  main_v906 : @Eq ((⟨⟨2, ![1024, 1]⟩, .f32⟩ : BufTy).Contents (Elt F)) (W (no_index (Proc.devRef .tc Cert.KernelIdeal.main_v906))) (V (Proc.devRef .tc Cert.ReferenceIdeal.main_v906))
  main_v908 : @Eq ((⟨⟨2, ![1024, 16]⟩, .f32⟩ : BufTy).Contents (Elt F)) (W (no_index (Proc.devRef .tc Cert.KernelIdeal.main_v908))) (V (Proc.devRef .tc Cert.ReferenceIdeal.main_v908))
  main_v910 : @Eq ((⟨⟨2, ![1024, 16]⟩, .f32⟩ : BufTy).Contents (Elt F)) (W (no_index (Proc.devRef .tc Cert.KernelIdeal.main_v910))) (V (Proc.devRef .tc Cert.ReferenceIdeal.main_v910))
  main_v911 : @Eq ((⟨⟨2, ![1024, 16]⟩, .f32⟩ : BufTy).Contents (Elt F)) (W (no_index (Proc.devRef .tc Cert.KernelIdeal.main_v911))) (V (Proc.devRef .tc Cert.ReferenceIdeal.main_v911))

/-- Boundary 49: every buffer written before it and read after it holds the same contents in the two programs' memories (each equation at the buffer's own array type, written out: the two programs' buffer tables are never compared). -/
structure Agree49 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v913 : @Eq ((⟨⟨2, ![1024, 16]⟩, .f32⟩ : BufTy).Contents (Elt F)) (W (no_index (Proc.devRef .tc Cert.KernelIdeal.main_v913))) (V (Proc.devRef .tc Cert.ReferenceIdeal.main_v913))
  main_v920 : @Eq ((⟨⟨3, ![1024, 16, 16]⟩, .f32⟩ : BufTy).Contents (Elt F)) (W (no_index (Proc.devRef .tc Cert.KernelIdeal.main_v920))) (V (Proc.devRef .tc Cert.ReferenceIdeal.main_v920))
  main_v924 : @Eq ((⟨⟨2, ![1024, 1]⟩, .f32⟩ : BufTy).Contents (Elt F)) (W (no_index (Proc.devRef .tc Cert.KernelIdeal.main_v924))) (V (Proc.devRef .tc Cert.ReferenceIdeal.main_v924))
  main_v926 : @Eq ((⟨⟨2, ![1024, 1]⟩, .f32⟩ : BufTy).Contents (Elt F)) (W (no_index (Proc.devRef .tc Cert.KernelIdeal.main_v926))) (V (Proc.devRef .tc Cert.ReferenceIdeal.main_v926))
  main_v928 : @Eq ((⟨⟨2, ![1024, 16]⟩, .f32⟩ : BufTy).Contents (Elt F)) (W (no_index (Proc.devRef .tc Cert.KernelIdeal.main_v928))) (V (Proc.devRef .tc Cert.ReferenceIdeal.main_v928))
  main_v930 : @Eq ((⟨⟨2, ![1024, 16]⟩, .f32⟩ : BufTy).Contents (Elt F)) (W (no_index (Proc.devRef .tc Cert.KernelIdeal.main_v930))) (V (Proc.devRef .tc Cert.ReferenceIdeal.main_v930))

/-- Boundary 50: every buffer written before it and read after it holds the same contents in the two programs' memories (each equation at the buffer's own array type, written out: the two programs' buffer tables are never compared). -/
structure Agree50 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v933 : @Eq ((⟨⟨2, ![1024, 16]⟩, .f32⟩ : BufTy).Contents (Elt F)) (W (no_index (Proc.devRef .tc Cert.KernelIdeal.main_v933))) (V (Proc.devRef .tc Cert.ReferenceIdeal.main_v933))
  main_v940 : @Eq ((⟨⟨3, ![1024, 16, 16]⟩, .f32⟩ : BufTy).Contents (Elt F)) (W (no_index (Proc.devRef .tc Cert.KernelIdeal.main_v940))) (V (Proc.devRef .tc Cert.ReferenceIdeal.main_v940))
  main_v944 : @Eq ((⟨⟨2, ![1024, 1]⟩, .f32⟩ : BufTy).Contents (Elt F)) (W (no_index (Proc.devRef .tc Cert.KernelIdeal.main_v944))) (V (Proc.devRef .tc Cert.ReferenceIdeal.main_v944))
  main_v946 : @Eq ((⟨⟨2, ![1024, 1]⟩, .f32⟩ : BufTy).Contents (Elt F)) (W (no_index (Proc.devRef .tc Cert.KernelIdeal.main_v946))) (V (Proc.devRef .tc Cert.ReferenceIdeal.main_v946))
  main_v948 : @Eq ((⟨⟨2, ![1024, 16]⟩, .f32⟩ : BufTy).Contents (Elt F)) (W (no_index (Proc.devRef .tc Cert.KernelIdeal.main_v948))) (V (Proc.devRef .tc Cert.ReferenceIdeal.main_v948))
  main_v949 : @Eq ((⟨⟨2, ![1024, 16]⟩, .f32⟩ : BufTy).Contents (Elt F)) (W (no_index (Proc.devRef .tc Cert.KernelIdeal.main_v949))) (V (Proc.devRef .tc Cert.ReferenceIdeal.main_v949))

/-- Boundary 51: every buffer written before it and read after it holds the same contents in the two programs' memories (each equation at the buffer's own array type, written out: the two programs' buffer tables are never compared). -/
structure Agree51 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v953 : @Eq ((⟨⟨2, ![1024, 16]⟩, .f32⟩ : BufTy).Contents (Elt F)) (W (no_index (Proc.devRef .tc Cert.KernelIdeal.main_v953))) (V (Proc.devRef .tc Cert.ReferenceIdeal.main_v953))
  main_v960 : @Eq ((⟨⟨3, ![1024, 16, 16]⟩, .f32⟩ : BufTy).Contents (Elt F)) (W (no_index (Proc.devRef .tc Cert.KernelIdeal.main_v960))) (V (Proc.devRef .tc Cert.ReferenceIdeal.main_v960))
  main_v964 : @Eq ((⟨⟨2, ![1024, 1]⟩, .f32⟩ : BufTy).Contents (Elt F)) (W (no_index (Proc.devRef .tc Cert.KernelIdeal.main_v964))) (V (Proc.devRef .tc Cert.ReferenceIdeal.main_v964))
  main_v966 : @Eq ((⟨⟨2, ![1024, 1]⟩, .f32⟩ : BufTy).Contents (Elt F)) (W (no_index (Proc.devRef .tc Cert.KernelIdeal.main_v966))) (V (Proc.devRef .tc Cert.ReferenceIdeal.main_v966))
  main_v968 : @Eq ((⟨⟨2, ![1024, 16]⟩, .f32⟩ : BufTy).Contents (Elt F)) (W (no_index (Proc.devRef .tc Cert.KernelIdeal.main_v968))) (V (Proc.devRef .tc Cert.ReferenceIdeal.main_v968))

/-- Boundary 52: every buffer written before it and read after it holds the same contents in the two programs' memories (each equation at the buffer's own array type, written out: the two programs' buffer tables are never compared). -/
structure Agree52 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v973 : @Eq ((⟨⟨2, ![1024, 16]⟩, .f32⟩ : BufTy).Contents (Elt F)) (W (no_index (Proc.devRef .tc Cert.KernelIdeal.main_v973))) (V (Proc.devRef .tc Cert.ReferenceIdeal.main_v973))
  main_v980 : @Eq ((⟨⟨3, ![1024, 16, 16]⟩, .f32⟩ : BufTy).Contents (Elt F)) (W (no_index (Proc.devRef .tc Cert.KernelIdeal.main_v980))) (V (Proc.devRef .tc Cert.ReferenceIdeal.main_v980))
  main_v984 : @Eq ((⟨⟨2, ![1024, 1]⟩, .f32⟩ : BufTy).Contents (Elt F)) (W (no_index (Proc.devRef .tc Cert.KernelIdeal.main_v984))) (V (Proc.devRef .tc Cert.ReferenceIdeal.main_v984))
  main_v986 : @Eq ((⟨⟨2, ![1024, 1]⟩, .f32⟩ : BufTy).Contents (Elt F)) (W (no_index (Proc.devRef .tc Cert.KernelIdeal.main_v986))) (V (Proc.devRef .tc Cert.ReferenceIdeal.main_v986))
  main_v987 : @Eq ((⟨⟨3, ![1024, 1, 16]⟩, .f32⟩ : BufTy).Contents (Elt F)) (W (no_index (Proc.devRef .tc Cert.KernelIdeal.main_v987))) (V (Proc.devRef .tc Cert.ReferenceIdeal.main_v987))

/-- Boundary 53: every buffer written before it and read after it holds the same contents in the two programs' memories (each equation at the buffer's own array type, written out: the two programs' buffer tables are never compared). -/
structure Agree53 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v993 : @Eq ((⟨⟨2, ![1024, 16]⟩, .f32⟩ : BufTy).Contents (Elt F)) (W (no_index (Proc.devRef .tc Cert.KernelIdeal.main_v993))) (V (Proc.devRef .tc Cert.ReferenceIdeal.main_v993))
  main_v1000 : @Eq ((⟨⟨3, ![1024, 16, 16]⟩, .f32⟩ : BufTy).Contents (Elt F)) (W (no_index (Proc.devRef .tc Cert.KernelIdeal.main_v1000))) (V (Proc.devRef .tc Cert.ReferenceIdeal.main_v1000))
  main_v1004 : @Eq ((⟨⟨2, ![1024, 1]⟩, .f32⟩ : BufTy).Contents (Elt F)) (W (no_index (Proc.devRef .tc Cert.KernelIdeal.main_v1004))) (V (Proc.devRef .tc Cert.ReferenceIdeal.main_v1004))
  main_v1006 : @Eq ((⟨⟨2, ![1024, 1]⟩, .f32⟩ : BufTy).Contents (Elt F)) (W (no_index (Proc.devRef .tc Cert.KernelIdeal.main_v1006))) (V (Proc.devRef .tc Cert.ReferenceIdeal.main_v1006))

/-- Boundary 54: every buffer written before it and read after it holds the same contents in the two programs' memories (each equation at the buffer's own array type, written out: the two programs' buffer tables are never compared). -/
structure Agree54 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1013 : @Eq ((⟨⟨2, ![1024, 16]⟩, .f32⟩ : BufTy).Contents (Elt F)) (W (no_index (Proc.devRef .tc Cert.KernelIdeal.main_v1013))) (V (Proc.devRef .tc Cert.ReferenceIdeal.main_v1013))
  main_v1020 : @Eq ((⟨⟨3, ![1024, 16, 16]⟩, .f32⟩ : BufTy).Contents (Elt F)) (W (no_index (Proc.devRef .tc Cert.KernelIdeal.main_v1020))) (V (Proc.devRef .tc Cert.ReferenceIdeal.main_v1020))
  main_v1024 : @Eq ((⟨⟨2, ![1024, 1]⟩, .f32⟩ : BufTy).Contents (Elt F)) (W (no_index (Proc.devRef .tc Cert.KernelIdeal.main_v1024))) (V (Proc.devRef .tc Cert.ReferenceIdeal.main_v1024))
  main_v1025 : @Eq ((⟨⟨1, ![1024]⟩, .f32⟩ : BufTy).Contents (Elt F)) (W (no_index (Proc.devRef .tc Cert.KernelIdeal.main_v1025))) (V (Proc.devRef .tc Cert.ReferenceIdeal.main_v1025))

/-- Boundary 55: every buffer written before it and read after it holds the same contents in the two programs' memories (each equation at the buffer's own array type, written out: the two programs' buffer tables are never compared). -/
structure Agree55 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1033 : @Eq ((⟨⟨2, ![1024, 16]⟩, .f32⟩ : BufTy).Contents (Elt F)) (W (no_index (Proc.devRef .tc Cert.KernelIdeal.main_v1033))) (V (Proc.devRef .tc Cert.ReferenceIdeal.main_v1033))
  main_v1040 : @Eq ((⟨⟨3, ![1024, 16, 16]⟩, .f32⟩ : BufTy).Contents (Elt F)) (W (no_index (Proc.devRef .tc Cert.KernelIdeal.main_v1040))) (V (Proc.devRef .tc Cert.ReferenceIdeal.main_v1040))
  main_v1042 : @Eq ((⟨⟨1, ![1024]⟩, .f32⟩ : BufTy).Contents (Elt F)) (W (no_index (Proc.devRef .tc Cert.KernelIdeal.main_v1042))) (V (Proc.devRef .tc Cert.ReferenceIdeal.main_v1042))
  main_v1044 : @Eq ((⟨⟨2, ![1024, 1]⟩, .f32⟩ : BufTy).Contents (Elt F)) (W (no_index (Proc.devRef .tc Cert.KernelIdeal.main_v1044))) (V (Proc.devRef .tc Cert.ReferenceIdeal.main_v1044))

/-- Boundary 56: every buffer written before it and read after it holds the same contents in the two programs' memories (each equation at the buffer's own array type, written out: the two programs' buffer tables are never compared). -/
structure Agree56 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1053 : @Eq ((⟨⟨2, ![1024, 16]⟩, .f32⟩ : BufTy).Contents (Elt F)) (W (no_index (Proc.devRef .tc Cert.KernelIdeal.main_v1053))) (V (Proc.devRef .tc Cert.ReferenceIdeal.main_v1053))
  main_v1060 : @Eq ((⟨⟨3, ![1024, 16, 16]⟩, .f32⟩ : BufTy).Contents (Elt F)) (W (no_index (Proc.devRef .tc Cert.KernelIdeal.main_v1060))) (V (Proc.devRef .tc Cert.ReferenceIdeal.main_v1060))
  main_v1062 : @Eq ((⟨⟨1, ![1024]⟩, .f32⟩ : BufTy).Contents (Elt F)) (W (no_index (Proc.devRef .tc Cert.KernelIdeal.main_v1062))) (V (Proc.devRef .tc Cert.ReferenceIdeal.main_v1062))
  main_v1063 : @Eq ((⟨⟨1, ![1024]⟩, .f32⟩ : BufTy).Contents (Elt F)) (W (no_index (Proc.devRef .tc Cert.KernelIdeal.main_v1063))) (V (Proc.devRef .tc Cert.ReferenceIdeal.main_v1063))

/-- Boundary 57: every buffer written before it and read after it holds the same contents in the two programs' memories (each equation at the buffer's own array type, written out: the two programs' buffer tables are never compared). -/
structure Agree57 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1073 : @Eq ((⟨⟨2, ![1024, 16]⟩, .f32⟩ : BufTy).Contents (Elt F)) (W (no_index (Proc.devRef .tc Cert.KernelIdeal.main_v1073))) (V (Proc.devRef .tc Cert.ReferenceIdeal.main_v1073))
  main_v1080 : @Eq ((⟨⟨3, ![1024, 16, 16]⟩, .f32⟩ : BufTy).Contents (Elt F)) (W (no_index (Proc.devRef .tc Cert.KernelIdeal.main_v1080))) (V (Proc.devRef .tc Cert.ReferenceIdeal.main_v1080))
  main_v1082 : @Eq ((⟨⟨1, ![1024]⟩, .f32⟩ : BufTy).Contents (Elt F)) (W (no_index (Proc.devRef .tc Cert.KernelIdeal.main_v1082))) (V (Proc.devRef .tc Cert.ReferenceIdeal.main_v1082))

/-- Boundary 58: every buffer written before it and read after it holds the same contents in the two programs' memories (each equation at the buffer's own array type, written out: the two programs' buffer tables are never compared). -/
structure Agree58 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1093 : @Eq ((⟨⟨2, ![1024, 16]⟩, .f32⟩ : BufTy).Contents (Elt F)) (W (no_index (Proc.devRef .tc Cert.KernelIdeal.main_v1093))) (V (Proc.devRef .tc Cert.ReferenceIdeal.main_v1093))
  main_v1100 : @Eq ((⟨⟨3, ![1024, 16, 16]⟩, .f32⟩ : BufTy).Contents (Elt F)) (W (no_index (Proc.devRef .tc Cert.KernelIdeal.main_v1100))) (V (Proc.devRef .tc Cert.ReferenceIdeal.main_v1100))
  main_c_57 : @Eq ((⟨⟨0, ![]⟩, .i32⟩ : BufTy).Contents (Elt F)) (W (no_index (Proc.devRef .tc Cert.KernelIdeal.main_c_57))) (V (Proc.devRef .tc Cert.ReferenceIdeal.main_c_57))

/-- Boundary 59: every buffer written before it and read after it holds the same contents in the two programs' memories (each equation at the buffer's own array type, written out: the two programs' buffer tables are never compared). -/
structure Agree59 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1102 : @Eq ((⟨⟨3, ![1024, 16, 16]⟩, .f32⟩ : BufTy).Contents (Elt F)) (W (no_index (Proc.devRef .tc Cert.KernelIdeal.main_v1102))) (V (Proc.devRef .tc Cert.ReferenceIdeal.main_v1102))
  main_v1112 : @Eq ((⟨⟨2, ![1024, 16]⟩, .f32⟩ : BufTy).Contents (Elt F)) (W (no_index (Proc.devRef .tc Cert.KernelIdeal.main_v1112))) (V (Proc.devRef .tc Cert.ReferenceIdeal.main_v1112))
  main_v1117 : @Eq ((⟨⟨2, ![1024, 16]⟩, .f32⟩ : BufTy).Contents (Elt F)) (W (no_index (Proc.devRef .tc Cert.KernelIdeal.main_v1117))) (V (Proc.devRef .tc Cert.ReferenceIdeal.main_v1117))
  main_v1119 : @Eq ((⟨⟨2, ![1024, 16]⟩, .f32⟩ : BufTy).Contents (Elt F)) (W (no_index (Proc.devRef .tc Cert.KernelIdeal.main_v1119))) (V (Proc.devRef .tc Cert.ReferenceIdeal.main_v1119))
  main_v1120 : @Eq ((⟨⟨2, ![1024, 16]⟩, .f32⟩ : BufTy).Contents (Elt F)) (W (no_index (Proc.devRef .tc Cert.KernelIdeal.main_v1120))) (V (Proc.devRef .tc Cert.ReferenceIdeal.main_v1120))

/-- Boundary 60: every buffer written before it and read after it holds the same contents in the two programs' memories (each equation at the buffer's own array type, written out: the two programs' buffer tables are never compared). -/
structure Agree60 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1124 : @Eq ((⟨⟨3, ![1024, 16, 16]⟩, .f32⟩ : BufTy).Contents (Elt F)) (W (no_index (Proc.devRef .tc Cert.KernelIdeal.main_v1124))) (V (Proc.devRef .tc Cert.ReferenceIdeal.main_v1124))
  main_v1128 : @Eq ((⟨⟨2, ![1024, 1]⟩, .f32⟩ : BufTy).Contents (Elt F)) (W (no_index (Proc.devRef .tc Cert.KernelIdeal.main_v1128))) (V (Proc.devRef .tc Cert.ReferenceIdeal.main_v1128))
  main_v1132 : @Eq ((⟨⟨2, ![1024, 16]⟩, .f32⟩ : BufTy).Contents (Elt F)) (W (no_index (Proc.devRef .tc Cert.KernelIdeal.main_v1132))) (V (Proc.devRef .tc Cert.ReferenceIdeal.main_v1132))
  main_v1137 : @Eq ((⟨⟨2, ![1024, 16]⟩, .f32⟩ : BufTy).Contents (Elt F)) (W (no_index (Proc.devRef .tc Cert.KernelIdeal.main_v1137))) (V (Proc.devRef .tc Cert.ReferenceIdeal.main_v1137))
  main_v1139 : @Eq ((⟨⟨2, ![1024, 16]⟩, .f32⟩ : BufTy).Contents (Elt F)) (W (no_index (Proc.devRef .tc Cert.KernelIdeal.main_v1139))) (V (Proc.devRef .tc Cert.ReferenceIdeal.main_v1139))

/-- Boundary 61: every buffer written before it and read after it holds the same contents in the two programs' memories (each equation at the buffer's own array type, written out: the two programs' buffer tables are never compared). -/
structure Agree61 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1137 : @Eq ((⟨⟨2, ![1024, 16]⟩, .f32⟩ : BufTy).Contents (Elt F)) (W (no_index (Proc.devRef .tc Cert.KernelIdeal.main_v1137))) (V (Proc.devRef .tc Cert.ReferenceIdeal.main_v1137))
  main_v1144 : @Eq ((⟨⟨3, ![1024, 16, 16]⟩, .f32⟩ : BufTy).Contents (Elt F)) (W (no_index (Proc.devRef .tc Cert.KernelIdeal.main_v1144))) (V (Proc.devRef .tc Cert.ReferenceIdeal.main_v1144))
  main_v1148 : @Eq ((⟨⟨2, ![1024, 1]⟩, .f32⟩ : BufTy).Contents (Elt F)) (W (no_index (Proc.devRef .tc Cert.KernelIdeal.main_v1148))) (V (Proc.devRef .tc Cert.ReferenceIdeal.main_v1148))
  main_v1152 : @Eq ((⟨⟨2, ![1024, 16]⟩, .f32⟩ : BufTy).Contents (Elt F)) (W (no_index (Proc.devRef .tc Cert.KernelIdeal.main_v1152))) (V (Proc.devRef .tc Cert.ReferenceIdeal.main_v1152))
  main_v1157 : @Eq ((⟨⟨2, ![1024, 16]⟩, .f32⟩ : BufTy).Contents (Elt F)) (W (no_index (Proc.devRef .tc Cert.KernelIdeal.main_v1157))) (V (Proc.devRef .tc Cert.ReferenceIdeal.main_v1157))
  main_v1158 : @Eq ((⟨⟨2, ![1024, 16]⟩, .f32⟩ : BufTy).Contents (Elt F)) (W (no_index (Proc.devRef .tc Cert.KernelIdeal.main_v1158))) (V (Proc.devRef .tc Cert.ReferenceIdeal.main_v1158))

/-- Boundary 62: every buffer written before it and read after it holds the same contents in the two programs' memories (each equation at the buffer's own array type, written out: the two programs' buffer tables are never compared). -/
structure Agree62 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1157 : @Eq ((⟨⟨2, ![1024, 16]⟩, .f32⟩ : BufTy).Contents (Elt F)) (W (no_index (Proc.devRef .tc Cert.KernelIdeal.main_v1157))) (V (Proc.devRef .tc Cert.ReferenceIdeal.main_v1157))
  main_v1164 : @Eq ((⟨⟨3, ![1024, 16, 16]⟩, .f32⟩ : BufTy).Contents (Elt F)) (W (no_index (Proc.devRef .tc Cert.KernelIdeal.main_v1164))) (V (Proc.devRef .tc Cert.ReferenceIdeal.main_v1164))
  main_v1168 : @Eq ((⟨⟨2, ![1024, 1]⟩, .f32⟩ : BufTy).Contents (Elt F)) (W (no_index (Proc.devRef .tc Cert.KernelIdeal.main_v1168))) (V (Proc.devRef .tc Cert.ReferenceIdeal.main_v1168))
  main_v1170 : @Eq ((⟨⟨2, ![1024, 1]⟩, .f32⟩ : BufTy).Contents (Elt F)) (W (no_index (Proc.devRef .tc Cert.KernelIdeal.main_v1170))) (V (Proc.devRef .tc Cert.ReferenceIdeal.main_v1170))
  main_v1172 : @Eq ((⟨⟨2, ![1024, 16]⟩, .f32⟩ : BufTy).Contents (Elt F)) (W (no_index (Proc.devRef .tc Cert.KernelIdeal.main_v1172))) (V (Proc.devRef .tc Cert.ReferenceIdeal.main_v1172))
  main_v1177 : @Eq ((⟨⟨2, ![1024, 16]⟩, .f32⟩ : BufTy).Contents (Elt F)) (W (no_index (Proc.devRef .tc Cert.KernelIdeal.main_v1177))) (V (Proc.devRef .tc Cert.ReferenceIdeal.main_v1177))

/-- Boundary 63: every buffer written before it and read after it holds the same contents in the two programs' memories (each equation at the buffer's own array type, written out: the two programs' buffer tables are never compared). -/
structure Agree63 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1177 : @Eq ((⟨⟨2, ![1024, 16]⟩, .f32⟩ : BufTy).Contents (Elt F)) (W (no_index (Proc.devRef .tc Cert.KernelIdeal.main_v1177))) (V (Proc.devRef .tc Cert.ReferenceIdeal.main_v1177))
  main_v1184 : @Eq ((⟨⟨3, ![1024, 16, 16]⟩, .f32⟩ : BufTy).Contents (Elt F)) (W (no_index (Proc.devRef .tc Cert.KernelIdeal.main_v1184))) (V (Proc.devRef .tc Cert.ReferenceIdeal.main_v1184))
  main_v1188 : @Eq ((⟨⟨2, ![1024, 1]⟩, .f32⟩ : BufTy).Contents (Elt F)) (W (no_index (Proc.devRef .tc Cert.KernelIdeal.main_v1188))) (V (Proc.devRef .tc Cert.ReferenceIdeal.main_v1188))
  main_v1190 : @Eq ((⟨⟨2, ![1024, 1]⟩, .f32⟩ : BufTy).Contents (Elt F)) (W (no_index (Proc.devRef .tc Cert.KernelIdeal.main_v1190))) (V (Proc.devRef .tc Cert.ReferenceIdeal.main_v1190))
  main_v1192 : @Eq ((⟨⟨2, ![1024, 16]⟩, .f32⟩ : BufTy).Contents (Elt F)) (W (no_index (Proc.devRef .tc Cert.KernelIdeal.main_v1192))) (V (Proc.devRef .tc Cert.ReferenceIdeal.main_v1192))
  main_v1194 : @Eq ((⟨⟨2, ![1024, 16]⟩, .f32⟩ : BufTy).Contents (Elt F)) (W (no_index (Proc.devRef .tc Cert.KernelIdeal.main_v1194))) (V (Proc.devRef .tc Cert.ReferenceIdeal.main_v1194))
  main_v1196 : @Eq ((⟨⟨2, ![1024, 16]⟩, .f32⟩ : BufTy).Contents (Elt F)) (W (no_index (Proc.devRef .tc Cert.KernelIdeal.main_v1196))) (V (Proc.devRef .tc Cert.ReferenceIdeal.main_v1196))

/-- Boundary 64: every buffer written before it and read after it holds the same contents in the two programs' memories (each equation at the buffer's own array type, written out: the two programs' buffer tables are never compared). -/
structure Agree64 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1197 : @Eq ((⟨⟨2, ![1024, 16]⟩, .f32⟩ : BufTy).Contents (Elt F)) (W (no_index (Proc.devRef .tc Cert.KernelIdeal.main_v1197))) (V (Proc.devRef .tc Cert.ReferenceIdeal.main_v1197))
  main_v1204 : @Eq ((⟨⟨3, ![1024, 16, 16]⟩, .f32⟩ : BufTy).Contents (Elt F)) (W (no_index (Proc.devRef .tc Cert.KernelIdeal.main_v1204))) (V (Proc.devRef .tc Cert.ReferenceIdeal.main_v1204))
  main_v1208 : @Eq ((⟨⟨2, ![1024, 1]⟩, .f32⟩ : BufTy).Contents (Elt F)) (W (no_index (Proc.devRef .tc Cert.KernelIdeal.main_v1208))) (V (Proc.devRef .tc Cert.ReferenceIdeal.main_v1208))
  main_v1210 : @Eq ((⟨⟨2, ![1024, 1]⟩, .f32⟩ : BufTy).Contents (Elt F)) (W (no_index (Proc.devRef .tc Cert.KernelIdeal.main_v1210))) (V (Proc.devRef .tc Cert.ReferenceIdeal.main_v1210))
  main_v1212 : @Eq ((⟨⟨2, ![1024, 16]⟩, .f32⟩ : BufTy).Contents (Elt F)) (W (no_index (Proc.devRef .tc Cert.KernelIdeal.main_v1212))) (V (Proc.devRef .tc Cert.ReferenceIdeal.main_v1212))
  main_v1214 : @Eq ((⟨⟨2, ![1024, 16]⟩, .f32⟩ : BufTy).Contents (Elt F)) (W (no_index (Proc.devRef .tc Cert.KernelIdeal.main_v1214))) (V (Proc.devRef .tc Cert.ReferenceIdeal.main_v1214))
  main_v1215 : @Eq ((⟨⟨2, ![1024, 16]⟩, .f32⟩ : BufTy).Contents (Elt F)) (W (no_index (Proc.devRef .tc Cert.KernelIdeal.main_v1215))) (V (Proc.devRef .tc Cert.ReferenceIdeal.main_v1215))

/-- Boundary 65: every buffer written before it and read after it holds the same contents in the two programs' memories (each equation at the buffer's own array type, written out: the two programs' buffer tables are never compared). -/
structure Agree65 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1217 : @Eq ((⟨⟨2, ![1024, 16]⟩, .f32⟩ : BufTy).Contents (Elt F)) (W (no_index (Proc.devRef .tc Cert.KernelIdeal.main_v1217))) (V (Proc.devRef .tc Cert.ReferenceIdeal.main_v1217))
  main_v1224 : @Eq ((⟨⟨3, ![1024, 16, 16]⟩, .f32⟩ : BufTy).Contents (Elt F)) (W (no_index (Proc.devRef .tc Cert.KernelIdeal.main_v1224))) (V (Proc.devRef .tc Cert.ReferenceIdeal.main_v1224))
  main_v1228 : @Eq ((⟨⟨2, ![1024, 1]⟩, .f32⟩ : BufTy).Contents (Elt F)) (W (no_index (Proc.devRef .tc Cert.KernelIdeal.main_v1228))) (V (Proc.devRef .tc Cert.ReferenceIdeal.main_v1228))
  main_v1230 : @Eq ((⟨⟨2, ![1024, 1]⟩, .f32⟩ : BufTy).Contents (Elt F)) (W (no_index (Proc.devRef .tc Cert.KernelIdeal.main_v1230))) (V (Proc.devRef .tc Cert.ReferenceIdeal.main_v1230))
  main_v1232 : @Eq ((⟨⟨2, ![1024, 16]⟩, .f32⟩ : BufTy).Contents (Elt F)) (W (no_index (Proc.devRef .tc Cert.KernelIdeal.main_v1232))) (V (Proc.devRef .tc Cert.ReferenceIdeal.main_v1232))
  main_v1234 : @Eq ((⟨⟨2, ![1024, 16]⟩, .f32⟩ : BufTy).Contents (Elt F)) (W (no_index (Proc.devRef .tc Cert.KernelIdeal.main_v1234))) (V (Proc.devRef .tc Cert.ReferenceIdeal.main_v1234))

/-- Boundary 66: every buffer written before it and read after it holds the same contents in the two programs' memories (each equation at the buffer's own array type, written out: the two programs' buffer tables are never compared). -/
structure Agree66 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1237 : @Eq ((⟨⟨2, ![1024, 16]⟩, .f32⟩ : BufTy).Contents (Elt F)) (W (no_index (Proc.devRef .tc Cert.KernelIdeal.main_v1237))) (V (Proc.devRef .tc Cert.ReferenceIdeal.main_v1237))
  main_v1244 : @Eq ((⟨⟨3, ![1024, 16, 16]⟩, .f32⟩ : BufTy).Contents (Elt F)) (W (no_index (Proc.devRef .tc Cert.KernelIdeal.main_v1244))) (V (Proc.devRef .tc Cert.ReferenceIdeal.main_v1244))
  main_v1248 : @Eq ((⟨⟨2, ![1024, 1]⟩, .f32⟩ : BufTy).Contents (Elt F)) (W (no_index (Proc.devRef .tc Cert.KernelIdeal.main_v1248))) (V (Proc.devRef .tc Cert.ReferenceIdeal.main_v1248))
  main_v1250 : @Eq ((⟨⟨2, ![1024, 1]⟩, .f32⟩ : BufTy).Contents (Elt F)) (W (no_index (Proc.devRef .tc Cert.KernelIdeal.main_v1250))) (V (Proc.devRef .tc Cert.ReferenceIdeal.main_v1250))
  main_v1252 : @Eq ((⟨⟨2, ![1024, 16]⟩, .f32⟩ : BufTy).Contents (Elt F)) (W (no_index (Proc.devRef .tc Cert.KernelIdeal.main_v1252))) (V (Proc.devRef .tc Cert.ReferenceIdeal.main_v1252))
  main_v1253 : @Eq ((⟨⟨2, ![1024, 16]⟩, .f32⟩ : BufTy).Contents (Elt F)) (W (no_index (Proc.devRef .tc Cert.KernelIdeal.main_v1253))) (V (Proc.devRef .tc Cert.ReferenceIdeal.main_v1253))

/-- Boundary 67: every buffer written before it and read after it holds the same contents in the two programs' memories (each equation at the buffer's own array type, written out: the two programs' buffer tables are never compared). -/
structure Agree67 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1257 : @Eq ((⟨⟨2, ![1024, 16]⟩, .f32⟩ : BufTy).Contents (Elt F)) (W (no_index (Proc.devRef .tc Cert.KernelIdeal.main_v1257))) (V (Proc.devRef .tc Cert.ReferenceIdeal.main_v1257))
  main_v1264 : @Eq ((⟨⟨3, ![1024, 16, 16]⟩, .f32⟩ : BufTy).Contents (Elt F)) (W (no_index (Proc.devRef .tc Cert.KernelIdeal.main_v1264))) (V (Proc.devRef .tc Cert.ReferenceIdeal.main_v1264))
  main_v1268 : @Eq ((⟨⟨2, ![1024, 1]⟩, .f32⟩ : BufTy).Contents (Elt F)) (W (no_index (Proc.devRef .tc Cert.KernelIdeal.main_v1268))) (V (Proc.devRef .tc Cert.ReferenceIdeal.main_v1268))
  main_v1270 : @Eq ((⟨⟨2, ![1024, 1]⟩, .f32⟩ : BufTy).Contents (Elt F)) (W (no_index (Proc.devRef .tc Cert.KernelIdeal.main_v1270))) (V (Proc.devRef .tc Cert.ReferenceIdeal.main_v1270))
  main_v1272 : @Eq ((⟨⟨2, ![1024, 16]⟩, .f32⟩ : BufTy).Contents (Elt F)) (W (no_index (Proc.devRef .tc Cert.KernelIdeal.main_v1272))) (V (Proc.devRef .tc Cert.ReferenceIdeal.main_v1272))

/-- Boundary 68: every buffer written before it and read after it holds the same contents in the two programs' memories (each equation at the buffer's own array type, written out: the two programs' buffer tables are never compared). -/
structure Agree68 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1277 : @Eq ((⟨⟨2, ![1024, 16]⟩, .f32⟩ : BufTy).Contents (Elt F)) (W (no_index (Proc.devRef .tc Cert.KernelIdeal.main_v1277))) (V (Proc.devRef .tc Cert.ReferenceIdeal.main_v1277))
  main_v1284 : @Eq ((⟨⟨3, ![1024, 16, 16]⟩, .f32⟩ : BufTy).Contents (Elt F)) (W (no_index (Proc.devRef .tc Cert.KernelIdeal.main_v1284))) (V (Proc.devRef .tc Cert.ReferenceIdeal.main_v1284))
  main_v1288 : @Eq ((⟨⟨2, ![1024, 1]⟩, .f32⟩ : BufTy).Contents (Elt F)) (W (no_index (Proc.devRef .tc Cert.KernelIdeal.main_v1288))) (V (Proc.devRef .tc Cert.ReferenceIdeal.main_v1288))
  main_v1290 : @Eq ((⟨⟨2, ![1024, 1]⟩, .f32⟩ : BufTy).Contents (Elt F)) (W (no_index (Proc.devRef .tc Cert.KernelIdeal.main_v1290))) (V (Proc.devRef .tc Cert.ReferenceIdeal.main_v1290))
  main_v1291 : @Eq ((⟨⟨3, ![1024, 1, 16]⟩, .f32⟩ : BufTy).Contents (Elt F)) (W (no_index (Proc.devRef .tc Cert.KernelIdeal.main_v1291))) (V (Proc.devRef .tc Cert.ReferenceIdeal.main_v1291))

/-- Boundary 69: every buffer written before it and read after it holds the same contents in the two programs' memories (each equation at the buffer's own array type, written out: the two programs' buffer tables are never compared). -/
structure Agree69 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1297 : @Eq ((⟨⟨2, ![1024, 16]⟩, .f32⟩ : BufTy).Contents (Elt F)) (W (no_index (Proc.devRef .tc Cert.KernelIdeal.main_v1297))) (V (Proc.devRef .tc Cert.ReferenceIdeal.main_v1297))
  main_v1304 : @Eq ((⟨⟨3, ![1024, 16, 16]⟩, .f32⟩ : BufTy).Contents (Elt F)) (W (no_index (Proc.devRef .tc Cert.KernelIdeal.main_v1304))) (V (Proc.devRef .tc Cert.ReferenceIdeal.main_v1304))
  main_v1308 : @Eq ((⟨⟨2, ![1024, 1]⟩, .f32⟩ : BufTy).Contents (Elt F)) (W (no_index (Proc.devRef .tc Cert.KernelIdeal.main_v1308))) (V (Proc.devRef .tc Cert.ReferenceIdeal.main_v1308))
  main_v1310 : @Eq ((⟨⟨2, ![1024, 1]⟩, .f32⟩ : BufTy).Contents (Elt F)) (W (no_index (Proc.devRef .tc Cert.KernelIdeal.main_v1310))) (V (Proc.devRef .tc Cert.ReferenceIdeal.main_v1310))

/-- Boundary 70: every buffer written before it and read after it holds the same contents in the two programs' memories (each equation at the buffer's own array type, written out: the two programs' buffer tables are never compared). -/
structure Agree70 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1326 : @Eq ((⟨⟨3, ![1024, 16, 16]⟩, .f32⟩ : BufTy).Contents (Elt F)) (W (no_index (Proc.devRef .tc Cert.KernelIdeal.main_v1326))) (V (Proc.devRef .tc Cert.ReferenceIdeal.main_v1326))
  main_v1328 : @Eq ((⟨⟨2, ![1024, 16]⟩, .f32⟩ : BufTy).Contents (Elt F)) (W (no_index (Proc.devRef .tc Cert.KernelIdeal.main_v1328))) (V (Proc.devRef .tc Cert.ReferenceIdeal.main_v1328))

/-- Boundary 71: every buffer written before it and read after it holds the same contents in the two programs' memories (each equation at the buffer's own array type, written out: the two programs' buffer tables are never compared). -/
structure Agree71 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1326 : @Eq ((⟨⟨3, ![1024, 16, 16]⟩, .f32⟩ : BufTy).Contents (Elt F)) (W (no_index (Proc.devRef .tc Cert.KernelIdeal.main_v1326))) (V (Proc.devRef .tc Cert.ReferenceIdeal.main_v1326))
  main_v1341 : @Eq ((⟨⟨2, ![1024, 16]⟩, .f32⟩ : BufTy).Contents (Elt F)) (W (no_index (Proc.devRef .tc Cert.KernelIdeal.main_v1341))) (V (Proc.devRef .tc Cert.ReferenceIdeal.main_v1341))
  main_v1346 : @Eq ((⟨⟨2, ![1024, 16]⟩, .f32⟩ : BufTy).Contents (Elt F)) (W (no_index (Proc.devRef .tc Cert.KernelIdeal.main_v1346))) (V (Proc.devRef .tc Cert.ReferenceIdeal.main_v1346))
  main_v1347 : @Eq ((⟨⟨1, ![1]⟩, .i32⟩ : BufTy).Contents (Elt F)) (W (no_index (Proc.devRef .tc Cert.KernelIdeal.main_v1347))) (V (Proc.devRef .tc Cert.ReferenceIdeal.main_v1347))

/-- Boundary 72: every buffer written before it and read after it holds the same contents in the two programs' memories (each equation at the buffer's own array type, written out: the two programs' buffer tables are never compared). -/
structure Agree72 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1348 : @Eq ((⟨⟨3, ![1024, 16, 16]⟩, .f32⟩ : BufTy).Contents (Elt F)) (W (no_index (Proc.devRef .tc Cert.KernelIdeal.main_v1348))) (V (Proc.devRef .tc Cert.ReferenceIdeal.main_v1348))
  main_v1361 : @Eq ((⟨⟨2, ![1024, 16]⟩, .f32⟩ : BufTy).Contents (Elt F)) (W (no_index (Proc.devRef .tc Cert.KernelIdeal.main_v1361))) (V (Proc.devRef .tc Cert.ReferenceIdeal.main_v1361))
  main_v1366 : @Eq ((⟨⟨2, ![1024, 16]⟩, .f32⟩ : BufTy).Contents (Elt F)) (W (no_index (Proc.devRef .tc Cert.KernelIdeal.main_v1366))) (V (Proc.devRef .tc Cert.ReferenceIdeal.main_v1366))
  main_c_71 : @Eq ((⟨⟨0, ![]⟩, .i32⟩ : BufTy).Contents (Elt F)) (W (no_index (Proc.devRef .tc Cert.KernelIdeal.main_c_71))) (V (Proc.devRef .tc Cert.ReferenceIdeal.main_c_71))

/-- Boundary 73: every buffer written before it and read after it holds the same contents in the two programs' memories (each equation at the buffer's own array type, written out: the two programs' buffer tables are never compared). -/
structure Agree73 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1368 : @Eq ((⟨⟨3, ![1024, 16, 16]⟩, .f32⟩ : BufTy).Contents (Elt F)) (W (no_index (Proc.devRef .tc Cert.KernelIdeal.main_v1368))) (V (Proc.devRef .tc Cert.ReferenceIdeal.main_v1368))
  main_v1381 : @Eq ((⟨⟨2, ![1024, 16]⟩, .f32⟩ : BufTy).Contents (Elt F)) (W (no_index (Proc.devRef .tc Cert.KernelIdeal.main_v1381))) (V (Proc.devRef .tc Cert.ReferenceIdeal.main_v1381))
  main_v1386 : @Eq ((⟨⟨2, ![1024, 16]⟩, .f32⟩ : BufTy).Contents (Elt F)) (W (no_index (Proc.devRef .tc Cert.KernelIdeal.main_v1386))) (V (Proc.devRef .tc Cert.ReferenceIdeal.main_v1386))

/-- Boundary 74: every buffer written before it and read after it holds the same contents in the two programs' memories (each equation at the buffer's own array type, written out: the two programs' buffer tables are never compared). -/
structure Agree74 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1388 : @Eq ((⟨⟨3, ![1024, 16, 16]⟩, .f32⟩ : BufTy).Contents (Elt F)) (W (no_index (Proc.devRef .tc Cert.KernelIdeal.main_v1388))) (V (Proc.devRef .tc Cert.ReferenceIdeal.main_v1388))
  main_v1401 : @Eq ((⟨⟨2, ![1024, 16]⟩, .f32⟩ : BufTy).Contents (Elt F)) (W (no_index (Proc.devRef .tc Cert.KernelIdeal.main_v1401))) (V (Proc.devRef .tc Cert.ReferenceIdeal.main_v1401))
  main_v1403 : @Eq ((⟨⟨2, ![1024, 16]⟩, .f32⟩ : BufTy).Contents (Elt F)) (W (no_index (Proc.devRef .tc Cert.KernelIdeal.main_v1403))) (V (Proc.devRef .tc Cert.ReferenceIdeal.main_v1403))
  main_v1405 : @Eq ((⟨⟨2, ![1024, 16]⟩, .f32⟩ : BufTy).Contents (Elt F)) (W (no_index (Proc.devRef .tc Cert.KernelIdeal.main_v1405))) (V (Proc.devRef .tc Cert.ReferenceIdeal.main_v1405))

/-- Boundary 75: every buffer written before it and read after it holds the same contents in the two programs' memories (each equation at the buffer's own array type, written out: the two programs' buffer tables are never compared). -/
structure Agree75 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1408 : @Eq ((⟨⟨3, ![1024, 16, 16]⟩, .f32⟩ : BufTy).Contents (Elt F)) (W (no_index (Proc.devRef .tc Cert.KernelIdeal.main_v1408))) (V (Proc.devRef .tc Cert.ReferenceIdeal.main_v1408))
  main_v1416 : @Eq ((⟨⟨2, ![1024, 16]⟩, .f32⟩ : BufTy).Contents (Elt F)) (W (no_index (Proc.devRef .tc Cert.KernelIdeal.main_v1416))) (V (Proc.devRef .tc Cert.ReferenceIdeal.main_v1416))
  main_v1421 : @Eq ((⟨⟨2, ![1024, 16]⟩, .f32⟩ : BufTy).Contents (Elt F)) (W (no_index (Proc.devRef .tc Cert.KernelIdeal.main_v1421))) (V (Proc.devRef .tc Cert.ReferenceIdeal.main_v1421))
  main_v1423 : @Eq ((⟨⟨2, ![1024, 16]⟩, .f32⟩ : BufTy).Contents (Elt F)) (W (no_index (Proc.devRef .tc Cert.KernelIdeal.main_v1423))) (V (Proc.devRef .tc Cert.ReferenceIdeal.main_v1423))
  main_v1424 : @Eq ((⟨⟨2, ![1024, 16]⟩, .f32⟩ : BufTy).Contents (Elt F)) (W (no_index (Proc.devRef .tc Cert.KernelIdeal.main_v1424))) (V (Proc.devRef .tc Cert.ReferenceIdeal.main_v1424))

/-- Boundary 76: every buffer written before it and read after it holds the same contents in the two programs' memories (each equation at the buffer's own array type, written out: the two programs' buffer tables are never compared). -/
structure Agree76 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1428 : @Eq ((⟨⟨3, ![1024, 16, 16]⟩, .f32⟩ : BufTy).Contents (Elt F)) (W (no_index (Proc.devRef .tc Cert.KernelIdeal.main_v1428))) (V (Proc.devRef .tc Cert.ReferenceIdeal.main_v1428))
  main_v1432 : @Eq ((⟨⟨2, ![1024, 1]⟩, .f32⟩ : BufTy).Contents (Elt F)) (W (no_index (Proc.devRef .tc Cert.KernelIdeal.main_v1432))) (V (Proc.devRef .tc Cert.ReferenceIdeal.main_v1432))
  main_v1436 : @Eq ((⟨⟨2, ![1024, 16]⟩, .f32⟩ : BufTy).Contents (Elt F)) (W (no_index (Proc.devRef .tc Cert.KernelIdeal.main_v1436))) (V (Proc.devRef .tc Cert.ReferenceIdeal.main_v1436))
  main_v1441 : @Eq ((⟨⟨2, ![1024, 16]⟩, .f32⟩ : BufTy).Contents (Elt F)) (W (no_index (Proc.devRef .tc Cert.KernelIdeal.main_v1441))) (V (Proc.devRef .tc Cert.ReferenceIdeal.main_v1441))
  main_v1443 : @Eq ((⟨⟨2, ![1024, 16]⟩, .f32⟩ : BufTy).Contents (Elt F)) (W (no_index (Proc.devRef .tc Cert.KernelIdeal.main_v1443))) (V (Proc.devRef .tc Cert.ReferenceIdeal.main_v1443))

/-- Boundary 77: every buffer written before it and read after it holds the same contents in the two programs' memories (each equation at the buffer's own array type, written out: the two programs' buffer tables are never compared). -/
structure Agree77 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1441 : @Eq ((⟨⟨2, ![1024, 16]⟩, .f32⟩ : BufTy).Contents (Elt F)) (W (no_index (Proc.devRef .tc Cert.KernelIdeal.main_v1441))) (V (Proc.devRef .tc Cert.ReferenceIdeal.main_v1441))
  main_v1448 : @Eq ((⟨⟨3, ![1024, 16, 16]⟩, .f32⟩ : BufTy).Contents (Elt F)) (W (no_index (Proc.devRef .tc Cert.KernelIdeal.main_v1448))) (V (Proc.devRef .tc Cert.ReferenceIdeal.main_v1448))
  main_v1452 : @Eq ((⟨⟨2, ![1024, 1]⟩, .f32⟩ : BufTy).Contents (Elt F)) (W (no_index (Proc.devRef .tc Cert.KernelIdeal.main_v1452))) (V (Proc.devRef .tc Cert.ReferenceIdeal.main_v1452))
  main_v1456 : @Eq ((⟨⟨2, ![1024, 16]⟩, .f32⟩ : BufTy).Contents (Elt F)) (W (no_index (Proc.devRef .tc Cert.KernelIdeal.main_v1456))) (V (Proc.devRef .tc Cert.ReferenceIdeal.main_v1456))
  main_v1461 : @Eq ((⟨⟨2, ![1024, 16]⟩, .f32⟩ : BufTy).Contents (Elt F)) (W (no_index (Proc.devRef .tc Cert.KernelIdeal.main_v1461))) (V (Proc.devRef .tc Cert.ReferenceIdeal.main_v1461))
  main_v1462 : @Eq ((⟨⟨2, ![1024, 16]⟩, .f32⟩ : BufTy).Contents (Elt F)) (W (no_index (Proc.devRef .tc Cert.KernelIdeal.main_v1462))) (V (Proc.devRef .tc Cert.ReferenceIdeal.main_v1462))

/-- Boundary 78: every buffer written before it and read after it holds the same contents in the two programs' memories (each equation at the buffer's own array type, written out: the two programs' buffer tables are never compared). -/
structure Agree78 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1461 : @Eq ((⟨⟨2, ![1024, 16]⟩, .f32⟩ : BufTy).Contents (Elt F)) (W (no_index (Proc.devRef .tc Cert.KernelIdeal.main_v1461))) (V (Proc.devRef .tc Cert.ReferenceIdeal.main_v1461))
  main_v1468 : @Eq ((⟨⟨3, ![1024, 16, 16]⟩, .f32⟩ : BufTy).Contents (Elt F)) (W (no_index (Proc.devRef .tc Cert.KernelIdeal.main_v1468))) (V (Proc.devRef .tc Cert.ReferenceIdeal.main_v1468))
  main_v1472 : @Eq ((⟨⟨2, ![1024, 1]⟩, .f32⟩ : BufTy).Contents (Elt F)) (W (no_index (Proc.devRef .tc Cert.KernelIdeal.main_v1472))) (V (Proc.devRef .tc Cert.ReferenceIdeal.main_v1472))
  main_v1474 : @Eq ((⟨⟨2, ![1024, 1]⟩, .f32⟩ : BufTy).Contents (Elt F)) (W (no_index (Proc.devRef .tc Cert.KernelIdeal.main_v1474))) (V (Proc.devRef .tc Cert.ReferenceIdeal.main_v1474))
  main_v1476 : @Eq ((⟨⟨2, ![1024, 16]⟩, .f32⟩ : BufTy).Contents (Elt F)) (W (no_index (Proc.devRef .tc Cert.KernelIdeal.main_v1476))) (V (Proc.devRef .tc Cert.ReferenceIdeal.main_v1476))
  main_v1481 : @Eq ((⟨⟨2, ![1024, 16]⟩, .f32⟩ : BufTy).Contents (Elt F)) (W (no_index (Proc.devRef .tc Cert.KernelIdeal.main_v1481))) (V (Proc.devRef .tc Cert.ReferenceIdeal.main_v1481))

/-- Boundary 79: every buffer written before it and read after it holds the same contents in the two programs' memories (each equation at the buffer's own array type, written out: the two programs' buffer tables are never compared). -/
structure Agree79 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1481 : @Eq ((⟨⟨2, ![1024, 16]⟩, .f32⟩ : BufTy).Contents (Elt F)) (W (no_index (Proc.devRef .tc Cert.KernelIdeal.main_v1481))) (V (Proc.devRef .tc Cert.ReferenceIdeal.main_v1481))
  main_v1488 : @Eq ((⟨⟨3, ![1024, 16, 16]⟩, .f32⟩ : BufTy).Contents (Elt F)) (W (no_index (Proc.devRef .tc Cert.KernelIdeal.main_v1488))) (V (Proc.devRef .tc Cert.ReferenceIdeal.main_v1488))
  main_v1492 : @Eq ((⟨⟨2, ![1024, 1]⟩, .f32⟩ : BufTy).Contents (Elt F)) (W (no_index (Proc.devRef .tc Cert.KernelIdeal.main_v1492))) (V (Proc.devRef .tc Cert.ReferenceIdeal.main_v1492))
  main_v1494 : @Eq ((⟨⟨2, ![1024, 1]⟩, .f32⟩ : BufTy).Contents (Elt F)) (W (no_index (Proc.devRef .tc Cert.KernelIdeal.main_v1494))) (V (Proc.devRef .tc Cert.ReferenceIdeal.main_v1494))
  main_v1496 : @Eq ((⟨⟨2, ![1024, 16]⟩, .f32⟩ : BufTy).Contents (Elt F)) (W (no_index (Proc.devRef .tc Cert.KernelIdeal.main_v1496))) (V (Proc.devRef .tc Cert.ReferenceIdeal.main_v1496))
  main_v1498 : @Eq ((⟨⟨2, ![1024, 16]⟩, .f32⟩ : BufTy).Contents (Elt F)) (W (no_index (Proc.devRef .tc Cert.KernelIdeal.main_v1498))) (V (Proc.devRef .tc Cert.ReferenceIdeal.main_v1498))
  main_v1500 : @Eq ((⟨⟨2, ![1024, 16]⟩, .f32⟩ : BufTy).Contents (Elt F)) (W (no_index (Proc.devRef .tc Cert.KernelIdeal.main_v1500))) (V (Proc.devRef .tc Cert.ReferenceIdeal.main_v1500))

/-- Boundary 80: every buffer written before it and read after it holds the same contents in the two programs' memories (each equation at the buffer's own array type, written out: the two programs' buffer tables are never compared). -/
structure Agree80 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1501 : @Eq ((⟨⟨2, ![1024, 16]⟩, .f32⟩ : BufTy).Contents (Elt F)) (W (no_index (Proc.devRef .tc Cert.KernelIdeal.main_v1501))) (V (Proc.devRef .tc Cert.ReferenceIdeal.main_v1501))
  main_v1508 : @Eq ((⟨⟨3, ![1024, 16, 16]⟩, .f32⟩ : BufTy).Contents (Elt F)) (W (no_index (Proc.devRef .tc Cert.KernelIdeal.main_v1508))) (V (Proc.devRef .tc Cert.ReferenceIdeal.main_v1508))
  main_v1512 : @Eq ((⟨⟨2, ![1024, 1]⟩, .f32⟩ : BufTy).Contents (Elt F)) (W (no_index (Proc.devRef .tc Cert.KernelIdeal.main_v1512))) (V (Proc.devRef .tc Cert.ReferenceIdeal.main_v1512))
  main_v1514 : @Eq ((⟨⟨2, ![1024, 1]⟩, .f32⟩ : BufTy).Contents (Elt F)) (W (no_index (Proc.devRef .tc Cert.KernelIdeal.main_v1514))) (V (Proc.devRef .tc Cert.ReferenceIdeal.main_v1514))
  main_v1516 : @Eq ((⟨⟨2, ![1024, 16]⟩, .f32⟩ : BufTy).Contents (Elt F)) (W (no_index (Proc.devRef .tc Cert.KernelIdeal.main_v1516))) (V (Proc.devRef .tc Cert.ReferenceIdeal.main_v1516))
  main_v1518 : @Eq ((⟨⟨2, ![1024, 16]⟩, .f32⟩ : BufTy).Contents (Elt F)) (W (no_index (Proc.devRef .tc Cert.KernelIdeal.main_v1518))) (V (Proc.devRef .tc Cert.ReferenceIdeal.main_v1518))
  main_v1519 : @Eq ((⟨⟨2, ![1024, 16]⟩, .f32⟩ : BufTy).Contents (Elt F)) (W (no_index (Proc.devRef .tc Cert.KernelIdeal.main_v1519))) (V (Proc.devRef .tc Cert.ReferenceIdeal.main_v1519))

/-- Boundary 81: every buffer written before it and read after it holds the same contents in the two programs' memories (each equation at the buffer's own array type, written out: the two programs' buffer tables are never compared). -/
structure Agree81 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1530 : @Eq ((⟨⟨3, ![1024, 16, 16]⟩, .f32⟩ : BufTy).Contents (Elt F)) (W (no_index (Proc.devRef .tc Cert.KernelIdeal.main_v1530))) (V (Proc.devRef .tc Cert.ReferenceIdeal.main_v1530))
  main_v1532 : @Eq ((⟨⟨2, ![1024, 16]⟩, .f32⟩ : BufTy).Contents (Elt F)) (W (no_index (Proc.devRef .tc Cert.KernelIdeal.main_v1532))) (V (Proc.devRef .tc Cert.ReferenceIdeal.main_v1532))
  main_v1536 : @Eq ((⟨⟨2, ![1024, 1]⟩, .f32⟩ : BufTy).Contents (Elt F)) (W (no_index (Proc.devRef .tc Cert.KernelIdeal.main_v1536))) (V (Proc.devRef .tc Cert.ReferenceIdeal.main_v1536))
  main_v1537 : @Eq ((⟨⟨1, ![1024]⟩, .f32⟩ : BufTy).Contents (Elt F)) (W (no_index (Proc.devRef .tc Cert.KernelIdeal.main_v1537))) (V (Proc.devRef .tc Cert.ReferenceIdeal.main_v1537))

/-- Boundary 82: every buffer written before it and read after it holds the same contents in the two programs' memories (each equation at the buffer's own array type, written out: the two programs' buffer tables are never compared). -/
structure Agree82 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1545 : @Eq ((⟨⟨2, ![1024, 16]⟩, .f32⟩ : BufTy).Contents (Elt F)) (W (no_index (Proc.devRef .tc Cert.KernelIdeal.main_v1545))) (V (Proc.devRef .tc Cert.ReferenceIdeal.main_v1545))
  main_v1552 : @Eq ((⟨⟨3, ![1024, 16, 16]⟩, .f32⟩ : BufTy).Contents (Elt F)) (W (no_index (Proc.devRef .tc Cert.KernelIdeal.main_v1552))) (V (Proc.devRef .tc Cert.ReferenceIdeal.main_v1552))
  main_v1554 : @Eq ((⟨⟨1, ![1024]⟩, .f32⟩ : BufTy).Contents (Elt F)) (W (no_index (Proc.devRef .tc Cert.KernelIdeal.main_v1554))) (V (Proc.devRef .tc Cert.ReferenceIdeal.main_v1554))
  main_v1556 : @Eq ((⟨⟨2, ![1024, 1]⟩, .f32⟩ : BufTy).Contents (Elt F)) (W (no_index (Proc.devRef .tc Cert.KernelIdeal.main_v1556))) (V (Proc.devRef .tc Cert.ReferenceIdeal.main_v1556))

/-- Boundary 83: every buffer written before it and read after it holds the same contents in the two programs' memories (each equation at the buffer's own array type, written out: the two programs' buffer tables are never compared). -/
structure Agree83 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1565 : @Eq ((⟨⟨2, ![1024, 16]⟩, .f32⟩ : BufTy).Contents (Elt F)) (W (no_index (Proc.devRef .tc Cert.KernelIdeal.main_v1565))) (V (Proc.devRef .tc Cert.ReferenceIdeal.main_v1565))
  main_v1572 : @Eq ((⟨⟨3, ![1024, 16, 16]⟩, .f32⟩ : BufTy).Contents (Elt F)) (W (no_index (Proc.devRef .tc Cert.KernelIdeal.main_v1572))) (V (Proc.devRef .tc Cert.ReferenceIdeal.main_v1572))
  main_v1574 : @Eq ((⟨⟨1, ![1024]⟩, .f32⟩ : BufTy).Contents (Elt F)) (W (no_index (Proc.devRef .tc Cert.KernelIdeal.main_v1574))) (V (Proc.devRef .tc Cert.ReferenceIdeal.main_v1574))
  main_v1575 : @Eq ((⟨⟨1, ![1024]⟩, .f32⟩ : BufTy).Contents (Elt F)) (W (no_index (Proc.devRef .tc Cert.KernelIdeal.main_v1575))) (V (Proc.devRef .tc Cert.ReferenceIdeal.main_v1575))

/-- Boundary 84: every buffer written before it and read after it holds the same contents in the two programs' memories (each equation at the buffer's own array type, written out: the two programs' buffer tables are never compared). -/
structure Agree84 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1585 : @Eq ((⟨⟨2, ![1024, 16]⟩, .f32⟩ : BufTy).Contents (Elt F)) (W (no_index (Proc.devRef .tc Cert.KernelIdeal.main_v1585))) (V (Proc.devRef .tc Cert.ReferenceIdeal.main_v1585))
  main_v1592 : @Eq ((⟨⟨3, ![1024, 16, 16]⟩, .f32⟩ : BufTy).Contents (Elt F)) (W (no_index (Proc.devRef .tc Cert.KernelIdeal.main_v1592))) (V (Proc.devRef .tc Cert.ReferenceIdeal.main_v1592))
  main_v1594 : @Eq ((⟨⟨1, ![1024]⟩, .f32⟩ : BufTy).Contents (Elt F)) (W (no_index (Proc.devRef .tc Cert.KernelIdeal.main_v1594))) (V (Proc.devRef .tc Cert.ReferenceIdeal.main_v1594))

/-- Boundary 85: every buffer written before it and read after it holds the same contents in the two programs' memories (each equation at the buffer's own array type, written out: the two programs' buffer tables are never compared). -/
structure Agree85 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1605 : @Eq ((⟨⟨2, ![1024, 16]⟩, .f32⟩ : BufTy).Contents (Elt F)) (W (no_index (Proc.devRef .tc Cert.KernelIdeal.main_v1605))) (V (Proc.devRef .tc Cert.ReferenceIdeal.main_v1605))
  main_v1612 : @Eq ((⟨⟨3, ![1024, 16, 16]⟩, .f32⟩ : BufTy).Contents (Elt F)) (W (no_index (Proc.devRef .tc Cert.KernelIdeal.main_v1612))) (V (Proc.devRef .tc Cert.ReferenceIdeal.main_v1612))
  main_v1613 : @Eq ((⟨⟨2, ![1024, 1]⟩, .f32⟩ : BufTy).Contents (Elt F)) (W (no_index (Proc.devRef .tc Cert.KernelIdeal.main_v1613))) (V (Proc.devRef .tc Cert.ReferenceIdeal.main_v1613))

/-- Boundary 86: every buffer written before it and read after it holds the same contents in the two programs' memories (each equation at the buffer's own array type, written out: the two programs' buffer tables are never compared). -/
structure Agree86 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1625 : @Eq ((⟨⟨2, ![1024, 16]⟩, .f32⟩ : BufTy).Contents (Elt F)) (W (no_index (Proc.devRef .tc Cert.KernelIdeal.main_v1625))) (V (Proc.devRef .tc Cert.ReferenceIdeal.main_v1625))
  main_v1632 : @Eq ((⟨⟨3, ![1024, 16, 16]⟩, .f32⟩ : BufTy).Contents (Elt F)) (W (no_index (Proc.devRef .tc Cert.KernelIdeal.main_v1632))) (V (Proc.devRef .tc Cert.ReferenceIdeal.main_v1632))

/-- Boundary 87: every buffer written before it and read after it holds the same contents in the two programs' memories (each equation at the buffer's own array type, written out: the two programs' buffer tables are never compared). -/
structure Agree87 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1632 : @Eq ((⟨⟨3, ![1024, 16, 16]⟩, .f32⟩ : BufTy).Contents (Elt F)) (W (no_index (Proc.devRef .tc Cert.KernelIdeal.main_v1632))) (V (Proc.devRef .tc Cert.ReferenceIdeal.main_v1632))
  main_v1645 : @Eq ((⟨⟨2, ![1024, 16]⟩, .f32⟩ : BufTy).Contents (Elt F)) (W (no_index (Proc.devRef .tc Cert.KernelIdeal.main_v1645))) (V (Proc.devRef .tc Cert.ReferenceIdeal.main_v1645))
  main_v1650 : @Eq ((⟨⟨2, ![1024, 16]⟩, .f32⟩ : BufTy).Contents (Elt F)) (W (no_index (Proc.devRef .tc Cert.KernelIdeal.main_v1650))) (V (Proc.devRef .tc Cert.ReferenceIdeal.main_v1650))
  main_v1651 : @Eq ((⟨⟨1, ![1]⟩, .i32⟩ : BufTy).Contents (Elt F)) (W (no_index (Proc.devRef .tc Cert.KernelIdeal.main_v1651))) (V (Proc.devRef .tc Cert.ReferenceIdeal.main_v1651))

/-- Boundary 88: every buffer written before it and read after it holds the same contents in the two programs' memories (each equation at the buffer's own array type, written out: the two programs' buffer tables are never compared). -/
structure Agree88 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1652 : @Eq ((⟨⟨3, ![1024, 16, 16]⟩, .f32⟩ : BufTy).Contents (Elt F)) (W (no_index (Proc.devRef .tc Cert.KernelIdeal.main_v1652))) (V (Proc.devRef .tc Cert.ReferenceIdeal.main_v1652))
  main_v1665 : @Eq ((⟨⟨2, ![1024, 16]⟩, .f32⟩ : BufTy).Contents (Elt F)) (W (no_index (Proc.devRef .tc Cert.KernelIdeal.main_v1665))) (V (Proc.devRef .tc Cert.ReferenceIdeal.main_v1665))
  main_v1670 : @Eq ((⟨⟨2, ![1024, 16]⟩, .f32⟩ : BufTy).Contents (Elt F)) (W (no_index (Proc.devRef .tc Cert.KernelIdeal.main_v1670))) (V (Proc.devRef .tc Cert.ReferenceIdeal.main_v1670))
  main_c_87 : @Eq ((⟨⟨0, ![]⟩, .i32⟩ : BufTy).Contents (Elt F)) (W (no_index (Proc.devRef .tc Cert.KernelIdeal.main_c_87))) (V (Proc.devRef .tc Cert.ReferenceIdeal.main_c_87))

/-- Boundary 89: every buffer written before it and read after it holds the same contents in the two programs' memories (each equation at the buffer's own array type, written out: the two programs' buffer tables are never compared). -/
structure Agree89 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1672 : @Eq ((⟨⟨3, ![1024, 16, 16]⟩, .f32⟩ : BufTy).Contents (Elt F)) (W (no_index (Proc.devRef .tc Cert.KernelIdeal.main_v1672))) (V (Proc.devRef .tc Cert.ReferenceIdeal.main_v1672))
  main_v1685 : @Eq ((⟨⟨2, ![1024, 16]⟩, .f32⟩ : BufTy).Contents (Elt F)) (W (no_index (Proc.devRef .tc Cert.KernelIdeal.main_v1685))) (V (Proc.devRef .tc Cert.ReferenceIdeal.main_v1685))
  main_v1690 : @Eq ((⟨⟨2, ![1024, 16]⟩, .f32⟩ : BufTy).Contents (Elt F)) (W (no_index (Proc.devRef .tc Cert.KernelIdeal.main_v1690))) (V (Proc.devRef .tc Cert.ReferenceIdeal.main_v1690))

/-- Boundary 90: every buffer written before it and read after it holds the same contents in the two programs' memories (each equation at the buffer's own array type, written out: the two programs' buffer tables are never compared). -/
structure Agree90 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1692 : @Eq ((⟨⟨3, ![1024, 16, 16]⟩, .f32⟩ : BufTy).Contents (Elt F)) (W (no_index (Proc.devRef .tc Cert.KernelIdeal.main_v1692))) (V (Proc.devRef .tc Cert.ReferenceIdeal.main_v1692))
  main_v1705 : @Eq ((⟨⟨2, ![1024, 16]⟩, .f32⟩ : BufTy).Contents (Elt F)) (W (no_index (Proc.devRef .tc Cert.KernelIdeal.main_v1705))) (V (Proc.devRef .tc Cert.ReferenceIdeal.main_v1705))
  main_v1707 : @Eq ((⟨⟨2, ![1024, 16]⟩, .f32⟩ : BufTy).Contents (Elt F)) (W (no_index (Proc.devRef .tc Cert.KernelIdeal.main_v1707))) (V (Proc.devRef .tc Cert.ReferenceIdeal.main_v1707))
  main_v1709 : @Eq ((⟨⟨2, ![1024, 16]⟩, .f32⟩ : BufTy).Contents (Elt F)) (W (no_index (Proc.devRef .tc Cert.KernelIdeal.main_v1709))) (V (Proc.devRef .tc Cert.ReferenceIdeal.main_v1709))

/-- Boundary 91: every buffer written before it and read after it holds the same contents in the two programs' memories (each equation at the buffer's own array type, written out: the two programs' buffer tables are never compared). -/
structure Agree91 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1714 : @Eq ((⟨⟨3, ![1024, 16, 16]⟩, .f32⟩ : BufTy).Contents (Elt F)) (W (no_index (Proc.devRef .tc Cert.KernelIdeal.main_v1714))) (V (Proc.devRef .tc Cert.ReferenceIdeal.main_v1714))
  main_v1716 : @Eq ((⟨⟨2, ![1024, 16]⟩, .f32⟩ : BufTy).Contents (Elt F)) (W (no_index (Proc.devRef .tc Cert.KernelIdeal.main_v1716))) (V (Proc.devRef .tc Cert.ReferenceIdeal.main_v1716))
  main_v1720 : @Eq ((⟨⟨2, ![1024, 1]⟩, .f32⟩ : BufTy).Contents (Elt F)) (W (no_index (Proc.devRef .tc Cert.KernelIdeal.main_v1720))) (V (Proc.devRef .tc Cert.ReferenceIdeal.main_v1720))
  main_v1722 : @Eq ((⟨⟨2, ![1024, 1]⟩, .f32⟩ : BufTy).Contents (Elt F)) (W (no_index (Proc.devRef .tc Cert.KernelIdeal.main_v1722))) (V (Proc.devRef .tc Cert.ReferenceIdeal.main_v1722))
  main_v1724 : @Eq ((⟨⟨2, ![1024, 16]⟩, .f32⟩ : BufTy).Contents (Elt F)) (W (no_index (Proc.devRef .tc Cert.KernelIdeal.main_v1724))) (V (Proc.devRef .tc Cert.ReferenceIdeal.main_v1724))
  main_v1726 : @Eq ((⟨⟨2, ![1024, 16]⟩, .f32⟩ : BufTy).Contents (Elt F)) (W (no_index (Proc.devRef .tc Cert.KernelIdeal.main_v1726))) (V (Proc.devRef .tc Cert.ReferenceIdeal.main_v1726))
  main_v1727 : @Eq ((⟨⟨2, ![1024, 16]⟩, .f32⟩ : BufTy).Contents (Elt F)) (W (no_index (Proc.devRef .tc Cert.KernelIdeal.main_v1727))) (V (Proc.devRef .tc Cert.ReferenceIdeal.main_v1727))

/-- Boundary 92: every buffer written before it and read after it holds the same contents in the two programs' memories (each equation at the buffer's own array type, written out: the two programs' buffer tables are never compared). -/
structure Agree92 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1729 : @Eq ((⟨⟨2, ![1024, 16]⟩, .f32⟩ : BufTy).Contents (Elt F)) (W (no_index (Proc.devRef .tc Cert.KernelIdeal.main_v1729))) (V (Proc.devRef .tc Cert.ReferenceIdeal.main_v1729))
  main_v1736 : @Eq ((⟨⟨3, ![1024, 16, 16]⟩, .f32⟩ : BufTy).Contents (Elt F)) (W (no_index (Proc.devRef .tc Cert.KernelIdeal.main_v1736))) (V (Proc.devRef .tc Cert.ReferenceIdeal.main_v1736))
  main_v1740 : @Eq ((⟨⟨2, ![1024, 1]⟩, .f32⟩ : BufTy).Contents (Elt F)) (W (no_index (Proc.devRef .tc Cert.KernelIdeal.main_v1740))) (V (Proc.devRef .tc Cert.ReferenceIdeal.main_v1740))
  main_v1742 : @Eq ((⟨⟨2, ![1024, 1]⟩, .f32⟩ : BufTy).Contents (Elt F)) (W (no_index (Proc.devRef .tc Cert.KernelIdeal.main_v1742))) (V (Proc.devRef .tc Cert.ReferenceIdeal.main_v1742))
  main_v1744 : @Eq ((⟨⟨2, ![1024, 16]⟩, .f32⟩ : BufTy).Contents (Elt F)) (W (no_index (Proc.devRef .tc Cert.KernelIdeal.main_v1744))) (V (Proc.devRef .tc Cert.ReferenceIdeal.main_v1744))
  main_v1746 : @Eq ((⟨⟨2, ![1024, 16]⟩, .f32⟩ : BufTy).Contents (Elt F)) (W (no_index (Proc.devRef .tc Cert.KernelIdeal.main_v1746))) (V (Proc.devRef .tc Cert.ReferenceIdeal.main_v1746))

/-- Boundary 93: every buffer written before it and read after it holds the same contents in the two programs' memories (each equation at the buffer's own array type, written out: the two programs' buffer tables are never compared). -/
structure Agree93 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1749 : @Eq ((⟨⟨2, ![1024, 16]⟩, .f32⟩ : BufTy).Contents (Elt F)) (W (no_index (Proc.devRef .tc Cert.KernelIdeal.main_v1749))) (V (Proc.devRef .tc Cert.ReferenceIdeal.main_v1749))
  main_v1756 : @Eq ((⟨⟨3, ![1024, 16, 16]⟩, .f32⟩ : BufTy).Contents (Elt F)) (W (no_index (Proc.devRef .tc Cert.KernelIdeal.main_v1756))) (V (Proc.devRef .tc Cert.ReferenceIdeal.main_v1756))
  main_v1760 : @Eq ((⟨⟨2, ![1024, 1]⟩, .f32⟩ : BufTy).Contents (Elt F)) (W (no_index (Proc.devRef .tc Cert.KernelIdeal.main_v1760))) (V (Proc.devRef .tc Cert.ReferenceIdeal.main_v1760))
  main_v1762 : @Eq ((⟨⟨2, ![1024, 1]⟩, .f32⟩ : BufTy).Contents (Elt F)) (W (no_index (Proc.devRef .tc Cert.KernelIdeal.main_v1762))) (V (Proc.devRef .tc Cert.ReferenceIdeal.main_v1762))
  main_v1764 : @Eq ((⟨⟨2, ![1024, 16]⟩, .f32⟩ : BufTy).Contents (Elt F)) (W (no_index (Proc.devRef .tc Cert.KernelIdeal.main_v1764))) (V (Proc.devRef .tc Cert.ReferenceIdeal.main_v1764))
  main_v1765 : @Eq ((⟨⟨2, ![1024, 16]⟩, .f32⟩ : BufTy).Contents (Elt F)) (W (no_index (Proc.devRef .tc Cert.KernelIdeal.main_v1765))) (V (Proc.devRef .tc Cert.ReferenceIdeal.main_v1765))

/-- Boundary 94: every buffer written before it and read after it holds the same contents in the two programs' memories (each equation at the buffer's own array type, written out: the two programs' buffer tables are never compared). -/
structure Agree94 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1769 : @Eq ((⟨⟨2, ![1024, 16]⟩, .f32⟩ : BufTy).Contents (Elt F)) (W (no_index (Proc.devRef .tc Cert.KernelIdeal.main_v1769))) (V (Proc.devRef .tc Cert.ReferenceIdeal.main_v1769))
  main_v1776 : @Eq ((⟨⟨3, ![1024, 16, 16]⟩, .f32⟩ : BufTy).Contents (Elt F)) (W (no_index (Proc.devRef .tc Cert.KernelIdeal.main_v1776))) (V (Proc.devRef .tc Cert.ReferenceIdeal.main_v1776))
  main_v1780 : @Eq ((⟨⟨2, ![1024, 1]⟩, .f32⟩ : BufTy).Contents (Elt F)) (W (no_index (Proc.devRef .tc Cert.KernelIdeal.main_v1780))) (V (Proc.devRef .tc Cert.ReferenceIdeal.main_v1780))
  main_v1782 : @Eq ((⟨⟨2, ![1024, 1]⟩, .f32⟩ : BufTy).Contents (Elt F)) (W (no_index (Proc.devRef .tc Cert.KernelIdeal.main_v1782))) (V (Proc.devRef .tc Cert.ReferenceIdeal.main_v1782))
  main_v1784 : @Eq ((⟨⟨2, ![1024, 16]⟩, .f32⟩ : BufTy).Contents (Elt F)) (W (no_index (Proc.devRef .tc Cert.KernelIdeal.main_v1784))) (V (Proc.devRef .tc Cert.ReferenceIdeal.main_v1784))

/-- Boundary 95: every buffer written before it and read after it holds the same contents in the two programs' memories (each equation at the buffer's own array type, written out: the two programs' buffer tables are never compared). -/
structure Agree95 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1789 : @Eq ((⟨⟨2, ![1024, 16]⟩, .f32⟩ : BufTy).Contents (Elt F)) (W (no_index (Proc.devRef .tc Cert.KernelIdeal.main_v1789))) (V (Proc.devRef .tc Cert.ReferenceIdeal.main_v1789))
  main_v1796 : @Eq ((⟨⟨3, ![1024, 16, 16]⟩, .f32⟩ : BufTy).Contents (Elt F)) (W (no_index (Proc.devRef .tc Cert.KernelIdeal.main_v1796))) (V (Proc.devRef .tc Cert.ReferenceIdeal.main_v1796))
  main_v1800 : @Eq ((⟨⟨2, ![1024, 1]⟩, .f32⟩ : BufTy).Contents (Elt F)) (W (no_index (Proc.devRef .tc Cert.KernelIdeal.main_v1800))) (V (Proc.devRef .tc Cert.ReferenceIdeal.main_v1800))
  main_v1802 : @Eq ((⟨⟨2, ![1024, 1]⟩, .f32⟩ : BufTy).Contents (Elt F)) (W (no_index (Proc.devRef .tc Cert.KernelIdeal.main_v1802))) (V (Proc.devRef .tc Cert.ReferenceIdeal.main_v1802))
  main_v1803 : @Eq ((⟨⟨3, ![1024, 1, 16]⟩, .f32⟩ : BufTy).Contents (Elt F)) (W (no_index (Proc.devRef .tc Cert.KernelIdeal.main_v1803))) (V (Proc.devRef .tc Cert.ReferenceIdeal.main_v1803))

/-- Boundary 96: every buffer written before it and read after it holds the same contents in the two programs' memories (each equation at the buffer's own array type, written out: the two programs' buffer tables are never compared). -/
structure Agree96 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1809 : @Eq ((⟨⟨2, ![1024, 16]⟩, .f32⟩ : BufTy).Contents (Elt F)) (W (no_index (Proc.devRef .tc Cert.KernelIdeal.main_v1809))) (V (Proc.devRef .tc Cert.ReferenceIdeal.main_v1809))
  main_v1816 : @Eq ((⟨⟨3, ![1024, 16, 16]⟩, .f32⟩ : BufTy).Contents (Elt F)) (W (no_index (Proc.devRef .tc Cert.KernelIdeal.main_v1816))) (V (Proc.devRef .tc Cert.ReferenceIdeal.main_v1816))
  main_v1820 : @Eq ((⟨⟨2, ![1024, 1]⟩, .f32⟩ : BufTy).Contents (Elt F)) (W (no_index (Proc.devRef .tc Cert.KernelIdeal.main_v1820))) (V (Proc.devRef .tc Cert.ReferenceIdeal.main_v1820))
  main_v1822 : @Eq ((⟨⟨2, ![1024, 1]⟩, .f32⟩ : BufTy).Contents (Elt F)) (W (no_index (Proc.devRef .tc Cert.KernelIdeal.main_v1822))) (V (Proc.devRef .tc Cert.ReferenceIdeal.main_v1822))

/-- Boundary 97: every buffer written before it and read after it holds the same contents in the two programs' memories (each equation at the buffer's own array type, written out: the two programs' buffer tables are never compared). -/
structure Agree97 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1829 : @Eq ((⟨⟨2, ![1024, 16]⟩, .f32⟩ : BufTy).Contents (Elt F)) (W (no_index (Proc.devRef .tc Cert.KernelIdeal.main_v1829))) (V (Proc.devRef .tc Cert.ReferenceIdeal.main_v1829))
  main_v1836 : @Eq ((⟨⟨3, ![1024, 16, 16]⟩, .f32⟩ : BufTy).Contents (Elt F)) (W (no_index (Proc.devRef .tc Cert.KernelIdeal.main_v1836))) (V (Proc.devRef .tc Cert.ReferenceIdeal.main_v1836))
  main_v1840 : @Eq ((⟨⟨2, ![1024, 1]⟩, .f32⟩ : BufTy).Contents (Elt F)) (W (no_index (Proc.devRef .tc Cert.KernelIdeal.main_v1840))) (V (Proc.devRef .tc Cert.ReferenceIdeal.main_v1840))
  main_v1841 : @Eq ((⟨⟨1, ![1024]⟩, .f32⟩ : BufTy).Contents (Elt F)) (W (no_index (Proc.devRef .tc Cert.KernelIdeal.main_v1841))) (V (Proc.devRef .tc Cert.ReferenceIdeal.main_v1841))

/-- Boundary 98: every buffer written before it and read after it holds the same contents in the two programs' memories (each equation at the buffer's own array type, written out: the two programs' buffer tables are never compared). -/
structure Agree98 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1849 : @Eq ((⟨⟨2, ![1024, 16]⟩, .f32⟩ : BufTy).Contents (Elt F)) (W (no_index (Proc.devRef .tc Cert.KernelIdeal.main_v1849))) (V (Proc.devRef .tc Cert.ReferenceIdeal.main_v1849))
  main_v1856 : @Eq ((⟨⟨3, ![1024, 16, 16]⟩, .f32⟩ : BufTy).Contents (Elt F)) (W (no_index (Proc.devRef .tc Cert.KernelIdeal.main_v1856))) (V (Proc.devRef .tc Cert.ReferenceIdeal.main_v1856))
  main_v1858 : @Eq ((⟨⟨1, ![1024]⟩, .f32⟩ : BufTy).Contents (Elt F)) (W (no_index (Proc.devRef .tc Cert.KernelIdeal.main_v1858))) (V (Proc.devRef .tc Cert.ReferenceIdeal.main_v1858))
  main_v1860 : @Eq ((⟨⟨2, ![1024, 1]⟩, .f32⟩ : BufTy).Contents (Elt F)) (W (no_index (Proc.devRef .tc Cert.KernelIdeal.main_v1860))) (V (Proc.devRef .tc Cert.ReferenceIdeal.main_v1860))

/-- Boundary 99: every buffer written before it and read after it holds the same contents in the two programs' memories (each equation at the buffer's own array type, written out: the two programs' buffer tables are never compared). -/
structure Agree99 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1878 : @Eq ((⟨⟨3, ![1024, 16, 16]⟩, .f32⟩ : BufTy).Contents (Elt F)) (W (no_index (Proc.devRef .tc Cert.KernelIdeal.main_v1878))) (V (Proc.devRef .tc Cert.ReferenceIdeal.main_v1878))

/-- Boundary 100: every buffer written before it and read after it holds the same contents in the two programs' memories (each equation at the buffer's own array type, written out: the two programs' buffer tables are never compared). -/
structure Agree100 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1878 : @Eq ((⟨⟨3, ![1024, 16, 16]⟩, .f32⟩ : BufTy).Contents (Elt F)) (W (no_index (Proc.devRef .tc Cert.KernelIdeal.main_v1878))) (V (Proc.devRef .tc Cert.ReferenceIdeal.main_v1878))
  main_v1893 : @Eq ((⟨⟨2, ![1024, 16]⟩, .f32⟩ : BufTy).Contents (Elt F)) (W (no_index (Proc.devRef .tc Cert.KernelIdeal.main_v1893))) (V (Proc.devRef .tc Cert.ReferenceIdeal.main_v1893))
  main_v1898 : @Eq ((⟨⟨2, ![1024, 16]⟩, .f32⟩ : BufTy).Contents (Elt F)) (W (no_index (Proc.devRef .tc Cert.KernelIdeal.main_v1898))) (V (Proc.devRef .tc Cert.ReferenceIdeal.main_v1898))

/-- Boundary 101: every buffer written before it and read after it holds the same contents in the two programs' memories (each equation at the buffer's own array type, written out: the two programs' buffer tables are never compared). -/
structure Agree101 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1900 : @Eq ((⟨⟨3, ![1024, 16, 16]⟩, .f32⟩ : BufTy).Contents (Elt F)) (W (no_index (Proc.devRef .tc Cert.KernelIdeal.main_v1900))) (V (Proc.devRef .tc Cert.ReferenceIdeal.main_v1900))
  main_v1913 : @Eq ((⟨⟨2, ![1024, 16]⟩, .f32⟩ : BufTy).Contents (Elt F)) (W (no_index (Proc.devRef .tc Cert.KernelIdeal.main_v1913))) (V (Proc.devRef .tc Cert.ReferenceIdeal.main_v1913))
  main_v1915 : @Eq ((⟨⟨2, ![1024, 16]⟩, .f32⟩ : BufTy).Contents (Elt F)) (W (no_index (Proc.devRef .tc Cert.KernelIdeal.main_v1915))) (V (Proc.devRef .tc Cert.ReferenceIdeal.main_v1915))
  main_v1917 : @Eq ((⟨⟨2, ![1024, 16]⟩, .f32⟩ : BufTy).Contents (Elt F)) (W (no_index (Proc.devRef .tc Cert.KernelIdeal.main_v1917))) (V (Proc.devRef .tc Cert.ReferenceIdeal.main_v1917))

/-- Boundary 102: every buffer written before it and read after it holds the same contents in the two programs' memories (each equation at the buffer's own array type, written out: the two programs' buffer tables are never compared). -/
structure Agree102 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1920 : @Eq ((⟨⟨3, ![1024, 16, 16]⟩, .f32⟩ : BufTy).Contents (Elt F)) (W (no_index (Proc.devRef .tc Cert.KernelIdeal.main_v1920))) (V (Proc.devRef .tc Cert.ReferenceIdeal.main_v1920))
  main_v1928 : @Eq ((⟨⟨2, ![1024, 16]⟩, .f32⟩ : BufTy).Contents (Elt F)) (W (no_index (Proc.devRef .tc Cert.KernelIdeal.main_v1928))) (V (Proc.devRef .tc Cert.ReferenceIdeal.main_v1928))
  main_v1933 : @Eq ((⟨⟨2, ![1024, 16]⟩, .f32⟩ : BufTy).Contents (Elt F)) (W (no_index (Proc.devRef .tc Cert.KernelIdeal.main_v1933))) (V (Proc.devRef .tc Cert.ReferenceIdeal.main_v1933))
  main_v1935 : @Eq ((⟨⟨2, ![1024, 16]⟩, .f32⟩ : BufTy).Contents (Elt F)) (W (no_index (Proc.devRef .tc Cert.KernelIdeal.main_v1935))) (V (Proc.devRef .tc Cert.ReferenceIdeal.main_v1935))
  main_v1936 : @Eq ((⟨⟨2, ![1024, 16]⟩, .f32⟩ : BufTy).Contents (Elt F)) (W (no_index (Proc.devRef .tc Cert.KernelIdeal.main_v1936))) (V (Proc.devRef .tc Cert.ReferenceIdeal.main_v1936))

/-- Boundary 103: every buffer written before it and read after it holds the same contents in the two programs' memories (each equation at the buffer's own array type, written out: the two programs' buffer tables are never compared). -/
structure Agree103 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1940 : @Eq ((⟨⟨3, ![1024, 16, 16]⟩, .f32⟩ : BufTy).Contents (Elt F)) (W (no_index (Proc.devRef .tc Cert.KernelIdeal.main_v1940))) (V (Proc.devRef .tc Cert.ReferenceIdeal.main_v1940))
  main_v1944 : @Eq ((⟨⟨2, ![1024, 1]⟩, .f32⟩ : BufTy).Contents (Elt F)) (W (no_index (Proc.devRef .tc Cert.KernelIdeal.main_v1944))) (V (Proc.devRef .tc Cert.ReferenceIdeal.main_v1944))
  main_v1948 : @Eq ((⟨⟨2, ![1024, 16]⟩, .f32⟩ : BufTy).Contents (Elt F)) (W (no_index (Proc.devRef .tc Cert.KernelIdeal.main_v1948))) (V (Proc.devRef .tc Cert.ReferenceIdeal.main_v1948))
  main_v1953 : @Eq ((⟨⟨2, ![1024, 16]⟩, .f32⟩ : BufTy).Contents (Elt F)) (W (no_index (Proc.devRef .tc Cert.KernelIdeal.main_v1953))) (V (Proc.devRef .tc Cert.ReferenceIdeal.main_v1953))
  main_v1955 : @Eq ((⟨⟨2, ![1024, 16]⟩, .f32⟩ : BufTy).Contents (Elt F)) (W (no_index (Proc.devRef .tc Cert.KernelIdeal.main_v1955))) (V (Proc.devRef .tc Cert.ReferenceIdeal.main_v1955))

/-- Boundary 104: every buffer written before it and read after it holds the same contents in the two programs' memories (each equation at the buffer's own array type, written out: the two programs' buffer tables are never compared). -/
structure Agree104 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1953 : @Eq ((⟨⟨2, ![1024, 16]⟩, .f32⟩ : BufTy).Contents (Elt F)) (W (no_index (Proc.devRef .tc Cert.KernelIdeal.main_v1953))) (V (Proc.devRef .tc Cert.ReferenceIdeal.main_v1953))
  main_v1960 : @Eq ((⟨⟨3, ![1024, 16, 16]⟩, .f32⟩ : BufTy).Contents (Elt F)) (W (no_index (Proc.devRef .tc Cert.KernelIdeal.main_v1960))) (V (Proc.devRef .tc Cert.ReferenceIdeal.main_v1960))
  main_v1964 : @Eq ((⟨⟨2, ![1024, 1]⟩, .f32⟩ : BufTy).Contents (Elt F)) (W (no_index (Proc.devRef .tc Cert.KernelIdeal.main_v1964))) (V (Proc.devRef .tc Cert.ReferenceIdeal.main_v1964))
  main_v1968 : @Eq ((⟨⟨2, ![1024, 16]⟩, .f32⟩ : BufTy).Contents (Elt F)) (W (no_index (Proc.devRef .tc Cert.KernelIdeal.main_v1968))) (V (Proc.devRef .tc Cert.ReferenceIdeal.main_v1968))
  main_v1973 : @Eq ((⟨⟨2, ![1024, 16]⟩, .f32⟩ : BufTy).Contents (Elt F)) (W (no_index (Proc.devRef .tc Cert.KernelIdeal.main_v1973))) (V (Proc.devRef .tc Cert.ReferenceIdeal.main_v1973))
  main_v1974 : @Eq ((⟨⟨2, ![1024, 16]⟩, .f32⟩ : BufTy).Contents (Elt F)) (W (no_index (Proc.devRef .tc Cert.KernelIdeal.main_v1974))) (V (Proc.devRef .tc Cert.ReferenceIdeal.main_v1974))

/-- Boundary 105: every buffer written before it and read after it holds the same contents in the two programs' memories (each equation at the buffer's own array type, written out: the two programs' buffer tables are never compared). -/
structure Agree105 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1973 : @Eq ((⟨⟨2, ![1024, 16]⟩, .f32⟩ : BufTy).Contents (Elt F)) (W (no_index (Proc.devRef .tc Cert.KernelIdeal.main_v1973))) (V (Proc.devRef .tc Cert.ReferenceIdeal.main_v1973))
  main_v1980 : @Eq ((⟨⟨3, ![1024, 16, 16]⟩, .f32⟩ : BufTy).Contents (Elt F)) (W (no_index (Proc.devRef .tc Cert.KernelIdeal.main_v1980))) (V (Proc.devRef .tc Cert.ReferenceIdeal.main_v1980))
  main_v1984 : @Eq ((⟨⟨2, ![1024, 1]⟩, .f32⟩ : BufTy).Contents (Elt F)) (W (no_index (Proc.devRef .tc Cert.KernelIdeal.main_v1984))) (V (Proc.devRef .tc Cert.ReferenceIdeal.main_v1984))
  main_v1986 : @Eq ((⟨⟨2, ![1024, 1]⟩, .f32⟩ : BufTy).Contents (Elt F)) (W (no_index (Proc.devRef .tc Cert.KernelIdeal.main_v1986))) (V (Proc.devRef .tc Cert.ReferenceIdeal.main_v1986))
  main_v1988 : @Eq ((⟨⟨2, ![1024, 16]⟩, .f32⟩ : BufTy).Contents (Elt F)) (W (no_index (Proc.devRef .tc Cert.KernelIdeal.main_v1988))) (V (Proc.devRef .tc Cert.ReferenceIdeal.main_v1988))
  main_v1993 : @Eq ((⟨⟨2, ![1024, 16]⟩, .f32⟩ : BufTy).Contents (Elt F)) (W (no_index (Proc.devRef .tc Cert.KernelIdeal.main_v1993))) (V (Proc.devRef .tc Cert.ReferenceIdeal.main_v1993))

/-- Boundary 106: every buffer written before it and read after it holds the same contents in the two programs' memories (each equation at the buffer's own array type, written out: the two programs' buffer tables are never compared). -/
structure Agree106 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v1993 : @Eq ((⟨⟨2, ![1024, 16]⟩, .f32⟩ : BufTy).Contents (Elt F)) (W (no_index (Proc.devRef .tc Cert.KernelIdeal.main_v1993))) (V (Proc.devRef .tc Cert.ReferenceIdeal.main_v1993))
  main_v2000 : @Eq ((⟨⟨3, ![1024, 16, 16]⟩, .f32⟩ : BufTy).Contents (Elt F)) (W (no_index (Proc.devRef .tc Cert.KernelIdeal.main_v2000))) (V (Proc.devRef .tc Cert.ReferenceIdeal.main_v2000))
  main_v2004 : @Eq ((⟨⟨2, ![1024, 1]⟩, .f32⟩ : BufTy).Contents (Elt F)) (W (no_index (Proc.devRef .tc Cert.KernelIdeal.main_v2004))) (V (Proc.devRef .tc Cert.ReferenceIdeal.main_v2004))
  main_v2006 : @Eq ((⟨⟨2, ![1024, 1]⟩, .f32⟩ : BufTy).Contents (Elt F)) (W (no_index (Proc.devRef .tc Cert.KernelIdeal.main_v2006))) (V (Proc.devRef .tc Cert.ReferenceIdeal.main_v2006))
  main_v2008 : @Eq ((⟨⟨2, ![1024, 16]⟩, .f32⟩ : BufTy).Contents (Elt F)) (W (no_index (Proc.devRef .tc Cert.KernelIdeal.main_v2008))) (V (Proc.devRef .tc Cert.ReferenceIdeal.main_v2008))
  main_v2010 : @Eq ((⟨⟨2, ![1024, 16]⟩, .f32⟩ : BufTy).Contents (Elt F)) (W (no_index (Proc.devRef .tc Cert.KernelIdeal.main_v2010))) (V (Proc.devRef .tc Cert.ReferenceIdeal.main_v2010))
  main_v2012 : @Eq ((⟨⟨2, ![1024, 16]⟩, .f32⟩ : BufTy).Contents (Elt F)) (W (no_index (Proc.devRef .tc Cert.KernelIdeal.main_v2012))) (V (Proc.devRef .tc Cert.ReferenceIdeal.main_v2012))

/-- Boundary 107: every buffer written before it and read after it holds the same contents in the two programs' memories (each equation at the buffer's own array type, written out: the two programs' buffer tables are never compared). -/
structure Agree107 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2022 : @Eq ((⟨⟨3, ![1024, 16, 16]⟩, .f32⟩ : BufTy).Contents (Elt F)) (W (no_index (Proc.devRef .tc Cert.KernelIdeal.main_v2022))) (V (Proc.devRef .tc Cert.ReferenceIdeal.main_v2022))
  main_v2024 : @Eq ((⟨⟨2, ![1024, 16]⟩, .f32⟩ : BufTy).Contents (Elt F)) (W (no_index (Proc.devRef .tc Cert.KernelIdeal.main_v2024))) (V (Proc.devRef .tc Cert.ReferenceIdeal.main_v2024))
  main_v2028 : @Eq ((⟨⟨2, ![1024, 1]⟩, .f32⟩ : BufTy).Contents (Elt F)) (W (no_index (Proc.devRef .tc Cert.KernelIdeal.main_v2028))) (V (Proc.devRef .tc Cert.ReferenceIdeal.main_v2028))
  main_v2030 : @Eq ((⟨⟨2, ![1024, 1]⟩, .f32⟩ : BufTy).Contents (Elt F)) (W (no_index (Proc.devRef .tc Cert.KernelIdeal.main_v2030))) (V (Proc.devRef .tc Cert.ReferenceIdeal.main_v2030))

/-- Boundary 108: every buffer written before it and read after it holds the same contents in the two programs' memories (each equation at the buffer's own array type, written out: the two programs' buffer tables are never compared). -/
structure Agree108 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2037 : @Eq ((⟨⟨2, ![1024, 16]⟩, .f32⟩ : BufTy).Contents (Elt F)) (W (no_index (Proc.devRef .tc Cert.KernelIdeal.main_v2037))) (V (Proc.devRef .tc Cert.ReferenceIdeal.main_v2037))
  main_v2044 : @Eq ((⟨⟨3, ![1024, 16, 16]⟩, .f32⟩ : BufTy).Contents (Elt F)) (W (no_index (Proc.devRef .tc Cert.KernelIdeal.main_v2044))) (V (Proc.devRef .tc Cert.ReferenceIdeal.main_v2044))
  main_v2048 : @Eq ((⟨⟨2, ![1024, 1]⟩, .f32⟩ : BufTy).Contents (Elt F)) (W (no_index (Proc.devRef .tc Cert.KernelIdeal.main_v2048))) (V (Proc.devRef .tc Cert.ReferenceIdeal.main_v2048))
  main_v2049 : @Eq ((⟨⟨1, ![1024]⟩, .f32⟩ : BufTy).Contents (Elt F)) (W (no_index (Proc.devRef .tc Cert.KernelIdeal.main_v2049))) (V (Proc.devRef .tc Cert.ReferenceIdeal.main_v2049))

/-- Boundary 109: every buffer written before it and read after it holds the same contents in the two programs' memories (each equation at the buffer's own array type, written out: the two programs' buffer tables are never compared). -/
structure Agree109 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2057 : @Eq ((⟨⟨2, ![1024, 16]⟩, .f32⟩ : BufTy).Contents (Elt F)) (W (no_index (Proc.devRef .tc Cert.KernelIdeal.main_v2057))) (V (Proc.devRef .tc Cert.ReferenceIdeal.main_v2057))
  main_v2064 : @Eq ((⟨⟨3, ![1024, 16, 16]⟩, .f32⟩ : BufTy).Contents (Elt F)) (W (no_index (Proc.devRef .tc Cert.KernelIdeal.main_v2064))) (V (Proc.devRef .tc Cert.ReferenceIdeal.main_v2064))
  main_v2066 : @Eq ((⟨⟨1, ![1024]⟩, .f32⟩ : BufTy).Contents (Elt F)) (W (no_index (Proc.devRef .tc Cert.KernelIdeal.main_v2066))) (V (Proc.devRef .tc Cert.ReferenceIdeal.main_v2066))
  main_v2068 : @Eq ((⟨⟨2, ![1024, 1]⟩, .f32⟩ : BufTy).Contents (Elt F)) (W (no_index (Proc.devRef .tc Cert.KernelIdeal.main_v2068))) (V (Proc.devRef .tc Cert.ReferenceIdeal.main_v2068))

/-- Boundary 110: every buffer written before it and read after it holds the same contents in the two programs' memories (each equation at the buffer's own array type, written out: the two programs' buffer tables are never compared). -/
structure Agree110 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2077 : @Eq ((⟨⟨2, ![1024, 16]⟩, .f32⟩ : BufTy).Contents (Elt F)) (W (no_index (Proc.devRef .tc Cert.KernelIdeal.main_v2077))) (V (Proc.devRef .tc Cert.ReferenceIdeal.main_v2077))
  main_v2084 : @Eq ((⟨⟨3, ![1024, 16, 16]⟩, .f32⟩ : BufTy).Contents (Elt F)) (W (no_index (Proc.devRef .tc Cert.KernelIdeal.main_v2084))) (V (Proc.devRef .tc Cert.ReferenceIdeal.main_v2084))
  main_v2086 : @Eq ((⟨⟨1, ![1024]⟩, .f32⟩ : BufTy).Contents (Elt F)) (W (no_index (Proc.devRef .tc Cert.KernelIdeal.main_v2086))) (V (Proc.devRef .tc Cert.ReferenceIdeal.main_v2086))
  main_v2087 : @Eq ((⟨⟨1, ![1024]⟩, .f32⟩ : BufTy).Contents (Elt F)) (W (no_index (Proc.devRef .tc Cert.KernelIdeal.main_v2087))) (V (Proc.devRef .tc Cert.ReferenceIdeal.main_v2087))

/-- Boundary 111: every buffer written before it and read after it holds the same contents in the two programs' memories (each equation at the buffer's own array type, written out: the two programs' buffer tables are never compared). -/
structure Agree111 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2097 : @Eq ((⟨⟨2, ![1024, 16]⟩, .f32⟩ : BufTy).Contents (Elt F)) (W (no_index (Proc.devRef .tc Cert.KernelIdeal.main_v2097))) (V (Proc.devRef .tc Cert.ReferenceIdeal.main_v2097))
  main_v2104 : @Eq ((⟨⟨3, ![1024, 16, 16]⟩, .f32⟩ : BufTy).Contents (Elt F)) (W (no_index (Proc.devRef .tc Cert.KernelIdeal.main_v2104))) (V (Proc.devRef .tc Cert.ReferenceIdeal.main_v2104))
  main_v2106 : @Eq ((⟨⟨1, ![1024]⟩, .f32⟩ : BufTy).Contents (Elt F)) (W (no_index (Proc.devRef .tc Cert.KernelIdeal.main_v2106))) (V (Proc.devRef .tc Cert.ReferenceIdeal.main_v2106))

/-- Boundary 112: every buffer written before it and read after it holds the same contents in the two programs' memories (each equation at the buffer's own array type, written out: the two programs' buffer tables are never compared). -/
structure Agree112 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2117 : @Eq ((⟨⟨2, ![1024, 16]⟩, .f32⟩ : BufTy).Contents (Elt F)) (W (no_index (Proc.devRef .tc Cert.KernelIdeal.main_v2117))) (V (Proc.devRef .tc Cert.ReferenceIdeal.main_v2117))
  main_v2124 : @Eq ((⟨⟨3, ![1024, 16, 16]⟩, .f32⟩ : BufTy).Contents (Elt F)) (W (no_index (Proc.devRef .tc Cert.KernelIdeal.main_v2124))) (V (Proc.devRef .tc Cert.ReferenceIdeal.main_v2124))
  main_v2125 : @Eq ((⟨⟨2, ![1024, 1]⟩, .f32⟩ : BufTy).Contents (Elt F)) (W (no_index (Proc.devRef .tc Cert.KernelIdeal.main_v2125))) (V (Proc.devRef .tc Cert.ReferenceIdeal.main_v2125))

/-- Boundary 113: every buffer written before it and read after it holds the same contents in the two programs' memories (each equation at the buffer's own array type, written out: the two programs' buffer tables are never compared). -/
structure Agree113 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2137 : @Eq ((⟨⟨2, ![1024, 16]⟩, .f32⟩ : BufTy).Contents (Elt F)) (W (no_index (Proc.devRef .tc Cert.KernelIdeal.main_v2137))) (V (Proc.devRef .tc Cert.ReferenceIdeal.main_v2137))
  main_v2144 : @Eq ((⟨⟨3, ![1024, 16, 16]⟩, .f32⟩ : BufTy).Contents (Elt F)) (W (no_index (Proc.devRef .tc Cert.KernelIdeal.main_v2144))) (V (Proc.devRef .tc Cert.ReferenceIdeal.main_v2144))

/-- Boundary 114: every buffer written before it and read after it holds the same contents in the two programs' memories (each equation at the buffer's own array type, written out: the two programs' buffer tables are never compared). -/
structure Agree114 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2146 : @Eq ((⟨⟨3, ![1024, 16, 16]⟩, .f32⟩ : BufTy).Contents (Elt F)) (W (no_index (Proc.devRef .tc Cert.KernelIdeal.main_v2146))) (V (Proc.devRef .tc Cert.ReferenceIdeal.main_v2146))
  main_v2152 : @Eq ((⟨⟨2, ![1024, 1]⟩, .f32⟩ : BufTy).Contents (Elt F)) (W (no_index (Proc.devRef .tc Cert.KernelIdeal.main_v2152))) (V (Proc.devRef .tc Cert.ReferenceIdeal.main_v2152))
  main_v2156 : @Eq ((⟨⟨2, ![1024, 16]⟩, .f32⟩ : BufTy).Contents (Elt F)) (W (no_index (Proc.devRef .tc Cert.KernelIdeal.main_v2156))) (V (Proc.devRef .tc Cert.ReferenceIdeal.main_v2156))
  main_v2161 : @Eq ((⟨⟨2, ![1024, 16]⟩, .f32⟩ : BufTy).Contents (Elt F)) (W (no_index (Proc.devRef .tc Cert.KernelIdeal.main_v2161))) (V (Proc.devRef .tc Cert.ReferenceIdeal.main_v2161))
  main_v2163 : @Eq ((⟨⟨2, ![1024, 16]⟩, .f32⟩ : BufTy).Contents (Elt F)) (W (no_index (Proc.devRef .tc Cert.KernelIdeal.main_v2163))) (V (Proc.devRef .tc Cert.ReferenceIdeal.main_v2163))

/-- Boundary 115: every buffer written before it and read after it holds the same contents in the two programs' memories (each equation at the buffer's own array type, written out: the two programs' buffer tables are never compared). -/
structure Agree115 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2161 : @Eq ((⟨⟨2, ![1024, 16]⟩, .f32⟩ : BufTy).Contents (Elt F)) (W (no_index (Proc.devRef .tc Cert.KernelIdeal.main_v2161))) (V (Proc.devRef .tc Cert.ReferenceIdeal.main_v2161))
  main_v2168 : @Eq ((⟨⟨3, ![1024, 16, 16]⟩, .f32⟩ : BufTy).Contents (Elt F)) (W (no_index (Proc.devRef .tc Cert.KernelIdeal.main_v2168))) (V (Proc.devRef .tc Cert.ReferenceIdeal.main_v2168))
  main_v2172 : @Eq ((⟨⟨2, ![1024, 1]⟩, .f32⟩ : BufTy).Contents (Elt F)) (W (no_index (Proc.devRef .tc Cert.KernelIdeal.main_v2172))) (V (Proc.devRef .tc Cert.ReferenceIdeal.main_v2172))
  main_v2176 : @Eq ((⟨⟨2, ![1024, 16]⟩, .f32⟩ : BufTy).Contents (Elt F)) (W (no_index (Proc.devRef .tc Cert.KernelIdeal.main_v2176))) (V (Proc.devRef .tc Cert.ReferenceIdeal.main_v2176))
  main_v2181 : @Eq ((⟨⟨2, ![1024, 16]⟩, .f32⟩ : BufTy).Contents (Elt F)) (W (no_index (Proc.devRef .tc Cert.KernelIdeal.main_v2181))) (V (Proc.devRef .tc Cert.ReferenceIdeal.main_v2181))
  main_v2182 : @Eq ((⟨⟨2, ![1024, 16]⟩, .f32⟩ : BufTy).Contents (Elt F)) (W (no_index (Proc.devRef .tc Cert.KernelIdeal.main_v2182))) (V (Proc.devRef .tc Cert.ReferenceIdeal.main_v2182))

/-- Boundary 116: every buffer written before it and read after it holds the same contents in the two programs' memories (each equation at the buffer's own array type, written out: the two programs' buffer tables are never compared). -/
structure Agree116 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2181 : @Eq ((⟨⟨2, ![1024, 16]⟩, .f32⟩ : BufTy).Contents (Elt F)) (W (no_index (Proc.devRef .tc Cert.KernelIdeal.main_v2181))) (V (Proc.devRef .tc Cert.ReferenceIdeal.main_v2181))
  main_v2188 : @Eq ((⟨⟨3, ![1024, 16, 16]⟩, .f32⟩ : BufTy).Contents (Elt F)) (W (no_index (Proc.devRef .tc Cert.KernelIdeal.main_v2188))) (V (Proc.devRef .tc Cert.ReferenceIdeal.main_v2188))
  main_v2192 : @Eq ((⟨⟨2, ![1024, 1]⟩, .f32⟩ : BufTy).Contents (Elt F)) (W (no_index (Proc.devRef .tc Cert.KernelIdeal.main_v2192))) (V (Proc.devRef .tc Cert.ReferenceIdeal.main_v2192))
  main_v2194 : @Eq ((⟨⟨2, ![1024, 1]⟩, .f32⟩ : BufTy).Contents (Elt F)) (W (no_index (Proc.devRef .tc Cert.KernelIdeal.main_v2194))) (V (Proc.devRef .tc Cert.ReferenceIdeal.main_v2194))
  main_v2196 : @Eq ((⟨⟨2, ![1024, 16]⟩, .f32⟩ : BufTy).Contents (Elt F)) (W (no_index (Proc.devRef .tc Cert.KernelIdeal.main_v2196))) (V (Proc.devRef .tc Cert.ReferenceIdeal.main_v2196))
  main_v2201 : @Eq ((⟨⟨2, ![1024, 16]⟩, .f32⟩ : BufTy).Contents (Elt F)) (W (no_index (Proc.devRef .tc Cert.KernelIdeal.main_v2201))) (V (Proc.devRef .tc Cert.ReferenceIdeal.main_v2201))

/-- Boundary 117: every buffer written before it and read after it holds the same contents in the two programs' memories (each equation at the buffer's own array type, written out: the two programs' buffer tables are never compared). -/
structure Agree117 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2201 : @Eq ((⟨⟨2, ![1024, 16]⟩, .f32⟩ : BufTy).Contents (Elt F)) (W (no_index (Proc.devRef .tc Cert.KernelIdeal.main_v2201))) (V (Proc.devRef .tc Cert.ReferenceIdeal.main_v2201))
  main_v2208 : @Eq ((⟨⟨3, ![1024, 16, 16]⟩, .f32⟩ : BufTy).Contents (Elt F)) (W (no_index (Proc.devRef .tc Cert.KernelIdeal.main_v2208))) (V (Proc.devRef .tc Cert.ReferenceIdeal.main_v2208))
  main_v2212 : @Eq ((⟨⟨2, ![1024, 1]⟩, .f32⟩ : BufTy).Contents (Elt F)) (W (no_index (Proc.devRef .tc Cert.KernelIdeal.main_v2212))) (V (Proc.devRef .tc Cert.ReferenceIdeal.main_v2212))
  main_v2214 : @Eq ((⟨⟨2, ![1024, 1]⟩, .f32⟩ : BufTy).Contents (Elt F)) (W (no_index (Proc.devRef .tc Cert.KernelIdeal.main_v2214))) (V (Proc.devRef .tc Cert.ReferenceIdeal.main_v2214))
  main_v2216 : @Eq ((⟨⟨2, ![1024, 16]⟩, .f32⟩ : BufTy).Contents (Elt F)) (W (no_index (Proc.devRef .tc Cert.KernelIdeal.main_v2216))) (V (Proc.devRef .tc Cert.ReferenceIdeal.main_v2216))
  main_v2218 : @Eq ((⟨⟨2, ![1024, 16]⟩, .f32⟩ : BufTy).Contents (Elt F)) (W (no_index (Proc.devRef .tc Cert.KernelIdeal.main_v2218))) (V (Proc.devRef .tc Cert.ReferenceIdeal.main_v2218))
  main_v2220 : @Eq ((⟨⟨2, ![1024, 16]⟩, .f32⟩ : BufTy).Contents (Elt F)) (W (no_index (Proc.devRef .tc Cert.KernelIdeal.main_v2220))) (V (Proc.devRef .tc Cert.ReferenceIdeal.main_v2220))

/-- Boundary 118: every buffer written before it and read after it holds the same contents in the two programs' memories (each equation at the buffer's own array type, written out: the two programs' buffer tables are never compared). -/
structure Agree118 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2221 : @Eq ((⟨⟨2, ![1024, 16]⟩, .f32⟩ : BufTy).Contents (Elt F)) (W (no_index (Proc.devRef .tc Cert.KernelIdeal.main_v2221))) (V (Proc.devRef .tc Cert.ReferenceIdeal.main_v2221))
  main_v2228 : @Eq ((⟨⟨3, ![1024, 16, 16]⟩, .f32⟩ : BufTy).Contents (Elt F)) (W (no_index (Proc.devRef .tc Cert.KernelIdeal.main_v2228))) (V (Proc.devRef .tc Cert.ReferenceIdeal.main_v2228))
  main_v2232 : @Eq ((⟨⟨2, ![1024, 1]⟩, .f32⟩ : BufTy).Contents (Elt F)) (W (no_index (Proc.devRef .tc Cert.KernelIdeal.main_v2232))) (V (Proc.devRef .tc Cert.ReferenceIdeal.main_v2232))
  main_v2234 : @Eq ((⟨⟨2, ![1024, 1]⟩, .f32⟩ : BufTy).Contents (Elt F)) (W (no_index (Proc.devRef .tc Cert.KernelIdeal.main_v2234))) (V (Proc.devRef .tc Cert.ReferenceIdeal.main_v2234))
  main_v2236 : @Eq ((⟨⟨2, ![1024, 16]⟩, .f32⟩ : BufTy).Contents (Elt F)) (W (no_index (Proc.devRef .tc Cert.KernelIdeal.main_v2236))) (V (Proc.devRef .tc Cert.ReferenceIdeal.main_v2236))
  main_v2238 : @Eq ((⟨⟨2, ![1024, 16]⟩, .f32⟩ : BufTy).Contents (Elt F)) (W (no_index (Proc.devRef .tc Cert.KernelIdeal.main_v2238))) (V (Proc.devRef .tc Cert.ReferenceIdeal.main_v2238))
  main_v2239 : @Eq ((⟨⟨2, ![1024, 16]⟩, .f32⟩ : BufTy).Contents (Elt F)) (W (no_index (Proc.devRef .tc Cert.KernelIdeal.main_v2239))) (V (Proc.devRef .tc Cert.ReferenceIdeal.main_v2239))

/-- Boundary 119: every buffer written before it and read after it holds the same contents in the two programs' memories (each equation at the buffer's own array type, written out: the two programs' buffer tables are never compared). -/
structure Agree119 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2250 : @Eq ((⟨⟨3, ![1024, 16, 16]⟩, .f32⟩ : BufTy).Contents (Elt F)) (W (no_index (Proc.devRef .tc Cert.KernelIdeal.main_v2250))) (V (Proc.devRef .tc Cert.ReferenceIdeal.main_v2250))
  main_v2252 : @Eq ((⟨⟨2, ![1024, 16]⟩, .f32⟩ : BufTy).Contents (Elt F)) (W (no_index (Proc.devRef .tc Cert.KernelIdeal.main_v2252))) (V (Proc.devRef .tc Cert.ReferenceIdeal.main_v2252))
  main_v2256 : @Eq ((⟨⟨2, ![1024, 1]⟩, .f32⟩ : BufTy).Contents (Elt F)) (W (no_index (Proc.devRef .tc Cert.KernelIdeal.main_v2256))) (V (Proc.devRef .tc Cert.ReferenceIdeal.main_v2256))
  main_v2257 : @Eq ((⟨⟨1, ![1024]⟩, .f32⟩ : BufTy).Contents (Elt F)) (W (no_index (Proc.devRef .tc Cert.KernelIdeal.main_v2257))) (V (Proc.devRef .tc Cert.ReferenceIdeal.main_v2257))

/-- Boundary 120: every buffer written before it and read after it holds the same contents in the two programs' memories (each equation at the buffer's own array type, written out: the two programs' buffer tables are never compared). -/
structure Agree120 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2265 : @Eq ((⟨⟨2, ![1024, 16]⟩, .f32⟩ : BufTy).Contents (Elt F)) (W (no_index (Proc.devRef .tc Cert.KernelIdeal.main_v2265))) (V (Proc.devRef .tc Cert.ReferenceIdeal.main_v2265))
  main_v2272 : @Eq ((⟨⟨3, ![1024, 16, 16]⟩, .f32⟩ : BufTy).Contents (Elt F)) (W (no_index (Proc.devRef .tc Cert.KernelIdeal.main_v2272))) (V (Proc.devRef .tc Cert.ReferenceIdeal.main_v2272))
  main_v2274 : @Eq ((⟨⟨1, ![1024]⟩, .f32⟩ : BufTy).Contents (Elt F)) (W (no_index (Proc.devRef .tc Cert.KernelIdeal.main_v2274))) (V (Proc.devRef .tc Cert.ReferenceIdeal.main_v2274))
  main_v2276 : @Eq ((⟨⟨2, ![1024, 1]⟩, .f32⟩ : BufTy).Contents (Elt F)) (W (no_index (Proc.devRef .tc Cert.KernelIdeal.main_v2276))) (V (Proc.devRef .tc Cert.ReferenceIdeal.main_v2276))

/-- Boundary 121: every buffer written before it and read after it holds the same contents in the two programs' memories (each equation at the buffer's own array type, written out: the two programs' buffer tables are never compared). -/
structure Agree121 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2285 : @Eq ((⟨⟨2, ![1024, 16]⟩, .f32⟩ : BufTy).Contents (Elt F)) (W (no_index (Proc.devRef .tc Cert.KernelIdeal.main_v2285))) (V (Proc.devRef .tc Cert.ReferenceIdeal.main_v2285))
  main_v2292 : @Eq ((⟨⟨3, ![1024, 16, 16]⟩, .f32⟩ : BufTy).Contents (Elt F)) (W (no_index (Proc.devRef .tc Cert.KernelIdeal.main_v2292))) (V (Proc.devRef .tc Cert.ReferenceIdeal.main_v2292))
  main_v2294 : @Eq ((⟨⟨1, ![1024]⟩, .f32⟩ : BufTy).Contents (Elt F)) (W (no_index (Proc.devRef .tc Cert.KernelIdeal.main_v2294))) (V (Proc.devRef .tc Cert.ReferenceIdeal.main_v2294))
  main_v2295 : @Eq ((⟨⟨1, ![1024]⟩, .f32⟩ : BufTy).Contents (Elt F)) (W (no_index (Proc.devRef .tc Cert.KernelIdeal.main_v2295))) (V (Proc.devRef .tc Cert.ReferenceIdeal.main_v2295))

/-- Boundary 122: every buffer written before it and read after it holds the same contents in the two programs' memories (each equation at the buffer's own array type, written out: the two programs' buffer tables are never compared). -/
structure Agree122 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2305 : @Eq ((⟨⟨2, ![1024, 16]⟩, .f32⟩ : BufTy).Contents (Elt F)) (W (no_index (Proc.devRef .tc Cert.KernelIdeal.main_v2305))) (V (Proc.devRef .tc Cert.ReferenceIdeal.main_v2305))
  main_v2312 : @Eq ((⟨⟨3, ![1024, 16, 16]⟩, .f32⟩ : BufTy).Contents (Elt F)) (W (no_index (Proc.devRef .tc Cert.KernelIdeal.main_v2312))) (V (Proc.devRef .tc Cert.ReferenceIdeal.main_v2312))
  main_v2314 : @Eq ((⟨⟨1, ![1024]⟩, .f32⟩ : BufTy).Contents (Elt F)) (W (no_index (Proc.devRef .tc Cert.KernelIdeal.main_v2314))) (V (Proc.devRef .tc Cert.ReferenceIdeal.main_v2314))

/-- Boundary 123: every buffer written before it and read after it holds the same contents in the two programs' memories (each equation at the buffer's own array type, written out: the two programs' buffer tables are never compared). -/
structure Agree123 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2325 : @Eq ((⟨⟨2, ![1024, 16]⟩, .f32⟩ : BufTy).Contents (Elt F)) (W (no_index (Proc.devRef .tc Cert.KernelIdeal.main_v2325))) (V (Proc.devRef .tc Cert.ReferenceIdeal.main_v2325))
  main_v2332 : @Eq ((⟨⟨3, ![1024, 16, 16]⟩, .f32⟩ : BufTy).Contents (Elt F)) (W (no_index (Proc.devRef .tc Cert.KernelIdeal.main_v2332))) (V (Proc.devRef .tc Cert.ReferenceIdeal.main_v2332))
  main_c_125 : @Eq ((⟨⟨0, ![]⟩, .i32⟩ : BufTy).Contents (Elt F)) (W (no_index (Proc.devRef .tc Cert.KernelIdeal.main_c_125))) (V (Proc.devRef .tc Cert.ReferenceIdeal.main_c_125))

/-- Boundary 124: every buffer written before it and read after it holds the same contents in the two programs' memories (each equation at the buffer's own array type, written out: the two programs' buffer tables are never compared). -/
structure Agree124 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2334 : @Eq ((⟨⟨3, ![1024, 16, 16]⟩, .f32⟩ : BufTy).Contents (Elt F)) (W (no_index (Proc.devRef .tc Cert.KernelIdeal.main_v2334))) (V (Proc.devRef .tc Cert.ReferenceIdeal.main_v2334))
  main_v2344 : @Eq ((⟨⟨2, ![1024, 16]⟩, .f32⟩ : BufTy).Contents (Elt F)) (W (no_index (Proc.devRef .tc Cert.KernelIdeal.main_v2344))) (V (Proc.devRef .tc Cert.ReferenceIdeal.main_v2344))
  main_v2349 : @Eq ((⟨⟨2, ![1024, 16]⟩, .f32⟩ : BufTy).Contents (Elt F)) (W (no_index (Proc.devRef .tc Cert.KernelIdeal.main_v2349))) (V (Proc.devRef .tc Cert.ReferenceIdeal.main_v2349))
  main_v2351 : @Eq ((⟨⟨2, ![1024, 16]⟩, .f32⟩ : BufTy).Contents (Elt F)) (W (no_index (Proc.devRef .tc Cert.KernelIdeal.main_v2351))) (V (Proc.devRef .tc Cert.ReferenceIdeal.main_v2351))
  main_v2352 : @Eq ((⟨⟨2, ![1024, 16]⟩, .f32⟩ : BufTy).Contents (Elt F)) (W (no_index (Proc.devRef .tc Cert.KernelIdeal.main_v2352))) (V (Proc.devRef .tc Cert.ReferenceIdeal.main_v2352))

/-- Boundary 125: every buffer written before it and read after it holds the same contents in the two programs' memories (each equation at the buffer's own array type, written out: the two programs' buffer tables are never compared). -/
structure Agree125 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2356 : @Eq ((⟨⟨3, ![1024, 16, 16]⟩, .f32⟩ : BufTy).Contents (Elt F)) (W (no_index (Proc.devRef .tc Cert.KernelIdeal.main_v2356))) (V (Proc.devRef .tc Cert.ReferenceIdeal.main_v2356))
  main_v2360 : @Eq ((⟨⟨2, ![1024, 1]⟩, .f32⟩ : BufTy).Contents (Elt F)) (W (no_index (Proc.devRef .tc Cert.KernelIdeal.main_v2360))) (V (Proc.devRef .tc Cert.ReferenceIdeal.main_v2360))
  main_v2364 : @Eq ((⟨⟨2, ![1024, 16]⟩, .f32⟩ : BufTy).Contents (Elt F)) (W (no_index (Proc.devRef .tc Cert.KernelIdeal.main_v2364))) (V (Proc.devRef .tc Cert.ReferenceIdeal.main_v2364))
  main_v2369 : @Eq ((⟨⟨2, ![1024, 16]⟩, .f32⟩ : BufTy).Contents (Elt F)) (W (no_index (Proc.devRef .tc Cert.KernelIdeal.main_v2369))) (V (Proc.devRef .tc Cert.ReferenceIdeal.main_v2369))
  main_v2371 : @Eq ((⟨⟨2, ![1024, 16]⟩, .f32⟩ : BufTy).Contents (Elt F)) (W (no_index (Proc.devRef .tc Cert.KernelIdeal.main_v2371))) (V (Proc.devRef .tc Cert.ReferenceIdeal.main_v2371))

/-- Boundary 126: every buffer written before it and read after it holds the same contents in the two programs' memories (each equation at the buffer's own array type, written out: the two programs' buffer tables are never compared). -/
structure Agree126 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2369 : @Eq ((⟨⟨2, ![1024, 16]⟩, .f32⟩ : BufTy).Contents (Elt F)) (W (no_index (Proc.devRef .tc Cert.KernelIdeal.main_v2369))) (V (Proc.devRef .tc Cert.ReferenceIdeal.main_v2369))
  main_v2376 : @Eq ((⟨⟨3, ![1024, 16, 16]⟩, .f32⟩ : BufTy).Contents (Elt F)) (W (no_index (Proc.devRef .tc Cert.KernelIdeal.main_v2376))) (V (Proc.devRef .tc Cert.ReferenceIdeal.main_v2376))
  main_v2380 : @Eq ((⟨⟨2, ![1024, 1]⟩, .f32⟩ : BufTy).Contents (Elt F)) (W (no_index (Proc.devRef .tc Cert.KernelIdeal.main_v2380))) (V (Proc.devRef .tc Cert.ReferenceIdeal.main_v2380))
  main_v2384 : @Eq ((⟨⟨2, ![1024, 16]⟩, .f32⟩ : BufTy).Contents (Elt F)) (W (no_index (Proc.devRef .tc Cert.KernelIdeal.main_v2384))) (V (Proc.devRef .tc Cert.ReferenceIdeal.main_v2384))
  main_v2389 : @Eq ((⟨⟨2, ![1024, 16]⟩, .f32⟩ : BufTy).Contents (Elt F)) (W (no_index (Proc.devRef .tc Cert.KernelIdeal.main_v2389))) (V (Proc.devRef .tc Cert.ReferenceIdeal.main_v2389))
  main_v2390 : @Eq ((⟨⟨2, ![1024, 16]⟩, .f32⟩ : BufTy).Contents (Elt F)) (W (no_index (Proc.devRef .tc Cert.KernelIdeal.main_v2390))) (V (Proc.devRef .tc Cert.ReferenceIdeal.main_v2390))

/-- Boundary 127: every buffer written before it and read after it holds the same contents in the two programs' memories (each equation at the buffer's own array type, written out: the two programs' buffer tables are never compared). -/
structure Agree127 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2398 : @Eq ((⟨⟨3, ![1024, 16, 16]⟩, .f32⟩ : BufTy).Contents (Elt F)) (W (no_index (Proc.devRef .tc Cert.KernelIdeal.main_v2398))) (V (Proc.devRef .tc Cert.ReferenceIdeal.main_v2398))
  main_v2400 : @Eq ((⟨⟨2, ![1024, 16]⟩, .f32⟩ : BufTy).Contents (Elt F)) (W (no_index (Proc.devRef .tc Cert.KernelIdeal.main_v2400))) (V (Proc.devRef .tc Cert.ReferenceIdeal.main_v2400))
  main_v2404 : @Eq ((⟨⟨2, ![1024, 1]⟩, .f32⟩ : BufTy).Contents (Elt F)) (W (no_index (Proc.devRef .tc Cert.KernelIdeal.main_v2404))) (V (Proc.devRef .tc Cert.ReferenceIdeal.main_v2404))
  main_v2406 : @Eq ((⟨⟨2, ![1024, 1]⟩, .f32⟩ : BufTy).Contents (Elt F)) (W (no_index (Proc.devRef .tc Cert.KernelIdeal.main_v2406))) (V (Proc.devRef .tc Cert.ReferenceIdeal.main_v2406))
  main_v2408 : @Eq ((⟨⟨2, ![1024, 16]⟩, .f32⟩ : BufTy).Contents (Elt F)) (W (no_index (Proc.devRef .tc Cert.KernelIdeal.main_v2408))) (V (Proc.devRef .tc Cert.ReferenceIdeal.main_v2408))

/-- Boundary 128: every buffer written before it and read after it holds the same contents in the two programs' memories (each equation at the buffer's own array type, written out: the two programs' buffer tables are never compared). -/
structure Agree128 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2413 : @Eq ((⟨⟨2, ![1024, 16]⟩, .f32⟩ : BufTy).Contents (Elt F)) (W (no_index (Proc.devRef .tc Cert.KernelIdeal.main_v2413))) (V (Proc.devRef .tc Cert.ReferenceIdeal.main_v2413))
  main_v2420 : @Eq ((⟨⟨3, ![1024, 16, 16]⟩, .f32⟩ : BufTy).Contents (Elt F)) (W (no_index (Proc.devRef .tc Cert.KernelIdeal.main_v2420))) (V (Proc.devRef .tc Cert.ReferenceIdeal.main_v2420))
  main_v2424 : @Eq ((⟨⟨2, ![1024, 1]⟩, .f32⟩ : BufTy).Contents (Elt F)) (W (no_index (Proc.devRef .tc Cert.KernelIdeal.main_v2424))) (V (Proc.devRef .tc Cert.ReferenceIdeal.main_v2424))
  main_v2426 : @Eq ((⟨⟨2, ![1024, 1]⟩, .f32⟩ : BufTy).Contents (Elt F)) (W (no_index (Proc.devRef .tc Cert.KernelIdeal.main_v2426))) (V (Proc.devRef .tc Cert.ReferenceIdeal.main_v2426))
  main_v2427 : @Eq ((⟨⟨3, ![1024, 1, 16]⟩, .f32⟩ : BufTy).Contents (Elt F)) (W (no_index (Proc.devRef .tc Cert.KernelIdeal.main_v2427))) (V (Proc.devRef .tc Cert.ReferenceIdeal.main_v2427))

/-- Boundary 129: every buffer written before it and read after it holds the same contents in the two programs' memories (each equation at the buffer's own array type, written out: the two programs' buffer tables are never compared). -/
structure Agree129 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2442 : @Eq ((⟨⟨3, ![1024, 16, 16]⟩, .f32⟩ : BufTy).Contents (Elt F)) (W (no_index (Proc.devRef .tc Cert.KernelIdeal.main_v2442))) (V (Proc.devRef .tc Cert.ReferenceIdeal.main_v2442))
  main_v2444 : @Eq ((⟨⟨2, ![1024, 16]⟩, .f32⟩ : BufTy).Contents (Elt F)) (W (no_index (Proc.devRef .tc Cert.KernelIdeal.main_v2444))) (V (Proc.devRef .tc Cert.ReferenceIdeal.main_v2444))
  main_v2445 : @Eq ((⟨⟨2, ![1024, 1]⟩, .f32⟩ : BufTy).Contents (Elt F)) (W (no_index (Proc.devRef .tc Cert.KernelIdeal.main_v2445))) (V (Proc.devRef .tc Cert.ReferenceIdeal.main_v2445))

/-- Boundary 130: every buffer written before it and read after it holds the same contents in the two programs' memories (each equation at the buffer's own array type, written out: the two programs' buffer tables are never compared). -/
structure Agree130 (W : Valuation Cert.KernelIdeal.τ Cert.KernelIdeal.sig (Elt F)) (V : Valuation Cert.ReferenceIdeal.τ Cert.ReferenceIdeal.sig (Elt F)) : Prop where
  main_arg1 : @Eq ((⟨⟨2, ![1024, 120]⟩, .f32⟩ : BufTy).Contents (Elt F)) (W (no_index (Proc.devRef .tc Cert.KernelIdeal.main_arg1))) (V (Proc.devRef .tc Cert.ReferenceIdeal.main_arg1))
  main_v2457 : @Eq ((⟨⟨2, ![1024, 16]⟩, .f32⟩ : BufTy).Contents (Elt F)) (W (no_index (Proc.devRef .tc Cert.KernelIdeal.main_v2457))) (V (Proc.devRef .tc Cert.ReferenceIdeal.main_v2457))
  main_v2464 : @Eq ((⟨⟨3, ![1024, 16, 16]⟩, .f32⟩ : BufTy).Contents (Elt F)) (W (no_index (Proc.devRef .tc Cert.KernelIdeal.main_v2464))) (V (Proc.devRef .tc Cert.ReferenceIdeal.main_v2464))

/-- Boundary 131: every buffer written before it and read after it holds the same contents in the two programs' memories (each equation at the buffer's own array type, written out: the two programs' buffer tables are never compared). -/
structure Agree131 (W : Valuation Cert.KernelIdeal.τ Cert.KernelIdeal.sig (Elt F)) (V : Valuation Cert.ReferenceIdeal.τ Cert.ReferenceIdeal.sig (Elt F)) : Prop where
  main_v2466 : @Eq ((⟨⟨3, ![1024, 16, 16]⟩, .f32⟩ : BufTy).Contents (Elt F)) (W (no_index (Proc.devRef .tc Cert.KernelIdeal.main_v2466))) (V (Proc.devRef .tc Cert.ReferenceIdeal.main_v2466))

end Cert.Lock

end
-- ==== Proof.LockW0.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 0 carries the agreement of boundary 0 to boundary 1. -/
theorem step0 (W : Valuation Cert.KernelIdeal.τ Cert.KernelIdeal.sig (Elt F)) (V : Valuation Cert.ReferenceIdeal.τ Cert.ReferenceIdeal.sig (Elt F)) (h : Agree0 W V) : Agree1 (after Cert.KernelIdeal.KHost.st0 W) (after Cert.ReferenceIdeal.RefRun.st0 V) where
  main_arg1 := by
    simp only [Cert.KernelIdeal.KHost.st0, Cert.ReferenceIdeal.RefRun.st0]
    after_results_simp
    all_goals first | (simp only [h.main_arg1] <;> rfl) | rfl
  main_v6 := by
    simp only [Cert.KernelIdeal.KHost.st0, Cert.ReferenceIdeal.RefRun.st0]
    after_results_simp
    all_goals first | (simp only [h.main_arg1] <;> rfl) | rfl
  main_v8 := by
    simp only [Cert.KernelIdeal.KHost.st0, Cert.ReferenceIdeal.RefRun.st0]
    after_results_simp
    all_goals first | (simp only [h.main_arg1] <;> rfl) | rfl
  main_v12 := by
    simp only [Cert.KernelIdeal.KHost.st0, Cert.ReferenceIdeal.RefRun.st0]
    after_results_simp
    all_goals first | (simp only [h.main_arg1] <;> rfl) | rfl
  main_v14 := by
    simp only [Cert.KernelIdeal.KHost.st0, Cert.ReferenceIdeal.RefRun.st0]
    after_results_simp
    all_goals first | (simp only [h.main_arg1] <;> rfl) | rfl
  main_v16 := by
    simp only [Cert.KernelIdeal.KHost.st0, Cert.ReferenceIdeal.RefRun.st0]
    after_results_simp
    all_goals first | (simp only [h.main_arg1] <;> rfl) | rfl
  main_v18 := by
    simp only [Cert.KernelIdeal.KHost.st0, Cert.ReferenceIdeal.RefRun.st0]
    after_results_simp
    all_goals first | (simp only [h.main_arg1] <;> rfl) | rfl
set_option maxRecDepth 8192 in
set_option maxHeartbeats 2000000 in
/-- Stretch 1 carries the agreement of boundary 1 to boundary 2. -/
theorem step1 (W : Valuation Cert.KernelIdeal.τ Cert.KernelIdeal.sig (Elt F)) (V : Valuation Cert.ReferenceIdeal.τ Cert.ReferenceIdeal.sig (Elt F)) (h : Agree1 W V) : Agree2 (after Cert.KernelIdeal.KHost.st1 W) (after Cert.ReferenceIdeal.RefRun.st1 V) where
  main_arg1 := by
    simp only [Cert.KernelIdeal.KHost.st1, Cert.ReferenceIdeal.RefRun.st1]
    after_results_simp
    all_goals first | (simp only [h.main_arg1, h.main_v6, h.main_v8, h.main_v12, h.main_v14, h.main_v16, h.main_v18] <;> rfl) | rfl
  main_v21 := by
    simp only [Cert.KernelIdeal.KHost.st1, Cert.ReferenceIdeal.RefRun.st1]
    after_results_simp
    all_goals first | (simp only [h.main_arg1, h.main_v6, h.main_v8, h.main_v12, h.main_v14, h.main_v16, h.main_v18] <;> rfl) | rfl
  main_v28 := by
    simp only [Cert.KernelIdeal.KHost.st1, Cert.ReferenceIdeal.RefRun.st1]
    after_results_simp
    all_goals first | (simp only [h.main_arg1, h.main_v6, h.main_v8, h.main_v12, h.main_v14, h.main_v16, h.main_v18] <;> rfl) | rfl
  main_v32 := by
    simp only [Cert.KernelIdeal.KHost.st1, Cert.ReferenceIdeal.RefRun.st1]
    after_results_simp
    all_goals first | (simp only [h.main_arg1, h.main_v6, h.main_v8, h.main_v12, h.main_v14, h.main_v16, h.main_v18] <;> rfl) | rfl
  main_v34 := by
    simp only [Cert.KernelIdeal.KHost.st1, Cert.ReferenceIdeal.RefRun.st1]
    after_results_simp
    all_goals first | (simp only [h.main_arg1, h.main_v6, h.main_v8, h.main_v12, h.main_v14, h.main_v16, h.main_v18] <;> rfl) | rfl
  main_v36 := by
    simp only [Cert.KernelIdeal.KHost.st1, Cert.ReferenceIdeal.RefRun.st1]
    after_results_simp
    all_goals first | (simp only [h.main_arg1, h.main_v6, h.main_v8, h.main_v12, h.main_v14, h.main_v16, h.main_v18] <;> rfl) | rfl
  main_v37 := by
    simp only [Cert.KernelIdeal.KHost.st1, Cert.ReferenceIdeal.RefRun.st1]
    after_results_simp
    all_goals first | (simp only [h.main_arg1, h.main_v6, h.main_v8, h.main_v12, h.main_v14, h.main_v16, h.main_v18] <;> rfl) | rfl
set_option maxRecDepth 8192 in
set_option maxHeartbeats 2000000 in
/-- Stretch 2 carries the agreement of boundary 2 to boundary 3. -/
theorem step2 (W : Valuation Cert.KernelIdeal.τ Cert.KernelIdeal.sig (Elt F)) (V : Valuation Cert.ReferenceIdeal.τ Cert.ReferenceIdeal.sig (Elt F)) (h : Agree2 W V) : Agree3 (after Cert.KernelIdeal.KHost.st2 W) (after Cert.ReferenceIdeal.RefRun.st2 V) where
  main_arg1 := by
    simp only [Cert.KernelIdeal.KHost.st2, Cert.ReferenceIdeal.RefRun.st2]
    after_results_simp
    all_goals first | (simp only [h.main_arg1, h.main_v21, h.main_v28, h.main_v32, h.main_v34, h.main_v36, h.main_v37] <;> rfl) | rfl
  main_v41 := by
    simp only [Cert.KernelIdeal.KHost.st2, Cert.ReferenceIdeal.RefRun.st2]
    after_results_simp
    all_goals first | (simp only [h.main_arg1, h.main_v21, h.main_v28, h.main_v32, h.main_v34, h.main_v36, h.main_v37] <;> rfl) | rfl
  main_v48 := by
    simp only [Cert.KernelIdeal.KHost.st2, Cert.ReferenceIdeal.RefRun.st2]
    after_results_simp
    all_goals first | (simp only [h.main_arg1, h.main_v21, h.main_v28, h.main_v32, h.main_v34, h.main_v36, h.main_v37] <;> rfl) | rfl
  main_v52 := by
    simp only [Cert.KernelIdeal.KHost.st2, Cert.ReferenceIdeal.RefRun.st2]
    after_results_simp
    all_goals first | (simp only [h.main_arg1, h.main_v21, h.main_v28, h.main_v32, h.main_v34, h.main_v36, h.main_v37] <;> rfl) | rfl
  main_v54 := by
    simp only [Cert.KernelIdeal.KHost.st2, Cert.ReferenceIdeal.RefRun.st2]
    after_results_simp
    all_goals first | (simp only [h.main_arg1, h.main_v21, h.main_v28, h.main_v32, h.main_v34, h.main_v36, h.main_v37] <;> rfl) | rfl
  main_v56 := by
    simp only [Cert.KernelIdeal.KHost.st2, Cert.ReferenceIdeal.RefRun.st2]
    after_results_simp
    all_goals first | (simp only [h.main_arg1, h.main_v21, h.main_v28, h.main_v32, h.main_v34, h.main_v36, h.main_v37] <;> rfl) | rfl
set_option maxRecDepth 8192 in
set_option maxHeartbeats 2000000 in
/-- Stretch 3 carries the agreement of boundary 3 to boundary 4. -/
theorem step3 (W : Valuation Cert.KernelIdeal.τ Cert.KernelIdeal.sig (Elt F)) (V : Valuation Cert.ReferenceIdeal.τ Cert.ReferenceIdeal.sig (Elt F)) (h : Agree3 W V) : Agree4 (after Cert.KernelIdeal.KHost.st3 W) (after Cert.ReferenceIdeal.RefRun.st3 V) where
  main_arg1 := by
    simp only [Cert.KernelIdeal.KHost.st3, Cert.ReferenceIdeal.RefRun.st3]
    after_results_simp
    all_goals first | (simp only [h.main_arg1, h.main_v41, h.main_v48, h.main_v52, h.main_v54, h.main_v56] <;> rfl) | rfl
  main_v61 := by
    simp only [Cert.KernelIdeal.KHost.st3, Cert.ReferenceIdeal.RefRun.st3]
    after_results_simp
    all_goals first | (simp only [h.main_arg1, h.main_v41, h.main_v48, h.main_v52, h.main_v54, h.main_v56] <;> rfl) | rfl
  main_v68 := by
    simp only [Cert.KernelIdeal.KHost.st3, Cert.ReferenceIdeal.RefRun.st3]
    after_results_simp
    all_goals first | (simp only [h.main_arg1, h.main_v41, h.main_v48, h.main_v52, h.main_v54, h.main_v56] <;> rfl) | rfl
  main_v72 := by
    simp only [Cert.KernelIdeal.KHost.st3, Cert.ReferenceIdeal.RefRun.st3]
    after_results_simp
    all_goals first | (simp only [h.main_arg1, h.main_v41, h.main_v48, h.main_v52, h.main_v54, h.main_v56] <;> rfl) | rfl
  main_v74 := by
    simp only [Cert.KernelIdeal.KHost.st3, Cert.ReferenceIdeal.RefRun.st3]
    after_results_simp
    all_goals first | (simp only [h.main_arg1, h.main_v41, h.main_v48, h.main_v52, h.main_v54, h.main_v56] <;> rfl) | rfl
  main_v75 := by
    simp only [Cert.KernelIdeal.KHost.st3, Cert.ReferenceIdeal.RefRun.st3]
    after_results_simp
    all_goals first | (simp only [h.main_arg1, h.main_v41, h.main_v48, h.main_v52, h.main_v54, h.main_v56] <;> rfl) | rfl
set_option maxRecDepth 8192 in
set_option maxHeartbeats 2000000 in
/-- Stretch 4 carries the agreement of boundary 4 to boundary 5. -/
theorem step4 (W : Valuation Cert.KernelIdeal.τ Cert.KernelIdeal.sig (Elt F)) (V : Valuation Cert.ReferenceIdeal.τ Cert.ReferenceIdeal.sig (Elt F)) (h : Agree4 W V) : Agree5 (after Cert.KernelIdeal.KHost.st4 W) (after Cert.ReferenceIdeal.RefRun.st4 V) where
  main_arg1 := by
    simp only [Cert.KernelIdeal.KHost.st4, Cert.ReferenceIdeal.RefRun.st4]
    after_results_simp
    all_goals first | (simp only [h.main_arg1, h.main_v61, h.main_v68, h.main_v72, h.main_v74, h.main_v75] <;> rfl) | rfl
  main_v81 := by
    simp only [Cert.KernelIdeal.KHost.st4, Cert.ReferenceIdeal.RefRun.st4]
    after_results_simp
    all_goals first | (simp only [h.main_arg1, h.main_v61, h.main_v68, h.main_v72, h.main_v74, h.main_v75] <;> rfl) | rfl
  main_v88 := by
    simp only [Cert.KernelIdeal.KHost.st4, Cert.ReferenceIdeal.RefRun.st4]
    after_results_simp
    all_goals first | (simp only [h.main_arg1, h.main_v61, h.main_v68, h.main_v72, h.main_v74, h.main_v75] <;> rfl) | rfl
  main_v92 := by
    simp only [Cert.KernelIdeal.KHost.st4, Cert.ReferenceIdeal.RefRun.st4]
    after_results_simp
    all_goals first | (simp only [h.main_arg1, h.main_v61, h.main_v68, h.main_v72, h.main_v74, h.main_v75] <;> rfl) | rfl
  main_v94 := by
    simp only [Cert.KernelIdeal.KHost.st4, Cert.ReferenceIdeal.RefRun.st4]
    after_results_simp
    all_goals first | (simp only [h.main_arg1, h.main_v61, h.main_v68, h.main_v72, h.main_v74, h.main_v75] <;> rfl) | rfl
set_option maxRecDepth 8192 in
set_option maxHeartbeats 2000000 in
/-- Stretch 5 carries the agreement of boundary 5 to boundary 6. -/
theorem step5 (W : Valuation Cert.KernelIdeal.τ Cert.KernelIdeal.sig (Elt F)) (V : Valuation Cert.ReferenceIdeal.τ Cert.ReferenceIdeal.sig (Elt F)) (h : Agree5 W V) : Agree6 (after Cert.KernelIdeal.KHost.st5 W) (after Cert.ReferenceIdeal.RefRun.st5 V) where
  main_arg1 := by
    simp only [Cert.KernelIdeal.KHost.st5, Cert.ReferenceIdeal.RefRun.st5]
    after_results_simp
    all_goals first | (simp only [h.main_arg1, h.main_v81, h.main_v88, h.main_v92, h.main_v94] <;> rfl) | rfl
  main_v101 := by
    simp only [Cert.KernelIdeal.KHost.st5, Cert.ReferenceIdeal.RefRun.st5]
    after_results_simp
    all_goals first | (simp only [h.main_arg1, h.main_v81, h.main_v88, h.main_v92, h.main_v94] <;> rfl) | rfl
  main_v108 := by
    simp only [Cert.KernelIdeal.KHost.st5, Cert.ReferenceIdeal.RefRun.st5]
    after_results_simp
    all_goals first | (simp only [h.main_arg1, h.main_v81, h.main_v88, h.main_v92, h.main_v94] <;> rfl) | rfl
  main_v112 := by
    simp only [Cert.KernelIdeal.KHost.st5, Cert.ReferenceIdeal.RefRun.st5]
    after_results_simp
    all_goals first | (simp only [h.main_arg1, h.main_v81, h.main_v88, h.main_v92, h.main_v94] <;> rfl) | rfl
  main_v113 := by
    simp only [Cert.KernelIdeal.KHost.st5, Cert.ReferenceIdeal.RefRun.st5]
    after_results_simp
    all_goals first | (simp only [h.main_arg1, h.main_v81, h.main_v88, h.main_v92, h.main_v94] <;> rfl) | rfl
set_option maxRecDepth 8192 in
set_option maxHeartbeats 2000000 in
/-- Stretch 6 carries the agreement of boundary 6 to boundary 7. -/
theorem step6 (W : Valuation Cert.KernelIdeal.τ Cert.KernelIdeal.sig (Elt F)) (V : Valuation Cert.ReferenceIdeal.τ Cert.ReferenceIdeal.sig (Elt F)) (h : Agree6 W V) : Agree7 (after Cert.KernelIdeal.KHost.st6 W) (after Cert.ReferenceIdeal.RefRun.st6 V) where
  main_arg1 := by
    simp only [Cert.KernelIdeal.KHost.st6, Cert.ReferenceIdeal.RefRun.st6]
    after_results_simp
    all_goals first | (simp only [h.main_arg1, h.main_v101, h.main_v108, h.main_v112, h.main_v113] <;> rfl) | rfl
  main_v121 := by
    simp only [Cert.KernelIdeal.KHost.st6, Cert.ReferenceIdeal.RefRun.st6]
    after_results_simp
    all_goals first | (simp only [h.main_arg1, h.main_v101, h.main_v108, h.main_v112, h.main_v113] <;> rfl) | rfl
  main_v128 := by
    simp only [Cert.KernelIdeal.KHost.st6, Cert.ReferenceIdeal.RefRun.st6]
    after_results_simp
    all_goals first | (simp only [h.main_arg1, h.main_v101, h.main_v108, h.main_v112, h.main_v113] <;> rfl) | rfl
  main_v130 := by
    simp only [Cert.KernelIdeal.KHost.st6, Cert.ReferenceIdeal.RefRun.st6]
    after_results_simp
    all_goals first | (simp only [h.main_arg1, h.main_v101, h.main_v108, h.main_v112, h.main_v113] <;> rfl) | rfl
  main_v132 := by
    simp only [Cert.KernelIdeal.KHost.st6, Cert.ReferenceIdeal.RefRun.st6]
    after_results_simp
    all_goals first | (simp only [h.main_arg1, h.main_v101, h.main_v108, h.main_v112, h.main_v113] <;> rfl) | rfl
set_option maxRecDepth 8192 in
set_option maxHeartbeats 2000000 in
/-- Stretch 7 carries the agreement of boundary 7 to boundary 8. -/
theorem step7 (W : Valuation Cert.KernelIdeal.τ Cert.KernelIdeal.sig (Elt F)) (V : Valuation Cert.ReferenceIdeal.τ Cert.ReferenceIdeal.sig (Elt F)) (h : Agree7 W V) : Agree8 (after Cert.KernelIdeal.KHost.st7 W) (after Cert.ReferenceIdeal.RefRun.st7 V) where
  main_arg1 := by
    simp only [Cert.KernelIdeal.KHost.st7, Cert.ReferenceIdeal.RefRun.st7]
    after_results_simp
    all_goals first | (simp only [h.main_arg1, h.main_v121, h.main_v128, h.main_v130, h.main_v132] <;> rfl) | rfl
  main_v141 := by
    simp only [Cert.KernelIdeal.KHost.st7, Cert.ReferenceIdeal.RefRun.st7]
    after_results_simp
    all_goals first | (simp only [h.main_arg1, h.main_v121, h.main_v128, h.main_v130, h.main_v132] <;> rfl) | rfl
  main_v148 := by
    simp only [Cert.KernelIdeal.KHost.st7, Cert.ReferenceIdeal.RefRun.st7]
    after_results_simp
    all_goals first | (simp only [h.main_arg1, h.main_v121, h.main_v128, h.main_v130, h.main_v132] <;> rfl) | rfl
  main_v150 := by
    simp only [Cert.KernelIdeal.KHost.st7, Cert.ReferenceIdeal.RefRun.st7]
    after_results_simp
    all_goals first | (simp only [h.main_arg1, h.main_v121, h.main_v128, h.main_v130, h.main_v132] <;> rfl) | rfl
  main_v151 := by
    simp only [Cert.KernelIdeal.KHost.st7, Cert.ReferenceIdeal.RefRun.st7]
    after_results_simp
    all_goals first | (simp only [h.main_arg1, h.main_v121, h.main_v128, h.main_v130, h.main_v132] <;> rfl) | rfl
set_option maxRecDepth 8192 in
set_option maxHeartbeats 2000000 in
/-- Stretch 8 carries the agreement of boundary 8 to boundary 9. -/
theorem step8 (W : Valuation Cert.KernelIdeal.τ Cert.KernelIdeal.sig (Elt F)) (V : Valuation Cert.ReferenceIdeal.τ Cert.ReferenceIdeal.sig (Elt F)) (h : Agree8 W V) : Agree9 (after Cert.KernelIdeal.KHost.st8 W) (after Cert.ReferenceIdeal.RefRun.st8 V) where
  main_arg1 := by
    simp only [Cert.KernelIdeal.KHost.st8, Cert.ReferenceIdeal.RefRun.st8]
    after_results_simp
    all_goals first | (simp only [h.main_arg1, h.main_v141, h.main_v148, h.main_v150, h.main_v151] <;> rfl) | rfl
  main_v161 := by
    simp only [Cert.KernelIdeal.KHost.st8, Cert.ReferenceIdeal.RefRun.st8]
    after_results_simp
    all_goals first | (simp only [h.main_arg1, h.main_v141, h.main_v148, h.main_v150, h.main_v151] <;> rfl) | rfl
  main_v168 := by
    simp only [Cert.KernelIdeal.KHost.st8, Cert.ReferenceIdeal.RefRun.st8]
    after_results_simp
    all_goals first | (simp only [h.main_arg1, h.main_v141, h.main_v148, h.main_v150, h.main_v151] <;> rfl) | rfl
  main_v170 := by
    simp only [Cert.KernelIdeal.KHost.st8, Cert.ReferenceIdeal.RefRun.st8]
    after_results_simp
    all_goals first | (simp only [h.main_arg1, h.main_v141, h.main_v148, h.main_v150, h.main_v151] <;> rfl) | rfl
set_option maxRecDepth 8192 in
set_option maxHeartbeats 2000000 in
/-- Stretch 9 carries the agreement of boundary 9 to boundary 10. -/
theorem step9 (W : Valuation Cert.KernelIdeal.τ Cert.KernelIdeal.sig (Elt F)) (V : Valuation Cert.ReferenceIdeal.τ Cert.ReferenceIdeal.sig (Elt F)) (h : Agree9 W V) : Agree10 (after Cert.KernelIdeal.KHost.st9 W) (after Cert.ReferenceIdeal.RefRun.st9 V) where
  main_arg1 := by
    simp only [Cert.KernelIdeal.KHost.st9, Cert.ReferenceIdeal.RefRun.st9]
    after_results_simp
    all_goals first | (simp only [h.main_arg1, h.main_v161, h.main_v168, h.main_v170] <;> rfl) | rfl
  main_v181 := by
    simp only [Cert.KernelIdeal.KHost.st9, Cert.ReferenceIdeal.RefRun.st9]
    after_results_simp
    all_goals first | (simp only [h.main_arg1, h.main_v161, h.main_v168, h.main_v170] <;> rfl) | rfl
  main_v188 := by
    simp only [Cert.KernelIdeal.KHost.st9, Cert.ReferenceIdeal.RefRun.st9]
    after_results_simp
    all_goals first | (simp only [h.main_arg1, h.main_v161, h.main_v168, h.main_v170] <;> rfl) | rfl
  main_v189 := by
    simp only [Cert.KernelIdeal.KHost.st9, Cert.ReferenceIdeal.RefRun.st9]
    after_results_simp
    all_goals first | (simp only [h.main_arg1, h.main_v161, h.main_v168, h.main_v170] <;> rfl) | rfl
set_option maxRecDepth 8192 in
set_option maxHeartbeats 2000000 in
/-- Stretch 10 carries the agreement of boundary 10 to boundary 11. -/
theorem step10 (W : Valuation Cert.KernelIdeal.τ Cert.KernelIdeal.sig (Elt F)) (V : Valuation Cert.ReferenceIdeal.τ Cert.ReferenceIdeal.sig (Elt F)) (h : Agree10 W V) : Agree11 (after Cert.KernelIdeal.KHost.st10 W) (after Cert.ReferenceIdeal.RefRun.st10 V) where
  main_arg1 := by
    simp only [Cert.KernelIdeal.KHost.st10, Cert.ReferenceIdeal.RefRun.st10]
    after_results_simp
    all_goals first | (simp only [h.main_arg1, h.main_v181, h.main_v188, h.main_v189] <;> rfl) | rfl
  main_v201 := by
    simp only [Cert.KernelIdeal.KHost.st10, Cert.ReferenceIdeal.RefRun.st10]
    after_results_simp
    all_goals first | (simp only [h.main_arg1, h.main_v181, h.main_v188, h.main_v189] <;> rfl) | rfl
  main_v208 := by
    simp only [Cert.KernelIdeal.KHost.st10, Cert.ReferenceIdeal.RefRun.st10]
    after_results_simp
    all_goals first | (simp only [h.main_arg1, h.main_v181, h.main_v188, h.main_v189] <;> rfl) | rfl
set_option maxRecDepth 8192 in
set_option maxHeartbeats 2000000 in
/-- Stretch 11 carries the agreement of boundary 11 to boundary 12. -/
theorem step11 (W : Valuation Cert.KernelIdeal.τ Cert.KernelIdeal.sig (Elt F)) (V : Valuation Cert.ReferenceIdeal.τ Cert.ReferenceIdeal.sig (Elt F)) (h : Agree11 W V) : Agree12 (after Cert.KernelIdeal.KHost.st11 W) (after Cert.ReferenceIdeal.RefRun.st11 V) where
  main_arg1 := by
    simp only [Cert.KernelIdeal.KHost.st11, Cert.ReferenceIdeal.RefRun.st11]
    after_results_simp
    all_goals first | (simp only [h.main_arg1, h.main_v201, h.main_v208] <;> rfl) | rfl
  main_v208 := by
    simp only [Cert.KernelIdeal.KHost.st11, Cert.ReferenceIdeal.RefRun.st11]
    after_results_simp
    all_goals first | (simp only [h.main_arg1, h.main_v201, h.main_v208] <;> rfl) | rfl
  main_v221 := by
    simp only [Cert.KernelIdeal.KHost.st11, Cert.ReferenceIdeal.RefRun.st11]
    after_results_simp
    all_goals first | (simp only [h.main_arg1, h.main_v201, h.main_v208] <;> rfl) | rfl
  main_v226 := by
    simp only [Cert.KernelIdeal.KHost.st11, Cert.ReferenceIdeal.RefRun.st11]
    after_results_simp
    all_goals first | (simp only [h.main_arg1, h.main_v201, h.main_v208] <;> rfl) | rfl
  main_v227 := by
    simp only [Cert.KernelIdeal.KHost.st11, Cert.ReferenceIdeal.RefRun.st11]
    after_results_simp
    all_goals first | (simp only [h.main_arg1, h.main_v201, h.main_v208] <;> rfl) | rfl

end Cert.Lock

end
-- ==== Proof.LockW1.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 12 carries the agreement of boundary 12 to boundary 13. -/
theorem step12 (W : Valuation Cert.KernelIdeal.τ Cert.KernelIdeal.sig (Elt F)) (V : Valuation Cert.ReferenceIdeal.τ Cert.ReferenceIdeal.sig (Elt F)) (h : Agree12 W V) : Agree13 (after Cert.KernelIdeal.KHost.st12 W) (after Cert.ReferenceIdeal.RefRun.st12 V) where
  main_arg1 := by
    simp only [Cert.KernelIdeal.KHost.st12, Cert.ReferenceIdeal.RefRun.st12]
    after_results_simp
    all_goals first | (simp only [h.main_arg1, h.main_v208, h.main_v221, h.main_v226, h.main_v227] <;> rfl) | rfl
  main_v228 := by
    simp only [Cert.KernelIdeal.KHost.st12, Cert.ReferenceIdeal.RefRun.st12]
    after_results_simp
    all_goals first | (simp only [h.main_arg1, h.main_v208, h.main_v221, h.main_v226, h.main_v227] <;> rfl) | rfl
  main_v241 := by
    simp only [Cert.KernelIdeal.KHost.st12, Cert.ReferenceIdeal.RefRun.st12]
    after_results_simp
    all_goals first | (simp only [h.main_arg1, h.main_v208, h.main_v221, h.main_v226, h.main_v227] <;> rfl) | rfl
  main_v246 := by
    simp only [Cert.KernelIdeal.KHost.st12, Cert.ReferenceIdeal.RefRun.st12]
    after_results_simp
    all_goals first | (simp only [h.main_arg1, h.main_v208, h.main_v221, h.main_v226, h.main_v227] <;> rfl) | rfl
  main_c_11 := by
    simp only [Cert.KernelIdeal.KHost.st12, Cert.ReferenceIdeal.RefRun.st12]
    after_results_simp
    all_goals first | (simp only [h.main_arg1, h.main_v208, h.main_v221, h.main_v226, h.main_v227] <;> rfl) | rfl
set_option maxRecDepth 8192 in
set_option maxHeartbeats 2000000 in
/-- Stretch 13 carries the agreement of boundary 13 to boundary 14. -/
theorem step13 (W : Valuation Cert.KernelIdeal.τ Cert.KernelIdeal.sig (Elt F)) (V : Valuation Cert.ReferenceIdeal.τ Cert.ReferenceIdeal.sig (Elt F)) (h : Agree13 W V) : Agree14 (after Cert.KernelIdeal.KHost.st13 W) (after Cert.ReferenceIdeal.RefRun.st13 V) where
  main_arg1 := by
    simp only [Cert.KernelIdeal.KHost.st13, Cert.ReferenceIdeal.RefRun.st13]
    after_results_simp
    all_goals first | (simp only [h.main_arg1, h.main_v228, h.main_v241, h.main_v246, h.main_c_11] <;> rfl) | rfl
  main_v248 := by
    simp only [Cert.KernelIdeal.KHost.st13, Cert.ReferenceIdeal.RefRun.st13]
    after_results_simp
    all_goals first | (simp only [h.main_arg1, h.main_v228, h.main_v241, h.main_v246, h.main_c_11] <;> rfl) | rfl
  main_v261 := by
    simp only [Cert.KernelIdeal.KHost.st13, Cert.ReferenceIdeal.RefRun.st13]
    after_results_simp
    all_goals first | (simp only [h.main_arg1, h.main_v228, h.main_v241, h.main_v246, h.main_c_11] <;> rfl) | rfl
  main_v266 := by
    simp only [Cert.KernelIdeal.KHost.st13, Cert.ReferenceIdeal.RefRun.st13]
    after_results_simp
    all_goals first | (simp only [h.main_arg1, h.main_v228, h.main_v241, h.main_v246, h.main_c_11] <;> rfl) | rfl
set_option maxRecDepth 8192 in
set_option maxHeartbeats 2000000 in
/-- Stretch 14 carries the agreement of boundary 14 to boundary 15. -/
theorem step14 (W : Valuation Cert.KernelIdeal.τ Cert.KernelIdeal.sig (Elt F)) (V : Valuation Cert.ReferenceIdeal.τ Cert.ReferenceIdeal.sig (Elt F)) (h : Agree14 W V) : Agree15 (after Cert.KernelIdeal.KHost.st14 W) (after Cert.ReferenceIdeal.RefRun.st14 V) where
  main_arg1 := by
    simp only [Cert.KernelIdeal.KHost.st14, Cert.ReferenceIdeal.RefRun.st14]
    after_results_simp
    all_goals first | (simp only [h.main_arg1, h.main_v248, h.main_v261, h.main_v266] <;> rfl) | rfl
  main_v268 := by
    simp only [Cert.KernelIdeal.KHost.st14, Cert.ReferenceIdeal.RefRun.st14]
    after_results_simp
    all_goals first | (simp only [h.main_arg1, h.main_v248, h.main_v261, h.main_v266] <;> rfl) | rfl
  main_v281 := by
    simp only [Cert.KernelIdeal.KHost.st14, Cert.ReferenceIdeal.RefRun.st14]
    after_results_simp
    all_goals first | (simp only [h.main_arg1, h.main_v248, h.main_v261, h.main_v266] <;> rfl) | rfl
  main_v283 := by
    simp only [Cert.KernelIdeal.KHost.st14, Cert.ReferenceIdeal.RefRun.st14]
    after_results_simp
    all_goals first | (simp only [h.main_arg1, h.main_v248, h.main_v261, h.main_v266] <;> rfl) | rfl
  main_v285 := by
    simp only [Cert.KernelIdeal.KHost.st14, Cert.ReferenceIdeal.RefRun.st14]
    after_results_simp
    all_goals first | (simp only [h.main_arg1, h.main_v248, h.main_v261, h.main_v266] <;> rfl) | rfl
set_option maxRecDepth 8192 in
set_option maxHeartbeats 2000000 in
/-- Stretch 15 carries the agreement of boundary 15 to boundary 16. -/
theorem step15 (W : Valuation Cert.KernelIdeal.τ Cert.KernelIdeal.sig (Elt F)) (V : Valuation Cert.ReferenceIdeal.τ Cert.ReferenceIdeal.sig (Elt F)) (h : Agree15 W V) : Agree16 (after Cert.KernelIdeal.KHost.st15 W) (after Cert.ReferenceIdeal.RefRun.st15 V) where
  main_arg1 := by
    simp only [Cert.KernelIdeal.KHost.st15, Cert.ReferenceIdeal.RefRun.st15]
    after_results_simp
    all_goals first | (simp only [h.main_arg1, h.main_v268, h.main_v281, h.main_v283, h.main_v285] <;> rfl) | rfl
  main_v288 := by
    simp only [Cert.KernelIdeal.KHost.st15, Cert.ReferenceIdeal.RefRun.st15]
    after_results_simp
    all_goals first | (simp only [h.main_arg1, h.main_v268, h.main_v281, h.main_v283, h.main_v285] <;> rfl) | rfl
  main_v296 := by
    simp only [Cert.KernelIdeal.KHost.st15, Cert.ReferenceIdeal.RefRun.st15]
    after_results_simp
    all_goals first | (simp only [h.main_arg1, h.main_v268, h.main_v281, h.main_v283, h.main_v285] <;> rfl) | rfl
  main_v301 := by
    simp only [Cert.KernelIdeal.KHost.st15, Cert.ReferenceIdeal.RefRun.st15]
    after_results_simp
    all_goals first | (simp only [h.main_arg1, h.main_v268, h.main_v281, h.main_v283, h.main_v285] <;> rfl) | rfl
  main_v303 := by
    simp only [Cert.KernelIdeal.KHost.st15, Cert.ReferenceIdeal.RefRun.st15]
    after_results_simp
    all_goals first | (simp only [h.main_arg1, h.main_v268, h.main_v281, h.main_v283, h.main_v285] <;> rfl) | rfl
  main_v304 := by
    simp only [Cert.KernelIdeal.KHost.st15, Cert.ReferenceIdeal.RefRun.st15]
    after_results_simp
    all_goals first | (simp only [h.main_arg1, h.main_v268, h.main_v281, h.main_v283, h.main_v285] <;> rfl) | rfl
set_option maxRecDepth 8192 in
set_option maxHeartbeats 2000000 in
/-- Stretch 16 carries the agreement of boundary 16 to boundary 17. -/
theorem step16 (W : Valuation Cert.KernelIdeal.τ Cert.KernelIdeal.sig (Elt F)) (V : Valuation Cert.ReferenceIdeal.τ Cert.ReferenceIdeal.sig (Elt F)) (h : Agree16 W V) : Agree17 (after Cert.KernelIdeal.KHost.st16 W) (after Cert.ReferenceIdeal.RefRun.st16 V) where
  main_arg1 := by
    simp only [Cert.KernelIdeal.KHost.st16, Cert.ReferenceIdeal.RefRun.st16]
    after_results_simp
    all_goals first | (simp only [h.main_arg1, h.main_v288, h.main_v296, h.main_v301, h.main_v303, h.main_v304] <;> rfl) | rfl
  main_v310 := by
    simp only [Cert.KernelIdeal.KHost.st16, Cert.ReferenceIdeal.RefRun.st16]
    after_results_simp
    all_goals first | (simp only [h.main_arg1, h.main_v288, h.main_v296, h.main_v301, h.main_v303, h.main_v304] <;> rfl) | rfl
  main_v312 := by
    simp only [Cert.KernelIdeal.KHost.st16, Cert.ReferenceIdeal.RefRun.st16]
    after_results_simp
    all_goals first | (simp only [h.main_arg1, h.main_v288, h.main_v296, h.main_v301, h.main_v303, h.main_v304] <;> rfl) | rfl
  main_v316 := by
    simp only [Cert.KernelIdeal.KHost.st16, Cert.ReferenceIdeal.RefRun.st16]
    after_results_simp
    all_goals first | (simp only [h.main_arg1, h.main_v288, h.main_v296, h.main_v301, h.main_v303, h.main_v304] <;> rfl) | rfl
  main_v318 := by
    simp only [Cert.KernelIdeal.KHost.st16, Cert.ReferenceIdeal.RefRun.st16]
    after_results_simp
    all_goals first | (simp only [h.main_arg1, h.main_v288, h.main_v296, h.main_v301, h.main_v303, h.main_v304] <;> rfl) | rfl
  main_v320 := by
    simp only [Cert.KernelIdeal.KHost.st16, Cert.ReferenceIdeal.RefRun.st16]
    after_results_simp
    all_goals first | (simp only [h.main_arg1, h.main_v288, h.main_v296, h.main_v301, h.main_v303, h.main_v304] <;> rfl) | rfl
  main_v322 := by
    simp only [Cert.KernelIdeal.KHost.st16, Cert.ReferenceIdeal.RefRun.st16]
    after_results_simp
    all_goals first | (simp only [h.main_arg1, h.main_v288, h.main_v296, h.main_v301, h.main_v303, h.main_v304] <;> rfl) | rfl
set_option maxRecDepth 8192 in
set_option maxHeartbeats 2000000 in
/-- Stretch 17 carries the agreement of boundary 17 to boundary 18. -/
theorem step17 (W : Valuation Cert.KernelIdeal.τ Cert.KernelIdeal.sig (Elt F)) (V : Valuation Cert.ReferenceIdeal.τ Cert.ReferenceIdeal.sig (Elt F)) (h : Agree17 W V) : Agree18 (after Cert.KernelIdeal.KHost.st17 W) (after Cert.ReferenceIdeal.RefRun.st17 V) where
  main_arg1 := by
    simp only [Cert.KernelIdeal.KHost.st17, Cert.ReferenceIdeal.RefRun.st17]
    after_results_simp
    all_goals first | (simp only [h.main_arg1, h.main_v310, h.main_v312, h.main_v316, h.main_v318, h.main_v320, h.main_v322] <;> rfl) | rfl
  main_v325 := by
    simp only [Cert.KernelIdeal.KHost.st17, Cert.ReferenceIdeal.RefRun.st17]
    after_results_simp
    all_goals first | (simp only [h.main_arg1, h.main_v310, h.main_v312, h.main_v316, h.main_v318, h.main_v320, h.main_v322] <;> rfl) | rfl
  main_v332 := by
    simp only [Cert.KernelIdeal.KHost.st17, Cert.ReferenceIdeal.RefRun.st17]
    after_results_simp
    all_goals first | (simp only [h.main_arg1, h.main_v310, h.main_v312, h.main_v316, h.main_v318, h.main_v320, h.main_v322] <;> rfl) | rfl
  main_v336 := by
    simp only [Cert.KernelIdeal.KHost.st17, Cert.ReferenceIdeal.RefRun.st17]
    after_results_simp
    all_goals first | (simp only [h.main_arg1, h.main_v310, h.main_v312, h.main_v316, h.main_v318, h.main_v320, h.main_v322] <;> rfl) | rfl
  main_v338 := by
    simp only [Cert.KernelIdeal.KHost.st17, Cert.ReferenceIdeal.RefRun.st17]
    after_results_simp
    all_goals first | (simp only [h.main_arg1, h.main_v310, h.main_v312, h.main_v316, h.main_v318, h.main_v320, h.main_v322] <;> rfl) | rfl
  main_v340 := by
    simp only [Cert.KernelIdeal.KHost.st17, Cert.ReferenceIdeal.RefRun.st17]
    after_results_simp
    all_goals first | (simp only [h.main_arg1, h.main_v310, h.main_v312, h.main_v316, h.main_v318, h.main_v320, h.main_v322] <;> rfl) | rfl
  main_v341 := by
    simp only [Cert.KernelIdeal.KHost.st17, Cert.ReferenceIdeal.RefRun.st17]
    after_results_simp
    all_goals first | (simp only [h.main_arg1, h.main_v310, h.main_v312, h.main_v316, h.main_v318, h.main_v320, h.main_v322] <;> rfl) | rfl
set_option maxRecDepth 8192 in
set_option maxHeartbeats 2000000 in
/-- Stretch 18 carries the agreement of boundary 18 to boundary 19. -/
theorem step18 (W : Valuation Cert.KernelIdeal.τ Cert.KernelIdeal.sig (Elt F)) (V : Valuation Cert.ReferenceIdeal.τ Cert.ReferenceIdeal.sig (Elt F)) (h : Agree18 W V) : Agree19 (after Cert.KernelIdeal.KHost.st18 W) (after Cert.ReferenceIdeal.RefRun.st18 V) where
  main_arg1 := by
    simp only [Cert.KernelIdeal.KHost.st18, Cert.ReferenceIdeal.RefRun.st18]
    after_results_simp
    all_goals first | (simp only [h.main_arg1, h.main_v325, h.main_v332, h.main_v336, h.main_v338, h.main_v340, h.main_v341] <;> rfl) | rfl
  main_v345 := by
    simp only [Cert.KernelIdeal.KHost.st18, Cert.ReferenceIdeal.RefRun.st18]
    after_results_simp
    all_goals first | (simp only [h.main_arg1, h.main_v325, h.main_v332, h.main_v336, h.main_v338, h.main_v340, h.main_v341] <;> rfl) | rfl
  main_v352 := by
    simp only [Cert.KernelIdeal.KHost.st18, Cert.ReferenceIdeal.RefRun.st18]
    after_results_simp
    all_goals first | (simp only [h.main_arg1, h.main_v325, h.main_v332, h.main_v336, h.main_v338, h.main_v340, h.main_v341] <;> rfl) | rfl
  main_v356 := by
    simp only [Cert.KernelIdeal.KHost.st18, Cert.ReferenceIdeal.RefRun.st18]
    after_results_simp
    all_goals first | (simp only [h.main_arg1, h.main_v325, h.main_v332, h.main_v336, h.main_v338, h.main_v340, h.main_v341] <;> rfl) | rfl
  main_v358 := by
    simp only [Cert.KernelIdeal.KHost.st18, Cert.ReferenceIdeal.RefRun.st18]
    after_results_simp
    all_goals first | (simp only [h.main_arg1, h.main_v325, h.main_v332, h.main_v336, h.main_v338, h.main_v340, h.main_v341] <;> rfl) | rfl
  main_v360 := by
    simp only [Cert.KernelIdeal.KHost.st18, Cert.ReferenceIdeal.RefRun.st18]
    after_results_simp
    all_goals first | (simp only [h.main_arg1, h.main_v325, h.main_v332, h.main_v336, h.main_v338, h.main_v340, h.main_v341] <;> rfl) | rfl
set_option maxRecDepth 8192 in
set_option maxHeartbeats 2000000 in
/-- Stretch 19 carries the agreement of boundary 19 to boundary 20. -/
theorem step19 (W : Valuation Cert.KernelIdeal.τ Cert.KernelIdeal.sig (Elt F)) (V : Valuation Cert.ReferenceIdeal.τ Cert.ReferenceIdeal.sig (Elt F)) (h : Agree19 W V) : Agree20 (after Cert.KernelIdeal.KHost.st19 W) (after Cert.ReferenceIdeal.RefRun.st19 V) where
  main_arg1 := by
    simp only [Cert.KernelIdeal.KHost.st19, Cert.ReferenceIdeal.RefRun.st19]
    after_results_simp
    all_goals first | (simp only [h.main_arg1, h.main_v345, h.main_v352, h.main_v356, h.main_v358, h.main_v360] <;> rfl) | rfl
  main_v365 := by
    simp only [Cert.KernelIdeal.KHost.st19, Cert.ReferenceIdeal.RefRun.st19]
    after_results_simp
    all_goals first | (simp only [h.main_arg1, h.main_v345, h.main_v352, h.main_v356, h.main_v358, h.main_v360] <;> rfl) | rfl
  main_v372 := by
    simp only [Cert.KernelIdeal.KHost.st19, Cert.ReferenceIdeal.RefRun.st19]
    after_results_simp
    all_goals first | (simp only [h.main_arg1, h.main_v345, h.main_v352, h.main_v356, h.main_v358, h.main_v360] <;> rfl) | rfl
  main_v376 := by
    simp only [Cert.KernelIdeal.KHost.st19, Cert.ReferenceIdeal.RefRun.st19]
    after_results_simp
    all_goals first | (simp only [h.main_arg1, h.main_v345, h.main_v352, h.main_v356, h.main_v358, h.main_v360] <;> rfl) | rfl
  main_v378 := by
    simp only [Cert.KernelIdeal.KHost.st19, Cert.ReferenceIdeal.RefRun.st19]
    after_results_simp
    all_goals first | (simp only [h.main_arg1, h.main_v345, h.main_v352, h.main_v356, h.main_v358, h.main_v360] <;> rfl) | rfl
  main_v379 := by
    simp only [Cert.KernelIdeal.KHost.st19, Cert.ReferenceIdeal.RefRun.st19]
    after_results_simp
    all_goals first | (simp only [h.main_arg1, h.main_v345, h.main_v352, h.main_v356, h.main_v358, h.main_v360] <;> rfl) | rfl
set_option maxRecDepth 8192 in
set_option maxHeartbeats 2000000 in
/-- Stretch 20 carries the agreement of boundary 20 to boundary 21. -/
theorem step20 (W : Valuation Cert.KernelIdeal.τ Cert.KernelIdeal.sig (Elt F)) (V : Valuation Cert.ReferenceIdeal.τ Cert.ReferenceIdeal.sig (Elt F)) (h : Agree20 W V) : Agree21 (after Cert.KernelIdeal.KHost.st20 W) (after Cert.ReferenceIdeal.RefRun.st20 V) where
  main_arg1 := by
    simp only [Cert.KernelIdeal.KHost.st20, Cert.ReferenceIdeal.RefRun.st20]
    after_results_simp
    all_goals first | (simp only [h.main_arg1, h.main_v365, h.main_v372, h.main_v376, h.main_v378, h.main_v379] <;> rfl) | rfl
  main_v385 := by
    simp only [Cert.KernelIdeal.KHost.st20, Cert.ReferenceIdeal.RefRun.st20]
    after_results_simp
    all_goals first | (simp only [h.main_arg1, h.main_v365, h.main_v372, h.main_v376, h.main_v378, h.main_v379] <;> rfl) | rfl
  main_v392 := by
    simp only [Cert.KernelIdeal.KHost.st20, Cert.ReferenceIdeal.RefRun.st20]
    after_results_simp
    all_goals first | (simp only [h.main_arg1, h.main_v365, h.main_v372, h.main_v376, h.main_v378, h.main_v379] <;> rfl) | rfl
  main_v396 := by
    simp only [Cert.KernelIdeal.KHost.st20, Cert.ReferenceIdeal.RefRun.st20]
    after_results_simp
    all_goals first | (simp only [h.main_arg1, h.main_v365, h.main_v372, h.main_v376, h.main_v378, h.main_v379] <;> rfl) | rfl
  main_v398 := by
    simp only [Cert.KernelIdeal.KHost.st20, Cert.ReferenceIdeal.RefRun.st20]
    after_results_simp
    all_goals first | (simp only [h.main_arg1, h.main_v365, h.main_v372, h.main_v376, h.main_v378, h.main_v379] <;> rfl) | rfl
set_option maxRecDepth 8192 in
set_option maxHeartbeats 2000000 in
/-- Stretch 21 carries the agreement of boundary 21 to boundary 22. -/
theorem step21 (W : Valuation Cert.KernelIdeal.τ Cert.KernelIdeal.sig (Elt F)) (V : Valuation Cert.ReferenceIdeal.τ Cert.ReferenceIdeal.sig (Elt F)) (h : Agree21 W V) : Agree22 (after Cert.KernelIdeal.KHost.st21 W) (after Cert.ReferenceIdeal.RefRun.st21 V) where
  main_arg1 := by
    simp only [Cert.KernelIdeal.KHost.st21, Cert.ReferenceIdeal.RefRun.st21]
    after_results_simp
    all_goals first | (simp only [h.main_arg1, h.main_v385, h.main_v392, h.main_v396, h.main_v398] <;> rfl) | rfl
  main_v405 := by
    simp only [Cert.KernelIdeal.KHost.st21, Cert.ReferenceIdeal.RefRun.st21]
    after_results_simp
    all_goals first | (simp only [h.main_arg1, h.main_v385, h.main_v392, h.main_v396, h.main_v398] <;> rfl) | rfl
  main_v412 := by
    simp only [Cert.KernelIdeal.KHost.st21, Cert.ReferenceIdeal.RefRun.st21]
    after_results_simp
    all_goals first | (simp only [h.main_arg1, h.main_v385, h.main_v392, h.main_v396, h.main_v398] <;> rfl) | rfl
  main_v416 := by
    simp only [Cert.KernelIdeal.KHost.st21, Cert.ReferenceIdeal.RefRun.st21]
    after_results_simp
    all_goals first | (simp only [h.main_arg1, h.main_v385, h.main_v392, h.main_v396, h.main_v398] <;> rfl) | rfl
  main_v417 := by
    simp only [Cert.KernelIdeal.KHost.st21, Cert.ReferenceIdeal.RefRun.st21]
    after_results_simp
    all_goals first | (simp only [h.main_arg1, h.main_v385, h.main_v392, h.main_v396, h.main_v398] <;> rfl) | rfl
set_option maxRecDepth 8192 in
set_option maxHeartbeats 2000000 in
/-- Stretch 22 carries the agreement of boundary 22 to boundary 23. -/
theorem step22 (W : Valuation Cert.KernelIdeal.τ Cert.KernelIdeal.sig (Elt F)) (V : Valuation Cert.ReferenceIdeal.τ Cert.ReferenceIdeal.sig (Elt F)) (h : Agree22 W V) : Agree23 (after Cert.KernelIdeal.KHost.st22 W) (after Cert.ReferenceIdeal.RefRun.st22 V) where
  main_arg1 := by
    simp only [Cert.KernelIdeal.KHost.st22, Cert.ReferenceIdeal.RefRun.st22]
    after_results_simp
    all_goals first | (simp only [h.main_arg1, h.main_v405, h.main_v412, h.main_v416, h.main_v417] <;> rfl) | rfl
  main_v425 := by
    simp only [Cert.KernelIdeal.KHost.st22, Cert.ReferenceIdeal.RefRun.st22]
    after_results_simp
    all_goals first | (simp only [h.main_arg1, h.main_v405, h.main_v412, h.main_v416, h.main_v417] <;> rfl) | rfl
  main_v432 := by
    simp only [Cert.KernelIdeal.KHost.st22, Cert.ReferenceIdeal.RefRun.st22]
    after_results_simp
    all_goals first | (simp only [h.main_arg1, h.main_v405, h.main_v412, h.main_v416, h.main_v417] <;> rfl) | rfl
  main_v434 := by
    simp only [Cert.KernelIdeal.KHost.st22, Cert.ReferenceIdeal.RefRun.st22]
    after_results_simp
    all_goals first | (simp only [h.main_arg1, h.main_v405, h.main_v412, h.main_v416, h.main_v417] <;> rfl) | rfl
  main_v436 := by
    simp only [Cert.KernelIdeal.KHost.st22, Cert.ReferenceIdeal.RefRun.st22]
    after_results_simp
    all_goals first | (simp only [h.main_arg1, h.main_v405, h.main_v412, h.main_v416, h.main_v417] <;> rfl) | rfl
set_option maxRecDepth 8192 in
set_option maxHeartbeats 2000000 in
/-- Stretch 23 carries the agreement of boundary 23 to boundary 24. -/
theorem step23 (W : Valuation Cert.KernelIdeal.τ Cert.KernelIdeal.sig (Elt F)) (V : Valuation Cert.ReferenceIdeal.τ Cert.ReferenceIdeal.sig (Elt F)) (h : Agree23 W V) : Agree24 (after Cert.KernelIdeal.KHost.st23 W) (after Cert.ReferenceIdeal.RefRun.st23 V) where
  main_arg1 := by
    simp only [Cert.KernelIdeal.KHost.st23, Cert.ReferenceIdeal.RefRun.st23]
    after_results_simp
    all_goals first | (simp only [h.main_arg1, h.main_v425, h.main_v432, h.main_v434, h.main_v436] <;> rfl) | rfl
  main_v445 := by
    simp only [Cert.KernelIdeal.KHost.st23, Cert.ReferenceIdeal.RefRun.st23]
    after_results_simp
    all_goals first | (simp only [h.main_arg1, h.main_v425, h.main_v432, h.main_v434, h.main_v436] <;> rfl) | rfl
  main_v452 := by
    simp only [Cert.KernelIdeal.KHost.st23, Cert.ReferenceIdeal.RefRun.st23]
    after_results_simp
    all_goals first | (simp only [h.main_arg1, h.main_v425, h.main_v432, h.main_v434, h.main_v436] <;> rfl) | rfl
  main_v454 := by
    simp only [Cert.KernelIdeal.KHost.st23, Cert.ReferenceIdeal.RefRun.st23]
    after_results_simp
    all_goals first | (simp only [h.main_arg1, h.main_v425, h.main_v432, h.main_v434, h.main_v436] <;> rfl) | rfl
  main_v455 := by
    simp only [Cert.KernelIdeal.KHost.st23, Cert.ReferenceIdeal.RefRun.st23]
    after_results_simp
    all_goals first | (simp only [h.main_arg1, h.main_v425, h.main_v432, h.main_v434, h.main_v436] <;> rfl) | rfl

end Cert.Lock

end
-- ==== Proof.LockW2.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 24 carries the agreement of boundary 24 to boundary 25. -/
theorem step24 (W : Valuation Cert.KernelIdeal.τ Cert.KernelIdeal.sig (Elt F)) (V : Valuation Cert.ReferenceIdeal.τ Cert.ReferenceIdeal.sig (Elt F)) (h : Agree24 W V) : Agree25 (after Cert.KernelIdeal.KHost.st24 W) (after Cert.ReferenceIdeal.RefRun.st24 V) where
  main_arg1 := by
    simp only [Cert.KernelIdeal.KHost.st24, Cert.ReferenceIdeal.RefRun.st24]
    after_results_simp
    all_goals first | (simp only [h.main_arg1, h.main_v445, h.main_v452, h.main_v454, h.main_v455] <;> rfl) | rfl
  main_v465 := by
    simp only [Cert.KernelIdeal.KHost.st24, Cert.ReferenceIdeal.RefRun.st24]
    after_results_simp
    all_goals first | (simp only [h.main_arg1, h.main_v445, h.main_v452, h.main_v454, h.main_v455] <;> rfl) | rfl
  main_v472 := by
    simp only [Cert.KernelIdeal.KHost.st24, Cert.ReferenceIdeal.RefRun.st24]
    after_results_simp
    all_goals first | (simp only [h.main_arg1, h.main_v445, h.main_v452, h.main_v454, h.main_v455] <;> rfl) | rfl
  main_v474 := by
    simp only [Cert.KernelIdeal.KHost.st24, Cert.ReferenceIdeal.RefRun.st24]
    after_results_simp
    all_goals first | (simp only [h.main_arg1, h.main_v445, h.main_v452, h.main_v454, h.main_v455] <;> rfl) | rfl
set_option maxRecDepth 8192 in
set_option maxHeartbeats 2000000 in
/-- Stretch 25 carries the agreement of boundary 25 to boundary 26. -/
theorem step25 (W : Valuation Cert.KernelIdeal.τ Cert.KernelIdeal.sig (Elt F)) (V : Valuation Cert.ReferenceIdeal.τ Cert.ReferenceIdeal.sig (Elt F)) (h : Agree25 W V) : Agree26 (after Cert.KernelIdeal.KHost.st25 W) (after Cert.ReferenceIdeal.RefRun.st25 V) where
  main_arg1 := by
    simp only [Cert.KernelIdeal.KHost.st25, Cert.ReferenceIdeal.RefRun.st25]
    after_results_simp
    all_goals first | (simp only [h.main_arg1, h.main_v465, h.main_v472, h.main_v474] <;> rfl) | rfl
  main_v485 := by
    simp only [Cert.KernelIdeal.KHost.st25, Cert.ReferenceIdeal.RefRun.st25]
    after_results_simp
    all_goals first | (simp only [h.main_arg1, h.main_v465, h.main_v472, h.main_v474] <;> rfl) | rfl
  main_v492 := by
    simp only [Cert.KernelIdeal.KHost.st25, Cert.ReferenceIdeal.RefRun.st25]
    after_results_simp
    all_goals first | (simp only [h.main_arg1, h.main_v465, h.main_v472, h.main_v474] <;> rfl) | rfl
  main_v493 := by
    simp only [Cert.KernelIdeal.KHost.st25, Cert.ReferenceIdeal.RefRun.st25]
    after_results_simp
    all_goals first | (simp only [h.main_arg1, h.main_v465, h.main_v472, h.main_v474] <;> rfl) | rfl
set_option maxRecDepth 8192 in
set_option maxHeartbeats 2000000 in
/-- Stretch 26 carries the agreement of boundary 26 to boundary 27. -/
theorem step26 (W : Valuation Cert.KernelIdeal.τ Cert.KernelIdeal.sig (Elt F)) (V : Valuation Cert.ReferenceIdeal.τ Cert.ReferenceIdeal.sig (Elt F)) (h : Agree26 W V) : Agree27 (after Cert.KernelIdeal.KHost.st26 W) (after Cert.ReferenceIdeal.RefRun.st26 V) where
  main_arg1 := by
    simp only [Cert.KernelIdeal.KHost.st26, Cert.ReferenceIdeal.RefRun.st26]
    after_results_simp
    all_goals first | (simp only [h.main_arg1, h.main_v485, h.main_v492, h.main_v493] <;> rfl) | rfl
  main_v505 := by
    simp only [Cert.KernelIdeal.KHost.st26, Cert.ReferenceIdeal.RefRun.st26]
    after_results_simp
    all_goals first | (simp only [h.main_arg1, h.main_v485, h.main_v492, h.main_v493] <;> rfl) | rfl
  main_v512 := by
    simp only [Cert.KernelIdeal.KHost.st26, Cert.ReferenceIdeal.RefRun.st26]
    after_results_simp
    all_goals first | (simp only [h.main_arg1, h.main_v485, h.main_v492, h.main_v493] <;> rfl) | rfl
set_option maxRecDepth 8192 in
set_option maxHeartbeats 2000000 in
/-- Stretch 27 carries the agreement of boundary 27 to boundary 28. -/
theorem step27 (W : Valuation Cert.KernelIdeal.τ Cert.KernelIdeal.sig (Elt F)) (V : Valuation Cert.ReferenceIdeal.τ Cert.ReferenceIdeal.sig (Elt F)) (h : Agree27 W V) : Agree28 (after Cert.KernelIdeal.KHost.st27 W) (after Cert.ReferenceIdeal.RefRun.st27 V) where
  main_arg1 := by
    simp only [Cert.KernelIdeal.KHost.st27, Cert.ReferenceIdeal.RefRun.st27]
    after_results_simp
    all_goals first | (simp only [h.main_arg1, h.main_v505, h.main_v512] <;> rfl) | rfl
  main_v512 := by
    simp only [Cert.KernelIdeal.KHost.st27, Cert.ReferenceIdeal.RefRun.st27]
    after_results_simp
    all_goals first | (simp only [h.main_arg1, h.main_v505, h.main_v512] <;> rfl) | rfl
  main_v525 := by
    simp only [Cert.KernelIdeal.KHost.st27, Cert.ReferenceIdeal.RefRun.st27]
    after_results_simp
    all_goals first | (simp only [h.main_arg1, h.main_v505, h.main_v512] <;> rfl) | rfl
  main_v530 := by
    simp only [Cert.KernelIdeal.KHost.st27, Cert.ReferenceIdeal.RefRun.st27]
    after_results_simp
    all_goals first | (simp only [h.main_arg1, h.main_v505, h.main_v512] <;> rfl) | rfl
  main_v531 := by
    simp only [Cert.KernelIdeal.KHost.st27, Cert.ReferenceIdeal.RefRun.st27]
    after_results_simp
    all_goals first | (simp only [h.main_arg1, h.main_v505, h.main_v512] <;> rfl) | rfl
set_option maxRecDepth 8192 in
set_option maxHeartbeats 2000000 in
/-- Stretch 28 carries the agreement of boundary 28 to boundary 29. -/
theorem step28 (W : Valuation Cert.KernelIdeal.τ Cert.KernelIdeal.sig (Elt F)) (V : Valuation Cert.ReferenceIdeal.τ Cert.ReferenceIdeal.sig (Elt F)) (h : Agree28 W V) : Agree29 (after Cert.KernelIdeal.KHost.st28 W) (after Cert.ReferenceIdeal.RefRun.st28 V) where
  main_arg1 := by
    simp only [Cert.KernelIdeal.KHost.st28, Cert.ReferenceIdeal.RefRun.st28]
    after_results_simp
    all_goals first | (simp only [h.main_arg1, h.main_v512, h.main_v525, h.main_v530, h.main_v531] <;> rfl) | rfl
  main_v532 := by
    simp only [Cert.KernelIdeal.KHost.st28, Cert.ReferenceIdeal.RefRun.st28]
    after_results_simp
    all_goals first | (simp only [h.main_arg1, h.main_v512, h.main_v525, h.main_v530, h.main_v531] <;> rfl) | rfl
  main_v545 := by
    simp only [Cert.KernelIdeal.KHost.st28, Cert.ReferenceIdeal.RefRun.st28]
    after_results_simp
    all_goals first | (simp only [h.main_arg1, h.main_v512, h.main_v525, h.main_v530, h.main_v531] <;> rfl) | rfl
  main_v550 := by
    simp only [Cert.KernelIdeal.KHost.st28, Cert.ReferenceIdeal.RefRun.st28]
    after_results_simp
    all_goals first | (simp only [h.main_arg1, h.main_v512, h.main_v525, h.main_v530, h.main_v531] <;> rfl) | rfl
  main_c_27 := by
    simp only [Cert.KernelIdeal.KHost.st28, Cert.ReferenceIdeal.RefRun.st28]
    after_results_simp
    all_goals first | (simp only [h.main_arg1, h.main_v512, h.main_v525, h.main_v530, h.main_v531] <;> rfl) | rfl
set_option maxRecDepth 8192 in
set_option maxHeartbeats 2000000 in
/-- Stretch 29 carries the agreement of boundary 29 to boundary 30. -/
theorem step29 (W : Valuation Cert.KernelIdeal.τ Cert.KernelIdeal.sig (Elt F)) (V : Valuation Cert.ReferenceIdeal.τ Cert.ReferenceIdeal.sig (Elt F)) (h : Agree29 W V) : Agree30 (after Cert.KernelIdeal.KHost.st29 W) (after Cert.ReferenceIdeal.RefRun.st29 V) where
  main_arg1 := by
    simp only [Cert.KernelIdeal.KHost.st29, Cert.ReferenceIdeal.RefRun.st29]
    after_results_simp
    all_goals first | (simp only [h.main_arg1, h.main_v532, h.main_v545, h.main_v550, h.main_c_27] <;> rfl) | rfl
  main_v552 := by
    simp only [Cert.KernelIdeal.KHost.st29, Cert.ReferenceIdeal.RefRun.st29]
    after_results_simp
    all_goals first | (simp only [h.main_arg1, h.main_v532, h.main_v545, h.main_v550, h.main_c_27] <;> rfl) | rfl
  main_v565 := by
    simp only [Cert.KernelIdeal.KHost.st29, Cert.ReferenceIdeal.RefRun.st29]
    after_results_simp
    all_goals first | (simp only [h.main_arg1, h.main_v532, h.main_v545, h.main_v550, h.main_c_27] <;> rfl) | rfl
  main_v570 := by
    simp only [Cert.KernelIdeal.KHost.st29, Cert.ReferenceIdeal.RefRun.st29]
    after_results_simp
    all_goals first | (simp only [h.main_arg1, h.main_v532, h.main_v545, h.main_v550, h.main_c_27] <;> rfl) | rfl
set_option maxRecDepth 8192 in
set_option maxHeartbeats 2000000 in
/-- Stretch 30 carries the agreement of boundary 30 to boundary 31. -/
theorem step30 (W : Valuation Cert.KernelIdeal.τ Cert.KernelIdeal.sig (Elt F)) (V : Valuation Cert.ReferenceIdeal.τ Cert.ReferenceIdeal.sig (Elt F)) (h : Agree30 W V) : Agree31 (after Cert.KernelIdeal.KHost.st30 W) (after Cert.ReferenceIdeal.RefRun.st30 V) where
  main_arg1 := by
    simp only [Cert.KernelIdeal.KHost.st30, Cert.ReferenceIdeal.RefRun.st30]
    after_results_simp
    all_goals first | (simp only [h.main_arg1, h.main_v552, h.main_v565, h.main_v570] <;> rfl) | rfl
  main_v572 := by
    simp only [Cert.KernelIdeal.KHost.st30, Cert.ReferenceIdeal.RefRun.st30]
    after_results_simp
    all_goals first | (simp only [h.main_arg1, h.main_v552, h.main_v565, h.main_v570] <;> rfl) | rfl
  main_v585 := by
    simp only [Cert.KernelIdeal.KHost.st30, Cert.ReferenceIdeal.RefRun.st30]
    after_results_simp
    all_goals first | (simp only [h.main_arg1, h.main_v552, h.main_v565, h.main_v570] <;> rfl) | rfl
  main_v587 := by
    simp only [Cert.KernelIdeal.KHost.st30, Cert.ReferenceIdeal.RefRun.st30]
    after_results_simp
    all_goals first | (simp only [h.main_arg1, h.main_v552, h.main_v565, h.main_v570] <;> rfl) | rfl
  main_v589 := by
    simp only [Cert.KernelIdeal.KHost.st30, Cert.ReferenceIdeal.RefRun.st30]
    after_results_simp
    all_goals first | (simp only [h.main_arg1, h.main_v552, h.main_v565, h.main_v570] <;> rfl) | rfl
set_option maxRecDepth 8192 in
set_option maxHeartbeats 2000000 in
/-- Stretch 31 carries the agreement of boundary 31 to boundary 32. -/
theorem step31 (W : Valuation Cert.KernelIdeal.τ Cert.KernelIdeal.sig (Elt F)) (V : Valuation Cert.ReferenceIdeal.τ Cert.ReferenceIdeal.sig (Elt F)) (h : Agree31 W V) : Agree32 (after Cert.KernelIdeal.KHost.st31 W) (after Cert.ReferenceIdeal.RefRun.st31 V) where
  main_arg1 := by
    simp only [Cert.KernelIdeal.KHost.st31, Cert.ReferenceIdeal.RefRun.st31]
    after_results_simp
    all_goals first | (simp only [h.main_arg1, h.main_v572, h.main_v585, h.main_v587, h.main_v589] <;> rfl) | rfl
  main_v594 := by
    simp only [Cert.KernelIdeal.KHost.st31, Cert.ReferenceIdeal.RefRun.st31]
    after_results_simp
    all_goals first | (simp only [h.main_arg1, h.main_v572, h.main_v585, h.main_v587, h.main_v589] <;> rfl) | rfl
  main_v596 := by
    simp only [Cert.KernelIdeal.KHost.st31, Cert.ReferenceIdeal.RefRun.st31]
    after_results_simp
    all_goals first | (simp only [h.main_arg1, h.main_v572, h.main_v585, h.main_v587, h.main_v589] <;> rfl) | rfl
  main_v600 := by
    simp only [Cert.KernelIdeal.KHost.st31, Cert.ReferenceIdeal.RefRun.st31]
    after_results_simp
    all_goals first | (simp only [h.main_arg1, h.main_v572, h.main_v585, h.main_v587, h.main_v589] <;> rfl) | rfl
  main_v602 := by
    simp only [Cert.KernelIdeal.KHost.st31, Cert.ReferenceIdeal.RefRun.st31]
    after_results_simp
    all_goals first | (simp only [h.main_arg1, h.main_v572, h.main_v585, h.main_v587, h.main_v589] <;> rfl) | rfl
  main_v604 := by
    simp only [Cert.KernelIdeal.KHost.st31, Cert.ReferenceIdeal.RefRun.st31]
    after_results_simp
    all_goals first | (simp only [h.main_arg1, h.main_v572, h.main_v585, h.main_v587, h.main_v589] <;> rfl) | rfl
  main_v606 := by
    simp only [Cert.KernelIdeal.KHost.st31, Cert.ReferenceIdeal.RefRun.st31]
    after_results_simp
    all_goals first | (simp only [h.main_arg1, h.main_v572, h.main_v585, h.main_v587, h.main_v589] <;> rfl) | rfl
  main_v607 := by
    simp only [Cert.KernelIdeal.KHost.st31, Cert.ReferenceIdeal.RefRun.st31]
    after_results_simp
    all_goals first | (simp only [h.main_arg1, h.main_v572, h.main_v585, h.main_v587, h.main_v589] <;> rfl) | rfl
set_option maxRecDepth 8192 in
set_option maxHeartbeats 2000000 in
/-- Stretch 32 carries the agreement of boundary 32 to boundary 33. -/
theorem step32 (W : Valuation Cert.KernelIdeal.τ Cert.KernelIdeal.sig (Elt F)) (V : Valuation Cert.ReferenceIdeal.τ Cert.ReferenceIdeal.sig (Elt F)) (h : Agree32 W V) : Agree33 (after Cert.KernelIdeal.KHost.st32 W) (after Cert.ReferenceIdeal.RefRun.st32 V) where
  main_arg1 := by
    simp only [Cert.KernelIdeal.KHost.st32, Cert.ReferenceIdeal.RefRun.st32]
    after_results_simp
    all_goals first | (simp only [h.main_arg1, h.main_v594, h.main_v596, h.main_v600, h.main_v602, h.main_v604, h.main_v606, h.main_v607] <;> rfl) | rfl
  main_v609 := by
    simp only [Cert.KernelIdeal.KHost.st32, Cert.ReferenceIdeal.RefRun.st32]
    after_results_simp
    all_goals first | (simp only [h.main_arg1, h.main_v594, h.main_v596, h.main_v600, h.main_v602, h.main_v604, h.main_v606, h.main_v607] <;> rfl) | rfl
  main_v616 := by
    simp only [Cert.KernelIdeal.KHost.st32, Cert.ReferenceIdeal.RefRun.st32]
    after_results_simp
    all_goals first | (simp only [h.main_arg1, h.main_v594, h.main_v596, h.main_v600, h.main_v602, h.main_v604, h.main_v606, h.main_v607] <;> rfl) | rfl
  main_v620 := by
    simp only [Cert.KernelIdeal.KHost.st32, Cert.ReferenceIdeal.RefRun.st32]
    after_results_simp
    all_goals first | (simp only [h.main_arg1, h.main_v594, h.main_v596, h.main_v600, h.main_v602, h.main_v604, h.main_v606, h.main_v607] <;> rfl) | rfl
  main_v622 := by
    simp only [Cert.KernelIdeal.KHost.st32, Cert.ReferenceIdeal.RefRun.st32]
    after_results_simp
    all_goals first | (simp only [h.main_arg1, h.main_v594, h.main_v596, h.main_v600, h.main_v602, h.main_v604, h.main_v606, h.main_v607] <;> rfl) | rfl
  main_v624 := by
    simp only [Cert.KernelIdeal.KHost.st32, Cert.ReferenceIdeal.RefRun.st32]
    after_results_simp
    all_goals first | (simp only [h.main_arg1, h.main_v594, h.main_v596, h.main_v600, h.main_v602, h.main_v604, h.main_v606, h.main_v607] <;> rfl) | rfl
  main_v626 := by
    simp only [Cert.KernelIdeal.KHost.st32, Cert.ReferenceIdeal.RefRun.st32]
    after_results_simp
    all_goals first | (simp only [h.main_arg1, h.main_v594, h.main_v596, h.main_v600, h.main_v602, h.main_v604, h.main_v606, h.main_v607] <;> rfl) | rfl
set_option maxRecDepth 8192 in
set_option maxHeartbeats 2000000 in
/-- Stretch 33 carries the agreement of boundary 33 to boundary 34. -/
theorem step33 (W : Valuation Cert.KernelIdeal.τ Cert.KernelIdeal.sig (Elt F)) (V : Valuation Cert.ReferenceIdeal.τ Cert.ReferenceIdeal.sig (Elt F)) (h : Agree33 W V) : Agree34 (after Cert.KernelIdeal.KHost.st33 W) (after Cert.ReferenceIdeal.RefRun.st33 V) where
  main_arg1 := by
    simp only [Cert.KernelIdeal.KHost.st33, Cert.ReferenceIdeal.RefRun.st33]
    after_results_simp
    all_goals first | (simp only [h.main_arg1, h.main_v609, h.main_v616, h.main_v620, h.main_v622, h.main_v624, h.main_v626] <;> rfl) | rfl
  main_v629 := by
    simp only [Cert.KernelIdeal.KHost.st33, Cert.ReferenceIdeal.RefRun.st33]
    after_results_simp
    all_goals first | (simp only [h.main_arg1, h.main_v609, h.main_v616, h.main_v620, h.main_v622, h.main_v624, h.main_v626] <;> rfl) | rfl
  main_v636 := by
    simp only [Cert.KernelIdeal.KHost.st33, Cert.ReferenceIdeal.RefRun.st33]
    after_results_simp
    all_goals first | (simp only [h.main_arg1, h.main_v609, h.main_v616, h.main_v620, h.main_v622, h.main_v624, h.main_v626] <;> rfl) | rfl
  main_v640 := by
    simp only [Cert.KernelIdeal.KHost.st33, Cert.ReferenceIdeal.RefRun.st33]
    after_results_simp
    all_goals first | (simp only [h.main_arg1, h.main_v609, h.main_v616, h.main_v620, h.main_v622, h.main_v624, h.main_v626] <;> rfl) | rfl
  main_v642 := by
    simp only [Cert.KernelIdeal.KHost.st33, Cert.ReferenceIdeal.RefRun.st33]
    after_results_simp
    all_goals first | (simp only [h.main_arg1, h.main_v609, h.main_v616, h.main_v620, h.main_v622, h.main_v624, h.main_v626] <;> rfl) | rfl
  main_v644 := by
    simp only [Cert.KernelIdeal.KHost.st33, Cert.ReferenceIdeal.RefRun.st33]
    after_results_simp
    all_goals first | (simp only [h.main_arg1, h.main_v609, h.main_v616, h.main_v620, h.main_v622, h.main_v624, h.main_v626] <;> rfl) | rfl
  main_v645 := by
    simp only [Cert.KernelIdeal.KHost.st33, Cert.ReferenceIdeal.RefRun.st33]
    after_results_simp
    all_goals first | (simp only [h.main_arg1, h.main_v609, h.main_v616, h.main_v620, h.main_v622, h.main_v624, h.main_v626] <;> rfl) | rfl
set_option maxRecDepth 8192 in
set_option maxHeartbeats 2000000 in
/-- Stretch 34 carries the agreement of boundary 34 to boundary 35. -/
theorem step34 (W : Valuation Cert.KernelIdeal.τ Cert.KernelIdeal.sig (Elt F)) (V : Valuation Cert.ReferenceIdeal.τ Cert.ReferenceIdeal.sig (Elt F)) (h : Agree34 W V) : Agree35 (after Cert.KernelIdeal.KHost.st34 W) (after Cert.ReferenceIdeal.RefRun.st34 V) where
  main_arg1 := by
    simp only [Cert.KernelIdeal.KHost.st34, Cert.ReferenceIdeal.RefRun.st34]
    after_results_simp
    all_goals first | (simp only [h.main_arg1, h.main_v629, h.main_v636, h.main_v640, h.main_v642, h.main_v644, h.main_v645] <;> rfl) | rfl
  main_v649 := by
    simp only [Cert.KernelIdeal.KHost.st34, Cert.ReferenceIdeal.RefRun.st34]
    after_results_simp
    all_goals first | (simp only [h.main_arg1, h.main_v629, h.main_v636, h.main_v640, h.main_v642, h.main_v644, h.main_v645] <;> rfl) | rfl
  main_v656 := by
    simp only [Cert.KernelIdeal.KHost.st34, Cert.ReferenceIdeal.RefRun.st34]
    after_results_simp
    all_goals first | (simp only [h.main_arg1, h.main_v629, h.main_v636, h.main_v640, h.main_v642, h.main_v644, h.main_v645] <;> rfl) | rfl
  main_v660 := by
    simp only [Cert.KernelIdeal.KHost.st34, Cert.ReferenceIdeal.RefRun.st34]
    after_results_simp
    all_goals first | (simp only [h.main_arg1, h.main_v629, h.main_v636, h.main_v640, h.main_v642, h.main_v644, h.main_v645] <;> rfl) | rfl
  main_v662 := by
    simp only [Cert.KernelIdeal.KHost.st34, Cert.ReferenceIdeal.RefRun.st34]
    after_results_simp
    all_goals first | (simp only [h.main_arg1, h.main_v629, h.main_v636, h.main_v640, h.main_v642, h.main_v644, h.main_v645] <;> rfl) | rfl
  main_v664 := by
    simp only [Cert.KernelIdeal.KHost.st34, Cert.ReferenceIdeal.RefRun.st34]
    after_results_simp
    all_goals first | (simp only [h.main_arg1, h.main_v629, h.main_v636, h.main_v640, h.main_v642, h.main_v644, h.main_v645] <;> rfl) | rfl
set_option maxRecDepth 8192 in
set_option maxHeartbeats 2000000 in
/-- Stretch 35 carries the agreement of boundary 35 to boundary 36. -/
theorem step35 (W : Valuation Cert.KernelIdeal.τ Cert.KernelIdeal.sig (Elt F)) (V : Valuation Cert.ReferenceIdeal.τ Cert.ReferenceIdeal.sig (Elt F)) (h : Agree35 W V) : Agree36 (after Cert.KernelIdeal.KHost.st35 W) (after Cert.ReferenceIdeal.RefRun.st35 V) where
  main_arg1 := by
    simp only [Cert.KernelIdeal.KHost.st35, Cert.ReferenceIdeal.RefRun.st35]
    after_results_simp
    all_goals first | (simp only [h.main_arg1, h.main_v649, h.main_v656, h.main_v660, h.main_v662, h.main_v664] <;> rfl) | rfl
  main_v669 := by
    simp only [Cert.KernelIdeal.KHost.st35, Cert.ReferenceIdeal.RefRun.st35]
    after_results_simp
    all_goals first | (simp only [h.main_arg1, h.main_v649, h.main_v656, h.main_v660, h.main_v662, h.main_v664] <;> rfl) | rfl
  main_v676 := by
    simp only [Cert.KernelIdeal.KHost.st35, Cert.ReferenceIdeal.RefRun.st35]
    after_results_simp
    all_goals first | (simp only [h.main_arg1, h.main_v649, h.main_v656, h.main_v660, h.main_v662, h.main_v664] <;> rfl) | rfl
  main_v680 := by
    simp only [Cert.KernelIdeal.KHost.st35, Cert.ReferenceIdeal.RefRun.st35]
    after_results_simp
    all_goals first | (simp only [h.main_arg1, h.main_v649, h.main_v656, h.main_v660, h.main_v662, h.main_v664] <;> rfl) | rfl
  main_v682 := by
    simp only [Cert.KernelIdeal.KHost.st35, Cert.ReferenceIdeal.RefRun.st35]
    after_results_simp
    all_goals first | (simp only [h.main_arg1, h.main_v649, h.main_v656, h.main_v660, h.main_v662, h.main_v664] <;> rfl) | rfl
  main_v683 := by
    simp only [Cert.KernelIdeal.KHost.st35, Cert.ReferenceIdeal.RefRun.st35]
    after_results_simp
    all_goals first | (simp only [h.main_arg1, h.main_v649, h.main_v656, h.main_v660, h.main_v662, h.main_v664] <;> rfl) | rfl

end Cert.Lock

end
-- ==== Proof.LockW3.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 36 carries the agreement of boundary 36 to boundary 37. -/
theorem step36 (W : Valuation Cert.KernelIdeal.τ Cert.KernelIdeal.sig (Elt F)) (V : Valuation Cert.ReferenceIdeal.τ Cert.ReferenceIdeal.sig (Elt F)) (h : Agree36 W V) : Agree37 (after Cert.KernelIdeal.KHost.st36 W) (after Cert.ReferenceIdeal.RefRun.st36 V) where
  main_arg1 := by
    simp only [Cert.KernelIdeal.KHost.st36, Cert.ReferenceIdeal.RefRun.st36]
    after_results_simp
    all_goals first | (simp only [h.main_arg1, h.main_v669, h.main_v676, h.main_v680, h.main_v682, h.main_v683] <;> rfl) | rfl
  main_v689 := by
    simp only [Cert.KernelIdeal.KHost.st36, Cert.ReferenceIdeal.RefRun.st36]
    after_results_simp
    all_goals first | (simp only [h.main_arg1, h.main_v669, h.main_v676, h.main_v680, h.main_v682, h.main_v683] <;> rfl) | rfl
  main_v696 := by
    simp only [Cert.KernelIdeal.KHost.st36, Cert.ReferenceIdeal.RefRun.st36]
    after_results_simp
    all_goals first | (simp only [h.main_arg1, h.main_v669, h.main_v676, h.main_v680, h.main_v682, h.main_v683] <;> rfl) | rfl
  main_v700 := by
    simp only [Cert.KernelIdeal.KHost.st36, Cert.ReferenceIdeal.RefRun.st36]
    after_results_simp
    all_goals first | (simp only [h.main_arg1, h.main_v669, h.main_v676, h.main_v680, h.main_v682, h.main_v683] <;> rfl) | rfl
  main_v702 := by
    simp only [Cert.KernelIdeal.KHost.st36, Cert.ReferenceIdeal.RefRun.st36]
    after_results_simp
    all_goals first | (simp only [h.main_arg1, h.main_v669, h.main_v676, h.main_v680, h.main_v682, h.main_v683] <;> rfl) | rfl
set_option maxRecDepth 8192 in
set_option maxHeartbeats 2000000 in
/-- Stretch 37 carries the agreement of boundary 37 to boundary 38. -/
theorem step37 (W : Valuation Cert.KernelIdeal.τ Cert.KernelIdeal.sig (Elt F)) (V : Valuation Cert.ReferenceIdeal.τ Cert.ReferenceIdeal.sig (Elt F)) (h : Agree37 W V) : Agree38 (after Cert.KernelIdeal.KHost.st37 W) (after Cert.ReferenceIdeal.RefRun.st37 V) where
  main_arg1 := by
    simp only [Cert.KernelIdeal.KHost.st37, Cert.ReferenceIdeal.RefRun.st37]
    after_results_simp
    all_goals first | (simp only [h.main_arg1, h.main_v689, h.main_v696, h.main_v700, h.main_v702] <;> rfl) | rfl
  main_v709 := by
    simp only [Cert.KernelIdeal.KHost.st37, Cert.ReferenceIdeal.RefRun.st37]
    after_results_simp
    all_goals first | (simp only [h.main_arg1, h.main_v689, h.main_v696, h.main_v700, h.main_v702] <;> rfl) | rfl
  main_v716 := by
    simp only [Cert.KernelIdeal.KHost.st37, Cert.ReferenceIdeal.RefRun.st37]
    after_results_simp
    all_goals first | (simp only [h.main_arg1, h.main_v689, h.main_v696, h.main_v700, h.main_v702] <;> rfl) | rfl
  main_v720 := by
    simp only [Cert.KernelIdeal.KHost.st37, Cert.ReferenceIdeal.RefRun.st37]
    after_results_simp
    all_goals first | (simp only [h.main_arg1, h.main_v689, h.main_v696, h.main_v700, h.main_v702] <;> rfl) | rfl
  main_v721 := by
    simp only [Cert.KernelIdeal.KHost.st37, Cert.ReferenceIdeal.RefRun.st37]
    after_results_simp
    all_goals first | (simp only [h.main_arg1, h.main_v689, h.main_v696, h.main_v700, h.main_v702] <;> rfl) | rfl
set_option maxRecDepth 8192 in
set_option maxHeartbeats 2000000 in
/-- Stretch 38 carries the agreement of boundary 38 to boundary 39. -/
theorem step38 (W : Valuation Cert.KernelIdeal.τ Cert.KernelIdeal.sig (Elt F)) (V : Valuation Cert.ReferenceIdeal.τ Cert.ReferenceIdeal.sig (Elt F)) (h : Agree38 W V) : Agree39 (after Cert.KernelIdeal.KHost.st38 W) (after Cert.ReferenceIdeal.RefRun.st38 V) where
  main_arg1 := by
    simp only [Cert.KernelIdeal.KHost.st38, Cert.ReferenceIdeal.RefRun.st38]
    after_results_simp
    all_goals first | (simp only [h.main_arg1, h.main_v709, h.main_v716, h.main_v720, h.main_v721] <;> rfl) | rfl
  main_v729 := by
    simp only [Cert.KernelIdeal.KHost.st38, Cert.ReferenceIdeal.RefRun.st38]
    after_results_simp
    all_goals first | (simp only [h.main_arg1, h.main_v709, h.main_v716, h.main_v720, h.main_v721] <;> rfl) | rfl
  main_v736 := by
    simp only [Cert.KernelIdeal.KHost.st38, Cert.ReferenceIdeal.RefRun.st38]
    after_results_simp
    all_goals first | (simp only [h.main_arg1, h.main_v709, h.main_v716, h.main_v720, h.main_v721] <;> rfl) | rfl
  main_v738 := by
    simp only [Cert.KernelIdeal.KHost.st38, Cert.ReferenceIdeal.RefRun.st38]
    after_results_simp
    all_goals first | (simp only [h.main_arg1, h.main_v709, h.main_v716, h.main_v720, h.main_v721] <;> rfl) | rfl
  main_v740 := by
    simp only [Cert.KernelIdeal.KHost.st38, Cert.ReferenceIdeal.RefRun.st38]
    after_results_simp
    all_goals first | (simp only [h.main_arg1, h.main_v709, h.main_v716, h.main_v720, h.main_v721] <;> rfl) | rfl
set_option maxRecDepth 8192 in
set_option maxHeartbeats 2000000 in
/-- Stretch 39 carries the agreement of boundary 39 to boundary 40. -/
theorem step39 (W : Valuation Cert.KernelIdeal.τ Cert.KernelIdeal.sig (Elt F)) (V : Valuation Cert.ReferenceIdeal.τ Cert.ReferenceIdeal.sig (Elt F)) (h : Agree39 W V) : Agree40 (after Cert.KernelIdeal.KHost.st39 W) (after Cert.ReferenceIdeal.RefRun.st39 V) where
  main_arg1 := by
    simp only [Cert.KernelIdeal.KHost.st39, Cert.ReferenceIdeal.RefRun.st39]
    after_results_simp
    all_goals first | (simp only [h.main_arg1, h.main_v729, h.main_v736, h.main_v738, h.main_v740] <;> rfl) | rfl
  main_v749 := by
    simp only [Cert.KernelIdeal.KHost.st39, Cert.ReferenceIdeal.RefRun.st39]
    after_results_simp
    all_goals first | (simp only [h.main_arg1, h.main_v729, h.main_v736, h.main_v738, h.main_v740] <;> rfl) | rfl
  main_v756 := by
    simp only [Cert.KernelIdeal.KHost.st39, Cert.ReferenceIdeal.RefRun.st39]
    after_results_simp
    all_goals first | (simp only [h.main_arg1, h.main_v729, h.main_v736, h.main_v738, h.main_v740] <;> rfl) | rfl
  main_v758 := by
    simp only [Cert.KernelIdeal.KHost.st39, Cert.ReferenceIdeal.RefRun.st39]
    after_results_simp
    all_goals first | (simp only [h.main_arg1, h.main_v729, h.main_v736, h.main_v738, h.main_v740] <;> rfl) | rfl
  main_v759 := by
    simp only [Cert.KernelIdeal.KHost.st39, Cert.ReferenceIdeal.RefRun.st39]
    after_results_simp
    all_goals first | (simp only [h.main_arg1, h.main_v729, h.main_v736, h.main_v738, h.main_v740] <;> rfl) | rfl
set_option maxRecDepth 8192 in
set_option maxHeartbeats 2000000 in
/-- Stretch 40 carries the agreement of boundary 40 to boundary 41. -/
theorem step40 (W : Valuation Cert.KernelIdeal.τ Cert.KernelIdeal.sig (Elt F)) (V : Valuation Cert.ReferenceIdeal.τ Cert.ReferenceIdeal.sig (Elt F)) (h : Agree40 W V) : Agree41 (after Cert.KernelIdeal.KHost.st40 W) (after Cert.ReferenceIdeal.RefRun.st40 V) where
  main_arg1 := by
    simp only [Cert.KernelIdeal.KHost.st40, Cert.ReferenceIdeal.RefRun.st40]
    after_results_simp
    all_goals first | (simp only [h.main_arg1, h.main_v749, h.main_v756, h.main_v758, h.main_v759] <;> rfl) | rfl
  main_v769 := by
    simp only [Cert.KernelIdeal.KHost.st40, Cert.ReferenceIdeal.RefRun.st40]
    after_results_simp
    all_goals first | (simp only [h.main_arg1, h.main_v749, h.main_v756, h.main_v758, h.main_v759] <;> rfl) | rfl
  main_v776 := by
    simp only [Cert.KernelIdeal.KHost.st40, Cert.ReferenceIdeal.RefRun.st40]
    after_results_simp
    all_goals first | (simp only [h.main_arg1, h.main_v749, h.main_v756, h.main_v758, h.main_v759] <;> rfl) | rfl
  main_v778 := by
    simp only [Cert.KernelIdeal.KHost.st40, Cert.ReferenceIdeal.RefRun.st40]
    after_results_simp
    all_goals first | (simp only [h.main_arg1, h.main_v749, h.main_v756, h.main_v758, h.main_v759] <;> rfl) | rfl
set_option maxRecDepth 8192 in
set_option maxHeartbeats 2000000 in
/-- Stretch 41 carries the agreement of boundary 41 to boundary 42. -/
theorem step41 (W : Valuation Cert.KernelIdeal.τ Cert.KernelIdeal.sig (Elt F)) (V : Valuation Cert.ReferenceIdeal.τ Cert.ReferenceIdeal.sig (Elt F)) (h : Agree41 W V) : Agree42 (after Cert.KernelIdeal.KHost.st41 W) (after Cert.ReferenceIdeal.RefRun.st41 V) where
  main_arg1 := by
    simp only [Cert.KernelIdeal.KHost.st41, Cert.ReferenceIdeal.RefRun.st41]
    after_results_simp
    all_goals first | (simp only [h.main_arg1, h.main_v769, h.main_v776, h.main_v778] <;> rfl) | rfl
  main_v789 := by
    simp only [Cert.KernelIdeal.KHost.st41, Cert.ReferenceIdeal.RefRun.st41]
    after_results_simp
    all_goals first | (simp only [h.main_arg1, h.main_v769, h.main_v776, h.main_v778] <;> rfl) | rfl
  main_v796 := by
    simp only [Cert.KernelIdeal.KHost.st41, Cert.ReferenceIdeal.RefRun.st41]
    after_results_simp
    all_goals first | (simp only [h.main_arg1, h.main_v769, h.main_v776, h.main_v778] <;> rfl) | rfl
  main_v797 := by
    simp only [Cert.KernelIdeal.KHost.st41, Cert.ReferenceIdeal.RefRun.st41]
    after_results_simp
    all_goals first | (simp only [h.main_arg1, h.main_v769, h.main_v776, h.main_v778] <;> rfl) | rfl
set_option maxRecDepth 8192 in
set_option maxHeartbeats 2000000 in
/-- Stretch 42 carries the agreement of boundary 42 to boundary 43. -/
theorem step42 (W : Valuation Cert.KernelIdeal.τ Cert.KernelIdeal.sig (Elt F)) (V : Valuation Cert.ReferenceIdeal.τ Cert.ReferenceIdeal.sig (Elt F)) (h : Agree42 W V) : Agree43 (after Cert.KernelIdeal.KHost.st42 W) (after Cert.ReferenceIdeal.RefRun.st42 V) where
  main_arg1 := by
    simp only [Cert.KernelIdeal.KHost.st42, Cert.ReferenceIdeal.RefRun.st42]
    after_results_simp
    all_goals first | (simp only [h.main_arg1, h.main_v789, h.main_v796, h.main_v797] <;> rfl) | rfl
  main_v809 := by
    simp only [Cert.KernelIdeal.KHost.st42, Cert.ReferenceIdeal.RefRun.st42]
    after_results_simp
    all_goals first | (simp only [h.main_arg1, h.main_v789, h.main_v796, h.main_v797] <;> rfl) | rfl
  main_v816 := by
    simp only [Cert.KernelIdeal.KHost.st42, Cert.ReferenceIdeal.RefRun.st42]
    after_results_simp
    all_goals first | (simp only [h.main_arg1, h.main_v789, h.main_v796, h.main_v797] <;> rfl) | rfl
set_option maxRecDepth 8192 in
set_option maxHeartbeats 2000000 in
/-- Stretch 43 carries the agreement of boundary 43 to boundary 44. -/
theorem step43 (W : Valuation Cert.KernelIdeal.τ Cert.KernelIdeal.sig (Elt F)) (V : Valuation Cert.ReferenceIdeal.τ Cert.ReferenceIdeal.sig (Elt F)) (h : Agree43 W V) : Agree44 (after Cert.KernelIdeal.KHost.st43 W) (after Cert.ReferenceIdeal.RefRun.st43 V) where
  main_arg1 := by
    simp only [Cert.KernelIdeal.KHost.st43, Cert.ReferenceIdeal.RefRun.st43]
    after_results_simp
    all_goals first | (simp only [h.main_arg1, h.main_v809, h.main_v816] <;> rfl) | rfl
  main_v816 := by
    simp only [Cert.KernelIdeal.KHost.st43, Cert.ReferenceIdeal.RefRun.st43]
    after_results_simp
    all_goals first | (simp only [h.main_arg1, h.main_v809, h.main_v816] <;> rfl) | rfl
  main_v829 := by
    simp only [Cert.KernelIdeal.KHost.st43, Cert.ReferenceIdeal.RefRun.st43]
    after_results_simp
    all_goals first | (simp only [h.main_arg1, h.main_v809, h.main_v816] <;> rfl) | rfl
  main_v834 := by
    simp only [Cert.KernelIdeal.KHost.st43, Cert.ReferenceIdeal.RefRun.st43]
    after_results_simp
    all_goals first | (simp only [h.main_arg1, h.main_v809, h.main_v816] <;> rfl) | rfl
  main_v835 := by
    simp only [Cert.KernelIdeal.KHost.st43, Cert.ReferenceIdeal.RefRun.st43]
    after_results_simp
    all_goals first | (simp only [h.main_arg1, h.main_v809, h.main_v816] <;> rfl) | rfl
set_option maxRecDepth 8192 in
set_option maxHeartbeats 2000000 in
/-- Stretch 44 carries the agreement of boundary 44 to boundary 45. -/
theorem step44 (W : Valuation Cert.KernelIdeal.τ Cert.KernelIdeal.sig (Elt F)) (V : Valuation Cert.ReferenceIdeal.τ Cert.ReferenceIdeal.sig (Elt F)) (h : Agree44 W V) : Agree45 (after Cert.KernelIdeal.KHost.st44 W) (after Cert.ReferenceIdeal.RefRun.st44 V) where
  main_arg1 := by
    simp only [Cert.KernelIdeal.KHost.st44, Cert.ReferenceIdeal.RefRun.st44]
    after_results_simp
    all_goals first | (simp only [h.main_arg1, h.main_v816, h.main_v829, h.main_v834, h.main_v835] <;> rfl) | rfl
  main_v836 := by
    simp only [Cert.KernelIdeal.KHost.st44, Cert.ReferenceIdeal.RefRun.st44]
    after_results_simp
    all_goals first | (simp only [h.main_arg1, h.main_v816, h.main_v829, h.main_v834, h.main_v835] <;> rfl) | rfl
  main_v849 := by
    simp only [Cert.KernelIdeal.KHost.st44, Cert.ReferenceIdeal.RefRun.st44]
    after_results_simp
    all_goals first | (simp only [h.main_arg1, h.main_v816, h.main_v829, h.main_v834, h.main_v835] <;> rfl) | rfl
  main_v854 := by
    simp only [Cert.KernelIdeal.KHost.st44, Cert.ReferenceIdeal.RefRun.st44]
    after_results_simp
    all_goals first | (simp only [h.main_arg1, h.main_v816, h.main_v829, h.main_v834, h.main_v835] <;> rfl) | rfl
  main_c_43 := by
    simp only [Cert.KernelIdeal.KHost.st44, Cert.ReferenceIdeal.RefRun.st44]
    after_results_simp
    all_goals first | (simp only [h.main_arg1, h.main_v816, h.main_v829, h.main_v834, h.main_v835] <;> rfl) | rfl
set_option maxRecDepth 8192 in
set_option maxHeartbeats 2000000 in
/-- Stretch 45 carries the agreement of boundary 45 to boundary 46. -/
theorem step45 (W : Valuation Cert.KernelIdeal.τ Cert.KernelIdeal.sig (Elt F)) (V : Valuation Cert.ReferenceIdeal.τ Cert.ReferenceIdeal.sig (Elt F)) (h : Agree45 W V) : Agree46 (after Cert.KernelIdeal.KHost.st45 W) (after Cert.ReferenceIdeal.RefRun.st45 V) where
  main_arg1 := by
    simp only [Cert.KernelIdeal.KHost.st45, Cert.ReferenceIdeal.RefRun.st45]
    after_results_simp
    all_goals first | (simp only [h.main_arg1, h.main_v836, h.main_v849, h.main_v854, h.main_c_43] <;> rfl) | rfl
  main_v858 := by
    simp only [Cert.KernelIdeal.KHost.st45, Cert.ReferenceIdeal.RefRun.st45]
    after_results_simp
    all_goals first | (simp only [h.main_arg1, h.main_v836, h.main_v849, h.main_v854, h.main_c_43] <;> rfl) | rfl
  main_v860 := by
    simp only [Cert.KernelIdeal.KHost.st45, Cert.ReferenceIdeal.RefRun.st45]
    after_results_simp
    all_goals first | (simp only [h.main_arg1, h.main_v836, h.main_v849, h.main_v854, h.main_c_43] <;> rfl) | rfl
  main_v864 := by
    simp only [Cert.KernelIdeal.KHost.st45, Cert.ReferenceIdeal.RefRun.st45]
    after_results_simp
    all_goals first | (simp only [h.main_arg1, h.main_v836, h.main_v849, h.main_v854, h.main_c_43] <;> rfl) | rfl
  main_v866 := by
    simp only [Cert.KernelIdeal.KHost.st45, Cert.ReferenceIdeal.RefRun.st45]
    after_results_simp
    all_goals first | (simp only [h.main_arg1, h.main_v836, h.main_v849, h.main_v854, h.main_c_43] <;> rfl) | rfl
  main_v868 := by
    simp only [Cert.KernelIdeal.KHost.st45, Cert.ReferenceIdeal.RefRun.st45]
    after_results_simp
    all_goals first | (simp only [h.main_arg1, h.main_v836, h.main_v849, h.main_v854, h.main_c_43] <;> rfl) | rfl
  main_v873 := by
    simp only [Cert.KernelIdeal.KHost.st45, Cert.ReferenceIdeal.RefRun.st45]
    after_results_simp
    all_goals first | (simp only [h.main_arg1, h.main_v836, h.main_v849, h.main_v854, h.main_c_43] <;> rfl) | rfl
set_option maxRecDepth 8192 in
set_option maxHeartbeats 2000000 in
/-- Stretch 46 carries the agreement of boundary 46 to boundary 47. -/
theorem step46 (W : Valuation Cert.KernelIdeal.τ Cert.KernelIdeal.sig (Elt F)) (V : Valuation Cert.ReferenceIdeal.τ Cert.ReferenceIdeal.sig (Elt F)) (h : Agree46 W V) : Agree47 (after Cert.KernelIdeal.KHost.st46 W) (after Cert.ReferenceIdeal.RefRun.st46 V) where
  main_arg1 := by
    simp only [Cert.KernelIdeal.KHost.st46, Cert.ReferenceIdeal.RefRun.st46]
    after_results_simp
    all_goals first | (simp only [h.main_arg1, h.main_v858, h.main_v860, h.main_v864, h.main_v866, h.main_v868, h.main_v873] <;> rfl) | rfl
  main_v873 := by
    simp only [Cert.KernelIdeal.KHost.st46, Cert.ReferenceIdeal.RefRun.st46]
    after_results_simp
    all_goals first | (simp only [h.main_arg1, h.main_v858, h.main_v860, h.main_v864, h.main_v866, h.main_v868, h.main_v873] <;> rfl) | rfl
  main_v880 := by
    simp only [Cert.KernelIdeal.KHost.st46, Cert.ReferenceIdeal.RefRun.st46]
    after_results_simp
    all_goals first | (simp only [h.main_arg1, h.main_v858, h.main_v860, h.main_v864, h.main_v866, h.main_v868, h.main_v873] <;> rfl) | rfl
  main_v884 := by
    simp only [Cert.KernelIdeal.KHost.st46, Cert.ReferenceIdeal.RefRun.st46]
    after_results_simp
    all_goals first | (simp only [h.main_arg1, h.main_v858, h.main_v860, h.main_v864, h.main_v866, h.main_v868, h.main_v873] <;> rfl) | rfl
  main_v886 := by
    simp only [Cert.KernelIdeal.KHost.st46, Cert.ReferenceIdeal.RefRun.st46]
    after_results_simp
    all_goals first | (simp only [h.main_arg1, h.main_v858, h.main_v860, h.main_v864, h.main_v866, h.main_v868, h.main_v873] <;> rfl) | rfl
  main_v888 := by
    simp only [Cert.KernelIdeal.KHost.st46, Cert.ReferenceIdeal.RefRun.st46]
    after_results_simp
    all_goals first | (simp only [h.main_arg1, h.main_v858, h.main_v860, h.main_v864, h.main_v866, h.main_v868, h.main_v873] <;> rfl) | rfl
  main_v890 := by
    simp only [Cert.KernelIdeal.KHost.st46, Cert.ReferenceIdeal.RefRun.st46]
    after_results_simp
    all_goals first | (simp only [h.main_arg1, h.main_v858, h.main_v860, h.main_v864, h.main_v866, h.main_v868, h.main_v873] <;> rfl) | rfl
  main_v892 := by
    simp only [Cert.KernelIdeal.KHost.st46, Cert.ReferenceIdeal.RefRun.st46]
    after_results_simp
    all_goals first | (simp only [h.main_arg1, h.main_v858, h.main_v860, h.main_v864, h.main_v866, h.main_v868, h.main_v873] <;> rfl) | rfl
set_option maxRecDepth 8192 in
set_option maxHeartbeats 2000000 in
/-- Stretch 47 carries the agreement of boundary 47 to boundary 48. -/
theorem step47 (W : Valuation Cert.KernelIdeal.τ Cert.KernelIdeal.sig (Elt F)) (V : Valuation Cert.ReferenceIdeal.τ Cert.ReferenceIdeal.sig (Elt F)) (h : Agree47 W V) : Agree48 (after Cert.KernelIdeal.KHost.st47 W) (after Cert.ReferenceIdeal.RefRun.st47 V) where
  main_arg1 := by
    simp only [Cert.KernelIdeal.KHost.st47, Cert.ReferenceIdeal.RefRun.st47]
    after_results_simp
    all_goals first | (simp only [h.main_arg1, h.main_v873, h.main_v880, h.main_v884, h.main_v886, h.main_v888, h.main_v890, h.main_v892] <;> rfl) | rfl
  main_v893 := by
    simp only [Cert.KernelIdeal.KHost.st47, Cert.ReferenceIdeal.RefRun.st47]
    after_results_simp
    all_goals first | (simp only [h.main_arg1, h.main_v873, h.main_v880, h.main_v884, h.main_v886, h.main_v888, h.main_v890, h.main_v892] <;> rfl) | rfl
  main_v900 := by
    simp only [Cert.KernelIdeal.KHost.st47, Cert.ReferenceIdeal.RefRun.st47]
    after_results_simp
    all_goals first | (simp only [h.main_arg1, h.main_v873, h.main_v880, h.main_v884, h.main_v886, h.main_v888, h.main_v890, h.main_v892] <;> rfl) | rfl
  main_v904 := by
    simp only [Cert.KernelIdeal.KHost.st47, Cert.ReferenceIdeal.RefRun.st47]
    after_results_simp
    all_goals first | (simp only [h.main_arg1, h.main_v873, h.main_v880, h.main_v884, h.main_v886, h.main_v888, h.main_v890, h.main_v892] <;> rfl) | rfl
  main_v906 := by
    simp only [Cert.KernelIdeal.KHost.st47, Cert.ReferenceIdeal.RefRun.st47]
    after_results_simp
    all_goals first | (simp only [h.main_arg1, h.main_v873, h.main_v880, h.main_v884, h.main_v886, h.main_v888, h.main_v890, h.main_v892] <;> rfl) | rfl
  main_v908 := by
    simp only [Cert.KernelIdeal.KHost.st47, Cert.ReferenceIdeal.RefRun.st47]
    after_results_simp
    all_goals first | (simp only [h.main_arg1, h.main_v873, h.main_v880, h.main_v884, h.main_v886, h.main_v888, h.main_v890, h.main_v892] <;> rfl) | rfl
  main_v910 := by
    simp only [Cert.KernelIdeal.KHost.st47, Cert.ReferenceIdeal.RefRun.st47]
    after_results_simp
    all_goals first | (simp only [h.main_arg1, h.main_v873, h.main_v880, h.main_v884, h.main_v886, h.main_v888, h.main_v890, h.main_v892] <;> rfl) | rfl
  main_v911 := by
    simp only [Cert.KernelIdeal.KHost.st47, Cert.ReferenceIdeal.RefRun.st47]
    after_results_simp
    all_goals first | (simp only [h.main_arg1, h.main_v873, h.main_v880, h.main_v884, h.main_v886, h.main_v888, h.main_v890, h.main_v892] <;> rfl) | rfl

end Cert.Lock

end
-- ==== Proof.LockW4.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 48 carries the agreement of boundary 48 to boundary 49. -/
theorem step48 (W : Valuation Cert.KernelIdeal.τ Cert.KernelIdeal.sig (Elt F)) (V : Valuation Cert.ReferenceIdeal.τ Cert.ReferenceIdeal.sig (Elt F)) (h : Agree48 W V) : Agree49 (after Cert.KernelIdeal.KHost.st48 W) (after Cert.ReferenceIdeal.RefRun.st48 V) where
  main_arg1 := by
    simp only [Cert.KernelIdeal.KHost.st48, Cert.ReferenceIdeal.RefRun.st48]
    after_results_simp
    all_goals first | (simp only [h.main_arg1, h.main_v893, h.main_v900, h.main_v904, h.main_v906, h.main_v908, h.main_v910, h.main_v911] <;> rfl) | rfl
  main_v913 := by
    simp only [Cert.KernelIdeal.KHost.st48, Cert.ReferenceIdeal.RefRun.st48]
    after_results_simp
    all_goals first | (simp only [h.main_arg1, h.main_v893, h.main_v900, h.main_v904, h.main_v906, h.main_v908, h.main_v910, h.main_v911] <;> rfl) | rfl
  main_v920 := by
    simp only [Cert.KernelIdeal.KHost.st48, Cert.ReferenceIdeal.RefRun.st48]
    after_results_simp
    all_goals first | (simp only [h.main_arg1, h.main_v893, h.main_v900, h.main_v904, h.main_v906, h.main_v908, h.main_v910, h.main_v911] <;> rfl) | rfl
  main_v924 := by
    simp only [Cert.KernelIdeal.KHost.st48, Cert.ReferenceIdeal.RefRun.st48]
    after_results_simp
    all_goals first | (simp only [h.main_arg1, h.main_v893, h.main_v900, h.main_v904, h.main_v906, h.main_v908, h.main_v910, h.main_v911] <;> rfl) | rfl
  main_v926 := by
    simp only [Cert.KernelIdeal.KHost.st48, Cert.ReferenceIdeal.RefRun.st48]
    after_results_simp
    all_goals first | (simp only [h.main_arg1, h.main_v893, h.main_v900, h.main_v904, h.main_v906, h.main_v908, h.main_v910, h.main_v911] <;> rfl) | rfl
  main_v928 := by
    simp only [Cert.KernelIdeal.KHost.st48, Cert.ReferenceIdeal.RefRun.st48]
    after_results_simp
    all_goals first | (simp only [h.main_arg1, h.main_v893, h.main_v900, h.main_v904, h.main_v906, h.main_v908, h.main_v910, h.main_v911] <;> rfl) | rfl
  main_v930 := by
    simp only [Cert.KernelIdeal.KHost.st48, Cert.ReferenceIdeal.RefRun.st48]
    after_results_simp
    all_goals first | (simp only [h.main_arg1, h.main_v893, h.main_v900, h.main_v904, h.main_v906, h.main_v908, h.main_v910, h.main_v911] <;> rfl) | rfl
set_option maxRecDepth 8192 in
set_option maxHeartbeats 2000000 in
/-- Stretch 49 carries the agreement of boundary 49 to boundary 50. -/
theorem step49 (W : Valuation Cert.KernelIdeal.τ Cert.KernelIdeal.sig (Elt F)) (V : Valuation Cert.ReferenceIdeal.τ Cert.ReferenceIdeal.sig (Elt F)) (h : Agree49 W V) : Agree50 (after Cert.KernelIdeal.KHost.st49 W) (after Cert.ReferenceIdeal.RefRun.st49 V) where
  main_arg1 := by
    simp only [Cert.KernelIdeal.KHost.st49, Cert.ReferenceIdeal.RefRun.st49]
    after_results_simp
    all_goals first | (simp only [h.main_arg1, h.main_v913, h.main_v920, h.main_v924, h.main_v926, h.main_v928, h.main_v930] <;> rfl) | rfl
  main_v933 := by
    simp only [Cert.KernelIdeal.KHost.st49, Cert.ReferenceIdeal.RefRun.st49]
    after_results_simp
    all_goals first | (simp only [h.main_arg1, h.main_v913, h.main_v920, h.main_v924, h.main_v926, h.main_v928, h.main_v930] <;> rfl) | rfl
  main_v940 := by
    simp only [Cert.KernelIdeal.KHost.st49, Cert.ReferenceIdeal.RefRun.st49]
    after_results_simp
    all_goals first | (simp only [h.main_arg1, h.main_v913, h.main_v920, h.main_v924, h.main_v926, h.main_v928, h.main_v930] <;> rfl) | rfl
  main_v944 := by
    simp only [Cert.KernelIdeal.KHost.st49, Cert.ReferenceIdeal.RefRun.st49]
    after_results_simp
    all_goals first | (simp only [h.main_arg1, h.main_v913, h.main_v920, h.main_v924, h.main_v926, h.main_v928, h.main_v930] <;> rfl) | rfl
  main_v946 := by
    simp only [Cert.KernelIdeal.KHost.st49, Cert.ReferenceIdeal.RefRun.st49]
    after_results_simp
    all_goals first | (simp only [h.main_arg1, h.main_v913, h.main_v920, h.main_v924, h.main_v926, h.main_v928, h.main_v930] <;> rfl) | rfl
  main_v948 := by
    simp only [Cert.KernelIdeal.KHost.st49, Cert.ReferenceIdeal.RefRun.st49]
    after_results_simp
    all_goals first | (simp only [h.main_arg1, h.main_v913, h.main_v920, h.main_v924, h.main_v926, h.main_v928, h.main_v930] <;> rfl) | rfl
  main_v949 := by
    simp only [Cert.KernelIdeal.KHost.st49, Cert.ReferenceIdeal.RefRun.st49]
    after_results_simp
    all_goals first | (simp only [h.main_arg1, h.main_v913, h.main_v920, h.main_v924, h.main_v926, h.main_v928, h.main_v930] <;> rfl) | rfl
set_option maxRecDepth 8192 in
set_option maxHeartbeats 2000000 in
/-- Stretch 50 carries the agreement of boundary 50 to boundary 51. -/
theorem step50 (W : Valuation Cert.KernelIdeal.τ Cert.KernelIdeal.sig (Elt F)) (V : Valuation Cert.ReferenceIdeal.τ Cert.ReferenceIdeal.sig (Elt F)) (h : Agree50 W V) : Agree51 (after Cert.KernelIdeal.KHost.st50 W) (after Cert.ReferenceIdeal.RefRun.st50 V) where
  main_arg1 := by
    simp only [Cert.KernelIdeal.KHost.st50, Cert.ReferenceIdeal.RefRun.st50]
    after_results_simp
    all_goals first | (simp only [h.main_arg1, h.main_v933, h.main_v940, h.main_v944, h.main_v946, h.main_v948, h.main_v949] <;> rfl) | rfl
  main_v953 := by
    simp only [Cert.KernelIdeal.KHost.st50, Cert.ReferenceIdeal.RefRun.st50]
    after_results_simp
    all_goals first | (simp only [h.main_arg1, h.main_v933, h.main_v940, h.main_v944, h.main_v946, h.main_v948, h.main_v949] <;> rfl) | rfl
  main_v960 := by
    simp only [Cert.KernelIdeal.KHost.st50, Cert.ReferenceIdeal.RefRun.st50]
    after_results_simp
    all_goals first | (simp only [h.main_arg1, h.main_v933, h.main_v940, h.main_v944, h.main_v946, h.main_v948, h.main_v949] <;> rfl) | rfl
  main_v964 := by
    simp only [Cert.KernelIdeal.KHost.st50, Cert.ReferenceIdeal.RefRun.st50]
    after_results_simp
    all_goals first | (simp only [h.main_arg1, h.main_v933, h.main_v940, h.main_v944, h.main_v946, h.main_v948, h.main_v949] <;> rfl) | rfl
  main_v966 := by
    simp only [Cert.KernelIdeal.KHost.st50, Cert.ReferenceIdeal.RefRun.st50]
    after_results_simp
    all_goals first | (simp only [h.main_arg1, h.main_v933, h.main_v940, h.main_v944, h.main_v946, h.main_v948, h.main_v949] <;> rfl) | rfl
  main_v968 := by
    simp only [Cert.KernelIdeal.KHost.st50, Cert.ReferenceIdeal.RefRun.st50]
    after_results_simp
    all_goals first | (simp only [h.main_arg1, h.main_v933, h.main_v940, h.main_v944, h.main_v946, h.main_v948, h.main_v949] <;> rfl) | rfl
set_option maxRecDepth 8192 in
set_option maxHeartbeats 2000000 in
/-- Stretch 51 carries the agreement of boundary 51 to boundary 52. -/
theorem step51 (W : Valuation Cert.KernelIdeal.τ Cert.KernelIdeal.sig (Elt F)) (V : Valuation Cert.ReferenceIdeal.τ Cert.ReferenceIdeal.sig (Elt F)) (h : Agree51 W V) : Agree52 (after Cert.KernelIdeal.KHost.st51 W) (after Cert.ReferenceIdeal.RefRun.st51 V) where
  main_arg1 := by
    simp only [Cert.KernelIdeal.KHost.st51, Cert.ReferenceIdeal.RefRun.st51]
    after_results_simp
    all_goals first | (simp only [h.main_arg1, h.main_v953, h.main_v960, h.main_v964, h.main_v966, h.main_v968] <;> rfl) | rfl
  main_v973 := by
    simp only [Cert.KernelIdeal.KHost.st51, Cert.ReferenceIdeal.RefRun.st51]
    after_results_simp
    all_goals first | (simp only [h.main_arg1, h.main_v953, h.main_v960, h.main_v964, h.main_v966, h.main_v968] <;> rfl) | rfl
  main_v980 := by
    simp only [Cert.KernelIdeal.KHost.st51, Cert.ReferenceIdeal.RefRun.st51]
    after_results_simp
    all_goals first | (simp only [h.main_arg1, h.main_v953, h.main_v960, h.main_v964, h.main_v966, h.main_v968] <;> rfl) | rfl
  main_v984 := by
    simp only [Cert.KernelIdeal.KHost.st51, Cert.ReferenceIdeal.RefRun.st51]
    after_results_simp
    all_goals first | (simp only [h.main_arg1, h.main_v953, h.main_v960, h.main_v964, h.main_v966, h.main_v968] <;> rfl) | rfl
  main_v986 := by
    simp only [Cert.KernelIdeal.KHost.st51, Cert.ReferenceIdeal.RefRun.st51]
    after_results_simp
    all_goals first | (simp only [h.main_arg1, h.main_v953, h.main_v960, h.main_v964, h.main_v966, h.main_v968] <;> rfl) | rfl
  main_v987 := by
    simp only [Cert.KernelIdeal.KHost.st51, Cert.ReferenceIdeal.RefRun.st51]
    after_results_simp
    all_goals first | (simp only [h.main_arg1, h.main_v953, h.main_v960, h.main_v964, h.main_v966, h.main_v968] <;> rfl) | rfl
set_option maxRecDepth 8192 in
set_option maxHeartbeats 2000000 in
/-- Stretch 52 carries the agreement of boundary 52 to boundary 53. -/
theorem step52 (W : Valuation Cert.KernelIdeal.τ Cert.KernelIdeal.sig (Elt F)) (V : Valuation Cert.ReferenceIdeal.τ Cert.ReferenceIdeal.sig (Elt F)) (h : Agree52 W V) : Agree53 (after Cert.KernelIdeal.KHost.st52 W) (after Cert.ReferenceIdeal.RefRun.st52 V) where
  main_arg1 := by
    simp only [Cert.KernelIdeal.KHost.st52, Cert.ReferenceIdeal.RefRun.st52]
    after_results_simp
    all_goals first | (simp only [h.main_arg1, h.main_v973, h.main_v980, h.main_v984, h.main_v986, h.main_v987] <;> rfl) | rfl
  main_v993 := by
    simp only [Cert.KernelIdeal.KHost.st52, Cert.ReferenceIdeal.RefRun.st52]
    after_results_simp
    all_goals first | (simp only [h.main_arg1, h.main_v973, h.main_v980, h.main_v984, h.main_v986, h.main_v987] <;> rfl) | rfl
  main_v1000 := by
    simp only [Cert.KernelIdeal.KHost.st52, Cert.ReferenceIdeal.RefRun.st52]
    after_results_simp
    all_goals first | (simp only [h.main_arg1, h.main_v973, h.main_v980, h.main_v984, h.main_v986, h.main_v987] <;> rfl) | rfl
  main_v1004 := by
    simp only [Cert.KernelIdeal.KHost.st52, Cert.ReferenceIdeal.RefRun.st52]
    after_results_simp
    all_goals first | (simp only [h.main_arg1, h.main_v973, h.main_v980, h.main_v984, h.main_v986, h.main_v987] <;> rfl) | rfl
  main_v1006 := by
    simp only [Cert.KernelIdeal.KHost.st52, Cert.ReferenceIdeal.RefRun.st52]
    after_results_simp
    all_goals first | (simp only [h.main_arg1, h.main_v973, h.main_v980, h.main_v984, h.main_v986, h.main_v987] <;> rfl) | rfl
set_option maxRecDepth 8192 in
set_option maxHeartbeats 2000000 in
/-- Stretch 53 carries the agreement of boundary 53 to boundary 54. -/
theorem step53 (W : Valuation Cert.KernelIdeal.τ Cert.KernelIdeal.sig (Elt F)) (V : Valuation Cert.ReferenceIdeal.τ Cert.ReferenceIdeal.sig (Elt F)) (h : Agree53 W V) : Agree54 (after Cert.KernelIdeal.KHost.st53 W) (after Cert.ReferenceIdeal.RefRun.st53 V) where
  main_arg1 := by
    simp only [Cert.KernelIdeal.KHost.st53, Cert.ReferenceIdeal.RefRun.st53]
    after_results_simp
    all_goals first | (simp only [h.main_arg1, h.main_v993, h.main_v1000, h.main_v1004, h.main_v1006] <;> rfl) | rfl
  main_v1013 := by
    simp only [Cert.KernelIdeal.KHost.st53, Cert.ReferenceIdeal.RefRun.st53]
    after_results_simp
    all_goals first | (simp only [h.main_arg1, h.main_v993, h.main_v1000, h.main_v1004, h.main_v1006] <;> rfl) | rfl
  main_v1020 := by
    simp only [Cert.KernelIdeal.KHost.st53, Cert.ReferenceIdeal.RefRun.st53]
    after_results_simp
    all_goals first | (simp only [h.main_arg1, h.main_v993, h.main_v1000, h.main_v1004, h.main_v1006] <;> rfl) | rfl
  main_v1024 := by
    simp only [Cert.KernelIdeal.KHost.st53, Cert.ReferenceIdeal.RefRun.st53]
    after_results_simp
    all_goals first | (simp only [h.main_arg1, h.main_v993, h.main_v1000, h.main_v1004, h.main_v1006] <;> rfl) | rfl
  main_v1025 := by
    simp only [Cert.KernelIdeal.KHost.st53, Cert.ReferenceIdeal.RefRun.st53]
    after_results_simp
    all_goals first | (simp only [h.main_arg1, h.main_v993, h.main_v1000, h.main_v1004, h.main_v1006] <;> rfl) | rfl
set_option maxRecDepth 8192 in
set_option maxHeartbeats 2000000 in
/-- Stretch 54 carries the agreement of boundary 54 to boundary 55. -/
theorem step54 (W : Valuation Cert.KernelIdeal.τ Cert.KernelIdeal.sig (Elt F)) (V : Valuation Cert.ReferenceIdeal.τ Cert.ReferenceIdeal.sig (Elt F)) (h : Agree54 W V) : Agree55 (after Cert.KernelIdeal.KHost.st54 W) (after Cert.ReferenceIdeal.RefRun.st54 V) where
  main_arg1 := by
    simp only [Cert.KernelIdeal.KHost.st54, Cert.ReferenceIdeal.RefRun.st54]
    after_results_simp
    all_goals first | (simp only [h.main_arg1, h.main_v1013, h.main_v1020, h.main_v1024, h.main_v1025] <;> rfl) | rfl
  main_v1033 := by
    simp only [Cert.KernelIdeal.KHost.st54, Cert.ReferenceIdeal.RefRun.st54]
    after_results_simp
    all_goals first | (simp only [h.main_arg1, h.main_v1013, h.main_v1020, h.main_v1024, h.main_v1025] <;> rfl) | rfl
  main_v1040 := by
    simp only [Cert.KernelIdeal.KHost.st54, Cert.ReferenceIdeal.RefRun.st54]
    after_results_simp
    all_goals first | (simp only [h.main_arg1, h.main_v1013, h.main_v1020, h.main_v1024, h.main_v1025] <;> rfl) | rfl
  main_v1042 := by
    simp only [Cert.KernelIdeal.KHost.st54, Cert.ReferenceIdeal.RefRun.st54]
    after_results_simp
    all_goals first | (simp only [h.main_arg1, h.main_v1013, h.main_v1020, h.main_v1024, h.main_v1025] <;> rfl) | rfl
  main_v1044 := by
    simp only [Cert.KernelIdeal.KHost.st54, Cert.ReferenceIdeal.RefRun.st54]
    after_results_simp
    all_goals first | (simp only [h.main_arg1, h.main_v1013, h.main_v1020, h.main_v1024, h.main_v1025] <;> rfl) | rfl
set_option maxRecDepth 8192 in
set_option maxHeartbeats 2000000 in
/-- Stretch 55 carries the agreement of boundary 55 to boundary 56. -/
theorem step55 (W : Valuation Cert.KernelIdeal.τ Cert.KernelIdeal.sig (Elt F)) (V : Valuation Cert.ReferenceIdeal.τ Cert.ReferenceIdeal.sig (Elt F)) (h : Agree55 W V) : Agree56 (after Cert.KernelIdeal.KHost.st55 W) (after Cert.ReferenceIdeal.RefRun.st55 V) where
  main_arg1 := by
    simp only [Cert.KernelIdeal.KHost.st55, Cert.ReferenceIdeal.RefRun.st55]
    after_results_simp
    all_goals first | (simp only [h.main_arg1, h.main_v1033, h.main_v1040, h.main_v1042, h.main_v1044] <;> rfl) | rfl
  main_v1053 := by
    simp only [Cert.KernelIdeal.KHost.st55, Cert.ReferenceIdeal.RefRun.st55]
    after_results_simp
    all_goals first | (simp only [h.main_arg1, h.main_v1033, h.main_v1040, h.main_v1042, h.main_v1044] <;> rfl) | rfl
  main_v1060 := by
    simp only [Cert.KernelIdeal.KHost.st55, Cert.ReferenceIdeal.RefRun.st55]
    after_results_simp
    all_goals first | (simp only [h.main_arg1, h.main_v1033, h.main_v1040, h.main_v1042, h.main_v1044] <;> rfl) | rfl
  main_v1062 := by
    simp only [Cert.KernelIdeal.KHost.st55, Cert.ReferenceIdeal.RefRun.st55]
    after_results_simp
    all_goals first | (simp only [h.main_arg1, h.main_v1033, h.main_v1040, h.main_v1042, h.main_v1044] <;> rfl) | rfl
  main_v1063 := by
    simp only [Cert.KernelIdeal.KHost.st55, Cert.ReferenceIdeal.RefRun.st55]
    after_results_simp
    all_goals first | (simp only [h.main_arg1, h.main_v1033, h.main_v1040, h.main_v1042, h.main_v1044] <;> rfl) | rfl
set_option maxRecDepth 8192 in
set_option maxHeartbeats 2000000 in
/-- Stretch 56 carries the agreement of boundary 56 to boundary 57. -/
theorem step56 (W : Valuation Cert.KernelIdeal.τ Cert.KernelIdeal.sig (Elt F)) (V : Valuation Cert.ReferenceIdeal.τ Cert.ReferenceIdeal.sig (Elt F)) (h : Agree56 W V) : Agree57 (after Cert.KernelIdeal.KHost.st56 W) (after Cert.ReferenceIdeal.RefRun.st56 V) where
  main_arg1 := by
    simp only [Cert.KernelIdeal.KHost.st56, Cert.ReferenceIdeal.RefRun.st56]
    after_results_simp
    all_goals first | (simp only [h.main_arg1, h.main_v1053, h.main_v1060, h.main_v1062, h.main_v1063] <;> rfl) | rfl
  main_v1073 := by
    simp only [Cert.KernelIdeal.KHost.st56, Cert.ReferenceIdeal.RefRun.st56]
    after_results_simp
    all_goals first | (simp only [h.main_arg1, h.main_v1053, h.main_v1060, h.main_v1062, h.main_v1063] <;> rfl) | rfl
  main_v1080 := by
    simp only [Cert.KernelIdeal.KHost.st56, Cert.ReferenceIdeal.RefRun.st56]
    after_results_simp
    all_goals first | (simp only [h.main_arg1, h.main_v1053, h.main_v1060, h.main_v1062, h.main_v1063] <;> rfl) | rfl
  main_v1082 := by
    simp only [Cert.KernelIdeal.KHost.st56, Cert.ReferenceIdeal.RefRun.st56]
    after_results_simp
    all_goals first | (simp only [h.main_arg1, h.main_v1053, h.main_v1060, h.main_v1062, h.main_v1063] <;> rfl) | rfl
set_option maxRecDepth 8192 in
set_option maxHeartbeats 2000000 in
/-- Stretch 57 carries the agreement of boundary 57 to boundary 58. -/
theorem step57 (W : Valuation Cert.KernelIdeal.τ Cert.KernelIdeal.sig (Elt F)) (V : Valuation Cert.ReferenceIdeal.τ Cert.ReferenceIdeal.sig (Elt F)) (h : Agree57 W V) : Agree58 (after Cert.KernelIdeal.KHost.st57 W) (after Cert.ReferenceIdeal.RefRun.st57 V) where
  main_arg1 := by
    simp only [Cert.KernelIdeal.KHost.st57, Cert.ReferenceIdeal.RefRun.st57]
    after_results_simp
    all_goals first | (simp only [h.main_arg1, h.main_v1073, h.main_v1080, h.main_v1082] <;> rfl) | rfl
  main_v1093 := by
    simp only [Cert.KernelIdeal.KHost.st57, Cert.ReferenceIdeal.RefRun.st57]
    after_results_simp
    all_goals first | (simp only [h.main_arg1, h.main_v1073, h.main_v1080, h.main_v1082] <;> rfl) | rfl
  main_v1100 := by
    simp only [Cert.KernelIdeal.KHost.st57, Cert.ReferenceIdeal.RefRun.st57]
    after_results_simp
    all_goals first | (simp only [h.main_arg1, h.main_v1073, h.main_v1080, h.main_v1082] <;> rfl) | rfl
  main_c_57 := by
    simp only [Cert.KernelIdeal.KHost.st57, Cert.ReferenceIdeal.RefRun.st57]
    after_results_simp
    all_goals first | (simp only [h.main_arg1, h.main_v1073, h.main_v1080, h.main_v1082] <;> rfl) | rfl
set_option maxRecDepth 8192 in
set_option maxHeartbeats 2000000 in
/-- Stretch 58 carries the agreement of boundary 58 to boundary 59. -/
theorem step58 (W : Valuation Cert.KernelIdeal.τ Cert.KernelIdeal.sig (Elt F)) (V : Valuation Cert.ReferenceIdeal.τ Cert.ReferenceIdeal.sig (Elt F)) (h : Agree58 W V) : Agree59 (after Cert.KernelIdeal.KHost.st58 W) (after Cert.ReferenceIdeal.RefRun.st58 V) where
  main_arg1 := by
    simp only [Cert.KernelIdeal.KHost.st58, Cert.ReferenceIdeal.RefRun.st58]
    after_results_simp
    all_goals first | (simp only [h.main_arg1, h.main_v1093, h.main_v1100, h.main_c_57] <;> rfl) | rfl
  main_v1102 := by
    simp only [Cert.KernelIdeal.KHost.st58, Cert.ReferenceIdeal.RefRun.st58]
    after_results_simp
    all_goals first | (simp only [h.main_arg1, h.main_v1093, h.main_v1100, h.main_c_57] <;> rfl) | rfl
  main_v1112 := by
    simp only [Cert.KernelIdeal.KHost.st58, Cert.ReferenceIdeal.RefRun.st58]
    after_results_simp
    all_goals first | (simp only [h.main_arg1, h.main_v1093, h.main_v1100, h.main_c_57] <;> rfl) | rfl
  main_v1117 := by
    simp only [Cert.KernelIdeal.KHost.st58, Cert.ReferenceIdeal.RefRun.st58]
    after_results_simp
    all_goals first | (simp only [h.main_arg1, h.main_v1093, h.main_v1100, h.main_c_57] <;> rfl) | rfl
  main_v1119 := by
    simp only [Cert.KernelIdeal.KHost.st58, Cert.ReferenceIdeal.RefRun.st58]
    after_results_simp
    all_goals first | (simp only [h.main_arg1, h.main_v1093, h.main_v1100, h.main_c_57] <;> rfl) | rfl
  main_v1120 := by
    simp only [Cert.KernelIdeal.KHost.st58, Cert.ReferenceIdeal.RefRun.st58]
    after_results_simp
    all_goals first | (simp only [h.main_arg1, h.main_v1093, h.main_v1100, h.main_c_57] <;> rfl) | rfl
set_option maxRecDepth 8192 in
set_option maxHeartbeats 2000000 in
/-- Stretch 59 carries the agreement of boundary 59 to boundary 60. -/
theorem step59 (W : Valuation Cert.KernelIdeal.τ Cert.KernelIdeal.sig (Elt F)) (V : Valuation Cert.ReferenceIdeal.τ Cert.ReferenceIdeal.sig (Elt F)) (h : Agree59 W V) : Agree60 (after Cert.KernelIdeal.KHost.st59 W) (after Cert.ReferenceIdeal.RefRun.st59 V) where
  main_arg1 := by
    simp only [Cert.KernelIdeal.KHost.st59, Cert.ReferenceIdeal.RefRun.st59]
    after_results_simp
    all_goals first | (simp only [h.main_arg1, h.main_v1102, h.main_v1112, h.main_v1117, h.main_v1119, h.main_v1120] <;> rfl) | rfl
  main_v1124 := by
    simp only [Cert.KernelIdeal.KHost.st59, Cert.ReferenceIdeal.RefRun.st59]
    after_results_simp
    all_goals first | (simp only [h.main_arg1, h.main_v1102, h.main_v1112, h.main_v1117, h.main_v1119, h.main_v1120] <;> rfl) | rfl
  main_v1128 := by
    simp only [Cert.KernelIdeal.KHost.st59, Cert.ReferenceIdeal.RefRun.st59]
    after_results_simp
    all_goals first | (simp only [h.main_arg1, h.main_v1102, h.main_v1112, h.main_v1117, h.main_v1119, h.main_v1120] <;> rfl) | rfl
  main_v1132 := by
    simp only [Cert.KernelIdeal.KHost.st59, Cert.ReferenceIdeal.RefRun.st59]
    after_results_simp
    all_goals first | (simp only [h.main_arg1, h.main_v1102, h.main_v1112, h.main_v1117, h.main_v1119, h.main_v1120] <;> rfl) | rfl
  main_v1137 := by
    simp only [Cert.KernelIdeal.KHost.st59, Cert.ReferenceIdeal.RefRun.st59]
    after_results_simp
    all_goals first | (simp only [h.main_arg1, h.main_v1102, h.main_v1112, h.main_v1117, h.main_v1119, h.main_v1120] <;> rfl) | rfl
  main_v1139 := by
    simp only [Cert.KernelIdeal.KHost.st59, Cert.ReferenceIdeal.RefRun.st59]
    after_results_simp
    all_goals first | (simp only [h.main_arg1, h.main_v1102, h.main_v1112, h.main_v1117, h.main_v1119, h.main_v1120] <;> rfl) | rfl

end Cert.Lock

end
-- ==== Proof.LockW5.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 60 carries the agreement of boundary 60 to boundary 61. -/
theorem step60 (W : Valuation Cert.KernelIdeal.τ Cert.KernelIdeal.sig (Elt F)) (V : Valuation Cert.ReferenceIdeal.τ Cert.ReferenceIdeal.sig (Elt F)) (h : Agree60 W V) : Agree61 (after Cert.KernelIdeal.KHost.st60 W) (after Cert.ReferenceIdeal.RefRun.st60 V) where
  main_arg1 := by
    simp only [Cert.KernelIdeal.KHost.st60, Cert.ReferenceIdeal.RefRun.st60]
    after_results_simp
    all_goals first | (simp only [h.main_arg1, h.main_v1124, h.main_v1128, h.main_v1132, h.main_v1137, h.main_v1139] <;> rfl) | rfl
  main_v1137 := by
    simp only [Cert.KernelIdeal.KHost.st60, Cert.ReferenceIdeal.RefRun.st60]
    after_results_simp
    all_goals first | (simp only [h.main_arg1, h.main_v1124, h.main_v1128, h.main_v1132, h.main_v1137, h.main_v1139] <;> rfl) | rfl
  main_v1144 := by
    simp only [Cert.KernelIdeal.KHost.st60, Cert.ReferenceIdeal.RefRun.st60]
    after_results_simp
    all_goals first | (simp only [h.main_arg1, h.main_v1124, h.main_v1128, h.main_v1132, h.main_v1137, h.main_v1139] <;> rfl) | rfl
  main_v1148 := by
    simp only [Cert.KernelIdeal.KHost.st60, Cert.ReferenceIdeal.RefRun.st60]
    after_results_simp
    all_goals first | (simp only [h.main_arg1, h.main_v1124, h.main_v1128, h.main_v1132, h.main_v1137, h.main_v1139] <;> rfl) | rfl
  main_v1152 := by
    simp only [Cert.KernelIdeal.KHost.st60, Cert.ReferenceIdeal.RefRun.st60]
    after_results_simp
    all_goals first | (simp only [h.main_arg1, h.main_v1124, h.main_v1128, h.main_v1132, h.main_v1137, h.main_v1139] <;> rfl) | rfl
  main_v1157 := by
    simp only [Cert.KernelIdeal.KHost.st60, Cert.ReferenceIdeal.RefRun.st60]
    after_results_simp
    all_goals first | (simp only [h.main_arg1, h.main_v1124, h.main_v1128, h.main_v1132, h.main_v1137, h.main_v1139] <;> rfl) | rfl
  main_v1158 := by
    simp only [Cert.KernelIdeal.KHost.st60, Cert.ReferenceIdeal.RefRun.st60]
    after_results_simp
    all_goals first | (simp only [h.main_arg1, h.main_v1124, h.main_v1128, h.main_v1132, h.main_v1137, h.main_v1139] <;> rfl) | rfl
set_option maxRecDepth 8192 in
set_option maxHeartbeats 2000000 in
/-- Stretch 61 carries the agreement of boundary 61 to boundary 62. -/
theorem step61 (W : Valuation Cert.KernelIdeal.τ Cert.KernelIdeal.sig (Elt F)) (V : Valuation Cert.ReferenceIdeal.τ Cert.ReferenceIdeal.sig (Elt F)) (h : Agree61 W V) : Agree62 (after Cert.KernelIdeal.KHost.st61 W) (after Cert.ReferenceIdeal.RefRun.st61 V) where
  main_arg1 := by
    simp only [Cert.KernelIdeal.KHost.st61, Cert.ReferenceIdeal.RefRun.st61]
    after_results_simp
    all_goals first | (simp only [h.main_arg1, h.main_v1137, h.main_v1144, h.main_v1148, h.main_v1152, h.main_v1157, h.main_v1158] <;> rfl) | rfl
  main_v1157 := by
    simp only [Cert.KernelIdeal.KHost.st61, Cert.ReferenceIdeal.RefRun.st61]
    after_results_simp
    all_goals first | (simp only [h.main_arg1, h.main_v1137, h.main_v1144, h.main_v1148, h.main_v1152, h.main_v1157, h.main_v1158] <;> rfl) | rfl
  main_v1164 := by
    simp only [Cert.KernelIdeal.KHost.st61, Cert.ReferenceIdeal.RefRun.st61]
    after_results_simp
    all_goals first | (simp only [h.main_arg1, h.main_v1137, h.main_v1144, h.main_v1148, h.main_v1152, h.main_v1157, h.main_v1158] <;> rfl) | rfl
  main_v1168 := by
    simp only [Cert.KernelIdeal.KHost.st61, Cert.ReferenceIdeal.RefRun.st61]
    after_results_simp
    all_goals first | (simp only [h.main_arg1, h.main_v1137, h.main_v1144, h.main_v1148, h.main_v1152, h.main_v1157, h.main_v1158] <;> rfl) | rfl
  main_v1170 := by
    simp only [Cert.KernelIdeal.KHost.st61, Cert.ReferenceIdeal.RefRun.st61]
    after_results_simp
    all_goals first | (simp only [h.main_arg1, h.main_v1137, h.main_v1144, h.main_v1148, h.main_v1152, h.main_v1157, h.main_v1158] <;> rfl) | rfl
  main_v1172 := by
    simp only [Cert.KernelIdeal.KHost.st61, Cert.ReferenceIdeal.RefRun.st61]
    after_results_simp
    all_goals first | (simp only [h.main_arg1, h.main_v1137, h.main_v1144, h.main_v1148, h.main_v1152, h.main_v1157, h.main_v1158] <;> rfl) | rfl
  main_v1177 := by
    simp only [Cert.KernelIdeal.KHost.st61, Cert.ReferenceIdeal.RefRun.st61]
    after_results_simp
    all_goals first | (simp only [h.main_arg1, h.main_v1137, h.main_v1144, h.main_v1148, h.main_v1152, h.main_v1157, h.main_v1158] <;> rfl) | rfl
set_option maxRecDepth 8192 in
set_option maxHeartbeats 2000000 in
/-- Stretch 62 carries the agreement of boundary 62 to boundary 63. -/
theorem step62 (W : Valuation Cert.KernelIdeal.τ Cert.KernelIdeal.sig (Elt F)) (V : Valuation Cert.ReferenceIdeal.τ Cert.ReferenceIdeal.sig (Elt F)) (h : Agree62 W V) : Agree63 (after Cert.KernelIdeal.KHost.st62 W) (after Cert.ReferenceIdeal.RefRun.st62 V) where
  main_arg1 := by
    simp only [Cert.KernelIdeal.KHost.st62, Cert.ReferenceIdeal.RefRun.st62]
    after_results_simp
    all_goals first | (simp only [h.main_arg1, h.main_v1157, h.main_v1164, h.main_v1168, h.main_v1170, h.main_v1172, h.main_v1177] <;> rfl) | rfl
  main_v1177 := by
    simp only [Cert.KernelIdeal.KHost.st62, Cert.ReferenceIdeal.RefRun.st62]
    after_results_simp
    all_goals first | (simp only [h.main_arg1, h.main_v1157, h.main_v1164, h.main_v1168, h.main_v1170, h.main_v1172, h.main_v1177] <;> rfl) | rfl
  main_v1184 := by
    simp only [Cert.KernelIdeal.KHost.st62, Cert.ReferenceIdeal.RefRun.st62]
    after_results_simp
    all_goals first | (simp only [h.main_arg1, h.main_v1157, h.main_v1164, h.main_v1168, h.main_v1170, h.main_v1172, h.main_v1177] <;> rfl) | rfl
  main_v1188 := by
    simp only [Cert.KernelIdeal.KHost.st62, Cert.ReferenceIdeal.RefRun.st62]
    after_results_simp
    all_goals first | (simp only [h.main_arg1, h.main_v1157, h.main_v1164, h.main_v1168, h.main_v1170, h.main_v1172, h.main_v1177] <;> rfl) | rfl
  main_v1190 := by
    simp only [Cert.KernelIdeal.KHost.st62, Cert.ReferenceIdeal.RefRun.st62]
    after_results_simp
    all_goals first | (simp only [h.main_arg1, h.main_v1157, h.main_v1164, h.main_v1168, h.main_v1170, h.main_v1172, h.main_v1177] <;> rfl) | rfl
  main_v1192 := by
    simp only [Cert.KernelIdeal.KHost.st62, Cert.ReferenceIdeal.RefRun.st62]
    after_results_simp
    all_goals first | (simp only [h.main_arg1, h.main_v1157, h.main_v1164, h.main_v1168, h.main_v1170, h.main_v1172, h.main_v1177] <;> rfl) | rfl
  main_v1194 := by
    simp only [Cert.KernelIdeal.KHost.st62, Cert.ReferenceIdeal.RefRun.st62]
    after_results_simp
    all_goals first | (simp only [h.main_arg1, h.main_v1157, h.main_v1164, h.main_v1168, h.main_v1170, h.main_v1172, h.main_v1177] <;> rfl) | rfl
  main_v1196 := by
    simp only [Cert.KernelIdeal.KHost.st62, Cert.ReferenceIdeal.RefRun.st62]
    after_results_simp
    all_goals first | (simp only [h.main_arg1, h.main_v1157, h.main_v1164, h.main_v1168, h.main_v1170, h.main_v1172, h.main_v1177] <;> rfl) | rfl
set_option maxRecDepth 8192 in
set_option maxHeartbeats 2000000 in
/-- Stretch 63 carries the agreement of boundary 63 to boundary 64. -/
theorem step63 (W : Valuation Cert.KernelIdeal.τ Cert.KernelIdeal.sig (Elt F)) (V : Valuation Cert.ReferenceIdeal.τ Cert.ReferenceIdeal.sig (Elt F)) (h : Agree63 W V) : Agree64 (after Cert.KernelIdeal.KHost.st63 W) (after Cert.ReferenceIdeal.RefRun.st63 V) where
  main_arg1 := by
    simp only [Cert.KernelIdeal.KHost.st63, Cert.ReferenceIdeal.RefRun.st63]
    after_results_simp
    all_goals first | (simp only [h.main_arg1, h.main_v1177, h.main_v1184, h.main_v1188, h.main_v1190, h.main_v1192, h.main_v1194, h.main_v1196] <;> rfl) | rfl
  main_v1197 := by
    simp only [Cert.KernelIdeal.KHost.st63, Cert.ReferenceIdeal.RefRun.st63]
    after_results_simp
    all_goals first | (simp only [h.main_arg1, h.main_v1177, h.main_v1184, h.main_v1188, h.main_v1190, h.main_v1192, h.main_v1194, h.main_v1196] <;> rfl) | rfl
  main_v1204 := by
    simp only [Cert.KernelIdeal.KHost.st63, Cert.ReferenceIdeal.RefRun.st63]
    after_results_simp
    all_goals first | (simp only [h.main_arg1, h.main_v1177, h.main_v1184, h.main_v1188, h.main_v1190, h.main_v1192, h.main_v1194, h.main_v1196] <;> rfl) | rfl
  main_v1208 := by
    simp only [Cert.KernelIdeal.KHost.st63, Cert.ReferenceIdeal.RefRun.st63]
    after_results_simp
    all_goals first | (simp only [h.main_arg1, h.main_v1177, h.main_v1184, h.main_v1188, h.main_v1190, h.main_v1192, h.main_v1194, h.main_v1196] <;> rfl) | rfl
  main_v1210 := by
    simp only [Cert.KernelIdeal.KHost.st63, Cert.ReferenceIdeal.RefRun.st63]
    after_results_simp
    all_goals first | (simp only [h.main_arg1, h.main_v1177, h.main_v1184, h.main_v1188, h.main_v1190, h.main_v1192, h.main_v1194, h.main_v1196] <;> rfl) | rfl
  main_v1212 := by
    simp only [Cert.KernelIdeal.KHost.st63, Cert.ReferenceIdeal.RefRun.st63]
    after_results_simp
    all_goals first | (simp only [h.main_arg1, h.main_v1177, h.main_v1184, h.main_v1188, h.main_v1190, h.main_v1192, h.main_v1194, h.main_v1196] <;> rfl) | rfl
  main_v1214 := by
    simp only [Cert.KernelIdeal.KHost.st63, Cert.ReferenceIdeal.RefRun.st63]
    after_results_simp
    all_goals first | (simp only [h.main_arg1, h.main_v1177, h.main_v1184, h.main_v1188, h.main_v1190, h.main_v1192, h.main_v1194, h.main_v1196] <;> rfl) | rfl
  main_v1215 := by
    simp only [Cert.KernelIdeal.KHost.st63, Cert.ReferenceIdeal.RefRun.st63]
    after_results_simp
    all_goals first | (simp only [h.main_arg1, h.main_v1177, h.main_v1184, h.main_v1188, h.main_v1190, h.main_v1192, h.main_v1194, h.main_v1196] <;> rfl) | rfl
set_option maxRecDepth 8192 in
set_option maxHeartbeats 2000000 in
/-- Stretch 64 carries the agreement of boundary 64 to boundary 65. -/
theorem step64 (W : Valuation Cert.KernelIdeal.τ Cert.KernelIdeal.sig (Elt F)) (V : Valuation Cert.ReferenceIdeal.τ Cert.ReferenceIdeal.sig (Elt F)) (h : Agree64 W V) : Agree65 (after Cert.KernelIdeal.KHost.st64 W) (after Cert.ReferenceIdeal.RefRun.st64 V) where
  main_arg1 := by
    simp only [Cert.KernelIdeal.KHost.st64, Cert.ReferenceIdeal.RefRun.st64]
    after_results_simp
    all_goals first | (simp only [h.main_arg1, h.main_v1197, h.main_v1204, h.main_v1208, h.main_v1210, h.main_v1212, h.main_v1214, h.main_v1215] <;> rfl) | rfl
  main_v1217 := by
    simp only [Cert.KernelIdeal.KHost.st64, Cert.ReferenceIdeal.RefRun.st64]
    after_results_simp
    all_goals first | (simp only [h.main_arg1, h.main_v1197, h.main_v1204, h.main_v1208, h.main_v1210, h.main_v1212, h.main_v1214, h.main_v1215] <;> rfl) | rfl
  main_v1224 := by
    simp only [Cert.KernelIdeal.KHost.st64, Cert.ReferenceIdeal.RefRun.st64]
    after_results_simp
    all_goals first | (simp only [h.main_arg1, h.main_v1197, h.main_v1204, h.main_v1208, h.main_v1210, h.main_v1212, h.main_v1214, h.main_v1215] <;> rfl) | rfl
  main_v1228 := by
    simp only [Cert.KernelIdeal.KHost.st64, Cert.ReferenceIdeal.RefRun.st64]
    after_results_simp
    all_goals first | (simp only [h.main_arg1, h.main_v1197, h.main_v1204, h.main_v1208, h.main_v1210, h.main_v1212, h.main_v1214, h.main_v1215] <;> rfl) | rfl
  main_v1230 := by
    simp only [Cert.KernelIdeal.KHost.st64, Cert.ReferenceIdeal.RefRun.st64]
    after_results_simp
    all_goals first | (simp only [h.main_arg1, h.main_v1197, h.main_v1204, h.main_v1208, h.main_v1210, h.main_v1212, h.main_v1214, h.main_v1215] <;> rfl) | rfl
  main_v1232 := by
    simp only [Cert.KernelIdeal.KHost.st64, Cert.ReferenceIdeal.RefRun.st64]
    after_results_simp
    all_goals first | (simp only [h.main_arg1, h.main_v1197, h.main_v1204, h.main_v1208, h.main_v1210, h.main_v1212, h.main_v1214, h.main_v1215] <;> rfl) | rfl
  main_v1234 := by
    simp only [Cert.KernelIdeal.KHost.st64, Cert.ReferenceIdeal.RefRun.st64]
    after_results_simp
    all_goals first | (simp only [h.main_arg1, h.main_v1197, h.main_v1204, h.main_v1208, h.main_v1210, h.main_v1212, h.main_v1214, h.main_v1215] <;> rfl) | rfl
set_option maxRecDepth 8192 in
set_option maxHeartbeats 2000000 in
/-- Stretch 65 carries the agreement of boundary 65 to boundary 66. -/
theorem step65 (W : Valuation Cert.KernelIdeal.τ Cert.KernelIdeal.sig (Elt F)) (V : Valuation Cert.ReferenceIdeal.τ Cert.ReferenceIdeal.sig (Elt F)) (h : Agree65 W V) : Agree66 (after Cert.KernelIdeal.KHost.st65 W) (after Cert.ReferenceIdeal.RefRun.st65 V) where
  main_arg1 := by
    simp only [Cert.KernelIdeal.KHost.st65, Cert.ReferenceIdeal.RefRun.st65]
    after_results_simp
    all_goals first | (simp only [h.main_arg1, h.main_v1217, h.main_v1224, h.main_v1228, h.main_v1230, h.main_v1232, h.main_v1234] <;> rfl) | rfl
  main_v1237 := by
    simp only [Cert.KernelIdeal.KHost.st65, Cert.ReferenceIdeal.RefRun.st65]
    after_results_simp
    all_goals first | (simp only [h.main_arg1, h.main_v1217, h.main_v1224, h.main_v1228, h.main_v1230, h.main_v1232, h.main_v1234] <;> rfl) | rfl
  main_v1244 := by
    simp only [Cert.KernelIdeal.KHost.st65, Cert.ReferenceIdeal.RefRun.st65]
    after_results_simp
    all_goals first | (simp only [h.main_arg1, h.main_v1217, h.main_v1224, h.main_v1228, h.main_v1230, h.main_v1232, h.main_v1234] <;> rfl) | rfl
  main_v1248 := by
    simp only [Cert.KernelIdeal.KHost.st65, Cert.ReferenceIdeal.RefRun.st65]
    after_results_simp
    all_goals first | (simp only [h.main_arg1, h.main_v1217, h.main_v1224, h.main_v1228, h.main_v1230, h.main_v1232, h.main_v1234] <;> rfl) | rfl
  main_v1250 := by
    simp only [Cert.KernelIdeal.KHost.st65, Cert.ReferenceIdeal.RefRun.st65]
    after_results_simp
    all_goals first | (simp only [h.main_arg1, h.main_v1217, h.main_v1224, h.main_v1228, h.main_v1230, h.main_v1232, h.main_v1234] <;> rfl) | rfl
  main_v1252 := by
    simp only [Cert.KernelIdeal.KHost.st65, Cert.ReferenceIdeal.RefRun.st65]
    after_results_simp
    all_goals first | (simp only [h.main_arg1, h.main_v1217, h.main_v1224, h.main_v1228, h.main_v1230, h.main_v1232, h.main_v1234] <;> rfl) | rfl
  main_v1253 := by
    simp only [Cert.KernelIdeal.KHost.st65, Cert.ReferenceIdeal.RefRun.st65]
    after_results_simp
    all_goals first | (simp only [h.main_arg1, h.main_v1217, h.main_v1224, h.main_v1228, h.main_v1230, h.main_v1232, h.main_v1234] <;> rfl) | rfl
set_option maxRecDepth 8192 in
set_option maxHeartbeats 2000000 in
/-- Stretch 66 carries the agreement of boundary 66 to boundary 67. -/
theorem step66 (W : Valuation Cert.KernelIdeal.τ Cert.KernelIdeal.sig (Elt F)) (V : Valuation Cert.ReferenceIdeal.τ Cert.ReferenceIdeal.sig (Elt F)) (h : Agree66 W V) : Agree67 (after Cert.KernelIdeal.KHost.st66 W) (after Cert.ReferenceIdeal.RefRun.st66 V) where
  main_arg1 := by
    simp only [Cert.KernelIdeal.KHost.st66, Cert.ReferenceIdeal.RefRun.st66]
    after_results_simp
    all_goals first | (simp only [h.main_arg1, h.main_v1237, h.main_v1244, h.main_v1248, h.main_v1250, h.main_v1252, h.main_v1253] <;> rfl) | rfl
  main_v1257 := by
    simp only [Cert.KernelIdeal.KHost.st66, Cert.ReferenceIdeal.RefRun.st66]
    after_results_simp
    all_goals first | (simp only [h.main_arg1, h.main_v1237, h.main_v1244, h.main_v1248, h.main_v1250, h.main_v1252, h.main_v1253] <;> rfl) | rfl
  main_v1264 := by
    simp only [Cert.KernelIdeal.KHost.st66, Cert.ReferenceIdeal.RefRun.st66]
    after_results_simp
    all_goals first | (simp only [h.main_arg1, h.main_v1237, h.main_v1244, h.main_v1248, h.main_v1250, h.main_v1252, h.main_v1253] <;> rfl) | rfl
  main_v1268 := by
    simp only [Cert.KernelIdeal.KHost.st66, Cert.ReferenceIdeal.RefRun.st66]
    after_results_simp
    all_goals first | (simp only [h.main_arg1, h.main_v1237, h.main_v1244, h.main_v1248, h.main_v1250, h.main_v1252, h.main_v1253] <;> rfl) | rfl
  main_v1270 := by
    simp only [Cert.KernelIdeal.KHost.st66, Cert.ReferenceIdeal.RefRun.st66]
    after_results_simp
    all_goals first | (simp only [h.main_arg1, h.main_v1237, h.main_v1244, h.main_v1248, h.main_v1250, h.main_v1252, h.main_v1253] <;> rfl) | rfl
  main_v1272 := by
    simp only [Cert.KernelIdeal.KHost.st66, Cert.ReferenceIdeal.RefRun.st66]
    after_results_simp
    all_goals first | (simp only [h.main_arg1, h.main_v1237, h.main_v1244, h.main_v1248, h.main_v1250, h.main_v1252, h.main_v1253] <;> rfl) | rfl
set_option maxRecDepth 8192 in
set_option maxHeartbeats 2000000 in
/-- Stretch 67 carries the agreement of boundary 67 to boundary 68. -/
theorem step67 (W : Valuation Cert.KernelIdeal.τ Cert.KernelIdeal.sig (Elt F)) (V : Valuation Cert.ReferenceIdeal.τ Cert.ReferenceIdeal.sig (Elt F)) (h : Agree67 W V) : Agree68 (after Cert.KernelIdeal.KHost.st67 W) (after Cert.ReferenceIdeal.RefRun.st67 V) where
  main_arg1 := by
    simp only [Cert.KernelIdeal.KHost.st67, Cert.ReferenceIdeal.RefRun.st67]
    after_results_simp
    all_goals first | (simp only [h.main_arg1, h.main_v1257, h.main_v1264, h.main_v1268, h.main_v1270, h.main_v1272] <;> rfl) | rfl
  main_v1277 := by
    simp only [Cert.KernelIdeal.KHost.st67, Cert.ReferenceIdeal.RefRun.st67]
    after_results_simp
    all_goals first | (simp only [h.main_arg1, h.main_v1257, h.main_v1264, h.main_v1268, h.main_v1270, h.main_v1272] <;> rfl) | rfl
  main_v1284 := by
    simp only [Cert.KernelIdeal.KHost.st67, Cert.ReferenceIdeal.RefRun.st67]
    after_results_simp
    all_goals first | (simp only [h.main_arg1, h.main_v1257, h.main_v1264, h.main_v1268, h.main_v1270, h.main_v1272] <;> rfl) | rfl
  main_v1288 := by
    simp only [Cert.KernelIdeal.KHost.st67, Cert.ReferenceIdeal.RefRun.st67]
    after_results_simp
    all_goals first | (simp only [h.main_arg1, h.main_v1257, h.main_v1264, h.main_v1268, h.main_v1270, h.main_v1272] <;> rfl) | rfl
  main_v1290 := by
    simp only [Cert.KernelIdeal.KHost.st67, Cert.ReferenceIdeal.RefRun.st67]
    after_results_simp
    all_goals first | (simp only [h.main_arg1, h.main_v1257, h.main_v1264, h.main_v1268, h.main_v1270, h.main_v1272] <;> rfl) | rfl
  main_v1291 := by
    simp only [Cert.KernelIdeal.KHost.st67, Cert.ReferenceIdeal.RefRun.st67]
    after_results_simp
    all_goals first | (simp only [h.main_arg1, h.main_v1257, h.main_v1264, h.main_v1268, h.main_v1270, h.main_v1272] <;> rfl) | rfl
set_option maxRecDepth 8192 in
set_option maxHeartbeats 2000000 in
/-- Stretch 68 carries the agreement of boundary 68 to boundary 69. -/
theorem step68 (W : Valuation Cert.KernelIdeal.τ Cert.KernelIdeal.sig (Elt F)) (V : Valuation Cert.ReferenceIdeal.τ Cert.ReferenceIdeal.sig (Elt F)) (h : Agree68 W V) : Agree69 (after Cert.KernelIdeal.KHost.st68 W) (after Cert.ReferenceIdeal.RefRun.st68 V) where
  main_arg1 := by
    simp only [Cert.KernelIdeal.KHost.st68, Cert.ReferenceIdeal.RefRun.st68]
    after_results_simp
    all_goals first | (simp only [h.main_arg1, h.main_v1277, h.main_v1284, h.main_v1288, h.main_v1290, h.main_v1291] <;> rfl) | rfl
  main_v1297 := by
    simp only [Cert.KernelIdeal.KHost.st68, Cert.ReferenceIdeal.RefRun.st68]
    after_results_simp
    all_goals first | (simp only [h.main_arg1, h.main_v1277, h.main_v1284, h.main_v1288, h.main_v1290, h.main_v1291] <;> rfl) | rfl
  main_v1304 := by
    simp only [Cert.KernelIdeal.KHost.st68, Cert.ReferenceIdeal.RefRun.st68]
    after_results_simp
    all_goals first | (simp only [h.main_arg1, h.main_v1277, h.main_v1284, h.main_v1288, h.main_v1290, h.main_v1291] <;> rfl) | rfl
  main_v1308 := by
    simp only [Cert.KernelIdeal.KHost.st68, Cert.ReferenceIdeal.RefRun.st68]
    after_results_simp
    all_goals first | (simp only [h.main_arg1, h.main_v1277, h.main_v1284, h.main_v1288, h.main_v1290, h.main_v1291] <;> rfl) | rfl
  main_v1310 := by
    simp only [Cert.KernelIdeal.KHost.st68, Cert.ReferenceIdeal.RefRun.st68]
    after_results_simp
    all_goals first | (simp only [h.main_arg1, h.main_v1277, h.main_v1284, h.main_v1288, h.main_v1290, h.main_v1291] <;> rfl) | rfl
set_option maxRecDepth 8192 in
set_option maxHeartbeats 2000000 in
/-- Stretch 69 carries the agreement of boundary 69 to boundary 70. -/
theorem step69 (W : Valuation Cert.KernelIdeal.τ Cert.KernelIdeal.sig (Elt F)) (V : Valuation Cert.ReferenceIdeal.τ Cert.ReferenceIdeal.sig (Elt F)) (h : Agree69 W V) : Agree70 (after Cert.KernelIdeal.KHost.st69 W) (after Cert.ReferenceIdeal.RefRun.st69 V) where
  main_arg1 := by
    simp only [Cert.KernelIdeal.KHost.st69, Cert.ReferenceIdeal.RefRun.st69]
    after_results_simp
    all_goals first | (simp only [h.main_arg1, h.main_v1297, h.main_v1304, h.main_v1308, h.main_v1310] <;> rfl) | rfl
  main_v1326 := by
    simp only [Cert.KernelIdeal.KHost.st69, Cert.ReferenceIdeal.RefRun.st69]
    after_results_simp
    all_goals first | (simp only [h.main_arg1, h.main_v1297, h.main_v1304, h.main_v1308, h.main_v1310] <;> rfl) | rfl
  main_v1328 := by
    simp only [Cert.KernelIdeal.KHost.st69, Cert.ReferenceIdeal.RefRun.st69]
    after_results_simp
    all_goals first | (simp only [h.main_arg1, h.main_v1297, h.main_v1304, h.main_v1308, h.main_v1310] <;> rfl) | rfl
set_option maxRecDepth 8192 in
set_option maxHeartbeats 2000000 in
/-- Stretch 70 carries the agreement of boundary 70 to boundary 71. -/
theorem step70 (W : Valuation Cert.KernelIdeal.τ Cert.KernelIdeal.sig (Elt F)) (V : Valuation Cert.ReferenceIdeal.τ Cert.ReferenceIdeal.sig (Elt F)) (h : Agree70 W V) : Agree71 (after Cert.KernelIdeal.KHost.st70 W) (after Cert.ReferenceIdeal.RefRun.st70 V) where
  main_arg1 := by
    simp only [Cert.KernelIdeal.KHost.st70, Cert.ReferenceIdeal.RefRun.st70]
    after_results_simp
    all_goals first | (simp only [h.main_arg1, h.main_v1326, h.main_v1328] <;> rfl) | rfl
  main_v1326 := by
    simp only [Cert.KernelIdeal.KHost.st70, Cert.ReferenceIdeal.RefRun.st70]
    after_results_simp
    all_goals first | (simp only [h.main_arg1, h.main_v1326, h.main_v1328] <;> rfl) | rfl
  main_v1341 := by
    simp only [Cert.KernelIdeal.KHost.st70, Cert.ReferenceIdeal.RefRun.st70]
    after_results_simp
    all_goals first | (simp only [h.main_arg1, h.main_v1326, h.main_v1328] <;> rfl) | rfl
  main_v1346 := by
    simp only [Cert.KernelIdeal.KHost.st70, Cert.ReferenceIdeal.RefRun.st70]
    after_results_simp
    all_goals first | (simp only [h.main_arg1, h.main_v1326, h.main_v1328] <;> rfl) | rfl
  main_v1347 := by
    simp only [Cert.KernelIdeal.KHost.st70, Cert.ReferenceIdeal.RefRun.st70]
    after_results_simp
    all_goals first | (simp only [h.main_arg1, h.main_v1326, h.main_v1328] <;> rfl) | rfl
set_option maxRecDepth 8192 in
set_option maxHeartbeats 2000000 in
/-- Stretch 71 carries the agreement of boundary 71 to boundary 72. -/
theorem step71 (W : Valuation Cert.KernelIdeal.τ Cert.KernelIdeal.sig (Elt F)) (V : Valuation Cert.ReferenceIdeal.τ Cert.ReferenceIdeal.sig (Elt F)) (h : Agree71 W V) : Agree72 (after Cert.KernelIdeal.KHost.st71 W) (after Cert.ReferenceIdeal.RefRun.st71 V) where
  main_arg1 := by
    simp only [Cert.KernelIdeal.KHost.st71, Cert.ReferenceIdeal.RefRun.st71]
    after_results_simp
    all_goals first | (simp only [h.main_arg1, h.main_v1326, h.main_v1341, h.main_v1346, h.main_v1347] <;> rfl) | rfl
  main_v1348 := by
    simp only [Cert.KernelIdeal.KHost.st71, Cert.ReferenceIdeal.RefRun.st71]
    after_results_simp
    all_goals first | (simp only [h.main_arg1, h.main_v1326, h.main_v1341, h.main_v1346, h.main_v1347] <;> rfl) | rfl
  main_v1361 := by
    simp only [Cert.KernelIdeal.KHost.st71, Cert.ReferenceIdeal.RefRun.st71]
    after_results_simp
    all_goals first | (simp only [h.main_arg1, h.main_v1326, h.main_v1341, h.main_v1346, h.main_v1347] <;> rfl) | rfl
  main_v1366 := by
    simp only [Cert.KernelIdeal.KHost.st71, Cert.ReferenceIdeal.RefRun.st71]
    after_results_simp
    all_goals first | (simp only [h.main_arg1, h.main_v1326, h.main_v1341, h.main_v1346, h.main_v1347] <;> rfl) | rfl
  main_c_71 := by
    simp only [Cert.KernelIdeal.KHost.st71, Cert.ReferenceIdeal.RefRun.st71]
    after_results_simp
    all_goals first | (simp only [h.main_arg1, h.main_v1326, h.main_v1341, h.main_v1346, h.main_v1347] <;> rfl) | rfl

end Cert.Lock

end
-- ==== Proof.LockW6.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 72 carries the agreement of boundary 72 to boundary 73. -/
theorem step72 (W : Valuation Cert.KernelIdeal.τ Cert.KernelIdeal.sig (Elt F)) (V : Valuation Cert.ReferenceIdeal.τ Cert.ReferenceIdeal.sig (Elt F)) (h : Agree72 W V) : Agree73 (after Cert.KernelIdeal.KHost.st72 W) (after Cert.ReferenceIdeal.RefRun.st72 V) where
  main_arg1 := by
    simp only [Cert.KernelIdeal.KHost.st72, Cert.ReferenceIdeal.RefRun.st72]
    after_results_simp
    all_goals first | (simp only [h.main_arg1, h.main_v1348, h.main_v1361, h.main_v1366, h.main_c_71] <;> rfl) | rfl
  main_v1368 := by
    simp only [Cert.KernelIdeal.KHost.st72, Cert.ReferenceIdeal.RefRun.st72]
    after_results_simp
    all_goals first | (simp only [h.main_arg1, h.main_v1348, h.main_v1361, h.main_v1366, h.main_c_71] <;> rfl) | rfl
  main_v1381 := by
    simp only [Cert.KernelIdeal.KHost.st72, Cert.ReferenceIdeal.RefRun.st72]
    after_results_simp
    all_goals first | (simp only [h.main_arg1, h.main_v1348, h.main_v1361, h.main_v1366, h.main_c_71] <;> rfl) | rfl
  main_v1386 := by
    simp only [Cert.KernelIdeal.KHost.st72, Cert.ReferenceIdeal.RefRun.st72]
    after_results_simp
    all_goals first | (simp only [h.main_arg1, h.main_v1348, h.main_v1361, h.main_v1366, h.main_c_71] <;> rfl) | rfl
set_option maxRecDepth 8192 in
set_option maxHeartbeats 2000000 in
/-- Stretch 73 carries the agreement of boundary 73 to boundary 74. -/
theorem step73 (W : Valuation Cert.KernelIdeal.τ Cert.KernelIdeal.sig (Elt F)) (V : Valuation Cert.ReferenceIdeal.τ Cert.ReferenceIdeal.sig (Elt F)) (h : Agree73 W V) : Agree74 (after Cert.KernelIdeal.KHost.st73 W) (after Cert.ReferenceIdeal.RefRun.st73 V) where
  main_arg1 := by
    simp only [Cert.KernelIdeal.KHost.st73, Cert.ReferenceIdeal.RefRun.st73]
    after_results_simp
    all_goals first | (simp only [h.main_arg1, h.main_v1368, h.main_v1381, h.main_v1386] <;> rfl) | rfl
  main_v1388 := by
    simp only [Cert.KernelIdeal.KHost.st73, Cert.ReferenceIdeal.RefRun.st73]
    after_results_simp
    all_goals first | (simp only [h.main_arg1, h.main_v1368, h.main_v1381, h.main_v1386] <;> rfl) | rfl
  main_v1401 := by
    simp only [Cert.KernelIdeal.KHost.st73, Cert.ReferenceIdeal.RefRun.st73]
    after_results_simp
    all_goals first | (simp only [h.main_arg1, h.main_v1368, h.main_v1381, h.main_v1386] <;> rfl) | rfl
  main_v1403 := by
    simp only [Cert.KernelIdeal.KHost.st73, Cert.ReferenceIdeal.RefRun.st73]
    after_results_simp
    all_goals first | (simp only [h.main_arg1, h.main_v1368, h.main_v1381, h.main_v1386] <;> rfl) | rfl
  main_v1405 := by
    simp only [Cert.KernelIdeal.KHost.st73, Cert.ReferenceIdeal.RefRun.st73]
    after_results_simp
    all_goals first | (simp only [h.main_arg1, h.main_v1368, h.main_v1381, h.main_v1386] <;> rfl) | rfl
set_option maxRecDepth 8192 in
set_option maxHeartbeats 2000000 in
/-- Stretch 74 carries the agreement of boundary 74 to boundary 75. -/
theorem step74 (W : Valuation Cert.KernelIdeal.τ Cert.KernelIdeal.sig (Elt F)) (V : Valuation Cert.ReferenceIdeal.τ Cert.ReferenceIdeal.sig (Elt F)) (h : Agree74 W V) : Agree75 (after Cert.KernelIdeal.KHost.st74 W) (after Cert.ReferenceIdeal.RefRun.st74 V) where
  main_arg1 := by
    simp only [Cert.KernelIdeal.KHost.st74, Cert.ReferenceIdeal.RefRun.st74]
    after_results_simp
    all_goals first | (simp only [h.main_arg1, h.main_v1388, h.main_v1401, h.main_v1403, h.main_v1405] <;> rfl) | rfl
  main_v1408 := by
    simp only [Cert.KernelIdeal.KHost.st74, Cert.ReferenceIdeal.RefRun.st74]
    after_results_simp
    all_goals first | (simp only [h.main_arg1, h.main_v1388, h.main_v1401, h.main_v1403, h.main_v1405] <;> rfl) | rfl
  main_v1416 := by
    simp only [Cert.KernelIdeal.KHost.st74, Cert.ReferenceIdeal.RefRun.st74]
    after_results_simp
    all_goals first | (simp only [h.main_arg1, h.main_v1388, h.main_v1401, h.main_v1403, h.main_v1405] <;> rfl) | rfl
  main_v1421 := by
    simp only [Cert.KernelIdeal.KHost.st74, Cert.ReferenceIdeal.RefRun.st74]
    after_results_simp
    all_goals first | (simp only [h.main_arg1, h.main_v1388, h.main_v1401, h.main_v1403, h.main_v1405] <;> rfl) | rfl
  main_v1423 := by
    simp only [Cert.KernelIdeal.KHost.st74, Cert.ReferenceIdeal.RefRun.st74]
    after_results_simp
    all_goals first | (simp only [h.main_arg1, h.main_v1388, h.main_v1401, h.main_v1403, h.main_v1405] <;> rfl) | rfl
  main_v1424 := by
    simp only [Cert.KernelIdeal.KHost.st74, Cert.ReferenceIdeal.RefRun.st74]
    after_results_simp
    all_goals first | (simp only [h.main_arg1, h.main_v1388, h.main_v1401, h.main_v1403, h.main_v1405] <;> rfl) | rfl
set_option maxRecDepth 8192 in
set_option maxHeartbeats 2000000 in
/-- Stretch 75 carries the agreement of boundary 75 to boundary 76. -/
theorem step75 (W : Valuation Cert.KernelIdeal.τ Cert.KernelIdeal.sig (Elt F)) (V : Valuation Cert.ReferenceIdeal.τ Cert.ReferenceIdeal.sig (Elt F)) (h : Agree75 W V) : Agree76 (after Cert.KernelIdeal.KHost.st75 W) (after Cert.ReferenceIdeal.RefRun.st75 V) where
  main_arg1 := by
    simp only [Cert.KernelIdeal.KHost.st75, Cert.ReferenceIdeal.RefRun.st75]
    after_results_simp
    all_goals first | (simp only [h.main_arg1, h.main_v1408, h.main_v1416, h.main_v1421, h.main_v1423, h.main_v1424] <;> rfl) | rfl
  main_v1428 := by
    simp only [Cert.KernelIdeal.KHost.st75, Cert.ReferenceIdeal.RefRun.st75]
    after_results_simp
    all_goals first | (simp only [h.main_arg1, h.main_v1408, h.main_v1416, h.main_v1421, h.main_v1423, h.main_v1424] <;> rfl) | rfl
  main_v1432 := by
    simp only [Cert.KernelIdeal.KHost.st75, Cert.ReferenceIdeal.RefRun.st75]
    after_results_simp
    all_goals first | (simp only [h.main_arg1, h.main_v1408, h.main_v1416, h.main_v1421, h.main_v1423, h.main_v1424] <;> rfl) | rfl
  main_v1436 := by
    simp only [Cert.KernelIdeal.KHost.st75, Cert.ReferenceIdeal.RefRun.st75]
    after_results_simp
    all_goals first | (simp only [h.main_arg1, h.main_v1408, h.main_v1416, h.main_v1421, h.main_v1423, h.main_v1424] <;> rfl) | rfl
  main_v1441 := by
    simp only [Cert.KernelIdeal.KHost.st75, Cert.ReferenceIdeal.RefRun.st75]
    after_results_simp
    all_goals first | (simp only [h.main_arg1, h.main_v1408, h.main_v1416, h.main_v1421, h.main_v1423, h.main_v1424] <;> rfl) | rfl
  main_v1443 := by
    simp only [Cert.KernelIdeal.KHost.st75, Cert.ReferenceIdeal.RefRun.st75]
    after_results_simp
    all_goals first | (simp only [h.main_arg1, h.main_v1408, h.main_v1416, h.main_v1421, h.main_v1423, h.main_v1424] <;> rfl) | rfl
set_option maxRecDepth 8192 in
set_option maxHeartbeats 2000000 in
/-- Stretch 76 carries the agreement of boundary 76 to boundary 77. -/
theorem step76 (W : Valuation Cert.KernelIdeal.τ Cert.KernelIdeal.sig (Elt F)) (V : Valuation Cert.ReferenceIdeal.τ Cert.ReferenceIdeal.sig (Elt F)) (h : Agree76 W V) : Agree77 (after Cert.KernelIdeal.KHost.st76 W) (after Cert.ReferenceIdeal.RefRun.st76 V) where
  main_arg1 := by
    simp only [Cert.KernelIdeal.KHost.st76, Cert.ReferenceIdeal.RefRun.st76]
    after_results_simp
    all_goals first | (simp only [h.main_arg1, h.main_v1428, h.main_v1432, h.main_v1436, h.main_v1441, h.main_v1443] <;> rfl) | rfl
  main_v1441 := by
    simp only [Cert.KernelIdeal.KHost.st76, Cert.ReferenceIdeal.RefRun.st76]
    after_results_simp
    all_goals first | (simp only [h.main_arg1, h.main_v1428, h.main_v1432, h.main_v1436, h.main_v1441, h.main_v1443] <;> rfl) | rfl
  main_v1448 := by
    simp only [Cert.KernelIdeal.KHost.st76, Cert.ReferenceIdeal.RefRun.st76]
    after_results_simp
    all_goals first | (simp only [h.main_arg1, h.main_v1428, h.main_v1432, h.main_v1436, h.main_v1441, h.main_v1443] <;> rfl) | rfl
  main_v1452 := by
    simp only [Cert.KernelIdeal.KHost.st76, Cert.ReferenceIdeal.RefRun.st76]
    after_results_simp
    all_goals first | (simp only [h.main_arg1, h.main_v1428, h.main_v1432, h.main_v1436, h.main_v1441, h.main_v1443] <;> rfl) | rfl
  main_v1456 := by
    simp only [Cert.KernelIdeal.KHost.st76, Cert.ReferenceIdeal.RefRun.st76]
    after_results_simp
    all_goals first | (simp only [h.main_arg1, h.main_v1428, h.main_v1432, h.main_v1436, h.main_v1441, h.main_v1443] <;> rfl) | rfl
  main_v1461 := by
    simp only [Cert.KernelIdeal.KHost.st76, Cert.ReferenceIdeal.RefRun.st76]
    after_results_simp
    all_goals first | (simp only [h.main_arg1, h.main_v1428, h.main_v1432, h.main_v1436, h.main_v1441, h.main_v1443] <;> rfl) | rfl
  main_v1462 := by
    simp only [Cert.KernelIdeal.KHost.st76, Cert.ReferenceIdeal.RefRun.st76]
    after_results_simp
    all_goals first | (simp only [h.main_arg1, h.main_v1428, h.main_v1432, h.main_v1436, h.main_v1441, h.main_v1443] <;> rfl) | rfl
set_option maxRecDepth 8192 in
set_option maxHeartbeats 2000000 in
/-- Stretch 77 carries the agreement of boundary 77 to boundary 78. -/
theorem step77 (W : Valuation Cert.KernelIdeal.τ Cert.KernelIdeal.sig (Elt F)) (V : Valuation Cert.ReferenceIdeal.τ Cert.ReferenceIdeal.sig (Elt F)) (h : Agree77 W V) : Agree78 (after Cert.KernelIdeal.KHost.st77 W) (after Cert.ReferenceIdeal.RefRun.st77 V) where
  main_arg1 := by
    simp only [Cert.KernelIdeal.KHost.st77, Cert.ReferenceIdeal.RefRun.st77]
    after_results_simp
    all_goals first | (simp only [h.main_arg1, h.main_v1441, h.main_v1448, h.main_v1452, h.main_v1456, h.main_v1461, h.main_v1462] <;> rfl) | rfl
  main_v1461 := by
    simp only [Cert.KernelIdeal.KHost.st77, Cert.ReferenceIdeal.RefRun.st77]
    after_results_simp
    all_goals first | (simp only [h.main_arg1, h.main_v1441, h.main_v1448, h.main_v1452, h.main_v1456, h.main_v1461, h.main_v1462] <;> rfl) | rfl
  main_v1468 := by
    simp only [Cert.KernelIdeal.KHost.st77, Cert.ReferenceIdeal.RefRun.st77]
    after_results_simp
    all_goals first | (simp only [h.main_arg1, h.main_v1441, h.main_v1448, h.main_v1452, h.main_v1456, h.main_v1461, h.main_v1462] <;> rfl) | rfl
  main_v1472 := by
    simp only [Cert.KernelIdeal.KHost.st77, Cert.ReferenceIdeal.RefRun.st77]
    after_results_simp
    all_goals first | (simp only [h.main_arg1, h.main_v1441, h.main_v1448, h.main_v1452, h.main_v1456, h.main_v1461, h.main_v1462] <;> rfl) | rfl
  main_v1474 := by
    simp only [Cert.KernelIdeal.KHost.st77, Cert.ReferenceIdeal.RefRun.st77]
    after_results_simp
    all_goals first | (simp only [h.main_arg1, h.main_v1441, h.main_v1448, h.main_v1452, h.main_v1456, h.main_v1461, h.main_v1462] <;> rfl) | rfl
  main_v1476 := by
    simp only [Cert.KernelIdeal.KHost.st77, Cert.ReferenceIdeal.RefRun.st77]
    after_results_simp
    all_goals first | (simp only [h.main_arg1, h.main_v1441, h.main_v1448, h.main_v1452, h.main_v1456, h.main_v1461, h.main_v1462] <;> rfl) | rfl
  main_v1481 := by
    simp only [Cert.KernelIdeal.KHost.st77, Cert.ReferenceIdeal.RefRun.st77]
    after_results_simp
    all_goals first | (simp only [h.main_arg1, h.main_v1441, h.main_v1448, h.main_v1452, h.main_v1456, h.main_v1461, h.main_v1462] <;> rfl) | rfl
set_option maxRecDepth 8192 in
set_option maxHeartbeats 2000000 in
/-- Stretch 78 carries the agreement of boundary 78 to boundary 79. -/
theorem step78 (W : Valuation Cert.KernelIdeal.τ Cert.KernelIdeal.sig (Elt F)) (V : Valuation Cert.ReferenceIdeal.τ Cert.ReferenceIdeal.sig (Elt F)) (h : Agree78 W V) : Agree79 (after Cert.KernelIdeal.KHost.st78 W) (after Cert.ReferenceIdeal.RefRun.st78 V) where
  main_arg1 := by
    simp only [Cert.KernelIdeal.KHost.st78, Cert.ReferenceIdeal.RefRun.st78]
    after_results_simp
    all_goals first | (simp only [h.main_arg1, h.main_v1461, h.main_v1468, h.main_v1472, h.main_v1474, h.main_v1476, h.main_v1481] <;> rfl) | rfl
  main_v1481 := by
    simp only [Cert.KernelIdeal.KHost.st78, Cert.ReferenceIdeal.RefRun.st78]
    after_results_simp
    all_goals first | (simp only [h.main_arg1, h.main_v1461, h.main_v1468, h.main_v1472, h.main_v1474, h.main_v1476, h.main_v1481] <;> rfl) | rfl
  main_v1488 := by
    simp only [Cert.KernelIdeal.KHost.st78, Cert.ReferenceIdeal.RefRun.st78]
    after_results_simp
    all_goals first | (simp only [h.main_arg1, h.main_v1461, h.main_v1468, h.main_v1472, h.main_v1474, h.main_v1476, h.main_v1481] <;> rfl) | rfl
  main_v1492 := by
    simp only [Cert.KernelIdeal.KHost.st78, Cert.ReferenceIdeal.RefRun.st78]
    after_results_simp
    all_goals first | (simp only [h.main_arg1, h.main_v1461, h.main_v1468, h.main_v1472, h.main_v1474, h.main_v1476, h.main_v1481] <;> rfl) | rfl
  main_v1494 := by
    simp only [Cert.KernelIdeal.KHost.st78, Cert.ReferenceIdeal.RefRun.st78]
    after_results_simp
    all_goals first | (simp only [h.main_arg1, h.main_v1461, h.main_v1468, h.main_v1472, h.main_v1474, h.main_v1476, h.main_v1481] <;> rfl) | rfl
  main_v1496 := by
    simp only [Cert.KernelIdeal.KHost.st78, Cert.ReferenceIdeal.RefRun.st78]
    after_results_simp
    all_goals first | (simp only [h.main_arg1, h.main_v1461, h.main_v1468, h.main_v1472, h.main_v1474, h.main_v1476, h.main_v1481] <;> rfl) | rfl
  main_v1498 := by
    simp only [Cert.KernelIdeal.KHost.st78, Cert.ReferenceIdeal.RefRun.st78]
    after_results_simp
    all_goals first | (simp only [h.main_arg1, h.main_v1461, h.main_v1468, h.main_v1472, h.main_v1474, h.main_v1476, h.main_v1481] <;> rfl) | rfl
  main_v1500 := by
    simp only [Cert.KernelIdeal.KHost.st78, Cert.ReferenceIdeal.RefRun.st78]
    after_results_simp
    all_goals first | (simp only [h.main_arg1, h.main_v1461, h.main_v1468, h.main_v1472, h.main_v1474, h.main_v1476, h.main_v1481] <;> rfl) | rfl
set_option maxRecDepth 8192 in
set_option maxHeartbeats 2000000 in
/-- Stretch 79 carries the agreement of boundary 79 to boundary 80. -/
theorem step79 (W : Valuation Cert.KernelIdeal.τ Cert.KernelIdeal.sig (Elt F)) (V : Valuation Cert.ReferenceIdeal.τ Cert.ReferenceIdeal.sig (Elt F)) (h : Agree79 W V) : Agree80 (after Cert.KernelIdeal.KHost.st79 W) (after Cert.ReferenceIdeal.RefRun.st79 V) where
  main_arg1 := by
    simp only [Cert.KernelIdeal.KHost.st79, Cert.ReferenceIdeal.RefRun.st79]
    after_results_simp
    all_goals first | (simp only [h.main_arg1, h.main_v1481, h.main_v1488, h.main_v1492, h.main_v1494, h.main_v1496, h.main_v1498, h.main_v1500] <;> rfl) | rfl
  main_v1501 := by
    simp only [Cert.KernelIdeal.KHost.st79, Cert.ReferenceIdeal.RefRun.st79]
    after_results_simp
    all_goals first | (simp only [h.main_arg1, h.main_v1481, h.main_v1488, h.main_v1492, h.main_v1494, h.main_v1496, h.main_v1498, h.main_v1500] <;> rfl) | rfl
  main_v1508 := by
    simp only [Cert.KernelIdeal.KHost.st79, Cert.ReferenceIdeal.RefRun.st79]
    after_results_simp
    all_goals first | (simp only [h.main_arg1, h.main_v1481, h.main_v1488, h.main_v1492, h.main_v1494, h.main_v1496, h.main_v1498, h.main_v1500] <;> rfl) | rfl
  main_v1512 := by
    simp only [Cert.KernelIdeal.KHost.st79, Cert.ReferenceIdeal.RefRun.st79]
    after_results_simp
    all_goals first | (simp only [h.main_arg1, h.main_v1481, h.main_v1488, h.main_v1492, h.main_v1494, h.main_v1496, h.main_v1498, h.main_v1500] <;> rfl) | rfl
  main_v1514 := by
    simp only [Cert.KernelIdeal.KHost.st79, Cert.ReferenceIdeal.RefRun.st79]
    after_results_simp
    all_goals first | (simp only [h.main_arg1, h.main_v1481, h.main_v1488, h.main_v1492, h.main_v1494, h.main_v1496, h.main_v1498, h.main_v1500] <;> rfl) | rfl
  main_v1516 := by
    simp only [Cert.KernelIdeal.KHost.st79, Cert.ReferenceIdeal.RefRun.st79]
    after_results_simp
    all_goals first | (simp only [h.main_arg1, h.main_v1481, h.main_v1488, h.main_v1492, h.main_v1494, h.main_v1496, h.main_v1498, h.main_v1500] <;> rfl) | rfl
  main_v1518 := by
    simp only [Cert.KernelIdeal.KHost.st79, Cert.ReferenceIdeal.RefRun.st79]
    after_results_simp
    all_goals first | (simp only [h.main_arg1, h.main_v1481, h.main_v1488, h.main_v1492, h.main_v1494, h.main_v1496, h.main_v1498, h.main_v1500] <;> rfl) | rfl
  main_v1519 := by
    simp only [Cert.KernelIdeal.KHost.st79, Cert.ReferenceIdeal.RefRun.st79]
    after_results_simp
    all_goals first | (simp only [h.main_arg1, h.main_v1481, h.main_v1488, h.main_v1492, h.main_v1494, h.main_v1496, h.main_v1498, h.main_v1500] <;> rfl) | rfl
set_option maxRecDepth 8192 in
set_option maxHeartbeats 2000000 in
/-- Stretch 80 carries the agreement of boundary 80 to boundary 81. -/
theorem step80 (W : Valuation Cert.KernelIdeal.τ Cert.KernelIdeal.sig (Elt F)) (V : Valuation Cert.ReferenceIdeal.τ Cert.ReferenceIdeal.sig (Elt F)) (h : Agree80 W V) : Agree81 (after Cert.KernelIdeal.KHost.st80 W) (after Cert.ReferenceIdeal.RefRun.st80 V) where
  main_arg1 := by
    simp only [Cert.KernelIdeal.KHost.st80, Cert.ReferenceIdeal.RefRun.st80]
    after_results_simp
    all_goals first | (simp only [h.main_arg1, h.main_v1501, h.main_v1508, h.main_v1512, h.main_v1514, h.main_v1516, h.main_v1518, h.main_v1519] <;> rfl) | rfl
  main_v1530 := by
    simp only [Cert.KernelIdeal.KHost.st80, Cert.ReferenceIdeal.RefRun.st80]
    after_results_simp
    all_goals first | (simp only [h.main_arg1, h.main_v1501, h.main_v1508, h.main_v1512, h.main_v1514, h.main_v1516, h.main_v1518, h.main_v1519] <;> rfl) | rfl
  main_v1532 := by
    simp only [Cert.KernelIdeal.KHost.st80, Cert.ReferenceIdeal.RefRun.st80]
    after_results_simp
    all_goals first | (simp only [h.main_arg1, h.main_v1501, h.main_v1508, h.main_v1512, h.main_v1514, h.main_v1516, h.main_v1518, h.main_v1519] <;> rfl) | rfl
  main_v1536 := by
    simp only [Cert.KernelIdeal.KHost.st80, Cert.ReferenceIdeal.RefRun.st80]
    after_results_simp
    all_goals first | (simp only [h.main_arg1, h.main_v1501, h.main_v1508, h.main_v1512, h.main_v1514, h.main_v1516, h.main_v1518, h.main_v1519] <;> rfl) | rfl
  main_v1537 := by
    simp only [Cert.KernelIdeal.KHost.st80, Cert.ReferenceIdeal.RefRun.st80]
    after_results_simp
    all_goals first | (simp only [h.main_arg1, h.main_v1501, h.main_v1508, h.main_v1512, h.main_v1514, h.main_v1516, h.main_v1518, h.main_v1519] <;> rfl) | rfl
set_option maxRecDepth 8192 in
set_option maxHeartbeats 2000000 in
/-- Stretch 81 carries the agreement of boundary 81 to boundary 82. -/
theorem step81 (W : Valuation Cert.KernelIdeal.τ Cert.KernelIdeal.sig (Elt F)) (V : Valuation Cert.ReferenceIdeal.τ Cert.ReferenceIdeal.sig (Elt F)) (h : Agree81 W V) : Agree82 (after Cert.KernelIdeal.KHost.st81 W) (after Cert.ReferenceIdeal.RefRun.st81 V) where
  main_arg1 := by
    simp only [Cert.KernelIdeal.KHost.st81, Cert.ReferenceIdeal.RefRun.st81]
    after_results_simp
    all_goals first | (simp only [h.main_arg1, h.main_v1530, h.main_v1532, h.main_v1536, h.main_v1537] <;> rfl) | rfl
  main_v1545 := by
    simp only [Cert.KernelIdeal.KHost.st81, Cert.ReferenceIdeal.RefRun.st81]
    after_results_simp
    all_goals first | (simp only [h.main_arg1, h.main_v1530, h.main_v1532, h.main_v1536, h.main_v1537] <;> rfl) | rfl
  main_v1552 := by
    simp only [Cert.KernelIdeal.KHost.st81, Cert.ReferenceIdeal.RefRun.st81]
    after_results_simp
    all_goals first | (simp only [h.main_arg1, h.main_v1530, h.main_v1532, h.main_v1536, h.main_v1537] <;> rfl) | rfl
  main_v1554 := by
    simp only [Cert.KernelIdeal.KHost.st81, Cert.ReferenceIdeal.RefRun.st81]
    after_results_simp
    all_goals first | (simp only [h.main_arg1, h.main_v1530, h.main_v1532, h.main_v1536, h.main_v1537] <;> rfl) | rfl
  main_v1556 := by
    simp only [Cert.KernelIdeal.KHost.st81, Cert.ReferenceIdeal.RefRun.st81]
    after_results_simp
    all_goals first | (simp only [h.main_arg1, h.main_v1530, h.main_v1532, h.main_v1536, h.main_v1537] <;> rfl) | rfl
set_option maxRecDepth 8192 in
set_option maxHeartbeats 2000000 in
/-- Stretch 82 carries the agreement of boundary 82 to boundary 83. -/
theorem step82 (W : Valuation Cert.KernelIdeal.τ Cert.KernelIdeal.sig (Elt F)) (V : Valuation Cert.ReferenceIdeal.τ Cert.ReferenceIdeal.sig (Elt F)) (h : Agree82 W V) : Agree83 (after Cert.KernelIdeal.KHost.st82 W) (after Cert.ReferenceIdeal.RefRun.st82 V) where
  main_arg1 := by
    simp only [Cert.KernelIdeal.KHost.st82, Cert.ReferenceIdeal.RefRun.st82]
    after_results_simp
    all_goals first | (simp only [h.main_arg1, h.main_v1545, h.main_v1552, h.main_v1554, h.main_v1556] <;> rfl) | rfl
  main_v1565 := by
    simp only [Cert.KernelIdeal.KHost.st82, Cert.ReferenceIdeal.RefRun.st82]
    after_results_simp
    all_goals first | (simp only [h.main_arg1, h.main_v1545, h.main_v1552, h.main_v1554, h.main_v1556] <;> rfl) | rfl
  main_v1572 := by
    simp only [Cert.KernelIdeal.KHost.st82, Cert.ReferenceIdeal.RefRun.st82]
    after_results_simp
    all_goals first | (simp only [h.main_arg1, h.main_v1545, h.main_v1552, h.main_v1554, h.main_v1556] <;> rfl) | rfl
  main_v1574 := by
    simp only [Cert.KernelIdeal.KHost.st82, Cert.ReferenceIdeal.RefRun.st82]
    after_results_simp
    all_goals first | (simp only [h.main_arg1, h.main_v1545, h.main_v1552, h.main_v1554, h.main_v1556] <;> rfl) | rfl
  main_v1575 := by
    simp only [Cert.KernelIdeal.KHost.st82, Cert.ReferenceIdeal.RefRun.st82]
    after_results_simp
    all_goals first | (simp only [h.main_arg1, h.main_v1545, h.main_v1552, h.main_v1554, h.main_v1556] <;> rfl) | rfl
set_option maxRecDepth 8192 in
set_option maxHeartbeats 2000000 in
/-- Stretch 83 carries the agreement of boundary 83 to boundary 84. -/
theorem step83 (W : Valuation Cert.KernelIdeal.τ Cert.KernelIdeal.sig (Elt F)) (V : Valuation Cert.ReferenceIdeal.τ Cert.ReferenceIdeal.sig (Elt F)) (h : Agree83 W V) : Agree84 (after Cert.KernelIdeal.KHost.st83 W) (after Cert.ReferenceIdeal.RefRun.st83 V) where
  main_arg1 := by
    simp only [Cert.KernelIdeal.KHost.st83, Cert.ReferenceIdeal.RefRun.st83]
    after_results_simp
    all_goals first | (simp only [h.main_arg1, h.main_v1565, h.main_v1572, h.main_v1574, h.main_v1575] <;> rfl) | rfl
  main_v1585 := by
    simp only [Cert.KernelIdeal.KHost.st83, Cert.ReferenceIdeal.RefRun.st83]
    after_results_simp
    all_goals first | (simp only [h.main_arg1, h.main_v1565, h.main_v1572, h.main_v1574, h.main_v1575] <;> rfl) | rfl
  main_v1592 := by
    simp only [Cert.KernelIdeal.KHost.st83, Cert.ReferenceIdeal.RefRun.st83]
    after_results_simp
    all_goals first | (simp only [h.main_arg1, h.main_v1565, h.main_v1572, h.main_v1574, h.main_v1575] <;> rfl) | rfl
  main_v1594 := by
    simp only [Cert.KernelIdeal.KHost.st83, Cert.ReferenceIdeal.RefRun.st83]
    after_results_simp
    all_goals first | (simp only [h.main_arg1, h.main_v1565, h.main_v1572, h.main_v1574, h.main_v1575] <;> rfl) | rfl

end Cert.Lock

end
-- ==== Proof.LockW7.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 84 carries the agreement of boundary 84 to boundary 85. -/
theorem step84 (W : Valuation Cert.KernelIdeal.τ Cert.KernelIdeal.sig (Elt F)) (V : Valuation Cert.ReferenceIdeal.τ Cert.ReferenceIdeal.sig (Elt F)) (h : Agree84 W V) : Agree85 (after Cert.KernelIdeal.KHost.st84 W) (after Cert.ReferenceIdeal.RefRun.st84 V) where
  main_arg1 := by
    simp only [Cert.KernelIdeal.KHost.st84, Cert.ReferenceIdeal.RefRun.st84]
    after_results_simp
    all_goals first | (simp only [h.main_arg1, h.main_v1585, h.main_v1592, h.main_v1594] <;> rfl) | rfl
  main_v1605 := by
    simp only [Cert.KernelIdeal.KHost.st84, Cert.ReferenceIdeal.RefRun.st84]
    after_results_simp
    all_goals first | (simp only [h.main_arg1, h.main_v1585, h.main_v1592, h.main_v1594] <;> rfl) | rfl
  main_v1612 := by
    simp only [Cert.KernelIdeal.KHost.st84, Cert.ReferenceIdeal.RefRun.st84]
    after_results_simp
    all_goals first | (simp only [h.main_arg1, h.main_v1585, h.main_v1592, h.main_v1594] <;> rfl) | rfl
  main_v1613 := by
    simp only [Cert.KernelIdeal.KHost.st84, Cert.ReferenceIdeal.RefRun.st84]
    after_results_simp
    all_goals first | (simp only [h.main_arg1, h.main_v1585, h.main_v1592, h.main_v1594] <;> rfl) | rfl
set_option maxRecDepth 8192 in
set_option maxHeartbeats 2000000 in
/-- Stretch 85 carries the agreement of boundary 85 to boundary 86. -/
theorem step85 (W : Valuation Cert.KernelIdeal.τ Cert.KernelIdeal.sig (Elt F)) (V : Valuation Cert.ReferenceIdeal.τ Cert.ReferenceIdeal.sig (Elt F)) (h : Agree85 W V) : Agree86 (after Cert.KernelIdeal.KHost.st85 W) (after Cert.ReferenceIdeal.RefRun.st85 V) where
  main_arg1 := by
    simp only [Cert.KernelIdeal.KHost.st85, Cert.ReferenceIdeal.RefRun.st85]
    after_results_simp
    all_goals first | (simp only [h.main_arg1, h.main_v1605, h.main_v1612, h.main_v1613] <;> rfl) | rfl
  main_v1625 := by
    simp only [Cert.KernelIdeal.KHost.st85, Cert.ReferenceIdeal.RefRun.st85]
    after_results_simp
    all_goals first | (simp only [h.main_arg1, h.main_v1605, h.main_v1612, h.main_v1613] <;> rfl) | rfl
  main_v1632 := by
    simp only [Cert.KernelIdeal.KHost.st85, Cert.ReferenceIdeal.RefRun.st85]
    after_results_simp
    all_goals first | (simp only [h.main_arg1, h.main_v1605, h.main_v1612, h.main_v1613] <;> rfl) | rfl
set_option maxRecDepth 8192 in
set_option maxHeartbeats 2000000 in
/-- Stretch 86 carries the agreement of boundary 86 to boundary 87. -/
theorem step86 (W : Valuation Cert.KernelIdeal.τ Cert.KernelIdeal.sig (Elt F)) (V : Valuation Cert.ReferenceIdeal.τ Cert.ReferenceIdeal.sig (Elt F)) (h : Agree86 W V) : Agree87 (after Cert.KernelIdeal.KHost.st86 W) (after Cert.ReferenceIdeal.RefRun.st86 V) where
  main_arg1 := by
    simp only [Cert.KernelIdeal.KHost.st86, Cert.ReferenceIdeal.RefRun.st86]
    after_results_simp
    all_goals first | (simp only [h.main_arg1, h.main_v1625, h.main_v1632] <;> rfl) | rfl
  main_v1632 := by
    simp only [Cert.KernelIdeal.KHost.st86, Cert.ReferenceIdeal.RefRun.st86]
    after_results_simp
    all_goals first | (simp only [h.main_arg1, h.main_v1625, h.main_v1632] <;> rfl) | rfl
  main_v1645 := by
    simp only [Cert.KernelIdeal.KHost.st86, Cert.ReferenceIdeal.RefRun.st86]
    after_results_simp
    all_goals first | (simp only [h.main_arg1, h.main_v1625, h.main_v1632] <;> rfl) | rfl
  main_v1650 := by
    simp only [Cert.KernelIdeal.KHost.st86, Cert.ReferenceIdeal.RefRun.st86]
    after_results_simp
    all_goals first | (simp only [h.main_arg1, h.main_v1625, h.main_v1632] <;> rfl) | rfl
  main_v1651 := by
    simp only [Cert.KernelIdeal.KHost.st86, Cert.ReferenceIdeal.RefRun.st86]
    after_results_simp
    all_goals first | (simp only [h.main_arg1, h.main_v1625, h.main_v1632] <;> rfl) | rfl
set_option maxRecDepth 8192 in
set_option maxHeartbeats 2000000 in
/-- Stretch 87 carries the agreement of boundary 87 to boundary 88. -/
theorem step87 (W : Valuation Cert.KernelIdeal.τ Cert.KernelIdeal.sig (Elt F)) (V : Valuation Cert.ReferenceIdeal.τ Cert.ReferenceIdeal.sig (Elt F)) (h : Agree87 W V) : Agree88 (after Cert.KernelIdeal.KHost.st87 W) (after Cert.ReferenceIdeal.RefRun.st87 V) where
  main_arg1 := by
    simp only [Cert.KernelIdeal.KHost.st87, Cert.ReferenceIdeal.RefRun.st87]
    after_results_simp
    all_goals first | (simp only [h.main_arg1, h.main_v1632, h.main_v1645, h.main_v1650, h.main_v1651] <;> rfl) | rfl
  main_v1652 := by
    simp only [Cert.KernelIdeal.KHost.st87, Cert.ReferenceIdeal.RefRun.st87]
    after_results_simp
    all_goals first | (simp only [h.main_arg1, h.main_v1632, h.main_v1645, h.main_v1650, h.main_v1651] <;> rfl) | rfl
  main_v1665 := by
    simp only [Cert.KernelIdeal.KHost.st87, Cert.ReferenceIdeal.RefRun.st87]
    after_results_simp
    all_goals first | (simp only [h.main_arg1, h.main_v1632, h.main_v1645, h.main_v1650, h.main_v1651] <;> rfl) | rfl
  main_v1670 := by
    simp only [Cert.KernelIdeal.KHost.st87, Cert.ReferenceIdeal.RefRun.st87]
    after_results_simp
    all_goals first | (simp only [h.main_arg1, h.main_v1632, h.main_v1645, h.main_v1650, h.main_v1651] <;> rfl) | rfl
  main_c_87 := by
    simp only [Cert.KernelIdeal.KHost.st87, Cert.ReferenceIdeal.RefRun.st87]
    after_results_simp
    all_goals first | (simp only [h.main_arg1, h.main_v1632, h.main_v1645, h.main_v1650, h.main_v1651] <;> rfl) | rfl
set_option maxRecDepth 8192 in
set_option maxHeartbeats 2000000 in
/-- Stretch 88 carries the agreement of boundary 88 to boundary 89. -/
theorem step88 (W : Valuation Cert.KernelIdeal.τ Cert.KernelIdeal.sig (Elt F)) (V : Valuation Cert.ReferenceIdeal.τ Cert.ReferenceIdeal.sig (Elt F)) (h : Agree88 W V) : Agree89 (after Cert.KernelIdeal.KHost.st88 W) (after Cert.ReferenceIdeal.RefRun.st88 V) where
  main_arg1 := by
    simp only [Cert.KernelIdeal.KHost.st88, Cert.ReferenceIdeal.RefRun.st88]
    after_results_simp
    all_goals first | (simp only [h.main_arg1, h.main_v1652, h.main_v1665, h.main_v1670, h.main_c_87] <;> rfl) | rfl
  main_v1672 := by
    simp only [Cert.KernelIdeal.KHost.st88, Cert.ReferenceIdeal.RefRun.st88]
    after_results_simp
    all_goals first | (simp only [h.main_arg1, h.main_v1652, h.main_v1665, h.main_v1670, h.main_c_87] <;> rfl) | rfl
  main_v1685 := by
    simp only [Cert.KernelIdeal.KHost.st88, Cert.ReferenceIdeal.RefRun.st88]
    after_results_simp
    all_goals first | (simp only [h.main_arg1, h.main_v1652, h.main_v1665, h.main_v1670, h.main_c_87] <;> rfl) | rfl
  main_v1690 := by
    simp only [Cert.KernelIdeal.KHost.st88, Cert.ReferenceIdeal.RefRun.st88]
    after_results_simp
    all_goals first | (simp only [h.main_arg1, h.main_v1652, h.main_v1665, h.main_v1670, h.main_c_87] <;> rfl) | rfl
set_option maxRecDepth 8192 in
set_option maxHeartbeats 2000000 in
/-- Stretch 89 carries the agreement of boundary 89 to boundary 90. -/
theorem step89 (W : Valuation Cert.KernelIdeal.τ Cert.KernelIdeal.sig (Elt F)) (V : Valuation Cert.ReferenceIdeal.τ Cert.ReferenceIdeal.sig (Elt F)) (h : Agree89 W V) : Agree90 (after Cert.KernelIdeal.KHost.st89 W) (after Cert.ReferenceIdeal.RefRun.st89 V) where
  main_arg1 := by
    simp only [Cert.KernelIdeal.KHost.st89, Cert.ReferenceIdeal.RefRun.st89]
    after_results_simp
    all_goals first | (simp only [h.main_arg1, h.main_v1672, h.main_v1685, h.main_v1690] <;> rfl) | rfl
  main_v1692 := by
    simp only [Cert.KernelIdeal.KHost.st89, Cert.ReferenceIdeal.RefRun.st89]
    after_results_simp
    all_goals first | (simp only [h.main_arg1, h.main_v1672, h.main_v1685, h.main_v1690] <;> rfl) | rfl
  main_v1705 := by
    simp only [Cert.KernelIdeal.KHost.st89, Cert.ReferenceIdeal.RefRun.st89]
    after_results_simp
    all_goals first | (simp only [h.main_arg1, h.main_v1672, h.main_v1685, h.main_v1690] <;> rfl) | rfl
  main_v1707 := by
    simp only [Cert.KernelIdeal.KHost.st89, Cert.ReferenceIdeal.RefRun.st89]
    after_results_simp
    all_goals first | (simp only [h.main_arg1, h.main_v1672, h.main_v1685, h.main_v1690] <;> rfl) | rfl
  main_v1709 := by
    simp only [Cert.KernelIdeal.KHost.st89, Cert.ReferenceIdeal.RefRun.st89]
    after_results_simp
    all_goals first | (simp only [h.main_arg1, h.main_v1672, h.main_v1685, h.main_v1690] <;> rfl) | rfl
set_option maxRecDepth 8192 in
set_option maxHeartbeats 2000000 in
/-- Stretch 90 carries the agreement of boundary 90 to boundary 91. -/
theorem step90 (W : Valuation Cert.KernelIdeal.τ Cert.KernelIdeal.sig (Elt F)) (V : Valuation Cert.ReferenceIdeal.τ Cert.ReferenceIdeal.sig (Elt F)) (h : Agree90 W V) : Agree91 (after Cert.KernelIdeal.KHost.st90 W) (after Cert.ReferenceIdeal.RefRun.st90 V) where
  main_arg1 := by
    simp only [Cert.KernelIdeal.KHost.st90, Cert.ReferenceIdeal.RefRun.st90]
    after_results_simp
    all_goals first | (simp only [h.main_arg1, h.main_v1692, h.main_v1705, h.main_v1707, h.main_v1709] <;> rfl) | rfl
  main_v1714 := by
    simp only [Cert.KernelIdeal.KHost.st90, Cert.ReferenceIdeal.RefRun.st90]
    after_results_simp
    all_goals first | (simp only [h.main_arg1, h.main_v1692, h.main_v1705, h.main_v1707, h.main_v1709] <;> rfl) | rfl
  main_v1716 := by
    simp only [Cert.KernelIdeal.KHost.st90, Cert.ReferenceIdeal.RefRun.st90]
    after_results_simp
    all_goals first | (simp only [h.main_arg1, h.main_v1692, h.main_v1705, h.main_v1707, h.main_v1709] <;> rfl) | rfl
  main_v1720 := by
    simp only [Cert.KernelIdeal.KHost.st90, Cert.ReferenceIdeal.RefRun.st90]
    after_results_simp
    all_goals first | (simp only [h.main_arg1, h.main_v1692, h.main_v1705, h.main_v1707, h.main_v1709] <;> rfl) | rfl
  main_v1722 := by
    simp only [Cert.KernelIdeal.KHost.st90, Cert.ReferenceIdeal.RefRun.st90]
    after_results_simp
    all_goals first | (simp only [h.main_arg1, h.main_v1692, h.main_v1705, h.main_v1707, h.main_v1709] <;> rfl) | rfl
  main_v1724 := by
    simp only [Cert.KernelIdeal.KHost.st90, Cert.ReferenceIdeal.RefRun.st90]
    after_results_simp
    all_goals first | (simp only [h.main_arg1, h.main_v1692, h.main_v1705, h.main_v1707, h.main_v1709] <;> rfl) | rfl
  main_v1726 := by
    simp only [Cert.KernelIdeal.KHost.st90, Cert.ReferenceIdeal.RefRun.st90]
    after_results_simp
    all_goals first | (simp only [h.main_arg1, h.main_v1692, h.main_v1705, h.main_v1707, h.main_v1709] <;> rfl) | rfl
  main_v1727 := by
    simp only [Cert.KernelIdeal.KHost.st90, Cert.ReferenceIdeal.RefRun.st90]
    after_results_simp
    all_goals first | (simp only [h.main_arg1, h.main_v1692, h.main_v1705, h.main_v1707, h.main_v1709] <;> rfl) | rfl
set_option maxRecDepth 8192 in
set_option maxHeartbeats 2000000 in
/-- Stretch 91 carries the agreement of boundary 91 to boundary 92. -/
theorem step91 (W : Valuation Cert.KernelIdeal.τ Cert.KernelIdeal.sig (Elt F)) (V : Valuation Cert.ReferenceIdeal.τ Cert.ReferenceIdeal.sig (Elt F)) (h : Agree91 W V) : Agree92 (after Cert.KernelIdeal.KHost.st91 W) (after Cert.ReferenceIdeal.RefRun.st91 V) where
  main_arg1 := by
    simp only [Cert.KernelIdeal.KHost.st91, Cert.ReferenceIdeal.RefRun.st91]
    after_results_simp
    all_goals first | (simp only [h.main_arg1, h.main_v1714, h.main_v1716, h.main_v1720, h.main_v1722, h.main_v1724, h.main_v1726, h.main_v1727] <;> rfl) | rfl
  main_v1729 := by
    simp only [Cert.KernelIdeal.KHost.st91, Cert.ReferenceIdeal.RefRun.st91]
    after_results_simp
    all_goals first | (simp only [h.main_arg1, h.main_v1714, h.main_v1716, h.main_v1720, h.main_v1722, h.main_v1724, h.main_v1726, h.main_v1727] <;> rfl) | rfl
  main_v1736 := by
    simp only [Cert.KernelIdeal.KHost.st91, Cert.ReferenceIdeal.RefRun.st91]
    after_results_simp
    all_goals first | (simp only [h.main_arg1, h.main_v1714, h.main_v1716, h.main_v1720, h.main_v1722, h.main_v1724, h.main_v1726, h.main_v1727] <;> rfl) | rfl
  main_v1740 := by
    simp only [Cert.KernelIdeal.KHost.st91, Cert.ReferenceIdeal.RefRun.st91]
    after_results_simp
    all_goals first | (simp only [h.main_arg1, h.main_v1714, h.main_v1716, h.main_v1720, h.main_v1722, h.main_v1724, h.main_v1726, h.main_v1727] <;> rfl) | rfl
  main_v1742 := by
    simp only [Cert.KernelIdeal.KHost.st91, Cert.ReferenceIdeal.RefRun.st91]
    after_results_simp
    all_goals first | (simp only [h.main_arg1, h.main_v1714, h.main_v1716, h.main_v1720, h.main_v1722, h.main_v1724, h.main_v1726, h.main_v1727] <;> rfl) | rfl
  main_v1744 := by
    simp only [Cert.KernelIdeal.KHost.st91, Cert.ReferenceIdeal.RefRun.st91]
    after_results_simp
    all_goals first | (simp only [h.main_arg1, h.main_v1714, h.main_v1716, h.main_v1720, h.main_v1722, h.main_v1724, h.main_v1726, h.main_v1727] <;> rfl) | rfl
  main_v1746 := by
    simp only [Cert.KernelIdeal.KHost.st91, Cert.ReferenceIdeal.RefRun.st91]
    after_results_simp
    all_goals first | (simp only [h.main_arg1, h.main_v1714, h.main_v1716, h.main_v1720, h.main_v1722, h.main_v1724, h.main_v1726, h.main_v1727] <;> rfl) | rfl
set_option maxRecDepth 8192 in
set_option maxHeartbeats 2000000 in
/-- Stretch 92 carries the agreement of boundary 92 to boundary 93. -/
theorem step92 (W : Valuation Cert.KernelIdeal.τ Cert.KernelIdeal.sig (Elt F)) (V : Valuation Cert.ReferenceIdeal.τ Cert.ReferenceIdeal.sig (Elt F)) (h : Agree92 W V) : Agree93 (after Cert.KernelIdeal.KHost.st92 W) (after Cert.ReferenceIdeal.RefRun.st92 V) where
  main_arg1 := by
    simp only [Cert.KernelIdeal.KHost.st92, Cert.ReferenceIdeal.RefRun.st92]
    after_results_simp
    all_goals first | (simp only [h.main_arg1, h.main_v1729, h.main_v1736, h.main_v1740, h.main_v1742, h.main_v1744, h.main_v1746] <;> rfl) | rfl
  main_v1749 := by
    simp only [Cert.KernelIdeal.KHost.st92, Cert.ReferenceIdeal.RefRun.st92]
    after_results_simp
    all_goals first | (simp only [h.main_arg1, h.main_v1729, h.main_v1736, h.main_v1740, h.main_v1742, h.main_v1744, h.main_v1746] <;> rfl) | rfl
  main_v1756 := by
    simp only [Cert.KernelIdeal.KHost.st92, Cert.ReferenceIdeal.RefRun.st92]
    after_results_simp
    all_goals first | (simp only [h.main_arg1, h.main_v1729, h.main_v1736, h.main_v1740, h.main_v1742, h.main_v1744, h.main_v1746] <;> rfl) | rfl
  main_v1760 := by
    simp only [Cert.KernelIdeal.KHost.st92, Cert.ReferenceIdeal.RefRun.st92]
    after_results_simp
    all_goals first | (simp only [h.main_arg1, h.main_v1729, h.main_v1736, h.main_v1740, h.main_v1742, h.main_v1744, h.main_v1746] <;> rfl) | rfl
  main_v1762 := by
    simp only [Cert.KernelIdeal.KHost.st92, Cert.ReferenceIdeal.RefRun.st92]
    after_results_simp
    all_goals first | (simp only [h.main_arg1, h.main_v1729, h.main_v1736, h.main_v1740, h.main_v1742, h.main_v1744, h.main_v1746] <;> rfl) | rfl
  main_v1764 := by
    simp only [Cert.KernelIdeal.KHost.st92, Cert.ReferenceIdeal.RefRun.st92]
    after_results_simp
    all_goals first | (simp only [h.main_arg1, h.main_v1729, h.main_v1736, h.main_v1740, h.main_v1742, h.main_v1744, h.main_v1746] <;> rfl) | rfl
  main_v1765 := by
    simp only [Cert.KernelIdeal.KHost.st92, Cert.ReferenceIdeal.RefRun.st92]
    after_results_simp
    all_goals first | (simp only [h.main_arg1, h.main_v1729, h.main_v1736, h.main_v1740, h.main_v1742, h.main_v1744, h.main_v1746] <;> rfl) | rfl
set_option maxRecDepth 8192 in
set_option maxHeartbeats 2000000 in
/-- Stretch 93 carries the agreement of boundary 93 to boundary 94. -/
theorem step93 (W : Valuation Cert.KernelIdeal.τ Cert.KernelIdeal.sig (Elt F)) (V : Valuation Cert.ReferenceIdeal.τ Cert.ReferenceIdeal.sig (Elt F)) (h : Agree93 W V) : Agree94 (after Cert.KernelIdeal.KHost.st93 W) (after Cert.ReferenceIdeal.RefRun.st93 V) where
  main_arg1 := by
    simp only [Cert.KernelIdeal.KHost.st93, Cert.ReferenceIdeal.RefRun.st93]
    after_results_simp
    all_goals first | (simp only [h.main_arg1, h.main_v1749, h.main_v1756, h.main_v1760, h.main_v1762, h.main_v1764, h.main_v1765] <;> rfl) | rfl
  main_v1769 := by
    simp only [Cert.KernelIdeal.KHost.st93, Cert.ReferenceIdeal.RefRun.st93]
    after_results_simp
    all_goals first | (simp only [h.main_arg1, h.main_v1749, h.main_v1756, h.main_v1760, h.main_v1762, h.main_v1764, h.main_v1765] <;> rfl) | rfl
  main_v1776 := by
    simp only [Cert.KernelIdeal.KHost.st93, Cert.ReferenceIdeal.RefRun.st93]
    after_results_simp
    all_goals first | (simp only [h.main_arg1, h.main_v1749, h.main_v1756, h.main_v1760, h.main_v1762, h.main_v1764, h.main_v1765] <;> rfl) | rfl
  main_v1780 := by
    simp only [Cert.KernelIdeal.KHost.st93, Cert.ReferenceIdeal.RefRun.st93]
    after_results_simp
    all_goals first | (simp only [h.main_arg1, h.main_v1749, h.main_v1756, h.main_v1760, h.main_v1762, h.main_v1764, h.main_v1765] <;> rfl) | rfl
  main_v1782 := by
    simp only [Cert.KernelIdeal.KHost.st93, Cert.ReferenceIdeal.RefRun.st93]
    after_results_simp
    all_goals first | (simp only [h.main_arg1, h.main_v1749, h.main_v1756, h.main_v1760, h.main_v1762, h.main_v1764, h.main_v1765] <;> rfl) | rfl
  main_v1784 := by
    simp only [Cert.KernelIdeal.KHost.st93, Cert.ReferenceIdeal.RefRun.st93]
    after_results_simp
    all_goals first | (simp only [h.main_arg1, h.main_v1749, h.main_v1756, h.main_v1760, h.main_v1762, h.main_v1764, h.main_v1765] <;> rfl) | rfl
set_option maxRecDepth 8192 in
set_option maxHeartbeats 2000000 in
/-- Stretch 94 carries the agreement of boundary 94 to boundary 95. -/
theorem step94 (W : Valuation Cert.KernelIdeal.τ Cert.KernelIdeal.sig (Elt F)) (V : Valuation Cert.ReferenceIdeal.τ Cert.ReferenceIdeal.sig (Elt F)) (h : Agree94 W V) : Agree95 (after Cert.KernelIdeal.KHost.st94 W) (after Cert.ReferenceIdeal.RefRun.st94 V) where
  main_arg1 := by
    simp only [Cert.KernelIdeal.KHost.st94, Cert.ReferenceIdeal.RefRun.st94]
    after_results_simp
    all_goals first | (simp only [h.main_arg1, h.main_v1769, h.main_v1776, h.main_v1780, h.main_v1782, h.main_v1784] <;> rfl) | rfl
  main_v1789 := by
    simp only [Cert.KernelIdeal.KHost.st94, Cert.ReferenceIdeal.RefRun.st94]
    after_results_simp
    all_goals first | (simp only [h.main_arg1, h.main_v1769, h.main_v1776, h.main_v1780, h.main_v1782, h.main_v1784] <;> rfl) | rfl
  main_v1796 := by
    simp only [Cert.KernelIdeal.KHost.st94, Cert.ReferenceIdeal.RefRun.st94]
    after_results_simp
    all_goals first | (simp only [h.main_arg1, h.main_v1769, h.main_v1776, h.main_v1780, h.main_v1782, h.main_v1784] <;> rfl) | rfl
  main_v1800 := by
    simp only [Cert.KernelIdeal.KHost.st94, Cert.ReferenceIdeal.RefRun.st94]
    after_results_simp
    all_goals first | (simp only [h.main_arg1, h.main_v1769, h.main_v1776, h.main_v1780, h.main_v1782, h.main_v1784] <;> rfl) | rfl
  main_v1802 := by
    simp only [Cert.KernelIdeal.KHost.st94, Cert.ReferenceIdeal.RefRun.st94]
    after_results_simp
    all_goals first | (simp only [h.main_arg1, h.main_v1769, h.main_v1776, h.main_v1780, h.main_v1782, h.main_v1784] <;> rfl) | rfl
  main_v1803 := by
    simp only [Cert.KernelIdeal.KHost.st94, Cert.ReferenceIdeal.RefRun.st94]
    after_results_simp
    all_goals first | (simp only [h.main_arg1, h.main_v1769, h.main_v1776, h.main_v1780, h.main_v1782, h.main_v1784] <;> rfl) | rfl
set_option maxRecDepth 8192 in
set_option maxHeartbeats 2000000 in
/-- Stretch 95 carries the agreement of boundary 95 to boundary 96. -/
theorem step95 (W : Valuation Cert.KernelIdeal.τ Cert.KernelIdeal.sig (Elt F)) (V : Valuation Cert.ReferenceIdeal.τ Cert.ReferenceIdeal.sig (Elt F)) (h : Agree95 W V) : Agree96 (after Cert.KernelIdeal.KHost.st95 W) (after Cert.ReferenceIdeal.RefRun.st95 V) where
  main_arg1 := by
    simp only [Cert.KernelIdeal.KHost.st95, Cert.ReferenceIdeal.RefRun.st95]
    after_results_simp
    all_goals first | (simp only [h.main_arg1, h.main_v1789, h.main_v1796, h.main_v1800, h.main_v1802, h.main_v1803] <;> rfl) | rfl
  main_v1809 := by
    simp only [Cert.KernelIdeal.KHost.st95, Cert.ReferenceIdeal.RefRun.st95]
    after_results_simp
    all_goals first | (simp only [h.main_arg1, h.main_v1789, h.main_v1796, h.main_v1800, h.main_v1802, h.main_v1803] <;> rfl) | rfl
  main_v1816 := by
    simp only [Cert.KernelIdeal.KHost.st95, Cert.ReferenceIdeal.RefRun.st95]
    after_results_simp
    all_goals first | (simp only [h.main_arg1, h.main_v1789, h.main_v1796, h.main_v1800, h.main_v1802, h.main_v1803] <;> rfl) | rfl
  main_v1820 := by
    simp only [Cert.KernelIdeal.KHost.st95, Cert.ReferenceIdeal.RefRun.st95]
    after_results_simp
    all_goals first | (simp only [h.main_arg1, h.main_v1789, h.main_v1796, h.main_v1800, h.main_v1802, h.main_v1803] <;> rfl) | rfl
  main_v1822 := by
    simp only [Cert.KernelIdeal.KHost.st95, Cert.ReferenceIdeal.RefRun.st95]
    after_results_simp
    all_goals first | (simp only [h.main_arg1, h.main_v1789, h.main_v1796, h.main_v1800, h.main_v1802, h.main_v1803] <;> rfl) | rfl

end Cert.Lock

end
-- ==== Proof.LockW8.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 96 carries the agreement of boundary 96 to boundary 97. -/
theorem step96 (W : Valuation Cert.KernelIdeal.τ Cert.KernelIdeal.sig (Elt F)) (V : Valuation Cert.ReferenceIdeal.τ Cert.ReferenceIdeal.sig (Elt F)) (h : Agree96 W V) : Agree97 (after Cert.KernelIdeal.KHost.st96 W) (after Cert.ReferenceIdeal.RefRun.st96 V) where
  main_arg1 := by
    simp only [Cert.KernelIdeal.KHost.st96, Cert.ReferenceIdeal.RefRun.st96]
    after_results_simp
    all_goals first | (simp only [h.main_arg1, h.main_v1809, h.main_v1816, h.main_v1820, h.main_v1822] <;> rfl) | rfl
  main_v1829 := by
    simp only [Cert.KernelIdeal.KHost.st96, Cert.ReferenceIdeal.RefRun.st96]
    after_results_simp
    all_goals first | (simp only [h.main_arg1, h.main_v1809, h.main_v1816, h.main_v1820, h.main_v1822] <;> rfl) | rfl
  main_v1836 := by
    simp only [Cert.KernelIdeal.KHost.st96, Cert.ReferenceIdeal.RefRun.st96]
    after_results_simp
    all_goals first | (simp only [h.main_arg1, h.main_v1809, h.main_v1816, h.main_v1820, h.main_v1822] <;> rfl) | rfl
  main_v1840 := by
    simp only [Cert.KernelIdeal.KHost.st96, Cert.ReferenceIdeal.RefRun.st96]
    after_results_simp
    all_goals first | (simp only [h.main_arg1, h.main_v1809, h.main_v1816, h.main_v1820, h.main_v1822] <;> rfl) | rfl
  main_v1841 := by
    simp only [Cert.KernelIdeal.KHost.st96, Cert.ReferenceIdeal.RefRun.st96]
    after_results_simp
    all_goals first | (simp only [h.main_arg1, h.main_v1809, h.main_v1816, h.main_v1820, h.main_v1822] <;> rfl) | rfl
set_option maxRecDepth 8192 in
set_option maxHeartbeats 2000000 in
/-- Stretch 97 carries the agreement of boundary 97 to boundary 98. -/
theorem step97 (W : Valuation Cert.KernelIdeal.τ Cert.KernelIdeal.sig (Elt F)) (V : Valuation Cert.ReferenceIdeal.τ Cert.ReferenceIdeal.sig (Elt F)) (h : Agree97 W V) : Agree98 (after Cert.KernelIdeal.KHost.st97 W) (after Cert.ReferenceIdeal.RefRun.st97 V) where
  main_arg1 := by
    simp only [Cert.KernelIdeal.KHost.st97, Cert.ReferenceIdeal.RefRun.st97]
    after_results_simp
    all_goals first | (simp only [h.main_arg1, h.main_v1829, h.main_v1836, h.main_v1840, h.main_v1841] <;> rfl) | rfl
  main_v1849 := by
    simp only [Cert.KernelIdeal.KHost.st97, Cert.ReferenceIdeal.RefRun.st97]
    after_results_simp
    all_goals first | (simp only [h.main_arg1, h.main_v1829, h.main_v1836, h.main_v1840, h.main_v1841] <;> rfl) | rfl
  main_v1856 := by
    simp only [Cert.KernelIdeal.KHost.st97, Cert.ReferenceIdeal.RefRun.st97]
    after_results_simp
    all_goals first | (simp only [h.main_arg1, h.main_v1829, h.main_v1836, h.main_v1840, h.main_v1841] <;> rfl) | rfl
  main_v1858 := by
    simp only [Cert.KernelIdeal.KHost.st97, Cert.ReferenceIdeal.RefRun.st97]
    after_results_simp
    all_goals first | (simp only [h.main_arg1, h.main_v1829, h.main_v1836, h.main_v1840, h.main_v1841] <;> rfl) | rfl
  main_v1860 := by
    simp only [Cert.KernelIdeal.KHost.st97, Cert.ReferenceIdeal.RefRun.st97]
    after_results_simp
    all_goals first | (simp only [h.main_arg1, h.main_v1829, h.main_v1836, h.main_v1840, h.main_v1841] <;> rfl) | rfl
set_option maxRecDepth 8192 in
set_option maxHeartbeats 2000000 in
/-- Stretch 98 carries the agreement of boundary 98 to boundary 99. -/
theorem step98 (W : Valuation Cert.KernelIdeal.τ Cert.KernelIdeal.sig (Elt F)) (V : Valuation Cert.ReferenceIdeal.τ Cert.ReferenceIdeal.sig (Elt F)) (h : Agree98 W V) : Agree99 (after Cert.KernelIdeal.KHost.st98 W) (after Cert.ReferenceIdeal.RefRun.st98 V) where
  main_arg1 := by
    simp only [Cert.KernelIdeal.KHost.st98, Cert.ReferenceIdeal.RefRun.st98]
    after_results_simp
    all_goals first | (simp only [h.main_arg1, h.main_v1849, h.main_v1856, h.main_v1858, h.main_v1860] <;> rfl) | rfl
  main_v1878 := by
    simp only [Cert.KernelIdeal.KHost.st98, Cert.ReferenceIdeal.RefRun.st98]
    after_results_simp
    all_goals first | (simp only [h.main_arg1, h.main_v1849, h.main_v1856, h.main_v1858, h.main_v1860] <;> rfl) | rfl
set_option maxRecDepth 8192 in
set_option maxHeartbeats 2000000 in
/-- Stretch 99 carries the agreement of boundary 99 to boundary 100. -/
theorem step99 (W : Valuation Cert.KernelIdeal.τ Cert.KernelIdeal.sig (Elt F)) (V : Valuation Cert.ReferenceIdeal.τ Cert.ReferenceIdeal.sig (Elt F)) (h : Agree99 W V) : Agree100 (after Cert.KernelIdeal.KHost.st99 W) (after Cert.ReferenceIdeal.RefRun.st99 V) where
  main_arg1 := by
    simp only [Cert.KernelIdeal.KHost.st99, Cert.ReferenceIdeal.RefRun.st99]
    after_results_simp
    all_goals first | (simp only [h.main_arg1, h.main_v1878] <;> rfl) | rfl
  main_v1878 := by
    simp only [Cert.KernelIdeal.KHost.st99, Cert.ReferenceIdeal.RefRun.st99]
    after_results_simp
    all_goals first | (simp only [h.main_arg1, h.main_v1878] <;> rfl) | rfl
  main_v1893 := by
    simp only [Cert.KernelIdeal.KHost.st99, Cert.ReferenceIdeal.RefRun.st99]
    after_results_simp
    all_goals first | (simp only [h.main_arg1, h.main_v1878] <;> rfl) | rfl
  main_v1898 := by
    simp only [Cert.KernelIdeal.KHost.st99, Cert.ReferenceIdeal.RefRun.st99]
    after_results_simp
    all_goals first | (simp only [h.main_arg1, h.main_v1878] <;> rfl) | rfl
set_option maxRecDepth 8192 in
set_option maxHeartbeats 2000000 in
/-- Stretch 100 carries the agreement of boundary 100 to boundary 101. -/
theorem step100 (W : Valuation Cert.KernelIdeal.τ Cert.KernelIdeal.sig (Elt F)) (V : Valuation Cert.ReferenceIdeal.τ Cert.ReferenceIdeal.sig (Elt F)) (h : Agree100 W V) : Agree101 (after Cert.KernelIdeal.KHost.st100 W) (after Cert.ReferenceIdeal.RefRun.st100 V) where
  main_arg1 := by
    simp only [Cert.KernelIdeal.KHost.st100, Cert.ReferenceIdeal.RefRun.st100]
    after_results_simp
    all_goals first | (simp only [h.main_arg1, h.main_v1878, h.main_v1893, h.main_v1898] <;> rfl) | rfl
  main_v1900 := by
    simp only [Cert.KernelIdeal.KHost.st100, Cert.ReferenceIdeal.RefRun.st100]
    after_results_simp
    all_goals first | (simp only [h.main_arg1, h.main_v1878, h.main_v1893, h.main_v1898] <;> rfl) | rfl
  main_v1913 := by
    simp only [Cert.KernelIdeal.KHost.st100, Cert.ReferenceIdeal.RefRun.st100]
    after_results_simp
    all_goals first | (simp only [h.main_arg1, h.main_v1878, h.main_v1893, h.main_v1898] <;> rfl) | rfl
  main_v1915 := by
    simp only [Cert.KernelIdeal.KHost.st100, Cert.ReferenceIdeal.RefRun.st100]
    after_results_simp
    all_goals first | (simp only [h.main_arg1, h.main_v1878, h.main_v1893, h.main_v1898] <;> rfl) | rfl
  main_v1917 := by
    simp only [Cert.KernelIdeal.KHost.st100, Cert.ReferenceIdeal.RefRun.st100]
    after_results_simp
    all_goals first | (simp only [h.main_arg1, h.main_v1878, h.main_v1893, h.main_v1898] <;> rfl) | rfl
set_option maxRecDepth 8192 in
set_option maxHeartbeats 2000000 in
/-- Stretch 101 carries the agreement of boundary 101 to boundary 102. -/
theorem step101 (W : Valuation Cert.KernelIdeal.τ Cert.KernelIdeal.sig (Elt F)) (V : Valuation Cert.ReferenceIdeal.τ Cert.ReferenceIdeal.sig (Elt F)) (h : Agree101 W V) : Agree102 (after Cert.KernelIdeal.KHost.st101 W) (after Cert.ReferenceIdeal.RefRun.st101 V) where
  main_arg1 := by
    simp only [Cert.KernelIdeal.KHost.st101, Cert.ReferenceIdeal.RefRun.st101]
    after_results_simp
    all_goals first | (simp only [h.main_arg1, h.main_v1900, h.main_v1913, h.main_v1915, h.main_v1917] <;> rfl) | rfl
  main_v1920 := by
    simp only [Cert.KernelIdeal.KHost.st101, Cert.ReferenceIdeal.RefRun.st101]
    after_results_simp
    all_goals first | (simp only [h.main_arg1, h.main_v1900, h.main_v1913, h.main_v1915, h.main_v1917] <;> rfl) | rfl
  main_v1928 := by
    simp only [Cert.KernelIdeal.KHost.st101, Cert.ReferenceIdeal.RefRun.st101]
    after_results_simp
    all_goals first | (simp only [h.main_arg1, h.main_v1900, h.main_v1913, h.main_v1915, h.main_v1917] <;> rfl) | rfl
  main_v1933 := by
    simp only [Cert.KernelIdeal.KHost.st101, Cert.ReferenceIdeal.RefRun.st101]
    after_results_simp
    all_goals first | (simp only [h.main_arg1, h.main_v1900, h.main_v1913, h.main_v1915, h.main_v1917] <;> rfl) | rfl
  main_v1935 := by
    simp only [Cert.KernelIdeal.KHost.st101, Cert.ReferenceIdeal.RefRun.st101]
    after_results_simp
    all_goals first | (simp only [h.main_arg1, h.main_v1900, h.main_v1913, h.main_v1915, h.main_v1917] <;> rfl) | rfl
  main_v1936 := by
    simp only [Cert.KernelIdeal.KHost.st101, Cert.ReferenceIdeal.RefRun.st101]
    after_results_simp
    all_goals first | (simp only [h.main_arg1, h.main_v1900, h.main_v1913, h.main_v1915, h.main_v1917] <;> rfl) | rfl
set_option maxRecDepth 8192 in
set_option maxHeartbeats 2000000 in
/-- Stretch 102 carries the agreement of boundary 102 to boundary 103. -/
theorem step102 (W : Valuation Cert.KernelIdeal.τ Cert.KernelIdeal.sig (Elt F)) (V : Valuation Cert.ReferenceIdeal.τ Cert.ReferenceIdeal.sig (Elt F)) (h : Agree102 W V) : Agree103 (after Cert.KernelIdeal.KHost.st102 W) (after Cert.ReferenceIdeal.RefRun.st102 V) where
  main_arg1 := by
    simp only [Cert.KernelIdeal.KHost.st102, Cert.ReferenceIdeal.RefRun.st102]
    after_results_simp
    all_goals first | (simp only [h.main_arg1, h.main_v1920, h.main_v1928, h.main_v1933, h.main_v1935, h.main_v1936] <;> rfl) | rfl
  main_v1940 := by
    simp only [Cert.KernelIdeal.KHost.st102, Cert.ReferenceIdeal.RefRun.st102]
    after_results_simp
    all_goals first | (simp only [h.main_arg1, h.main_v1920, h.main_v1928, h.main_v1933, h.main_v1935, h.main_v1936] <;> rfl) | rfl
  main_v1944 := by
    simp only [Cert.KernelIdeal.KHost.st102, Cert.ReferenceIdeal.RefRun.st102]
    after_results_simp
    all_goals first | (simp only [h.main_arg1, h.main_v1920, h.main_v1928, h.main_v1933, h.main_v1935, h.main_v1936] <;> rfl) | rfl
  main_v1948 := by
    simp only [Cert.KernelIdeal.KHost.st102, Cert.ReferenceIdeal.RefRun.st102]
    after_results_simp
    all_goals first | (simp only [h.main_arg1, h.main_v1920, h.main_v1928, h.main_v1933, h.main_v1935, h.main_v1936] <;> rfl) | rfl
  main_v1953 := by
    simp only [Cert.KernelIdeal.KHost.st102, Cert.ReferenceIdeal.RefRun.st102]
    after_results_simp
    all_goals first | (simp only [h.main_arg1, h.main_v1920, h.main_v1928, h.main_v1933, h.main_v1935, h.main_v1936] <;> rfl) | rfl
  main_v1955 := by
    simp only [Cert.KernelIdeal.KHost.st102, Cert.ReferenceIdeal.RefRun.st102]
    after_results_simp
    all_goals first | (simp only [h.main_arg1, h.main_v1920, h.main_v1928, h.main_v1933, h.main_v1935, h.main_v1936] <;> rfl) | rfl
set_option maxRecDepth 8192 in
set_option maxHeartbeats 2000000 in
/-- Stretch 103 carries the agreement of boundary 103 to boundary 104. -/
theorem step103 (W : Valuation Cert.KernelIdeal.τ Cert.KernelIdeal.sig (Elt F)) (V : Valuation Cert.ReferenceIdeal.τ Cert.ReferenceIdeal.sig (Elt F)) (h : Agree103 W V) : Agree104 (after Cert.KernelIdeal.KHost.st103 W) (after Cert.ReferenceIdeal.RefRun.st103 V) where
  main_arg1 := by
    simp only [Cert.KernelIdeal.KHost.st103, Cert.ReferenceIdeal.RefRun.st103]
    after_results_simp
    all_goals first | (simp only [h.main_arg1, h.main_v1940, h.main_v1944, h.main_v1948, h.main_v1953, h.main_v1955] <;> rfl) | rfl
  main_v1953 := by
    simp only [Cert.KernelIdeal.KHost.st103, Cert.ReferenceIdeal.RefRun.st103]
    after_results_simp
    all_goals first | (simp only [h.main_arg1, h.main_v1940, h.main_v1944, h.main_v1948, h.main_v1953, h.main_v1955] <;> rfl) | rfl
  main_v1960 := by
    simp only [Cert.KernelIdeal.KHost.st103, Cert.ReferenceIdeal.RefRun.st103]
    after_results_simp
    all_goals first | (simp only [h.main_arg1, h.main_v1940, h.main_v1944, h.main_v1948, h.main_v1953, h.main_v1955] <;> rfl) | rfl
  main_v1964 := by
    simp only [Cert.KernelIdeal.KHost.st103, Cert.ReferenceIdeal.RefRun.st103]
    after_results_simp
    all_goals first | (simp only [h.main_arg1, h.main_v1940, h.main_v1944, h.main_v1948, h.main_v1953, h.main_v1955] <;> rfl) | rfl
  main_v1968 := by
    simp only [Cert.KernelIdeal.KHost.st103, Cert.ReferenceIdeal.RefRun.st103]
    after_results_simp
    all_goals first | (simp only [h.main_arg1, h.main_v1940, h.main_v1944, h.main_v1948, h.main_v1953, h.main_v1955] <;> rfl) | rfl
  main_v1973 := by
    simp only [Cert.KernelIdeal.KHost.st103, Cert.ReferenceIdeal.RefRun.st103]
    after_results_simp
    all_goals first | (simp only [h.main_arg1, h.main_v1940, h.main_v1944, h.main_v1948, h.main_v1953, h.main_v1955] <;> rfl) | rfl
  main_v1974 := by
    simp only [Cert.KernelIdeal.KHost.st103, Cert.ReferenceIdeal.RefRun.st103]
    after_results_simp
    all_goals first | (simp only [h.main_arg1, h.main_v1940, h.main_v1944, h.main_v1948, h.main_v1953, h.main_v1955] <;> rfl) | rfl
set_option maxRecDepth 8192 in
set_option maxHeartbeats 2000000 in
/-- Stretch 104 carries the agreement of boundary 104 to boundary 105. -/
theorem step104 (W : Valuation Cert.KernelIdeal.τ Cert.KernelIdeal.sig (Elt F)) (V : Valuation Cert.ReferenceIdeal.τ Cert.ReferenceIdeal.sig (Elt F)) (h : Agree104 W V) : Agree105 (after Cert.KernelIdeal.KHost.st104 W) (after Cert.ReferenceIdeal.RefRun.st104 V) where
  main_arg1 := by
    simp only [Cert.KernelIdeal.KHost.st104, Cert.ReferenceIdeal.RefRun.st104]
    after_results_simp
    all_goals first | (simp only [h.main_arg1, h.main_v1953, h.main_v1960, h.main_v1964, h.main_v1968, h.main_v1973, h.main_v1974] <;> rfl) | rfl
  main_v1973 := by
    simp only [Cert.KernelIdeal.KHost.st104, Cert.ReferenceIdeal.RefRun.st104]
    after_results_simp
    all_goals first | (simp only [h.main_arg1, h.main_v1953, h.main_v1960, h.main_v1964, h.main_v1968, h.main_v1973, h.main_v1974] <;> rfl) | rfl
  main_v1980 := by
    simp only [Cert.KernelIdeal.KHost.st104, Cert.ReferenceIdeal.RefRun.st104]
    after_results_simp
    all_goals first | (simp only [h.main_arg1, h.main_v1953, h.main_v1960, h.main_v1964, h.main_v1968, h.main_v1973, h.main_v1974] <;> rfl) | rfl
  main_v1984 := by
    simp only [Cert.KernelIdeal.KHost.st104, Cert.ReferenceIdeal.RefRun.st104]
    after_results_simp
    all_goals first | (simp only [h.main_arg1, h.main_v1953, h.main_v1960, h.main_v1964, h.main_v1968, h.main_v1973, h.main_v1974] <;> rfl) | rfl
  main_v1986 := by
    simp only [Cert.KernelIdeal.KHost.st104, Cert.ReferenceIdeal.RefRun.st104]
    after_results_simp
    all_goals first | (simp only [h.main_arg1, h.main_v1953, h.main_v1960, h.main_v1964, h.main_v1968, h.main_v1973, h.main_v1974] <;> rfl) | rfl
  main_v1988 := by
    simp only [Cert.KernelIdeal.KHost.st104, Cert.ReferenceIdeal.RefRun.st104]
    after_results_simp
    all_goals first | (simp only [h.main_arg1, h.main_v1953, h.main_v1960, h.main_v1964, h.main_v1968, h.main_v1973, h.main_v1974] <;> rfl) | rfl
  main_v1993 := by
    simp only [Cert.KernelIdeal.KHost.st104, Cert.ReferenceIdeal.RefRun.st104]
    after_results_simp
    all_goals first | (simp only [h.main_arg1, h.main_v1953, h.main_v1960, h.main_v1964, h.main_v1968, h.main_v1973, h.main_v1974] <;> rfl) | rfl
set_option maxRecDepth 8192 in
set_option maxHeartbeats 2000000 in
/-- Stretch 105 carries the agreement of boundary 105 to boundary 106. -/
theorem step105 (W : Valuation Cert.KernelIdeal.τ Cert.KernelIdeal.sig (Elt F)) (V : Valuation Cert.ReferenceIdeal.τ Cert.ReferenceIdeal.sig (Elt F)) (h : Agree105 W V) : Agree106 (after Cert.KernelIdeal.KHost.st105 W) (after Cert.ReferenceIdeal.RefRun.st105 V) where
  main_arg1 := by
    simp only [Cert.KernelIdeal.KHost.st105, Cert.ReferenceIdeal.RefRun.st105]
    after_results_simp
    all_goals first | (simp only [h.main_arg1, h.main_v1973, h.main_v1980, h.main_v1984, h.main_v1986, h.main_v1988, h.main_v1993] <;> rfl) | rfl
  main_v1993 := by
    simp only [Cert.KernelIdeal.KHost.st105, Cert.ReferenceIdeal.RefRun.st105]
    after_results_simp
    all_goals first | (simp only [h.main_arg1, h.main_v1973, h.main_v1980, h.main_v1984, h.main_v1986, h.main_v1988, h.main_v1993] <;> rfl) | rfl
  main_v2000 := by
    simp only [Cert.KernelIdeal.KHost.st105, Cert.ReferenceIdeal.RefRun.st105]
    after_results_simp
    all_goals first | (simp only [h.main_arg1, h.main_v1973, h.main_v1980, h.main_v1984, h.main_v1986, h.main_v1988, h.main_v1993] <;> rfl) | rfl
  main_v2004 := by
    simp only [Cert.KernelIdeal.KHost.st105, Cert.ReferenceIdeal.RefRun.st105]
    after_results_simp
    all_goals first | (simp only [h.main_arg1, h.main_v1973, h.main_v1980, h.main_v1984, h.main_v1986, h.main_v1988, h.main_v1993] <;> rfl) | rfl
  main_v2006 := by
    simp only [Cert.KernelIdeal.KHost.st105, Cert.ReferenceIdeal.RefRun.st105]
    after_results_simp
    all_goals first | (simp only [h.main_arg1, h.main_v1973, h.main_v1980, h.main_v1984, h.main_v1986, h.main_v1988, h.main_v1993] <;> rfl) | rfl
  main_v2008 := by
    simp only [Cert.KernelIdeal.KHost.st105, Cert.ReferenceIdeal.RefRun.st105]
    after_results_simp
    all_goals first | (simp only [h.main_arg1, h.main_v1973, h.main_v1980, h.main_v1984, h.main_v1986, h.main_v1988, h.main_v1993] <;> rfl) | rfl
  main_v2010 := by
    simp only [Cert.KernelIdeal.KHost.st105, Cert.ReferenceIdeal.RefRun.st105]
    after_results_simp
    all_goals first | (simp only [h.main_arg1, h.main_v1973, h.main_v1980, h.main_v1984, h.main_v1986, h.main_v1988, h.main_v1993] <;> rfl) | rfl
  main_v2012 := by
    simp only [Cert.KernelIdeal.KHost.st105, Cert.ReferenceIdeal.RefRun.st105]
    after_results_simp
    all_goals first | (simp only [h.main_arg1, h.main_v1973, h.main_v1980, h.main_v1984, h.main_v1986, h.main_v1988, h.main_v1993] <;> rfl) | rfl
set_option maxRecDepth 8192 in
set_option maxHeartbeats 2000000 in
/-- Stretch 106 carries the agreement of boundary 106 to boundary 107. -/
theorem step106 (W : Valuation Cert.KernelIdeal.τ Cert.KernelIdeal.sig (Elt F)) (V : Valuation Cert.ReferenceIdeal.τ Cert.ReferenceIdeal.sig (Elt F)) (h : Agree106 W V) : Agree107 (after Cert.KernelIdeal.KHost.st106 W) (after Cert.ReferenceIdeal.RefRun.st106 V) where
  main_arg1 := by
    simp only [Cert.KernelIdeal.KHost.st106, Cert.ReferenceIdeal.RefRun.st106]
    after_results_simp
    all_goals first | (simp only [h.main_arg1, h.main_v1993, h.main_v2000, h.main_v2004, h.main_v2006, h.main_v2008, h.main_v2010, h.main_v2012] <;> rfl) | rfl
  main_v2022 := by
    simp only [Cert.KernelIdeal.KHost.st106, Cert.ReferenceIdeal.RefRun.st106]
    after_results_simp
    all_goals first | (simp only [h.main_arg1, h.main_v1993, h.main_v2000, h.main_v2004, h.main_v2006, h.main_v2008, h.main_v2010, h.main_v2012] <;> rfl) | rfl
  main_v2024 := by
    simp only [Cert.KernelIdeal.KHost.st106, Cert.ReferenceIdeal.RefRun.st106]
    after_results_simp
    all_goals first | (simp only [h.main_arg1, h.main_v1993, h.main_v2000, h.main_v2004, h.main_v2006, h.main_v2008, h.main_v2010, h.main_v2012] <;> rfl) | rfl
  main_v2028 := by
    simp only [Cert.KernelIdeal.KHost.st106, Cert.ReferenceIdeal.RefRun.st106]
    after_results_simp
    all_goals first | (simp only [h.main_arg1, h.main_v1993, h.main_v2000, h.main_v2004, h.main_v2006, h.main_v2008, h.main_v2010, h.main_v2012] <;> rfl) | rfl
  main_v2030 := by
    simp only [Cert.KernelIdeal.KHost.st106, Cert.ReferenceIdeal.RefRun.st106]
    after_results_simp
    all_goals first | (simp only [h.main_arg1, h.main_v1993, h.main_v2000, h.main_v2004, h.main_v2006, h.main_v2008, h.main_v2010, h.main_v2012] <;> rfl) | rfl
set_option maxRecDepth 8192 in
set_option maxHeartbeats 2000000 in
/-- Stretch 107 carries the agreement of boundary 107 to boundary 108. -/
theorem step107 (W : Valuation Cert.KernelIdeal.τ Cert.KernelIdeal.sig (Elt F)) (V : Valuation Cert.ReferenceIdeal.τ Cert.ReferenceIdeal.sig (Elt F)) (h : Agree107 W V) : Agree108 (after Cert.KernelIdeal.KHost.st107 W) (after Cert.ReferenceIdeal.RefRun.st107 V) where
  main_arg1 := by
    simp only [Cert.KernelIdeal.KHost.st107, Cert.ReferenceIdeal.RefRun.st107]
    after_results_simp
    all_goals first | (simp only [h.main_arg1, h.main_v2022, h.main_v2024, h.main_v2028, h.main_v2030] <;> rfl) | rfl
  main_v2037 := by
    simp only [Cert.KernelIdeal.KHost.st107, Cert.ReferenceIdeal.RefRun.st107]
    after_results_simp
    all_goals first | (simp only [h.main_arg1, h.main_v2022, h.main_v2024, h.main_v2028, h.main_v2030] <;> rfl) | rfl
  main_v2044 := by
    simp only [Cert.KernelIdeal.KHost.st107, Cert.ReferenceIdeal.RefRun.st107]
    after_results_simp
    all_goals first | (simp only [h.main_arg1, h.main_v2022, h.main_v2024, h.main_v2028, h.main_v2030] <;> rfl) | rfl
  main_v2048 := by
    simp only [Cert.KernelIdeal.KHost.st107, Cert.ReferenceIdeal.RefRun.st107]
    after_results_simp
    all_goals first | (simp only [h.main_arg1, h.main_v2022, h.main_v2024, h.main_v2028, h.main_v2030] <;> rfl) | rfl
  main_v2049 := by
    simp only [Cert.KernelIdeal.KHost.st107, Cert.ReferenceIdeal.RefRun.st107]
    after_results_simp
    all_goals first | (simp only [h.main_arg1, h.main_v2022, h.main_v2024, h.main_v2028, h.main_v2030] <;> rfl) | rfl

end Cert.Lock

end
-- ==== Proof.LockW9.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 108 carries the agreement of boundary 108 to boundary 109. -/
theorem step108 (W : Valuation Cert.KernelIdeal.τ Cert.KernelIdeal.sig (Elt F)) (V : Valuation Cert.ReferenceIdeal.τ Cert.ReferenceIdeal.sig (Elt F)) (h : Agree108 W V) : Agree109 (after Cert.KernelIdeal.KHost.st108 W) (after Cert.ReferenceIdeal.RefRun.st108 V) where
  main_arg1 := by
    simp only [Cert.KernelIdeal.KHost.st108, Cert.ReferenceIdeal.RefRun.st108]
    after_results_simp
    all_goals first | (simp only [h.main_arg1, h.main_v2037, h.main_v2044, h.main_v2048, h.main_v2049] <;> rfl) | rfl
  main_v2057 := by
    simp only [Cert.KernelIdeal.KHost.st108, Cert.ReferenceIdeal.RefRun.st108]
    after_results_simp
    all_goals first | (simp only [h.main_arg1, h.main_v2037, h.main_v2044, h.main_v2048, h.main_v2049] <;> rfl) | rfl
  main_v2064 := by
    simp only [Cert.KernelIdeal.KHost.st108, Cert.ReferenceIdeal.RefRun.st108]
    after_results_simp
    all_goals first | (simp only [h.main_arg1, h.main_v2037, h.main_v2044, h.main_v2048, h.main_v2049] <;> rfl) | rfl
  main_v2066 := by
    simp only [Cert.KernelIdeal.KHost.st108, Cert.ReferenceIdeal.RefRun.st108]
    after_results_simp
    all_goals first | (simp only [h.main_arg1, h.main_v2037, h.main_v2044, h.main_v2048, h.main_v2049] <;> rfl) | rfl
  main_v2068 := by
    simp only [Cert.KernelIdeal.KHost.st108, Cert.ReferenceIdeal.RefRun.st108]
    after_results_simp
    all_goals first | (simp only [h.main_arg1, h.main_v2037, h.main_v2044, h.main_v2048, h.main_v2049] <;> rfl) | rfl
set_option maxRecDepth 8192 in
set_option maxHeartbeats 2000000 in
/-- Stretch 109 carries the agreement of boundary 109 to boundary 110. -/
theorem step109 (W : Valuation Cert.KernelIdeal.τ Cert.KernelIdeal.sig (Elt F)) (V : Valuation Cert.ReferenceIdeal.τ Cert.ReferenceIdeal.sig (Elt F)) (h : Agree109 W V) : Agree110 (after Cert.KernelIdeal.KHost.st109 W) (after Cert.ReferenceIdeal.RefRun.st109 V) where
  main_arg1 := by
    simp only [Cert.KernelIdeal.KHost.st109, Cert.ReferenceIdeal.RefRun.st109]
    after_results_simp
    all_goals first | (simp only [h.main_arg1, h.main_v2057, h.main_v2064, h.main_v2066, h.main_v2068] <;> rfl) | rfl
  main_v2077 := by
    simp only [Cert.KernelIdeal.KHost.st109, Cert.ReferenceIdeal.RefRun.st109]
    after_results_simp
    all_goals first | (simp only [h.main_arg1, h.main_v2057, h.main_v2064, h.main_v2066, h.main_v2068] <;> rfl) | rfl
  main_v2084 := by
    simp only [Cert.KernelIdeal.KHost.st109, Cert.ReferenceIdeal.RefRun.st109]
    after_results_simp
    all_goals first | (simp only [h.main_arg1, h.main_v2057, h.main_v2064, h.main_v2066, h.main_v2068] <;> rfl) | rfl
  main_v2086 := by
    simp only [Cert.KernelIdeal.KHost.st109, Cert.ReferenceIdeal.RefRun.st109]
    after_results_simp
    all_goals first | (simp only [h.main_arg1, h.main_v2057, h.main_v2064, h.main_v2066, h.main_v2068] <;> rfl) | rfl
  main_v2087 := by
    simp only [Cert.KernelIdeal.KHost.st109, Cert.ReferenceIdeal.RefRun.st109]
    after_results_simp
    all_goals first | (simp only [h.main_arg1, h.main_v2057, h.main_v2064, h.main_v2066, h.main_v2068] <;> rfl) | rfl
set_option maxRecDepth 8192 in
set_option maxHeartbeats 2000000 in
/-- Stretch 110 carries the agreement of boundary 110 to boundary 111. -/
theorem step110 (W : Valuation Cert.KernelIdeal.τ Cert.KernelIdeal.sig (Elt F)) (V : Valuation Cert.ReferenceIdeal.τ Cert.ReferenceIdeal.sig (Elt F)) (h : Agree110 W V) : Agree111 (after Cert.KernelIdeal.KHost.st110 W) (after Cert.ReferenceIdeal.RefRun.st110 V) where
  main_arg1 := by
    simp only [Cert.KernelIdeal.KHost.st110, Cert.ReferenceIdeal.RefRun.st110]
    after_results_simp
    all_goals first | (simp only [h.main_arg1, h.main_v2077, h.main_v2084, h.main_v2086, h.main_v2087] <;> rfl) | rfl
  main_v2097 := by
    simp only [Cert.KernelIdeal.KHost.st110, Cert.ReferenceIdeal.RefRun.st110]
    after_results_simp
    all_goals first | (simp only [h.main_arg1, h.main_v2077, h.main_v2084, h.main_v2086, h.main_v2087] <;> rfl) | rfl
  main_v2104 := by
    simp only [Cert.KernelIdeal.KHost.st110, Cert.ReferenceIdeal.RefRun.st110]
    after_results_simp
    all_goals first | (simp only [h.main_arg1, h.main_v2077, h.main_v2084, h.main_v2086, h.main_v2087] <;> rfl) | rfl
  main_v2106 := by
    simp only [Cert.KernelIdeal.KHost.st110, Cert.ReferenceIdeal.RefRun.st110]
    after_results_simp
    all_goals first | (simp only [h.main_arg1, h.main_v2077, h.main_v2084, h.main_v2086, h.main_v2087] <;> rfl) | rfl
set_option maxRecDepth 8192 in
set_option maxHeartbeats 2000000 in
/-- Stretch 111 carries the agreement of boundary 111 to boundary 112. -/
theorem step111 (W : Valuation Cert.KernelIdeal.τ Cert.KernelIdeal.sig (Elt F)) (V : Valuation Cert.ReferenceIdeal.τ Cert.ReferenceIdeal.sig (Elt F)) (h : Agree111 W V) : Agree112 (after Cert.KernelIdeal.KHost.st111 W) (after Cert.ReferenceIdeal.RefRun.st111 V) where
  main_arg1 := by
    simp only [Cert.KernelIdeal.KHost.st111, Cert.ReferenceIdeal.RefRun.st111]
    after_results_simp
    all_goals first | (simp only [h.main_arg1, h.main_v2097, h.main_v2104, h.main_v2106] <;> rfl) | rfl
  main_v2117 := by
    simp only [Cert.KernelIdeal.KHost.st111, Cert.ReferenceIdeal.RefRun.st111]
    after_results_simp
    all_goals first | (simp only [h.main_arg1, h.main_v2097, h.main_v2104, h.main_v2106] <;> rfl) | rfl
  main_v2124 := by
    simp only [Cert.KernelIdeal.KHost.st111, Cert.ReferenceIdeal.RefRun.st111]
    after_results_simp
    all_goals first | (simp only [h.main_arg1, h.main_v2097, h.main_v2104, h.main_v2106] <;> rfl) | rfl
  main_v2125 := by
    simp only [Cert.KernelIdeal.KHost.st111, Cert.ReferenceIdeal.RefRun.st111]
    after_results_simp
    all_goals first | (simp only [h.main_arg1, h.main_v2097, h.main_v2104, h.main_v2106] <;> rfl) | rfl
set_option maxRecDepth 8192 in
set_option maxHeartbeats 2000000 in
/-- Stretch 112 carries the agreement of boundary 112 to boundary 113. -/
theorem step112 (W : Valuation Cert.KernelIdeal.τ Cert.KernelIdeal.sig (Elt F)) (V : Valuation Cert.ReferenceIdeal.τ Cert.ReferenceIdeal.sig (Elt F)) (h : Agree112 W V) : Agree113 (after Cert.KernelIdeal.KHost.st112 W) (after Cert.ReferenceIdeal.RefRun.st112 V) where
  main_arg1 := by
    simp only [Cert.KernelIdeal.KHost.st112, Cert.ReferenceIdeal.RefRun.st112]
    after_results_simp
    all_goals first | (simp only [h.main_arg1, h.main_v2117, h.main_v2124, h.main_v2125] <;> rfl) | rfl
  main_v2137 := by
    simp only [Cert.KernelIdeal.KHost.st112, Cert.ReferenceIdeal.RefRun.st112]
    after_results_simp
    all_goals first | (simp only [h.main_arg1, h.main_v2117, h.main_v2124, h.main_v2125] <;> rfl) | rfl
  main_v2144 := by
    simp only [Cert.KernelIdeal.KHost.st112, Cert.ReferenceIdeal.RefRun.st112]
    after_results_simp
    all_goals first | (simp only [h.main_arg1, h.main_v2117, h.main_v2124, h.main_v2125] <;> rfl) | rfl
set_option maxRecDepth 8192 in
set_option maxHeartbeats 2000000 in
/-- Stretch 113 carries the agreement of boundary 113 to boundary 114. -/
theorem step113 (W : Valuation Cert.KernelIdeal.τ Cert.KernelIdeal.sig (Elt F)) (V : Valuation Cert.ReferenceIdeal.τ Cert.ReferenceIdeal.sig (Elt F)) (h : Agree113 W V) : Agree114 (after Cert.KernelIdeal.KHost.st113 W) (after Cert.ReferenceIdeal.RefRun.st113 V) where
  main_arg1 := by
    simp only [Cert.KernelIdeal.KHost.st113, Cert.ReferenceIdeal.RefRun.st113]
    after_results_simp
    all_goals first | (simp only [h.main_arg1, h.main_v2137, h.main_v2144] <;> rfl) | rfl
  main_v2146 := by
    simp only [Cert.KernelIdeal.KHost.st113, Cert.ReferenceIdeal.RefRun.st113]
    after_results_simp
    all_goals first | (simp only [h.main_arg1, h.main_v2137, h.main_v2144] <;> rfl) | rfl
  main_v2152 := by
    simp only [Cert.KernelIdeal.KHost.st113, Cert.ReferenceIdeal.RefRun.st113]
    after_results_simp
    all_goals first | (simp only [h.main_arg1, h.main_v2137, h.main_v2144] <;> rfl) | rfl
  main_v2156 := by
    simp only [Cert.KernelIdeal.KHost.st113, Cert.ReferenceIdeal.RefRun.st113]
    after_results_simp
    all_goals first | (simp only [h.main_arg1, h.main_v2137, h.main_v2144] <;> rfl) | rfl
  main_v2161 := by
    simp only [Cert.KernelIdeal.KHost.st113, Cert.ReferenceIdeal.RefRun.st113]
    after_results_simp
    all_goals first | (simp only [h.main_arg1, h.main_v2137, h.main_v2144] <;> rfl) | rfl
  main_v2163 := by
    simp only [Cert.KernelIdeal.KHost.st113, Cert.ReferenceIdeal.RefRun.st113]
    after_results_simp
    all_goals first | (simp only [h.main_arg1, h.main_v2137, h.main_v2144] <;> rfl) | rfl
set_option maxRecDepth 8192 in
set_option maxHeartbeats 2000000 in
/-- Stretch 114 carries the agreement of boundary 114 to boundary 115. -/
theorem step114 (W : Valuation Cert.KernelIdeal.τ Cert.KernelIdeal.sig (Elt F)) (V : Valuation Cert.ReferenceIdeal.τ Cert.ReferenceIdeal.sig (Elt F)) (h : Agree114 W V) : Agree115 (after Cert.KernelIdeal.KHost.st114 W) (after Cert.ReferenceIdeal.RefRun.st114 V) where
  main_arg1 := by
    simp only [Cert.KernelIdeal.KHost.st114, Cert.ReferenceIdeal.RefRun.st114]
    after_results_simp
    all_goals first | (simp only [h.main_arg1, h.main_v2146, h.main_v2152, h.main_v2156, h.main_v2161, h.main_v2163] <;> rfl) | rfl
  main_v2161 := by
    simp only [Cert.KernelIdeal.KHost.st114, Cert.ReferenceIdeal.RefRun.st114]
    after_results_simp
    all_goals first | (simp only [h.main_arg1, h.main_v2146, h.main_v2152, h.main_v2156, h.main_v2161, h.main_v2163] <;> rfl) | rfl
  main_v2168 := by
    simp only [Cert.KernelIdeal.KHost.st114, Cert.ReferenceIdeal.RefRun.st114]
    after_results_simp
    all_goals first | (simp only [h.main_arg1, h.main_v2146, h.main_v2152, h.main_v2156, h.main_v2161, h.main_v2163] <;> rfl) | rfl
  main_v2172 := by
    simp only [Cert.KernelIdeal.KHost.st114, Cert.ReferenceIdeal.RefRun.st114]
    after_results_simp
    all_goals first | (simp only [h.main_arg1, h.main_v2146, h.main_v2152, h.main_v2156, h.main_v2161, h.main_v2163] <;> rfl) | rfl
  main_v2176 := by
    simp only [Cert.KernelIdeal.KHost.st114, Cert.ReferenceIdeal.RefRun.st114]
    after_results_simp
    all_goals first | (simp only [h.main_arg1, h.main_v2146, h.main_v2152, h.main_v2156, h.main_v2161, h.main_v2163] <;> rfl) | rfl
  main_v2181 := by
    simp only [Cert.KernelIdeal.KHost.st114, Cert.ReferenceIdeal.RefRun.st114]
    after_results_simp
    all_goals first | (simp only [h.main_arg1, h.main_v2146, h.main_v2152, h.main_v2156, h.main_v2161, h.main_v2163] <;> rfl) | rfl
  main_v2182 := by
    simp only [Cert.KernelIdeal.KHost.st114, Cert.ReferenceIdeal.RefRun.st114]
    after_results_simp
    all_goals first | (simp only [h.main_arg1, h.main_v2146, h.main_v2152, h.main_v2156, h.main_v2161, h.main_v2163] <;> rfl) | rfl
set_option maxRecDepth 8192 in
set_option maxHeartbeats 2000000 in
/-- Stretch 115 carries the agreement of boundary 115 to boundary 116. -/
theorem step115 (W : Valuation Cert.KernelIdeal.τ Cert.KernelIdeal.sig (Elt F)) (V : Valuation Cert.ReferenceIdeal.τ Cert.ReferenceIdeal.sig (Elt F)) (h : Agree115 W V) : Agree116 (after Cert.KernelIdeal.KHost.st115 W) (after Cert.ReferenceIdeal.RefRun.st115 V) where
  main_arg1 := by
    simp only [Cert.KernelIdeal.KHost.st115, Cert.ReferenceIdeal.RefRun.st115]
    after_results_simp
    all_goals first | (simp only [h.main_arg1, h.main_v2161, h.main_v2168, h.main_v2172, h.main_v2176, h.main_v2181, h.main_v2182] <;> rfl) | rfl
  main_v2181 := by
    simp only [Cert.KernelIdeal.KHost.st115, Cert.ReferenceIdeal.RefRun.st115]
    after_results_simp
    all_goals first | (simp only [h.main_arg1, h.main_v2161, h.main_v2168, h.main_v2172, h.main_v2176, h.main_v2181, h.main_v2182] <;> rfl) | rfl
  main_v2188 := by
    simp only [Cert.KernelIdeal.KHost.st115, Cert.ReferenceIdeal.RefRun.st115]
    after_results_simp
    all_goals first | (simp only [h.main_arg1, h.main_v2161, h.main_v2168, h.main_v2172, h.main_v2176, h.main_v2181, h.main_v2182] <;> rfl) | rfl
  main_v2192 := by
    simp only [Cert.KernelIdeal.KHost.st115, Cert.ReferenceIdeal.RefRun.st115]
    after_results_simp
    all_goals first | (simp only [h.main_arg1, h.main_v2161, h.main_v2168, h.main_v2172, h.main_v2176, h.main_v2181, h.main_v2182] <;> rfl) | rfl
  main_v2194 := by
    simp only [Cert.KernelIdeal.KHost.st115, Cert.ReferenceIdeal.RefRun.st115]
    after_results_simp
    all_goals first | (simp only [h.main_arg1, h.main_v2161, h.main_v2168, h.main_v2172, h.main_v2176, h.main_v2181, h.main_v2182] <;> rfl) | rfl
  main_v2196 := by
    simp only [Cert.KernelIdeal.KHost.st115, Cert.ReferenceIdeal.RefRun.st115]
    after_results_simp
    all_goals first | (simp only [h.main_arg1, h.main_v2161, h.main_v2168, h.main_v2172, h.main_v2176, h.main_v2181, h.main_v2182] <;> rfl) | rfl
  main_v2201 := by
    simp only [Cert.KernelIdeal.KHost.st115, Cert.ReferenceIdeal.RefRun.st115]
    after_results_simp
    all_goals first | (simp only [h.main_arg1, h.main_v2161, h.main_v2168, h.main_v2172, h.main_v2176, h.main_v2181, h.main_v2182] <;> rfl) | rfl
set_option maxRecDepth 8192 in
set_option maxHeartbeats 2000000 in
/-- Stretch 116 carries the agreement of boundary 116 to boundary 117. -/
theorem step116 (W : Valuation Cert.KernelIdeal.τ Cert.KernelIdeal.sig (Elt F)) (V : Valuation Cert.ReferenceIdeal.τ Cert.ReferenceIdeal.sig (Elt F)) (h : Agree116 W V) : Agree117 (after Cert.KernelIdeal.KHost.st116 W) (after Cert.ReferenceIdeal.RefRun.st116 V) where
  main_arg1 := by
    simp only [Cert.KernelIdeal.KHost.st116, Cert.ReferenceIdeal.RefRun.st116]
    after_results_simp
    all_goals first | (simp only [h.main_arg1, h.main_v2181, h.main_v2188, h.main_v2192, h.main_v2194, h.main_v2196, h.main_v2201] <;> rfl) | rfl
  main_v2201 := by
    simp only [Cert.KernelIdeal.KHost.st116, Cert.ReferenceIdeal.RefRun.st116]
    after_results_simp
    all_goals first | (simp only [h.main_arg1, h.main_v2181, h.main_v2188, h.main_v2192, h.main_v2194, h.main_v2196, h.main_v2201] <;> rfl) | rfl
  main_v2208 := by
    simp only [Cert.KernelIdeal.KHost.st116, Cert.ReferenceIdeal.RefRun.st116]
    after_results_simp
    all_goals first | (simp only [h.main_arg1, h.main_v2181, h.main_v2188, h.main_v2192, h.main_v2194, h.main_v2196, h.main_v2201] <;> rfl) | rfl
  main_v2212 := by
    simp only [Cert.KernelIdeal.KHost.st116, Cert.ReferenceIdeal.RefRun.st116]
    after_results_simp
    all_goals first | (simp only [h.main_arg1, h.main_v2181, h.main_v2188, h.main_v2192, h.main_v2194, h.main_v2196, h.main_v2201] <;> rfl) | rfl
  main_v2214 := by
    simp only [Cert.KernelIdeal.KHost.st116, Cert.ReferenceIdeal.RefRun.st116]
    after_results_simp
    all_goals first | (simp only [h.main_arg1, h.main_v2181, h.main_v2188, h.main_v2192, h.main_v2194, h.main_v2196, h.main_v2201] <;> rfl) | rfl
  main_v2216 := by
    simp only [Cert.KernelIdeal.KHost.st116, Cert.ReferenceIdeal.RefRun.st116]
    after_results_simp
    all_goals first | (simp only [h.main_arg1, h.main_v2181, h.main_v2188, h.main_v2192, h.main_v2194, h.main_v2196, h.main_v2201] <;> rfl) | rfl
  main_v2218 := by
    simp only [Cert.KernelIdeal.KHost.st116, Cert.ReferenceIdeal.RefRun.st116]
    after_results_simp
    all_goals first | (simp only [h.main_arg1, h.main_v2181, h.main_v2188, h.main_v2192, h.main_v2194, h.main_v2196, h.main_v2201] <;> rfl) | rfl
  main_v2220 := by
    simp only [Cert.KernelIdeal.KHost.st116, Cert.ReferenceIdeal.RefRun.st116]
    after_results_simp
    all_goals first | (simp only [h.main_arg1, h.main_v2181, h.main_v2188, h.main_v2192, h.main_v2194, h.main_v2196, h.main_v2201] <;> rfl) | rfl
set_option maxRecDepth 8192 in
set_option maxHeartbeats 2000000 in
/-- Stretch 117 carries the agreement of boundary 117 to boundary 118. -/
theorem step117 (W : Valuation Cert.KernelIdeal.τ Cert.KernelIdeal.sig (Elt F)) (V : Valuation Cert.ReferenceIdeal.τ Cert.ReferenceIdeal.sig (Elt F)) (h : Agree117 W V) : Agree118 (after Cert.KernelIdeal.KHost.st117 W) (after Cert.ReferenceIdeal.RefRun.st117 V) where
  main_arg1 := by
    simp only [Cert.KernelIdeal.KHost.st117, Cert.ReferenceIdeal.RefRun.st117]
    after_results_simp
    all_goals first | (simp only [h.main_arg1, h.main_v2201, h.main_v2208, h.main_v2212, h.main_v2214, h.main_v2216, h.main_v2218, h.main_v2220] <;> rfl) | rfl
  main_v2221 := by
    simp only [Cert.KernelIdeal.KHost.st117, Cert.ReferenceIdeal.RefRun.st117]
    after_results_simp
    all_goals first | (simp only [h.main_arg1, h.main_v2201, h.main_v2208, h.main_v2212, h.main_v2214, h.main_v2216, h.main_v2218, h.main_v2220] <;> rfl) | rfl
  main_v2228 := by
    simp only [Cert.KernelIdeal.KHost.st117, Cert.ReferenceIdeal.RefRun.st117]
    after_results_simp
    all_goals first | (simp only [h.main_arg1, h.main_v2201, h.main_v2208, h.main_v2212, h.main_v2214, h.main_v2216, h.main_v2218, h.main_v2220] <;> rfl) | rfl
  main_v2232 := by
    simp only [Cert.KernelIdeal.KHost.st117, Cert.ReferenceIdeal.RefRun.st117]
    after_results_simp
    all_goals first | (simp only [h.main_arg1, h.main_v2201, h.main_v2208, h.main_v2212, h.main_v2214, h.main_v2216, h.main_v2218, h.main_v2220] <;> rfl) | rfl
  main_v2234 := by
    simp only [Cert.KernelIdeal.KHost.st117, Cert.ReferenceIdeal.RefRun.st117]
    after_results_simp
    all_goals first | (simp only [h.main_arg1, h.main_v2201, h.main_v2208, h.main_v2212, h.main_v2214, h.main_v2216, h.main_v2218, h.main_v2220] <;> rfl) | rfl
  main_v2236 := by
    simp only [Cert.KernelIdeal.KHost.st117, Cert.ReferenceIdeal.RefRun.st117]
    after_results_simp
    all_goals first | (simp only [h.main_arg1, h.main_v2201, h.main_v2208, h.main_v2212, h.main_v2214, h.main_v2216, h.main_v2218, h.main_v2220] <;> rfl) | rfl
  main_v2238 := by
    simp only [Cert.KernelIdeal.KHost.st117, Cert.ReferenceIdeal.RefRun.st117]
    after_results_simp
    all_goals first | (simp only [h.main_arg1, h.main_v2201, h.main_v2208, h.main_v2212, h.main_v2214, h.main_v2216, h.main_v2218, h.main_v2220] <;> rfl) | rfl
  main_v2239 := by
    simp only [Cert.KernelIdeal.KHost.st117, Cert.ReferenceIdeal.RefRun.st117]
    after_results_simp
    all_goals first | (simp only [h.main_arg1, h.main_v2201, h.main_v2208, h.main_v2212, h.main_v2214, h.main_v2216, h.main_v2218, h.main_v2220] <;> rfl) | rfl
set_option maxRecDepth 8192 in
set_option maxHeartbeats 2000000 in
/-- Stretch 118 carries the agreement of boundary 118 to boundary 119. -/
theorem step118 (W : Valuation Cert.KernelIdeal.τ Cert.KernelIdeal.sig (Elt F)) (V : Valuation Cert.ReferenceIdeal.τ Cert.ReferenceIdeal.sig (Elt F)) (h : Agree118 W V) : Agree119 (after Cert.KernelIdeal.KHost.st118 W) (after Cert.ReferenceIdeal.RefRun.st118 V) where
  main_arg1 := by
    simp only [Cert.KernelIdeal.KHost.st118, Cert.ReferenceIdeal.RefRun.st118]
    after_results_simp
    all_goals first | (simp only [h.main_arg1, h.main_v2221, h.main_v2228, h.main_v2232, h.main_v2234, h.main_v2236, h.main_v2238, h.main_v2239] <;> rfl) | rfl
  main_v2250 := by
    simp only [Cert.KernelIdeal.KHost.st118, Cert.ReferenceIdeal.RefRun.st118]
    after_results_simp
    all_goals first | (simp only [h.main_arg1, h.main_v2221, h.main_v2228, h.main_v2232, h.main_v2234, h.main_v2236, h.main_v2238, h.main_v2239] <;> rfl) | rfl
  main_v2252 := by
    simp only [Cert.KernelIdeal.KHost.st118, Cert.ReferenceIdeal.RefRun.st118]
    after_results_simp
    all_goals first | (simp only [h.main_arg1, h.main_v2221, h.main_v2228, h.main_v2232, h.main_v2234, h.main_v2236, h.main_v2238, h.main_v2239] <;> rfl) | rfl
  main_v2256 := by
    simp only [Cert.KernelIdeal.KHost.st118, Cert.ReferenceIdeal.RefRun.st118]
    after_results_simp
    all_goals first | (simp only [h.main_arg1, h.main_v2221, h.main_v2228, h.main_v2232, h.main_v2234, h.main_v2236, h.main_v2238, h.main_v2239] <;> rfl) | rfl
  main_v2257 := by
    simp only [Cert.KernelIdeal.KHost.st118, Cert.ReferenceIdeal.RefRun.st118]
    after_results_simp
    all_goals first | (simp only [h.main_arg1, h.main_v2221, h.main_v2228, h.main_v2232, h.main_v2234, h.main_v2236, h.main_v2238, h.main_v2239] <;> rfl) | rfl
set_option maxRecDepth 8192 in
set_option maxHeartbeats 2000000 in
/-- Stretch 119 carries the agreement of boundary 119 to boundary 120. -/
theorem step119 (W : Valuation Cert.KernelIdeal.τ Cert.KernelIdeal.sig (Elt F)) (V : Valuation Cert.ReferenceIdeal.τ Cert.ReferenceIdeal.sig (Elt F)) (h : Agree119 W V) : Agree120 (after Cert.KernelIdeal.KHost.st119 W) (after Cert.ReferenceIdeal.RefRun.st119 V) where
  main_arg1 := by
    simp only [Cert.KernelIdeal.KHost.st119, Cert.ReferenceIdeal.RefRun.st119]
    after_results_simp
    all_goals first | (simp only [h.main_arg1, h.main_v2250, h.main_v2252, h.main_v2256, h.main_v2257] <;> rfl) | rfl
  main_v2265 := by
    simp only [Cert.KernelIdeal.KHost.st119, Cert.ReferenceIdeal.RefRun.st119]
    after_results_simp
    all_goals first | (simp only [h.main_arg1, h.main_v2250, h.main_v2252, h.main_v2256, h.main_v2257] <;> rfl) | rfl
  main_v2272 := by
    simp only [Cert.KernelIdeal.KHost.st119, Cert.ReferenceIdeal.RefRun.st119]
    after_results_simp
    all_goals first | (simp only [h.main_arg1, h.main_v2250, h.main_v2252, h.main_v2256, h.main_v2257] <;> rfl) | rfl
  main_v2274 := by
    simp only [Cert.KernelIdeal.KHost.st119, Cert.ReferenceIdeal.RefRun.st119]
    after_results_simp
    all_goals first | (simp only [h.main_arg1, h.main_v2250, h.main_v2252, h.main_v2256, h.main_v2257] <;> rfl) | rfl
  main_v2276 := by
    simp only [Cert.KernelIdeal.KHost.st119, Cert.ReferenceIdeal.RefRun.st119]
    after_results_simp
    all_goals first | (simp only [h.main_arg1, h.main_v2250, h.main_v2252, h.main_v2256, h.main_v2257] <;> rfl) | rfl

end Cert.Lock

end
-- ==== Proof.LockW10.lean ====
import proofs.«128918_j72490458022405_1_alg».proof.Proof.LockDefs

noncomputable section

namespace Cert.Lock

open Idealize.ShloMosaic Idealize.ShloMosaic.TcCoe Idealize.SL.Sem Idealize.ShloMosaic.StableHlo

variable {F : FTy → Type} [FloatOps F]

set_option maxRecDepth 8192 in
set_option maxHeartbeats 2000000 in
/-- Stretch 120 carries the agreement of boundary 120 to boundary 121. -/
theorem step120 (W : Valuation Cert.KernelIdeal.τ Cert.KernelIdeal.sig (Elt F)) (V : Valuation Cert.ReferenceIdeal.τ Cert.ReferenceIdeal.sig (Elt F)) (h : Agree120 W V) : Agree121 (after Cert.KernelIdeal.KHost.st120 W) (after Cert.ReferenceIdeal.RefRun.st120 V) where
  main_arg1 := by
    simp only [Cert.KernelIdeal.KHost.st120, Cert.ReferenceIdeal.RefRun.st120]
    after_results_simp
    all_goals first | (simp only [h.main_arg1, h.main_v2265, h.main_v2272, h.main_v2274, h.main_v2276] <;> rfl) | rfl
  main_v2285 := by
    simp only [Cert.KernelIdeal.KHost.st120, Cert.ReferenceIdeal.RefRun.st120]
    after_results_simp
    all_goals first | (simp only [h.main_arg1, h.main_v2265, h.main_v2272, h.main_v2274, h.main_v2276] <;> rfl) | rfl
  main_v2292 := by
    simp only [Cert.KernelIdeal.KHost.st120, Cert.ReferenceIdeal.RefRun.st120]
    after_results_simp
    all_goals first | (simp only [h.main_arg1, h.main_v2265, h.main_v2272, h.main_v2274, h.main_v2276] <;> rfl) | rfl
  main_v2294 := by
    simp only [Cert.KernelIdeal.KHost.st120, Cert.ReferenceIdeal.RefRun.st120]
    after_results_simp
    all_goals first | (simp only [h.main_arg1, h.main_v2265, h.main_v2272, h.main_v2274, h.main_v2276] <;> rfl) | rfl
  main_v2295 := by
    simp only [Cert.KernelIdeal.KHost.st120, Cert.ReferenceIdeal.RefRun.st120]
    after_results_simp
    all_goals first | (simp only [h.main_arg1, h.main_v2265, h.main_v2272, h.main_v2274, h.main_v2276] <;> rfl) | rfl
set_option maxRecDepth 8192 in
set_option maxHeartbeats 2000000 in
/-- Stretch 121 carries the agreement of boundary 121 to boundary 122. -/
theorem step121 (W : Valuation Cert.KernelIdeal.τ Cert.KernelIdeal.sig (Elt F)) (V : Valuation Cert.ReferenceIdeal.τ Cert.ReferenceIdeal.sig (Elt F)) (h : Agree121 W V) : Agree122 (after Cert.KernelIdeal.KHost.st121 W) (after Cert.ReferenceIdeal.RefRun.st121 V) where
  main_arg1 := by
    simp only [Cert.KernelIdeal.KHost.st121, Cert.ReferenceIdeal.RefRun.st121]
    after_results_simp
    all_goals first | (simp only [h.main_arg1, h.main_v2285, h.main_v2292, h.main_v2294, h.main_v2295] <;> rfl) | rfl
  main_v2305 := by
    simp only [Cert.KernelIdeal.KHost.st121, Cert.ReferenceIdeal.RefRun.st121]
    after_results_simp
    all_goals first | (simp only [h.main_arg1, h.main_v2285, h.main_v2292, h.main_v2294, h.main_v2295] <;> rfl) | rfl
  main_v2312 := by
    simp only [Cert.KernelIdeal.KHost.st121, Cert.ReferenceIdeal.RefRun.st121]
    after_results_simp
    all_goals first | (simp only [h.main_arg1, h.main_v2285, h.main_v2292, h.main_v2294, h.main_v2295] <;> rfl) | rfl
  main_v2314 := by
    simp only [Cert.KernelIdeal.KHost.st121, Cert.ReferenceIdeal.RefRun.st121]
    after_results_simp
    all_goals first | (simp only [h.main_arg1, h.main_v2285, h.main_v2292, h.main_v2294, h.main_v2295] <;> rfl) | rfl
set_option maxRecDepth 8192 in
set_option maxHeartbeats 2000000 in
/-- Stretch 122 carries the agreement of boundary 122 to boundary 123. -/
theorem step122 (W : Valuation Cert.KernelIdeal.τ Cert.KernelIdeal.sig (Elt F)) (V : Valuation Cert.ReferenceIdeal.τ Cert.ReferenceIdeal.sig (Elt F)) (h : Agree122 W V) : Agree123 (after Cert.KernelIdeal.KHost.st122 W) (after Cert.ReferenceIdeal.RefRun.st122 V) where
  main_arg1 := by
    simp only [Cert.KernelIdeal.KHost.st122, Cert.ReferenceIdeal.RefRun.st122]
    after_results_simp
    all_goals first | (simp only [h.main_arg1, h.main_v2305, h.main_v2312, h.main_v2314] <;> rfl) | rfl
  main_v2325 := by
    simp only [Cert.KernelIdeal.KHost.st122, Cert.ReferenceIdeal.RefRun.st122]
    after_results_simp
    all_goals first | (simp only [h.main_arg1, h.main_v2305, h.main_v2312, h.main_v2314] <;> rfl) | rfl
  main_v2332 := by
    simp only [Cert.KernelIdeal.KHost.st122, Cert.ReferenceIdeal.RefRun.st122]
    after_results_simp
    all_goals first | (simp only [h.main_arg1, h.main_v2305, h.main_v2312, h.main_v2314] <;> rfl) | rfl
  main_c_125 := by
    simp only [Cert.KernelIdeal.KHost.st122, Cert.ReferenceIdeal.RefRun.st122]
    after_results_simp
    all_goals first | (simp only [h.main_arg1, h.main_v2305, h.main_v2312, h.main_v2314] <;> rfl) | rfl
set_option maxRecDepth 8192 in
set_option maxHeartbeats 2000000 in
/-- Stretch 123 carries the agreement of boundary 123 to boundary 124. -/
theorem step123 (W : Valuation Cert.KernelIdeal.τ Cert.KernelIdeal.sig (Elt F)) (V : Valuation Cert.ReferenceIdeal.τ Cert.ReferenceIdeal.sig (Elt F)) (h : Agree123 W V) : Agree124 (after Cert.KernelIdeal.KHost.st123 W) (after Cert.ReferenceIdeal.RefRun.st123 V) where
  main_arg1 := by
    simp only [Cert.KernelIdeal.KHost.st123, Cert.ReferenceIdeal.RefRun.st123]
    after_results_simp
    all_goals first | (simp only [h.main_arg1, h.main_v2325, h.main_v2332, h.main_c_125] <;> rfl) | rfl
  main_v2334 := by
    simp only [Cert.KernelIdeal.KHost.st123, Cert.ReferenceIdeal.RefRun.st123]
    after_results_simp
    all_goals first | (simp only [h.main_arg1, h.main_v2325, h.main_v2332, h.main_c_125] <;> rfl) | rfl
  main_v2344 := by
    simp only [Cert.KernelIdeal.KHost.st123, Cert.ReferenceIdeal.RefRun.st123]
    after_results_simp
    all_goals first | (simp only [h.main_arg1, h.main_v2325, h.main_v2332, h.main_c_125] <;> rfl) | rfl
  main_v2349 := by
    simp only [Cert.KernelIdeal.KHost.st123, Cert.ReferenceIdeal.RefRun.st123]
    after_results_simp
    all_goals first | (simp only [h.main_arg1, h.main_v2325, h.main_v2332, h.main_c_125] <;> rfl) | rfl
  main_v2351 := by
    simp only [Cert.KernelIdeal.KHost.st123, Cert.ReferenceIdeal.RefRun.st123]
    after_results_simp
    all_goals first | (simp only [h.main_arg1, h.main_v2325, h.main_v2332, h.main_c_125] <;> rfl) | rfl
  main_v2352 := by
    simp only [Cert.KernelIdeal.KHost.st123, Cert.ReferenceIdeal.RefRun.st123]
    after_results_simp
    all_goals first | (simp only [h.main_arg1, h.main_v2325, h.main_v2332, h.main_c_125] <;> rfl) | rfl
set_option maxRecDepth 8192 in
set_option maxHeartbeats 2000000 in
/-- Stretch 124 carries the agreement of boundary 124 to boundary 125. -/
theorem step124 (W : Valuation Cert.KernelIdeal.τ Cert.KernelIdeal.sig (Elt F)) (V : Valuation Cert.ReferenceIdeal.τ Cert.ReferenceIdeal.sig (Elt F)) (h : Agree124 W V) : Agree125 (after Cert.KernelIdeal.KHost.st124 W) (after Cert.ReferenceIdeal.RefRun.st124 V) where
  main_arg1 := by
    simp only [Cert.KernelIdeal.KHost.st124, Cert.ReferenceIdeal.RefRun.st124]
    after_results_simp
    all_goals first | (simp only [h.main_arg1, h.main_v2334, h.main_v2344, h.main_v2349, h.main_v2351, h.main_v2352] <;> rfl) | rfl
  main_v2356 := by
    simp only [Cert.KernelIdeal.KHost.st124, Cert.ReferenceIdeal.RefRun.st124]
    after_results_simp
    all_goals first | (simp only [h.main_arg1, h.main_v2334, h.main_v2344, h.main_v2349, h.main_v2351, h.main_v2352] <;> rfl) | rfl
  main_v2360 := by
    simp only [Cert.KernelIdeal.KHost.st124, Cert.ReferenceIdeal.RefRun.st124]
    after_results_simp
    all_goals first | (simp only [h.main_arg1, h.main_v2334, h.main_v2344, h.main_v2349, h.main_v2351, h.main_v2352] <;> rfl) | rfl
  main_v2364 := by
    simp only [Cert.KernelIdeal.KHost.st124, Cert.ReferenceIdeal.RefRun.st124]
    after_results_simp
    all_goals first | (simp only [h.main_arg1, h.main_v2334, h.main_v2344, h.main_v2349, h.main_v2351, h.main_v2352] <;> rfl) | rfl
  main_v2369 := by
    simp only [Cert.KernelIdeal.KHost.st124, Cert.ReferenceIdeal.RefRun.st124]
    after_results_simp
    all_goals first | (simp only [h.main_arg1, h.main_v2334, h.main_v2344, h.main_v2349, h.main_v2351, h.main_v2352] <;> rfl) | rfl
  main_v2371 := by
    simp only [Cert.KernelIdeal.KHost.st124, Cert.ReferenceIdeal.RefRun.st124]
    after_results_simp
    all_goals first | (simp only [h.main_arg1, h.main_v2334, h.main_v2344, h.main_v2349, h.main_v2351, h.main_v2352] <;> rfl) | rfl
set_option maxRecDepth 8192 in
set_option maxHeartbeats 2000000 in
/-- Stretch 125 carries the agreement of boundary 125 to boundary 126. -/
theorem step125 (W : Valuation Cert.KernelIdeal.τ Cert.KernelIdeal.sig (Elt F)) (V : Valuation Cert.ReferenceIdeal.τ Cert.ReferenceIdeal.sig (Elt F)) (h : Agree125 W V) : Agree126 (after Cert.KernelIdeal.KHost.st125 W) (after Cert.ReferenceIdeal.RefRun.st125 V) where
  main_arg1 := by
    simp only [Cert.KernelIdeal.KHost.st125, Cert.ReferenceIdeal.RefRun.st125]
    after_results_simp
    all_goals first | (simp only [h.main_arg1, h.main_v2356, h.main_v2360, h.main_v2364, h.main_v2369, h.main_v2371] <;> rfl) | rfl
  main_v2369 := by
    simp only [Cert.KernelIdeal.KHost.st125, Cert.ReferenceIdeal.RefRun.st125]
    after_results_simp
    all_goals first | (simp only [h.main_arg1, h.main_v2356, h.main_v2360, h.main_v2364, h.main_v2369, h.main_v2371] <;> rfl) | rfl
  main_v2376 := by
    simp only [Cert.KernelIdeal.KHost.st125, Cert.ReferenceIdeal.RefRun.st125]
    after_results_simp
    all_goals first | (simp only [h.main_arg1, h.main_v2356, h.main_v2360, h.main_v2364, h.main_v2369, h.main_v2371] <;> rfl) | rfl
  main_v2380 := by
    simp only [Cert.KernelIdeal.KHost.st125, Cert.ReferenceIdeal.RefRun.st125]
    after_results_simp
    all_goals first | (simp only [h.main_arg1, h.main_v2356, h.main_v2360, h.main_v2364, h.main_v2369, h.main_v2371] <;> rfl) | rfl
  main_v2384 := by
    simp only [Cert.KernelIdeal.KHost.st125, Cert.ReferenceIdeal.RefRun.st125]
    after_results_simp
    all_goals first | (simp only [h.main_arg1, h.main_v2356, h.main_v2360, h.main_v2364, h.main_v2369, h.main_v2371] <;> rfl) | rfl
  main_v2389 := by
    simp only [Cert.KernelIdeal.KHost.st125, Cert.ReferenceIdeal.RefRun.st125]
    after_results_simp
    all_goals first | (simp only [h.main_arg1, h.main_v2356, h.main_v2360, h.main_v2364, h.main_v2369, h.main_v2371] <;> rfl) | rfl
  main_v2390 := by
    simp only [Cert.KernelIdeal.KHost.st125, Cert.ReferenceIdeal.RefRun.st125]
    after_results_simp
    all_goals first | (simp only [h.main_arg1, h.main_v2356, h.main_v2360, h.main_v2364, h.main_v2369, h.main_v2371] <;> rfl) | rfl
set_option maxRecDepth 8192 in
set_option maxHeartbeats 2000000 in
/-- Stretch 126 carries the agreement of boundary 126 to boundary 127. -/
theorem step126 (W : Valuation Cert.KernelIdeal.τ Cert.KernelIdeal.sig (Elt F)) (V : Valuation Cert.ReferenceIdeal.τ Cert.ReferenceIdeal.sig (Elt F)) (h : Agree126 W V) : Agree127 (after Cert.KernelIdeal.KHost.st126 W) (after Cert.ReferenceIdeal.RefRun.st126 V) where
  main_arg1 := by
    simp only [Cert.KernelIdeal.KHost.st126, Cert.ReferenceIdeal.RefRun.st126]
    after_results_simp
    all_goals first | (simp only [h.main_arg1, h.main_v2369, h.main_v2376, h.main_v2380, h.main_v2384, h.main_v2389, h.main_v2390] <;> rfl) | rfl
  main_v2398 := by
    simp only [Cert.KernelIdeal.KHost.st126, Cert.ReferenceIdeal.RefRun.st126]
    after_results_simp
    all_goals first | (simp only [h.main_arg1, h.main_v2369, h.main_v2376, h.main_v2380, h.main_v2384, h.main_v2389, h.main_v2390] <;> rfl) | rfl
  main_v2400 := by
    simp only [Cert.KernelIdeal.KHost.st126, Cert.ReferenceIdeal.RefRun.st126]
    after_results_simp
    all_goals first | (simp only [h.main_arg1, h.main_v2369, h.main_v2376, h.main_v2380, h.main_v2384, h.main_v2389, h.main_v2390] <;> rfl) | rfl
  main_v2404 := by
    simp only [Cert.KernelIdeal.KHost.st126, Cert.ReferenceIdeal.RefRun.st126]
    after_results_simp
    all_goals first | (simp only [h.main_arg1, h.main_v2369, h.main_v2376, h.main_v2380, h.main_v2384, h.main_v2389, h.main_v2390] <;> rfl) | rfl
  main_v2406 := by
    simp only [Cert.KernelIdeal.KHost.st126, Cert.ReferenceIdeal.RefRun.st126]
    after_results_simp
    all_goals first | (simp only [h.main_arg1, h.main_v2369, h.main_v2376, h.main_v2380, h.main_v2384, h.main_v2389, h.main_v2390] <;> rfl) | rfl
  main_v2408 := by
    simp only [Cert.KernelIdeal.KHost.st126, Cert.ReferenceIdeal.RefRun.st126]
    after_results_simp
    all_goals first | (simp only [h.main_arg1, h.main_v2369, h.main_v2376, h.main_v2380, h.main_v2384, h.main_v2389, h.main_v2390] <;> rfl) | rfl
set_option maxRecDepth 8192 in
set_option maxHeartbeats 2000000 in
/-- Stretch 127 carries the agreement of boundary 127 to boundary 128. -/
theorem step127 (W : Valuation Cert.KernelIdeal.τ Cert.KernelIdeal.sig (Elt F)) (V : Valuation Cert.ReferenceIdeal.τ Cert.ReferenceIdeal.sig (Elt F)) (h : Agree127 W V) : Agree128 (after Cert.KernelIdeal.KHost.st127 W) (after Cert.ReferenceIdeal.RefRun.st127 V) where
  main_arg1 := by
    simp only [Cert.KernelIdeal.KHost.st127, Cert.ReferenceIdeal.RefRun.st127]
    after_results_simp
    all_goals first | (simp only [h.main_arg1, h.main_v2398, h.main_v2400, h.main_v2404, h.main_v2406, h.main_v2408] <;> rfl) | rfl
  main_v2413 := by
    simp only [Cert.KernelIdeal.KHost.st127, Cert.ReferenceIdeal.RefRun.st127]
    after_results_simp
    all_goals first | (simp only [h.main_arg1, h.main_v2398, h.main_v2400, h.main_v2404, h.main_v2406, h.main_v2408] <;> rfl) | rfl
  main_v2420 := by
    simp only [Cert.KernelIdeal.KHost.st127, Cert.ReferenceIdeal.RefRun.st127]
    after_results_simp
    all_goals first | (simp only [h.main_arg1, h.main_v2398, h.main_v2400, h.main_v2404, h.main_v2406, h.main_v2408] <;> rfl) | rfl
  main_v2424 := by
    simp only [Cert.KernelIdeal.KHost.st127, Cert.ReferenceIdeal.RefRun.st127]
    after_results_simp
    all_goals first | (simp only [h.main_arg1, h.main_v2398, h.main_v2400, h.main_v2404, h.main_v2406, h.main_v2408] <;> rfl) | rfl
  main_v2426 := by
    simp only [Cert.KernelIdeal.KHost.st127, Cert.ReferenceIdeal.RefRun.st127]
    after_results_simp
    all_goals first | (simp only [h.main_arg1, h.main_v2398, h.main_v2400, h.main_v2404, h.main_v2406, h.main_v2408] <;> rfl) | rfl
  main_v2427 := by
    simp only [Cert.KernelIdeal.KHost.st127, Cert.ReferenceIdeal.RefRun.st127]
    after_results_simp
    all_goals first | (simp only [h.main_arg1, h.main_v2398, h.main_v2400, h.main_v2404, h.main_v2406, h.main_v2408] <;> rfl) | rfl
set_option maxRecDepth 8192 in
set_option maxHeartbeats 2000000 in
/-- Stretch 128 carries the agreement of boundary 128 to boundary 129. -/
theorem step128 (W : Valuation Cert.KernelIdeal.τ Cert.KernelIdeal.sig (Elt F)) (V : Valuation Cert.ReferenceIdeal.τ Cert.ReferenceIdeal.sig (Elt F)) (h : Agree128 W V) : Agree129 (after Cert.KernelIdeal.KHost.st128 W) (after Cert.ReferenceIdeal.RefRun.st128 V) where
  main_arg1 := by
    simp only [Cert.KernelIdeal.KHost.st128, Cert.ReferenceIdeal.RefRun.st128]
    after_results_simp
    all_goals first | (simp only [h.main_arg1, h.main_v2413, h.main_v2420, h.main_v2424, h.main_v2426, h.main_v2427] <;> rfl) | rfl
  main_v2442 := by
    simp only [Cert.KernelIdeal.KHost.st128, Cert.ReferenceIdeal.RefRun.st128]
    after_results_simp
    all_goals first | (simp only [h.main_arg1, h.main_v2413, h.main_v2420, h.main_v2424, h.main_v2426, h.main_v2427] <;> rfl) | rfl
  main_v2444 := by
    simp only [Cert.KernelIdeal.KHost.st128, Cert.ReferenceIdeal.RefRun.st128]
    after_results_simp
    all_goals first | (simp only [h.main_arg1, h.main_v2413, h.main_v2420, h.main_v2424, h.main_v2426, h.main_v2427] <;> rfl) | rfl
  main_v2445 := by
    simp only [Cert.KernelIdeal.KHost.st128, Cert.ReferenceIdeal.RefRun.st128]
    after_results_simp
    all_goals first | (simp only [h.main_arg1, h.main_v2413, h.main_v2420, h.main_v2424, h.main_v2426, h.main_v2427] <;> rfl) | rfl
set_option maxRecDepth 8192 in
set_option maxHeartbeats 2000000 in
/-- Stretch 129 carries the agreement of boundary 129 to boundary 130. -/
theorem step129 (W : Valuation Cert.KernelIdeal.τ Cert.KernelIdeal.sig (Elt F)) (V : Valuation Cert.ReferenceIdeal.τ Cert.ReferenceIdeal.sig (Elt F)) (h : Agree129 W V) : Agree130 (after Cert.KernelIdeal.KHost.st129 W) (after Cert.ReferenceIdeal.RefRun.st129 V) where
  main_arg1 := by
    simp only [Cert.KernelIdeal.KHost.st129, Cert.ReferenceIdeal.RefRun.st129]
    after_results_simp
    all_goals first | (simp only [h.main_arg1, h.main_v2442, h.main_v2444, h.main_v2445] <;> rfl) | rfl
  main_v2457 := by
    simp only [Cert.KernelIdeal.KHost.st129, Cert.ReferenceIdeal.RefRun.st129]
    after_results_simp
    all_goals first | (simp only [h.main_arg1, h.main_v2442, h.main_v2444, h.main_v2445] <;> rfl) | rfl
  main_v2464 := by
    simp only [Cert.KernelIdeal.KHost.st129, Cert.ReferenceIdeal.RefRun.st129]
    after_results_simp
    all_goals first | (simp only [h.main_arg1, h.main_v2442, h.main_v2444, h.main_v2445] <;> rfl) | rfl
set_option maxRecDepth 8192 in
set_option maxHeartbeats 2000000 in
/-- Stretch 130 carries the agreement of boundary 130 to boundary 131. -/
theorem step130 (W : Valuation Cert.KernelIdeal.τ Cert.KernelIdeal.sig (Elt F)) (V : Valuation Cert.ReferenceIdeal.τ Cert.ReferenceIdeal.sig (Elt F)) (h : Agree130 W V) : Agree131 (after Cert.KernelIdeal.KHost.st130 W) (after Cert.ReferenceIdeal.RefRun.st130 V) where
  main_v2466 := by
    simp only [Cert.KernelIdeal.KHost.st130, Cert.ReferenceIdeal.RefRun.st130]
    after_results_simp
    all_goals first | (simp only [h.main_arg1, h.main_v2457, h.main_v2464] <;> rfl) | rfl

end Cert.Lock

end
-- ==== Proof.Lock.lean ====
/-
  The two programs build the same array of rotation matrices.

  Before its one region the kernel's program runs 2603 host operations on the angles: the identity matrix is laid out for
  every block, and then, 120 times, two rows of the running matrix are replaced by their images under one plane rotation
  (cosine and sine of one angle, four products, a difference and a sum, a row written back).  The reference's program begins
  with the very same 2603 operations, buffer for buffer, before it scales the rows and multiplies.  Nobody needs to know
  what the rotations produce: it is enough that the same operations applied to the same angles leave the same contents.

  The two programs have different buffer tables, so "the same contents" is a statement about two memories, `W` (the kernel's)
  and `V` (the reference's), and it is carried along the operations in stretches of 20 (a third of a printed window of @main: about one
  rotation; longer stretches cost more than their share, because a rotation's two outputs each use both of its inputs).  `AgreeK W V` says: every buffer that some operation after boundary `K` still reads, and that was written
  before it, holds the same array in `W` as in `V` — and so do the angles.  `stepK` takes `AgreeK` across stretch `K`: both
  stretches are read in one pass (each result at its own buffer, every other buffer untouched), the incoming buffers of the
  kernel's side are rewritten to the reference's by the agreement, and what is left are two spellings of one term.  Every
  case is these same three steps; which buffers cross which boundary is tabulated in LockDefs and LockW0 … LockW10 (the stretches
  themselves, as lists, in KSub and RSub), which a script fills in from the operation lists.  Boundary 0 is the launch: only the angles need agree.  Boundary 131 is the
  region's entry: one buffer is still read, the array of matrices.

  Each of these equations is written at the buffer's own array type, spelt out, so that the two buffer tables are never
  compared with each other.  Here the stretches are put end to end on both sides.
-/
import proofs.«128918_j72490458022405_1_alg».proof.Proof.LockDefs
import proofs.«128918_j72490458022405_1_alg».proof.Proof.LockW0
import proofs.«128918_j72490458022405_1_alg».proof.Proof.LockW1
import proofs.«128918_j72490458022405_1_alg».proof.Proof.LockW2
import proofs.«128918_j72490458022405_1_alg».proof.Proof.LockW3
import proofs.«128918_j72490458022405_1_alg».proof.Proof.LockW4
import proofs.«128918_j72490458022405_1_alg».proof.Proof.LockW5
import proofs.«128918_j72490458022405_1_alg».proof.Proof.LockW6
import proofs.«128918_j72490458022405_1_alg».proof.Proof.LockW7
import proofs.«128918_j72490458022405_1_alg».proof.Proof.LockW8
import proofs.«128918_j72490458022405_1_alg».proof.Proof.LockW9
import proofs.«128918_j72490458022405_1_alg».proof.Proof.LockW10
import proofs.«128918_j72490458022405_1_alg».proof.Proof.KKeep

noncomputable section

namespace Cert.Lock

open Idealize.ShloMosaic Idealize.ShloMosaic.TcCoe Idealize.SL.Sem Idealize.ShloMosaic.StableHlo

variable {F : FTy → Type} [FloatOps F]

/-- What the region finds: the kernel's buffers after the 44 windows of its host prefix. -/
theorem after_hostOps0 (W : Valuation Cert.KernelIdeal.τ Cert.KernelIdeal.sig (Elt F)) :
    after Cert.KernelIdeal.Gen.hostOps0 W = kval131 W := by
  rw [Cert.KernelIdeal.KHost.hostOps0_eq]
  simp only [Cert.KernelIdeal.KHost.part0_split, Cert.KernelIdeal.KHost.part1_split, Cert.KernelIdeal.KHost.part2_split, Cert.KernelIdeal.KHost.part3_split, Cert.KernelIdeal.KHost.part4_split, Cert.KernelIdeal.KHost.part5_split, Cert.KernelIdeal.KHost.part6_split, Cert.KernelIdeal.KHost.part7_split, Cert.KernelIdeal.KHost.part8_split, Cert.KernelIdeal.KHost.part9_split, Cert.KernelIdeal.KHost.part10_split, Cert.KernelIdeal.KHost.part11_split, Cert.KernelIdeal.KHost.part12_split, Cert.KernelIdeal.KHost.part13_split, Cert.KernelIdeal.KHost.part14_split, Cert.KernelIdeal.KHost.part15_split, Cert.KernelIdeal.KHost.part16_split, Cert.KernelIdeal.KHost.part17_split, Cert.KernelIdeal.KHost.part18_split, Cert.KernelIdeal.KHost.part19_split, Cert.KernelIdeal.KHost.part20_split, Cert.KernelIdeal.KHost.part21_split, Cert.KernelIdeal.KHost.part22_split, Cert.KernelIdeal.KHost.part23_split, Cert.KernelIdeal.KHost.part24_split, Cert.KernelIdeal.KHost.part25_split, Cert.KernelIdeal.KHost.part26_split, Cert.KernelIdeal.KHost.part27_split, Cert.KernelIdeal.KHost.part28_split, Cert.KernelIdeal.KHost.part29_split, Cert.KernelIdeal.KHost.part30_split, Cert.KernelIdeal.KHost.part31_split, Cert.KernelIdeal.KHost.part32_split, Cert.KernelIdeal.KHost.part33_split, Cert.KernelIdeal.KHost.part34_split, Cert.KernelIdeal.KHost.part35_split, Cert.KernelIdeal.KHost.part36_split, Cert.KernelIdeal.KHost.part37_split, Cert.KernelIdeal.KHost.part38_split, Cert.KernelIdeal.KHost.part39_split, Cert.KernelIdeal.KHost.part40_split, Cert.KernelIdeal.KHost.part41_split, Cert.KernelIdeal.KHost.part42_split, Cert.KernelIdeal.KHost.part43_split, StableHlo.after_append]
  rfl

/-- The reference's buffers after all its operations, window after window. -/
theorem after_ops (V : Valuation Cert.ReferenceIdeal.τ Cert.ReferenceIdeal.sig (Elt F)) :
    after Cert.ReferenceIdeal.RefRun.ops V = rval131 V := by
  simp only [Cert.ReferenceIdeal.RefRun.ops, Cert.ReferenceIdeal.RefRun.part0_split, Cert.ReferenceIdeal.RefRun.part1_split, Cert.ReferenceIdeal.RefRun.part2_split, Cert.ReferenceIdeal.RefRun.part3_split, Cert.ReferenceIdeal.RefRun.part4_split, Cert.ReferenceIdeal.RefRun.part5_split, Cert.ReferenceIdeal.RefRun.part6_split, Cert.ReferenceIdeal.RefRun.part7_split, Cert.ReferenceIdeal.RefRun.part8_split, Cert.ReferenceIdeal.RefRun.part9_split, Cert.ReferenceIdeal.RefRun.part10_split, Cert.ReferenceIdeal.RefRun.part11_split, Cert.ReferenceIdeal.RefRun.part12_split, Cert.ReferenceIdeal.RefRun.part13_split, Cert.ReferenceIdeal.RefRun.part14_split, Cert.ReferenceIdeal.RefRun.part15_split, Cert.ReferenceIdeal.RefRun.part16_split, Cert.ReferenceIdeal.RefRun.part17_split, Cert.ReferenceIdeal.RefRun.part18_split, Cert.ReferenceIdeal.RefRun.part19_split, Cert.ReferenceIdeal.RefRun.part20_split, Cert.ReferenceIdeal.RefRun.part21_split, Cert.ReferenceIdeal.RefRun.part22_split, Cert.ReferenceIdeal.RefRun.part23_split, Cert.ReferenceIdeal.RefRun.part24_split, Cert.ReferenceIdeal.RefRun.part25_split, Cert.ReferenceIdeal.RefRun.part26_split, Cert.ReferenceIdeal.RefRun.part27_split, Cert.ReferenceIdeal.RefRun.part28_split, Cert.ReferenceIdeal.RefRun.part29_split, Cert.ReferenceIdeal.RefRun.part30_split, Cert.ReferenceIdeal.RefRun.part31_split, Cert.ReferenceIdeal.RefRun.part32_split, Cert.ReferenceIdeal.RefRun.part33_split, Cert.ReferenceIdeal.RefRun.part34_split, Cert.ReferenceIdeal.RefRun.part35_split, Cert.ReferenceIdeal.RefRun.part36_split, Cert.ReferenceIdeal.RefRun.part37_split, Cert.ReferenceIdeal.RefRun.part38_split, Cert.ReferenceIdeal.RefRun.part39_split, Cert.ReferenceIdeal.RefRun.part40_split, Cert.ReferenceIdeal.RefRun.part41_split, Cert.ReferenceIdeal.RefRun.part42_split, Cert.ReferenceIdeal.RefRun.part43_split, StableHlo.after_append]
  rfl

/-- From the angles being one array, through all 131 stretches. -/
theorem agreeEnd (W : Valuation Cert.KernelIdeal.τ Cert.KernelIdeal.sig (Elt F)) (V : Valuation Cert.ReferenceIdeal.τ Cert.ReferenceIdeal.sig (Elt F))
    (h0 : (W (Proc.devRef .tc Cert.KernelIdeal.main_arg1) : (⟨⟨2, ![1024, 120]⟩, .f32⟩ : BufTy).Contents (Elt F)) = V (Proc.devRef .tc Cert.ReferenceIdeal.main_arg1)) :
    Agree131 (kval131 W) (rval131 V) := by
  have b0 : Agree0 (kval0 W) (rval0 V) := ⟨h0⟩
  have b1 : Agree1 (kval1 W) (rval1 V) := step0 _ _ b0
  have b2 : Agree2 (kval2 W) (rval2 V) := step1 _ _ b1
  have b3 : Agree3 (kval3 W) (rval3 V) := step2 _ _ b2
  have b4 : Agree4 (kval4 W) (rval4 V) := step3 _ _ b3
  have b5 : Agree5 (kval5 W) (rval5 V) := step4 _ _ b4
  have b6 : Agree6 (kval6 W) (rval6 V) := step5 _ _ b5
  have b7 : Agree7 (kval7 W) (rval7 V) := step6 _ _ b6
  have b8 : Agree8 (kval8 W) (rval8 V) := step7 _ _ b7
  have b9 : Agree9 (kval9 W) (rval9 V) := step8 _ _ b8
  have b10 : Agree10 (kval10 W) (rval10 V) := step9 _ _ b9
  have b11 : Agree11 (kval11 W) (rval11 V) := step10 _ _ b10
  have b12 : Agree12 (kval12 W) (rval12 V) := step11 _ _ b11
  have b13 : Agree13 (kval13 W) (rval13 V) := step12 _ _ b12
  have b14 : Agree14 (kval14 W) (rval14 V) := step13 _ _ b13
  have b15 : Agree15 (kval15 W) (rval15 V) := step14 _ _ b14
  have b16 : Agree16 (kval16 W) (rval16 V) := step15 _ _ b15
  have b17 : Agree17 (kval17 W) (rval17 V) := step16 _ _ b16
  have b18 : Agree18 (kval18 W) (rval18 V) := step17 _ _ b17
  have b19 : Agree19 (kval19 W) (rval19 V) := step18 _ _ b18
  have b20 : Agree20 (kval20 W) (rval20 V) := step19 _ _ b19
  have b21 : Agree21 (kval21 W) (rval21 V) := step20 _ _ b20
  have b22 : Agree22 (kval22 W) (rval22 V) := step21 _ _ b21
  have b23 : Agree23 (kval23 W) (rval23 V) := step22 _ _ b22
  have b24 : Agree24 (kval24 W) (rval24 V) := step23 _ _ b23
  have b25 : Agree25 (kval25 W) (rval25 V) := step24 _ _ b24
  have b26 : Agree26 (kval26 W) (rval26 V) := step25 _ _ b25
  have b27 : Agree27 (kval27 W) (rval27 V) := step26 _ _ b26
  have b28 : Agree28 (kval28 W) (rval28 V) := step27 _ _ b27
  have b29 : Agree29 (kval29 W) (rval29 V) := step28 _ _ b28
  have b30 : Agree30 (kval30 W) (rval30 V) := step29 _ _ b29
  have b31 : Agree31 (kval31 W) (rval31 V) := step30 _ _ b30
  have b32 : Agree32 (kval32 W) (rval32 V) := step31 _ _ b31
  have b33 : Agree33 (kval33 W) (rval33 V) := step32 _ _ b32
  have b34 : Agree34 (kval34 W) (rval34 V) := step33 _ _ b33
  have b35 : Agree35 (kval35 W) (rval35 V) := step34 _ _ b34
  have b36 : Agree36 (kval36 W) (rval36 V) := step35 _ _ b35
  have b37 : Agree37 (kval37 W) (rval37 V) := step36 _ _ b36
  have b38 : Agree38 (kval38 W) (rval38 V) := step37 _ _ b37
  have b39 : Agree39 (kval39 W) (rval39 V) := step38 _ _ b38
  have b40 : Agree40 (kval40 W) (rval40 V) := step39 _ _ b39
  have b41 : Agree41 (kval41 W) (rval41 V) := step40 _ _ b40
  have b42 : Agree42 (kval42 W) (rval42 V) := step41 _ _ b41
  have b43 : Agree43 (kval43 W) (rval43 V) := step42 _ _ b42
  have b44 : Agree44 (kval44 W) (rval44 V) := step43 _ _ b43
  have b45 : Agree45 (kval45 W) (rval45 V) := step44 _ _ b44
  have b46 : Agree46 (kval46 W) (rval46 V) := step45 _ _ b45
  have b47 : Agree47 (kval47 W) (rval47 V) := step46 _ _ b46
  have b48 : Agree48 (kval48 W) (rval48 V) := step47 _ _ b47
  have b49 : Agree49 (kval49 W) (rval49 V) := step48 _ _ b48
  have b50 : Agree50 (kval50 W) (rval50 V) := step49 _ _ b49
  have b51 : Agree51 (kval51 W) (rval51 V) := step50 _ _ b50
  have b52 : Agree52 (kval52 W) (rval52 V) := step51 _ _ b51
  have b53 : Agree53 (kval53 W) (rval53 V) := step52 _ _ b52
  have b54 : Agree54 (kval54 W) (rval54 V) := step53 _ _ b53
  have b55 : Agree55 (kval55 W) (rval55 V) := step54 _ _ b54
  have b56 : Agree56 (kval56 W) (rval56 V) := step55 _ _ b55
  have b57 : Agree57 (kval57 W) (rval57 V) := step56 _ _ b56
  have b58 : Agree58 (kval58 W) (rval58 V) := step57 _ _ b57
  have b59 : Agree59 (kval59 W) (rval59 V) := step58 _ _ b58
  have b60 : Agree60 (kval60 W) (rval60 V) := step59 _ _ b59
  have b61 : Agree61 (kval61 W) (rval61 V) := step60 _ _ b60
  have b62 : Agree62 (kval62 W) (rval62 V) := step61 _ _ b61
  have b63 : Agree63 (kval63 W) (rval63 V) := step62 _ _ b62
  have b64 : Agree64 (kval64 W) (rval64 V) := step63 _ _ b63
  have b65 : Agree65 (kval65 W) (rval65 V) := step64 _ _ b64
  have b66 : Agree66 (kval66 W) (rval66 V) := step65 _ _ b65
  have b67 : Agree67 (kval67 W) (rval67 V) := step66 _ _ b66
  have b68 : Agree68 (kval68 W) (rval68 V) := step67 _ _ b67
  have b69 : Agree69 (kval69 W) (rval69 V) := step68 _ _ b68
  have b70 : Agree70 (kval70 W) (rval70 V) := step69 _ _ b69
  have b71 : Agree71 (kval71 W) (rval71 V) := step70 _ _ b70
  have b72 : Agree72 (kval72 W) (rval72 V) := step71 _ _ b71
  have b73 : Agree73 (kval73 W) (rval73 V) := step72 _ _ b72
  have b74 : Agree74 (kval74 W) (rval74 V) := step73 _ _ b73
  have b75 : Agree75 (kval75 W) (rval75 V) := step74 _ _ b74
  have b76 : Agree76 (kval76 W) (rval76 V) := step75 _ _ b75
  have b77 : Agree77 (kval77 W) (rval77 V) := step76 _ _ b76
  have b78 : Agree78 (kval78 W) (rval78 V) := step77 _ _ b77
  have b79 : Agree79 (kval79 W) (rval79 V) := step78 _ _ b78
  have b80 : Agree80 (kval80 W) (rval80 V) := step79 _ _ b79
  have b81 : Agree81 (kval81 W) (rval81 V) := step80 _ _ b80
  have b82 : Agree82 (kval82 W) (rval82 V) := step81 _ _ b81
  have b83 : Agree83 (kval83 W) (rval83 V) := step82 _ _ b82
  have b84 : Agree84 (kval84 W) (rval84 V) := step83 _ _ b83
  have b85 : Agree85 (kval85 W) (rval85 V) := step84 _ _ b84
  have b86 : Agree86 (kval86 W) (rval86 V) := step85 _ _ b85
  have b87 : Agree87 (kval87 W) (rval87 V) := step86 _ _ b86
  have b88 : Agree88 (kval88 W) (rval88 V) := step87 _ _ b87
  have b89 : Agree89 (kval89 W) (rval89 V) := step88 _ _ b88
  have b90 : Agree90 (kval90 W) (rval90 V) := step89 _ _ b89
  have b91 : Agree91 (kval91 W) (rval91 V) := step90 _ _ b90
  have b92 : Agree92 (kval92 W) (rval92 V) := step91 _ _ b91
  have b93 : Agree93 (kval93 W) (rval93 V) := step92 _ _ b92
  have b94 : Agree94 (kval94 W) (rval94 V) := step93 _ _ b93
  have b95 : Agree95 (kval95 W) (rval95 V) := step94 _ _ b94
  have b96 : Agree96 (kval96 W) (rval96 V) := step95 _ _ b95
  have b97 : Agree97 (kval97 W) (rval97 V) := step96 _ _ b96
  have b98 : Agree98 (kval98 W) (rval98 V) := step97 _ _ b97
  have b99 : Agree99 (kval99 W) (rval99 V) := step98 _ _ b98
  have b100 : Agree100 (kval100 W) (rval100 V) := step99 _ _ b99
  have b101 : Agree101 (kval101 W) (rval101 V) := step100 _ _ b100
  have b102 : Agree102 (kval102 W) (rval102 V) := step101 _ _ b101
  have b103 : Agree103 (kval103 W) (rval103 V) := step102 _ _ b102
  have b104 : Agree104 (kval104 W) (rval104 V) := step103 _ _ b103
  have b105 : Agree105 (kval105 W) (rval105 V) := step104 _ _ b104
  have b106 : Agree106 (kval106 W) (rval106 V) := step105 _ _ b105
  have b107 : Agree107 (kval107 W) (rval107 V) := step106 _ _ b106
  have b108 : Agree108 (kval108 W) (rval108 V) := step107 _ _ b107
  have b109 : Agree109 (kval109 W) (rval109 V) := step108 _ _ b108
  have b110 : Agree110 (kval110 W) (rval110 V) := step109 _ _ b109
  have b111 : Agree111 (kval111 W) (rval111 V) := step110 _ _ b110
  have b112 : Agree112 (kval112 W) (rval112 V) := step111 _ _ b111
  have b113 : Agree113 (kval113 W) (rval113 V) := step112 _ _ b112
  have b114 : Agree114 (kval114 W) (rval114 V) := step113 _ _ b113
  have b115 : Agree115 (kval115 W) (rval115 V) := step114 _ _ b114
  have b116 : Agree116 (kval116 W) (rval116 V) := step115 _ _ b115
  have b117 : Agree117 (kval117 W) (rval117 V) := step116 _ _ b116
  have b118 : Agree118 (kval118 W) (rval118 V) := step117 _ _ b117
  have b119 : Agree119 (kval119 W) (rval119 V) := step118 _ _ b118
  have b120 : Agree120 (kval120 W) (rval120 V) := step119 _ _ b119
  have b121 : Agree121 (kval121 W) (rval121 V) := step120 _ _ b120
  have b122 : Agree122 (kval122 W) (rval122 V) := step121 _ _ b121
  have b123 : Agree123 (kval123 W) (rval123 V) := step122 _ _ b122
  have b124 : Agree124 (kval124 W) (rval124 V) := step123 _ _ b123
  have b125 : Agree125 (kval125 W) (rval125 V) := step124 _ _ b124
  have b126 : Agree126 (kval126 W) (rval126 V) := step125 _ _ b125
  have b127 : Agree127 (kval127 W) (rval127 V) := step126 _ _ b126
  have b128 : Agree128 (kval128 W) (rval128 V) := step127 _ _ b127
  have b129 : Agree129 (kval129 W) (rval129 V) := step128 _ _ b128
  have b130 : Agree130 (kval130 W) (rval130 V) := step129 _ _ b129
  have b131 : Agree131 (kval131 W) (rval131 V) := step130 _ _ b130
  exact b131

/-- The array of rotation matrices in the region's first window is the one the reference multiplies by, whenever the two
    programs are launched on the same angles. -/
theorem rot_eq (W : Valuation Cert.KernelIdeal.τ Cert.KernelIdeal.sig (Elt F)) (V : Valuation Cert.ReferenceIdeal.τ Cert.ReferenceIdeal.sig (Elt F))
    (h0 : (W (Proc.devRef .tc Cert.KernelIdeal.main_arg1) : (⟨⟨2, ![1024, 120]⟩, .f32⟩ : BufTy).Contents (Elt F)) = V (Proc.devRef .tc Cert.ReferenceIdeal.main_arg1)) :
    (after Cert.KernelIdeal.Gen.hostOps0 W (Proc.devRef .tc Cert.KernelIdeal.main_v2466) : (⟨⟨3, ![1024, 16, 16]⟩, .f32⟩ : BufTy).Contents (Elt F))
      = after Cert.ReferenceIdeal.RefRun.ops V (Proc.devRef .tc Cert.ReferenceIdeal.main_v2466) := by
  rw [after_hostOps0, after_ops]
  exact (agreeEnd W V h0).main_v2466

end Cert.Lock

end
-- ==== Proof.lean ====
/-
  The kernel rotates 1024 panels of 16 × 2048 numbers by 1024 row-scaled 16 × 16 matrices, and so does the reference.

  Both programs first build, from the 1024 × 120 angles, the same array `R` of 1024 matrices, by the same 2603 host
  operations (a cascade of 120 plane rotations applied to the rows of the identity).  The reference then scales row `i`
  of block `b` by `μ (b, i)` and multiplies by the panel: a batched contraction over the 16 columns.  The kernel does the
  scaling and the contraction inside its one region, 64 blocks at a grid point, its two factors passing through a narrower
  float format on the way, which at the extended reals changes nothing, and its sum starting from a zero array, which adds
  nothing.  At the extended reals both results are, entry by entry,

      out (b, i, q) = ∑ k, (μ (b, i) · R (b, i, k)) · X (b, k, q)        (`Cert.Spec.scaledRotate`),

  with the products formed in the same order on both sides, so no finiteness of the inputs is used.

  The pieces.  The kernel's stored value read at an index (KPay); its 16 blocks put together to the whole array, and the
  kernel's run (KBlocks).  The reference's run with its last four operations read as a batched product (RRun), and that
  product as the same sum (RRead).  And the one thing that is long rather than deep: the array of matrices the region
  finds in its first window is the array the reference multiplies by (Lock: the two host prefixes read side by side, window
  by window).  The host prefix also leaves the arguments alone (KKeep, BKeep), which is what the frames need of it.  The
  ideal pass rewrote nothing, so `preserves` is `True`.
-/
import proofs.«128918_j72490458022405_1_alg».proof.Defs
import proofs.«128918_j72490458022405_1_alg».proof.Proof.Gen.Kernel
import proofs.«128918_j72490458022405_1_alg».proof.Proof.Gen.Kernel.Skeleton
import proofs.«128918_j72490458022405_1_alg».proof.Proof.Gen.Kernel.Launch
import proofs.«128918_j72490458022405_1_alg».proof.Proof.Gen.Kernel.Points
import proofs.«128918_j72490458022405_1_alg».proof.Proof.Gen.KernelIdeal
import proofs.«128918_j72490458022405_1_alg».proof.Proof.Gen.KernelIdeal.Skeleton
import proofs.«128918_j72490458022405_1_alg».proof.Proof.Gen.KernelIdeal.Launch
import proofs.«128918_j72490458022405_1_alg».proof.Proof.Gen.KernelIdeal.Points
import proofs.«128918_j72490458022405_1_alg».proof.Proof.Gen.ReferenceIdeal
import proofs.«128918_j72490458022405_1_alg».proof.Proof.Gen.Pre_finite_inputs
import proofs.«128918_j72490458022405_1_alg».proof.Proof.Spec
import proofs.«128918_j72490458022405_1_alg».proof.Proof.BFrameP
import proofs.«128918_j72490458022405_1_alg».proof.Proof.KFrameP
import proofs.«128918_j72490458022405_1_alg».proof.Proof.KBlocks
import proofs.«128918_j72490458022405_1_alg».proof.Proof.RRead
import proofs.«128918_j72490458022405_1_alg».proof.Proof.RRun
import proofs.«128918_j72490458022405_1_alg».proof.Proof.Lock
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.GenP.frame m ρ

/-- So does the kernel read at the extended reals. -/
theorem frame_ki : Cert.frame_KernelIdeal := fun m ρ _ => Cert.KernelIdeal.GenP.frame m ρ

/-- The reference has no region: its frame is its run with the result forgotten. -/
theorem frame_ri : Cert.frame_ReferenceIdeal := fun m ρ _ =>
  (θ_run Cert.ReferenceIdeal.defs _ _).mono (fun _ h c => (h c).2) (Cert.ReferenceIdeal.RefValue.run (F := Ideal) m ρ)

/-- Nothing was rewritten on the way to the extended reals. -/
theorem preserves : Cert.preserves_Kernel_KernelIdeal := trivial

/-- Launched on the same three arrays, both programs end with `scaledRotate R μ X`: the kernel by its run; the reference
    because its result is the batched product of the same `μ`, the same `X` and its own array of matrices (`RefValue.run`),
    that array is the one in the kernel's first window (`Lock.rot_eq`, the angles being the same), and the product is the sum
    (`dot_eq`). -/
theorem algebraic : Cert.algebraic_KernelIdeal_ReferenceIdeal := by
  intro m ρ m' ρ' _ hagree
  refine ⟨fun c => Cert.Spec.scaledRotate (Cert.KernelIdeal.GenP.V m c Cert.KernelIdeal.main_v2466)
    (m ((c : Thread Cert.KernelIdeal.nD Cert.KernelIdeal.τ).loc Cert.KernelIdeal.main_arg2))
    (m ((c : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  have hR : (Cert.KernelIdeal.GenP.V m c Cert.KernelIdeal.main_v2466 : (⟨⟨3, ![1024, 16, 16]⟩, .f32⟩ : BufTy).Contents (Elt Ideal))
      = StableHlo.after Cert.ReferenceIdeal.RefRun.ops (StableHlo.launchContents m' c) (Proc.devRef .tc Cert.ReferenceIdeal.main_v2466) :=
    Cert.Lock.rot_eq (fun b => m (c, b)) (StableHlo.launchContents m' c) (hagree c).2.1.symm
  show _ = Cert.Spec.scaledRotate (Cert.KernelIdeal.GenP.V m c Cert.KernelIdeal.main_v2466) _ _
  rw [hR, ← (hagree c).1, ← (hagree c).2.2]
  exact Cert.ReferenceIdeal.RefValue.dot_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
